-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x64 : Shape := ⟨2, ![100000, 64]⟩
abbrev S200x64 : Shape := ⟨2, ![200, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x64 .f32) (main_arg2 : FVec F S200x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200x64 .f32 := Host.absf main_arg2
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 99999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S100000x64 : Shape := ⟨2, ![100000, 64]⟩
abbrev S200x64 : Shape := ⟨2, ![200, 64]⟩
abbrev S200x4096 : Shape := ⟨2, ![200, 4096]⟩
abbrev S_ : Shape := ⟨0, ![]⟩
abbrev S100000x128 : Shape := ⟨2, ![100000, 128]⟩
abbrev S100x128 : Shape := ⟨2, ![100, 128]⟩
abbrev S200x64x4096 : Shape := ⟨3, ![200, 64, 4096]⟩
abbrev S200x128 : Shape := ⟨2, ![200, 128]⟩
abbrev S4x128x128 : Shape := ⟨3, ![4, 128, 128]⟩
abbrev S2x64x128 : Shape := ⟨3, ![2, 64, 128]⟩
abbrev S16 : Shape := ⟨1, ![16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x64x128 : Shape := ⟨3, ![1, 64, 128]⟩
abbrev S64x128 : Shape := ⟨2, ![64, 128]⟩
abbrev S4096x200x64 : Shape := ⟨3, ![4096, 200, 64]⟩

abbrev nBuf : Table → Nat
  | .hbm => 10
  | .local .scVector .vmem => 4
  | _ => 0

abbrev bufTy : (tb : Table) → Fin (nBuf tb) → BufTy
  | .hbm, ⟨0, _⟩ => ⟨S4096x200, .i32⟩
  | .hbm, ⟨1, _⟩ => ⟨S100000x64, .f32⟩
  | .hbm, ⟨2, _⟩ => ⟨S200x64, .f32⟩
  | .hbm, ⟨3, _⟩ => ⟨S200x4096, .i32⟩
  | .hbm, ⟨4, _⟩ => ⟨S_, .i32⟩
  | .hbm, ⟨5, _⟩ => ⟨S_, .f32⟩
  | .hbm, ⟨6, _⟩ => ⟨S100000x128, .f32⟩
  | .hbm, ⟨7, _⟩ => ⟨S100x128, .f32⟩
  | .hbm, ⟨8, _⟩ => ⟨S200x64x4096, .f32⟩
  | .hbm, ⟨9, _⟩ => ⟨S4096x200x64, .f32⟩
  | .local .scVector .vmem, ⟨0, _⟩ => ⟨S200x128, .i32⟩
  | .local .scVector .vmem, ⟨1, _⟩ => ⟨S100x128, .f32⟩
  | .local .scVector .vmem, ⟨2, _⟩ => ⟨S4x128x128, .f32⟩
  | .local .scVector .vmem, ⟨3, _⟩ => ⟨S2x64x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 3, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_50_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_27 : BitVec 32 := 0#32
  let c50_i32 : BitVec 32 := 50#32
  let v42 : BitVec 32 := Scalar.addi c0_i32_27 c50_i32
  let c1_i32_28 : BitVec 32 := 1#32
  ⟨c0_i32_27, v42, c1_i32_28⟩
@[reducible] def k0_t2_loop : Scf.Loop 32 :=
  let c0_i32_65 : BitVec 32 := 0#32
  let c16_i32_66 : BitVec 32 := 16#32
  let v74 : BitVec 32 := Scalar.addi c0_i32_65 c16_i32_66
  let c1_i32_67 : BitVec 32 := 1#32
  ⟨c0_i32_65, v74, c1_i32_67⟩

def k0_chk1 (v165 : IVec S16 32) (v173 : IVec S16 32) : Prop :=
  (∀ a x, ((![v165, v173] : Fin 2 → IVec S16 32) a x).toNat < S100x128.size a)
instance k0_chk1.dec : ∀ (v165 : IVec S16 32) (v173 : IVec S16 32), Decidable (k0_chk1 v165 v173) := fun v165 v173 => decidable_of_iff' _ (Iff.of_eq (k0_chk1.eq_1 v165 v173))
theorem k0_idx1_inb : ∀ (v165 : IVec S16 32) (v173 : IVec S16 32) (k0_hw1 : k0_chk1 v165 v173), ∀ a x, ((![v165, v173] : Fin 2 → IVec S16 32) a x).toNat < S100x128.size a := fun v165 v173 k0_hw1 => k0_hw1

def k0_chk2 (v7 : IVec S16 32) (v9 : IVec S16 32) (v11 : IVec S16 32) (v13 : IVec S16 32) (v15 : IVec S16 32) (v17 : IVec S16 32) (v19 : IVec S16 32) (v21 : IVec S16 32) (v171 : IVec S16 32) : Prop :=
  (∀ a x, ((![v7, v171] : Fin 2 → IVec S16 32) a x).toNat < S128x128.size a) ∧
  (∀ a x, ((![v9, v171] : Fin 2 → IVec S16 32) a x).toNat < S128x128.size a) ∧
  (∀ a x, ((![v11, v171] : Fin 2 → IVec S16 32) a x).toNat < S128x128.size a) ∧
  (∀ a x, ((![v13, v171] : Fin 2 → IVec S16 32) a x).toNat < S128x128.size a) ∧
  (∀ a x, ((![v15, v171] : Fin 2 → IVec S16 32) a x).toNat < S128x128.size a) ∧
  (∀ a x, ((![v17, v171] : Fin 2 → IVec S16 32) a x).toNat < S128x128.size a) ∧
  (∀ a x, ((![v19, v171] : Fin 2 → IVec S16 32) a x).toNat < S128x128.size a) ∧
  (∀ a x, ((![v21, v171] : Fin 2 → IVec S16 32) a x).toNat < S128x128.size a) ∧
  (∀ a x, ((![v171, v7] : Fin 2 → IVec S16 32) a x).toNat < S64x128.size a) ∧
  (∀ a x, ((![v171, v9] : Fin 2 → IVec S16 32) a x).toNat < S64x128.size a) ∧
  (∀ a x, ((![v171, v11] : Fin 2 → IVec S16 32) a x).toNat < S64x128.size a) ∧
  (∀ a x, ((![v171, v13] : Fin 2 → IVec S16 32) a x).toNat < S64x128.size a) ∧
  (∀ a x, ((![v171, v15] : Fin 2 → IVec S16 32) a x).toNat < S64x128.size a) ∧
  (∀ a x, ((![v171, v17] : Fin 2 → IVec S16 32) a x).toNat < S64x128.size a) ∧
  (∀ a x, ((![v171, v19] : Fin 2 → IVec S16 32) a x).toNat < S64x128.size a) ∧
  (∀ a x, ((![v171, v21] : Fin 2 → IVec S16 32) a x).toNat < S64x128.size a)
instance k0_chk2.dec : ∀ (v7 : IVec S16 32) (v9 : IVec S16 32) (v11 : IVec S16 32) (v13 : IVec S16 32) (v15 : IVec S16 32) (v17 : IVec S16 32) (v19 : IVec S16 32) (v21 : IVec S16 32) (v171 : IVec S16 32), Decidable (k0_chk2 v7 v9 v11 v13 v15 v17 v19 v21 v171) := fun v7 v9 v11 v13 v15 v17 v19 v21 v171 => decidable_of_iff' _ (Iff.of_eq (k0_chk2.eq_1 v7 v9 v11 v13 v15 v17 v19 v21 v171))
theorem k0_idx2_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v7, v171] : Fin 2 → IVec S16 32) a x).toNat < S128x128.size a := fun v7 v9 v11 v13 v15 v17 v19 v21 v171 k0_hw2 => k0_hw2.1
theorem k0_idx3_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v9, v171] : Fin 2 → IVec S16 32) a x).toNat < S128x128.size a := fun v7 v9 v11 v13 v15 v17 v19 v21 v171 k0_hw2 => k0_hw2.2.1
theorem k0_idx4_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v11, v171] : Fin 2 → IVec S16 32) a x).toNat < S128x128.size a := fun v7 v9 v11 v13 v15 v17 v19 v21 v171 k0_hw2 => k0_hw2.2.2.1
theorem k0_idx5_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v13, v171] : Fin 2 → IVec S16 32) a x).toNat < S128x128.size a := fun v7 v9 v11 v13 v15 v17 v19 v21 v171 k0_hw2 => k0_hw2.2.2.2.1
theorem k0_idx6_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v15, v171] : Fin 2 → IVec S16 32) a x).toNat < S128x128.size a := fun v7 v9 v11 v13 v15 v17 v19 v21 v171 k0_hw2 => k0_hw2.2.2.2.2.1
theorem k0_idx7_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v17, v171] : Fin 2 → IVec S16 32) a x).toNat < S128x128.size a := fun v7 v9 v11 v13 v15 v17 v19 v21 v171 k0_hw2 => k0_hw2.2.2.2.2.2.1
theorem k0_idx8_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v19, v171] : Fin 2 → IVec S16 32) a x).toNat < S128x128.size a := fun v7 v9 v11 v13 v15 v17 v19 v21 v171 k0_hw2 => k0_hw2.2.2.2.2.2.2.1
theorem k0_idx9_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v21, v171] : Fin 2 → IVec S16 32) a x).toNat < S128x128.size a := fun v7 v9 v11 v13 v15 v17 v19 v21 v171 k0_hw2 => k0_hw2.2.2.2.2.2.2.2.1
theorem k0_idx10_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v7] : Fin 2 → IVec S16 32) a x).toNat < S64x128.size a := fun v7 v9 v11 v13 v15 v17 v19 v21 v171 k0_hw2 => k0_hw2.2.2.2.2.2.2.2.2.1
theorem k0_idx11_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v9] : Fin 2 → IVec S16 32) a x).toNat < S64x128.size a := fun v7 v9 v11 v13 v15 v17 v19 v21 v171 k0_hw2 => k0_hw2.2.2.2.2.2.2.2.2.2.1
theorem k0_idx12_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v11] : Fin 2 → IVec S16 32) a x).toNat < S64x128.size a := fun v7 v9 v11 v13 v15 v17 v19 v21 v171 k0_hw2 => k0_hw2.2.2.2.2.2.2.2.2.2.2.1
theorem k0_idx13_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v13] : Fin 2 → IVec S16 32) a x).toNat < S64x128.size a := fun v7 v9 v11 v13 v15 v17 v19 v21 v171 k0_hw2 => k0_hw2.2.2.2.2.2.2.2.2.2.2.2.1
theorem k0_idx14_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v15] : Fin 2 → IVec S16 32) a x).toNat < S64x128.size a := fun v7 v9 v11 v13 v15 v17 v19 v21 v171 k0_hw2 => k0_hw2.2.2.2.2.2.2.2.2.2.2.2.2.1
theorem k0_idx15_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v17] : Fin 2 → IVec S16 32) a x).toNat < S64x128.size a := fun v7 v9 v11 v13 v15 v17 v19 v21 v171 k0_hw2 => k0_hw2.2.2.2.2.2.2.2.2.2.2.2.2.2.1
theorem k0_idx16_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v19] : Fin 2 → IVec S16 32) a x).toNat < S64x128.size a := fun v7 v9 v11 v13 v15 v17 v19 v21 v171 k0_hw2 => k0_hw2.2.2.2.2.2.2.2.2.2.2.2.2.2.2.1
theorem k0_idx17_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw2 : k0_chk2 v7 v9 v11 v13 v15 v17 v19 v21 v171), ∀ a x, ((![v171, v21] : Fin 2 → IVec S16 32) a x).toNat < S64x128.size a := fun v7 v9 v11 v13 v15 v17 v19 v21 v171 k0_hw2 => k0_hw2.2.2.2.2.2.2.2.2.2.2.2.2.2.2.2

def k0_chk3 (v165 : IVec S16 32) (v226 : IVec S16 32) : Prop :=
  (∀ a x, ((![v165, v226] : Fin 2 → IVec S16 32) a x).toNat < S100x128.size a)
instance k0_chk3.dec : ∀ (v165 : IVec S16 32) (v226 : IVec S16 32), Decidable (k0_chk3 v165 v226) := fun v165 v226 => decidable_of_iff' _ (Iff.of_eq (k0_chk3.eq_1 v165 v226))
theorem k0_idx18_inb : ∀ (v165 : IVec S16 32) (v226 : IVec S16 32) (k0_hw3 : k0_chk3 v165 v226), ∀ a x, ((![v165, v226] : Fin 2 → IVec S16 32) a x).toNat < S100x128.size a := fun v165 v226 k0_hw3 => k0_hw3

def k0_chk4 (v7 : IVec S16 32) (v9 : IVec S16 32) (v11 : IVec S16 32) (v13 : IVec S16 32) (v15 : IVec S16 32) (v17 : IVec S16 32) (v19 : IVec S16 32) (v21 : IVec S16 32) (v224 : IVec S16 32) : Prop :=
  (∀ a x, ((![v7, v224] : Fin 2 → IVec S16 32) a x).toNat < S128x128.size a) ∧
  (∀ a x, ((![v9, v224] : Fin 2 → IVec S16 32) a x).toNat < S128x128.size a) ∧
  (∀ a x, ((![v11, v224] : Fin 2 → IVec S16 32) a x).toNat < S128x128.size a) ∧
  (∀ a x, ((![v13, v224] : Fin 2 → IVec S16 32) a x).toNat < S128x128.size a) ∧
  (∀ a x, ((![v15, v224] : Fin 2 → IVec S16 32) a x).toNat < S128x128.size a) ∧
  (∀ a x, ((![v17, v224] : Fin 2 → IVec S16 32) a x).toNat < S128x128.size a) ∧
  (∀ a x, ((![v19, v224] : Fin 2 → IVec S16 32) a x).toNat < S128x128.size a) ∧
  (∀ a x, ((![v21, v224] : Fin 2 → IVec S16 32) a x).toNat < S128x128.size a) ∧
  (∀ a x, ((![v224, v7] : Fin 2 → IVec S16 32) a x).toNat < S64x128.size a) ∧
  (∀ a x, ((![v224, v9] : Fin 2 → IVec S16 32) a x).toNat < S64x128.size a) ∧
  (∀ a x, ((![v224, v11] : Fin 2 → IVec S16 32) a x).toNat < S64x128.size a) ∧
  (∀ a x, ((![v224, v13] : Fin 2 → IVec S16 32) a x).toNat < S64x128.size a) ∧
  (∀ a x, ((![v224, v15] : Fin 2 → IVec S16 32) a x).toNat < S64x128.size a) ∧
  (∀ a x, ((![v224, v17] : Fin 2 → IVec S16 32) a x).toNat < S64x128.size a) ∧
  (∀ a x, ((![v224, v19] : Fin 2 → IVec S16 32) a x).toNat < S64x128.size a) ∧
  (∀ a x, ((![v224, v21] : Fin 2 → IVec S16 32) a x).toNat < S64x128.size a)
instance k0_chk4.dec : ∀ (v7 : IVec S16 32) (v9 : IVec S16 32) (v11 : IVec S16 32) (v13 : IVec S16 32) (v15 : IVec S16 32) (v17 : IVec S16 32) (v19 : IVec S16 32) (v21 : IVec S16 32) (v224 : IVec S16 32), Decidable (k0_chk4 v7 v9 v11 v13 v15 v17 v19 v21 v224) := fun v7 v9 v11 v13 v15 v17 v19 v21 v224 => decidable_of_iff' _ (Iff.of_eq (k0_chk4.eq_1 v7 v9 v11 v13 v15 v17 v19 v21 v224))
theorem k0_idx19_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v7, v224] : Fin 2 → IVec S16 32) a x).toNat < S128x128.size a := fun v7 v9 v11 v13 v15 v17 v19 v21 v224 k0_hw4 => k0_hw4.1
theorem k0_idx20_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v9, v224] : Fin 2 → IVec S16 32) a x).toNat < S128x128.size a := fun v7 v9 v11 v13 v15 v17 v19 v21 v224 k0_hw4 => k0_hw4.2.1
theorem k0_idx21_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v11, v224] : Fin 2 → IVec S16 32) a x).toNat < S128x128.size a := fun v7 v9 v11 v13 v15 v17 v19 v21 v224 k0_hw4 => k0_hw4.2.2.1
theorem k0_idx22_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v13, v224] : Fin 2 → IVec S16 32) a x).toNat < S128x128.size a := fun v7 v9 v11 v13 v15 v17 v19 v21 v224 k0_hw4 => k0_hw4.2.2.2.1
theorem k0_idx23_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v15, v224] : Fin 2 → IVec S16 32) a x).toNat < S128x128.size a := fun v7 v9 v11 v13 v15 v17 v19 v21 v224 k0_hw4 => k0_hw4.2.2.2.2.1
theorem k0_idx24_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v17, v224] : Fin 2 → IVec S16 32) a x).toNat < S128x128.size a := fun v7 v9 v11 v13 v15 v17 v19 v21 v224 k0_hw4 => k0_hw4.2.2.2.2.2.1
theorem k0_idx25_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v19, v224] : Fin 2 → IVec S16 32) a x).toNat < S128x128.size a := fun v7 v9 v11 v13 v15 v17 v19 v21 v224 k0_hw4 => k0_hw4.2.2.2.2.2.2.1
theorem k0_idx26_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v21, v224] : Fin 2 → IVec S16 32) a x).toNat < S128x128.size a := fun v7 v9 v11 v13 v15 v17 v19 v21 v224 k0_hw4 => k0_hw4.2.2.2.2.2.2.2.1
theorem k0_idx27_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v7] : Fin 2 → IVec S16 32) a x).toNat < S64x128.size a := fun v7 v9 v11 v13 v15 v17 v19 v21 v224 k0_hw4 => k0_hw4.2.2.2.2.2.2.2.2.1
theorem k0_idx28_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v9] : Fin 2 → IVec S16 32) a x).toNat < S64x128.size a := fun v7 v9 v11 v13 v15 v17 v19 v21 v224 k0_hw4 => k0_hw4.2.2.2.2.2.2.2.2.2.1
theorem k0_idx29_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v11] : Fin 2 → IVec S16 32) a x).toNat < S64x128.size a := fun v7 v9 v11 v13 v15 v17 v19 v21 v224 k0_hw4 => k0_hw4.2.2.2.2.2.2.2.2.2.2.1
theorem k0_idx30_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v13] : Fin 2 → IVec S16 32) a x).toNat < S64x128.size a := fun v7 v9 v11 v13 v15 v17 v19 v21 v224 k0_hw4 => k0_hw4.2.2.2.2.2.2.2.2.2.2.2.1
theorem k0_idx31_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v15] : Fin 2 → IVec S16 32) a x).toNat < S64x128.size a := fun v7 v9 v11 v13 v15 v17 v19 v21 v224 k0_hw4 => k0_hw4.2.2.2.2.2.2.2.2.2.2.2.2.1
theorem k0_idx32_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v17] : Fin 2 → IVec S16 32) a x).toNat < S64x128.size a := fun v7 v9 v11 v13 v15 v17 v19 v21 v224 k0_hw4 => k0_hw4.2.2.2.2.2.2.2.2.2.2.2.2.2.1
theorem k0_idx33_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v19] : Fin 2 → IVec S16 32) a x).toNat < S64x128.size a := fun v7 v9 v11 v13 v15 v17 v19 v21 v224 k0_hw4 => k0_hw4.2.2.2.2.2.2.2.2.2.2.2.2.2.2.1
theorem k0_idx34_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw4 : k0_chk4 v7 v9 v11 v13 v15 v17 v19 v21 v224), ∀ a x, ((![v224, v21] : Fin 2 → IVec S16 32) a x).toNat < S64x128.size a := fun v7 v9 v11 v13 v15 v17 v19 v21 v224 k0_hw4 => k0_hw4.2.2.2.2.2.2.2.2.2.2.2.2.2.2.2

def k0_chk5 (v165 : IVec S16 32) (v279 : IVec S16 32) : Prop :=
  (∀ a x, ((![v165, v279] : Fin 2 → IVec S16 32) a x).toNat < S100x128.size a)
instance k0_chk5.dec : ∀ (v165 : IVec S16 32) (v279 : IVec S16 32), Decidable (k0_chk5 v165 v279) := fun v165 v279 => decidable_of_iff' _ (Iff.of_eq (k0_chk5.eq_1 v165 v279))
theorem k0_idx35_inb : ∀ (v165 : IVec S16 32) (v279 : IVec S16 32) (k0_hw5 : k0_chk5 v165 v279), ∀ a x, ((![v165, v279] : Fin 2 → IVec S16 32) a x).toNat < S100x128.size a := fun v165 v279 k0_hw5 => k0_hw5

def k0_chk6 (v7 : IVec S16 32) (v9 : IVec S16 32) (v11 : IVec S16 32) (v13 : IVec S16 32) (v15 : IVec S16 32) (v17 : IVec S16 32) (v19 : IVec S16 32) (v21 : IVec S16 32) (v277 : IVec S16 32) : Prop :=
  (∀ a x, ((![v7, v277] : Fin 2 → IVec S16 32) a x).toNat < S128x128.size a) ∧
  (∀ a x, ((![v9, v277] : Fin 2 → IVec S16 32) a x).toNat < S128x128.size a) ∧
  (∀ a x, ((![v11, v277] : Fin 2 → IVec S16 32) a x).toNat < S128x128.size a) ∧
  (∀ a x, ((![v13, v277] : Fin 2 → IVec S16 32) a x).toNat < S128x128.size a) ∧
  (∀ a x, ((![v15, v277] : Fin 2 → IVec S16 32) a x).toNat < S128x128.size a) ∧
  (∀ a x, ((![v17, v277] : Fin 2 → IVec S16 32) a x).toNat < S128x128.size a) ∧
  (∀ a x, ((![v19, v277] : Fin 2 → IVec S16 32) a x).toNat < S128x128.size a) ∧
  (∀ a x, ((![v21, v277] : Fin 2 → IVec S16 32) a x).toNat < S128x128.size a) ∧
  (∀ a x, ((![v277, v7] : Fin 2 → IVec S16 32) a x).toNat < S64x128.size a) ∧
  (∀ a x, ((![v277, v9] : Fin 2 → IVec S16 32) a x).toNat < S64x128.size a) ∧
  (∀ a x, ((![v277, v11] : Fin 2 → IVec S16 32) a x).toNat < S64x128.size a) ∧
  (∀ a x, ((![v277, v13] : Fin 2 → IVec S16 32) a x).toNat < S64x128.size a) ∧
  (∀ a x, ((![v277, v15] : Fin 2 → IVec S16 32) a x).toNat < S64x128.size a) ∧
  (∀ a x, ((![v277, v17] : Fin 2 → IVec S16 32) a x).toNat < S64x128.size a) ∧
  (∀ a x, ((![v277, v19] : Fin 2 → IVec S16 32) a x).toNat < S64x128.size a) ∧
  (∀ a x, ((![v277, v21] : Fin 2 → IVec S16 32) a x).toNat < S64x128.size a)
instance k0_chk6.dec : ∀ (v7 : IVec S16 32) (v9 : IVec S16 32) (v11 : IVec S16 32) (v13 : IVec S16 32) (v15 : IVec S16 32) (v17 : IVec S16 32) (v19 : IVec S16 32) (v21 : IVec S16 32) (v277 : IVec S16 32), Decidable (k0_chk6 v7 v9 v11 v13 v15 v17 v19 v21 v277) := fun v7 v9 v11 v13 v15 v17 v19 v21 v277 => decidable_of_iff' _ (Iff.of_eq (k0_chk6.eq_1 v7 v9 v11 v13 v15 v17 v19 v21 v277))
theorem k0_idx36_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v7, v277] : Fin 2 → IVec S16 32) a x).toNat < S128x128.size a := fun v7 v9 v11 v13 v15 v17 v19 v21 v277 k0_hw6 => k0_hw6.1
theorem k0_idx37_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v9, v277] : Fin 2 → IVec S16 32) a x).toNat < S128x128.size a := fun v7 v9 v11 v13 v15 v17 v19 v21 v277 k0_hw6 => k0_hw6.2.1
theorem k0_idx38_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v11, v277] : Fin 2 → IVec S16 32) a x).toNat < S128x128.size a := fun v7 v9 v11 v13 v15 v17 v19 v21 v277 k0_hw6 => k0_hw6.2.2.1
theorem k0_idx39_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v13, v277] : Fin 2 → IVec S16 32) a x).toNat < S128x128.size a := fun v7 v9 v11 v13 v15 v17 v19 v21 v277 k0_hw6 => k0_hw6.2.2.2.1
theorem k0_idx40_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v15, v277] : Fin 2 → IVec S16 32) a x).toNat < S128x128.size a := fun v7 v9 v11 v13 v15 v17 v19 v21 v277 k0_hw6 => k0_hw6.2.2.2.2.1
theorem k0_idx41_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v17, v277] : Fin 2 → IVec S16 32) a x).toNat < S128x128.size a := fun v7 v9 v11 v13 v15 v17 v19 v21 v277 k0_hw6 => k0_hw6.2.2.2.2.2.1
theorem k0_idx42_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v19, v277] : Fin 2 → IVec S16 32) a x).toNat < S128x128.size a := fun v7 v9 v11 v13 v15 v17 v19 v21 v277 k0_hw6 => k0_hw6.2.2.2.2.2.2.1
theorem k0_idx43_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v21, v277] : Fin 2 → IVec S16 32) a x).toNat < S128x128.size a := fun v7 v9 v11 v13 v15 v17 v19 v21 v277 k0_hw6 => k0_hw6.2.2.2.2.2.2.2.1
theorem k0_idx44_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v7] : Fin 2 → IVec S16 32) a x).toNat < S64x128.size a := fun v7 v9 v11 v13 v15 v17 v19 v21 v277 k0_hw6 => k0_hw6.2.2.2.2.2.2.2.2.1
theorem k0_idx45_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v9] : Fin 2 → IVec S16 32) a x).toNat < S64x128.size a := fun v7 v9 v11 v13 v15 v17 v19 v21 v277 k0_hw6 => k0_hw6.2.2.2.2.2.2.2.2.2.1
theorem k0_idx46_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v11] : Fin 2 → IVec S16 32) a x).toNat < S64x128.size a := fun v7 v9 v11 v13 v15 v17 v19 v21 v277 k0_hw6 => k0_hw6.2.2.2.2.2.2.2.2.2.2.1
theorem k0_idx47_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v13] : Fin 2 → IVec S16 32) a x).toNat < S64x128.size a := fun v7 v9 v11 v13 v15 v17 v19 v21 v277 k0_hw6 => k0_hw6.2.2.2.2.2.2.2.2.2.2.2.1
theorem k0_idx48_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v15] : Fin 2 → IVec S16 32) a x).toNat < S64x128.size a := fun v7 v9 v11 v13 v15 v17 v19 v21 v277 k0_hw6 => k0_hw6.2.2.2.2.2.2.2.2.2.2.2.2.1
theorem k0_idx49_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v17] : Fin 2 → IVec S16 32) a x).toNat < S64x128.size a := fun v7 v9 v11 v13 v15 v17 v19 v21 v277 k0_hw6 => k0_hw6.2.2.2.2.2.2.2.2.2.2.2.2.2.1
theorem k0_idx50_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v19] : Fin 2 → IVec S16 32) a x).toNat < S64x128.size a := fun v7 v9 v11 v13 v15 v17 v19 v21 v277 k0_hw6 => k0_hw6.2.2.2.2.2.2.2.2.2.2.2.2.2.2.1
theorem k0_idx51_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw6 : k0_chk6 v7 v9 v11 v13 v15 v17 v19 v21 v277), ∀ a x, ((![v277, v21] : Fin 2 → IVec S16 32) a x).toNat < S64x128.size a := fun v7 v9 v11 v13 v15 v17 v19 v21 v277 k0_hw6 => k0_hw6.2.2.2.2.2.2.2.2.2.2.2.2.2.2.2

def k0_chk7 (v165 : IVec S16 32) (v332 : IVec S16 32) : Prop :=
  (∀ a x, ((![v165, v332] : Fin 2 → IVec S16 32) a x).toNat < S100x128.size a)
instance k0_chk7.dec : ∀ (v165 : IVec S16 32) (v332 : IVec S16 32), Decidable (k0_chk7 v165 v332) := fun v165 v332 => decidable_of_iff' _ (Iff.of_eq (k0_chk7.eq_1 v165 v332))
theorem k0_idx52_inb : ∀ (v165 : IVec S16 32) (v332 : IVec S16 32) (k0_hw7 : k0_chk7 v165 v332), ∀ a x, ((![v165, v332] : Fin 2 → IVec S16 32) a x).toNat < S100x128.size a := fun v165 v332 k0_hw7 => k0_hw7

def k0_chk8 (v7 : IVec S16 32) (v9 : IVec S16 32) (v11 : IVec S16 32) (v13 : IVec S16 32) (v15 : IVec S16 32) (v17 : IVec S16 32) (v19 : IVec S16 32) (v21 : IVec S16 32) (v330 : IVec S16 32) : Prop :=
  (∀ a x, ((![v7, v330] : Fin 2 → IVec S16 32) a x).toNat < S128x128.size a) ∧
  (∀ a x, ((![v9, v330] : Fin 2 → IVec S16 32) a x).toNat < S128x128.size a) ∧
  (∀ a x, ((![v11, v330] : Fin 2 → IVec S16 32) a x).toNat < S128x128.size a) ∧
  (∀ a x, ((![v13, v330] : Fin 2 → IVec S16 32) a x).toNat < S128x128.size a) ∧
  (∀ a x, ((![v15, v330] : Fin 2 → IVec S16 32) a x).toNat < S128x128.size a) ∧
  (∀ a x, ((![v17, v330] : Fin 2 → IVec S16 32) a x).toNat < S128x128.size a) ∧
  (∀ a x, ((![v19, v330] : Fin 2 → IVec S16 32) a x).toNat < S128x128.size a) ∧
  (∀ a x, ((![v21, v330] : Fin 2 → IVec S16 32) a x).toNat < S128x128.size a) ∧
  (∀ a x, ((![v330, v7] : Fin 2 → IVec S16 32) a x).toNat < S64x128.size a) ∧
  (∀ a x, ((![v330, v9] : Fin 2 → IVec S16 32) a x).toNat < S64x128.size a) ∧
  (∀ a x, ((![v330, v11] : Fin 2 → IVec S16 32) a x).toNat < S64x128.size a) ∧
  (∀ a x, ((![v330, v13] : Fin 2 → IVec S16 32) a x).toNat < S64x128.size a) ∧
  (∀ a x, ((![v330, v15] : Fin 2 → IVec S16 32) a x).toNat < S64x128.size a) ∧
  (∀ a x, ((![v330, v17] : Fin 2 → IVec S16 32) a x).toNat < S64x128.size a) ∧
  (∀ a x, ((![v330, v19] : Fin 2 → IVec S16 32) a x).toNat < S64x128.size a) ∧
  (∀ a x, ((![v330, v21] : Fin 2 → IVec S16 32) a x).toNat < S64x128.size a)
instance k0_chk8.dec : ∀ (v7 : IVec S16 32) (v9 : IVec S16 32) (v11 : IVec S16 32) (v13 : IVec S16 32) (v15 : IVec S16 32) (v17 : IVec S16 32) (v19 : IVec S16 32) (v21 : IVec S16 32) (v330 : IVec S16 32), Decidable (k0_chk8 v7 v9 v11 v13 v15 v17 v19 v21 v330) := fun v7 v9 v11 v13 v15 v17 v19 v21 v330 => decidable_of_iff' _ (Iff.of_eq (k0_chk8.eq_1 v7 v9 v11 v13 v15 v17 v19 v21 v330))
theorem k0_idx53_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v7, v330] : Fin 2 → IVec S16 32) a x).toNat < S128x128.size a := fun v7 v9 v11 v13 v15 v17 v19 v21 v330 k0_hw8 => k0_hw8.1
theorem k0_idx54_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v9, v330] : Fin 2 → IVec S16 32) a x).toNat < S128x128.size a := fun v7 v9 v11 v13 v15 v17 v19 v21 v330 k0_hw8 => k0_hw8.2.1
theorem k0_idx55_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v11, v330] : Fin 2 → IVec S16 32) a x).toNat < S128x128.size a := fun v7 v9 v11 v13 v15 v17 v19 v21 v330 k0_hw8 => k0_hw8.2.2.1
theorem k0_idx56_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v13, v330] : Fin 2 → IVec S16 32) a x).toNat < S128x128.size a := fun v7 v9 v11 v13 v15 v17 v19 v21 v330 k0_hw8 => k0_hw8.2.2.2.1
theorem k0_idx57_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v15, v330] : Fin 2 → IVec S16 32) a x).toNat < S128x128.size a := fun v7 v9 v11 v13 v15 v17 v19 v21 v330 k0_hw8 => k0_hw8.2.2.2.2.1
theorem k0_idx58_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v17, v330] : Fin 2 → IVec S16 32) a x).toNat < S128x128.size a := fun v7 v9 v11 v13 v15 v17 v19 v21 v330 k0_hw8 => k0_hw8.2.2.2.2.2.1
theorem k0_idx59_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v19, v330] : Fin 2 → IVec S16 32) a x).toNat < S128x128.size a := fun v7 v9 v11 v13 v15 v17 v19 v21 v330 k0_hw8 => k0_hw8.2.2.2.2.2.2.1
theorem k0_idx60_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v21, v330] : Fin 2 → IVec S16 32) a x).toNat < S128x128.size a := fun v7 v9 v11 v13 v15 v17 v19 v21 v330 k0_hw8 => k0_hw8.2.2.2.2.2.2.2.1
theorem k0_idx61_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v7] : Fin 2 → IVec S16 32) a x).toNat < S64x128.size a := fun v7 v9 v11 v13 v15 v17 v19 v21 v330 k0_hw8 => k0_hw8.2.2.2.2.2.2.2.2.1
theorem k0_idx62_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v9] : Fin 2 → IVec S16 32) a x).toNat < S64x128.size a := fun v7 v9 v11 v13 v15 v17 v19 v21 v330 k0_hw8 => k0_hw8.2.2.2.2.2.2.2.2.2.1
theorem k0_idx63_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v11] : Fin 2 → IVec S16 32) a x).toNat < S64x128.size a := fun v7 v9 v11 v13 v15 v17 v19 v21 v330 k0_hw8 => k0_hw8.2.2.2.2.2.2.2.2.2.2.1
theorem k0_idx64_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v13] : Fin 2 → IVec S16 32) a x).toNat < S64x128.size a := fun v7 v9 v11 v13 v15 v17 v19 v21 v330 k0_hw8 => k0_hw8.2.2.2.2.2.2.2.2.2.2.2.1
theorem k0_idx65_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v15] : Fin 2 → IVec S16 32) a x).toNat < S64x128.size a := fun v7 v9 v11 v13 v15 v17 v19 v21 v330 k0_hw8 => k0_hw8.2.2.2.2.2.2.2.2.2.2.2.2.1
theorem k0_idx66_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v17] : Fin 2 → IVec S16 32) a x).toNat < S64x128.size a := fun v7 v9 v11 v13 v15 v17 v19 v21 v330 k0_hw8 => k0_hw8.2.2.2.2.2.2.2.2.2.2.2.2.2.1
theorem k0_idx67_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v19] : Fin 2 → IVec S16 32) a x).toNat < S64x128.size a := fun v7 v9 v11 v13 v15 v17 v19 v21 v330 k0_hw8 => k0_hw8.2.2.2.2.2.2.2.2.2.2.2.2.2.2.1
theorem k0_idx68_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw8 : k0_chk8 v7 v9 v11 v13 v15 v17 v19 v21 v330), ∀ a x, ((![v330, v21] : Fin 2 → IVec S16 32) a x).toNat < S64x128.size a := fun v7 v9 v11 v13 v15 v17 v19 v21 v330 k0_hw8 => k0_hw8.2.2.2.2.2.2.2.2.2.2.2.2.2.2.2
def k0_off2 (i : grid0.Coords) (k0_t1 : Fin k0_t1_loop.trips) (c0_i32_52 : BitVec 32) : Fin 3 → Nat :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let v62 : BitVec 32 := Scalar.addi v61 c0_i32_52
  let c0_i32_72 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v62.toNat, 0, v2.toNat]
def k0_cond2 (k0_t1 : Fin k0_t1_loop.trips) : BitVec 1 :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c0_i32_52 : BitVec 32 := 0#32
  let v62 : BitVec 32 := Scalar.addi v61 c0_i32_52
  let c4_i32_76 : BitVec 32 := 4#32
  let v83 : BitVec 32 := Scalar.addi v62 c4_i32_76
  let c200_i32 : BitVec 32 := 200#32
  let v84 : BitVec 1 := Scalar.cmpi .slt v83 c200_i32
  let v85 : BitVec 32 := Scalar.extui v84
  let c0_i32_77 : BitVec 32 := 0#32
  let v86 : BitVec 1 := Scalar.cmpi .ne v85 c0_i32_77
  v86

def k0_off3 (k0_t1 : Fin k0_t1_loop.trips) : Fin 2 → Nat :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c0_i32_52 : BitVec 32 := 0#32
  let v62 : BitVec 32 := Scalar.addi v61 c0_i32_52
  let c4_i32_159 : BitVec 32 := 4#32
  let v162 : BitVec 32 := Scalar.addi v62 c4_i32_159
  let c0_i32_163 : BitVec 32 := 0#32
  ![v162.toNat, 0]
@[reducible] def k0_t3_loop : Scf.Loop 32 :=
  let c0_i32_91 : BitVec 32 := 0#32
  let c16_i32_92 : BitVec 32 := 16#32
  let v99 : BitVec 32 := Scalar.addi c0_i32_91 c16_i32_92
  let c1_i32_93 : BitVec 32 := 1#32
  ⟨c0_i32_91, v99, c1_i32_93⟩

def k0_chk9 (v165 : IVec S16 32) (v173 : IVec S16 32) : Prop :=
  (∀ a x, ((![v165, v173] : Fin 2 → IVec S16 32) a x).toNat < S100x128.size a)
instance k0_chk9.dec : ∀ (v165 : IVec S16 32) (v173 : IVec S16 32), Decidable (k0_chk9 v165 v173) := fun v165 v173 => decidable_of_iff' _ (Iff.of_eq (k0_chk9.eq_1 v165 v173))
theorem k0_idx69_inb : ∀ (v165 : IVec S16 32) (v173 : IVec S16 32) (k0_hw9 : k0_chk9 v165 v173), ∀ a x, ((![v165, v173] : Fin 2 → IVec S16 32) a x).toNat < S100x128.size a := fun v165 v173 k0_hw9 => k0_hw9

def k0_chk10 (v7 : IVec S16 32) (v9 : IVec S16 32) (v11 : IVec S16 32) (v13 : IVec S16 32) (v15 : IVec S16 32) (v17 : IVec S16 32) (v19 : IVec S16 32) (v21 : IVec S16 32) (v171 : IVec S16 32) : Prop :=
  (∀ a x, ((![v7, v171] : Fin 2 → IVec S16 32) a x).toNat < S128x128.size a) ∧
  (∀ a x, ((![v9, v171] : Fin 2 → IVec S16 32) a x).toNat < S128x128.size a) ∧
  (∀ a x, ((![v11, v171] : Fin 2 → IVec S16 32) a x).toNat < S128x128.size a) ∧
  (∀ a x, ((![v13, v171] : Fin 2 → IVec S16 32) a x).toNat < S128x128.size a) ∧
  (∀ a x, ((![v15, v171] : Fin 2 → IVec S16 32) a x).toNat < S128x128.size a) ∧
  (∀ a x, ((![v17, v171] : Fin 2 → IVec S16 32) a x).toNat < S128x128.size a) ∧
  (∀ a x, ((![v19, v171] : Fin 2 → IVec S16 32) a x).toNat < S128x128.size a) ∧
  (∀ a x, ((![v21, v171] : Fin 2 → IVec S16 32) a x).toNat < S128x128.size a) ∧
  (∀ a x, ((![v171, v7] : Fin 2 → IVec S16 32) a x).toNat < S64x128.size a) ∧
  (∀ a x, ((![v171, v9] : Fin 2 → IVec S16 32) a x).toNat < S64x128.size a) ∧
  (∀ a x, ((![v171, v11] : Fin 2 → IVec S16 32) a x).toNat < S64x128.size a) ∧
  (∀ a x, ((![v171, v13] : Fin 2 → IVec S16 32) a x).toNat < S64x128.size a) ∧
  (∀ a x, ((![v171, v15] : Fin 2 → IVec S16 32) a x).toNat < S64x128.size a) ∧
  (∀ a x, ((![v171, v17] : Fin 2 → IVec S16 32) a x).toNat < S64x128.size a) ∧
  (∀ a x, ((![v171, v19] : Fin 2 → IVec S16 32) a x).toNat < S64x128.size a) ∧
  (∀ a x, ((![v171, v21] : Fin 2 → IVec S16 32) a x).toNat < S64x128.size a)
instance k0_chk10.dec : ∀ (v7 : IVec S16 32) (v9 : IVec S16 32) (v11 : IVec S16 32) (v13 : IVec S16 32) (v15 : IVec S16 32) (v17 : IVec S16 32) (v19 : IVec S16 32) (v21 : IVec S16 32) (v171 : IVec S16 32), Decidable (k0_chk10 v7 v9 v11 v13 v15 v17 v19 v21 v171) := fun v7 v9 v11 v13 v15 v17 v19 v21 v171 => decidable_of_iff' _ (Iff.of_eq (k0_chk10.eq_1 v7 v9 v11 v13 v15 v17 v19 v21 v171))
theorem k0_idx70_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v7, v171] : Fin 2 → IVec S16 32) a x).toNat < S128x128.size a := fun v7 v9 v11 v13 v15 v17 v19 v21 v171 k0_hw10 => k0_hw10.1
theorem k0_idx71_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v9, v171] : Fin 2 → IVec S16 32) a x).toNat < S128x128.size a := fun v7 v9 v11 v13 v15 v17 v19 v21 v171 k0_hw10 => k0_hw10.2.1
theorem k0_idx72_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v11, v171] : Fin 2 → IVec S16 32) a x).toNat < S128x128.size a := fun v7 v9 v11 v13 v15 v17 v19 v21 v171 k0_hw10 => k0_hw10.2.2.1
theorem k0_idx73_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v13, v171] : Fin 2 → IVec S16 32) a x).toNat < S128x128.size a := fun v7 v9 v11 v13 v15 v17 v19 v21 v171 k0_hw10 => k0_hw10.2.2.2.1
theorem k0_idx74_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v15, v171] : Fin 2 → IVec S16 32) a x).toNat < S128x128.size a := fun v7 v9 v11 v13 v15 v17 v19 v21 v171 k0_hw10 => k0_hw10.2.2.2.2.1
theorem k0_idx75_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v17, v171] : Fin 2 → IVec S16 32) a x).toNat < S128x128.size a := fun v7 v9 v11 v13 v15 v17 v19 v21 v171 k0_hw10 => k0_hw10.2.2.2.2.2.1
theorem k0_idx76_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v19, v171] : Fin 2 → IVec S16 32) a x).toNat < S128x128.size a := fun v7 v9 v11 v13 v15 v17 v19 v21 v171 k0_hw10 => k0_hw10.2.2.2.2.2.2.1
theorem k0_idx77_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v21, v171] : Fin 2 → IVec S16 32) a x).toNat < S128x128.size a := fun v7 v9 v11 v13 v15 v17 v19 v21 v171 k0_hw10 => k0_hw10.2.2.2.2.2.2.2.1
theorem k0_idx78_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v7] : Fin 2 → IVec S16 32) a x).toNat < S64x128.size a := fun v7 v9 v11 v13 v15 v17 v19 v21 v171 k0_hw10 => k0_hw10.2.2.2.2.2.2.2.2.1
theorem k0_idx79_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v9] : Fin 2 → IVec S16 32) a x).toNat < S64x128.size a := fun v7 v9 v11 v13 v15 v17 v19 v21 v171 k0_hw10 => k0_hw10.2.2.2.2.2.2.2.2.2.1
theorem k0_idx80_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v11] : Fin 2 → IVec S16 32) a x).toNat < S64x128.size a := fun v7 v9 v11 v13 v15 v17 v19 v21 v171 k0_hw10 => k0_hw10.2.2.2.2.2.2.2.2.2.2.1
theorem k0_idx81_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v13] : Fin 2 → IVec S16 32) a x).toNat < S64x128.size a := fun v7 v9 v11 v13 v15 v17 v19 v21 v171 k0_hw10 => k0_hw10.2.2.2.2.2.2.2.2.2.2.2.1
theorem k0_idx82_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v15] : Fin 2 → IVec S16 32) a x).toNat < S64x128.size a := fun v7 v9 v11 v13 v15 v17 v19 v21 v171 k0_hw10 => k0_hw10.2.2.2.2.2.2.2.2.2.2.2.2.1
theorem k0_idx83_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v17] : Fin 2 → IVec S16 32) a x).toNat < S64x128.size a := fun v7 v9 v11 v13 v15 v17 v19 v21 v171 k0_hw10 => k0_hw10.2.2.2.2.2.2.2.2.2.2.2.2.2.1
theorem k0_idx84_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v19] : Fin 2 → IVec S16 32) a x).toNat < S64x128.size a := fun v7 v9 v11 v13 v15 v17 v19 v21 v171 k0_hw10 => k0_hw10.2.2.2.2.2.2.2.2.2.2.2.2.2.2.1
theorem k0_idx85_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw10 : k0_chk10 v7 v9 v11 v13 v15 v17 v19 v21 v171), ∀ a x, ((![v171, v21] : Fin 2 → IVec S16 32) a x).toNat < S64x128.size a := fun v7 v9 v11 v13 v15 v17 v19 v21 v171 k0_hw10 => k0_hw10.2.2.2.2.2.2.2.2.2.2.2.2.2.2.2

def k0_chk11 (v165 : IVec S16 32) (v226 : IVec S16 32) : Prop :=
  (∀ a x, ((![v165, v226] : Fin 2 → IVec S16 32) a x).toNat < S100x128.size a)
instance k0_chk11.dec : ∀ (v165 : IVec S16 32) (v226 : IVec S16 32), Decidable (k0_chk11 v165 v226) := fun v165 v226 => decidable_of_iff' _ (Iff.of_eq (k0_chk11.eq_1 v165 v226))
theorem k0_idx86_inb : ∀ (v165 : IVec S16 32) (v226 : IVec S16 32) (k0_hw11 : k0_chk11 v165 v226), ∀ a x, ((![v165, v226] : Fin 2 → IVec S16 32) a x).toNat < S100x128.size a := fun v165 v226 k0_hw11 => k0_hw11

def k0_chk12 (v7 : IVec S16 32) (v9 : IVec S16 32) (v11 : IVec S16 32) (v13 : IVec S16 32) (v15 : IVec S16 32) (v17 : IVec S16 32) (v19 : IVec S16 32) (v21 : IVec S16 32) (v224 : IVec S16 32) : Prop :=
  (∀ a x, ((![v7, v224] : Fin 2 → IVec S16 32) a x).toNat < S128x128.size a) ∧
  (∀ a x, ((![v9, v224] : Fin 2 → IVec S16 32) a x).toNat < S128x128.size a) ∧
  (∀ a x, ((![v11, v224] : Fin 2 → IVec S16 32) a x).toNat < S128x128.size a) ∧
  (∀ a x, ((![v13, v224] : Fin 2 → IVec S16 32) a x).toNat < S128x128.size a) ∧
  (∀ a x, ((![v15, v224] : Fin 2 → IVec S16 32) a x).toNat < S128x128.size a) ∧
  (∀ a x, ((![v17, v224] : Fin 2 → IVec S16 32) a x).toNat < S128x128.size a) ∧
  (∀ a x, ((![v19, v224] : Fin 2 → IVec S16 32) a x).toNat < S128x128.size a) ∧
  (∀ a x, ((![v21, v224] : Fin 2 → IVec S16 32) a x).toNat < S128x128.size a) ∧
  (∀ a x, ((![v224, v7] : Fin 2 → IVec S16 32) a x).toNat < S64x128.size a) ∧
  (∀ a x, ((![v224, v9] : Fin 2 → IVec S16 32) a x).toNat < S64x128.size a) ∧
  (∀ a x, ((![v224, v11] : Fin 2 → IVec S16 32) a x).toNat < S64x128.size a) ∧
  (∀ a x, ((![v224, v13] : Fin 2 → IVec S16 32) a x).toNat < S64x128.size a) ∧
  (∀ a x, ((![v224, v15] : Fin 2 → IVec S16 32) a x).toNat < S64x128.size a) ∧
  (∀ a x, ((![v224, v17] : Fin 2 → IVec S16 32) a x).toNat < S64x128.size a) ∧
  (∀ a x, ((![v224, v19] : Fin 2 → IVec S16 32) a x).toNat < S64x128.size a) ∧
  (∀ a x, ((![v224, v21] : Fin 2 → IVec S16 32) a x).toNat < S64x128.size a)
instance k0_chk12.dec : ∀ (v7 : IVec S16 32) (v9 : IVec S16 32) (v11 : IVec S16 32) (v13 : IVec S16 32) (v15 : IVec S16 32) (v17 : IVec S16 32) (v19 : IVec S16 32) (v21 : IVec S16 32) (v224 : IVec S16 32), Decidable (k0_chk12 v7 v9 v11 v13 v15 v17 v19 v21 v224) := fun v7 v9 v11 v13 v15 v17 v19 v21 v224 => decidable_of_iff' _ (Iff.of_eq (k0_chk12.eq_1 v7 v9 v11 v13 v15 v17 v19 v21 v224))
theorem k0_idx87_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v7, v224] : Fin 2 → IVec S16 32) a x).toNat < S128x128.size a := fun v7 v9 v11 v13 v15 v17 v19 v21 v224 k0_hw12 => k0_hw12.1
theorem k0_idx88_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v9, v224] : Fin 2 → IVec S16 32) a x).toNat < S128x128.size a := fun v7 v9 v11 v13 v15 v17 v19 v21 v224 k0_hw12 => k0_hw12.2.1
theorem k0_idx89_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v11, v224] : Fin 2 → IVec S16 32) a x).toNat < S128x128.size a := fun v7 v9 v11 v13 v15 v17 v19 v21 v224 k0_hw12 => k0_hw12.2.2.1
theorem k0_idx90_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v13, v224] : Fin 2 → IVec S16 32) a x).toNat < S128x128.size a := fun v7 v9 v11 v13 v15 v17 v19 v21 v224 k0_hw12 => k0_hw12.2.2.2.1
theorem k0_idx91_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v15, v224] : Fin 2 → IVec S16 32) a x).toNat < S128x128.size a := fun v7 v9 v11 v13 v15 v17 v19 v21 v224 k0_hw12 => k0_hw12.2.2.2.2.1
theorem k0_idx92_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v17, v224] : Fin 2 → IVec S16 32) a x).toNat < S128x128.size a := fun v7 v9 v11 v13 v15 v17 v19 v21 v224 k0_hw12 => k0_hw12.2.2.2.2.2.1
theorem k0_idx93_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v19, v224] : Fin 2 → IVec S16 32) a x).toNat < S128x128.size a := fun v7 v9 v11 v13 v15 v17 v19 v21 v224 k0_hw12 => k0_hw12.2.2.2.2.2.2.1
theorem k0_idx94_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v21, v224] : Fin 2 → IVec S16 32) a x).toNat < S128x128.size a := fun v7 v9 v11 v13 v15 v17 v19 v21 v224 k0_hw12 => k0_hw12.2.2.2.2.2.2.2.1
theorem k0_idx95_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v7] : Fin 2 → IVec S16 32) a x).toNat < S64x128.size a := fun v7 v9 v11 v13 v15 v17 v19 v21 v224 k0_hw12 => k0_hw12.2.2.2.2.2.2.2.2.1
theorem k0_idx96_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v9] : Fin 2 → IVec S16 32) a x).toNat < S64x128.size a := fun v7 v9 v11 v13 v15 v17 v19 v21 v224 k0_hw12 => k0_hw12.2.2.2.2.2.2.2.2.2.1
theorem k0_idx97_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v11] : Fin 2 → IVec S16 32) a x).toNat < S64x128.size a := fun v7 v9 v11 v13 v15 v17 v19 v21 v224 k0_hw12 => k0_hw12.2.2.2.2.2.2.2.2.2.2.1
theorem k0_idx98_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v13] : Fin 2 → IVec S16 32) a x).toNat < S64x128.size a := fun v7 v9 v11 v13 v15 v17 v19 v21 v224 k0_hw12 => k0_hw12.2.2.2.2.2.2.2.2.2.2.2.1
theorem k0_idx99_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v15] : Fin 2 → IVec S16 32) a x).toNat < S64x128.size a := fun v7 v9 v11 v13 v15 v17 v19 v21 v224 k0_hw12 => k0_hw12.2.2.2.2.2.2.2.2.2.2.2.2.1
theorem k0_idx100_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v17] : Fin 2 → IVec S16 32) a x).toNat < S64x128.size a := fun v7 v9 v11 v13 v15 v17 v19 v21 v224 k0_hw12 => k0_hw12.2.2.2.2.2.2.2.2.2.2.2.2.2.1
theorem k0_idx101_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v19] : Fin 2 → IVec S16 32) a x).toNat < S64x128.size a := fun v7 v9 v11 v13 v15 v17 v19 v21 v224 k0_hw12 => k0_hw12.2.2.2.2.2.2.2.2.2.2.2.2.2.2.1
theorem k0_idx102_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw12 : k0_chk12 v7 v9 v11 v13 v15 v17 v19 v21 v224), ∀ a x, ((![v224, v21] : Fin 2 → IVec S16 32) a x).toNat < S64x128.size a := fun v7 v9 v11 v13 v15 v17 v19 v21 v224 k0_hw12 => k0_hw12.2.2.2.2.2.2.2.2.2.2.2.2.2.2.2

def k0_chk13 (v165 : IVec S16 32) (v279 : IVec S16 32) : Prop :=
  (∀ a x, ((![v165, v279] : Fin 2 → IVec S16 32) a x).toNat < S100x128.size a)
instance k0_chk13.dec : ∀ (v165 : IVec S16 32) (v279 : IVec S16 32), Decidable (k0_chk13 v165 v279) := fun v165 v279 => decidable_of_iff' _ (Iff.of_eq (k0_chk13.eq_1 v165 v279))
theorem k0_idx103_inb : ∀ (v165 : IVec S16 32) (v279 : IVec S16 32) (k0_hw13 : k0_chk13 v165 v279), ∀ a x, ((![v165, v279] : Fin 2 → IVec S16 32) a x).toNat < S100x128.size a := fun v165 v279 k0_hw13 => k0_hw13

def k0_chk14 (v7 : IVec S16 32) (v9 : IVec S16 32) (v11 : IVec S16 32) (v13 : IVec S16 32) (v15 : IVec S16 32) (v17 : IVec S16 32) (v19 : IVec S16 32) (v21 : IVec S16 32) (v277 : IVec S16 32) : Prop :=
  (∀ a x, ((![v7, v277] : Fin 2 → IVec S16 32) a x).toNat < S128x128.size a) ∧
  (∀ a x, ((![v9, v277] : Fin 2 → IVec S16 32) a x).toNat < S128x128.size a) ∧
  (∀ a x, ((![v11, v277] : Fin 2 → IVec S16 32) a x).toNat < S128x128.size a) ∧
  (∀ a x, ((![v13, v277] : Fin 2 → IVec S16 32) a x).toNat < S128x128.size a) ∧
  (∀ a x, ((![v15, v277] : Fin 2 → IVec S16 32) a x).toNat < S128x128.size a) ∧
  (∀ a x, ((![v17, v277] : Fin 2 → IVec S16 32) a x).toNat < S128x128.size a) ∧
  (∀ a x, ((![v19, v277] : Fin 2 → IVec S16 32) a x).toNat < S128x128.size a) ∧
  (∀ a x, ((![v21, v277] : Fin 2 → IVec S16 32) a x).toNat < S128x128.size a) ∧
  (∀ a x, ((![v277, v7] : Fin 2 → IVec S16 32) a x).toNat < S64x128.size a) ∧
  (∀ a x, ((![v277, v9] : Fin 2 → IVec S16 32) a x).toNat < S64x128.size a) ∧
  (∀ a x, ((![v277, v11] : Fin 2 → IVec S16 32) a x).toNat < S64x128.size a) ∧
  (∀ a x, ((![v277, v13] : Fin 2 → IVec S16 32) a x).toNat < S64x128.size a) ∧
  (∀ a x, ((![v277, v15] : Fin 2 → IVec S16 32) a x).toNat < S64x128.size a) ∧
  (∀ a x, ((![v277, v17] : Fin 2 → IVec S16 32) a x).toNat < S64x128.size a) ∧
  (∀ a x, ((![v277, v19] : Fin 2 → IVec S16 32) a x).toNat < S64x128.size a) ∧
  (∀ a x, ((![v277, v21] : Fin 2 → IVec S16 32) a x).toNat < S64x128.size a)
instance k0_chk14.dec : ∀ (v7 : IVec S16 32) (v9 : IVec S16 32) (v11 : IVec S16 32) (v13 : IVec S16 32) (v15 : IVec S16 32) (v17 : IVec S16 32) (v19 : IVec S16 32) (v21 : IVec S16 32) (v277 : IVec S16 32), Decidable (k0_chk14 v7 v9 v11 v13 v15 v17 v19 v21 v277) := fun v7 v9 v11 v13 v15 v17 v19 v21 v277 => decidable_of_iff' _ (Iff.of_eq (k0_chk14.eq_1 v7 v9 v11 v13 v15 v17 v19 v21 v277))
theorem k0_idx104_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v7, v277] : Fin 2 → IVec S16 32) a x).toNat < S128x128.size a := fun v7 v9 v11 v13 v15 v17 v19 v21 v277 k0_hw14 => k0_hw14.1
theorem k0_idx105_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v9, v277] : Fin 2 → IVec S16 32) a x).toNat < S128x128.size a := fun v7 v9 v11 v13 v15 v17 v19 v21 v277 k0_hw14 => k0_hw14.2.1
theorem k0_idx106_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v11, v277] : Fin 2 → IVec S16 32) a x).toNat < S128x128.size a := fun v7 v9 v11 v13 v15 v17 v19 v21 v277 k0_hw14 => k0_hw14.2.2.1
theorem k0_idx107_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v13, v277] : Fin 2 → IVec S16 32) a x).toNat < S128x128.size a := fun v7 v9 v11 v13 v15 v17 v19 v21 v277 k0_hw14 => k0_hw14.2.2.2.1
theorem k0_idx108_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v15, v277] : Fin 2 → IVec S16 32) a x).toNat < S128x128.size a := fun v7 v9 v11 v13 v15 v17 v19 v21 v277 k0_hw14 => k0_hw14.2.2.2.2.1
theorem k0_idx109_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v17, v277] : Fin 2 → IVec S16 32) a x).toNat < S128x128.size a := fun v7 v9 v11 v13 v15 v17 v19 v21 v277 k0_hw14 => k0_hw14.2.2.2.2.2.1
theorem k0_idx110_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v19, v277] : Fin 2 → IVec S16 32) a x).toNat < S128x128.size a := fun v7 v9 v11 v13 v15 v17 v19 v21 v277 k0_hw14 => k0_hw14.2.2.2.2.2.2.1
theorem k0_idx111_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v21, v277] : Fin 2 → IVec S16 32) a x).toNat < S128x128.size a := fun v7 v9 v11 v13 v15 v17 v19 v21 v277 k0_hw14 => k0_hw14.2.2.2.2.2.2.2.1
theorem k0_idx112_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v7] : Fin 2 → IVec S16 32) a x).toNat < S64x128.size a := fun v7 v9 v11 v13 v15 v17 v19 v21 v277 k0_hw14 => k0_hw14.2.2.2.2.2.2.2.2.1
theorem k0_idx113_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v9] : Fin 2 → IVec S16 32) a x).toNat < S64x128.size a := fun v7 v9 v11 v13 v15 v17 v19 v21 v277 k0_hw14 => k0_hw14.2.2.2.2.2.2.2.2.2.1
theorem k0_idx114_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v11] : Fin 2 → IVec S16 32) a x).toNat < S64x128.size a := fun v7 v9 v11 v13 v15 v17 v19 v21 v277 k0_hw14 => k0_hw14.2.2.2.2.2.2.2.2.2.2.1
theorem k0_idx115_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v13] : Fin 2 → IVec S16 32) a x).toNat < S64x128.size a := fun v7 v9 v11 v13 v15 v17 v19 v21 v277 k0_hw14 => k0_hw14.2.2.2.2.2.2.2.2.2.2.2.1
theorem k0_idx116_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v15] : Fin 2 → IVec S16 32) a x).toNat < S64x128.size a := fun v7 v9 v11 v13 v15 v17 v19 v21 v277 k0_hw14 => k0_hw14.2.2.2.2.2.2.2.2.2.2.2.2.1
theorem k0_idx117_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v17] : Fin 2 → IVec S16 32) a x).toNat < S64x128.size a := fun v7 v9 v11 v13 v15 v17 v19 v21 v277 k0_hw14 => k0_hw14.2.2.2.2.2.2.2.2.2.2.2.2.2.1
theorem k0_idx118_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v19] : Fin 2 → IVec S16 32) a x).toNat < S64x128.size a := fun v7 v9 v11 v13 v15 v17 v19 v21 v277 k0_hw14 => k0_hw14.2.2.2.2.2.2.2.2.2.2.2.2.2.2.1
theorem k0_idx119_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw14 : k0_chk14 v7 v9 v11 v13 v15 v17 v19 v21 v277), ∀ a x, ((![v277, v21] : Fin 2 → IVec S16 32) a x).toNat < S64x128.size a := fun v7 v9 v11 v13 v15 v17 v19 v21 v277 k0_hw14 => k0_hw14.2.2.2.2.2.2.2.2.2.2.2.2.2.2.2

def k0_chk15 (v165 : IVec S16 32) (v332 : IVec S16 32) : Prop :=
  (∀ a x, ((![v165, v332] : Fin 2 → IVec S16 32) a x).toNat < S100x128.size a)
instance k0_chk15.dec : ∀ (v165 : IVec S16 32) (v332 : IVec S16 32), Decidable (k0_chk15 v165 v332) := fun v165 v332 => decidable_of_iff' _ (Iff.of_eq (k0_chk15.eq_1 v165 v332))
theorem k0_idx120_inb : ∀ (v165 : IVec S16 32) (v332 : IVec S16 32) (k0_hw15 : k0_chk15 v165 v332), ∀ a x, ((![v165, v332] : Fin 2 → IVec S16 32) a x).toNat < S100x128.size a := fun v165 v332 k0_hw15 => k0_hw15

def k0_chk16 (v7 : IVec S16 32) (v9 : IVec S16 32) (v11 : IVec S16 32) (v13 : IVec S16 32) (v15 : IVec S16 32) (v17 : IVec S16 32) (v19 : IVec S16 32) (v21 : IVec S16 32) (v330 : IVec S16 32) : Prop :=
  (∀ a x, ((![v7, v330] : Fin 2 → IVec S16 32) a x).toNat < S128x128.size a) ∧
  (∀ a x, ((![v9, v330] : Fin 2 → IVec S16 32) a x).toNat < S128x128.size a) ∧
  (∀ a x, ((![v11, v330] : Fin 2 → IVec S16 32) a x).toNat < S128x128.size a) ∧
  (∀ a x, ((![v13, v330] : Fin 2 → IVec S16 32) a x).toNat < S128x128.size a) ∧
  (∀ a x, ((![v15, v330] : Fin 2 → IVec S16 32) a x).toNat < S128x128.size a) ∧
  (∀ a x, ((![v17, v330] : Fin 2 → IVec S16 32) a x).toNat < S128x128.size a) ∧
  (∀ a x, ((![v19, v330] : Fin 2 → IVec S16 32) a x).toNat < S128x128.size a) ∧
  (∀ a x, ((![v21, v330] : Fin 2 → IVec S16 32) a x).toNat < S128x128.size a) ∧
  (∀ a x, ((![v330, v7] : Fin 2 → IVec S16 32) a x).toNat < S64x128.size a) ∧
  (∀ a x, ((![v330, v9] : Fin 2 → IVec S16 32) a x).toNat < S64x128.size a) ∧
  (∀ a x, ((![v330, v11] : Fin 2 → IVec S16 32) a x).toNat < S64x128.size a) ∧
  (∀ a x, ((![v330, v13] : Fin 2 → IVec S16 32) a x).toNat < S64x128.size a) ∧
  (∀ a x, ((![v330, v15] : Fin 2 → IVec S16 32) a x).toNat < S64x128.size a) ∧
  (∀ a x, ((![v330, v17] : Fin 2 → IVec S16 32) a x).toNat < S64x128.size a) ∧
  (∀ a x, ((![v330, v19] : Fin 2 → IVec S16 32) a x).toNat < S64x128.size a) ∧
  (∀ a x, ((![v330, v21] : Fin 2 → IVec S16 32) a x).toNat < S64x128.size a)
instance k0_chk16.dec : ∀ (v7 : IVec S16 32) (v9 : IVec S16 32) (v11 : IVec S16 32) (v13 : IVec S16 32) (v15 : IVec S16 32) (v17 : IVec S16 32) (v19 : IVec S16 32) (v21 : IVec S16 32) (v330 : IVec S16 32), Decidable (k0_chk16 v7 v9 v11 v13 v15 v17 v19 v21 v330) := fun v7 v9 v11 v13 v15 v17 v19 v21 v330 => decidable_of_iff' _ (Iff.of_eq (k0_chk16.eq_1 v7 v9 v11 v13 v15 v17 v19 v21 v330))
theorem k0_idx121_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v7, v330] : Fin 2 → IVec S16 32) a x).toNat < S128x128.size a := fun v7 v9 v11 v13 v15 v17 v19 v21 v330 k0_hw16 => k0_hw16.1
theorem k0_idx122_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v9, v330] : Fin 2 → IVec S16 32) a x).toNat < S128x128.size a := fun v7 v9 v11 v13 v15 v17 v19 v21 v330 k0_hw16 => k0_hw16.2.1
theorem k0_idx123_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v11, v330] : Fin 2 → IVec S16 32) a x).toNat < S128x128.size a := fun v7 v9 v11 v13 v15 v17 v19 v21 v330 k0_hw16 => k0_hw16.2.2.1
theorem k0_idx124_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v13, v330] : Fin 2 → IVec S16 32) a x).toNat < S128x128.size a := fun v7 v9 v11 v13 v15 v17 v19 v21 v330 k0_hw16 => k0_hw16.2.2.2.1
theorem k0_idx125_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v15, v330] : Fin 2 → IVec S16 32) a x).toNat < S128x128.size a := fun v7 v9 v11 v13 v15 v17 v19 v21 v330 k0_hw16 => k0_hw16.2.2.2.2.1
theorem k0_idx126_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v17, v330] : Fin 2 → IVec S16 32) a x).toNat < S128x128.size a := fun v7 v9 v11 v13 v15 v17 v19 v21 v330 k0_hw16 => k0_hw16.2.2.2.2.2.1
theorem k0_idx127_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v19, v330] : Fin 2 → IVec S16 32) a x).toNat < S128x128.size a := fun v7 v9 v11 v13 v15 v17 v19 v21 v330 k0_hw16 => k0_hw16.2.2.2.2.2.2.1
theorem k0_idx128_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v21, v330] : Fin 2 → IVec S16 32) a x).toNat < S128x128.size a := fun v7 v9 v11 v13 v15 v17 v19 v21 v330 k0_hw16 => k0_hw16.2.2.2.2.2.2.2.1
theorem k0_idx129_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v7] : Fin 2 → IVec S16 32) a x).toNat < S64x128.size a := fun v7 v9 v11 v13 v15 v17 v19 v21 v330 k0_hw16 => k0_hw16.2.2.2.2.2.2.2.2.1
theorem k0_idx130_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v9] : Fin 2 → IVec S16 32) a x).toNat < S64x128.size a := fun v7 v9 v11 v13 v15 v17 v19 v21 v330 k0_hw16 => k0_hw16.2.2.2.2.2.2.2.2.2.1
theorem k0_idx131_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v11] : Fin 2 → IVec S16 32) a x).toNat < S64x128.size a := fun v7 v9 v11 v13 v15 v17 v19 v21 v330 k0_hw16 => k0_hw16.2.2.2.2.2.2.2.2.2.2.1
theorem k0_idx132_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v13] : Fin 2 → IVec S16 32) a x).toNat < S64x128.size a := fun v7 v9 v11 v13 v15 v17 v19 v21 v330 k0_hw16 => k0_hw16.2.2.2.2.2.2.2.2.2.2.2.1
theorem k0_idx133_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v15] : Fin 2 → IVec S16 32) a x).toNat < S64x128.size a := fun v7 v9 v11 v13 v15 v17 v19 v21 v330 k0_hw16 => k0_hw16.2.2.2.2.2.2.2.2.2.2.2.2.1
theorem k0_idx134_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v17] : Fin 2 → IVec S16 32) a x).toNat < S64x128.size a := fun v7 v9 v11 v13 v15 v17 v19 v21 v330 k0_hw16 => k0_hw16.2.2.2.2.2.2.2.2.2.2.2.2.2.1
theorem k0_idx135_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v19] : Fin 2 → IVec S16 32) a x).toNat < S64x128.size a := fun v7 v9 v11 v13 v15 v17 v19 v21 v330 k0_hw16 => k0_hw16.2.2.2.2.2.2.2.2.2.2.2.2.2.2.1
theorem k0_idx136_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw16 : k0_chk16 v7 v9 v11 v13 v15 v17 v19 v21 v330), ∀ a x, ((![v330, v21] : Fin 2 → IVec S16 32) a x).toNat < S64x128.size a := fun v7 v9 v11 v13 v15 v17 v19 v21 v330 k0_hw16 => k0_hw16.2.2.2.2.2.2.2.2.2.2.2.2.2.2.2
def k0_cond4 (k0_t1 : Fin k0_t1_loop.trips) : BitVec 1 :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c1_i32_78 : BitVec 32 := 1#32
  let v87 : BitVec 32 := Scalar.addi v61 c1_i32_78
  let c4_i32_102 : BitVec 32 := 4#32
  let v108 : BitVec 32 := Scalar.addi v87 c4_i32_102
  let c200_i32_103 : BitVec 32 := 200#32
  let v109 : BitVec 1 := Scalar.cmpi .slt v108 c200_i32_103
  let v110 : BitVec 32 := Scalar.extui v109
  let c0_i32_104 : BitVec 32 := 0#32
  let v111 : BitVec 1 := Scalar.cmpi .ne v110 c0_i32_104
  v111

def k0_off4 (k0_t1 : Fin k0_t1_loop.trips) : Fin 2 → Nat :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c1_i32_78 : BitVec 32 := 1#32
  let v87 : BitVec 32 := Scalar.addi v61 c1_i32_78
  let c4_i32_159 : BitVec 32 := 4#32
  let v162 : BitVec 32 := Scalar.addi v87 c4_i32_159
  let c0_i32_163 : BitVec 32 := 0#32
  ![v162.toNat, 0]
@[reducible] def k0_t4_loop : Scf.Loop 32 :=
  let c0_i32_118 : BitVec 32 := 0#32
  let c16_i32_119 : BitVec 32 := 16#32
  let v124 : BitVec 32 := Scalar.addi c0_i32_118 c16_i32_119
  let c1_i32_120 : BitVec 32 := 1#32
  ⟨c0_i32_118, v124, c1_i32_120⟩

def k0_chk17 (v165 : IVec S16 32) (v173 : IVec S16 32) : Prop :=
  (∀ a x, ((![v165, v173] : Fin 2 → IVec S16 32) a x).toNat < S100x128.size a)
instance k0_chk17.dec : ∀ (v165 : IVec S16 32) (v173 : IVec S16 32), Decidable (k0_chk17 v165 v173) := fun v165 v173 => decidable_of_iff' _ (Iff.of_eq (k0_chk17.eq_1 v165 v173))
theorem k0_idx137_inb : ∀ (v165 : IVec S16 32) (v173 : IVec S16 32) (k0_hw17 : k0_chk17 v165 v173), ∀ a x, ((![v165, v173] : Fin 2 → IVec S16 32) a x).toNat < S100x128.size a := fun v165 v173 k0_hw17 => k0_hw17

def k0_chk18 (v7 : IVec S16 32) (v9 : IVec S16 32) (v11 : IVec S16 32) (v13 : IVec S16 32) (v15 : IVec S16 32) (v17 : IVec S16 32) (v19 : IVec S16 32) (v21 : IVec S16 32) (v171 : IVec S16 32) : Prop :=
  (∀ a x, ((![v7, v171] : Fin 2 → IVec S16 32) a x).toNat < S128x128.size a) ∧
  (∀ a x, ((![v9, v171] : Fin 2 → IVec S16 32) a x).toNat < S128x128.size a) ∧
  (∀ a x, ((![v11, v171] : Fin 2 → IVec S16 32) a x).toNat < S128x128.size a) ∧
  (∀ a x, ((![v13, v171] : Fin 2 → IVec S16 32) a x).toNat < S128x128.size a) ∧
  (∀ a x, ((![v15, v171] : Fin 2 → IVec S16 32) a x).toNat < S128x128.size a) ∧
  (∀ a x, ((![v17, v171] : Fin 2 → IVec S16 32) a x).toNat < S128x128.size a) ∧
  (∀ a x, ((![v19, v171] : Fin 2 → IVec S16 32) a x).toNat < S128x128.size a) ∧
  (∀ a x, ((![v21, v171] : Fin 2 → IVec S16 32) a x).toNat < S128x128.size a) ∧
  (∀ a x, ((![v171, v7] : Fin 2 → IVec S16 32) a x).toNat < S64x128.size a) ∧
  (∀ a x, ((![v171, v9] : Fin 2 → IVec S16 32) a x).toNat < S64x128.size a) ∧
  (∀ a x, ((![v171, v11] : Fin 2 → IVec S16 32) a x).toNat < S64x128.size a) ∧
  (∀ a x, ((![v171, v13] : Fin 2 → IVec S16 32) a x).toNat < S64x128.size a) ∧
  (∀ a x, ((![v171, v15] : Fin 2 → IVec S16 32) a x).toNat < S64x128.size a) ∧
  (∀ a x, ((![v171, v17] : Fin 2 → IVec S16 32) a x).toNat < S64x128.size a) ∧
  (∀ a x, ((![v171, v19] : Fin 2 → IVec S16 32) a x).toNat < S64x128.size a) ∧
  (∀ a x, ((![v171, v21] : Fin 2 → IVec S16 32) a x).toNat < S64x128.size a)
instance k0_chk18.dec : ∀ (v7 : IVec S16 32) (v9 : IVec S16 32) (v11 : IVec S16 32) (v13 : IVec S16 32) (v15 : IVec S16 32) (v17 : IVec S16 32) (v19 : IVec S16 32) (v21 : IVec S16 32) (v171 : IVec S16 32), Decidable (k0_chk18 v7 v9 v11 v13 v15 v17 v19 v21 v171) := fun v7 v9 v11 v13 v15 v17 v19 v21 v171 => decidable_of_iff' _ (Iff.of_eq (k0_chk18.eq_1 v7 v9 v11 v13 v15 v17 v19 v21 v171))
theorem k0_idx138_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v7, v171] : Fin 2 → IVec S16 32) a x).toNat < S128x128.size a := fun v7 v9 v11 v13 v15 v17 v19 v21 v171 k0_hw18 => k0_hw18.1
theorem k0_idx139_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v9, v171] : Fin 2 → IVec S16 32) a x).toNat < S128x128.size a := fun v7 v9 v11 v13 v15 v17 v19 v21 v171 k0_hw18 => k0_hw18.2.1
theorem k0_idx140_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v11, v171] : Fin 2 → IVec S16 32) a x).toNat < S128x128.size a := fun v7 v9 v11 v13 v15 v17 v19 v21 v171 k0_hw18 => k0_hw18.2.2.1
theorem k0_idx141_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v13, v171] : Fin 2 → IVec S16 32) a x).toNat < S128x128.size a := fun v7 v9 v11 v13 v15 v17 v19 v21 v171 k0_hw18 => k0_hw18.2.2.2.1
theorem k0_idx142_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v15, v171] : Fin 2 → IVec S16 32) a x).toNat < S128x128.size a := fun v7 v9 v11 v13 v15 v17 v19 v21 v171 k0_hw18 => k0_hw18.2.2.2.2.1
theorem k0_idx143_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v17, v171] : Fin 2 → IVec S16 32) a x).toNat < S128x128.size a := fun v7 v9 v11 v13 v15 v17 v19 v21 v171 k0_hw18 => k0_hw18.2.2.2.2.2.1
theorem k0_idx144_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v19, v171] : Fin 2 → IVec S16 32) a x).toNat < S128x128.size a := fun v7 v9 v11 v13 v15 v17 v19 v21 v171 k0_hw18 => k0_hw18.2.2.2.2.2.2.1
theorem k0_idx145_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v21, v171] : Fin 2 → IVec S16 32) a x).toNat < S128x128.size a := fun v7 v9 v11 v13 v15 v17 v19 v21 v171 k0_hw18 => k0_hw18.2.2.2.2.2.2.2.1
theorem k0_idx146_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v7] : Fin 2 → IVec S16 32) a x).toNat < S64x128.size a := fun v7 v9 v11 v13 v15 v17 v19 v21 v171 k0_hw18 => k0_hw18.2.2.2.2.2.2.2.2.1
theorem k0_idx147_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v9] : Fin 2 → IVec S16 32) a x).toNat < S64x128.size a := fun v7 v9 v11 v13 v15 v17 v19 v21 v171 k0_hw18 => k0_hw18.2.2.2.2.2.2.2.2.2.1
theorem k0_idx148_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v11] : Fin 2 → IVec S16 32) a x).toNat < S64x128.size a := fun v7 v9 v11 v13 v15 v17 v19 v21 v171 k0_hw18 => k0_hw18.2.2.2.2.2.2.2.2.2.2.1
theorem k0_idx149_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v13] : Fin 2 → IVec S16 32) a x).toNat < S64x128.size a := fun v7 v9 v11 v13 v15 v17 v19 v21 v171 k0_hw18 => k0_hw18.2.2.2.2.2.2.2.2.2.2.2.1
theorem k0_idx150_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v15] : Fin 2 → IVec S16 32) a x).toNat < S64x128.size a := fun v7 v9 v11 v13 v15 v17 v19 v21 v171 k0_hw18 => k0_hw18.2.2.2.2.2.2.2.2.2.2.2.2.1
theorem k0_idx151_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v17] : Fin 2 → IVec S16 32) a x).toNat < S64x128.size a := fun v7 v9 v11 v13 v15 v17 v19 v21 v171 k0_hw18 => k0_hw18.2.2.2.2.2.2.2.2.2.2.2.2.2.1
theorem k0_idx152_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v19] : Fin 2 → IVec S16 32) a x).toNat < S64x128.size a := fun v7 v9 v11 v13 v15 v17 v19 v21 v171 k0_hw18 => k0_hw18.2.2.2.2.2.2.2.2.2.2.2.2.2.2.1
theorem k0_idx153_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw18 : k0_chk18 v7 v9 v11 v13 v15 v17 v19 v21 v171), ∀ a x, ((![v171, v21] : Fin 2 → IVec S16 32) a x).toNat < S64x128.size a := fun v7 v9 v11 v13 v15 v17 v19 v21 v171 k0_hw18 => k0_hw18.2.2.2.2.2.2.2.2.2.2.2.2.2.2.2

def k0_chk19 (v165 : IVec S16 32) (v226 : IVec S16 32) : Prop :=
  (∀ a x, ((![v165, v226] : Fin 2 → IVec S16 32) a x).toNat < S100x128.size a)
instance k0_chk19.dec : ∀ (v165 : IVec S16 32) (v226 : IVec S16 32), Decidable (k0_chk19 v165 v226) := fun v165 v226 => decidable_of_iff' _ (Iff.of_eq (k0_chk19.eq_1 v165 v226))
theorem k0_idx154_inb : ∀ (v165 : IVec S16 32) (v226 : IVec S16 32) (k0_hw19 : k0_chk19 v165 v226), ∀ a x, ((![v165, v226] : Fin 2 → IVec S16 32) a x).toNat < S100x128.size a := fun v165 v226 k0_hw19 => k0_hw19

def k0_chk20 (v7 : IVec S16 32) (v9 : IVec S16 32) (v11 : IVec S16 32) (v13 : IVec S16 32) (v15 : IVec S16 32) (v17 : IVec S16 32) (v19 : IVec S16 32) (v21 : IVec S16 32) (v224 : IVec S16 32) : Prop :=
  (∀ a x, ((![v7, v224] : Fin 2 → IVec S16 32) a x).toNat < S128x128.size a) ∧
  (∀ a x, ((![v9, v224] : Fin 2 → IVec S16 32) a x).toNat < S128x128.size a) ∧
  (∀ a x, ((![v11, v224] : Fin 2 → IVec S16 32) a x).toNat < S128x128.size a) ∧
  (∀ a x, ((![v13, v224] : Fin 2 → IVec S16 32) a x).toNat < S128x128.size a) ∧
  (∀ a x, ((![v15, v224] : Fin 2 → IVec S16 32) a x).toNat < S128x128.size a) ∧
  (∀ a x, ((![v17, v224] : Fin 2 → IVec S16 32) a x).toNat < S128x128.size a) ∧
  (∀ a x, ((![v19, v224] : Fin 2 → IVec S16 32) a x).toNat < S128x128.size a) ∧
  (∀ a x, ((![v21, v224] : Fin 2 → IVec S16 32) a x).toNat < S128x128.size a) ∧
  (∀ a x, ((![v224, v7] : Fin 2 → IVec S16 32) a x).toNat < S64x128.size a) ∧
  (∀ a x, ((![v224, v9] : Fin 2 → IVec S16 32) a x).toNat < S64x128.size a) ∧
  (∀ a x, ((![v224, v11] : Fin 2 → IVec S16 32) a x).toNat < S64x128.size a) ∧
  (∀ a x, ((![v224, v13] : Fin 2 → IVec S16 32) a x).toNat < S64x128.size a) ∧
  (∀ a x, ((![v224, v15] : Fin 2 → IVec S16 32) a x).toNat < S64x128.size a) ∧
  (∀ a x, ((![v224, v17] : Fin 2 → IVec S16 32) a x).toNat < S64x128.size a) ∧
  (∀ a x, ((![v224, v19] : Fin 2 → IVec S16 32) a x).toNat < S64x128.size a) ∧
  (∀ a x, ((![v224, v21] : Fin 2 → IVec S16 32) a x).toNat < S64x128.size a)
instance k0_chk20.dec : ∀ (v7 : IVec S16 32) (v9 : IVec S16 32) (v11 : IVec S16 32) (v13 : IVec S16 32) (v15 : IVec S16 32) (v17 : IVec S16 32) (v19 : IVec S16 32) (v21 : IVec S16 32) (v224 : IVec S16 32), Decidable (k0_chk20 v7 v9 v11 v13 v15 v17 v19 v21 v224) := fun v7 v9 v11 v13 v15 v17 v19 v21 v224 => decidable_of_iff' _ (Iff.of_eq (k0_chk20.eq_1 v7 v9 v11 v13 v15 v17 v19 v21 v224))
theorem k0_idx155_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v7, v224] : Fin 2 → IVec S16 32) a x).toNat < S128x128.size a := fun v7 v9 v11 v13 v15 v17 v19 v21 v224 k0_hw20 => k0_hw20.1
theorem k0_idx156_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v9, v224] : Fin 2 → IVec S16 32) a x).toNat < S128x128.size a := fun v7 v9 v11 v13 v15 v17 v19 v21 v224 k0_hw20 => k0_hw20.2.1
theorem k0_idx157_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v11, v224] : Fin 2 → IVec S16 32) a x).toNat < S128x128.size a := fun v7 v9 v11 v13 v15 v17 v19 v21 v224 k0_hw20 => k0_hw20.2.2.1
theorem k0_idx158_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v13, v224] : Fin 2 → IVec S16 32) a x).toNat < S128x128.size a := fun v7 v9 v11 v13 v15 v17 v19 v21 v224 k0_hw20 => k0_hw20.2.2.2.1
theorem k0_idx159_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v15, v224] : Fin 2 → IVec S16 32) a x).toNat < S128x128.size a := fun v7 v9 v11 v13 v15 v17 v19 v21 v224 k0_hw20 => k0_hw20.2.2.2.2.1
theorem k0_idx160_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v17, v224] : Fin 2 → IVec S16 32) a x).toNat < S128x128.size a := fun v7 v9 v11 v13 v15 v17 v19 v21 v224 k0_hw20 => k0_hw20.2.2.2.2.2.1
theorem k0_idx161_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v19, v224] : Fin 2 → IVec S16 32) a x).toNat < S128x128.size a := fun v7 v9 v11 v13 v15 v17 v19 v21 v224 k0_hw20 => k0_hw20.2.2.2.2.2.2.1
theorem k0_idx162_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v21, v224] : Fin 2 → IVec S16 32) a x).toNat < S128x128.size a := fun v7 v9 v11 v13 v15 v17 v19 v21 v224 k0_hw20 => k0_hw20.2.2.2.2.2.2.2.1
theorem k0_idx163_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v7] : Fin 2 → IVec S16 32) a x).toNat < S64x128.size a := fun v7 v9 v11 v13 v15 v17 v19 v21 v224 k0_hw20 => k0_hw20.2.2.2.2.2.2.2.2.1
theorem k0_idx164_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v9] : Fin 2 → IVec S16 32) a x).toNat < S64x128.size a := fun v7 v9 v11 v13 v15 v17 v19 v21 v224 k0_hw20 => k0_hw20.2.2.2.2.2.2.2.2.2.1
theorem k0_idx165_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v11] : Fin 2 → IVec S16 32) a x).toNat < S64x128.size a := fun v7 v9 v11 v13 v15 v17 v19 v21 v224 k0_hw20 => k0_hw20.2.2.2.2.2.2.2.2.2.2.1
theorem k0_idx166_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v13] : Fin 2 → IVec S16 32) a x).toNat < S64x128.size a := fun v7 v9 v11 v13 v15 v17 v19 v21 v224 k0_hw20 => k0_hw20.2.2.2.2.2.2.2.2.2.2.2.1
theorem k0_idx167_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v15] : Fin 2 → IVec S16 32) a x).toNat < S64x128.size a := fun v7 v9 v11 v13 v15 v17 v19 v21 v224 k0_hw20 => k0_hw20.2.2.2.2.2.2.2.2.2.2.2.2.1
theorem k0_idx168_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v17] : Fin 2 → IVec S16 32) a x).toNat < S64x128.size a := fun v7 v9 v11 v13 v15 v17 v19 v21 v224 k0_hw20 => k0_hw20.2.2.2.2.2.2.2.2.2.2.2.2.2.1
theorem k0_idx169_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v19] : Fin 2 → IVec S16 32) a x).toNat < S64x128.size a := fun v7 v9 v11 v13 v15 v17 v19 v21 v224 k0_hw20 => k0_hw20.2.2.2.2.2.2.2.2.2.2.2.2.2.2.1
theorem k0_idx170_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw20 : k0_chk20 v7 v9 v11 v13 v15 v17 v19 v21 v224), ∀ a x, ((![v224, v21] : Fin 2 → IVec S16 32) a x).toNat < S64x128.size a := fun v7 v9 v11 v13 v15 v17 v19 v21 v224 k0_hw20 => k0_hw20.2.2.2.2.2.2.2.2.2.2.2.2.2.2.2

def k0_chk21 (v165 : IVec S16 32) (v279 : IVec S16 32) : Prop :=
  (∀ a x, ((![v165, v279] : Fin 2 → IVec S16 32) a x).toNat < S100x128.size a)
instance k0_chk21.dec : ∀ (v165 : IVec S16 32) (v279 : IVec S16 32), Decidable (k0_chk21 v165 v279) := fun v165 v279 => decidable_of_iff' _ (Iff.of_eq (k0_chk21.eq_1 v165 v279))
theorem k0_idx171_inb : ∀ (v165 : IVec S16 32) (v279 : IVec S16 32) (k0_hw21 : k0_chk21 v165 v279), ∀ a x, ((![v165, v279] : Fin 2 → IVec S16 32) a x).toNat < S100x128.size a := fun v165 v279 k0_hw21 => k0_hw21

def k0_chk22 (v7 : IVec S16 32) (v9 : IVec S16 32) (v11 : IVec S16 32) (v13 : IVec S16 32) (v15 : IVec S16 32) (v17 : IVec S16 32) (v19 : IVec S16 32) (v21 : IVec S16 32) (v277 : IVec S16 32) : Prop :=
  (∀ a x, ((![v7, v277] : Fin 2 → IVec S16 32) a x).toNat < S128x128.size a) ∧
  (∀ a x, ((![v9, v277] : Fin 2 → IVec S16 32) a x).toNat < S128x128.size a) ∧
  (∀ a x, ((![v11, v277] : Fin 2 → IVec S16 32) a x).toNat < S128x128.size a) ∧
  (∀ a x, ((![v13, v277] : Fin 2 → IVec S16 32) a x).toNat < S128x128.size a) ∧
  (∀ a x, ((![v15, v277] : Fin 2 → IVec S16 32) a x).toNat < S128x128.size a) ∧
  (∀ a x, ((![v17, v277] : Fin 2 → IVec S16 32) a x).toNat < S128x128.size a) ∧
  (∀ a x, ((![v19, v277] : Fin 2 → IVec S16 32) a x).toNat < S128x128.size a) ∧
  (∀ a x, ((![v21, v277] : Fin 2 → IVec S16 32) a x).toNat < S128x128.size a) ∧
  (∀ a x, ((![v277, v7] : Fin 2 → IVec S16 32) a x).toNat < S64x128.size a) ∧
  (∀ a x, ((![v277, v9] : Fin 2 → IVec S16 32) a x).toNat < S64x128.size a) ∧
  (∀ a x, ((![v277, v11] : Fin 2 → IVec S16 32) a x).toNat < S64x128.size a) ∧
  (∀ a x, ((![v277, v13] : Fin 2 → IVec S16 32) a x).toNat < S64x128.size a) ∧
  (∀ a x, ((![v277, v15] : Fin 2 → IVec S16 32) a x).toNat < S64x128.size a) ∧
  (∀ a x, ((![v277, v17] : Fin 2 → IVec S16 32) a x).toNat < S64x128.size a) ∧
  (∀ a x, ((![v277, v19] : Fin 2 → IVec S16 32) a x).toNat < S64x128.size a) ∧
  (∀ a x, ((![v277, v21] : Fin 2 → IVec S16 32) a x).toNat < S64x128.size a)
instance k0_chk22.dec : ∀ (v7 : IVec S16 32) (v9 : IVec S16 32) (v11 : IVec S16 32) (v13 : IVec S16 32) (v15 : IVec S16 32) (v17 : IVec S16 32) (v19 : IVec S16 32) (v21 : IVec S16 32) (v277 : IVec S16 32), Decidable (k0_chk22 v7 v9 v11 v13 v15 v17 v19 v21 v277) := fun v7 v9 v11 v13 v15 v17 v19 v21 v277 => decidable_of_iff' _ (Iff.of_eq (k0_chk22.eq_1 v7 v9 v11 v13 v15 v17 v19 v21 v277))
theorem k0_idx172_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v7, v277] : Fin 2 → IVec S16 32) a x).toNat < S128x128.size a := fun v7 v9 v11 v13 v15 v17 v19 v21 v277 k0_hw22 => k0_hw22.1
theorem k0_idx173_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v9, v277] : Fin 2 → IVec S16 32) a x).toNat < S128x128.size a := fun v7 v9 v11 v13 v15 v17 v19 v21 v277 k0_hw22 => k0_hw22.2.1
theorem k0_idx174_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v11, v277] : Fin 2 → IVec S16 32) a x).toNat < S128x128.size a := fun v7 v9 v11 v13 v15 v17 v19 v21 v277 k0_hw22 => k0_hw22.2.2.1
theorem k0_idx175_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v13, v277] : Fin 2 → IVec S16 32) a x).toNat < S128x128.size a := fun v7 v9 v11 v13 v15 v17 v19 v21 v277 k0_hw22 => k0_hw22.2.2.2.1
theorem k0_idx176_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v15, v277] : Fin 2 → IVec S16 32) a x).toNat < S128x128.size a := fun v7 v9 v11 v13 v15 v17 v19 v21 v277 k0_hw22 => k0_hw22.2.2.2.2.1
theorem k0_idx177_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v17, v277] : Fin 2 → IVec S16 32) a x).toNat < S128x128.size a := fun v7 v9 v11 v13 v15 v17 v19 v21 v277 k0_hw22 => k0_hw22.2.2.2.2.2.1
theorem k0_idx178_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v19, v277] : Fin 2 → IVec S16 32) a x).toNat < S128x128.size a := fun v7 v9 v11 v13 v15 v17 v19 v21 v277 k0_hw22 => k0_hw22.2.2.2.2.2.2.1
theorem k0_idx179_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v21, v277] : Fin 2 → IVec S16 32) a x).toNat < S128x128.size a := fun v7 v9 v11 v13 v15 v17 v19 v21 v277 k0_hw22 => k0_hw22.2.2.2.2.2.2.2.1
theorem k0_idx180_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v7] : Fin 2 → IVec S16 32) a x).toNat < S64x128.size a := fun v7 v9 v11 v13 v15 v17 v19 v21 v277 k0_hw22 => k0_hw22.2.2.2.2.2.2.2.2.1
theorem k0_idx181_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v9] : Fin 2 → IVec S16 32) a x).toNat < S64x128.size a := fun v7 v9 v11 v13 v15 v17 v19 v21 v277 k0_hw22 => k0_hw22.2.2.2.2.2.2.2.2.2.1
theorem k0_idx182_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v11] : Fin 2 → IVec S16 32) a x).toNat < S64x128.size a := fun v7 v9 v11 v13 v15 v17 v19 v21 v277 k0_hw22 => k0_hw22.2.2.2.2.2.2.2.2.2.2.1
theorem k0_idx183_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v13] : Fin 2 → IVec S16 32) a x).toNat < S64x128.size a := fun v7 v9 v11 v13 v15 v17 v19 v21 v277 k0_hw22 => k0_hw22.2.2.2.2.2.2.2.2.2.2.2.1
theorem k0_idx184_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v15] : Fin 2 → IVec S16 32) a x).toNat < S64x128.size a := fun v7 v9 v11 v13 v15 v17 v19 v21 v277 k0_hw22 => k0_hw22.2.2.2.2.2.2.2.2.2.2.2.2.1
theorem k0_idx185_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v17] : Fin 2 → IVec S16 32) a x).toNat < S64x128.size a := fun v7 v9 v11 v13 v15 v17 v19 v21 v277 k0_hw22 => k0_hw22.2.2.2.2.2.2.2.2.2.2.2.2.2.1
theorem k0_idx186_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v19] : Fin 2 → IVec S16 32) a x).toNat < S64x128.size a := fun v7 v9 v11 v13 v15 v17 v19 v21 v277 k0_hw22 => k0_hw22.2.2.2.2.2.2.2.2.2.2.2.2.2.2.1
theorem k0_idx187_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw22 : k0_chk22 v7 v9 v11 v13 v15 v17 v19 v21 v277), ∀ a x, ((![v277, v21] : Fin 2 → IVec S16 32) a x).toNat < S64x128.size a := fun v7 v9 v11 v13 v15 v17 v19 v21 v277 k0_hw22 => k0_hw22.2.2.2.2.2.2.2.2.2.2.2.2.2.2.2

def k0_chk23 (v165 : IVec S16 32) (v332 : IVec S16 32) : Prop :=
  (∀ a x, ((![v165, v332] : Fin 2 → IVec S16 32) a x).toNat < S100x128.size a)
instance k0_chk23.dec : ∀ (v165 : IVec S16 32) (v332 : IVec S16 32), Decidable (k0_chk23 v165 v332) := fun v165 v332 => decidable_of_iff' _ (Iff.of_eq (k0_chk23.eq_1 v165 v332))
theorem k0_idx188_inb : ∀ (v165 : IVec S16 32) (v332 : IVec S16 32) (k0_hw23 : k0_chk23 v165 v332), ∀ a x, ((![v165, v332] : Fin 2 → IVec S16 32) a x).toNat < S100x128.size a := fun v165 v332 k0_hw23 => k0_hw23

def k0_chk24 (v7 : IVec S16 32) (v9 : IVec S16 32) (v11 : IVec S16 32) (v13 : IVec S16 32) (v15 : IVec S16 32) (v17 : IVec S16 32) (v19 : IVec S16 32) (v21 : IVec S16 32) (v330 : IVec S16 32) : Prop :=
  (∀ a x, ((![v7, v330] : Fin 2 → IVec S16 32) a x).toNat < S128x128.size a) ∧
  (∀ a x, ((![v9, v330] : Fin 2 → IVec S16 32) a x).toNat < S128x128.size a) ∧
  (∀ a x, ((![v11, v330] : Fin 2 → IVec S16 32) a x).toNat < S128x128.size a) ∧
  (∀ a x, ((![v13, v330] : Fin 2 → IVec S16 32) a x).toNat < S128x128.size a) ∧
  (∀ a x, ((![v15, v330] : Fin 2 → IVec S16 32) a x).toNat < S128x128.size a) ∧
  (∀ a x, ((![v17, v330] : Fin 2 → IVec S16 32) a x).toNat < S128x128.size a) ∧
  (∀ a x, ((![v19, v330] : Fin 2 → IVec S16 32) a x).toNat < S128x128.size a) ∧
  (∀ a x, ((![v21, v330] : Fin 2 → IVec S16 32) a x).toNat < S128x128.size a) ∧
  (∀ a x, ((![v330, v7] : Fin 2 → IVec S16 32) a x).toNat < S64x128.size a) ∧
  (∀ a x, ((![v330, v9] : Fin 2 → IVec S16 32) a x).toNat < S64x128.size a) ∧
  (∀ a x, ((![v330, v11] : Fin 2 → IVec S16 32) a x).toNat < S64x128.size a) ∧
  (∀ a x, ((![v330, v13] : Fin 2 → IVec S16 32) a x).toNat < S64x128.size a) ∧
  (∀ a x, ((![v330, v15] : Fin 2 → IVec S16 32) a x).toNat < S64x128.size a) ∧
  (∀ a x, ((![v330, v17] : Fin 2 → IVec S16 32) a x).toNat < S64x128.size a) ∧
  (∀ a x, ((![v330, v19] : Fin 2 → IVec S16 32) a x).toNat < S64x128.size a) ∧
  (∀ a x, ((![v330, v21] : Fin 2 → IVec S16 32) a x).toNat < S64x128.size a)
instance k0_chk24.dec : ∀ (v7 : IVec S16 32) (v9 : IVec S16 32) (v11 : IVec S16 32) (v13 : IVec S16 32) (v15 : IVec S16 32) (v17 : IVec S16 32) (v19 : IVec S16 32) (v21 : IVec S16 32) (v330 : IVec S16 32), Decidable (k0_chk24 v7 v9 v11 v13 v15 v17 v19 v21 v330) := fun v7 v9 v11 v13 v15 v17 v19 v21 v330 => decidable_of_iff' _ (Iff.of_eq (k0_chk24.eq_1 v7 v9 v11 v13 v15 v17 v19 v21 v330))
theorem k0_idx189_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v7, v330] : Fin 2 → IVec S16 32) a x).toNat < S128x128.size a := fun v7 v9 v11 v13 v15 v17 v19 v21 v330 k0_hw24 => k0_hw24.1
theorem k0_idx190_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v9, v330] : Fin 2 → IVec S16 32) a x).toNat < S128x128.size a := fun v7 v9 v11 v13 v15 v17 v19 v21 v330 k0_hw24 => k0_hw24.2.1
theorem k0_idx191_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v11, v330] : Fin 2 → IVec S16 32) a x).toNat < S128x128.size a := fun v7 v9 v11 v13 v15 v17 v19 v21 v330 k0_hw24 => k0_hw24.2.2.1
theorem k0_idx192_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v13, v330] : Fin 2 → IVec S16 32) a x).toNat < S128x128.size a := fun v7 v9 v11 v13 v15 v17 v19 v21 v330 k0_hw24 => k0_hw24.2.2.2.1
theorem k0_idx193_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v15, v330] : Fin 2 → IVec S16 32) a x).toNat < S128x128.size a := fun v7 v9 v11 v13 v15 v17 v19 v21 v330 k0_hw24 => k0_hw24.2.2.2.2.1
theorem k0_idx194_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v17, v330] : Fin 2 → IVec S16 32) a x).toNat < S128x128.size a := fun v7 v9 v11 v13 v15 v17 v19 v21 v330 k0_hw24 => k0_hw24.2.2.2.2.2.1
theorem k0_idx195_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v19, v330] : Fin 2 → IVec S16 32) a x).toNat < S128x128.size a := fun v7 v9 v11 v13 v15 v17 v19 v21 v330 k0_hw24 => k0_hw24.2.2.2.2.2.2.1
theorem k0_idx196_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v21, v330] : Fin 2 → IVec S16 32) a x).toNat < S128x128.size a := fun v7 v9 v11 v13 v15 v17 v19 v21 v330 k0_hw24 => k0_hw24.2.2.2.2.2.2.2.1
theorem k0_idx197_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v7] : Fin 2 → IVec S16 32) a x).toNat < S64x128.size a := fun v7 v9 v11 v13 v15 v17 v19 v21 v330 k0_hw24 => k0_hw24.2.2.2.2.2.2.2.2.1
theorem k0_idx198_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v9] : Fin 2 → IVec S16 32) a x).toNat < S64x128.size a := fun v7 v9 v11 v13 v15 v17 v19 v21 v330 k0_hw24 => k0_hw24.2.2.2.2.2.2.2.2.2.1
theorem k0_idx199_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v11] : Fin 2 → IVec S16 32) a x).toNat < S64x128.size a := fun v7 v9 v11 v13 v15 v17 v19 v21 v330 k0_hw24 => k0_hw24.2.2.2.2.2.2.2.2.2.2.1
theorem k0_idx200_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v13] : Fin 2 → IVec S16 32) a x).toNat < S64x128.size a := fun v7 v9 v11 v13 v15 v17 v19 v21 v330 k0_hw24 => k0_hw24.2.2.2.2.2.2.2.2.2.2.2.1
theorem k0_idx201_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v15] : Fin 2 → IVec S16 32) a x).toNat < S64x128.size a := fun v7 v9 v11 v13 v15 v17 v19 v21 v330 k0_hw24 => k0_hw24.2.2.2.2.2.2.2.2.2.2.2.2.1
theorem k0_idx202_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v17] : Fin 2 → IVec S16 32) a x).toNat < S64x128.size a := fun v7 v9 v11 v13 v15 v17 v19 v21 v330 k0_hw24 => k0_hw24.2.2.2.2.2.2.2.2.2.2.2.2.2.1
theorem k0_idx203_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v19] : Fin 2 → IVec S16 32) a x).toNat < S64x128.size a := fun v7 v9 v11 v13 v15 v17 v19 v21 v330 k0_hw24 => k0_hw24.2.2.2.2.2.2.2.2.2.2.2.2.2.2.1
theorem k0_idx204_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw24 : k0_chk24 v7 v9 v11 v13 v15 v17 v19 v21 v330), ∀ a x, ((![v330, v21] : Fin 2 → IVec S16 32) a x).toNat < S64x128.size a := fun v7 v9 v11 v13 v15 v17 v19 v21 v330 k0_hw24 => k0_hw24.2.2.2.2.2.2.2.2.2.2.2.2.2.2.2
def k0_cond6 (k0_t1 : Fin k0_t1_loop.trips) : BitVec 1 :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c2_i32_105 : BitVec 32 := 2#32
  let v112 : BitVec 32 := Scalar.addi v61 c2_i32_105
  let c4_i32_129 : BitVec 32 := 4#32
  let v133 : BitVec 32 := Scalar.addi v112 c4_i32_129
  let c200_i32_130 : BitVec 32 := 200#32
  let v134 : BitVec 1 := Scalar.cmpi .slt v133 c200_i32_130
  let v135 : BitVec 32 := Scalar.extui v134
  let c0_i32_131 : BitVec 32 := 0#32
  let v136 : BitVec 1 := Scalar.cmpi .ne v135 c0_i32_131
  v136

def k0_off5 (k0_t1 : Fin k0_t1_loop.trips) : Fin 2 → Nat :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c2_i32_105 : BitVec 32 := 2#32
  let v112 : BitVec 32 := Scalar.addi v61 c2_i32_105
  let c4_i32_159 : BitVec 32 := 4#32
  let v162 : BitVec 32 := Scalar.addi v112 c4_i32_159
  let c0_i32_163 : BitVec 32 := 0#32
  ![v162.toNat, 0]
@[reducible] def k0_t5_loop : Scf.Loop 32 :=
  let c0_i32_145 : BitVec 32 := 0#32
  let c16_i32_146 : BitVec 32 := 16#32
  let v149 : BitVec 32 := Scalar.addi c0_i32_145 c16_i32_146
  let c1_i32_147 : BitVec 32 := 1#32
  ⟨c0_i32_145, v149, c1_i32_147⟩

def k0_chk25 (v165 : IVec S16 32) (v173 : IVec S16 32) : Prop :=
  (∀ a x, ((![v165, v173] : Fin 2 → IVec S16 32) a x).toNat < S100x128.size a)
instance k0_chk25.dec : ∀ (v165 : IVec S16 32) (v173 : IVec S16 32), Decidable (k0_chk25 v165 v173) := fun v165 v173 => decidable_of_iff' _ (Iff.of_eq (k0_chk25.eq_1 v165 v173))
theorem k0_idx205_inb : ∀ (v165 : IVec S16 32) (v173 : IVec S16 32) (k0_hw25 : k0_chk25 v165 v173), ∀ a x, ((![v165, v173] : Fin 2 → IVec S16 32) a x).toNat < S100x128.size a := fun v165 v173 k0_hw25 => k0_hw25

def k0_chk26 (v7 : IVec S16 32) (v9 : IVec S16 32) (v11 : IVec S16 32) (v13 : IVec S16 32) (v15 : IVec S16 32) (v17 : IVec S16 32) (v19 : IVec S16 32) (v21 : IVec S16 32) (v171 : IVec S16 32) : Prop :=
  (∀ a x, ((![v7, v171] : Fin 2 → IVec S16 32) a x).toNat < S128x128.size a) ∧
  (∀ a x, ((![v9, v171] : Fin 2 → IVec S16 32) a x).toNat < S128x128.size a) ∧
  (∀ a x, ((![v11, v171] : Fin 2 → IVec S16 32) a x).toNat < S128x128.size a) ∧
  (∀ a x, ((![v13, v171] : Fin 2 → IVec S16 32) a x).toNat < S128x128.size a) ∧
  (∀ a x, ((![v15, v171] : Fin 2 → IVec S16 32) a x).toNat < S128x128.size a) ∧
  (∀ a x, ((![v17, v171] : Fin 2 → IVec S16 32) a x).toNat < S128x128.size a) ∧
  (∀ a x, ((![v19, v171] : Fin 2 → IVec S16 32) a x).toNat < S128x128.size a) ∧
  (∀ a x, ((![v21, v171] : Fin 2 → IVec S16 32) a x).toNat < S128x128.size a) ∧
  (∀ a x, ((![v171, v7] : Fin 2 → IVec S16 32) a x).toNat < S64x128.size a) ∧
  (∀ a x, ((![v171, v9] : Fin 2 → IVec S16 32) a x).toNat < S64x128.size a) ∧
  (∀ a x, ((![v171, v11] : Fin 2 → IVec S16 32) a x).toNat < S64x128.size a) ∧
  (∀ a x, ((![v171, v13] : Fin 2 → IVec S16 32) a x).toNat < S64x128.size a) ∧
  (∀ a x, ((![v171, v15] : Fin 2 → IVec S16 32) a x).toNat < S64x128.size a) ∧
  (∀ a x, ((![v171, v17] : Fin 2 → IVec S16 32) a x).toNat < S64x128.size a) ∧
  (∀ a x, ((![v171, v19] : Fin 2 → IVec S16 32) a x).toNat < S64x128.size a) ∧
  (∀ a x, ((![v171, v21] : Fin 2 → IVec S16 32) a x).toNat < S64x128.size a)
instance k0_chk26.dec : ∀ (v7 : IVec S16 32) (v9 : IVec S16 32) (v11 : IVec S16 32) (v13 : IVec S16 32) (v15 : IVec S16 32) (v17 : IVec S16 32) (v19 : IVec S16 32) (v21 : IVec S16 32) (v171 : IVec S16 32), Decidable (k0_chk26 v7 v9 v11 v13 v15 v17 v19 v21 v171) := fun v7 v9 v11 v13 v15 v17 v19 v21 v171 => decidable_of_iff' _ (Iff.of_eq (k0_chk26.eq_1 v7 v9 v11 v13 v15 v17 v19 v21 v171))
theorem k0_idx206_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v7, v171] : Fin 2 → IVec S16 32) a x).toNat < S128x128.size a := fun v7 v9 v11 v13 v15 v17 v19 v21 v171 k0_hw26 => k0_hw26.1
theorem k0_idx207_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v9, v171] : Fin 2 → IVec S16 32) a x).toNat < S128x128.size a := fun v7 v9 v11 v13 v15 v17 v19 v21 v171 k0_hw26 => k0_hw26.2.1
theorem k0_idx208_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v11, v171] : Fin 2 → IVec S16 32) a x).toNat < S128x128.size a := fun v7 v9 v11 v13 v15 v17 v19 v21 v171 k0_hw26 => k0_hw26.2.2.1
theorem k0_idx209_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v13, v171] : Fin 2 → IVec S16 32) a x).toNat < S128x128.size a := fun v7 v9 v11 v13 v15 v17 v19 v21 v171 k0_hw26 => k0_hw26.2.2.2.1
theorem k0_idx210_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v15, v171] : Fin 2 → IVec S16 32) a x).toNat < S128x128.size a := fun v7 v9 v11 v13 v15 v17 v19 v21 v171 k0_hw26 => k0_hw26.2.2.2.2.1
theorem k0_idx211_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v17, v171] : Fin 2 → IVec S16 32) a x).toNat < S128x128.size a := fun v7 v9 v11 v13 v15 v17 v19 v21 v171 k0_hw26 => k0_hw26.2.2.2.2.2.1
theorem k0_idx212_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v19, v171] : Fin 2 → IVec S16 32) a x).toNat < S128x128.size a := fun v7 v9 v11 v13 v15 v17 v19 v21 v171 k0_hw26 => k0_hw26.2.2.2.2.2.2.1
theorem k0_idx213_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v21, v171] : Fin 2 → IVec S16 32) a x).toNat < S128x128.size a := fun v7 v9 v11 v13 v15 v17 v19 v21 v171 k0_hw26 => k0_hw26.2.2.2.2.2.2.2.1
theorem k0_idx214_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v7] : Fin 2 → IVec S16 32) a x).toNat < S64x128.size a := fun v7 v9 v11 v13 v15 v17 v19 v21 v171 k0_hw26 => k0_hw26.2.2.2.2.2.2.2.2.1
theorem k0_idx215_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v9] : Fin 2 → IVec S16 32) a x).toNat < S64x128.size a := fun v7 v9 v11 v13 v15 v17 v19 v21 v171 k0_hw26 => k0_hw26.2.2.2.2.2.2.2.2.2.1
theorem k0_idx216_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v11] : Fin 2 → IVec S16 32) a x).toNat < S64x128.size a := fun v7 v9 v11 v13 v15 v17 v19 v21 v171 k0_hw26 => k0_hw26.2.2.2.2.2.2.2.2.2.2.1
theorem k0_idx217_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v13] : Fin 2 → IVec S16 32) a x).toNat < S64x128.size a := fun v7 v9 v11 v13 v15 v17 v19 v21 v171 k0_hw26 => k0_hw26.2.2.2.2.2.2.2.2.2.2.2.1
theorem k0_idx218_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v15] : Fin 2 → IVec S16 32) a x).toNat < S64x128.size a := fun v7 v9 v11 v13 v15 v17 v19 v21 v171 k0_hw26 => k0_hw26.2.2.2.2.2.2.2.2.2.2.2.2.1
theorem k0_idx219_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v17] : Fin 2 → IVec S16 32) a x).toNat < S64x128.size a := fun v7 v9 v11 v13 v15 v17 v19 v21 v171 k0_hw26 => k0_hw26.2.2.2.2.2.2.2.2.2.2.2.2.2.1
theorem k0_idx220_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v19] : Fin 2 → IVec S16 32) a x).toNat < S64x128.size a := fun v7 v9 v11 v13 v15 v17 v19 v21 v171 k0_hw26 => k0_hw26.2.2.2.2.2.2.2.2.2.2.2.2.2.2.1
theorem k0_idx221_inb : ∀ (v7 : IVec S16 32) (v9 : IVec S16 32) (v11 : IVec S16 32) (v13 : IVec S16 32) (v15 : IVec S16 32) (v17 : IVec S16 32) (v19 : IVec S16 32) (v21 : IVec S16 32) (v171 : IVec S16 32) (k0_hw26 : k0_chk26 v7 v9 v11 v13 v15 v17 v19 v21 v171), ∀ a x, ((![v171, v21] : Fin 2 → IVec S16 32) a x).toNat < S64x128.size a := fun v7 v9 v11 v13 v15 v17 v19 v21 v171 k0_hw26 => k0_hw26.2.2.2.2.2.2.2.2.2.2.2.2.2.2.2

def k0_chk27 (v165 : IVec S16 32) (v226 : IVec S16 32) : Prop :=
  (∀ a x, ((![v165, v226] : Fin 2 → IVec S16 32) a x).toNat < S100x128.size a)
instance k0_chk27.dec : ∀ (v165 : IVec S16 32) (v226 : IVec S16 32), Decidable (k0_chk27 v165 v226) := fun v165 v226 => decidable_of_iff' _ (Iff.of_eq (k0_chk27.eq_1 v165 v226))
theorem k0_idx222_inb : ∀ (v165 : IVec S16 32) (v226 : IVec S16 32) (k0_hw27 : k0_chk27 v165 v226), ∀ a x, ((![v165, v226] : Fin 2 → IVec S16 32) a x).toNat < S100x128.size a := fun v165 v226 k0_hw27 => k0_hw27

def k0_chk28 (v7 : IVec S16 32) (v9 : IVec S16 32) (v11 : IVec S16 32) (v13 : IVec S16 32) (v15 : IVec S16 32) (v17 : IVec S16 32) (v19 : IVec S16 32) (v21 : IVec S16 32) (v224 : IVec S16 32) : Prop :=
  (∀ a x, ((![v7, v224] : Fin 2 → IVec S16 32) a x).toNat < S128x128.size a) ∧
  (∀ a x, ((![v9, v224] : Fin 2 → IVec S16 32) a x).toNat < S128x128.size a) ∧
  (∀ a x, ((![v11, v224] : Fin 2 → IVec S16 32) a x).toNat < S128x128.size a) ∧
  (∀ a x, ((![v13, v224] : Fin 2 → IVec S16 32) a x).toNat < S128x128.size a) ∧
  (∀ a x, ((![v15, v224] : Fin 2 → IVec S16 32) a x).toNat < S128x128.size a) ∧
  (∀ a x, ((![v17, v224] : Fin 2 → IVec S16 32) a x).toNat < S128x128.size a) ∧
  (∀ a x, ((![v19, v224] : Fin 2 → IVec S16 32) a x).toNat < S128x128.size a) ∧
  (∀ a x, ((![v21, v224] : Fin 2 → IVec S16 32) a x).toNat < S128x128.size a) ∧
  (∀ a x, ((![v224, v7] : Fin 2 → IVec S16 32) a x).toNat < S64x128.size a) ∧
  (∀ a x, ((![v224, v9] : Fin 2 → IVec S16 32) a x).toNat < S64x128.size a) ∧
  (∀ a x, ((![v224, v11] : Fin 2 → IVec S16 32) a x).toNat < S64x128.size a) ∧
  (∀ a x, ((![v224, v13] : Fin 2 → IVec S16 32) a x).toNat < S64x128.size a) ∧
  (∀ a x, ((![v224, v15] : Fin 2 → IVec S16 32) a x).toNat < S64x128.size a) ∧
  (∀ a x, ((![v224, v17] : Fin 2 → IVec S16 32) a x).toNat < S64x128.size a) ∧
  (∀ a x, ((![v224, v19] : Fin 2 → IVec S16 32) a x).toNat < S64x128.size a) ∧
  (∀ a x, ((![v224, v21] : Fin 2 → IVec S16 32) a x).toNat < S64x128.size a)
instance k0_chk28.dec : ∀ (v7 : IVec S16 32) (v9 : IVec S16 32) (v11 : IVec S16 32) (v13 : IVec S16 32) (v15 : IVec S16 32) (v17 : IVec S16 32) (v19 : IVec S16 32) (v21 : IVec S16 32) (v224 : IVec S16 32), Decidable (k0_chk28 v7 v9 v11 v13 v15 v17 v19 v21 v224) := fun v7 v9 v11 v13 v15 v17 v19 v21 v224 => decidable_of_iff' _ (Iff.of_eq (k0_chk28.eq_1 v7 v9 v11 v13 v15 v17 v19 v21 v224))
theorem k0_idx223_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v7, v224] : Fin 2 → IVec S16 32) a x).toNat < S128x128.size a := fun v7 v9 v11 v13 v15 v17 v19 v21 v224 k0_hw28 => k0_hw28.1
theorem k0_idx224_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v9, v224] : Fin 2 → IVec S16 32) a x).toNat < S128x128.size a := fun v7 v9 v11 v13 v15 v17 v19 v21 v224 k0_hw28 => k0_hw28.2.1
theorem k0_idx225_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v11, v224] : Fin 2 → IVec S16 32) a x).toNat < S128x128.size a := fun v7 v9 v11 v13 v15 v17 v19 v21 v224 k0_hw28 => k0_hw28.2.2.1
theorem k0_idx226_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v13, v224] : Fin 2 → IVec S16 32) a x).toNat < S128x128.size a := fun v7 v9 v11 v13 v15 v17 v19 v21 v224 k0_hw28 => k0_hw28.2.2.2.1
theorem k0_idx227_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v15, v224] : Fin 2 → IVec S16 32) a x).toNat < S128x128.size a := fun v7 v9 v11 v13 v15 v17 v19 v21 v224 k0_hw28 => k0_hw28.2.2.2.2.1
theorem k0_idx228_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v17, v224] : Fin 2 → IVec S16 32) a x).toNat < S128x128.size a := fun v7 v9 v11 v13 v15 v17 v19 v21 v224 k0_hw28 => k0_hw28.2.2.2.2.2.1
theorem k0_idx229_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v19, v224] : Fin 2 → IVec S16 32) a x).toNat < S128x128.size a := fun v7 v9 v11 v13 v15 v17 v19 v21 v224 k0_hw28 => k0_hw28.2.2.2.2.2.2.1
theorem k0_idx230_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v21, v224] : Fin 2 → IVec S16 32) a x).toNat < S128x128.size a := fun v7 v9 v11 v13 v15 v17 v19 v21 v224 k0_hw28 => k0_hw28.2.2.2.2.2.2.2.1
theorem k0_idx231_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v7] : Fin 2 → IVec S16 32) a x).toNat < S64x128.size a := fun v7 v9 v11 v13 v15 v17 v19 v21 v224 k0_hw28 => k0_hw28.2.2.2.2.2.2.2.2.1
theorem k0_idx232_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v9] : Fin 2 → IVec S16 32) a x).toNat < S64x128.size a := fun v7 v9 v11 v13 v15 v17 v19 v21 v224 k0_hw28 => k0_hw28.2.2.2.2.2.2.2.2.2.1
theorem k0_idx233_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v11] : Fin 2 → IVec S16 32) a x).toNat < S64x128.size a := fun v7 v9 v11 v13 v15 v17 v19 v21 v224 k0_hw28 => k0_hw28.2.2.2.2.2.2.2.2.2.2.1
theorem k0_idx234_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v13] : Fin 2 → IVec S16 32) a x).toNat < S64x128.size a := fun v7 v9 v11 v13 v15 v17 v19 v21 v224 k0_hw28 => k0_hw28.2.2.2.2.2.2.2.2.2.2.2.1
theorem k0_idx235_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v15] : Fin 2 → IVec S16 32) a x).toNat < S64x128.size a := fun v7 v9 v11 v13 v15 v17 v19 v21 v224 k0_hw28 => k0_hw28.2.2.2.2.2.2.2.2.2.2.2.2.1
theorem k0_idx236_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v17] : Fin 2 → IVec S16 32) a x).toNat < S64x128.size a := fun v7 v9 v11 v13 v15 v17 v19 v21 v224 k0_hw28 => k0_hw28.2.2.2.2.2.2.2.2.2.2.2.2.2.1
theorem k0_idx237_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v19] : Fin 2 → IVec S16 32) a x).toNat < S64x128.size a := fun v7 v9 v11 v13 v15 v17 v19 v21 v224 k0_hw28 => k0_hw28.2.2.2.2.2.2.2.2.2.2.2.2.2.2.1
theorem k0_idx238_inb : ∀ (v7 : IVec S16 32) (v9 : IVec S16 32) (v11 : IVec S16 32) (v13 : IVec S16 32) (v15 : IVec S16 32) (v17 : IVec S16 32) (v19 : IVec S16 32) (v21 : IVec S16 32) (v224 : IVec S16 32) (k0_hw28 : k0_chk28 v7 v9 v11 v13 v15 v17 v19 v21 v224), ∀ a x, ((![v224, v21] : Fin 2 → IVec S16 32) a x).toNat < S64x128.size a := fun v7 v9 v11 v13 v15 v17 v19 v21 v224 k0_hw28 => k0_hw28.2.2.2.2.2.2.2.2.2.2.2.2.2.2.2

def k0_chk29 (v165 : IVec S16 32) (v279 : IVec S16 32) : Prop :=
  (∀ a x, ((![v165, v279] : Fin 2 → IVec S16 32) a x).toNat < S100x128.size a)
instance k0_chk29.dec : ∀ (v165 : IVec S16 32) (v279 : IVec S16 32), Decidable (k0_chk29 v165 v279) := fun v165 v279 => decidable_of_iff' _ (Iff.of_eq (k0_chk29.eq_1 v165 v279))
theorem k0_idx239_inb : ∀ (v165 : IVec S16 32) (v279 : IVec S16 32) (k0_hw29 : k0_chk29 v165 v279), ∀ a x, ((![v165, v279] : Fin 2 → IVec S16 32) a x).toNat < S100x128.size a := fun v165 v279 k0_hw29 => k0_hw29

def k0_chk30 (v7 : IVec S16 32) (v9 : IVec S16 32) (v11 : IVec S16 32) (v13 : IVec S16 32) (v15 : IVec S16 32) (v17 : IVec S16 32) (v19 : IVec S16 32) (v21 : IVec S16 32) (v277 : IVec S16 32) : Prop :=
  (∀ a x, ((![v7, v277] : Fin 2 → IVec S16 32) a x).toNat < S128x128.size a) ∧
  (∀ a x, ((![v9, v277] : Fin 2 → IVec S16 32) a x).toNat < S128x128.size a) ∧
  (∀ a x, ((![v11, v277] : Fin 2 → IVec S16 32) a x).toNat < S128x128.size a) ∧
  (∀ a x, ((![v13, v277] : Fin 2 → IVec S16 32) a x).toNat < S128x128.size a) ∧
  (∀ a x, ((![v15, v277] : Fin 2 → IVec S16 32) a x).toNat < S128x128.size a) ∧
  (∀ a x, ((![v17, v277] : Fin 2 → IVec S16 32) a x).toNat < S128x128.size a) ∧
  (∀ a x, ((![v19, v277] : Fin 2 → IVec S16 32) a x).toNat < S128x128.size a) ∧
  (∀ a x, ((![v21, v277] : Fin 2 → IVec S16 32) a x).toNat < S128x128.size a) ∧
  (∀ a x, ((![v277, v7] : Fin 2 → IVec S16 32) a x).toNat < S64x128.size a) ∧
  (∀ a x, ((![v277, v9] : Fin 2 → IVec S16 32) a x).toNat < S64x128.size a) ∧
  (∀ a x, ((![v277, v11] : Fin 2 → IVec S16 32) a x).toNat < S64x128.size a) ∧
  (∀ a x, ((![v277, v13] : Fin 2 → IVec S16 32) a x).toNat < S64x128.size a) ∧
  (∀ a x, ((![v277, v15] : Fin 2 → IVec S16 32) a x).toNat < S64x128.size a) ∧
  (∀ a x, ((![v277, v17] : Fin 2 → IVec S16 32) a x).toNat < S64x128.size a) ∧
  (∀ a x, ((![v277, v19] : Fin 2 → IVec S16 32) a x).toNat < S64x128.size a) ∧
  (∀ a x, ((![v277, v21] : Fin 2 → IVec S16 32) a x).toNat < S64x128.size a)
instance k0_chk30.dec : ∀ (v7 : IVec S16 32) (v9 : IVec S16 32) (v11 : IVec S16 32) (v13 : IVec S16 32) (v15 : IVec S16 32) (v17 : IVec S16 32) (v19 : IVec S16 32) (v21 : IVec S16 32) (v277 : IVec S16 32), Decidable (k0_chk30 v7 v9 v11 v13 v15 v17 v19 v21 v277) := fun v7 v9 v11 v13 v15 v17 v19 v21 v277 => decidable_of_iff' _ (Iff.of_eq (k0_chk30.eq_1 v7 v9 v11 v13 v15 v17 v19 v21 v277))
theorem k0_idx240_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v7, v277] : Fin 2 → IVec S16 32) a x).toNat < S128x128.size a := fun v7 v9 v11 v13 v15 v17 v19 v21 v277 k0_hw30 => k0_hw30.1
theorem k0_idx241_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v9, v277] : Fin 2 → IVec S16 32) a x).toNat < S128x128.size a := fun v7 v9 v11 v13 v15 v17 v19 v21 v277 k0_hw30 => k0_hw30.2.1
theorem k0_idx242_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v11, v277] : Fin 2 → IVec S16 32) a x).toNat < S128x128.size a := fun v7 v9 v11 v13 v15 v17 v19 v21 v277 k0_hw30 => k0_hw30.2.2.1
theorem k0_idx243_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v13, v277] : Fin 2 → IVec S16 32) a x).toNat < S128x128.size a := fun v7 v9 v11 v13 v15 v17 v19 v21 v277 k0_hw30 => k0_hw30.2.2.2.1
theorem k0_idx244_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v15, v277] : Fin 2 → IVec S16 32) a x).toNat < S128x128.size a := fun v7 v9 v11 v13 v15 v17 v19 v21 v277 k0_hw30 => k0_hw30.2.2.2.2.1
theorem k0_idx245_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v17, v277] : Fin 2 → IVec S16 32) a x).toNat < S128x128.size a := fun v7 v9 v11 v13 v15 v17 v19 v21 v277 k0_hw30 => k0_hw30.2.2.2.2.2.1
theorem k0_idx246_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v19, v277] : Fin 2 → IVec S16 32) a x).toNat < S128x128.size a := fun v7 v9 v11 v13 v15 v17 v19 v21 v277 k0_hw30 => k0_hw30.2.2.2.2.2.2.1
theorem k0_idx247_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v21, v277] : Fin 2 → IVec S16 32) a x).toNat < S128x128.size a := fun v7 v9 v11 v13 v15 v17 v19 v21 v277 k0_hw30 => k0_hw30.2.2.2.2.2.2.2.1
theorem k0_idx248_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v7] : Fin 2 → IVec S16 32) a x).toNat < S64x128.size a := fun v7 v9 v11 v13 v15 v17 v19 v21 v277 k0_hw30 => k0_hw30.2.2.2.2.2.2.2.2.1
theorem k0_idx249_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v9] : Fin 2 → IVec S16 32) a x).toNat < S64x128.size a := fun v7 v9 v11 v13 v15 v17 v19 v21 v277 k0_hw30 => k0_hw30.2.2.2.2.2.2.2.2.2.1
theorem k0_idx250_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v11] : Fin 2 → IVec S16 32) a x).toNat < S64x128.size a := fun v7 v9 v11 v13 v15 v17 v19 v21 v277 k0_hw30 => k0_hw30.2.2.2.2.2.2.2.2.2.2.1
theorem k0_idx251_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v13] : Fin 2 → IVec S16 32) a x).toNat < S64x128.size a := fun v7 v9 v11 v13 v15 v17 v19 v21 v277 k0_hw30 => k0_hw30.2.2.2.2.2.2.2.2.2.2.2.1
theorem k0_idx252_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v15] : Fin 2 → IVec S16 32) a x).toNat < S64x128.size a := fun v7 v9 v11 v13 v15 v17 v19 v21 v277 k0_hw30 => k0_hw30.2.2.2.2.2.2.2.2.2.2.2.2.1
theorem k0_idx253_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v17] : Fin 2 → IVec S16 32) a x).toNat < S64x128.size a := fun v7 v9 v11 v13 v15 v17 v19 v21 v277 k0_hw30 => k0_hw30.2.2.2.2.2.2.2.2.2.2.2.2.2.1
theorem k0_idx254_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v19] : Fin 2 → IVec S16 32) a x).toNat < S64x128.size a := fun v7 v9 v11 v13 v15 v17 v19 v21 v277 k0_hw30 => k0_hw30.2.2.2.2.2.2.2.2.2.2.2.2.2.2.1
theorem k0_idx255_inb : ∀ (v7 : IVec S16 32) (v9 : IVec S16 32) (v11 : IVec S16 32) (v13 : IVec S16 32) (v15 : IVec S16 32) (v17 : IVec S16 32) (v19 : IVec S16 32) (v21 : IVec S16 32) (v277 : IVec S16 32) (k0_hw30 : k0_chk30 v7 v9 v11 v13 v15 v17 v19 v21 v277), ∀ a x, ((![v277, v21] : Fin 2 → IVec S16 32) a x).toNat < S64x128.size a := fun v7 v9 v11 v13 v15 v17 v19 v21 v277 k0_hw30 => k0_hw30.2.2.2.2.2.2.2.2.2.2.2.2.2.2.2

def k0_chk31 (v165 : IVec S16 32) (v332 : IVec S16 32) : Prop :=
  (∀ a x, ((![v165, v332] : Fin 2 → IVec S16 32) a x).toNat < S100x128.size a)
instance k0_chk31.dec : ∀ (v165 : IVec S16 32) (v332 : IVec S16 32), Decidable (k0_chk31 v165 v332) := fun v165 v332 => decidable_of_iff' _ (Iff.of_eq (k0_chk31.eq_1 v165 v332))
theorem k0_idx256_inb : ∀ (v165 : IVec S16 32) (v332 : IVec S16 32) (k0_hw31 : k0_chk31 v165 v332), ∀ a x, ((![v165, v332] : Fin 2 → IVec S16 32) a x).toNat < S100x128.size a := fun v165 v332 k0_hw31 => k0_hw31

def k0_chk32 (v7 : IVec S16 32) (v9 : IVec S16 32) (v11 : IVec S16 32) (v13 : IVec S16 32) (v15 : IVec S16 32) (v17 : IVec S16 32) (v19 : IVec S16 32) (v21 : IVec S16 32) (v330 : IVec S16 32) : Prop :=
  (∀ a x, ((![v7, v330] : Fin 2 → IVec S16 32) a x).toNat < S128x128.size a) ∧
  (∀ a x, ((![v9, v330] : Fin 2 → IVec S16 32) a x).toNat < S128x128.size a) ∧
  (∀ a x, ((![v11, v330] : Fin 2 → IVec S16 32) a x).toNat < S128x128.size a) ∧
  (∀ a x, ((![v13, v330] : Fin 2 → IVec S16 32) a x).toNat < S128x128.size a) ∧
  (∀ a x, ((![v15, v330] : Fin 2 → IVec S16 32) a x).toNat < S128x128.size a) ∧
  (∀ a x, ((![v17, v330] : Fin 2 → IVec S16 32) a x).toNat < S128x128.size a) ∧
  (∀ a x, ((![v19, v330] : Fin 2 → IVec S16 32) a x).toNat < S128x128.size a) ∧
  (∀ a x, ((![v21, v330] : Fin 2 → IVec S16 32) a x).toNat < S128x128.size a) ∧
  (∀ a x, ((![v330, v7] : Fin 2 → IVec S16 32) a x).toNat < S64x128.size a) ∧
  (∀ a x, ((![v330, v9] : Fin 2 → IVec S16 32) a x).toNat < S64x128.size a) ∧
  (∀ a x, ((![v330, v11] : Fin 2 → IVec S16 32) a x).toNat < S64x128.size a) ∧
  (∀ a x, ((![v330, v13] : Fin 2 → IVec S16 32) a x).toNat < S64x128.size a) ∧
  (∀ a x, ((![v330, v15] : Fin 2 → IVec S16 32) a x).toNat < S64x128.size a) ∧
  (∀ a x, ((![v330, v17] : Fin 2 → IVec S16 32) a x).toNat < S64x128.size a) ∧
  (∀ a x, ((![v330, v19] : Fin 2 → IVec S16 32) a x).toNat < S64x128.size a) ∧
  (∀ a x, ((![v330, v21] : Fin 2 → IVec S16 32) a x).toNat < S64x128.size a)
instance k0_chk32.dec : ∀ (v7 : IVec S16 32) (v9 : IVec S16 32) (v11 : IVec S16 32) (v13 : IVec S16 32) (v15 : IVec S16 32) (v17 : IVec S16 32) (v19 : IVec S16 32) (v21 : IVec S16 32) (v330 : IVec S16 32), Decidable (k0_chk32 v7 v9 v11 v13 v15 v17 v19 v21 v330) := fun v7 v9 v11 v13 v15 v17 v19 v21 v330 => decidable_of_iff' _ (Iff.of_eq (k0_chk32.eq_1 v7 v9 v11 v13 v15 v17 v19 v21 v330))
theorem k0_idx257_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v7, v330] : Fin 2 → IVec S16 32) a x).toNat < S128x128.size a := fun v7 v9 v11 v13 v15 v17 v19 v21 v330 k0_hw32 => k0_hw32.1
theorem k0_idx258_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v9, v330] : Fin 2 → IVec S16 32) a x).toNat < S128x128.size a := fun v7 v9 v11 v13 v15 v17 v19 v21 v330 k0_hw32 => k0_hw32.2.1
theorem k0_idx259_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v11, v330] : Fin 2 → IVec S16 32) a x).toNat < S128x128.size a := fun v7 v9 v11 v13 v15 v17 v19 v21 v330 k0_hw32 => k0_hw32.2.2.1
theorem k0_idx260_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v13, v330] : Fin 2 → IVec S16 32) a x).toNat < S128x128.size a := fun v7 v9 v11 v13 v15 v17 v19 v21 v330 k0_hw32 => k0_hw32.2.2.2.1
theorem k0_idx261_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v15, v330] : Fin 2 → IVec S16 32) a x).toNat < S128x128.size a := fun v7 v9 v11 v13 v15 v17 v19 v21 v330 k0_hw32 => k0_hw32.2.2.2.2.1
theorem k0_idx262_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v17, v330] : Fin 2 → IVec S16 32) a x).toNat < S128x128.size a := fun v7 v9 v11 v13 v15 v17 v19 v21 v330 k0_hw32 => k0_hw32.2.2.2.2.2.1
theorem k0_idx263_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v19, v330] : Fin 2 → IVec S16 32) a x).toNat < S128x128.size a := fun v7 v9 v11 v13 v15 v17 v19 v21 v330 k0_hw32 => k0_hw32.2.2.2.2.2.2.1
theorem k0_idx264_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v21, v330] : Fin 2 → IVec S16 32) a x).toNat < S128x128.size a := fun v7 v9 v11 v13 v15 v17 v19 v21 v330 k0_hw32 => k0_hw32.2.2.2.2.2.2.2.1
theorem k0_idx265_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v7] : Fin 2 → IVec S16 32) a x).toNat < S64x128.size a := fun v7 v9 v11 v13 v15 v17 v19 v21 v330 k0_hw32 => k0_hw32.2.2.2.2.2.2.2.2.1
theorem k0_idx266_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v9] : Fin 2 → IVec S16 32) a x).toNat < S64x128.size a := fun v7 v9 v11 v13 v15 v17 v19 v21 v330 k0_hw32 => k0_hw32.2.2.2.2.2.2.2.2.2.1
theorem k0_idx267_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v11] : Fin 2 → IVec S16 32) a x).toNat < S64x128.size a := fun v7 v9 v11 v13 v15 v17 v19 v21 v330 k0_hw32 => k0_hw32.2.2.2.2.2.2.2.2.2.2.1
theorem k0_idx268_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v13] : Fin 2 → IVec S16 32) a x).toNat < S64x128.size a := fun v7 v9 v11 v13 v15 v17 v19 v21 v330 k0_hw32 => k0_hw32.2.2.2.2.2.2.2.2.2.2.2.1
theorem k0_idx269_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v15] : Fin 2 → IVec S16 32) a x).toNat < S64x128.size a := fun v7 v9 v11 v13 v15 v17 v19 v21 v330 k0_hw32 => k0_hw32.2.2.2.2.2.2.2.2.2.2.2.2.1
theorem k0_idx270_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v17] : Fin 2 → IVec S16 32) a x).toNat < S64x128.size a := fun v7 v9 v11 v13 v15 v17 v19 v21 v330 k0_hw32 => k0_hw32.2.2.2.2.2.2.2.2.2.2.2.2.2.1
theorem k0_idx271_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v19] : Fin 2 → IVec S16 32) a x).toNat < S64x128.size a := fun v7 v9 v11 v13 v15 v17 v19 v21 v330 k0_hw32 => k0_hw32.2.2.2.2.2.2.2.2.2.2.2.2.2.2.1
theorem k0_idx272_inb : ∀ (v7 : IVec S16 32) (v9 : IVec S16 32) (v11 : IVec S16 32) (v13 : IVec S16 32) (v15 : IVec S16 32) (v17 : IVec S16 32) (v19 : IVec S16 32) (v21 : IVec S16 32) (v330 : IVec S16 32) (k0_hw32 : k0_chk32 v7 v9 v11 v13 v15 v17 v19 v21 v330), ∀ a x, ((![v330, v21] : Fin 2 → IVec S16 32) a x).toNat < S64x128.size a := fun v7 v9 v11 v13 v15 v17 v19 v21 v330 k0_hw32 => k0_hw32.2.2.2.2.2.2.2.2.2.2.2.2.2.2.2
def k0_cond8 (k0_t1 : Fin k0_t1_loop.trips) : BitVec 1 :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c3_i32_132 : BitVec 32 := 3#32
  let v137 : BitVec 32 := Scalar.addi v61 c3_i32_132
  let c4_i32_156 : BitVec 32 := 4#32
  let v158 : BitVec 32 := Scalar.addi v137 c4_i32_156
  let c200_i32_157 : BitVec 32 := 200#32
  let v159 : BitVec 1 := Scalar.cmpi .slt v158 c200_i32_157
  let v160 : BitVec 32 := Scalar.extui v159
  let c0_i32_158 : BitVec 32 := 0#32
  let v161 : BitVec 1 := Scalar.cmpi .ne v160 c0_i32_158
  v161

def k0_off6 (k0_t1 : Fin k0_t1_loop.trips) : Fin 2 → Nat :=
  let c0_i32_51 : BitVec 32 := 0#32
  let c0_i32_27 : BitVec 32 := 0#32
  let c1_i32_28 : BitVec 32 := 1#32
  let arg16 : BitVec 32 := Scf.iv c0_i32_27 c1_i32_28 k0_t1
  let c1_i32_50 : BitVec 32 := 1#32
  let v59 : BitVec 32 := Scalar.muli arg16 c1_i32_50
  let v60 : BitVec 32 := Scalar.addi c0_i32_51 v59
  let c4_i32 : BitVec 32 := 4#32
  let v61 : BitVec 32 := Scalar.muli v60 c4_i32
  let c3_i32_132 : BitVec 32 := 3#32
  let v137 : BitVec 32 := Scalar.addi v61 c3_i32_132
  let c4_i32_159 : BitVec 32 := 4#32
  let v162 : BitVec 32 := Scalar.addi v137 c4_i32_159
  let c0_i32_163 : BitVec 32 := 0#32
  ![v162.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  pads_S100000x64_S100000x128_000_0640 : S100000x64.Pads (![0, 0] : Fin 2 → Nat) ![0, 64] ![0, 0] S100000x128
  h_S_ : 0 < S_.numel
  shapeCasts_S200x64_S100x128 : S200x64.ShapeCasts S100x128
  iota_S16_d0_w32_scVector : S16.Iotas .scVector 32 [0]
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4x128x128_S1x128x128_3_0_0 : ∀ a, (![3, 0, 0] : Fin 3 → Nat) a + S1x128x128.size a ≤ S4x128x128.size a
  inb_S200x128_S1x128_3_0 : ∀ a, (![3, 0] : Fin 2 → Nat) a + S1x128.size a ≤ S200x128.size a
  inb_S2x64x128_S1x64x128_0_0_0 : ∀ a, (![0, 0, 0] : Fin 3 → Nat) a + S1x64x128.size a ≤ S2x64x128.size a
  squeezes_S1x64x128_S64x128 : S1x64x128.Squeezes S64x128
  inb_S200x64x4096_S1x64x128_0_0_0 : ∀ a, (![0, 0, 0] : Fin 3 → Nat) a + S1x64x128.size a ≤ S200x64x4096.size a
  h_S100x128 : 0 < S100x128.numel
  h_S128x128 : 0 < S128x128.numel
  h_S64x128 : 0 < S64x128.numel
  inb_S2x64x128_S1x64x128_1_0_0 : ∀ a, (![1, 0, 0] : Fin 3 → Nat) a + S1x64x128.size a ≤ S2x64x128.size a
  transposes_S200x64x4096_S4096x200x64_2_0_1 : S200x64x4096.Transposes [2, 0, 1] S4096x200x64
  hcc0_scratch4 : 0 + S_.numel ≤ 8
  hcc0_scratch5 : 1 + S_.numel ≤ 8
  hcc0_scratch6 : 2 + S_.numel ≤ 8
  hcc0_scratch7 : 3 + S_.numel ≤ 8
  hcc0_scratch8 : 4 + S_.numel ≤ 8
  hcc0_scratch9 : 5 + S_.numel ≤ 8
  hcc0_scoped0 : 6 + S_.numel ≤ 8
  hcc0_scoped1 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x4096.size a
  k0_t1_ok : k0_t1_loop.OK
  k0_t2_ok : k0_t2_loop.OK
  k0_off2_inb : ∀ (i : grid0.Coords) (k0_t1 : Fin k0_t1_loop.trips), ∀ (r : Fin 4), ∀ a, (k0_off2 i k0_t1 (BitVec.ofNat 32 r.val)) a + S1x64x128.size a ≤ S200x64x4096.size a
  k0_off3_inb : ∀ k0_t1 : Fin k0_t1_loop.trips, ∀ (k0_h2 : k0_cond2 k0_t1 = 1#1), ∀ a, (k0_off3 k0_t1) a + S1x128.size a ≤ S200x128.size a
  k0_t3_ok : k0_t3_loop.OK
  k0_off4_inb : ∀ k0_t1 : Fin k0_t1_loop.trips, ∀ (k0_h4 : k0_cond4 k0_t1 = 1#1), ∀ a, (k0_off4 k0_t1) a + S1x128.size a ≤ S200x128.size a
  k0_t4_ok : k0_t4_loop.OK
  k0_off5_inb : ∀ k0_t1 : Fin k0_t1_loop.trips, ∀ (k0_h6 : k0_cond6 k0_t1 = 1#1), ∀ a, (k0_off5 k0_t1) a + S1x128.size a ≤ S200x128.size a
  k0_t5_ok : k0_t5_loop.OK
  k0_off6_inb : ∀ k0_t1 : Fin k0_t1_loop.trips, ∀ (k0_h8 : k0_cond8 k0_t1 = 1#1), ∀ a, (k0_off6 k0_t1) a + S1x128.size a ≤ S200x128.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0
abbrev cc0_scoped1 : DmaSems sig S_ := SemArray.consecutive 7 S_ hcc0_scoped1

class Facts : Prop extends Facts₀ where

variable [Facts]
-- ==== ReferenceIdeal.lean ====
abbrev S4096x200 : Shape := ⟨2, ![4096, 200]⟩
abbrev S100000x64 : Shape := ⟨2, ![100000, 64]⟩
abbrev S200x64 : Shape := ⟨2, ![200, 64]⟩
abbrev S200 : Shape := ⟨1, ![200]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 52
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x64, .f32⟩
  | .hbm, ⟨2, _⟩ => ⟨S200x64, .f32⟩
  | .hbm, ⟨3, _⟩ => ⟨S200, .i32⟩
  | .hbm, ⟨4, _⟩ => ⟨S4096x200, .i32⟩
  | .hbm, ⟨5, _⟩ => ⟨S_, .i32⟩
  | .hbm, ⟨6, _⟩ => ⟨S4096x200, .i32⟩
  | .hbm, ⟨7, _⟩ => ⟨S4096x200, .i1⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200x1, .i32⟩
  | .hbm, ⟨13, _⟩ => ⟨S1, .i32⟩
  | .hbm, ⟨14, _⟩ => ⟨S_, .i32⟩
  | .hbm, ⟨15, _⟩ => ⟨S4096x200x1, .i32⟩
  | .hbm, ⟨16, _⟩ => ⟨S4096x200x1, .i1⟩
  | .hbm, ⟨17, _⟩ => ⟨S1x1x1, .i32⟩
  | .hbm, ⟨18, _⟩ => ⟨S4096x200x1, .i32⟩
  | .hbm, ⟨19, _⟩ => ⟨S4096x200x1, .i1⟩
  | .hbm, ⟨20, _⟩ => ⟨S4096x200x1, .i1⟩
  | .hbm, ⟨21, _⟩ => ⟨S_, .i1⟩
  | .hbm, ⟨22, _⟩ => ⟨S4096x200, .i1⟩
  | .hbm, ⟨23, _⟩ => ⟨S4096x200x64, .f32⟩
  | .hbm, ⟨24, _⟩ => ⟨S4096x200x64, .i1⟩
  | .hbm, ⟨25, _⟩ => ⟨S_, .f32⟩
  | .hbm, ⟨26, _⟩ => ⟨S4096x200x64, .f32⟩
  | .hbm, ⟨27, _⟩ => ⟨S4096x200x64, .f32⟩
  | .hbm, ⟨28, _⟩ => ⟨S_, .i32⟩
  | .hbm, ⟨29, _⟩ => ⟨S4096x200, .i32⟩
  | .hbm, ⟨30, _⟩ => ⟨S4096x200, .i1⟩
  | .hbm, ⟨31, _⟩ => ⟨S_, .i32⟩
  | .hbm, ⟨32, _⟩ => ⟨S4096x200, .i32⟩
  | .hbm, ⟨33, _⟩ => ⟨S4096x200, .i32⟩
  | .hbm, ⟨34, _⟩ => ⟨S4096x200, .i32⟩
  | .hbm, ⟨35, _⟩ => ⟨S4096x200x1, .i32⟩
  | .hbm, ⟨36, _⟩ => ⟨S1, .i32⟩
  | .hbm, ⟨37, _⟩ => ⟨S_, .i32⟩
  | .hbm, ⟨38, _⟩ => ⟨S4096x200x1, .i32⟩
  | .hbm, ⟨39, _⟩ => ⟨S4096x200x1, .i1⟩
  | .hbm, ⟨40, _⟩ => ⟨S1x1x1, .i32⟩
  | .hbm, ⟨41, _⟩ => ⟨S4096x200x1, .i32⟩
  | .hbm, ⟨42, _⟩ => ⟨S4096x200x1, .i1⟩
  | .hbm, ⟨43, _⟩ => ⟨S4096x200x1, .i1⟩
  | .hbm, ⟨44, _⟩ => ⟨S_, .i1⟩
  | .hbm, ⟨45, _⟩ => ⟨S4096x200, .i1⟩
  | .hbm, ⟨46, _⟩ => ⟨S4096x200x64, .f32⟩
  | .hbm, ⟨47, _⟩ => ⟨S4096x200x64, .i1⟩
  | .hbm, ⟨48, _⟩ => ⟨S_, .f32⟩
  | .hbm, ⟨49, _⟩ => ⟨S4096x200x64, .f32⟩
  | .hbm, ⟨50, _⟩ => ⟨S4096x200x64, .f32⟩
  | .hbm, ⟨51, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩

abbrev nD : Nat := 1
abbrev τ : Topo := Topo.v7x

variable {F : FTy → Type} [FloatOps F]

class Facts₀ : Prop where
  bcast_S200_S4096x200_1 : S200.BroadcastsInDim S4096x200 (![1] : Fin 1 → Fin S4096x200.rank)
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S100000x64_S4096x200x1_S4096x200x64_2_0_n_n_0_2_164_wf : GatherDims.WF S100000x64 S4096x200x1 S4096x200x64 [2] [0] [] [0] [] 2 ![1, 64]
  gather_S200x64_S4096x200x1_S4096x200x64_2_0_n_n_0_2_164_wf : GatherDims.WF S200x64 S4096x200x1 S4096x200x64 [2] [0] [] [0] [] 2 ![1, 64]

variable [Facts₀]

def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf
def gather_S200x64_S4096x200x1_S4096x200x64_2_0_n_n_0_2_164 : GatherDims S200x64 S4096x200x1 S4096x200x64 where
  offsetDims := [2]
  collapsedSliceDims := [0]
  operandBatchingDims := []
  startIndicesBatchingDims := []
  startIndexMap := [0]
  indexVectorDim := 2
  sliceSizes := ![1, 64]
  wf := gather_S200x64_S4096x200x1_S4096x200x64_2_0_n_n_0_2_164_wf

class Facts : Prop extends Facts₀ where

variable [Facts]
-- ==== Proof.Spec.lean ====
/-
  The function both programs compute, stated once over literal shapes and no program.

  An embedding lookup with a positional table: for a batch entry `b`, a position `l` and a feature `d`,
      out[b, l, d] = src[idx[b, l], d] + pos[l, d].
  The row index is the index word read as a natural number; it is reduced modulo the number of rows so that the
  function is total — under the claim's precondition every index word is below 100000 and the reduction is the
  identity (`row_of_lt`).  `GF` states it at any float instance (the one addition is the instance's); `G` is its
  reading on the extended reals, where the addition is the extended reals' own.
-/
import Idealize.ShloMosaic.PureOps.Ideal
import Idealize.ShloMosaic.Lib.ValueIdx

noncomputable section

namespace Cert.Spec

open Idealize.ShloMosaic Idealize.ShloMosaic.ValueIdx

/-- The index array: 4096 batch entries of 200 positions. -/
abbrev SIdx : Shape := ⟨2, ![4096, 200]⟩
/-- The embedding table: 100000 rows of 64 features. -/
abbrev SSrc : Shape := ⟨2, ![100000, 64]⟩
/-- The positional table: 200 positions of 64 features. -/
abbrev SPos : Shape := ⟨2, ![200, 64]⟩
/-- The result: batch × position × feature. -/
abbrev SOut : Shape := ⟨3, ![4096, 200, 64]⟩

/-- The table row an index word names: the word as a natural number, reduced modulo the number of rows. -/
def row (w : BitVec 32) : Fin 100000 := ⟨w.toNat % 100000, Nat.mod_lt _ (by norm_num)⟩

/-- A word below the number of rows names the row of its own value. -/
theorem row_of_lt (w : BitVec 32) (h : w.toNat < 100000) : row w = ⟨w.toNat, h⟩ :=
  Fin.ext (Nat.mod_eq_of_lt h)

/-- The lookup at coordinates, at any float instance: the table row the index names, plus the positional row. -/
def GFat {F : FTy → Type} [FloatOps F] (idx : IVec SIdx 32) (src : FVec F SSrc .f32) (pos : FVec F SPos .f32)
    (b : Fin 4096) (l : Fin 200) (d : Fin 64) : F .f32 :=
  FloatOps.addf (src (ix2 (row (idx (ix2 b l))) d)) (pos (ix2 l d))

/-- The whole result array, at any float instance. -/
def GF {F : FTy → Type} [FloatOps F] (idx : IVec SIdx 32) (src : FVec F SSrc .f32) (pos : FVec F SPos .f32) :
    FVec F SOut .f32 :=
  fun j => GFat idx src pos (j 0) (j 1) (j 2)

/-- The lookup at coordinates on the extended reals. -/
def Gat (idx : IVec SIdx 32) (src : FVec Ideal SSrc .f32) (pos : FVec Ideal SPos .f32)
    (b : Fin 4096) (l : Fin 200) (d : Fin 64) : EReal :=
  src (ix2 (row (idx (ix2 b l))) d) + pos (ix2 l d)

/-- The whole result array on the extended reals. -/
def G (idx : IVec SIdx 32) (src : FVec Ideal SSrc .f32) (pos : FVec Ideal SPos .f32) : FVec Ideal SOut .f32 :=
  fun j => Gat idx src pos (j 0) (j 1) (j 2)

theorem G_apply (idx : IVec SIdx 32) (src : FVec Ideal SSrc .f32) (pos : FVec Ideal SPos .f32)
    (b : Fin 4096) (l : Fin 200) (d : Fin 64) :
    G idx src pos (ix3 b l d) = src (ix2 (row (idx (ix2 b l))) d) + pos (ix2 l d) := rfl

/-- On the extended reals the instance's addition is the extended reals' own. -/
theorem GF_ideal (idx : IVec SIdx 32) (src : FVec Ideal SSrc .f32) (pos : FVec Ideal SPos .f32) :
    GF (F := Ideal) idx src pos = G idx src pos := rfl

end Cert.Spec

end
-- ==== Proof.LaunchPay.lean ====
/-
  The launch of the lookup kernel: the program as the launch theorem sees it, the ghost state, what the
  launch memory must satisfy, what every tile is handed and hands back, and the statement of one tile's task.

  The kernel runs on 2 SparseCores × 16 vector subcores. Tile (c, s) has number w = 2 s + c and owns the block of
  128 batch columns [128 w, 128 w + 128) of the kernel's result (position × feature × batch). Every tile reads the
  transposed index array, the padded table and the packed positional table through a read share of the whole array;
  it is handed full ownership of its own block of the result and hands it back at the value Out3 below.
-/
import proofs.«206908_g46772193853751_cont_8to1c4_160_30_alg».proof.Proof.Gen.KernelIdeal
import proofs.«206908_g46772193853751_cont_8to1c4_160_30_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The three arguments, the three arrays the kernel reads, its result and the program's result, as locations of device d. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- What the proof asks of the launch memory: every index word names a row of the table. -/
def PreOK : Prop := ∀ (d : Dev nD) (b : Fin 4096) (l : Fin 200), (m (a0Loc d) (ix2 b l)).toNat < 100000

variable [FloatOps F]

/-- The index array transposed (position × batch): what the kernel reads its indices from. -/
def V0 (d : Dev nD) : Buf (Elt F) (v0Loc d) :=
  (transpose S200x4096 [1, 0] (m (a0Loc d)) transposes_S4096x200_S200x4096_1_0 : (⟨S200x4096, .i32⟩ : BufTy).Contents (Elt F))
/-- The pad value: the integer zero converted. -/
def Z0 : (⟨S_, .f32⟩ : BufTy).Contents (Elt F) := sitofp .f32 (constantI S_ 32 0#32)
/-- The table padded to 128 columns: what the kernel gathers rows of. -/
def V1 (d : Dev nD) : Buf (Elt F) (v1Loc d) :=
  (pad S100000x128 ![0, 0] ![0, 64] ![0, 0] (m (a1Loc d)) (Z0 (F := F)) pads_S100000x64_S100000x128_000_0640 h_S_ : (⟨S100000x128, .f32⟩ : BufTy).Contents (Elt F))
/-- The positional table packed two positions to a row of 128. -/
def V2 (d : Dev nD) : Buf (Elt F) (v2Loc d) :=
  (fun i => shapeCast S100x128 (m (a2Loc d)) shapeCasts_S200x64_S100x128 i : (⟨S100x128, .f32⟩ : BufTy).Contents (Elt F))

/-- The kernel's result (position × feature × batch) as ONE function of the three arrays it reads: at (l, e, b) the
    table row the index word at (l, b) names, feature e, plus the packed positional table at (l / 2, (l % 2) * 64 + e). -/
def Out3 (d : Dev nD) : Buf (Elt F) (v3Loc d) := fun j =>
  have h0 : (j 0).val < 200 := (j 0).isLt
  have h1 : (j 1).val < 64 := (j 1).isLt
  have h2 : (j 2).val < 4096 := (j 2).isLt
  FloatOps.addf
    (V1 m d (ix2 (Cert.Spec.row (V0 m d (ix2 (⟨(j 0).val, h0⟩ : Fin 200) (⟨(j 2).val, h2⟩ : Fin 4096)))) (⟨(j 1).val, by omega⟩ : Fin 128)))
    (V2 m d (ix2 (⟨(j 0).val / 2, by omega⟩ : Fin 100) (⟨((j 0).val % 2) * 64 + (j 1).val, by omega⟩ : Fin 128)))

/-! ## Tiles, blocks and shares -/

/-- Tile (c, s)'s number. -/
def wid (c : Fin 2) (s : Fin 16) : Fin 32 := ⟨2 * s.val + c.val, by omega⟩

theorem hdiv3 : 32 ∣ S200x64x4096.size 2 := ⟨128, rfl⟩
/-- Block w of the result: the batch columns [128 w, 128 w + 128), every position and feature. -/
abbrev blkR (w : Fin 32) : Rect S200x64x4096 := Rect.part (s := S200x64x4096) (a₀ := 2) hdiv3 w
abbrev blk3 (w : Fin 32) : Finset S200x64x4096.Idx := (blkR w).set

/-- Tile (c, s)'s read share: SparseCore c's token of the whole, subcore s's token of that. -/
abbrev qT (c : Fin 2) (s : Fin 16) : PosShare TreeShare := shareTok (shareTok fullShare 2 c) 16 s

/-- The three arrays the kernel reads, each whole at tile (c, s)'s read share. -/
abbrev roPts (d : Dev nD) (c : Fin 2) (s : Fin 16) : sProp 𝕄 :=
  iprop((v0Loc d ↦{qT c s} V0 m d) ∗ (v1Loc d ↦{qT c s} V1 m d) ∗ (v2Loc d ↦{qT c s} V2 m d))
/-- Block w of the result, owned, at contents f. -/
abbrev outPts (d : Dev nD) (w : Fin 32) (f : Buf (Elt F) (v3Loc d)) : sProp 𝕄 := v3Loc d ↦[blk3 w]{fullShare} f

/-- What tile (c, s) is handed: its read shares and its block of the result at the launch contents; -/
def goA (d : Dev nD) (c : Fin 2) (s : Fin 16) : sProp 𝕄 := iprop(roPts m d c s ∗ outPts d (wid c s) (m (v3Loc d)))
/-- what it hands back: the same, its block at Out3. -/
def tdA (d : Dev nD) (c : Fin 2) (s : Fin 16) : sProp 𝕄 := iprop(roPts m d c s ∗ outPts d (wid c s) (Out3 m d))

/-- The one call: SparseCore c takes what its sixteen tiles take, and brings back what they bring back. -/
def P : (K (F := F)).Pay (nD := nD) (Val := Elt F) (Name := ℕ) (U := UU) where
  st := fun q d c => match q with | 0 => bigSep Finset.univ fun s : Fin 16 => goA m d (Fin.cast nCore_zero c) s
  dn := fun q d c => match q with | 0 => bigSep Finset.univ fun s : Fin 16 => tdA m d (Fin.cast nCore_zero c) s
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with | 0 => by unfold P goA; infer_instance
  dn q d c := match q with | 0 => by unfold P tdA; infer_instance
  go q d c i := match q with | 0 => by unfold P goA; infer_instance
  td q d c i := match q with | 0 => by unfold P tdA; infer_instance

/-! ## One tile's task -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- The body obligation: the kernel on vector subcore (L 0, L 1) of device d, from what the tile is handed to what it
    hands back, its block of the result at Out3. -/
def TileGoal : Prop :=
  ∀ (d : Dev nD) (L : grid0.Coords) (O : CellTallies nD τ sig (HIx 1)) (W : Waits sig (HIx 1)) (_ : ∀ g, O g none = 0),
    iprop(levAts (K (F := F)).L (K (F := F)).lev ∗ emp ∗ goA m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_enc_kernel L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0 cc0_scoped1)
          fun _ => iprop(tdA m d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.Launch

end
-- ==== Proof.LaunchHost.lean ====
/-
  The host operations around the kernel, read at an index: the transposed index array, the padded table and the
  packed positional table in terms of the program's three arguments, and the program's result — the kernel's result
  transposed to batch × position × feature — as the lookup of the specification.
-/
import proofs.«206908_g46772193853751_cont_8to1c4_160_30_alg».proof.Proof.LaunchPay
import Idealize.ShloMosaic.Lib.Pipeline.Value
import Idealize.ShloMosaic.Lib.ValueLayout

noncomputable section

namespace Cert.Proof.Launch

open Cert.KernelIdeal Cert.KernelIdeal.Gen

open Idealize.ShloMosaic
open Idealize.ShloMosaic.ValueIdx

variable {F : FTy → Type} [FloatOps F]
variable (m : (ℓ : Loc nD τ sig) → Buf (Elt F) ℓ)

/-- The transposed index array at (l, b) is the index array at (b, l). -/
theorem V0_apply (d : Dev nD) (l : Fin 200) (b : Fin 4096) : V0 m d (ix2 l b) = m (a0Loc d) (ix2 b l) := by
  unfold V0
  exact transpose_ix2_apply (a := 4096) (b := 200) _ _ l b

/-- The padded table at (r, e), e below 64, is the table at (r, e). -/
theorem V1_apply (d : Dev nD) (r : Fin 100000) (e : Fin 64) (e' : Fin 128) (he : e'.val = e.val) :
    V1 m d (ix2 r e') = m (a1Loc d) (ix2 r e) := by
  have hin : ∀ a : Fin S100000x64.rank, (![0, 0] : Fin 2 → Nat) a ≤ ((ix2 r e' : S100000x128.Idx) (a.cast pads_S100000x64_S100000x128_000_0640.1)).val
      ∧ (((ix2 r e' : S100000x128.Idx) (a.cast pads_S100000x64_S100000x128_000_0640.1)).val - (![0, 0] : Fin 2 → Nat) a) % ((![0, 0] : Fin 2 → Nat) a + 1) = 0
      ∧ (((ix2 r e' : S100000x128.Idx) (a.cast pads_S100000x64_S100000x128_000_0640.1)).val - (![0, 0] : Fin 2 → Nat) a) / ((![0, 0] : Fin 2 → Nat) a + 1) < S100000x64.size a := by
    intro a
    match a with
    | ⟨0, _⟩ =>
      refine ⟨Nat.zero_le _, Nat.mod_one _, ?_⟩
      show (r.val - 0) / (0 + 1) < 100000
      have := r.isLt; simpa using this
    | ⟨1, _⟩ =>
      refine ⟨Nat.zero_le _, Nat.mod_one _, ?_⟩
      show (e'.val - 0) / (0 + 1) < 64
      have := e.isLt; simpa [he] using this
  unfold V1 pad
  split
  · congr 1
    funext a
    match a with
    | ⟨0, _⟩ => exact Fin.ext (show (r.val - 0) / (0 + 1) = r.val by simp)
    | ⟨1, _⟩ => exact Fin.ext (show (e'.val - 0) / (0 + 1) = e.val by simp [he])
  · rename_i hn; exact absurd hin hn

/-- The packed positional table at (l / 2, (l % 2) * 64 + e) is the positional table at (l, e). -/
theorem V2_apply (d : Dev nD) (l : Fin 200) (e : Fin 64) (p : Fin 100) (q : Fin 128) (hp : p.val = l.val / 2) (hq : q.val = (l.val % 2) * 64 + e.val) :
    V2 m d (ix2 p q) = m (a2Loc d) (ix2 l e) := by
  unfold V2
  refine shapeCast_apply (s := S200x64) (t := S100x128) _ _ _ _ ?_
  rw [Shape.rowMajor_val_two, Shape.rowMajor_val_two]
  show l.val * 64 + e.val = p.val * 128 + q.val
  omega

/-- The kernel's result at (l, e, b) over the three arguments: the table row the index word at (b, l) names, feature e,
    plus the positional table at (l, e). -/
theorem Out3_apply (d : Dev nD) (l : Fin 200) (e : Fin 64) (b : Fin 4096) :
    Out3 m d (ix3 l e b)
      = FloatOps.addf (m (a1Loc d) (ix2 (Cert.Spec.row (m (a0Loc d) (ix2 b l))) e)) (m (a2Loc d) (ix2 l e)) := by
  unfold Out3
  show FloatOps.addf (V1 m d (ix2 (Cert.Spec.row (V0 m d (ix2 l b))) (⟨e.val, _⟩ : Fin 128)))
      (V2 m d (ix2 (⟨l.val / 2, _⟩ : Fin 100) (⟨l.val % 2 * 64 + e.val, _⟩ : Fin 128))) = _
  rw [V0_apply, V1_apply m d _ e _ rfl, V2_apply m d l e _ _ rfl rfl]

/-- The program's result: the kernel's result transposed to batch × position × feature. -/
def V4 (d : Dev nD) : Buf (Elt F) (v4Loc d) :=
  (transpose S4096x200x64 [2, 0, 1] (Out3 m d) transposes_S200x64x4096_S4096x200x64_2_0_1 : (⟨S4096x200x64, .f32⟩ : BufTy).Contents (Elt F))

/-- It is the lookup of the specification over the three arguments. -/
theorem V4_eq (d : Dev nD) : V4 m d = Cert.Spec.GF (m (a0Loc d)) (m (a1Loc d)) (m (a2Loc d)) := by
  funext j
  unfold V4
  rw [transpose_apply [2, 0, 1] (Out3 m d) transposes_S200x64x4096_S4096x200x64_2_0_1 j (ix3 (j 1) (j 2) (j 0))
    (fun c => match c with | ⟨0, _⟩ => rfl | ⟨1, _⟩ => rfl | ⟨2, _⟩ => rfl)]
  exact (Out3_apply m d (j 1) (j 2) (j 0)).trans rfl

end Cert.Proof.Launch

end
-- ==== Proof.Launch.lean ====
/-
  The launch of the lookup kernel: from one tile's task (a hypothesis here) to the run of the whole program.

  The TensorCore transposes the index array, pads the table and packs the positional table; splits a read share of
  each of the three for every tile and the kernel's result into the tiles' blocks of batch columns; starts the two
  SparseCores and waits for them; joins the shares and the blocks back — the result now at Out3 on every block —
  and transposes it to batch × position × feature, which is the lookup of the specification (V4_eq).
-/
import proofs.«206908_g46772193853751_cont_8to1c4_160_30_alg».proof.Proof.LaunchHost

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop pointsTo_toks_split pointsTo_toks_join)
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_enc_kernel (coordsV c s)
          (Memref.whole main_v0_scv) (Memref.isWhole_whole _) (Memref.whole main_v1_scv) (Memref.isWhole_whole _)
          (Memref.whole main_v2_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's obligation, from the one task at a symbolic place. -/
theorem tileObl (hbody : TileGoal m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles'; its results theirs. -/
theorem vecSplit : (K (F := F)).VecSplit' (P m) 0 := by
  intro d c
  show (bigSep Finset.univ fun s : Fin 16 => goA m d (Fin.cast nCore_zero c) s) ⊢ |={Set.univ}=> iprop(
      (bigSep Finset.univ fun i : Fin ((K (F := F)).nSub 0) => goA m d (Fin.cast nCore_zero c) (Fin.cast nSub_zero i))
      ∗ ((bigSep Finset.univ fun i : Fin ((K (F := F)).nSub 0) => tdA m d (Fin.cast nCore_zero c) (Fin.cast nSub_zero i))
          -∗ bigSep Finset.univ fun s : Fin 16 => tdA m d (Fin.cast nCore_zero c) s))
  rw [bigSep_tasks (F := F) (fun s => goA m d (Fin.cast nCore_zero c) s), bigSep_tasks (F := F) (fun s => tdA m d (Fin.cast nCore_zero c) s)]
  iintro H; imodintro
  isplitl [H]; · iexact H
  iintro H; iexact H

/-! ## The launch element: the handshakes' rounds; the counters are not needed -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Read shares for every tile, blocks of the result for every tile -/

section Shares

variable {ℓ : Loc nD τ sig} {f : Buf (Elt F) ℓ}

/-- What is left of an array whole at the full share once every tile's read share is split off. -/
def remPts (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

omit [FloatOps F] in
theorem shares_split : (ℓ ↦{fullShare} f : sProp 𝕄)
    ⊢ iprop(remPts ℓ f ∗ bigSep Finset.univ fun c : Fin 2 => bigSep Finset.univ fun s : Fin 16 => ℓ ↦{qT c s} f) := by
  refine (pointsTo_toks_split fullShare 2).trans ?_
  refine (sep_mono_right (bigSep_mono fun c _ => pointsTo_toks_split (shareTok fullShare 2 c) 16)).trans ?_
  rw [bigSep_sep']
  unfold remPts
  iintro ⟨Hd, Hr, Ht⟩
  isplitl [Hd Hr]
  · isplitl [Hd] <;> iassumption
  iexact Ht

omit [FloatOps F] in
theorem shares_join : iprop(remPts ℓ f ∗ bigSep Finset.univ fun c : Fin 2 => bigSep Finset.univ fun s : Fin 16 => ℓ ↦{qT c s} f)
    ⊢ (ℓ ↦{fullShare} f : sProp 𝕄) := by
  have h1 : iprop((bigSep Finset.univ fun c : Fin 2 => ℓ ↦{shareDrop (shareTok fullShare 2 c) 16} f)
        ∗ bigSep Finset.univ fun c : Fin 2 => bigSep Finset.univ fun s : Fin 16 => ℓ ↦{qT c s} f)
      ⊢ (bigSep Finset.univ fun c : Fin 2 => ℓ ↦{shareTok fullShare 2 c} f : sProp 𝕄) := by
    rw [← bigSep_sep']
    exact bigSep_mono fun c _ => pointsTo_toks_join (shareTok fullShare 2 c) 16
  unfold remPts
  iintro ⟨⟨Hd, Hr⟩, Ht⟩
  iapply (pointsTo_toks_join fullShare 2)
  isplitl [Hd]; · iexact Hd
  iapply h1
  isplitl [Hr] <;> iassumption

end Shares

omit [FloatOps F] in
theorem blk_disjoint : ∀ w ∈ (Finset.univ : Finset (Fin 32)), ∀ w' ∈ (Finset.univ : Finset (Fin 32)), w ≠ w' → Disjoint (blk3 w) (blk3 w') :=
  fun _ _ _ _ h => Rect.part_disjoint hdiv3 h
omit [FloatOps F] in
theorem blk_cover : (Finset.univ : Finset (Fin 32)).biUnion blk3 = Finset.univ := Rect.biUnion_part hdiv3

omit [FloatOps F] in
/-- The result whole is its thirty-two blocks. -/
theorem v3_blocks (d : Dev nD) (f : Buf (Elt F) (v3Loc d)) :
    (v3Loc d ↦{fullShare} f : sProp 𝕄) = bigSep Finset.univ fun w : Fin 32 => v3Loc d ↦[blk3 w]{fullShare} f := by
  rw [← pointsTo_biUnion Finset.univ (ℓ := v3Loc d) blk3 blk_disjoint, blk_cover]; try rfl

/-- The tiles' numbering: (c, s) ↦ 2 s + c is a bijection onto the thirty-two blocks. -/
def widEquiv : Fin 2 × Fin 16 ≃ Fin 32 where
  toFun p := wid p.1 p.2
  invFun w := (⟨w.val % 2, Nat.mod_lt _ (by norm_num)⟩, ⟨w.val / 2, by have := w.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv w := by
    refine Fin.ext ?_
    show 2 * (w.val / 2) + w.val % 2 = w.val
    omega

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## @main on the TensorCore -/

abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_v0 : DevRef τ sig := Proc.devRef .tc (main_v0 : Ref sig .tc)
abbrev r_c : DevRef τ sig := Proc.devRef .tc (main_c : Ref sig .tc)
abbrev r_z : DevRef τ sig := Proc.devRef .tc (main_call0_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)

abbrev cLoc (d : Dev nD) : Loc nD τ sig := (SparseCore.T d).loc main_c
abbrev zLoc (d : Dev nD) : Loc nD τ sig := (SparseCore.T d).loc main_call0_v0

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (v0Loc d ↦{fullShare} W main_v0) ∗ (cLoc d ↦{fullShare} W main_c) ∗ (zLoc d ↦{fullShare} W main_call0_v0) ∗ (v1Loc d ↦{fullShare} W main_v1)
      ∗ (v2Loc d ↦{fullShare} W main_v2) ∗ (v3Loc d ↦{fullShare} W main_v3) ∗ v4Loc d ↦{fullShare} W main_v4) := by
  unfold unscopedBufs
  rw [show (Finset.univ.filter fun b : Ref sig .tc => ¬ b.isScoped)
      = {main_arg0, main_arg1, main_arg2, main_v0, main_c, main_call0_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held1 (d : Dev nD) (x : DevRef τ sig) (W : Valuation τ sig (Elt F)) :
    (held (SparseCore.T d) {x} W : sProp 𝕄) = ((d, x) ↦{fullShare} W x) := by
  unfold held; rw [bigSep_singleton]
omit [FloatOps F] in
theorem held2 (d : Dev nD) (x y : DevRef τ sig) (hxy : x ∉ ({y} : Finset (DevRef τ sig))) (W : Valuation τ sig (Elt F)) :
    (held (SparseCore.T d) {x, y} W : sProp 𝕄) = iprop(((d, x) ↦{fullShare} W x) ∗ (d, y) ↦{fullShare} W y) := by
  unfold held; rw [SparseCore.bigSep_insert' hxy, bigSep_singleton]
omit [FloatOps F] in
theorem held3 (d : Dev nD) (x y z : DevRef τ sig) (hx : x ∉ ({y, z} : Finset (DevRef τ sig))) (hy : y ∉ ({z} : Finset (DevRef τ sig)))
    (W : Valuation τ sig (Elt F)) :
    (held (SparseCore.T d) {x, y, z} W : sProp 𝕄) = iprop(((d, x) ↦{fullShare} W x) ∗ ((d, y) ↦{fullShare} W y) ∗ (d, z) ↦{fullShare} W z) := by
  unfold held; rw [SparseCore.bigSep_insert' hx, SparseCore.bigSep_insert' hy, bigSep_singleton]

/-- The launch contents of device d as a valuation. -/
def Vl (d : Dev nD) : Valuation τ sig (Elt F) := fun b => m (d, b)

/-- The integer zero the pad value is converted from. -/
def C0 : (⟨S_, .i32⟩ : BufTy).Contents (Elt F) := constantI S_ 32 0#32

/-- @main's six host operations, as printed. -/
abbrev op1 : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev op2 : HloOp τ sig (Elt F) := StableHlo.nullary main_c (constantI S_ 32 0#32)
abbrev op3 : HloOp τ sig (Elt F) := StableHlo.TRef.unary (Tx := ⟨S_, .i32⟩) (Ty := ⟨S_, .f32⟩) (.of main_c) main_call0.v0 (sitofp .f32)
abbrev op4 : HloOp τ sig (Elt F) :=
  StableHlo.TRef.binary (Ta := ⟨S100000x64, .f32⟩) (Tb := ⟨S_, .f32⟩) (Ty := ⟨S100000x128, .f32⟩) (.of main_arg1) main_call0.v0 main_call0.v1 (fun x v => pad S100000x128 ![0, 0] ![0, 64] ![0, 0] x v pads_S100000x64_S100000x128_000_0640 h_S_)
abbrev op5 : HloOp τ sig (Elt F) := StableHlo.reshape main_arg2 main_v2 rfl shapeCasts_S200x64_S100x128
abbrev op6 : HloOp τ sig (Elt F) :=
  StableHlo.unary main_v3 main_v4 ((transpose S4096x200x64 [2, 0, 1] · transposes_S200x64x4096_S4096x200x64_2_0_1) : (⟨S200x64x4096, .f32⟩ : BufTy).Contents (Elt F) → (⟨S4096x200x64, .f32⟩ : BufTy).Contents (Elt F))

/-- The valuations the later operations run from: the launch contents with one buffer at what an earlier operation left. -/
def Vc (d : Dev nD) : Valuation τ sig (Elt F) := Function.update (Vl m d) r_c (C0 (F := F))
def Vz (d : Dev nD) : Valuation τ sig (Elt F) := Function.update (Vl m d) r_z (Z0 (F := F))
def Vo (d : Dev nD) : Valuation τ sig (Elt F) := Function.update (Vl m d) r_v3 (Out3 m d)

theorem Vc_c (d : Dev nD) : Vc m d r_c = C0 (F := F) := Function.update_self _ _ _
theorem Vc_z (d : Dev nD) : Vc m d r_z = m (zLoc d) := Function.update_of_ne (show r_z ≠ r_c by decide) _ _
theorem Vz_z (d : Dev nD) : Vz m d r_z = Z0 (F := F) := Function.update_self _ _ _
theorem Vz_a1 (d : Dev nD) : Vz m d r_a1 = m (a1Loc d) := Function.update_of_ne (show r_a1 ≠ r_z by decide) _ _
theorem Vz_v1 (d : Dev nD) : Vz m d r_v1 = m (v1Loc d) := Function.update_of_ne (show r_v1 ≠ r_z by decide) _ _
theorem Vo_v3 (d : Dev nD) : Vo m d r_v3 = Out3 m d := Function.update_self _ _ _
theorem Vo_v4 (d : Dev nD) : Vo m d r_v4 = m (v4Loc d) := Function.update_of_ne (show r_v4 ≠ r_v3 by decide) _ _

theorem op1_pre (d : Dev nD) : (held (SparseCore.T d) {r_a0, r_v0} (Vl m d) : sProp 𝕄)
    = iprop((a0Loc d ↦{fullShare} m (a0Loc d)) ∗ v0Loc d ↦{fullShare} m (v0Loc d)) := by
  rw [held2 d r_a0 r_v0 (by decide)]; rfl
theorem op1_post (d : Dev nD) : (held (SparseCore.T d) {r_a0, r_v0} ((op1 (F := F)).result (Vl m d)) : sProp 𝕄)
    = iprop((a0Loc d ↦{fullShare} m (a0Loc d)) ∗ v0Loc d ↦{fullShare} V0 m d) := by
  rw [held2 d r_a0 r_v0 (by decide), HloOp.result_of_not_mem _ _ (show r_a0 ∉ ({r_v0} : Finset (DevRef τ sig)) by decide), StableHlo.unary_result]; rfl

theorem op2_pre (d : Dev nD) : (held (SparseCore.T d) {r_c} (Vl m d) : sProp 𝕄) = (cLoc d ↦{fullShare} m (cLoc d)) := by
  rw [held1]; rfl
theorem op2_post (d : Dev nD) : (held (SparseCore.T d) {r_c} ((op2 (F := F)).result (Vl m d)) : sProp 𝕄) = (cLoc d ↦{fullShare} C0 (F := F)) := by
  rw [held1, StableHlo.nullary_result]; rfl

theorem op3_pre (d : Dev nD) : (held (SparseCore.T d) {r_c, r_z} (Vc m d) : sProp 𝕄)
    = iprop((cLoc d ↦{fullShare} C0 (F := F)) ∗ zLoc d ↦{fullShare} m (zLoc d)) := by
  rw [held2 d r_c r_z (by decide), Vc_c, Vc_z]
theorem op3_post (d : Dev nD) : (held (SparseCore.T d) {r_c, r_z} ((op3 (F := F)).result (Vc m d)) : sProp 𝕄)
    = iprop((cLoc d ↦{fullShare} C0 (F := F)) ∗ zLoc d ↦{fullShare} Z0 (F := F)) := by
  rw [held2 d r_c r_z (by decide), HloOp.result_of_not_mem _ _ (show r_c ∉ ({r_z} : Finset (DevRef τ sig)) by decide), StableHlo.unary_result, Vc_c]; rfl

theorem op4_pre (d : Dev nD) : (held (SparseCore.T d) {r_a1, r_z, r_v1} (Vz m d) : sProp 𝕄)
    = iprop((a1Loc d ↦{fullShare} m (a1Loc d)) ∗ (zLoc d ↦{fullShare} Z0 (F := F)) ∗ v1Loc d ↦{fullShare} m (v1Loc d)) := by
  rw [held3 d r_a1 r_z r_v1 (by decide) (by decide), Vz_a1, Vz_z, Vz_v1]
theorem op4_post (d : Dev nD) : (held (SparseCore.T d) {r_a1, r_z, r_v1} ((op4 (F := F)).result (Vz m d)) : sProp 𝕄)
    = iprop((a1Loc d ↦{fullShare} m (a1Loc d)) ∗ (zLoc d ↦{fullShare} Z0 (F := F)) ∗ v1Loc d ↦{fullShare} V1 m d) := by
  rw [held3 d r_a1 r_z r_v1 (by decide) (by decide), HloOp.result_of_not_mem _ _ (show r_a1 ∉ ({r_v1} : Finset (DevRef τ sig)) by decide),
    HloOp.result_of_not_mem _ _ (show r_z ∉ ({r_v1} : Finset (DevRef τ sig)) by decide), StableHlo.binary_result, Vz_a1, Vz_z]; rfl

theorem op5_pre (d : Dev nD) : (held (SparseCore.T d) {r_a2, r_v2} (Vl m d) : sProp 𝕄)
    = iprop((a2Loc d ↦{fullShare} m (a2Loc d)) ∗ v2Loc d ↦{fullShare} m (v2Loc d)) := by
  rw [held2 d r_a2 r_v2 (by decide)]; rfl
theorem op5_post (d : Dev nD) : (held (SparseCore.T d) {r_a2, r_v2} ((op5 (F := F)).result (Vl m d)) : sProp 𝕄)
    = iprop((a2Loc d ↦{fullShare} m (a2Loc d)) ∗ v2Loc d ↦{fullShare} V2 m d) := by
  rw [held2 d r_a2 r_v2 (by decide), HloOp.result_of_not_mem _ _ (show r_a2 ∉ ({r_v2} : Finset (DevRef τ sig)) by decide), StableHlo.reshape_result]; rfl

theorem op6_pre (d : Dev nD) : (held (SparseCore.T d) {r_v3, r_v4} (Vo m d) : sProp 𝕄)
    = iprop((v3Loc d ↦{fullShare} Out3 m d) ∗ v4Loc d ↦{fullShare} m (v4Loc d)) := by
  rw [held2 d r_v3 r_v4 (by decide), Vo_v3, Vo_v4]
theorem op6_post (d : Dev nD) : (held (SparseCore.T d) {r_v3, r_v4} ((op6 (F := F)).result (Vo m d)) : sProp 𝕄)
    = iprop((v3Loc d ↦{fullShare} Out3 m d) ∗ v4Loc d ↦{fullShare} V4 m d) := by
  rw [held2 d r_v3 r_v4 (by decide), HloOp.result_of_not_mem _ _ (show r_v3 ∉ ({r_v4} : Finset (DevRef τ sig)) by decide), StableHlo.unary_result, Vo_v3]; rfl

/-- What the call takes for the two SparseCores: every tile's read shares and block; what is left of the three arrays. -/
theorem st_all (d : Dev nD) :
    iprop((v0Loc d ↦{fullShare} V0 m d) ∗ (v1Loc d ↦{fullShare} V1 m d) ∗ (v2Loc d ↦{fullShare} V2 m d) ∗ (v3Loc d ↦{fullShare} m (v3Loc d)))
      ⊢ iprop((remPts (v0Loc d) (V0 m d) ∗ remPts (v1Loc d) (V1 m d) ∗ remPts (v2Loc d) (V2 m d))
        ∗ bigSep Finset.univ fun c : Fin ((K (F := F)).nCore 0) => (P m).st 0 d c) := by
  rw [show (bigSep Finset.univ fun c : Fin ((K (F := F)).nCore 0) => (P m).st 0 d c)
      = bigSep Finset.univ fun c : Fin 2 => bigSep Finset.univ fun s : Fin 16 => goA m d c s from
    bigSep_cores (F := F) (fun c => bigSep Finset.univ fun s : Fin 16 => goA m d c s)]
  unfold goA
  simp only [bigSep_sep']
  rw [v3_blocks, bigSep_wid]
  iintro ⟨H0, H1, H2, H3⟩
  ihave H0' := shares_split $$ H0
  ihave H1' := shares_split $$ H1
  ihave H2' := shares_split $$ H2
  icases H0' with ⟨R0, T0⟩
  icases H1' with ⟨R1, T1⟩
  icases H2' with ⟨R2, T2⟩
  isplitl [R0 R1 R2]
  · isplitl [R0]; · iexact R0
    isplitl [R1] <;> iassumption
  isplitl [T0 T1 T2]
  · isplitl [T0]; · iexact T0
    isplitl [T1] <;> iassumption
  iexact H3

/-- What it hands back: the three arrays whole again, the result whole at Out3. -/
theorem dn_all (d : Dev nD) :
    iprop((remPts (v0Loc d) (V0 m d) ∗ remPts (v1Loc d) (V1 m d) ∗ remPts (v2Loc d) (V2 m d))
        ∗ bigSep Finset.univ fun c : Fin ((K (F := F)).nCore 0) => (P m).dn 0 d c)
      ⊢ iprop((v0Loc d ↦{fullShare} V0 m d) ∗ (v1Loc d ↦{fullShare} V1 m d) ∗ (v2Loc d ↦{fullShare} V2 m d) ∗ (v3Loc d ↦{fullShare} Out3 m d)) := by
  rw [show (bigSep Finset.univ fun c : Fin ((K (F := F)).nCore 0) => (P m).dn 0 d c)
      = bigSep Finset.univ fun c : Fin 2 => bigSep Finset.univ fun s : Fin 16 => tdA m d c s from
    bigSep_cores (F := F) (fun c => bigSep Finset.univ fun s : Fin 16 => tdA m d c s)]
  unfold tdA
  simp only [bigSep_sep']
  rw [v3_blocks, bigSep_wid]
  iintro ⟨⟨R0, R1, R2⟩, ⟨T0, T1, T2⟩, H3⟩
  isplitl [R0 T0]
  · iapply shares_join; isplitl [R0] <;> iassumption
  isplitl [R1 T1]
  · iapply shares_join; isplitl [R1] <;> iassumption
  isplitl [R2 T2]
  · iapply shares_join; isplitl [R2] <;> iassumption
  iexact H3

/-- What @main leaves the claim: the arguments at their launch contents, the result at the lookup. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ v4Loc d ↦{fullShare} V4 m d)

/-- @main on device d's TensorCore: the five host operations before the call, the call, the transpose after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Ha0, Ha1, Ha2, Hv0, Hc, Hz, Hv1, Hv2, Hv3, Hv4⟩, -, -⟩, -⟩
  -- the index array transposed
  iapply (wp_hlo_within 𝒱 (SparseCore.T d) none Set.univ (op := op1 (F := F)) (S := {r_a0, r_v0}) (Finset.Subset.refl _) (V := Vl m d)) $$ [Hb Ha0 Hv0]
  · isplitl [Hb]; · iexact Hb
    rw [op1_pre]
    isplitl [Ha0] <;> iassumption
  iintro ⟨Hb, Hh⟩
  ihave Hh' := (Entails.of_eq (op1_post m d)) $$ Hh
  icases Hh' with ⟨Ha0, Hv0⟩
  rw [wp_ret]; imodintro
  -- the integer zero
  iapply (wp_hlo_within 𝒱 (SparseCore.T d) none Set.univ (op := op2 (F := F)) (S := {r_c}) (Finset.Subset.refl _) (V := Vl m d)) $$ [Hb Hc]
  · isplitl [Hb]; · iexact Hb
    rw [op2_pre]; iexact Hc
  iintro ⟨Hb, Hh⟩
  ihave Hc := (Entails.of_eq (op2_post m d)) $$ Hh
  rw [wp_ret]; imodintro
  -- converted: the pad value
  iapply (wp_hlo_within 𝒱 (SparseCore.T d) none Set.univ (op := op3 (F := F)) (S := {r_c, r_z}) (Finset.Subset.refl _) (V := Vc m d)) $$ [Hb Hc Hz]
  · isplitl [Hb]; · iexact Hb
    rw [op3_pre]
    isplitl [Hc] <;> iassumption
  iintro ⟨Hb, Hh⟩
  ihave Hh' := (Entails.of_eq (op3_post m d)) $$ Hh
  icases Hh' with ⟨Hc, Hz⟩
  rw [wp_ret]; imodintro
  -- the table padded
  iapply (wp_hlo_within 𝒱 (SparseCore.T d) none Set.univ (op := op4 (F := F)) (S := {r_a1, r_z, r_v1}) (Finset.Subset.refl _) (V := Vz m d)) $$ [Hb Ha1 Hz Hv1]
  · isplitl [Hb]; · iexact Hb
    rw [op4_pre]
    isplitl [Ha1]; · iexact Ha1
    isplitl [Hz] <;> iassumption
  iintro ⟨Hb, Hh⟩
  ihave Hh' := (Entails.of_eq (op4_post m d)) $$ Hh
  icases Hh' with ⟨Ha1, Hz, Hv1⟩
  rw [wp_ret]; imodintro; imodintro
  -- the positional table packed
  iapply (wp_hlo_within 𝒱 (SparseCore.T d) none Set.univ (op := op5 (F := F)) (S := {r_a2, r_v2}) (Finset.Subset.refl _) (V := Vl m d)) $$ [Hb Ha2 Hv2]
  · isplitl [Hb]; · iexact Hb
    rw [op5_pre]
    isplitl [Ha2] <;> iassumption
  iintro ⟨Hb, Hh⟩
  ihave Hh' := (Entails.of_eq (op5_post m d)) $$ Hh
  icases Hh' with ⟨Ha2, Hv2⟩
  rw [wp_ret]; imodintro
  -- the call: every tile's read shares and block out, and back
  ihave Hall := (st_all m d) $$ [Hv0 Hv1 Hv2 Hv3]
  · isplitl [Hv0]; · iexact Hv0
    isplitl [Hv1]; · iexact Hv1
    isplitl [Hv2] <;> iassumption
  icases Hall with ⟨Hrem, Hstc⟩
  iapply ((K (F := F)).wp_run (D (F := F)) 𝒱 (EH := EH) (P := P m) κ d 0) $$ [Hst Hstc Hrem Hb Ha0 Ha1 Ha2 Hv4]
  isplitr; · iexact Hctx
  isplitl [Hst]; · iexact Hst
  isplitl [Hstc]; · iexact Hstc
  iintro ⟨Hst, Hdn⟩
  ihave Hback := (dn_all m d) $$ [Hrem Hdn]
  · isplitl [Hrem] <;> iassumption
  icases Hback with ⟨-, -, -, Hv3⟩
  -- the result transposed to batch × position × feature
  iapply (wp_hlo_within 𝒱 (SparseCore.T d) none Set.univ (op := op6 (F := F)) (S := {r_v3, r_v4}) (Finset.Subset.refl _) (V := Vo m d)) $$ [Hb Hv3 Hv4]
  · isplitl [Hb]; · iexact Hb
    rw [op6_pre]
    isplitl [Hv3] <;> iassumption
  iintro ⟨Hb, Hh⟩
  ihave Hh' := (Entails.of_eq (op6_post m d)) $$ Hh
  icases Hh' with ⟨-, Hv4⟩
  rw [wp_ret]; imodintro; imodintro
  isplitl [Hst]; · iexact Hst
  isplitl [Ha0]; · iexact Ha0
  isplitl [Ha1]; · iexact Ha1
  isplitl [Ha2]; · iexact Ha2
  iexact Hv4

def fq (d : Dev nD) (s' : Phys nD τ sig (Elt F)) : Prop :=
  s'.mem.mem (v4Loc d) = V4 m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v4Loc d) (I := Finset.univ) (q := fullShare) (f := V4 m d)) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i)⟩

/-! ## The program's run -/

/-- What every final memory satisfies: the result is the lookup of the specification over the arguments' launch contents,
    and the arguments are unchanged. -/
def QC : PUnit × MemSt nD τ sig (Elt F) → Prop := fun r => ∀ c : Dev nD,
  r.2.mem (v4Loc c) = Cert.Spec.GF (m (a0Loc c)) (m (a1Loc c)) (m (a2Loc c))
    ∧ r.2.mem (a0Loc c) = m (a0Loc c) ∧ r.2.mem (a1Loc c) = m (a1Loc c) ∧ r.2.mem (a2Loc c) = m (a2Loc c)

theorem run [∀ e, Nonempty (Elt F e)] (_hpre : PreOK m) (hbody : TileGoal m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).1.trans (V4_eq m c), (h c).2⟩)

end Cert.Proof.Launch

end
-- ==== Proof.RefPre.lean ====
/-
  What the precondition says of the index array.

  The precondition is the conjunction of three tests, each reduced by `and` over a whole array: every embedding entry is
  finite, every positional entry is finite, and every index word, read as a signed integer, lies in `[0, 99999]`.  Only
  the third is needed here: a conjunction that is `1` has both conjuncts `1`, a reduction by `and` that is `1` met only
  ones, and a signed comparison that is `1` is the inequality of the signed readings.
-/
import proofs.«206908_g46772193853751_cont_8to1c4_160_30_alg».proof.Proof.Gen.Pre_input_domain
import Idealize.ShloMosaic.Lib.ReduceAll
import Idealize.ShloMosaic.Lib.ValueIdx

noncomputable section

namespace Cert.ReferenceIdeal.RefValue

open Idealize.ShloMosaic Idealize.ShloMosaic.ValueIdx

/-- Under the precondition every index word, read signed, lies in `[0, 99999]`. -/
theorem idx_range {F : FTy → Type} [FloatOps F] (idx : IVec Cert.Pre_input_domain.S4096x200 32)
    (src : FVec F Cert.Pre_input_domain.S100000x64 .f32) (pos : FVec F Cert.Pre_input_domain.S200x64 .f32)
    (h : Cert.Pre_input_domain.fn (F := F) idx src pos = fun _ => 1#1) (j : Cert.Pre_input_domain.S4096x200.Idx) :
    0 ≤ (idx j).toInt ∧ (idx j).toInt ≤ 99999 := by
  haveI : Subsingleton Cert.Pre_input_domain.S_.Idx := ⟨fun a b => funext fun d => d.elim0⟩
  have h0 := congrFun h ix0
  dsimp only [Cert.Pre_input_domain.fn] at h0
  obtain ⟨-, h14⟩ := IntOp.andi_eq_one.mp h0
  have e := Host.reduce_andi_all _ _ _ _ _ h14 j
  obtain ⟨hge, hle⟩ := IntOp.andi_eq_one.mp e
  have h1 : (0#32 : BitVec 32).toInt ≤ (idx j).toInt := IntOp.cmpi_sge.mp hge
  have h2 : (idx j).toInt ≤ (99999#32 : BitVec 32).toInt := IntOp.cmpi_sle.mp hle
  have z0 : (0#32 : BitVec 32).toInt = 0 := by decide
  have z1 : (99999#32 : BitVec 32).toInt = 99999 := by decide
  rw [z0] at h1; rw [z1] at h2
  exact ⟨h1, h2⟩

end Cert.ReferenceIdeal.RefValue

end
-- ==== Proof.LaunchPre.lean ====
/-
  The certificate's precondition gives what the launch asks of the launch memory: an index word that is at least 0 and
  at most 99999 as a signed integer is, as a natural number, below 100000.
-/
import proofs.«206908_g46772193853751_cont_8to1c4_160_30_alg».proof.Proof.LaunchPay
import proofs.«206908_g46772193853751_cont_8to1c4_160_30_alg».proof.Proof.RefPre

noncomputable section

namespace Cert.Proof.Launch

open Cert.KernelIdeal Cert.KernelIdeal.Gen

open Idealize.ShloMosaic
open Idealize.ShloMosaic.ValueIdx

variable {F : FTy → Type} [FloatOps F]

/-- From the precondition's function being all ones on every device. -/
theorem preOK_of_fn [Cert.Pre_input_domain.Facts] (m : (ℓ : Loc nD τ sig) → Buf (Elt F) ℓ)
    (h : ∀ c : Dev nD, Cert.Pre_input_domain.fn (F := F) (m (a0Loc c)) (m (a1Loc c)) (m (a2Loc c)) = fun _ => 1#1) : PreOK m := by
  intro d b l
  obtain ⟨hx, hy⟩ := Cert.ReferenceIdeal.RefValue.idx_range (F := F) (m (a0Loc d)) (m (a1Loc d)) (m (a2Loc d)) (h d) (ix2 b l)
  have hlt := (m (a0Loc d) (ix2 b l)).isLt
  rw [BitVec.toInt_eq_toNat_cond] at hx hy
  split at hx <;> omega

end Cert.Proof.Launch

end
-- ==== Proof.BodyGoal.lean ====
/-
  One tile's task over the resources as the task itself addresses them: the three arrays it reads through its read
  shares, its block of the result, its four scratch buffers at whatever they hold, its eight transfer semaphores at
  zero. The launch's statement of the task (TileGoal) follows from this one by regrouping (Tile.lean).
-/
import proofs.«206908_g46772193853751_cont_8to1c4_160_30_alg».proof.Proof.LaunchPay

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)

variable [FloatOps F]

/-- The task, with the index words in range: from the arrays, scratch and semaphores as the task addresses them to the
    same with the tile's block of the result at Out3. -/
def BodyCore : Prop := PreOK m → ∀ (d : Dev nD) (L : grid0.Coords) (O : CellTallies nD τ sig (HIx 1)) (W : Waits sig (HIx 1)),
  (iprop(Transfers.MayWaits (V d (cV L) (jV L)) (none : HIx 1) O
      ∗ ((Memref.whole main_v0_scv).view.loc (V d (cV L) (jV L)) ↦{qT (cL L) (sL L)} V0 m d)
      ∗ ((Memref.whole main_v1_scv).view.loc (V d (cV L) (jV L)) ↦{qT (cL L) (sL L)} V1 m d)
      ∗ ((Memref.whole main_v2_scv).view.loc (V d (cV L) (jV L)) ↦{qT (cL L) (sL L)} V2 m d)
      ∗ ((Memref.whole main_v3_scv).view.loc (V d (cV L) (jV L)) ↦[blk3 (wid (cL L) (sL L))]{fullShare} m (v3Loc d))
      ∗ (∃ f, (Memref.whole cc0_scratch0).view.loc (V d (cV L) (jV L)) ↦{fullShare} f) ∗ (∃ f, (Memref.whole cc0_scratch1).view.loc (V d (cV L) (jV L)) ↦{fullShare} f)
      ∗ (∃ f, (Memref.whole cc0_scratch2).view.loc (V d (cV L) (jV L)) ↦{fullShare} f) ∗ (∃ f, (Memref.whole cc0_scratch3).view.loc (V d (cV L) (jV L)) ↦{fullShare} f)
      ∗ semVal (V d (cV L) (jV L), SemLoc.dma cc0_scratch4.sem) 0 ∗ semVal (V d (cV L) (jV L), SemLoc.dma cc0_scratch5.sem) 0
      ∗ semVal (V d (cV L) (jV L), SemLoc.dma cc0_scratch6.sem) 0 ∗ semVal (V d (cV L) (jV L), SemLoc.dma cc0_scratch7.sem) 0
      ∗ semVal (V d (cV L) (jV L), SemLoc.dma cc0_scratch8.sem) 0 ∗ semVal (V d (cV L) (jV L), SemLoc.dma cc0_scratch9.sem) 0
      ∗ semVal (V d (cV L) (jV L), SemLoc.dma cc0_scoped0.sem) 0 ∗ semVal (V d (cV L) (jV L), SemLoc.dma cc0_scoped1.sem) 0
      ∗ owes (V d (cV L) (jV L)) O W) : sProp 𝕄)
    ⊢ wp frame (wpE (defs₀ (F := F)) 𝒱₀ (V d (cV L) (jV L)) none) Set.univ
        (cc0_enc_kernel L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0 cc0_scoped1)
        fun _ => iprop(((Memref.whole main_v0_scv).view.loc (V d (cV L) (jV L)) ↦{qT (cL L) (sL L)} V0 m d)
          ∗ ((Memref.whole main_v1_scv).view.loc (V d (cV L) (jV L)) ↦{qT (cL L) (sL L)} V1 m d)
          ∗ ((Memref.whole main_v2_scv).view.loc (V d (cV L) (jV L)) ↦{qT (cL L) (sL L)} V2 m d)
          ∗ ((Memref.whole main_v3_scv).view.loc (V d (cV L) (jV L)) ↦[blk3 (wid (cL L) (sL L))]{fullShare} Out3 m d)
          ∗ (∃ f, (Memref.whole cc0_scratch0).view.loc (V d (cV L) (jV L)) ↦{fullShare} f) ∗ (∃ f, (Memref.whole cc0_scratch1).view.loc (V d (cV L) (jV L)) ↦{fullShare} f)
          ∗ (∃ f, (Memref.whole cc0_scratch2).view.loc (V d (cV L) (jV L)) ↦{fullShare} f) ∗ (∃ f, (Memref.whole cc0_scratch3).view.loc (V d (cV L) (jV L)) ↦{fullShare} f)
          ∗ semVal (V d (cV L) (jV L), SemLoc.dma cc0_scratch4.sem) 0 ∗ semVal (V d (cV L) (jV L), SemLoc.dma cc0_scratch5.sem) 0
          ∗ semVal (V d (cV L) (jV L), SemLoc.dma cc0_scratch6.sem) 0 ∗ semVal (V d (cV L) (jV L), SemLoc.dma cc0_scratch7.sem) 0
          ∗ semVal (V d (cV L) (jV L), SemLoc.dma cc0_scratch8.sem) 0 ∗ semVal (V d (cV L) (jV L), SemLoc.dma cc0_scratch9.sem) 0
          ∗ semVal (V d (cV L) (jV L), SemLoc.dma cc0_scoped0.sem) 0 ∗ semVal (V d (cV L) (jV L), SemLoc.dma cc0_scoped1.sem) 0
          ∗ ∃ W', ⌜∀ p ∈ W', p ∈ W ∨ p.2 = none⌝ ∗ owes (V d (cV L) (jV L)) O W')

end Cert.Proof.Launch

end
-- ==== Proof.Tile.lean ====
/-
  From the task over the resources as the task addresses them (BodyCore) to the launch's statement of it (TileGoal): the
  tile's scoped storage is its four scratch buffers and eight transfer semaphores and a rest that is set aside and given
  back untouched; the arrays in device memory are the same buffers whichever processor names them.
-/
import proofs.«206908_g46772193853751_cont_8to1c4_160_30_alg».proof.Proof.BodyGoal

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- A transfer semaphore of the tile, as a cell. -/
abbrev gS (sm : DmaSems sig S_) : GSem nD τ sig := (V d (cV L) (jV L), SemLoc.dma sm.sem)
/-- A scratch buffer of the tile, as a buffer of the device. -/
abbrev bS (b : Ref sig .scVector) : DevRef τ sig := (Proc.scVector (cV L) (jV L)).devRef b

def kCells8 : Finset (GSem nD τ sig) :=
  {gS d L cc0_scratch4, gS d L cc0_scratch5, gS d L cc0_scratch6, gS d L cc0_scratch7, gS d L cc0_scratch8, gS d L cc0_scratch9,
    gS d L cc0_scoped0, gS d L cc0_scoped1}
def kRefs4 : Finset (DevRef τ sig) := {bS L cc0_scratch0, bS L cc0_scratch1, bS L cc0_scratch2, bS L cc0_scratch3}

omit [FloatOps F] in
theorem gS_ne {s s' : DmaSems sig S_} (h : (SemLoc.dma s.sem : SemLoc sig) ≠ SemLoc.dma s'.sem) : gS d L s ≠ gS d L s' :=
  fun e => h (Prod.mk.inj e).2

omit [FloatOps F] in
theorem kCells8_sub : kCells8 d L ⊆ ownCells (V d (cV L) (jV L)) := by
  intro g hg
  simp only [kCells8, Finset.mem_insert, Finset.mem_singleton] at hg
  rcases hg with rfl | rfl | rfl | rfl | rfl | rfl | rfl | rfl
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scratch6.sem : SemLoc sig).isScoped .scVector = true; decide⟩
  · exact mem_ownCells.mpr ⟨rfl, by show (SemLoc.dma cc0_scratch7.sem : SemLoc sig).isScoped .scVector = true; decide⟩
  · exact mem_ownCells.mpr ⟨rfl, by show (SemLoc.dma cc0_scratch8.sem : SemLoc sig).isScoped .scVector = true; decide⟩
  · exact mem_ownCells.mpr ⟨rfl, by show (SemLoc.dma cc0_scratch9.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩

omit [FloatOps F] in
/-- The tile's own semaphores at zero: the eight transfer semaphores, and the rest. -/
theorem ownSems0_V :
    (ownSems0 (V d (cV L) (jV L)) : sProp 𝕄)
      = iprop((semVal (gS d L cc0_scratch4) 0 ∗ semVal (gS d L cc0_scratch5) 0 ∗ semVal (gS d L cc0_scratch6) 0 ∗ semVal (gS d L cc0_scratch7) 0
          ∗ semVal (gS d L cc0_scratch8) 0 ∗ semVal (gS d L cc0_scratch9) 0 ∗ semVal (gS d L cc0_scoped0) 0 ∗ semVal (gS d L cc0_scoped1) 0)
          ∗ bigSep (ownCells (V d (cV L) (jV L)) \ kCells8 d L) fun g => semVal g 0) := by
  unfold SparseCore.Cfg.ownSems0
  rw [SparseCore.bigSep_sdiff_split' (kCells8_sub d L)]
  congr 1
  unfold kCells8
  have hne : ∀ {s s' : DmaSems sig S_}, (SemLoc.dma s.sem : SemLoc sig) ≠ SemLoc.dma s'.sem → gS d L s ≠ gS d L s' := fun h => gS_ne d L h
  rw [SparseCore.bigSep_insert' (by simp only [Finset.mem_insert, Finset.mem_singleton, not_or]; exact ⟨hne (by decide), hne (by decide), hne (by decide), hne (by decide), hne (by decide), hne (by decide), hne (by decide)⟩),
    SparseCore.bigSep_insert' (by simp only [Finset.mem_insert, Finset.mem_singleton, not_or]; exact ⟨hne (by decide), hne (by decide), hne (by decide), hne (by decide), hne (by decide), hne (by decide)⟩),
    SparseCore.bigSep_insert' (by simp only [Finset.mem_insert, Finset.mem_singleton, not_or]; exact ⟨hne (by decide), hne (by decide), hne (by decide), hne (by decide), hne (by decide)⟩),
    SparseCore.bigSep_insert' (by simp only [Finset.mem_insert, Finset.mem_singleton, not_or]; exact ⟨hne (by decide), hne (by decide), hne (by decide), hne (by decide)⟩),
    SparseCore.bigSep_insert' (by simp only [Finset.mem_insert, Finset.mem_singleton, not_or]; exact ⟨hne (by decide), hne (by decide), hne (by decide)⟩),
    SparseCore.bigSep_insert' (by simp only [Finset.mem_insert, Finset.mem_singleton, not_or]; exact ⟨hne (by decide), hne (by decide)⟩),
    SparseCore.bigSep_insert' (by simp only [Finset.mem_singleton]; exact hne (by decide)),
    bigSep_singleton]

omit [FloatOps F] in
theorem kRefs4_sub : kRefs4 L ⊆ ownRefs (τ := τ) (sig := sig) (.scVector (cV L) (jV L)) := by
  intro b hb
  simp only [kRefs4, Finset.mem_insert, Finset.mem_singleton] at hb
  rcases hb with rfl | rfl | rfl | rfl <;> exact SparseCore.Cfg.mem_ownRefs_of_owner rfl

omit [FloatOps F] in
theorem bS_ne {b b' : Ref sig .scVector} (h : b ≠ b') : bS L b ≠ bS L b' := fun e => h (Proc.devRef_injective _ e)

omit [FloatOps F] in
/-- The tile's own buffers: the four scratch buffers, each at some contents, and the rest. -/
theorem ownBufs_V :
    (ownBufs (V d (cV L) (jV L)) : sProp 𝕄)
      = iprop(((∃ f, (Memref.whole cc0_scratch0).view.loc (V d (cV L) (jV L)) ↦{fullShare} f) ∗ (∃ f, (Memref.whole cc0_scratch1).view.loc (V d (cV L) (jV L)) ↦{fullShare} f)
          ∗ (∃ f, (Memref.whole cc0_scratch2).view.loc (V d (cV L) (jV L)) ↦{fullShare} f) ∗ (∃ f, (Memref.whole cc0_scratch3).view.loc (V d (cV L) (jV L)) ↦{fullShare} f))
          ∗ bigSep (ownRefs (τ := τ) (.scVector (cV L) (jV L)) \ kRefs4 L) fun b => iprop(∃ f, ((d, b) : Loc nD τ sig) ↦{fullShare} f)) := by
  unfold SparseCore.Cfg.ownBufs
  refine (SparseCore.bigSep_sdiff_split' (kRefs4_sub L)).trans ?_
  congr 1
  unfold kRefs4
  rw [SparseCore.bigSep_insert' (by simp only [Finset.mem_insert, Finset.mem_singleton, not_or]; exact ⟨bS_ne L (by decide), bS_ne L (by decide), bS_ne L (by decide)⟩),
    SparseCore.bigSep_insert' (by simp only [Finset.mem_insert, Finset.mem_singleton, not_or]; exact ⟨bS_ne L (by decide), bS_ne L (by decide)⟩),
    SparseCore.bigSep_insert' (by simp only [Finset.mem_singleton]; exact bS_ne L (by decide)),
    bigSep_singleton]

/-- What of the tile's scoped storage the task does not touch. -/
def restOf : sProp 𝕄 :=
  iprop((bigSep (ownRefs (τ := τ) (.scVector (cV L) (jV L)) \ kRefs4 L) fun b => iprop(∃ f, ((d, b) : Loc nD τ sig) ↦{fullShare} f))
    ∗ bigSep (ownCells (V d (cV L) (jV L)) \ kCells8 d L) fun g => semVal g 0)

end Tile

/-- The launch's statement of the task, from the task over the resources as it addresses them. -/
theorem tileGoal_of_core (hpre : PreOK m) (h : BodyCore m) : TileGoal m := by
  intro d L O W hO
  rw [(K (F := F)).scopedBufs_V facts d (cV L) (jV L), SparseCore.Cfg.scopedSems0_V (Val := Elt F) d (cV L) (jV L), ownSems0_V, ownBufs_V]
  unfold goA tdA
  refine BI.Entails.trans ?pre (((sep_mono_left (h hpre d L O W)).trans (wp_frame_r frame _ _ (R := restOf (F := F) d L))).trans (wp_mono frame _ _ fun _ => ?post))
  case pre =>
    unfold restOf
    change BIBase.Entails (PROP := sProp 𝕄) _ _
    iintro ⟨#Hlv, -, ⟨⟨H0, H1, H2⟩, H3⟩, ⟨⟨Hs0, Hs1, Hs2, Hs3⟩, Hbufs⟩, ⟨⟨G4, G5, G6, G7, G8, G9, G10, G11⟩, Hsems⟩, HO⟩
    ihave Hmw := ((K (F := F)).mayWaits_none (thr := V d (cV L) (jV L)) hO) $$ Hlv
    isplitr [Hbufs Hsems]
    · isplitl [Hmw]; · iexact Hmw
      isplitl [H0]; · iexact H0
      isplitl [H1]; · iexact H1
      isplitl [H2]; · iexact H2
      isplitl [H3]; · iexact H3
      isplitl [Hs0]; · iexact Hs0
      isplitl [Hs1]; · iexact Hs1
      isplitl [Hs2]; · iexact Hs2
      isplitl [Hs3]; · iexact Hs3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      iexact HO
    · isplitl [Hbufs] <;> iassumption
  case post =>
    unfold restOf
    change BIBase.Entails (PROP := sProp 𝕄) _ _
    iintro ⟨⟨H0, H1, H2, H3, Hs0, Hs1, Hs2, Hs3, G4, G5, G6, G7, G8, G9, G10, G11, HW⟩, Hbufs, Hsems⟩
    isplitl [H0 H1 H2 H3]
    · isplitl [H0 H1 H2]
      · isplitl [H0]; · iexact H0
        isplitl [H1] <;> iassumption
      · iexact H3
    isplitl [Hs0 Hs1 Hs2 Hs3 Hbufs]
    · isplitl [Hs0 Hs1 Hs2 Hs3]
      · isplitl [Hs0]; · iexact Hs0
        isplitl [Hs1]; · iexact Hs1
        isplitl [Hs2] <;> iassumption
      · iexact Hbufs
    isplitl [G4 G5 G6 G7 G8 G9 G10 G11 Hsems]
    · isplitl [G4 G5 G6 G7 G8 G9 G10 G11]
      · isplitl [G4]; · iexact G4
        isplitl [G5]; · iexact G5
        isplitl [G6]; · iexact G6
        isplitl [G7]; · iexact G7
        isplitl [G8]; · iexact G8
        isplitl [G9]; · iexact G9
        isplitl [G10] <;> iassumption
      · iexact Hsems
    iexact HW

end Cert.Proof.Launch

end
-- ==== Proof.LaunchKPay.lean ====
/-
  The launch of the lookup kernel: the program as the launch theorem sees it, the ghost state, what the
  launch memory must satisfy, what every tile is handed and hands back, and the statement of one tile's task.

  The kernel runs on 2 SparseCores × 16 vector subcores. Tile (c, s) has number w = 2 s + c and owns the block of
  128 batch columns [128 w, 128 w + 128) of the kernel's result (position × feature × batch). Every tile reads the
  transposed index array, the padded table and the packed positional table through a read share of the whole array;
  it is handed full ownership of its own block of the result and hands it back at the value Out3 below.
-/
import proofs.«206908_g46772193853751_cont_8to1c4_160_30_alg».proof.Proof.Gen.Kernel
import proofs.«206908_g46772193853751_cont_8to1c4_160_30_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Transfers
import Idealize.ShloMosaic.Lib.Tactic

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The three arguments, the three arrays the kernel reads, its result and the program's result, as locations of device d. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

/-- What the proof asks of the launch memory: every index word names a row of the table. -/
def PreOK : Prop := ∀ (d : Dev nD) (b : Fin 4096) (l : Fin 200), (m (a0Loc d) (ix2 b l)).toNat < 100000

variable [FloatOps F]

/-- The index array transposed (position × batch): what the kernel reads its indices from. -/
def V0 (d : Dev nD) : Buf (Elt F) (v0Loc d) :=
  (transpose S200x4096 [1, 0] (m (a0Loc d)) transposes_S4096x200_S200x4096_1_0 : (⟨S200x4096, .i32⟩ : BufTy).Contents (Elt F))
/-- The pad value: the integer zero converted. -/
def Z0 : (⟨S_, .f32⟩ : BufTy).Contents (Elt F) := sitofp .f32 (constantI S_ 32 0#32)
/-- The table padded to 128 columns: what the kernel gathers rows of. -/
def V1 (d : Dev nD) : Buf (Elt F) (v1Loc d) :=
  (pad S100000x128 ![0, 0] ![0, 64] ![0, 0] (m (a1Loc d)) (Z0 (F := F)) pads_S100000x64_S100000x128_000_0640 h_S_ : (⟨S100000x128, .f32⟩ : BufTy).Contents (Elt F))
/-- The positional table packed two positions to a row of 128. -/
def V2 (d : Dev nD) : Buf (Elt F) (v2Loc d) :=
  (fun i => shapeCast S100x128 (m (a2Loc d)) shapeCasts_S200x64_S100x128 i : (⟨S100x128, .f32⟩ : BufTy).Contents (Elt F))

/-- The kernel's result (position × feature × batch) as ONE function of the three arrays it reads: at (l, e, b) the
    table row the index word at (l, b) names, feature e, plus the packed positional table at (l / 2, (l % 2) * 64 + e). -/
def Out3 (d : Dev nD) : Buf (Elt F) (v3Loc d) := fun j =>
  have h0 : (j 0).val < 200 := (j 0).isLt
  have h1 : (j 1).val < 64 := (j 1).isLt
  have h2 : (j 2).val < 4096 := (j 2).isLt
  FloatOps.addf
    (V1 m d (ix2 (Cert.Spec.row (V0 m d (ix2 (⟨(j 0).val, h0⟩ : Fin 200) (⟨(j 2).val, h2⟩ : Fin 4096)))) (⟨(j 1).val, by omega⟩ : Fin 128)))
    (V2 m d (ix2 (⟨(j 0).val / 2, by omega⟩ : Fin 100) (⟨((j 0).val % 2) * 64 + (j 1).val, by omega⟩ : Fin 128)))

/-! ## Tiles, blocks and shares -/

/-- Tile (c, s)'s number. -/
def wid (c : Fin 2) (s : Fin 16) : Fin 32 := ⟨2 * s.val + c.val, by omega⟩

theorem hdiv3 : 32 ∣ S200x64x4096.size 2 := ⟨128, rfl⟩
/-- Block w of the result: the batch columns [128 w, 128 w + 128), every position and feature. -/
abbrev blkR (w : Fin 32) : Rect S200x64x4096 := Rect.part (s := S200x64x4096) (a₀ := 2) hdiv3 w
abbrev blk3 (w : Fin 32) : Finset S200x64x4096.Idx := (blkR w).set

/-- Tile (c, s)'s read share: SparseCore c's token of the whole, subcore s's token of that. -/
abbrev qT (c : Fin 2) (s : Fin 16) : PosShare TreeShare := shareTok (shareTok fullShare 2 c) 16 s

/-- The three arrays the kernel reads, each whole at tile (c, s)'s read share. -/
abbrev roPts (d : Dev nD) (c : Fin 2) (s : Fin 16) : sProp 𝕄 :=
  iprop((v0Loc d ↦{qT c s} V0 m d) ∗ (v1Loc d ↦{qT c s} V1 m d) ∗ (v2Loc d ↦{qT c s} V2 m d))
/-- Block w of the result, owned, at contents f. -/
abbrev outPts (d : Dev nD) (w : Fin 32) (f : Buf (Elt F) (v3Loc d)) : sProp 𝕄 := v3Loc d ↦[blk3 w]{fullShare} f

/-- What tile (c, s) is handed: its read shares and its block of the result at the launch contents; -/
def goA (d : Dev nD) (c : Fin 2) (s : Fin 16) : sProp 𝕄 := iprop(roPts m d c s ∗ outPts d (wid c s) (m (v3Loc d)))
/-- what it hands back: the same, its block at Out3. -/
def tdA (d : Dev nD) (c : Fin 2) (s : Fin 16) : sProp 𝕄 := iprop(roPts m d c s ∗ outPts d (wid c s) (Out3 m d))

/-- The one call: SparseCore c takes what its sixteen tiles take, and brings back what they bring back. -/
def P : (K (F := F)).Pay (nD := nD) (Val := Elt F) (Name := ℕ) (U := UU) where
  st := fun q d c => match q with | 0 => bigSep Finset.univ fun s : Fin 16 => goA m d (Fin.cast nCore_zero c) s
  dn := fun q d c => match q with | 0 => bigSep Finset.univ fun s : Fin 16 => tdA m d (Fin.cast nCore_zero c) s
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with | 0 => by unfold P goA; infer_instance
  dn q d c := match q with | 0 => by unfold P tdA; infer_instance
  go q d c i := match q with | 0 => by unfold P goA; infer_instance
  td q d c i := match q with | 0 => by unfold P tdA; infer_instance

/-! ## One tile's task -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

/-- The body obligation: the kernel on vector subcore (L 0, L 1) of device d, from what the tile is handed to what it
    hands back, its block of the result at Out3. -/
def TileGoal : Prop :=
  ∀ (d : Dev nD) (L : grid0.Coords) (O : CellTallies nD τ sig (HIx 1)) (W : Waits sig (HIx 1)) (_ : ∀ g, O g none = 0),
    iprop(levAts (K (F := F)).L (K (F := F)).lev ∗ emp ∗ goA m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_enc_kernel L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0 cc0_scoped1)
          fun _ => iprop(tdA m d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.LaunchK

end
-- ==== Proof.LaunchKHost.lean ====
/-
  The host operations around the kernel, read at an index: the transposed index array, the padded table and the
  packed positional table in terms of the program's three arguments, and the program's result — the kernel's result
  transposed to batch × position × feature — as the lookup of the specification.
-/
import proofs.«206908_g46772193853751_cont_8to1c4_160_30_alg».proof.Proof.LaunchKPay
import Idealize.ShloMosaic.Lib.Pipeline.Value
import Idealize.ShloMosaic.Lib.ValueLayout

noncomputable section

namespace Cert.Proof.LaunchK

open Cert.Kernel Cert.Kernel.Gen

open Idealize.ShloMosaic
open Idealize.ShloMosaic.ValueIdx

variable {F : FTy → Type} [FloatOps F]
variable (m : (ℓ : Loc nD τ sig) → Buf (Elt F) ℓ)

/-- The transposed index array at (l, b) is the index array at (b, l). -/
theorem V0_apply (d : Dev nD) (l : Fin 200) (b : Fin 4096) : V0 m d (ix2 l b) = m (a0Loc d) (ix2 b l) := by
  unfold V0
  exact transpose_ix2_apply (a := 4096) (b := 200) _ _ l b

/-- The padded table at (r, e), e below 64, is the table at (r, e). -/
theorem V1_apply (d : Dev nD) (r : Fin 100000) (e : Fin 64) (e' : Fin 128) (he : e'.val = e.val) :
    V1 m d (ix2 r e') = m (a1Loc d) (ix2 r e) := by
  have hin : ∀ a : Fin S100000x64.rank, (![0, 0] : Fin 2 → Nat) a ≤ ((ix2 r e' : S100000x128.Idx) (a.cast pads_S100000x64_S100000x128_000_0640.1)).val
      ∧ (((ix2 r e' : S100000x128.Idx) (a.cast pads_S100000x64_S100000x128_000_0640.1)).val - (![0, 0] : Fin 2 → Nat) a) % ((![0, 0] : Fin 2 → Nat) a + 1) = 0
      ∧ (((ix2 r e' : S100000x128.Idx) (a.cast pads_S100000x64_S100000x128_000_0640.1)).val - (![0, 0] : Fin 2 → Nat) a) / ((![0, 0] : Fin 2 → Nat) a + 1) < S100000x64.size a := by
    intro a
    match a with
    | ⟨0, _⟩ =>
      refine ⟨Nat.zero_le _, Nat.mod_one _, ?_⟩
      show (r.val - 0) / (0 + 1) < 100000
      have := r.isLt; simpa using this
    | ⟨1, _⟩ =>
      refine ⟨Nat.zero_le _, Nat.mod_one _, ?_⟩
      show (e'.val - 0) / (0 + 1) < 64
      have := e.isLt; simpa [he] using this
  unfold V1 pad
  split
  · congr 1
    funext a
    match a with
    | ⟨0, _⟩ => exact Fin.ext (show (r.val - 0) / (0 + 1) = r.val by simp)
    | ⟨1, _⟩ => exact Fin.ext (show (e'.val - 0) / (0 + 1) = e.val by simp [he])
  · rename_i hn; exact absurd hin hn

/-- The packed positional table at (l / 2, (l % 2) * 64 + e) is the positional table at (l, e). -/
theorem V2_apply (d : Dev nD) (l : Fin 200) (e : Fin 64) (p : Fin 100) (q : Fin 128) (hp : p.val = l.val / 2) (hq : q.val = (l.val % 2) * 64 + e.val) :
    V2 m d (ix2 p q) = m (a2Loc d) (ix2 l e) := by
  unfold V2
  refine shapeCast_apply (s := S200x64) (t := S100x128) _ _ _ _ ?_
  rw [Shape.rowMajor_val_two, Shape.rowMajor_val_two]
  show l.val * 64 + e.val = p.val * 128 + q.val
  omega

/-- The kernel's result at (l, e, b) over the three arguments: the table row the index word at (b, l) names, feature e,
    plus the positional table at (l, e). -/
theorem Out3_apply (d : Dev nD) (l : Fin 200) (e : Fin 64) (b : Fin 4096) :
    Out3 m d (ix3 l e b)
      = FloatOps.addf (m (a1Loc d) (ix2 (Cert.Spec.row (m (a0Loc d) (ix2 b l))) e)) (m (a2Loc d) (ix2 l e)) := by
  unfold Out3
  show FloatOps.addf (V1 m d (ix2 (Cert.Spec.row (V0 m d (ix2 l b))) (⟨e.val, _⟩ : Fin 128)))
      (V2 m d (ix2 (⟨l.val / 2, _⟩ : Fin 100) (⟨l.val % 2 * 64 + e.val, _⟩ : Fin 128))) = _
  rw [V0_apply, V1_apply m d _ e _ rfl, V2_apply m d l e _ _ rfl rfl]

/-- The program's result: the kernel's result transposed to batch × position × feature. -/
def V4 (d : Dev nD) : Buf (Elt F) (v4Loc d) :=
  (transpose S4096x200x64 [2, 0, 1] (Out3 m d) transposes_S200x64x4096_S4096x200x64_2_0_1 : (⟨S4096x200x64, .f32⟩ : BufTy).Contents (Elt F))

/-- It is the lookup of the specification over the three arguments. -/
theorem V4_eq (d : Dev nD) : V4 m d = Cert.Spec.GF (m (a0Loc d)) (m (a1Loc d)) (m (a2Loc d)) := by
  funext j
  unfold V4
  rw [transpose_apply [2, 0, 1] (Out3 m d) transposes_S200x64x4096_S4096x200x64_2_0_1 j (ix3 (j 1) (j 2) (j 0))
    (fun c => match c with | ⟨0, _⟩ => rfl | ⟨1, _⟩ => rfl | ⟨2, _⟩ => rfl)]
  exact (Out3_apply m d (j 1) (j 2) (j 0)).trans rfl

end Cert.Proof.LaunchK

end
-- ==== Proof.LaunchK.lean ====
/-
  The launch of the lookup kernel: from one tile's task (a hypothesis here) to the run of the whole program.

  The TensorCore transposes the index array, pads the table and packs the positional table; splits a read share of
  each of the three for every tile and the kernel's result into the tiles' blocks of batch columns; starts the two
  SparseCores and waits for them; joins the shares and the blocks back — the result now at Out3 on every block —
  and transposes it to batch × position × feature, which is the lookup of the specification (V4_eq).
-/
import proofs.«206908_g46772193853751_cont_8to1c4_160_30_alg».proof.Proof.LaunchKHost

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop pointsTo_toks_split pointsTo_toks_join)
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_enc_kernel (coordsV c s)
          (Memref.whole main_v0_scv) (Memref.isWhole_whole _) (Memref.whole main_v1_scv) (Memref.isWhole_whole _)
          (Memref.whole main_v2_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's obligation, from the one task at a symbolic place. -/
theorem tileObl (hbody : TileGoal m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles'; its results theirs. -/
theorem vecSplit : (K (F := F)).VecSplit' (P m) 0 := by
  intro d c
  show (bigSep Finset.univ fun s : Fin 16 => goA m d (Fin.cast nCore_zero c) s) ⊢ |={Set.univ}=> iprop(
      (bigSep Finset.univ fun i : Fin ((K (F := F)).nSub 0) => goA m d (Fin.cast nCore_zero c) (Fin.cast nSub_zero i))
      ∗ ((bigSep Finset.univ fun i : Fin ((K (F := F)).nSub 0) => tdA m d (Fin.cast nCore_zero c) (Fin.cast nSub_zero i))
          -∗ bigSep Finset.univ fun s : Fin 16 => tdA m d (Fin.cast nCore_zero c) s))
  rw [bigSep_tasks (F := F) (fun s => goA m d (Fin.cast nCore_zero c) s), bigSep_tasks (F := F) (fun s => tdA m d (Fin.cast nCore_zero c) s)]
  iintro H; imodintro
  isplitl [H]; · iexact H
  iintro H; iexact H

/-! ## The launch element: the handshakes' rounds; the counters are not needed -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Read shares for every tile, blocks of the result for every tile -/

section Shares

variable {ℓ : Loc nD τ sig} {f : Buf (Elt F) ℓ}

/-- What is left of an array whole at the full share once every tile's read share is split off. -/
def remPts (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

omit [FloatOps F] in
theorem shares_split : (ℓ ↦{fullShare} f : sProp 𝕄)
    ⊢ iprop(remPts ℓ f ∗ bigSep Finset.univ fun c : Fin 2 => bigSep Finset.univ fun s : Fin 16 => ℓ ↦{qT c s} f) := by
  refine (pointsTo_toks_split fullShare 2).trans ?_
  refine (sep_mono_right (bigSep_mono fun c _ => pointsTo_toks_split (shareTok fullShare 2 c) 16)).trans ?_
  rw [bigSep_sep']
  unfold remPts
  iintro ⟨Hd, Hr, Ht⟩
  isplitl [Hd Hr]
  · isplitl [Hd] <;> iassumption
  iexact Ht

omit [FloatOps F] in
theorem shares_join : iprop(remPts ℓ f ∗ bigSep Finset.univ fun c : Fin 2 => bigSep Finset.univ fun s : Fin 16 => ℓ ↦{qT c s} f)
    ⊢ (ℓ ↦{fullShare} f : sProp 𝕄) := by
  have h1 : iprop((bigSep Finset.univ fun c : Fin 2 => ℓ ↦{shareDrop (shareTok fullShare 2 c) 16} f)
        ∗ bigSep Finset.univ fun c : Fin 2 => bigSep Finset.univ fun s : Fin 16 => ℓ ↦{qT c s} f)
      ⊢ (bigSep Finset.univ fun c : Fin 2 => ℓ ↦{shareTok fullShare 2 c} f : sProp 𝕄) := by
    rw [← bigSep_sep']
    exact bigSep_mono fun c _ => pointsTo_toks_join (shareTok fullShare 2 c) 16
  unfold remPts
  iintro ⟨⟨Hd, Hr⟩, Ht⟩
  iapply (pointsTo_toks_join fullShare 2)
  isplitl [Hd]; · iexact Hd
  iapply h1
  isplitl [Hr] <;> iassumption

end Shares

omit [FloatOps F] in
theorem blk_disjoint : ∀ w ∈ (Finset.univ : Finset (Fin 32)), ∀ w' ∈ (Finset.univ : Finset (Fin 32)), w ≠ w' → Disjoint (blk3 w) (blk3 w') :=
  fun _ _ _ _ h => Rect.part_disjoint hdiv3 h
omit [FloatOps F] in
theorem blk_cover : (Finset.univ : Finset (Fin 32)).biUnion blk3 = Finset.univ := Rect.biUnion_part hdiv3

omit [FloatOps F] in
/-- The result whole is its thirty-two blocks. -/
theorem v3_blocks (d : Dev nD) (f : Buf (Elt F) (v3Loc d)) :
    (v3Loc d ↦{fullShare} f : sProp 𝕄) = bigSep Finset.univ fun w : Fin 32 => v3Loc d ↦[blk3 w]{fullShare} f := by
  rw [← pointsTo_biUnion Finset.univ (ℓ := v3Loc d) blk3 blk_disjoint, blk_cover]; try rfl

/-- The tiles' numbering: (c, s) ↦ 2 s + c is a bijection onto the thirty-two blocks. -/
def widEquiv : Fin 2 × Fin 16 ≃ Fin 32 where
  toFun p := wid p.1 p.2
  invFun w := (⟨w.val % 2, Nat.mod_lt _ (by norm_num)⟩, ⟨w.val / 2, by have := w.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv w := by
    refine Fin.ext ?_
    show 2 * (w.val / 2) + w.val % 2 = w.val
    omega

omit [FloatOps F] in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

/-! ## @main on the TensorCore -/

abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_v0 : DevRef τ sig := Proc.devRef .tc (main_v0 : Ref sig .tc)
abbrev r_c : DevRef τ sig := Proc.devRef .tc (main_c : Ref sig .tc)
abbrev r_z : DevRef τ sig := Proc.devRef .tc (main_call0_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)

abbrev cLoc (d : Dev nD) : Loc nD τ sig := (SparseCore.T d).loc main_c
abbrev zLoc (d : Dev nD) : Loc nD τ sig := (SparseCore.T d).loc main_call0_v0

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (v0Loc d ↦{fullShare} W main_v0) ∗ (cLoc d ↦{fullShare} W main_c) ∗ (zLoc d ↦{fullShare} W main_call0_v0) ∗ (v1Loc d ↦{fullShare} W main_v1)
      ∗ (v2Loc d ↦{fullShare} W main_v2) ∗ (v3Loc d ↦{fullShare} W main_v3) ∗ v4Loc d ↦{fullShare} W main_v4) := by
  unfold unscopedBufs
  rw [show (Finset.univ.filter fun b : Ref sig .tc => ¬ b.isScoped)
      = {main_arg0, main_arg1, main_arg2, main_v0, main_c, main_call0_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held1 (d : Dev nD) (x : DevRef τ sig) (W : Valuation τ sig (Elt F)) :
    (held (SparseCore.T d) {x} W : sProp 𝕄) = ((d, x) ↦{fullShare} W x) := by
  unfold held; rw [bigSep_singleton]
omit [FloatOps F] in
theorem held2 (d : Dev nD) (x y : DevRef τ sig) (hxy : x ∉ ({y} : Finset (DevRef τ sig))) (W : Valuation τ sig (Elt F)) :
    (held (SparseCore.T d) {x, y} W : sProp 𝕄) = iprop(((d, x) ↦{fullShare} W x) ∗ (d, y) ↦{fullShare} W y) := by
  unfold held; rw [SparseCore.bigSep_insert' hxy, bigSep_singleton]
omit [FloatOps F] in
theorem held3 (d : Dev nD) (x y z : DevRef τ sig) (hx : x ∉ ({y, z} : Finset (DevRef τ sig))) (hy : y ∉ ({z} : Finset (DevRef τ sig)))
    (W : Valuation τ sig (Elt F)) :
    (held (SparseCore.T d) {x, y, z} W : sProp 𝕄) = iprop(((d, x) ↦{fullShare} W x) ∗ ((d, y) ↦{fullShare} W y) ∗ (d, z) ↦{fullShare} W z) := by
  unfold held; rw [SparseCore.bigSep_insert' hx, SparseCore.bigSep_insert' hy, bigSep_singleton]

/-- The launch contents of device d as a valuation. -/
def Vl (d : Dev nD) : Valuation τ sig (Elt F) := fun b => m (d, b)

/-- The integer zero the pad value is converted from. -/
def C0 : (⟨S_, .i32⟩ : BufTy).Contents (Elt F) := constantI S_ 32 0#32

/-- @main's six host operations, as printed. -/
abbrev op1 : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev op2 : HloOp τ sig (Elt F) := StableHlo.nullary main_c (constantI S_ 32 0#32)
abbrev op3 : HloOp τ sig (Elt F) := StableHlo.TRef.unary (Tx := ⟨S_, .i32⟩) (Ty := ⟨S_, .f32⟩) (.of main_c) main_call0.v0 (sitofp .f32)
abbrev op4 : HloOp τ sig (Elt F) :=
  StableHlo.TRef.binary (Ta := ⟨S100000x64, .f32⟩) (Tb := ⟨S_, .f32⟩) (Ty := ⟨S100000x128, .f32⟩) (.of main_arg1) main_call0.v0 main_call0.v1 (fun x v => pad S100000x128 ![0, 0] ![0, 64] ![0, 0] x v pads_S100000x64_S100000x128_000_0640 h_S_)
abbrev op5 : HloOp τ sig (Elt F) := StableHlo.reshape main_arg2 main_v2 rfl shapeCasts_S200x64_S100x128
abbrev op6 : HloOp τ sig (Elt F) :=
  StableHlo.unary main_v3 main_v4 ((transpose S4096x200x64 [2, 0, 1] · transposes_S200x64x4096_S4096x200x64_2_0_1) : (⟨S200x64x4096, .f32⟩ : BufTy).Contents (Elt F) → (⟨S4096x200x64, .f32⟩ : BufTy).Contents (Elt F))

/-- The valuations the later operations run from: the launch contents with one buffer at what an earlier operation left. -/
def Vc (d : Dev nD) : Valuation τ sig (Elt F) := Function.update (Vl m d) r_c (C0 (F := F))
def Vz (d : Dev nD) : Valuation τ sig (Elt F) := Function.update (Vl m d) r_z (Z0 (F := F))
def Vo (d : Dev nD) : Valuation τ sig (Elt F) := Function.update (Vl m d) r_v3 (Out3 m d)

theorem Vc_c (d : Dev nD) : Vc m d r_c = C0 (F := F) := Function.update_self _ _ _
theorem Vc_z (d : Dev nD) : Vc m d r_z = m (zLoc d) := Function.update_of_ne (show r_z ≠ r_c by decide) _ _
theorem Vz_z (d : Dev nD) : Vz m d r_z = Z0 (F := F) := Function.update_self _ _ _
theorem Vz_a1 (d : Dev nD) : Vz m d r_a1 = m (a1Loc d) := Function.update_of_ne (show r_a1 ≠ r_z by decide) _ _
theorem Vz_v1 (d : Dev nD) : Vz m d r_v1 = m (v1Loc d) := Function.update_of_ne (show r_v1 ≠ r_z by decide) _ _
theorem Vo_v3 (d : Dev nD) : Vo m d r_v3 = Out3 m d := Function.update_self _ _ _
theorem Vo_v4 (d : Dev nD) : Vo m d r_v4 = m (v4Loc d) := Function.update_of_ne (show r_v4 ≠ r_v3 by decide) _ _

theorem op1_pre (d : Dev nD) : (held (SparseCore.T d) {r_a0, r_v0} (Vl m d) : sProp 𝕄)
    = iprop((a0Loc d ↦{fullShare} m (a0Loc d)) ∗ v0Loc d ↦{fullShare} m (v0Loc d)) := by
  rw [held2 d r_a0 r_v0 (by decide)]; rfl
theorem op1_post (d : Dev nD) : (held (SparseCore.T d) {r_a0, r_v0} ((op1 (F := F)).result (Vl m d)) : sProp 𝕄)
    = iprop((a0Loc d ↦{fullShare} m (a0Loc d)) ∗ v0Loc d ↦{fullShare} V0 m d) := by
  rw [held2 d r_a0 r_v0 (by decide), HloOp.result_of_not_mem _ _ (show r_a0 ∉ ({r_v0} : Finset (DevRef τ sig)) by decide), StableHlo.unary_result]; rfl

theorem op2_pre (d : Dev nD) : (held (SparseCore.T d) {r_c} (Vl m d) : sProp 𝕄) = (cLoc d ↦{fullShare} m (cLoc d)) := by
  rw [held1]; rfl
theorem op2_post (d : Dev nD) : (held (SparseCore.T d) {r_c} ((op2 (F := F)).result (Vl m d)) : sProp 𝕄) = (cLoc d ↦{fullShare} C0 (F := F)) := by
  rw [held1, StableHlo.nullary_result]; rfl

theorem op3_pre (d : Dev nD) : (held (SparseCore.T d) {r_c, r_z} (Vc m d) : sProp 𝕄)
    = iprop((cLoc d ↦{fullShare} C0 (F := F)) ∗ zLoc d ↦{fullShare} m (zLoc d)) := by
  rw [held2 d r_c r_z (by decide), Vc_c, Vc_z]
theorem op3_post (d : Dev nD) : (held (SparseCore.T d) {r_c, r_z} ((op3 (F := F)).result (Vc m d)) : sProp 𝕄)
    = iprop((cLoc d ↦{fullShare} C0 (F := F)) ∗ zLoc d ↦{fullShare} Z0 (F := F)) := by
  rw [held2 d r_c r_z (by decide), HloOp.result_of_not_mem _ _ (show r_c ∉ ({r_z} : Finset (DevRef τ sig)) by decide), StableHlo.unary_result, Vc_c]; rfl

theorem op4_pre (d : Dev nD) : (held (SparseCore.T d) {r_a1, r_z, r_v1} (Vz m d) : sProp 𝕄)
    = iprop((a1Loc d ↦{fullShare} m (a1Loc d)) ∗ (zLoc d ↦{fullShare} Z0 (F := F)) ∗ v1Loc d ↦{fullShare} m (v1Loc d)) := by
  rw [held3 d r_a1 r_z r_v1 (by decide) (by decide), Vz_a1, Vz_z, Vz_v1]
theorem op4_post (d : Dev nD) : (held (SparseCore.T d) {r_a1, r_z, r_v1} ((op4 (F := F)).result (Vz m d)) : sProp 𝕄)
    = iprop((a1Loc d ↦{fullShare} m (a1Loc d)) ∗ (zLoc d ↦{fullShare} Z0 (F := F)) ∗ v1Loc d ↦{fullShare} V1 m d) := by
  rw [held3 d r_a1 r_z r_v1 (by decide) (by decide), HloOp.result_of_not_mem _ _ (show r_a1 ∉ ({r_v1} : Finset (DevRef τ sig)) by decide),
    HloOp.result_of_not_mem _ _ (show r_z ∉ ({r_v1} : Finset (DevRef τ sig)) by decide), StableHlo.binary_result, Vz_a1, Vz_z]; rfl

theorem op5_pre (d : Dev nD) : (held (SparseCore.T d) {r_a2, r_v2} (Vl m d) : sProp 𝕄)
    = iprop((a2Loc d ↦{fullShare} m (a2Loc d)) ∗ v2Loc d ↦{fullShare} m (v2Loc d)) := by
  rw [held2 d r_a2 r_v2 (by decide)]; rfl
theorem op5_post (d : Dev nD) : (held (SparseCore.T d) {r_a2, r_v2} ((op5 (F := F)).result (Vl m d)) : sProp 𝕄)
    = iprop((a2Loc d ↦{fullShare} m (a2Loc d)) ∗ v2Loc d ↦{fullShare} V2 m d) := by
  rw [held2 d r_a2 r_v2 (by decide), HloOp.result_of_not_mem _ _ (show r_a2 ∉ ({r_v2} : Finset (DevRef τ sig)) by decide), StableHlo.reshape_result]; rfl

theorem op6_pre (d : Dev nD) : (held (SparseCore.T d) {r_v3, r_v4} (Vo m d) : sProp 𝕄)
    = iprop((v3Loc d ↦{fullShare} Out3 m d) ∗ v4Loc d ↦{fullShare} m (v4Loc d)) := by
  rw [held2 d r_v3 r_v4 (by decide), Vo_v3, Vo_v4]
theorem op6_post (d : Dev nD) : (held (SparseCore.T d) {r_v3, r_v4} ((op6 (F := F)).result (Vo m d)) : sProp 𝕄)
    = iprop((v3Loc d ↦{fullShare} Out3 m d) ∗ v4Loc d ↦{fullShare} V4 m d) := by
  rw [held2 d r_v3 r_v4 (by decide), HloOp.result_of_not_mem _ _ (show r_v3 ∉ ({r_v4} : Finset (DevRef τ sig)) by decide), StableHlo.unary_result, Vo_v3]; rfl

/-- What the call takes for the two SparseCores: every tile's read shares and block; what is left of the three arrays. -/
theorem st_all (d : Dev nD) :
    iprop((v0Loc d ↦{fullShare} V0 m d) ∗ (v1Loc d ↦{fullShare} V1 m d) ∗ (v2Loc d ↦{fullShare} V2 m d) ∗ (v3Loc d ↦{fullShare} m (v3Loc d)))
      ⊢ iprop((remPts (v0Loc d) (V0 m d) ∗ remPts (v1Loc d) (V1 m d) ∗ remPts (v2Loc d) (V2 m d))
        ∗ bigSep Finset.univ fun c : Fin ((K (F := F)).nCore 0) => (P m).st 0 d c) := by
  rw [show (bigSep Finset.univ fun c : Fin ((K (F := F)).nCore 0) => (P m).st 0 d c)
      = bigSep Finset.univ fun c : Fin 2 => bigSep Finset.univ fun s : Fin 16 => goA m d c s from
    bigSep_cores (F := F) (fun c => bigSep Finset.univ fun s : Fin 16 => goA m d c s)]
  unfold goA
  simp only [bigSep_sep']
  rw [v3_blocks, bigSep_wid]
  iintro ⟨H0, H1, H2, H3⟩
  ihave H0' := shares_split $$ H0
  ihave H1' := shares_split $$ H1
  ihave H2' := shares_split $$ H2
  icases H0' with ⟨R0, T0⟩
  icases H1' with ⟨R1, T1⟩
  icases H2' with ⟨R2, T2⟩
  isplitl [R0 R1 R2]
  · isplitl [R0]; · iexact R0
    isplitl [R1] <;> iassumption
  isplitl [T0 T1 T2]
  · isplitl [T0]; · iexact T0
    isplitl [T1] <;> iassumption
  iexact H3

/-- What it hands back: the three arrays whole again, the result whole at Out3. -/
theorem dn_all (d : Dev nD) :
    iprop((remPts (v0Loc d) (V0 m d) ∗ remPts (v1Loc d) (V1 m d) ∗ remPts (v2Loc d) (V2 m d))
        ∗ bigSep Finset.univ fun c : Fin ((K (F := F)).nCore 0) => (P m).dn 0 d c)
      ⊢ iprop((v0Loc d ↦{fullShare} V0 m d) ∗ (v1Loc d ↦{fullShare} V1 m d) ∗ (v2Loc d ↦{fullShare} V2 m d) ∗ (v3Loc d ↦{fullShare} Out3 m d)) := by
  rw [show (bigSep Finset.univ fun c : Fin ((K (F := F)).nCore 0) => (P m).dn 0 d c)
      = bigSep Finset.univ fun c : Fin 2 => bigSep Finset.univ fun s : Fin 16 => tdA m d c s from
    bigSep_cores (F := F) (fun c => bigSep Finset.univ fun s : Fin 16 => tdA m d c s)]
  unfold tdA
  simp only [bigSep_sep']
  rw [v3_blocks, bigSep_wid]
  iintro ⟨⟨R0, R1, R2⟩, ⟨T0, T1, T2⟩, H3⟩
  isplitl [R0 T0]
  · iapply shares_join; isplitl [R0] <;> iassumption
  isplitl [R1 T1]
  · iapply shares_join; isplitl [R1] <;> iassumption
  isplitl [R2 T2]
  · iapply shares_join; isplitl [R2] <;> iassumption
  iexact H3

/-- What @main leaves the claim: the arguments at their launch contents, the result at the lookup. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ v4Loc d ↦{fullShare} V4 m d)

/-- @main on device d's TensorCore: the five host operations before the call, the call, the transpose after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, fn_pad.body, wp_bind, wp_pure]
  iintro ⟨#Hctx, Hst, ⟨Hb, ⟨Ha0, Ha1, Ha2, Hv0, Hc, Hz, Hv1, Hv2, Hv3, Hv4⟩, -, -⟩, -⟩
  -- the index array transposed
  iapply (wp_hlo_within 𝒱 (SparseCore.T d) none Set.univ (op := op1 (F := F)) (S := {r_a0, r_v0}) (Finset.Subset.refl _) (V := Vl m d)) $$ [Hb Ha0 Hv0]
  · isplitl [Hb]; · iexact Hb
    rw [op1_pre]
    isplitl [Ha0] <;> iassumption
  iintro ⟨Hb, Hh⟩
  ihave Hh' := (Entails.of_eq (op1_post m d)) $$ Hh
  icases Hh' with ⟨Ha0, Hv0⟩
  rw [wp_ret]; imodintro
  -- the integer zero
  iapply (wp_hlo_within 𝒱 (SparseCore.T d) none Set.univ (op := op2 (F := F)) (S := {r_c}) (Finset.Subset.refl _) (V := Vl m d)) $$ [Hb Hc]
  · isplitl [Hb]; · iexact Hb
    rw [op2_pre]; iexact Hc
  iintro ⟨Hb, Hh⟩
  ihave Hc := (Entails.of_eq (op2_post m d)) $$ Hh
  rw [wp_ret]; imodintro
  -- converted: the pad value
  iapply (wp_hlo_within 𝒱 (SparseCore.T d) none Set.univ (op := op3 (F := F)) (S := {r_c, r_z}) (Finset.Subset.refl _) (V := Vc m d)) $$ [Hb Hc Hz]
  · isplitl [Hb]; · iexact Hb
    rw [op3_pre]
    isplitl [Hc] <;> iassumption
  iintro ⟨Hb, Hh⟩
  ihave Hh' := (Entails.of_eq (op3_post m d)) $$ Hh
  icases Hh' with ⟨Hc, Hz⟩
  rw [wp_ret]; imodintro
  -- the table padded
  iapply (wp_hlo_within 𝒱 (SparseCore.T d) none Set.univ (op := op4 (F := F)) (S := {r_a1, r_z, r_v1}) (Finset.Subset.refl _) (V := Vz m d)) $$ [Hb Ha1 Hz Hv1]
  · isplitl [Hb]; · iexact Hb
    rw [op4_pre]
    isplitl [Ha1]; · iexact Ha1
    isplitl [Hz] <;> iassumption
  iintro ⟨Hb, Hh⟩
  ihave Hh' := (Entails.of_eq (op4_post m d)) $$ Hh
  icases Hh' with ⟨Ha1, Hz, Hv1⟩
  rw [wp_ret]; imodintro; imodintro
  -- the positional table packed
  iapply (wp_hlo_within 𝒱 (SparseCore.T d) none Set.univ (op := op5 (F := F)) (S := {r_a2, r_v2}) (Finset.Subset.refl _) (V := Vl m d)) $$ [Hb Ha2 Hv2]
  · isplitl [Hb]; · iexact Hb
    rw [op5_pre]
    isplitl [Ha2] <;> iassumption
  iintro ⟨Hb, Hh⟩
  ihave Hh' := (Entails.of_eq (op5_post m d)) $$ Hh
  icases Hh' with ⟨Ha2, Hv2⟩
  rw [wp_ret]; imodintro
  -- the call: every tile's read shares and block out, and back
  ihave Hall := (st_all m d) $$ [Hv0 Hv1 Hv2 Hv3]
  · isplitl [Hv0]; · iexact Hv0
    isplitl [Hv1]; · iexact Hv1
    isplitl [Hv2] <;> iassumption
  icases Hall with ⟨Hrem, Hstc⟩
  iapply ((K (F := F)).wp_run (D (F := F)) 𝒱 (EH := EH) (P := P m) κ d 0) $$ [Hst Hstc Hrem Hb Ha0 Ha1 Ha2 Hv4]
  isplitr; · iexact Hctx
  isplitl [Hst]; · iexact Hst
  isplitl [Hstc]; · iexact Hstc
  iintro ⟨Hst, Hdn⟩
  ihave Hback := (dn_all m d) $$ [Hrem Hdn]
  · isplitl [Hrem] <;> iassumption
  icases Hback with ⟨-, -, -, Hv3⟩
  -- the result transposed to batch × position × feature
  iapply (wp_hlo_within 𝒱 (SparseCore.T d) none Set.univ (op := op6 (F := F)) (S := {r_v3, r_v4}) (Finset.Subset.refl _) (V := Vo m d)) $$ [Hb Hv3 Hv4]
  · isplitl [Hb]; · iexact Hb
    rw [op6_pre]
    isplitl [Hv3] <;> iassumption
  iintro ⟨Hb, Hh⟩
  ihave Hh' := (Entails.of_eq (op6_post m d)) $$ Hh
  icases Hh' with ⟨-, Hv4⟩
  rw [wp_ret]; imodintro; imodintro
  isplitl [Hst]; · iexact Hst
  isplitl [Ha0]; · iexact Ha0
  isplitl [Ha1]; · iexact Ha1
  isplitl [Ha2]; · iexact Ha2
  iexact Hv4

def fq (d : Dev nD) (s' : Phys nD τ sig (Elt F)) : Prop :=
  s'.mem.mem (v4Loc d) = V4 m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨H0, H1, H2, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v4Loc d) (I := Finset.univ) (q := fullShare) (f := V4 m d)) $$ [HSI H4]
  · isplitl [HSI] <;> iassumption
  icases H with %h4
  ipureintro
  exact ⟨funext fun i => h4 i (Finset.mem_univ i), funext fun i => h0 i (Finset.mem_univ i), funext fun i => h1 i (Finset.mem_univ i),
    funext fun i => h2 i (Finset.mem_univ i)⟩

/-! ## The program's run -/

/-- What every final memory satisfies: the result is the lookup of the specification over the arguments' launch contents,
    and the arguments are unchanged. -/
def QC : PUnit × MemSt nD τ sig (Elt F) → Prop := fun r => ∀ c : Dev nD,
  r.2.mem (v4Loc c) = Cert.Spec.GF (m (a0Loc c)) (m (a1Loc c)) (m (a2Loc c))
    ∧ r.2.mem (a0Loc c) = m (a0Loc c) ∧ r.2.mem (a1Loc c) = m (a1Loc c) ∧ r.2.mem (a2Loc c) = m (a2Loc c)

theorem run [∀ e, Nonempty (Elt F e)] (_hpre : PreOK m) (hbody : TileGoal m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).1.trans (V4_eq m c), (h c).2⟩)

end Cert.Proof.LaunchK

end
-- ==== Proof.LaunchKPre.lean ====
/-
  The certificate's precondition gives what the launch asks of the launch memory: an index word that is at least 0 and
  at most 99999 as a signed integer is, as a natural number, below 100000.
-/
import proofs.«206908_g46772193853751_cont_8to1c4_160_30_alg».proof.Proof.LaunchKPay
import proofs.«206908_g46772193853751_cont_8to1c4_160_30_alg».proof.Proof.RefPre

noncomputable section

namespace Cert.Proof.LaunchK

open Cert.Kernel Cert.Kernel.Gen

open Idealize.ShloMosaic
open Idealize.ShloMosaic.ValueIdx

variable {F : FTy → Type} [FloatOps F]

/-- From the precondition's function being all ones on every device. -/
theorem preOK_of_fn [Cert.Pre_input_domain.Facts] (m : (ℓ : Loc nD τ sig) → Buf (Elt F) ℓ)
    (h : ∀ c : Dev nD, Cert.Pre_input_domain.fn (F := F) (m (a0Loc c)) (m (a1Loc c)) (m (a2Loc c)) = fun _ => 1#1) : PreOK m := by
  intro d b l
  obtain ⟨hx, hy⟩ := Cert.ReferenceIdeal.RefValue.idx_range (F := F) (m (a0Loc d)) (m (a1Loc d)) (m (a2Loc d)) (h d) (ix2 b l)
  have hlt := (m (a0Loc d) (ix2 b l)).isLt
  rw [BitVec.toInt_eq_toNat_cond] at hx hy
  split at hx <;> omega

end Cert.Proof.LaunchK

end
-- ==== Proof.BodyGoalK.lean ====
/-
  One tile's task over the resources as the task itself addresses them: the three arrays it reads through its read
  shares, its block of the result, its four scratch buffers at whatever they hold, its eight transfer semaphores at
  zero. The launch's statement of the task (TileGoal) follows from this one by regrouping (Tile.lean).
-/
import proofs.«206908_g46772193853751_cont_8to1c4_160_30_alg».proof.Proof.LaunchKPay

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)

variable [FloatOps F]

/-- The task, with the index words in range: from the arrays, scratch and semaphores as the task addresses them to the
    same with the tile's block of the result at Out3. -/
def BodyCore : Prop := PreOK m → ∀ (d : Dev nD) (L : grid0.Coords) (O : CellTallies nD τ sig (HIx 1)) (W : Waits sig (HIx 1)),
  (iprop(Transfers.MayWaits (V d (cV L) (jV L)) (none : HIx 1) O
      ∗ ((Memref.whole main_v0_scv).view.loc (V d (cV L) (jV L)) ↦{qT (cL L) (sL L)} V0 m d)
      ∗ ((Memref.whole main_v1_scv).view.loc (V d (cV L) (jV L)) ↦{qT (cL L) (sL L)} V1 m d)
      ∗ ((Memref.whole main_v2_scv).view.loc (V d (cV L) (jV L)) ↦{qT (cL L) (sL L)} V2 m d)
      ∗ ((Memref.whole main_v3_scv).view.loc (V d (cV L) (jV L)) ↦[blk3 (wid (cL L) (sL L))]{fullShare} m (v3Loc d))
      ∗ (∃ f, (Memref.whole cc0_scratch0).view.loc (V d (cV L) (jV L)) ↦{fullShare} f) ∗ (∃ f, (Memref.whole cc0_scratch1).view.loc (V d (cV L) (jV L)) ↦{fullShare} f)
      ∗ (∃ f, (Memref.whole cc0_scratch2).view.loc (V d (cV L) (jV L)) ↦{fullShare} f) ∗ (∃ f, (Memref.whole cc0_scratch3).view.loc (V d (cV L) (jV L)) ↦{fullShare} f)
      ∗ semVal (V d (cV L) (jV L), SemLoc.dma cc0_scratch4.sem) 0 ∗ semVal (V d (cV L) (jV L), SemLoc.dma cc0_scratch5.sem) 0
      ∗ semVal (V d (cV L) (jV L), SemLoc.dma cc0_scratch6.sem) 0 ∗ semVal (V d (cV L) (jV L), SemLoc.dma cc0_scratch7.sem) 0
      ∗ semVal (V d (cV L) (jV L), SemLoc.dma cc0_scratch8.sem) 0 ∗ semVal (V d (cV L) (jV L), SemLoc.dma cc0_scratch9.sem) 0
      ∗ semVal (V d (cV L) (jV L), SemLoc.dma cc0_scoped0.sem) 0 ∗ semVal (V d (cV L) (jV L), SemLoc.dma cc0_scoped1.sem) 0
      ∗ owes (V d (cV L) (jV L)) O W) : sProp 𝕄)
    ⊢ wp frame (wpE (defs₀ (F := F)) 𝒱₀ (V d (cV L) (jV L)) none) Set.univ
        (cc0_enc_kernel L (Memref.whole main_v0_scv) (Memref.isWhole_whole _) (Memref.whole main_v1_scv) (Memref.isWhole_whole _)
            (Memref.whole main_v2_scv) (Memref.isWhole_whole _) (Memref.whole main_v3_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0 cc0_scoped1)
        fun _ => iprop(((Memref.whole main_v0_scv).view.loc (V d (cV L) (jV L)) ↦{qT (cL L) (sL L)} V0 m d)
          ∗ ((Memref.whole main_v1_scv).view.loc (V d (cV L) (jV L)) ↦{qT (cL L) (sL L)} V1 m d)
          ∗ ((Memref.whole main_v2_scv).view.loc (V d (cV L) (jV L)) ↦{qT (cL L) (sL L)} V2 m d)
          ∗ ((Memref.whole main_v3_scv).view.loc (V d (cV L) (jV L)) ↦[blk3 (wid (cL L) (sL L))]{fullShare} Out3 m d)
          ∗ (∃ f, (Memref.whole cc0_scratch0).view.loc (V d (cV L) (jV L)) ↦{fullShare} f) ∗ (∃ f, (Memref.whole cc0_scratch1).view.loc (V d (cV L) (jV L)) ↦{fullShare} f)
          ∗ (∃ f, (Memref.whole cc0_scratch2).view.loc (V d (cV L) (jV L)) ↦{fullShare} f) ∗ (∃ f, (Memref.whole cc0_scratch3).view.loc (V d (cV L) (jV L)) ↦{fullShare} f)
          ∗ semVal (V d (cV L) (jV L), SemLoc.dma cc0_scratch4.sem) 0 ∗ semVal (V d (cV L) (jV L), SemLoc.dma cc0_scratch5.sem) 0
          ∗ semVal (V d (cV L) (jV L), SemLoc.dma cc0_scratch6.sem) 0 ∗ semVal (V d (cV L) (jV L), SemLoc.dma cc0_scratch7.sem) 0
          ∗ semVal (V d (cV L) (jV L), SemLoc.dma cc0_scratch8.sem) 0 ∗ semVal (V d (cV L) (jV L), SemLoc.dma cc0_scratch9.sem) 0
          ∗ semVal (V d (cV L) (jV L), SemLoc.dma cc0_scoped0.sem) 0 ∗ semVal (V d (cV L) (jV L), SemLoc.dma cc0_scoped1.sem) 0
          ∗ ∃ W', ⌜∀ p ∈ W', p ∈ W ∨ p.2 = none⌝ ∗ owes (V d (cV L) (jV L)) O W')

end Cert.Proof.LaunchK

end
-- ==== Proof.TileK.lean ====
/-
  From the task over the resources as the task addresses them (BodyCore) to the launch's statement of it (TileGoal): the
  tile's scoped storage is its four scratch buffers and eight transfer semaphores and a rest that is set aside and given
  back untouched; the arrays in device memory are the same buffers whichever processor names them.
-/
import proofs.«206908_g46772193853751_cont_8to1c4_160_30_alg».proof.Proof.BodyGoalK

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-- A transfer semaphore of the tile, as a cell. -/
abbrev gS (sm : DmaSems sig S_) : GSem nD τ sig := (V d (cV L) (jV L), SemLoc.dma sm.sem)
/-- A scratch buffer of the tile, as a buffer of the device. -/
abbrev bS (b : Ref sig .scVector) : DevRef τ sig := (Proc.scVector (cV L) (jV L)).devRef b

def kCells8 : Finset (GSem nD τ sig) :=
  {gS d L cc0_scratch4, gS d L cc0_scratch5, gS d L cc0_scratch6, gS d L cc0_scratch7, gS d L cc0_scratch8, gS d L cc0_scratch9,
    gS d L cc0_scoped0, gS d L cc0_scoped1}
def kRefs4 : Finset (DevRef τ sig) := {bS L cc0_scratch0, bS L cc0_scratch1, bS L cc0_scratch2, bS L cc0_scratch3}

omit [FloatOps F] in
theorem gS_ne {s s' : DmaSems sig S_} (h : (SemLoc.dma s.sem : SemLoc sig) ≠ SemLoc.dma s'.sem) : gS d L s ≠ gS d L s' :=
  fun e => h (Prod.mk.inj e).2

omit [FloatOps F] in
theorem kCells8_sub : kCells8 d L ⊆ ownCells (V d (cV L) (jV L)) := by
  intro g hg
  simp only [kCells8, Finset.mem_insert, Finset.mem_singleton] at hg
  rcases hg with rfl | rfl | rfl | rfl | rfl | rfl | rfl | rfl
  · exact mem_ownCells.mpr ⟨rfl, by show (SemLoc.dma cc0_scratch4.sem : SemLoc sig).isScoped .scVector = true; decide⟩
  · exact mem_ownCells.mpr ⟨rfl, by show (SemLoc.dma cc0_scratch5.sem : SemLoc sig).isScoped .scVector = true; decide⟩
  · exact mem_ownCells.mpr ⟨rfl, by show (SemLoc.dma cc0_scratch6.sem : SemLoc sig).isScoped .scVector = true; decide⟩
  · exact mem_ownCells.mpr ⟨rfl, by show (SemLoc.dma cc0_scratch7.sem : SemLoc sig).isScoped .scVector = true; decide⟩
  · exact mem_ownCells.mpr ⟨rfl, by show (SemLoc.dma cc0_scratch8.sem : SemLoc sig).isScoped .scVector = true; decide⟩
  · exact mem_ownCells.mpr ⟨rfl, by show (SemLoc.dma cc0_scratch9.sem : SemLoc sig).isScoped .scVector = true; decide⟩
  · exact mem_ownCells.mpr ⟨rfl, by show (SemLoc.dma cc0_scoped0.sem : SemLoc sig).isScoped .scVector = true; decide⟩
  · exact mem_ownCells.mpr ⟨rfl, by show (SemLoc.dma cc0_scoped1.sem : SemLoc sig).isScoped .scVector = true; decide⟩

omit [FloatOps F] in
/-- The tile's own semaphores at zero: the eight transfer semaphores, and the rest. -/
theorem ownSems0_V :
    (ownSems0 (V d (cV L) (jV L)) : sProp 𝕄)
      = iprop((semVal (gS d L cc0_scratch4) 0 ∗ semVal (gS d L cc0_scratch5) 0 ∗ semVal (gS d L cc0_scratch6) 0 ∗ semVal (gS d L cc0_scratch7) 0
          ∗ semVal (gS d L cc0_scratch8) 0 ∗ semVal (gS d L cc0_scratch9) 0 ∗ semVal (gS d L cc0_scoped0) 0 ∗ semVal (gS d L cc0_scoped1) 0)
          ∗ bigSep (ownCells (V d (cV L) (jV L)) \ kCells8 d L) fun g => semVal g 0) := by
  unfold SparseCore.Cfg.ownSems0
  rw [SparseCore.bigSep_sdiff_split' (kCells8_sub d L)]
  congr 1
  unfold kCells8
  have hne : ∀ {s s' : DmaSems sig S_}, (SemLoc.dma s.sem : SemLoc sig) ≠ SemLoc.dma s'.sem → gS d L s ≠ gS d L s' := fun h => gS_ne d L h
  rw [SparseCore.bigSep_insert' (by simp only [Finset.mem_insert, Finset.mem_singleton, not_or]; exact ⟨hne (by decide), hne (by decide), hne (by decide), hne (by decide), hne (by decide), hne (by decide), hne (by decide)⟩),
    SparseCore.bigSep_insert' (by simp only [Finset.mem_insert, Finset.mem_singleton, not_or]; exact ⟨hne (by decide), hne (by decide), hne (by decide), hne (by decide), hne (by decide), hne (by decide)⟩),
    SparseCore.bigSep_insert' (by simp only [Finset.mem_insert, Finset.mem_singleton, not_or]; exact ⟨hne (by decide), hne (by decide), hne (by decide), hne (by decide), hne (by decide)⟩),
    SparseCore.bigSep_insert' (by simp only [Finset.mem_insert, Finset.mem_singleton, not_or]; exact ⟨hne (by decide), hne (by decide), hne (by decide), hne (by decide)⟩),
    SparseCore.bigSep_insert' (by simp only [Finset.mem_insert, Finset.mem_singleton, not_or]; exact ⟨hne (by decide), hne (by decide), hne (by decide)⟩),
    SparseCore.bigSep_insert' (by simp only [Finset.mem_insert, Finset.mem_singleton, not_or]; exact ⟨hne (by decide), hne (by decide)⟩),
    SparseCore.bigSep_insert' (by simp only [Finset.mem_singleton]; exact hne (by decide)),
    bigSep_singleton]

omit [FloatOps F] in
theorem kRefs4_sub : kRefs4 L ⊆ ownRefs (τ := τ) (sig := sig) (.scVector (cV L) (jV L)) := by
  intro b hb
  simp only [kRefs4, Finset.mem_insert, Finset.mem_singleton] at hb
  rcases hb with rfl | rfl | rfl | rfl <;> exact SparseCore.Cfg.mem_ownRefs_of_owner rfl

omit [FloatOps F] in
theorem bS_ne {b b' : Ref sig .scVector} (h : b ≠ b') : bS L b ≠ bS L b' := fun e => h (Proc.devRef_injective _ e)

omit [FloatOps F] in
/-- The tile's own buffers: the four scratch buffers, each at some contents, and the rest. -/
theorem ownBufs_V :
    (ownBufs (V d (cV L) (jV L)) : sProp 𝕄)
      = iprop(((∃ f, (Memref.whole cc0_scratch0).view.loc (V d (cV L) (jV L)) ↦{fullShare} f) ∗ (∃ f, (Memref.whole cc0_scratch1).view.loc (V d (cV L) (jV L)) ↦{fullShare} f)
          ∗ (∃ f, (Memref.whole cc0_scratch2).view.loc (V d (cV L) (jV L)) ↦{fullShare} f) ∗ (∃ f, (Memref.whole cc0_scratch3).view.loc (V d (cV L) (jV L)) ↦{fullShare} f))
          ∗ bigSep (ownRefs (τ := τ) (.scVector (cV L) (jV L)) \ kRefs4 L) fun b => iprop(∃ f, ((d, b) : Loc nD τ sig) ↦{fullShare} f)) := by
  unfold SparseCore.Cfg.ownBufs
  refine (SparseCore.bigSep_sdiff_split' (kRefs4_sub L)).trans ?_
  congr 1
  unfold kRefs4
  rw [SparseCore.bigSep_insert' (by simp only [Finset.mem_insert, Finset.mem_singleton, not_or]; exact ⟨bS_ne L (by decide), bS_ne L (by decide), bS_ne L (by decide)⟩),
    SparseCore.bigSep_insert' (by simp only [Finset.mem_insert, Finset.mem_singleton, not_or]; exact ⟨bS_ne L (by decide), bS_ne L (by decide)⟩),
    SparseCore.bigSep_insert' (by simp only [Finset.mem_singleton]; exact bS_ne L (by decide)),
    bigSep_singleton]

/-- What of the tile's scoped storage the task does not touch. -/
def restOf : sProp 𝕄 :=
  iprop((bigSep (ownRefs (τ := τ) (.scVector (cV L) (jV L)) \ kRefs4 L) fun b => iprop(∃ f, ((d, b) : Loc nD τ sig) ↦{fullShare} f))
    ∗ bigSep (ownCells (V d (cV L) (jV L)) \ kCells8 d L) fun g => semVal g 0)

end Tile

/-- The launch's statement of the task, from the task over the resources as it addresses them. -/
theorem tileGoal_of_core (hpre : PreOK m) (h : BodyCore m) : TileGoal m := by
  intro d L O W hO
  rw [(K (F := F)).scopedBufs_V facts d (cV L) (jV L), SparseCore.Cfg.scopedSems0_V (Val := Elt F) d (cV L) (jV L), ownSems0_V, ownBufs_V]
  unfold goA tdA
  refine BI.Entails.trans ?pre (((sep_mono_left (h hpre d L O W)).trans (wp_frame_r frame _ _ (R := restOf (F := F) d L))).trans (wp_mono frame _ _ fun _ => ?post))
  case pre =>
    unfold restOf
    change BIBase.Entails (PROP := sProp 𝕄) _ _
    iintro ⟨#Hlv, -, ⟨⟨H0, H1, H2⟩, H3⟩, ⟨⟨Hs0, Hs1, Hs2, Hs3⟩, Hbufs⟩, ⟨⟨G4, G5, G6, G7, G8, G9, G10, G11⟩, Hsems⟩, HO⟩
    ihave Hmw := ((K (F := F)).mayWaits_none (thr := V d (cV L) (jV L)) hO) $$ Hlv
    isplitr [Hbufs Hsems]
    · isplitl [Hmw]; · iexact Hmw
      isplitl [H0]; · iexact H0
      isplitl [H1]; · iexact H1
      isplitl [H2]; · iexact H2
      isplitl [H3]; · iexact H3
      isplitl [Hs0]; · iexact Hs0
      isplitl [Hs1]; · iexact Hs1
      isplitl [Hs2]; · iexact Hs2
      isplitl [Hs3]; · iexact Hs3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      iexact HO
    · isplitl [Hbufs] <;> iassumption
  case post =>
    unfold restOf
    change BIBase.Entails (PROP := sProp 𝕄) _ _
    iintro ⟨⟨H0, H1, H2, H3, Hs0, Hs1, Hs2, Hs3, G4, G5, G6, G7, G8, G9, G10, G11, HW⟩, Hbufs, Hsems⟩
    isplitl [H0 H1 H2 H3]
    · isplitl [H0 H1 H2]
      · isplitl [H0]; · iexact H0
        isplitl [H1] <;> iassumption
      · iexact H3
    isplitl [Hs0 Hs1 Hs2 Hs3 Hbufs]
    · isplitl [Hs0 Hs1 Hs2 Hs3]
      · isplitl [Hs0]; · iexact Hs0
        isplitl [Hs1]; · iexact Hs1
        isplitl [Hs2] <;> iassumption
      · iexact Hbufs
    isplitl [G4 G5 G6 G7 G8 G9 G10 G11 Hsems]
    · isplitl [G4 G5 G6 G7 G8 G9 G10 G11]
      · isplitl [G4]; · iexact G4
        isplitl [G5]; · iexact G5
        isplitl [G6]; · iexact G6
        isplitl [G7]; · iexact G7
        isplitl [G8]; · iexact G8
        isplitl [G9]; · iexact G9
        isplitl [G10] <;> iassumption
      · iexact Hsems
    iexact HW

end Cert.Proof.LaunchK

end
-- ==== Proof.RefRun.lean ====
/-
  The reference program's run, read back.

  The reference computes `take(src, idx) + take(pos, position)` with two calls of an outlined gather routine, each
  of which calls an outlined select.  A call executes the callee's body on the caller's buffers, so the program is one
  straight line of 49 array operations: the position table (an iota and its broadcast), the 23 operations of
  each gather routine, and the final addition.  This module lists them (`ops`), shows that the program is that line
  (`main_eq`), and concludes that every execution terminates with each buffer at the fold of the operations over the
  initial contents (`run_main`).
-/
import proofs.«206908_g46772193853751_cont_8to1c4_160_30_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 49 operations in order, the calls unfolded: the position table; the first gather routine over the
    embedding table and the index array; the second over the positional table and the position table; the sum. -/
abbrev ops : List (HloOp τ sig (Elt F)) :=
  [ nullary main_v0 (iotaInDim S200 32 0),
    unary main_v0 main_v1 (broadcastInDim S4096x200 ![1] bcast_S200_S4096x200_1 : (⟨S200, .i32⟩ : BufTy).Contents (Elt F) → (⟨S4096x200, .i32⟩ : BufTy).Contents (Elt F)),
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    TRef.nullary main_call1.c (constantI S_ 32 0#32),
    TRef.unary main_call1.c main_call1.v0 (broadcastInDim S4096x200 ![] bcast_S_S4096x200),
    TRef.binary (.of main_v1) main_call1.v0 main_call1.v1 (cmpi .slt),
    TRef.nullary main_call1.c_0 (constantI S_ 32 200#32),
    TRef.unary main_call1.c_0 main_call1.v2 (broadcastInDim S4096x200 ![] bcast_S_S4096x200),
    TRef.binary (.of main_v1) main_call1.v2 main_call1.v3 addi,
    TRef.ternary main_call1.v1 main_call1.v3 (.of main_v1) main_call1.call0.v0 select,
    TRef.unary main_call1.call0.v0 main_call1.v5 (broadcastInDim S4096x200x1 ![0, 1] bcast_S4096x200_S4096x200x1_0_1),
    TRef.nullary main_call1.c_1 (constantI S1 32 199#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg2) main_call1.v5 main_call1.v13 (fun x i => Host.gather gather_S200x64_S4096x200x1_S4096x200x64_2_0_n_n_0_2_164 x i),
    TRef.unary main_call1.v12 main_call1.v14 (broadcastInDim S4096x200x64 ![0, 1] bcast_S4096x200_S4096x200x64_0_1),
    TRef.nullary main_call1.cst (constant S_ .f32 0x7FC00000#32),
    TRef.unary main_call1.cst main_call1.v15 (broadcastInDim S4096x200x64 ![] bcast_S_S4096x200x64),
    TRef.ternary main_call1.v14 main_call1.v13 main_call1.v15 main_call1.v16 select,
    binary main_v2 main_v3 main_v4 (addf : (⟨S4096x200x64, .f32⟩ : BufTy).Contents (Elt F) → (⟨S4096x200x64, .f32⟩ : BufTy).Contents (Elt F) → (⟨S4096x200x64, .f32⟩ : BufTy).Contents (Elt F)) ]

-- one bind per operation to re-associate: the rewrite under the chain recurses once per statement
set_option maxRecDepth 2048 in
/-- The program is that straight line: the routines' definitions unfolded at their calls, both sides are one chain of
    steps once sequencing is re-associated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- From any memory with zero counters, every weakly fair execution of the program terminates, and every final state
    has each buffer at the operations' fold over the initial contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as a function of its three arguments, and its run in those terms.

  `jnp.take` in fill mode first normalizes an index (`wrap`: a negative index counts from the end), then gathers the
  rows at the normalized indices with the start clamped into the table (`starts`, the gather), and finally replaces by a
  fill value every row whose normalized index lies outside the table (`inside` is the test, `fill` the value).  The
  reference is the sum of two such lookups: the embedding table at the index array, and the positional table at the
  position of each entry in its sequence (`position`).
-/
import proofs.«206908_g46772193853751_cont_8to1c4_160_30_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- An index normalized against a table of `n` rows: a negative index `i` becomes `i + n`. -/
def wrap (n : BitVec 32) (i : IVec S4096x200 32) : IVec S4096x200 32 :=
  select (cmpi .slt i (broadcastInDim S4096x200 ![] bcast_S_S4096x200 (constantI S_ 32 0#32)))
    (addi i (broadcastInDim S4096x200 ![] bcast_S_S4096x200 (constantI S_ 32 n))) i

/-- The gather's start indices: the normalized indices, one index vector of length one per entry. -/
def starts (n : BitVec 32) (i : IVec S4096x200 32) : IVec S4096x200x1 32 :=
  broadcastInDim S4096x200x1 ![0, 1] bcast_S4096x200_S4096x200x1_0_1 (wrap n i)

/-- The test "the normalized index lies in `[0, hi]`", per entry. -/
def inside (n hi : BitVec 32) (i : IVec S4096x200 32) : IVec S4096x200 1 :=
  Host.reduce IntOp.andi
    (andi (cmpi .sge (starts n i) (broadcastInDim S4096x200x1 ![] bcast_S_S4096x200x1 (constantI S_ 32 0#32)))
      (cmpi .sle (starts n i)
        (broadcastInDim S4096x200x1 ![0, 1, 2] bcast_S1x1x1_S4096x200x1_0_1_2
          (broadcastInDim S1x1x1 ![2] bcast_S1_S1x1x1_2 (constantI S1 32 hi)))))
    (constantI S_ 1 1#1) reducesTo_S4096x200x1_S4096x200_d2 h_S_

/-- The fill value of an out-of-range lookup, at every result position. -/
def fill : FVec F S4096x200x64 .f32 :=
  broadcastInDim S4096x200x64 ![] bcast_S_S4096x200x64 (constant S_ .f32 0x7FC00000#32)

/-- The lookup in the embedding table (100000 rows). -/
def takeSrc (src : FVec F S100000x64 .f32) (i : IVec S4096x200 32) : FVec F S4096x200x64 .f32 :=
  select (broadcastInDim S4096x200x64 ![0, 1] bcast_S4096x200_S4096x200x64_0_1 (inside 100000#32 99999#32 i))
    (Host.gather gather_S100000x64_S4096x200x1_S4096x200x64_2_0_n_n_0_2_164 src (starts 100000#32 i)) fill

/-- The lookup in the positional table (200 rows). -/
def takePos (pos : FVec F S200x64 .f32) (i : IVec S4096x200 32) : FVec F S4096x200x64 .f32 :=
  select (broadcastInDim S4096x200x64 ![0, 1] bcast_S4096x200_S4096x200x64_0_1 (inside 200#32 199#32 i))
    (Host.gather gather_S200x64_S4096x200x1_S4096x200x64_2_0_n_n_0_2_164 pos (starts 200#32 i)) fill

/-- The position of each entry in its sequence: `position[b, l] = l`. -/
def position : IVec S4096x200 32 :=
  broadcastInDim S4096x200 ![1] bcast_S200_S4096x200_1 (iotaInDim S200 32 0)

/-- The reference's result: the two lookups, added. -/
def out (idx : IVec S4096x200 32) (src : FVec F S100000x64 .f32) (pos : FVec F S200x64 .f32) : FVec F S4096x200x64 .f32 :=
  addf (takeSrc src idx) (takePos pos position)

attribute [local irreducible] Host.reduce Host.gather in
set_option maxRecDepth 8192 in
set_option maxHeartbeats 1600000 in
/-- The fold of the operations at the result buffer is `out` of the arguments' contents: each operation's result at
    its own buffer is its function of its operands' contents, and at every other buffer what was there. -/
theorem out_eq (V : Valuation τ sig (Elt F)) :
    after ops V (main_v4 : DevRef τ sig)
      = out (V (main_arg0 : DevRef τ sig)) (V (main_arg1 : DevRef τ sig)) (V (main_arg2 : DevRef τ sig)) := by
  after_results_simp
  rfl

set_option maxRecDepth 8192 in
/-- No operation writes an argument. -/
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

/-- From any memory with zero counters, every weakly fair execution of the reference terminates with the result
    buffer at `out` of the arguments' initial contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (out_eq _), (h c main_arg0).trans (arg0_eq _),
      (h c main_arg1).trans (arg1_eq _), (h c main_arg2).trans (arg2_eq _)⟩)
    (run_main m ρ)

end Cert.ReferenceIdeal.RefValue

end
-- ==== Proof.LibRowGatherScatter.lean ====
/-
  WHOLE-ROW GATHERS AND ACCUMULATING SCATTERS ALONG AXIS 0, READ AT AN INDEX.

  A graph layer moves data between nodes and edges with two operations. A GATHER along the edges copies, for every
  edge `e`, the whole row of a per-node array named by the edge's index `idx[e]`; the index is read as a signed integer
  and clamped into the valid rows, so result element `(e, c)` is the operand's `(row idx[e], c)`. An ACCUMULATING SCATTER
  adds, for every edge `e`, the edge's whole row of updates into the row of the operand named by `idx[e]`; here the
  index is read signed and NOT clamped, an edge whose index names no row being dropped, so at exact arithmetic result
  element `(n, c)` is the operand's `(n, c)` plus the sum of `upd (e, c)` over the edges `e` with `idx[e] = n`.

  Both facts are proved once for every number of rows `N`, of edges `E` and every row width (`rowGather2_apply`,
  `rowGather3_apply`, `rowScatter2_apply`, `rowScatter3_apply`: a row is `C` elements, or a `K × F` slab), by evaluating
  the operation's index arithmetic on its literal dimension numbers; no step depends on the sizes.
-/
import Idealize.ShloMosaic.PureOps.Ideal
import Idealize.ShloMosaic.Lib.ValueIdx

noncomputable section

open scoped BigOperators

namespace Cert.RowOps

open Idealize.ShloMosaic Idealize.ShloMosaic.ValueIdx

section Scatter2
variable {N E C w : Nat}

/-- The dimension numbers of a whole-row accumulating scatter into a rank-2 operand. -/
abbrev rowScatter2 (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

theorem rowScatter2_siIdx (e : Fin E) (c : Fin C) (k : Fin (rowScatter2 wf).scatterDimsToOperandDims.length) :
    (rowScatter2 wf).siIdx (ix2 e c) k = ix2 e 0 := by
  funext b; refine Fin.ext ?_
  match b with
  | ⟨0, _⟩ => rfl
  | ⟨1, _⟩ =>
    have : k.val = 0 := by have := k.isLt; simpa using this
    show k.val = 0
    exact this

theorem rowScatter2_start_zero (e : Fin E) (c : Fin C) (idx : IVec ⟨2, ![E, 1]⟩ w) :
    (rowScatter2 wf).start (ix2 e c) idx 0 = (idx (ix2 e 0)).toInt := by
  unfold ScatterDims.start
  rw [dif_pos (show (0 : Fin 2) ∈ (rowScatter2 wf).scatterDimsToOperandDims from List.mem_singleton.mpr rfl)]
  rw [rowScatter2_siIdx]

theorem rowScatter2_start_one (e : Fin E) (c : Fin C) (idx : IVec ⟨2, ![E, 1]⟩ w) :
    (rowScatter2 wf).start (ix2 e c) idx 1 = 0 := by
  unfold ScatterDims.start
  have h : ¬ (1 : Fin 2) ∈ (rowScatter2 wf).scatterDimsToOperandDims := by
    show ¬ (1 : Fin 2) ∈ ([0] : List (Fin 2)); decide
  rw [dif_neg h]

theorem rowScatter2_window_zero (e : Fin E) (c : Fin C) :
    (rowScatter2 wf).window (ix2 e c) 0 = 0 := by
  unfold ScatterDims.window
  have h : ¬ (0 : Fin 2) ∈ (rowScatter2 wf).sKept := by
    show ¬ (0 : Fin 2) ∈ ([1] : List (Fin 2)); decide
  rw [dif_neg h]

theorem rowScatter2_window_one (e : Fin E) (c : Fin C) :
    (rowScatter2 wf).window (ix2 e c) 1 = c.val := by
  unfold ScatterDims.window
  have h : (1 : Fin 2) ∈ (rowScatter2 wf).sKept := by
    show (1 : Fin 2) ∈ ([1] : List (Fin 2)); decide
  rw [dif_pos h]
  rfl

/-- Where an update element of a whole-row scatter lands: update `(e, c')` lands on operand element `(n, c)` exactly
    when edge `e`'s index, read signed, is `n` and the columns agree; an index outside `[0, N)` lands nowhere. -/
theorem rowScatter2_resultIdx?_iff (e : Fin E) (c' : Fin C) (idx : IVec ⟨2, ![E, 1]⟩ w) (n : Fin N) (c : Fin C) :
    (rowScatter2 wf).resultIdx? (ix2 e c') idx = some (ix2 n c) ↔ (idx (ix2 e 0)).toInt = (n.val : Int) ∧ c' = c := by
  have hs0 := rowScatter2_start_zero wf e c' idx
  have hs1 := rowScatter2_start_one wf e c' idx
  have hw0 := rowScatter2_window_zero wf e c'
  have hw1 := rowScatter2_window_one wf e c'
  unfold ScatterDims.resultIdx?
  constructor
  · intro h
    split at h
    · rename_i hall
      have h' := Option.some.inj h
      have h0 : ((rowScatter2 wf).start (ix2 e c') idx 0 + ((rowScatter2 wf).window (ix2 e c') 0 : Nat)).toNat = n.val :=
        congrArg Fin.val (congrFun h' 0)
      have h1 : ((rowScatter2 wf).start (ix2 e c') idx 1 + ((rowScatter2 wf).window (ix2 e c') 1 : Nat)).toNat = c.val :=
        congrArg Fin.val (congrFun h' 1)
      have a0 := (hall 0).1
      rw [hs0, hw0] at h0 a0
      rw [hs1, hw1] at h1
      refine ⟨by omega, Fin.ext (by omega)⟩
    · exact absurd h (by simp)
  · rintro ⟨hA, rfl⟩
    have hall : ∀ a, 0 ≤ (rowScatter2 wf).start (ix2 e c') idx a + ((rowScatter2 wf).window (ix2 e c') a : Nat) ∧
        (rowScatter2 wf).start (ix2 e c') idx a + ((rowScatter2 wf).window (ix2 e c') a : Nat)
          < ((⟨2, ![N, C]⟩ : Shape).size a : Nat) := by
      refine Fin.forall_fin_two.mpr ⟨?_, ?_⟩
      · rw [hs0, hw0, hA]
        show (0 : Int) ≤ (n.val : Int) + ((0 : Nat) : Int) ∧ (n.val : Int) + ((0 : Nat) : Int) < ((N : Nat) : Int)
        have := n.isLt; omega
      · rw [hs1, hw1]
        show (0 : Int) ≤ 0 + ((c'.val : Nat) : Int) ∧ 0 + ((c'.val : Nat) : Int) < ((C : Nat) : Int)
        have := c'.isLt; omega
    rw [dif_pos hall]
    congr 1
    funext a; refine Fin.ext ?_
    revert a
    refine Fin.forall_fin_two.mpr ⟨?_, ?_⟩
    · show ((rowScatter2 wf).start (ix2 e c') idx 0 + ((rowScatter2 wf).window (ix2 e c') 0 : Nat)).toNat = n.val
      rw [hs0, hw0, hA]; omega
    · show ((rowScatter2 wf).start (ix2 e c') idx 1 + ((rowScatter2 wf).window (ix2 e c') 1 : Nat)).toNat = c'.val
      rw [hs1, hw1]; omega

/-- THE WHOLE-ROW ACCUMULATING SCATTER READ AT `(n, c)`, at the ideal instance: the operand's element plus the sum, over
    the edges whose index (read signed) is `n`, of the update's element in column `c`. An edge whose index is
    negative or at least `N` contributes to no row. -/
theorem rowScatter2_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatter2 wf) x idx upd (ix2 n c)
      = x (ix2 n c) + ∑ e ∈ Finset.univ.filter (fun e : Fin E => (idx (ix2 e 0)).toInt = (n.val : Int)), upd (ix2 e c) := by
  show Ideal.hostScatterAdd (rowScatter2 wf) x idx upd (ix2 n c) = _
  unfold Ideal.hostScatterAdd
  congr 1
  rw [Finset.sum_filter, sum_idx2, Finset.sum_filter]
  refine Finset.sum_congr rfl fun e _ => ?_
  simp only [rowScatter2_resultIdx?_iff]
  by_cases hA : (idx (ix2 e 0)).toInt = (n.val : Int)
  · simp only [hA, true_and, if_true]
    rw [Finset.sum_ite_eq' Finset.univ c (fun c' => upd (ix2 e c'))]
    simp
  · simp [hA]

end Scatter2

/-! ## Rank-3 indices: a property of all three axes, and a sum over the index set as a triple sum -/

/-- A property of every axis of a rank-3 shape is its three instances. -/
theorem forall_fin_three {P : Fin 3 → Prop} : (∀ i, P i) ↔ P 0 ∧ P 1 ∧ P 2 :=
  ⟨fun h => ⟨h 0, h 1, h 2⟩, fun h i => match i with
    | ⟨0, _⟩ => h.1
    | ⟨1, _⟩ => h.2.1
    | ⟨2, _⟩ => h.2.2⟩

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Scatter3
variable {N E K F w : Nat}

/-- The dimension numbers of a whole-row accumulating scatter into a rank-3 operand (a row is a `K × F` slab). -/
abbrev rowScatter3 (wf : ScatterDims.WF ⟨3, ![N, K, F]⟩ ⟨2, ![E, 1]⟩ ⟨3, ![E, K, F]⟩ [1, 2] [0] [0] 1) :
    ScatterDims ⟨3, ![N, K, F]⟩ ⟨2, ![E, 1]⟩ ⟨3, ![E, K, F]⟩ where
  updateWindowDims := [1, 2]
  insertedWindowDims := [0]
  scatterDimsToOperandDims := [0]
  indexVectorDim := 1
  wf := wf

variable (wf : ScatterDims.WF ⟨3, ![N, K, F]⟩ ⟨2, ![E, 1]⟩ ⟨3, ![E, K, F]⟩ [1, 2] [0] [0] 1)

/-- The scatter index an update element reads: its edge's, in the index array's one column. -/
theorem rowScatter3_siIdx (e : Fin E) (k : Fin K) (f : Fin F) (q : Fin (rowScatter3 wf).scatterDimsToOperandDims.length) :
    (rowScatter3 wf).siIdx (ix3 e k f) q = ix2 e 0 := by
  funext b; refine Fin.ext ?_
  match b with
  | ⟨0, _⟩ => rfl
  | ⟨1, _⟩ =>
    have : q.val = 0 := by have := q.isLt; simpa using this
    show q.val = 0
    exact this

/-- On the row axis the window starts at the edge's index, read signed (and not clamped). -/
theorem rowScatter3_start_zero (e : Fin E) (k : Fin K) (f : Fin F) (idx : IVec ⟨2, ![E, 1]⟩ w) :
    (rowScatter3 wf).start (ix3 e k f) idx 0 = (idx (ix2 e 0)).toInt := by
  unfold ScatterDims.start
  rw [dif_pos (show (0 : Fin 3) ∈ (rowScatter3 wf).scatterDimsToOperandDims from List.mem_singleton.mpr rfl)]
  rw [rowScatter3_siIdx]

/-- On the second axis the window starts at `0`. -/
theorem rowScatter3_start_one (e : Fin E) (k : Fin K) (f : Fin F) (idx : IVec ⟨2, ![E, 1]⟩ w) :
    (rowScatter3 wf).start (ix3 e k f) idx 1 = 0 := by
  unfold ScatterDims.start
  have h : ¬ (1 : Fin 3) ∈ (rowScatter3 wf).scatterDimsToOperandDims := by
    show ¬ (1 : Fin 3) ∈ ([0] : List (Fin 3)); decide
  rw [dif_neg h]

/-- On the third axis the window starts at `0`. -/
theorem rowScatter3_start_two (e : Fin E) (k : Fin K) (f : Fin F) (idx : IVec ⟨2, ![E, 1]⟩ w) :
    (rowScatter3 wf).start (ix3 e k f) idx 2 = 0 := by
  unfold ScatterDims.start
  have h : ¬ (2 : Fin 3) ∈ (rowScatter3 wf).scatterDimsToOperandDims := by
    show ¬ (2 : Fin 3) ∈ ([0] : List (Fin 3)); decide
  rw [dif_neg h]

/-- The row axis is inserted: no window coordinate on it. -/
theorem rowScatter3_window_zero (e : Fin E) (k : Fin K) (f : Fin F) :
    (rowScatter3 wf).window (ix3 e k f) 0 = 0 := by
  unfold ScatterDims.window
  have h : ¬ (0 : Fin 3) ∈ (rowScatter3 wf).sKept := by
    show ¬ (0 : Fin 3) ∈ ([1, 2] : List (Fin 3)); decide
  rw [dif_neg h]

/-- The window coordinate on the second axis is the update's second coordinate. -/
theorem rowScatter3_window_one (e : Fin E) (k : Fin K) (f : Fin F) :
    (rowScatter3 wf).window (ix3 e k f) 1 = k.val := by
  unfold ScatterDims.window
  have h : (1 : Fin 3) ∈ (rowScatter3 wf).sKept := by
    show (1 : Fin 3) ∈ ([1, 2] : List (Fin 3)); decide
  rw [dif_pos h]
  rfl

/-- The window coordinate on the third axis is the update's third coordinate. -/
theorem rowScatter3_window_two (e : Fin E) (k : Fin K) (f : Fin F) :
    (rowScatter3 wf).window (ix3 e k f) 2 = f.val := by
  unfold ScatterDims.window
  have h : (2 : Fin 3) ∈ (rowScatter3 wf).sKept := by
    show (2 : Fin 3) ∈ ([1, 2] : List (Fin 3)); decide
  rw [dif_pos h]
  rfl

/-- Where an update element of a whole-row scatter lands: update `(e, k', f')` lands on operand element `(n, k, f)`
    exactly when edge `e`'s index, read signed, is `n` and the coordinates inside the row agree; an index outside
    `[0, N)` lands nowhere. -/
theorem rowScatter3_resultIdx?_iff (e : Fin E) (k' : Fin K) (f' : Fin F) (idx : IVec ⟨2, ![E, 1]⟩ w) (n : Fin N)
    (k : Fin K) (f : Fin F) :
    (rowScatter3 wf).resultIdx? (ix3 e k' f') idx = some (ix3 n k f)
      ↔ (idx (ix2 e 0)).toInt = (n.val : Int) ∧ k' = k ∧ f' = f := by
  have hs0 := rowScatter3_start_zero wf e k' f' idx
  have hs1 := rowScatter3_start_one wf e k' f' idx
  have hs2 := rowScatter3_start_two wf e k' f' idx
  have hw0 := rowScatter3_window_zero wf e k' f'
  have hw1 := rowScatter3_window_one wf e k' f'
  have hw2 := rowScatter3_window_two wf e k' f'
  unfold ScatterDims.resultIdx?
  constructor
  · intro h
    split at h
    · rename_i hall
      have h' := Option.some.inj h
      have h0 : ((rowScatter3 wf).start (ix3 e k' f') idx 0 + ((rowScatter3 wf).window (ix3 e k' f') 0 : Nat)).toNat = n.val :=
        congrArg Fin.val (congrFun h' 0)
      have h1 : ((rowScatter3 wf).start (ix3 e k' f') idx 1 + ((rowScatter3 wf).window (ix3 e k' f') 1 : Nat)).toNat = k.val :=
        congrArg Fin.val (congrFun h' 1)
      have h2 : ((rowScatter3 wf).start (ix3 e k' f') idx 2 + ((rowScatter3 wf).window (ix3 e k' f') 2 : Nat)).toNat = f.val :=
        congrArg Fin.val (congrFun h' 2)
      have a0 := (hall 0).1
      rw [hs0, hw0] at h0 a0
      rw [hs1, hw1] at h1
      rw [hs2, hw2] at h2
      refine ⟨by omega, Fin.ext (by omega), Fin.ext (by omega)⟩
    · exact absurd h (by simp)
  · rintro ⟨hA, rfl, rfl⟩
    have hall : ∀ a, 0 ≤ (rowScatter3 wf).start (ix3 e k' f') idx a + ((rowScatter3 wf).window (ix3 e k' f') a : Nat) ∧
        (rowScatter3 wf).start (ix3 e k' f') idx a + ((rowScatter3 wf).window (ix3 e k' f') a : Nat)
          < ((⟨3, ![N, K, F]⟩ : Shape).size a : Nat) := by
      refine forall_fin_three.mpr ⟨?_, ?_, ?_⟩
      · rw [hs0, hw0, hA]
        show (0 : Int) ≤ (n.val : Int) + ((0 : Nat) : Int) ∧ (n.val : Int) + ((0 : Nat) : Int) < ((N : Nat) : Int)
        have := n.isLt; omega
      · rw [hs1, hw1]
        show (0 : Int) ≤ 0 + ((k'.val : Nat) : Int) ∧ 0 + ((k'.val : Nat) : Int) < ((K : Nat) : Int)
        have := k'.isLt; omega
      · rw [hs2, hw2]
        show (0 : Int) ≤ 0 + ((f'.val : Nat) : Int) ∧ 0 + ((f'.val : Nat) : Int) < ((F : Nat) : Int)
        have := f'.isLt; omega
    rw [dif_pos hall]
    congr 1
    funext a; refine Fin.ext ?_
    revert a
    refine forall_fin_three.mpr ⟨?_, ?_, ?_⟩
    · show ((rowScatter3 wf).start (ix3 e k' f') idx 0 + ((rowScatter3 wf).window (ix3 e k' f') 0 : Nat)).toNat = n.val
      rw [hs0, hw0, hA]; omega
    · show ((rowScatter3 wf).start (ix3 e k' f') idx 1 + ((rowScatter3 wf).window (ix3 e k' f') 1 : Nat)).toNat = k'.val
      rw [hs1, hw1]; omega
    · show ((rowScatter3 wf).start (ix3 e k' f') idx 2 + ((rowScatter3 wf).window (ix3 e k' f') 2 : Nat)).toNat = f'.val
      rw [hs2, hw2]; omega

/-- THE WHOLE-ROW ACCUMULATING SCATTER READ AT `(n, k, f)`, at the ideal instance: the operand's element plus the sum,
    over the edges whose index (read signed) is `n`, of the update's element at `(k, f)` of the edge's row. An edge
    whose index is negative or at least `N` contributes to no row. -/
theorem rowScatter3_apply {φ : FTy} (x : FVec Ideal ⟨3, ![N, K, F]⟩ φ) (idx : IVec ⟨2, ![E, 1]⟩ w)
    (upd : FVec Ideal ⟨3, ![E, K, F]⟩ φ) (n : Fin N) (k : Fin K) (f : Fin F) :
    Host.scatterAdd (F := Ideal) (rowScatter3 wf) x idx upd (ix3 n k f)
      = x (ix3 n k f)
        + ∑ e ∈ Finset.univ.filter (fun e : Fin E => (idx (ix2 e 0)).toInt = (n.val : Int)), upd (ix3 e k f) := by
  show Ideal.hostScatterAdd (rowScatter3 wf) x idx upd (ix3 n k f) = _
  unfold Ideal.hostScatterAdd
  congr 1
  rw [Finset.sum_filter, sum_idx3, Finset.sum_filter]
  refine Finset.sum_congr rfl fun e _ => ?_
  simp only [rowScatter3_resultIdx?_iff]
  by_cases hA : (idx (ix2 e 0)).toInt = (n.val : Int)
  · simp only [hA, true_and, if_true]
    have inner : ∀ k' : Fin K, (∑ f' : Fin F, if k' = k ∧ f' = f then upd (ix3 e k' f') else 0)
        = if k' = k then upd (ix3 e k' f) else 0 := by
      intro k'
      by_cases hk : k' = k
      · simp only [hk, true_and, if_true]
        rw [Finset.sum_ite_eq' Finset.univ f (fun f' => upd (ix3 e k f'))]
        simp
      · simp [hk]
    rw [Finset.sum_congr rfl (fun k' _ => inner k')]
    rw [Finset.sum_ite_eq' Finset.univ k (fun k' => upd (ix3 e k' f))]
    simp
  · simp [hA]

end Scatter3

/-! ## Whole-row gathers -/

/-- A start index read signed and clamped into `[0, N − 1]`: a negative value reads row `0`, a value past the last row
    reads row `N − 1`. This is the row a whole-row gather of an operand with `N` rows reads. -/
def clampRow {w : Nat} (N : Nat) (hN : 0 < N) (z : BitVec w) : Fin N := ⟨min z.toInt.toNat (N - 1), by omega⟩

/-- A start index already inside `[0, N)` is its own row. -/
theorem clampRow_of_range {w : Nat} (N : Nat) (hN : 0 < N) (z : BitVec w) (h0 : 0 ≤ z.toInt) (h1 : z.toInt < (N : Int)) :
    (clampRow N hN z).val = z.toInt.toNat := by
  show min z.toInt.toNat (N - 1) = z.toInt.toNat
  omega

section Gather2
variable {α : Type} {N E C w : Nat}

/-- The dimension numbers of a whole-row gather from a rank-2 operand: one start index per edge, naming the row. -/
abbrev rowGather2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The start index a result element reads: its edge's, in the index array's one column. -/
theorem rowGather2_siIdx (e : Fin E) (c : Fin C) (q : Fin (rowGather2 wf).startIndexMap.length) :
    (rowGather2 wf).siIdx (ix2 e c) q = ix2 e 0 := by
  funext b; refine Fin.ext ?_
  match b with
  | ⟨0, _⟩ => rfl
  | ⟨1, _⟩ =>
    have : q.val = 0 := by have := q.isLt; simpa using this
    show q.val = 0
    exact this

/-- THE WHOLE-ROW GATHER READ AT `(e, c)`: column `c` of the operand's row named by edge `e`'s index, read signed and
    clamped into `[0, N − 1]`. -/
theorem rowGather2_apply (hN : 0 < N) (x : (⟨2, ![N, C]⟩ : Shape).Idx → α) (idx : IVec ⟨2, ![E, 1]⟩ w)
    (e : Fin E) (c : Fin C) :
    Host.gather (rowGather2 wf) x idx (ix2 e c) = x (ix2 (clampRow N hN (idx (ix2 e 0))) c) := by
  unfold Host.gather
  congr 1
  funext a; refine Fin.ext ?_
  revert a
  refine Fin.forall_fin_two.mpr ⟨?_, ?_⟩
  · show (rowGather2 wf).start (ix2 e c) idx 0 + (rowGather2 wf).batchCoord (ix2 e c) 0
        + (rowGather2 wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 wf).startIndexMap from List.mem_singleton.mpr rfl)]
    rw [rowGather2_siIdx]
    rfl
  · show (rowGather2 wf).start (ix2 e c) idx 1 + (rowGather2 wf).batchCoord (ix2 e c) 1
        + (rowGather2 wf).offCoord (ix2 e c) 1 = c.val
    rw [GatherDims.batchCoord_eq_zero _ _ _ List.not_mem_nil]
    have hs : (rowGather2 wf).start (ix2 e c) idx 1 = 0 := by
      unfold GatherDims.start
      have h : ¬ (1 : Fin 2) ∈ (rowGather2 wf).startIndexMap := by
        show ¬ (1 : Fin 2) ∈ ([0] : List (Fin 2)); decide
      rw [dif_neg h]
    have ho : (rowGather2 wf).offCoord (ix2 e c) 1 = c.val := by
      unfold GatherDims.offCoord
      have h : (1 : Fin 2) ∈ (rowGather2 wf).sKept := by
        show (1 : Fin 2) ∈ ([1] : List (Fin 2)); decide
      rw [dif_pos h]
      rfl
    rw [hs, ho]; omega

end Gather2

section Gather3
variable {α : Type} {N E K F w : Nat}

/-- The dimension numbers of a whole-row gather from a rank-3 operand (a row is a `K × F` slab). -/
abbrev rowGather3 (wf : GatherDims.WF ⟨3, ![N, K, F]⟩ ⟨2, ![E, 1]⟩ ⟨3, ![E, K, F]⟩ [1, 2] [0] [] [0] [] 1 ![1, K, F]) :
    GatherDims ⟨3, ![N, K, F]⟩ ⟨2, ![E, 1]⟩ ⟨3, ![E, K, F]⟩ where
  offsetDims := [1, 2]
  collapsedSliceDims := [0]
  operandBatchingDims := []
  startIndicesBatchingDims := []
  startIndexMap := [0]
  indexVectorDim := 1
  sliceSizes := ![1, K, F]
  wf := wf

variable (wf : GatherDims.WF ⟨3, ![N, K, F]⟩ ⟨2, ![E, 1]⟩ ⟨3, ![E, K, F]⟩ [1, 2] [0] [] [0] [] 1 ![1, K, F])

/-- The start index a result element reads: its edge's, in the index array's one column. -/
theorem rowGather3_siIdx (e : Fin E) (k : Fin K) (f : Fin F) (q : Fin (rowGather3 wf).startIndexMap.length) :
    (rowGather3 wf).siIdx (ix3 e k f) q = ix2 e 0 := by
  funext b; refine Fin.ext ?_
  match b with
  | ⟨0, _⟩ => rfl
  | ⟨1, _⟩ =>
    have : q.val = 0 := by have := q.isLt; simpa using this
    show q.val = 0
    exact this

/-- THE WHOLE-ROW GATHER READ AT `(e, k, f)`: entry `(k, f)` of the operand's row named by edge `e`'s index, read
    signed and clamped into `[0, N − 1]`. -/
theorem rowGather3_apply (hN : 0 < N) (x : (⟨3, ![N, K, F]⟩ : Shape).Idx → α) (idx : IVec ⟨2, ![E, 1]⟩ w)
    (e : Fin E) (k : Fin K) (f : Fin F) :
    Host.gather (rowGather3 wf) x idx (ix3 e k f) = x (ix3 (clampRow N hN (idx (ix2 e 0))) k f) := by
  unfold Host.gather
  congr 1
  funext a; refine Fin.ext ?_
  revert a
  refine forall_fin_three.mpr ⟨?_, ?_, ?_⟩
  · show (rowGather3 wf).start (ix3 e k f) idx 0 + (rowGather3 wf).batchCoord (ix3 e k f) 0
        + (rowGather3 wf).offCoord (ix3 e k f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 wf).startIndexMap from List.mem_singleton.mpr rfl)]
    rw [rowGather3_siIdx]
    rfl
  · show (rowGather3 wf).start (ix3 e k f) idx 1 + (rowGather3 wf).batchCoord (ix3 e k f) 1
        + (rowGather3 wf).offCoord (ix3 e k f) 1 = k.val
    rw [GatherDims.batchCoord_eq_zero _ _ _ List.not_mem_nil]
    have hs : (rowGather3 wf).start (ix3 e k f) idx 1 = 0 := by
      unfold GatherDims.start
      have h : ¬ (1 : Fin 3) ∈ (rowGather3 wf).startIndexMap := by
        show ¬ (1 : Fin 3) ∈ ([0] : List (Fin 3)); decide
      rw [dif_neg h]
    have ho : (rowGather3 wf).offCoord (ix3 e k f) 1 = k.val := by
      unfold GatherDims.offCoord
      have h : (1 : Fin 3) ∈ (rowGather3 wf).sKept := by
        show (1 : Fin 3) ∈ ([1, 2] : List (Fin 3)); decide
      rw [dif_pos h]
      rfl
    rw [hs, ho]; omega
  · show (rowGather3 wf).start (ix3 e k f) idx 2 + (rowGather3 wf).batchCoord (ix3 e k f) 2
        + (rowGather3 wf).offCoord (ix3 e k f) 2 = f.val
    rw [GatherDims.batchCoord_eq_zero _ _ _ List.not_mem_nil]
    have hs : (rowGather3 wf).start (ix3 e k f) idx 2 = 0 := by
      unfold GatherDims.start
      have h : ¬ (2 : Fin 3) ∈ (rowGather3 wf).startIndexMap := by
        show ¬ (2 : Fin 3) ∈ ([0] : List (Fin 3)); decide
      rw [dif_neg h]
    have ho : (rowGather3 wf).offCoord (ix3 e k f) 2 = f.val := by
      unfold GatherDims.offCoord
      have h : (2 : Fin 3) ∈ (rowGather3 wf).sKept := by
        show (2 : Fin 3) ∈ ([1, 2] : List (Fin 3)); decide
      rw [dif_pos h]
      rfl
    rw [hs, ho]; omega

end Gather3

end Cert.RowOps
-- ==== Proof.RefGather.lean ====
/-
  A whole-row gather whose start indices form a two-axis batch, read at an index.

  The lookup `table[idx]` of a table with `N` rows of `C` entries at an index array `idx` of shape `B × L` is a gather
  with start indices of shape `B × L × 1`: result element `(b, l, c)` is entry `c` of the table row named by
  `idx[b, l, 0]`, the index read as a signed integer and clamped into the valid rows `[0, N − 1]`.  The fact is proved
  for every `N`, `B`, `L`, `C` by evaluating the gather's index arithmetic on its literal dimension numbers.
-/
import Idealize.ShloMosaic.PureOps.Ideal
import Idealize.ShloMosaic.Lib.ValueIdx
import Idealize.ShloMosaic.PureOps.Reduce
import proofs.«206908_g46772193853751_cont_8to1c4_160_30_alg».proof.Proof.LibRowGatherScatter

noncomputable section

namespace Cert.ReferenceIdeal.RefValue

open Idealize.ShloMosaic Idealize.ShloMosaic.ValueIdx Cert.RowOps

section Gather
variable {α : Type} {N B L C w : Nat}

/-- The dimension numbers of a whole-row gather from a rank-2 table at a `B × L` batch of start indices. -/
abbrev rowGatherBL (wf : GatherDims.WF ⟨2, ![N, C]⟩ ⟨3, ![B, L, 1]⟩ ⟨3, ![B, L, C]⟩ [2] [0] [] [0] [] 2 ![1, C]) :
    GatherDims ⟨2, ![N, C]⟩ ⟨3, ![B, L, 1]⟩ ⟨3, ![B, L, C]⟩ where
  offsetDims := [2]
  collapsedSliceDims := [0]
  operandBatchingDims := []
  startIndicesBatchingDims := []
  startIndexMap := [0]
  indexVectorDim := 2
  sliceSizes := ![1, C]
  wf := wf

variable (wf : GatherDims.WF ⟨2, ![N, C]⟩ ⟨3, ![B, L, 1]⟩ ⟨3, ![B, L, C]⟩ [2] [0] [] [0] [] 2 ![1, C])

/-- The start index a result element reads: its own batch position, in the one slot of the index vector. -/
theorem rowGatherBL_siIdx (b : Fin B) (l : Fin L) (c : Fin C) (q : Fin (rowGatherBL wf).startIndexMap.length) :
    (rowGatherBL wf).siIdx (ix3 b l c) q = ix3 b l 0 := by
  funext a; refine Fin.ext ?_
  match a with
  | ⟨0, _⟩ => rfl
  | ⟨1, _⟩ => rfl
  | ⟨2, _⟩ =>
    have : q.val = 0 := by have := q.isLt; simpa using this
    show q.val = 0
    exact this

/-- THE GATHER READ AT `(b, l, c)`: entry `c` of the table row named by the start index `idx[b, l, 0]`, read signed and
    clamped into `[0, N − 1]`. -/
theorem rowGatherBL_apply (hN : 0 < N) (x : (⟨2, ![N, C]⟩ : Shape).Idx → α) (idx : IVec ⟨3, ![B, L, 1]⟩ w)
    (b : Fin B) (l : Fin L) (c : Fin C) :
    Host.gather (rowGatherBL wf) x idx (ix3 b l c) = x (ix2 (clampRow N hN (idx (ix3 b l 0))) c) := by
  unfold Host.gather
  congr 1
  funext a; refine Fin.ext ?_
  revert a
  refine Fin.forall_fin_two.mpr ⟨?_, ?_⟩
  · show (rowGatherBL wf).start (ix3 b l c) idx 0 + (rowGatherBL wf).batchCoord (ix3 b l c) 0
        + (rowGatherBL wf).offCoord (ix3 b l c) 0 = min (idx (ix3 b l 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherBL wf).startIndexMap from List.mem_singleton.mpr rfl)]
    rw [rowGatherBL_siIdx]
    rfl
  · show (rowGatherBL wf).start (ix3 b l c) idx 1 + (rowGatherBL wf).batchCoord (ix3 b l c) 1
        + (rowGatherBL wf).offCoord (ix3 b l c) 1 = c.val
    rw [GatherDims.batchCoord_eq_zero _ _ _ List.not_mem_nil]
    have hs : (rowGatherBL wf).start (ix3 b l c) idx 1 = 0 := by
      unfold GatherDims.start
      have h : ¬ (1 : Fin 2) ∈ (rowGatherBL wf).startIndexMap := by
        show ¬ (1 : Fin 2) ∈ ([0] : List (Fin 2)); decide
      rw [dif_neg h]
    have ho : (rowGatherBL wf).offCoord (ix3 b l c) 1 = c.val := by
      unfold GatherDims.offCoord
      have h : (1 : Fin 2) ∈ (rowGatherBL wf).sKept := by
        show (1 : Fin 2) ∈ ([1] : List (Fin 2)); decide
      rw [dif_pos h]
      rfl
    rw [hs, ho]; omega

end Gather

/-! ## A reduction by `and` of ones -/

/-- A left fold by `and` from `1` over one-bit words that are all `1` is `1`. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by `and`, from `1`, of an array of ones is `1` everywhere. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

end Cert.ReferenceIdeal.RefValue

end
-- ==== Proof.RefRead.lean ====
/-
  The stages of a table lookup, read at one position.

  For an index that is not negative the normalization leaves it unchanged, so the gather's start index is the index
  itself; and when every index lies in the table the range test is `1` at every position.  Two facts about 32-bit words
  are used: a word whose signed reading is not negative has the same unsigned reading, and a small natural number read
  back from its word, signed, is itself.
-/
import proofs.«206908_g46772193853751_cont_8to1c4_160_30_alg».proof.Proof.RefStages
import proofs.«206908_g46772193853751_cont_8to1c4_160_30_alg».proof.Proof.RefGather

noncomputable section

namespace Cert.ReferenceIdeal.RefValue

open Cert.ReferenceIdeal Cert.ReferenceIdeal.Gen Idealize.ShloMosaic Idealize.ShloMosaic.ValueIdx Idealize.SL.Sem Cert.RowOps

/-! ## Words -/

/-- A 32-bit word whose signed reading is not negative has that reading as its unsigned one. -/
theorem toNat_of_toInt_nonneg (z : BitVec 32) (h : 0 ≤ z.toInt) : (z.toNat : Int) = z.toInt := by
  have hlt : z.toNat < 2 ^ 32 := z.isLt
  have hc := BitVec.toInt_eq_toNat_cond z
  split at hc <;> omega

/-- A small natural number as a 32-bit word reads back as itself, signed. -/
theorem toInt_ofNat_small (k : Nat) (h : k < 2 ^ 31) : (BitVec.ofNat 32 k).toInt = k := by
  have hc := BitVec.toInt_eq_toNat_cond (BitVec.ofNat 32 k)
  rw [BitVec.toNat_ofNat, Nat.mod_eq_of_lt (show k < 2 ^ 32 by omega)] at hc
  split at hc <;> omega

/-! ## Broadcasts read at an index -/

/-- An array over `(b, l)` broadcast along a new last axis reads, at `(b, l, k)`, its element at `(b, l)`. -/
theorem bcast01_apply {α : Type} {K : Nat}
    (h : S4096x200.BroadcastsInDim ⟨3, ![4096, 200, K]⟩ (![0, 1] : Fin 2 → Fin 3)) (x : S4096x200.Idx → α)
    (b : Fin 4096) (l : Fin 200) (k : Fin K) :
    broadcastInDim ⟨3, ![4096, 200, K]⟩ ![0, 1] h x (ix3 b l k) = x (ix2 b l) := by
  unfold broadcastInDim
  refine congrArg x (funext fun a => ?_)
  match a with
  | ⟨0, _⟩ => rfl
  | ⟨1, _⟩ => rfl

/-- The position table at `(b, l)` is the word `l`. -/
theorem position_apply (b : Fin 4096) (l : Fin 200) : position (ix2 b l) = BitVec.ofNat 32 l.val := rfl

/-! ## The stages of a lookup at an index that is in range -/

variable {F : FTy → Type} [FloatOps F]

/-- An index that is not negative is its own normalization. -/
theorem wrap_apply (n : BitVec 32) (i : IVec S4096x200 32) (j : S4096x200.Idx) (h : 0 ≤ (i j).toInt) : wrap n i j = i j := by
  have hc : cmpi .slt i (broadcastInDim S4096x200 ![] bcast_S_S4096x200 (constantI S_ 32 0#32)) j = 0#1 := by
    refine eq_zero_of_ne_one fun h1 => ?_
    have h2 : (i j).toInt < (0#32 : BitVec 32).toInt := IntOp.cmpi_slt.mp h1
    have h3 : (0#32 : BitVec 32).toInt = 0 := by decide
    omega
  unfold wrap
  rw [select_apply, hc, select_zero]

/-- The start index at `(b, l)` is the index itself when it is not negative. -/
theorem starts_apply (n : BitVec 32) (i : IVec S4096x200 32) (b : Fin 4096) (l : Fin 200) (k : Fin 1)
    (h : 0 ≤ (i (ix2 b l)).toInt) : starts n i (ix3 b l k) = i (ix2 b l) := by
  unfold starts
  rw [bcast01_apply, wrap_apply n i _ h]

/-- The range test is `1` everywhere when every index lies in `[0, hi]`. -/
theorem inside_apply (n hi : BitVec 32) (i : IVec S4096x200 32)
    (h : ∀ b l, 0 ≤ (i (ix2 b l)).toInt ∧ (i (ix2 b l)).toInt ≤ hi.toInt) (j : S4096x200.Idx) :
    inside n hi i j = 1#1 := by
  unfold inside
  refine reduce_andi_ones _ _ _ _ (fun _ => rfl) (fun q => ?_) j
  obtain ⟨b, l, k, rfl⟩ : ∃ b l k, q = ix3 b l k := ⟨q 0, q 1, q 2, eq_ix3 q⟩
  show IntOp.andi _ _ = 1#1
  refine IntOp.andi_eq_one.mpr ⟨IntOp.cmpi_sge.mpr ?_, IntOp.cmpi_sle.mpr ?_⟩
  · show (0#32 : BitVec 32).toInt ≤ (starts n i (ix3 b l k)).toInt
    rw [starts_apply n i b l k (h b l).1, show (0#32 : BitVec 32).toInt = 0 by decide]
    exact (h b l).1
  · show (starts n i (ix3 b l k)).toInt ≤ hi.toInt
    rw [starts_apply n i b l k (h b l).1]
    exact (h b l).2

end Cert.ReferenceIdeal.RefValue

end
-- ==== Proof.RefValue.lean ====
/-
  The reference's result is the specified lookup.

  Under the precondition every index word lies in `[0, 99999]`, and every position lies in `[0, 199]`.  For such an index
  the normalization leaves it unchanged (it is not negative), the range test is `1` (so no row is replaced by the fill
  value), and the gather's clamp is the identity; the lookup therefore reads the table row the index names.  Each stage
  is read at one result position `(b, l, d)`.
-/
import proofs.«206908_g46772193853751_cont_8to1c4_160_30_alg».proof.Proof.RefRead
import proofs.«206908_g46772193853751_cont_8to1c4_160_30_alg».proof.Proof.RefPre
import proofs.«206908_g46772193853751_cont_8to1c4_160_30_alg».proof.Proof.Spec
import proofs.«206908_g46772193853751_cont_8to1c4_160_30_alg».proof.Defs

noncomputable section

namespace Cert.ReferenceIdeal.RefValue

open Cert.ReferenceIdeal Cert.ReferenceIdeal.Gen Idealize.ShloMosaic Idealize.ShloMosaic.ValueIdx Idealize.SL.Sem Cert.RowOps

variable {F : FTy → Type} [FloatOps F]

/-- The lookup in the embedding table at `(b, l, d)`, every index in `[0, 99999]`: entry `d` of the row the index
    names. -/
theorem takeSrc_apply (src : FVec F S100000x64 .f32) (i : IVec S4096x200 32)
    (h : ∀ b l, 0 ≤ (i (ix2 b l)).toInt ∧ (i (ix2 b l)).toInt ≤ 99999) (b : Fin 4096) (l : Fin 200) (d : Fin 64) :
    takeSrc src i (ix3 b l d) = src (ix2 (Cert.Spec.row (i (ix2 b l))) d) := by
  have hhi : (99999#32 : BitVec 32).toInt = 99999 := by decide
  unfold takeSrc
  rw [select_apply, bcast01_apply, inside_apply 100000#32 99999#32 i (fun b l => by rw [hhi]; exact h b l), select_one]
  show Host.gather (rowGatherBL gather_S100000x64_S4096x200x1_S4096x200x64_2_0_n_n_0_2_164_wf) src (starts 100000#32 i) (ix3 b l d) = _
  rw [rowGatherBL_apply _ (by norm_num), starts_apply _ _ _ _ _ (h b l).1]
  refine congrArg (fun r => src (ix2 r d)) (Fin.ext ?_)
  rw [clampRow_of_range _ _ _ (h b l).1 (by have := (h b l).2; omega)]
  show (i (ix2 b l)).toInt.toNat = (i (ix2 b l)).toNat % 100000
  have e := toNat_of_toInt_nonneg _ (h b l).1
  have := (h b l).2
  omega

/-- The lookup in the positional table at the position table, at `(b, l, d)`: entry `d` of row `l`. -/
theorem takePos_apply (pos : FVec F S200x64 .f32) (b : Fin 4096) (l : Fin 200) (d : Fin 64) :
    takePos pos position (ix3 b l d) = pos (ix2 l d) := by
  have hhi : (199#32 : BitVec 32).toInt = 199 := by decide
  have hp : ∀ (b : Fin 4096) (l : Fin 200), (position (ix2 b l)).toInt = l.val := fun b l => by
    rw [position_apply, toInt_ofNat_small _ (by have := l.isLt; omega)]
  have h : ∀ (b : Fin 4096) (l : Fin 200), 0 ≤ (position (ix2 b l)).toInt ∧ (position (ix2 b l)).toInt ≤ 199 := fun b l => by
    rw [hp]; have := l.isLt; omega
  unfold takePos
  rw [select_apply, bcast01_apply, inside_apply 200#32 199#32 position (fun b l => by rw [hhi]; exact h b l), select_one]
  show Host.gather (rowGatherBL gather_S200x64_S4096x200x1_S4096x200x64_2_0_n_n_0_2_164_wf) pos (starts 200#32 position) (ix3 b l d) = _
  rw [rowGatherBL_apply _ (by norm_num), starts_apply _ _ _ _ _ (h b l).1]
  refine congrArg (fun r => pos (ix2 r d)) (Fin.ext ?_)
  rw [clampRow_of_range _ _ _ (h b l).1 (by have := (h b l).2; omega), hp]
  rfl

/-! ## The result -/

/-- With every index word in `[0, 99999]`, the reference's result is the specified lookup. -/
theorem out_eq_G (idx : IVec S4096x200 32) (src : FVec Ideal S100000x64 .f32) (pos : FVec Ideal S200x64 .f32)
    (h : ∀ j : S4096x200.Idx, 0 ≤ (idx j).toInt ∧ (idx j).toInt ≤ 99999) :
    out (F := Ideal) idx src pos = Cert.Spec.G idx src pos := by
  funext j
  obtain ⟨b, l, d, rfl⟩ : ∃ b l d, j = ix3 b l d := ⟨j 0, j 1, j 2, eq_ix3 j⟩
  rw [Cert.Spec.G_apply]
  show addf (takeSrc src idx) (takePos pos position) (ix3 b l d) = _
  rw [addf_apply, takeSrc_apply src idx (fun b l => h (ix2 b l)), takePos_apply]

attribute [local instance] Cert.Pre_input_domain.Gen.facts

/-- THE REFERENCE'S RUN: under the precondition, from any memory with zero counters, every weakly fair execution of the
    reference terminates with the result buffer at the specified lookup of the arguments' initial contents, and the
    arguments unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal)))
      ⟨m, fun _ => 0, g⟩
      (fun r => ∀ c : Dev Cert.ReferenceIdeal.nD,
        r.2.mem ((c.tc : Thread Cert.ReferenceIdeal.nD Cert.ReferenceIdeal.τ).loc Cert.ReferenceIdeal.main_v4)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  by
  have hr : ∀ (c : Dev Cert.ReferenceIdeal.nD) (j : S4096x200.Idx),
      0 ≤ ((m ((c.tc : Thread Cert.ReferenceIdeal.nD Cert.ReferenceIdeal.τ).loc Cert.ReferenceIdeal.main_arg0) : IVec S4096x200 32) j).toInt
      ∧ ((m ((c.tc : Thread Cert.ReferenceIdeal.nD Cert.ReferenceIdeal.τ).loc Cert.ReferenceIdeal.main_arg0) : IVec S4096x200 32) j).toInt ≤ 99999 :=
    fun c j => idx_range (F := Ideal) _ _ _ (hpre c) j
  refine (θ_run (Cert.ReferenceIdeal.defs (F := Ideal)) _ _).mono ?_ (run_out m g)
  intro r h c
  obtain ⟨h4, hfr⟩ := h c
  refine ⟨?_, hfr⟩
  rw [h4]
  exact out_eq_G _ _ _ (hr c)

/-- The same run without the value: it terminates and leaves the arguments unchanged. -/
theorem run_frame (m : (ℓ : Loc Cert.ReferenceIdeal.nD Cert.ReferenceIdeal.τ Cert.ReferenceIdeal.sig) → Buf (Elt Ideal) ℓ)
    (g : Dev Cert.ReferenceIdeal.nD → PrngReg)
    (hpre : Cert.Pre_ReferenceIdeal (hPre_input_domain := Cert.Pre_input_domain.Gen.facts) m) :
    θ_run (Cert.ReferenceIdeal.defs (F := Ideal)) (onTc (τ := Cert.ReferenceIdeal.τ) (Cert.ReferenceIdeal.main (F := Ideal)))
      ⟨m, fun _ => 0, g⟩
      (fun r => ∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run (Cert.ReferenceIdeal.defs (F := Ideal)) _ _).mono (fun _ h c => (h c).2) (run m g hpre)

end Cert.ReferenceIdeal.RefValue

end
-- ==== Proof.BodySlabs.lean ====
/-
  The tile's block of the result as two hundred slabs, one per position: slab l is the 64 × 128 rectangle of features
  and of the tile's 128 batch columns at position l — what the task writes out in one transfer. The slabs are pairwise
  disjoint and cover the block; a slab's element (e, r) is the result's element (l, e, 128 w + r); and the offsets the
  program computes for a transfer are the slab's.
-/
import proofs.«206908_g46772193853751_cont_8to1c4_160_30_alg».proof.Proof.BodyGoal
import proofs.«206908_g46772193853751_cont_8to1c4_160_30_alg».proof.Proof.LaunchHost

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)

/-! ## The slabs -/

/-- The 64 × 128 window of the result at offsets off, as the program slices and squeezes it. -/
abbrev slabAt (off : Fin 3 → Nat) (h : ∀ a, off a + S1x64x128.size a ≤ S200x64x4096.size a) : Memref sig .scVector .hbm S64x128 .f32 :=
  ((Memref.whole main_v3_scv : Memref sig .scVector .hbm S200x64x4096 .f32).slice (Rect.unit (s := S200x64x4096) off S1x64x128.size h) (fun _ => rfl)).squeeze S64x128 squeezes_S1x64x128_S64x128

/-- The first batch column of tile L's block. -/
def b0 (L : grid0.Coords) : ℕ := 256 * (L 1).val + 128 * (L 0).val

/-- Slab l of tile L: position l, every feature, the tile's batch columns. -/
def offS (L : grid0.Coords) (l : ℕ) : Fin 3 → Nat := ![l, 0, 256 * (L 1).val + 128 * (L 0).val]

theorem b0_le (L : grid0.Coords) : b0 L + 128 ≤ 4096 := by
  have h0 : (L 0).val < 2 := (L 0).isLt
  have h1 : (L 1).val < 16 := (L 1).isLt
  unfold b0; omega

theorem b0_wid (L : grid0.Coords) : b0 L = (wid (cL L) (sL L)).val * 128 := by
  show 256 * (L 1).val + 128 * (L 0).val = (2 * (L 1).val + (L 0).val) * 128
  omega

theorem offS_inb (L : grid0.Coords) (l : ℕ) (hl : l < 200) : ∀ a, offS L l a + S1x64x128.size a ≤ S200x64x4096.size a := by
  have hb := b0_le L
  unfold b0 at hb
  intro a
  match a with
  | ⟨0, _⟩ => show l + 1 ≤ 200; omega
  | ⟨1, _⟩ => show 0 + 64 ≤ 64; omega
  | ⟨2, _⟩ => show 256 * (L 1).val + 128 * (L 0).val + 128 ≤ 4096; omega

abbrev slabR (L : grid0.Coords) (l : Fin 200) : Rect S200x64x4096 :=
  Rect.unit (s := S200x64x4096) (offS L l.val) S1x64x128.size (offS_inb L l.val l.isLt)
abbrev slabL (L : grid0.Coords) (l : Fin 200) : Memref sig .scVector .hbm S64x128 .f32 := slabAt (offS L l.val) (offS_inb L l.val l.isLt)

theorem set_slabL (L : grid0.Coords) (l : Fin 200) : (slabL L l).view.set = (slabR L l).set := by
  show (((View.whole (main_v3_scv : Ref sig .scVector)).slice (slabR L l)).reshape S64x128 squeezes_S1x64x128_S64x128.numel_eq).set = _
  rw [View.set_reshape, View.set_slice]; exact Finset.map_refl

theorem mem_slabR (L : grid0.Coords) (l : Fin 200) {i : S200x64x4096.Idx} :
    i ∈ (slabR L l).set ↔ (i 0).val = l.val ∧ b0 L ≤ (i 2).val ∧ (i 2).val < b0 L + 128 := by
  rw [Rect.mem_set_unit]
  constructor
  · intro h
    have h0 : l.val ≤ (i 0).val ∧ (i 0).val < l.val + 1 := h 0
    have h2 : b0 L ≤ (i 2).val ∧ (i 2).val < b0 L + 128 := h 2
    exact ⟨by omega, h2⟩
  · rintro ⟨e0, e2⟩ a
    match a with
    | ⟨0, _⟩ => show l.val ≤ (i 0).val ∧ (i 0).val < l.val + 1; omega
    | ⟨1, _⟩ => show 0 ≤ (i 1).val ∧ (i 1).val < 0 + 64; have h1 : (i 1).val < 64 := (i 1).isLt; exact ⟨Nat.zero_le _, by omega⟩
    | ⟨2, _⟩ => exact e2

theorem mem_blk3 (w : Fin 32) {i : S200x64x4096.Idx} : i ∈ blk3 w ↔ w.val * 128 ≤ (i 2).val ∧ (i 2).val < w.val * 128 + 128 := by
  show i ∈ (Rect.unit (s := S200x64x4096) _ _ _).set ↔ _
  rw [Rect.mem_set_unit]
  constructor
  · intro h
    exact h 2
  · intro h a
    match a with
    | ⟨0, _⟩ => show 0 * 200 ≤ (i 0).val ∧ (i 0).val < 0 * 200 + 200; have h0 : (i 0).val < 200 := (i 0).isLt; omega
    | ⟨1, _⟩ => show 0 * 64 ≤ (i 1).val ∧ (i 1).val < 0 * 64 + 64; have h1 : (i 1).val < 64 := (i 1).isLt; omega
    | ⟨2, _⟩ => exact h

theorem slab_disjoint (L : grid0.Coords) :
    ∀ l ∈ (Finset.univ : Finset (Fin 200)), ∀ l' ∈ (Finset.univ : Finset (Fin 200)), l ≠ l' → Disjoint (slabR L l).set (slabR L l').set := by
  intro l _ l' _ h
  refine Finset.disjoint_left.mpr fun i hi hi' => ?_
  have e := ((mem_slabR L l).mp hi).1
  have e' := ((mem_slabR L l').mp hi').1
  exact h (Fin.ext (e.symm.trans e'))

theorem slab_cover (L : grid0.Coords) : (Finset.univ : Finset (Fin 200)).biUnion (fun l => (slabR L l).set) = blk3 (wid (cL L) (sL L)) := by
  ext i
  simp only [Finset.mem_biUnion, Finset.mem_univ, true_and, mem_slabR, mem_blk3, ← b0_wid]
  constructor
  · rintro ⟨l, -, h⟩; exact h
  · intro h; exact ⟨⟨(i 0).val, (i 0).isLt⟩, rfl, h⟩

/-- The tile's block of the result is its two hundred slabs, each as the task's transfer addresses it. -/
theorem blk_slabs (d : Dev nD) (L : grid0.Coords) (f : Buf (Elt F) (v3Loc d)) :
    ((Memref.whole main_v3_scv).view.loc (V d (cV L) (jV L)) ↦[blk3 (wid (cL L) (sL L))]{fullShare} f : sProp 𝕄)
      = bigSep (Finset.univ : Finset (Fin 200)) fun l => (slabL L l).view.loc (V d (cV L) (jV L)) ↦[(slabL L l).view.set]{fullShare} f := by
  have hR : (bigSep (Finset.univ : Finset (Fin 200)) fun l => ((slabL L l).view.loc (V d (cV L) (jV L)) ↦[(slabL L l).view.set]{fullShare} f : sProp 𝕄))
      = bigSep (Finset.univ : Finset (Fin 200)) fun l => (v3Loc d ↦[(slabR L l).set]{fullShare} f : sProp 𝕄) :=
    bigSep_congr fun l _ => by rw [set_slabL]
  rw [hR, ← pointsTo_biUnion Finset.univ (ℓ := v3Loc d) (fun l => (slabR L l).set) (slab_disjoint L), slab_cover]

/-! ## The program's offsets are the slabs' -/

theorem lt200 (g : Fin k0_t1_loop.trips) (r : Fin 4) : 4 * g.val + r.val < 200 := by
  have := k0_t1_abs.2.1; have := g.isLt; have := r.isLt; omega

/-- The position trip g of the main loop writes out at its r-th step. -/
def lOf (g : Fin k0_t1_loop.trips) (r : Fin 4) : Fin 200 := ⟨4 * g.val + r.val, lt200 g r⟩

theorem slab_off2 (L : grid0.Coords) (g : Fin k0_t1_loop.trips) (r : Fin 4) :
    k0_off2 L g (BitVec.ofNat 32 r.val) = offS L (lOf g r).val := k0_off2_eq L g r

theorem slabAt_congr {off off' : Fin 3 → Nat} (e : off = off') (h : ∀ a, off a + S1x64x128.size a ≤ S200x64x4096.size a)
    (h' : ∀ a, off' a + S1x64x128.size a ≤ S200x64x4096.size a) : slabAt off h = slabAt off' h' := by
  subst e; rfl

theorem slab_of_off2 (L : grid0.Coords) (g : Fin k0_t1_loop.trips) (r : Fin 4) :
    slabAt (k0_off2 L g (BitVec.ofNat 32 r.val)) (k0_off2_inb L g r) = slabL L (lOf g r) :=
  slabAt_congr (slab_off2 L g r) _ _

theorem slab_pts_congr {off off' : Fin 3 → Nat} (e : off = off') (h : ∀ a, off a + S1x64x128.size a ≤ S200x64x4096.size a)
    (h' : ∀ a, off' a + S1x64x128.size a ≤ S200x64x4096.size a) (d : Dev nD) (c : Fin τ.nSC) (j : Fin τ.nSub) (q : PosShare TreeShare)
    (f : Buf (Elt F) (v3Loc d)) :
    ((slabAt off h).view.loc (V d c j) ↦[(slabAt off h).view.set]{q} f : sProp 𝕄)
      = ((slabAt off' h').view.loc (V d c j) ↦[(slabAt off' h').view.set]{q} f) := by
  subst e; rfl

/-- As an equality of assertions, at any share and contents. -/
theorem slab_pts_off2 (d : Dev nD) (L : grid0.Coords) (g : Fin k0_t1_loop.trips) (r : Fin 4) (q : PosShare TreeShare) (f : Buf (Elt F) (v3Loc d)) :
    ((slabAt (k0_off2 L g (BitVec.ofNat 32 r.val)) (k0_off2_inb L g r)).view.loc (V d (cV L) (jV L))
        ↦[(slabAt (k0_off2 L g (BitVec.ofNat 32 r.val)) (k0_off2_inb L g r)).view.set]{q} f : sProp 𝕄)
      = ((slabL L (lOf g r)).view.loc (V d (cV L) (jV L)) ↦[(slabL L (lOf g r)).view.set]{q} f) :=
  slab_pts_congr (slab_off2 L g r) _ _ d (cV L) (jV L) q f

/-- The four steps of a trip, with the program's literals. -/
theorem slab_of_off2_0 (L : grid0.Coords) (g : Fin k0_t1_loop.trips) : slabAt (k0_off2 L g 0#32) (k0_off2_inb L g 0) = slabL L (lOf g 0) := slab_of_off2 L g 0
theorem slab_of_off2_1 (L : grid0.Coords) (g : Fin k0_t1_loop.trips) : slabAt (k0_off2 L g 1#32) (k0_off2_inb L g 1) = slabL L (lOf g 1) := slab_of_off2 L g 1
theorem slab_of_off2_2 (L : grid0.Coords) (g : Fin k0_t1_loop.trips) : slabAt (k0_off2 L g 2#32) (k0_off2_inb L g 2) = slabL L (lOf g 2) := slab_of_off2 L g 2
theorem slab_of_off2_3 (L : grid0.Coords) (g : Fin k0_t1_loop.trips) : slabAt (k0_off2 L g 3#32) (k0_off2_inb L g 3) = slabL L (lOf g 3) := slab_of_off2 L g 3

/-! ## A moving boundary over the positions -/

section Boundary

theorem bigSep_ge_pop (Φ : Fin 200 → sProp 𝕄) (n : ℕ) (h : n < 200) :
    bigSep (Finset.univ.filter fun l : Fin 200 => n ≤ l.val) Φ
      = iprop(Φ ⟨n, h⟩ ∗ bigSep (Finset.univ.filter fun l : Fin 200 => n + 1 ≤ l.val) Φ) := by
  rw [show (Finset.univ.filter fun l : Fin 200 => n ≤ l.val) = insert (⟨n, h⟩ : Fin 200) (Finset.univ.filter fun l : Fin 200 => n + 1 ≤ l.val) from by
    ext l; simp only [Finset.mem_filter, Finset.mem_univ, true_and, Finset.mem_insert, Fin.ext_iff]; omega]
  exact SparseCore.bigSep_insert' (by simp only [Finset.mem_filter, Finset.mem_univ, true_and]; omega)

theorem bigSep_lt_push (Φ : Fin 200 → sProp 𝕄) (n : ℕ) (h : n < 200) :
    bigSep (Finset.univ.filter fun l : Fin 200 => l.val < n + 1) Φ
      = iprop(Φ ⟨n, h⟩ ∗ bigSep (Finset.univ.filter fun l : Fin 200 => l.val < n) Φ) := by
  rw [show (Finset.univ.filter fun l : Fin 200 => l.val < n + 1) = insert (⟨n, h⟩ : Fin 200) (Finset.univ.filter fun l : Fin 200 => l.val < n) from by
    ext l; simp only [Finset.mem_filter, Finset.mem_univ, true_and, Finset.mem_insert, Fin.ext_iff]; omega]
  exact SparseCore.bigSep_insert' (by simp only [Finset.mem_filter, Finset.mem_univ, true_and]; omega)

theorem filter_ge_zero : (Finset.univ.filter fun l : Fin 200 => 0 ≤ l.val) = Finset.univ :=
  Finset.filter_true_of_mem fun _ _ => Nat.zero_le _
theorem filter_lt_zero : (Finset.univ.filter fun l : Fin 200 => l.val < 0) = ∅ :=
  Finset.filter_false_of_mem fun _ _ => Nat.not_lt_zero _
theorem filter_ge_top : (Finset.univ.filter fun l : Fin 200 => 200 ≤ l.val) = ∅ :=
  Finset.filter_false_of_mem fun l _ => Nat.not_le.mpr l.isLt
theorem filter_lt_top : (Finset.univ.filter fun l : Fin 200 => l.val < 200) = Finset.univ :=
  Finset.filter_true_of_mem fun l _ => l.isLt

theorem bigSep_ge_zero (Φ : Fin 200 → sProp 𝕄) : bigSep (Finset.univ.filter fun l : Fin 200 => 0 ≤ l.val) Φ = bigSep Finset.univ Φ := by rw [filter_ge_zero]
theorem bigSep_lt_zero (Φ : Fin 200 → sProp 𝕄) : bigSep (Finset.univ.filter fun l : Fin 200 => l.val < 0) Φ = iprop(emp) := by rw [filter_lt_zero, bigSep_empty]; rfl
theorem bigSep_ge_top (Φ : Fin 200 → sProp 𝕄) : bigSep (Finset.univ.filter fun l : Fin 200 => 200 ≤ l.val) Φ = iprop(emp) := by rw [filter_ge_top, bigSep_empty]; rfl
theorem bigSep_lt_top (Φ : Fin 200 → sProp 𝕄) : bigSep (Finset.univ.filter fun l : Fin 200 => l.val < 200) Φ = bigSep Finset.univ Φ := by rw [filter_lt_top]

end Boundary

/-! ## A slab's elements in the result -/

/-- Element (e, r) of slab l is the result's element (l, e, first column + r). -/
theorem slab_emb (L : grid0.Coords) (l : Fin 200) (x : S64x128.Idx) :
    (slabL L l).view.emb x
      = (ix3 l (⟨(x 0).val, (x 0).isLt⟩ : Fin 64) (⟨b0 L + (x 1).val, by have := b0_le L; have h1 : (x 1).val < 128 := (x 1).isLt; omega⟩ : Fin 4096) : S200x64x4096.Idx) := by
  have hre : Shape.reshapeEquiv squeezes_S1x64x128_S64x128.numel_eq x = (ix3 (0 : Fin 1) (⟨(x 0).val, (x 0).isLt⟩ : Fin 64) (⟨(x 1).val, (x 1).isLt⟩ : Fin 128) : S1x64x128.Idx) := by
    apply Shape.reshapeEquiv_eq_of_rowMajor
    rw [Shape.rowMajor_val_three, Shape.rowMajor_val_two]
    show (0 * 64 + (x 0).val) * 128 + (x 1).val = (x 0).val * 128 + (x 1).val
    omega
  show (Rect.emb (slabR L l)) (Shape.reshapeEquiv squeezes_S1x64x128_S64x128.numel_eq x) = _
  rw [hre]
  funext a
  apply Fin.ext
  match a with
  | ⟨0, _⟩ => show l.val + 1 * 0 = l.val; omega
  | ⟨1, _⟩ => show 0 + 1 * (x 0).val = (x 0).val; omega
  | ⟨2, _⟩ => show 256 * (L 1).val + 128 * (L 0).val + 1 * (x 1).val = b0 L + (x 1).val; unfold b0; omega

theorem mem_slab_set (L : grid0.Coords) (l : Fin 200) {i : S200x64x4096.Idx} :
    i ∈ (slabL L l).view.set ↔ ∃ x, (slabL L l).view.emb x = i := by
  unfold View.set
  simp only [Finset.mem_map, Finset.mem_univ, true_and]

variable [FloatOps F]

/-- The lookup at a slab's element, over the arrays the task reads. -/
theorem Out3_slab (d : Dev nD) (L : grid0.Coords) (l : Fin 200) (x : S64x128.Idx) :
    Out3 m d ((slabL L l).view.emb x)
      = FloatOps.addf
          (V1 m d (ix2 (Cert.Spec.row (V0 m d (ix2 l (⟨b0 L + (x 1).val, by have := b0_le L; have h1 : (x 1).val < 128 := (x 1).isLt; omega⟩ : Fin 4096))))
            (⟨(x 0).val, by have h0 : (x 0).val < 64 := (x 0).isLt; omega⟩ : Fin 128)))
          (V2 m d (ix2 (⟨l.val / 2, by have := l.isLt; omega⟩ : Fin 100) (⟨(l.val % 2) * 64 + (x 0).val, by have h0 : (x 0).val < 64 := (x 0).isLt; omega⟩ : Fin 128))) := by
  rw [slab_emb]
  rfl

end Cert.Proof.Launch

end
-- ==== Proof.BodyRing.lean ====
/-
  The task's two rings of scratch slots and the whole-table window, as the program spells them: the gather ring is its
  four 128 × 128 slots, the staging ring its two 64 × 128 slots — pairwise disjoint, covering the buffer — and the
  window of the padded table that starts at the origin with the table's own extent is the table.
-/
import proofs.«206908_g46772193853751_cont_8to1c4_160_30_alg».proof.Proof.BodySlabs

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

/-! ## A whole buffer as four, or two, pairwise disjoint parts -/

section Parts

variable {ℓ : Loc nD τ sig}

theorem pts_split4 (K : Fin 4 → Finset (Idx ℓ)) (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ ℓ ↦[K 3]{q} f) := by
  have h : (ℓ ↦[Finset.univ.biUnion K]{q} f : sProp 𝕄) = bigSep Finset.univ fun t => ℓ ↦[K t]{q} f := pointsTo_biUnion Finset.univ K hd
  rw [hc] at h
  refine h.trans ?_
  rw [show (Finset.univ : Finset (Fin 4)) = {0, 1, 2, 3} from by decide, SparseCore.bigSep_insert' (by decide), SparseCore.bigSep_insert' (by decide),
    SparseCore.bigSep_insert' (by decide), bigSep_singleton]

theorem pts_join4 (K : Fin 4 → Finset (Idx ℓ)) (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) (f0 f1 f2 f3 : Buf (Elt F) ℓ) :
    iprop((ℓ ↦[K 0]{q} f0) ∗ (ℓ ↦[K 1]{q} f1) ∗ (ℓ ↦[K 2]{q} f2) ∗ ℓ ↦[K 3]{q} f3) ⊢ (iprop(∃ f, ℓ ↦{q} f) : sProp 𝕄) := by
  have h := (pointsTo_biUnion_join (q := q) Finset.univ K (![f0, f1, f2, f3] : Fin 4 → Buf (Elt F) ℓ) f0 hd : _ ⊢ (_ : sProp 𝕄))
  rw [hc, show (Finset.univ : Finset (Fin 4)) = {0, 1, 2, 3} from by decide, SparseCore.bigSep_insert' (by decide), SparseCore.bigSep_insert' (by decide),
    SparseCore.bigSep_insert' (by decide), bigSep_singleton] at h
  refine BI.Entails.trans ?_ (h.trans ?_)
  · exact BI.Entails.refl _
  · iintro ⟨%g, -, Hg⟩
    iexists g; iexact Hg

theorem pts_split2 (K : Fin 2 → Finset (Idx ℓ)) (hd : ∀ i ∈ (Finset.univ : Finset (Fin 2)), ∀ j ∈ (Finset.univ : Finset (Fin 2)), i ≠ j → Disjoint (K i) (K j))
    (hc : (Finset.univ : Finset (Fin 2)).biUnion K = Finset.univ) (q : PosShare TreeShare) (f : Buf (Elt F) ℓ) :
    (ℓ ↦{q} f : sProp 𝕄) = iprop((ℓ ↦[K 0]{q} f) ∗ ℓ ↦[K 1]{q} f) := by
  have h : (ℓ ↦[Finset.univ.biUnion K]{q} f : sProp 𝕄) = bigSep Finset.univ fun t => ℓ ↦[K t]{q} f := pointsTo_biUnion Finset.univ K hd
  rw [hc] at h
  refine h.trans ?_
  rw [show (Finset.univ : Finset (Fin 2)) = {0, 1} from by decide, SparseCore.bigSep_insert' (by decide), bigSep_singleton]

theorem pts_join2 (K : Fin 2 → Finset (Idx ℓ)) (hd : ∀ i ∈ (Finset.univ : Finset (Fin 2)), ∀ j ∈ (Finset.univ : Finset (Fin 2)), i ≠ j → Disjoint (K i) (K j))
    (hc : (Finset.univ : Finset (Fin 2)).biUnion K = Finset.univ) (q : PosShare TreeShare) (f0 f1 : Buf (Elt F) ℓ) :
    iprop((ℓ ↦[K 0]{q} f0) ∗ ℓ ↦[K 1]{q} f1) ⊢ (iprop(∃ f, ℓ ↦{q} f) : sProp 𝕄) := by
  have h := (pointsTo_biUnion_join (q := q) Finset.univ K (![f0, f1] : Fin 2 → Buf (Elt F) ℓ) f0 hd : _ ⊢ (_ : sProp 𝕄))
  rw [hc, show (Finset.univ : Finset (Fin 2)) = {0, 1} from by decide, SparseCore.bigSep_insert' (by decide), bigSep_singleton] at h
  refine BI.Entails.trans ?_ (h.trans ?_)
  · exact BI.Entails.refl _
  · iintro ⟨%g, -, Hg⟩
    iexists g; iexact Hg

end Parts

/-! ## The gather ring's four slots -/

abbrev slotG0 : Memref sig .scVector .vmem S128x128 .f32 :=
  ((Memref.whole cc0_scratch2 : Memref sig .scVector .vmem S4x128x128 .f32).slice (Rect.unit (s := S4x128x128) ![0, 0, 0] S1x128x128.size inb_S4x128x128_S1x128x128_0_0_0) (fun _ => rfl)).squeeze S128x128 squeezes_S1x128x128_S128x128
abbrev slotG1 : Memref sig .scVector .vmem S128x128 .f32 :=
  ((Memref.whole cc0_scratch2 : Memref sig .scVector .vmem S4x128x128 .f32).slice (Rect.unit (s := S4x128x128) ![1, 0, 0] S1x128x128.size inb_S4x128x128_S1x128x128_1_0_0) (fun _ => rfl)).squeeze S128x128 squeezes_S1x128x128_S128x128
abbrev slotG2 : Memref sig .scVector .vmem S128x128 .f32 :=
  ((Memref.whole cc0_scratch2 : Memref sig .scVector .vmem S4x128x128 .f32).slice (Rect.unit (s := S4x128x128) ![2, 0, 0] S1x128x128.size inb_S4x128x128_S1x128x128_2_0_0) (fun _ => rfl)).squeeze S128x128 squeezes_S1x128x128_S128x128
abbrev slotG3 : Memref sig .scVector .vmem S128x128 .f32 :=
  ((Memref.whole cc0_scratch2 : Memref sig .scVector .vmem S4x128x128 .f32).slice (Rect.unit (s := S4x128x128) ![3, 0, 0] S1x128x128.size inb_S4x128x128_S1x128x128_3_0_0) (fun _ => rfl)).squeeze S128x128 squeezes_S1x128x128_S128x128

theorem slotGR_inb (j : Fin 4) : ∀ a, (![j.val, 0, 0] : Fin 3 → Nat) a + S1x128x128.size a ≤ S4x128x128.size a := by
  intro a
  match a with
  | ⟨0, _⟩ => show j.val + 1 ≤ 4; omega
  | ⟨1, _⟩ => show 0 + 128 ≤ 128; omega
  | ⟨2, _⟩ => show 0 + 128 ≤ 128; omega
/-- Slot j of the gather ring as a rectangle of the buffer. -/
abbrev slotGR (j : Fin 4) : Rect S4x128x128 := Rect.unit (s := S4x128x128) ![j.val, 0, 0] S1x128x128.size (slotGR_inb j)

theorem mem_slotGR (j : Fin 4) {i : S4x128x128.Idx} : i ∈ (slotGR j).set ↔ (i 0).val = j.val := by
  rw [Rect.mem_set_unit]
  constructor
  · intro h
    have h0 : j.val ≤ (i 0).val ∧ (i 0).val < j.val + 1 := h 0
    omega
  · intro e a
    match a with
    | ⟨0, _⟩ => show j.val ≤ (i 0).val ∧ (i 0).val < j.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 128; have h2 : (i 2).val < 128 := (i 2).isLt; omega

theorem slotGR_disjoint : ∀ i ∈ (Finset.univ : Finset (Fin 4)), ∀ j ∈ (Finset.univ : Finset (Fin 4)), i ≠ j → Disjoint (slotGR i).set (slotGR j).set := by
  intro i _ j _ h
  refine Finset.disjoint_left.mpr fun x hx hx' => ?_
  exact h (Fin.ext (((mem_slotGR i).mp hx).symm.trans ((mem_slotGR j).mp hx')))
theorem slotGR_cover : (Finset.univ : Finset (Fin 4)).biUnion (fun j => (slotGR j).set) = Finset.univ := by
  ext i
  simp only [Finset.mem_biUnion, Finset.mem_univ, true_and, iff_true, mem_slotGR]
  exact ⟨⟨(i 0).val, (i 0).isLt⟩, rfl⟩

theorem set_slotG0 : (slotG0).view.set = (slotGR 0).set := by
  show (((View.whole (cc0_scratch2 : Ref sig .scVector)).slice (slotGR 0)).reshape S128x128 squeezes_S1x128x128_S128x128.numel_eq).set = _
  rw [View.set_reshape, View.set_slice]; exact Finset.map_refl
theorem set_slotG1 : (slotG1).view.set = (slotGR 1).set := by
  show (((View.whole (cc0_scratch2 : Ref sig .scVector)).slice (slotGR 1)).reshape S128x128 squeezes_S1x128x128_S128x128.numel_eq).set = _
  rw [View.set_reshape, View.set_slice]; exact Finset.map_refl
theorem set_slotG2 : (slotG2).view.set = (slotGR 2).set := by
  show (((View.whole (cc0_scratch2 : Ref sig .scVector)).slice (slotGR 2)).reshape S128x128 squeezes_S1x128x128_S128x128.numel_eq).set = _
  rw [View.set_reshape, View.set_slice]; exact Finset.map_refl
theorem set_slotG3 : (slotG3).view.set = (slotGR 3).set := by
  show (((View.whole (cc0_scratch2 : Ref sig .scVector)).slice (slotGR 3)).reshape S128x128 squeezes_S1x128x128_S128x128.numel_eq).set = _
  rw [View.set_reshape, View.set_slice]; exact Finset.map_refl

section Ring

variable (d : Dev nD) (L : grid0.Coords)

/-- The gather ring whole is its four slots, at any share and contents. -/
theorem ring_split (q : PosShare TreeShare) (f : Buf (Elt F) ((V d (cV L) (jV L)).loc cc0_scratch2)) :
    ((Memref.whole cc0_scratch2).view.loc (V d (cV L) (jV L)) ↦{q} f : sProp 𝕄)
      = iprop(((slotG0).view.loc (V d (cV L) (jV L)) ↦[(slotG0).view.set]{q} f) ∗ ((slotG1).view.loc (V d (cV L) (jV L)) ↦[(slotG1).view.set]{q} f)
          ∗ ((slotG2).view.loc (V d (cV L) (jV L)) ↦[(slotG2).view.set]{q} f) ∗ ((slotG3).view.loc (V d (cV L) (jV L)) ↦[(slotG3).view.set]{q} f)) := by
  rw [set_slotG0, set_slotG1, set_slotG2, set_slotG3]
  exact pts_split4 (ℓ := (V d (cV L) (jV L)).loc cc0_scratch2) (fun j => (slotGR j).set) slotGR_disjoint slotGR_cover q f

/-- Four slots at four contents are the ring whole at some contents. -/
theorem ring_join (q : PosShare TreeShare) (f0 f1 f2 f3 : Buf (Elt F) ((V d (cV L) (jV L)).loc cc0_scratch2)) :
    iprop(((slotG0).view.loc (V d (cV L) (jV L)) ↦[(slotG0).view.set]{q} f0) ∗ ((slotG1).view.loc (V d (cV L) (jV L)) ↦[(slotG1).view.set]{q} f1)
        ∗ ((slotG2).view.loc (V d (cV L) (jV L)) ↦[(slotG2).view.set]{q} f2) ∗ ((slotG3).view.loc (V d (cV L) (jV L)) ↦[(slotG3).view.set]{q} f3))
      ⊢ (iprop(∃ f, (Memref.whole cc0_scratch2).view.loc (V d (cV L) (jV L)) ↦{q} f) : sProp 𝕄) := by
  rw [set_slotG0, set_slotG1, set_slotG2, set_slotG3]
  exact pts_join4 (ℓ := (V d (cV L) (jV L)).loc cc0_scratch2) (fun j => (slotGR j).set) slotGR_disjoint slotGR_cover q f0 f1 f2 f3

end Ring

/-! ## The staging ring's two slots -/

abbrev slotT0 : Memref sig .scVector .vmem S64x128 .f32 :=
  ((Memref.whole cc0_scratch3 : Memref sig .scVector .vmem S2x64x128 .f32).slice (Rect.unit (s := S2x64x128) ![0, 0, 0] S1x64x128.size inb_S2x64x128_S1x64x128_0_0_0) (fun _ => rfl)).squeeze S64x128 squeezes_S1x64x128_S64x128
abbrev slotT1 : Memref sig .scVector .vmem S64x128 .f32 :=
  ((Memref.whole cc0_scratch3 : Memref sig .scVector .vmem S2x64x128 .f32).slice (Rect.unit (s := S2x64x128) ![1, 0, 0] S1x64x128.size inb_S2x64x128_S1x64x128_1_0_0) (fun _ => rfl)).squeeze S64x128 squeezes_S1x64x128_S64x128

theorem slotTR_inb (j : Fin 2) : ∀ a, (![j.val, 0, 0] : Fin 3 → Nat) a + S1x64x128.size a ≤ S2x64x128.size a := by
  intro a
  match a with
  | ⟨0, _⟩ => show j.val + 1 ≤ 2; omega
  | ⟨1, _⟩ => show 0 + 64 ≤ 64; omega
  | ⟨2, _⟩ => show 0 + 128 ≤ 128; omega
abbrev slotTR (j : Fin 2) : Rect S2x64x128 := Rect.unit (s := S2x64x128) ![j.val, 0, 0] S1x64x128.size (slotTR_inb j)

theorem mem_slotTR (j : Fin 2) {i : S2x64x128.Idx} : i ∈ (slotTR j).set ↔ (i 0).val = j.val := by
  rw [Rect.mem_set_unit]
  constructor
  · intro h
    have h0 : j.val ≤ (i 0).val ∧ (i 0).val < j.val + 1 := h 0
    omega
  · intro e a
    match a with
    | ⟨0, _⟩ => show j.val ≤ (i 0).val ∧ (i 0).val < j.val + 1; omega
    | ⟨1, _⟩ => show 0 ≤ (i 1).val ∧ (i 1).val < 0 + 64; have h1 : (i 1).val < 64 := (i 1).isLt; omega
    | ⟨2, _⟩ => show 0 ≤ (i 2).val ∧ (i 2).val < 0 + 128; have h2 : (i 2).val < 128 := (i 2).isLt; omega

theorem slotTR_disjoint : ∀ i ∈ (Finset.univ : Finset (Fin 2)), ∀ j ∈ (Finset.univ : Finset (Fin 2)), i ≠ j → Disjoint (slotTR i).set (slotTR j).set := by
  intro i _ j _ h
  refine Finset.disjoint_left.mpr fun x hx hx' => ?_
  exact h (Fin.ext (((mem_slotTR i).mp hx).symm.trans ((mem_slotTR j).mp hx')))
theorem slotTR_cover : (Finset.univ : Finset (Fin 2)).biUnion (fun j => (slotTR j).set) = Finset.univ := by
  ext i
  simp only [Finset.mem_biUnion, Finset.mem_univ, true_and, iff_true, mem_slotTR]
  exact ⟨⟨(i 0).val, (i 0).isLt⟩, rfl⟩

theorem set_slotT0 : (slotT0).view.set = (slotTR 0).set := by
  show (((View.whole (cc0_scratch3 : Ref sig .scVector)).slice (slotTR 0)).reshape S64x128 squeezes_S1x64x128_S64x128.numel_eq).set = _
  rw [View.set_reshape, View.set_slice]; exact Finset.map_refl
theorem set_slotT1 : (slotT1).view.set = (slotTR 1).set := by
  show (((View.whole (cc0_scratch3 : Ref sig .scVector)).slice (slotTR 1)).reshape S64x128 squeezes_S1x64x128_S64x128.numel_eq).set = _
  rw [View.set_reshape, View.set_slice]; exact Finset.map_refl

section Stage

variable (d : Dev nD) (L : grid0.Coords)

theorem stage_split (q : PosShare TreeShare) (f : Buf (Elt F) ((V d (cV L) (jV L)).loc cc0_scratch3)) :
    ((Memref.whole cc0_scratch3).view.loc (V d (cV L) (jV L)) ↦{q} f : sProp 𝕄)
      = iprop(((slotT0).view.loc (V d (cV L) (jV L)) ↦[(slotT0).view.set]{q} f) ∗ ((slotT1).view.loc (V d (cV L) (jV L)) ↦[(slotT1).view.set]{q} f)) := by
  rw [set_slotT0, set_slotT1]
  exact pts_split2 (ℓ := (V d (cV L) (jV L)).loc cc0_scratch3) (fun j => (slotTR j).set) slotTR_disjoint slotTR_cover q f

theorem stage_join (q : PosShare TreeShare) (f0 f1 : Buf (Elt F) ((V d (cV L) (jV L)).loc cc0_scratch3)) :
    iprop(((slotT0).view.loc (V d (cV L) (jV L)) ↦[(slotT0).view.set]{q} f0) ∗ ((slotT1).view.loc (V d (cV L) (jV L)) ↦[(slotT1).view.set]{q} f1))
      ⊢ (iprop(∃ f, (Memref.whole cc0_scratch3).view.loc (V d (cV L) (jV L)) ↦{q} f) : sProp 𝕄) := by
  rw [set_slotT0, set_slotT1]
  exact pts_join2 (ℓ := (V d (cV L) (jV L)).loc cc0_scratch3) (fun j => (slotTR j).set) slotTR_disjoint slotTR_cover q f0 f1

end Stage

/-! ## The window of the padded table that is the table -/

abbrev a3s : Memref sig .scVector .hbm S100000x128 .f32 :=
  (Memref.whole main_v1_scv : Memref sig .scVector .hbm S100000x128 .f32).slice (Rect.unit (s := S100000x128) ![0, 0] S100000x128.size inb_S100000x128_S100000x128_0_0) (fun _ => rfl)

theorem set_a3s : (a3s).view.set = Finset.univ := by
  show ((View.whole (main_v1_scv : Ref sig .scVector)).slice (Rect.unit (s := S100000x128) ![0, 0] S100000x128.size inb_S100000x128_S100000x128_0_0)).set = _
  rw [View.set_slice]
  ext i
  simp only [Finset.mem_univ, iff_true, Finset.mem_map]
  refine ⟨i, Rect.mem_set_unit.mpr fun a => ?_, rfl⟩
  match a with
  | ⟨0, _⟩ => show 0 ≤ (i 0).val ∧ (i 0).val < 0 + 100000; have h0 : (i 0).val < 100000 := (i 0).isLt; omega
  | ⟨1, _⟩ => show 0 ≤ (i 1).val ∧ (i 1).val < 0 + 128; have h1 : (i 1).val < 128 := (i 1).isLt; omega

theorem a3s_pts (d : Dev nD) (L : grid0.Coords) (q : PosShare TreeShare) (f : Buf (Elt F) (v1Loc d)) :
    ((a3s).view.loc (V d (cV L) (jV L)) ↦[(a3s).view.set]{q} f : sProp 𝕄) = ((Memref.whole main_v1_scv).view.loc (V d (cV L) (jV L)) ↦{q} f) := by
  rw [set_a3s]

end Cert.Proof.Launch

end
-- ==== Proof.BodyInv.lean ====
/-
  One tile's task, the vocabulary: the memrefs in the program's spelling, what the scratch buffers hold, and the
  invariant of the loop over positions.

  The tile keeps four row gathers in flight, one per ring slot and semaphore; slot j at the head of outer trip n
  waits for position 4 n + j. Two staging slots alternate; at the head of trip n ≥ 1 the copies-out of positions
  4 n - 2 and 4 n - 1 are in flight. The tile's block of the result is held slab by slab: the slabs below 4 n - 2
  are written, those from 4 n on untouched.
-/
import proofs.«206908_g46772193853751_cont_8to1c4_160_30_alg».proof.Proof.BodyRing
import proofs.«206908_g46772193853751_cont_8to1c4_160_30_alg».proof.Proof.Gen.KernelIdeal.Skeleton

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

/-- Row off of the index scratch, as the program slices it. -/
abbrev rowAt (off : Fin 2 → Nat) (h : ∀ a, off a + S1x128.size a ≤ S200x128.size a) : Memref sig .scVector .vmem S128 .i32 :=
  ((a6).slice (Rect.unit (s := S200x128) off S1x128.size h) (fun _ => rfl)).squeeze S128 squeezes_S1x128_S128

theorem mod200_lt (x : ℕ) : x % 200 < 200 := Nat.mod_lt _ (by norm_num)

theorem row_inb (x : ℕ) (h : x < 200) : ∀ a, (![x, 0] : Fin 2 → Nat) a + S1x128.size a ≤ S200x128.size a := by
  intro a; fin_cases a
  · show x + 1 ≤ 200; omega
  · show 0 + 128 ≤ 128; omega
/-- Row x of the index scratch (x reduced modulo the number of rows, so that it is defined for every x). -/
abbrev rowL (x : ℕ) : Memref sig .scVector .vmem S128 .i32 := rowAt ![x % 200, 0] (row_inb (x % 200) (mod200_lt x))

/-- The tile's 128 columns of the transposed index array. -/
abbrev idxBlk (L : grid0.Coords) : Memref sig .scVector .hbm S200x128 .i32 :=
  (a2).slice (Rect.unit (s := S200x4096) (k0_off1 L) S200x128.size (k0_off1_inb L)) (fun _ => rfl)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

variable [FloatOps F]
variable (m : (ℓ : Loc nD τ sig) → Buf (Elt F) ℓ)
variable (d : Dev nD) (L : grid0.Coords)

local notation "thr" => V d (cV L) (jV L)

/-- The elements of row x, as elements of the index scratch. -/
abbrev rowSet (x : ℕ) : Finset (Idx ((a6).view.loc thr)) := (rowL x).view.set

/-- The index scratch after the tile's copy: its block of the transposed index array. -/
abbrev Cidx : Buf (Elt F) ((a6).view.loc thr) := View.read (Elt F) (idxBlk L).view (V0 m d)
/-- The positional scratch after the tile's copy: the packed positional table. -/
abbrev Ppos : Buf (Elt F) ((a7).view.loc thr) := View.read (Elt F) (a4).view (V2 m d)

/-- The elements of the row at offset off, as elements of the index scratch. -/
abbrev rowSetAt (off : Fin 2 → Nat) (h : ∀ a, off a + S1x128.size a ≤ S200x128.size a) : Finset (Idx ((a6).view.loc thr)) :=
  (rowAt off h).view.set
/-- The elements of the table's whole-array slice, as elements of the table. -/
abbrev a3sSet : Finset (Idx ((a3).view.loc thr)) := (a3s).view.set
/-- A slab of the result at offset off, as the program slices it; its elements as elements of the result. -/
abbrev slabSetAt (off : Fin 3 → Nat) (h : ∀ a, off a + S1x64x128.size a ≤ S200x64x4096.size a) : Finset (Idx ((a5).view.loc thr)) :=
  (slabAt off h).view.set

/-- What the ring slot holds once the gather of position l has landed: row r is the table row that the index word
    at (l, r) of the index scratch names. -/
def GoodG (slot : Memref sig .scVector .vmem S128x128 .f32) (l : ℕ) (fd : Buf (Elt F) (slot.view.loc thr)) : Prop :=
  ∀ (r c : Fin 128), slot.view.read (Elt F) fd (ix2 r c)
    = V1 m d (ix2 (Cert.Spec.row (Cidx m d L (ix2 (⟨l % 200, mod200_lt l⟩ : Fin 200) r))) c)

/-- A row gather of position l in flight into a ring slot, with the rest of the index scratch's share it borrowed
    its row from. The row's offset is the program's own term; it names row l. -/
def FlG (slot : Memref sig .scVector .vmem S128x128 .f32) (sem : DmaSem sig) (σ : PosShare TreeShare) (j : Fin 4) (l : ℕ) : sProp 𝕄 :=
  iprop(∃ (off : Fin 2 → Nat) (h : ∀ a, off a + S1x128.size a ≤ S200x128.size a) (fd : Buf (Elt F) (slot.view.loc thr)),
    (Transfers.Flight countersEmb thr (SemLoc.dma sem) (default : HIx 1) 524288
      iprop(((slot.view.loc thr ↦[slot.view.set]{fullShare} fd)
          ∗ ((a6).view.loc thr ↦[rowSetAt d L off h]{σ} Cidx m d L))
        ∗ ((a3).view.loc thr ↦[a3sSet d L]{shareTok (qT (cL L) (sL L)) 4 j} V1 m d))
    ∗ ((a6).view.loc thr ↦[Finset.univ \ rowSetAt d L off h]{σ} Cidx m d L))
    ∗ ⌜off = ![l, 0]⌝ ∗ ⌜GoodG m d L slot l fd⌝)

/-- Ring slot j at the head of outer trip n: its gather of position 4 n + j in flight, or (after the last trip) idle. -/
def PG (slot : Memref sig .scVector .vmem S128x128 .f32) (sem : DmaSem sig) (σ : PosShare TreeShare) (j : Fin 4) (n : ℕ) : sProp 𝕄 :=
  if n < 50 then FlG m d L slot sem σ j (4 * n + j.val)
  else
    iprop((∃ f, slot.view.loc thr ↦[slot.view.set]{fullShare} f) ∗ ((a6).view.loc thr ↦{σ} Cidx m d L)
      ∗ ((a3).view.loc thr ↦[a3sSet d L]{shareTok (qT (cL L) (sL L)) 4 j} V1 m d) ∗ semVal (thr, SemLoc.dma sem) 0)

/-- Slab l of the result at contents f. -/
abbrev slabPt (l : Fin 200) (f : Buf (Elt F) ((a5).view.loc thr)) : sProp 𝕄 :=
  (slabL L l).view.loc thr ↦[(slabL L l).view.set]{fullShare} f

/-- The copy-out of position l in flight from a staging slot: it delivers the slab (at the program's own offset
    term, which is slab l's) at contents that agree with the result function on the slab. -/
def FlS (slotT : Memref sig .scVector .vmem S64x128 .f32) (sem : DmaSem sig) (l : ℕ) : sProp 𝕄 :=
  iprop(∃ (off : Fin 3 → Nat) (h : ∀ a, off a + S1x64x128.size a ≤ S200x64x4096.size a)
      (fS : Buf (Elt F) ((a5).view.loc thr)) (R : Buf (Elt F) (slotT.view.loc thr)),
    ⌜off = offS L l⌝ ∗ ⌜∀ i ∈ slabSetAt d L off h, fS i = Out3 m d i⌝ ∗
    Transfers.Flight countersEmb thr (SemLoc.dma sem) (default : HIx 1) 262144
      iprop(((slabAt off h).view.loc thr ↦[(slabAt off h).view.set]{fullShare} fS) ∗ (slotT.view.loc thr ↦[slotT.view.set]{fullShare} R)))

/-- Staging slot tb at the head of outer trip n: idle before the first trip, else the copy-out of position 4 n - 2 + tb in flight. -/
def PS (slotT : Memref sig .scVector .vmem S64x128 .f32) (sem : DmaSem sig) (tb : ℕ) (n : ℕ) : sProp 𝕄 :=
  if n = 0 then iprop((∃ f, slotT.view.loc thr ↦[slotT.view.set]{fullShare} f) ∗ semVal (thr, SemLoc.dma sem) 0)
  else FlS m d L slotT sem (4 * n - 2 + tb)

/-- The slabs already written (positions below 4 n - 2) and the slabs not yet touched (from 4 n on). -/
def doneS (n : ℕ) : sProp 𝕄 := bigSep (Finset.univ.filter fun l : Fin 200 => l.val < 4 * n - 2) fun l => slabPt d L l (Out3 m d)
def todoS (n : ℕ) : sProp 𝕄 := bigSep (Finset.univ.filter fun l : Fin 200 => 4 * n ≤ l.val) fun l => slabPt d L l (m (v3Loc d))

/-- The outer loop's invariant at the head of trip n. -/
def Iout (O : CellTallies nD τ sig (HIx 1)) (W : Waits sig (HIx 1)) (n : ℕ) (_ : PUnit) : sProp 𝕄 :=
  iprop(Transfers.MayWaits thr (none : HIx 1) O
    ∗ ((a7).view.loc thr ↦{fullShare} Ppos m d L)
    ∗ PG m d L slotG0 cc0_scratch4.sem (shareDrop fullShare 4) 0 n
    ∗ PG m d L slotG1 cc0_scratch5.sem (shareTok fullShare 4 0) 1 n
    ∗ PG m d L slotG2 cc0_scratch6.sem (shareTok fullShare 4 1) 2 n
    ∗ PG m d L slotG3 cc0_scratch7.sem (shareTok fullShare 4 2) 3 n
    ∗ PS m d L slotT0 cc0_scratch8.sem 0 n
    ∗ PS m d L slotT1 cc0_scratch9.sem 1 n
    ∗ doneS m d L n ∗ todoS m d L n
    ∗ ∃ W', ⌜∀ p ∈ W', p ∈ W ∨ p.2 = none⌝ ∗ owes thr O W')

theorem PG_flight (slot : Memref sig .scVector .vmem S128x128 .f32) (sem : DmaSem sig) (σ : PosShare TreeShare) (j : Fin 4) (n : ℕ) (h : n < 50) :
    PG m d L slot sem σ j n = FlG m d L slot sem σ j (4 * n + j.val) := by
  unfold PG; rw [if_pos h]
theorem PG_idle (slot : Memref sig .scVector .vmem S128x128 .f32) (sem : DmaSem sig) (σ : PosShare TreeShare) (j : Fin 4) (n : ℕ) (h : ¬ n < 50) :
    PG m d L slot sem σ j n = iprop((∃ f, slot.view.loc thr ↦[slot.view.set]{fullShare} f) ∗ ((a6).view.loc thr ↦{σ} Cidx m d L)
      ∗ ((a3).view.loc thr ↦[a3sSet d L]{shareTok (qT (cL L) (sL L)) 4 j} V1 m d) ∗ semVal (thr, SemLoc.dma sem) 0) := by
  unfold PG; rw [if_neg h]
theorem PS_idle (slotT : Memref sig .scVector .vmem S64x128 .f32) (sem : DmaSem sig) (tb : ℕ) :
    PS m d L slotT sem tb 0 = iprop((∃ f, slotT.view.loc thr ↦[slotT.view.set]{fullShare} f) ∗ semVal (thr, SemLoc.dma sem) 0) := by
  unfold PS; rw [if_pos rfl]
theorem PS_flight (slotT : Memref sig .scVector .vmem S64x128 .f32) (sem : DmaSem sig) (tb : ℕ) (n : ℕ) (h : n ≠ 0) :
    PS m d L slotT sem tb n = FlS m d L slotT sem (4 * n - 2 + tb) := by
  unfold PS; rw [if_neg h]

end Cert.Proof.Launch

end
-- ==== Proof.LaneBase.lean ====
/-
  Pure facts about the indexed load and the indexed store of a vector subcore, with no kernel in sight.

  An indexed store writes its lanes in ascending order: lane `k` puts its value at the index the index vectors name
  for it, over what is there.  When every lane's value is what a target array `T` holds at the index that lane names,
  the array after the store agrees with `T` at every index some lane names (`storeIdx_hit`: a later lane naming the
  same index writes `T`'s value there again), and still agrees with `T` wherever the array before did
  (`storeIdx_keep`: a lane either leaves the element alone or writes `T`'s value).  Both are one induction over the
  list of lanes.  An indexed load reads the base array at the named index (`loadIdx_apply`), and for a rank-two base
  array the named index is the pair of the two index vectors' lanes (`idxAt_ix2`).
-/
import Idealize.ShloMosaic.PureOps.ShapeOps
import Idealize.ShloMosaic.Lib.ValueIdx

namespace Cert.Lanes

open Idealize.ShloMosaic Idealize.ShloMosaic.ValueIdx

variable {F : FTy → Type} [FloatOps F]

section Store
variable {s : Shape} {e : EltTy} {d : Fin 1 → Nat}

/-- Every index of a rank-one shape is the multi-index of its one coordinate. -/
theorem eq_ofLane (x : (⟨1, d⟩ : Shape).Idx) : x = Shape.ofLane (x 0) := by
  funext a
  obtain rfl : a = 0 := Fin.eq_zero a
  rfl

/-- One lane of an unmasked, overwriting indexed store: lane `k`'s value at the index it names, the rest as before. -/
def step (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked, overwriting indexed store is the fold of `step` over the lanes in ascending order. -/
theorem storeIdx_eq_foldl (R : Vec F s e) (idxs : Fin s.rank → IVec ⟨1, d⟩ 32) (v : Vec F ⟨1, d⟩ e)
    (h : ∀ a x, (idxs a x).toNat < s.size a) :
    storeIdx R idxs v (fun _ => 1#1) false h = (List.finRange (d 0)).foldl (step idxs v h) R := by
  unfold storeIdx
  congr 1

/-- A lane whose value is the target's at the index it names keeps the agreement with the target at every index. -/
theorem step_keep (T : Vec F s e) (idxs : Fin s.rank → IVec ⟨1, d⟩ 32) (v : Vec F ⟨1, d⟩ e)
    (h : ∀ a x, (idxs a x).toNat < s.size a) (hv : ∀ x, v x = T (idxAt idxs h x))
    (g : Vec F s e) (k : Fin (d 0)) (p : s.Idx) (hp : g p = T p) : step idxs v h g k p = T p := by
  unfold step
  split
  · next hc =>
    have : p = idxAt idxs h (Shape.ofLane k) := funext fun a => Fin.ext (hc a)
    rw [hv, this]
  · exact hp

/-- A lane writes the target's value at the index it names. -/
theorem step_hit (T : Vec F s e) (idxs : Fin s.rank → IVec ⟨1, d⟩ 32) (v : Vec F ⟨1, d⟩ e)
    (h : ∀ a x, (idxs a x).toNat < s.size a) (hv : ∀ x, v x = T (idxAt idxs h x))
    (g : Vec F s e) (k : Fin (d 0)) : step idxs v h g k (idxAt idxs h (Shape.ofLane k)) = T (idxAt idxs h (Shape.ofLane k)) := by
  unfold step
  rw [if_pos (fun _ => rfl), hv]

/-- Over any list of lanes, agreement with the target at an index is kept. -/
theorem foldl_keep (T : Vec F s e) (idxs : Fin s.rank → IVec ⟨1, d⟩ 32) (v : Vec F ⟨1, d⟩ e)
    (h : ∀ a x, (idxs a x).toNat < s.size a) (hv : ∀ x, v x = T (idxAt idxs h x)) (p : s.Idx) :
    ∀ (l : List (Fin (d 0))) (g : Vec F s e), g p = T p → l.foldl (step idxs v h) g p = T p
  | [], _, hp => hp
  | k :: l, g, hp => foldl_keep T idxs v h hv p l _ (step_keep T idxs v h hv g k p hp)

/-- Over any list of lanes, an index one of them names ends with the target's value. -/
theorem foldl_hit (T : Vec F s e) (idxs : Fin s.rank → IVec ⟨1, d⟩ 32) (v : Vec F ⟨1, d⟩ e)
    (h : ∀ a x, (idxs a x).toNat < s.size a) (hv : ∀ x, v x = T (idxAt idxs h x)) (p : s.Idx) :
    ∀ (l : List (Fin (d 0))) (g : Vec F s e), (∃ k ∈ l, idxAt idxs h (Shape.ofLane k) = p) →
      l.foldl (step idxs v h) g p = T p
  | [], _, hk => by obtain ⟨k, hk, _⟩ := hk; cases hk
  | k :: l, g, hk => by
    obtain ⟨k', hk', hp⟩ := hk
    rw [List.foldl_cons]
    by_cases hl : ∃ k ∈ l, idxAt idxs h (Shape.ofLane k) = p
    · exact foldl_hit T idxs v h hv p l _ hl
    · have hkk : k' = k := by
        rcases List.mem_cons.1 hk' with rfl | hin
        · rfl
        · exact absurd ⟨k', hin, hp⟩ hl
      subst hkk
      subst hp
      exact foldl_keep T idxs v h hv _ l _ (step_hit T idxs v h hv g k')

/-- After the store, every index some lane names holds the target's value. -/
theorem storeIdx_hit (R T : Vec F s e) (idxs : Fin s.rank → IVec ⟨1, d⟩ 32) (v : Vec F ⟨1, d⟩ e)
    (h : ∀ a x, (idxs a x).toNat < s.size a) (hv : ∀ x, v x = T (idxAt idxs h x)) (p : s.Idx)
    (hp : ∃ x, idxAt idxs h x = p) : storeIdx R idxs v (fun _ => 1#1) false h p = T p := by
  rw [storeIdx_eq_foldl]
  obtain ⟨x, hx⟩ := hp
  refine foldl_hit T idxs v h hv p _ R ⟨x 0, List.mem_finRange _, ?_⟩
  rw [← eq_ofLane x]; exact hx

/-- After the store, every index at which the array before agreed with the target still does. -/
theorem storeIdx_keep (R T : Vec F s e) (idxs : Fin s.rank → IVec ⟨1, d⟩ 32) (v : Vec F ⟨1, d⟩ e)
    (h : ∀ a x, (idxs a x).toNat < s.size a) (hv : ∀ x, v x = T (idxAt idxs h x)) (p : s.Idx)
    (hp : R p = T p) : storeIdx R idxs v (fun _ => 1#1) false h p = T p := by
  rw [storeIdx_eq_foldl]
  exact foldl_keep T idxs v h hv p _ R hp

end Store

section Load
variable {s t : Shape} {e : EltTy}

/-- An indexed load reads the base array at the index the index vectors name. -/
theorem loadIdx_apply (f : Vec F s e) (idxs : Fin s.rank → IVec t 32) (h : ∀ a x, (idxs a x).toNat < s.size a)
    (x : t.Idx) : loadIdx f idxs h x = f (idxAt idxs h x) := rfl

/-- For a rank-two base array, the named index is the pair of the two index vectors' lanes. -/
theorem idxAt_ix2 {n0 n1 : Nat} (a b : IVec t 32)
    (h : ∀ c x, ((![a, b] : Fin 2 → IVec t 32) c x).toNat < (⟨2, ![n0, n1]⟩ : Shape).size c) (x : t.Idx) :
    idxAt (s := ⟨2, ![n0, n1]⟩) ![a, b] h x = ix2 ⟨(a x).toNat, h 0 x⟩ ⟨(b x).toNat, h 1 x⟩ := by
  funext c
  match c with
  | ⟨0, _⟩ => rfl
  | ⟨1, _⟩ => rfl

end Load

end Cert.Lanes
-- ==== Proof.LaneVec.lean ====
/-
  The lanes of a 16-lane index vector, and the kernel's constant index vectors.

  A lane `x` of a 16-lane vector has a lane number `ln x < 16`.  The lane-index vector holds the lane number in every
  lane; the kernel's zero vector is that times zero, and its eight row vectors are the lane number plus
  0, 16, …, 112 — the batch rows `16·j' + lane` of the eight row groups.  Adding a word to every lane of a vector adds the
  numbers when nothing wraps (`addi_splat_toNat`).  Two index vectors whose lanes are below the two extents of a
  rank-two array name indices inside it (`pair_lt`): the form every bounds side condition of the inner loop has.
-/
import proofs.«206908_g46772193853751_cont_8to1c4_160_30_alg».proof.Proof.Gen.KernelIdeal.Skeleton

namespace Cert.Lanes

open Idealize.ShloMosaic Cert.KernelIdeal Cert.KernelIdeal.Gen

/-- The lane number of a lane of a 16-lane vector. -/
abbrev ln (x : S16.Idx) : ℕ := (x 0).val

theorem ln_lt (x : S16.Idx) : ln x < 16 := (x 0).isLt

/-- The lane-index vector of a vector subcore: lane `x` holds `ln x`. -/
abbrev iotaV : IVec S16 32 := iota .scVector S16 32 [0] iota_S16_d0_w32_scVector

theorem iotaV_apply (x : S16.Idx) : iotaV x = BitVec.ofNat 32 (ln x) := by
  show BitVec.ofNat 32 (0 * 16 + (x 0).val) = _
  rw [Nat.zero_mul, Nat.zero_add]

theorem iotaV_toNat (x : S16.Idx) : (iotaV x).toNat = ln x := by
  have := ln_lt x
  rw [iotaV_apply, BitVec.toNat_ofNat]; omega

/-- Adding one word to every lane adds the numbers, when the sum fits in 32 bits. -/
theorem addi_splat_toNat (a : IVec S16 32) (w : BitVec 32) (x : S16.Idx) (h : (a x).toNat + w.toNat < 2 ^ 32) :
    (addi a (broadcast S16 w) x).toNat = (a x).toNat + w.toNat := by
  show (a x + w).toNat = _
  rw [BitVec.toNat_add]; omega

/-- The zero vector: the lane-index vector times zero. -/
theorem pay169_apply (x : S16.Idx) : k0_pay169 x = 0#32 := by
  show iotaV x * 0#32 = 0#32
  exact BitVec.mul_zero

theorem pay170_toNat (x : S16.Idx) : (k0_pay170 x).toNat = ln x := by
  have := ln_lt x
  show (addi iotaV (broadcast S16 0#32) x).toNat = _
  rw [addi_splat_toNat _ _ _ (by rw [iotaV_toNat]; show ln x + 0 < _; omega), iotaV_toNat]; rfl

theorem pay171_toNat (x : S16.Idx) : (k0_pay171 x).toNat = ln x + 16 := by
  have := ln_lt x
  show (addi iotaV (broadcast S16 16#32) x).toNat = _
  rw [addi_splat_toNat _ _ _ (by rw [iotaV_toNat]; show ln x + 16 < _; omega), iotaV_toNat]; rfl

theorem pay172_toNat (x : S16.Idx) : (k0_pay172 x).toNat = ln x + 32 := by
  have := ln_lt x
  show (addi iotaV (broadcast S16 32#32) x).toNat = _
  rw [addi_splat_toNat _ _ _ (by rw [iotaV_toNat]; show ln x + 32 < _; omega), iotaV_toNat]; rfl

theorem pay173_toNat (x : S16.Idx) : (k0_pay173 x).toNat = ln x + 48 := by
  have := ln_lt x
  show (addi iotaV (broadcast S16 48#32) x).toNat = _
  rw [addi_splat_toNat _ _ _ (by rw [iotaV_toNat]; show ln x + 48 < _; omega), iotaV_toNat]; rfl

theorem pay174_toNat (x : S16.Idx) : (k0_pay174 x).toNat = ln x + 64 := by
  have := ln_lt x
  show (addi iotaV (broadcast S16 64#32) x).toNat = _
  rw [addi_splat_toNat _ _ _ (by rw [iotaV_toNat]; show ln x + 64 < _; omega), iotaV_toNat]; rfl

theorem pay175_toNat (x : S16.Idx) : (k0_pay175 x).toNat = ln x + 80 := by
  have := ln_lt x
  show (addi iotaV (broadcast S16 80#32) x).toNat = _
  rw [addi_splat_toNat _ _ _ (by rw [iotaV_toNat]; show ln x + 80 < _; omega), iotaV_toNat]; rfl

theorem pay176_toNat (x : S16.Idx) : (k0_pay176 x).toNat = ln x + 96 := by
  have := ln_lt x
  show (addi iotaV (broadcast S16 96#32) x).toNat = _
  rw [addi_splat_toNat _ _ _ (by rw [iotaV_toNat]; show ln x + 96 < _; omega), iotaV_toNat]; rfl

theorem pay177_toNat (x : S16.Idx) : (k0_pay177 x).toNat = ln x + 112 := by
  have := ln_lt x
  show (addi iotaV (broadcast S16 112#32) x).toNat = _
  rw [addi_splat_toNat _ _ _ (by rw [iotaV_toNat]; show ln x + 112 < _; omega), iotaV_toNat]; rfl

/-- Every row vector's lanes are batch rows of the 128-row block. -/
theorem rows_lt (x : S16.Idx) :
    (k0_pay170 x).toNat < 128 ∧ (k0_pay171 x).toNat < 128 ∧ (k0_pay172 x).toNat < 128 ∧ (k0_pay173 x).toNat < 128 ∧
    (k0_pay174 x).toNat < 128 ∧ (k0_pay175 x).toNat < 128 ∧ (k0_pay176 x).toNat < 128 ∧ (k0_pay177 x).toNat < 128 := by
  have := ln_lt x
  rw [pay170_toNat, pay171_toNat, pay172_toNat, pay173_toNat, pay174_toNat, pay175_toNat, pay176_toNat, pay177_toNat]
  omega

/-- Two index vectors with lanes below the two extents of a rank-two array name indices inside it. -/
theorem pair_lt {n0 n1 : ℕ} (a b : IVec S16 32) (ha : ∀ x, (a x).toNat < n0) (hb : ∀ x, (b x).toNat < n1) :
    ∀ c x, ((![a, b] : Fin 2 → IVec S16 32) c x).toNat < (⟨2, ![n0, n1]⟩ : Shape).size c := by
  intro c x
  match c with
  | ⟨0, _⟩ => exact ha x
  | ⟨1, _⟩ => exact hb x

end Cert.Lanes
-- ==== Proof.LaneCover.lean ====
/-
  The inner loop's stores cover the whole 64 × 128 block.

  In trip `k` of the inner loop, the store for feature group `dc` (of 4) and row group `j'` (of 8) writes, from lane
  `lane`, the block's element at feature `(lane + k) mod 16 + 16·dc` and batch row `16·j' + lane`: the lanes walk a
  diagonal of a 16 × 16 tile, and the 16 trips turn the diagonal through every column of the tile.  Every element
  `(a, b)` of the block is written by exactly this description with `dc = a / 16`, `j' = b / 16`, `lane = b mod 16` and
  `k = (a mod 16 + 16 − lane) mod 16`.
-/
import Idealize.ShloMosaic.Lib.ValueIdx

namespace Cert.Lanes

/-- The block element lane `lane` writes in trip `k`, for feature group `dc` and row group `j'`. -/
def pt (dc : Fin 4) (j' : Fin 8) (k : ℕ) (lane : Fin 16) : Fin 64 × Fin 128 :=
  (⟨(lane.val + k) % 16 + 16 * dc.val, by have := dc.isLt; omega⟩,
   ⟨16 * j'.val + lane.val, by have := j'.isLt; have := lane.isLt; omega⟩)

@[simp] theorem pt_fst (dc : Fin 4) (j' : Fin 8) (k : ℕ) (lane : Fin 16) :
    ((pt dc j' k lane).1 : ℕ) = (lane.val + k) % 16 + 16 * dc.val := rfl

@[simp] theorem pt_snd (dc : Fin 4) (j' : Fin 8) (k : ℕ) (lane : Fin 16) :
    ((pt dc j' k lane).2 : ℕ) = 16 * j'.val + lane.val := rfl

/-- Every element of the block is written in some trip below 16, by some lane of some store. -/
theorem cover (a : Fin 64) (b : Fin 128) :
    ∃ k, k < 16 ∧ ∃ (dc : Fin 4) (j' : Fin 8) (lane : Fin 16), pt dc j' k lane = (a, b) := by
  have ha := a.isLt
  have hb := b.isLt
  refine ⟨(a.val % 16 + 16 - b.val % 16) % 16, Nat.mod_lt _ (by omega), ⟨a.val / 16, by omega⟩, ⟨b.val / 16, by omega⟩,
    ⟨b.val % 16, Nat.mod_lt _ (by omega)⟩, ?_⟩
  refine Prod.ext (Fin.ext ?_) (Fin.ext ?_)
  · simp only [pt_fst]; omega
  · simp only [pt_snd]; omega

/-- In one trip, two lanes of one store that write the same element are the same lane. -/
theorem pt_lane_inj (dc : Fin 4) (j' : Fin 8) (k : ℕ) (l l' : Fin 16) (h : pt dc j' k l = pt dc j' k l') : l = l' := by
  have h2 := congrArg (fun p => (p.2 : ℕ)) h
  simp only [pt_snd] at h2
  exact Fin.ext (by omega)

end Cert.Lanes
-- ==== Proof.LaneTrip.lean ====
/-
  One position's block: the function it is to hold, and why the inner loop fills it.

  The transposed block of one position has 64 features by 128 batch rows.  Its element at feature `f` and batch row
  `b` is to hold the gathered block's element at row `b`, column `f`, plus the positional table's element at the
  position's packed row `w` and column `f + o` (`Tslot`).  One store of the inner loop gathers, lane by lane, the
  gathered block at (row vector, column vector) and the positional table at (row `w`, column vector plus `o`), adds
  them and scatters the sums at (column vector, row vector): every lane's value is `Tslot` at the index that lane
  names (`store_value`).

  So over a view of the block, the set of elements that hold `Tslot`'s value only grows with each store: it gains the
  elements the store's lanes name and loses nothing (`good_step`, from the two store lemmas).  The elements named by
  the store of feature group `dc` and row group `j'` in trip `k` are the 16 points `pt dc j' k lane` (`hit_eq`); those
  of all stores of trips below `k` make up `AccTo k`, which is empty at 0, gains at most the 32 stores' points in each
  trip, and is everything at 16 because the points cover the block.
-/
import proofs.«206908_g46772193853751_cont_8to1c4_160_30_alg».proof.Proof.LaneBase
import proofs.«206908_g46772193853751_cont_8to1c4_160_30_alg».proof.Proof.LaneVec
import proofs.«206908_g46772193853751_cont_8to1c4_160_30_alg».proof.Proof.LaneCover
import Idealize.ShloMosaic.Signature.View

namespace Cert.Lanes

open Idealize.ShloMosaic Idealize.ShloMosaic.ValueIdx Cert.KernelIdeal Cert.KernelIdeal.Gen

variable {F : FTy → Type} [FloatOps F]

/-! ### The block's target function and the value of one store -/

/-- What the transposed block of one position is to hold at feature `p 0` and batch row `p 1`: the gathered block's
    element at that row and feature, plus the positional table's at packed row `w`, column feature + `o`. -/
def Tslot (Gc : Vec F S128x128 .f32) (Pc : Vec F S100x128 .f32) (o w : BitVec 32) (hw : w.toNat < 100)
    (ho : o.toNat ≤ 64) : S64x128.Idx → F .f32 :=
  fun p => FloatOps.addf
    (Gc (ix2 (⟨(p 1).val, idx2_lt1 p⟩ : Fin 128) (⟨(p 0).val, Nat.lt_trans (idx2_lt0 p) (by omega)⟩ : Fin 128)))
    (Pc (ix2 (⟨w.toNat, hw⟩ : Fin 100) (⟨(p 0).val + o.toNat, by have := idx2_lt0 p; omega⟩ : Fin 128)))

/-- Every lane of one store's sum vector is the target's value at the index that lane names: the gathered block is read
    at (row vector, column vector), the positional table at (row `w`, column vector plus `o`), and the sum is written
    at (column vector, row vector). -/
theorem store_value (Gc : Vec F S128x128 .f32) (Pc : Vec F S100x128 .f32) (o w : BitVec 32) (hw : w.toNat < 100)
    (ho : o.toNat ≤ 64) (gc r prowV pcol : IVec S16 32)
    (hprow : ∀ x, (prowV x).toNat = w.toNat) (hpcol : ∀ x, (pcol x).toNat = (gc x).toNat + o.toNat)
    (hP : ∀ a x, ((![prowV, pcol] : Fin 2 → IVec S16 32) a x).toNat < S100x128.size a)
    (hG : ∀ a x, ((![r, gc] : Fin 2 → IVec S16 32) a x).toNat < S128x128.size a)
    (hS : ∀ a x, ((![gc, r] : Fin 2 → IVec S16 32) a x).toNat < S64x128.size a) (x : S16.Idx) :
    addf (loadIdx Gc ![r, gc] hG) (loadIdx Pc ![prowV, pcol] hP) x
      = Tslot Gc Pc o w hw ho (idxAt ![gc, r] hS x) := by
  show FloatOps.addf (Gc (idxAt ![r, gc] hG x)) (Pc (idxAt ![prowV, pcol] hP x)) = _
  have e1 : idxAt ![r, gc] hG x
      = ix2 (⟨(r x).toNat, hG 0 x⟩ : Fin 128) (⟨(gc x).toNat, hG 1 x⟩ : Fin 128) := idxAt_ix2 r gc hG x
  have e2 : idxAt ![prowV, pcol] hP x
      = ix2 (⟨w.toNat, hw⟩ : Fin 100) (⟨(gc x).toNat + o.toNat, by have := hS 0 x; have : (gc x).toNat < 64 := this; omega⟩ : Fin 128) := by
    rw [idxAt_ix2 prowV pcol hP x]
    congr 1
    · exact Fin.ext (hprow x)
    · exact Fin.ext (hpcol x)
  rw [e1, e2]
  rfl

/-! ### Elements holding the target's value only grow -/

section Good
variable {sig : RefSig} {κ : Kind} {sp : Space} {s : Shape}

/-- Through the view, the buffer holds the target's value at every index of `A`. -/
def GoodOn (sv : View sig κ sp s .f32) (T : s.Idx → F .f32) (A : Set s.Idx) (W : sv.ty.Contents (Elt F)) : Prop :=
  ∀ p ∈ A, sv.read (Elt F) W p = T p

theorem good_mono {sv : View sig κ sp s .f32} {T : s.Idx → F .f32} {A A' : Set s.Idx} {W : sv.ty.Contents (Elt F)}
    (h : GoodOn sv T A W) (hA : A' ⊆ A) : GoodOn sv T A' W := fun p hp => h p (hA hp)

theorem good_empty (sv : View sig κ sp s .f32) (T : s.Idx → F .f32) (W : sv.ty.Contents (Elt F)) :
    GoodOn sv T ∅ W := fun _ hp => absurd hp (Set.notMem_empty _)

/-- An unmasked overwriting store whose every lane carries the target's value at the index it names keeps every good
    index good and makes good every index a lane names. -/
theorem good_step {sv : View sig κ sp s .f32} {T : s.Idx → F .f32} {A : Set s.Idx} {W : sv.ty.Contents (Elt F)}
    (hW : GoodOn sv T A W) {d : Fin 1 → Nat} (idxs : Fin s.rank → IVec ⟨1, d⟩ 32) (v : Vec F ⟨1, d⟩ .f32)
    (h : ∀ a x, (idxs a x).toNat < s.size a) (hv : ∀ x, v x = T (idxAt idxs h x)) :
    GoodOn sv T (A ∪ {p | ∃ x, idxAt idxs h x = p})
      (sv.write (Elt F) W (storeIdx (sv.read (Elt F) W) idxs v (fun _ => 1#1) false h) Finset.univ) := by
  intro p hp
  rw [View.read_write_univ]
  rcases hp with hA | hx
  · exact storeIdx_keep (sv.read (Elt F) W) T idxs v h hv p (hW p hA)
  · exact storeIdx_hit (sv.read (Elt F) W) T idxs v h hv p hx

end Good

/-! ### The elements written so far -/

/-- An index of the block as its (feature, batch row) pair. -/
abbrev pr (p : S64x128.Idx) : Fin 64 × Fin 128 := (⟨(p 0).val, idx2_lt0 p⟩, ⟨(p 1).val, idx2_lt1 p⟩)

/-- The elements the store of feature group `dc` and row group `j'` names in trip `k`. -/
def Hit (dc : Fin 4) (j' : Fin 8) (k : ℕ) : Set S64x128.Idx := {p | ∃ lane : Fin 16, pt dc j' k lane = pr p}

/-- The elements named by some store of a trip below `k`. -/
def AccTo (k : ℕ) : Set S64x128.Idx := {p | ∃ k' < k, ∃ (dc : Fin 4) (j' : Fin 8) (lane : Fin 16), pt dc j' k' lane = pr p}

theorem AccTo_zero : AccTo 0 = ∅ := by
  ext p
  simp [AccTo]

theorem AccTo_full : AccTo 16 = Set.univ := by
  ext p
  simp only [Set.mem_univ, iff_true]
  obtain ⟨k, hk, dc, j', lane, h⟩ := cover (pr p).1 (pr p).2
  exact ⟨k, hk, dc, j', lane, h⟩

/-- What a trip adds: the elements of its 32 stores. -/
theorem acc_succ_subset (k : ℕ) : AccTo (k + 1) ⊆ AccTo k ∪ ⋃ dc, ⋃ j', Hit dc j' k := by
  rintro p ⟨k', hk', dc, j', lane, h⟩
  rcases Nat.lt_succ_iff_lt_or_eq.1 hk' with hlt | rfl
  · exact Or.inl ⟨k', hlt, dc, j', lane, h⟩
  · exact Or.inr (Set.mem_iUnion.2 ⟨dc, Set.mem_iUnion.2 ⟨j', lane, h⟩⟩)

/-- A set that holds what was written before trip `k` and each of the trip's 32 stores' elements holds what is
    written before trip `k + 1`. -/
theorem acc_succ_le {k : ℕ} {B : Set S64x128.Idx} (h0 : AccTo k ⊆ B) (h1 : ∀ dc j', Hit dc j' k ⊆ B) :
    AccTo (k + 1) ⊆ B := by
  intro p hp
  rcases acc_succ_subset k hp with h | h
  · exact h0 h
  · obtain ⟨dc, h⟩ := Set.mem_iUnion.1 h
    obtain ⟨j', h⟩ := Set.mem_iUnion.1 h
    exact h1 dc j' h

/-- The elements one store names, from its two index vectors: with the column vector `(lane + k) mod 16 + 16·dc` and
    the row vector `16·j' + lane`, they are the points of `Hit dc j' k`. -/
theorem hit_eq (dc : Fin 4) (j' : Fin 8) (k : ℕ) (gc r : IVec S16 32)
    (hgc : ∀ x, (gc x).toNat = (ln x + k) % 16 + 16 * dc.val) (hr : ∀ x, (r x).toNat = 16 * j'.val + ln x)
    (hS : ∀ a x, ((![gc, r] : Fin 2 → IVec S16 32) a x).toNat < S64x128.size a) :
    {p | ∃ x, idxAt ![gc, r] hS x = p} = Hit dc j' k := by
  ext p
  constructor
  · rintro ⟨x, rfl⟩
    refine ⟨⟨ln x, ln_lt x⟩, Prod.ext (Fin.ext ?_) (Fin.ext ?_)⟩
    · exact (hgc x).symm
    · exact (hr x).symm
  · rintro ⟨lane, h⟩
    refine ⟨ix1 lane, ?_⟩
    have h0 : (lane.val + k) % 16 + 16 * dc.val = (p 0).val := congrArg (fun q => (q.1 : ℕ)) h
    have h1 : 16 * j'.val + lane.val = (p 1).val := congrArg (fun q => (q.2 : ℕ)) h
    funext a
    match a with
    | ⟨0, _⟩ => exact Fin.ext ((hgc (ix1 lane)).trans h0)
    | ⟨1, _⟩ => exact Fin.ext ((hr (ix1 lane)).trans h1)

end Cert.Lanes
-- ==== Proof.LaneGood.lean ====
/-
  The block's good elements, through a memory reference as a store through it and a load through it spell them.

  A scatter through a memory reference `M` of the 64 × 128 block reads the block's contents through `M`'s view over its
  whole rectangle, scatters into what it read, and writes the result back through the same rectangle (`stepW`).  Read
  the same way, the elements holding a target function's value only grow under such a step (`goodM_step`): this is
  `good_step` at the view of `M` restricted to its whole rectangle.
-/
import proofs.«206908_g46772193853751_cont_8to1c4_160_30_alg».proof.Proof.LaneTrip
import Idealize.ShloMosaic.Signature.Memref

namespace Cert.Lanes

open Idealize.ShloMosaic Idealize.ShloMosaic.ValueIdx Cert.KernelIdeal Cert.KernelIdeal.Gen

variable {F : FTy → Type} [FloatOps F]
variable {sg : RefSig} {κ : Kind} {sp : Space}

/-- The contents after one unmasked overwriting scatter through `M`: what is read through `M` over its whole rectangle,
    scattered into, and written back through the whole rectangle. -/
def stepW (M : Memref sg κ sp S64x128 .f32) (W : (M.access (Rect.whole S64x128)).ty.Contents (Elt F))
    (idxs : Fin 2 → IVec S16 32) (v : Vec F S16 .f32) (h : ∀ a x, (idxs a x).toNat < S64x128.size a) :
    (M.access (Rect.whole S64x128)).ty.Contents (Elt F) :=
  View.write (Elt F) (M.access (Rect.whole S64x128)) W
    (storeIdx (View.readAt (Elt F) M.view (LoadRect.whole S64x128) W) idxs v (fun _ => 1#1) false h) Finset.univ

/-- Read through `M` over its whole rectangle, the contents hold the target's value at every index of `A`. -/
def GoodOnM (M : Memref sg κ sp S64x128 .f32) (T : S64x128.Idx → F .f32) (A : Set S64x128.Idx)
    (W : (M.access (Rect.whole S64x128)).ty.Contents (Elt F)) : Prop :=
  ∀ p ∈ A, View.readAt (Elt F) M.view (LoadRect.whole S64x128) W p = T p

theorem goodM_mono {M : Memref sg κ sp S64x128 .f32} {T : S64x128.Idx → F .f32} {A A' : Set S64x128.Idx}
    {W : (M.access (Rect.whole S64x128)).ty.Contents (Elt F)} (h : GoodOnM M T A W) (hA : A' ⊆ A) :
    GoodOnM M T A' W := fun p hp => h p (hA hp)

theorem goodM_empty (M : Memref sg κ sp S64x128 .f32) (T : S64x128.Idx → F .f32)
    (W : (M.access (Rect.whole S64x128)).ty.Contents (Elt F)) : GoodOnM M T ∅ W :=
  fun _ hp => absurd hp (Set.notMem_empty _)

/-- A scatter whose every lane carries the target's value at the index it names keeps the good elements and adds the
    elements its lanes name. -/
theorem goodM_step {M : Memref sg κ sp S64x128 .f32} {T : S64x128.Idx → F .f32} {A : Set S64x128.Idx}
    {W : (M.access (Rect.whole S64x128)).ty.Contents (Elt F)} (hW : GoodOnM M T A W)
    (idxs : Fin 2 → IVec S16 32) (v : Vec F S16 .f32) (h : ∀ a x, (idxs a x).toNat < S64x128.size a)
    (hv : ∀ x, v x = T (idxAt idxs h x)) :
    GoodOnM M T (A ∪ {p | ∃ x, idxAt idxs h x = p}) (stepW M W idxs v h) :=
  good_step (sv := M.access (Rect.whole S64x128)) (T := T) (A := A) (W := W) hW idxs v h hv

/-- The same, with the elements the lanes name given as a set. -/
theorem goodM_step_hit {M : Memref sg κ sp S64x128 .f32} {T : S64x128.Idx → F .f32} {A H : Set S64x128.Idx}
    {W : (M.access (Rect.whole S64x128)).ty.Contents (Elt F)} (hW : GoodOnM M T A W)
    (idxs : Fin 2 → IVec S16 32) (v : Vec F S16 .f32) (h : ∀ a x, (idxs a x).toNat < S64x128.size a)
    (hv : ∀ x, v x = T (idxAt idxs h x)) (hH : {p | ∃ x, idxAt idxs h x = p} = H) :
    GoodOnM M T (A ∪ H) (stepW M W idxs v h) :=
  hH ▸ goodM_step hW idxs v h hv

end Cert.Lanes
-- ==== Proof.LaneList.lean ====
/-
  The block's good elements when the block is held as one listed whole-rectangle piece.

  A run of scatters through a memory reference `M` of the 64 × 128 block, each rewriting the whole rectangle, leaves
  the block's contents as ONE piece over the contents `R` before: the last scatter's result vector.  That vector is
  the scatter into what the previous one-piece list reads back through the whole rectangle — which is the previous
  vector (`readCov_whole`) — and so on down to what `R` reads.  So goodness is a property of the vectors (`GoodV`):
  what `R` reads is good where `R` is (`goodV_of_goodM`), each scatter keeps the good elements and adds those its
  lanes name (`goodV_first`, `goodV_step`), and the final one-piece contents are good where the last vector is
  (`goodM_of_goodV`).
-/
import proofs.«206908_g46772193853751_cont_8to1c4_160_30_alg».proof.Proof.LaneGood
import Idealize.ShloMosaic.Lib.Writes
import Idealize.ShloMosaic.Lib.Exec.Geometry
import Idealize.ShloMosaic.Lib.Pipeline.FrameBody

namespace Cert.Lanes

open Idealize.ShloMosaic Idealize.ShloMosaic.ValueIdx Cert.KernelIdeal Cert.KernelIdeal.Gen

variable {F : FTy → Type} [FloatOps F]
variable {sg : RefSig} {κ : Kind} {sp : Space}

/-- The vector holds the target's value at every index of `A`. -/
def GoodV (T : S64x128.Idx → F .f32) (A : Set S64x128.Idx) (X : Vec F S64x128 .f32) : Prop :=
  ∀ p ∈ A, X p = T p

theorem goodV_mono {T : S64x128.Idx → F .f32} {A A' : Set S64x128.Idx} {X : Vec F S64x128 .f32}
    (hA : A' ⊆ A) (h : GoodV T A X) : GoodV T A' X := fun p hp => h p (hA hp)

/-- What the whole-rectangle load reads off a one-piece list is the piece's vector. -/
theorem readCov_whole (M : Memref sg κ sp S64x128 .f32) (X : Vec F S64x128 .f32) :
    M.view.readCov (Val := Elt F) [(⟨Rect.whole S64x128, X⟩ : View.Piece (Elt F) S64x128 .f32)] (LoadRect.whole S64x128) = X :=
  View.readCov_cons_toLoadRect (Val := Elt F) M.view (Rect.whole S64x128) X []

/-- What `R` reads through the whole rectangle is good where `R` is. -/
theorem goodV_of_goodM {M : Memref sg κ sp S64x128 .f32} {T : S64x128.Idx → F .f32} {A : Set S64x128.Idx}
    {R : (M.access (Rect.whole S64x128)).ty.Contents (Elt F)} (h : GoodOnM M T A R) :
    GoodV T A (View.readAt (Elt F) M.view (LoadRect.whole S64x128) R) := h

/-- The one-piece contents are good where the piece's vector is. -/
theorem goodM_of_goodV (M : Memref sg κ sp S64x128 .f32) {T : S64x128.Idx → F .f32} {A : Set S64x128.Idx}
    (R : (M.access (Rect.whole S64x128)).ty.Contents (Elt F)) {X : Vec F S64x128 .f32} (h : GoodV T A X) :
    GoodOnM M T A (M.view.writes (Elt F) R [(⟨Rect.whole S64x128, X⟩ : View.Piece (Elt F) S64x128 .f32)]) := by
  intro p hp
  have e : View.readAt (Elt F) M.view (LoadRect.whole S64x128) (M.view.writes (Elt F) R [(⟨Rect.whole S64x128, X⟩ : View.Piece (Elt F) S64x128 .f32)]) = X :=
    View.read_write_univ (v := M.access (Rect.whole S64x128)) R X
  rw [e]; exact h p hp

/-- A scatter into a good vector, every lane carrying the target's value at the index it names. -/
theorem goodV_first {T : S64x128.Idx → F .f32} {A H : Set S64x128.Idx} {X : Vec F S64x128 .f32}
    (idxs : Fin 2 → IVec S16 32) (v : Vec F S16 .f32) (h : ∀ a x, (idxs a x).toNat < S64x128.size a)
    (hv : ∀ x, v x = T (idxAt idxs h x)) (hH : {p | ∃ x, idxAt idxs h x = p} = H) (hX : GoodV T A X) :
    GoodV T (A ∪ H) (storeIdx X idxs v (fun _ => 1#1) false h) := by
  subst hH
  intro p hp
  rcases hp with hA | hx
  · exact storeIdx_keep (s := S64x128) (e := .f32) X T idxs v h hv p (hX p hA)
  · exact storeIdx_hit (s := S64x128) (e := .f32) X T idxs v h hv p hx

/-- One later scatter of a run: into what the one-piece list of the previous vector reads back through the whole
    rectangle. -/
noncomputable def stepX (M : Memref sg κ sp S64x128 .f32) (X : Vec F S64x128 .f32) (idxs : Fin 2 → IVec S16 32) (v : Vec F S16 .f32)
    (h : ∀ a x, (idxs a x).toNat < S64x128.size a) : Vec F S64x128 .f32 :=
  storeIdx (M.view.readCov (Val := Elt F) [(⟨Rect.whole S64x128, X⟩ : View.Piece (Elt F) S64x128 .f32)] (LoadRect.whole S64x128)) idxs v
    (fun _ => 1#1) false h

/-- The same into what the previous one-piece list reads back. -/
theorem goodV_step (M : Memref sg κ sp S64x128 .f32) {T : S64x128.Idx → F .f32} {A H : Set S64x128.Idx}
    {X : Vec F S64x128 .f32}
    (idxs : Fin 2 → IVec S16 32) (v : Vec F S16 .f32) (h : ∀ a x, (idxs a x).toNat < S64x128.size a)
    (hv : ∀ x, v x = T (idxAt idxs h x)) (hH : {p | ∃ x, idxAt idxs h x = p} = H) (hX : GoodV T A X) :
    GoodV T (A ∪ H) (stepX M X idxs v h) := by
  unfold stepX
  rw [readCov_whole]
  exact goodV_first idxs v h hv hH hX

end Cert.Lanes
-- ==== Proof.Lane1.lean ====
/-
  The index arithmetic of one copy of the inner loop (k0_t2_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVec

namespace Cert.Lanes.C1

open Idealize.ShloMosaic Cert.KernelIdeal Cert.KernelIdeal.Gen Cert.Lanes

/-- The loop runs at most 16 trips. -/
theorem trip_lt (k : Fin k0_t2_loop.trips) : k.val < 16 := Nat.lt_of_lt_of_le k.isLt k0_t2_abs.2.1

/-- The rotation vector of trip `k`: `(lane + k) mod 16`. -/
theorem rot_toNat (k : Fin k0_t2_loop.trips) (x : S16.Idx) :
    (k0_pay2 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t2_loop.trips) (x : S16.Idx) :
    (k0_pay3 iotaV 0#32 1#32 k x).toNat = (ln x + k.val) % 16 :=
  addi_lit (k0_pay2 iotaV 0#32 1#32 k) 0#32 ((ln x + k.val) % 16) 0 x (rot_toNat k x) rfl (by omega)

/-- The column vector of feature group 1 in trip `k`. -/
theorem gcol1_toNat (k : Fin k0_t2_loop.trips) (x : S16.Idx) :
    (k0_pay13 (k0_pay2 iotaV 0#32 1#32 k) x).toNat = (ln x + k.val) % 16 + 16 :=
  addi_lit (k0_pay2 iotaV 0#32 1#32 k) 16#32 ((ln x + k.val) % 16) 16 x (rot_toNat k x) rfl (by omega)

/-- The column vector of feature group 2 in trip `k`. -/
theorem gcol2_toNat (k : Fin k0_t2_loop.trips) (x : S16.Idx) :
    (k0_pay23 (k0_pay2 iotaV 0#32 1#32 k) x).toNat = (ln x + k.val) % 16 + 32 :=
  addi_lit (k0_pay2 iotaV 0#32 1#32 k) 32#32 ((ln x + k.val) % 16) 32 x (rot_toNat k x) rfl (by omega)

/-- The column vector of feature group 3 in trip `k`. -/
theorem gcol3_toNat (k : Fin k0_t2_loop.trips) (x : S16.Idx) :
    (k0_pay33 (k0_pay2 iotaV 0#32 1#32 k) x).toNat = (ln x + k.val) % 16 + 48 :=
  addi_lit (k0_pay2 iotaV 0#32 1#32 k) 48#32 ((ln x + k.val) % 16) 48 x (rot_toNat k x) rfl (by omega)

theorem gcol0_lt (k : Fin k0_t2_loop.trips) (x : S16.Idx) : (k0_pay3 iotaV 0#32 1#32 k x).toNat < 64 := by
  rw [gcol0_toNat]; omega
theorem gcol1_lt (k : Fin k0_t2_loop.trips) (x : S16.Idx) : (k0_pay13 (k0_pay2 iotaV 0#32 1#32 k) x).toNat < 64 := by
  rw [gcol1_toNat]; omega
theorem gcol2_lt (k : Fin k0_t2_loop.trips) (x : S16.Idx) : (k0_pay23 (k0_pay2 iotaV 0#32 1#32 k) x).toNat < 64 := by
  rw [gcol2_toNat]; omega
theorem gcol3_lt (k : Fin k0_t2_loop.trips) (x : S16.Idx) : (k0_pay33 (k0_pay2 iotaV 0#32 1#32 k) x).toNat < 64 := by
  rw [gcol3_toNat]; omega

/-- The positional row vector: the word `w` in every lane. -/
theorem prow_toNat (w : BitVec 32) (x : S16.Idx) : (k0_pay1 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay4 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay14 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay24 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay34 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk1 (k0_pay1 k0_pay169 w) (k0_pay4 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk3 (k0_pay1 k0_pay169 w) (k0_pay14 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk5 (k0_pay1 k0_pay169 w) (k0_pay24 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk7 (k0_pay1 k0_pay169 w) (k0_pay34 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk2 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk4 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk6 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk8 k0_pay170 k0_pay171 k0_pay172 k0_pay173 k0_pay174 k0_pay175 k0_pay176 k0_pay177 gc := chkG0 gc hgc

/-! ### The side conditions at the column vectors of trip `k` -/

theorem chkP0_trip (k : Fin k0_t2_loop.trips) (o w : BitVec 32) (hw : w.toNat < 100) (ho : o.toNat ≤ 64) :
    k0_chk1 (k0_pay1 k0_pay169 w) (k0_pay4 o (k0_pay3 iotaV 0#32 1#32 k)) := chkP0 o w _ hw ho (gcol0_lt k)
theorem chkP1_trip (k : Fin k0_t2_loop.trips) (o w : BitVec 32) (hw : w.toNat < 100) (ho : o.toNat ≤ 64) :
    k0_chk3 (k0_pay1 k0_pay169 w) (k0_pay14 o (k0_pay13 (k0_pay2 iotaV 0#32 1#32 k))) := chkP1 o w _ hw ho (gcol1_lt k)
theorem chkP2_trip (k : Fin k0_t2_loop.trips) (o w : BitVec 32) (hw : w.toNat < 100) (ho : o.toNat ≤ 64) :
    k0_chk5 (k0_pay1 k0_pay169 w) (k0_pay24 o (k0_pay23 (k0_pay2 iotaV 0#32 1#32 k))) := chkP2 o w _ hw ho (gcol2_lt k)
theorem chkP3_trip (k : Fin k0_t2_loop.trips) (o w : BitVec 32) (hw : w.toNat < 100) (ho : o.toNat ≤ 64) :
    k0_chk7 (k0_pay1 k0_pay169 w) (k0_pay34 o (k0_pay33 (k0_pay2 iotaV 0#32 1#32 k))) := chkP3 o w _ hw ho (gcol3_lt k)

theorem chkG0_trip (k : Fin k0_t2_loop.trips) :
    k0_chk2 k0_pay170 k0_pay171 k0_pay172 k0_pay173 k0_pay174 k0_pay175 k0_pay176 k0_pay177 (k0_pay3 iotaV 0#32 1#32 k) :=
  chkG0 _ (gcol0_lt k)
theorem chkG1_trip (k : Fin k0_t2_loop.trips) :
    k0_chk4 k0_pay170 k0_pay171 k0_pay172 k0_pay173 k0_pay174 k0_pay175 k0_pay176 k0_pay177 (k0_pay13 (k0_pay2 iotaV 0#32 1#32 k)) :=
  chkG1 _ (gcol1_lt k)
theorem chkG2_trip (k : Fin k0_t2_loop.trips) :
    k0_chk6 k0_pay170 k0_pay171 k0_pay172 k0_pay173 k0_pay174 k0_pay175 k0_pay176 k0_pay177 (k0_pay23 (k0_pay2 iotaV 0#32 1#32 k)) :=
  chkG2 _ (gcol2_lt k)
theorem chkG3_trip (k : Fin k0_t2_loop.trips) :
    k0_chk8 k0_pay170 k0_pay171 k0_pay172 k0_pay173 k0_pay174 k0_pay175 k0_pay176 k0_pay177 (k0_pay33 (k0_pay2 iotaV 0#32 1#32 k)) :=
  chkG3 _ (gcol3_lt k)

end Cert.Lanes.C1
-- ==== Proof.LaneTrip1.lean ====
/-
  The values and the elements of the 32 stores of one trip of the inner loop k0_t2_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTrip
import proofs.«206908_g46772193853751_cont_8to1c4_160_30_alg».proof.Proof.Lane1

namespace Cert.Lanes.C1

open Idealize.ShloMosaic Idealize.ShloMosaic.ValueIdx Cert.KernelIdeal Cert.KernelIdeal.Gen Cert.Lanes

variable {F : FTy → Type} [FloatOps F]

theorem val_d0_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay170, (k0_pay3 iotaV 0#32 1#32 k)] : Fin 2 → IVec S16 32) a x).toNat < S128x128.size a)
    (hS : ∀ a x, ((![(k0_pay3 iotaV 0#32 1#32 k), k0_pay170] : Fin 2 → IVec S16 32) a x).toNat < S64x128.size a) (x : S16.Idx) :
    k0_pay5 (loadIdx Pc ![(k0_pay1 k0_pay169 w), k0_pay4 o (k0_pay3 iotaV 0#32 1#32 k)] hP) (loadIdx Gc ![k0_pay170, (k0_pay3 iotaV 0#32 1#32 k)] hG) x
      = Tslot Gc Pc o w hw ho (idxAt ![(k0_pay3 iotaV 0#32 1#32 k), k0_pay170] hS x) :=
  store_value Gc Pc o w hw ho (k0_pay3 iotaV 0#32 1#32 k) k0_pay170 (k0_pay1 k0_pay169 w) (k0_pay4 o (k0_pay3 iotaV 0#32 1#32 k)) (prow_toNat w)
    (fun x => pcol0_toNat o _ x (gcol0_lt k x) ho) hP hG hS x

theorem hit_d0_j0 (k : Fin k0_t2_loop.trips)
    (hS : ∀ a x, ((![(k0_pay3 iotaV 0#32 1#32 k), k0_pay170] : Fin 2 → IVec S16 32) a x).toNat < S64x128.size a) :
    {p | ∃ x, idxAt ![(k0_pay3 iotaV 0#32 1#32 k), k0_pay170] hS x = p} = Hit 0 0 k.val :=
  hit_eq 0 0 k.val (k0_pay3 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay171, (k0_pay3 iotaV 0#32 1#32 k)] : Fin 2 → IVec S16 32) a x).toNat < S128x128.size a)
    (hS : ∀ a x, ((![(k0_pay3 iotaV 0#32 1#32 k), k0_pay171] : Fin 2 → IVec S16 32) a x).toNat < S64x128.size a) (x : S16.Idx) :
    k0_pay6 (loadIdx Pc ![(k0_pay1 k0_pay169 w), k0_pay4 o (k0_pay3 iotaV 0#32 1#32 k)] hP) (loadIdx Gc ![k0_pay171, (k0_pay3 iotaV 0#32 1#32 k)] hG) x
      = Tslot Gc Pc o w hw ho (idxAt ![(k0_pay3 iotaV 0#32 1#32 k), k0_pay171] hS x) :=
  store_value Gc Pc o w hw ho (k0_pay3 iotaV 0#32 1#32 k) k0_pay171 (k0_pay1 k0_pay169 w) (k0_pay4 o (k0_pay3 iotaV 0#32 1#32 k)) (prow_toNat w)
    (fun x => pcol0_toNat o _ x (gcol0_lt k x) ho) hP hG hS x

theorem hit_d0_j1 (k : Fin k0_t2_loop.trips)
    (hS : ∀ a x, ((![(k0_pay3 iotaV 0#32 1#32 k), k0_pay171] : Fin 2 → IVec S16 32) a x).toNat < S64x128.size a) :
    {p | ∃ x, idxAt ![(k0_pay3 iotaV 0#32 1#32 k), k0_pay171] hS x = p} = Hit 0 1 k.val :=
  hit_eq 0 1 k.val (k0_pay3 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay172, (k0_pay3 iotaV 0#32 1#32 k)] : Fin 2 → IVec S16 32) a x).toNat < S128x128.size a)
    (hS : ∀ a x, ((![(k0_pay3 iotaV 0#32 1#32 k), k0_pay172] : Fin 2 → IVec S16 32) a x).toNat < S64x128.size a) (x : S16.Idx) :
    k0_pay7 (loadIdx Pc ![(k0_pay1 k0_pay169 w), k0_pay4 o (k0_pay3 iotaV 0#32 1#32 k)] hP) (loadIdx Gc ![k0_pay172, (k0_pay3 iotaV 0#32 1#32 k)] hG) x
      = Tslot Gc Pc o w hw ho (idxAt ![(k0_pay3 iotaV 0#32 1#32 k), k0_pay172] hS x) :=
  store_value Gc Pc o w hw ho (k0_pay3 iotaV 0#32 1#32 k) k0_pay172 (k0_pay1 k0_pay169 w) (k0_pay4 o (k0_pay3 iotaV 0#32 1#32 k)) (prow_toNat w)
    (fun x => pcol0_toNat o _ x (gcol0_lt k x) ho) hP hG hS x

theorem hit_d0_j2 (k : Fin k0_t2_loop.trips)
    (hS : ∀ a x, ((![(k0_pay3 iotaV 0#32 1#32 k), k0_pay172] : Fin 2 → IVec S16 32) a x).toNat < S64x128.size a) :
    {p | ∃ x, idxAt ![(k0_pay3 iotaV 0#32 1#32 k), k0_pay172] hS x = p} = Hit 0 2 k.val :=
  hit_eq 0 2 k.val (k0_pay3 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay173, (k0_pay3 iotaV 0#32 1#32 k)] : Fin 2 → IVec S16 32) a x).toNat < S128x128.size a)
    (hS : ∀ a x, ((![(k0_pay3 iotaV 0#32 1#32 k), k0_pay173] : Fin 2 → IVec S16 32) a x).toNat < S64x128.size a) (x : S16.Idx) :
    k0_pay8 (loadIdx Pc ![(k0_pay1 k0_pay169 w), k0_pay4 o (k0_pay3 iotaV 0#32 1#32 k)] hP) (loadIdx Gc ![k0_pay173, (k0_pay3 iotaV 0#32 1#32 k)] hG) x
      = Tslot Gc Pc o w hw ho (idxAt ![(k0_pay3 iotaV 0#32 1#32 k), k0_pay173] hS x) :=
  store_value Gc Pc o w hw ho (k0_pay3 iotaV 0#32 1#32 k) k0_pay173 (k0_pay1 k0_pay169 w) (k0_pay4 o (k0_pay3 iotaV 0#32 1#32 k)) (prow_toNat w)
    (fun x => pcol0_toNat o _ x (gcol0_lt k x) ho) hP hG hS x

theorem hit_d0_j3 (k : Fin k0_t2_loop.trips)
    (hS : ∀ a x, ((![(k0_pay3 iotaV 0#32 1#32 k), k0_pay173] : Fin 2 → IVec S16 32) a x).toNat < S64x128.size a) :
    {p | ∃ x, idxAt ![(k0_pay3 iotaV 0#32 1#32 k), k0_pay173] hS x = p} = Hit 0 3 k.val :=
  hit_eq 0 3 k.val (k0_pay3 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay174, (k0_pay3 iotaV 0#32 1#32 k)] : Fin 2 → IVec S16 32) a x).toNat < S128x128.size a)
    (hS : ∀ a x, ((![(k0_pay3 iotaV 0#32 1#32 k), k0_pay174] : Fin 2 → IVec S16 32) a x).toNat < S64x128.size a) (x : S16.Idx) :
    k0_pay9 (loadIdx Pc ![(k0_pay1 k0_pay169 w), k0_pay4 o (k0_pay3 iotaV 0#32 1#32 k)] hP) (loadIdx Gc ![k0_pay174, (k0_pay3 iotaV 0#32 1#32 k)] hG) x
      = Tslot Gc Pc o w hw ho (idxAt ![(k0_pay3 iotaV 0#32 1#32 k), k0_pay174] hS x) :=
  store_value Gc Pc o w hw ho (k0_pay3 iotaV 0#32 1#32 k) k0_pay174 (k0_pay1 k0_pay169 w) (k0_pay4 o (k0_pay3 iotaV 0#32 1#32 k)) (prow_toNat w)
    (fun x => pcol0_toNat o _ x (gcol0_lt k x) ho) hP hG hS x

theorem hit_d0_j4 (k : Fin k0_t2_loop.trips)
    (hS : ∀ a x, ((![(k0_pay3 iotaV 0#32 1#32 k), k0_pay174] : Fin 2 → IVec S16 32) a x).toNat < S64x128.size a) :
    {p | ∃ x, idxAt ![(k0_pay3 iotaV 0#32 1#32 k), k0_pay174] hS x = p} = Hit 0 4 k.val :=
  hit_eq 0 4 k.val (k0_pay3 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay175, (k0_pay3 iotaV 0#32 1#32 k)] : Fin 2 → IVec S16 32) a x).toNat < S128x128.size a)
    (hS : ∀ a x, ((![(k0_pay3 iotaV 0#32 1#32 k), k0_pay175] : Fin 2 → IVec S16 32) a x).toNat < S64x128.size a) (x : S16.Idx) :
    k0_pay10 (loadIdx Pc ![(k0_pay1 k0_pay169 w), k0_pay4 o (k0_pay3 iotaV 0#32 1#32 k)] hP) (loadIdx Gc ![k0_pay175, (k0_pay3 iotaV 0#32 1#32 k)] hG) x
      = Tslot Gc Pc o w hw ho (idxAt ![(k0_pay3 iotaV 0#32 1#32 k), k0_pay175] hS x) :=
  store_value Gc Pc o w hw ho (k0_pay3 iotaV 0#32 1#32 k) k0_pay175 (k0_pay1 k0_pay169 w) (k0_pay4 o (k0_pay3 iotaV 0#32 1#32 k)) (prow_toNat w)
    (fun x => pcol0_toNat o _ x (gcol0_lt k x) ho) hP hG hS x

theorem hit_d0_j5 (k : Fin k0_t2_loop.trips)
    (hS : ∀ a x, ((![(k0_pay3 iotaV 0#32 1#32 k), k0_pay175] : Fin 2 → IVec S16 32) a x).toNat < S64x128.size a) :
    {p | ∃ x, idxAt ![(k0_pay3 iotaV 0#32 1#32 k), k0_pay175] hS x = p} = Hit 0 5 k.val :=
  hit_eq 0 5 k.val (k0_pay3 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay176, (k0_pay3 iotaV 0#32 1#32 k)] : Fin 2 → IVec S16 32) a x).toNat < S128x128.size a)
    (hS : ∀ a x, ((![(k0_pay3 iotaV 0#32 1#32 k), k0_pay176] : Fin 2 → IVec S16 32) a x).toNat < S64x128.size a) (x : S16.Idx) :
    k0_pay11 (loadIdx Pc ![(k0_pay1 k0_pay169 w), k0_pay4 o (k0_pay3 iotaV 0#32 1#32 k)] hP) (loadIdx Gc ![k0_pay176, (k0_pay3 iotaV 0#32 1#32 k)] hG) x
      = Tslot Gc Pc o w hw ho (idxAt ![(k0_pay3 iotaV 0#32 1#32 k), k0_pay176] hS x) :=
  store_value Gc Pc o w hw ho (k0_pay3 iotaV 0#32 1#32 k) k0_pay176 (k0_pay1 k0_pay169 w) (k0_pay4 o (k0_pay3 iotaV 0#32 1#32 k)) (prow_toNat w)
    (fun x => pcol0_toNat o _ x (gcol0_lt k x) ho) hP hG hS x

theorem hit_d0_j6 (k : Fin k0_t2_loop.trips)
    (hS : ∀ a x, ((![(k0_pay3 iotaV 0#32 1#32 k), k0_pay176] : Fin 2 → IVec S16 32) a x).toNat < S64x128.size a) :
    {p | ∃ x, idxAt ![(k0_pay3 iotaV 0#32 1#32 k), k0_pay176] hS x = p} = Hit 0 6 k.val :=
  hit_eq 0 6 k.val (k0_pay3 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay177, (k0_pay3 iotaV 0#32 1#32 k)] : Fin 2 → IVec S16 32) a x).toNat < S128x128.size a)
    (hS : ∀ a x, ((![(k0_pay3 iotaV 0#32 1#32 k), k0_pay177] : Fin 2 → IVec S16 32) a x).toNat < S64x128.size a) (x : S16.Idx) :
    k0_pay12 (loadIdx Pc ![(k0_pay1 k0_pay169 w), k0_pay4 o (k0_pay3 iotaV 0#32 1#32 k)] hP) (loadIdx Gc ![k0_pay177, (k0_pay3 iotaV 0#32 1#32 k)] hG) x
      = Tslot Gc Pc o w hw ho (idxAt ![(k0_pay3 iotaV 0#32 1#32 k), k0_pay177] hS x) :=
  store_value Gc Pc o w hw ho (k0_pay3 iotaV 0#32 1#32 k) k0_pay177 (k0_pay1 k0_pay169 w) (k0_pay4 o (k0_pay3 iotaV 0#32 1#32 k)) (prow_toNat w)
    (fun x => pcol0_toNat o _ x (gcol0_lt k x) ho) hP hG hS x

theorem hit_d0_j7 (k : Fin k0_t2_loop.trips)
    (hS : ∀ a x, ((![(k0_pay3 iotaV 0#32 1#32 k), k0_pay177] : Fin 2 → IVec S16 32) a x).toNat < S64x128.size a) :
    {p | ∃ x, idxAt ![(k0_pay3 iotaV 0#32 1#32 k), k0_pay177] hS x = p} = Hit 0 7 k.val :=
  hit_eq 0 7 k.val (k0_pay3 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay170, (k0_pay13 (k0_pay2 iotaV 0#32 1#32 k))] : Fin 2 → IVec S16 32) a x).toNat < S128x128.size a)
    (hS : ∀ a x, ((![(k0_pay13 (k0_pay2 iotaV 0#32 1#32 k)), k0_pay170] : Fin 2 → IVec S16 32) a x).toNat < S64x128.size a) (x : S16.Idx) :
    k0_pay15 (loadIdx Pc ![(k0_pay1 k0_pay169 w), k0_pay14 o (k0_pay13 (k0_pay2 iotaV 0#32 1#32 k))] hP) (loadIdx Gc ![k0_pay170, (k0_pay13 (k0_pay2 iotaV 0#32 1#32 k))] hG) x
      = Tslot Gc Pc o w hw ho (idxAt ![(k0_pay13 (k0_pay2 iotaV 0#32 1#32 k)), k0_pay170] hS x) :=
  store_value Gc Pc o w hw ho (k0_pay13 (k0_pay2 iotaV 0#32 1#32 k)) k0_pay170 (k0_pay1 k0_pay169 w) (k0_pay14 o (k0_pay13 (k0_pay2 iotaV 0#32 1#32 k))) (prow_toNat w)
    (fun x => pcol1_toNat o _ x (gcol1_lt k x) ho) hP hG hS x

theorem hit_d1_j0 (k : Fin k0_t2_loop.trips)
    (hS : ∀ a x, ((![(k0_pay13 (k0_pay2 iotaV 0#32 1#32 k)), k0_pay170] : Fin 2 → IVec S16 32) a x).toNat < S64x128.size a) :
    {p | ∃ x, idxAt ![(k0_pay13 (k0_pay2 iotaV 0#32 1#32 k)), k0_pay170] hS x = p} = Hit 1 0 k.val :=
  hit_eq 1 0 k.val (k0_pay13 (k0_pay2 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay171, (k0_pay13 (k0_pay2 iotaV 0#32 1#32 k))] : Fin 2 → IVec S16 32) a x).toNat < S128x128.size a)
    (hS : ∀ a x, ((![(k0_pay13 (k0_pay2 iotaV 0#32 1#32 k)), k0_pay171] : Fin 2 → IVec S16 32) a x).toNat < S64x128.size a) (x : S16.Idx) :
    k0_pay16 (loadIdx Pc ![(k0_pay1 k0_pay169 w), k0_pay14 o (k0_pay13 (k0_pay2 iotaV 0#32 1#32 k))] hP) (loadIdx Gc ![k0_pay171, (k0_pay13 (k0_pay2 iotaV 0#32 1#32 k))] hG) x
      = Tslot Gc Pc o w hw ho (idxAt ![(k0_pay13 (k0_pay2 iotaV 0#32 1#32 k)), k0_pay171] hS x) :=
  store_value Gc Pc o w hw ho (k0_pay13 (k0_pay2 iotaV 0#32 1#32 k)) k0_pay171 (k0_pay1 k0_pay169 w) (k0_pay14 o (k0_pay13 (k0_pay2 iotaV 0#32 1#32 k))) (prow_toNat w)
    (fun x => pcol1_toNat o _ x (gcol1_lt k x) ho) hP hG hS x

theorem hit_d1_j1 (k : Fin k0_t2_loop.trips)
    (hS : ∀ a x, ((![(k0_pay13 (k0_pay2 iotaV 0#32 1#32 k)), k0_pay171] : Fin 2 → IVec S16 32) a x).toNat < S64x128.size a) :
    {p | ∃ x, idxAt ![(k0_pay13 (k0_pay2 iotaV 0#32 1#32 k)), k0_pay171] hS x = p} = Hit 1 1 k.val :=
  hit_eq 1 1 k.val (k0_pay13 (k0_pay2 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay172, (k0_pay13 (k0_pay2 iotaV 0#32 1#32 k))] : Fin 2 → IVec S16 32) a x).toNat < S128x128.size a)
    (hS : ∀ a x, ((![(k0_pay13 (k0_pay2 iotaV 0#32 1#32 k)), k0_pay172] : Fin 2 → IVec S16 32) a x).toNat < S64x128.size a) (x : S16.Idx) :
    k0_pay17 (loadIdx Pc ![(k0_pay1 k0_pay169 w), k0_pay14 o (k0_pay13 (k0_pay2 iotaV 0#32 1#32 k))] hP) (loadIdx Gc ![k0_pay172, (k0_pay13 (k0_pay2 iotaV 0#32 1#32 k))] hG) x
      = Tslot Gc Pc o w hw ho (idxAt ![(k0_pay13 (k0_pay2 iotaV 0#32 1#32 k)), k0_pay172] hS x) :=
  store_value Gc Pc o w hw ho (k0_pay13 (k0_pay2 iotaV 0#32 1#32 k)) k0_pay172 (k0_pay1 k0_pay169 w) (k0_pay14 o (k0_pay13 (k0_pay2 iotaV 0#32 1#32 k))) (prow_toNat w)
    (fun x => pcol1_toNat o _ x (gcol1_lt k x) ho) hP hG hS x

theorem hit_d1_j2 (k : Fin k0_t2_loop.trips)
    (hS : ∀ a x, ((![(k0_pay13 (k0_pay2 iotaV 0#32 1#32 k)), k0_pay172] : Fin 2 → IVec S16 32) a x).toNat < S64x128.size a) :
    {p | ∃ x, idxAt ![(k0_pay13 (k0_pay2 iotaV 0#32 1#32 k)), k0_pay172] hS x = p} = Hit 1 2 k.val :=
  hit_eq 1 2 k.val (k0_pay13 (k0_pay2 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay173, (k0_pay13 (k0_pay2 iotaV 0#32 1#32 k))] : Fin 2 → IVec S16 32) a x).toNat < S128x128.size a)
    (hS : ∀ a x, ((![(k0_pay13 (k0_pay2 iotaV 0#32 1#32 k)), k0_pay173] : Fin 2 → IVec S16 32) a x).toNat < S64x128.size a) (x : S16.Idx) :
    k0_pay18 (loadIdx Pc ![(k0_pay1 k0_pay169 w), k0_pay14 o (k0_pay13 (k0_pay2 iotaV 0#32 1#32 k))] hP) (loadIdx Gc ![k0_pay173, (k0_pay13 (k0_pay2 iotaV 0#32 1#32 k))] hG) x
      = Tslot Gc Pc o w hw ho (idxAt ![(k0_pay13 (k0_pay2 iotaV 0#32 1#32 k)), k0_pay173] hS x) :=
  store_value Gc Pc o w hw ho (k0_pay13 (k0_pay2 iotaV 0#32 1#32 k)) k0_pay173 (k0_pay1 k0_pay169 w) (k0_pay14 o (k0_pay13 (k0_pay2 iotaV 0#32 1#32 k))) (prow_toNat w)
    (fun x => pcol1_toNat o _ x (gcol1_lt k x) ho) hP hG hS x

theorem hit_d1_j3 (k : Fin k0_t2_loop.trips)
    (hS : ∀ a x, ((![(k0_pay13 (k0_pay2 iotaV 0#32 1#32 k)), k0_pay173] : Fin 2 → IVec S16 32) a x).toNat < S64x128.size a) :
    {p | ∃ x, idxAt ![(k0_pay13 (k0_pay2 iotaV 0#32 1#32 k)), k0_pay173] hS x = p} = Hit 1 3 k.val :=
  hit_eq 1 3 k.val (k0_pay13 (k0_pay2 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay174, (k0_pay13 (k0_pay2 iotaV 0#32 1#32 k))] : Fin 2 → IVec S16 32) a x).toNat < S128x128.size a)
    (hS : ∀ a x, ((![(k0_pay13 (k0_pay2 iotaV 0#32 1#32 k)), k0_pay174] : Fin 2 → IVec S16 32) a x).toNat < S64x128.size a) (x : S16.Idx) :
    k0_pay19 (loadIdx Pc ![(k0_pay1 k0_pay169 w), k0_pay14 o (k0_pay13 (k0_pay2 iotaV 0#32 1#32 k))] hP) (loadIdx Gc ![k0_pay174, (k0_pay13 (k0_pay2 iotaV 0#32 1#32 k))] hG) x
      = Tslot Gc Pc o w hw ho (idxAt ![(k0_pay13 (k0_pay2 iotaV 0#32 1#32 k)), k0_pay174] hS x) :=
  store_value Gc Pc o w hw ho (k0_pay13 (k0_pay2 iotaV 0#32 1#32 k)) k0_pay174 (k0_pay1 k0_pay169 w) (k0_pay14 o (k0_pay13 (k0_pay2 iotaV 0#32 1#32 k))) (prow_toNat w)
    (fun x => pcol1_toNat o _ x (gcol1_lt k x) ho) hP hG hS x

theorem hit_d1_j4 (k : Fin k0_t2_loop.trips)
    (hS : ∀ a x, ((![(k0_pay13 (k0_pay2 iotaV 0#32 1#32 k)), k0_pay174] : Fin 2 → IVec S16 32) a x).toNat < S64x128.size a) :
    {p | ∃ x, idxAt ![(k0_pay13 (k0_pay2 iotaV 0#32 1#32 k)), k0_pay174] hS x = p} = Hit 1 4 k.val :=
  hit_eq 1 4 k.val (k0_pay13 (k0_pay2 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay175, (k0_pay13 (k0_pay2 iotaV 0#32 1#32 k))] : Fin 2 → IVec S16 32) a x).toNat < S128x128.size a)
    (hS : ∀ a x, ((![(k0_pay13 (k0_pay2 iotaV 0#32 1#32 k)), k0_pay175] : Fin 2 → IVec S16 32) a x).toNat < S64x128.size a) (x : S16.Idx) :
    k0_pay20 (loadIdx Pc ![(k0_pay1 k0_pay169 w), k0_pay14 o (k0_pay13 (k0_pay2 iotaV 0#32 1#32 k))] hP) (loadIdx Gc ![k0_pay175, (k0_pay13 (k0_pay2 iotaV 0#32 1#32 k))] hG) x
      = Tslot Gc Pc o w hw ho (idxAt ![(k0_pay13 (k0_pay2 iotaV 0#32 1#32 k)), k0_pay175] hS x) :=
  store_value Gc Pc o w hw ho (k0_pay13 (k0_pay2 iotaV 0#32 1#32 k)) k0_pay175 (k0_pay1 k0_pay169 w) (k0_pay14 o (k0_pay13 (k0_pay2 iotaV 0#32 1#32 k))) (prow_toNat w)
    (fun x => pcol1_toNat o _ x (gcol1_lt k x) ho) hP hG hS x

theorem hit_d1_j5 (k : Fin k0_t2_loop.trips)
    (hS : ∀ a x, ((![(k0_pay13 (k0_pay2 iotaV 0#32 1#32 k)), k0_pay175] : Fin 2 → IVec S16 32) a x).toNat < S64x128.size a) :
    {p | ∃ x, idxAt ![(k0_pay13 (k0_pay2 iotaV 0#32 1#32 k)), k0_pay175] hS x = p} = Hit 1 5 k.val :=
  hit_eq 1 5 k.val (k0_pay13 (k0_pay2 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay176, (k0_pay13 (k0_pay2 iotaV 0#32 1#32 k))] : Fin 2 → IVec S16 32) a x).toNat < S128x128.size a)
    (hS : ∀ a x, ((![(k0_pay13 (k0_pay2 iotaV 0#32 1#32 k)), k0_pay176] : Fin 2 → IVec S16 32) a x).toNat < S64x128.size a) (x : S16.Idx) :
    k0_pay21 (loadIdx Pc ![(k0_pay1 k0_pay169 w), k0_pay14 o (k0_pay13 (k0_pay2 iotaV 0#32 1#32 k))] hP) (loadIdx Gc ![k0_pay176, (k0_pay13 (k0_pay2 iotaV 0#32 1#32 k))] hG) x
      = Tslot Gc Pc o w hw ho (idxAt ![(k0_pay13 (k0_pay2 iotaV 0#32 1#32 k)), k0_pay176] hS x) :=
  store_value Gc Pc o w hw ho (k0_pay13 (k0_pay2 iotaV 0#32 1#32 k)) k0_pay176 (k0_pay1 k0_pay169 w) (k0_pay14 o (k0_pay13 (k0_pay2 iotaV 0#32 1#32 k))) (prow_toNat w)
    (fun x => pcol1_toNat o _ x (gcol1_lt k x) ho) hP hG hS x

theorem hit_d1_j6 (k : Fin k0_t2_loop.trips)
    (hS : ∀ a x, ((![(k0_pay13 (k0_pay2 iotaV 0#32 1#32 k)), k0_pay176] : Fin 2 → IVec S16 32) a x).toNat < S64x128.size a) :
    {p | ∃ x, idxAt ![(k0_pay13 (k0_pay2 iotaV 0#32 1#32 k)), k0_pay176] hS x = p} = Hit 1 6 k.val :=
  hit_eq 1 6 k.val (k0_pay13 (k0_pay2 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay177, (k0_pay13 (k0_pay2 iotaV 0#32 1#32 k))] : Fin 2 → IVec S16 32) a x).toNat < S128x128.size a)
    (hS : ∀ a x, ((![(k0_pay13 (k0_pay2 iotaV 0#32 1#32 k)), k0_pay177] : Fin 2 → IVec S16 32) a x).toNat < S64x128.size a) (x : S16.Idx) :
    k0_pay22 (loadIdx Pc ![(k0_pay1 k0_pay169 w), k0_pay14 o (k0_pay13 (k0_pay2 iotaV 0#32 1#32 k))] hP) (loadIdx Gc ![k0_pay177, (k0_pay13 (k0_pay2 iotaV 0#32 1#32 k))] hG) x
      = Tslot Gc Pc o w hw ho (idxAt ![(k0_pay13 (k0_pay2 iotaV 0#32 1#32 k)), k0_pay177] hS x) :=
  store_value Gc Pc o w hw ho (k0_pay13 (k0_pay2 iotaV 0#32 1#32 k)) k0_pay177 (k0_pay1 k0_pay169 w) (k0_pay14 o (k0_pay13 (k0_pay2 iotaV 0#32 1#32 k))) (prow_toNat w)
    (fun x => pcol1_toNat o _ x (gcol1_lt k x) ho) hP hG hS x

theorem hit_d1_j7 (k : Fin k0_t2_loop.trips)
    (hS : ∀ a x, ((![(k0_pay13 (k0_pay2 iotaV 0#32 1#32 k)), k0_pay177] : Fin 2 → IVec S16 32) a x).toNat < S64x128.size a) :
    {p | ∃ x, idxAt ![(k0_pay13 (k0_pay2 iotaV 0#32 1#32 k)), k0_pay177] hS x = p} = Hit 1 7 k.val :=
  hit_eq 1 7 k.val (k0_pay13 (k0_pay2 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay170, (k0_pay23 (k0_pay2 iotaV 0#32 1#32 k))] : Fin 2 → IVec S16 32) a x).toNat < S128x128.size a)
    (hS : ∀ a x, ((![(k0_pay23 (k0_pay2 iotaV 0#32 1#32 k)), k0_pay170] : Fin 2 → IVec S16 32) a x).toNat < S64x128.size a) (x : S16.Idx) :
    k0_pay25 (loadIdx Pc ![(k0_pay1 k0_pay169 w), k0_pay24 o (k0_pay23 (k0_pay2 iotaV 0#32 1#32 k))] hP) (loadIdx Gc ![k0_pay170, (k0_pay23 (k0_pay2 iotaV 0#32 1#32 k))] hG) x
      = Tslot Gc Pc o w hw ho (idxAt ![(k0_pay23 (k0_pay2 iotaV 0#32 1#32 k)), k0_pay170] hS x) :=
  store_value Gc Pc o w hw ho (k0_pay23 (k0_pay2 iotaV 0#32 1#32 k)) k0_pay170 (k0_pay1 k0_pay169 w) (k0_pay24 o (k0_pay23 (k0_pay2 iotaV 0#32 1#32 k))) (prow_toNat w)
    (fun x => pcol2_toNat o _ x (gcol2_lt k x) ho) hP hG hS x

theorem hit_d2_j0 (k : Fin k0_t2_loop.trips)
    (hS : ∀ a x, ((![(k0_pay23 (k0_pay2 iotaV 0#32 1#32 k)), k0_pay170] : Fin 2 → IVec S16 32) a x).toNat < S64x128.size a) :
    {p | ∃ x, idxAt ![(k0_pay23 (k0_pay2 iotaV 0#32 1#32 k)), k0_pay170] hS x = p} = Hit 2 0 k.val :=
  hit_eq 2 0 k.val (k0_pay23 (k0_pay2 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay171, (k0_pay23 (k0_pay2 iotaV 0#32 1#32 k))] : Fin 2 → IVec S16 32) a x).toNat < S128x128.size a)
    (hS : ∀ a x, ((![(k0_pay23 (k0_pay2 iotaV 0#32 1#32 k)), k0_pay171] : Fin 2 → IVec S16 32) a x).toNat < S64x128.size a) (x : S16.Idx) :
    k0_pay26 (loadIdx Pc ![(k0_pay1 k0_pay169 w), k0_pay24 o (k0_pay23 (k0_pay2 iotaV 0#32 1#32 k))] hP) (loadIdx Gc ![k0_pay171, (k0_pay23 (k0_pay2 iotaV 0#32 1#32 k))] hG) x
      = Tslot Gc Pc o w hw ho (idxAt ![(k0_pay23 (k0_pay2 iotaV 0#32 1#32 k)), k0_pay171] hS x) :=
  store_value Gc Pc o w hw ho (k0_pay23 (k0_pay2 iotaV 0#32 1#32 k)) k0_pay171 (k0_pay1 k0_pay169 w) (k0_pay24 o (k0_pay23 (k0_pay2 iotaV 0#32 1#32 k))) (prow_toNat w)
    (fun x => pcol2_toNat o _ x (gcol2_lt k x) ho) hP hG hS x

theorem hit_d2_j1 (k : Fin k0_t2_loop.trips)
    (hS : ∀ a x, ((![(k0_pay23 (k0_pay2 iotaV 0#32 1#32 k)), k0_pay171] : Fin 2 → IVec S16 32) a x).toNat < S64x128.size a) :
    {p | ∃ x, idxAt ![(k0_pay23 (k0_pay2 iotaV 0#32 1#32 k)), k0_pay171] hS x = p} = Hit 2 1 k.val :=
  hit_eq 2 1 k.val (k0_pay23 (k0_pay2 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay172, (k0_pay23 (k0_pay2 iotaV 0#32 1#32 k))] : Fin 2 → IVec S16 32) a x).toNat < S128x128.size a)
    (hS : ∀ a x, ((![(k0_pay23 (k0_pay2 iotaV 0#32 1#32 k)), k0_pay172] : Fin 2 → IVec S16 32) a x).toNat < S64x128.size a) (x : S16.Idx) :
    k0_pay27 (loadIdx Pc ![(k0_pay1 k0_pay169 w), k0_pay24 o (k0_pay23 (k0_pay2 iotaV 0#32 1#32 k))] hP) (loadIdx Gc ![k0_pay172, (k0_pay23 (k0_pay2 iotaV 0#32 1#32 k))] hG) x
      = Tslot Gc Pc o w hw ho (idxAt ![(k0_pay23 (k0_pay2 iotaV 0#32 1#32 k)), k0_pay172] hS x) :=
  store_value Gc Pc o w hw ho (k0_pay23 (k0_pay2 iotaV 0#32 1#32 k)) k0_pay172 (k0_pay1 k0_pay169 w) (k0_pay24 o (k0_pay23 (k0_pay2 iotaV 0#32 1#32 k))) (prow_toNat w)
    (fun x => pcol2_toNat o _ x (gcol2_lt k x) ho) hP hG hS x

theorem hit_d2_j2 (k : Fin k0_t2_loop.trips)
    (hS : ∀ a x, ((![(k0_pay23 (k0_pay2 iotaV 0#32 1#32 k)), k0_pay172] : Fin 2 → IVec S16 32) a x).toNat < S64x128.size a) :
    {p | ∃ x, idxAt ![(k0_pay23 (k0_pay2 iotaV 0#32 1#32 k)), k0_pay172] hS x = p} = Hit 2 2 k.val :=
  hit_eq 2 2 k.val (k0_pay23 (k0_pay2 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay173, (k0_pay23 (k0_pay2 iotaV 0#32 1#32 k))] : Fin 2 → IVec S16 32) a x).toNat < S128x128.size a)
    (hS : ∀ a x, ((![(k0_pay23 (k0_pay2 iotaV 0#32 1#32 k)), k0_pay173] : Fin 2 → IVec S16 32) a x).toNat < S64x128.size a) (x : S16.Idx) :
    k0_pay28 (loadIdx Pc ![(k0_pay1 k0_pay169 w), k0_pay24 o (k0_pay23 (k0_pay2 iotaV 0#32 1#32 k))] hP) (loadIdx Gc ![k0_pay173, (k0_pay23 (k0_pay2 iotaV 0#32 1#32 k))] hG) x
      = Tslot Gc Pc o w hw ho (idxAt ![(k0_pay23 (k0_pay2 iotaV 0#32 1#32 k)), k0_pay173] hS x) :=
  store_value Gc Pc o w hw ho (k0_pay23 (k0_pay2 iotaV 0#32 1#32 k)) k0_pay173 (k0_pay1 k0_pay169 w) (k0_pay24 o (k0_pay23 (k0_pay2 iotaV 0#32 1#32 k))) (prow_toNat w)
    (fun x => pcol2_toNat o _ x (gcol2_lt k x) ho) hP hG hS x

theorem hit_d2_j3 (k : Fin k0_t2_loop.trips)
    (hS : ∀ a x, ((![(k0_pay23 (k0_pay2 iotaV 0#32 1#32 k)), k0_pay173] : Fin 2 → IVec S16 32) a x).toNat < S64x128.size a) :
    {p | ∃ x, idxAt ![(k0_pay23 (k0_pay2 iotaV 0#32 1#32 k)), k0_pay173] hS x = p} = Hit 2 3 k.val :=
  hit_eq 2 3 k.val (k0_pay23 (k0_pay2 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay174, (k0_pay23 (k0_pay2 iotaV 0#32 1#32 k))] : Fin 2 → IVec S16 32) a x).toNat < S128x128.size a)
    (hS : ∀ a x, ((![(k0_pay23 (k0_pay2 iotaV 0#32 1#32 k)), k0_pay174] : Fin 2 → IVec S16 32) a x).toNat < S64x128.size a) (x : S16.Idx) :
    k0_pay29 (loadIdx Pc ![(k0_pay1 k0_pay169 w), k0_pay24 o (k0_pay23 (k0_pay2 iotaV 0#32 1#32 k))] hP) (loadIdx Gc ![k0_pay174, (k0_pay23 (k0_pay2 iotaV 0#32 1#32 k))] hG) x
      = Tslot Gc Pc o w hw ho (idxAt ![(k0_pay23 (k0_pay2 iotaV 0#32 1#32 k)), k0_pay174] hS x) :=
  store_value Gc Pc o w hw ho (k0_pay23 (k0_pay2 iotaV 0#32 1#32 k)) k0_pay174 (k0_pay1 k0_pay169 w) (k0_pay24 o (k0_pay23 (k0_pay2 iotaV 0#32 1#32 k))) (prow_toNat w)
    (fun x => pcol2_toNat o _ x (gcol2_lt k x) ho) hP hG hS x

theorem hit_d2_j4 (k : Fin k0_t2_loop.trips)
    (hS : ∀ a x, ((![(k0_pay23 (k0_pay2 iotaV 0#32 1#32 k)), k0_pay174] : Fin 2 → IVec S16 32) a x).toNat < S64x128.size a) :
    {p | ∃ x, idxAt ![(k0_pay23 (k0_pay2 iotaV 0#32 1#32 k)), k0_pay174] hS x = p} = Hit 2 4 k.val :=
  hit_eq 2 4 k.val (k0_pay23 (k0_pay2 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay175, (k0_pay23 (k0_pay2 iotaV 0#32 1#32 k))] : Fin 2 → IVec S16 32) a x).toNat < S128x128.size a)
    (hS : ∀ a x, ((![(k0_pay23 (k0_pay2 iotaV 0#32 1#32 k)), k0_pay175] : Fin 2 → IVec S16 32) a x).toNat < S64x128.size a) (x : S16.Idx) :
    k0_pay30 (loadIdx Pc ![(k0_pay1 k0_pay169 w), k0_pay24 o (k0_pay23 (k0_pay2 iotaV 0#32 1#32 k))] hP) (loadIdx Gc ![k0_pay175, (k0_pay23 (k0_pay2 iotaV 0#32 1#32 k))] hG) x
      = Tslot Gc Pc o w hw ho (idxAt ![(k0_pay23 (k0_pay2 iotaV 0#32 1#32 k)), k0_pay175] hS x) :=
  store_value Gc Pc o w hw ho (k0_pay23 (k0_pay2 iotaV 0#32 1#32 k)) k0_pay175 (k0_pay1 k0_pay169 w) (k0_pay24 o (k0_pay23 (k0_pay2 iotaV 0#32 1#32 k))) (prow_toNat w)
    (fun x => pcol2_toNat o _ x (gcol2_lt k x) ho) hP hG hS x

theorem hit_d2_j5 (k : Fin k0_t2_loop.trips)
    (hS : ∀ a x, ((![(k0_pay23 (k0_pay2 iotaV 0#32 1#32 k)), k0_pay175] : Fin 2 → IVec S16 32) a x).toNat < S64x128.size a) :
    {p | ∃ x, idxAt ![(k0_pay23 (k0_pay2 iotaV 0#32 1#32 k)), k0_pay175] hS x = p} = Hit 2 5 k.val :=
  hit_eq 2 5 k.val (k0_pay23 (k0_pay2 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay176, (k0_pay23 (k0_pay2 iotaV 0#32 1#32 k))] : Fin 2 → IVec S16 32) a x).toNat < S128x128.size a)
    (hS : ∀ a x, ((![(k0_pay23 (k0_pay2 iotaV 0#32 1#32 k)), k0_pay176] : Fin 2 → IVec S16 32) a x).toNat < S64x128.size a) (x : S16.Idx) :
    k0_pay31 (loadIdx Pc ![(k0_pay1 k0_pay169 w), k0_pay24 o (k0_pay23 (k0_pay2 iotaV 0#32 1#32 k))] hP) (loadIdx Gc ![k0_pay176, (k0_pay23 (k0_pay2 iotaV 0#32 1#32 k))] hG) x
      = Tslot Gc Pc o w hw ho (idxAt ![(k0_pay23 (k0_pay2 iotaV 0#32 1#32 k)), k0_pay176] hS x) :=
  store_value Gc Pc o w hw ho (k0_pay23 (k0_pay2 iotaV 0#32 1#32 k)) k0_pay176 (k0_pay1 k0_pay169 w) (k0_pay24 o (k0_pay23 (k0_pay2 iotaV 0#32 1#32 k))) (prow_toNat w)
    (fun x => pcol2_toNat o _ x (gcol2_lt k x) ho) hP hG hS x

theorem hit_d2_j6 (k : Fin k0_t2_loop.trips)
    (hS : ∀ a x, ((![(k0_pay23 (k0_pay2 iotaV 0#32 1#32 k)), k0_pay176] : Fin 2 → IVec S16 32) a x).toNat < S64x128.size a) :
    {p | ∃ x, idxAt ![(k0_pay23 (k0_pay2 iotaV 0#32 1#32 k)), k0_pay176] hS x = p} = Hit 2 6 k.val :=
  hit_eq 2 6 k.val (k0_pay23 (k0_pay2 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay177, (k0_pay23 (k0_pay2 iotaV 0#32 1#32 k))] : Fin 2 → IVec S16 32) a x).toNat < S128x128.size a)
    (hS : ∀ a x, ((![(k0_pay23 (k0_pay2 iotaV 0#32 1#32 k)), k0_pay177] : Fin 2 → IVec S16 32) a x).toNat < S64x128.size a) (x : S16.Idx) :
    k0_pay32 (loadIdx Pc ![(k0_pay1 k0_pay169 w), k0_pay24 o (k0_pay23 (k0_pay2 iotaV 0#32 1#32 k))] hP) (loadIdx Gc ![k0_pay177, (k0_pay23 (k0_pay2 iotaV 0#32 1#32 k))] hG) x
      = Tslot Gc Pc o w hw ho (idxAt ![(k0_pay23 (k0_pay2 iotaV 0#32 1#32 k)), k0_pay177] hS x) :=
  store_value Gc Pc o w hw ho (k0_pay23 (k0_pay2 iotaV 0#32 1#32 k)) k0_pay177 (k0_pay1 k0_pay169 w) (k0_pay24 o (k0_pay23 (k0_pay2 iotaV 0#32 1#32 k))) (prow_toNat w)
    (fun x => pcol2_toNat o _ x (gcol2_lt k x) ho) hP hG hS x

theorem hit_d2_j7 (k : Fin k0_t2_loop.trips)
    (hS : ∀ a x, ((![(k0_pay23 (k0_pay2 iotaV 0#32 1#32 k)), k0_pay177] : Fin 2 → IVec S16 32) a x).toNat < S64x128.size a) :
    {p | ∃ x, idxAt ![(k0_pay23 (k0_pay2 iotaV 0#32 1#32 k)), k0_pay177] hS x = p} = Hit 2 7 k.val :=
  hit_eq 2 7 k.val (k0_pay23 (k0_pay2 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay170, (k0_pay33 (k0_pay2 iotaV 0#32 1#32 k))] : Fin 2 → IVec S16 32) a x).toNat < S128x128.size a)
    (hS : ∀ a x, ((![(k0_pay33 (k0_pay2 iotaV 0#32 1#32 k)), k0_pay170] : Fin 2 → IVec S16 32) a x).toNat < S64x128.size a) (x : S16.Idx) :
    k0_pay35 (loadIdx Pc ![(k0_pay1 k0_pay169 w), k0_pay34 o (k0_pay33 (k0_pay2 iotaV 0#32 1#32 k))] hP) (loadIdx Gc ![k0_pay170, (k0_pay33 (k0_pay2 iotaV 0#32 1#32 k))] hG) x
      = Tslot Gc Pc o w hw ho (idxAt ![(k0_pay33 (k0_pay2 iotaV 0#32 1#32 k)), k0_pay170] hS x) :=
  store_value Gc Pc o w hw ho (k0_pay33 (k0_pay2 iotaV 0#32 1#32 k)) k0_pay170 (k0_pay1 k0_pay169 w) (k0_pay34 o (k0_pay33 (k0_pay2 iotaV 0#32 1#32 k))) (prow_toNat w)
    (fun x => pcol3_toNat o _ x (gcol3_lt k x) ho) hP hG hS x

theorem hit_d3_j0 (k : Fin k0_t2_loop.trips)
    (hS : ∀ a x, ((![(k0_pay33 (k0_pay2 iotaV 0#32 1#32 k)), k0_pay170] : Fin 2 → IVec S16 32) a x).toNat < S64x128.size a) :
    {p | ∃ x, idxAt ![(k0_pay33 (k0_pay2 iotaV 0#32 1#32 k)), k0_pay170] hS x = p} = Hit 3 0 k.val :=
  hit_eq 3 0 k.val (k0_pay33 (k0_pay2 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay171, (k0_pay33 (k0_pay2 iotaV 0#32 1#32 k))] : Fin 2 → IVec S16 32) a x).toNat < S128x128.size a)
    (hS : ∀ a x, ((![(k0_pay33 (k0_pay2 iotaV 0#32 1#32 k)), k0_pay171] : Fin 2 → IVec S16 32) a x).toNat < S64x128.size a) (x : S16.Idx) :
    k0_pay36 (loadIdx Pc ![(k0_pay1 k0_pay169 w), k0_pay34 o (k0_pay33 (k0_pay2 iotaV 0#32 1#32 k))] hP) (loadIdx Gc ![k0_pay171, (k0_pay33 (k0_pay2 iotaV 0#32 1#32 k))] hG) x
      = Tslot Gc Pc o w hw ho (idxAt ![(k0_pay33 (k0_pay2 iotaV 0#32 1#32 k)), k0_pay171] hS x) :=
  store_value Gc Pc o w hw ho (k0_pay33 (k0_pay2 iotaV 0#32 1#32 k)) k0_pay171 (k0_pay1 k0_pay169 w) (k0_pay34 o (k0_pay33 (k0_pay2 iotaV 0#32 1#32 k))) (prow_toNat w)
    (fun x => pcol3_toNat o _ x (gcol3_lt k x) ho) hP hG hS x

theorem hit_d3_j1 (k : Fin k0_t2_loop.trips)
    (hS : ∀ a x, ((![(k0_pay33 (k0_pay2 iotaV 0#32 1#32 k)), k0_pay171] : Fin 2 → IVec S16 32) a x).toNat < S64x128.size a) :
    {p | ∃ x, idxAt ![(k0_pay33 (k0_pay2 iotaV 0#32 1#32 k)), k0_pay171] hS x = p} = Hit 3 1 k.val :=
  hit_eq 3 1 k.val (k0_pay33 (k0_pay2 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay172, (k0_pay33 (k0_pay2 iotaV 0#32 1#32 k))] : Fin 2 → IVec S16 32) a x).toNat < S128x128.size a)
    (hS : ∀ a x, ((![(k0_pay33 (k0_pay2 iotaV 0#32 1#32 k)), k0_pay172] : Fin 2 → IVec S16 32) a x).toNat < S64x128.size a) (x : S16.Idx) :
    k0_pay37 (loadIdx Pc ![(k0_pay1 k0_pay169 w), k0_pay34 o (k0_pay33 (k0_pay2 iotaV 0#32 1#32 k))] hP) (loadIdx Gc ![k0_pay172, (k0_pay33 (k0_pay2 iotaV 0#32 1#32 k))] hG) x
      = Tslot Gc Pc o w hw ho (idxAt ![(k0_pay33 (k0_pay2 iotaV 0#32 1#32 k)), k0_pay172] hS x) :=
  store_value Gc Pc o w hw ho (k0_pay33 (k0_pay2 iotaV 0#32 1#32 k)) k0_pay172 (k0_pay1 k0_pay169 w) (k0_pay34 o (k0_pay33 (k0_pay2 iotaV 0#32 1#32 k))) (prow_toNat w)
    (fun x => pcol3_toNat o _ x (gcol3_lt k x) ho) hP hG hS x

theorem hit_d3_j2 (k : Fin k0_t2_loop.trips)
    (hS : ∀ a x, ((![(k0_pay33 (k0_pay2 iotaV 0#32 1#32 k)), k0_pay172] : Fin 2 → IVec S16 32) a x).toNat < S64x128.size a) :
    {p | ∃ x, idxAt ![(k0_pay33 (k0_pay2 iotaV 0#32 1#32 k)), k0_pay172] hS x = p} = Hit 3 2 k.val :=
  hit_eq 3 2 k.val (k0_pay33 (k0_pay2 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay173, (k0_pay33 (k0_pay2 iotaV 0#32 1#32 k))] : Fin 2 → IVec S16 32) a x).toNat < S128x128.size a)
    (hS : ∀ a x, ((![(k0_pay33 (k0_pay2 iotaV 0#32 1#32 k)), k0_pay173] : Fin 2 → IVec S16 32) a x).toNat < S64x128.size a) (x : S16.Idx) :
    k0_pay38 (loadIdx Pc ![(k0_pay1 k0_pay169 w), k0_pay34 o (k0_pay33 (k0_pay2 iotaV 0#32 1#32 k))] hP) (loadIdx Gc ![k0_pay173, (k0_pay33 (k0_pay2 iotaV 0#32 1#32 k))] hG) x
      = Tslot Gc Pc o w hw ho (idxAt ![(k0_pay33 (k0_pay2 iotaV 0#32 1#32 k)), k0_pay173] hS x) :=
  store_value Gc Pc o w hw ho (k0_pay33 (k0_pay2 iotaV 0#32 1#32 k)) k0_pay173 (k0_pay1 k0_pay169 w) (k0_pay34 o (k0_pay33 (k0_pay2 iotaV 0#32 1#32 k))) (prow_toNat w)
    (fun x => pcol3_toNat o _ x (gcol3_lt k x) ho) hP hG hS x

theorem hit_d3_j3 (k : Fin k0_t2_loop.trips)
    (hS : ∀ a x, ((![(k0_pay33 (k0_pay2 iotaV 0#32 1#32 k)), k0_pay173] : Fin 2 → IVec S16 32) a x).toNat < S64x128.size a) :
    {p | ∃ x, idxAt ![(k0_pay33 (k0_pay2 iotaV 0#32 1#32 k)), k0_pay173] hS x = p} = Hit 3 3 k.val :=
  hit_eq 3 3 k.val (k0_pay33 (k0_pay2 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay174, (k0_pay33 (k0_pay2 iotaV 0#32 1#32 k))] : Fin 2 → IVec S16 32) a x).toNat < S128x128.size a)
    (hS : ∀ a x, ((![(k0_pay33 (k0_pay2 iotaV 0#32 1#32 k)), k0_pay174] : Fin 2 → IVec S16 32) a x).toNat < S64x128.size a) (x : S16.Idx) :
    k0_pay39 (loadIdx Pc ![(k0_pay1 k0_pay169 w), k0_pay34 o (k0_pay33 (k0_pay2 iotaV 0#32 1#32 k))] hP) (loadIdx Gc ![k0_pay174, (k0_pay33 (k0_pay2 iotaV 0#32 1#32 k))] hG) x
      = Tslot Gc Pc o w hw ho (idxAt ![(k0_pay33 (k0_pay2 iotaV 0#32 1#32 k)), k0_pay174] hS x) :=
  store_value Gc Pc o w hw ho (k0_pay33 (k0_pay2 iotaV 0#32 1#32 k)) k0_pay174 (k0_pay1 k0_pay169 w) (k0_pay34 o (k0_pay33 (k0_pay2 iotaV 0#32 1#32 k))) (prow_toNat w)
    (fun x => pcol3_toNat o _ x (gcol3_lt k x) ho) hP hG hS x

theorem hit_d3_j4 (k : Fin k0_t2_loop.trips)
    (hS : ∀ a x, ((![(k0_pay33 (k0_pay2 iotaV 0#32 1#32 k)), k0_pay174] : Fin 2 → IVec S16 32) a x).toNat < S64x128.size a) :
    {p | ∃ x, idxAt ![(k0_pay33 (k0_pay2 iotaV 0#32 1#32 k)), k0_pay174] hS x = p} = Hit 3 4 k.val :=
  hit_eq 3 4 k.val (k0_pay33 (k0_pay2 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay175, (k0_pay33 (k0_pay2 iotaV 0#32 1#32 k))] : Fin 2 → IVec S16 32) a x).toNat < S128x128.size a)
    (hS : ∀ a x, ((![(k0_pay33 (k0_pay2 iotaV 0#32 1#32 k)), k0_pay175] : Fin 2 → IVec S16 32) a x).toNat < S64x128.size a) (x : S16.Idx) :
    k0_pay40 (loadIdx Pc ![(k0_pay1 k0_pay169 w), k0_pay34 o (k0_pay33 (k0_pay2 iotaV 0#32 1#32 k))] hP) (loadIdx Gc ![k0_pay175, (k0_pay33 (k0_pay2 iotaV 0#32 1#32 k))] hG) x
      = Tslot Gc Pc o w hw ho (idxAt ![(k0_pay33 (k0_pay2 iotaV 0#32 1#32 k)), k0_pay175] hS x) :=
  store_value Gc Pc o w hw ho (k0_pay33 (k0_pay2 iotaV 0#32 1#32 k)) k0_pay175 (k0_pay1 k0_pay169 w) (k0_pay34 o (k0_pay33 (k0_pay2 iotaV 0#32 1#32 k))) (prow_toNat w)
    (fun x => pcol3_toNat o _ x (gcol3_lt k x) ho) hP hG hS x

theorem hit_d3_j5 (k : Fin k0_t2_loop.trips)
    (hS : ∀ a x, ((![(k0_pay33 (k0_pay2 iotaV 0#32 1#32 k)), k0_pay175] : Fin 2 → IVec S16 32) a x).toNat < S64x128.size a) :
    {p | ∃ x, idxAt ![(k0_pay33 (k0_pay2 iotaV 0#32 1#32 k)), k0_pay175] hS x = p} = Hit 3 5 k.val :=
  hit_eq 3 5 k.val (k0_pay33 (k0_pay2 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay176, (k0_pay33 (k0_pay2 iotaV 0#32 1#32 k))] : Fin 2 → IVec S16 32) a x).toNat < S128x128.size a)
    (hS : ∀ a x, ((![(k0_pay33 (k0_pay2 iotaV 0#32 1#32 k)), k0_pay176] : Fin 2 → IVec S16 32) a x).toNat < S64x128.size a) (x : S16.Idx) :
    k0_pay41 (loadIdx Pc ![(k0_pay1 k0_pay169 w), k0_pay34 o (k0_pay33 (k0_pay2 iotaV 0#32 1#32 k))] hP) (loadIdx Gc ![k0_pay176, (k0_pay33 (k0_pay2 iotaV 0#32 1#32 k))] hG) x
      = Tslot Gc Pc o w hw ho (idxAt ![(k0_pay33 (k0_pay2 iotaV 0#32 1#32 k)), k0_pay176] hS x) :=
  store_value Gc Pc o w hw ho (k0_pay33 (k0_pay2 iotaV 0#32 1#32 k)) k0_pay176 (k0_pay1 k0_pay169 w) (k0_pay34 o (k0_pay33 (k0_pay2 iotaV 0#32 1#32 k))) (prow_toNat w)
    (fun x => pcol3_toNat o _ x (gcol3_lt k x) ho) hP hG hS x

theorem hit_d3_j6 (k : Fin k0_t2_loop.trips)
    (hS : ∀ a x, ((![(k0_pay33 (k0_pay2 iotaV 0#32 1#32 k)), k0_pay176] : Fin 2 → IVec S16 32) a x).toNat < S64x128.size a) :
    {p | ∃ x, idxAt ![(k0_pay33 (k0_pay2 iotaV 0#32 1#32 k)), k0_pay176] hS x = p} = Hit 3 6 k.val :=
  hit_eq 3 6 k.val (k0_pay33 (k0_pay2 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay177, (k0_pay33 (k0_pay2 iotaV 0#32 1#32 k))] : Fin 2 → IVec S16 32) a x).toNat < S128x128.size a)
    (hS : ∀ a x, ((![(k0_pay33 (k0_pay2 iotaV 0#32 1#32 k)), k0_pay177] : Fin 2 → IVec S16 32) a x).toNat < S64x128.size a) (x : S16.Idx) :
    k0_pay42 (loadIdx Pc ![(k0_pay1 k0_pay169 w), k0_pay34 o (k0_pay33 (k0_pay2 iotaV 0#32 1#32 k))] hP) (loadIdx Gc ![k0_pay177, (k0_pay33 (k0_pay2 iotaV 0#32 1#32 k))] hG) x
      = Tslot Gc Pc o w hw ho (idxAt ![(k0_pay33 (k0_pay2 iotaV 0#32 1#32 k)), k0_pay177] hS x) :=
  store_value Gc Pc o w hw ho (k0_pay33 (k0_pay2 iotaV 0#32 1#32 k)) k0_pay177 (k0_pay1 k0_pay169 w) (k0_pay34 o (k0_pay33 (k0_pay2 iotaV 0#32 1#32 k))) (prow_toNat w)
    (fun x => pcol3_toNat o _ x (gcol3_lt k x) ho) hP hG hS x

theorem hit_d3_j7 (k : Fin k0_t2_loop.trips)
    (hS : ∀ a x, ((![(k0_pay33 (k0_pay2 iotaV 0#32 1#32 k)), k0_pay177] : Fin 2 → IVec S16 32) a x).toNat < S64x128.size a) :
    {p | ∃ x, idxAt ![(k0_pay33 (k0_pay2 iotaV 0#32 1#32 k)), k0_pay177] hS x = p} = Hit 3 7 k.val :=
  hit_eq 3 7 k.val (k0_pay33 (k0_pay2 iotaV 0#32 1#32 k)) k0_pay177
    (fun x => by rw [gcol3_toNat]; show _ = (ln x + k.val) % 16 + 16 * 3; omega)
    (fun x => by rw [pay177_toNat]; show _ = 16 * 7 + ln x; omega) hS

end Cert.Lanes.C1
-- ==== Proof.LaneListC1.lean ====
/-
  One whole trip of the inner loop k0_t2_loop on the block held as one listed piece: the vector it leaves.

  The trip's 32 scatters in program order — feature groups 0 to 3, in each the eight row groups.  The first scatters
  into what the contents before the trip read through the whole rectangle, each later one into what the one-piece
  list of the previous scatter's vector reads back (`grpX0` … `grpX3`, `chainX`).  Each adds the 16 elements
  `Hit dc j k` to the elements that hold the target's value and loses none (`grp*X_good`); the block left as the one
  piece of the last vector holds it on everything written before trip `k + 1` (`trip_goodL`).
-/
import proofs.«206908_g46772193853751_cont_8to1c4_160_30_alg».proof.Proof.LaneList
import proofs.«206908_g46772193853751_cont_8to1c4_160_30_alg».proof.Proof.LaneTrip1

noncomputable section

namespace Cert.Lanes.C1

open Idealize.ShloMosaic Idealize.ShloMosaic.ValueIdx Cert.KernelIdeal Cert.KernelIdeal.Gen Cert.Lanes

variable {F : FTy → Type} [FloatOps F]
variable {sg : RefSig} {κ : Kind} {sp : Space}

/-- The eight scatters of feature group 0, row groups 0 to 7 in order, the first into the vector `X`. -/
def grpX0 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (storeIdx X
      ![(k0_pay3 iotaV 0#32 1#32 k), k0_pay170] (k0_pay5 (loadIdx Pc ![(k0_pay1 k0_pay169 w), k0_pay4 o (k0_pay3 iotaV 0#32 1#32 k)] (chkP0_trip k o w hw ho)) (loadIdx Gc ![k0_pay170, (k0_pay3 iotaV 0#32 1#32 k)] (chkG0_trip k).1))
      (fun _ => 1#1) false (chkG0_trip k).2.2.2.2.2.2.2.2.1)
      ![(k0_pay3 iotaV 0#32 1#32 k), k0_pay171] (k0_pay6 (loadIdx Pc ![(k0_pay1 k0_pay169 w), k0_pay4 o (k0_pay3 iotaV 0#32 1#32 k)] (chkP0_trip k o w hw ho)) (loadIdx Gc ![k0_pay171, (k0_pay3 iotaV 0#32 1#32 k)] (chkG0_trip k).2.1))
      (chkG0_trip k).2.2.2.2.2.2.2.2.2.1)
      ![(k0_pay3 iotaV 0#32 1#32 k), k0_pay172] (k0_pay7 (loadIdx Pc ![(k0_pay1 k0_pay169 w), k0_pay4 o (k0_pay3 iotaV 0#32 1#32 k)] (chkP0_trip k o w hw ho)) (loadIdx Gc ![k0_pay172, (k0_pay3 iotaV 0#32 1#32 k)] (chkG0_trip k).2.2.1))
      (chkG0_trip k).2.2.2.2.2.2.2.2.2.2.1)
      ![(k0_pay3 iotaV 0#32 1#32 k), k0_pay173] (k0_pay8 (loadIdx Pc ![(k0_pay1 k0_pay169 w), k0_pay4 o (k0_pay3 iotaV 0#32 1#32 k)] (chkP0_trip k o w hw ho)) (loadIdx Gc ![k0_pay173, (k0_pay3 iotaV 0#32 1#32 k)] (chkG0_trip k).2.2.2.1))
      (chkG0_trip k).2.2.2.2.2.2.2.2.2.2.2.1)
      ![(k0_pay3 iotaV 0#32 1#32 k), k0_pay174] (k0_pay9 (loadIdx Pc ![(k0_pay1 k0_pay169 w), k0_pay4 o (k0_pay3 iotaV 0#32 1#32 k)] (chkP0_trip k o w hw ho)) (loadIdx Gc ![k0_pay174, (k0_pay3 iotaV 0#32 1#32 k)] (chkG0_trip k).2.2.2.2.1))
      (chkG0_trip k).2.2.2.2.2.2.2.2.2.2.2.2.1)
      ![(k0_pay3 iotaV 0#32 1#32 k), k0_pay175] (k0_pay10 (loadIdx Pc ![(k0_pay1 k0_pay169 w), k0_pay4 o (k0_pay3 iotaV 0#32 1#32 k)] (chkP0_trip k o w hw ho)) (loadIdx Gc ![k0_pay175, (k0_pay3 iotaV 0#32 1#32 k)] (chkG0_trip k).2.2.2.2.2.1))
      (chkG0_trip k).2.2.2.2.2.2.2.2.2.2.2.2.2.1)
      ![(k0_pay3 iotaV 0#32 1#32 k), k0_pay176] (k0_pay11 (loadIdx Pc ![(k0_pay1 k0_pay169 w), k0_pay4 o (k0_pay3 iotaV 0#32 1#32 k)] (chkP0_trip k o w hw ho)) (loadIdx Gc ![k0_pay176, (k0_pay3 iotaV 0#32 1#32 k)] (chkG0_trip k).2.2.2.2.2.2.1))
      (chkG0_trip k).2.2.2.2.2.2.2.2.2.2.2.2.2.2.1)
      ![(k0_pay3 iotaV 0#32 1#32 k), k0_pay177] (k0_pay12 (loadIdx Pc ![(k0_pay1 k0_pay169 w), k0_pay4 o (k0_pay3 iotaV 0#32 1#32 k)] (chkP0_trip k o w hw ho)) (loadIdx Gc ![k0_pay177, (k0_pay3 iotaV 0#32 1#32 k)] (chkG0_trip k).2.2.2.2.2.2.2.1))
      (chkG0_trip k).2.2.2.2.2.2.2.2.2.2.2.2.2.2.2)

theorem grp0X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 0 0 k.val ∪ Hit 0 1 k.val ∪ Hit 0 2 k.val ∪ Hit 0 3 k.val ∪ Hit 0 4 k.val ∪ Hit 0 5 k.val ∪ Hit 0 6 k.val ∪ Hit 0 7 k.val) (grpX0 M Gc Pc o w hw ho k X) := by
  have g0 := goodV_first ![(k0_pay3 iotaV 0#32 1#32 k), k0_pay170] (k0_pay5 (loadIdx Pc ![(k0_pay1 k0_pay169 w), k0_pay4 o (k0_pay3 iotaV 0#32 1#32 k)] (chkP0_trip k o w hw ho)) (loadIdx Gc ![k0_pay170, (k0_pay3 iotaV 0#32 1#32 k)] (chkG0_trip k).1))
    (chkG0_trip k).2.2.2.2.2.2.2.2.1
    (val_d0_j0 k Gc Pc o w hw ho (chkP0_trip k o w hw ho) (chkG0_trip k).1 (chkG0_trip k).2.2.2.2.2.2.2.2.1)
    (hit_d0_j0 k (chkG0_trip k).2.2.2.2.2.2.2.2.1) hX
  have g1 := goodV_step M ![(k0_pay3 iotaV 0#32 1#32 k), k0_pay171] (k0_pay6 (loadIdx Pc ![(k0_pay1 k0_pay169 w), k0_pay4 o (k0_pay3 iotaV 0#32 1#32 k)] (chkP0_trip k o w hw ho)) (loadIdx Gc ![k0_pay171, (k0_pay3 iotaV 0#32 1#32 k)] (chkG0_trip k).2.1))
    (chkG0_trip k).2.2.2.2.2.2.2.2.2.1
    (val_d0_j1 k Gc Pc o w hw ho (chkP0_trip k o w hw ho) (chkG0_trip k).2.1 (chkG0_trip k).2.2.2.2.2.2.2.2.2.1)
    (hit_d0_j1 k (chkG0_trip k).2.2.2.2.2.2.2.2.2.1) g0
  have g2 := goodV_step M ![(k0_pay3 iotaV 0#32 1#32 k), k0_pay172] (k0_pay7 (loadIdx Pc ![(k0_pay1 k0_pay169 w), k0_pay4 o (k0_pay3 iotaV 0#32 1#32 k)] (chkP0_trip k o w hw ho)) (loadIdx Gc ![k0_pay172, (k0_pay3 iotaV 0#32 1#32 k)] (chkG0_trip k).2.2.1))
    (chkG0_trip k).2.2.2.2.2.2.2.2.2.2.1
    (val_d0_j2 k Gc Pc o w hw ho (chkP0_trip k o w hw ho) (chkG0_trip k).2.2.1 (chkG0_trip k).2.2.2.2.2.2.2.2.2.2.1)
    (hit_d0_j2 k (chkG0_trip k).2.2.2.2.2.2.2.2.2.2.1) g1
  have g3 := goodV_step M ![(k0_pay3 iotaV 0#32 1#32 k), k0_pay173] (k0_pay8 (loadIdx Pc ![(k0_pay1 k0_pay169 w), k0_pay4 o (k0_pay3 iotaV 0#32 1#32 k)] (chkP0_trip k o w hw ho)) (loadIdx Gc ![k0_pay173, (k0_pay3 iotaV 0#32 1#32 k)] (chkG0_trip k).2.2.2.1))
    (chkG0_trip k).2.2.2.2.2.2.2.2.2.2.2.1
    (val_d0_j3 k Gc Pc o w hw ho (chkP0_trip k o w hw ho) (chkG0_trip k).2.2.2.1 (chkG0_trip k).2.2.2.2.2.2.2.2.2.2.2.1)
    (hit_d0_j3 k (chkG0_trip k).2.2.2.2.2.2.2.2.2.2.2.1) g2
  have g4 := goodV_step M ![(k0_pay3 iotaV 0#32 1#32 k), k0_pay174] (k0_pay9 (loadIdx Pc ![(k0_pay1 k0_pay169 w), k0_pay4 o (k0_pay3 iotaV 0#32 1#32 k)] (chkP0_trip k o w hw ho)) (loadIdx Gc ![k0_pay174, (k0_pay3 iotaV 0#32 1#32 k)] (chkG0_trip k).2.2.2.2.1))
    (chkG0_trip k).2.2.2.2.2.2.2.2.2.2.2.2.1
    (val_d0_j4 k Gc Pc o w hw ho (chkP0_trip k o w hw ho) (chkG0_trip k).2.2.2.2.1 (chkG0_trip k).2.2.2.2.2.2.2.2.2.2.2.2.1)
    (hit_d0_j4 k (chkG0_trip k).2.2.2.2.2.2.2.2.2.2.2.2.1) g3
  have g5 := goodV_step M ![(k0_pay3 iotaV 0#32 1#32 k), k0_pay175] (k0_pay10 (loadIdx Pc ![(k0_pay1 k0_pay169 w), k0_pay4 o (k0_pay3 iotaV 0#32 1#32 k)] (chkP0_trip k o w hw ho)) (loadIdx Gc ![k0_pay175, (k0_pay3 iotaV 0#32 1#32 k)] (chkG0_trip k).2.2.2.2.2.1))
    (chkG0_trip k).2.2.2.2.2.2.2.2.2.2.2.2.2.1
    (val_d0_j5 k Gc Pc o w hw ho (chkP0_trip k o w hw ho) (chkG0_trip k).2.2.2.2.2.1 (chkG0_trip k).2.2.2.2.2.2.2.2.2.2.2.2.2.1)
    (hit_d0_j5 k (chkG0_trip k).2.2.2.2.2.2.2.2.2.2.2.2.2.1) g4
  have g6 := goodV_step M ![(k0_pay3 iotaV 0#32 1#32 k), k0_pay176] (k0_pay11 (loadIdx Pc ![(k0_pay1 k0_pay169 w), k0_pay4 o (k0_pay3 iotaV 0#32 1#32 k)] (chkP0_trip k o w hw ho)) (loadIdx Gc ![k0_pay176, (k0_pay3 iotaV 0#32 1#32 k)] (chkG0_trip k).2.2.2.2.2.2.1))
    (chkG0_trip k).2.2.2.2.2.2.2.2.2.2.2.2.2.2.1
    (val_d0_j6 k Gc Pc o w hw ho (chkP0_trip k o w hw ho) (chkG0_trip k).2.2.2.2.2.2.1 (chkG0_trip k).2.2.2.2.2.2.2.2.2.2.2.2.2.2.1)
    (hit_d0_j6 k (chkG0_trip k).2.2.2.2.2.2.2.2.2.2.2.2.2.2.1) g5
  have g7 := goodV_step M ![(k0_pay3 iotaV 0#32 1#32 k), k0_pay177] (k0_pay12 (loadIdx Pc ![(k0_pay1 k0_pay169 w), k0_pay4 o (k0_pay3 iotaV 0#32 1#32 k)] (chkP0_trip k o w hw ho)) (loadIdx Gc ![k0_pay177, (k0_pay3 iotaV 0#32 1#32 k)] (chkG0_trip k).2.2.2.2.2.2.2.1))
    (chkG0_trip k).2.2.2.2.2.2.2.2.2.2.2.2.2.2.2
    (val_d0_j7 k Gc Pc o w hw ho (chkP0_trip k o w hw ho) (chkG0_trip k).2.2.2.2.2.2.2.1 (chkG0_trip k).2.2.2.2.2.2.2.2.2.2.2.2.2.2.2)
    (hit_d0_j7 k (chkG0_trip k).2.2.2.2.2.2.2.2.2.2.2.2.2.2.2) g6
  exact g7

/-- The eight scatters of feature group 1, row groups 0 to 7 in order, into the one-piece list of `X`. -/
def grpX1 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (stepX M X
      ![(k0_pay13 (k0_pay2 iotaV 0#32 1#32 k)), k0_pay170] (k0_pay15 (loadIdx Pc ![(k0_pay1 k0_pay169 w), k0_pay14 o (k0_pay13 (k0_pay2 iotaV 0#32 1#32 k))] (chkP1_trip k o w hw ho)) (loadIdx Gc ![k0_pay170, (k0_pay13 (k0_pay2 iotaV 0#32 1#32 k))] (chkG1_trip k).1))
      (chkG1_trip k).2.2.2.2.2.2.2.2.1)
      ![(k0_pay13 (k0_pay2 iotaV 0#32 1#32 k)), k0_pay171] (k0_pay16 (loadIdx Pc ![(k0_pay1 k0_pay169 w), k0_pay14 o (k0_pay13 (k0_pay2 iotaV 0#32 1#32 k))] (chkP1_trip k o w hw ho)) (loadIdx Gc ![k0_pay171, (k0_pay13 (k0_pay2 iotaV 0#32 1#32 k))] (chkG1_trip k).2.1))
      (chkG1_trip k).2.2.2.2.2.2.2.2.2.1)
      ![(k0_pay13 (k0_pay2 iotaV 0#32 1#32 k)), k0_pay172] (k0_pay17 (loadIdx Pc ![(k0_pay1 k0_pay169 w), k0_pay14 o (k0_pay13 (k0_pay2 iotaV 0#32 1#32 k))] (chkP1_trip k o w hw ho)) (loadIdx Gc ![k0_pay172, (k0_pay13 (k0_pay2 iotaV 0#32 1#32 k))] (chkG1_trip k).2.2.1))
      (chkG1_trip k).2.2.2.2.2.2.2.2.2.2.1)
      ![(k0_pay13 (k0_pay2 iotaV 0#32 1#32 k)), k0_pay173] (k0_pay18 (loadIdx Pc ![(k0_pay1 k0_pay169 w), k0_pay14 o (k0_pay13 (k0_pay2 iotaV 0#32 1#32 k))] (chkP1_trip k o w hw ho)) (loadIdx Gc ![k0_pay173, (k0_pay13 (k0_pay2 iotaV 0#32 1#32 k))] (chkG1_trip k).2.2.2.1))
      (chkG1_trip k).2.2.2.2.2.2.2.2.2.2.2.1)
      ![(k0_pay13 (k0_pay2 iotaV 0#32 1#32 k)), k0_pay174] (k0_pay19 (loadIdx Pc ![(k0_pay1 k0_pay169 w), k0_pay14 o (k0_pay13 (k0_pay2 iotaV 0#32 1#32 k))] (chkP1_trip k o w hw ho)) (loadIdx Gc ![k0_pay174, (k0_pay13 (k0_pay2 iotaV 0#32 1#32 k))] (chkG1_trip k).2.2.2.2.1))
      (chkG1_trip k).2.2.2.2.2.2.2.2.2.2.2.2.1)
      ![(k0_pay13 (k0_pay2 iotaV 0#32 1#32 k)), k0_pay175] (k0_pay20 (loadIdx Pc ![(k0_pay1 k0_pay169 w), k0_pay14 o (k0_pay13 (k0_pay2 iotaV 0#32 1#32 k))] (chkP1_trip k o w hw ho)) (loadIdx Gc ![k0_pay175, (k0_pay13 (k0_pay2 iotaV 0#32 1#32 k))] (chkG1_trip k).2.2.2.2.2.1))
      (chkG1_trip k).2.2.2.2.2.2.2.2.2.2.2.2.2.1)
      ![(k0_pay13 (k0_pay2 iotaV 0#32 1#32 k)), k0_pay176] (k0_pay21 (loadIdx Pc ![(k0_pay1 k0_pay169 w), k0_pay14 o (k0_pay13 (k0_pay2 iotaV 0#32 1#32 k))] (chkP1_trip k o w hw ho)) (loadIdx Gc ![k0_pay176, (k0_pay13 (k0_pay2 iotaV 0#32 1#32 k))] (chkG1_trip k).2.2.2.2.2.2.1))
      (chkG1_trip k).2.2.2.2.2.2.2.2.2.2.2.2.2.2.1)
      ![(k0_pay13 (k0_pay2 iotaV 0#32 1#32 k)), k0_pay177] (k0_pay22 (loadIdx Pc ![(k0_pay1 k0_pay169 w), k0_pay14 o (k0_pay13 (k0_pay2 iotaV 0#32 1#32 k))] (chkP1_trip k o w hw ho)) (loadIdx Gc ![k0_pay177, (k0_pay13 (k0_pay2 iotaV 0#32 1#32 k))] (chkG1_trip k).2.2.2.2.2.2.2.1))
      (chkG1_trip k).2.2.2.2.2.2.2.2.2.2.2.2.2.2.2)

theorem grp1X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 1 0 k.val ∪ Hit 1 1 k.val ∪ Hit 1 2 k.val ∪ Hit 1 3 k.val ∪ Hit 1 4 k.val ∪ Hit 1 5 k.val ∪ Hit 1 6 k.val ∪ Hit 1 7 k.val) (grpX1 M Gc Pc o w hw ho k X) := by
  have g0 := goodV_step M ![(k0_pay13 (k0_pay2 iotaV 0#32 1#32 k)), k0_pay170] (k0_pay15 (loadIdx Pc ![(k0_pay1 k0_pay169 w), k0_pay14 o (k0_pay13 (k0_pay2 iotaV 0#32 1#32 k))] (chkP1_trip k o w hw ho)) (loadIdx Gc ![k0_pay170, (k0_pay13 (k0_pay2 iotaV 0#32 1#32 k))] (chkG1_trip k).1))
    (chkG1_trip k).2.2.2.2.2.2.2.2.1
    (val_d1_j0 k Gc Pc o w hw ho (chkP1_trip k o w hw ho) (chkG1_trip k).1 (chkG1_trip k).2.2.2.2.2.2.2.2.1)
    (hit_d1_j0 k (chkG1_trip k).2.2.2.2.2.2.2.2.1) hX
  have g1 := goodV_step M ![(k0_pay13 (k0_pay2 iotaV 0#32 1#32 k)), k0_pay171] (k0_pay16 (loadIdx Pc ![(k0_pay1 k0_pay169 w), k0_pay14 o (k0_pay13 (k0_pay2 iotaV 0#32 1#32 k))] (chkP1_trip k o w hw ho)) (loadIdx Gc ![k0_pay171, (k0_pay13 (k0_pay2 iotaV 0#32 1#32 k))] (chkG1_trip k).2.1))
    (chkG1_trip k).2.2.2.2.2.2.2.2.2.1
    (val_d1_j1 k Gc Pc o w hw ho (chkP1_trip k o w hw ho) (chkG1_trip k).2.1 (chkG1_trip k).2.2.2.2.2.2.2.2.2.1)
    (hit_d1_j1 k (chkG1_trip k).2.2.2.2.2.2.2.2.2.1) g0
  have g2 := goodV_step M ![(k0_pay13 (k0_pay2 iotaV 0#32 1#32 k)), k0_pay172] (k0_pay17 (loadIdx Pc ![(k0_pay1 k0_pay169 w), k0_pay14 o (k0_pay13 (k0_pay2 iotaV 0#32 1#32 k))] (chkP1_trip k o w hw ho)) (loadIdx Gc ![k0_pay172, (k0_pay13 (k0_pay2 iotaV 0#32 1#32 k))] (chkG1_trip k).2.2.1))
    (chkG1_trip k).2.2.2.2.2.2.2.2.2.2.1
    (val_d1_j2 k Gc Pc o w hw ho (chkP1_trip k o w hw ho) (chkG1_trip k).2.2.1 (chkG1_trip k).2.2.2.2.2.2.2.2.2.2.1)
    (hit_d1_j2 k (chkG1_trip k).2.2.2.2.2.2.2.2.2.2.1) g1
  have g3 := goodV_step M ![(k0_pay13 (k0_pay2 iotaV 0#32 1#32 k)), k0_pay173] (k0_pay18 (loadIdx Pc ![(k0_pay1 k0_pay169 w), k0_pay14 o (k0_pay13 (k0_pay2 iotaV 0#32 1#32 k))] (chkP1_trip k o w hw ho)) (loadIdx Gc ![k0_pay173, (k0_pay13 (k0_pay2 iotaV 0#32 1#32 k))] (chkG1_trip k).2.2.2.1))
    (chkG1_trip k).2.2.2.2.2.2.2.2.2.2.2.1
    (val_d1_j3 k Gc Pc o w hw ho (chkP1_trip k o w hw ho) (chkG1_trip k).2.2.2.1 (chkG1_trip k).2.2.2.2.2.2.2.2.2.2.2.1)
    (hit_d1_j3 k (chkG1_trip k).2.2.2.2.2.2.2.2.2.2.2.1) g2
  have g4 := goodV_step M ![(k0_pay13 (k0_pay2 iotaV 0#32 1#32 k)), k0_pay174] (k0_pay19 (loadIdx Pc ![(k0_pay1 k0_pay169 w), k0_pay14 o (k0_pay13 (k0_pay2 iotaV 0#32 1#32 k))] (chkP1_trip k o w hw ho)) (loadIdx Gc ![k0_pay174, (k0_pay13 (k0_pay2 iotaV 0#32 1#32 k))] (chkG1_trip k).2.2.2.2.1))
    (chkG1_trip k).2.2.2.2.2.2.2.2.2.2.2.2.1
    (val_d1_j4 k Gc Pc o w hw ho (chkP1_trip k o w hw ho) (chkG1_trip k).2.2.2.2.1 (chkG1_trip k).2.2.2.2.2.2.2.2.2.2.2.2.1)
    (hit_d1_j4 k (chkG1_trip k).2.2.2.2.2.2.2.2.2.2.2.2.1) g3
  have g5 := goodV_step M ![(k0_pay13 (k0_pay2 iotaV 0#32 1#32 k)), k0_pay175] (k0_pay20 (loadIdx Pc ![(k0_pay1 k0_pay169 w), k0_pay14 o (k0_pay13 (k0_pay2 iotaV 0#32 1#32 k))] (chkP1_trip k o w hw ho)) (loadIdx Gc ![k0_pay175, (k0_pay13 (k0_pay2 iotaV 0#32 1#32 k))] (chkG1_trip k).2.2.2.2.2.1))
    (chkG1_trip k).2.2.2.2.2.2.2.2.2.2.2.2.2.1
    (val_d1_j5 k Gc Pc o w hw ho (chkP1_trip k o w hw ho) (chkG1_trip k).2.2.2.2.2.1 (chkG1_trip k).2.2.2.2.2.2.2.2.2.2.2.2.2.1)
    (hit_d1_j5 k (chkG1_trip k).2.2.2.2.2.2.2.2.2.2.2.2.2.1) g4
  have g6 := goodV_step M ![(k0_pay13 (k0_pay2 iotaV 0#32 1#32 k)), k0_pay176] (k0_pay21 (loadIdx Pc ![(k0_pay1 k0_pay169 w), k0_pay14 o (k0_pay13 (k0_pay2 iotaV 0#32 1#32 k))] (chkP1_trip k o w hw ho)) (loadIdx Gc ![k0_pay176, (k0_pay13 (k0_pay2 iotaV 0#32 1#32 k))] (chkG1_trip k).2.2.2.2.2.2.1))
    (chkG1_trip k).2.2.2.2.2.2.2.2.2.2.2.2.2.2.1
    (val_d1_j6 k Gc Pc o w hw ho (chkP1_trip k o w hw ho) (chkG1_trip k).2.2.2.2.2.2.1 (chkG1_trip k).2.2.2.2.2.2.2.2.2.2.2.2.2.2.1)
    (hit_d1_j6 k (chkG1_trip k).2.2.2.2.2.2.2.2.2.2.2.2.2.2.1) g5
  have g7 := goodV_step M ![(k0_pay13 (k0_pay2 iotaV 0#32 1#32 k)), k0_pay177] (k0_pay22 (loadIdx Pc ![(k0_pay1 k0_pay169 w), k0_pay14 o (k0_pay13 (k0_pay2 iotaV 0#32 1#32 k))] (chkP1_trip k o w hw ho)) (loadIdx Gc ![k0_pay177, (k0_pay13 (k0_pay2 iotaV 0#32 1#32 k))] (chkG1_trip k).2.2.2.2.2.2.2.1))
    (chkG1_trip k).2.2.2.2.2.2.2.2.2.2.2.2.2.2.2
    (val_d1_j7 k Gc Pc o w hw ho (chkP1_trip k o w hw ho) (chkG1_trip k).2.2.2.2.2.2.2.1 (chkG1_trip k).2.2.2.2.2.2.2.2.2.2.2.2.2.2.2)
    (hit_d1_j7 k (chkG1_trip k).2.2.2.2.2.2.2.2.2.2.2.2.2.2.2) g6
  exact g7

/-- The eight scatters of feature group 2, row groups 0 to 7 in order, into the one-piece list of `X`. -/
def grpX2 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (stepX M X
      ![(k0_pay23 (k0_pay2 iotaV 0#32 1#32 k)), k0_pay170] (k0_pay25 (loadIdx Pc ![(k0_pay1 k0_pay169 w), k0_pay24 o (k0_pay23 (k0_pay2 iotaV 0#32 1#32 k))] (chkP2_trip k o w hw ho)) (loadIdx Gc ![k0_pay170, (k0_pay23 (k0_pay2 iotaV 0#32 1#32 k))] (chkG2_trip k).1))
      (chkG2_trip k).2.2.2.2.2.2.2.2.1)
      ![(k0_pay23 (k0_pay2 iotaV 0#32 1#32 k)), k0_pay171] (k0_pay26 (loadIdx Pc ![(k0_pay1 k0_pay169 w), k0_pay24 o (k0_pay23 (k0_pay2 iotaV 0#32 1#32 k))] (chkP2_trip k o w hw ho)) (loadIdx Gc ![k0_pay171, (k0_pay23 (k0_pay2 iotaV 0#32 1#32 k))] (chkG2_trip k).2.1))
      (chkG2_trip k).2.2.2.2.2.2.2.2.2.1)
      ![(k0_pay23 (k0_pay2 iotaV 0#32 1#32 k)), k0_pay172] (k0_pay27 (loadIdx Pc ![(k0_pay1 k0_pay169 w), k0_pay24 o (k0_pay23 (k0_pay2 iotaV 0#32 1#32 k))] (chkP2_trip k o w hw ho)) (loadIdx Gc ![k0_pay172, (k0_pay23 (k0_pay2 iotaV 0#32 1#32 k))] (chkG2_trip k).2.2.1))
      (chkG2_trip k).2.2.2.2.2.2.2.2.2.2.1)
      ![(k0_pay23 (k0_pay2 iotaV 0#32 1#32 k)), k0_pay173] (k0_pay28 (loadIdx Pc ![(k0_pay1 k0_pay169 w), k0_pay24 o (k0_pay23 (k0_pay2 iotaV 0#32 1#32 k))] (chkP2_trip k o w hw ho)) (loadIdx Gc ![k0_pay173, (k0_pay23 (k0_pay2 iotaV 0#32 1#32 k))] (chkG2_trip k).2.2.2.1))
      (chkG2_trip k).2.2.2.2.2.2.2.2.2.2.2.1)
      ![(k0_pay23 (k0_pay2 iotaV 0#32 1#32 k)), k0_pay174] (k0_pay29 (loadIdx Pc ![(k0_pay1 k0_pay169 w), k0_pay24 o (k0_pay23 (k0_pay2 iotaV 0#32 1#32 k))] (chkP2_trip k o w hw ho)) (loadIdx Gc ![k0_pay174, (k0_pay23 (k0_pay2 iotaV 0#32 1#32 k))] (chkG2_trip k).2.2.2.2.1))
      (chkG2_trip k).2.2.2.2.2.2.2.2.2.2.2.2.1)
      ![(k0_pay23 (k0_pay2 iotaV 0#32 1#32 k)), k0_pay175] (k0_pay30 (loadIdx Pc ![(k0_pay1 k0_pay169 w), k0_pay24 o (k0_pay23 (k0_pay2 iotaV 0#32 1#32 k))] (chkP2_trip k o w hw ho)) (loadIdx Gc ![k0_pay175, (k0_pay23 (k0_pay2 iotaV 0#32 1#32 k))] (chkG2_trip k).2.2.2.2.2.1))
      (chkG2_trip k).2.2.2.2.2.2.2.2.2.2.2.2.2.1)
      ![(k0_pay23 (k0_pay2 iotaV 0#32 1#32 k)), k0_pay176] (k0_pay31 (loadIdx Pc ![(k0_pay1 k0_pay169 w), k0_pay24 o (k0_pay23 (k0_pay2 iotaV 0#32 1#32 k))] (chkP2_trip k o w hw ho)) (loadIdx Gc ![k0_pay176, (k0_pay23 (k0_pay2 iotaV 0#32 1#32 k))] (chkG2_trip k).2.2.2.2.2.2.1))
      (chkG2_trip k).2.2.2.2.2.2.2.2.2.2.2.2.2.2.1)
      ![(k0_pay23 (k0_pay2 iotaV 0#32 1#32 k)), k0_pay177] (k0_pay32 (loadIdx Pc ![(k0_pay1 k0_pay169 w), k0_pay24 o (k0_pay23 (k0_pay2 iotaV 0#32 1#32 k))] (chkP2_trip k o w hw ho)) (loadIdx Gc ![k0_pay177, (k0_pay23 (k0_pay2 iotaV 0#32 1#32 k))] (chkG2_trip k).2.2.2.2.2.2.2.1))
      (chkG2_trip k).2.2.2.2.2.2.2.2.2.2.2.2.2.2.2)

theorem grp2X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 2 0 k.val ∪ Hit 2 1 k.val ∪ Hit 2 2 k.val ∪ Hit 2 3 k.val ∪ Hit 2 4 k.val ∪ Hit 2 5 k.val ∪ Hit 2 6 k.val ∪ Hit 2 7 k.val) (grpX2 M Gc Pc o w hw ho k X) := by
  have g0 := goodV_step M ![(k0_pay23 (k0_pay2 iotaV 0#32 1#32 k)), k0_pay170] (k0_pay25 (loadIdx Pc ![(k0_pay1 k0_pay169 w), k0_pay24 o (k0_pay23 (k0_pay2 iotaV 0#32 1#32 k))] (chkP2_trip k o w hw ho)) (loadIdx Gc ![k0_pay170, (k0_pay23 (k0_pay2 iotaV 0#32 1#32 k))] (chkG2_trip k).1))
    (chkG2_trip k).2.2.2.2.2.2.2.2.1
    (val_d2_j0 k Gc Pc o w hw ho (chkP2_trip k o w hw ho) (chkG2_trip k).1 (chkG2_trip k).2.2.2.2.2.2.2.2.1)
    (hit_d2_j0 k (chkG2_trip k).2.2.2.2.2.2.2.2.1) hX
  have g1 := goodV_step M ![(k0_pay23 (k0_pay2 iotaV 0#32 1#32 k)), k0_pay171] (k0_pay26 (loadIdx Pc ![(k0_pay1 k0_pay169 w), k0_pay24 o (k0_pay23 (k0_pay2 iotaV 0#32 1#32 k))] (chkP2_trip k o w hw ho)) (loadIdx Gc ![k0_pay171, (k0_pay23 (k0_pay2 iotaV 0#32 1#32 k))] (chkG2_trip k).2.1))
    (chkG2_trip k).2.2.2.2.2.2.2.2.2.1
    (val_d2_j1 k Gc Pc o w hw ho (chkP2_trip k o w hw ho) (chkG2_trip k).2.1 (chkG2_trip k).2.2.2.2.2.2.2.2.2.1)
    (hit_d2_j1 k (chkG2_trip k).2.2.2.2.2.2.2.2.2.1) g0
  have g2 := goodV_step M ![(k0_pay23 (k0_pay2 iotaV 0#32 1#32 k)), k0_pay172] (k0_pay27 (loadIdx Pc ![(k0_pay1 k0_pay169 w), k0_pay24 o (k0_pay23 (k0_pay2 iotaV 0#32 1#32 k))] (chkP2_trip k o w hw ho)) (loadIdx Gc ![k0_pay172, (k0_pay23 (k0_pay2 iotaV 0#32 1#32 k))] (chkG2_trip k).2.2.1))
    (chkG2_trip k).2.2.2.2.2.2.2.2.2.2.1
    (val_d2_j2 k Gc Pc o w hw ho (chkP2_trip k o w hw ho) (chkG2_trip k).2.2.1 (chkG2_trip k).2.2.2.2.2.2.2.2.2.2.1)
    (hit_d2_j2 k (chkG2_trip k).2.2.2.2.2.2.2.2.2.2.1) g1
  have g3 := goodV_step M ![(k0_pay23 (k0_pay2 iotaV 0#32 1#32 k)), k0_pay173] (k0_pay28 (loadIdx Pc ![(k0_pay1 k0_pay169 w), k0_pay24 o (k0_pay23 (k0_pay2 iotaV 0#32 1#32 k))] (chkP2_trip k o w hw ho)) (loadIdx Gc ![k0_pay173, (k0_pay23 (k0_pay2 iotaV 0#32 1#32 k))] (chkG2_trip k).2.2.2.1))
    (chkG2_trip k).2.2.2.2.2.2.2.2.2.2.2.1
    (val_d2_j3 k Gc Pc o w hw ho (chkP2_trip k o w hw ho) (chkG2_trip k).2.2.2.1 (chkG2_trip k).2.2.2.2.2.2.2.2.2.2.2.1)
    (hit_d2_j3 k (chkG2_trip k).2.2.2.2.2.2.2.2.2.2.2.1) g2
  have g4 := goodV_step M ![(k0_pay23 (k0_pay2 iotaV 0#32 1#32 k)), k0_pay174] (k0_pay29 (loadIdx Pc ![(k0_pay1 k0_pay169 w), k0_pay24 o (k0_pay23 (k0_pay2 iotaV 0#32 1#32 k))] (chkP2_trip k o w hw ho)) (loadIdx Gc ![k0_pay174, (k0_pay23 (k0_pay2 iotaV 0#32 1#32 k))] (chkG2_trip k).2.2.2.2.1))
    (chkG2_trip k).2.2.2.2.2.2.2.2.2.2.2.2.1
    (val_d2_j4 k Gc Pc o w hw ho (chkP2_trip k o w hw ho) (chkG2_trip k).2.2.2.2.1 (chkG2_trip k).2.2.2.2.2.2.2.2.2.2.2.2.1)
    (hit_d2_j4 k (chkG2_trip k).2.2.2.2.2.2.2.2.2.2.2.2.1) g3
  have g5 := goodV_step M ![(k0_pay23 (k0_pay2 iotaV 0#32 1#32 k)), k0_pay175] (k0_pay30 (loadIdx Pc ![(k0_pay1 k0_pay169 w), k0_pay24 o (k0_pay23 (k0_pay2 iotaV 0#32 1#32 k))] (chkP2_trip k o w hw ho)) (loadIdx Gc ![k0_pay175, (k0_pay23 (k0_pay2 iotaV 0#32 1#32 k))] (chkG2_trip k).2.2.2.2.2.1))
    (chkG2_trip k).2.2.2.2.2.2.2.2.2.2.2.2.2.1
    (val_d2_j5 k Gc Pc o w hw ho (chkP2_trip k o w hw ho) (chkG2_trip k).2.2.2.2.2.1 (chkG2_trip k).2.2.2.2.2.2.2.2.2.2.2.2.2.1)
    (hit_d2_j5 k (chkG2_trip k).2.2.2.2.2.2.2.2.2.2.2.2.2.1) g4
  have g6 := goodV_step M ![(k0_pay23 (k0_pay2 iotaV 0#32 1#32 k)), k0_pay176] (k0_pay31 (loadIdx Pc ![(k0_pay1 k0_pay169 w), k0_pay24 o (k0_pay23 (k0_pay2 iotaV 0#32 1#32 k))] (chkP2_trip k o w hw ho)) (loadIdx Gc ![k0_pay176, (k0_pay23 (k0_pay2 iotaV 0#32 1#32 k))] (chkG2_trip k).2.2.2.2.2.2.1))
    (chkG2_trip k).2.2.2.2.2.2.2.2.2.2.2.2.2.2.1
    (val_d2_j6 k Gc Pc o w hw ho (chkP2_trip k o w hw ho) (chkG2_trip k).2.2.2.2.2.2.1 (chkG2_trip k).2.2.2.2.2.2.2.2.2.2.2.2.2.2.1)
    (hit_d2_j6 k (chkG2_trip k).2.2.2.2.2.2.2.2.2.2.2.2.2.2.1) g5
  have g7 := goodV_step M ![(k0_pay23 (k0_pay2 iotaV 0#32 1#32 k)), k0_pay177] (k0_pay32 (loadIdx Pc ![(k0_pay1 k0_pay169 w), k0_pay24 o (k0_pay23 (k0_pay2 iotaV 0#32 1#32 k))] (chkP2_trip k o w hw ho)) (loadIdx Gc ![k0_pay177, (k0_pay23 (k0_pay2 iotaV 0#32 1#32 k))] (chkG2_trip k).2.2.2.2.2.2.2.1))
    (chkG2_trip k).2.2.2.2.2.2.2.2.2.2.2.2.2.2.2
    (val_d2_j7 k Gc Pc o w hw ho (chkP2_trip k o w hw ho) (chkG2_trip k).2.2.2.2.2.2.2.1 (chkG2_trip k).2.2.2.2.2.2.2.2.2.2.2.2.2.2.2)
    (hit_d2_j7 k (chkG2_trip k).2.2.2.2.2.2.2.2.2.2.2.2.2.2.2) g6
  exact g7

/-- The eight scatters of feature group 3, row groups 0 to 7 in order, into the one-piece list of `X`. -/
def grpX3 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (stepX M X
      ![(k0_pay33 (k0_pay2 iotaV 0#32 1#32 k)), k0_pay170] (k0_pay35 (loadIdx Pc ![(k0_pay1 k0_pay169 w), k0_pay34 o (k0_pay33 (k0_pay2 iotaV 0#32 1#32 k))] (chkP3_trip k o w hw ho)) (loadIdx Gc ![k0_pay170, (k0_pay33 (k0_pay2 iotaV 0#32 1#32 k))] (chkG3_trip k).1))
      (chkG3_trip k).2.2.2.2.2.2.2.2.1)
      ![(k0_pay33 (k0_pay2 iotaV 0#32 1#32 k)), k0_pay171] (k0_pay36 (loadIdx Pc ![(k0_pay1 k0_pay169 w), k0_pay34 o (k0_pay33 (k0_pay2 iotaV 0#32 1#32 k))] (chkP3_trip k o w hw ho)) (loadIdx Gc ![k0_pay171, (k0_pay33 (k0_pay2 iotaV 0#32 1#32 k))] (chkG3_trip k).2.1))
      (chkG3_trip k).2.2.2.2.2.2.2.2.2.1)
      ![(k0_pay33 (k0_pay2 iotaV 0#32 1#32 k)), k0_pay172] (k0_pay37 (loadIdx Pc ![(k0_pay1 k0_pay169 w), k0_pay34 o (k0_pay33 (k0_pay2 iotaV 0#32 1#32 k))] (chkP3_trip k o w hw ho)) (loadIdx Gc ![k0_pay172, (k0_pay33 (k0_pay2 iotaV 0#32 1#32 k))] (chkG3_trip k).2.2.1))
      (chkG3_trip k).2.2.2.2.2.2.2.2.2.2.1)
      ![(k0_pay33 (k0_pay2 iotaV 0#32 1#32 k)), k0_pay173] (k0_pay38 (loadIdx Pc ![(k0_pay1 k0_pay169 w), k0_pay34 o (k0_pay33 (k0_pay2 iotaV 0#32 1#32 k))] (chkP3_trip k o w hw ho)) (loadIdx Gc ![k0_pay173, (k0_pay33 (k0_pay2 iotaV 0#32 1#32 k))] (chkG3_trip k).2.2.2.1))
      (chkG3_trip k).2.2.2.2.2.2.2.2.2.2.2.1)
      ![(k0_pay33 (k0_pay2 iotaV 0#32 1#32 k)), k0_pay174] (k0_pay39 (loadIdx Pc ![(k0_pay1 k0_pay169 w), k0_pay34 o (k0_pay33 (k0_pay2 iotaV 0#32 1#32 k))] (chkP3_trip k o w hw ho)) (loadIdx Gc ![k0_pay174, (k0_pay33 (k0_pay2 iotaV 0#32 1#32 k))] (chkG3_trip k).2.2.2.2.1))
      (chkG3_trip k).2.2.2.2.2.2.2.2.2.2.2.2.1)
      ![(k0_pay33 (k0_pay2 iotaV 0#32 1#32 k)), k0_pay175] (k0_pay40 (loadIdx Pc ![(k0_pay1 k0_pay169 w), k0_pay34 o (k0_pay33 (k0_pay2 iotaV 0#32 1#32 k))] (chkP3_trip k o w hw ho)) (loadIdx Gc ![k0_pay175, (k0_pay33 (k0_pay2 iotaV 0#32 1#32 k))] (chkG3_trip k).2.2.2.2.2.1))
      (chkG3_trip k).2.2.2.2.2.2.2.2.2.2.2.2.2.1)
      ![(k0_pay33 (k0_pay2 iotaV 0#32 1#32 k)), k0_pay176] (k0_pay41 (loadIdx Pc ![(k0_pay1 k0_pay169 w), k0_pay34 o (k0_pay33 (k0_pay2 iotaV 0#32 1#32 k))] (chkP3_trip k o w hw ho)) (loadIdx Gc ![k0_pay176, (k0_pay33 (k0_pay2 iotaV 0#32 1#32 k))] (chkG3_trip k).2.2.2.2.2.2.1))
      (chkG3_trip k).2.2.2.2.2.2.2.2.2.2.2.2.2.2.1)
      ![(k0_pay33 (k0_pay2 iotaV 0#32 1#32 k)), k0_pay177] (k0_pay42 (loadIdx Pc ![(k0_pay1 k0_pay169 w), k0_pay34 o (k0_pay33 (k0_pay2 iotaV 0#32 1#32 k))] (chkP3_trip k o w hw ho)) (loadIdx Gc ![k0_pay177, (k0_pay33 (k0_pay2 iotaV 0#32 1#32 k))] (chkG3_trip k).2.2.2.2.2.2.2.1))
      (chkG3_trip k).2.2.2.2.2.2.2.2.2.2.2.2.2.2.2)

theorem grp3X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 3 0 k.val ∪ Hit 3 1 k.val ∪ Hit 3 2 k.val ∪ Hit 3 3 k.val ∪ Hit 3 4 k.val ∪ Hit 3 5 k.val ∪ Hit 3 6 k.val ∪ Hit 3 7 k.val) (grpX3 M Gc Pc o w hw ho k X) := by
  have g0 := goodV_step M ![(k0_pay33 (k0_pay2 iotaV 0#32 1#32 k)), k0_pay170] (k0_pay35 (loadIdx Pc ![(k0_pay1 k0_pay169 w), k0_pay34 o (k0_pay33 (k0_pay2 iotaV 0#32 1#32 k))] (chkP3_trip k o w hw ho)) (loadIdx Gc ![k0_pay170, (k0_pay33 (k0_pay2 iotaV 0#32 1#32 k))] (chkG3_trip k).1))
    (chkG3_trip k).2.2.2.2.2.2.2.2.1
    (val_d3_j0 k Gc Pc o w hw ho (chkP3_trip k o w hw ho) (chkG3_trip k).1 (chkG3_trip k).2.2.2.2.2.2.2.2.1)
    (hit_d3_j0 k (chkG3_trip k).2.2.2.2.2.2.2.2.1) hX
  have g1 := goodV_step M ![(k0_pay33 (k0_pay2 iotaV 0#32 1#32 k)), k0_pay171] (k0_pay36 (loadIdx Pc ![(k0_pay1 k0_pay169 w), k0_pay34 o (k0_pay33 (k0_pay2 iotaV 0#32 1#32 k))] (chkP3_trip k o w hw ho)) (loadIdx Gc ![k0_pay171, (k0_pay33 (k0_pay2 iotaV 0#32 1#32 k))] (chkG3_trip k).2.1))
    (chkG3_trip k).2.2.2.2.2.2.2.2.2.1
    (val_d3_j1 k Gc Pc o w hw ho (chkP3_trip k o w hw ho) (chkG3_trip k).2.1 (chkG3_trip k).2.2.2.2.2.2.2.2.2.1)
    (hit_d3_j1 k (chkG3_trip k).2.2.2.2.2.2.2.2.2.1) g0
  have g2 := goodV_step M ![(k0_pay33 (k0_pay2 iotaV 0#32 1#32 k)), k0_pay172] (k0_pay37 (loadIdx Pc ![(k0_pay1 k0_pay169 w), k0_pay34 o (k0_pay33 (k0_pay2 iotaV 0#32 1#32 k))] (chkP3_trip k o w hw ho)) (loadIdx Gc ![k0_pay172, (k0_pay33 (k0_pay2 iotaV 0#32 1#32 k))] (chkG3_trip k).2.2.1))
    (chkG3_trip k).2.2.2.2.2.2.2.2.2.2.1
    (val_d3_j2 k Gc Pc o w hw ho (chkP3_trip k o w hw ho) (chkG3_trip k).2.2.1 (chkG3_trip k).2.2.2.2.2.2.2.2.2.2.1)
    (hit_d3_j2 k (chkG3_trip k).2.2.2.2.2.2.2.2.2.2.1) g1
  have g3 := goodV_step M ![(k0_pay33 (k0_pay2 iotaV 0#32 1#32 k)), k0_pay173] (k0_pay38 (loadIdx Pc ![(k0_pay1 k0_pay169 w), k0_pay34 o (k0_pay33 (k0_pay2 iotaV 0#32 1#32 k))] (chkP3_trip k o w hw ho)) (loadIdx Gc ![k0_pay173, (k0_pay33 (k0_pay2 iotaV 0#32 1#32 k))] (chkG3_trip k).2.2.2.1))
    (chkG3_trip k).2.2.2.2.2.2.2.2.2.2.2.1
    (val_d3_j3 k Gc Pc o w hw ho (chkP3_trip k o w hw ho) (chkG3_trip k).2.2.2.1 (chkG3_trip k).2.2.2.2.2.2.2.2.2.2.2.1)
    (hit_d3_j3 k (chkG3_trip k).2.2.2.2.2.2.2.2.2.2.2.1) g2
  have g4 := goodV_step M ![(k0_pay33 (k0_pay2 iotaV 0#32 1#32 k)), k0_pay174] (k0_pay39 (loadIdx Pc ![(k0_pay1 k0_pay169 w), k0_pay34 o (k0_pay33 (k0_pay2 iotaV 0#32 1#32 k))] (chkP3_trip k o w hw ho)) (loadIdx Gc ![k0_pay174, (k0_pay33 (k0_pay2 iotaV 0#32 1#32 k))] (chkG3_trip k).2.2.2.2.1))
    (chkG3_trip k).2.2.2.2.2.2.2.2.2.2.2.2.1
    (val_d3_j4 k Gc Pc o w hw ho (chkP3_trip k o w hw ho) (chkG3_trip k).2.2.2.2.1 (chkG3_trip k).2.2.2.2.2.2.2.2.2.2.2.2.1)
    (hit_d3_j4 k (chkG3_trip k).2.2.2.2.2.2.2.2.2.2.2.2.1) g3
  have g5 := goodV_step M ![(k0_pay33 (k0_pay2 iotaV 0#32 1#32 k)), k0_pay175] (k0_pay40 (loadIdx Pc ![(k0_pay1 k0_pay169 w), k0_pay34 o (k0_pay33 (k0_pay2 iotaV 0#32 1#32 k))] (chkP3_trip k o w hw ho)) (loadIdx Gc ![k0_pay175, (k0_pay33 (k0_pay2 iotaV 0#32 1#32 k))] (chkG3_trip k).2.2.2.2.2.1))
    (chkG3_trip k).2.2.2.2.2.2.2.2.2.2.2.2.2.1
    (val_d3_j5 k Gc Pc o w hw ho (chkP3_trip k o w hw ho) (chkG3_trip k).2.2.2.2.2.1 (chkG3_trip k).2.2.2.2.2.2.2.2.2.2.2.2.2.1)
    (hit_d3_j5 k (chkG3_trip k).2.2.2.2.2.2.2.2.2.2.2.2.2.1) g4
  have g6 := goodV_step M ![(k0_pay33 (k0_pay2 iotaV 0#32 1#32 k)), k0_pay176] (k0_pay41 (loadIdx Pc ![(k0_pay1 k0_pay169 w), k0_pay34 o (k0_pay33 (k0_pay2 iotaV 0#32 1#32 k))] (chkP3_trip k o w hw ho)) (loadIdx Gc ![k0_pay176, (k0_pay33 (k0_pay2 iotaV 0#32 1#32 k))] (chkG3_trip k).2.2.2.2.2.2.1))
    (chkG3_trip k).2.2.2.2.2.2.2.2.2.2.2.2.2.2.1
    (val_d3_j6 k Gc Pc o w hw ho (chkP3_trip k o w hw ho) (chkG3_trip k).2.2.2.2.2.2.1 (chkG3_trip k).2.2.2.2.2.2.2.2.2.2.2.2.2.2.1)
    (hit_d3_j6 k (chkG3_trip k).2.2.2.2.2.2.2.2.2.2.2.2.2.2.1) g5
  have g7 := goodV_step M ![(k0_pay33 (k0_pay2 iotaV 0#32 1#32 k)), k0_pay177] (k0_pay42 (loadIdx Pc ![(k0_pay1 k0_pay169 w), k0_pay34 o (k0_pay33 (k0_pay2 iotaV 0#32 1#32 k))] (chkP3_trip k o w hw ho)) (loadIdx Gc ![k0_pay177, (k0_pay33 (k0_pay2 iotaV 0#32 1#32 k))] (chkG3_trip k).2.2.2.2.2.2.2.1))
    (chkG3_trip k).2.2.2.2.2.2.2.2.2.2.2.2.2.2.2
    (val_d3_j7 k Gc Pc o w hw ho (chkP3_trip k o w hw ho) (chkG3_trip k).2.2.2.2.2.2.2.1 (chkG3_trip k).2.2.2.2.2.2.2.2.2.2.2.2.2.2.2)
    (hit_d3_j7 k (chkG3_trip k).2.2.2.2.2.2.2.2.2.2.2.2.2.2.2) g6
  exact g7

/-- The vector the trip's 32 scatters leave, from the contents `R` before the trip. -/
def chainX (M : Memref sg κ sp S64x128 .f32) (Gc : Vec F S128x128 .f32) (Pc : Vec F S100x128 .f32)
    (o w : BitVec 32) (hw : w.toNat < 100) (ho : o.toNat ≤ 64) (k : Fin k0_t2_loop.trips)
    (R : (M.access (Rect.whole S64x128)).ty.Contents (Elt F)) : Vec F S64x128 .f32 :=
  grpX3 M Gc Pc o w hw ho k (grpX2 M Gc Pc o w hw ho k (grpX1 M Gc Pc o w hw ho k (grpX0 M Gc Pc o w hw ho k
    (View.readAt (Elt F) M.view (LoadRect.whole S64x128) R))))

/-- Everything written before trip `k + 1` is among what was written before trip `k` and the trip's 32 scatters. -/
theorem accTo_succ_sub (k : ℕ) :
    AccTo (k + 1) ⊆ AccTo k ∪ Hit 0 0 k ∪ Hit 0 1 k ∪ Hit 0 2 k ∪ Hit 0 3 k ∪ Hit 0 4 k ∪ Hit 0 5 k ∪ Hit 0 6 k ∪ Hit 0 7 k ∪ Hit 1 0 k ∪ Hit 1 1 k ∪ Hit 1 2 k ∪ Hit 1 3 k ∪ Hit 1 4 k ∪ Hit 1 5 k ∪ Hit 1 6 k ∪ Hit 1 7 k ∪ Hit 2 0 k ∪ Hit 2 1 k ∪ Hit 2 2 k ∪ Hit 2 3 k ∪ Hit 2 4 k ∪ Hit 2 5 k ∪ Hit 2 6 k ∪ Hit 2 7 k ∪ Hit 3 0 k ∪ Hit 3 1 k ∪ Hit 3 2 k ∪ Hit 3 3 k ∪ Hit 3 4 k ∪ Hit 3 5 k ∪ Hit 3 6 k ∪ Hit 3 7 k := by
  refine acc_succ_le ?_ ?_
  · exact fun p hp => (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl hp))))))))))))))))))))))))))))))))
  · intro dc j' p hp
    match dc, j', hp with
    | ⟨0, _⟩, ⟨0, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))))))))
    | ⟨0, _⟩, ⟨1, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))))))))
    | ⟨0, _⟩, ⟨2, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))))))
    | ⟨0, _⟩, ⟨3, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))))))
    | ⟨0, _⟩, ⟨4, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))))
    | ⟨0, _⟩, ⟨5, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))))
    | ⟨0, _⟩, ⟨6, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))
    | ⟨0, _⟩, ⟨7, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))
    | ⟨1, _⟩, ⟨0, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))
    | ⟨1, _⟩, ⟨1, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))
    | ⟨1, _⟩, ⟨2, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))
    | ⟨1, _⟩, ⟨3, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))
    | ⟨1, _⟩, ⟨4, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))
    | ⟨1, _⟩, ⟨5, _⟩, hp => exact (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))
    | ⟨1, _⟩, ⟨6, _⟩, hp => exact (Or.inl (Or.inl (Or.inl (Or.inl (Or.inl (Or.inl (Or.inl (Or.inl (Or.inl (Or.inl (Or.inl (Or.inl (Or.inl (Or.inl (Or.inl (Or.inl (Or.inl (Or.inr hp))))))))))))))))))
    | ⟨1, _⟩, ⟨7, _⟩, hp => exact (Or.inl (Or.inl (Or.inl (Or.inl (Or.inl (Or.inl (Or.inl (Or.inl (Or.inl (Or.inl (Or.inl (Or.inl (Or.inl (Or.inl (Or.inl (Or.inl (Or.inr hp)))))))))))))))))
    | ⟨2, _⟩, ⟨0, _⟩, hp => exact (Or.inl (Or.inl (Or.inl (Or.inl (Or.inl (Or.inl (Or.inl (Or.inl (Or.inl (Or.inl (Or.inl (Or.inl (Or.inl (Or.inl (Or.inl (Or.inr hp))))))))))))))))
    | ⟨2, _⟩, ⟨1, _⟩, hp => exact (Or.inl (Or.inl (Or.inl (Or.inl (Or.inl (Or.inl (Or.inl (Or.inl (Or.inl (Or.inl (Or.inl (Or.inl (Or.inl (Or.inl (Or.inr hp)))))))))))))))
    | ⟨2, _⟩, ⟨2, _⟩, hp => exact (Or.inl (Or.inl (Or.inl (Or.inl (Or.inl (Or.inl (Or.inl (Or.inl (Or.inl (Or.inl (Or.inl (Or.inl (Or.inl (Or.inr hp))))))))))))))
    | ⟨2, _⟩, ⟨3, _⟩, hp => exact (Or.inl (Or.inl (Or.inl (Or.inl (Or.inl (Or.inl (Or.inl (Or.inl (Or.inl (Or.inl (Or.inl (Or.inl (Or.inr hp)))))))))))))
    | ⟨2, _⟩, ⟨4, _⟩, hp => exact (Or.inl (Or.inl (Or.inl (Or.inl (Or.inl (Or.inl (Or.inl (Or.inl (Or.inl (Or.inl (Or.inl (Or.inr hp))))))))))))
    | ⟨2, _⟩, ⟨5, _⟩, hp => exact (Or.inl (Or.inl (Or.inl (Or.inl (Or.inl (Or.inl (Or.inl (Or.inl (Or.inl (Or.inl (Or.inr hp)))))))))))
    | ⟨2, _⟩, ⟨6, _⟩, hp => exact (Or.inl (Or.inl (Or.inl (Or.inl (Or.inl (Or.inl (Or.inl (Or.inl (Or.inl (Or.inr hp))))))))))
    | ⟨2, _⟩, ⟨7, _⟩, hp => exact (Or.inl (Or.inl (Or.inl (Or.inl (Or.inl (Or.inl (Or.inl (Or.inl (Or.inr hp)))))))))
    | ⟨3, _⟩, ⟨0, _⟩, hp => exact (Or.inl (Or.inl (Or.inl (Or.inl (Or.inl (Or.inl (Or.inl (Or.inr hp))))))))
    | ⟨3, _⟩, ⟨1, _⟩, hp => exact (Or.inl (Or.inl (Or.inl (Or.inl (Or.inl (Or.inl (Or.inr hp)))))))
    | ⟨3, _⟩, ⟨2, _⟩, hp => exact (Or.inl (Or.inl (Or.inl (Or.inl (Or.inl (Or.inr hp))))))
    | ⟨3, _⟩, ⟨3, _⟩, hp => exact (Or.inl (Or.inl (Or.inl (Or.inl (Or.inr hp)))))
    | ⟨3, _⟩, ⟨4, _⟩, hp => exact (Or.inl (Or.inl (Or.inl (Or.inr hp))))
    | ⟨3, _⟩, ⟨5, _⟩, hp => exact (Or.inl (Or.inl (Or.inr hp)))
    | ⟨3, _⟩, ⟨6, _⟩, hp => exact (Or.inl (Or.inr hp))
    | ⟨3, _⟩, ⟨7, _⟩, hp => exact (Or.inr hp)

/-- If everything written before trip `k` holds the target's value in `R`, the vector the trip leaves holds it on
    everything written before trip `k + 1`, -/
theorem chainX_good (M : Memref sg κ sp S64x128 .f32) (Gc : Vec F S128x128 .f32) (Pc : Vec F S100x128 .f32)
    (o w : BitVec 32) (hw : w.toNat < 100) (ho : o.toNat ≤ 64) (k : Fin k0_t2_loop.trips)
    (R : (M.access (Rect.whole S64x128)).ty.Contents (Elt F))
    (hR : GoodOnM M (Tslot Gc Pc o w hw ho) (AccTo k.val) R) :
    GoodV (Tslot Gc Pc o w hw ho) (AccTo (k.val + 1)) (chainX M Gc Pc o w hw ho k R) :=
  goodV_mono (accTo_succ_sub k.val)
    (grp3X_good M Gc Pc o w hw ho k (grp2X_good M Gc Pc o w hw ho k (grp1X_good M Gc Pc o w hw ho k (grp0X_good M Gc Pc o w hw ho k (goodV_of_goodM hR)))))

/-- and so does the block left as the one piece of that vector over `R`. -/
theorem trip_goodL (M : Memref sg κ sp S64x128 .f32) (Gc : Vec F S128x128 .f32) (Pc : Vec F S100x128 .f32)
    (o w : BitVec 32) (hw : w.toNat < 100) (ho : o.toNat ≤ 64) (k : Fin k0_t2_loop.trips)
    (R : (M.access (Rect.whole S64x128)).ty.Contents (Elt F))
    (hR : GoodOnM M (Tslot Gc Pc o w hw ho) (AccTo k.val) R) :
    GoodOnM M (Tslot Gc Pc o w hw ho) (AccTo (k.val + 1))
      (M.view.writes (Elt F) R [⟨Rect.whole S64x128, chainX M Gc Pc o w hw ho k R⟩]) :=
  goodM_of_goodV M R (chainX_good M Gc Pc o w hw ho k R hR)

end Cert.Lanes.C1

end
-- ==== Proof.LaneCons.lean ====
/-
  A whole-rectangle piece consed onto any list of earlier pieces: read through the whole rectangle, the contents are
  the new piece's vector, whatever the earlier pieces were.  So they are good where that vector is.
-/
import proofs.«206908_g46772193853751_cont_8to1c4_160_30_alg».proof.Proof.LaneList

namespace Cert.Lanes

open Idealize.ShloMosaic Idealize.ShloMosaic.ValueIdx Cert.KernelIdeal Cert.KernelIdeal.Gen

variable {F : FTy → Type} [FloatOps F]
variable {sg : RefSig} {κ : Kind} {sp : Space}

/-- The contents after a whole-rectangle piece written over any earlier pieces are good where the piece's vector is. -/
theorem goodM_of_goodV_cons (M : Memref sg κ sp S64x128 .f32) {T : S64x128.Idx → F .f32} {A : Set S64x128.Idx}
    (R : (M.access (Rect.whole S64x128)).ty.Contents (Elt F)) (L : List (View.Piece (Elt F) S64x128 .f32))
    {X : Vec F S64x128 .f32} (h : GoodV T A X) :
    GoodOnM M T A (M.view.writes (Elt F) R ((⟨Rect.whole S64x128, X⟩ : View.Piece (Elt F) S64x128 .f32) :: L)) := by
  intro p hp
  have e : View.readAt (Elt F) M.view (LoadRect.whole S64x128)
      (M.view.writes (Elt F) R ((⟨Rect.whole S64x128, X⟩ : View.Piece (Elt F) S64x128 .f32) :: L)) = X :=
    View.read_write_univ (v := M.access (Rect.whole S64x128)) (M.view.writes (Elt F) R L) X
  rw [e]; exact h p hp

end Cert.Lanes
-- ==== Proof.Lane2.lean ====
/-
  The index arithmetic of one copy of the inner loop (k0_t3_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVec

namespace Cert.Lanes.C2

open Idealize.ShloMosaic Cert.KernelIdeal Cert.KernelIdeal.Gen Cert.Lanes

/-- The loop runs at most 16 trips. -/
theorem trip_lt (k : Fin k0_t3_loop.trips) : k.val < 16 := Nat.lt_of_lt_of_le k.isLt k0_t3_abs.2.1

/-- The rotation vector of trip `k`: `(lane + k) mod 16`. -/
theorem rot_toNat (k : Fin k0_t3_loop.trips) (x : S16.Idx) :
    (k0_pay44 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t3_loop.trips) (x : S16.Idx) :
    (k0_pay45 iotaV 0#32 1#32 k x).toNat = (ln x + k.val) % 16 :=
  addi_lit (k0_pay44 iotaV 0#32 1#32 k) 0#32 ((ln x + k.val) % 16) 0 x (rot_toNat k x) rfl (by omega)

/-- The column vector of feature group 1 in trip `k`. -/
theorem gcol1_toNat (k : Fin k0_t3_loop.trips) (x : S16.Idx) :
    (k0_pay55 (k0_pay44 iotaV 0#32 1#32 k) x).toNat = (ln x + k.val) % 16 + 16 :=
  addi_lit (k0_pay44 iotaV 0#32 1#32 k) 16#32 ((ln x + k.val) % 16) 16 x (rot_toNat k x) rfl (by omega)

/-- The column vector of feature group 2 in trip `k`. -/
theorem gcol2_toNat (k : Fin k0_t3_loop.trips) (x : S16.Idx) :
    (k0_pay65 (k0_pay44 iotaV 0#32 1#32 k) x).toNat = (ln x + k.val) % 16 + 32 :=
  addi_lit (k0_pay44 iotaV 0#32 1#32 k) 32#32 ((ln x + k.val) % 16) 32 x (rot_toNat k x) rfl (by omega)

/-- The column vector of feature group 3 in trip `k`. -/
theorem gcol3_toNat (k : Fin k0_t3_loop.trips) (x : S16.Idx) :
    (k0_pay75 (k0_pay44 iotaV 0#32 1#32 k) x).toNat = (ln x + k.val) % 16 + 48 :=
  addi_lit (k0_pay44 iotaV 0#32 1#32 k) 48#32 ((ln x + k.val) % 16) 48 x (rot_toNat k x) rfl (by omega)

theorem gcol0_lt (k : Fin k0_t3_loop.trips) (x : S16.Idx) : (k0_pay45 iotaV 0#32 1#32 k x).toNat < 64 := by
  rw [gcol0_toNat]; omega
theorem gcol1_lt (k : Fin k0_t3_loop.trips) (x : S16.Idx) : (k0_pay55 (k0_pay44 iotaV 0#32 1#32 k) x).toNat < 64 := by
  rw [gcol1_toNat]; omega
theorem gcol2_lt (k : Fin k0_t3_loop.trips) (x : S16.Idx) : (k0_pay65 (k0_pay44 iotaV 0#32 1#32 k) x).toNat < 64 := by
  rw [gcol2_toNat]; omega
theorem gcol3_lt (k : Fin k0_t3_loop.trips) (x : S16.Idx) : (k0_pay75 (k0_pay44 iotaV 0#32 1#32 k) x).toNat < 64 := by
  rw [gcol3_toNat]; omega

/-- The positional row vector: the word `w` in every lane. -/
theorem prow_toNat (w : BitVec 32) (x : S16.Idx) : (k0_pay43 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay46 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay56 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay66 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay76 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk9 (k0_pay43 k0_pay169 w) (k0_pay46 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk11 (k0_pay43 k0_pay169 w) (k0_pay56 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk13 (k0_pay43 k0_pay169 w) (k0_pay66 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk15 (k0_pay43 k0_pay169 w) (k0_pay76 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk10 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk12 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk14 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk16 k0_pay170 k0_pay171 k0_pay172 k0_pay173 k0_pay174 k0_pay175 k0_pay176 k0_pay177 gc := chkG0 gc hgc

/-! ### The side conditions at the column vectors of trip `k` -/

theorem chkP0_trip (k : Fin k0_t3_loop.trips) (o w : BitVec 32) (hw : w.toNat < 100) (ho : o.toNat ≤ 64) :
    k0_chk9 (k0_pay43 k0_pay169 w) (k0_pay46 o (k0_pay45 iotaV 0#32 1#32 k)) := chkP0 o w _ hw ho (gcol0_lt k)
theorem chkP1_trip (k : Fin k0_t3_loop.trips) (o w : BitVec 32) (hw : w.toNat < 100) (ho : o.toNat ≤ 64) :
    k0_chk11 (k0_pay43 k0_pay169 w) (k0_pay56 o (k0_pay55 (k0_pay44 iotaV 0#32 1#32 k))) := chkP1 o w _ hw ho (gcol1_lt k)
theorem chkP2_trip (k : Fin k0_t3_loop.trips) (o w : BitVec 32) (hw : w.toNat < 100) (ho : o.toNat ≤ 64) :
    k0_chk13 (k0_pay43 k0_pay169 w) (k0_pay66 o (k0_pay65 (k0_pay44 iotaV 0#32 1#32 k))) := chkP2 o w _ hw ho (gcol2_lt k)
theorem chkP3_trip (k : Fin k0_t3_loop.trips) (o w : BitVec 32) (hw : w.toNat < 100) (ho : o.toNat ≤ 64) :
    k0_chk15 (k0_pay43 k0_pay169 w) (k0_pay76 o (k0_pay75 (k0_pay44 iotaV 0#32 1#32 k))) := chkP3 o w _ hw ho (gcol3_lt k)

theorem chkG0_trip (k : Fin k0_t3_loop.trips) :
    k0_chk10 k0_pay170 k0_pay171 k0_pay172 k0_pay173 k0_pay174 k0_pay175 k0_pay176 k0_pay177 (k0_pay45 iotaV 0#32 1#32 k) :=
  chkG0 _ (gcol0_lt k)
theorem chkG1_trip (k : Fin k0_t3_loop.trips) :
    k0_chk12 k0_pay170 k0_pay171 k0_pay172 k0_pay173 k0_pay174 k0_pay175 k0_pay176 k0_pay177 (k0_pay55 (k0_pay44 iotaV 0#32 1#32 k)) :=
  chkG1 _ (gcol1_lt k)
theorem chkG2_trip (k : Fin k0_t3_loop.trips) :
    k0_chk14 k0_pay170 k0_pay171 k0_pay172 k0_pay173 k0_pay174 k0_pay175 k0_pay176 k0_pay177 (k0_pay65 (k0_pay44 iotaV 0#32 1#32 k)) :=
  chkG2 _ (gcol2_lt k)
theorem chkG3_trip (k : Fin k0_t3_loop.trips) :
    k0_chk16 k0_pay170 k0_pay171 k0_pay172 k0_pay173 k0_pay174 k0_pay175 k0_pay176 k0_pay177 (k0_pay75 (k0_pay44 iotaV 0#32 1#32 k)) :=
  chkG3 _ (gcol3_lt k)

end Cert.Lanes.C2
-- ==== Proof.LaneTrip2.lean ====
/-
  The values and the elements of the 32 stores of one trip of the inner loop k0_t3_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTrip
import proofs.«206908_g46772193853751_cont_8to1c4_160_30_alg».proof.Proof.Lane2

namespace Cert.Lanes.C2

open Idealize.ShloMosaic Idealize.ShloMosaic.ValueIdx Cert.KernelIdeal Cert.KernelIdeal.Gen Cert.Lanes

variable {F : FTy → Type} [FloatOps F]

theorem val_d0_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay170, (k0_pay45 iotaV 0#32 1#32 k)] : Fin 2 → IVec S16 32) a x).toNat < S128x128.size a)
    (hS : ∀ a x, ((![(k0_pay45 iotaV 0#32 1#32 k), k0_pay170] : Fin 2 → IVec S16 32) a x).toNat < S64x128.size a) (x : S16.Idx) :
    k0_pay47 (loadIdx Pc ![(k0_pay43 k0_pay169 w), k0_pay46 o (k0_pay45 iotaV 0#32 1#32 k)] hP) (loadIdx Gc ![k0_pay170, (k0_pay45 iotaV 0#32 1#32 k)] hG) x
      = Tslot Gc Pc o w hw ho (idxAt ![(k0_pay45 iotaV 0#32 1#32 k), k0_pay170] hS x) :=
  store_value Gc Pc o w hw ho (k0_pay45 iotaV 0#32 1#32 k) k0_pay170 (k0_pay43 k0_pay169 w) (k0_pay46 o (k0_pay45 iotaV 0#32 1#32 k)) (prow_toNat w)
    (fun x => pcol0_toNat o _ x (gcol0_lt k x) ho) hP hG hS x

theorem hit_d0_j0 (k : Fin k0_t3_loop.trips)
    (hS : ∀ a x, ((![(k0_pay45 iotaV 0#32 1#32 k), k0_pay170] : Fin 2 → IVec S16 32) a x).toNat < S64x128.size a) :
    {p | ∃ x, idxAt ![(k0_pay45 iotaV 0#32 1#32 k), k0_pay170] hS x = p} = Hit 0 0 k.val :=
  hit_eq 0 0 k.val (k0_pay45 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay171, (k0_pay45 iotaV 0#32 1#32 k)] : Fin 2 → IVec S16 32) a x).toNat < S128x128.size a)
    (hS : ∀ a x, ((![(k0_pay45 iotaV 0#32 1#32 k), k0_pay171] : Fin 2 → IVec S16 32) a x).toNat < S64x128.size a) (x : S16.Idx) :
    k0_pay48 (loadIdx Pc ![(k0_pay43 k0_pay169 w), k0_pay46 o (k0_pay45 iotaV 0#32 1#32 k)] hP) (loadIdx Gc ![k0_pay171, (k0_pay45 iotaV 0#32 1#32 k)] hG) x
      = Tslot Gc Pc o w hw ho (idxAt ![(k0_pay45 iotaV 0#32 1#32 k), k0_pay171] hS x) :=
  store_value Gc Pc o w hw ho (k0_pay45 iotaV 0#32 1#32 k) k0_pay171 (k0_pay43 k0_pay169 w) (k0_pay46 o (k0_pay45 iotaV 0#32 1#32 k)) (prow_toNat w)
    (fun x => pcol0_toNat o _ x (gcol0_lt k x) ho) hP hG hS x

theorem hit_d0_j1 (k : Fin k0_t3_loop.trips)
    (hS : ∀ a x, ((![(k0_pay45 iotaV 0#32 1#32 k), k0_pay171] : Fin 2 → IVec S16 32) a x).toNat < S64x128.size a) :
    {p | ∃ x, idxAt ![(k0_pay45 iotaV 0#32 1#32 k), k0_pay171] hS x = p} = Hit 0 1 k.val :=
  hit_eq 0 1 k.val (k0_pay45 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay172, (k0_pay45 iotaV 0#32 1#32 k)] : Fin 2 → IVec S16 32) a x).toNat < S128x128.size a)
    (hS : ∀ a x, ((![(k0_pay45 iotaV 0#32 1#32 k), k0_pay172] : Fin 2 → IVec S16 32) a x).toNat < S64x128.size a) (x : S16.Idx) :
    k0_pay49 (loadIdx Pc ![(k0_pay43 k0_pay169 w), k0_pay46 o (k0_pay45 iotaV 0#32 1#32 k)] hP) (loadIdx Gc ![k0_pay172, (k0_pay45 iotaV 0#32 1#32 k)] hG) x
      = Tslot Gc Pc o w hw ho (idxAt ![(k0_pay45 iotaV 0#32 1#32 k), k0_pay172] hS x) :=
  store_value Gc Pc o w hw ho (k0_pay45 iotaV 0#32 1#32 k) k0_pay172 (k0_pay43 k0_pay169 w) (k0_pay46 o (k0_pay45 iotaV 0#32 1#32 k)) (prow_toNat w)
    (fun x => pcol0_toNat o _ x (gcol0_lt k x) ho) hP hG hS x

theorem hit_d0_j2 (k : Fin k0_t3_loop.trips)
    (hS : ∀ a x, ((![(k0_pay45 iotaV 0#32 1#32 k), k0_pay172] : Fin 2 → IVec S16 32) a x).toNat < S64x128.size a) :
    {p | ∃ x, idxAt ![(k0_pay45 iotaV 0#32 1#32 k), k0_pay172] hS x = p} = Hit 0 2 k.val :=
  hit_eq 0 2 k.val (k0_pay45 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay173, (k0_pay45 iotaV 0#32 1#32 k)] : Fin 2 → IVec S16 32) a x).toNat < S128x128.size a)
    (hS : ∀ a x, ((![(k0_pay45 iotaV 0#32 1#32 k), k0_pay173] : Fin 2 → IVec S16 32) a x).toNat < S64x128.size a) (x : S16.Idx) :
    k0_pay50 (loadIdx Pc ![(k0_pay43 k0_pay169 w), k0_pay46 o (k0_pay45 iotaV 0#32 1#32 k)] hP) (loadIdx Gc ![k0_pay173, (k0_pay45 iotaV 0#32 1#32 k)] hG) x
      = Tslot Gc Pc o w hw ho (idxAt ![(k0_pay45 iotaV 0#32 1#32 k), k0_pay173] hS x) :=
  store_value Gc Pc o w hw ho (k0_pay45 iotaV 0#32 1#32 k) k0_pay173 (k0_pay43 k0_pay169 w) (k0_pay46 o (k0_pay45 iotaV 0#32 1#32 k)) (prow_toNat w)
    (fun x => pcol0_toNat o _ x (gcol0_lt k x) ho) hP hG hS x

theorem hit_d0_j3 (k : Fin k0_t3_loop.trips)
    (hS : ∀ a x, ((![(k0_pay45 iotaV 0#32 1#32 k), k0_pay173] : Fin 2 → IVec S16 32) a x).toNat < S64x128.size a) :
    {p | ∃ x, idxAt ![(k0_pay45 iotaV 0#32 1#32 k), k0_pay173] hS x = p} = Hit 0 3 k.val :=
  hit_eq 0 3 k.val (k0_pay45 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay174, (k0_pay45 iotaV 0#32 1#32 k)] : Fin 2 → IVec S16 32) a x).toNat < S128x128.size a)
    (hS : ∀ a x, ((![(k0_pay45 iotaV 0#32 1#32 k), k0_pay174] : Fin 2 → IVec S16 32) a x).toNat < S64x128.size a) (x : S16.Idx) :
    k0_pay51 (loadIdx Pc ![(k0_pay43 k0_pay169 w), k0_pay46 o (k0_pay45 iotaV 0#32 1#32 k)] hP) (loadIdx Gc ![k0_pay174, (k0_pay45 iotaV 0#32 1#32 k)] hG) x
      = Tslot Gc Pc o w hw ho (idxAt ![(k0_pay45 iotaV 0#32 1#32 k), k0_pay174] hS x) :=
  store_value Gc Pc o w hw ho (k0_pay45 iotaV 0#32 1#32 k) k0_pay174 (k0_pay43 k0_pay169 w) (k0_pay46 o (k0_pay45 iotaV 0#32 1#32 k)) (prow_toNat w)
    (fun x => pcol0_toNat o _ x (gcol0_lt k x) ho) hP hG hS x

theorem hit_d0_j4 (k : Fin k0_t3_loop.trips)
    (hS : ∀ a x, ((![(k0_pay45 iotaV 0#32 1#32 k), k0_pay174] : Fin 2 → IVec S16 32) a x).toNat < S64x128.size a) :
    {p | ∃ x, idxAt ![(k0_pay45 iotaV 0#32 1#32 k), k0_pay174] hS x = p} = Hit 0 4 k.val :=
  hit_eq 0 4 k.val (k0_pay45 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay175, (k0_pay45 iotaV 0#32 1#32 k)] : Fin 2 → IVec S16 32) a x).toNat < S128x128.size a)
    (hS : ∀ a x, ((![(k0_pay45 iotaV 0#32 1#32 k), k0_pay175] : Fin 2 → IVec S16 32) a x).toNat < S64x128.size a) (x : S16.Idx) :
    k0_pay52 (loadIdx Pc ![(k0_pay43 k0_pay169 w), k0_pay46 o (k0_pay45 iotaV 0#32 1#32 k)] hP) (loadIdx Gc ![k0_pay175, (k0_pay45 iotaV 0#32 1#32 k)] hG) x
      = Tslot Gc Pc o w hw ho (idxAt ![(k0_pay45 iotaV 0#32 1#32 k), k0_pay175] hS x) :=
  store_value Gc Pc o w hw ho (k0_pay45 iotaV 0#32 1#32 k) k0_pay175 (k0_pay43 k0_pay169 w) (k0_pay46 o (k0_pay45 iotaV 0#32 1#32 k)) (prow_toNat w)
    (fun x => pcol0_toNat o _ x (gcol0_lt k x) ho) hP hG hS x

theorem hit_d0_j5 (k : Fin k0_t3_loop.trips)
    (hS : ∀ a x, ((![(k0_pay45 iotaV 0#32 1#32 k), k0_pay175] : Fin 2 → IVec S16 32) a x).toNat < S64x128.size a) :
    {p | ∃ x, idxAt ![(k0_pay45 iotaV 0#32 1#32 k), k0_pay175] hS x = p} = Hit 0 5 k.val :=
  hit_eq 0 5 k.val (k0_pay45 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay176, (k0_pay45 iotaV 0#32 1#32 k)] : Fin 2 → IVec S16 32) a x).toNat < S128x128.size a)
    (hS : ∀ a x, ((![(k0_pay45 iotaV 0#32 1#32 k), k0_pay176] : Fin 2 → IVec S16 32) a x).toNat < S64x128.size a) (x : S16.Idx) :
    k0_pay53 (loadIdx Pc ![(k0_pay43 k0_pay169 w), k0_pay46 o (k0_pay45 iotaV 0#32 1#32 k)] hP) (loadIdx Gc ![k0_pay176, (k0_pay45 iotaV 0#32 1#32 k)] hG) x
      = Tslot Gc Pc o w hw ho (idxAt ![(k0_pay45 iotaV 0#32 1#32 k), k0_pay176] hS x) :=
  store_value Gc Pc o w hw ho (k0_pay45 iotaV 0#32 1#32 k) k0_pay176 (k0_pay43 k0_pay169 w) (k0_pay46 o (k0_pay45 iotaV 0#32 1#32 k)) (prow_toNat w)
    (fun x => pcol0_toNat o _ x (gcol0_lt k x) ho) hP hG hS x

theorem hit_d0_j6 (k : Fin k0_t3_loop.trips)
    (hS : ∀ a x, ((![(k0_pay45 iotaV 0#32 1#32 k), k0_pay176] : Fin 2 → IVec S16 32) a x).toNat < S64x128.size a) :
    {p | ∃ x, idxAt ![(k0_pay45 iotaV 0#32 1#32 k), k0_pay176] hS x = p} = Hit 0 6 k.val :=
  hit_eq 0 6 k.val (k0_pay45 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay177, (k0_pay45 iotaV 0#32 1#32 k)] : Fin 2 → IVec S16 32) a x).toNat < S128x128.size a)
    (hS : ∀ a x, ((![(k0_pay45 iotaV 0#32 1#32 k), k0_pay177] : Fin 2 → IVec S16 32) a x).toNat < S64x128.size a) (x : S16.Idx) :
    k0_pay54 (loadIdx Pc ![(k0_pay43 k0_pay169 w), k0_pay46 o (k0_pay45 iotaV 0#32 1#32 k)] hP) (loadIdx Gc ![k0_pay177, (k0_pay45 iotaV 0#32 1#32 k)] hG) x
      = Tslot Gc Pc o w hw ho (idxAt ![(k0_pay45 iotaV 0#32 1#32 k), k0_pay177] hS x) :=
  store_value Gc Pc o w hw ho (k0_pay45 iotaV 0#32 1#32 k) k0_pay177 (k0_pay43 k0_pay169 w) (k0_pay46 o (k0_pay45 iotaV 0#32 1#32 k)) (prow_toNat w)
    (fun x => pcol0_toNat o _ x (gcol0_lt k x) ho) hP hG hS x

theorem hit_d0_j7 (k : Fin k0_t3_loop.trips)
    (hS : ∀ a x, ((![(k0_pay45 iotaV 0#32 1#32 k), k0_pay177] : Fin 2 → IVec S16 32) a x).toNat < S64x128.size a) :
    {p | ∃ x, idxAt ![(k0_pay45 iotaV 0#32 1#32 k), k0_pay177] hS x = p} = Hit 0 7 k.val :=
  hit_eq 0 7 k.val (k0_pay45 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay170, (k0_pay55 (k0_pay44 iotaV 0#32 1#32 k))] : Fin 2 → IVec S16 32) a x).toNat < S128x128.size a)
    (hS : ∀ a x, ((![(k0_pay55 (k0_pay44 iotaV 0#32 1#32 k)), k0_pay170] : Fin 2 → IVec S16 32) a x).toNat < S64x128.size a) (x : S16.Idx) :
    k0_pay57 (loadIdx Pc ![(k0_pay43 k0_pay169 w), k0_pay56 o (k0_pay55 (k0_pay44 iotaV 0#32 1#32 k))] hP) (loadIdx Gc ![k0_pay170, (k0_pay55 (k0_pay44 iotaV 0#32 1#32 k))] hG) x
      = Tslot Gc Pc o w hw ho (idxAt ![(k0_pay55 (k0_pay44 iotaV 0#32 1#32 k)), k0_pay170] hS x) :=
  store_value Gc Pc o w hw ho (k0_pay55 (k0_pay44 iotaV 0#32 1#32 k)) k0_pay170 (k0_pay43 k0_pay169 w) (k0_pay56 o (k0_pay55 (k0_pay44 iotaV 0#32 1#32 k))) (prow_toNat w)
    (fun x => pcol1_toNat o _ x (gcol1_lt k x) ho) hP hG hS x

theorem hit_d1_j0 (k : Fin k0_t3_loop.trips)
    (hS : ∀ a x, ((![(k0_pay55 (k0_pay44 iotaV 0#32 1#32 k)), k0_pay170] : Fin 2 → IVec S16 32) a x).toNat < S64x128.size a) :
    {p | ∃ x, idxAt ![(k0_pay55 (k0_pay44 iotaV 0#32 1#32 k)), k0_pay170] hS x = p} = Hit 1 0 k.val :=
  hit_eq 1 0 k.val (k0_pay55 (k0_pay44 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay171, (k0_pay55 (k0_pay44 iotaV 0#32 1#32 k))] : Fin 2 → IVec S16 32) a x).toNat < S128x128.size a)
    (hS : ∀ a x, ((![(k0_pay55 (k0_pay44 iotaV 0#32 1#32 k)), k0_pay171] : Fin 2 → IVec S16 32) a x).toNat < S64x128.size a) (x : S16.Idx) :
    k0_pay58 (loadIdx Pc ![(k0_pay43 k0_pay169 w), k0_pay56 o (k0_pay55 (k0_pay44 iotaV 0#32 1#32 k))] hP) (loadIdx Gc ![k0_pay171, (k0_pay55 (k0_pay44 iotaV 0#32 1#32 k))] hG) x
      = Tslot Gc Pc o w hw ho (idxAt ![(k0_pay55 (k0_pay44 iotaV 0#32 1#32 k)), k0_pay171] hS x) :=
  store_value Gc Pc o w hw ho (k0_pay55 (k0_pay44 iotaV 0#32 1#32 k)) k0_pay171 (k0_pay43 k0_pay169 w) (k0_pay56 o (k0_pay55 (k0_pay44 iotaV 0#32 1#32 k))) (prow_toNat w)
    (fun x => pcol1_toNat o _ x (gcol1_lt k x) ho) hP hG hS x

theorem hit_d1_j1 (k : Fin k0_t3_loop.trips)
    (hS : ∀ a x, ((![(k0_pay55 (k0_pay44 iotaV 0#32 1#32 k)), k0_pay171] : Fin 2 → IVec S16 32) a x).toNat < S64x128.size a) :
    {p | ∃ x, idxAt ![(k0_pay55 (k0_pay44 iotaV 0#32 1#32 k)), k0_pay171] hS x = p} = Hit 1 1 k.val :=
  hit_eq 1 1 k.val (k0_pay55 (k0_pay44 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay172, (k0_pay55 (k0_pay44 iotaV 0#32 1#32 k))] : Fin 2 → IVec S16 32) a x).toNat < S128x128.size a)
    (hS : ∀ a x, ((![(k0_pay55 (k0_pay44 iotaV 0#32 1#32 k)), k0_pay172] : Fin 2 → IVec S16 32) a x).toNat < S64x128.size a) (x : S16.Idx) :
    k0_pay59 (loadIdx Pc ![(k0_pay43 k0_pay169 w), k0_pay56 o (k0_pay55 (k0_pay44 iotaV 0#32 1#32 k))] hP) (loadIdx Gc ![k0_pay172, (k0_pay55 (k0_pay44 iotaV 0#32 1#32 k))] hG) x
      = Tslot Gc Pc o w hw ho (idxAt ![(k0_pay55 (k0_pay44 iotaV 0#32 1#32 k)), k0_pay172] hS x) :=
  store_value Gc Pc o w hw ho (k0_pay55 (k0_pay44 iotaV 0#32 1#32 k)) k0_pay172 (k0_pay43 k0_pay169 w) (k0_pay56 o (k0_pay55 (k0_pay44 iotaV 0#32 1#32 k))) (prow_toNat w)
    (fun x => pcol1_toNat o _ x (gcol1_lt k x) ho) hP hG hS x

theorem hit_d1_j2 (k : Fin k0_t3_loop.trips)
    (hS : ∀ a x, ((![(k0_pay55 (k0_pay44 iotaV 0#32 1#32 k)), k0_pay172] : Fin 2 → IVec S16 32) a x).toNat < S64x128.size a) :
    {p | ∃ x, idxAt ![(k0_pay55 (k0_pay44 iotaV 0#32 1#32 k)), k0_pay172] hS x = p} = Hit 1 2 k.val :=
  hit_eq 1 2 k.val (k0_pay55 (k0_pay44 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay173, (k0_pay55 (k0_pay44 iotaV 0#32 1#32 k))] : Fin 2 → IVec S16 32) a x).toNat < S128x128.size a)
    (hS : ∀ a x, ((![(k0_pay55 (k0_pay44 iotaV 0#32 1#32 k)), k0_pay173] : Fin 2 → IVec S16 32) a x).toNat < S64x128.size a) (x : S16.Idx) :
    k0_pay60 (loadIdx Pc ![(k0_pay43 k0_pay169 w), k0_pay56 o (k0_pay55 (k0_pay44 iotaV 0#32 1#32 k))] hP) (loadIdx Gc ![k0_pay173, (k0_pay55 (k0_pay44 iotaV 0#32 1#32 k))] hG) x
      = Tslot Gc Pc o w hw ho (idxAt ![(k0_pay55 (k0_pay44 iotaV 0#32 1#32 k)), k0_pay173] hS x) :=
  store_value Gc Pc o w hw ho (k0_pay55 (k0_pay44 iotaV 0#32 1#32 k)) k0_pay173 (k0_pay43 k0_pay169 w) (k0_pay56 o (k0_pay55 (k0_pay44 iotaV 0#32 1#32 k))) (prow_toNat w)
    (fun x => pcol1_toNat o _ x (gcol1_lt k x) ho) hP hG hS x

theorem hit_d1_j3 (k : Fin k0_t3_loop.trips)
    (hS : ∀ a x, ((![(k0_pay55 (k0_pay44 iotaV 0#32 1#32 k)), k0_pay173] : Fin 2 → IVec S16 32) a x).toNat < S64x128.size a) :
    {p | ∃ x, idxAt ![(k0_pay55 (k0_pay44 iotaV 0#32 1#32 k)), k0_pay173] hS x = p} = Hit 1 3 k.val :=
  hit_eq 1 3 k.val (k0_pay55 (k0_pay44 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay174, (k0_pay55 (k0_pay44 iotaV 0#32 1#32 k))] : Fin 2 → IVec S16 32) a x).toNat < S128x128.size a)
    (hS : ∀ a x, ((![(k0_pay55 (k0_pay44 iotaV 0#32 1#32 k)), k0_pay174] : Fin 2 → IVec S16 32) a x).toNat < S64x128.size a) (x : S16.Idx) :
    k0_pay61 (loadIdx Pc ![(k0_pay43 k0_pay169 w), k0_pay56 o (k0_pay55 (k0_pay44 iotaV 0#32 1#32 k))] hP) (loadIdx Gc ![k0_pay174, (k0_pay55 (k0_pay44 iotaV 0#32 1#32 k))] hG) x
      = Tslot Gc Pc o w hw ho (idxAt ![(k0_pay55 (k0_pay44 iotaV 0#32 1#32 k)), k0_pay174] hS x) :=
  store_value Gc Pc o w hw ho (k0_pay55 (k0_pay44 iotaV 0#32 1#32 k)) k0_pay174 (k0_pay43 k0_pay169 w) (k0_pay56 o (k0_pay55 (k0_pay44 iotaV 0#32 1#32 k))) (prow_toNat w)
    (fun x => pcol1_toNat o _ x (gcol1_lt k x) ho) hP hG hS x

theorem hit_d1_j4 (k : Fin k0_t3_loop.trips)
    (hS : ∀ a x, ((![(k0_pay55 (k0_pay44 iotaV 0#32 1#32 k)), k0_pay174] : Fin 2 → IVec S16 32) a x).toNat < S64x128.size a) :
    {p | ∃ x, idxAt ![(k0_pay55 (k0_pay44 iotaV 0#32 1#32 k)), k0_pay174] hS x = p} = Hit 1 4 k.val :=
  hit_eq 1 4 k.val (k0_pay55 (k0_pay44 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay175, (k0_pay55 (k0_pay44 iotaV 0#32 1#32 k))] : Fin 2 → IVec S16 32) a x).toNat < S128x128.size a)
    (hS : ∀ a x, ((![(k0_pay55 (k0_pay44 iotaV 0#32 1#32 k)), k0_pay175] : Fin 2 → IVec S16 32) a x).toNat < S64x128.size a) (x : S16.Idx) :
    k0_pay62 (loadIdx Pc ![(k0_pay43 k0_pay169 w), k0_pay56 o (k0_pay55 (k0_pay44 iotaV 0#32 1#32 k))] hP) (loadIdx Gc ![k0_pay175, (k0_pay55 (k0_pay44 iotaV 0#32 1#32 k))] hG) x
      = Tslot Gc Pc o w hw ho (idxAt ![(k0_pay55 (k0_pay44 iotaV 0#32 1#32 k)), k0_pay175] hS x) :=
  store_value Gc Pc o w hw ho (k0_pay55 (k0_pay44 iotaV 0#32 1#32 k)) k0_pay175 (k0_pay43 k0_pay169 w) (k0_pay56 o (k0_pay55 (k0_pay44 iotaV 0#32 1#32 k))) (prow_toNat w)
    (fun x => pcol1_toNat o _ x (gcol1_lt k x) ho) hP hG hS x

theorem hit_d1_j5 (k : Fin k0_t3_loop.trips)
    (hS : ∀ a x, ((![(k0_pay55 (k0_pay44 iotaV 0#32 1#32 k)), k0_pay175] : Fin 2 → IVec S16 32) a x).toNat < S64x128.size a) :
    {p | ∃ x, idxAt ![(k0_pay55 (k0_pay44 iotaV 0#32 1#32 k)), k0_pay175] hS x = p} = Hit 1 5 k.val :=
  hit_eq 1 5 k.val (k0_pay55 (k0_pay44 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay176, (k0_pay55 (k0_pay44 iotaV 0#32 1#32 k))] : Fin 2 → IVec S16 32) a x).toNat < S128x128.size a)
    (hS : ∀ a x, ((![(k0_pay55 (k0_pay44 iotaV 0#32 1#32 k)), k0_pay176] : Fin 2 → IVec S16 32) a x).toNat < S64x128.size a) (x : S16.Idx) :
    k0_pay63 (loadIdx Pc ![(k0_pay43 k0_pay169 w), k0_pay56 o (k0_pay55 (k0_pay44 iotaV 0#32 1#32 k))] hP) (loadIdx Gc ![k0_pay176, (k0_pay55 (k0_pay44 iotaV 0#32 1#32 k))] hG) x
      = Tslot Gc Pc o w hw ho (idxAt ![(k0_pay55 (k0_pay44 iotaV 0#32 1#32 k)), k0_pay176] hS x) :=
  store_value Gc Pc o w hw ho (k0_pay55 (k0_pay44 iotaV 0#32 1#32 k)) k0_pay176 (k0_pay43 k0_pay169 w) (k0_pay56 o (k0_pay55 (k0_pay44 iotaV 0#32 1#32 k))) (prow_toNat w)
    (fun x => pcol1_toNat o _ x (gcol1_lt k x) ho) hP hG hS x

theorem hit_d1_j6 (k : Fin k0_t3_loop.trips)
    (hS : ∀ a x, ((![(k0_pay55 (k0_pay44 iotaV 0#32 1#32 k)), k0_pay176] : Fin 2 → IVec S16 32) a x).toNat < S64x128.size a) :
    {p | ∃ x, idxAt ![(k0_pay55 (k0_pay44 iotaV 0#32 1#32 k)), k0_pay176] hS x = p} = Hit 1 6 k.val :=
  hit_eq 1 6 k.val (k0_pay55 (k0_pay44 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay177, (k0_pay55 (k0_pay44 iotaV 0#32 1#32 k))] : Fin 2 → IVec S16 32) a x).toNat < S128x128.size a)
    (hS : ∀ a x, ((![(k0_pay55 (k0_pay44 iotaV 0#32 1#32 k)), k0_pay177] : Fin 2 → IVec S16 32) a x).toNat < S64x128.size a) (x : S16.Idx) :
    k0_pay64 (loadIdx Pc ![(k0_pay43 k0_pay169 w), k0_pay56 o (k0_pay55 (k0_pay44 iotaV 0#32 1#32 k))] hP) (loadIdx Gc ![k0_pay177, (k0_pay55 (k0_pay44 iotaV 0#32 1#32 k))] hG) x
      = Tslot Gc Pc o w hw ho (idxAt ![(k0_pay55 (k0_pay44 iotaV 0#32 1#32 k)), k0_pay177] hS x) :=
  store_value Gc Pc o w hw ho (k0_pay55 (k0_pay44 iotaV 0#32 1#32 k)) k0_pay177 (k0_pay43 k0_pay169 w) (k0_pay56 o (k0_pay55 (k0_pay44 iotaV 0#32 1#32 k))) (prow_toNat w)
    (fun x => pcol1_toNat o _ x (gcol1_lt k x) ho) hP hG hS x

theorem hit_d1_j7 (k : Fin k0_t3_loop.trips)
    (hS : ∀ a x, ((![(k0_pay55 (k0_pay44 iotaV 0#32 1#32 k)), k0_pay177] : Fin 2 → IVec S16 32) a x).toNat < S64x128.size a) :
    {p | ∃ x, idxAt ![(k0_pay55 (k0_pay44 iotaV 0#32 1#32 k)), k0_pay177] hS x = p} = Hit 1 7 k.val :=
  hit_eq 1 7 k.val (k0_pay55 (k0_pay44 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay170, (k0_pay65 (k0_pay44 iotaV 0#32 1#32 k))] : Fin 2 → IVec S16 32) a x).toNat < S128x128.size a)
    (hS : ∀ a x, ((![(k0_pay65 (k0_pay44 iotaV 0#32 1#32 k)), k0_pay170] : Fin 2 → IVec S16 32) a x).toNat < S64x128.size a) (x : S16.Idx) :
    k0_pay67 (loadIdx Pc ![(k0_pay43 k0_pay169 w), k0_pay66 o (k0_pay65 (k0_pay44 iotaV 0#32 1#32 k))] hP) (loadIdx Gc ![k0_pay170, (k0_pay65 (k0_pay44 iotaV 0#32 1#32 k))] hG) x
      = Tslot Gc Pc o w hw ho (idxAt ![(k0_pay65 (k0_pay44 iotaV 0#32 1#32 k)), k0_pay170] hS x) :=
  store_value Gc Pc o w hw ho (k0_pay65 (k0_pay44 iotaV 0#32 1#32 k)) k0_pay170 (k0_pay43 k0_pay169 w) (k0_pay66 o (k0_pay65 (k0_pay44 iotaV 0#32 1#32 k))) (prow_toNat w)
    (fun x => pcol2_toNat o _ x (gcol2_lt k x) ho) hP hG hS x

theorem hit_d2_j0 (k : Fin k0_t3_loop.trips)
    (hS : ∀ a x, ((![(k0_pay65 (k0_pay44 iotaV 0#32 1#32 k)), k0_pay170] : Fin 2 → IVec S16 32) a x).toNat < S64x128.size a) :
    {p | ∃ x, idxAt ![(k0_pay65 (k0_pay44 iotaV 0#32 1#32 k)), k0_pay170] hS x = p} = Hit 2 0 k.val :=
  hit_eq 2 0 k.val (k0_pay65 (k0_pay44 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay171, (k0_pay65 (k0_pay44 iotaV 0#32 1#32 k))] : Fin 2 → IVec S16 32) a x).toNat < S128x128.size a)
    (hS : ∀ a x, ((![(k0_pay65 (k0_pay44 iotaV 0#32 1#32 k)), k0_pay171] : Fin 2 → IVec S16 32) a x).toNat < S64x128.size a) (x : S16.Idx) :
    k0_pay68 (loadIdx Pc ![(k0_pay43 k0_pay169 w), k0_pay66 o (k0_pay65 (k0_pay44 iotaV 0#32 1#32 k))] hP) (loadIdx Gc ![k0_pay171, (k0_pay65 (k0_pay44 iotaV 0#32 1#32 k))] hG) x
      = Tslot Gc Pc o w hw ho (idxAt ![(k0_pay65 (k0_pay44 iotaV 0#32 1#32 k)), k0_pay171] hS x) :=
  store_value Gc Pc o w hw ho (k0_pay65 (k0_pay44 iotaV 0#32 1#32 k)) k0_pay171 (k0_pay43 k0_pay169 w) (k0_pay66 o (k0_pay65 (k0_pay44 iotaV 0#32 1#32 k))) (prow_toNat w)
    (fun x => pcol2_toNat o _ x (gcol2_lt k x) ho) hP hG hS x

theorem hit_d2_j1 (k : Fin k0_t3_loop.trips)
    (hS : ∀ a x, ((![(k0_pay65 (k0_pay44 iotaV 0#32 1#32 k)), k0_pay171] : Fin 2 → IVec S16 32) a x).toNat < S64x128.size a) :
    {p | ∃ x, idxAt ![(k0_pay65 (k0_pay44 iotaV 0#32 1#32 k)), k0_pay171] hS x = p} = Hit 2 1 k.val :=
  hit_eq 2 1 k.val (k0_pay65 (k0_pay44 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay172, (k0_pay65 (k0_pay44 iotaV 0#32 1#32 k))] : Fin 2 → IVec S16 32) a x).toNat < S128x128.size a)
    (hS : ∀ a x, ((![(k0_pay65 (k0_pay44 iotaV 0#32 1#32 k)), k0_pay172] : Fin 2 → IVec S16 32) a x).toNat < S64x128.size a) (x : S16.Idx) :
    k0_pay69 (loadIdx Pc ![(k0_pay43 k0_pay169 w), k0_pay66 o (k0_pay65 (k0_pay44 iotaV 0#32 1#32 k))] hP) (loadIdx Gc ![k0_pay172, (k0_pay65 (k0_pay44 iotaV 0#32 1#32 k))] hG) x
      = Tslot Gc Pc o w hw ho (idxAt ![(k0_pay65 (k0_pay44 iotaV 0#32 1#32 k)), k0_pay172] hS x) :=
  store_value Gc Pc o w hw ho (k0_pay65 (k0_pay44 iotaV 0#32 1#32 k)) k0_pay172 (k0_pay43 k0_pay169 w) (k0_pay66 o (k0_pay65 (k0_pay44 iotaV 0#32 1#32 k))) (prow_toNat w)
    (fun x => pcol2_toNat o _ x (gcol2_lt k x) ho) hP hG hS x

theorem hit_d2_j2 (k : Fin k0_t3_loop.trips)
    (hS : ∀ a x, ((![(k0_pay65 (k0_pay44 iotaV 0#32 1#32 k)), k0_pay172] : Fin 2 → IVec S16 32) a x).toNat < S64x128.size a) :
    {p | ∃ x, idxAt ![(k0_pay65 (k0_pay44 iotaV 0#32 1#32 k)), k0_pay172] hS x = p} = Hit 2 2 k.val :=
  hit_eq 2 2 k.val (k0_pay65 (k0_pay44 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay173, (k0_pay65 (k0_pay44 iotaV 0#32 1#32 k))] : Fin 2 → IVec S16 32) a x).toNat < S128x128.size a)
    (hS : ∀ a x, ((![(k0_pay65 (k0_pay44 iotaV 0#32 1#32 k)), k0_pay173] : Fin 2 → IVec S16 32) a x).toNat < S64x128.size a) (x : S16.Idx) :
    k0_pay70 (loadIdx Pc ![(k0_pay43 k0_pay169 w), k0_pay66 o (k0_pay65 (k0_pay44 iotaV 0#32 1#32 k))] hP) (loadIdx Gc ![k0_pay173, (k0_pay65 (k0_pay44 iotaV 0#32 1#32 k))] hG) x
      = Tslot Gc Pc o w hw ho (idxAt ![(k0_pay65 (k0_pay44 iotaV 0#32 1#32 k)), k0_pay173] hS x) :=
  store_value Gc Pc o w hw ho (k0_pay65 (k0_pay44 iotaV 0#32 1#32 k)) k0_pay173 (k0_pay43 k0_pay169 w) (k0_pay66 o (k0_pay65 (k0_pay44 iotaV 0#32 1#32 k))) (prow_toNat w)
    (fun x => pcol2_toNat o _ x (gcol2_lt k x) ho) hP hG hS x

theorem hit_d2_j3 (k : Fin k0_t3_loop.trips)
    (hS : ∀ a x, ((![(k0_pay65 (k0_pay44 iotaV 0#32 1#32 k)), k0_pay173] : Fin 2 → IVec S16 32) a x).toNat < S64x128.size a) :
    {p | ∃ x, idxAt ![(k0_pay65 (k0_pay44 iotaV 0#32 1#32 k)), k0_pay173] hS x = p} = Hit 2 3 k.val :=
  hit_eq 2 3 k.val (k0_pay65 (k0_pay44 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay174, (k0_pay65 (k0_pay44 iotaV 0#32 1#32 k))] : Fin 2 → IVec S16 32) a x).toNat < S128x128.size a)
    (hS : ∀ a x, ((![(k0_pay65 (k0_pay44 iotaV 0#32 1#32 k)), k0_pay174] : Fin 2 → IVec S16 32) a x).toNat < S64x128.size a) (x : S16.Idx) :
    k0_pay71 (loadIdx Pc ![(k0_pay43 k0_pay169 w), k0_pay66 o (k0_pay65 (k0_pay44 iotaV 0#32 1#32 k))] hP) (loadIdx Gc ![k0_pay174, (k0_pay65 (k0_pay44 iotaV 0#32 1#32 k))] hG) x
      = Tslot Gc Pc o w hw ho (idxAt ![(k0_pay65 (k0_pay44 iotaV 0#32 1#32 k)), k0_pay174] hS x) :=
  store_value Gc Pc o w hw ho (k0_pay65 (k0_pay44 iotaV 0#32 1#32 k)) k0_pay174 (k0_pay43 k0_pay169 w) (k0_pay66 o (k0_pay65 (k0_pay44 iotaV 0#32 1#32 k))) (prow_toNat w)
    (fun x => pcol2_toNat o _ x (gcol2_lt k x) ho) hP hG hS x

theorem hit_d2_j4 (k : Fin k0_t3_loop.trips)
    (hS : ∀ a x, ((![(k0_pay65 (k0_pay44 iotaV 0#32 1#32 k)), k0_pay174] : Fin 2 → IVec S16 32) a x).toNat < S64x128.size a) :
    {p | ∃ x, idxAt ![(k0_pay65 (k0_pay44 iotaV 0#32 1#32 k)), k0_pay174] hS x = p} = Hit 2 4 k.val :=
  hit_eq 2 4 k.val (k0_pay65 (k0_pay44 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay175, (k0_pay65 (k0_pay44 iotaV 0#32 1#32 k))] : Fin 2 → IVec S16 32) a x).toNat < S128x128.size a)
    (hS : ∀ a x, ((![(k0_pay65 (k0_pay44 iotaV 0#32 1#32 k)), k0_pay175] : Fin 2 → IVec S16 32) a x).toNat < S64x128.size a) (x : S16.Idx) :
    k0_pay72 (loadIdx Pc ![(k0_pay43 k0_pay169 w), k0_pay66 o (k0_pay65 (k0_pay44 iotaV 0#32 1#32 k))] hP) (loadIdx Gc ![k0_pay175, (k0_pay65 (k0_pay44 iotaV 0#32 1#32 k))] hG) x
      = Tslot Gc Pc o w hw ho (idxAt ![(k0_pay65 (k0_pay44 iotaV 0#32 1#32 k)), k0_pay175] hS x) :=
  store_value Gc Pc o w hw ho (k0_pay65 (k0_pay44 iotaV 0#32 1#32 k)) k0_pay175 (k0_pay43 k0_pay169 w) (k0_pay66 o (k0_pay65 (k0_pay44 iotaV 0#32 1#32 k))) (prow_toNat w)
    (fun x => pcol2_toNat o _ x (gcol2_lt k x) ho) hP hG hS x

theorem hit_d2_j5 (k : Fin k0_t3_loop.trips)
    (hS : ∀ a x, ((![(k0_pay65 (k0_pay44 iotaV 0#32 1#32 k)), k0_pay175] : Fin 2 → IVec S16 32) a x).toNat < S64x128.size a) :
    {p | ∃ x, idxAt ![(k0_pay65 (k0_pay44 iotaV 0#32 1#32 k)), k0_pay175] hS x = p} = Hit 2 5 k.val :=
  hit_eq 2 5 k.val (k0_pay65 (k0_pay44 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay176, (k0_pay65 (k0_pay44 iotaV 0#32 1#32 k))] : Fin 2 → IVec S16 32) a x).toNat < S128x128.size a)
    (hS : ∀ a x, ((![(k0_pay65 (k0_pay44 iotaV 0#32 1#32 k)), k0_pay176] : Fin 2 → IVec S16 32) a x).toNat < S64x128.size a) (x : S16.Idx) :
    k0_pay73 (loadIdx Pc ![(k0_pay43 k0_pay169 w), k0_pay66 o (k0_pay65 (k0_pay44 iotaV 0#32 1#32 k))] hP) (loadIdx Gc ![k0_pay176, (k0_pay65 (k0_pay44 iotaV 0#32 1#32 k))] hG) x
      = Tslot Gc Pc o w hw ho (idxAt ![(k0_pay65 (k0_pay44 iotaV 0#32 1#32 k)), k0_pay176] hS x) :=
  store_value Gc Pc o w hw ho (k0_pay65 (k0_pay44 iotaV 0#32 1#32 k)) k0_pay176 (k0_pay43 k0_pay169 w) (k0_pay66 o (k0_pay65 (k0_pay44 iotaV 0#32 1#32 k))) (prow_toNat w)
    (fun x => pcol2_toNat o _ x (gcol2_lt k x) ho) hP hG hS x

theorem hit_d2_j6 (k : Fin k0_t3_loop.trips)
    (hS : ∀ a x, ((![(k0_pay65 (k0_pay44 iotaV 0#32 1#32 k)), k0_pay176] : Fin 2 → IVec S16 32) a x).toNat < S64x128.size a) :
    {p | ∃ x, idxAt ![(k0_pay65 (k0_pay44 iotaV 0#32 1#32 k)), k0_pay176] hS x = p} = Hit 2 6 k.val :=
  hit_eq 2 6 k.val (k0_pay65 (k0_pay44 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay177, (k0_pay65 (k0_pay44 iotaV 0#32 1#32 k))] : Fin 2 → IVec S16 32) a x).toNat < S128x128.size a)
    (hS : ∀ a x, ((![(k0_pay65 (k0_pay44 iotaV 0#32 1#32 k)), k0_pay177] : Fin 2 → IVec S16 32) a x).toNat < S64x128.size a) (x : S16.Idx) :
    k0_pay74 (loadIdx Pc ![(k0_pay43 k0_pay169 w), k0_pay66 o (k0_pay65 (k0_pay44 iotaV 0#32 1#32 k))] hP) (loadIdx Gc ![k0_pay177, (k0_pay65 (k0_pay44 iotaV 0#32 1#32 k))] hG) x
      = Tslot Gc Pc o w hw ho (idxAt ![(k0_pay65 (k0_pay44 iotaV 0#32 1#32 k)), k0_pay177] hS x) :=
  store_value Gc Pc o w hw ho (k0_pay65 (k0_pay44 iotaV 0#32 1#32 k)) k0_pay177 (k0_pay43 k0_pay169 w) (k0_pay66 o (k0_pay65 (k0_pay44 iotaV 0#32 1#32 k))) (prow_toNat w)
    (fun x => pcol2_toNat o _ x (gcol2_lt k x) ho) hP hG hS x

theorem hit_d2_j7 (k : Fin k0_t3_loop.trips)
    (hS : ∀ a x, ((![(k0_pay65 (k0_pay44 iotaV 0#32 1#32 k)), k0_pay177] : Fin 2 → IVec S16 32) a x).toNat < S64x128.size a) :
    {p | ∃ x, idxAt ![(k0_pay65 (k0_pay44 iotaV 0#32 1#32 k)), k0_pay177] hS x = p} = Hit 2 7 k.val :=
  hit_eq 2 7 k.val (k0_pay65 (k0_pay44 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay170, (k0_pay75 (k0_pay44 iotaV 0#32 1#32 k))] : Fin 2 → IVec S16 32) a x).toNat < S128x128.size a)
    (hS : ∀ a x, ((![(k0_pay75 (k0_pay44 iotaV 0#32 1#32 k)), k0_pay170] : Fin 2 → IVec S16 32) a x).toNat < S64x128.size a) (x : S16.Idx) :
    k0_pay77 (loadIdx Pc ![(k0_pay43 k0_pay169 w), k0_pay76 o (k0_pay75 (k0_pay44 iotaV 0#32 1#32 k))] hP) (loadIdx Gc ![k0_pay170, (k0_pay75 (k0_pay44 iotaV 0#32 1#32 k))] hG) x
      = Tslot Gc Pc o w hw ho (idxAt ![(k0_pay75 (k0_pay44 iotaV 0#32 1#32 k)), k0_pay170] hS x) :=
  store_value Gc Pc o w hw ho (k0_pay75 (k0_pay44 iotaV 0#32 1#32 k)) k0_pay170 (k0_pay43 k0_pay169 w) (k0_pay76 o (k0_pay75 (k0_pay44 iotaV 0#32 1#32 k))) (prow_toNat w)
    (fun x => pcol3_toNat o _ x (gcol3_lt k x) ho) hP hG hS x

theorem hit_d3_j0 (k : Fin k0_t3_loop.trips)
    (hS : ∀ a x, ((![(k0_pay75 (k0_pay44 iotaV 0#32 1#32 k)), k0_pay170] : Fin 2 → IVec S16 32) a x).toNat < S64x128.size a) :
    {p | ∃ x, idxAt ![(k0_pay75 (k0_pay44 iotaV 0#32 1#32 k)), k0_pay170] hS x = p} = Hit 3 0 k.val :=
  hit_eq 3 0 k.val (k0_pay75 (k0_pay44 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay171, (k0_pay75 (k0_pay44 iotaV 0#32 1#32 k))] : Fin 2 → IVec S16 32) a x).toNat < S128x128.size a)
    (hS : ∀ a x, ((![(k0_pay75 (k0_pay44 iotaV 0#32 1#32 k)), k0_pay171] : Fin 2 → IVec S16 32) a x).toNat < S64x128.size a) (x : S16.Idx) :
    k0_pay78 (loadIdx Pc ![(k0_pay43 k0_pay169 w), k0_pay76 o (k0_pay75 (k0_pay44 iotaV 0#32 1#32 k))] hP) (loadIdx Gc ![k0_pay171, (k0_pay75 (k0_pay44 iotaV 0#32 1#32 k))] hG) x
      = Tslot Gc Pc o w hw ho (idxAt ![(k0_pay75 (k0_pay44 iotaV 0#32 1#32 k)), k0_pay171] hS x) :=
  store_value Gc Pc o w hw ho (k0_pay75 (k0_pay44 iotaV 0#32 1#32 k)) k0_pay171 (k0_pay43 k0_pay169 w) (k0_pay76 o (k0_pay75 (k0_pay44 iotaV 0#32 1#32 k))) (prow_toNat w)
    (fun x => pcol3_toNat o _ x (gcol3_lt k x) ho) hP hG hS x

theorem hit_d3_j1 (k : Fin k0_t3_loop.trips)
    (hS : ∀ a x, ((![(k0_pay75 (k0_pay44 iotaV 0#32 1#32 k)), k0_pay171] : Fin 2 → IVec S16 32) a x).toNat < S64x128.size a) :
    {p | ∃ x, idxAt ![(k0_pay75 (k0_pay44 iotaV 0#32 1#32 k)), k0_pay171] hS x = p} = Hit 3 1 k.val :=
  hit_eq 3 1 k.val (k0_pay75 (k0_pay44 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay172, (k0_pay75 (k0_pay44 iotaV 0#32 1#32 k))] : Fin 2 → IVec S16 32) a x).toNat < S128x128.size a)
    (hS : ∀ a x, ((![(k0_pay75 (k0_pay44 iotaV 0#32 1#32 k)), k0_pay172] : Fin 2 → IVec S16 32) a x).toNat < S64x128.size a) (x : S16.Idx) :
    k0_pay79 (loadIdx Pc ![(k0_pay43 k0_pay169 w), k0_pay76 o (k0_pay75 (k0_pay44 iotaV 0#32 1#32 k))] hP) (loadIdx Gc ![k0_pay172, (k0_pay75 (k0_pay44 iotaV 0#32 1#32 k))] hG) x
      = Tslot Gc Pc o w hw ho (idxAt ![(k0_pay75 (k0_pay44 iotaV 0#32 1#32 k)), k0_pay172] hS x) :=
  store_value Gc Pc o w hw ho (k0_pay75 (k0_pay44 iotaV 0#32 1#32 k)) k0_pay172 (k0_pay43 k0_pay169 w) (k0_pay76 o (k0_pay75 (k0_pay44 iotaV 0#32 1#32 k))) (prow_toNat w)
    (fun x => pcol3_toNat o _ x (gcol3_lt k x) ho) hP hG hS x

theorem hit_d3_j2 (k : Fin k0_t3_loop.trips)
    (hS : ∀ a x, ((![(k0_pay75 (k0_pay44 iotaV 0#32 1#32 k)), k0_pay172] : Fin 2 → IVec S16 32) a x).toNat < S64x128.size a) :
    {p | ∃ x, idxAt ![(k0_pay75 (k0_pay44 iotaV 0#32 1#32 k)), k0_pay172] hS x = p} = Hit 3 2 k.val :=
  hit_eq 3 2 k.val (k0_pay75 (k0_pay44 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay173, (k0_pay75 (k0_pay44 iotaV 0#32 1#32 k))] : Fin 2 → IVec S16 32) a x).toNat < S128x128.size a)
    (hS : ∀ a x, ((![(k0_pay75 (k0_pay44 iotaV 0#32 1#32 k)), k0_pay173] : Fin 2 → IVec S16 32) a x).toNat < S64x128.size a) (x : S16.Idx) :
    k0_pay80 (loadIdx Pc ![(k0_pay43 k0_pay169 w), k0_pay76 o (k0_pay75 (k0_pay44 iotaV 0#32 1#32 k))] hP) (loadIdx Gc ![k0_pay173, (k0_pay75 (k0_pay44 iotaV 0#32 1#32 k))] hG) x
      = Tslot Gc Pc o w hw ho (idxAt ![(k0_pay75 (k0_pay44 iotaV 0#32 1#32 k)), k0_pay173] hS x) :=
  store_value Gc Pc o w hw ho (k0_pay75 (k0_pay44 iotaV 0#32 1#32 k)) k0_pay173 (k0_pay43 k0_pay169 w) (k0_pay76 o (k0_pay75 (k0_pay44 iotaV 0#32 1#32 k))) (prow_toNat w)
    (fun x => pcol3_toNat o _ x (gcol3_lt k x) ho) hP hG hS x

theorem hit_d3_j3 (k : Fin k0_t3_loop.trips)
    (hS : ∀ a x, ((![(k0_pay75 (k0_pay44 iotaV 0#32 1#32 k)), k0_pay173] : Fin 2 → IVec S16 32) a x).toNat < S64x128.size a) :
    {p | ∃ x, idxAt ![(k0_pay75 (k0_pay44 iotaV 0#32 1#32 k)), k0_pay173] hS x = p} = Hit 3 3 k.val :=
  hit_eq 3 3 k.val (k0_pay75 (k0_pay44 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay174, (k0_pay75 (k0_pay44 iotaV 0#32 1#32 k))] : Fin 2 → IVec S16 32) a x).toNat < S128x128.size a)
    (hS : ∀ a x, ((![(k0_pay75 (k0_pay44 iotaV 0#32 1#32 k)), k0_pay174] : Fin 2 → IVec S16 32) a x).toNat < S64x128.size a) (x : S16.Idx) :
    k0_pay81 (loadIdx Pc ![(k0_pay43 k0_pay169 w), k0_pay76 o (k0_pay75 (k0_pay44 iotaV 0#32 1#32 k))] hP) (loadIdx Gc ![k0_pay174, (k0_pay75 (k0_pay44 iotaV 0#32 1#32 k))] hG) x
      = Tslot Gc Pc o w hw ho (idxAt ![(k0_pay75 (k0_pay44 iotaV 0#32 1#32 k)), k0_pay174] hS x) :=
  store_value Gc Pc o w hw ho (k0_pay75 (k0_pay44 iotaV 0#32 1#32 k)) k0_pay174 (k0_pay43 k0_pay169 w) (k0_pay76 o (k0_pay75 (k0_pay44 iotaV 0#32 1#32 k))) (prow_toNat w)
    (fun x => pcol3_toNat o _ x (gcol3_lt k x) ho) hP hG hS x

theorem hit_d3_j4 (k : Fin k0_t3_loop.trips)
    (hS : ∀ a x, ((![(k0_pay75 (k0_pay44 iotaV 0#32 1#32 k)), k0_pay174] : Fin 2 → IVec S16 32) a x).toNat < S64x128.size a) :
    {p | ∃ x, idxAt ![(k0_pay75 (k0_pay44 iotaV 0#32 1#32 k)), k0_pay174] hS x = p} = Hit 3 4 k.val :=
  hit_eq 3 4 k.val (k0_pay75 (k0_pay44 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay175, (k0_pay75 (k0_pay44 iotaV 0#32 1#32 k))] : Fin 2 → IVec S16 32) a x).toNat < S128x128.size a)
    (hS : ∀ a x, ((![(k0_pay75 (k0_pay44 iotaV 0#32 1#32 k)), k0_pay175] : Fin 2 → IVec S16 32) a x).toNat < S64x128.size a) (x : S16.Idx) :
    k0_pay82 (loadIdx Pc ![(k0_pay43 k0_pay169 w), k0_pay76 o (k0_pay75 (k0_pay44 iotaV 0#32 1#32 k))] hP) (loadIdx Gc ![k0_pay175, (k0_pay75 (k0_pay44 iotaV 0#32 1#32 k))] hG) x
      = Tslot Gc Pc o w hw ho (idxAt ![(k0_pay75 (k0_pay44 iotaV 0#32 1#32 k)), k0_pay175] hS x) :=
  store_value Gc Pc o w hw ho (k0_pay75 (k0_pay44 iotaV 0#32 1#32 k)) k0_pay175 (k0_pay43 k0_pay169 w) (k0_pay76 o (k0_pay75 (k0_pay44 iotaV 0#32 1#32 k))) (prow_toNat w)
    (fun x => pcol3_toNat o _ x (gcol3_lt k x) ho) hP hG hS x

theorem hit_d3_j5 (k : Fin k0_t3_loop.trips)
    (hS : ∀ a x, ((![(k0_pay75 (k0_pay44 iotaV 0#32 1#32 k)), k0_pay175] : Fin 2 → IVec S16 32) a x).toNat < S64x128.size a) :
    {p | ∃ x, idxAt ![(k0_pay75 (k0_pay44 iotaV 0#32 1#32 k)), k0_pay175] hS x = p} = Hit 3 5 k.val :=
  hit_eq 3 5 k.val (k0_pay75 (k0_pay44 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay176, (k0_pay75 (k0_pay44 iotaV 0#32 1#32 k))] : Fin 2 → IVec S16 32) a x).toNat < S128x128.size a)
    (hS : ∀ a x, ((![(k0_pay75 (k0_pay44 iotaV 0#32 1#32 k)), k0_pay176] : Fin 2 → IVec S16 32) a x).toNat < S64x128.size a) (x : S16.Idx) :
    k0_pay83 (loadIdx Pc ![(k0_pay43 k0_pay169 w), k0_pay76 o (k0_pay75 (k0_pay44 iotaV 0#32 1#32 k))] hP) (loadIdx Gc ![k0_pay176, (k0_pay75 (k0_pay44 iotaV 0#32 1#32 k))] hG) x
      = Tslot Gc Pc o w hw ho (idxAt ![(k0_pay75 (k0_pay44 iotaV 0#32 1#32 k)), k0_pay176] hS x) :=
  store_value Gc Pc o w hw ho (k0_pay75 (k0_pay44 iotaV 0#32 1#32 k)) k0_pay176 (k0_pay43 k0_pay169 w) (k0_pay76 o (k0_pay75 (k0_pay44 iotaV 0#32 1#32 k))) (prow_toNat w)
    (fun x => pcol3_toNat o _ x (gcol3_lt k x) ho) hP hG hS x

theorem hit_d3_j6 (k : Fin k0_t3_loop.trips)
    (hS : ∀ a x, ((![(k0_pay75 (k0_pay44 iotaV 0#32 1#32 k)), k0_pay176] : Fin 2 → IVec S16 32) a x).toNat < S64x128.size a) :
    {p | ∃ x, idxAt ![(k0_pay75 (k0_pay44 iotaV 0#32 1#32 k)), k0_pay176] hS x = p} = Hit 3 6 k.val :=
  hit_eq 3 6 k.val (k0_pay75 (k0_pay44 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay177, (k0_pay75 (k0_pay44 iotaV 0#32 1#32 k))] : Fin 2 → IVec S16 32) a x).toNat < S128x128.size a)
    (hS : ∀ a x, ((![(k0_pay75 (k0_pay44 iotaV 0#32 1#32 k)), k0_pay177] : Fin 2 → IVec S16 32) a x).toNat < S64x128.size a) (x : S16.Idx) :
    k0_pay84 (loadIdx Pc ![(k0_pay43 k0_pay169 w), k0_pay76 o (k0_pay75 (k0_pay44 iotaV 0#32 1#32 k))] hP) (loadIdx Gc ![k0_pay177, (k0_pay75 (k0_pay44 iotaV 0#32 1#32 k))] hG) x
      = Tslot Gc Pc o w hw ho (idxAt ![(k0_pay75 (k0_pay44 iotaV 0#32 1#32 k)), k0_pay177] hS x) :=
  store_value Gc Pc o w hw ho (k0_pay75 (k0_pay44 iotaV 0#32 1#32 k)) k0_pay177 (k0_pay43 k0_pay169 w) (k0_pay76 o (k0_pay75 (k0_pay44 iotaV 0#32 1#32 k))) (prow_toNat w)
    (fun x => pcol3_toNat o _ x (gcol3_lt k x) ho) hP hG hS x

theorem hit_d3_j7 (k : Fin k0_t3_loop.trips)
    (hS : ∀ a x, ((![(k0_pay75 (k0_pay44 iotaV 0#32 1#32 k)), k0_pay177] : Fin 2 → IVec S16 32) a x).toNat < S64x128.size a) :
    {p | ∃ x, idxAt ![(k0_pay75 (k0_pay44 iotaV 0#32 1#32 k)), k0_pay177] hS x = p} = Hit 3 7 k.val :=
  hit_eq 3 7 k.val (k0_pay75 (k0_pay44 iotaV 0#32 1#32 k)) k0_pay177
    (fun x => by rw [gcol3_toNat]; show _ = (ln x + k.val) % 16 + 16 * 3; omega)
    (fun x => by rw [pay177_toNat]; show _ = 16 * 7 + ln x; omega) hS

end Cert.Lanes.C2
-- ==== Proof.Lane3.lean ====
/-
  The index arithmetic of one copy of the inner loop (k0_t4_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVec

namespace Cert.Lanes.C3

open Idealize.ShloMosaic Cert.KernelIdeal Cert.KernelIdeal.Gen Cert.Lanes

/-- The loop runs at most 16 trips. -/
theorem trip_lt (k : Fin k0_t4_loop.trips) : k.val < 16 := Nat.lt_of_lt_of_le k.isLt k0_t4_abs.2.1

/-- The rotation vector of trip `k`: `(lane + k) mod 16`. -/
theorem rot_toNat (k : Fin k0_t4_loop.trips) (x : S16.Idx) :
    (k0_pay86 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t4_loop.trips) (x : S16.Idx) :
    (k0_pay87 iotaV 0#32 1#32 k x).toNat = (ln x + k.val) % 16 :=
  addi_lit (k0_pay86 iotaV 0#32 1#32 k) 0#32 ((ln x + k.val) % 16) 0 x (rot_toNat k x) rfl (by omega)

/-- The column vector of feature group 1 in trip `k`. -/
theorem gcol1_toNat (k : Fin k0_t4_loop.trips) (x : S16.Idx) :
    (k0_pay97 (k0_pay86 iotaV 0#32 1#32 k) x).toNat = (ln x + k.val) % 16 + 16 :=
  addi_lit (k0_pay86 iotaV 0#32 1#32 k) 16#32 ((ln x + k.val) % 16) 16 x (rot_toNat k x) rfl (by omega)

/-- The column vector of feature group 2 in trip `k`. -/
theorem gcol2_toNat (k : Fin k0_t4_loop.trips) (x : S16.Idx) :
    (k0_pay107 (k0_pay86 iotaV 0#32 1#32 k) x).toNat = (ln x + k.val) % 16 + 32 :=
  addi_lit (k0_pay86 iotaV 0#32 1#32 k) 32#32 ((ln x + k.val) % 16) 32 x (rot_toNat k x) rfl (by omega)

/-- The column vector of feature group 3 in trip `k`. -/
theorem gcol3_toNat (k : Fin k0_t4_loop.trips) (x : S16.Idx) :
    (k0_pay117 (k0_pay86 iotaV 0#32 1#32 k) x).toNat = (ln x + k.val) % 16 + 48 :=
  addi_lit (k0_pay86 iotaV 0#32 1#32 k) 48#32 ((ln x + k.val) % 16) 48 x (rot_toNat k x) rfl (by omega)

theorem gcol0_lt (k : Fin k0_t4_loop.trips) (x : S16.Idx) : (k0_pay87 iotaV 0#32 1#32 k x).toNat < 64 := by
  rw [gcol0_toNat]; omega
theorem gcol1_lt (k : Fin k0_t4_loop.trips) (x : S16.Idx) : (k0_pay97 (k0_pay86 iotaV 0#32 1#32 k) x).toNat < 64 := by
  rw [gcol1_toNat]; omega
theorem gcol2_lt (k : Fin k0_t4_loop.trips) (x : S16.Idx) : (k0_pay107 (k0_pay86 iotaV 0#32 1#32 k) x).toNat < 64 := by
  rw [gcol2_toNat]; omega
theorem gcol3_lt (k : Fin k0_t4_loop.trips) (x : S16.Idx) : (k0_pay117 (k0_pay86 iotaV 0#32 1#32 k) x).toNat < 64 := by
  rw [gcol3_toNat]; omega

/-- The positional row vector: the word `w` in every lane. -/
theorem prow_toNat (w : BitVec 32) (x : S16.Idx) : (k0_pay85 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay88 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay98 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay108 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay118 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk17 (k0_pay85 k0_pay169 w) (k0_pay88 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk19 (k0_pay85 k0_pay169 w) (k0_pay98 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk21 (k0_pay85 k0_pay169 w) (k0_pay108 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk23 (k0_pay85 k0_pay169 w) (k0_pay118 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk18 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk20 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk22 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk24 k0_pay170 k0_pay171 k0_pay172 k0_pay173 k0_pay174 k0_pay175 k0_pay176 k0_pay177 gc := chkG0 gc hgc

/-! ### The side conditions at the column vectors of trip `k` -/

theorem chkP0_trip (k : Fin k0_t4_loop.trips) (o w : BitVec 32) (hw : w.toNat < 100) (ho : o.toNat ≤ 64) :
    k0_chk17 (k0_pay85 k0_pay169 w) (k0_pay88 o (k0_pay87 iotaV 0#32 1#32 k)) := chkP0 o w _ hw ho (gcol0_lt k)
theorem chkP1_trip (k : Fin k0_t4_loop.trips) (o w : BitVec 32) (hw : w.toNat < 100) (ho : o.toNat ≤ 64) :
    k0_chk19 (k0_pay85 k0_pay169 w) (k0_pay98 o (k0_pay97 (k0_pay86 iotaV 0#32 1#32 k))) := chkP1 o w _ hw ho (gcol1_lt k)
theorem chkP2_trip (k : Fin k0_t4_loop.trips) (o w : BitVec 32) (hw : w.toNat < 100) (ho : o.toNat ≤ 64) :
    k0_chk21 (k0_pay85 k0_pay169 w) (k0_pay108 o (k0_pay107 (k0_pay86 iotaV 0#32 1#32 k))) := chkP2 o w _ hw ho (gcol2_lt k)
theorem chkP3_trip (k : Fin k0_t4_loop.trips) (o w : BitVec 32) (hw : w.toNat < 100) (ho : o.toNat ≤ 64) :
    k0_chk23 (k0_pay85 k0_pay169 w) (k0_pay118 o (k0_pay117 (k0_pay86 iotaV 0#32 1#32 k))) := chkP3 o w _ hw ho (gcol3_lt k)

theorem chkG0_trip (k : Fin k0_t4_loop.trips) :
    k0_chk18 k0_pay170 k0_pay171 k0_pay172 k0_pay173 k0_pay174 k0_pay175 k0_pay176 k0_pay177 (k0_pay87 iotaV 0#32 1#32 k) :=
  chkG0 _ (gcol0_lt k)
theorem chkG1_trip (k : Fin k0_t4_loop.trips) :
    k0_chk20 k0_pay170 k0_pay171 k0_pay172 k0_pay173 k0_pay174 k0_pay175 k0_pay176 k0_pay177 (k0_pay97 (k0_pay86 iotaV 0#32 1#32 k)) :=
  chkG1 _ (gcol1_lt k)
theorem chkG2_trip (k : Fin k0_t4_loop.trips) :
    k0_chk22 k0_pay170 k0_pay171 k0_pay172 k0_pay173 k0_pay174 k0_pay175 k0_pay176 k0_pay177 (k0_pay107 (k0_pay86 iotaV 0#32 1#32 k)) :=
  chkG2 _ (gcol2_lt k)
theorem chkG3_trip (k : Fin k0_t4_loop.trips) :
    k0_chk24 k0_pay170 k0_pay171 k0_pay172 k0_pay173 k0_pay174 k0_pay175 k0_pay176 k0_pay177 (k0_pay117 (k0_pay86 iotaV 0#32 1#32 k)) :=
  chkG3 _ (gcol3_lt k)

end Cert.Lanes.C3
-- ==== Proof.LaneTrip3.lean ====
/-
  The values and the elements of the 32 stores of one trip of the inner loop k0_t4_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTrip
import proofs.«206908_g46772193853751_cont_8to1c4_160_30_alg».proof.Proof.Lane3

namespace Cert.Lanes.C3

open Idealize.ShloMosaic Idealize.ShloMosaic.ValueIdx Cert.KernelIdeal Cert.KernelIdeal.Gen Cert.Lanes

variable {F : FTy → Type} [FloatOps F]

theorem val_d0_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay170, (k0_pay87 iotaV 0#32 1#32 k)] : Fin 2 → IVec S16 32) a x).toNat < S128x128.size a)
    (hS : ∀ a x, ((![(k0_pay87 iotaV 0#32 1#32 k), k0_pay170] : Fin 2 → IVec S16 32) a x).toNat < S64x128.size a) (x : S16.Idx) :
    k0_pay89 (loadIdx Pc ![(k0_pay85 k0_pay169 w), k0_pay88 o (k0_pay87 iotaV 0#32 1#32 k)] hP) (loadIdx Gc ![k0_pay170, (k0_pay87 iotaV 0#32 1#32 k)] hG) x
      = Tslot Gc Pc o w hw ho (idxAt ![(k0_pay87 iotaV 0#32 1#32 k), k0_pay170] hS x) :=
  store_value Gc Pc o w hw ho (k0_pay87 iotaV 0#32 1#32 k) k0_pay170 (k0_pay85 k0_pay169 w) (k0_pay88 o (k0_pay87 iotaV 0#32 1#32 k)) (prow_toNat w)
    (fun x => pcol0_toNat o _ x (gcol0_lt k x) ho) hP hG hS x

theorem hit_d0_j0 (k : Fin k0_t4_loop.trips)
    (hS : ∀ a x, ((![(k0_pay87 iotaV 0#32 1#32 k), k0_pay170] : Fin 2 → IVec S16 32) a x).toNat < S64x128.size a) :
    {p | ∃ x, idxAt ![(k0_pay87 iotaV 0#32 1#32 k), k0_pay170] hS x = p} = Hit 0 0 k.val :=
  hit_eq 0 0 k.val (k0_pay87 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay171, (k0_pay87 iotaV 0#32 1#32 k)] : Fin 2 → IVec S16 32) a x).toNat < S128x128.size a)
    (hS : ∀ a x, ((![(k0_pay87 iotaV 0#32 1#32 k), k0_pay171] : Fin 2 → IVec S16 32) a x).toNat < S64x128.size a) (x : S16.Idx) :
    k0_pay90 (loadIdx Pc ![(k0_pay85 k0_pay169 w), k0_pay88 o (k0_pay87 iotaV 0#32 1#32 k)] hP) (loadIdx Gc ![k0_pay171, (k0_pay87 iotaV 0#32 1#32 k)] hG) x
      = Tslot Gc Pc o w hw ho (idxAt ![(k0_pay87 iotaV 0#32 1#32 k), k0_pay171] hS x) :=
  store_value Gc Pc o w hw ho (k0_pay87 iotaV 0#32 1#32 k) k0_pay171 (k0_pay85 k0_pay169 w) (k0_pay88 o (k0_pay87 iotaV 0#32 1#32 k)) (prow_toNat w)
    (fun x => pcol0_toNat o _ x (gcol0_lt k x) ho) hP hG hS x

theorem hit_d0_j1 (k : Fin k0_t4_loop.trips)
    (hS : ∀ a x, ((![(k0_pay87 iotaV 0#32 1#32 k), k0_pay171] : Fin 2 → IVec S16 32) a x).toNat < S64x128.size a) :
    {p | ∃ x, idxAt ![(k0_pay87 iotaV 0#32 1#32 k), k0_pay171] hS x = p} = Hit 0 1 k.val :=
  hit_eq 0 1 k.val (k0_pay87 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay172, (k0_pay87 iotaV 0#32 1#32 k)] : Fin 2 → IVec S16 32) a x).toNat < S128x128.size a)
    (hS : ∀ a x, ((![(k0_pay87 iotaV 0#32 1#32 k), k0_pay172] : Fin 2 → IVec S16 32) a x).toNat < S64x128.size a) (x : S16.Idx) :
    k0_pay91 (loadIdx Pc ![(k0_pay85 k0_pay169 w), k0_pay88 o (k0_pay87 iotaV 0#32 1#32 k)] hP) (loadIdx Gc ![k0_pay172, (k0_pay87 iotaV 0#32 1#32 k)] hG) x
      = Tslot Gc Pc o w hw ho (idxAt ![(k0_pay87 iotaV 0#32 1#32 k), k0_pay172] hS x) :=
  store_value Gc Pc o w hw ho (k0_pay87 iotaV 0#32 1#32 k) k0_pay172 (k0_pay85 k0_pay169 w) (k0_pay88 o (k0_pay87 iotaV 0#32 1#32 k)) (prow_toNat w)
    (fun x => pcol0_toNat o _ x (gcol0_lt k x) ho) hP hG hS x

theorem hit_d0_j2 (k : Fin k0_t4_loop.trips)
    (hS : ∀ a x, ((![(k0_pay87 iotaV 0#32 1#32 k), k0_pay172] : Fin 2 → IVec S16 32) a x).toNat < S64x128.size a) :
    {p | ∃ x, idxAt ![(k0_pay87 iotaV 0#32 1#32 k), k0_pay172] hS x = p} = Hit 0 2 k.val :=
  hit_eq 0 2 k.val (k0_pay87 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay173, (k0_pay87 iotaV 0#32 1#32 k)] : Fin 2 → IVec S16 32) a x).toNat < S128x128.size a)
    (hS : ∀ a x, ((![(k0_pay87 iotaV 0#32 1#32 k), k0_pay173] : Fin 2 → IVec S16 32) a x).toNat < S64x128.size a) (x : S16.Idx) :
    k0_pay92 (loadIdx Pc ![(k0_pay85 k0_pay169 w), k0_pay88 o (k0_pay87 iotaV 0#32 1#32 k)] hP) (loadIdx Gc ![k0_pay173, (k0_pay87 iotaV 0#32 1#32 k)] hG) x
      = Tslot Gc Pc o w hw ho (idxAt ![(k0_pay87 iotaV 0#32 1#32 k), k0_pay173] hS x) :=
  store_value Gc Pc o w hw ho (k0_pay87 iotaV 0#32 1#32 k) k0_pay173 (k0_pay85 k0_pay169 w) (k0_pay88 o (k0_pay87 iotaV 0#32 1#32 k)) (prow_toNat w)
    (fun x => pcol0_toNat o _ x (gcol0_lt k x) ho) hP hG hS x

theorem hit_d0_j3 (k : Fin k0_t4_loop.trips)
    (hS : ∀ a x, ((![(k0_pay87 iotaV 0#32 1#32 k), k0_pay173] : Fin 2 → IVec S16 32) a x).toNat < S64x128.size a) :
    {p | ∃ x, idxAt ![(k0_pay87 iotaV 0#32 1#32 k), k0_pay173] hS x = p} = Hit 0 3 k.val :=
  hit_eq 0 3 k.val (k0_pay87 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay174, (k0_pay87 iotaV 0#32 1#32 k)] : Fin 2 → IVec S16 32) a x).toNat < S128x128.size a)
    (hS : ∀ a x, ((![(k0_pay87 iotaV 0#32 1#32 k), k0_pay174] : Fin 2 → IVec S16 32) a x).toNat < S64x128.size a) (x : S16.Idx) :
    k0_pay93 (loadIdx Pc ![(k0_pay85 k0_pay169 w), k0_pay88 o (k0_pay87 iotaV 0#32 1#32 k)] hP) (loadIdx Gc ![k0_pay174, (k0_pay87 iotaV 0#32 1#32 k)] hG) x
      = Tslot Gc Pc o w hw ho (idxAt ![(k0_pay87 iotaV 0#32 1#32 k), k0_pay174] hS x) :=
  store_value Gc Pc o w hw ho (k0_pay87 iotaV 0#32 1#32 k) k0_pay174 (k0_pay85 k0_pay169 w) (k0_pay88 o (k0_pay87 iotaV 0#32 1#32 k)) (prow_toNat w)
    (fun x => pcol0_toNat o _ x (gcol0_lt k x) ho) hP hG hS x

theorem hit_d0_j4 (k : Fin k0_t4_loop.trips)
    (hS : ∀ a x, ((![(k0_pay87 iotaV 0#32 1#32 k), k0_pay174] : Fin 2 → IVec S16 32) a x).toNat < S64x128.size a) :
    {p | ∃ x, idxAt ![(k0_pay87 iotaV 0#32 1#32 k), k0_pay174] hS x = p} = Hit 0 4 k.val :=
  hit_eq 0 4 k.val (k0_pay87 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay175, (k0_pay87 iotaV 0#32 1#32 k)] : Fin 2 → IVec S16 32) a x).toNat < S128x128.size a)
    (hS : ∀ a x, ((![(k0_pay87 iotaV 0#32 1#32 k), k0_pay175] : Fin 2 → IVec S16 32) a x).toNat < S64x128.size a) (x : S16.Idx) :
    k0_pay94 (loadIdx Pc ![(k0_pay85 k0_pay169 w), k0_pay88 o (k0_pay87 iotaV 0#32 1#32 k)] hP) (loadIdx Gc ![k0_pay175, (k0_pay87 iotaV 0#32 1#32 k)] hG) x
      = Tslot Gc Pc o w hw ho (idxAt ![(k0_pay87 iotaV 0#32 1#32 k), k0_pay175] hS x) :=
  store_value Gc Pc o w hw ho (k0_pay87 iotaV 0#32 1#32 k) k0_pay175 (k0_pay85 k0_pay169 w) (k0_pay88 o (k0_pay87 iotaV 0#32 1#32 k)) (prow_toNat w)
    (fun x => pcol0_toNat o _ x (gcol0_lt k x) ho) hP hG hS x

theorem hit_d0_j5 (k : Fin k0_t4_loop.trips)
    (hS : ∀ a x, ((![(k0_pay87 iotaV 0#32 1#32 k), k0_pay175] : Fin 2 → IVec S16 32) a x).toNat < S64x128.size a) :
    {p | ∃ x, idxAt ![(k0_pay87 iotaV 0#32 1#32 k), k0_pay175] hS x = p} = Hit 0 5 k.val :=
  hit_eq 0 5 k.val (k0_pay87 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay176, (k0_pay87 iotaV 0#32 1#32 k)] : Fin 2 → IVec S16 32) a x).toNat < S128x128.size a)
    (hS : ∀ a x, ((![(k0_pay87 iotaV 0#32 1#32 k), k0_pay176] : Fin 2 → IVec S16 32) a x).toNat < S64x128.size a) (x : S16.Idx) :
    k0_pay95 (loadIdx Pc ![(k0_pay85 k0_pay169 w), k0_pay88 o (k0_pay87 iotaV 0#32 1#32 k)] hP) (loadIdx Gc ![k0_pay176, (k0_pay87 iotaV 0#32 1#32 k)] hG) x
      = Tslot Gc Pc o w hw ho (idxAt ![(k0_pay87 iotaV 0#32 1#32 k), k0_pay176] hS x) :=
  store_value Gc Pc o w hw ho (k0_pay87 iotaV 0#32 1#32 k) k0_pay176 (k0_pay85 k0_pay169 w) (k0_pay88 o (k0_pay87 iotaV 0#32 1#32 k)) (prow_toNat w)
    (fun x => pcol0_toNat o _ x (gcol0_lt k x) ho) hP hG hS x

theorem hit_d0_j6 (k : Fin k0_t4_loop.trips)
    (hS : ∀ a x, ((![(k0_pay87 iotaV 0#32 1#32 k), k0_pay176] : Fin 2 → IVec S16 32) a x).toNat < S64x128.size a) :
    {p | ∃ x, idxAt ![(k0_pay87 iotaV 0#32 1#32 k), k0_pay176] hS x = p} = Hit 0 6 k.val :=
  hit_eq 0 6 k.val (k0_pay87 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay177, (k0_pay87 iotaV 0#32 1#32 k)] : Fin 2 → IVec S16 32) a x).toNat < S128x128.size a)
    (hS : ∀ a x, ((![(k0_pay87 iotaV 0#32 1#32 k), k0_pay177] : Fin 2 → IVec S16 32) a x).toNat < S64x128.size a) (x : S16.Idx) :
    k0_pay96 (loadIdx Pc ![(k0_pay85 k0_pay169 w), k0_pay88 o (k0_pay87 iotaV 0#32 1#32 k)] hP) (loadIdx Gc ![k0_pay177, (k0_pay87 iotaV 0#32 1#32 k)] hG) x
      = Tslot Gc Pc o w hw ho (idxAt ![(k0_pay87 iotaV 0#32 1#32 k), k0_pay177] hS x) :=
  store_value Gc Pc o w hw ho (k0_pay87 iotaV 0#32 1#32 k) k0_pay177 (k0_pay85 k0_pay169 w) (k0_pay88 o (k0_pay87 iotaV 0#32 1#32 k)) (prow_toNat w)
    (fun x => pcol0_toNat o _ x (gcol0_lt k x) ho) hP hG hS x

theorem hit_d0_j7 (k : Fin k0_t4_loop.trips)
    (hS : ∀ a x, ((![(k0_pay87 iotaV 0#32 1#32 k), k0_pay177] : Fin 2 → IVec S16 32) a x).toNat < S64x128.size a) :
    {p | ∃ x, idxAt ![(k0_pay87 iotaV 0#32 1#32 k), k0_pay177] hS x = p} = Hit 0 7 k.val :=
  hit_eq 0 7 k.val (k0_pay87 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay170, (k0_pay97 (k0_pay86 iotaV 0#32 1#32 k))] : Fin 2 → IVec S16 32) a x).toNat < S128x128.size a)
    (hS : ∀ a x, ((![(k0_pay97 (k0_pay86 iotaV 0#32 1#32 k)), k0_pay170] : Fin 2 → IVec S16 32) a x).toNat < S64x128.size a) (x : S16.Idx) :
    k0_pay99 (loadIdx Pc ![(k0_pay85 k0_pay169 w), k0_pay98 o (k0_pay97 (k0_pay86 iotaV 0#32 1#32 k))] hP) (loadIdx Gc ![k0_pay170, (k0_pay97 (k0_pay86 iotaV 0#32 1#32 k))] hG) x
      = Tslot Gc Pc o w hw ho (idxAt ![(k0_pay97 (k0_pay86 iotaV 0#32 1#32 k)), k0_pay170] hS x) :=
  store_value Gc Pc o w hw ho (k0_pay97 (k0_pay86 iotaV 0#32 1#32 k)) k0_pay170 (k0_pay85 k0_pay169 w) (k0_pay98 o (k0_pay97 (k0_pay86 iotaV 0#32 1#32 k))) (prow_toNat w)
    (fun x => pcol1_toNat o _ x (gcol1_lt k x) ho) hP hG hS x

theorem hit_d1_j0 (k : Fin k0_t4_loop.trips)
    (hS : ∀ a x, ((![(k0_pay97 (k0_pay86 iotaV 0#32 1#32 k)), k0_pay170] : Fin 2 → IVec S16 32) a x).toNat < S64x128.size a) :
    {p | ∃ x, idxAt ![(k0_pay97 (k0_pay86 iotaV 0#32 1#32 k)), k0_pay170] hS x = p} = Hit 1 0 k.val :=
  hit_eq 1 0 k.val (k0_pay97 (k0_pay86 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay171, (k0_pay97 (k0_pay86 iotaV 0#32 1#32 k))] : Fin 2 → IVec S16 32) a x).toNat < S128x128.size a)
    (hS : ∀ a x, ((![(k0_pay97 (k0_pay86 iotaV 0#32 1#32 k)), k0_pay171] : Fin 2 → IVec S16 32) a x).toNat < S64x128.size a) (x : S16.Idx) :
    k0_pay100 (loadIdx Pc ![(k0_pay85 k0_pay169 w), k0_pay98 o (k0_pay97 (k0_pay86 iotaV 0#32 1#32 k))] hP) (loadIdx Gc ![k0_pay171, (k0_pay97 (k0_pay86 iotaV 0#32 1#32 k))] hG) x
      = Tslot Gc Pc o w hw ho (idxAt ![(k0_pay97 (k0_pay86 iotaV 0#32 1#32 k)), k0_pay171] hS x) :=
  store_value Gc Pc o w hw ho (k0_pay97 (k0_pay86 iotaV 0#32 1#32 k)) k0_pay171 (k0_pay85 k0_pay169 w) (k0_pay98 o (k0_pay97 (k0_pay86 iotaV 0#32 1#32 k))) (prow_toNat w)
    (fun x => pcol1_toNat o _ x (gcol1_lt k x) ho) hP hG hS x

theorem hit_d1_j1 (k : Fin k0_t4_loop.trips)
    (hS : ∀ a x, ((![(k0_pay97 (k0_pay86 iotaV 0#32 1#32 k)), k0_pay171] : Fin 2 → IVec S16 32) a x).toNat < S64x128.size a) :
    {p | ∃ x, idxAt ![(k0_pay97 (k0_pay86 iotaV 0#32 1#32 k)), k0_pay171] hS x = p} = Hit 1 1 k.val :=
  hit_eq 1 1 k.val (k0_pay97 (k0_pay86 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay172, (k0_pay97 (k0_pay86 iotaV 0#32 1#32 k))] : Fin 2 → IVec S16 32) a x).toNat < S128x128.size a)
    (hS : ∀ a x, ((![(k0_pay97 (k0_pay86 iotaV 0#32 1#32 k)), k0_pay172] : Fin 2 → IVec S16 32) a x).toNat < S64x128.size a) (x : S16.Idx) :
    k0_pay101 (loadIdx Pc ![(k0_pay85 k0_pay169 w), k0_pay98 o (k0_pay97 (k0_pay86 iotaV 0#32 1#32 k))] hP) (loadIdx Gc ![k0_pay172, (k0_pay97 (k0_pay86 iotaV 0#32 1#32 k))] hG) x
      = Tslot Gc Pc o w hw ho (idxAt ![(k0_pay97 (k0_pay86 iotaV 0#32 1#32 k)), k0_pay172] hS x) :=
  store_value Gc Pc o w hw ho (k0_pay97 (k0_pay86 iotaV 0#32 1#32 k)) k0_pay172 (k0_pay85 k0_pay169 w) (k0_pay98 o (k0_pay97 (k0_pay86 iotaV 0#32 1#32 k))) (prow_toNat w)
    (fun x => pcol1_toNat o _ x (gcol1_lt k x) ho) hP hG hS x

theorem hit_d1_j2 (k : Fin k0_t4_loop.trips)
    (hS : ∀ a x, ((![(k0_pay97 (k0_pay86 iotaV 0#32 1#32 k)), k0_pay172] : Fin 2 → IVec S16 32) a x).toNat < S64x128.size a) :
    {p | ∃ x, idxAt ![(k0_pay97 (k0_pay86 iotaV 0#32 1#32 k)), k0_pay172] hS x = p} = Hit 1 2 k.val :=
  hit_eq 1 2 k.val (k0_pay97 (k0_pay86 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay173, (k0_pay97 (k0_pay86 iotaV 0#32 1#32 k))] : Fin 2 → IVec S16 32) a x).toNat < S128x128.size a)
    (hS : ∀ a x, ((![(k0_pay97 (k0_pay86 iotaV 0#32 1#32 k)), k0_pay173] : Fin 2 → IVec S16 32) a x).toNat < S64x128.size a) (x : S16.Idx) :
    k0_pay102 (loadIdx Pc ![(k0_pay85 k0_pay169 w), k0_pay98 o (k0_pay97 (k0_pay86 iotaV 0#32 1#32 k))] hP) (loadIdx Gc ![k0_pay173, (k0_pay97 (k0_pay86 iotaV 0#32 1#32 k))] hG) x
      = Tslot Gc Pc o w hw ho (idxAt ![(k0_pay97 (k0_pay86 iotaV 0#32 1#32 k)), k0_pay173] hS x) :=
  store_value Gc Pc o w hw ho (k0_pay97 (k0_pay86 iotaV 0#32 1#32 k)) k0_pay173 (k0_pay85 k0_pay169 w) (k0_pay98 o (k0_pay97 (k0_pay86 iotaV 0#32 1#32 k))) (prow_toNat w)
    (fun x => pcol1_toNat o _ x (gcol1_lt k x) ho) hP hG hS x

theorem hit_d1_j3 (k : Fin k0_t4_loop.trips)
    (hS : ∀ a x, ((![(k0_pay97 (k0_pay86 iotaV 0#32 1#32 k)), k0_pay173] : Fin 2 → IVec S16 32) a x).toNat < S64x128.size a) :
    {p | ∃ x, idxAt ![(k0_pay97 (k0_pay86 iotaV 0#32 1#32 k)), k0_pay173] hS x = p} = Hit 1 3 k.val :=
  hit_eq 1 3 k.val (k0_pay97 (k0_pay86 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay174, (k0_pay97 (k0_pay86 iotaV 0#32 1#32 k))] : Fin 2 → IVec S16 32) a x).toNat < S128x128.size a)
    (hS : ∀ a x, ((![(k0_pay97 (k0_pay86 iotaV 0#32 1#32 k)), k0_pay174] : Fin 2 → IVec S16 32) a x).toNat < S64x128.size a) (x : S16.Idx) :
    k0_pay103 (loadIdx Pc ![(k0_pay85 k0_pay169 w), k0_pay98 o (k0_pay97 (k0_pay86 iotaV 0#32 1#32 k))] hP) (loadIdx Gc ![k0_pay174, (k0_pay97 (k0_pay86 iotaV 0#32 1#32 k))] hG) x
      = Tslot Gc Pc o w hw ho (idxAt ![(k0_pay97 (k0_pay86 iotaV 0#32 1#32 k)), k0_pay174] hS x) :=
  store_value Gc Pc o w hw ho (k0_pay97 (k0_pay86 iotaV 0#32 1#32 k)) k0_pay174 (k0_pay85 k0_pay169 w) (k0_pay98 o (k0_pay97 (k0_pay86 iotaV 0#32 1#32 k))) (prow_toNat w)
    (fun x => pcol1_toNat o _ x (gcol1_lt k x) ho) hP hG hS x

theorem hit_d1_j4 (k : Fin k0_t4_loop.trips)
    (hS : ∀ a x, ((![(k0_pay97 (k0_pay86 iotaV 0#32 1#32 k)), k0_pay174] : Fin 2 → IVec S16 32) a x).toNat < S64x128.size a) :
    {p | ∃ x, idxAt ![(k0_pay97 (k0_pay86 iotaV 0#32 1#32 k)), k0_pay174] hS x = p} = Hit 1 4 k.val :=
  hit_eq 1 4 k.val (k0_pay97 (k0_pay86 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay175, (k0_pay97 (k0_pay86 iotaV 0#32 1#32 k))] : Fin 2 → IVec S16 32) a x).toNat < S128x128.size a)
    (hS : ∀ a x, ((![(k0_pay97 (k0_pay86 iotaV 0#32 1#32 k)), k0_pay175] : Fin 2 → IVec S16 32) a x).toNat < S64x128.size a) (x : S16.Idx) :
    k0_pay104 (loadIdx Pc ![(k0_pay85 k0_pay169 w), k0_pay98 o (k0_pay97 (k0_pay86 iotaV 0#32 1#32 k))] hP) (loadIdx Gc ![k0_pay175, (k0_pay97 (k0_pay86 iotaV 0#32 1#32 k))] hG) x
      = Tslot Gc Pc o w hw ho (idxAt ![(k0_pay97 (k0_pay86 iotaV 0#32 1#32 k)), k0_pay175] hS x) :=
  store_value Gc Pc o w hw ho (k0_pay97 (k0_pay86 iotaV 0#32 1#32 k)) k0_pay175 (k0_pay85 k0_pay169 w) (k0_pay98 o (k0_pay97 (k0_pay86 iotaV 0#32 1#32 k))) (prow_toNat w)
    (fun x => pcol1_toNat o _ x (gcol1_lt k x) ho) hP hG hS x

theorem hit_d1_j5 (k : Fin k0_t4_loop.trips)
    (hS : ∀ a x, ((![(k0_pay97 (k0_pay86 iotaV 0#32 1#32 k)), k0_pay175] : Fin 2 → IVec S16 32) a x).toNat < S64x128.size a) :
    {p | ∃ x, idxAt ![(k0_pay97 (k0_pay86 iotaV 0#32 1#32 k)), k0_pay175] hS x = p} = Hit 1 5 k.val :=
  hit_eq 1 5 k.val (k0_pay97 (k0_pay86 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay176, (k0_pay97 (k0_pay86 iotaV 0#32 1#32 k))] : Fin 2 → IVec S16 32) a x).toNat < S128x128.size a)
    (hS : ∀ a x, ((![(k0_pay97 (k0_pay86 iotaV 0#32 1#32 k)), k0_pay176] : Fin 2 → IVec S16 32) a x).toNat < S64x128.size a) (x : S16.Idx) :
    k0_pay105 (loadIdx Pc ![(k0_pay85 k0_pay169 w), k0_pay98 o (k0_pay97 (k0_pay86 iotaV 0#32 1#32 k))] hP) (loadIdx Gc ![k0_pay176, (k0_pay97 (k0_pay86 iotaV 0#32 1#32 k))] hG) x
      = Tslot Gc Pc o w hw ho (idxAt ![(k0_pay97 (k0_pay86 iotaV 0#32 1#32 k)), k0_pay176] hS x) :=
  store_value Gc Pc o w hw ho (k0_pay97 (k0_pay86 iotaV 0#32 1#32 k)) k0_pay176 (k0_pay85 k0_pay169 w) (k0_pay98 o (k0_pay97 (k0_pay86 iotaV 0#32 1#32 k))) (prow_toNat w)
    (fun x => pcol1_toNat o _ x (gcol1_lt k x) ho) hP hG hS x

theorem hit_d1_j6 (k : Fin k0_t4_loop.trips)
    (hS : ∀ a x, ((![(k0_pay97 (k0_pay86 iotaV 0#32 1#32 k)), k0_pay176] : Fin 2 → IVec S16 32) a x).toNat < S64x128.size a) :
    {p | ∃ x, idxAt ![(k0_pay97 (k0_pay86 iotaV 0#32 1#32 k)), k0_pay176] hS x = p} = Hit 1 6 k.val :=
  hit_eq 1 6 k.val (k0_pay97 (k0_pay86 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay177, (k0_pay97 (k0_pay86 iotaV 0#32 1#32 k))] : Fin 2 → IVec S16 32) a x).toNat < S128x128.size a)
    (hS : ∀ a x, ((![(k0_pay97 (k0_pay86 iotaV 0#32 1#32 k)), k0_pay177] : Fin 2 → IVec S16 32) a x).toNat < S64x128.size a) (x : S16.Idx) :
    k0_pay106 (loadIdx Pc ![(k0_pay85 k0_pay169 w), k0_pay98 o (k0_pay97 (k0_pay86 iotaV 0#32 1#32 k))] hP) (loadIdx Gc ![k0_pay177, (k0_pay97 (k0_pay86 iotaV 0#32 1#32 k))] hG) x
      = Tslot Gc Pc o w hw ho (idxAt ![(k0_pay97 (k0_pay86 iotaV 0#32 1#32 k)), k0_pay177] hS x) :=
  store_value Gc Pc o w hw ho (k0_pay97 (k0_pay86 iotaV 0#32 1#32 k)) k0_pay177 (k0_pay85 k0_pay169 w) (k0_pay98 o (k0_pay97 (k0_pay86 iotaV 0#32 1#32 k))) (prow_toNat w)
    (fun x => pcol1_toNat o _ x (gcol1_lt k x) ho) hP hG hS x

theorem hit_d1_j7 (k : Fin k0_t4_loop.trips)
    (hS : ∀ a x, ((![(k0_pay97 (k0_pay86 iotaV 0#32 1#32 k)), k0_pay177] : Fin 2 → IVec S16 32) a x).toNat < S64x128.size a) :
    {p | ∃ x, idxAt ![(k0_pay97 (k0_pay86 iotaV 0#32 1#32 k)), k0_pay177] hS x = p} = Hit 1 7 k.val :=
  hit_eq 1 7 k.val (k0_pay97 (k0_pay86 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay170, (k0_pay107 (k0_pay86 iotaV 0#32 1#32 k))] : Fin 2 → IVec S16 32) a x).toNat < S128x128.size a)
    (hS : ∀ a x, ((![(k0_pay107 (k0_pay86 iotaV 0#32 1#32 k)), k0_pay170] : Fin 2 → IVec S16 32) a x).toNat < S64x128.size a) (x : S16.Idx) :
    k0_pay109 (loadIdx Pc ![(k0_pay85 k0_pay169 w), k0_pay108 o (k0_pay107 (k0_pay86 iotaV 0#32 1#32 k))] hP) (loadIdx Gc ![k0_pay170, (k0_pay107 (k0_pay86 iotaV 0#32 1#32 k))] hG) x
      = Tslot Gc Pc o w hw ho (idxAt ![(k0_pay107 (k0_pay86 iotaV 0#32 1#32 k)), k0_pay170] hS x) :=
  store_value Gc Pc o w hw ho (k0_pay107 (k0_pay86 iotaV 0#32 1#32 k)) k0_pay170 (k0_pay85 k0_pay169 w) (k0_pay108 o (k0_pay107 (k0_pay86 iotaV 0#32 1#32 k))) (prow_toNat w)
    (fun x => pcol2_toNat o _ x (gcol2_lt k x) ho) hP hG hS x

theorem hit_d2_j0 (k : Fin k0_t4_loop.trips)
    (hS : ∀ a x, ((![(k0_pay107 (k0_pay86 iotaV 0#32 1#32 k)), k0_pay170] : Fin 2 → IVec S16 32) a x).toNat < S64x128.size a) :
    {p | ∃ x, idxAt ![(k0_pay107 (k0_pay86 iotaV 0#32 1#32 k)), k0_pay170] hS x = p} = Hit 2 0 k.val :=
  hit_eq 2 0 k.val (k0_pay107 (k0_pay86 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay171, (k0_pay107 (k0_pay86 iotaV 0#32 1#32 k))] : Fin 2 → IVec S16 32) a x).toNat < S128x128.size a)
    (hS : ∀ a x, ((![(k0_pay107 (k0_pay86 iotaV 0#32 1#32 k)), k0_pay171] : Fin 2 → IVec S16 32) a x).toNat < S64x128.size a) (x : S16.Idx) :
    k0_pay110 (loadIdx Pc ![(k0_pay85 k0_pay169 w), k0_pay108 o (k0_pay107 (k0_pay86 iotaV 0#32 1#32 k))] hP) (loadIdx Gc ![k0_pay171, (k0_pay107 (k0_pay86 iotaV 0#32 1#32 k))] hG) x
      = Tslot Gc Pc o w hw ho (idxAt ![(k0_pay107 (k0_pay86 iotaV 0#32 1#32 k)), k0_pay171] hS x) :=
  store_value Gc Pc o w hw ho (k0_pay107 (k0_pay86 iotaV 0#32 1#32 k)) k0_pay171 (k0_pay85 k0_pay169 w) (k0_pay108 o (k0_pay107 (k0_pay86 iotaV 0#32 1#32 k))) (prow_toNat w)
    (fun x => pcol2_toNat o _ x (gcol2_lt k x) ho) hP hG hS x

theorem hit_d2_j1 (k : Fin k0_t4_loop.trips)
    (hS : ∀ a x, ((![(k0_pay107 (k0_pay86 iotaV 0#32 1#32 k)), k0_pay171] : Fin 2 → IVec S16 32) a x).toNat < S64x128.size a) :
    {p | ∃ x, idxAt ![(k0_pay107 (k0_pay86 iotaV 0#32 1#32 k)), k0_pay171] hS x = p} = Hit 2 1 k.val :=
  hit_eq 2 1 k.val (k0_pay107 (k0_pay86 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay172, (k0_pay107 (k0_pay86 iotaV 0#32 1#32 k))] : Fin 2 → IVec S16 32) a x).toNat < S128x128.size a)
    (hS : ∀ a x, ((![(k0_pay107 (k0_pay86 iotaV 0#32 1#32 k)), k0_pay172] : Fin 2 → IVec S16 32) a x).toNat < S64x128.size a) (x : S16.Idx) :
    k0_pay111 (loadIdx Pc ![(k0_pay85 k0_pay169 w), k0_pay108 o (k0_pay107 (k0_pay86 iotaV 0#32 1#32 k))] hP) (loadIdx Gc ![k0_pay172, (k0_pay107 (k0_pay86 iotaV 0#32 1#32 k))] hG) x
      = Tslot Gc Pc o w hw ho (idxAt ![(k0_pay107 (k0_pay86 iotaV 0#32 1#32 k)), k0_pay172] hS x) :=
  store_value Gc Pc o w hw ho (k0_pay107 (k0_pay86 iotaV 0#32 1#32 k)) k0_pay172 (k0_pay85 k0_pay169 w) (k0_pay108 o (k0_pay107 (k0_pay86 iotaV 0#32 1#32 k))) (prow_toNat w)
    (fun x => pcol2_toNat o _ x (gcol2_lt k x) ho) hP hG hS x

theorem hit_d2_j2 (k : Fin k0_t4_loop.trips)
    (hS : ∀ a x, ((![(k0_pay107 (k0_pay86 iotaV 0#32 1#32 k)), k0_pay172] : Fin 2 → IVec S16 32) a x).toNat < S64x128.size a) :
    {p | ∃ x, idxAt ![(k0_pay107 (k0_pay86 iotaV 0#32 1#32 k)), k0_pay172] hS x = p} = Hit 2 2 k.val :=
  hit_eq 2 2 k.val (k0_pay107 (k0_pay86 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay173, (k0_pay107 (k0_pay86 iotaV 0#32 1#32 k))] : Fin 2 → IVec S16 32) a x).toNat < S128x128.size a)
    (hS : ∀ a x, ((![(k0_pay107 (k0_pay86 iotaV 0#32 1#32 k)), k0_pay173] : Fin 2 → IVec S16 32) a x).toNat < S64x128.size a) (x : S16.Idx) :
    k0_pay112 (loadIdx Pc ![(k0_pay85 k0_pay169 w), k0_pay108 o (k0_pay107 (k0_pay86 iotaV 0#32 1#32 k))] hP) (loadIdx Gc ![k0_pay173, (k0_pay107 (k0_pay86 iotaV 0#32 1#32 k))] hG) x
      = Tslot Gc Pc o w hw ho (idxAt ![(k0_pay107 (k0_pay86 iotaV 0#32 1#32 k)), k0_pay173] hS x) :=
  store_value Gc Pc o w hw ho (k0_pay107 (k0_pay86 iotaV 0#32 1#32 k)) k0_pay173 (k0_pay85 k0_pay169 w) (k0_pay108 o (k0_pay107 (k0_pay86 iotaV 0#32 1#32 k))) (prow_toNat w)
    (fun x => pcol2_toNat o _ x (gcol2_lt k x) ho) hP hG hS x

theorem hit_d2_j3 (k : Fin k0_t4_loop.trips)
    (hS : ∀ a x, ((![(k0_pay107 (k0_pay86 iotaV 0#32 1#32 k)), k0_pay173] : Fin 2 → IVec S16 32) a x).toNat < S64x128.size a) :
    {p | ∃ x, idxAt ![(k0_pay107 (k0_pay86 iotaV 0#32 1#32 k)), k0_pay173] hS x = p} = Hit 2 3 k.val :=
  hit_eq 2 3 k.val (k0_pay107 (k0_pay86 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay174, (k0_pay107 (k0_pay86 iotaV 0#32 1#32 k))] : Fin 2 → IVec S16 32) a x).toNat < S128x128.size a)
    (hS : ∀ a x, ((![(k0_pay107 (k0_pay86 iotaV 0#32 1#32 k)), k0_pay174] : Fin 2 → IVec S16 32) a x).toNat < S64x128.size a) (x : S16.Idx) :
    k0_pay113 (loadIdx Pc ![(k0_pay85 k0_pay169 w), k0_pay108 o (k0_pay107 (k0_pay86 iotaV 0#32 1#32 k))] hP) (loadIdx Gc ![k0_pay174, (k0_pay107 (k0_pay86 iotaV 0#32 1#32 k))] hG) x
      = Tslot Gc Pc o w hw ho (idxAt ![(k0_pay107 (k0_pay86 iotaV 0#32 1#32 k)), k0_pay174] hS x) :=
  store_value Gc Pc o w hw ho (k0_pay107 (k0_pay86 iotaV 0#32 1#32 k)) k0_pay174 (k0_pay85 k0_pay169 w) (k0_pay108 o (k0_pay107 (k0_pay86 iotaV 0#32 1#32 k))) (prow_toNat w)
    (fun x => pcol2_toNat o _ x (gcol2_lt k x) ho) hP hG hS x

theorem hit_d2_j4 (k : Fin k0_t4_loop.trips)
    (hS : ∀ a x, ((![(k0_pay107 (k0_pay86 iotaV 0#32 1#32 k)), k0_pay174] : Fin 2 → IVec S16 32) a x).toNat < S64x128.size a) :
    {p | ∃ x, idxAt ![(k0_pay107 (k0_pay86 iotaV 0#32 1#32 k)), k0_pay174] hS x = p} = Hit 2 4 k.val :=
  hit_eq 2 4 k.val (k0_pay107 (k0_pay86 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay175, (k0_pay107 (k0_pay86 iotaV 0#32 1#32 k))] : Fin 2 → IVec S16 32) a x).toNat < S128x128.size a)
    (hS : ∀ a x, ((![(k0_pay107 (k0_pay86 iotaV 0#32 1#32 k)), k0_pay175] : Fin 2 → IVec S16 32) a x).toNat < S64x128.size a) (x : S16.Idx) :
    k0_pay114 (loadIdx Pc ![(k0_pay85 k0_pay169 w), k0_pay108 o (k0_pay107 (k0_pay86 iotaV 0#32 1#32 k))] hP) (loadIdx Gc ![k0_pay175, (k0_pay107 (k0_pay86 iotaV 0#32 1#32 k))] hG) x
      = Tslot Gc Pc o w hw ho (idxAt ![(k0_pay107 (k0_pay86 iotaV 0#32 1#32 k)), k0_pay175] hS x) :=
  store_value Gc Pc o w hw ho (k0_pay107 (k0_pay86 iotaV 0#32 1#32 k)) k0_pay175 (k0_pay85 k0_pay169 w) (k0_pay108 o (k0_pay107 (k0_pay86 iotaV 0#32 1#32 k))) (prow_toNat w)
    (fun x => pcol2_toNat o _ x (gcol2_lt k x) ho) hP hG hS x

theorem hit_d2_j5 (k : Fin k0_t4_loop.trips)
    (hS : ∀ a x, ((![(k0_pay107 (k0_pay86 iotaV 0#32 1#32 k)), k0_pay175] : Fin 2 → IVec S16 32) a x).toNat < S64x128.size a) :
    {p | ∃ x, idxAt ![(k0_pay107 (k0_pay86 iotaV 0#32 1#32 k)), k0_pay175] hS x = p} = Hit 2 5 k.val :=
  hit_eq 2 5 k.val (k0_pay107 (k0_pay86 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay176, (k0_pay107 (k0_pay86 iotaV 0#32 1#32 k))] : Fin 2 → IVec S16 32) a x).toNat < S128x128.size a)
    (hS : ∀ a x, ((![(k0_pay107 (k0_pay86 iotaV 0#32 1#32 k)), k0_pay176] : Fin 2 → IVec S16 32) a x).toNat < S64x128.size a) (x : S16.Idx) :
    k0_pay115 (loadIdx Pc ![(k0_pay85 k0_pay169 w), k0_pay108 o (k0_pay107 (k0_pay86 iotaV 0#32 1#32 k))] hP) (loadIdx Gc ![k0_pay176, (k0_pay107 (k0_pay86 iotaV 0#32 1#32 k))] hG) x
      = Tslot Gc Pc o w hw ho (idxAt ![(k0_pay107 (k0_pay86 iotaV 0#32 1#32 k)), k0_pay176] hS x) :=
  store_value Gc Pc o w hw ho (k0_pay107 (k0_pay86 iotaV 0#32 1#32 k)) k0_pay176 (k0_pay85 k0_pay169 w) (k0_pay108 o (k0_pay107 (k0_pay86 iotaV 0#32 1#32 k))) (prow_toNat w)
    (fun x => pcol2_toNat o _ x (gcol2_lt k x) ho) hP hG hS x

theorem hit_d2_j6 (k : Fin k0_t4_loop.trips)
    (hS : ∀ a x, ((![(k0_pay107 (k0_pay86 iotaV 0#32 1#32 k)), k0_pay176] : Fin 2 → IVec S16 32) a x).toNat < S64x128.size a) :
    {p | ∃ x, idxAt ![(k0_pay107 (k0_pay86 iotaV 0#32 1#32 k)), k0_pay176] hS x = p} = Hit 2 6 k.val :=
  hit_eq 2 6 k.val (k0_pay107 (k0_pay86 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay177, (k0_pay107 (k0_pay86 iotaV 0#32 1#32 k))] : Fin 2 → IVec S16 32) a x).toNat < S128x128.size a)
    (hS : ∀ a x, ((![(k0_pay107 (k0_pay86 iotaV 0#32 1#32 k)), k0_pay177] : Fin 2 → IVec S16 32) a x).toNat < S64x128.size a) (x : S16.Idx) :
    k0_pay116 (loadIdx Pc ![(k0_pay85 k0_pay169 w), k0_pay108 o (k0_pay107 (k0_pay86 iotaV 0#32 1#32 k))] hP) (loadIdx Gc ![k0_pay177, (k0_pay107 (k0_pay86 iotaV 0#32 1#32 k))] hG) x
      = Tslot Gc Pc o w hw ho (idxAt ![(k0_pay107 (k0_pay86 iotaV 0#32 1#32 k)), k0_pay177] hS x) :=
  store_value Gc Pc o w hw ho (k0_pay107 (k0_pay86 iotaV 0#32 1#32 k)) k0_pay177 (k0_pay85 k0_pay169 w) (k0_pay108 o (k0_pay107 (k0_pay86 iotaV 0#32 1#32 k))) (prow_toNat w)
    (fun x => pcol2_toNat o _ x (gcol2_lt k x) ho) hP hG hS x

theorem hit_d2_j7 (k : Fin k0_t4_loop.trips)
    (hS : ∀ a x, ((![(k0_pay107 (k0_pay86 iotaV 0#32 1#32 k)), k0_pay177] : Fin 2 → IVec S16 32) a x).toNat < S64x128.size a) :
    {p | ∃ x, idxAt ![(k0_pay107 (k0_pay86 iotaV 0#32 1#32 k)), k0_pay177] hS x = p} = Hit 2 7 k.val :=
  hit_eq 2 7 k.val (k0_pay107 (k0_pay86 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay170, (k0_pay117 (k0_pay86 iotaV 0#32 1#32 k))] : Fin 2 → IVec S16 32) a x).toNat < S128x128.size a)
    (hS : ∀ a x, ((![(k0_pay117 (k0_pay86 iotaV 0#32 1#32 k)), k0_pay170] : Fin 2 → IVec S16 32) a x).toNat < S64x128.size a) (x : S16.Idx) :
    k0_pay119 (loadIdx Pc ![(k0_pay85 k0_pay169 w), k0_pay118 o (k0_pay117 (k0_pay86 iotaV 0#32 1#32 k))] hP) (loadIdx Gc ![k0_pay170, (k0_pay117 (k0_pay86 iotaV 0#32 1#32 k))] hG) x
      = Tslot Gc Pc o w hw ho (idxAt ![(k0_pay117 (k0_pay86 iotaV 0#32 1#32 k)), k0_pay170] hS x) :=
  store_value Gc Pc o w hw ho (k0_pay117 (k0_pay86 iotaV 0#32 1#32 k)) k0_pay170 (k0_pay85 k0_pay169 w) (k0_pay118 o (k0_pay117 (k0_pay86 iotaV 0#32 1#32 k))) (prow_toNat w)
    (fun x => pcol3_toNat o _ x (gcol3_lt k x) ho) hP hG hS x

theorem hit_d3_j0 (k : Fin k0_t4_loop.trips)
    (hS : ∀ a x, ((![(k0_pay117 (k0_pay86 iotaV 0#32 1#32 k)), k0_pay170] : Fin 2 → IVec S16 32) a x).toNat < S64x128.size a) :
    {p | ∃ x, idxAt ![(k0_pay117 (k0_pay86 iotaV 0#32 1#32 k)), k0_pay170] hS x = p} = Hit 3 0 k.val :=
  hit_eq 3 0 k.val (k0_pay117 (k0_pay86 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay171, (k0_pay117 (k0_pay86 iotaV 0#32 1#32 k))] : Fin 2 → IVec S16 32) a x).toNat < S128x128.size a)
    (hS : ∀ a x, ((![(k0_pay117 (k0_pay86 iotaV 0#32 1#32 k)), k0_pay171] : Fin 2 → IVec S16 32) a x).toNat < S64x128.size a) (x : S16.Idx) :
    k0_pay120 (loadIdx Pc ![(k0_pay85 k0_pay169 w), k0_pay118 o (k0_pay117 (k0_pay86 iotaV 0#32 1#32 k))] hP) (loadIdx Gc ![k0_pay171, (k0_pay117 (k0_pay86 iotaV 0#32 1#32 k))] hG) x
      = Tslot Gc Pc o w hw ho (idxAt ![(k0_pay117 (k0_pay86 iotaV 0#32 1#32 k)), k0_pay171] hS x) :=
  store_value Gc Pc o w hw ho (k0_pay117 (k0_pay86 iotaV 0#32 1#32 k)) k0_pay171 (k0_pay85 k0_pay169 w) (k0_pay118 o (k0_pay117 (k0_pay86 iotaV 0#32 1#32 k))) (prow_toNat w)
    (fun x => pcol3_toNat o _ x (gcol3_lt k x) ho) hP hG hS x

theorem hit_d3_j1 (k : Fin k0_t4_loop.trips)
    (hS : ∀ a x, ((![(k0_pay117 (k0_pay86 iotaV 0#32 1#32 k)), k0_pay171] : Fin 2 → IVec S16 32) a x).toNat < S64x128.size a) :
    {p | ∃ x, idxAt ![(k0_pay117 (k0_pay86 iotaV 0#32 1#32 k)), k0_pay171] hS x = p} = Hit 3 1 k.val :=
  hit_eq 3 1 k.val (k0_pay117 (k0_pay86 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay172, (k0_pay117 (k0_pay86 iotaV 0#32 1#32 k))] : Fin 2 → IVec S16 32) a x).toNat < S128x128.size a)
    (hS : ∀ a x, ((![(k0_pay117 (k0_pay86 iotaV 0#32 1#32 k)), k0_pay172] : Fin 2 → IVec S16 32) a x).toNat < S64x128.size a) (x : S16.Idx) :
    k0_pay121 (loadIdx Pc ![(k0_pay85 k0_pay169 w), k0_pay118 o (k0_pay117 (k0_pay86 iotaV 0#32 1#32 k))] hP) (loadIdx Gc ![k0_pay172, (k0_pay117 (k0_pay86 iotaV 0#32 1#32 k))] hG) x
      = Tslot Gc Pc o w hw ho (idxAt ![(k0_pay117 (k0_pay86 iotaV 0#32 1#32 k)), k0_pay172] hS x) :=
  store_value Gc Pc o w hw ho (k0_pay117 (k0_pay86 iotaV 0#32 1#32 k)) k0_pay172 (k0_pay85 k0_pay169 w) (k0_pay118 o (k0_pay117 (k0_pay86 iotaV 0#32 1#32 k))) (prow_toNat w)
    (fun x => pcol3_toNat o _ x (gcol3_lt k x) ho) hP hG hS x

theorem hit_d3_j2 (k : Fin k0_t4_loop.trips)
    (hS : ∀ a x, ((![(k0_pay117 (k0_pay86 iotaV 0#32 1#32 k)), k0_pay172] : Fin 2 → IVec S16 32) a x).toNat < S64x128.size a) :
    {p | ∃ x, idxAt ![(k0_pay117 (k0_pay86 iotaV 0#32 1#32 k)), k0_pay172] hS x = p} = Hit 3 2 k.val :=
  hit_eq 3 2 k.val (k0_pay117 (k0_pay86 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay173, (k0_pay117 (k0_pay86 iotaV 0#32 1#32 k))] : Fin 2 → IVec S16 32) a x).toNat < S128x128.size a)
    (hS : ∀ a x, ((![(k0_pay117 (k0_pay86 iotaV 0#32 1#32 k)), k0_pay173] : Fin 2 → IVec S16 32) a x).toNat < S64x128.size a) (x : S16.Idx) :
    k0_pay122 (loadIdx Pc ![(k0_pay85 k0_pay169 w), k0_pay118 o (k0_pay117 (k0_pay86 iotaV 0#32 1#32 k))] hP) (loadIdx Gc ![k0_pay173, (k0_pay117 (k0_pay86 iotaV 0#32 1#32 k))] hG) x
      = Tslot Gc Pc o w hw ho (idxAt ![(k0_pay117 (k0_pay86 iotaV 0#32 1#32 k)), k0_pay173] hS x) :=
  store_value Gc Pc o w hw ho (k0_pay117 (k0_pay86 iotaV 0#32 1#32 k)) k0_pay173 (k0_pay85 k0_pay169 w) (k0_pay118 o (k0_pay117 (k0_pay86 iotaV 0#32 1#32 k))) (prow_toNat w)
    (fun x => pcol3_toNat o _ x (gcol3_lt k x) ho) hP hG hS x

theorem hit_d3_j3 (k : Fin k0_t4_loop.trips)
    (hS : ∀ a x, ((![(k0_pay117 (k0_pay86 iotaV 0#32 1#32 k)), k0_pay173] : Fin 2 → IVec S16 32) a x).toNat < S64x128.size a) :
    {p | ∃ x, idxAt ![(k0_pay117 (k0_pay86 iotaV 0#32 1#32 k)), k0_pay173] hS x = p} = Hit 3 3 k.val :=
  hit_eq 3 3 k.val (k0_pay117 (k0_pay86 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay174, (k0_pay117 (k0_pay86 iotaV 0#32 1#32 k))] : Fin 2 → IVec S16 32) a x).toNat < S128x128.size a)
    (hS : ∀ a x, ((![(k0_pay117 (k0_pay86 iotaV 0#32 1#32 k)), k0_pay174] : Fin 2 → IVec S16 32) a x).toNat < S64x128.size a) (x : S16.Idx) :
    k0_pay123 (loadIdx Pc ![(k0_pay85 k0_pay169 w), k0_pay118 o (k0_pay117 (k0_pay86 iotaV 0#32 1#32 k))] hP) (loadIdx Gc ![k0_pay174, (k0_pay117 (k0_pay86 iotaV 0#32 1#32 k))] hG) x
      = Tslot Gc Pc o w hw ho (idxAt ![(k0_pay117 (k0_pay86 iotaV 0#32 1#32 k)), k0_pay174] hS x) :=
  store_value Gc Pc o w hw ho (k0_pay117 (k0_pay86 iotaV 0#32 1#32 k)) k0_pay174 (k0_pay85 k0_pay169 w) (k0_pay118 o (k0_pay117 (k0_pay86 iotaV 0#32 1#32 k))) (prow_toNat w)
    (fun x => pcol3_toNat o _ x (gcol3_lt k x) ho) hP hG hS x

theorem hit_d3_j4 (k : Fin k0_t4_loop.trips)
    (hS : ∀ a x, ((![(k0_pay117 (k0_pay86 iotaV 0#32 1#32 k)), k0_pay174] : Fin 2 → IVec S16 32) a x).toNat < S64x128.size a) :
    {p | ∃ x, idxAt ![(k0_pay117 (k0_pay86 iotaV 0#32 1#32 k)), k0_pay174] hS x = p} = Hit 3 4 k.val :=
  hit_eq 3 4 k.val (k0_pay117 (k0_pay86 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay175, (k0_pay117 (k0_pay86 iotaV 0#32 1#32 k))] : Fin 2 → IVec S16 32) a x).toNat < S128x128.size a)
    (hS : ∀ a x, ((![(k0_pay117 (k0_pay86 iotaV 0#32 1#32 k)), k0_pay175] : Fin 2 → IVec S16 32) a x).toNat < S64x128.size a) (x : S16.Idx) :
    k0_pay124 (loadIdx Pc ![(k0_pay85 k0_pay169 w), k0_pay118 o (k0_pay117 (k0_pay86 iotaV 0#32 1#32 k))] hP) (loadIdx Gc ![k0_pay175, (k0_pay117 (k0_pay86 iotaV 0#32 1#32 k))] hG) x
      = Tslot Gc Pc o w hw ho (idxAt ![(k0_pay117 (k0_pay86 iotaV 0#32 1#32 k)), k0_pay175] hS x) :=
  store_value Gc Pc o w hw ho (k0_pay117 (k0_pay86 iotaV 0#32 1#32 k)) k0_pay175 (k0_pay85 k0_pay169 w) (k0_pay118 o (k0_pay117 (k0_pay86 iotaV 0#32 1#32 k))) (prow_toNat w)
    (fun x => pcol3_toNat o _ x (gcol3_lt k x) ho) hP hG hS x

theorem hit_d3_j5 (k : Fin k0_t4_loop.trips)
    (hS : ∀ a x, ((![(k0_pay117 (k0_pay86 iotaV 0#32 1#32 k)), k0_pay175] : Fin 2 → IVec S16 32) a x).toNat < S64x128.size a) :
    {p | ∃ x, idxAt ![(k0_pay117 (k0_pay86 iotaV 0#32 1#32 k)), k0_pay175] hS x = p} = Hit 3 5 k.val :=
  hit_eq 3 5 k.val (k0_pay117 (k0_pay86 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay176, (k0_pay117 (k0_pay86 iotaV 0#32 1#32 k))] : Fin 2 → IVec S16 32) a x).toNat < S128x128.size a)
    (hS : ∀ a x, ((![(k0_pay117 (k0_pay86 iotaV 0#32 1#32 k)), k0_pay176] : Fin 2 → IVec S16 32) a x).toNat < S64x128.size a) (x : S16.Idx) :
    k0_pay125 (loadIdx Pc ![(k0_pay85 k0_pay169 w), k0_pay118 o (k0_pay117 (k0_pay86 iotaV 0#32 1#32 k))] hP) (loadIdx Gc ![k0_pay176, (k0_pay117 (k0_pay86 iotaV 0#32 1#32 k))] hG) x
      = Tslot Gc Pc o w hw ho (idxAt ![(k0_pay117 (k0_pay86 iotaV 0#32 1#32 k)), k0_pay176] hS x) :=
  store_value Gc Pc o w hw ho (k0_pay117 (k0_pay86 iotaV 0#32 1#32 k)) k0_pay176 (k0_pay85 k0_pay169 w) (k0_pay118 o (k0_pay117 (k0_pay86 iotaV 0#32 1#32 k))) (prow_toNat w)
    (fun x => pcol3_toNat o _ x (gcol3_lt k x) ho) hP hG hS x

theorem hit_d3_j6 (k : Fin k0_t4_loop.trips)
    (hS : ∀ a x, ((![(k0_pay117 (k0_pay86 iotaV 0#32 1#32 k)), k0_pay176] : Fin 2 → IVec S16 32) a x).toNat < S64x128.size a) :
    {p | ∃ x, idxAt ![(k0_pay117 (k0_pay86 iotaV 0#32 1#32 k)), k0_pay176] hS x = p} = Hit 3 6 k.val :=
  hit_eq 3 6 k.val (k0_pay117 (k0_pay86 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay177, (k0_pay117 (k0_pay86 iotaV 0#32 1#32 k))] : Fin 2 → IVec S16 32) a x).toNat < S128x128.size a)
    (hS : ∀ a x, ((![(k0_pay117 (k0_pay86 iotaV 0#32 1#32 k)), k0_pay177] : Fin 2 → IVec S16 32) a x).toNat < S64x128.size a) (x : S16.Idx) :
    k0_pay126 (loadIdx Pc ![(k0_pay85 k0_pay169 w), k0_pay118 o (k0_pay117 (k0_pay86 iotaV 0#32 1#32 k))] hP) (loadIdx Gc ![k0_pay177, (k0_pay117 (k0_pay86 iotaV 0#32 1#32 k))] hG) x
      = Tslot Gc Pc o w hw ho (idxAt ![(k0_pay117 (k0_pay86 iotaV 0#32 1#32 k)), k0_pay177] hS x) :=
  store_value Gc Pc o w hw ho (k0_pay117 (k0_pay86 iotaV 0#32 1#32 k)) k0_pay177 (k0_pay85 k0_pay169 w) (k0_pay118 o (k0_pay117 (k0_pay86 iotaV 0#32 1#32 k))) (prow_toNat w)
    (fun x => pcol3_toNat o _ x (gcol3_lt k x) ho) hP hG hS x

theorem hit_d3_j7 (k : Fin k0_t4_loop.trips)
    (hS : ∀ a x, ((![(k0_pay117 (k0_pay86 iotaV 0#32 1#32 k)), k0_pay177] : Fin 2 → IVec S16 32) a x).toNat < S64x128.size a) :
    {p | ∃ x, idxAt ![(k0_pay117 (k0_pay86 iotaV 0#32 1#32 k)), k0_pay177] hS x = p} = Hit 3 7 k.val :=
  hit_eq 3 7 k.val (k0_pay117 (k0_pay86 iotaV 0#32 1#32 k)) k0_pay177
    (fun x => by rw [gcol3_toNat]; show _ = (ln x + k.val) % 16 + 16 * 3; omega)
    (fun x => by rw [pay177_toNat]; show _ = 16 * 7 + ln x; omega) hS

end Cert.Lanes.C3
-- ==== Proof.Lane4.lean ====
/-
  The index arithmetic of one copy of the inner loop (k0_t5_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVec

namespace Cert.Lanes.C4

open Idealize.ShloMosaic Cert.KernelIdeal Cert.KernelIdeal.Gen Cert.Lanes

/-- The loop runs at most 16 trips. -/
theorem trip_lt (k : Fin k0_t5_loop.trips) : k.val < 16 := Nat.lt_of_lt_of_le k.isLt k0_t5_abs.2.1

/-- The rotation vector of trip `k`: `(lane + k) mod 16`. -/
theorem rot_toNat (k : Fin k0_t5_loop.trips) (x : S16.Idx) :
    (k0_pay128 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t5_loop.trips) (x : S16.Idx) :
    (k0_pay129 iotaV 0#32 1#32 k x).toNat = (ln x + k.val) % 16 :=
  addi_lit (k0_pay128 iotaV 0#32 1#32 k) 0#32 ((ln x + k.val) % 16) 0 x (rot_toNat k x) rfl (by omega)

/-- The column vector of feature group 1 in trip `k`. -/
theorem gcol1_toNat (k : Fin k0_t5_loop.trips) (x : S16.Idx) :
    (k0_pay139 (k0_pay128 iotaV 0#32 1#32 k) x).toNat = (ln x + k.val) % 16 + 16 :=
  addi_lit (k0_pay128 iotaV 0#32 1#32 k) 16#32 ((ln x + k.val) % 16) 16 x (rot_toNat k x) rfl (by omega)

/-- The column vector of feature group 2 in trip `k`. -/
theorem gcol2_toNat (k : Fin k0_t5_loop.trips) (x : S16.Idx) :
    (k0_pay149 (k0_pay128 iotaV 0#32 1#32 k) x).toNat = (ln x + k.val) % 16 + 32 :=
  addi_lit (k0_pay128 iotaV 0#32 1#32 k) 32#32 ((ln x + k.val) % 16) 32 x (rot_toNat k x) rfl (by omega)

/-- The column vector of feature group 3 in trip `k`. -/
theorem gcol3_toNat (k : Fin k0_t5_loop.trips) (x : S16.Idx) :
    (k0_pay159 (k0_pay128 iotaV 0#32 1#32 k) x).toNat = (ln x + k.val) % 16 + 48 :=
  addi_lit (k0_pay128 iotaV 0#32 1#32 k) 48#32 ((ln x + k.val) % 16) 48 x (rot_toNat k x) rfl (by omega)

theorem gcol0_lt (k : Fin k0_t5_loop.trips) (x : S16.Idx) : (k0_pay129 iotaV 0#32 1#32 k x).toNat < 64 := by
  rw [gcol0_toNat]; omega
theorem gcol1_lt (k : Fin k0_t5_loop.trips) (x : S16.Idx) : (k0_pay139 (k0_pay128 iotaV 0#32 1#32 k) x).toNat < 64 := by
  rw [gcol1_toNat]; omega
theorem gcol2_lt (k : Fin k0_t5_loop.trips) (x : S16.Idx) : (k0_pay149 (k0_pay128 iotaV 0#32 1#32 k) x).toNat < 64 := by
  rw [gcol2_toNat]; omega
theorem gcol3_lt (k : Fin k0_t5_loop.trips) (x : S16.Idx) : (k0_pay159 (k0_pay128 iotaV 0#32 1#32 k) x).toNat < 64 := by
  rw [gcol3_toNat]; omega

/-- The positional row vector: the word `w` in every lane. -/
theorem prow_toNat (w : BitVec 32) (x : S16.Idx) : (k0_pay127 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay130 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay140 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay150 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay160 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk25 (k0_pay127 k0_pay169 w) (k0_pay130 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk27 (k0_pay127 k0_pay169 w) (k0_pay140 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk29 (k0_pay127 k0_pay169 w) (k0_pay150 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk31 (k0_pay127 k0_pay169 w) (k0_pay160 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk26 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk28 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk30 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk32 k0_pay170 k0_pay171 k0_pay172 k0_pay173 k0_pay174 k0_pay175 k0_pay176 k0_pay177 gc := chkG0 gc hgc

/-! ### The side conditions at the column vectors of trip `k` -/

theorem chkP0_trip (k : Fin k0_t5_loop.trips) (o w : BitVec 32) (hw : w.toNat < 100) (ho : o.toNat ≤ 64) :
    k0_chk25 (k0_pay127 k0_pay169 w) (k0_pay130 o (k0_pay129 iotaV 0#32 1#32 k)) := chkP0 o w _ hw ho (gcol0_lt k)
theorem chkP1_trip (k : Fin k0_t5_loop.trips) (o w : BitVec 32) (hw : w.toNat < 100) (ho : o.toNat ≤ 64) :
    k0_chk27 (k0_pay127 k0_pay169 w) (k0_pay140 o (k0_pay139 (k0_pay128 iotaV 0#32 1#32 k))) := chkP1 o w _ hw ho (gcol1_lt k)
theorem chkP2_trip (k : Fin k0_t5_loop.trips) (o w : BitVec 32) (hw : w.toNat < 100) (ho : o.toNat ≤ 64) :
    k0_chk29 (k0_pay127 k0_pay169 w) (k0_pay150 o (k0_pay149 (k0_pay128 iotaV 0#32 1#32 k))) := chkP2 o w _ hw ho (gcol2_lt k)
theorem chkP3_trip (k : Fin k0_t5_loop.trips) (o w : BitVec 32) (hw : w.toNat < 100) (ho : o.toNat ≤ 64) :
    k0_chk31 (k0_pay127 k0_pay169 w) (k0_pay160 o (k0_pay159 (k0_pay128 iotaV 0#32 1#32 k))) := chkP3 o w _ hw ho (gcol3_lt k)

theorem chkG0_trip (k : Fin k0_t5_loop.trips) :
    k0_chk26 k0_pay170 k0_pay171 k0_pay172 k0_pay173 k0_pay174 k0_pay175 k0_pay176 k0_pay177 (k0_pay129 iotaV 0#32 1#32 k) :=
  chkG0 _ (gcol0_lt k)
theorem chkG1_trip (k : Fin k0_t5_loop.trips) :
    k0_chk28 k0_pay170 k0_pay171 k0_pay172 k0_pay173 k0_pay174 k0_pay175 k0_pay176 k0_pay177 (k0_pay139 (k0_pay128 iotaV 0#32 1#32 k)) :=
  chkG1 _ (gcol1_lt k)
theorem chkG2_trip (k : Fin k0_t5_loop.trips) :
    k0_chk30 k0_pay170 k0_pay171 k0_pay172 k0_pay173 k0_pay174 k0_pay175 k0_pay176 k0_pay177 (k0_pay149 (k0_pay128 iotaV 0#32 1#32 k)) :=
  chkG2 _ (gcol2_lt k)
theorem chkG3_trip (k : Fin k0_t5_loop.trips) :
    k0_chk32 k0_pay170 k0_pay171 k0_pay172 k0_pay173 k0_pay174 k0_pay175 k0_pay176 k0_pay177 (k0_pay159 (k0_pay128 iotaV 0#32 1#32 k)) :=
  chkG3 _ (gcol3_lt k)

end Cert.Lanes.C4
-- ==== Proof.LaneTrip4.lean ====
/-
  The values and the elements of the 32 stores of one trip of the inner loop k0_t5_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTrip
import proofs.«206908_g46772193853751_cont_8to1c4_160_30_alg».proof.Proof.Lane4

namespace Cert.Lanes.C4

open Idealize.ShloMosaic Idealize.ShloMosaic.ValueIdx Cert.KernelIdeal Cert.KernelIdeal.Gen Cert.Lanes

variable {F : FTy → Type} [FloatOps F]

theorem val_d0_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay170, (k0_pay129 iotaV 0#32 1#32 k)] : Fin 2 → IVec S16 32) a x).toNat < S128x128.size a)
    (hS : ∀ a x, ((![(k0_pay129 iotaV 0#32 1#32 k), k0_pay170] : Fin 2 → IVec S16 32) a x).toNat < S64x128.size a) (x : S16.Idx) :
    k0_pay131 (loadIdx Pc ![(k0_pay127 k0_pay169 w), k0_pay130 o (k0_pay129 iotaV 0#32 1#32 k)] hP) (loadIdx Gc ![k0_pay170, (k0_pay129 iotaV 0#32 1#32 k)] hG) x
      = Tslot Gc Pc o w hw ho (idxAt ![(k0_pay129 iotaV 0#32 1#32 k), k0_pay170] hS x) :=
  store_value Gc Pc o w hw ho (k0_pay129 iotaV 0#32 1#32 k) k0_pay170 (k0_pay127 k0_pay169 w) (k0_pay130 o (k0_pay129 iotaV 0#32 1#32 k)) (prow_toNat w)
    (fun x => pcol0_toNat o _ x (gcol0_lt k x) ho) hP hG hS x

theorem hit_d0_j0 (k : Fin k0_t5_loop.trips)
    (hS : ∀ a x, ((![(k0_pay129 iotaV 0#32 1#32 k), k0_pay170] : Fin 2 → IVec S16 32) a x).toNat < S64x128.size a) :
    {p | ∃ x, idxAt ![(k0_pay129 iotaV 0#32 1#32 k), k0_pay170] hS x = p} = Hit 0 0 k.val :=
  hit_eq 0 0 k.val (k0_pay129 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay171, (k0_pay129 iotaV 0#32 1#32 k)] : Fin 2 → IVec S16 32) a x).toNat < S128x128.size a)
    (hS : ∀ a x, ((![(k0_pay129 iotaV 0#32 1#32 k), k0_pay171] : Fin 2 → IVec S16 32) a x).toNat < S64x128.size a) (x : S16.Idx) :
    k0_pay132 (loadIdx Pc ![(k0_pay127 k0_pay169 w), k0_pay130 o (k0_pay129 iotaV 0#32 1#32 k)] hP) (loadIdx Gc ![k0_pay171, (k0_pay129 iotaV 0#32 1#32 k)] hG) x
      = Tslot Gc Pc o w hw ho (idxAt ![(k0_pay129 iotaV 0#32 1#32 k), k0_pay171] hS x) :=
  store_value Gc Pc o w hw ho (k0_pay129 iotaV 0#32 1#32 k) k0_pay171 (k0_pay127 k0_pay169 w) (k0_pay130 o (k0_pay129 iotaV 0#32 1#32 k)) (prow_toNat w)
    (fun x => pcol0_toNat o _ x (gcol0_lt k x) ho) hP hG hS x

theorem hit_d0_j1 (k : Fin k0_t5_loop.trips)
    (hS : ∀ a x, ((![(k0_pay129 iotaV 0#32 1#32 k), k0_pay171] : Fin 2 → IVec S16 32) a x).toNat < S64x128.size a) :
    {p | ∃ x, idxAt ![(k0_pay129 iotaV 0#32 1#32 k), k0_pay171] hS x = p} = Hit 0 1 k.val :=
  hit_eq 0 1 k.val (k0_pay129 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay172, (k0_pay129 iotaV 0#32 1#32 k)] : Fin 2 → IVec S16 32) a x).toNat < S128x128.size a)
    (hS : ∀ a x, ((![(k0_pay129 iotaV 0#32 1#32 k), k0_pay172] : Fin 2 → IVec S16 32) a x).toNat < S64x128.size a) (x : S16.Idx) :
    k0_pay133 (loadIdx Pc ![(k0_pay127 k0_pay169 w), k0_pay130 o (k0_pay129 iotaV 0#32 1#32 k)] hP) (loadIdx Gc ![k0_pay172, (k0_pay129 iotaV 0#32 1#32 k)] hG) x
      = Tslot Gc Pc o w hw ho (idxAt ![(k0_pay129 iotaV 0#32 1#32 k), k0_pay172] hS x) :=
  store_value Gc Pc o w hw ho (k0_pay129 iotaV 0#32 1#32 k) k0_pay172 (k0_pay127 k0_pay169 w) (k0_pay130 o (k0_pay129 iotaV 0#32 1#32 k)) (prow_toNat w)
    (fun x => pcol0_toNat o _ x (gcol0_lt k x) ho) hP hG hS x

theorem hit_d0_j2 (k : Fin k0_t5_loop.trips)
    (hS : ∀ a x, ((![(k0_pay129 iotaV 0#32 1#32 k), k0_pay172] : Fin 2 → IVec S16 32) a x).toNat < S64x128.size a) :
    {p | ∃ x, idxAt ![(k0_pay129 iotaV 0#32 1#32 k), k0_pay172] hS x = p} = Hit 0 2 k.val :=
  hit_eq 0 2 k.val (k0_pay129 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay173, (k0_pay129 iotaV 0#32 1#32 k)] : Fin 2 → IVec S16 32) a x).toNat < S128x128.size a)
    (hS : ∀ a x, ((![(k0_pay129 iotaV 0#32 1#32 k), k0_pay173] : Fin 2 → IVec S16 32) a x).toNat < S64x128.size a) (x : S16.Idx) :
    k0_pay134 (loadIdx Pc ![(k0_pay127 k0_pay169 w), k0_pay130 o (k0_pay129 iotaV 0#32 1#32 k)] hP) (loadIdx Gc ![k0_pay173, (k0_pay129 iotaV 0#32 1#32 k)] hG) x
      = Tslot Gc Pc o w hw ho (idxAt ![(k0_pay129 iotaV 0#32 1#32 k), k0_pay173] hS x) :=
  store_value Gc Pc o w hw ho (k0_pay129 iotaV 0#32 1#32 k) k0_pay173 (k0_pay127 k0_pay169 w) (k0_pay130 o (k0_pay129 iotaV 0#32 1#32 k)) (prow_toNat w)
    (fun x => pcol0_toNat o _ x (gcol0_lt k x) ho) hP hG hS x

theorem hit_d0_j3 (k : Fin k0_t5_loop.trips)
    (hS : ∀ a x, ((![(k0_pay129 iotaV 0#32 1#32 k), k0_pay173] : Fin 2 → IVec S16 32) a x).toNat < S64x128.size a) :
    {p | ∃ x, idxAt ![(k0_pay129 iotaV 0#32 1#32 k), k0_pay173] hS x = p} = Hit 0 3 k.val :=
  hit_eq 0 3 k.val (k0_pay129 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay174, (k0_pay129 iotaV 0#32 1#32 k)] : Fin 2 → IVec S16 32) a x).toNat < S128x128.size a)
    (hS : ∀ a x, ((![(k0_pay129 iotaV 0#32 1#32 k), k0_pay174] : Fin 2 → IVec S16 32) a x).toNat < S64x128.size a) (x : S16.Idx) :
    k0_pay135 (loadIdx Pc ![(k0_pay127 k0_pay169 w), k0_pay130 o (k0_pay129 iotaV 0#32 1#32 k)] hP) (loadIdx Gc ![k0_pay174, (k0_pay129 iotaV 0#32 1#32 k)] hG) x
      = Tslot Gc Pc o w hw ho (idxAt ![(k0_pay129 iotaV 0#32 1#32 k), k0_pay174] hS x) :=
  store_value Gc Pc o w hw ho (k0_pay129 iotaV 0#32 1#32 k) k0_pay174 (k0_pay127 k0_pay169 w) (k0_pay130 o (k0_pay129 iotaV 0#32 1#32 k)) (prow_toNat w)
    (fun x => pcol0_toNat o _ x (gcol0_lt k x) ho) hP hG hS x

theorem hit_d0_j4 (k : Fin k0_t5_loop.trips)
    (hS : ∀ a x, ((![(k0_pay129 iotaV 0#32 1#32 k), k0_pay174] : Fin 2 → IVec S16 32) a x).toNat < S64x128.size a) :
    {p | ∃ x, idxAt ![(k0_pay129 iotaV 0#32 1#32 k), k0_pay174] hS x = p} = Hit 0 4 k.val :=
  hit_eq 0 4 k.val (k0_pay129 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay175, (k0_pay129 iotaV 0#32 1#32 k)] : Fin 2 → IVec S16 32) a x).toNat < S128x128.size a)
    (hS : ∀ a x, ((![(k0_pay129 iotaV 0#32 1#32 k), k0_pay175] : Fin 2 → IVec S16 32) a x).toNat < S64x128.size a) (x : S16.Idx) :
    k0_pay136 (loadIdx Pc ![(k0_pay127 k0_pay169 w), k0_pay130 o (k0_pay129 iotaV 0#32 1#32 k)] hP) (loadIdx Gc ![k0_pay175, (k0_pay129 iotaV 0#32 1#32 k)] hG) x
      = Tslot Gc Pc o w hw ho (idxAt ![(k0_pay129 iotaV 0#32 1#32 k), k0_pay175] hS x) :=
  store_value Gc Pc o w hw ho (k0_pay129 iotaV 0#32 1#32 k) k0_pay175 (k0_pay127 k0_pay169 w) (k0_pay130 o (k0_pay129 iotaV 0#32 1#32 k)) (prow_toNat w)
    (fun x => pcol0_toNat o _ x (gcol0_lt k x) ho) hP hG hS x

theorem hit_d0_j5 (k : Fin k0_t5_loop.trips)
    (hS : ∀ a x, ((![(k0_pay129 iotaV 0#32 1#32 k), k0_pay175] : Fin 2 → IVec S16 32) a x).toNat < S64x128.size a) :
    {p | ∃ x, idxAt ![(k0_pay129 iotaV 0#32 1#32 k), k0_pay175] hS x = p} = Hit 0 5 k.val :=
  hit_eq 0 5 k.val (k0_pay129 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay176, (k0_pay129 iotaV 0#32 1#32 k)] : Fin 2 → IVec S16 32) a x).toNat < S128x128.size a)
    (hS : ∀ a x, ((![(k0_pay129 iotaV 0#32 1#32 k), k0_pay176] : Fin 2 → IVec S16 32) a x).toNat < S64x128.size a) (x : S16.Idx) :
    k0_pay137 (loadIdx Pc ![(k0_pay127 k0_pay169 w), k0_pay130 o (k0_pay129 iotaV 0#32 1#32 k)] hP) (loadIdx Gc ![k0_pay176, (k0_pay129 iotaV 0#32 1#32 k)] hG) x
      = Tslot Gc Pc o w hw ho (idxAt ![(k0_pay129 iotaV 0#32 1#32 k), k0_pay176] hS x) :=
  store_value Gc Pc o w hw ho (k0_pay129 iotaV 0#32 1#32 k) k0_pay176 (k0_pay127 k0_pay169 w) (k0_pay130 o (k0_pay129 iotaV 0#32 1#32 k)) (prow_toNat w)
    (fun x => pcol0_toNat o _ x (gcol0_lt k x) ho) hP hG hS x

theorem hit_d0_j6 (k : Fin k0_t5_loop.trips)
    (hS : ∀ a x, ((![(k0_pay129 iotaV 0#32 1#32 k), k0_pay176] : Fin 2 → IVec S16 32) a x).toNat < S64x128.size a) :
    {p | ∃ x, idxAt ![(k0_pay129 iotaV 0#32 1#32 k), k0_pay176] hS x = p} = Hit 0 6 k.val :=
  hit_eq 0 6 k.val (k0_pay129 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay177, (k0_pay129 iotaV 0#32 1#32 k)] : Fin 2 → IVec S16 32) a x).toNat < S128x128.size a)
    (hS : ∀ a x, ((![(k0_pay129 iotaV 0#32 1#32 k), k0_pay177] : Fin 2 → IVec S16 32) a x).toNat < S64x128.size a) (x : S16.Idx) :
    k0_pay138 (loadIdx Pc ![(k0_pay127 k0_pay169 w), k0_pay130 o (k0_pay129 iotaV 0#32 1#32 k)] hP) (loadIdx Gc ![k0_pay177, (k0_pay129 iotaV 0#32 1#32 k)] hG) x
      = Tslot Gc Pc o w hw ho (idxAt ![(k0_pay129 iotaV 0#32 1#32 k), k0_pay177] hS x) :=
  store_value Gc Pc o w hw ho (k0_pay129 iotaV 0#32 1#32 k) k0_pay177 (k0_pay127 k0_pay169 w) (k0_pay130 o (k0_pay129 iotaV 0#32 1#32 k)) (prow_toNat w)
    (fun x => pcol0_toNat o _ x (gcol0_lt k x) ho) hP hG hS x

theorem hit_d0_j7 (k : Fin k0_t5_loop.trips)
    (hS : ∀ a x, ((![(k0_pay129 iotaV 0#32 1#32 k), k0_pay177] : Fin 2 → IVec S16 32) a x).toNat < S64x128.size a) :
    {p | ∃ x, idxAt ![(k0_pay129 iotaV 0#32 1#32 k), k0_pay177] hS x = p} = Hit 0 7 k.val :=
  hit_eq 0 7 k.val (k0_pay129 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay170, (k0_pay139 (k0_pay128 iotaV 0#32 1#32 k))] : Fin 2 → IVec S16 32) a x).toNat < S128x128.size a)
    (hS : ∀ a x, ((![(k0_pay139 (k0_pay128 iotaV 0#32 1#32 k)), k0_pay170] : Fin 2 → IVec S16 32) a x).toNat < S64x128.size a) (x : S16.Idx) :
    k0_pay141 (loadIdx Pc ![(k0_pay127 k0_pay169 w), k0_pay140 o (k0_pay139 (k0_pay128 iotaV 0#32 1#32 k))] hP) (loadIdx Gc ![k0_pay170, (k0_pay139 (k0_pay128 iotaV 0#32 1#32 k))] hG) x
      = Tslot Gc Pc o w hw ho (idxAt ![(k0_pay139 (k0_pay128 iotaV 0#32 1#32 k)), k0_pay170] hS x) :=
  store_value Gc Pc o w hw ho (k0_pay139 (k0_pay128 iotaV 0#32 1#32 k)) k0_pay170 (k0_pay127 k0_pay169 w) (k0_pay140 o (k0_pay139 (k0_pay128 iotaV 0#32 1#32 k))) (prow_toNat w)
    (fun x => pcol1_toNat o _ x (gcol1_lt k x) ho) hP hG hS x

theorem hit_d1_j0 (k : Fin k0_t5_loop.trips)
    (hS : ∀ a x, ((![(k0_pay139 (k0_pay128 iotaV 0#32 1#32 k)), k0_pay170] : Fin 2 → IVec S16 32) a x).toNat < S64x128.size a) :
    {p | ∃ x, idxAt ![(k0_pay139 (k0_pay128 iotaV 0#32 1#32 k)), k0_pay170] hS x = p} = Hit 1 0 k.val :=
  hit_eq 1 0 k.val (k0_pay139 (k0_pay128 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay171, (k0_pay139 (k0_pay128 iotaV 0#32 1#32 k))] : Fin 2 → IVec S16 32) a x).toNat < S128x128.size a)
    (hS : ∀ a x, ((![(k0_pay139 (k0_pay128 iotaV 0#32 1#32 k)), k0_pay171] : Fin 2 → IVec S16 32) a x).toNat < S64x128.size a) (x : S16.Idx) :
    k0_pay142 (loadIdx Pc ![(k0_pay127 k0_pay169 w), k0_pay140 o (k0_pay139 (k0_pay128 iotaV 0#32 1#32 k))] hP) (loadIdx Gc ![k0_pay171, (k0_pay139 (k0_pay128 iotaV 0#32 1#32 k))] hG) x
      = Tslot Gc Pc o w hw ho (idxAt ![(k0_pay139 (k0_pay128 iotaV 0#32 1#32 k)), k0_pay171] hS x) :=
  store_value Gc Pc o w hw ho (k0_pay139 (k0_pay128 iotaV 0#32 1#32 k)) k0_pay171 (k0_pay127 k0_pay169 w) (k0_pay140 o (k0_pay139 (k0_pay128 iotaV 0#32 1#32 k))) (prow_toNat w)
    (fun x => pcol1_toNat o _ x (gcol1_lt k x) ho) hP hG hS x

theorem hit_d1_j1 (k : Fin k0_t5_loop.trips)
    (hS : ∀ a x, ((![(k0_pay139 (k0_pay128 iotaV 0#32 1#32 k)), k0_pay171] : Fin 2 → IVec S16 32) a x).toNat < S64x128.size a) :
    {p | ∃ x, idxAt ![(k0_pay139 (k0_pay128 iotaV 0#32 1#32 k)), k0_pay171] hS x = p} = Hit 1 1 k.val :=
  hit_eq 1 1 k.val (k0_pay139 (k0_pay128 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay172, (k0_pay139 (k0_pay128 iotaV 0#32 1#32 k))] : Fin 2 → IVec S16 32) a x).toNat < S128x128.size a)
    (hS : ∀ a x, ((![(k0_pay139 (k0_pay128 iotaV 0#32 1#32 k)), k0_pay172] : Fin 2 → IVec S16 32) a x).toNat < S64x128.size a) (x : S16.Idx) :
    k0_pay143 (loadIdx Pc ![(k0_pay127 k0_pay169 w), k0_pay140 o (k0_pay139 (k0_pay128 iotaV 0#32 1#32 k))] hP) (loadIdx Gc ![k0_pay172, (k0_pay139 (k0_pay128 iotaV 0#32 1#32 k))] hG) x
      = Tslot Gc Pc o w hw ho (idxAt ![(k0_pay139 (k0_pay128 iotaV 0#32 1#32 k)), k0_pay172] hS x) :=
  store_value Gc Pc o w hw ho (k0_pay139 (k0_pay128 iotaV 0#32 1#32 k)) k0_pay172 (k0_pay127 k0_pay169 w) (k0_pay140 o (k0_pay139 (k0_pay128 iotaV 0#32 1#32 k))) (prow_toNat w)
    (fun x => pcol1_toNat o _ x (gcol1_lt k x) ho) hP hG hS x

theorem hit_d1_j2 (k : Fin k0_t5_loop.trips)
    (hS : ∀ a x, ((![(k0_pay139 (k0_pay128 iotaV 0#32 1#32 k)), k0_pay172] : Fin 2 → IVec S16 32) a x).toNat < S64x128.size a) :
    {p | ∃ x, idxAt ![(k0_pay139 (k0_pay128 iotaV 0#32 1#32 k)), k0_pay172] hS x = p} = Hit 1 2 k.val :=
  hit_eq 1 2 k.val (k0_pay139 (k0_pay128 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay173, (k0_pay139 (k0_pay128 iotaV 0#32 1#32 k))] : Fin 2 → IVec S16 32) a x).toNat < S128x128.size a)
    (hS : ∀ a x, ((![(k0_pay139 (k0_pay128 iotaV 0#32 1#32 k)), k0_pay173] : Fin 2 → IVec S16 32) a x).toNat < S64x128.size a) (x : S16.Idx) :
    k0_pay144 (loadIdx Pc ![(k0_pay127 k0_pay169 w), k0_pay140 o (k0_pay139 (k0_pay128 iotaV 0#32 1#32 k))] hP) (loadIdx Gc ![k0_pay173, (k0_pay139 (k0_pay128 iotaV 0#32 1#32 k))] hG) x
      = Tslot Gc Pc o w hw ho (idxAt ![(k0_pay139 (k0_pay128 iotaV 0#32 1#32 k)), k0_pay173] hS x) :=
  store_value Gc Pc o w hw ho (k0_pay139 (k0_pay128 iotaV 0#32 1#32 k)) k0_pay173 (k0_pay127 k0_pay169 w) (k0_pay140 o (k0_pay139 (k0_pay128 iotaV 0#32 1#32 k))) (prow_toNat w)
    (fun x => pcol1_toNat o _ x (gcol1_lt k x) ho) hP hG hS x

theorem hit_d1_j3 (k : Fin k0_t5_loop.trips)
    (hS : ∀ a x, ((![(k0_pay139 (k0_pay128 iotaV 0#32 1#32 k)), k0_pay173] : Fin 2 → IVec S16 32) a x).toNat < S64x128.size a) :
    {p | ∃ x, idxAt ![(k0_pay139 (k0_pay128 iotaV 0#32 1#32 k)), k0_pay173] hS x = p} = Hit 1 3 k.val :=
  hit_eq 1 3 k.val (k0_pay139 (k0_pay128 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay174, (k0_pay139 (k0_pay128 iotaV 0#32 1#32 k))] : Fin 2 → IVec S16 32) a x).toNat < S128x128.size a)
    (hS : ∀ a x, ((![(k0_pay139 (k0_pay128 iotaV 0#32 1#32 k)), k0_pay174] : Fin 2 → IVec S16 32) a x).toNat < S64x128.size a) (x : S16.Idx) :
    k0_pay145 (loadIdx Pc ![(k0_pay127 k0_pay169 w), k0_pay140 o (k0_pay139 (k0_pay128 iotaV 0#32 1#32 k))] hP) (loadIdx Gc ![k0_pay174, (k0_pay139 (k0_pay128 iotaV 0#32 1#32 k))] hG) x
      = Tslot Gc Pc o w hw ho (idxAt ![(k0_pay139 (k0_pay128 iotaV 0#32 1#32 k)), k0_pay174] hS x) :=
  store_value Gc Pc o w hw ho (k0_pay139 (k0_pay128 iotaV 0#32 1#32 k)) k0_pay174 (k0_pay127 k0_pay169 w) (k0_pay140 o (k0_pay139 (k0_pay128 iotaV 0#32 1#32 k))) (prow_toNat w)
    (fun x => pcol1_toNat o _ x (gcol1_lt k x) ho) hP hG hS x

theorem hit_d1_j4 (k : Fin k0_t5_loop.trips)
    (hS : ∀ a x, ((![(k0_pay139 (k0_pay128 iotaV 0#32 1#32 k)), k0_pay174] : Fin 2 → IVec S16 32) a x).toNat < S64x128.size a) :
    {p | ∃ x, idxAt ![(k0_pay139 (k0_pay128 iotaV 0#32 1#32 k)), k0_pay174] hS x = p} = Hit 1 4 k.val :=
  hit_eq 1 4 k.val (k0_pay139 (k0_pay128 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay175, (k0_pay139 (k0_pay128 iotaV 0#32 1#32 k))] : Fin 2 → IVec S16 32) a x).toNat < S128x128.size a)
    (hS : ∀ a x, ((![(k0_pay139 (k0_pay128 iotaV 0#32 1#32 k)), k0_pay175] : Fin 2 → IVec S16 32) a x).toNat < S64x128.size a) (x : S16.Idx) :
    k0_pay146 (loadIdx Pc ![(k0_pay127 k0_pay169 w), k0_pay140 o (k0_pay139 (k0_pay128 iotaV 0#32 1#32 k))] hP) (loadIdx Gc ![k0_pay175, (k0_pay139 (k0_pay128 iotaV 0#32 1#32 k))] hG) x
      = Tslot Gc Pc o w hw ho (idxAt ![(k0_pay139 (k0_pay128 iotaV 0#32 1#32 k)), k0_pay175] hS x) :=
  store_value Gc Pc o w hw ho (k0_pay139 (k0_pay128 iotaV 0#32 1#32 k)) k0_pay175 (k0_pay127 k0_pay169 w) (k0_pay140 o (k0_pay139 (k0_pay128 iotaV 0#32 1#32 k))) (prow_toNat w)
    (fun x => pcol1_toNat o _ x (gcol1_lt k x) ho) hP hG hS x

theorem hit_d1_j5 (k : Fin k0_t5_loop.trips)
    (hS : ∀ a x, ((![(k0_pay139 (k0_pay128 iotaV 0#32 1#32 k)), k0_pay175] : Fin 2 → IVec S16 32) a x).toNat < S64x128.size a) :
    {p | ∃ x, idxAt ![(k0_pay139 (k0_pay128 iotaV 0#32 1#32 k)), k0_pay175] hS x = p} = Hit 1 5 k.val :=
  hit_eq 1 5 k.val (k0_pay139 (k0_pay128 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay176, (k0_pay139 (k0_pay128 iotaV 0#32 1#32 k))] : Fin 2 → IVec S16 32) a x).toNat < S128x128.size a)
    (hS : ∀ a x, ((![(k0_pay139 (k0_pay128 iotaV 0#32 1#32 k)), k0_pay176] : Fin 2 → IVec S16 32) a x).toNat < S64x128.size a) (x : S16.Idx) :
    k0_pay147 (loadIdx Pc ![(k0_pay127 k0_pay169 w), k0_pay140 o (k0_pay139 (k0_pay128 iotaV 0#32 1#32 k))] hP) (loadIdx Gc ![k0_pay176, (k0_pay139 (k0_pay128 iotaV 0#32 1#32 k))] hG) x
      = Tslot Gc Pc o w hw ho (idxAt ![(k0_pay139 (k0_pay128 iotaV 0#32 1#32 k)), k0_pay176] hS x) :=
  store_value Gc Pc o w hw ho (k0_pay139 (k0_pay128 iotaV 0#32 1#32 k)) k0_pay176 (k0_pay127 k0_pay169 w) (k0_pay140 o (k0_pay139 (k0_pay128 iotaV 0#32 1#32 k))) (prow_toNat w)
    (fun x => pcol1_toNat o _ x (gcol1_lt k x) ho) hP hG hS x

theorem hit_d1_j6 (k : Fin k0_t5_loop.trips)
    (hS : ∀ a x, ((![(k0_pay139 (k0_pay128 iotaV 0#32 1#32 k)), k0_pay176] : Fin 2 → IVec S16 32) a x).toNat < S64x128.size a) :
    {p | ∃ x, idxAt ![(k0_pay139 (k0_pay128 iotaV 0#32 1#32 k)), k0_pay176] hS x = p} = Hit 1 6 k.val :=
  hit_eq 1 6 k.val (k0_pay139 (k0_pay128 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay177, (k0_pay139 (k0_pay128 iotaV 0#32 1#32 k))] : Fin 2 → IVec S16 32) a x).toNat < S128x128.size a)
    (hS : ∀ a x, ((![(k0_pay139 (k0_pay128 iotaV 0#32 1#32 k)), k0_pay177] : Fin 2 → IVec S16 32) a x).toNat < S64x128.size a) (x : S16.Idx) :
    k0_pay148 (loadIdx Pc ![(k0_pay127 k0_pay169 w), k0_pay140 o (k0_pay139 (k0_pay128 iotaV 0#32 1#32 k))] hP) (loadIdx Gc ![k0_pay177, (k0_pay139 (k0_pay128 iotaV 0#32 1#32 k))] hG) x
      = Tslot Gc Pc o w hw ho (idxAt ![(k0_pay139 (k0_pay128 iotaV 0#32 1#32 k)), k0_pay177] hS x) :=
  store_value Gc Pc o w hw ho (k0_pay139 (k0_pay128 iotaV 0#32 1#32 k)) k0_pay177 (k0_pay127 k0_pay169 w) (k0_pay140 o (k0_pay139 (k0_pay128 iotaV 0#32 1#32 k))) (prow_toNat w)
    (fun x => pcol1_toNat o _ x (gcol1_lt k x) ho) hP hG hS x

theorem hit_d1_j7 (k : Fin k0_t5_loop.trips)
    (hS : ∀ a x, ((![(k0_pay139 (k0_pay128 iotaV 0#32 1#32 k)), k0_pay177] : Fin 2 → IVec S16 32) a x).toNat < S64x128.size a) :
    {p | ∃ x, idxAt ![(k0_pay139 (k0_pay128 iotaV 0#32 1#32 k)), k0_pay177] hS x = p} = Hit 1 7 k.val :=
  hit_eq 1 7 k.val (k0_pay139 (k0_pay128 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay170, (k0_pay149 (k0_pay128 iotaV 0#32 1#32 k))] : Fin 2 → IVec S16 32) a x).toNat < S128x128.size a)
    (hS : ∀ a x, ((![(k0_pay149 (k0_pay128 iotaV 0#32 1#32 k)), k0_pay170] : Fin 2 → IVec S16 32) a x).toNat < S64x128.size a) (x : S16.Idx) :
    k0_pay151 (loadIdx Pc ![(k0_pay127 k0_pay169 w), k0_pay150 o (k0_pay149 (k0_pay128 iotaV 0#32 1#32 k))] hP) (loadIdx Gc ![k0_pay170, (k0_pay149 (k0_pay128 iotaV 0#32 1#32 k))] hG) x
      = Tslot Gc Pc o w hw ho (idxAt ![(k0_pay149 (k0_pay128 iotaV 0#32 1#32 k)), k0_pay170] hS x) :=
  store_value Gc Pc o w hw ho (k0_pay149 (k0_pay128 iotaV 0#32 1#32 k)) k0_pay170 (k0_pay127 k0_pay169 w) (k0_pay150 o (k0_pay149 (k0_pay128 iotaV 0#32 1#32 k))) (prow_toNat w)
    (fun x => pcol2_toNat o _ x (gcol2_lt k x) ho) hP hG hS x

theorem hit_d2_j0 (k : Fin k0_t5_loop.trips)
    (hS : ∀ a x, ((![(k0_pay149 (k0_pay128 iotaV 0#32 1#32 k)), k0_pay170] : Fin 2 → IVec S16 32) a x).toNat < S64x128.size a) :
    {p | ∃ x, idxAt ![(k0_pay149 (k0_pay128 iotaV 0#32 1#32 k)), k0_pay170] hS x = p} = Hit 2 0 k.val :=
  hit_eq 2 0 k.val (k0_pay149 (k0_pay128 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay171, (k0_pay149 (k0_pay128 iotaV 0#32 1#32 k))] : Fin 2 → IVec S16 32) a x).toNat < S128x128.size a)
    (hS : ∀ a x, ((![(k0_pay149 (k0_pay128 iotaV 0#32 1#32 k)), k0_pay171] : Fin 2 → IVec S16 32) a x).toNat < S64x128.size a) (x : S16.Idx) :
    k0_pay152 (loadIdx Pc ![(k0_pay127 k0_pay169 w), k0_pay150 o (k0_pay149 (k0_pay128 iotaV 0#32 1#32 k))] hP) (loadIdx Gc ![k0_pay171, (k0_pay149 (k0_pay128 iotaV 0#32 1#32 k))] hG) x
      = Tslot Gc Pc o w hw ho (idxAt ![(k0_pay149 (k0_pay128 iotaV 0#32 1#32 k)), k0_pay171] hS x) :=
  store_value Gc Pc o w hw ho (k0_pay149 (k0_pay128 iotaV 0#32 1#32 k)) k0_pay171 (k0_pay127 k0_pay169 w) (k0_pay150 o (k0_pay149 (k0_pay128 iotaV 0#32 1#32 k))) (prow_toNat w)
    (fun x => pcol2_toNat o _ x (gcol2_lt k x) ho) hP hG hS x

theorem hit_d2_j1 (k : Fin k0_t5_loop.trips)
    (hS : ∀ a x, ((![(k0_pay149 (k0_pay128 iotaV 0#32 1#32 k)), k0_pay171] : Fin 2 → IVec S16 32) a x).toNat < S64x128.size a) :
    {p | ∃ x, idxAt ![(k0_pay149 (k0_pay128 iotaV 0#32 1#32 k)), k0_pay171] hS x = p} = Hit 2 1 k.val :=
  hit_eq 2 1 k.val (k0_pay149 (k0_pay128 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay172, (k0_pay149 (k0_pay128 iotaV 0#32 1#32 k))] : Fin 2 → IVec S16 32) a x).toNat < S128x128.size a)
    (hS : ∀ a x, ((![(k0_pay149 (k0_pay128 iotaV 0#32 1#32 k)), k0_pay172] : Fin 2 → IVec S16 32) a x).toNat < S64x128.size a) (x : S16.Idx) :
    k0_pay153 (loadIdx Pc ![(k0_pay127 k0_pay169 w), k0_pay150 o (k0_pay149 (k0_pay128 iotaV 0#32 1#32 k))] hP) (loadIdx Gc ![k0_pay172, (k0_pay149 (k0_pay128 iotaV 0#32 1#32 k))] hG) x
      = Tslot Gc Pc o w hw ho (idxAt ![(k0_pay149 (k0_pay128 iotaV 0#32 1#32 k)), k0_pay172] hS x) :=
  store_value Gc Pc o w hw ho (k0_pay149 (k0_pay128 iotaV 0#32 1#32 k)) k0_pay172 (k0_pay127 k0_pay169 w) (k0_pay150 o (k0_pay149 (k0_pay128 iotaV 0#32 1#32 k))) (prow_toNat w)
    (fun x => pcol2_toNat o _ x (gcol2_lt k x) ho) hP hG hS x

theorem hit_d2_j2 (k : Fin k0_t5_loop.trips)
    (hS : ∀ a x, ((![(k0_pay149 (k0_pay128 iotaV 0#32 1#32 k)), k0_pay172] : Fin 2 → IVec S16 32) a x).toNat < S64x128.size a) :
    {p | ∃ x, idxAt ![(k0_pay149 (k0_pay128 iotaV 0#32 1#32 k)), k0_pay172] hS x = p} = Hit 2 2 k.val :=
  hit_eq 2 2 k.val (k0_pay149 (k0_pay128 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay173, (k0_pay149 (k0_pay128 iotaV 0#32 1#32 k))] : Fin 2 → IVec S16 32) a x).toNat < S128x128.size a)
    (hS : ∀ a x, ((![(k0_pay149 (k0_pay128 iotaV 0#32 1#32 k)), k0_pay173] : Fin 2 → IVec S16 32) a x).toNat < S64x128.size a) (x : S16.Idx) :
    k0_pay154 (loadIdx Pc ![(k0_pay127 k0_pay169 w), k0_pay150 o (k0_pay149 (k0_pay128 iotaV 0#32 1#32 k))] hP) (loadIdx Gc ![k0_pay173, (k0_pay149 (k0_pay128 iotaV 0#32 1#32 k))] hG) x
      = Tslot Gc Pc o w hw ho (idxAt ![(k0_pay149 (k0_pay128 iotaV 0#32 1#32 k)), k0_pay173] hS x) :=
  store_value Gc Pc o w hw ho (k0_pay149 (k0_pay128 iotaV 0#32 1#32 k)) k0_pay173 (k0_pay127 k0_pay169 w) (k0_pay150 o (k0_pay149 (k0_pay128 iotaV 0#32 1#32 k))) (prow_toNat w)
    (fun x => pcol2_toNat o _ x (gcol2_lt k x) ho) hP hG hS x

theorem hit_d2_j3 (k : Fin k0_t5_loop.trips)
    (hS : ∀ a x, ((![(k0_pay149 (k0_pay128 iotaV 0#32 1#32 k)), k0_pay173] : Fin 2 → IVec S16 32) a x).toNat < S64x128.size a) :
    {p | ∃ x, idxAt ![(k0_pay149 (k0_pay128 iotaV 0#32 1#32 k)), k0_pay173] hS x = p} = Hit 2 3 k.val :=
  hit_eq 2 3 k.val (k0_pay149 (k0_pay128 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay174, (k0_pay149 (k0_pay128 iotaV 0#32 1#32 k))] : Fin 2 → IVec S16 32) a x).toNat < S128x128.size a)
    (hS : ∀ a x, ((![(k0_pay149 (k0_pay128 iotaV 0#32 1#32 k)), k0_pay174] : Fin 2 → IVec S16 32) a x).toNat < S64x128.size a) (x : S16.Idx) :
    k0_pay155 (loadIdx Pc ![(k0_pay127 k0_pay169 w), k0_pay150 o (k0_pay149 (k0_pay128 iotaV 0#32 1#32 k))] hP) (loadIdx Gc ![k0_pay174, (k0_pay149 (k0_pay128 iotaV 0#32 1#32 k))] hG) x
      = Tslot Gc Pc o w hw ho (idxAt ![(k0_pay149 (k0_pay128 iotaV 0#32 1#32 k)), k0_pay174] hS x) :=
  store_value Gc Pc o w hw ho (k0_pay149 (k0_pay128 iotaV 0#32 1#32 k)) k0_pay174 (k0_pay127 k0_pay169 w) (k0_pay150 o (k0_pay149 (k0_pay128 iotaV 0#32 1#32 k))) (prow_toNat w)
    (fun x => pcol2_toNat o _ x (gcol2_lt k x) ho) hP hG hS x

theorem hit_d2_j4 (k : Fin k0_t5_loop.trips)
    (hS : ∀ a x, ((![(k0_pay149 (k0_pay128 iotaV 0#32 1#32 k)), k0_pay174] : Fin 2 → IVec S16 32) a x).toNat < S64x128.size a) :
    {p | ∃ x, idxAt ![(k0_pay149 (k0_pay128 iotaV 0#32 1#32 k)), k0_pay174] hS x = p} = Hit 2 4 k.val :=
  hit_eq 2 4 k.val (k0_pay149 (k0_pay128 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay175, (k0_pay149 (k0_pay128 iotaV 0#32 1#32 k))] : Fin 2 → IVec S16 32) a x).toNat < S128x128.size a)
    (hS : ∀ a x, ((![(k0_pay149 (k0_pay128 iotaV 0#32 1#32 k)), k0_pay175] : Fin 2 → IVec S16 32) a x).toNat < S64x128.size a) (x : S16.Idx) :
    k0_pay156 (loadIdx Pc ![(k0_pay127 k0_pay169 w), k0_pay150 o (k0_pay149 (k0_pay128 iotaV 0#32 1#32 k))] hP) (loadIdx Gc ![k0_pay175, (k0_pay149 (k0_pay128 iotaV 0#32 1#32 k))] hG) x
      = Tslot Gc Pc o w hw ho (idxAt ![(k0_pay149 (k0_pay128 iotaV 0#32 1#32 k)), k0_pay175] hS x) :=
  store_value Gc Pc o w hw ho (k0_pay149 (k0_pay128 iotaV 0#32 1#32 k)) k0_pay175 (k0_pay127 k0_pay169 w) (k0_pay150 o (k0_pay149 (k0_pay128 iotaV 0#32 1#32 k))) (prow_toNat w)
    (fun x => pcol2_toNat o _ x (gcol2_lt k x) ho) hP hG hS x

theorem hit_d2_j5 (k : Fin k0_t5_loop.trips)
    (hS : ∀ a x, ((![(k0_pay149 (k0_pay128 iotaV 0#32 1#32 k)), k0_pay175] : Fin 2 → IVec S16 32) a x).toNat < S64x128.size a) :
    {p | ∃ x, idxAt ![(k0_pay149 (k0_pay128 iotaV 0#32 1#32 k)), k0_pay175] hS x = p} = Hit 2 5 k.val :=
  hit_eq 2 5 k.val (k0_pay149 (k0_pay128 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay176, (k0_pay149 (k0_pay128 iotaV 0#32 1#32 k))] : Fin 2 → IVec S16 32) a x).toNat < S128x128.size a)
    (hS : ∀ a x, ((![(k0_pay149 (k0_pay128 iotaV 0#32 1#32 k)), k0_pay176] : Fin 2 → IVec S16 32) a x).toNat < S64x128.size a) (x : S16.Idx) :
    k0_pay157 (loadIdx Pc ![(k0_pay127 k0_pay169 w), k0_pay150 o (k0_pay149 (k0_pay128 iotaV 0#32 1#32 k))] hP) (loadIdx Gc ![k0_pay176, (k0_pay149 (k0_pay128 iotaV 0#32 1#32 k))] hG) x
      = Tslot Gc Pc o w hw ho (idxAt ![(k0_pay149 (k0_pay128 iotaV 0#32 1#32 k)), k0_pay176] hS x) :=
  store_value Gc Pc o w hw ho (k0_pay149 (k0_pay128 iotaV 0#32 1#32 k)) k0_pay176 (k0_pay127 k0_pay169 w) (k0_pay150 o (k0_pay149 (k0_pay128 iotaV 0#32 1#32 k))) (prow_toNat w)
    (fun x => pcol2_toNat o _ x (gcol2_lt k x) ho) hP hG hS x

theorem hit_d2_j6 (k : Fin k0_t5_loop.trips)
    (hS : ∀ a x, ((![(k0_pay149 (k0_pay128 iotaV 0#32 1#32 k)), k0_pay176] : Fin 2 → IVec S16 32) a x).toNat < S64x128.size a) :
    {p | ∃ x, idxAt ![(k0_pay149 (k0_pay128 iotaV 0#32 1#32 k)), k0_pay176] hS x = p} = Hit 2 6 k.val :=
  hit_eq 2 6 k.val (k0_pay149 (k0_pay128 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay177, (k0_pay149 (k0_pay128 iotaV 0#32 1#32 k))] : Fin 2 → IVec S16 32) a x).toNat < S128x128.size a)
    (hS : ∀ a x, ((![(k0_pay149 (k0_pay128 iotaV 0#32 1#32 k)), k0_pay177] : Fin 2 → IVec S16 32) a x).toNat < S64x128.size a) (x : S16.Idx) :
    k0_pay158 (loadIdx Pc ![(k0_pay127 k0_pay169 w), k0_pay150 o (k0_pay149 (k0_pay128 iotaV 0#32 1#32 k))] hP) (loadIdx Gc ![k0_pay177, (k0_pay149 (k0_pay128 iotaV 0#32 1#32 k))] hG) x
      = Tslot Gc Pc o w hw ho (idxAt ![(k0_pay149 (k0_pay128 iotaV 0#32 1#32 k)), k0_pay177] hS x) :=
  store_value Gc Pc o w hw ho (k0_pay149 (k0_pay128 iotaV 0#32 1#32 k)) k0_pay177 (k0_pay127 k0_pay169 w) (k0_pay150 o (k0_pay149 (k0_pay128 iotaV 0#32 1#32 k))) (prow_toNat w)
    (fun x => pcol2_toNat o _ x (gcol2_lt k x) ho) hP hG hS x

theorem hit_d2_j7 (k : Fin k0_t5_loop.trips)
    (hS : ∀ a x, ((![(k0_pay149 (k0_pay128 iotaV 0#32 1#32 k)), k0_pay177] : Fin 2 → IVec S16 32) a x).toNat < S64x128.size a) :
    {p | ∃ x, idxAt ![(k0_pay149 (k0_pay128 iotaV 0#32 1#32 k)), k0_pay177] hS x = p} = Hit 2 7 k.val :=
  hit_eq 2 7 k.val (k0_pay149 (k0_pay128 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay170, (k0_pay159 (k0_pay128 iotaV 0#32 1#32 k))] : Fin 2 → IVec S16 32) a x).toNat < S128x128.size a)
    (hS : ∀ a x, ((![(k0_pay159 (k0_pay128 iotaV 0#32 1#32 k)), k0_pay170] : Fin 2 → IVec S16 32) a x).toNat < S64x128.size a) (x : S16.Idx) :
    k0_pay161 (loadIdx Pc ![(k0_pay127 k0_pay169 w), k0_pay160 o (k0_pay159 (k0_pay128 iotaV 0#32 1#32 k))] hP) (loadIdx Gc ![k0_pay170, (k0_pay159 (k0_pay128 iotaV 0#32 1#32 k))] hG) x
      = Tslot Gc Pc o w hw ho (idxAt ![(k0_pay159 (k0_pay128 iotaV 0#32 1#32 k)), k0_pay170] hS x) :=
  store_value Gc Pc o w hw ho (k0_pay159 (k0_pay128 iotaV 0#32 1#32 k)) k0_pay170 (k0_pay127 k0_pay169 w) (k0_pay160 o (k0_pay159 (k0_pay128 iotaV 0#32 1#32 k))) (prow_toNat w)
    (fun x => pcol3_toNat o _ x (gcol3_lt k x) ho) hP hG hS x

theorem hit_d3_j0 (k : Fin k0_t5_loop.trips)
    (hS : ∀ a x, ((![(k0_pay159 (k0_pay128 iotaV 0#32 1#32 k)), k0_pay170] : Fin 2 → IVec S16 32) a x).toNat < S64x128.size a) :
    {p | ∃ x, idxAt ![(k0_pay159 (k0_pay128 iotaV 0#32 1#32 k)), k0_pay170] hS x = p} = Hit 3 0 k.val :=
  hit_eq 3 0 k.val (k0_pay159 (k0_pay128 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay171, (k0_pay159 (k0_pay128 iotaV 0#32 1#32 k))] : Fin 2 → IVec S16 32) a x).toNat < S128x128.size a)
    (hS : ∀ a x, ((![(k0_pay159 (k0_pay128 iotaV 0#32 1#32 k)), k0_pay171] : Fin 2 → IVec S16 32) a x).toNat < S64x128.size a) (x : S16.Idx) :
    k0_pay162 (loadIdx Pc ![(k0_pay127 k0_pay169 w), k0_pay160 o (k0_pay159 (k0_pay128 iotaV 0#32 1#32 k))] hP) (loadIdx Gc ![k0_pay171, (k0_pay159 (k0_pay128 iotaV 0#32 1#32 k))] hG) x
      = Tslot Gc Pc o w hw ho (idxAt ![(k0_pay159 (k0_pay128 iotaV 0#32 1#32 k)), k0_pay171] hS x) :=
  store_value Gc Pc o w hw ho (k0_pay159 (k0_pay128 iotaV 0#32 1#32 k)) k0_pay171 (k0_pay127 k0_pay169 w) (k0_pay160 o (k0_pay159 (k0_pay128 iotaV 0#32 1#32 k))) (prow_toNat w)
    (fun x => pcol3_toNat o _ x (gcol3_lt k x) ho) hP hG hS x

theorem hit_d3_j1 (k : Fin k0_t5_loop.trips)
    (hS : ∀ a x, ((![(k0_pay159 (k0_pay128 iotaV 0#32 1#32 k)), k0_pay171] : Fin 2 → IVec S16 32) a x).toNat < S64x128.size a) :
    {p | ∃ x, idxAt ![(k0_pay159 (k0_pay128 iotaV 0#32 1#32 k)), k0_pay171] hS x = p} = Hit 3 1 k.val :=
  hit_eq 3 1 k.val (k0_pay159 (k0_pay128 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay172, (k0_pay159 (k0_pay128 iotaV 0#32 1#32 k))] : Fin 2 → IVec S16 32) a x).toNat < S128x128.size a)
    (hS : ∀ a x, ((![(k0_pay159 (k0_pay128 iotaV 0#32 1#32 k)), k0_pay172] : Fin 2 → IVec S16 32) a x).toNat < S64x128.size a) (x : S16.Idx) :
    k0_pay163 (loadIdx Pc ![(k0_pay127 k0_pay169 w), k0_pay160 o (k0_pay159 (k0_pay128 iotaV 0#32 1#32 k))] hP) (loadIdx Gc ![k0_pay172, (k0_pay159 (k0_pay128 iotaV 0#32 1#32 k))] hG) x
      = Tslot Gc Pc o w hw ho (idxAt ![(k0_pay159 (k0_pay128 iotaV 0#32 1#32 k)), k0_pay172] hS x) :=
  store_value Gc Pc o w hw ho (k0_pay159 (k0_pay128 iotaV 0#32 1#32 k)) k0_pay172 (k0_pay127 k0_pay169 w) (k0_pay160 o (k0_pay159 (k0_pay128 iotaV 0#32 1#32 k))) (prow_toNat w)
    (fun x => pcol3_toNat o _ x (gcol3_lt k x) ho) hP hG hS x

theorem hit_d3_j2 (k : Fin k0_t5_loop.trips)
    (hS : ∀ a x, ((![(k0_pay159 (k0_pay128 iotaV 0#32 1#32 k)), k0_pay172] : Fin 2 → IVec S16 32) a x).toNat < S64x128.size a) :
    {p | ∃ x, idxAt ![(k0_pay159 (k0_pay128 iotaV 0#32 1#32 k)), k0_pay172] hS x = p} = Hit 3 2 k.val :=
  hit_eq 3 2 k.val (k0_pay159 (k0_pay128 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay173, (k0_pay159 (k0_pay128 iotaV 0#32 1#32 k))] : Fin 2 → IVec S16 32) a x).toNat < S128x128.size a)
    (hS : ∀ a x, ((![(k0_pay159 (k0_pay128 iotaV 0#32 1#32 k)), k0_pay173] : Fin 2 → IVec S16 32) a x).toNat < S64x128.size a) (x : S16.Idx) :
    k0_pay164 (loadIdx Pc ![(k0_pay127 k0_pay169 w), k0_pay160 o (k0_pay159 (k0_pay128 iotaV 0#32 1#32 k))] hP) (loadIdx Gc ![k0_pay173, (k0_pay159 (k0_pay128 iotaV 0#32 1#32 k))] hG) x
      = Tslot Gc Pc o w hw ho (idxAt ![(k0_pay159 (k0_pay128 iotaV 0#32 1#32 k)), k0_pay173] hS x) :=
  store_value Gc Pc o w hw ho (k0_pay159 (k0_pay128 iotaV 0#32 1#32 k)) k0_pay173 (k0_pay127 k0_pay169 w) (k0_pay160 o (k0_pay159 (k0_pay128 iotaV 0#32 1#32 k))) (prow_toNat w)
    (fun x => pcol3_toNat o _ x (gcol3_lt k x) ho) hP hG hS x

theorem hit_d3_j3 (k : Fin k0_t5_loop.trips)
    (hS : ∀ a x, ((![(k0_pay159 (k0_pay128 iotaV 0#32 1#32 k)), k0_pay173] : Fin 2 → IVec S16 32) a x).toNat < S64x128.size a) :
    {p | ∃ x, idxAt ![(k0_pay159 (k0_pay128 iotaV 0#32 1#32 k)), k0_pay173] hS x = p} = Hit 3 3 k.val :=
  hit_eq 3 3 k.val (k0_pay159 (k0_pay128 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay174, (k0_pay159 (k0_pay128 iotaV 0#32 1#32 k))] : Fin 2 → IVec S16 32) a x).toNat < S128x128.size a)
    (hS : ∀ a x, ((![(k0_pay159 (k0_pay128 iotaV 0#32 1#32 k)), k0_pay174] : Fin 2 → IVec S16 32) a x).toNat < S64x128.size a) (x : S16.Idx) :
    k0_pay165 (loadIdx Pc ![(k0_pay127 k0_pay169 w), k0_pay160 o (k0_pay159 (k0_pay128 iotaV 0#32 1#32 k))] hP) (loadIdx Gc ![k0_pay174, (k0_pay159 (k0_pay128 iotaV 0#32 1#32 k))] hG) x
      = Tslot Gc Pc o w hw ho (idxAt ![(k0_pay159 (k0_pay128 iotaV 0#32 1#32 k)), k0_pay174] hS x) :=
  store_value Gc Pc o w hw ho (k0_pay159 (k0_pay128 iotaV 0#32 1#32 k)) k0_pay174 (k0_pay127 k0_pay169 w) (k0_pay160 o (k0_pay159 (k0_pay128 iotaV 0#32 1#32 k))) (prow_toNat w)
    (fun x => pcol3_toNat o _ x (gcol3_lt k x) ho) hP hG hS x

theorem hit_d3_j4 (k : Fin k0_t5_loop.trips)
    (hS : ∀ a x, ((![(k0_pay159 (k0_pay128 iotaV 0#32 1#32 k)), k0_pay174] : Fin 2 → IVec S16 32) a x).toNat < S64x128.size a) :
    {p | ∃ x, idxAt ![(k0_pay159 (k0_pay128 iotaV 0#32 1#32 k)), k0_pay174] hS x = p} = Hit 3 4 k.val :=
  hit_eq 3 4 k.val (k0_pay159 (k0_pay128 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay175, (k0_pay159 (k0_pay128 iotaV 0#32 1#32 k))] : Fin 2 → IVec S16 32) a x).toNat < S128x128.size a)
    (hS : ∀ a x, ((![(k0_pay159 (k0_pay128 iotaV 0#32 1#32 k)), k0_pay175] : Fin 2 → IVec S16 32) a x).toNat < S64x128.size a) (x : S16.Idx) :
    k0_pay166 (loadIdx Pc ![(k0_pay127 k0_pay169 w), k0_pay160 o (k0_pay159 (k0_pay128 iotaV 0#32 1#32 k))] hP) (loadIdx Gc ![k0_pay175, (k0_pay159 (k0_pay128 iotaV 0#32 1#32 k))] hG) x
      = Tslot Gc Pc o w hw ho (idxAt ![(k0_pay159 (k0_pay128 iotaV 0#32 1#32 k)), k0_pay175] hS x) :=
  store_value Gc Pc o w hw ho (k0_pay159 (k0_pay128 iotaV 0#32 1#32 k)) k0_pay175 (k0_pay127 k0_pay169 w) (k0_pay160 o (k0_pay159 (k0_pay128 iotaV 0#32 1#32 k))) (prow_toNat w)
    (fun x => pcol3_toNat o _ x (gcol3_lt k x) ho) hP hG hS x

theorem hit_d3_j5 (k : Fin k0_t5_loop.trips)
    (hS : ∀ a x, ((![(k0_pay159 (k0_pay128 iotaV 0#32 1#32 k)), k0_pay175] : Fin 2 → IVec S16 32) a x).toNat < S64x128.size a) :
    {p | ∃ x, idxAt ![(k0_pay159 (k0_pay128 iotaV 0#32 1#32 k)), k0_pay175] hS x = p} = Hit 3 5 k.val :=
  hit_eq 3 5 k.val (k0_pay159 (k0_pay128 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay176, (k0_pay159 (k0_pay128 iotaV 0#32 1#32 k))] : Fin 2 → IVec S16 32) a x).toNat < S128x128.size a)
    (hS : ∀ a x, ((![(k0_pay159 (k0_pay128 iotaV 0#32 1#32 k)), k0_pay176] : Fin 2 → IVec S16 32) a x).toNat < S64x128.size a) (x : S16.Idx) :
    k0_pay167 (loadIdx Pc ![(k0_pay127 k0_pay169 w), k0_pay160 o (k0_pay159 (k0_pay128 iotaV 0#32 1#32 k))] hP) (loadIdx Gc ![k0_pay176, (k0_pay159 (k0_pay128 iotaV 0#32 1#32 k))] hG) x
      = Tslot Gc Pc o w hw ho (idxAt ![(k0_pay159 (k0_pay128 iotaV 0#32 1#32 k)), k0_pay176] hS x) :=
  store_value Gc Pc o w hw ho (k0_pay159 (k0_pay128 iotaV 0#32 1#32 k)) k0_pay176 (k0_pay127 k0_pay169 w) (k0_pay160 o (k0_pay159 (k0_pay128 iotaV 0#32 1#32 k))) (prow_toNat w)
    (fun x => pcol3_toNat o _ x (gcol3_lt k x) ho) hP hG hS x

theorem hit_d3_j6 (k : Fin k0_t5_loop.trips)
    (hS : ∀ a x, ((![(k0_pay159 (k0_pay128 iotaV 0#32 1#32 k)), k0_pay176] : Fin 2 → IVec S16 32) a x).toNat < S64x128.size a) :
    {p | ∃ x, idxAt ![(k0_pay159 (k0_pay128 iotaV 0#32 1#32 k)), k0_pay176] hS x = p} = Hit 3 6 k.val :=
  hit_eq 3 6 k.val (k0_pay159 (k0_pay128 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay177, (k0_pay159 (k0_pay128 iotaV 0#32 1#32 k))] : Fin 2 → IVec S16 32) a x).toNat < S128x128.size a)
    (hS : ∀ a x, ((![(k0_pay159 (k0_pay128 iotaV 0#32 1#32 k)), k0_pay177] : Fin 2 → IVec S16 32) a x).toNat < S64x128.size a) (x : S16.Idx) :
    k0_pay168 (loadIdx Pc ![(k0_pay127 k0_pay169 w), k0_pay160 o (k0_pay159 (k0_pay128 iotaV 0#32 1#32 k))] hP) (loadIdx Gc ![k0_pay177, (k0_pay159 (k0_pay128 iotaV 0#32 1#32 k))] hG) x
      = Tslot Gc Pc o w hw ho (idxAt ![(k0_pay159 (k0_pay128 iotaV 0#32 1#32 k)), k0_pay177] hS x) :=
  store_value Gc Pc o w hw ho (k0_pay159 (k0_pay128 iotaV 0#32 1#32 k)) k0_pay177 (k0_pay127 k0_pay169 w) (k0_pay160 o (k0_pay159 (k0_pay128 iotaV 0#32 1#32 k))) (prow_toNat w)
    (fun x => pcol3_toNat o _ x (gcol3_lt k x) ho) hP hG hS x

theorem hit_d3_j7 (k : Fin k0_t5_loop.trips)
    (hS : ∀ a x, ((![(k0_pay159 (k0_pay128 iotaV 0#32 1#32 k)), k0_pay177] : Fin 2 → IVec S16 32) a x).toNat < S64x128.size a) :
    {p | ∃ x, idxAt ![(k0_pay159 (k0_pay128 iotaV 0#32 1#32 k)), k0_pay177] hS x = p} = Hit 3 7 k.val :=
  hit_eq 3 7 k.val (k0_pay159 (k0_pay128 iotaV 0#32 1#32 k)) k0_pay177
    (fun x => by rw [gcol3_toNat]; show _ = (ln x + k.val) % 16 + 16 * 3; omega)
    (fun x => by rw [pay177_toNat]; show _ = 16 * 7 + ln x; omega) hS

end Cert.Lanes.C4
-- ==== Proof.BodyInner.lean ====
/-
  One tile's task: the lookup kernel run on a vector subcore.

  The tile copies its 128 batch columns of the transposed index array and the whole packed positional table into
  its scratch, keeps four row gathers in flight (one ring slot and one semaphore each), and for each position l
  waits for the gathered rows, adds the positional row while transposing 16 × 16 lane tiles into a staging slot,
  and copies the slot out to slab l of its block of the result (two staging slots, one semaphore each).
-/
import proofs.«206908_g46772193853751_cont_8to1c4_160_30_alg».proof.Proof.BodyInv
import proofs.«206908_g46772193853751_cont_8to1c4_160_30_alg».proof.Proof.LaneListC1
import proofs.«206908_g46772193853751_cont_8to1c4_160_30_alg».proof.Proof.LaneCons
import proofs.«206908_g46772193853751_cont_8to1c4_160_30_alg».proof.Proof.LaneTrip2
import proofs.«206908_g46772193853751_cont_8to1c4_160_30_alg».proof.Proof.LaneTrip3
import proofs.«206908_g46772193853751_cont_8to1c4_160_30_alg».proof.Proof.LaneTrip4
import proofs.«206908_g46772193853751_cont_8to1c4_160_30_alg».proof.Proof.Lane1
import proofs.«206908_g46772193853751_cont_8to1c4_160_30_alg».proof.Proof.Lane2
import proofs.«206908_g46772193853751_cont_8to1c4_160_30_alg».proof.Proof.Lane3
import proofs.«206908_g46772193853751_cont_8to1c4_160_30_alg».proof.Proof.Lane4
import proofs.«206908_g46772193853751_cont_8to1c4_160_30_alg».proof.Proof.Gen.KernelIdeal.Skeleton

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

/-- The position word of quarter r of outer trip g, as the program computes it. -/
def lword (g : Fin k0_t1_loop.trips) (r : BitVec 32) : BitVec 32 :=
  Scalar.addi (Scalar.muli (Scalar.addi 0#32 (Scalar.muli (Scf.iv 0#32 1#32 g) 1#32)) 4#32) r
/-- The program's test "position ≥ 2" (a copy-out is pending on the staging slot). -/
def geq2 (w : BitVec 32) : BitVec 1 := Scalar.cmpi .ne (Scalar.extui (Scalar.cmpi .sge w 2#32)) 0#32
theorem geq2_0 : ∀ g : Fin k0_t1_loop.trips, 1 ≤ g.val → geq2 (lword g 0#32) = 1#1 := by decide +kernel
theorem geq2_1 : ∀ g : Fin k0_t1_loop.trips, 1 ≤ g.val → geq2 (lword g 1#32) = 1#1 := by decide +kernel
theorem geq2_2 : ∀ g : Fin k0_t1_loop.trips, geq2 (lword g 2#32) = 1#1 := by decide +kernel
theorem geq2_3 : ∀ g : Fin k0_t1_loop.trips, geq2 (lword g 3#32) = 1#1 := by decide +kernel
theorem cond2_mid : ∀ g : Fin k0_t1_loop.trips, g.val < 49 → k0_cond2 g = 1#1 := by decide +kernel
theorem cond4_mid : ∀ g : Fin k0_t1_loop.trips, g.val < 49 → k0_cond4 g = 1#1 := by decide +kernel
theorem cond6_mid : ∀ g : Fin k0_t1_loop.trips, g.val < 49 → k0_cond6 g = 1#1 := by decide +kernel
theorem cond8_mid : ∀ g : Fin k0_t1_loop.trips, g.val < 49 → k0_cond8 g = 1#1 := by decide +kernel

theorem w_lt_0 : ∀ g : Fin k0_t1_loop.trips, (Scalar.divsi (lword g 0#32) 2#32).toNat < 100 := by decide +kernel
theorem w_lt_1 : ∀ g : Fin k0_t1_loop.trips, (Scalar.divsi (lword g 1#32) 2#32).toNat < 100 := by decide +kernel
theorem w_lt_2 : ∀ g : Fin k0_t1_loop.trips, (Scalar.divsi (lword g 2#32) 2#32).toNat < 100 := by decide +kernel
theorem w_lt_3 : ∀ g : Fin k0_t1_loop.trips, (Scalar.divsi (lword g 3#32) 2#32).toNat < 100 := by decide +kernel
theorem o_le_0 : (0#32 : BitVec 32).toNat ≤ 64 := by decide
theorem o_le_64 : (64#32 : BitVec 32).toNat ≤ 64 := by decide

variable [FloatOps F]
variable (m : (ℓ : Loc nD τ sig) → Buf (Elt F) ℓ)

variable (d : Dev nD) (L : grid0.Coords)
local notation "thr" => V d (cV L) (jV L)

theorem waits_ok_insert {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

/-- The positional scratch as the indexed loads read it. -/
abbrev PposV : Vec F S100x128 .f32 := View.readAt (Elt F) (a7).view (LoadRect.whole S100x128) (Ppos m d L)

/-- The inner loop of a quarter, at the head of trip n: the positional scratch, the landed ring slot, and the staging
    slot, which already holds the sum at every element the first n trips wrote. -/
def Iin (slotG : Memref sig .scVector .vmem S128x128 .f32) (slotT : Memref sig .scVector .vmem S64x128 .f32)
    (O : CellTallies nD τ sig (HIx 1)) (W : Waits sig (HIx 1)) (Gd : Buf (Elt F) (slotG.view.loc thr))
    (o w : BitVec 32) (hw : w.toNat < 100) (ho : o.toNat ≤ 64) (n : Nat) (_ : PUnit) : sProp 𝕄 :=
  iprop(Transfers.MayWaits thr (none : HIx 1) O
    ∗ ((a7).view.loc thr ↦{fullShare} Ppos m d L)
    ∗ (slotG.view.loc thr ↦[slotG.view.set]{fullShare} Gd)
    ∗ (∃ R, ⌜Cert.Lanes.GoodOnM slotT (Cert.Lanes.Tslot (View.readAt (Elt F) slotG.view (LoadRect.whole S128x128) Gd) (PposV m d L) o w hw ho) (Cert.Lanes.AccTo n) R⌝
        ∗ (slotT.view.loc thr ↦[slotT.view.set]{fullShare} R))
    ∗ ∃ W', ⌜∀ p ∈ W', p ∈ W ∨ p.2 = none⌝ ∗ owes thr O W')

set_option maxHeartbeats 4000000 in
set_option maxRecDepth 65536 in
theorem inner0 (O : CellTallies nD τ sig (HIx 1)) (W : Waits sig (HIx 1)) (g : Fin k0_t1_loop.trips)
    (fd : Buf (Elt F) (slotG0.view.loc thr)) (k : Fin k0_t2_loop.trips) (hk : PUnit) :
    (Iin m d L slotG0 slotT0 O W fd 0#32 (Scalar.divsi (lword g 0#32) 2#32) (w_lt_0 g) o_le_0 k.val hk : sProp 𝕄)
      ⊢ wp frame (wpE (defs₀ (F := F)) 𝒱₀ thr none) Set.univ
          (k0_t2_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            0#32 1#32 g 0#32 (Scalar.divsi (lword g 0#32) 2#32) k hk)
          fun r => Iin m d L slotG0 slotT0 O W fd 0#32 (Scalar.divsi (lword g 0#32) 2#32) (w_lt_0 g) o_le_0 (k.val + 1) r := by
  have hw0 : (Scalar.divsi (lword g 0#32) 2#32).toNat < 100 := w_lt_0 g
  have ho0 : (0#32 : BitVec 32).toNat ≤ 64 := o_le_0
  have h1 := Cert.Lanes.C1.chkP0_trip k 0#32 (Scalar.divsi (lword g 0#32) 2#32) hw0 ho0
  have h2 := Cert.Lanes.C1.chkG0_trip k
  have h3 := Cert.Lanes.C1.chkP1_trip k 0#32 (Scalar.divsi (lword g 0#32) 2#32) hw0 ho0
  have h4 := Cert.Lanes.C1.chkG1_trip k
  have h5 := Cert.Lanes.C1.chkP2_trip k 0#32 (Scalar.divsi (lword g 0#32) 2#32) hw0 ho0
  have h6 := Cert.Lanes.C1.chkG2_trip k
  have h7 := Cert.Lanes.C1.chkP3_trip k 0#32 (Scalar.divsi (lword g 0#32) 2#32) hw0 ho0
  have h8 := Cert.Lanes.C1.chkG3_trip k
  unfold Iin
  conv => rhs; simp only [k0_t2_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.Lanes.GoodV (Cert.Lanes.Tslot (View.readAt (Elt F) slotG0.view (LoadRect.whole S128x128) fd) (PposV m d L) 0#32 (Scalar.divsi (lword g 0#32) 2#32) (w_lt_0 g) o_le_0) (Cert.Lanes.AccTo k.val ∪ Cert.Lanes.Hit 0 0 k.val ∪ Cert.Lanes.Hit 0 1 k.val ∪ Cert.Lanes.Hit 0 2 k.val ∪ Cert.Lanes.Hit 0 3 k.val ∪ Cert.Lanes.Hit 0 4 k.val ∪ Cert.Lanes.Hit 0 5 k.val ∪ Cert.Lanes.Hit 0 6 k.val ∪ Cert.Lanes.Hit 0 7 k.val ∪ Cert.Lanes.Hit 1 0 k.val ∪ Cert.Lanes.Hit 1 1 k.val ∪ Cert.Lanes.Hit 1 2 k.val ∪ Cert.Lanes.Hit 1 3 k.val ∪ Cert.Lanes.Hit 1 4 k.val ∪ Cert.Lanes.Hit 1 5 k.val ∪ Cert.Lanes.Hit 1 6 k.val ∪ Cert.Lanes.Hit 1 7 k.val ∪ Cert.Lanes.Hit 2 0 k.val ∪ Cert.Lanes.Hit 2 1 k.val ∪ Cert.Lanes.Hit 2 2 k.val ∪ Cert.Lanes.Hit 2 3 k.val ∪ Cert.Lanes.Hit 2 4 k.val ∪ Cert.Lanes.Hit 2 5 k.val ∪ Cert.Lanes.Hit 2 6 k.val ∪ Cert.Lanes.Hit 2 7 k.val ∪ Cert.Lanes.Hit 3 0 k.val ∪ Cert.Lanes.Hit 3 1 k.val ∪ Cert.Lanes.Hit 3 2 k.val ∪ Cert.Lanes.Hit 3 3 k.val ∪ Cert.Lanes.Hit 3 4 k.val ∪ Cert.Lanes.Hit 3 5 k.val ∪ Cert.Lanes.Hit 3 6 k.val)
      (inner0.sl.f_31 m d L g fd k h1 h2 h3 h4 h5 h6 h7 h8 R) := by
    unfold inner0.sl.f_31 inner0.sl.HT0_31
    erw [View.readCov_cons_toLoadRect]
    refine Cert.Lanes.goodV_first _ _ _ (Cert.Lanes.C1.val_d3_j6 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.2.2.2.2.2.1 (Cert.Lanes.C1.chkG3_trip k).2.2.2.2.2.2.2.2.2.2.2.2.2.2.1) (Cert.Lanes.C1.hit_d3_j6 k (Cert.Lanes.C1.chkG3_trip k).2.2.2.2.2.2.2.2.2.2.2.2.2.2.1) ?_
    unfold inner0.sl.f_30 inner0.sl.HT0_30
    erw [View.readCov_cons_toLoadRect]
    refine Cert.Lanes.goodV_first _ _ _ (Cert.Lanes.C1.val_d3_j5 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.2.2.2.2.1 (Cert.Lanes.C1.chkG3_trip k).2.2.2.2.2.2.2.2.2.2.2.2.2.1) (Cert.Lanes.C1.hit_d3_j5 k (Cert.Lanes.C1.chkG3_trip k).2.2.2.2.2.2.2.2.2.2.2.2.2.1) ?_
    unfold inner0.sl.f_29 inner0.sl.HT0_29
    erw [View.readCov_cons_toLoadRect]
    refine Cert.Lanes.goodV_first _ _ _ (Cert.Lanes.C1.val_d3_j4 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.2.2.2.1 (Cert.Lanes.C1.chkG3_trip k).2.2.2.2.2.2.2.2.2.2.2.2.1) (Cert.Lanes.C1.hit_d3_j4 k (Cert.Lanes.C1.chkG3_trip k).2.2.2.2.2.2.2.2.2.2.2.2.1) ?_
    unfold inner0.sl.f_28 inner0.sl.HT0_28
    erw [View.readCov_cons_toLoadRect]
    refine Cert.Lanes.goodV_first _ _ _ (Cert.Lanes.C1.val_d3_j3 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.2.2.1 (Cert.Lanes.C1.chkG3_trip k).2.2.2.2.2.2.2.2.2.2.2.1) (Cert.Lanes.C1.hit_d3_j3 k (Cert.Lanes.C1.chkG3_trip k).2.2.2.2.2.2.2.2.2.2.2.1) ?_
    unfold inner0.sl.f_27 inner0.sl.HT0_27
    erw [View.readCov_cons_toLoadRect]
    refine Cert.Lanes.goodV_first _ _ _ (Cert.Lanes.C1.val_d3_j2 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.2.1 (Cert.Lanes.C1.chkG3_trip k).2.2.2.2.2.2.2.2.2.2.1) (Cert.Lanes.C1.hit_d3_j2 k (Cert.Lanes.C1.chkG3_trip k).2.2.2.2.2.2.2.2.2.2.1) ?_
    unfold inner0.sl.f_26 inner0.sl.HT0_26
    erw [View.readCov_cons_toLoadRect]
    refine Cert.Lanes.goodV_first _ _ _ (Cert.Lanes.C1.val_d3_j1 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.1 (Cert.Lanes.C1.chkG3_trip k).2.2.2.2.2.2.2.2.2.1) (Cert.Lanes.C1.hit_d3_j1 k (Cert.Lanes.C1.chkG3_trip k).2.2.2.2.2.2.2.2.2.1) ?_
    unfold inner0.sl.f_25 inner0.sl.HT0_25
    erw [View.readCov_cons_toLoadRect]
    refine Cert.Lanes.goodV_first _ _ _ (Cert.Lanes.C1.val_d3_j0 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).1 (Cert.Lanes.C1.chkG3_trip k).2.2.2.2.2.2.2.2.1) (Cert.Lanes.C1.hit_d3_j0 k (Cert.Lanes.C1.chkG3_trip k).2.2.2.2.2.2.2.2.1) ?_
    unfold inner0.sl.f_24 inner0.sl.HT0_24
    erw [View.readCov_cons_toLoadRect]
    refine Cert.Lanes.goodV_first _ _ _ (Cert.Lanes.C1.val_d2_j7 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.2.2.2.2.2.2.1 (Cert.Lanes.C1.chkG2_trip k).2.2.2.2.2.2.2.2.2.2.2.2.2.2.2) (Cert.Lanes.C1.hit_d2_j7 k (Cert.Lanes.C1.chkG2_trip k).2.2.2.2.2.2.2.2.2.2.2.2.2.2.2) ?_
    unfold inner0.sl.f_23 inner0.sl.HT0_23
    erw [View.readCov_cons_toLoadRect]
    refine Cert.Lanes.goodV_first _ _ _ (Cert.Lanes.C1.val_d2_j6 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.2.2.2.2.2.1 (Cert.Lanes.C1.chkG2_trip k).2.2.2.2.2.2.2.2.2.2.2.2.2.2.1) (Cert.Lanes.C1.hit_d2_j6 k (Cert.Lanes.C1.chkG2_trip k).2.2.2.2.2.2.2.2.2.2.2.2.2.2.1) ?_
    unfold inner0.sl.f_22 inner0.sl.HT0_22
    erw [View.readCov_cons_toLoadRect]
    refine Cert.Lanes.goodV_first _ _ _ (Cert.Lanes.C1.val_d2_j5 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.2.2.2.2.1 (Cert.Lanes.C1.chkG2_trip k).2.2.2.2.2.2.2.2.2.2.2.2.2.1) (Cert.Lanes.C1.hit_d2_j5 k (Cert.Lanes.C1.chkG2_trip k).2.2.2.2.2.2.2.2.2.2.2.2.2.1) ?_
    unfold inner0.sl.f_21 inner0.sl.HT0_21
    erw [View.readCov_cons_toLoadRect]
    refine Cert.Lanes.goodV_first _ _ _ (Cert.Lanes.C1.val_d2_j4 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.2.2.2.1 (Cert.Lanes.C1.chkG2_trip k).2.2.2.2.2.2.2.2.2.2.2.2.1) (Cert.Lanes.C1.hit_d2_j4 k (Cert.Lanes.C1.chkG2_trip k).2.2.2.2.2.2.2.2.2.2.2.2.1) ?_
    unfold inner0.sl.f_20 inner0.sl.HT0_20
    erw [View.readCov_cons_toLoadRect]
    refine Cert.Lanes.goodV_first _ _ _ (Cert.Lanes.C1.val_d2_j3 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.2.2.1 (Cert.Lanes.C1.chkG2_trip k).2.2.2.2.2.2.2.2.2.2.2.1) (Cert.Lanes.C1.hit_d2_j3 k (Cert.Lanes.C1.chkG2_trip k).2.2.2.2.2.2.2.2.2.2.2.1) ?_
    unfold inner0.sl.f_19 inner0.sl.HT0_19
    erw [View.readCov_cons_toLoadRect]
    refine Cert.Lanes.goodV_first _ _ _ (Cert.Lanes.C1.val_d2_j2 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.2.1 (Cert.Lanes.C1.chkG2_trip k).2.2.2.2.2.2.2.2.2.2.1) (Cert.Lanes.C1.hit_d2_j2 k (Cert.Lanes.C1.chkG2_trip k).2.2.2.2.2.2.2.2.2.2.1) ?_
    unfold inner0.sl.f_18 inner0.sl.HT0_18
    erw [View.readCov_cons_toLoadRect]
    refine Cert.Lanes.goodV_first _ _ _ (Cert.Lanes.C1.val_d2_j1 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).2.1 (Cert.Lanes.C1.chkG2_trip k).2.2.2.2.2.2.2.2.2.1) (Cert.Lanes.C1.hit_d2_j1 k (Cert.Lanes.C1.chkG2_trip k).2.2.2.2.2.2.2.2.2.1) ?_
    unfold inner0.sl.f_17 inner0.sl.HT0_17
    erw [View.readCov_cons_toLoadRect]
    refine Cert.Lanes.goodV_first _ _ _ (Cert.Lanes.C1.val_d2_j0 k (View.readAt (Elt F) slotG0.view (LoadRect.whole S128x128) fd) (PposV m d L) 0#32 (Scalar.divsi (lword g 0#32) 2#32) (w_lt_0 g) o_le_0 (Cert.Lanes.C1.chkP2_trip k 0#32 (Scalar.divsi (lword g 0#32) 2#32) (w_lt_0 g) o_le_0) (Cert.Lanes.C1.chkG2_trip k).1 (Cert.Lanes.C1.chkG2_trip k).2.2.2.2.2.2.2.2.1) (Cert.Lanes.C1.hit_d2_j0 k (Cert.Lanes.C1.chkG2_trip k).2.2.2.2.2.2.2.2.1) ?_
    unfold inner0.sl.f_16 inner0.sl.HT0_16
    erw [View.readCov_cons_toLoadRect]
    refine Cert.Lanes.goodV_first _ _ _ (Cert.Lanes.C1.val_d1_j7 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.2.2.2.2.2.2.1 (Cert.Lanes.C1.chkG1_trip k).2.2.2.2.2.2.2.2.2.2.2.2.2.2.2) (Cert.Lanes.C1.hit_d1_j7 k (Cert.Lanes.C1.chkG1_trip k).2.2.2.2.2.2.2.2.2.2.2.2.2.2.2) ?_
    unfold inner0.sl.f_15 inner0.sl.HT0_15
    erw [View.readCov_cons_toLoadRect]
    refine Cert.Lanes.goodV_first _ _ _ (Cert.Lanes.C1.val_d1_j6 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.2.2.2.2.2.1 (Cert.Lanes.C1.chkG1_trip k).2.2.2.2.2.2.2.2.2.2.2.2.2.2.1) (Cert.Lanes.C1.hit_d1_j6 k (Cert.Lanes.C1.chkG1_trip k).2.2.2.2.2.2.2.2.2.2.2.2.2.2.1) ?_
    unfold inner0.sl.f_14 inner0.sl.HT0_14
    erw [View.readCov_cons_toLoadRect]
    refine Cert.Lanes.goodV_first _ _ _ (Cert.Lanes.C1.val_d1_j5 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.2.2.2.2.1 (Cert.Lanes.C1.chkG1_trip k).2.2.2.2.2.2.2.2.2.2.2.2.2.1) (Cert.Lanes.C1.hit_d1_j5 k (Cert.Lanes.C1.chkG1_trip k).2.2.2.2.2.2.2.2.2.2.2.2.2.1) ?_
    unfold inner0.sl.f_13 inner0.sl.HT0_13
    erw [View.readCov_cons_toLoadRect]
    refine Cert.Lanes.goodV_first _ _ _ (Cert.Lanes.C1.val_d1_j4 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.2.2.2.1 (Cert.Lanes.C1.chkG1_trip k).2.2.2.2.2.2.2.2.2.2.2.2.1) (Cert.Lanes.C1.hit_d1_j4 k (Cert.Lanes.C1.chkG1_trip k).2.2.2.2.2.2.2.2.2.2.2.2.1) ?_
    unfold inner0.sl.f_12 inner0.sl.HT0_12
    erw [View.readCov_cons_toLoadRect]
    refine Cert.Lanes.goodV_first _ _ _ (Cert.Lanes.C1.val_d1_j3 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.2.2.1 (Cert.Lanes.C1.chkG1_trip k).2.2.2.2.2.2.2.2.2.2.2.1) (Cert.Lanes.C1.hit_d1_j3 k (Cert.Lanes.C1.chkG1_trip k).2.2.2.2.2.2.2.2.2.2.2.1) ?_
    unfold inner0.sl.f_11 inner0.sl.HT0_11
    erw [View.readCov_cons_toLoadRect]
    refine Cert.Lanes.goodV_first _ _ _ (Cert.Lanes.C1.val_d1_j2 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.2.1 (Cert.Lanes.C1.chkG1_trip k).2.2.2.2.2.2.2.2.2.2.1) (Cert.Lanes.C1.hit_d1_j2 k (Cert.Lanes.C1.chkG1_trip k).2.2.2.2.2.2.2.2.2.2.1) ?_
    unfold inner0.sl.f_10 inner0.sl.HT0_10
    erw [View.readCov_cons_toLoadRect]
    refine Cert.Lanes.goodV_first _ _ _ (Cert.Lanes.C1.val_d1_j1 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).2.1 (Cert.Lanes.C1.chkG1_trip k).2.2.2.2.2.2.2.2.2.1) (Cert.Lanes.C1.hit_d1_j1 k (Cert.Lanes.C1.chkG1_trip k).2.2.2.2.2.2.2.2.2.1) ?_
    unfold inner0.sl.f_9 inner0.sl.HT0_9
    erw [View.readCov_cons_toLoadRect]
    refine Cert.Lanes.goodV_first _ _ _ (Cert.Lanes.C1.val_d1_j0 k (View.readAt (Elt F) slotG0.view (LoadRect.whole S128x128) fd) (PposV m d L) 0#32 (Scalar.divsi (lword g 0#32) 2#32) (w_lt_0 g) o_le_0 (Cert.Lanes.C1.chkP1_trip k 0#32 (Scalar.divsi (lword g 0#32) 2#32) (w_lt_0 g) o_le_0) (Cert.Lanes.C1.chkG1_trip k).1 (Cert.Lanes.C1.chkG1_trip k).2.2.2.2.2.2.2.2.1) (Cert.Lanes.C1.hit_d1_j0 k (Cert.Lanes.C1.chkG1_trip k).2.2.2.2.2.2.2.2.1) ?_
    unfold inner0.sl.f_8 inner0.sl.HT0_8
    erw [View.readCov_cons_toLoadRect]
    refine Cert.Lanes.goodV_first _ _ _ (Cert.Lanes.C1.val_d0_j7 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.2.2.2.2.2.2.1 (Cert.Lanes.C1.chkG0_trip k).2.2.2.2.2.2.2.2.2.2.2.2.2.2.2) (Cert.Lanes.C1.hit_d0_j7 k (Cert.Lanes.C1.chkG0_trip k).2.2.2.2.2.2.2.2.2.2.2.2.2.2.2) ?_
    unfold inner0.sl.f_7 inner0.sl.HT0_7
    erw [View.readCov_cons_toLoadRect]
    refine Cert.Lanes.goodV_first _ _ _ (Cert.Lanes.C1.val_d0_j6 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.2.2.2.2.2.1 (Cert.Lanes.C1.chkG0_trip k).2.2.2.2.2.2.2.2.2.2.2.2.2.2.1) (Cert.Lanes.C1.hit_d0_j6 k (Cert.Lanes.C1.chkG0_trip k).2.2.2.2.2.2.2.2.2.2.2.2.2.2.1) ?_
    unfold inner0.sl.f_6 inner0.sl.HT0_6
    erw [View.readCov_cons_toLoadRect]
    refine Cert.Lanes.goodV_first _ _ _ (Cert.Lanes.C1.val_d0_j5 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.2.2.2.2.1 (Cert.Lanes.C1.chkG0_trip k).2.2.2.2.2.2.2.2.2.2.2.2.2.1) (Cert.Lanes.C1.hit_d0_j5 k (Cert.Lanes.C1.chkG0_trip k).2.2.2.2.2.2.2.2.2.2.2.2.2.1) ?_
    unfold inner0.sl.f_5 inner0.sl.HT0_5
    erw [View.readCov_cons_toLoadRect]
    refine Cert.Lanes.goodV_first _ _ _ (Cert.Lanes.C1.val_d0_j4 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.2.2.2.1 (Cert.Lanes.C1.chkG0_trip k).2.2.2.2.2.2.2.2.2.2.2.2.1) (Cert.Lanes.C1.hit_d0_j4 k (Cert.Lanes.C1.chkG0_trip k).2.2.2.2.2.2.2.2.2.2.2.2.1) ?_
    unfold inner0.sl.f_4 inner0.sl.HT0_4
    erw [View.readCov_cons_toLoadRect]
    refine Cert.Lanes.goodV_first _ _ _ (Cert.Lanes.C1.val_d0_j3 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.2.2.1 (Cert.Lanes.C1.chkG0_trip k).2.2.2.2.2.2.2.2.2.2.2.1) (Cert.Lanes.C1.hit_d0_j3 k (Cert.Lanes.C1.chkG0_trip k).2.2.2.2.2.2.2.2.2.2.2.1) ?_
    unfold inner0.sl.f_3 inner0.sl.HT0_3
    erw [View.readCov_cons_toLoadRect]
    refine Cert.Lanes.goodV_first _ _ _ (Cert.Lanes.C1.val_d0_j2 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.2.1 (Cert.Lanes.C1.chkG0_trip k).2.2.2.2.2.2.2.2.2.2.1) (Cert.Lanes.C1.hit_d0_j2 k (Cert.Lanes.C1.chkG0_trip k).2.2.2.2.2.2.2.2.2.2.1) ?_
    unfold inner0.sl.f_2 inner0.sl.HT0_2
    erw [View.readCov_cons_toLoadRect]
    refine Cert.Lanes.goodV_first _ _ _ (Cert.Lanes.C1.val_d0_j1 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).2.1 (Cert.Lanes.C1.chkG0_trip k).2.2.2.2.2.2.2.2.2.1) (Cert.Lanes.C1.hit_d0_j1 k (Cert.Lanes.C1.chkG0_trip k).2.2.2.2.2.2.2.2.2.1) ?_
    unfold inner0.sl.f_1 inner0.sl.HT0_1
    erw [View.readCov_cons_toLoadRect]
    refine Cert.Lanes.goodV_first _ _ _ (Cert.Lanes.C1.val_d0_j0 k (View.readAt (Elt F) slotG0.view (LoadRect.whole S128x128) fd) (PposV m d L) 0#32 (Scalar.divsi (lword g 0#32) 2#32) (w_lt_0 g) o_le_0 (Cert.Lanes.C1.chkP0_trip k 0#32 (Scalar.divsi (lword g 0#32) 2#32) (w_lt_0 g) o_le_0) (Cert.Lanes.C1.chkG0_trip k).1 (Cert.Lanes.C1.chkG0_trip k).2.2.2.2.2.2.2.2.1) (Cert.Lanes.C1.hit_d0_j0 k (Cert.Lanes.C1.chkG0_trip k).2.2.2.2.2.2.2.2.1) ?_
    exact Cert.Lanes.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.Lanes.goodM_of_goodV_cons slotT0 R _ (Cert.Lanes.goodV_mono (Cert.Lanes.C1.accTo_succ_sub k.val) ?_)
      refine Cert.Lanes.goodV_first _ _ _ (Cert.Lanes.C1.val_d3_j7 k (View.readAt (Elt F) slotG0.view (LoadRect.whole S128x128) fd) (PposV m d L) 0#32 (Scalar.divsi (lword g 0#32) 2#32) (w_lt_0 g) o_le_0 (Cert.Lanes.C1.chkP3_trip k 0#32 (Scalar.divsi (lword g 0#32) 2#32) (w_lt_0 g) o_le_0) (Cert.Lanes.C1.chkG3_trip k).2.2.2.2.2.2.2.1 (Cert.Lanes.C1.chkG3_trip k).2.2.2.2.2.2.2.2.2.2.2.2.2.2.2) (Cert.Lanes.C1.hit_d3_j7 k (Cert.Lanes.C1.chkG3_trip k).2.2.2.2.2.2.2.2.2.2.2.2.2.2.2) ?_
      exact key31
  iexists _
  isplitr
  rotate_left
  · iexact HO
  · ipureintro; exact hW''

set_option maxHeartbeats 4000000 in
set_option maxRecDepth 65536 in
theorem inner1 (O : CellTallies nD τ sig (HIx 1)) (W : Waits sig (HIx 1)) (g : Fin k0_t1_loop.trips)
    (v61 v62 : BitVec 32) (v84 : BitVec 1) (fd : Buf (Elt F) (slotG1.view.loc thr)) (k : Fin k0_t3_loop.trips) (hk : PUnit) :
    (Iin m d L slotG1 slotT1 O W fd 64#32 (Scalar.divsi (lword g 1#32) 2#32) (w_lt_1 g) o_le_64 k.val hk : sProp 𝕄)
      ⊢ wp frame (wpE (defs₀ (F := F)) 𝒱₀ thr none) Set.univ
          (k0_t3_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            g v61 v62 v84 64#32 (Scalar.divsi (lword g 1#32) 2#32) k hk)
          fun r => Iin m d L slotG1 slotT1 O W fd 64#32 (Scalar.divsi (lword g 1#32) 2#32) (w_lt_1 g) o_le_64 (k.val + 1) r := by
  have hw0 : (Scalar.divsi (lword g 1#32) 2#32).toNat < 100 := w_lt_1 g
  have ho0 : (64#32 : BitVec 32).toNat ≤ 64 := o_le_64
  have h1 := Cert.Lanes.C2.chkP0_trip k 64#32 (Scalar.divsi (lword g 1#32) 2#32) hw0 ho0
  have h2 := Cert.Lanes.C2.chkG0_trip k
  have h3 := Cert.Lanes.C2.chkP1_trip k 64#32 (Scalar.divsi (lword g 1#32) 2#32) hw0 ho0
  have h4 := Cert.Lanes.C2.chkG1_trip k
  have h5 := Cert.Lanes.C2.chkP2_trip k 64#32 (Scalar.divsi (lword g 1#32) 2#32) hw0 ho0
  have h6 := Cert.Lanes.C2.chkG2_trip k
  have h7 := Cert.Lanes.C2.chkP3_trip k 64#32 (Scalar.divsi (lword g 1#32) 2#32) hw0 ho0
  have h8 := Cert.Lanes.C2.chkG3_trip k
  unfold Iin
  conv => rhs; simp only [k0_t3_body, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.Lanes.GoodV (Cert.Lanes.Tslot (View.readAt (Elt F) slotG1.view (LoadRect.whole S128x128) fd) (PposV m d L) 64#32 (Scalar.divsi (lword g 1#32) 2#32) (w_lt_1 g) o_le_64) (Cert.Lanes.AccTo k.val ∪ Cert.Lanes.Hit 0 0 k.val ∪ Cert.Lanes.Hit 0 1 k.val ∪ Cert.Lanes.Hit 0 2 k.val ∪ Cert.Lanes.Hit 0 3 k.val ∪ Cert.Lanes.Hit 0 4 k.val ∪ Cert.Lanes.Hit 0 5 k.val ∪ Cert.Lanes.Hit 0 6 k.val ∪ Cert.Lanes.Hit 0 7 k.val ∪ Cert.Lanes.Hit 1 0 k.val ∪ Cert.Lanes.Hit 1 1 k.val ∪ Cert.Lanes.Hit 1 2 k.val ∪ Cert.Lanes.Hit 1 3 k.val ∪ Cert.Lanes.Hit 1 4 k.val ∪ Cert.Lanes.Hit 1 5 k.val ∪ Cert.Lanes.Hit 1 6 k.val ∪ Cert.Lanes.Hit 1 7 k.val ∪ Cert.Lanes.Hit 2 0 k.val ∪ Cert.Lanes.Hit 2 1 k.val ∪ Cert.Lanes.Hit 2 2 k.val ∪ Cert.Lanes.Hit 2 3 k.val ∪ Cert.Lanes.Hit 2 4 k.val ∪ Cert.Lanes.Hit 2 5 k.val ∪ Cert.Lanes.Hit 2 6 k.val ∪ Cert.Lanes.Hit 2 7 k.val ∪ Cert.Lanes.Hit 3 0 k.val ∪ Cert.Lanes.Hit 3 1 k.val ∪ Cert.Lanes.Hit 3 2 k.val ∪ Cert.Lanes.Hit 3 3 k.val ∪ Cert.Lanes.Hit 3 4 k.val ∪ Cert.Lanes.Hit 3 5 k.val ∪ Cert.Lanes.Hit 3 6 k.val)
      (inner1.sl.f_31 m d L g fd k h1 h2 h3 h4 h5 h6 h7 h8 R) := by
    unfold inner1.sl.f_31 inner1.sl.HT0_31
    erw [View.readCov_cons_toLoadRect]
    refine Cert.Lanes.goodV_first _ _ _ (Cert.Lanes.C2.val_d3_j6 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.2.2.2.2.2.1 (Cert.Lanes.C2.chkG3_trip k).2.2.2.2.2.2.2.2.2.2.2.2.2.2.1) (Cert.Lanes.C2.hit_d3_j6 k (Cert.Lanes.C2.chkG3_trip k).2.2.2.2.2.2.2.2.2.2.2.2.2.2.1) ?_
    unfold inner1.sl.f_30 inner1.sl.HT0_30
    erw [View.readCov_cons_toLoadRect]
    refine Cert.Lanes.goodV_first _ _ _ (Cert.Lanes.C2.val_d3_j5 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.2.2.2.2.1 (Cert.Lanes.C2.chkG3_trip k).2.2.2.2.2.2.2.2.2.2.2.2.2.1) (Cert.Lanes.C2.hit_d3_j5 k (Cert.Lanes.C2.chkG3_trip k).2.2.2.2.2.2.2.2.2.2.2.2.2.1) ?_
    unfold inner1.sl.f_29 inner1.sl.HT0_29
    erw [View.readCov_cons_toLoadRect]
    refine Cert.Lanes.goodV_first _ _ _ (Cert.Lanes.C2.val_d3_j4 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.2.2.2.1 (Cert.Lanes.C2.chkG3_trip k).2.2.2.2.2.2.2.2.2.2.2.2.1) (Cert.Lanes.C2.hit_d3_j4 k (Cert.Lanes.C2.chkG3_trip k).2.2.2.2.2.2.2.2.2.2.2.2.1) ?_
    unfold inner1.sl.f_28 inner1.sl.HT0_28
    erw [View.readCov_cons_toLoadRect]
    refine Cert.Lanes.goodV_first _ _ _ (Cert.Lanes.C2.val_d3_j3 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.2.2.1 (Cert.Lanes.C2.chkG3_trip k).2.2.2.2.2.2.2.2.2.2.2.1) (Cert.Lanes.C2.hit_d3_j3 k (Cert.Lanes.C2.chkG3_trip k).2.2.2.2.2.2.2.2.2.2.2.1) ?_
    unfold inner1.sl.f_27 inner1.sl.HT0_27
    erw [View.readCov_cons_toLoadRect]
    refine Cert.Lanes.goodV_first _ _ _ (Cert.Lanes.C2.val_d3_j2 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.2.1 (Cert.Lanes.C2.chkG3_trip k).2.2.2.2.2.2.2.2.2.2.1) (Cert.Lanes.C2.hit_d3_j2 k (Cert.Lanes.C2.chkG3_trip k).2.2.2.2.2.2.2.2.2.2.1) ?_
    unfold inner1.sl.f_26 inner1.sl.HT0_26
    erw [View.readCov_cons_toLoadRect]
    refine Cert.Lanes.goodV_first _ _ _ (Cert.Lanes.C2.val_d3_j1 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.1 (Cert.Lanes.C2.chkG3_trip k).2.2.2.2.2.2.2.2.2.1) (Cert.Lanes.C2.hit_d3_j1 k (Cert.Lanes.C2.chkG3_trip k).2.2.2.2.2.2.2.2.2.1) ?_
    unfold inner1.sl.f_25 inner1.sl.HT0_25
    erw [View.readCov_cons_toLoadRect]
    refine Cert.Lanes.goodV_first _ _ _ (Cert.Lanes.C2.val_d3_j0 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).1 (Cert.Lanes.C2.chkG3_trip k).2.2.2.2.2.2.2.2.1) (Cert.Lanes.C2.hit_d3_j0 k (Cert.Lanes.C2.chkG3_trip k).2.2.2.2.2.2.2.2.1) ?_
    unfold inner1.sl.f_24 inner1.sl.HT0_24
    erw [View.readCov_cons_toLoadRect]
    refine Cert.Lanes.goodV_first _ _ _ (Cert.Lanes.C2.val_d2_j7 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.2.2.2.2.2.2.1 (Cert.Lanes.C2.chkG2_trip k).2.2.2.2.2.2.2.2.2.2.2.2.2.2.2) (Cert.Lanes.C2.hit_d2_j7 k (Cert.Lanes.C2.chkG2_trip k).2.2.2.2.2.2.2.2.2.2.2.2.2.2.2) ?_
    unfold inner1.sl.f_23 inner1.sl.HT0_23
    erw [View.readCov_cons_toLoadRect]
    refine Cert.Lanes.goodV_first _ _ _ (Cert.Lanes.C2.val_d2_j6 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.2.2.2.2.2.1 (Cert.Lanes.C2.chkG2_trip k).2.2.2.2.2.2.2.2.2.2.2.2.2.2.1) (Cert.Lanes.C2.hit_d2_j6 k (Cert.Lanes.C2.chkG2_trip k).2.2.2.2.2.2.2.2.2.2.2.2.2.2.1) ?_
    unfold inner1.sl.f_22 inner1.sl.HT0_22
    erw [View.readCov_cons_toLoadRect]
    refine Cert.Lanes.goodV_first _ _ _ (Cert.Lanes.C2.val_d2_j5 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.2.2.2.2.1 (Cert.Lanes.C2.chkG2_trip k).2.2.2.2.2.2.2.2.2.2.2.2.2.1) (Cert.Lanes.C2.hit_d2_j5 k (Cert.Lanes.C2.chkG2_trip k).2.2.2.2.2.2.2.2.2.2.2.2.2.1) ?_
    unfold inner1.sl.f_21 inner1.sl.HT0_21
    erw [View.readCov_cons_toLoadRect]
    refine Cert.Lanes.goodV_first _ _ _ (Cert.Lanes.C2.val_d2_j4 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.2.2.2.1 (Cert.Lanes.C2.chkG2_trip k).2.2.2.2.2.2.2.2.2.2.2.2.1) (Cert.Lanes.C2.hit_d2_j4 k (Cert.Lanes.C2.chkG2_trip k).2.2.2.2.2.2.2.2.2.2.2.2.1) ?_
    unfold inner1.sl.f_20 inner1.sl.HT0_20
    erw [View.readCov_cons_toLoadRect]
    refine Cert.Lanes.goodV_first _ _ _ (Cert.Lanes.C2.val_d2_j3 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.2.2.1 (Cert.Lanes.C2.chkG2_trip k).2.2.2.2.2.2.2.2.2.2.2.1) (Cert.Lanes.C2.hit_d2_j3 k (Cert.Lanes.C2.chkG2_trip k).2.2.2.2.2.2.2.2.2.2.2.1) ?_
    unfold inner1.sl.f_19 inner1.sl.HT0_19
    erw [View.readCov_cons_toLoadRect]
    refine Cert.Lanes.goodV_first _ _ _ (Cert.Lanes.C2.val_d2_j2 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.2.1 (Cert.Lanes.C2.chkG2_trip k).2.2.2.2.2.2.2.2.2.2.1) (Cert.Lanes.C2.hit_d2_j2 k (Cert.Lanes.C2.chkG2_trip k).2.2.2.2.2.2.2.2.2.2.1) ?_
    unfold inner1.sl.f_18 inner1.sl.HT0_18
    erw [View.readCov_cons_toLoadRect]
    refine Cert.Lanes.goodV_first _ _ _ (Cert.Lanes.C2.val_d2_j1 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).2.1 (Cert.Lanes.C2.chkG2_trip k).2.2.2.2.2.2.2.2.2.1) (Cert.Lanes.C2.hit_d2_j1 k (Cert.Lanes.C2.chkG2_trip k).2.2.2.2.2.2.2.2.2.1) ?_
    unfold inner1.sl.f_17 inner1.sl.HT0_17
    erw [View.readCov_cons_toLoadRect]
    refine Cert.Lanes.goodV_first _ _ _ (Cert.Lanes.C2.val_d2_j0 k (View.readAt (Elt F) slotG1.view (LoadRect.whole S128x128) fd) (PposV m d L) 64#32 (Scalar.divsi (lword g 1#32) 2#32) (w_lt_1 g) o_le_64 (Cert.Lanes.C2.chkP2_trip k 64#32 (Scalar.divsi (lword g 1#32) 2#32) (w_lt_1 g) o_le_64) (Cert.Lanes.C2.chkG2_trip k).1 (Cert.Lanes.C2.chkG2_trip k).2.2.2.2.2.2.2.2.1) (Cert.Lanes.C2.hit_d2_j0 k (Cert.Lanes.C2.chkG2_trip k).2.2.2.2.2.2.2.2.1) ?_
    unfold inner1.sl.f_16 inner1.sl.HT0_16
    erw [View.readCov_cons_toLoadRect]
    refine Cert.Lanes.goodV_first _ _ _ (Cert.Lanes.C2.val_d1_j7 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.2.2.2.2.2.2.1 (Cert.Lanes.C2.chkG1_trip k).2.2.2.2.2.2.2.2.2.2.2.2.2.2.2) (Cert.Lanes.C2.hit_d1_j7 k (Cert.Lanes.C2.chkG1_trip k).2.2.2.2.2.2.2.2.2.2.2.2.2.2.2) ?_
    unfold inner1.sl.f_15 inner1.sl.HT0_15
    erw [View.readCov_cons_toLoadRect]
    refine Cert.Lanes.goodV_first _ _ _ (Cert.Lanes.C2.val_d1_j6 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.2.2.2.2.2.1 (Cert.Lanes.C2.chkG1_trip k).2.2.2.2.2.2.2.2.2.2.2.2.2.2.1) (Cert.Lanes.C2.hit_d1_j6 k (Cert.Lanes.C2.chkG1_trip k).2.2.2.2.2.2.2.2.2.2.2.2.2.2.1) ?_
    unfold inner1.sl.f_14 inner1.sl.HT0_14
    erw [View.readCov_cons_toLoadRect]
    refine Cert.Lanes.goodV_first _ _ _ (Cert.Lanes.C2.val_d1_j5 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.2.2.2.2.1 (Cert.Lanes.C2.chkG1_trip k).2.2.2.2.2.2.2.2.2.2.2.2.2.1) (Cert.Lanes.C2.hit_d1_j5 k (Cert.Lanes.C2.chkG1_trip k).2.2.2.2.2.2.2.2.2.2.2.2.2.1) ?_
    unfold inner1.sl.f_13 inner1.sl.HT0_13
    erw [View.readCov_cons_toLoadRect]
    refine Cert.Lanes.goodV_first _ _ _ (Cert.Lanes.C2.val_d1_j4 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.2.2.2.1 (Cert.Lanes.C2.chkG1_trip k).2.2.2.2.2.2.2.2.2.2.2.2.1) (Cert.Lanes.C2.hit_d1_j4 k (Cert.Lanes.C2.chkG1_trip k).2.2.2.2.2.2.2.2.2.2.2.2.1) ?_
    unfold inner1.sl.f_12 inner1.sl.HT0_12
    erw [View.readCov_cons_toLoadRect]
    refine Cert.Lanes.goodV_first _ _ _ (Cert.Lanes.C2.val_d1_j3 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.2.2.1 (Cert.Lanes.C2.chkG1_trip k).2.2.2.2.2.2.2.2.2.2.2.1) (Cert.Lanes.C2.hit_d1_j3 k (Cert.Lanes.C2.chkG1_trip k).2.2.2.2.2.2.2.2.2.2.2.1) ?_
    unfold inner1.sl.f_11 inner1.sl.HT0_11
    erw [View.readCov_cons_toLoadRect]
    refine Cert.Lanes.goodV_first _ _ _ (Cert.Lanes.C2.val_d1_j2 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.2.1 (Cert.Lanes.C2.chkG1_trip k).2.2.2.2.2.2.2.2.2.2.1) (Cert.Lanes.C2.hit_d1_j2 k (Cert.Lanes.C2.chkG1_trip k).2.2.2.2.2.2.2.2.2.2.1) ?_
    unfold inner1.sl.f_10 inner1.sl.HT0_10
    erw [View.readCov_cons_toLoadRect]
    refine Cert.Lanes.goodV_first _ _ _ (Cert.Lanes.C2.val_d1_j1 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).2.1 (Cert.Lanes.C2.chkG1_trip k).2.2.2.2.2.2.2.2.2.1) (Cert.Lanes.C2.hit_d1_j1 k (Cert.Lanes.C2.chkG1_trip k).2.2.2.2.2.2.2.2.2.1) ?_
    unfold inner1.sl.f_9 inner1.sl.HT0_9
    erw [View.readCov_cons_toLoadRect]
    refine Cert.Lanes.goodV_first _ _ _ (Cert.Lanes.C2.val_d1_j0 k (View.readAt (Elt F) slotG1.view (LoadRect.whole S128x128) fd) (PposV m d L) 64#32 (Scalar.divsi (lword g 1#32) 2#32) (w_lt_1 g) o_le_64 (Cert.Lanes.C2.chkP1_trip k 64#32 (Scalar.divsi (lword g 1#32) 2#32) (w_lt_1 g) o_le_64) (Cert.Lanes.C2.chkG1_trip k).1 (Cert.Lanes.C2.chkG1_trip k).2.2.2.2.2.2.2.2.1) (Cert.Lanes.C2.hit_d1_j0 k (Cert.Lanes.C2.chkG1_trip k).2.2.2.2.2.2.2.2.1) ?_
    unfold inner1.sl.f_8 inner1.sl.HT0_8
    erw [View.readCov_cons_toLoadRect]
    refine Cert.Lanes.goodV_first _ _ _ (Cert.Lanes.C2.val_d0_j7 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.2.2.2.2.2.2.1 (Cert.Lanes.C2.chkG0_trip k).2.2.2.2.2.2.2.2.2.2.2.2.2.2.2) (Cert.Lanes.C2.hit_d0_j7 k (Cert.Lanes.C2.chkG0_trip k).2.2.2.2.2.2.2.2.2.2.2.2.2.2.2) ?_
    unfold inner1.sl.f_7 inner1.sl.HT0_7
    erw [View.readCov_cons_toLoadRect]
    refine Cert.Lanes.goodV_first _ _ _ (Cert.Lanes.C2.val_d0_j6 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.2.2.2.2.2.1 (Cert.Lanes.C2.chkG0_trip k).2.2.2.2.2.2.2.2.2.2.2.2.2.2.1) (Cert.Lanes.C2.hit_d0_j6 k (Cert.Lanes.C2.chkG0_trip k).2.2.2.2.2.2.2.2.2.2.2.2.2.2.1) ?_
    unfold inner1.sl.f_6 inner1.sl.HT0_6
    erw [View.readCov_cons_toLoadRect]
    refine Cert.Lanes.goodV_first _ _ _ (Cert.Lanes.C2.val_d0_j5 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.2.2.2.2.1 (Cert.Lanes.C2.chkG0_trip k).2.2.2.2.2.2.2.2.2.2.2.2.2.1) (Cert.Lanes.C2.hit_d0_j5 k (Cert.Lanes.C2.chkG0_trip k).2.2.2.2.2.2.2.2.2.2.2.2.2.1) ?_
    unfold inner1.sl.f_5 inner1.sl.HT0_5
    erw [View.readCov_cons_toLoadRect]
    refine Cert.Lanes.goodV_first _ _ _ (Cert.Lanes.C2.val_d0_j4 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.2.2.2.1 (Cert.Lanes.C2.chkG0_trip k).2.2.2.2.2.2.2.2.2.2.2.2.1) (Cert.Lanes.C2.hit_d0_j4 k (Cert.Lanes.C2.chkG0_trip k).2.2.2.2.2.2.2.2.2.2.2.2.1) ?_
    unfold inner1.sl.f_4 inner1.sl.HT0_4
    erw [View.readCov_cons_toLoadRect]
    refine Cert.Lanes.goodV_first _ _ _ (Cert.Lanes.C2.val_d0_j3 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.2.2.1 (Cert.Lanes.C2.chkG0_trip k).2.2.2.2.2.2.2.2.2.2.2.1) (Cert.Lanes.C2.hit_d0_j3 k (Cert.Lanes.C2.chkG0_trip k).2.2.2.2.2.2.2.2.2.2.2.1) ?_
    unfold inner1.sl.f_3 inner1.sl.HT0_3
    erw [View.readCov_cons_toLoadRect]
    refine Cert.Lanes.goodV_first _ _ _ (Cert.Lanes.C2.val_d0_j2 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.2.1 (Cert.Lanes.C2.chkG0_trip k).2.2.2.2.2.2.2.2.2.2.1) (Cert.Lanes.C2.hit_d0_j2 k (Cert.Lanes.C2.chkG0_trip k).2.2.2.2.2.2.2.2.2.2.1) ?_
    unfold inner1.sl.f_2 inner1.sl.HT0_2
    erw [View.readCov_cons_toLoadRect]
    refine Cert.Lanes.goodV_first _ _ _ (Cert.Lanes.C2.val_d0_j1 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).2.1 (Cert.Lanes.C2.chkG0_trip k).2.2.2.2.2.2.2.2.2.1) (Cert.Lanes.C2.hit_d0_j1 k (Cert.Lanes.C2.chkG0_trip k).2.2.2.2.2.2.2.2.2.1) ?_
    unfold inner1.sl.f_1 inner1.sl.HT0_1
    erw [View.readCov_cons_toLoadRect]
    refine Cert.Lanes.goodV_first _ _ _ (Cert.Lanes.C2.val_d0_j0 k (View.readAt (Elt F) slotG1.view (LoadRect.whole S128x128) fd) (PposV m d L) 64#32 (Scalar.divsi (lword g 1#32) 2#32) (w_lt_1 g) o_le_64 (Cert.Lanes.C2.chkP0_trip k 64#32 (Scalar.divsi (lword g 1#32) 2#32) (w_lt_1 g) o_le_64) (Cert.Lanes.C2.chkG0_trip k).1 (Cert.Lanes.C2.chkG0_trip k).2.2.2.2.2.2.2.2.1) (Cert.Lanes.C2.hit_d0_j0 k (Cert.Lanes.C2.chkG0_trip k).2.2.2.2.2.2.2.2.1) ?_
    exact Cert.Lanes.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.Lanes.goodM_of_goodV_cons slotT1 R _ (Cert.Lanes.goodV_mono (Cert.Lanes.C1.accTo_succ_sub k.val) ?_)
      refine Cert.Lanes.goodV_first _ _ _ (Cert.Lanes.C2.val_d3_j7 k (View.readAt (Elt F) slotG1.view (LoadRect.whole S128x128) fd) (PposV m d L) 64#32 (Scalar.divsi (lword g 1#32) 2#32) (w_lt_1 g) o_le_64 (Cert.Lanes.C2.chkP3_trip k 64#32 (Scalar.divsi (lword g 1#32) 2#32) (w_lt_1 g) o_le_64) (Cert.Lanes.C2.chkG3_trip k).2.2.2.2.2.2.2.1 (Cert.Lanes.C2.chkG3_trip k).2.2.2.2.2.2.2.2.2.2.2.2.2.2.2) (Cert.Lanes.C2.hit_d3_j7 k (Cert.Lanes.C2.chkG3_trip k).2.2.2.2.2.2.2.2.2.2.2.2.2.2.2) ?_
      exact key31
  iexists _
  isplitr
  rotate_left
  · iexact HO
  · ipureintro; exact hW''

set_option maxHeartbeats 4000000 in
set_option maxRecDepth 65536 in
theorem inner2 (O : CellTallies nD τ sig (HIx 1)) (W : Waits sig (HIx 1)) (g : Fin k0_t1_loop.trips)
    (v61 v87 : BitVec 32) (fd : Buf (Elt F) (slotG2.view.loc thr)) (k : Fin k0_t4_loop.trips) (hk : PUnit) :
    (Iin m d L slotG2 slotT0 O W fd 0#32 (Scalar.divsi (lword g 2#32) 2#32) (w_lt_2 g) o_le_0 k.val hk : sProp 𝕄)
      ⊢ wp frame (wpE (defs₀ (F := F)) 𝒱₀ thr none) Set.univ
          (k0_t4_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            g v61 v87 0#32 (Scalar.divsi (lword g 2#32) 2#32) k hk)
          fun r => Iin m d L slotG2 slotT0 O W fd 0#32 (Scalar.divsi (lword g 2#32) 2#32) (w_lt_2 g) o_le_0 (k.val + 1) r := by
  have hw0 : (Scalar.divsi (lword g 2#32) 2#32).toNat < 100 := w_lt_2 g
  have ho0 : (0#32 : BitVec 32).toNat ≤ 64 := o_le_0
  have h1 := Cert.Lanes.C3.chkP0_trip k 0#32 (Scalar.divsi (lword g 2#32) 2#32) hw0 ho0
  have h2 := Cert.Lanes.C3.chkG0_trip k
  have h3 := Cert.Lanes.C3.chkP1_trip k 0#32 (Scalar.divsi (lword g 2#32) 2#32) hw0 ho0
  have h4 := Cert.Lanes.C3.chkG1_trip k
  have h5 := Cert.Lanes.C3.chkP2_trip k 0#32 (Scalar.divsi (lword g 2#32) 2#32) hw0 ho0
  have h6 := Cert.Lanes.C3.chkG2_trip k
  have h7 := Cert.Lanes.C3.chkP3_trip k 0#32 (Scalar.divsi (lword g 2#32) 2#32) hw0 ho0
  have h8 := Cert.Lanes.C3.chkG3_trip k
  unfold Iin
  conv => rhs; simp only [k0_t4_body, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.Lanes.GoodV (Cert.Lanes.Tslot (View.readAt (Elt F) slotG2.view (LoadRect.whole S128x128) fd) (PposV m d L) 0#32 (Scalar.divsi (lword g 2#32) 2#32) (w_lt_2 g) o_le_0) (Cert.Lanes.AccTo k.val ∪ Cert.Lanes.Hit 0 0 k.val ∪ Cert.Lanes.Hit 0 1 k.val ∪ Cert.Lanes.Hit 0 2 k.val ∪ Cert.Lanes.Hit 0 3 k.val ∪ Cert.Lanes.Hit 0 4 k.val ∪ Cert.Lanes.Hit 0 5 k.val ∪ Cert.Lanes.Hit 0 6 k.val ∪ Cert.Lanes.Hit 0 7 k.val ∪ Cert.Lanes.Hit 1 0 k.val ∪ Cert.Lanes.Hit 1 1 k.val ∪ Cert.Lanes.Hit 1 2 k.val ∪ Cert.Lanes.Hit 1 3 k.val ∪ Cert.Lanes.Hit 1 4 k.val ∪ Cert.Lanes.Hit 1 5 k.val ∪ Cert.Lanes.Hit 1 6 k.val ∪ Cert.Lanes.Hit 1 7 k.val ∪ Cert.Lanes.Hit 2 0 k.val ∪ Cert.Lanes.Hit 2 1 k.val ∪ Cert.Lanes.Hit 2 2 k.val ∪ Cert.Lanes.Hit 2 3 k.val ∪ Cert.Lanes.Hit 2 4 k.val ∪ Cert.Lanes.Hit 2 5 k.val ∪ Cert.Lanes.Hit 2 6 k.val ∪ Cert.Lanes.Hit 2 7 k.val ∪ Cert.Lanes.Hit 3 0 k.val ∪ Cert.Lanes.Hit 3 1 k.val ∪ Cert.Lanes.Hit 3 2 k.val ∪ Cert.Lanes.Hit 3 3 k.val ∪ Cert.Lanes.Hit 3 4 k.val ∪ Cert.Lanes.Hit 3 5 k.val ∪ Cert.Lanes.Hit 3 6 k.val)
      (inner2.sl.f_31 m d L g fd k h1 h2 h3 h4 h5 h6 h7 h8 R) := by
    unfold inner2.sl.f_31 inner2.sl.HT0_31
    erw [View.readCov_cons_toLoadRect]
    refine Cert.Lanes.goodV_first _ _ _ (Cert.Lanes.C3.val_d3_j6 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.2.2.2.2.2.1 (Cert.Lanes.C3.chkG3_trip k).2.2.2.2.2.2.2.2.2.2.2.2.2.2.1) (Cert.Lanes.C3.hit_d3_j6 k (Cert.Lanes.C3.chkG3_trip k).2.2.2.2.2.2.2.2.2.2.2.2.2.2.1) ?_
    unfold inner2.sl.f_30 inner2.sl.HT0_30
    erw [View.readCov_cons_toLoadRect]
    refine Cert.Lanes.goodV_first _ _ _ (Cert.Lanes.C3.val_d3_j5 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.2.2.2.2.1 (Cert.Lanes.C3.chkG3_trip k).2.2.2.2.2.2.2.2.2.2.2.2.2.1) (Cert.Lanes.C3.hit_d3_j5 k (Cert.Lanes.C3.chkG3_trip k).2.2.2.2.2.2.2.2.2.2.2.2.2.1) ?_
    unfold inner2.sl.f_29 inner2.sl.HT0_29
    erw [View.readCov_cons_toLoadRect]
    refine Cert.Lanes.goodV_first _ _ _ (Cert.Lanes.C3.val_d3_j4 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.2.2.2.1 (Cert.Lanes.C3.chkG3_trip k).2.2.2.2.2.2.2.2.2.2.2.2.1) (Cert.Lanes.C3.hit_d3_j4 k (Cert.Lanes.C3.chkG3_trip k).2.2.2.2.2.2.2.2.2.2.2.2.1) ?_
    unfold inner2.sl.f_28 inner2.sl.HT0_28
    erw [View.readCov_cons_toLoadRect]
    refine Cert.Lanes.goodV_first _ _ _ (Cert.Lanes.C3.val_d3_j3 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.2.2.1 (Cert.Lanes.C3.chkG3_trip k).2.2.2.2.2.2.2.2.2.2.2.1) (Cert.Lanes.C3.hit_d3_j3 k (Cert.Lanes.C3.chkG3_trip k).2.2.2.2.2.2.2.2.2.2.2.1) ?_
    unfold inner2.sl.f_27 inner2.sl.HT0_27
    erw [View.readCov_cons_toLoadRect]
    refine Cert.Lanes.goodV_first _ _ _ (Cert.Lanes.C3.val_d3_j2 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.2.1 (Cert.Lanes.C3.chkG3_trip k).2.2.2.2.2.2.2.2.2.2.1) (Cert.Lanes.C3.hit_d3_j2 k (Cert.Lanes.C3.chkG3_trip k).2.2.2.2.2.2.2.2.2.2.1) ?_
    unfold inner2.sl.f_26 inner2.sl.HT0_26
    erw [View.readCov_cons_toLoadRect]
    refine Cert.Lanes.goodV_first _ _ _ (Cert.Lanes.C3.val_d3_j1 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.1 (Cert.Lanes.C3.chkG3_trip k).2.2.2.2.2.2.2.2.2.1) (Cert.Lanes.C3.hit_d3_j1 k (Cert.Lanes.C3.chkG3_trip k).2.2.2.2.2.2.2.2.2.1) ?_
    unfold inner2.sl.f_25 inner2.sl.HT0_25
    erw [View.readCov_cons_toLoadRect]
    refine Cert.Lanes.goodV_first _ _ _ (Cert.Lanes.C3.val_d3_j0 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).1 (Cert.Lanes.C3.chkG3_trip k).2.2.2.2.2.2.2.2.1) (Cert.Lanes.C3.hit_d3_j0 k (Cert.Lanes.C3.chkG3_trip k).2.2.2.2.2.2.2.2.1) ?_
    unfold inner2.sl.f_24 inner2.sl.HT0_24
    erw [View.readCov_cons_toLoadRect]
    refine Cert.Lanes.goodV_first _ _ _ (Cert.Lanes.C3.val_d2_j7 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.2.2.2.2.2.2.1 (Cert.Lanes.C3.chkG2_trip k).2.2.2.2.2.2.2.2.2.2.2.2.2.2.2) (Cert.Lanes.C3.hit_d2_j7 k (Cert.Lanes.C3.chkG2_trip k).2.2.2.2.2.2.2.2.2.2.2.2.2.2.2) ?_
    unfold inner2.sl.f_23 inner2.sl.HT0_23
    erw [View.readCov_cons_toLoadRect]
    refine Cert.Lanes.goodV_first _ _ _ (Cert.Lanes.C3.val_d2_j6 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.2.2.2.2.2.1 (Cert.Lanes.C3.chkG2_trip k).2.2.2.2.2.2.2.2.2.2.2.2.2.2.1) (Cert.Lanes.C3.hit_d2_j6 k (Cert.Lanes.C3.chkG2_trip k).2.2.2.2.2.2.2.2.2.2.2.2.2.2.1) ?_
    unfold inner2.sl.f_22 inner2.sl.HT0_22
    erw [View.readCov_cons_toLoadRect]
    refine Cert.Lanes.goodV_first _ _ _ (Cert.Lanes.C3.val_d2_j5 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.2.2.2.2.1 (Cert.Lanes.C3.chkG2_trip k).2.2.2.2.2.2.2.2.2.2.2.2.2.1) (Cert.Lanes.C3.hit_d2_j5 k (Cert.Lanes.C3.chkG2_trip k).2.2.2.2.2.2.2.2.2.2.2.2.2.1) ?_
    unfold inner2.sl.f_21 inner2.sl.HT0_21
    erw [View.readCov_cons_toLoadRect]
    refine Cert.Lanes.goodV_first _ _ _ (Cert.Lanes.C3.val_d2_j4 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.2.2.2.1 (Cert.Lanes.C3.chkG2_trip k).2.2.2.2.2.2.2.2.2.2.2.2.1) (Cert.Lanes.C3.hit_d2_j4 k (Cert.Lanes.C3.chkG2_trip k).2.2.2.2.2.2.2.2.2.2.2.2.1) ?_
    unfold inner2.sl.f_20 inner2.sl.HT0_20
    erw [View.readCov_cons_toLoadRect]
    refine Cert.Lanes.goodV_first _ _ _ (Cert.Lanes.C3.val_d2_j3 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.2.2.1 (Cert.Lanes.C3.chkG2_trip k).2.2.2.2.2.2.2.2.2.2.2.1) (Cert.Lanes.C3.hit_d2_j3 k (Cert.Lanes.C3.chkG2_trip k).2.2.2.2.2.2.2.2.2.2.2.1) ?_
    unfold inner2.sl.f_19 inner2.sl.HT0_19
    erw [View.readCov_cons_toLoadRect]
    refine Cert.Lanes.goodV_first _ _ _ (Cert.Lanes.C3.val_d2_j2 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.2.1 (Cert.Lanes.C3.chkG2_trip k).2.2.2.2.2.2.2.2.2.2.1) (Cert.Lanes.C3.hit_d2_j2 k (Cert.Lanes.C3.chkG2_trip k).2.2.2.2.2.2.2.2.2.2.1) ?_
    unfold inner2.sl.f_18 inner2.sl.HT0_18
    erw [View.readCov_cons_toLoadRect]
    refine Cert.Lanes.goodV_first _ _ _ (Cert.Lanes.C3.val_d2_j1 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).2.1 (Cert.Lanes.C3.chkG2_trip k).2.2.2.2.2.2.2.2.2.1) (Cert.Lanes.C3.hit_d2_j1 k (Cert.Lanes.C3.chkG2_trip k).2.2.2.2.2.2.2.2.2.1) ?_
    unfold inner2.sl.f_17 inner2.sl.HT0_17
    erw [View.readCov_cons_toLoadRect]
    refine Cert.Lanes.goodV_first _ _ _ (Cert.Lanes.C3.val_d2_j0 k (View.readAt (Elt F) slotG2.view (LoadRect.whole S128x128) fd) (PposV m d L) 0#32 (Scalar.divsi (lword g 2#32) 2#32) (w_lt_2 g) o_le_0 (Cert.Lanes.C3.chkP2_trip k 0#32 (Scalar.divsi (lword g 2#32) 2#32) (w_lt_2 g) o_le_0) (Cert.Lanes.C3.chkG2_trip k).1 (Cert.Lanes.C3.chkG2_trip k).2.2.2.2.2.2.2.2.1) (Cert.Lanes.C3.hit_d2_j0 k (Cert.Lanes.C3.chkG2_trip k).2.2.2.2.2.2.2.2.1) ?_
    unfold inner2.sl.f_16 inner2.sl.HT0_16
    erw [View.readCov_cons_toLoadRect]
    refine Cert.Lanes.goodV_first _ _ _ (Cert.Lanes.C3.val_d1_j7 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.2.2.2.2.2.2.1 (Cert.Lanes.C3.chkG1_trip k).2.2.2.2.2.2.2.2.2.2.2.2.2.2.2) (Cert.Lanes.C3.hit_d1_j7 k (Cert.Lanes.C3.chkG1_trip k).2.2.2.2.2.2.2.2.2.2.2.2.2.2.2) ?_
    unfold inner2.sl.f_15 inner2.sl.HT0_15
    erw [View.readCov_cons_toLoadRect]
    refine Cert.Lanes.goodV_first _ _ _ (Cert.Lanes.C3.val_d1_j6 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.2.2.2.2.2.1 (Cert.Lanes.C3.chkG1_trip k).2.2.2.2.2.2.2.2.2.2.2.2.2.2.1) (Cert.Lanes.C3.hit_d1_j6 k (Cert.Lanes.C3.chkG1_trip k).2.2.2.2.2.2.2.2.2.2.2.2.2.2.1) ?_
    unfold inner2.sl.f_14 inner2.sl.HT0_14
    erw [View.readCov_cons_toLoadRect]
    refine Cert.Lanes.goodV_first _ _ _ (Cert.Lanes.C3.val_d1_j5 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.2.2.2.2.1 (Cert.Lanes.C3.chkG1_trip k).2.2.2.2.2.2.2.2.2.2.2.2.2.1) (Cert.Lanes.C3.hit_d1_j5 k (Cert.Lanes.C3.chkG1_trip k).2.2.2.2.2.2.2.2.2.2.2.2.2.1) ?_
    unfold inner2.sl.f_13 inner2.sl.HT0_13
    erw [View.readCov_cons_toLoadRect]
    refine Cert.Lanes.goodV_first _ _ _ (Cert.Lanes.C3.val_d1_j4 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.2.2.2.1 (Cert.Lanes.C3.chkG1_trip k).2.2.2.2.2.2.2.2.2.2.2.2.1) (Cert.Lanes.C3.hit_d1_j4 k (Cert.Lanes.C3.chkG1_trip k).2.2.2.2.2.2.2.2.2.2.2.2.1) ?_
    unfold inner2.sl.f_12 inner2.sl.HT0_12
    erw [View.readCov_cons_toLoadRect]
    refine Cert.Lanes.goodV_first _ _ _ (Cert.Lanes.C3.val_d1_j3 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.2.2.1 (Cert.Lanes.C3.chkG1_trip k).2.2.2.2.2.2.2.2.2.2.2.1) (Cert.Lanes.C3.hit_d1_j3 k (Cert.Lanes.C3.chkG1_trip k).2.2.2.2.2.2.2.2.2.2.2.1) ?_
    unfold inner2.sl.f_11 inner2.sl.HT0_11
    erw [View.readCov_cons_toLoadRect]
    refine Cert.Lanes.goodV_first _ _ _ (Cert.Lanes.C3.val_d1_j2 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.2.1 (Cert.Lanes.C3.chkG1_trip k).2.2.2.2.2.2.2.2.2.2.1) (Cert.Lanes.C3.hit_d1_j2 k (Cert.Lanes.C3.chkG1_trip k).2.2.2.2.2.2.2.2.2.2.1) ?_
    unfold inner2.sl.f_10 inner2.sl.HT0_10
    erw [View.readCov_cons_toLoadRect]
    refine Cert.Lanes.goodV_first _ _ _ (Cert.Lanes.C3.val_d1_j1 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).2.1 (Cert.Lanes.C3.chkG1_trip k).2.2.2.2.2.2.2.2.2.1) (Cert.Lanes.C3.hit_d1_j1 k (Cert.Lanes.C3.chkG1_trip k).2.2.2.2.2.2.2.2.2.1) ?_
    unfold inner2.sl.f_9 inner2.sl.HT0_9
    erw [View.readCov_cons_toLoadRect]
    refine Cert.Lanes.goodV_first _ _ _ (Cert.Lanes.C3.val_d1_j0 k (View.readAt (Elt F) slotG2.view (LoadRect.whole S128x128) fd) (PposV m d L) 0#32 (Scalar.divsi (lword g 2#32) 2#32) (w_lt_2 g) o_le_0 (Cert.Lanes.C3.chkP1_trip k 0#32 (Scalar.divsi (lword g 2#32) 2#32) (w_lt_2 g) o_le_0) (Cert.Lanes.C3.chkG1_trip k).1 (Cert.Lanes.C3.chkG1_trip k).2.2.2.2.2.2.2.2.1) (Cert.Lanes.C3.hit_d1_j0 k (Cert.Lanes.C3.chkG1_trip k).2.2.2.2.2.2.2.2.1) ?_
    unfold inner2.sl.f_8 inner2.sl.HT0_8
    erw [View.readCov_cons_toLoadRect]
    refine Cert.Lanes.goodV_first _ _ _ (Cert.Lanes.C3.val_d0_j7 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.2.2.2.2.2.2.1 (Cert.Lanes.C3.chkG0_trip k).2.2.2.2.2.2.2.2.2.2.2.2.2.2.2) (Cert.Lanes.C3.hit_d0_j7 k (Cert.Lanes.C3.chkG0_trip k).2.2.2.2.2.2.2.2.2.2.2.2.2.2.2) ?_
    unfold inner2.sl.f_7 inner2.sl.HT0_7
    erw [View.readCov_cons_toLoadRect]
    refine Cert.Lanes.goodV_first _ _ _ (Cert.Lanes.C3.val_d0_j6 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.2.2.2.2.2.1 (Cert.Lanes.C3.chkG0_trip k).2.2.2.2.2.2.2.2.2.2.2.2.2.2.1) (Cert.Lanes.C3.hit_d0_j6 k (Cert.Lanes.C3.chkG0_trip k).2.2.2.2.2.2.2.2.2.2.2.2.2.2.1) ?_
    unfold inner2.sl.f_6 inner2.sl.HT0_6
    erw [View.readCov_cons_toLoadRect]
    refine Cert.Lanes.goodV_first _ _ _ (Cert.Lanes.C3.val_d0_j5 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.2.2.2.2.1 (Cert.Lanes.C3.chkG0_trip k).2.2.2.2.2.2.2.2.2.2.2.2.2.1) (Cert.Lanes.C3.hit_d0_j5 k (Cert.Lanes.C3.chkG0_trip k).2.2.2.2.2.2.2.2.2.2.2.2.2.1) ?_
    unfold inner2.sl.f_5 inner2.sl.HT0_5
    erw [View.readCov_cons_toLoadRect]
    refine Cert.Lanes.goodV_first _ _ _ (Cert.Lanes.C3.val_d0_j4 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.2.2.2.1 (Cert.Lanes.C3.chkG0_trip k).2.2.2.2.2.2.2.2.2.2.2.2.1) (Cert.Lanes.C3.hit_d0_j4 k (Cert.Lanes.C3.chkG0_trip k).2.2.2.2.2.2.2.2.2.2.2.2.1) ?_
    unfold inner2.sl.f_4 inner2.sl.HT0_4
    erw [View.readCov_cons_toLoadRect]
    refine Cert.Lanes.goodV_first _ _ _ (Cert.Lanes.C3.val_d0_j3 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.2.2.1 (Cert.Lanes.C3.chkG0_trip k).2.2.2.2.2.2.2.2.2.2.2.1) (Cert.Lanes.C3.hit_d0_j3 k (Cert.Lanes.C3.chkG0_trip k).2.2.2.2.2.2.2.2.2.2.2.1) ?_
    unfold inner2.sl.f_3 inner2.sl.HT0_3
    erw [View.readCov_cons_toLoadRect]
    refine Cert.Lanes.goodV_first _ _ _ (Cert.Lanes.C3.val_d0_j2 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.2.1 (Cert.Lanes.C3.chkG0_trip k).2.2.2.2.2.2.2.2.2.2.1) (Cert.Lanes.C3.hit_d0_j2 k (Cert.Lanes.C3.chkG0_trip k).2.2.2.2.2.2.2.2.2.2.1) ?_
    unfold inner2.sl.f_2 inner2.sl.HT0_2
    erw [View.readCov_cons_toLoadRect]
    refine Cert.Lanes.goodV_first _ _ _ (Cert.Lanes.C3.val_d0_j1 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).2.1 (Cert.Lanes.C3.chkG0_trip k).2.2.2.2.2.2.2.2.2.1) (Cert.Lanes.C3.hit_d0_j1 k (Cert.Lanes.C3.chkG0_trip k).2.2.2.2.2.2.2.2.2.1) ?_
    unfold inner2.sl.f_1 inner2.sl.HT0_1
    erw [View.readCov_cons_toLoadRect]
    refine Cert.Lanes.goodV_first _ _ _ (Cert.Lanes.C3.val_d0_j0 k (View.readAt (Elt F) slotG2.view (LoadRect.whole S128x128) fd) (PposV m d L) 0#32 (Scalar.divsi (lword g 2#32) 2#32) (w_lt_2 g) o_le_0 (Cert.Lanes.C3.chkP0_trip k 0#32 (Scalar.divsi (lword g 2#32) 2#32) (w_lt_2 g) o_le_0) (Cert.Lanes.C3.chkG0_trip k).1 (Cert.Lanes.C3.chkG0_trip k).2.2.2.2.2.2.2.2.1) (Cert.Lanes.C3.hit_d0_j0 k (Cert.Lanes.C3.chkG0_trip k).2.2.2.2.2.2.2.2.1) ?_
    exact Cert.Lanes.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.Lanes.goodM_of_goodV_cons slotT0 R _ (Cert.Lanes.goodV_mono (Cert.Lanes.C1.accTo_succ_sub k.val) ?_)
      refine Cert.Lanes.goodV_first _ _ _ (Cert.Lanes.C3.val_d3_j7 k (View.readAt (Elt F) slotG2.view (LoadRect.whole S128x128) fd) (PposV m d L) 0#32 (Scalar.divsi (lword g 2#32) 2#32) (w_lt_2 g) o_le_0 (Cert.Lanes.C3.chkP3_trip k 0#32 (Scalar.divsi (lword g 2#32) 2#32) (w_lt_2 g) o_le_0) (Cert.Lanes.C3.chkG3_trip k).2.2.2.2.2.2.2.1 (Cert.Lanes.C3.chkG3_trip k).2.2.2.2.2.2.2.2.2.2.2.2.2.2.2) (Cert.Lanes.C3.hit_d3_j7 k (Cert.Lanes.C3.chkG3_trip k).2.2.2.2.2.2.2.2.2.2.2.2.2.2.2) ?_
      exact key31
  iexists _
  isplitr
  rotate_left
  · iexact HO
  · ipureintro; exact hW''

set_option maxHeartbeats 4000000 in
set_option maxRecDepth 65536 in
theorem inner3 (O : CellTallies nD τ sig (HIx 1)) (W : Waits sig (HIx 1)) (g : Fin k0_t1_loop.trips)
    (fd : Buf (Elt F) (slotG3.view.loc thr)) (k : Fin k0_t5_loop.trips) (hk : PUnit) :
    (Iin m d L slotG3 slotT1 O W fd 64#32 (Scalar.divsi (lword g 3#32) 2#32) (w_lt_3 g) o_le_64 k.val hk : sProp 𝕄)
      ⊢ wp frame (wpE (defs₀ (F := F)) 𝒱₀ thr none) Set.univ
          (k0_t5_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            64#32 (Scalar.divsi (lword g 3#32) 2#32) k hk)
          fun r => Iin m d L slotG3 slotT1 O W fd 64#32 (Scalar.divsi (lword g 3#32) 2#32) (w_lt_3 g) o_le_64 (k.val + 1) r := by
  have hw0 : (Scalar.divsi (lword g 3#32) 2#32).toNat < 100 := w_lt_3 g
  have ho0 : (64#32 : BitVec 32).toNat ≤ 64 := o_le_64
  have h1 := Cert.Lanes.C4.chkP0_trip k 64#32 (Scalar.divsi (lword g 3#32) 2#32) hw0 ho0
  have h2 := Cert.Lanes.C4.chkG0_trip k
  have h3 := Cert.Lanes.C4.chkP1_trip k 64#32 (Scalar.divsi (lword g 3#32) 2#32) hw0 ho0
  have h4 := Cert.Lanes.C4.chkG1_trip k
  have h5 := Cert.Lanes.C4.chkP2_trip k 64#32 (Scalar.divsi (lword g 3#32) 2#32) hw0 ho0
  have h6 := Cert.Lanes.C4.chkG2_trip k
  have h7 := Cert.Lanes.C4.chkP3_trip k 64#32 (Scalar.divsi (lword g 3#32) 2#32) hw0 ho0
  have h8 := Cert.Lanes.C4.chkG3_trip k
  unfold Iin
  conv => rhs; simp only [k0_t5_body, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.Lanes.GoodV (Cert.Lanes.Tslot (View.readAt (Elt F) slotG3.view (LoadRect.whole S128x128) fd) (PposV m d L) 64#32 (Scalar.divsi (lword g 3#32) 2#32) (w_lt_3 g) o_le_64) (Cert.Lanes.AccTo k.val ∪ Cert.Lanes.Hit 0 0 k.val ∪ Cert.Lanes.Hit 0 1 k.val ∪ Cert.Lanes.Hit 0 2 k.val ∪ Cert.Lanes.Hit 0 3 k.val ∪ Cert.Lanes.Hit 0 4 k.val ∪ Cert.Lanes.Hit 0 5 k.val ∪ Cert.Lanes.Hit 0 6 k.val ∪ Cert.Lanes.Hit 0 7 k.val ∪ Cert.Lanes.Hit 1 0 k.val ∪ Cert.Lanes.Hit 1 1 k.val ∪ Cert.Lanes.Hit 1 2 k.val ∪ Cert.Lanes.Hit 1 3 k.val ∪ Cert.Lanes.Hit 1 4 k.val ∪ Cert.Lanes.Hit 1 5 k.val ∪ Cert.Lanes.Hit 1 6 k.val ∪ Cert.Lanes.Hit 1 7 k.val ∪ Cert.Lanes.Hit 2 0 k.val ∪ Cert.Lanes.Hit 2 1 k.val ∪ Cert.Lanes.Hit 2 2 k.val ∪ Cert.Lanes.Hit 2 3 k.val ∪ Cert.Lanes.Hit 2 4 k.val ∪ Cert.Lanes.Hit 2 5 k.val ∪ Cert.Lanes.Hit 2 6 k.val ∪ Cert.Lanes.Hit 2 7 k.val ∪ Cert.Lanes.Hit 3 0 k.val ∪ Cert.Lanes.Hit 3 1 k.val ∪ Cert.Lanes.Hit 3 2 k.val ∪ Cert.Lanes.Hit 3 3 k.val ∪ Cert.Lanes.Hit 3 4 k.val ∪ Cert.Lanes.Hit 3 5 k.val ∪ Cert.Lanes.Hit 3 6 k.val)
      (inner3.sl.f_31 m d L g fd k h1 h2 h3 h4 h5 h6 h7 h8 R) := by
    unfold inner3.sl.f_31 inner3.sl.HT0_31
    erw [View.readCov_cons_toLoadRect]
    refine Cert.Lanes.goodV_first _ _ _ (Cert.Lanes.C4.val_d3_j6 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.2.2.2.2.2.1 (Cert.Lanes.C4.chkG3_trip k).2.2.2.2.2.2.2.2.2.2.2.2.2.2.1) (Cert.Lanes.C4.hit_d3_j6 k (Cert.Lanes.C4.chkG3_trip k).2.2.2.2.2.2.2.2.2.2.2.2.2.2.1) ?_
    unfold inner3.sl.f_30 inner3.sl.HT0_30
    erw [View.readCov_cons_toLoadRect]
    refine Cert.Lanes.goodV_first _ _ _ (Cert.Lanes.C4.val_d3_j5 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.2.2.2.2.1 (Cert.Lanes.C4.chkG3_trip k).2.2.2.2.2.2.2.2.2.2.2.2.2.1) (Cert.Lanes.C4.hit_d3_j5 k (Cert.Lanes.C4.chkG3_trip k).2.2.2.2.2.2.2.2.2.2.2.2.2.1) ?_
    unfold inner3.sl.f_29 inner3.sl.HT0_29
    erw [View.readCov_cons_toLoadRect]
    refine Cert.Lanes.goodV_first _ _ _ (Cert.Lanes.C4.val_d3_j4 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.2.2.2.1 (Cert.Lanes.C4.chkG3_trip k).2.2.2.2.2.2.2.2.2.2.2.2.1) (Cert.Lanes.C4.hit_d3_j4 k (Cert.Lanes.C4.chkG3_trip k).2.2.2.2.2.2.2.2.2.2.2.2.1) ?_
    unfold inner3.sl.f_28 inner3.sl.HT0_28
    erw [View.readCov_cons_toLoadRect]
    refine Cert.Lanes.goodV_first _ _ _ (Cert.Lanes.C4.val_d3_j3 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.2.2.1 (Cert.Lanes.C4.chkG3_trip k).2.2.2.2.2.2.2.2.2.2.2.1) (Cert.Lanes.C4.hit_d3_j3 k (Cert.Lanes.C4.chkG3_trip k).2.2.2.2.2.2.2.2.2.2.2.1) ?_
    unfold inner3.sl.f_27 inner3.sl.HT0_27
    erw [View.readCov_cons_toLoadRect]
    refine Cert.Lanes.goodV_first _ _ _ (Cert.Lanes.C4.val_d3_j2 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.2.1 (Cert.Lanes.C4.chkG3_trip k).2.2.2.2.2.2.2.2.2.2.1) (Cert.Lanes.C4.hit_d3_j2 k (Cert.Lanes.C4.chkG3_trip k).2.2.2.2.2.2.2.2.2.2.1) ?_
    unfold inner3.sl.f_26 inner3.sl.HT0_26
    erw [View.readCov_cons_toLoadRect]
    refine Cert.Lanes.goodV_first _ _ _ (Cert.Lanes.C4.val_d3_j1 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.1 (Cert.Lanes.C4.chkG3_trip k).2.2.2.2.2.2.2.2.2.1) (Cert.Lanes.C4.hit_d3_j1 k (Cert.Lanes.C4.chkG3_trip k).2.2.2.2.2.2.2.2.2.1) ?_
    unfold inner3.sl.f_25 inner3.sl.HT0_25
    erw [View.readCov_cons_toLoadRect]
    refine Cert.Lanes.goodV_first _ _ _ (Cert.Lanes.C4.val_d3_j0 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).1 (Cert.Lanes.C4.chkG3_trip k).2.2.2.2.2.2.2.2.1) (Cert.Lanes.C4.hit_d3_j0 k (Cert.Lanes.C4.chkG3_trip k).2.2.2.2.2.2.2.2.1) ?_
    unfold inner3.sl.f_24 inner3.sl.HT0_24
    erw [View.readCov_cons_toLoadRect]
    refine Cert.Lanes.goodV_first _ _ _ (Cert.Lanes.C4.val_d2_j7 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.2.2.2.2.2.2.1 (Cert.Lanes.C4.chkG2_trip k).2.2.2.2.2.2.2.2.2.2.2.2.2.2.2) (Cert.Lanes.C4.hit_d2_j7 k (Cert.Lanes.C4.chkG2_trip k).2.2.2.2.2.2.2.2.2.2.2.2.2.2.2) ?_
    unfold inner3.sl.f_23 inner3.sl.HT0_23
    erw [View.readCov_cons_toLoadRect]
    refine Cert.Lanes.goodV_first _ _ _ (Cert.Lanes.C4.val_d2_j6 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.2.2.2.2.2.1 (Cert.Lanes.C4.chkG2_trip k).2.2.2.2.2.2.2.2.2.2.2.2.2.2.1) (Cert.Lanes.C4.hit_d2_j6 k (Cert.Lanes.C4.chkG2_trip k).2.2.2.2.2.2.2.2.2.2.2.2.2.2.1) ?_
    unfold inner3.sl.f_22 inner3.sl.HT0_22
    erw [View.readCov_cons_toLoadRect]
    refine Cert.Lanes.goodV_first _ _ _ (Cert.Lanes.C4.val_d2_j5 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.2.2.2.2.1 (Cert.Lanes.C4.chkG2_trip k).2.2.2.2.2.2.2.2.2.2.2.2.2.1) (Cert.Lanes.C4.hit_d2_j5 k (Cert.Lanes.C4.chkG2_trip k).2.2.2.2.2.2.2.2.2.2.2.2.2.1) ?_
    unfold inner3.sl.f_21 inner3.sl.HT0_21
    erw [View.readCov_cons_toLoadRect]
    refine Cert.Lanes.goodV_first _ _ _ (Cert.Lanes.C4.val_d2_j4 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.2.2.2.1 (Cert.Lanes.C4.chkG2_trip k).2.2.2.2.2.2.2.2.2.2.2.2.1) (Cert.Lanes.C4.hit_d2_j4 k (Cert.Lanes.C4.chkG2_trip k).2.2.2.2.2.2.2.2.2.2.2.2.1) ?_
    unfold inner3.sl.f_20 inner3.sl.HT0_20
    erw [View.readCov_cons_toLoadRect]
    refine Cert.Lanes.goodV_first _ _ _ (Cert.Lanes.C4.val_d2_j3 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.2.2.1 (Cert.Lanes.C4.chkG2_trip k).2.2.2.2.2.2.2.2.2.2.2.1) (Cert.Lanes.C4.hit_d2_j3 k (Cert.Lanes.C4.chkG2_trip k).2.2.2.2.2.2.2.2.2.2.2.1) ?_
    unfold inner3.sl.f_19 inner3.sl.HT0_19
    erw [View.readCov_cons_toLoadRect]
    refine Cert.Lanes.goodV_first _ _ _ (Cert.Lanes.C4.val_d2_j2 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.2.1 (Cert.Lanes.C4.chkG2_trip k).2.2.2.2.2.2.2.2.2.2.1) (Cert.Lanes.C4.hit_d2_j2 k (Cert.Lanes.C4.chkG2_trip k).2.2.2.2.2.2.2.2.2.2.1) ?_
    unfold inner3.sl.f_18 inner3.sl.HT0_18
    erw [View.readCov_cons_toLoadRect]
    refine Cert.Lanes.goodV_first _ _ _ (Cert.Lanes.C4.val_d2_j1 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).2.1 (Cert.Lanes.C4.chkG2_trip k).2.2.2.2.2.2.2.2.2.1) (Cert.Lanes.C4.hit_d2_j1 k (Cert.Lanes.C4.chkG2_trip k).2.2.2.2.2.2.2.2.2.1) ?_
    unfold inner3.sl.f_17 inner3.sl.HT0_17
    erw [View.readCov_cons_toLoadRect]
    refine Cert.Lanes.goodV_first _ _ _ (Cert.Lanes.C4.val_d2_j0 k (View.readAt (Elt F) slotG3.view (LoadRect.whole S128x128) fd) (PposV m d L) 64#32 (Scalar.divsi (lword g 3#32) 2#32) (w_lt_3 g) o_le_64 (Cert.Lanes.C4.chkP2_trip k 64#32 (Scalar.divsi (lword g 3#32) 2#32) (w_lt_3 g) o_le_64) (Cert.Lanes.C4.chkG2_trip k).1 (Cert.Lanes.C4.chkG2_trip k).2.2.2.2.2.2.2.2.1) (Cert.Lanes.C4.hit_d2_j0 k (Cert.Lanes.C4.chkG2_trip k).2.2.2.2.2.2.2.2.1) ?_
    unfold inner3.sl.f_16 inner3.sl.HT0_16
    erw [View.readCov_cons_toLoadRect]
    refine Cert.Lanes.goodV_first _ _ _ (Cert.Lanes.C4.val_d1_j7 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.2.2.2.2.2.2.1 (Cert.Lanes.C4.chkG1_trip k).2.2.2.2.2.2.2.2.2.2.2.2.2.2.2) (Cert.Lanes.C4.hit_d1_j7 k (Cert.Lanes.C4.chkG1_trip k).2.2.2.2.2.2.2.2.2.2.2.2.2.2.2) ?_
    unfold inner3.sl.f_15 inner3.sl.HT0_15
    erw [View.readCov_cons_toLoadRect]
    refine Cert.Lanes.goodV_first _ _ _ (Cert.Lanes.C4.val_d1_j6 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.2.2.2.2.2.1 (Cert.Lanes.C4.chkG1_trip k).2.2.2.2.2.2.2.2.2.2.2.2.2.2.1) (Cert.Lanes.C4.hit_d1_j6 k (Cert.Lanes.C4.chkG1_trip k).2.2.2.2.2.2.2.2.2.2.2.2.2.2.1) ?_
    unfold inner3.sl.f_14 inner3.sl.HT0_14
    erw [View.readCov_cons_toLoadRect]
    refine Cert.Lanes.goodV_first _ _ _ (Cert.Lanes.C4.val_d1_j5 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.2.2.2.2.1 (Cert.Lanes.C4.chkG1_trip k).2.2.2.2.2.2.2.2.2.2.2.2.2.1) (Cert.Lanes.C4.hit_d1_j5 k (Cert.Lanes.C4.chkG1_trip k).2.2.2.2.2.2.2.2.2.2.2.2.2.1) ?_
    unfold inner3.sl.f_13 inner3.sl.HT0_13
    erw [View.readCov_cons_toLoadRect]
    refine Cert.Lanes.goodV_first _ _ _ (Cert.Lanes.C4.val_d1_j4 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.2.2.2.1 (Cert.Lanes.C4.chkG1_trip k).2.2.2.2.2.2.2.2.2.2.2.2.1) (Cert.Lanes.C4.hit_d1_j4 k (Cert.Lanes.C4.chkG1_trip k).2.2.2.2.2.2.2.2.2.2.2.2.1) ?_
    unfold inner3.sl.f_12 inner3.sl.HT0_12
    erw [View.readCov_cons_toLoadRect]
    refine Cert.Lanes.goodV_first _ _ _ (Cert.Lanes.C4.val_d1_j3 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.2.2.1 (Cert.Lanes.C4.chkG1_trip k).2.2.2.2.2.2.2.2.2.2.2.1) (Cert.Lanes.C4.hit_d1_j3 k (Cert.Lanes.C4.chkG1_trip k).2.2.2.2.2.2.2.2.2.2.2.1) ?_
    unfold inner3.sl.f_11 inner3.sl.HT0_11
    erw [View.readCov_cons_toLoadRect]
    refine Cert.Lanes.goodV_first _ _ _ (Cert.Lanes.C4.val_d1_j2 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.2.1 (Cert.Lanes.C4.chkG1_trip k).2.2.2.2.2.2.2.2.2.2.1) (Cert.Lanes.C4.hit_d1_j2 k (Cert.Lanes.C4.chkG1_trip k).2.2.2.2.2.2.2.2.2.2.1) ?_
    unfold inner3.sl.f_10 inner3.sl.HT0_10
    erw [View.readCov_cons_toLoadRect]
    refine Cert.Lanes.goodV_first _ _ _ (Cert.Lanes.C4.val_d1_j1 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).2.1 (Cert.Lanes.C4.chkG1_trip k).2.2.2.2.2.2.2.2.2.1) (Cert.Lanes.C4.hit_d1_j1 k (Cert.Lanes.C4.chkG1_trip k).2.2.2.2.2.2.2.2.2.1) ?_
    unfold inner3.sl.f_9 inner3.sl.HT0_9
    erw [View.readCov_cons_toLoadRect]
    refine Cert.Lanes.goodV_first _ _ _ (Cert.Lanes.C4.val_d1_j0 k (View.readAt (Elt F) slotG3.view (LoadRect.whole S128x128) fd) (PposV m d L) 64#32 (Scalar.divsi (lword g 3#32) 2#32) (w_lt_3 g) o_le_64 (Cert.Lanes.C4.chkP1_trip k 64#32 (Scalar.divsi (lword g 3#32) 2#32) (w_lt_3 g) o_le_64) (Cert.Lanes.C4.chkG1_trip k).1 (Cert.Lanes.C4.chkG1_trip k).2.2.2.2.2.2.2.2.1) (Cert.Lanes.C4.hit_d1_j0 k (Cert.Lanes.C4.chkG1_trip k).2.2.2.2.2.2.2.2.1) ?_
    unfold inner3.sl.f_8 inner3.sl.HT0_8
    erw [View.readCov_cons_toLoadRect]
    refine Cert.Lanes.goodV_first _ _ _ (Cert.Lanes.C4.val_d0_j7 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.2.2.2.2.2.2.1 (Cert.Lanes.C4.chkG0_trip k).2.2.2.2.2.2.2.2.2.2.2.2.2.2.2) (Cert.Lanes.C4.hit_d0_j7 k (Cert.Lanes.C4.chkG0_trip k).2.2.2.2.2.2.2.2.2.2.2.2.2.2.2) ?_
    unfold inner3.sl.f_7 inner3.sl.HT0_7
    erw [View.readCov_cons_toLoadRect]
    refine Cert.Lanes.goodV_first _ _ _ (Cert.Lanes.C4.val_d0_j6 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.2.2.2.2.2.1 (Cert.Lanes.C4.chkG0_trip k).2.2.2.2.2.2.2.2.2.2.2.2.2.2.1) (Cert.Lanes.C4.hit_d0_j6 k (Cert.Lanes.C4.chkG0_trip k).2.2.2.2.2.2.2.2.2.2.2.2.2.2.1) ?_
    unfold inner3.sl.f_6 inner3.sl.HT0_6
    erw [View.readCov_cons_toLoadRect]
    refine Cert.Lanes.goodV_first _ _ _ (Cert.Lanes.C4.val_d0_j5 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.2.2.2.2.1 (Cert.Lanes.C4.chkG0_trip k).2.2.2.2.2.2.2.2.2.2.2.2.2.1) (Cert.Lanes.C4.hit_d0_j5 k (Cert.Lanes.C4.chkG0_trip k).2.2.2.2.2.2.2.2.2.2.2.2.2.1) ?_
    unfold inner3.sl.f_5 inner3.sl.HT0_5
    erw [View.readCov_cons_toLoadRect]
    refine Cert.Lanes.goodV_first _ _ _ (Cert.Lanes.C4.val_d0_j4 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.2.2.2.1 (Cert.Lanes.C4.chkG0_trip k).2.2.2.2.2.2.2.2.2.2.2.2.1) (Cert.Lanes.C4.hit_d0_j4 k (Cert.Lanes.C4.chkG0_trip k).2.2.2.2.2.2.2.2.2.2.2.2.1) ?_
    unfold inner3.sl.f_4 inner3.sl.HT0_4
    erw [View.readCov_cons_toLoadRect]
    refine Cert.Lanes.goodV_first _ _ _ (Cert.Lanes.C4.val_d0_j3 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.2.2.1 (Cert.Lanes.C4.chkG0_trip k).2.2.2.2.2.2.2.2.2.2.2.1) (Cert.Lanes.C4.hit_d0_j3 k (Cert.Lanes.C4.chkG0_trip k).2.2.2.2.2.2.2.2.2.2.2.1) ?_
    unfold inner3.sl.f_3 inner3.sl.HT0_3
    erw [View.readCov_cons_toLoadRect]
    refine Cert.Lanes.goodV_first _ _ _ (Cert.Lanes.C4.val_d0_j2 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.2.1 (Cert.Lanes.C4.chkG0_trip k).2.2.2.2.2.2.2.2.2.2.1) (Cert.Lanes.C4.hit_d0_j2 k (Cert.Lanes.C4.chkG0_trip k).2.2.2.2.2.2.2.2.2.2.1) ?_
    unfold inner3.sl.f_2 inner3.sl.HT0_2
    erw [View.readCov_cons_toLoadRect]
    refine Cert.Lanes.goodV_first _ _ _ (Cert.Lanes.C4.val_d0_j1 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).2.1 (Cert.Lanes.C4.chkG0_trip k).2.2.2.2.2.2.2.2.2.1) (Cert.Lanes.C4.hit_d0_j1 k (Cert.Lanes.C4.chkG0_trip k).2.2.2.2.2.2.2.2.2.1) ?_
    unfold inner3.sl.f_1 inner3.sl.HT0_1
    erw [View.readCov_cons_toLoadRect]
    refine Cert.Lanes.goodV_first _ _ _ (Cert.Lanes.C4.val_d0_j0 k (View.readAt (Elt F) slotG3.view (LoadRect.whole S128x128) fd) (PposV m d L) 64#32 (Scalar.divsi (lword g 3#32) 2#32) (w_lt_3 g) o_le_64 (Cert.Lanes.C4.chkP0_trip k 64#32 (Scalar.divsi (lword g 3#32) 2#32) (w_lt_3 g) o_le_64) (Cert.Lanes.C4.chkG0_trip k).1 (Cert.Lanes.C4.chkG0_trip k).2.2.2.2.2.2.2.2.1) (Cert.Lanes.C4.hit_d0_j0 k (Cert.Lanes.C4.chkG0_trip k).2.2.2.2.2.2.2.2.1) ?_
    exact Cert.Lanes.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.Lanes.goodM_of_goodV_cons slotT1 R _ (Cert.Lanes.goodV_mono (Cert.Lanes.C1.accTo_succ_sub k.val) ?_)
      refine Cert.Lanes.goodV_first _ _ _ (Cert.Lanes.C4.val_d3_j7 k (View.readAt (Elt F) slotG3.view (LoadRect.whole S128x128) fd) (PposV m d L) 64#32 (Scalar.divsi (lword g 3#32) 2#32) (w_lt_3 g) o_le_64 (Cert.Lanes.C4.chkP3_trip k 64#32 (Scalar.divsi (lword g 3#32) 2#32) (w_lt_3 g) o_le_64) (Cert.Lanes.C4.chkG3_trip k).2.2.2.2.2.2.2.1 (Cert.Lanes.C4.chkG3_trip k).2.2.2.2.2.2.2.2.2.2.2.2.2.2.2) (Cert.Lanes.C4.hit_d3_j7 k (Cert.Lanes.C4.chkG3_trip k).2.2.2.2.2.2.2.2.2.2.2.2.2.2.2) ?_
      exact key31
  iexists _
  isplitr
  rotate_left
  · iexact HO
  · ipureintro; exact hW''

end Cert.Proof.Launch

end
-- ==== Proof.BodyEnd.lean ====
/-
  The end of the tile's task: after the last trip of the loop over positions the two copies-out still in flight
  (positions 198 and 199) are waited for, and everything the task was handed is put back together — the read shares of
  the padded table and of the index scratch from their tokens, the two rings from their slots, the tile's block of the
  result from its two hundred slabs, every one now at the lookup.
-/
import proofs.«206908_g46772193853751_cont_8to1c4_160_30_alg».proof.Proof.BodyInv

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Transfers (pointsTo_toks_join)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

variable [FloatOps F]
variable (m : (ℓ : Loc nD τ sig) → Buf (Elt F) ℓ)
variable (d : Dev nD) (L : grid0.Coords)

local notation "thr" => V d (cV L) (jV L)
local notation "qL" => qT (cL L) (sL L)

/-- The task's last statements, as the program spells them: the waits for the two staging slots' copies-out, the return. -/
def tailProg : Prog (TpuEff nD τ sig (Elt F) Λ₀ (.scVector ((L 0).castLE hcore0) ((L 1).castLE hsub0))) PUnit := do
  let v49 : Memref sig .scVector .vmem S1x64x128 .f32 := (a9).slice (Rect.unit (s := S2x64x128) ![0, 0, 0] S1x64x128.size inb_S2x64x128_S1x64x128_0_0_0) (fun _ => rfl)
  let v50 : Memref sig .scVector .vmem S64x128 .f32 := v49.squeeze S64x128 squeezes_S1x64x128_S64x128
  let v47 : Memref sig .scVector .hbm S1x64x128 .f32 := (a5).slice (Rect.unit (s := S200x64x4096) ![0, 0, 0] S1x64x128.size inb_S200x64x4096_S1x64x128_0_0_0) (fun _ => rfl)
  let v48 : Memref sig .scVector .hbm S64x128 .f32 := v47.squeeze S64x128 squeezes_S1x64x128_S64x128
  Prog.lift (.waitDma2 cc0_scratch8.sem v50 v48 ((View.wordExact_bits rfl).reshape _ _) ((View.wordExact_bits rfl).reshape _ _))
  let v55 : Memref sig .scVector .hbm S1x64x128 .f32 := (a5).slice (Rect.unit (s := S200x64x4096) ![0, 0, 0] S1x64x128.size inb_S200x64x4096_S1x64x128_0_0_0) (fun _ => rfl)
  let v56 : Memref sig .scVector .hbm S64x128 .f32 := v55.squeeze S64x128 squeezes_S1x64x128_S64x128
  let v57 : Memref sig .scVector .vmem S1x64x128 .f32 := (a9).slice (Rect.unit (s := S2x64x128) ![1, 0, 0] S1x64x128.size inb_S2x64x128_S1x64x128_1_0_0) (fun _ => rfl)
  let v58 : Memref sig .scVector .vmem S64x128 .f32 := v57.squeeze S64x128 squeezes_S1x64x128_S64x128
  Prog.lift (.waitDma2 cc0_scratch9.sem v58 v56 ((View.wordExact_bits rfl).reshape _ _) ((View.wordExact_bits rfl).reshape _ _))
  pure ⟨⟩

/-- The padded table's read share from what the gathers left of it and the four slots' tokens. -/
theorem v1_join (f : Buf (Elt F) (v1Loc d)) :
    iprop(((a3).view.loc thr ↦{shareDrop qL 4} f)
        ∗ ((a3).view.loc thr ↦[a3sSet d L]{shareTok qL 4 0} f) ∗ ((a3).view.loc thr ↦[a3sSet d L]{shareTok qL 4 1} f)
        ∗ ((a3).view.loc thr ↦[a3sSet d L]{shareTok qL 4 2} f) ∗ ((a3).view.loc thr ↦[a3sSet d L]{shareTok qL 4 3} f))
      ⊢ ((a3).view.loc thr ↦{qL} f : sProp 𝕄) := by
  unfold a3sSet
  rw [set_a3s]
  refine BI.Entails.trans ?_ (pointsTo_toks_join qL 4)
  rw [bigSep_fin4]
  exact BI.Entails.refl _

/-- The index scratch whole from the four slots' shares of it and the spare one. -/
theorem idx_join (f : Buf (Elt F) ((a6).view.loc thr)) :
    iprop(((a6).view.loc thr ↦{shareDrop fullShare 4} f)
        ∗ ((a6).view.loc thr ↦{shareTok fullShare 4 0} f) ∗ ((a6).view.loc thr ↦{shareTok fullShare 4 1} f)
        ∗ ((a6).view.loc thr ↦{shareTok fullShare 4 2} f) ∗ ((a6).view.loc thr ↦{shareTok fullShare 4 3} f))
      ⊢ ((a6).view.loc thr ↦{fullShare} f : sProp 𝕄) := by
  refine BI.Entails.trans ?_ (pointsTo_toks_join fullShare 4)
  rw [bigSep_fin4]
  exact BI.Entails.refl _

/-- The tile's block of the result at the lookup: the slabs below 198 and the last two. -/
theorem blk_done :
    iprop(doneS m d L 50 ∗ slabPt d L ⟨(4 * 50 - 2 + 0) % 200, mod200_lt _⟩ (Out3 m d) ∗ slabPt d L ⟨(4 * 50 - 2 + 1) % 200, mod200_lt _⟩ (Out3 m d))
      ⊢ ((a5).view.loc thr ↦[blk3 (wid (cL L) (sL L))]{fullShare} Out3 m d : sProp 𝕄) := by
  have e : (bigSep (Finset.univ : Finset (Fin 200)) fun l => slabPt d L l (Out3 m d) : sProp 𝕄)
      = iprop(slabPt d L ⟨199, by norm_num⟩ (Out3 m d) ∗ slabPt d L ⟨198, by norm_num⟩ (Out3 m d)
          ∗ bigSep (Finset.univ.filter fun l : Fin 200 => l.val < 198) fun l => slabPt d L l (Out3 m d)) :=
    (bigSep_lt_top _).symm.trans ((bigSep_lt_push _ 199 (by norm_num)).trans (congrArg _ (bigSep_lt_push _ 198 (by norm_num))))
  rw [blk_slabs d L (Out3 m d), e]
  unfold doneS
  iintro ⟨Hd, H198, H199⟩
  isplitl [H199]; · iexact H199
  isplitl [H198]; · iexact H198
  iexact Hd

/-- The end of the task: from the loop's invariant after its last trip, and what was set aside around the loop, the two
    waits and the return leave the task's postcondition. -/
theorem epilogue (O : CellTallies nD τ sig (HIx 1)) (W Wc : Waits sig (HIx 1)) (hW : ∀ p ∈ Wc, p ∈ W ∨ p.2 = none) :
    iprop(Iout m d L O Wc 50 ⟨⟩
        ∗ ((a2).view.loc thr ↦{qL} V0 m d) ∗ ((a4).view.loc thr ↦{qL} V2 m d)
        ∗ ((a3).view.loc thr ↦{shareDrop qL 4} V1 m d)
        ∗ ((a6).view.loc thr ↦{shareTok fullShare 4 3} Cidx m d L)
        ∗ semVal (thr, SemLoc.dma cc0_scoped0.sem) 0 ∗ semVal (thr, SemLoc.dma cc0_scoped1.sem) 0)
      ⊢ wp frame (wpE (defs₀ (F := F)) 𝒱₀ thr none) Set.univ (tailProg (F := F) L)
          (fun _ => iprop(((a2).view.loc thr ↦{qL} V0 m d) ∗ ((a3).view.loc thr ↦{qL} V1 m d) ∗ ((a4).view.loc thr ↦{qL} V2 m d)
            ∗ ((a5).view.loc thr ↦[blk3 (wid (cL L) (sL L))]{fullShare} Out3 m d)
            ∗ (∃ f, (a6).view.loc thr ↦{fullShare} f) ∗ (∃ f, (a7).view.loc thr ↦{fullShare} f)
            ∗ (∃ f, (a8).view.loc thr ↦{fullShare} f) ∗ (∃ f, (a9).view.loc thr ↦{fullShare} f)
            ∗ semVal (thr, SemLoc.dma cc0_scratch4.sem) 0 ∗ semVal (thr, SemLoc.dma cc0_scratch5.sem) 0
            ∗ semVal (thr, SemLoc.dma cc0_scratch6.sem) 0 ∗ semVal (thr, SemLoc.dma cc0_scratch7.sem) 0
            ∗ semVal (thr, SemLoc.dma cc0_scratch8.sem) 0 ∗ semVal (thr, SemLoc.dma cc0_scratch9.sem) 0
            ∗ semVal (thr, SemLoc.dma cc0_scoped0.sem) 0 ∗ semVal (thr, SemLoc.dma cc0_scoped1.sem) 0
            ∗ ∃ W', ⌜∀ p ∈ W', p ∈ W ∨ p.2 = none⌝ ∗ owes thr O W')) := by
  unfold Iout
  rw [PG_idle m d L slotG0 _ _ 0 50 (by decide), PG_idle m d L slotG1 _ _ 1 50 (by decide), PG_idle m d L slotG2 _ _ 2 50 (by decide),
    PG_idle m d L slotG3 _ _ 3 50 (by decide), PS_flight m d L slotT0 _ 0 50 (by decide), PS_flight m d L slotT1 _ 1 50 (by decide)]
  unfold FlS tailProg
  iintro ⟨⟨#Hmw, Hpos, ⟨⟨%g0, Hg0⟩, Hi0, Ht0, Hs4⟩, ⟨⟨%g1, Hg1⟩, Hi1, Ht1, Hs5⟩, ⟨⟨%g2, Hg2⟩, Hi2, Ht2, Hs6⟩, ⟨⟨%g3, Hg3⟩, Hi3, Ht3, Hs7⟩,
    ⟨%off0, %h0, %fS0, %R0, %e0, %hf0, Hfl0⟩, ⟨%off1, %h1, %fS1, %R1, %e1, %hf1, Hfl1⟩, Hdone, -, %W', %hW', HO⟩, Hv0, Hv2, Hv1, Hi4, Hsc0, Hsc1⟩
  subst e0 e1
  sl_exec
  sl_step
  ihave Hsl0 := (Entails.of_eq (pointsTo_congr hf0)) $$ Hfl0_dst
  ihave Hsl1 := (Entails.of_eq (pointsTo_congr hf1)) $$ Hfl1_dst
  isplitl [Hv0]; · iexact Hv0
  isplitl [Hv1 Ht0 Ht1 Ht2 Ht3]
  · iapply (v1_join d L (V1 m d))
    isplitl [Hv1]; · iexact Hv1
    isplitl [Ht0]; · iexact Ht0
    isplitl [Ht1]; · iexact Ht1
    isplitl [Ht2] <;> iassumption
  isplitl [Hv2]; · iexact Hv2
  isplitl [Hdone Hsl0 Hsl1]
  · iapply (blk_done m d L)
    isplitl [Hdone]; · iexact Hdone
    isplitl [Hsl0]; · iexact Hsl0
    iexact Hsl1
  isplitl [Hi0 Hi1 Hi2 Hi3 Hi4]
  · iexists (Cidx m d L)
    iapply (idx_join d L (Cidx m d L))
    isplitl [Hi0]; · iexact Hi0
    isplitl [Hi1]; · iexact Hi1
    isplitl [Hi2]; · iexact Hi2
    isplitl [Hi3] <;> iassumption
  isplitl [Hpos]; · iexists _; iexact Hpos
  isplitl [Hg0 Hg1 Hg2 Hg3]
  · iapply (ring_join d L fullShare g0 g1 g2 g3)
    isplitl [Hg0]; · iexact Hg0
    isplitl [Hg1]; · iexact Hg1
    isplitl [Hg2] <;> iassumption
  isplitl [Hfl0_src Hfl1_src]
  · iapply (stage_join d L fullShare R0 R1)
    isplitl [Hfl0_src] <;> iassumption
  isplitl [Hs4]; · iexact Hs4
  isplitl [Hs5]; · iexact Hs5
  isplitl [Hs6]; · iexact Hs6
  isplitl [Hs7]; · iexact Hs7
  isplitl [Hfl0]; · iexact Hfl0
  isplitl [Hfl1]; · iexact Hfl1
  isplitl [Hsc0]; · iexact Hsc0
  isplitl [Hsc1]; · iexact Hsc1
  iexists (insert (SemLoc.dma cc0_scratch9.sem, (default : HIx 1)) (insert (SemLoc.dma cc0_scratch8.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    rcases hW' p hp with h | h
    · exact hW p h
    · exact .inr h
  · iexact HO

end Cert.Proof.Launch

end
-- ==== Proof.LaneValue.lean ====
/-
  What a landed row gather leaves in a ring slot.

  The gather of position l copies, for each of the 128 words of row l of the index scratch, the table row that word
  names into the slot's row of the same number.  Its payload is stated over the table's whole-extent window (which reads
  the table itself) and the row's words read through the program's slice of the index scratch (word x of the row at
  offset (l, 0) is the scratch's word at (l, x)).  So once the gather has landed — the slot rewritten whole with the
  payload — the slot's element (r, c) is the table's element at the row the word at (l, r) names, column c.
-/
import proofs.«206908_g46772193853751_cont_8to1c4_160_30_alg».proof.Proof.BodyInv
import Idealize.ShloMosaic.Lib.Exec.Geometry

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

variable [FloatOps F]
variable (m : (ℓ : Loc nD τ sig) → Buf (Elt F) ℓ)
variable (d : Dev nD) (L : grid0.Coords)

local notation "thr" => V d (cV L) (jV L)

/-- Word x of the row at offset off sits in the index scratch at (off 0, off 1 + x). -/
theorem row_emb (off : Fin 2 → Nat) (h : ∀ a, off a + S1x128.size a ≤ S200x128.size a) (x : S128.Idx) :
    (rowAt off h).view.emb x
      = (ix2 (⟨off 0, by have h0 : off 0 + 1 ≤ 200 := h 0; omega⟩ : Fin 200)
          (⟨off 1 + (x 0).val, by have h1 : off 1 + 128 ≤ 128 := h 1; have := (x 0).isLt; have hx : (x 0).val < 128 := this; omega⟩ : Fin 128) : S200x128.Idx) := by
  have hre : Shape.reshapeEquiv squeezes_S1x128_S128.numel_eq x = (ix2 (0 : Fin 1) (⟨(x 0).val, (x 0).isLt⟩ : Fin 128) : S1x128.Idx) := by
    apply Shape.reshapeEquiv_eq_of_rowMajor
    rw [Shape.rowMajor_val_two, Shape.rowMajor_val_one]
    show 0 * 128 + (x 0).val = (x 0).val
    omega
  show (Rect.emb (Rect.unit (s := S200x128) off S1x128.size h)) (Shape.reshapeEquiv squeezes_S1x128_S128.numel_eq x) = _
  rw [hre]
  funext a
  apply Fin.ext
  match a with
  | ⟨0, _⟩ => show off 0 + 1 * 0 = off 0; omega
  | ⟨1, _⟩ => show off 1 + 1 * (x 0).val = off 1 + (x 0).val; omega

/-- The row's word x, read through the program's slice, is the scratch's word at (off 0, off 1 + x). -/
theorem row_read (off : Fin 2 → Nat) (h : ∀ a, off a + S1x128.size a ≤ S200x128.size a)
    (f : Buf (Elt F) ((a6).view.loc thr)) (x : S128.Idx) :
    (rowAt off h).view.read (Elt F) f x
      = f (ix2 (⟨off 0, by have h0 : off 0 + 1 ≤ 200 := h 0; omega⟩ : Fin 200)
          (⟨off 1 + (x 0).val, by have h1 : off 1 + 128 ≤ 128 := h 1; have := (x 0).isLt; have hx : (x 0).val < 128 := this; omega⟩ : Fin 128)) := by
  rw [View.read_apply, row_emb]
  exact cast_eq _ _

/-- The table's whole-extent window reads the table. -/
theorem a3s_read (f : Buf (Elt F) ((a3).view.loc thr)) : View.read (Elt F) (a3s).view f = f :=
  Memref.read_access_unit_zero (Elt F) (main_v1_scv : Ref sig .scVector) (off := ![0, 0])
    (by funext a; fin_cases a <;> rfl) inb_S100000x128_S100000x128_0_0 f

/-- The table index a gathered element (r, c) comes from: the named row, the same column. -/
theorem gather_idx (rws : Fin (S128x128.size gathers_S100000x128_S128x128.axis') → Fin (S100000x128.size gathers_S100000x128_S128x128.axis))
    (r c : Fin 128) :
    gathers_S100000x128_S128x128.idx rws (ix2 r c : S128x128.Idx) = (ix2 (rws r) c : S100000x128.Idx) := by
  funext b
  match b with
  | ⟨0, _⟩ => exact Shape.Gathers.idx_axis gathers_S100000x128_S128x128 rws (ix2 r c : S128x128.Idx)
  | ⟨1, _⟩ => exact Fin.ext (Shape.Gathers.idx_of_ne gathers_S100000x128_S128x128 rws (ix2 r c : S128x128.Idx) ⟨1, by decide⟩ (by decide))

/-- Entry k of a 128-word list, in row-major order, is its word k. -/
theorem rowMajor_symm_S128 (k : Fin S128.numel) : S128.rowMajor.symm k = (ix1 (⟨k.val, k.isLt⟩ : Fin 128) : S128.Idx) := by
  rw [Equiv.symm_apply_eq]
  exact Fin.ext (by rw [Shape.rowMajor_val_one])

/-- Once the gather of position l has landed — the slot rewritten whole with the gather's payload over the row at
    offset (l, 0) — the slot holds, at (r, c), the table's element at the row the index word at (l, r) names. -/
theorem goodG_gather (slot : Memref sig .scVector .vmem S128x128 .f32) (fprev : Buf (Elt F) (slot.view.loc thr))
    (l : ℕ) (hl : l < 200) (off : Fin 2 → Nat) (h : ∀ a, off a + S1x128.size a ≤ S200x128.size a) (hoff : off = ![l, 0])
    (hn : S128.numel = S128x128.size gathers_S100000x128_S128x128.axis')
    (hin : ∀ x, (View.read (Elt F) (rowAt off h).view (Cidx m d L) x).toNat < S100000x128.size gathers_S100000x128_S128x128.axis) :
    GoodG m d L slot l
      (slot.view.writes (Elt F) fprev [⟨Rect.whole S128x128,
        SparseCore.gatherPayload gathers_S100000x128_S128x128 (View.read (Elt F) (a3s).view (V1 m d))
          (SparseCore.rows (View.read (Elt F) (rowAt off h).view (Cidx m d L)) hn hin)⟩]) := by
  subst hoff
  intro r c
  rw [View.read_writes_whole]
  show View.read (Elt F) (a3s).view (V1 m d) (gathers_S100000x128_S128x128.idx _ (ix2 r c : S128x128.Idx)) = _
  rw [a3s_read d L, gather_idx]
  have hrow : (SparseCore.rows (View.read (Elt F) (rowAt ![l, 0] h).view (Cidx m d L)) hn hin r : Fin 100000)
      = Cert.Spec.row (Cidx m d L (ix2 (⟨l % 200, mod200_lt l⟩ : Fin 200) r)) := by
    have hw := hin (ix1 (⟨(Fin.cast hn.symm r).val, (Fin.cast hn.symm r).isLt⟩ : Fin 128))
    rw [row_read] at hw
    apply Fin.ext
    show (View.read (Elt F) (rowAt ![l, 0] h).view (Cidx m d L) (S128.rowMajor.symm (Fin.cast hn.symm r))).toNat = _
    rw [rowMajor_symm_S128, row_read]
    have e : (ix2 (⟨(![l, 0] : Fin 2 → Nat) 0, by have h0 : (![l, 0] : Fin 2 → Nat) 0 + 1 ≤ 200 := h 0; omega⟩ : Fin 200)
        (⟨(![l, 0] : Fin 2 → Nat) 1 + ((ix1 (⟨(Fin.cast hn.symm r).val, (Fin.cast hn.symm r).isLt⟩ : Fin 128) : S128.Idx) 0).val, by
          show 0 + r.val < 128; have := r.isLt; omega⟩ : Fin 128) : S200x128.Idx)
        = ix2 (⟨l % 200, mod200_lt l⟩ : Fin 200) r := by
      funext a
      match a with
      | ⟨0, _⟩ => exact Fin.ext (show l = l % 200 by omega)
      | ⟨1, _⟩ => exact Fin.ext (show 0 + r.val = r.val by omega)
    rw [e]
    rw [e] at hw
    show _ = (Cidx m d L (ix2 (⟨l % 200, mod200_lt l⟩ : Fin 200) r)).toNat % 100000
    exact (Nat.mod_eq_of_lt hw).symm
  exact congrArg (fun j : Fin 100000 => V1 m d (ix2 j c)) hrow

end Cert.Proof.Launch

end
-- ==== Proof.LaneValue2.lean ====
/-
  The index scratch's words, and why every word a row gather reads names a table row.

  The tile's index scratch holds its 128 columns of the transposed index array: the word at (l, r) is the transposed
  array's word at (l, first column + r), which is the index array's word at (first column + r, l).  Under the
  precondition every index word is below the number of table rows; so is every word read through any row slice of the
  scratch.
-/
import proofs.«206908_g46772193853751_cont_8to1c4_160_30_alg».proof.Proof.LaneValue

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

variable [FloatOps F]
variable (m : (ℓ : Loc nD τ sig) → Buf (Elt F) ℓ)
variable (d : Dev nD) (L : grid0.Coords)

local notation "thr" => V d (cV L) (jV L)

/-- Under the precondition every word of the transposed index array names a table row. -/
theorem V0_lt (hpre : PreOK m) (i : S200x4096.Idx) : (V0 m d i).toNat < 100000 := by
  have e : i = (ix2 (⟨(i 0).val, (i 0).isLt⟩ : Fin 200) (⟨(i 1).val, (i 1).isLt⟩ : Fin 4096) : S200x4096.Idx) := by
    funext a
    match a with
    | ⟨0, _⟩ => rfl
    | ⟨1, _⟩ => rfl
  rw [e, V0_apply]
  exact hpre d _ _

/-- Element (l, r) of the tile's block of the transposed index array is its element (l, first column + r). -/
theorem idxBlk_emb (j : S200x128.Idx) :
    (idxBlk L).view.emb j
      = (ix2 (⟨(j 0).val, (j 0).isLt⟩ : Fin 200)
          (⟨b0 L + (j 1).val, by have := b0_le L; have h1 : (j 1).val < 128 := (j 1).isLt; omega⟩ : Fin 4096) : S200x4096.Idx) := by
  funext a
  apply Fin.ext
  match a with
  | ⟨0, _⟩ =>
    show (k0_off1 L) 0 + 1 * (j 0).val = (j 0).val
    rw [k0_off1_eq]
    show 0 + 1 * (j 0).val = (j 0).val
    omega
  | ⟨1, _⟩ =>
    show (k0_off1 L) 1 + 1 * (j 1).val = b0 L + (j 1).val
    rw [k0_off1_eq]
    show 256 * (L 1).val + 128 * (L 0).val + 1 * (j 1).val = b0 L + (j 1).val
    unfold b0
    omega

/-- The index scratch's word at an index is the transposed index array's word under it. -/
theorem Cidx_apply (j : S200x128.Idx) : Cidx m d L j = V0 m d ((idxBlk L).view.emb j) := by
  show View.read (Elt F) (idxBlk L).view (V0 m d) j = _
  rw [View.read_apply]
  exact cast_eq _ _

/-- The index scratch's word at (l, r) is the transposed index array's word at (l, first column + r). -/
theorem Cidx_ix2 (l : Fin 200) (r : Fin 128) :
    Cidx m d L (ix2 l r)
      = V0 m d (ix2 l (⟨b0 L + r.val, by have := b0_le L; have := r.isLt; omega⟩ : Fin 4096)) := by
  rw [Cidx_apply, idxBlk_emb]

/-- Under the precondition every word of the index scratch names a table row, -/
theorem Cidx_lt (hpre : PreOK m) (j : S200x128.Idx) : (Cidx m d L j).toNat < 100000 := by
  rw [Cidx_apply]
  exact V0_lt m d hpre _

/-- and so does every word read through a row slice of it: the side condition of the row gathers. -/
theorem hin_of_pre (hpre : PreOK m) : ∀ (off : Fin 2 → Nat) (h : ∀ a, off a + S1x128.size a ≤ S200x128.size a) (hh) (x : S128.Idx),
    ((((a6).slice (Rect.unit (s := S200x128) off S1x128.size h) hh).squeeze S128 squeezes_S1x128_S128).view.read (Elt F) (Cidx m d L) x).toNat
      < S100000x128.size gathers_S100000x128_S128x128.axis := by
  intro off h hh x
  have e := row_read d L off h (Cidx m d L) x
  show ((rowAt off h).view.read (Elt F) (Cidx m d L) x).toNat < 100000
  rw [e]
  exact Cidx_lt m d L hpre _

end Cert.Proof.Launch

end
-- ==== Proof.LaneValue3.lean ====
/-
  A copied-out slab agrees with the result function.

  The copy-out of position l writes the staging slot's 64 × 128 block over slab l of the tile's block of the result:
  the slab's element (e, r) — the result's element (l, e, first column + r) — takes the slot's element (e, r).  When
  the slot holds, at (e, r), the gathered block's element (r, e) plus the positional scratch's element at packed row
  l / 2 and column (l mod 2)·64 + e, and the gathered block's row r is the table row the index word at (l, r) names,
  that is the lookup of the specification at (l, e, first column + r): the table row named by the index word, feature
  e, plus the positional table at (l, e).
-/
import proofs.«206908_g46772193853751_cont_8to1c4_160_30_alg».proof.Proof.LaneValue2
import proofs.«206908_g46772193853751_cont_8to1c4_160_30_alg».proof.Proof.LaneGood

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

variable [FloatOps F]
variable (m : (ℓ : Loc nD τ sig) → Buf (Elt F) ℓ)
variable (d : Dev nD) (L : grid0.Coords)

local notation "thr" => V d (cV L) (jV L)

/-- A load through a view over its whole rectangle reads what the view reads. -/
theorem readAt_whole_eq_read {sg : RefSig} {κ : Kind} {sp : Space} {s : Shape} {e : EltTy} {Val : EltTy → Type}
    (v : View sg κ sp s e) (f : v.ty.Contents Val) (x : s.Idx) :
    v.readAt Val (LoadRect.whole s) f x = v.read Val f x := by
  rw [View.readAt_apply]
  exact congrArg (v.read Val f) (Rect.emb_whole_apply s x)

/-- The slab rewritten whole holds, under its element x, the payload's element x. -/
theorem slab_writes_emb (off : Fin 3 → Nat) (h : ∀ a, off a + S1x64x128.size a ≤ S200x64x4096.size a)
    (f0 : Buf (Elt F) ((a5).view.loc thr)) (X : S64x128.Idx → Elt F .f32) (x : S64x128.Idx) :
    ((slabAt off h).view.writes (Elt F) f0 [⟨Rect.whole S64x128, X⟩]) ((slabAt off h).view.emb x) = X x := by
  have e := congrFun (View.read_writes_whole (slabAt off h).view f0 X) x
  rw [View.read_apply] at e
  exact (cast_eq _ _).symm.trans e

/-- The positional scratch holds the packed positional table. -/
theorem Ppos_apply (j : S100x128.Idx) : Ppos m d L j = V2 m d j := by
  show View.read (Elt F) (a4).view (V2 m d) j = _
  rw [View.read_apply]
  exact cast_eq _ _

/-- Read through the whole scratch, likewise. -/
theorem Ppos_readAt (j : S100x128.Idx) :
    View.readAt (Elt F) (Memref.whole cc0_scratch1).view (LoadRect.whole S100x128) (Ppos m d L) j = V2 m d j := by
  have e : View.readAt (Elt F) (Memref.whole cc0_scratch1).view (LoadRect.whole S100x128) (Ppos m d L) = Ppos m d L :=
    Memref.readAt_whole (Elt F) (cc0_scratch1 : Ref sig .scVector) (Ppos m d L)
  rw [e, Ppos_apply]

/-- The gathered block read through its whole rectangle, at (r, c): the table's element at the row the index word at
    (l, first column + r) of the transposed index array names. -/
theorem goodG_readAt (slotG : Memref sig .scVector .vmem S128x128 .f32) (l : ℕ) (hl : l < 200)
    (fd : Buf (Elt F) (slotG.view.loc thr)) (hG : GoodG m d L slotG l fd) (r c : Fin 128) :
    View.readAt (Elt F) slotG.view (LoadRect.whole S128x128) fd (ix2 r c)
      = V1 m d (ix2 (Cert.Spec.row (V0 m d (ix2 (⟨l, hl⟩ : Fin 200) (⟨b0 L + r.val, by have := b0_le L; have := r.isLt; omega⟩ : Fin 4096)))) c) := by
  rw [readAt_whole_eq_read, hG r c, Cidx_ix2]
  have e : (⟨l % 200, mod200_lt l⟩ : Fin 200) = ⟨l, hl⟩ := Fin.ext (Nat.mod_eq_of_lt hl)
  rw [e]

end Cert.Proof.Launch

end
-- ==== Proof.LaneValue4.lean ====
/-
  A copied-out slab agrees with the result function.

  The copy-out of position l writes the staging slot's 64 × 128 block over slab l of the tile's block of the result:
  the slab's element (e, r) — the result's element (l, e, first column + r) — takes the slot's element (e, r).  When
  the slot holds, at (e, r), the gathered block's element (r, e) plus the positional scratch's element at packed row
  l / 2 and column (l mod 2)·64 + e, and the gathered block's row r is the table row the index word at (l, r) names,
  that is the lookup of the specification at (l, e, first column + r): the table row named by the index word, feature
  e, plus the positional table at (l, e).
-/
import proofs.«206908_g46772193853751_cont_8to1c4_160_30_alg».proof.Proof.LaneValue3

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

variable [FloatOps F]
variable (m : (ℓ : Loc nD τ sig) → Buf (Elt F) ℓ)
variable (d : Dev nD) (L : grid0.Coords)

local notation "thr" => V d (cV L) (jV L)

/-- After the copy-out of position l the slab agrees with the result function on its elements. -/
theorem slab_out3 (slotT : Memref sig .scVector .vmem S64x128 .f32) (slotG : Memref sig .scVector .vmem S128x128 .f32)
    (l : ℕ) (hl : l < 200) (off : Fin 3 → Nat) (h : ∀ a, off a + S1x64x128.size a ≤ S200x64x4096.size a) (hoff : off = offS L l)
    (fd : Buf (Elt F) (slotG.view.loc thr)) (hG : GoodG m d L slotG l fd)
    (R' : Buf (Elt F) (slotT.view.loc thr)) (o w : BitVec 32) (hw : w.toNat < 100) (ho : o.toNat ≤ 64)
    (hwl : w.toNat = l / 2) (hol : o.toNat = (l % 2) * 64)
    (hT : ∀ p, View.readAt (Elt F) slotT.view (LoadRect.whole S64x128) R' p
      = Cert.Lanes.Tslot (View.readAt (Elt F) slotG.view (LoadRect.whole S128x128) fd)
          (View.readAt (Elt F) (Memref.whole cc0_scratch1).view (LoadRect.whole S100x128) (Ppos m d L)) o w hw ho p)
    (f0 : Buf (Elt F) ((a5).view.loc thr)) :
    ∀ i ∈ (slabAt off h).view.set,
      ((slabAt off h).view.writes (Elt F) f0 [(⟨Rect.whole S64x128, View.read (Elt F) slotT.view R'⟩ : View.Piece (Elt F) S64x128 .f32)]) i
        = Out3 m d i := by
  subst hoff
  intro i hi
  obtain ⟨x, rfl⟩ : ∃ x, (slabAt (offS L l) h).view.emb x = i := by
    unfold View.set at hi
    simpa only [Finset.mem_map, Finset.mem_univ, true_and] using hi
  rw [slab_writes_emb]
  have hx := hT x
  rw [readAt_whole_eq_read] at hx
  refine Eq.trans hx ?_
  have hO := Out3_slab m d L (⟨l, hl⟩ : Fin 200) x
  refine Eq.trans ?_ hO.symm
  unfold Cert.Lanes.Tslot
  have h0 : (x 0).val < 64 := (x 0).isLt
  have h1 : (x 1).val < 128 := (x 1).isLt
  have eG := goodG_readAt m d L slotG l hl fd hG (⟨(x 1).val, h1⟩ : Fin 128) (⟨(x 0).val, by omega⟩ : Fin 128)
  have eP := Ppos_readAt m d L (ix2 (⟨w.toNat, hw⟩ : Fin 100) (⟨(x 0).val + o.toNat, by omega⟩ : Fin 128))
  have eI : (ix2 (⟨w.toNat, hw⟩ : Fin 100) (⟨(x 0).val + o.toNat, by omega⟩ : Fin 128) : S100x128.Idx)
      = (ix2 (⟨l / 2, by omega⟩ : Fin 100) (⟨l % 2 * 64 + (x 0).val, by omega⟩ : Fin 128) : S100x128.Idx) := by
    funext a
    match a with
    | ⟨0, _⟩ => exact Fin.ext hwl
    | ⟨1, _⟩ => exact Fin.ext (show (x 0).val + o.toNat = l % 2 * 64 + (x 0).val by omega)
  rw [eG, eP, eI]

end Cert.Proof.Launch

end
-- ==== Proof.Body.lean ====
/-
  One tile's task: the lookup kernel run on a vector subcore.

  The tile copies its 128 batch columns of the transposed index array and the whole packed positional table into
  its scratch, keeps four row gathers in flight (one ring slot and one semaphore each), and for each position l
  waits for the gathered rows, adds the positional row while transposing 16 × 16 lane tiles into a staging slot,
  and copies the slot out to slab l of its block of the result (two staging slots, one semaphore each). The loop
  over positions runs four positions a trip; its first trip has no copy-out pending and its last issues no gather.
-/
import proofs.«206908_g46772193853751_cont_8to1c4_160_30_alg».proof.Proof.BodyInner
import proofs.«206908_g46772193853751_cont_8to1c4_160_30_alg».proof.Proof.BodyEnd
import proofs.«206908_g46772193853751_cont_8to1c4_160_30_alg».proof.Proof.LaneValue2
import proofs.«206908_g46772193853751_cont_8to1c4_160_30_alg».proof.Proof.LaneValue4
import proofs.«206908_g46772193853751_cont_8to1c4_160_30_alg».proof.Proof.Gen.KernelIdeal.Skeleton

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.KernelIdeal.main_v0_scv : Memref Cert.KernelIdeal.sig Kind.scVector Space.hbm Cert.KernelIdeal.S200x4096 EltTy.i32)
local notation "a3" => (Memref.whole Cert.KernelIdeal.main_v1_scv : Memref Cert.KernelIdeal.sig Kind.scVector Space.hbm Cert.KernelIdeal.S100000x128 EltTy.f32)
local notation "a4" => (Memref.whole Cert.KernelIdeal.main_v2_scv : Memref Cert.KernelIdeal.sig Kind.scVector Space.hbm Cert.KernelIdeal.S100x128 EltTy.f32)
local notation "a5" => (Memref.whole Cert.KernelIdeal.main_v3_scv : Memref Cert.KernelIdeal.sig Kind.scVector Space.hbm Cert.KernelIdeal.S200x64x4096 EltTy.f32)
local notation "a6" => (Memref.whole Cert.KernelIdeal.cc0_scratch0 : Memref Cert.KernelIdeal.sig Kind.scVector Space.vmem Cert.KernelIdeal.S200x128 EltTy.i32)
local notation "a7" => (Memref.whole Cert.KernelIdeal.cc0_scratch1 : Memref Cert.KernelIdeal.sig Kind.scVector Space.vmem Cert.KernelIdeal.S100x128 EltTy.f32)
local notation "a8" => (Memref.whole Cert.KernelIdeal.cc0_scratch2 : Memref Cert.KernelIdeal.sig Kind.scVector Space.vmem Cert.KernelIdeal.S4x128x128 EltTy.f32)
local notation "a9" => (Memref.whole Cert.KernelIdeal.cc0_scratch3 : Memref Cert.KernelIdeal.sig Kind.scVector Space.vmem Cert.KernelIdeal.S2x64x128 EltTy.f32)

variable [FloatOps F]
variable (m : (ℓ : Loc nD τ sig) → Buf (Elt F) ℓ)

variable (d : Dev nD) (L : grid0.Coords)
local notation "thr" => V d (cV L) (jV L)

theorem ncond2_last : ∀ g : Fin k0_t1_loop.trips, g.val = 49 → ¬ k0_cond2 g = 1#1 := by decide +kernel
theorem ncond4_last : ∀ g : Fin k0_t1_loop.trips, g.val = 49 → ¬ k0_cond4 g = 1#1 := by decide +kernel
theorem ncond6_last : ∀ g : Fin k0_t1_loop.trips, g.val = 49 → ¬ k0_cond6 g = 1#1 := by decide +kernel
theorem ncond8_last : ∀ g : Fin k0_t1_loop.trips, g.val = 49 → ¬ k0_cond8 g = 1#1 := by decide +kernel
theorem ngeq2_0 : ∀ g : Fin k0_t1_loop.trips, g.val = 0 → ¬ geq2 (lword g 0#32) = 1#1 := by decide +kernel
theorem ngeq2_1 : ∀ g : Fin k0_t1_loop.trips, g.val = 0 → ¬ geq2 (lword g 1#32) = 1#1 := by decide +kernel

/-- After the first trip the slabs written are the first two. -/
theorem done_first (Φ : Fin 200 → sProp 𝕄) (g : ℕ) (hg : g = 0) :
    bigSep (Finset.univ.filter fun l : Fin 200 => l.val < 4 * (g + 1) - 2) Φ
      = iprop(Φ ⟨1, by omega⟩ ∗ Φ ⟨0, by omega⟩ ∗ bigSep (Finset.univ.filter fun l : Fin 200 => l.val < 0) Φ) := by
  subst hg
  rw [Finset.filter_congr (fun l _ => (by omega : (l.val < 4 * (0 + 1) - 2) ↔ (l.val < 0 + 1 + 1))),
    bigSep_lt_push Φ (0 + 1) (by omega), bigSep_lt_push Φ 0 (by omega)]

theorem w_val_0 : ∀ g : Fin k0_t1_loop.trips, (Scalar.divsi (lword g 0#32) 2#32).toNat = (4 * g.val + ((0 : Fin 4) : ℕ)) / 2 := by decide +kernel
theorem w_val_1 : ∀ g : Fin k0_t1_loop.trips, (Scalar.divsi (lword g 1#32) 2#32).toNat = (4 * g.val + ((1 : Fin 4) : ℕ)) / 2 := by decide +kernel
theorem w_val_2 : ∀ g : Fin k0_t1_loop.trips, (Scalar.divsi (lword g 2#32) 2#32).toNat = (4 * g.val + ((2 : Fin 4) : ℕ)) / 2 := by decide +kernel
theorem w_val_3 : ∀ g : Fin k0_t1_loop.trips, (Scalar.divsi (lword g 3#32) 2#32).toNat = (4 * g.val + ((3 : Fin 4) : ℕ)) / 2 := by decide +kernel
theorem o_val_0 : ∀ g : Fin k0_t1_loop.trips, (0#32 : BitVec 32).toNat = ((4 * g.val + ((0 : Fin 4) : ℕ)) % 2) * 64 := by decide +kernel
theorem o_val_1 : ∀ g : Fin k0_t1_loop.trips, (64#32 : BitVec 32).toNat = ((4 * g.val + ((1 : Fin 4) : ℕ)) % 2) * 64 := by decide +kernel
theorem o_val_2 : ∀ g : Fin k0_t1_loop.trips, (0#32 : BitVec 32).toNat = ((4 * g.val + ((2 : Fin 4) : ℕ)) % 2) * 64 := by decide +kernel
theorem o_val_3 : ∀ g : Fin k0_t1_loop.trips, (64#32 : BitVec 32).toNat = ((4 * g.val + ((3 : Fin 4) : ℕ)) % 2) * 64 := by decide +kernel
theorem trips_t2 : Scf.trips k0_t2_loop.lb k0_t2_loop.ub k0_t2_loop.st = 16 := by decide
theorem trips_t3 : Scf.trips k0_t3_loop.lb k0_t3_loop.ub k0_t3_loop.st = 16 := by decide
theorem trips_t4 : Scf.trips k0_t4_loop.lb k0_t4_loop.ub k0_t4_loop.st = 16 := by decide
theorem trips_t5 : Scf.trips k0_t5_loop.lb k0_t5_loop.ub k0_t5_loop.st = 16 := by decide

theorem FlG_def (slot : Memref sig .scVector .vmem S128x128 .f32) (sem : DmaSem sig) (σ : PosShare TreeShare) (j : Fin 4) (l : ℕ) :
    FlG m d L slot sem σ j l = iprop(∃ (off : Fin 2 → Nat) (h : ∀ a, off a + S1x128.size a ≤ S200x128.size a) (fd : Buf (Elt F) (slot.view.loc thr)),
    (Transfers.Flight countersEmb thr (SemLoc.dma sem) (default : HIx 1) 524288
      iprop(((slot.view.loc thr ↦[slot.view.set]{fullShare} fd)
          ∗ ((a6).view.loc thr ↦[rowSetAt d L off h]{σ} Cidx m d L))
        ∗ ((a3).view.loc thr ↦[a3sSet d L]{shareTok (qT (cL L) (sL L)) 4 j} V1 m d))
    ∗ ((a6).view.loc thr ↦[Finset.univ \ rowSetAt d L off h]{σ} Cidx m d L))
    ∗ ⌜off = ![l, 0]⌝ ∗ ⌜GoodG m d L slot l fd⌝) := rfl
theorem FlS_def (slotT : Memref sig .scVector .vmem S64x128 .f32) (sem : DmaSem sig) (l : ℕ) :
    FlS m d L slotT sem l = iprop(∃ (off : Fin 3 → Nat) (h : ∀ a, off a + S1x64x128.size a ≤ S200x64x4096.size a)
      (fS : Buf (Elt F) ((a5).view.loc thr)) (R : Buf (Elt F) (slotT.view.loc thr)),
    ⌜off = offS L l⌝ ∗ ⌜∀ i ∈ slabSetAt d L off h, fS i = Out3 m d i⌝ ∗
    Transfers.Flight countersEmb thr (SemLoc.dma sem) (default : HIx 1) 262144
      iprop(((slabAt off h).view.loc thr ↦[(slabAt off h).view.set]{fullShare} fS) ∗ (slotT.view.loc thr ↦[slotT.view.set]{fullShare} R))) := rfl

theorem todoS_def (n : ℕ) : todoS m d L n = bigSep (Finset.univ.filter fun l : Fin 200 => 4 * n ≤ l.val) (fun l => slabPt d L l (m (v3Loc d))) := rfl
theorem doneS_def (n : ℕ) : doneS m d L n = bigSep (Finset.univ.filter fun l : Fin 200 => l.val < 4 * n - 2) (fun l => slabPt d L l (Out3 m d)) := rfl

/-- Four more slabs written: the slabs below 4 (g + 1) - 2 are those below 4 g - 2 and the four next. -/
theorem done_push4 (Φ : Fin 200 → sProp 𝕄) (g : ℕ) (hg1 : 1 ≤ g) (hg2 : g < 50) :
    bigSep (Finset.univ.filter fun l : Fin 200 => l.val < 4 * (g + 1) - 2) Φ
      = iprop(Φ ⟨4 * g - 2 + 1 + 1 + 1, by omega⟩ ∗ Φ ⟨4 * g - 2 + 1 + 1, by omega⟩ ∗ Φ ⟨4 * g - 2 + 1, by omega⟩ ∗ Φ ⟨4 * g - 2, by omega⟩
          ∗ bigSep (Finset.univ.filter fun l : Fin 200 => l.val < 4 * g - 2) Φ) := by
  rw [Finset.filter_congr (fun l _ => (by omega : (l.val < 4 * (g + 1) - 2) ↔ (l.val < 4 * g - 2 + 1 + 1 + 1 + 1))),
    bigSep_lt_push Φ (4 * g - 2 + 1 + 1 + 1) (by omega), bigSep_lt_push Φ (4 * g - 2 + 1 + 1) (by omega),
    bigSep_lt_push Φ (4 * g - 2 + 1) (by omega), bigSep_lt_push Φ (4 * g - 2) (by omega)]

set_option maxHeartbeats 2000000 in
set_option maxRecDepth 65536 in
theorem region_mid (hpre : PreOK m) (O : CellTallies nD τ sig (HIx 1)) (W : Waits sig (HIx 1)) (g : Fin k0_t1_loop.trips) (hg1 : 1 ≤ g.val) (hg2 : g.val < 49) :
    (Iout m d L O W g.val ⟨⟩ : sProp 𝕄)
      ⊢ wp frame (wpE (defs₀ (F := F)) 𝒱₀ thr none) Set.univ
          (k0_t1_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177 g ())
          fun _ => Iout m d L O W (g.val + 1) ⟨⟩ := by
  rw [k0_t1_body]
  have k0_h1 : geq2 (lword g 0#32) = 1#1 := geq2_0 g hg1
  have k0_h2 : k0_cond2 g = 1#1 := cond2_mid g hg2
  have k0_h3 : geq2 (lword g 1#32) = 1#1 := geq2_1 g hg1
  have k0_h4 : k0_cond4 g = 1#1 := cond4_mid g hg2
  have k0_h5 : geq2 (lword g 2#32) = 1#1 := geq2_2 g
  have k0_h6 : k0_cond6 g = 1#1 := cond6_mid g hg2
  have k0_h7 : geq2 (lword g 3#32) = 1#1 := geq2_3 g
  have k0_h8 : k0_cond8 g = 1#1 := cond8_mid g hg2
  have hin : ∀ (off : Fin 2 → Nat) (h : ∀ a, off a + S1x128.size a ≤ S200x128.size a) (hh) (x : S128.Idx),
      ((((a6).slice (Rect.unit (s := S200x128) off S1x128.size h) hh).squeeze S128 squeezes_S1x128_S128).view.read (Elt F) (Cidx m d L) x).toNat
        < S100000x128.size gathers_S100000x128_S128x128.axis := hin_of_pre m d L hpre

  unfold Iout
  iintro ⟨Hmw, H7, P0, P1, P2, P3, S0, S1, Hdone, Htodo, %W', %hW', HO⟩
  ihave P0' := (Entails.of_eq ((PG_flight m d L slotG0 cc0_scratch4.sem (shareDrop fullShare 4) 0 g.val (by omega)).trans (FlG_def m d L _ _ _ _ _))) $$ P0
  icases P0' with ⟨%off0, %hoff0, %fd0, ⟨F0, R0⟩, %eoff0, %hfd0⟩
  ihave P1' := (Entails.of_eq ((PG_flight m d L slotG1 cc0_scratch5.sem (shareTok fullShare 4 0) 1 g.val (by omega)).trans (FlG_def m d L _ _ _ _ _))) $$ P1
  icases P1' with ⟨%off1, %hoff1, %fd1, ⟨F1, R1⟩, %eoff1, %hfd1⟩
  ihave P2' := (Entails.of_eq ((PG_flight m d L slotG2 cc0_scratch6.sem (shareTok fullShare 4 1) 2 g.val (by omega)).trans (FlG_def m d L _ _ _ _ _))) $$ P2
  icases P2' with ⟨%off2, %hoff2, %fd2, ⟨F2, R2⟩, %eoff2, %hfd2⟩
  ihave P3' := (Entails.of_eq ((PG_flight m d L slotG3 cc0_scratch7.sem (shareTok fullShare 4 2) 3 g.val (by omega)).trans (FlG_def m d L _ _ _ _ _))) $$ P3
  icases P3' with ⟨%off3, %hoff3, %fd3, ⟨F3, R3⟩, %eoff3, %hfd3⟩
  ihave S0' := (Entails.of_eq ((PS_flight m d L slotT0 cc0_scratch8.sem 0 g.val (by omega)).trans (FlS_def m d L _ _ _))) $$ S0
  icases S0' with ⟨%soff0, %shoff0, %fS0, %RT0, %esoff0, %hfS0, FS0⟩
  ihave S1' := (Entails.of_eq ((PS_flight m d L slotT1 cc0_scratch9.sem 1 g.val (by omega)).trans (FlS_def m d L _ _ _))) $$ S1
  icases S1' with ⟨%soff1, %shoff1, %fS1, %RT1, %esoff1, %hfS1, FS1⟩

  sl_exec
  -- quarter 0: the landed ring slot 0, the staging slot 0
  icases F0_dst with ⟨HG0, Hrow0⟩
  irename FS0_dst => D0
  sl_for (Iin m d L slotG0 slotT0 O W fd0 0#32 (Scalar.divsi (lword g 0#32) 2#32) (w_lt_0 g) o_le_0) $$ [Hmw H7 HG0 FS0_src HO]
  case region =>
    intro k hk
    exact inner0 m d L O W g fd0 k hk
  · unfold Iin
    isplitl [Hmw]; · iexact Hmw
    isplitl [H7]; · iexact H7
    isplitl [HG0]; · iexact HG0
    isplitl [FS0_src]
    · iexists _
      isplitr
      rotate_left
      · iexact FS0_src
      · ipureintro; exact Cert.Lanes.AccTo_zero ▸ Cert.Lanes.goodM_empty slotT0 _ _
    iexists _
    isplitr
    rotate_left
    · iexact HO
    · ipureintro; exact waits_ok_insert _ (waits_ok_insert _ hW')
  iintro %_ HI
  unfold Iin
  icases HI with ⟨Hmw, H7, HG0, ⟨%RT0', %hRT0, HT0⟩, %Wr0, %hWr0, HO⟩
  have hT0 : ∀ p, View.readAt (Elt F) slotT0.view (LoadRect.whole S64x128) RT0' p
      = Cert.Lanes.Tslot (View.readAt (Elt F) slotG0.view (LoadRect.whole S128x128) fd0) (PposV m d L) 0#32 (Scalar.divsi (lword g 0#32) 2#32) (w_lt_0 g) o_le_0 p :=
    fun p => hRT0 p (by rw [trips_t2, Cert.Lanes.AccTo_full]; trivial)
  -- the row goes back to its share of the index scratch; slab 4 g + 0 in the program's spelling; the table's token whole
  ihave H6w0 := (pointsTo_split_subset (Finset.subset_univ (rowSetAt d L off0 hoff0))).2 $$ [Hrow0 R0]
  · isplitl [Hrow0]; · iexact Hrow0
    iexact R0
  ihave T0 := (Entails.of_eq ((todoS_def m d L g.val).trans (bigSep_ge_pop (fun l => slabPt d L l (m (v3Loc d))) (4 * g.val) (by omega)))) $$ Htodo
  icases T0 with ⟨Sl0, Htodo⟩
  have es0 : (slabPt d L ⟨4 * g.val, by omega⟩ (m (v3Loc d)) : sProp 𝕄)
      = ((slabAt (k0_off2 L g 0#32) (k0_off2_inb L g 0)).view.loc thr ↦[(slabAt (k0_off2 L g 0#32) (k0_off2_inb L g 0)).view.set]{fullShare} m (v3Loc d)) :=
    (slab_pts_off2 d L g 0 fullShare (m (v3Loc d))).symm
  ihave Sl0' := (Entails.of_eq es0) $$ Sl0
  ihave H3w0 := (Entails.of_eq (a3s_pts d L (shareTok (qT (cL L) (sL L)) 4 0) (V1 m d))) $$ F0_src
  sl_exec
  -- quarter 1: the landed ring slot 1, the staging slot 1
  icases F1_dst with ⟨HG1, Hrow1⟩
  irename FS1_dst => D1
  sl_for (Iin m d L slotG1 slotT1 O W fd1 64#32 (Scalar.divsi (lword g 1#32) 2#32) (w_lt_1 g) o_le_64) $$ [Hmw H7 HG1 FS1_src HO]
  case region =>
    intro k hk
    exact inner1 m d L O W g _ _ _ fd1 k hk
  · unfold Iin
    isplitl [Hmw]; · iexact Hmw
    isplitl [H7]; · iexact H7
    isplitl [HG1]; · iexact HG1
    isplitl [FS1_src]
    · iexists _
      isplitr
      rotate_left
      · iexact FS1_src
      · ipureintro; exact Cert.Lanes.AccTo_zero ▸ Cert.Lanes.goodM_empty slotT1 _ _
    iexists _
    isplitr
    rotate_left
    · iexact HO
    · ipureintro; exact waits_ok_insert _ (waits_ok_insert _ hWr0)
  iintro %_ HI
  unfold Iin
  icases HI with ⟨Hmw, H7, HG1, ⟨%RT1', %hRT1, HT1⟩, %Wr1, %hWr1, HO⟩
  have hT1 : ∀ p, View.readAt (Elt F) slotT1.view (LoadRect.whole S64x128) RT1' p
      = Cert.Lanes.Tslot (View.readAt (Elt F) slotG1.view (LoadRect.whole S128x128) fd1) (PposV m d L) 64#32 (Scalar.divsi (lword g 1#32) 2#32) (w_lt_1 g) o_le_64 p :=
    fun p => hRT1 p (by rw [trips_t3, Cert.Lanes.AccTo_full]; trivial)
  -- the row goes back to its share of the index scratch; slab 4 g + 1 in the program's spelling; the table's token whole
  ihave H6w1 := (pointsTo_split_subset (Finset.subset_univ (rowSetAt d L off1 hoff1))).2 $$ [Hrow1 R1]
  · isplitl [Hrow1]; · iexact Hrow1
    iexact R1
  ihave T1 := (Entails.of_eq ((bigSep_ge_pop (fun l => slabPt d L l (m (v3Loc d))) (4 * g.val + 1) (by omega)))) $$ Htodo
  icases T1 with ⟨Sl1, Htodo⟩
  have es1 : (slabPt d L ⟨4 * g.val + 1, by omega⟩ (m (v3Loc d)) : sProp 𝕄)
      = ((slabAt (k0_off2 L g 1#32) (k0_off2_inb L g 1)).view.loc thr ↦[(slabAt (k0_off2 L g 1#32) (k0_off2_inb L g 1)).view.set]{fullShare} m (v3Loc d)) :=
    (slab_pts_off2 d L g 1 fullShare (m (v3Loc d))).symm
  ihave Sl1' := (Entails.of_eq es1) $$ Sl1
  ihave H3w1 := (Entails.of_eq (a3s_pts d L (shareTok (qT (cL L) (sL L)) 4 1) (V1 m d))) $$ F1_src
  sl_exec
  -- quarter 2: the landed ring slot 2, the staging slot 0
  icases F2_dst with ⟨HG2, Hrow2⟩
  sl_for (Iin m d L slotG2 slotT0 O W fd2 0#32 (Scalar.divsi (lword g 2#32) 2#32) (w_lt_2 g) o_le_0) $$ [Hmw H7 HG2 HT0 HO]
  case region =>
    intro k hk
    exact inner2 m d L O W g _ _ fd2 k hk
  · unfold Iin
    isplitl [Hmw]; · iexact Hmw
    isplitl [H7]; · iexact H7
    isplitl [HG2]; · iexact HG2
    isplitl [HT0]
    · iexists _
      isplitr
      rotate_left
      · iexact HT0
      · ipureintro; exact Cert.Lanes.AccTo_zero ▸ Cert.Lanes.goodM_empty slotT0 _ _
    iexists _
    isplitr
    rotate_left
    · iexact HO
    · ipureintro; exact waits_ok_insert _ (waits_ok_insert _ hWr1)
  iintro %_ HI
  unfold Iin
  icases HI with ⟨Hmw, H7, HG2, ⟨%RT2', %hRT2, HT2⟩, %Wr2, %hWr2, HO⟩
  have hT2 : ∀ p, View.readAt (Elt F) slotT0.view (LoadRect.whole S64x128) RT2' p
      = Cert.Lanes.Tslot (View.readAt (Elt F) slotG2.view (LoadRect.whole S128x128) fd2) (PposV m d L) 0#32 (Scalar.divsi (lword g 2#32) 2#32) (w_lt_2 g) o_le_0 p :=
    fun p => hRT2 p (by rw [trips_t4, Cert.Lanes.AccTo_full]; trivial)
  -- the row goes back to its share of the index scratch; slab 4 g + 2 in the program's spelling; the table's token whole
  ihave H6w2 := (pointsTo_split_subset (Finset.subset_univ (rowSetAt d L off2 hoff2))).2 $$ [Hrow2 R2]
  · isplitl [Hrow2]; · iexact Hrow2
    iexact R2
  ihave T2 := (Entails.of_eq ((bigSep_ge_pop (fun l => slabPt d L l (m (v3Loc d))) (4 * g.val + 1 + 1) (by omega)))) $$ Htodo
  icases T2 with ⟨Sl2, Htodo⟩
  have es2 : (slabPt d L ⟨4 * g.val + 1 + 1, by omega⟩ (m (v3Loc d)) : sProp 𝕄)
      = ((slabAt (k0_off2 L g 2#32) (k0_off2_inb L g 2)).view.loc thr ↦[(slabAt (k0_off2 L g 2#32) (k0_off2_inb L g 2)).view.set]{fullShare} m (v3Loc d)) :=
    (slab_pts_off2 d L g 2 fullShare (m (v3Loc d))).symm
  ihave Sl2' := (Entails.of_eq es2) $$ Sl2
  ihave H3w2 := (Entails.of_eq (a3s_pts d L (shareTok (qT (cL L) (sL L)) 4 2) (V1 m d))) $$ F2_src
  sl_exec
  -- quarter 3: the landed ring slot 3, the staging slot 1
  icases F3_dst with ⟨HG3, Hrow3⟩
  sl_for (Iin m d L slotG3 slotT1 O W fd3 64#32 (Scalar.divsi (lword g 3#32) 2#32) (w_lt_3 g) o_le_64) $$ [Hmw H7 HG3 HT1 HO]
  case region =>
    intro k hk
    exact inner3 m d L O W g fd3 k hk
  · unfold Iin
    isplitl [Hmw]; · iexact Hmw
    isplitl [H7]; · iexact H7
    isplitl [HG3]; · iexact HG3
    isplitl [HT1]
    · iexists _
      isplitr
      rotate_left
      · iexact HT1
      · ipureintro; exact Cert.Lanes.AccTo_zero ▸ Cert.Lanes.goodM_empty slotT1 _ _
    iexists _
    isplitr
    rotate_left
    · iexact HO
    · ipureintro; exact waits_ok_insert _ (waits_ok_insert _ hWr2)
  iintro %_ HI
  unfold Iin
  icases HI with ⟨Hmw, H7, HG3, ⟨%RT3', %hRT3, HT3⟩, %Wr3, %hWr3, HO⟩
  have hT3 : ∀ p, View.readAt (Elt F) slotT1.view (LoadRect.whole S64x128) RT3' p
      = Cert.Lanes.Tslot (View.readAt (Elt F) slotG3.view (LoadRect.whole S128x128) fd3) (PposV m d L) 64#32 (Scalar.divsi (lword g 3#32) 2#32) (w_lt_3 g) o_le_64 p :=
    fun p => hRT3 p (by rw [trips_t5, Cert.Lanes.AccTo_full]; trivial)
  -- the row goes back to its share of the index scratch; slab 4 g + 3 in the program's spelling; the table's token whole
  ihave H6w3 := (pointsTo_split_subset (Finset.subset_univ (rowSetAt d L off3 hoff3))).2 $$ [Hrow3 R3]
  · isplitl [Hrow3]; · iexact Hrow3
    iexact R3
  ihave T3 := (Entails.of_eq ((bigSep_ge_pop (fun l => slabPt d L l (m (v3Loc d))) (4 * g.val + 1 + 1 + 1) (by omega)))) $$ Htodo
  icases T3 with ⟨Sl3, Htodo⟩
  have es3 : (slabPt d L ⟨4 * g.val + 1 + 1 + 1, by omega⟩ (m (v3Loc d)) : sProp 𝕄)
      = ((slabAt (k0_off2 L g 3#32) (k0_off2_inb L g 3)).view.loc thr ↦[(slabAt (k0_off2 L g 3#32) (k0_off2_inb L g 3)).view.set]{fullShare} m (v3Loc d)) :=
    (slab_pts_off2 d L g 3 fullShare (m (v3Loc d))).symm
  ihave Sl3' := (Entails.of_eq es3) $$ Sl3
  ihave H3w3 := (Entails.of_eq (a3s_pts d L (shareTok (qT (cL L) (sL L)) 4 3) (V1 m d))) $$ F3_src
  sl_exec
  sl_step
  isplitl [Hmw]; · iexact Hmw
  isplitl [H7]; · iexact H7
  isplitl [F0 H6w0]
  · iapply (Entails.of_eq (PG_flight m d L slotG0 cc0_scratch4.sem (shareDrop fullShare 4) 0 (g.val + 1) (by omega)).symm)
    unfold FlG
    iexists (k0_off3 g), (k0_off3_inb g k0_h2), _
    isplitl [F0 H6w0]
    · isplitl [F0]; · iexact F0
      iexact H6w0
    isplitr; · ipureintro; exact (k0_off3_eq g).trans (congrArg (fun x => (![x, 0] : Fin 2 → ℕ)) (by simp; omega))
    ipureintro
    exact goodG_gather m d L slotG0 fd0 (4 * (g.val + 1) + ((0 : Fin 4) : ℕ)) (by simp; omega) (k0_off3 g) (k0_off3_inb g k0_h2)
      ((k0_off3_eq g).trans (congrArg (fun x => (![x, 0] : Fin 2 → ℕ)) (by simp; omega))) rfl (fun x => hin _ _ _ x)
  isplitl [F1 H6w1]
  · iapply (Entails.of_eq (PG_flight m d L slotG1 cc0_scratch5.sem (shareTok fullShare 4 0) 1 (g.val + 1) (by omega)).symm)
    unfold FlG
    iexists (k0_off4 g), (k0_off4_inb g k0_h4), _
    isplitl [F1 H6w1]
    · isplitl [F1]; · iexact F1
      iexact H6w1
    isplitr; · ipureintro; exact (k0_off4_eq g).trans (congrArg (fun x => (![x, 0] : Fin 2 → ℕ)) (by simp; omega))
    ipureintro
    exact goodG_gather m d L slotG1 fd1 (4 * (g.val + 1) + ((1 : Fin 4) : ℕ)) (by simp; omega) (k0_off4 g) (k0_off4_inb g k0_h4)
      ((k0_off4_eq g).trans (congrArg (fun x => (![x, 0] : Fin 2 → ℕ)) (by simp; omega))) rfl (fun x => hin _ _ _ x)
  isplitl [F2 H6w2]
  · iapply (Entails.of_eq (PG_flight m d L slotG2 cc0_scratch6.sem (shareTok fullShare 4 1) 2 (g.val + 1) (by omega)).symm)
    unfold FlG
    iexists (k0_off5 g), (k0_off5_inb g k0_h6), _
    isplitl [F2 H6w2]
    · isplitl [F2]; · iexact F2
      iexact H6w2
    isplitr; · ipureintro; exact (k0_off5_eq g).trans (congrArg (fun x => (![x, 0] : Fin 2 → ℕ)) (by simp; omega))
    ipureintro
    exact goodG_gather m d L slotG2 fd2 (4 * (g.val + 1) + ((2 : Fin 4) : ℕ)) (by simp; omega) (k0_off5 g) (k0_off5_inb g k0_h6)
      ((k0_off5_eq g).trans (congrArg (fun x => (![x, 0] : Fin 2 → ℕ)) (by simp; omega))) rfl (fun x => hin _ _ _ x)
  isplitl [F3 H6w3]
  · iapply (Entails.of_eq (PG_flight m d L slotG3 cc0_scratch7.sem (shareTok fullShare 4 2) 3 (g.val + 1) (by omega)).symm)
    unfold FlG
    iexists (k0_off6 g), (k0_off6_inb g k0_h8), _
    isplitl [F3 H6w3]
    · isplitl [F3]; · iexact F3
      iexact H6w3
    isplitr; · ipureintro; exact (k0_off6_eq g).trans (congrArg (fun x => (![x, 0] : Fin 2 → ℕ)) (by simp; omega))
    ipureintro
    exact goodG_gather m d L slotG3 fd3 (4 * (g.val + 1) + ((3 : Fin 4) : ℕ)) (by simp; omega) (k0_off6 g) (k0_off6_inb g k0_h8)
      ((k0_off6_eq g).trans (congrArg (fun x => (![x, 0] : Fin 2 → ℕ)) (by simp; omega))) rfl (fun x => hin _ _ _ x)
  isplitl [FS0]
  · iapply (Entails.of_eq (PS_flight m d L slotT0 cc0_scratch8.sem 0 (g.val + 1) (by omega)).symm)
    unfold FlS
    iexists (k0_off2 L g 2#32), (k0_off2_inb L g 2), _, _
    isplitr; · ipureintro; exact (slab_off2 L g 2).trans (congrArg (offS L) (by simp [lOf]; omega))
    isplitr
    rotate_left
    · iexact FS0
    · ipureintro
      unfold region_mid.sl.dma0_2
      exact slab_out3 m d L slotT0 slotG2 (4 * g.val + ((2 : Fin 4) : ℕ)) (by simp; omega) (k0_off2 L g 2#32) (k0_off2_inb L g 2) (slab_off2 L g 2) fd2 hfd2 RT2' 0#32 (Scalar.divsi (lword g 2#32) 2#32) (w_lt_2 g) o_le_0 (w_val_2 g) (o_val_2 g) hT2 (m (v3Loc d))
  isplitl [FS1]
  · iapply (Entails.of_eq (PS_flight m d L slotT1 cc0_scratch9.sem 1 (g.val + 1) (by omega)).symm)
    unfold FlS
    iexists (k0_off2 L g 3#32), (k0_off2_inb L g 3), _, _
    isplitr; · ipureintro; exact (slab_off2 L g 3).trans (congrArg (offS L) (by simp [lOf]; omega))
    isplitr
    rotate_left
    · iexact FS1
    · ipureintro
      unfold region_mid.sl.dma0_3
      exact slab_out3 m d L slotT1 slotG3 (4 * g.val + ((3 : Fin 4) : ℕ)) (by simp; omega) (k0_off2 L g 3#32) (k0_off2_inb L g 3) (slab_off2 L g 3) fd3 hfd3 RT3' 64#32 (Scalar.divsi (lword g 3#32) 2#32) (w_lt_3 g) o_le_64 (w_val_3 g) (o_val_3 g) hT3 (m (v3Loc d))
  isplitl [Hdone D0 D1 Sl0' Sl1']
  · -- the four slabs written since the head of the trip agree with the result function on their elements
    have hSl0 : ∀ i ∈ slabSetAt d L (k0_off2 L g 0#32) (k0_off2_inb L g 0),
        ((slabAt (k0_off2 L g 0#32) (k0_off2_inb L g 0)).view.writes (Elt F) (slabAt (k0_off2 L g 0#32) (k0_off2_inb L g 0)).view.junk [⟨Rect.whole S64x128, region_mid.sl.dma0 RT0'⟩]) i = Out3 m d i := by
      unfold region_mid.sl.dma0
      exact slab_out3 m d L slotT0 slotG0 (4 * g.val + ((0 : Fin 4) : ℕ)) (by simp; omega) (k0_off2 L g 0#32) (k0_off2_inb L g 0) (slab_off2 L g 0) fd0 hfd0 RT0' 0#32 (Scalar.divsi (lword g 0#32) 2#32) (w_lt_0 g) o_le_0 (w_val_0 g) (o_val_0 g) hT0 _
    have hSl1 : ∀ i ∈ slabSetAt d L (k0_off2 L g 1#32) (k0_off2_inb L g 1),
        ((slabAt (k0_off2 L g 1#32) (k0_off2_inb L g 1)).view.writes (Elt F) (slabAt (k0_off2 L g 1#32) (k0_off2_inb L g 1)).view.junk [⟨Rect.whole S64x128, region_mid.sl.dma0_1 RT1'⟩]) i = Out3 m d i := by
      unfold region_mid.sl.dma0_1
      exact slab_out3 m d L slotT1 slotG1 (4 * g.val + ((1 : Fin 4) : ℕ)) (by simp; omega) (k0_off2 L g 1#32) (k0_off2_inb L g 1) (slab_off2 L g 1) fd1 hfd1 RT1' 64#32 (Scalar.divsi (lword g 1#32) 2#32) (w_lt_1 g) o_le_64 (w_val_1 g) (o_val_1 g) hT1 _
    subst esoff0 esoff1
    iapply (Entails.of_eq ((doneS_def m d L (g.val + 1)).trans (done_push4 (fun l => slabPt d L l (Out3 m d)) g.val hg1 (by omega))).symm)
    isplitl [Sl1']
    · ihave A := (Entails.of_eq (pointsTo_congr hSl1)) $$ Sl1'
      have eB : ((slabAt (k0_off2 L g 1#32) (k0_off2_inb L g 1)).view.loc thr ↦[(slabAt (k0_off2 L g 1#32) (k0_off2_inb L g 1)).view.set]{fullShare} Out3 m d : sProp 𝕄)
          = slabPt d L (lOf g 1) (Out3 m d) := slab_pts_off2 d L g 1 fullShare (Out3 m d)
      ihave B := (Entails.of_eq eB) $$ A
      iapply (Entails.of_eq (congrArg (fun l => slabPt d L l (Out3 m d)) (Fin.ext (by simp [lOf] <;> omega) : (⟨4 * g.val - 2 + 1 + 1 + 1, _⟩ : Fin 200) = lOf g 1)).symm)
      iexact B
    isplitl [Sl0']
    · ihave A := (Entails.of_eq (pointsTo_congr hSl0)) $$ Sl0'
      have eB : ((slabAt (k0_off2 L g 0#32) (k0_off2_inb L g 0)).view.loc thr ↦[(slabAt (k0_off2 L g 0#32) (k0_off2_inb L g 0)).view.set]{fullShare} Out3 m d : sProp 𝕄)
          = slabPt d L (lOf g 0) (Out3 m d) := slab_pts_off2 d L g 0 fullShare (Out3 m d)
      ihave B := (Entails.of_eq eB) $$ A
      iapply (Entails.of_eq (congrArg (fun l => slabPt d L l (Out3 m d)) (Fin.ext (by simp [lOf] <;> omega) : (⟨4 * g.val - 2 + 1 + 1, _⟩ : Fin 200) = lOf g 0)).symm)
      iexact B
    isplitl [D1]
    · ihave A := (Entails.of_eq (pointsTo_congr hfS1)) $$ D1
      iexact A
    isplitl [D0]
    · ihave A := (Entails.of_eq (pointsTo_congr hfS0)) $$ D0
      iexact A
    iapply (Entails.of_eq (doneS_def m d L g.val))
    iexact Hdone
  isplitl [Htodo]
  · have etodo : bigSep (Finset.univ.filter fun l : Fin 200 => 4 * g.val + 1 + 1 + 1 + 1 ≤ l.val) (fun l => slabPt d L l (m (v3Loc d)))
        = todoS m d L (g.val + 1) := by
      unfold todoS
      rw [Finset.filter_congr (fun l _ => (by omega : (4 * g.val + 1 + 1 + 1 + 1 ≤ l.val) ↔ (4 * (g.val + 1) ≤ l.val)))]
    iapply (Entails.of_eq etodo)
    iexact Htodo
  iexists _
  isplitr
  rotate_left
  · iexact HO
  · ipureintro; exact hWr3

set_option maxHeartbeats 2000000 in
set_option maxRecDepth 65536 in
theorem region_first (hpre : PreOK m) (O : CellTallies nD τ sig (HIx 1)) (W : Waits sig (HIx 1)) (g : Fin k0_t1_loop.trips) (hg : g.val = 0) :
    (Iout m d L O W g.val ⟨⟩ : sProp 𝕄)
      ⊢ wp frame (wpE (defs₀ (F := F)) 𝒱₀ thr none) Set.univ
          (k0_t1_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177 g ())
          fun _ => Iout m d L O W (g.val + 1) ⟨⟩ := by
  rw [k0_t1_body]
  have hg2 : g.val < 49 := by omega
  have k0_h1 : ¬ geq2 (lword g 0#32) = 1#1 := ngeq2_0 g hg
  have k0_h2 : k0_cond2 g = 1#1 := cond2_mid g hg2
  have k0_h3 : ¬ geq2 (lword g 1#32) = 1#1 := ngeq2_1 g hg
  have k0_h4 : k0_cond4 g = 1#1 := cond4_mid g hg2
  have k0_h5 : geq2 (lword g 2#32) = 1#1 := geq2_2 g
  have k0_h6 : k0_cond6 g = 1#1 := cond6_mid g hg2
  have k0_h7 : geq2 (lword g 3#32) = 1#1 := geq2_3 g
  have k0_h8 : k0_cond8 g = 1#1 := cond8_mid g hg2
  have hin : ∀ (off : Fin 2 → Nat) (h : ∀ a, off a + S1x128.size a ≤ S200x128.size a) (hh) (x : S128.Idx),
      ((((a6).slice (Rect.unit (s := S200x128) off S1x128.size h) hh).squeeze S128 squeezes_S1x128_S128).view.read (Elt F) (Cidx m d L) x).toNat
        < S100000x128.size gathers_S100000x128_S128x128.axis := hin_of_pre m d L hpre

  unfold Iout
  iintro ⟨Hmw, H7, P0, P1, P2, P3, S0, S1, Hdone, Htodo, %W', %hW', HO⟩
  ihave P0' := (Entails.of_eq ((PG_flight m d L slotG0 cc0_scratch4.sem (shareDrop fullShare 4) 0 g.val (by omega)).trans (FlG_def m d L _ _ _ _ _))) $$ P0
  icases P0' with ⟨%off0, %hoff0, %fd0, ⟨F0, R0⟩, %eoff0, %hfd0⟩
  ihave P1' := (Entails.of_eq ((PG_flight m d L slotG1 cc0_scratch5.sem (shareTok fullShare 4 0) 1 g.val (by omega)).trans (FlG_def m d L _ _ _ _ _))) $$ P1
  icases P1' with ⟨%off1, %hoff1, %fd1, ⟨F1, R1⟩, %eoff1, %hfd1⟩
  ihave P2' := (Entails.of_eq ((PG_flight m d L slotG2 cc0_scratch6.sem (shareTok fullShare 4 1) 2 g.val (by omega)).trans (FlG_def m d L _ _ _ _ _))) $$ P2
  icases P2' with ⟨%off2, %hoff2, %fd2, ⟨F2, R2⟩, %eoff2, %hfd2⟩
  ihave P3' := (Entails.of_eq ((PG_flight m d L slotG3 cc0_scratch7.sem (shareTok fullShare 4 2) 3 g.val (by omega)).trans (FlG_def m d L _ _ _ _ _))) $$ P3
  icases P3' with ⟨%off3, %hoff3, %fd3, ⟨F3, R3⟩, %eoff3, %hfd3⟩
  have ePS0 : PS m d L slotT0 cc0_scratch8.sem 0 g.val
      = iprop((∃ f, slotT0.view.loc thr ↦[slotT0.view.set]{fullShare} f) ∗ semVal (thr, SemLoc.dma cc0_scratch8.sem) 0) := by
    rw [hg]; exact PS_idle m d L slotT0 cc0_scratch8.sem 0
  ihave S0' := (Entails.of_eq ePS0) $$ S0
  icases S0' with ⟨⟨%RT0, HT0⟩, FS0⟩
  have ePS1 : PS m d L slotT1 cc0_scratch9.sem 1 g.val
      = iprop((∃ f, slotT1.view.loc thr ↦[slotT1.view.set]{fullShare} f) ∗ semVal (thr, SemLoc.dma cc0_scratch9.sem) 0) := by
    rw [hg]; exact PS_idle m d L slotT1 cc0_scratch9.sem 1
  ihave S1' := (Entails.of_eq ePS1) $$ S1
  icases S1' with ⟨⟨%RT1, HT1⟩, FS1⟩

  sl_exec
  -- quarter 0: the landed ring slot 0, the staging slot 0
  icases F0_dst with ⟨HG0, Hrow0⟩
  sl_for (Iin m d L slotG0 slotT0 O W fd0 0#32 (Scalar.divsi (lword g 0#32) 2#32) (w_lt_0 g) o_le_0) $$ [Hmw H7 HG0 HT0 HO]
  case region =>
    intro k hk
    exact inner0 m d L O W g fd0 k hk
  · unfold Iin
    isplitl [Hmw]; · iexact Hmw
    isplitl [H7]; · iexact H7
    isplitl [HG0]; · iexact HG0
    isplitl [HT0]
    · iexists _
      isplitr
      rotate_left
      · iexact HT0
      · ipureintro; exact Cert.Lanes.AccTo_zero ▸ Cert.Lanes.goodM_empty slotT0 _ _
    iexists _
    isplitr
    rotate_left
    · iexact HO
    · ipureintro; exact waits_ok_insert _ hW'
  iintro %_ HI
  unfold Iin
  icases HI with ⟨Hmw, H7, HG0, ⟨%RT0', %hRT0, HT0⟩, %Wr0, %hWr0, HO⟩
  have hT0 : ∀ p, View.readAt (Elt F) slotT0.view (LoadRect.whole S64x128) RT0' p
      = Cert.Lanes.Tslot (View.readAt (Elt F) slotG0.view (LoadRect.whole S128x128) fd0) (PposV m d L) 0#32 (Scalar.divsi (lword g 0#32) 2#32) (w_lt_0 g) o_le_0 p :=
    fun p => hRT0 p (by rw [trips_t2, Cert.Lanes.AccTo_full]; trivial)
  -- the row goes back to its share of the index scratch; slab 4 g + 0 in the program's spelling; the table's token whole
  ihave H6w0 := (pointsTo_split_subset (Finset.subset_univ (rowSetAt d L off0 hoff0))).2 $$ [Hrow0 R0]
  · isplitl [Hrow0]; · iexact Hrow0
    iexact R0
  ihave T0 := (Entails.of_eq ((todoS_def m d L g.val).trans (bigSep_ge_pop (fun l => slabPt d L l (m (v3Loc d))) (4 * g.val) (by omega)))) $$ Htodo
  icases T0 with ⟨Sl0, Htodo⟩
  have es0 : (slabPt d L ⟨4 * g.val, by omega⟩ (m (v3Loc d)) : sProp 𝕄)
      = ((slabAt (k0_off2 L g 0#32) (k0_off2_inb L g 0)).view.loc thr ↦[(slabAt (k0_off2 L g 0#32) (k0_off2_inb L g 0)).view.set]{fullShare} m (v3Loc d)) :=
    (slab_pts_off2 d L g 0 fullShare (m (v3Loc d))).symm
  ihave Sl0' := (Entails.of_eq es0) $$ Sl0
  ihave H3w0 := (Entails.of_eq (a3s_pts d L (shareTok (qT (cL L) (sL L)) 4 0) (V1 m d))) $$ F0_src
  sl_exec
  -- quarter 1: the landed ring slot 1, the staging slot 1
  icases F1_dst with ⟨HG1, Hrow1⟩
  sl_for (Iin m d L slotG1 slotT1 O W fd1 64#32 (Scalar.divsi (lword g 1#32) 2#32) (w_lt_1 g) o_le_64) $$ [Hmw H7 HG1 HT1 HO]
  case region =>
    intro k hk
    exact inner1 m d L O W g _ _ _ fd1 k hk
  · unfold Iin
    isplitl [Hmw]; · iexact Hmw
    isplitl [H7]; · iexact H7
    isplitl [HG1]; · iexact HG1
    isplitl [HT1]
    · iexists _
      isplitr
      rotate_left
      · iexact HT1
      · ipureintro; exact Cert.Lanes.AccTo_zero ▸ Cert.Lanes.goodM_empty slotT1 _ _
    iexists _
    isplitr
    rotate_left
    · iexact HO
    · ipureintro; exact waits_ok_insert _ hWr0
  iintro %_ HI
  unfold Iin
  icases HI with ⟨Hmw, H7, HG1, ⟨%RT1', %hRT1, HT1⟩, %Wr1, %hWr1, HO⟩
  have hT1 : ∀ p, View.readAt (Elt F) slotT1.view (LoadRect.whole S64x128) RT1' p
      = Cert.Lanes.Tslot (View.readAt (Elt F) slotG1.view (LoadRect.whole S128x128) fd1) (PposV m d L) 64#32 (Scalar.divsi (lword g 1#32) 2#32) (w_lt_1 g) o_le_64 p :=
    fun p => hRT1 p (by rw [trips_t3, Cert.Lanes.AccTo_full]; trivial)
  -- the row goes back to its share of the index scratch; slab 4 g + 1 in the program's spelling; the table's token whole
  ihave H6w1 := (pointsTo_split_subset (Finset.subset_univ (rowSetAt d L off1 hoff1))).2 $$ [Hrow1 R1]
  · isplitl [Hrow1]; · iexact Hrow1
    iexact R1
  ihave T1 := (Entails.of_eq ((bigSep_ge_pop (fun l => slabPt d L l (m (v3Loc d))) (4 * g.val + 1) (by omega)))) $$ Htodo
  icases T1 with ⟨Sl1, Htodo⟩
  have es1 : (slabPt d L ⟨4 * g.val + 1, by omega⟩ (m (v3Loc d)) : sProp 𝕄)
      = ((slabAt (k0_off2 L g 1#32) (k0_off2_inb L g 1)).view.loc thr ↦[(slabAt (k0_off2 L g 1#32) (k0_off2_inb L g 1)).view.set]{fullShare} m (v3Loc d)) :=
    (slab_pts_off2 d L g 1 fullShare (m (v3Loc d))).symm
  ihave Sl1' := (Entails.of_eq es1) $$ Sl1
  ihave H3w1 := (Entails.of_eq (a3s_pts d L (shareTok (qT (cL L) (sL L)) 4 1) (V1 m d))) $$ F1_src
  sl_exec
  -- quarter 2: the landed ring slot 2, the staging slot 0
  icases F2_dst with ⟨HG2, Hrow2⟩
  sl_for (Iin m d L slotG2 slotT0 O W fd2 0#32 (Scalar.divsi (lword g 2#32) 2#32) (w_lt_2 g) o_le_0) $$ [Hmw H7 HG2 HT0 HO]
  case region =>
    intro k hk
    exact inner2 m d L O W g _ _ fd2 k hk
  · unfold Iin
    isplitl [Hmw]; · iexact Hmw
    isplitl [H7]; · iexact H7
    isplitl [HG2]; · iexact HG2
    isplitl [HT0]
    · iexists _
      isplitr
      rotate_left
      · iexact HT0
      · ipureintro; exact Cert.Lanes.AccTo_zero ▸ Cert.Lanes.goodM_empty slotT0 _ _
    iexists _
    isplitr
    rotate_left
    · iexact HO
    · ipureintro; exact waits_ok_insert _ (waits_ok_insert _ hWr1)
  iintro %_ HI
  unfold Iin
  icases HI with ⟨Hmw, H7, HG2, ⟨%RT2', %hRT2, HT2⟩, %Wr2, %hWr2, HO⟩
  have hT2 : ∀ p, View.readAt (Elt F) slotT0.view (LoadRect.whole S64x128) RT2' p
      = Cert.Lanes.Tslot (View.readAt (Elt F) slotG2.view (LoadRect.whole S128x128) fd2) (PposV m d L) 0#32 (Scalar.divsi (lword g 2#32) 2#32) (w_lt_2 g) o_le_0 p :=
    fun p => hRT2 p (by rw [trips_t4, Cert.Lanes.AccTo_full]; trivial)
  -- the row goes back to its share of the index scratch; slab 4 g + 2 in the program's spelling; the table's token whole
  ihave H6w2 := (pointsTo_split_subset (Finset.subset_univ (rowSetAt d L off2 hoff2))).2 $$ [Hrow2 R2]
  · isplitl [Hrow2]; · iexact Hrow2
    iexact R2
  ihave T2 := (Entails.of_eq ((bigSep_ge_pop (fun l => slabPt d L l (m (v3Loc d))) (4 * g.val + 1 + 1) (by omega)))) $$ Htodo
  icases T2 with ⟨Sl2, Htodo⟩
  have es2 : (slabPt d L ⟨4 * g.val + 1 + 1, by omega⟩ (m (v3Loc d)) : sProp 𝕄)
      = ((slabAt (k0_off2 L g 2#32) (k0_off2_inb L g 2)).view.loc thr ↦[(slabAt (k0_off2 L g 2#32) (k0_off2_inb L g 2)).view.set]{fullShare} m (v3Loc d)) :=
    (slab_pts_off2 d L g 2 fullShare (m (v3Loc d))).symm
  ihave Sl2' := (Entails.of_eq es2) $$ Sl2
  ihave H3w2 := (Entails.of_eq (a3s_pts d L (shareTok (qT (cL L) (sL L)) 4 2) (V1 m d))) $$ F2_src
  sl_exec
  -- quarter 3: the landed ring slot 3, the staging slot 1
  icases F3_dst with ⟨HG3, Hrow3⟩
  sl_for (Iin m d L slotG3 slotT1 O W fd3 64#32 (Scalar.divsi (lword g 3#32) 2#32) (w_lt_3 g) o_le_64) $$ [Hmw H7 HG3 HT1 HO]
  case region =>
    intro k hk
    exact inner3 m d L O W g fd3 k hk
  · unfold Iin
    isplitl [Hmw]; · iexact Hmw
    isplitl [H7]; · iexact H7
    isplitl [HG3]; · iexact HG3
    isplitl [HT1]
    · iexists _
      isplitr
      rotate_left
      · iexact HT1
      · ipureintro; exact Cert.Lanes.AccTo_zero ▸ Cert.Lanes.goodM_empty slotT1 _ _
    iexists _
    isplitr
    rotate_left
    · iexact HO
    · ipureintro; exact waits_ok_insert _ (waits_ok_insert _ hWr2)
  iintro %_ HI
  unfold Iin
  icases HI with ⟨Hmw, H7, HG3, ⟨%RT3', %hRT3, HT3⟩, %Wr3, %hWr3, HO⟩
  have hT3 : ∀ p, View.readAt (Elt F) slotT1.view (LoadRect.whole S64x128) RT3' p
      = Cert.Lanes.Tslot (View.readAt (Elt F) slotG3.view (LoadRect.whole S128x128) fd3) (PposV m d L) 64#32 (Scalar.divsi (lword g 3#32) 2#32) (w_lt_3 g) o_le_64 p :=
    fun p => hRT3 p (by rw [trips_t5, Cert.Lanes.AccTo_full]; trivial)
  -- the row goes back to its share of the index scratch; slab 4 g + 3 in the program's spelling; the table's token whole
  ihave H6w3 := (pointsTo_split_subset (Finset.subset_univ (rowSetAt d L off3 hoff3))).2 $$ [Hrow3 R3]
  · isplitl [Hrow3]; · iexact Hrow3
    iexact R3
  ihave T3 := (Entails.of_eq ((bigSep_ge_pop (fun l => slabPt d L l (m (v3Loc d))) (4 * g.val + 1 + 1 + 1) (by omega)))) $$ Htodo
  icases T3 with ⟨Sl3, Htodo⟩
  have es3 : (slabPt d L ⟨4 * g.val + 1 + 1 + 1, by omega⟩ (m (v3Loc d)) : sProp 𝕄)
      = ((slabAt (k0_off2 L g 3#32) (k0_off2_inb L g 3)).view.loc thr ↦[(slabAt (k0_off2 L g 3#32) (k0_off2_inb L g 3)).view.set]{fullShare} m (v3Loc d)) :=
    (slab_pts_off2 d L g 3 fullShare (m (v3Loc d))).symm
  ihave Sl3' := (Entails.of_eq es3) $$ Sl3
  ihave H3w3 := (Entails.of_eq (a3s_pts d L (shareTok (qT (cL L) (sL L)) 4 3) (V1 m d))) $$ F3_src
  sl_exec
  sl_step
  isplitl [Hmw]; · iexact Hmw
  isplitl [H7]; · iexact H7
  isplitl [F0 H6w0]
  · iapply (Entails.of_eq (PG_flight m d L slotG0 cc0_scratch4.sem (shareDrop fullShare 4) 0 (g.val + 1) (by omega)).symm)
    unfold FlG
    iexists (k0_off3 g), (k0_off3_inb g k0_h2), _
    isplitl [F0 H6w0]
    · isplitl [F0]; · iexact F0
      iexact H6w0
    isplitr; · ipureintro; exact (k0_off3_eq g).trans (congrArg (fun x => (![x, 0] : Fin 2 → ℕ)) (by simp; omega))
    ipureintro
    exact goodG_gather m d L slotG0 fd0 (4 * (g.val + 1) + ((0 : Fin 4) : ℕ)) (by simp; omega) (k0_off3 g) (k0_off3_inb g k0_h2)
      ((k0_off3_eq g).trans (congrArg (fun x => (![x, 0] : Fin 2 → ℕ)) (by simp; omega))) rfl (fun x => hin _ _ _ x)
  isplitl [F1 H6w1]
  · iapply (Entails.of_eq (PG_flight m d L slotG1 cc0_scratch5.sem (shareTok fullShare 4 0) 1 (g.val + 1) (by omega)).symm)
    unfold FlG
    iexists (k0_off4 g), (k0_off4_inb g k0_h4), _
    isplitl [F1 H6w1]
    · isplitl [F1]; · iexact F1
      iexact H6w1
    isplitr; · ipureintro; exact (k0_off4_eq g).trans (congrArg (fun x => (![x, 0] : Fin 2 → ℕ)) (by simp; omega))
    ipureintro
    exact goodG_gather m d L slotG1 fd1 (4 * (g.val + 1) + ((1 : Fin 4) : ℕ)) (by simp; omega) (k0_off4 g) (k0_off4_inb g k0_h4)
      ((k0_off4_eq g).trans (congrArg (fun x => (![x, 0] : Fin 2 → ℕ)) (by simp; omega))) rfl (fun x => hin _ _ _ x)
  isplitl [F2 H6w2]
  · iapply (Entails.of_eq (PG_flight m d L slotG2 cc0_scratch6.sem (shareTok fullShare 4 1) 2 (g.val + 1) (by omega)).symm)
    unfold FlG
    iexists (k0_off5 g), (k0_off5_inb g k0_h6), _
    isplitl [F2 H6w2]
    · isplitl [F2]; · iexact F2
      iexact H6w2
    isplitr; · ipureintro; exact (k0_off5_eq g).trans (congrArg (fun x => (![x, 0] : Fin 2 → ℕ)) (by simp; omega))
    ipureintro
    exact goodG_gather m d L slotG2 fd2 (4 * (g.val + 1) + ((2 : Fin 4) : ℕ)) (by simp; omega) (k0_off5 g) (k0_off5_inb g k0_h6)
      ((k0_off5_eq g).trans (congrArg (fun x => (![x, 0] : Fin 2 → ℕ)) (by simp; omega))) rfl (fun x => hin _ _ _ x)
  isplitl [F3 H6w3]
  · iapply (Entails.of_eq (PG_flight m d L slotG3 cc0_scratch7.sem (shareTok fullShare 4 2) 3 (g.val + 1) (by omega)).symm)
    unfold FlG
    iexists (k0_off6 g), (k0_off6_inb g k0_h8), _
    isplitl [F3 H6w3]
    · isplitl [F3]; · iexact F3
      iexact H6w3
    isplitr; · ipureintro; exact (k0_off6_eq g).trans (congrArg (fun x => (![x, 0] : Fin 2 → ℕ)) (by simp; omega))
    ipureintro
    exact goodG_gather m d L slotG3 fd3 (4 * (g.val + 1) + ((3 : Fin 4) : ℕ)) (by simp; omega) (k0_off6 g) (k0_off6_inb g k0_h8)
      ((k0_off6_eq g).trans (congrArg (fun x => (![x, 0] : Fin 2 → ℕ)) (by simp; omega))) rfl (fun x => hin _ _ _ x)
  isplitl [FS0]
  · iapply (Entails.of_eq (PS_flight m d L slotT0 cc0_scratch8.sem 0 (g.val + 1) (by omega)).symm)
    unfold FlS
    iexists (k0_off2 L g 2#32), (k0_off2_inb L g 2), _, _
    isplitr; · ipureintro; exact (slab_off2 L g 2).trans (congrArg (offS L) (by simp [lOf]; omega))
    isplitr
    rotate_left
    · iexact FS0
    · ipureintro
      unfold region_first.sl.dma0_2
      exact slab_out3 m d L slotT0 slotG2 (4 * g.val + ((2 : Fin 4) : ℕ)) (by simp; omega) (k0_off2 L g 2#32) (k0_off2_inb L g 2) (slab_off2 L g 2) fd2 hfd2 RT2' 0#32 (Scalar.divsi (lword g 2#32) 2#32) (w_lt_2 g) o_le_0 (w_val_2 g) (o_val_2 g) hT2 (m (v3Loc d))
  isplitl [FS1]
  · iapply (Entails.of_eq (PS_flight m d L slotT1 cc0_scratch9.sem 1 (g.val + 1) (by omega)).symm)
    unfold FlS
    iexists (k0_off2 L g 3#32), (k0_off2_inb L g 3), _, _
    isplitr; · ipureintro; exact (slab_off2 L g 3).trans (congrArg (offS L) (by simp [lOf]; omega))
    isplitr
    rotate_left
    · iexact FS1
    · ipureintro
      unfold region_first.sl.dma0_3
      exact slab_out3 m d L slotT1 slotG3 (4 * g.val + ((3 : Fin 4) : ℕ)) (by simp; omega) (k0_off2 L g 3#32) (k0_off2_inb L g 3) (slab_off2 L g 3) fd3 hfd3 RT3' 64#32 (Scalar.divsi (lword g 3#32) 2#32) (w_lt_3 g) o_le_64 (w_val_3 g) (o_val_3 g) hT3 (m (v3Loc d))
  isplitl [Sl0' Sl1']
  · -- the two slabs written in this trip agree with the result function on their elements
    have hSl0 : ∀ i ∈ slabSetAt d L (k0_off2 L g 0#32) (k0_off2_inb L g 0),
        ((slabAt (k0_off2 L g 0#32) (k0_off2_inb L g 0)).view.writes (Elt F) (slabAt (k0_off2 L g 0#32) (k0_off2_inb L g 0)).view.junk [⟨Rect.whole S64x128, region_first.sl.dma0 RT0'⟩]) i = Out3 m d i := by
      unfold region_first.sl.dma0
      exact slab_out3 m d L slotT0 slotG0 (4 * g.val + ((0 : Fin 4) : ℕ)) (by simp; omega) (k0_off2 L g 0#32) (k0_off2_inb L g 0) (slab_off2 L g 0) fd0 hfd0 RT0' 0#32 (Scalar.divsi (lword g 0#32) 2#32) (w_lt_0 g) o_le_0 (w_val_0 g) (o_val_0 g) hT0 _
    have hSl1 : ∀ i ∈ slabSetAt d L (k0_off2 L g 1#32) (k0_off2_inb L g 1),
        ((slabAt (k0_off2 L g 1#32) (k0_off2_inb L g 1)).view.writes (Elt F) (slabAt (k0_off2 L g 1#32) (k0_off2_inb L g 1)).view.junk [⟨Rect.whole S64x128, region_first.sl.dma0_1 RT1'⟩]) i = Out3 m d i := by
      unfold region_first.sl.dma0_1
      exact slab_out3 m d L slotT1 slotG1 (4 * g.val + ((1 : Fin 4) : ℕ)) (by simp; omega) (k0_off2 L g 1#32) (k0_off2_inb L g 1) (slab_off2 L g 1) fd1 hfd1 RT1' 64#32 (Scalar.divsi (lword g 1#32) 2#32) (w_lt_1 g) o_le_64 (w_val_1 g) (o_val_1 g) hT1 _
    iapply (Entails.of_eq ((doneS_def m d L (g.val + 1)).trans (done_first (fun l => slabPt d L l (Out3 m d)) g.val hg)).symm)
    isplitl [Sl1']
    · ihave A := (Entails.of_eq (pointsTo_congr hSl1)) $$ Sl1'
      have eB : ((slabAt (k0_off2 L g 1#32) (k0_off2_inb L g 1)).view.loc thr ↦[(slabAt (k0_off2 L g 1#32) (k0_off2_inb L g 1)).view.set]{fullShare} Out3 m d : sProp 𝕄)
          = slabPt d L (lOf g 1) (Out3 m d) := slab_pts_off2 d L g 1 fullShare (Out3 m d)
      ihave B := (Entails.of_eq eB) $$ A
      iapply (Entails.of_eq (congrArg (fun l => slabPt d L l (Out3 m d)) (Fin.ext (by simp [lOf] <;> omega) : (⟨1, _⟩ : Fin 200) = lOf g 1)).symm)
      iexact B
    isplitl [Sl0']
    · ihave A := (Entails.of_eq (pointsTo_congr hSl0)) $$ Sl0'
      have eB : ((slabAt (k0_off2 L g 0#32) (k0_off2_inb L g 0)).view.loc thr ↦[(slabAt (k0_off2 L g 0#32) (k0_off2_inb L g 0)).view.set]{fullShare} Out3 m d : sProp 𝕄)
          = slabPt d L (lOf g 0) (Out3 m d) := slab_pts_off2 d L g 0 fullShare (Out3 m d)
      ihave B := (Entails.of_eq eB) $$ A
      iapply (Entails.of_eq (congrArg (fun l => slabPt d L l (Out3 m d)) (Fin.ext (by simp [lOf] <;> omega) : (⟨0, _⟩ : Fin 200) = lOf g 0)).symm)
      iexact B
    iapply (Entails.of_eq (bigSep_lt_zero _).symm)
    iempintro
  isplitl [Htodo]
  · have etodo : bigSep (Finset.univ.filter fun l : Fin 200 => 4 * g.val + 1 + 1 + 1 + 1 ≤ l.val) (fun l => slabPt d L l (m (v3Loc d)))
        = todoS m d L (g.val + 1) := by
      unfold todoS
      rw [Finset.filter_congr (fun l _ => (by omega : (4 * g.val + 1 + 1 + 1 + 1 ≤ l.val) ↔ (4 * (g.val + 1) ≤ l.val)))]
    iapply (Entails.of_eq etodo)
    iexact Htodo
  iexists _
  isplitr
  rotate_left
  · iexact HO
  · ipureintro; exact hWr3

set_option maxHeartbeats 2000000 in
set_option maxRecDepth 65536 in
theorem region_last (hpre : PreOK m) (O : CellTallies nD τ sig (HIx 1)) (W : Waits sig (HIx 1)) (g : Fin k0_t1_loop.trips) (hg : g.val = 49) :
    (Iout m d L O W g.val ⟨⟩ : sProp 𝕄)
      ⊢ wp frame (wpE (defs₀ (F := F)) 𝒱₀ thr none) Set.univ
          (k0_t1_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177 g ())
          fun _ => Iout m d L O W (g.val + 1) ⟨⟩ := by
  rw [k0_t1_body]
  have hg1 : 1 ≤ g.val := by omega
  have k0_h1 : geq2 (lword g 0#32) = 1#1 := geq2_0 g hg1
  have k0_h2 : ¬ k0_cond2 g = 1#1 := ncond2_last g hg
  have k0_h3 : geq2 (lword g 1#32) = 1#1 := geq2_1 g hg1
  have k0_h4 : ¬ k0_cond4 g = 1#1 := ncond4_last g hg
  have k0_h5 : geq2 (lword g 2#32) = 1#1 := geq2_2 g
  have k0_h6 : ¬ k0_cond6 g = 1#1 := ncond6_last g hg
  have k0_h7 : geq2 (lword g 3#32) = 1#1 := geq2_3 g
  have k0_h8 : ¬ k0_cond8 g = 1#1 := ncond8_last g hg
  have hin : ∀ (off : Fin 2 → Nat) (h : ∀ a, off a + S1x128.size a ≤ S200x128.size a) (hh) (x : S128.Idx),
      ((((a6).slice (Rect.unit (s := S200x128) off S1x128.size h) hh).squeeze S128 squeezes_S1x128_S128).view.read (Elt F) (Cidx m d L) x).toNat
        < S100000x128.size gathers_S100000x128_S128x128.axis := hin_of_pre m d L hpre

  unfold Iout
  iintro ⟨Hmw, H7, P0, P1, P2, P3, S0, S1, Hdone, Htodo, %W', %hW', HO⟩
  ihave P0' := (Entails.of_eq ((PG_flight m d L slotG0 cc0_scratch4.sem (shareDrop fullShare 4) 0 g.val (by omega)).trans (FlG_def m d L _ _ _ _ _))) $$ P0
  icases P0' with ⟨%off0, %hoff0, %fd0, ⟨F0, R0⟩, %eoff0, %hfd0⟩
  ihave P1' := (Entails.of_eq ((PG_flight m d L slotG1 cc0_scratch5.sem (shareTok fullShare 4 0) 1 g.val (by omega)).trans (FlG_def m d L _ _ _ _ _))) $$ P1
  icases P1' with ⟨%off1, %hoff1, %fd1, ⟨F1, R1⟩, %eoff1, %hfd1⟩
  ihave P2' := (Entails.of_eq ((PG_flight m d L slotG2 cc0_scratch6.sem (shareTok fullShare 4 1) 2 g.val (by omega)).trans (FlG_def m d L _ _ _ _ _))) $$ P2
  icases P2' with ⟨%off2, %hoff2, %fd2, ⟨F2, R2⟩, %eoff2, %hfd2⟩
  ihave P3' := (Entails.of_eq ((PG_flight m d L slotG3 cc0_scratch7.sem (shareTok fullShare 4 2) 3 g.val (by omega)).trans (FlG_def m d L _ _ _ _ _))) $$ P3
  icases P3' with ⟨%off3, %hoff3, %fd3, ⟨F3, R3⟩, %eoff3, %hfd3⟩
  ihave S0' := (Entails.of_eq ((PS_flight m d L slotT0 cc0_scratch8.sem 0 g.val (by omega)).trans (FlS_def m d L _ _ _))) $$ S0
  icases S0' with ⟨%soff0, %shoff0, %fS0, %RT0, %esoff0, %hfS0, FS0⟩
  ihave S1' := (Entails.of_eq ((PS_flight m d L slotT1 cc0_scratch9.sem 1 g.val (by omega)).trans (FlS_def m d L _ _ _))) $$ S1
  icases S1' with ⟨%soff1, %shoff1, %fS1, %RT1, %esoff1, %hfS1, FS1⟩

  sl_exec
  -- quarter 0: the landed ring slot 0, the staging slot 0
  icases F0_dst with ⟨HG0, Hrow0⟩
  irename FS0_dst => D0
  sl_for (Iin m d L slotG0 slotT0 O W fd0 0#32 (Scalar.divsi (lword g 0#32) 2#32) (w_lt_0 g) o_le_0) $$ [Hmw H7 HG0 FS0_src HO]
  case region =>
    intro k hk
    exact inner0 m d L O W g fd0 k hk
  · unfold Iin
    isplitl [Hmw]; · iexact Hmw
    isplitl [H7]; · iexact H7
    isplitl [HG0]; · iexact HG0
    isplitl [FS0_src]
    · iexists _
      isplitr
      rotate_left
      · iexact FS0_src
      · ipureintro; exact Cert.Lanes.AccTo_zero ▸ Cert.Lanes.goodM_empty slotT0 _ _
    iexists _
    isplitr
    rotate_left
    · iexact HO
    · ipureintro; exact waits_ok_insert _ (waits_ok_insert _ hW')
  iintro %_ HI
  unfold Iin
  icases HI with ⟨Hmw, H7, HG0, ⟨%RT0', %hRT0, HT0⟩, %Wr0, %hWr0, HO⟩
  have hT0 : ∀ p, View.readAt (Elt F) slotT0.view (LoadRect.whole S64x128) RT0' p
      = Cert.Lanes.Tslot (View.readAt (Elt F) slotG0.view (LoadRect.whole S128x128) fd0) (PposV m d L) 0#32 (Scalar.divsi (lword g 0#32) 2#32) (w_lt_0 g) o_le_0 p :=
    fun p => hRT0 p (by rw [trips_t2, Cert.Lanes.AccTo_full]; trivial)
  -- the row goes back to its share of the index scratch; slab 4 g + 0 in the program's spelling; the table's token whole
  ihave H6w0 := (pointsTo_split_subset (Finset.subset_univ (rowSetAt d L off0 hoff0))).2 $$ [Hrow0 R0]
  · isplitl [Hrow0]; · iexact Hrow0
    iexact R0
  ihave T0 := (Entails.of_eq ((todoS_def m d L g.val).trans (bigSep_ge_pop (fun l => slabPt d L l (m (v3Loc d))) (4 * g.val) (by omega)))) $$ Htodo
  icases T0 with ⟨Sl0, Htodo⟩
  have es0 : (slabPt d L ⟨4 * g.val, by omega⟩ (m (v3Loc d)) : sProp 𝕄)
      = ((slabAt (k0_off2 L g 0#32) (k0_off2_inb L g 0)).view.loc thr ↦[(slabAt (k0_off2 L g 0#32) (k0_off2_inb L g 0)).view.set]{fullShare} m (v3Loc d)) :=
    (slab_pts_off2 d L g 0 fullShare (m (v3Loc d))).symm
  ihave Sl0' := (Entails.of_eq es0) $$ Sl0
  sl_exec
  -- quarter 1: the landed ring slot 1, the staging slot 1
  icases F1_dst with ⟨HG1, Hrow1⟩
  irename FS1_dst => D1
  sl_for (Iin m d L slotG1 slotT1 O W fd1 64#32 (Scalar.divsi (lword g 1#32) 2#32) (w_lt_1 g) o_le_64) $$ [Hmw H7 HG1 FS1_src HO]
  case region =>
    intro k hk
    exact inner1 m d L O W g _ _ _ fd1 k hk
  · unfold Iin
    isplitl [Hmw]; · iexact Hmw
    isplitl [H7]; · iexact H7
    isplitl [HG1]; · iexact HG1
    isplitl [FS1_src]
    · iexists _
      isplitr
      rotate_left
      · iexact FS1_src
      · ipureintro; exact Cert.Lanes.AccTo_zero ▸ Cert.Lanes.goodM_empty slotT1 _ _
    iexists _
    isplitr
    rotate_left
    · iexact HO
    · ipureintro; exact waits_ok_insert _ (waits_ok_insert _ hWr0)
  iintro %_ HI
  unfold Iin
  icases HI with ⟨Hmw, H7, HG1, ⟨%RT1', %hRT1, HT1⟩, %Wr1, %hWr1, HO⟩
  have hT1 : ∀ p, View.readAt (Elt F) slotT1.view (LoadRect.whole S64x128) RT1' p
      = Cert.Lanes.Tslot (View.readAt (Elt F) slotG1.view (LoadRect.whole S128x128) fd1) (PposV m d L) 64#32 (Scalar.divsi (lword g 1#32) 2#32) (w_lt_1 g) o_le_64 p :=
    fun p => hRT1 p (by rw [trips_t3, Cert.Lanes.AccTo_full]; trivial)
  -- the row goes back to its share of the index scratch; slab 4 g + 1 in the program's spelling; the table's token whole
  ihave H6w1 := (pointsTo_split_subset (Finset.subset_univ (rowSetAt d L off1 hoff1))).2 $$ [Hrow1 R1]
  · isplitl [Hrow1]; · iexact Hrow1
    iexact R1
  ihave T1 := (Entails.of_eq ((bigSep_ge_pop (fun l => slabPt d L l (m (v3Loc d))) (4 * g.val + 1) (by omega)))) $$ Htodo
  icases T1 with ⟨Sl1, Htodo⟩
  have es1 : (slabPt d L ⟨4 * g.val + 1, by omega⟩ (m (v3Loc d)) : sProp 𝕄)
      = ((slabAt (k0_off2 L g 1#32) (k0_off2_inb L g 1)).view.loc thr ↦[(slabAt (k0_off2 L g 1#32) (k0_off2_inb L g 1)).view.set]{fullShare} m (v3Loc d)) :=
    (slab_pts_off2 d L g 1 fullShare (m (v3Loc d))).symm
  ihave Sl1' := (Entails.of_eq es1) $$ Sl1
  sl_exec
  -- quarter 2: the landed ring slot 2, the staging slot 0
  icases F2_dst with ⟨HG2, Hrow2⟩
  sl_for (Iin m d L slotG2 slotT0 O W fd2 0#32 (Scalar.divsi (lword g 2#32) 2#32) (w_lt_2 g) o_le_0) $$ [Hmw H7 HG2 HT0 HO]
  case region =>
    intro k hk
    exact inner2 m d L O W g _ _ fd2 k hk
  · unfold Iin
    isplitl [Hmw]; · iexact Hmw
    isplitl [H7]; · iexact H7
    isplitl [HG2]; · iexact HG2
    isplitl [HT0]
    · iexists _
      isplitr
      rotate_left
      · iexact HT0
      · ipureintro; exact Cert.Lanes.AccTo_zero ▸ Cert.Lanes.goodM_empty slotT0 _ _
    iexists _
    isplitr
    rotate_left
    · iexact HO
    · ipureintro; exact waits_ok_insert _ (waits_ok_insert _ hWr1)
  iintro %_ HI
  unfold Iin
  icases HI with ⟨Hmw, H7, HG2, ⟨%RT2', %hRT2, HT2⟩, %Wr2, %hWr2, HO⟩
  have hT2 : ∀ p, View.readAt (Elt F) slotT0.view (LoadRect.whole S64x128) RT2' p
      = Cert.Lanes.Tslot (View.readAt (Elt F) slotG2.view (LoadRect.whole S128x128) fd2) (PposV m d L) 0#32 (Scalar.divsi (lword g 2#32) 2#32) (w_lt_2 g) o_le_0 p :=
    fun p => hRT2 p (by rw [trips_t4, Cert.Lanes.AccTo_full]; trivial)
  -- the row goes back to its share of the index scratch; slab 4 g + 2 in the program's spelling; the table's token whole
  ihave H6w2 := (pointsTo_split_subset (Finset.subset_univ (rowSetAt d L off2 hoff2))).2 $$ [Hrow2 R2]
  · isplitl [Hrow2]; · iexact Hrow2
    iexact R2
  ihave T2 := (Entails.of_eq ((bigSep_ge_pop (fun l => slabPt d L l (m (v3Loc d))) (4 * g.val + 1 + 1) (by omega)))) $$ Htodo
  icases T2 with ⟨Sl2, Htodo⟩
  have es2 : (slabPt d L ⟨4 * g.val + 1 + 1, by omega⟩ (m (v3Loc d)) : sProp 𝕄)
      = ((slabAt (k0_off2 L g 2#32) (k0_off2_inb L g 2)).view.loc thr ↦[(slabAt (k0_off2 L g 2#32) (k0_off2_inb L g 2)).view.set]{fullShare} m (v3Loc d)) :=
    (slab_pts_off2 d L g 2 fullShare (m (v3Loc d))).symm
  ihave Sl2' := (Entails.of_eq es2) $$ Sl2
  sl_exec
  -- quarter 3: the landed ring slot 3, the staging slot 1
  icases F3_dst with ⟨HG3, Hrow3⟩
  sl_for (Iin m d L slotG3 slotT1 O W fd3 64#32 (Scalar.divsi (lword g 3#32) 2#32) (w_lt_3 g) o_le_64) $$ [Hmw H7 HG3 HT1 HO]
  case region =>
    intro k hk
    exact inner3 m d L O W g fd3 k hk
  · unfold Iin
    isplitl [Hmw]; · iexact Hmw
    isplitl [H7]; · iexact H7
    isplitl [HG3]; · iexact HG3
    isplitl [HT1]
    · iexists _
      isplitr
      rotate_left
      · iexact HT1
      · ipureintro; exact Cert.Lanes.AccTo_zero ▸ Cert.Lanes.goodM_empty slotT1 _ _
    iexists _
    isplitr
    rotate_left
    · iexact HO
    · ipureintro; exact waits_ok_insert _ (waits_ok_insert _ hWr2)
  iintro %_ HI
  unfold Iin
  icases HI with ⟨Hmw, H7, HG3, ⟨%RT3', %hRT3, HT3⟩, %Wr3, %hWr3, HO⟩
  have hT3 : ∀ p, View.readAt (Elt F) slotT1.view (LoadRect.whole S64x128) RT3' p
      = Cert.Lanes.Tslot (View.readAt (Elt F) slotG3.view (LoadRect.whole S128x128) fd3) (PposV m d L) 64#32 (Scalar.divsi (lword g 3#32) 2#32) (w_lt_3 g) o_le_64 p :=
    fun p => hRT3 p (by rw [trips_t5, Cert.Lanes.AccTo_full]; trivial)
  -- the row goes back to its share of the index scratch; slab 4 g + 3 in the program's spelling; the table's token whole
  ihave H6w3 := (pointsTo_split_subset (Finset.subset_univ (rowSetAt d L off3 hoff3))).2 $$ [Hrow3 R3]
  · isplitl [Hrow3]; · iexact Hrow3
    iexact R3
  ihave T3 := (Entails.of_eq ((bigSep_ge_pop (fun l => slabPt d L l (m (v3Loc d))) (4 * g.val + 1 + 1 + 1) (by omega)))) $$ Htodo
  icases T3 with ⟨Sl3, Htodo⟩
  have es3 : (slabPt d L ⟨4 * g.val + 1 + 1 + 1, by omega⟩ (m (v3Loc d)) : sProp 𝕄)
      = ((slabAt (k0_off2 L g 3#32) (k0_off2_inb L g 3)).view.loc thr ↦[(slabAt (k0_off2 L g 3#32) (k0_off2_inb L g 3)).view.set]{fullShare} m (v3Loc d)) :=
    (slab_pts_off2 d L g 3 fullShare (m (v3Loc d))).symm
  ihave Sl3' := (Entails.of_eq es3) $$ Sl3
  sl_exec
  sl_step
  isplitl [Hmw]; · iexact Hmw
  isplitl [H7]; · iexact H7
  isplitl [HG0 H6w0 F0_src F0]
  · iapply (Entails.of_eq (PG_idle m d L slotG0 cc0_scratch4.sem (shareDrop fullShare 4) 0 (g.val + 1) (by omega)).symm)
    isplitl [HG0]; · iexists _; iexact HG0
    isplitl [H6w0]; · iexact H6w0
    isplitl [F0_src]; · iexact F0_src
    iexact F0
  isplitl [HG1 H6w1 F1_src F1]
  · iapply (Entails.of_eq (PG_idle m d L slotG1 cc0_scratch5.sem (shareTok fullShare 4 0) 1 (g.val + 1) (by omega)).symm)
    isplitl [HG1]; · iexists _; iexact HG1
    isplitl [H6w1]; · iexact H6w1
    isplitl [F1_src]; · iexact F1_src
    iexact F1
  isplitl [HG2 H6w2 F2_src F2]
  · iapply (Entails.of_eq (PG_idle m d L slotG2 cc0_scratch6.sem (shareTok fullShare 4 1) 2 (g.val + 1) (by omega)).symm)
    isplitl [HG2]; · iexists _; iexact HG2
    isplitl [H6w2]; · iexact H6w2
    isplitl [F2_src]; · iexact F2_src
    iexact F2
  isplitl [HG3 H6w3 F3_src F3]
  · iapply (Entails.of_eq (PG_idle m d L slotG3 cc0_scratch7.sem (shareTok fullShare 4 2) 3 (g.val + 1) (by omega)).symm)
    isplitl [HG3]; · iexists _; iexact HG3
    isplitl [H6w3]; · iexact H6w3
    isplitl [F3_src]; · iexact F3_src
    iexact F3
  isplitl [FS0]
  · iapply (Entails.of_eq (PS_flight m d L slotT0 cc0_scratch8.sem 0 (g.val + 1) (by omega)).symm)
    unfold FlS
    iexists (k0_off2 L g 2#32), (k0_off2_inb L g 2), _, _
    isplitr; · ipureintro; exact (slab_off2 L g 2).trans (congrArg (offS L) (by simp [lOf]; omega))
    isplitr
    rotate_left
    · iexact FS0
    · ipureintro
      unfold region_last.sl.dma0_2
      exact slab_out3 m d L slotT0 slotG2 (4 * g.val + ((2 : Fin 4) : ℕ)) (by simp; omega) (k0_off2 L g 2#32) (k0_off2_inb L g 2) (slab_off2 L g 2) fd2 hfd2 RT2' 0#32 (Scalar.divsi (lword g 2#32) 2#32) (w_lt_2 g) o_le_0 (w_val_2 g) (o_val_2 g) hT2 (m (v3Loc d))
  isplitl [FS1]
  · iapply (Entails.of_eq (PS_flight m d L slotT1 cc0_scratch9.sem 1 (g.val + 1) (by omega)).symm)
    unfold FlS
    iexists (k0_off2 L g 3#32), (k0_off2_inb L g 3), _, _
    isplitr; · ipureintro; exact (slab_off2 L g 3).trans (congrArg (offS L) (by simp [lOf]; omega))
    isplitr
    rotate_left
    · iexact FS1
    · ipureintro
      unfold region_last.sl.dma0_3
      exact slab_out3 m d L slotT1 slotG3 (4 * g.val + ((3 : Fin 4) : ℕ)) (by simp; omega) (k0_off2 L g 3#32) (k0_off2_inb L g 3) (slab_off2 L g 3) fd3 hfd3 RT3' 64#32 (Scalar.divsi (lword g 3#32) 2#32) (w_lt_3 g) o_le_64 (w_val_3 g) (o_val_3 g) hT3 (m (v3Loc d))
  isplitl [Hdone D0 D1 Sl0' Sl1']
  · -- the four slabs written since the head of the trip agree with the result function on their elements
    have hSl0 : ∀ i ∈ slabSetAt d L (k0_off2 L g 0#32) (k0_off2_inb L g 0),
        ((slabAt (k0_off2 L g 0#32) (k0_off2_inb L g 0)).view.writes (Elt F) (slabAt (k0_off2 L g 0#32) (k0_off2_inb L g 0)).view.junk [⟨Rect.whole S64x128, region_last.sl.dma0 RT0'⟩]) i = Out3 m d i := by
      unfold region_last.sl.dma0
      exact slab_out3 m d L slotT0 slotG0 (4 * g.val + ((0 : Fin 4) : ℕ)) (by simp; omega) (k0_off2 L g 0#32) (k0_off2_inb L g 0) (slab_off2 L g 0) fd0 hfd0 RT0' 0#32 (Scalar.divsi (lword g 0#32) 2#32) (w_lt_0 g) o_le_0 (w_val_0 g) (o_val_0 g) hT0 _
    have hSl1 : ∀ i ∈ slabSetAt d L (k0_off2 L g 1#32) (k0_off2_inb L g 1),
        ((slabAt (k0_off2 L g 1#32) (k0_off2_inb L g 1)).view.writes (Elt F) (slabAt (k0_off2 L g 1#32) (k0_off2_inb L g 1)).view.junk [⟨Rect.whole S64x128, region_last.sl.dma0_1 RT1'⟩]) i = Out3 m d i := by
      unfold region_last.sl.dma0_1
      exact slab_out3 m d L slotT1 slotG1 (4 * g.val + ((1 : Fin 4) : ℕ)) (by simp; omega) (k0_off2 L g 1#32) (k0_off2_inb L g 1) (slab_off2 L g 1) fd1 hfd1 RT1' 64#32 (Scalar.divsi (lword g 1#32) 2#32) (w_lt_1 g) o_le_64 (w_val_1 g) (o_val_1 g) hT1 _
    subst esoff0 esoff1
    iapply (Entails.of_eq ((doneS_def m d L (g.val + 1)).trans (done_push4 (fun l => slabPt d L l (Out3 m d)) g.val hg1 (by omega))).symm)
    isplitl [Sl1']
    · ihave A := (Entails.of_eq (pointsTo_congr hSl1)) $$ Sl1'
      have eB : ((slabAt (k0_off2 L g 1#32) (k0_off2_inb L g 1)).view.loc thr ↦[(slabAt (k0_off2 L g 1#32) (k0_off2_inb L g 1)).view.set]{fullShare} Out3 m d : sProp 𝕄)
          = slabPt d L (lOf g 1) (Out3 m d) := slab_pts_off2 d L g 1 fullShare (Out3 m d)
      ihave B := (Entails.of_eq eB) $$ A
      iapply (Entails.of_eq (congrArg (fun l => slabPt d L l (Out3 m d)) (Fin.ext (by simp [lOf] <;> omega) : (⟨4 * g.val - 2 + 1 + 1 + 1, _⟩ : Fin 200) = lOf g 1)).symm)
      iexact B
    isplitl [Sl0']
    · ihave A := (Entails.of_eq (pointsTo_congr hSl0)) $$ Sl0'
      have eB : ((slabAt (k0_off2 L g 0#32) (k0_off2_inb L g 0)).view.loc thr ↦[(slabAt (k0_off2 L g 0#32) (k0_off2_inb L g 0)).view.set]{fullShare} Out3 m d : sProp 𝕄)
          = slabPt d L (lOf g 0) (Out3 m d) := slab_pts_off2 d L g 0 fullShare (Out3 m d)
      ihave B := (Entails.of_eq eB) $$ A
      iapply (Entails.of_eq (congrArg (fun l => slabPt d L l (Out3 m d)) (Fin.ext (by simp [lOf] <;> omega) : (⟨4 * g.val - 2 + 1 + 1, _⟩ : Fin 200) = lOf g 0)).symm)
      iexact B
    isplitl [D1]
    · ihave A := (Entails.of_eq (pointsTo_congr hfS1)) $$ D1
      iexact A
    isplitl [D0]
    · ihave A := (Entails.of_eq (pointsTo_congr hfS0)) $$ D0
      iexact A
    iapply (Entails.of_eq (doneS_def m d L g.val))
    iexact Hdone
  isplitl [Htodo]
  · have etodo : bigSep (Finset.univ.filter fun l : Fin 200 => 4 * g.val + 1 + 1 + 1 + 1 ≤ l.val) (fun l => slabPt d L l (m (v3Loc d)))
        = todoS m d L (g.val + 1) := by
      unfold todoS
      rw [Finset.filter_congr (fun l _ => (by omega : (4 * g.val + 1 + 1 + 1 + 1 ≤ l.val) ↔ (4 * (g.val + 1) ≤ l.val)))]
    iapply (Entails.of_eq etodo)
    iexact Htodo
  iexists _
  isplitr
  rotate_left
  · iexact HO
  · ipureintro; exact hWr3

theorem waits_ok2 (W : Waits sig (HIx 1)) :
    ∀ p ∈ insert (SemLoc.dma cc0_scoped1.sem, (default : HIx 1)) (insert (SemLoc.dma cc0_scoped0.sem, (default : HIx 1)) W), p ∈ W ∨ p.2 = none := by
  intro p hp
  rcases Finset.mem_insert.mp hp with rfl | hp
  · exact .inr rfl
  rcases Finset.mem_insert.mp hp with rfl | hp
  · exact .inr rfl
  · exact .inl hp

set_option maxHeartbeats 4000000 in
set_option maxRecDepth 65536 in
/-- One tile's task. -/
theorem body_core : BodyCore m := by
  intro hpre d L O W
  rw [cc0_enc_kernel_eq_skeleton, cc0_enc_kernel_skel]
  iintro ⟨Hmw, H2, H3, H4, H5, ⟨%f6, H6⟩, ⟨%f7, H7⟩, ⟨%f8, H8⟩, ⟨%f9, H9⟩, Hg0, Hg1, Hg2, Hg3, Ht0, Ht1, Hs0, Hs1, HO⟩
  -- the table's share as four read tokens, one per gather semaphore
  ihave H3s := (Transfers.pointsTo_toks_split (qT (cL L) (sL L)) 4) $$ H3
  icases H3s with ⟨H3r, H3t⟩
  ihave H3t' := (Entails.of_eq (bigSep_fin4 _)) $$ H3t
  icases H3t' with ⟨H3a, H3b, H3c, H3d⟩
  -- the two synchronous copies
  sl_exec
  delta body_core.sl.dma0 body_core.sl.dma0_1
  have e6 : ((((Memref.whole cc0_scratch0 : Memref sig .scVector .vmem S200x128 .i32)).view.loc (V d (cV L) (jV L)) ↦{fullShare} View.write (Elt F) (Memref.whole cc0_scratch0 : Memref sig .scVector .vmem S200x128 .i32).view f6 (Cidx m d L) Finset.univ : sProp 𝕄))
      = ((Memref.whole cc0_scratch0 : Memref sig .scVector .vmem S200x128 .i32).view.loc (V d (cV L) (jV L)) ↦{fullShare} Cidx m d L) := by rw [View.write_whole_univ]
  have e7 : ((((Memref.whole cc0_scratch1 : Memref sig .scVector .vmem S100x128 .f32)).view.loc (V d (cV L) (jV L)) ↦{fullShare} View.write (Elt F) (Memref.whole cc0_scratch1 : Memref sig .scVector .vmem S100x128 .f32).view f7 (Ppos m d L) Finset.univ : sProp 𝕄))
      = ((Memref.whole cc0_scratch1 : Memref sig .scVector .vmem S100x128 .f32).view.loc (V d (cV L) (jV L)) ↦{fullShare} Ppos m d L) := by rw [View.write_whole_univ]
  ihave H6 := (Entails.of_eq e6) $$ H6
  ihave H7 := (Entails.of_eq e7) $$ H7
  -- the index scratch as read tokens; the ring, the staging scratch and the result block as their pieces
  ihave H6s := (Transfers.pointsTo_toks_split fullShare 4) $$ H6
  icases H6s with ⟨H6r, H6t⟩
  ihave H6t' := (Entails.of_eq (bigSep_fin4 _)) $$ H6t
  icases H6t' with ⟨H6a, H6b, H6c, H6d⟩
  ihave H8s := (Entails.of_eq (ring_split d L fullShare f8)) $$ H8
  icases H8s with ⟨HG0, HG1, HG2, HG3⟩
  ihave H9s := (Entails.of_eq (stage_split d L fullShare f9)) $$ H9
  icases H9s with ⟨HT0, HT1⟩
  ihave H5s := (Entails.of_eq (blk_slabs d L (m (v3Loc d)))) $$ H5
  have hin := hin_of_pre m d L hpre
  -- the four gathers
  sl_exec

  sl_for (Iout m d L O (insert (SemLoc.dma cc0_scoped1.sem, (default : HIx 1)) (insert (SemLoc.dma cc0_scoped0.sem, (default : HIx 1)) W))) $$ [Hmw H7 Hg0 H6r Hg1 H6a Hg2 H6b Hg3 H6c HT0 Ht0 HT1 Ht1 H5s HO]
  case region =>
    intro g hg
    rcases Nat.eq_zero_or_pos g.val with h0 | h1
    · exact region_first m d L hpre O _ g h0
    · by_cases h49 : g.val < 49
      · exact region_mid m d L hpre O _ g h1 h49
      · have hlt : g.val < 50 := lt_of_lt_of_le g.isLt k0_t1_abs.2.1
        exact region_last m d L hpre O _ g (by omega)
  · unfold Iout
    isplitl [Hmw]; · iexact Hmw
    isplitl [H7]; · iexact H7
    isplitl [Hg0 H6r]
    · iapply (Entails.of_eq (PG_flight m d L slotG0 cc0_scratch4.sem (shareDrop fullShare 4) 0 0 (by norm_num)).symm)
      unfold FlG
      iexists _, _, _
      isplitl [Hg0 H6r]
      · isplitl [Hg0]; · iexact Hg0
        iexact H6r
      isplitr; · ipureintro; funext a; fin_cases a <;> rfl
      ipureintro
      exact goodG_gather m d L slotG0 f8 (4 * 0 + ((0 : Fin 4) : ℕ)) (by simp) ![0, 0] inb_S200x128_S1x128_0_0 (by funext a; fin_cases a <;> rfl) rfl (fun x => hin _ _ _ x)
    isplitl [Hg1 H6a]
    · iapply (Entails.of_eq (PG_flight m d L slotG1 cc0_scratch5.sem (shareTok fullShare 4 0) 1 0 (by norm_num)).symm)
      unfold FlG
      iexists _, _, _
      isplitl [Hg1 H6a]
      · isplitl [Hg1]; · iexact Hg1
        iexact H6a
      isplitr; · ipureintro; funext a; fin_cases a <;> rfl
      ipureintro
      exact goodG_gather m d L slotG1 f8 (4 * 0 + ((1 : Fin 4) : ℕ)) (by simp) ![1, 0] inb_S200x128_S1x128_1_0 (by funext a; fin_cases a <;> rfl) rfl (fun x => hin _ _ _ x)
    isplitl [Hg2 H6b]
    · iapply (Entails.of_eq (PG_flight m d L slotG2 cc0_scratch6.sem (shareTok fullShare 4 1) 2 0 (by norm_num)).symm)
      unfold FlG
      iexists _, _, _
      isplitl [Hg2 H6b]
      · isplitl [Hg2]; · iexact Hg2
        iexact H6b
      isplitr; · ipureintro; funext a; fin_cases a <;> rfl
      ipureintro
      exact goodG_gather m d L slotG2 f8 (4 * 0 + ((2 : Fin 4) : ℕ)) (by simp) ![2, 0] inb_S200x128_S1x128_2_0 (by funext a; fin_cases a <;> rfl) rfl (fun x => hin _ _ _ x)
    isplitl [Hg3 H6c]
    · iapply (Entails.of_eq (PG_flight m d L slotG3 cc0_scratch7.sem (shareTok fullShare 4 2) 3 0 (by norm_num)).symm)
      unfold FlG
      iexists _, _, _
      isplitl [Hg3 H6c]
      · isplitl [Hg3]; · iexact Hg3
        iexact H6c
      isplitr; · ipureintro; funext a; fin_cases a <;> rfl
      ipureintro
      exact goodG_gather m d L slotG3 f8 (4 * 0 + ((3 : Fin 4) : ℕ)) (by simp) ![3, 0] inb_S200x128_S1x128_3_0 (by funext a; fin_cases a <;> rfl) rfl (fun x => hin _ _ _ x)
    isplitl [HT0 Ht0]
    · iapply (Entails.of_eq (PS_idle m d L slotT0 cc0_scratch8.sem 0).symm)
      isplitl [HT0]; · iexists _; iexact HT0
      iexact Ht0
    isplitl [HT1 Ht1]
    · iapply (Entails.of_eq (PS_idle m d L slotT1 cc0_scratch9.sem 1).symm)
      isplitl [HT1]; · iexists _; iexact HT1
      iexact Ht1
    isplitr
    · unfold doneS
      iapply (Entails.of_eq (bigSep_lt_zero _).symm)
      iempintro
    isplitl [H5s]
    · unfold todoS
      iapply (Entails.of_eq (bigSep_ge_zero _).symm)
      iexact H5s
    iexists _
    isplitr; · ipureintro; exact fun p hp => .inl hp
    iexact HO
  iintro %x HI
  sl_step
  iapply (epilogue m d L O W (insert (SemLoc.dma cc0_scoped1.sem, (default : HIx 1)) (insert (SemLoc.dma cc0_scoped0.sem, (default : HIx 1)) W))
    (waits_ok2 W)) $$ [HI H2 H4 H3r H6d Hs0 Hs1]
  isplitl [HI]; · iexact HI
  isplitl [H2]; · iexact H2
  isplitl [H4]; · iexact H4
  isplitl [H3r]; · iexact H3r
  isplitl [H6d]; · iexact H6d
  isplitl [Hs0]; · iexact Hs0
  iexact Hs1

end Cert.Proof.Launch

end
-- ==== Proof.BodySlabsK.lean ====
/-
  The tile's block of the result as two hundred slabs, one per position: slab l is the 64 × 128 rectangle of features
  and of the tile's 128 batch columns at position l — what the task writes out in one transfer. The slabs are pairwise
  disjoint and cover the block; a slab's element (e, r) is the result's element (l, e, 128 w + r); and the offsets the
  program computes for a transfer are the slab's.
-/
import proofs.«206908_g46772193853751_cont_8to1c4_160_30_alg».proof.Proof.BodyGoalK
import proofs.«206908_g46772193853751_cont_8to1c4_160_30_alg».proof.Proof.LaunchKHost

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)

/-! ## The slabs -/

/-- The 64 × 128 window of the result at offsets off, as the program slices and squeezes it. -/
abbrev slabAt (off : Fin 3 → Nat) (h : ∀ a, off a + S1x64x128.size a ≤ S200x64x4096.size a) : Memref sig .scVector .hbm S64x128 .f32 :=
  ((Memref.whole main_v3_scv : Memref sig .scVector .hbm S200x64x4096 .f32).slice (Rect.unit (s := S200x64x4096) off S1x64x128.size h) (fun _ => rfl)).squeeze S64x128 squeezes_S1x64x128_S64x128

/-- The first batch column of tile L's block. -/
def b0 (L : grid0.Coords) : ℕ := 256 * (L 1).val + 128 * (L 0).val

/-- Slab l of tile L: position l, every feature, the tile's batch columns. -/
def offS (L : grid0.Coords) (l : ℕ) : Fin 3 → Nat := ![l, 0, 256 * (L 1).val + 128 * (L 0).val]

theorem b0_le (L : grid0.Coords) : b0 L + 128 ≤ 4096 := by
  have h0 : (L 0).val < 2 := (L 0).isLt
  have h1 : (L 1).val < 16 := (L 1).isLt
  unfold b0; omega

theorem b0_wid (L : grid0.Coords) : b0 L = (wid (cL L) (sL L)).val * 128 := by
  show 256 * (L 1).val + 128 * (L 0).val = (2 * (L 1).val + (L 0).val) * 128
  omega

theorem offS_inb (L : grid0.Coords) (l : ℕ) (hl : l < 200) : ∀ a, offS L l a + S1x64x128.size a ≤ S200x64x4096.size a := by
  have hb := b0_le L
  unfold b0 at hb
  intro a
  match a with
  | ⟨0, _⟩ => show l + 1 ≤ 200; omega
  | ⟨1, _⟩ => show 0 + 64 ≤ 64; omega
  | ⟨2, _⟩ => show 256 * (L 1).val + 128 * (L 0).val + 128 ≤ 4096; omega

abbrev slabR (L : grid0.Coords) (l : Fin 200) : Rect S200x64x4096 :=
  Rect.unit (s := S200x64x4096) (offS L l.val) S1x64x128.size (offS_inb L l.val l.isLt)
abbrev slabL (L : grid0.Coords) (l : Fin 200) : Memref sig .scVector .hbm S64x128 .f32 := slabAt (offS L l.val) (offS_inb L l.val l.isLt)

theorem set_slabL (L : grid0.Coords) (l : Fin 200) : (slabL L l).view.set = (slabR L l).set := by
  show (((View.whole (main_v3_scv : Ref sig .scVector)).slice (slabR L l)).reshape S64x128 squeezes_S1x64x128_S64x128.numel_eq).set = _
  rw [View.set_reshape, View.set_slice]; exact Finset.map_refl

theorem mem_slabR (L : grid0.Coords) (l : Fin 200) {i : S200x64x4096.Idx} :
    i ∈ (slabR L l).set ↔ (i 0).val = l.val ∧ b0 L ≤ (i 2).val ∧ (i 2).val < b0 L + 128 := by
  rw [Rect.mem_set_unit]
  constructor
  · intro h
    have h0 : l.val ≤ (i 0).val ∧ (i 0).val < l.val + 1 := h 0
    have h2 : b0 L ≤ (i 2).val ∧ (i 2).val < b0 L + 128 := h 2
    exact ⟨by omega, h2⟩
  · rintro ⟨e0, e2⟩ a
    match a with
    | ⟨0, _⟩ => show l.val ≤ (i 0).val ∧ (i 0).val < l.val + 1; omega
    | ⟨1, _⟩ => show 0 ≤ (i 1).val ∧ (i 1).val < 0 + 64; have h1 : (i 1).val < 64 := (i 1).isLt; exact ⟨Nat.zero_le _, by omega⟩
    | ⟨2, _⟩ => exact e2

theorem mem_blk3 (w : Fin 32) {i : S200x64x4096.Idx} : i ∈ blk3 w ↔ w.val * 128 ≤ (i 2).val ∧ (i 2).val < w.val * 128 + 128 := by
  show i ∈ (Rect.unit (s := S200x64x4096) _ _ _).set ↔ _
  rw [Rect.mem_set_unit]
  constructor
  · intro h
    exact h 2
  · intro h a
    match a with
    | ⟨0, _⟩ => show 0 * 200 ≤ (i 0).val ∧ (i 0).val < 0 * 200 + 200; have h0 : (i 0).val < 200 := (i 0).isLt; omega
    | ⟨1, _⟩ => show 0 * 64 ≤ (i 1).val ∧ (i 1).val < 0 * 64 + 64; have h1 : (i 1).val < 64 := (i 1).isLt; omega
    | ⟨2, _⟩ => exact h

theorem slab_disjoint (L : grid0.Coords) :
    ∀ l ∈ (Finset.univ : Finset (Fin 200)), ∀ l' ∈ (Finset.univ : Finset (Fin 200)), l ≠ l' → Disjoint (slabR L l).set (slabR L l').set := by
  intro l _ l' _ h
  refine Finset.disjoint_left.mpr fun i hi hi' => ?_
  have e := ((mem_slabR L l).mp hi).1
  have e' := ((mem_slabR L l').mp hi').1
  exact h (Fin.ext (e.symm.trans e'))

theorem slab_cover (L : grid0.Coords) : (Finset.univ : Finset (Fin 200)).biUnion (fun l => (slabR L l).set) = blk3 (wid (cL L) (sL L)) := by
  ext i
  simp only [Finset.mem_biUnion, Finset.mem_univ, true_and, mem_slabR, mem_blk3, ← b0_wid]
  constructor
  · rintro ⟨l, -, h⟩; exact h
  · intro h; exact ⟨⟨(i 0).val, (i 0).isLt⟩, rfl, h⟩

/-- The tile's block of the result is its two hundred slabs, each as the task's transfer addresses it. -/
theorem blk_slabs (d : Dev nD) (L : grid0.Coords) (f : Buf (Elt F) (v3Loc d)) :
    ((Memref.whole main_v3_scv).view.loc (V d (cV L) (jV L)) ↦[blk3 (wid (cL L) (sL L))]{fullShare} f : sProp 𝕄)
      = bigSep (Finset.univ : Finset (Fin 200)) fun l => (slabL L l).view.loc (V d (cV L) (jV L)) ↦[(slabL L l).view.set]{fullShare} f := by
  have hR : (bigSep (Finset.univ : Finset (Fin 200)) fun l => ((slabL L l).view.loc (V d (cV L) (jV L)) ↦[(slabL L l).view.set]{fullShare} f : sProp 𝕄))
      = bigSep (Finset.univ : Finset (Fin 200)) fun l => (v3Loc d ↦[(slabR L l).set]{fullShare} f : sProp 𝕄) :=
    bigSep_congr fun l _ => by rw [set_slabL]
  rw [hR, ← pointsTo_biUnion Finset.univ (ℓ := v3Loc d) (fun l => (slabR L l).set) (slab_disjoint L), slab_cover]

/-! ## The program's offsets are the slabs' -/

theorem lt200 (g : Fin k0_t1_loop.trips) (r : Fin 4) : 4 * g.val + r.val < 200 := by
  have := k0_t1_abs.2.1; have := g.isLt; have := r.isLt; omega

/-- The position trip g of the main loop writes out at its r-th step. -/
def lOf (g : Fin k0_t1_loop.trips) (r : Fin 4) : Fin 200 := ⟨4 * g.val + r.val, lt200 g r⟩

theorem slab_off2 (L : grid0.Coords) (g : Fin k0_t1_loop.trips) (r : Fin 4) :
    k0_off2 L g (BitVec.ofNat 32 r.val) = offS L (lOf g r).val := k0_off2_eq L g r

theorem slabAt_congr {off off' : Fin 3 → Nat} (e : off = off') (h : ∀ a, off a + S1x64x128.size a ≤ S200x64x4096.size a)
    (h' : ∀ a, off' a + S1x64x128.size a ≤ S200x64x4096.size a) : slabAt off h = slabAt off' h' := by
  subst e; rfl

theorem slab_of_off2 (L : grid0.Coords) (g : Fin k0_t1_loop.trips) (r : Fin 4) :
    slabAt (k0_off2 L g (BitVec.ofNat 32 r.val)) (k0_off2_inb L g r) = slabL L (lOf g r) :=
  slabAt_congr (slab_off2 L g r) _ _

theorem slab_pts_congr {off off' : Fin 3 → Nat} (e : off = off') (h : ∀ a, off a + S1x64x128.size a ≤ S200x64x4096.size a)
    (h' : ∀ a, off' a + S1x64x128.size a ≤ S200x64x4096.size a) (d : Dev nD) (c : Fin τ.nSC) (j : Fin τ.nSub) (q : PosShare TreeShare)
    (f : Buf (Elt F) (v3Loc d)) :
    ((slabAt off h).view.loc (V d c j) ↦[(slabAt off h).view.set]{q} f : sProp 𝕄)
      = ((slabAt off' h').view.loc (V d c j) ↦[(slabAt off' h').view.set]{q} f) := by
  subst e; rfl

/-- As an equality of assertions, at any share and contents. -/
theorem slab_pts_off2 (d : Dev nD) (L : grid0.Coords) (g : Fin k0_t1_loop.trips) (r : Fin 4) (q : PosShare TreeShare) (f : Buf (Elt F) (v3Loc d)) :
    ((slabAt (k0_off2 L g (BitVec.ofNat 32 r.val)) (k0_off2_inb L g r)).view.loc (V d (cV L) (jV L))
        ↦[(slabAt (k0_off2 L g (BitVec.ofNat 32 r.val)) (k0_off2_inb L g r)).view.set]{q} f : sProp 𝕄)
      = ((slabL L (lOf g r)).view.loc (V d (cV L) (jV L)) ↦[(slabL L (lOf g r)).view.set]{q} f) :=
  slab_pts_congr (slab_off2 L g r) _ _ d (cV L) (jV L) q f

/-- The four steps of a trip, with the program's literals. -/
theorem slab_of_off2_0 (L : grid0.Coords) (g : Fin k0_t1_loop.trips) : slabAt (k0_off2 L g 0#32) (k0_off2_inb L g 0) = slabL L (lOf g 0) := slab_of_off2 L g 0
theorem slab_of_off2_1 (L : grid0.Coords) (g : Fin k0_t1_loop.trips) : slabAt (k0_off2 L g 1#32) (k0_off2_inb L g 1) = slabL L (lOf g 1) := slab_of_off2 L g 1
theorem slab_of_off2_2 (L : grid0.Coords) (g : Fin k0_t1_loop.trips) : slabAt (k0_off2 L g 2#32) (k0_off2_inb L g 2) = slabL L (lOf g 2) := slab_of_off2 L g 2
theorem slab_of_off2_3 (L : grid0.Coords) (g : Fin k0_t1_loop.trips) : slabAt (k0_off2 L g 3#32) (k0_off2_inb L g 3) = slabL L (lOf g 3) := slab_of_off2 L g 3

/-! ## A moving boundary over the positions -/

section Boundary

theorem bigSep_ge_pop (Φ : Fin 200 → sProp 𝕄) (n : ℕ) (h : n < 200) :
    bigSep (Finset.univ.filter fun l : Fin 200 => n ≤ l.val) Φ
      = iprop(Φ ⟨n, h⟩ ∗ bigSep (Finset.univ.filter fun l : Fin 200 => n + 1 ≤ l.val) Φ) := by
  rw [show (Finset.univ.filter fun l : Fin 200 => n ≤ l.val) = insert (⟨n, h⟩ : Fin 200) (Finset.univ.filter fun l : Fin 200 => n + 1 ≤ l.val) from by
    ext l; simp only [Finset.mem_filter, Finset.mem_univ, true_and, Finset.mem_insert, Fin.ext_iff]; omega]
  exact SparseCore.bigSep_insert' (by simp only [Finset.mem_filter, Finset.mem_univ, true_and]; omega)

theorem bigSep_lt_push (Φ : Fin 200 → sProp 𝕄) (n : ℕ) (h : n < 200) :
    bigSep (Finset.univ.filter fun l : Fin 200 => l.val < n + 1) Φ
      = iprop(Φ ⟨n, h⟩ ∗ bigSep (Finset.univ.filter fun l : Fin 200 => l.val < n) Φ) := by
  rw [show (Finset.univ.filter fun l : Fin 200 => l.val < n + 1) = insert (⟨n, h⟩ : Fin 200) (Finset.univ.filter fun l : Fin 200 => l.val < n) from by
    ext l; simp only [Finset.mem_filter, Finset.mem_univ, true_and, Finset.mem_insert, Fin.ext_iff]; omega]
  exact SparseCore.bigSep_insert' (by simp only [Finset.mem_filter, Finset.mem_univ, true_and]; omega)

theorem filter_ge_zero : (Finset.univ.filter fun l : Fin 200 => 0 ≤ l.val) = Finset.univ :=
  Finset.filter_true_of_mem fun _ _ => Nat.zero_le _
theorem filter_lt_zero : (Finset.univ.filter fun l : Fin 200 => l.val < 0) = ∅ :=
  Finset.filter_false_of_mem fun _ _ => Nat.not_lt_zero _
theorem filter_ge_top : (Finset.univ.filter fun l : Fin 200 => 200 ≤ l.val) = ∅ :=
  Finset.filter_false_of_mem fun l _ => Nat.not_le.mpr l.isLt
theorem filter_lt_top : (Finset.univ.filter fun l : Fin 200 => l.val < 200) = Finset.univ :=
  Finset.filter_true_of_mem fun l _ => l.isLt

theorem bigSep_ge_zero (Φ : Fin 200 → sProp 𝕄) : bigSep (Finset.univ.filter fun l : Fin 200 => 0 ≤ l.val) Φ = bigSep Finset.univ Φ := by rw [filter_ge_zero]
theorem bigSep_lt_zero (Φ : Fin 200 → sProp 𝕄) : bigSep (Finset.univ.filter fun l : Fin 200 => l.val < 0) Φ = iprop(emp) := by rw [filter_lt_zero, bigSep_empty]; rfl
theorem bigSep_ge_top (Φ : Fin 200 → sProp 𝕄) : bigSep (Finset.univ.filter fun l : Fin 200 => 200 ≤ l.val) Φ = iprop(emp) := by rw [filter_ge_top, bigSep_empty]; rfl
theorem bigSep_lt_top (Φ : Fin 200 → sProp 𝕄) : bigSep (Finset.univ.filter fun l : Fin 200 => l.val < 200) Φ = bigSep Finset.univ Φ := by rw [filter_lt_top]

end Boundary

/-! ## A slab's elements in the result -/

/-- Element (e, r) of slab l is the result's element (l, e, first column + r). -/
theorem slab_emb (L : grid0.Coords) (l : Fin 200) (x : S64x128.Idx) :
    (slabL L l).view.emb x
      = (ix3 l (⟨(x 0).val, (x 0).isLt⟩ : Fin 64) (⟨b0 L + (x 1).val, by have := b0_le L; have h1 : (x 1).val < 128 := (x 1).isLt; omega⟩ : Fin 4096) : S200x64x4096.Idx) := by
  have hre : Shape.reshapeEquiv squeezes_S1x64x128_S64x128.numel_eq x = (ix3 (0 : Fin 1) (⟨(x 0).val, (x 0).isLt⟩ : Fin 64) (⟨(x 1).val, (x 1).isLt⟩ : Fin 128) : S1x64x128.Idx) := by
    apply Shape.reshapeEquiv_eq_of_rowMajor
    rw [Shape.rowMajor_val_three, Shape.rowMajor_val_two]
    show (0 * 64 + (x 0).val) * 128 + (x 1).val = (x 0).val * 128 + (x 1).val
    omega
  show (Rect.emb (slabR L l)) (Shape.reshapeEquiv squeezes_S1x64x128_S64x128.numel_eq x) = _
  rw [hre]
  funext a
  apply Fin.ext
  match a with
  | ⟨0, _⟩ => show l.val + 1 * 0 = l.val; omega
  | ⟨1, _⟩ => show 0 + 1 * (x 0).val = (x 0).val; omega
  | ⟨2, _⟩ => show 256 * (L 1).val + 128 * (L 0).val + 1 * (x 1).val = b0 L + (x 1).val; unfold b0; omega

theorem mem_slab_set (L : grid0.Coords) (l : Fin 200) {i : S200x64x4096.Idx} :
    i ∈ (slabL L l).view.set ↔ ∃ x, (slabL L l).view.emb x = i := by
  unfold View.set
  simp only [Finset.mem_map, Finset.mem_univ, true_and]

variable [FloatOps F]

/-- The lookup at a slab's element, over the arrays the task reads. -/
theorem Out3_slab (d : Dev nD) (L : grid0.Coords) (l : Fin 200) (x : S64x128.Idx) :
    Out3 m d ((slabL L l).view.emb x)
      = FloatOps.addf
          (V1 m d (ix2 (Cert.Spec.row (V0 m d (ix2 l (⟨b0 L + (x 1).val, by have := b0_le L; have h1 : (x 1).val < 128 := (x 1).isLt; omega⟩ : Fin 4096))))
            (⟨(x 0).val, by have h0 : (x 0).val < 64 := (x 0).isLt; omega⟩ : Fin 128)))
          (V2 m d (ix2 (⟨l.val / 2, by have := l.isLt; omega⟩ : Fin 100) (⟨(l.val % 2) * 64 + (x 0).val, by have h0 : (x 0).val < 64 := (x 0).isLt; omega⟩ : Fin 128))) := by
  rw [slab_emb]
  rfl

end Cert.Proof.LaunchK

end
-- ==== Proof.BodyRingK.lean ====
/-
  The task's two rings of scratch slots and the whole-table window, as the program spells them: the gather ring is its
  four 128 × 128 slots, the staging ring its two 64 × 128 slots — pairwise disjoint, covering the buffer — and the
  window of the padded table that starts at the origin with the table's own extent is the table.
-/
import proofs.«206908_g46772193853751_cont_8to1c4_160_30_alg».proof.Proof.BodySlabsK

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)

variable {F : FTy → Type}

local notation "𝕄" => MT nD τ sig (HIx 1) (Elt F) ℕ UU ℕ

/-! ## A whole buffer as four, or two, pairwise disjoint parts -/

section Parts

variable {ℓ : Loc nD τ sig}

theorem pts_split4 (K : Fin 4 → Finset (Idx ℓ)) (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ ℓ ↦[K 3]{q} f) := by
  have h : (ℓ ↦[Finset.univ.biUnion K]{q} f : sProp 𝕄) = bigSep Finset.univ fun t => ℓ ↦[K t]{q} f := pointsTo_biUnion Finset.univ K hd
  rw [hc] at h
  refine h.trans ?_
  rw [show (Finset.univ : Finset (Fin 4)) = {0, 1, 2, 3} from by decide, SparseCore.bigSep_insert' (by decide), SparseCore.bigSep_insert' (by decide),
    SparseCore.bigSep_insert' (by decide), bigSep_singleton]

theorem pts_join4 (K : Fin 4 → Finset (Idx ℓ)) (hd : ∀ i ∈ (Finset.univ : Finset (Fin 4)), ∀ j ∈ (Finset.univ : Finset (Fin 4)), i ≠ j → Disjoint (K i) (K j))
    (hc : (Finset.univ : Finset (Fin 4)).biUnion K = Finset.univ) (q : PosShare TreeShare) (f0 f1 f2 f3 : Buf (Elt F) ℓ) :
    iprop((ℓ ↦[K 0]{q} f0) ∗ (ℓ ↦[K 1]{q} f1) ∗ (ℓ ↦[K 2]{q} f2) ∗ ℓ ↦[K 3]{q} f3) ⊢ (iprop(∃ f, ℓ ↦{q} f) : sProp 𝕄) := by
  have h := (pointsTo_biUnion_join (q := q) Finset.univ K (![f0, f1, f2, f3] : Fin 4 → Buf (Elt F) ℓ) f0 hd : _ ⊢ (_ : sProp 𝕄))
  rw [hc, show (Finset.univ : Finset (Fin 4)) = {0, 1, 2, 3} from by decide, SparseCore.bigSep_insert' (by decide), SparseCore.bigSep_insert' (by decide),
    SparseCore.bigSep_insert' (by decide), bigSep_singleton] at h
  refine BI.Entails.trans ?_ (h.trans ?_)
  · exact BI.Entails.refl _
  · iintro ⟨%g, -, Hg⟩
    iexists g; iexact Hg

theorem pts_split2 (K : Fin 2 → Finset (Idx ℓ)) (hd : ∀ i ∈ (Finset.univ : Finset (Fin 2)), ∀ j ∈ (Finset.univ : Finset (Fin 2)), i ≠ j → Disjoint (K i) (K j))
    (hc : (Finset.univ : Finset (Fin 2)).biUnion K = Finset.univ) (q : PosShare TreeShare) (f : Buf (Elt F) ℓ) :
    (ℓ ↦{q} f : sProp 𝕄) = iprop((ℓ ↦[K 0]{q} f) ∗ ℓ ↦[K 1]{q} f) := by
  have h : (ℓ ↦[Finset.univ.biUnion K]{q} f : sProp 𝕄) = bigSep Finset.univ fun t => ℓ ↦[K t]{q} f := pointsTo_biUnion Finset.univ K hd
  rw [hc] at h
  refine h.trans ?_
  rw [show (Finset.univ : Finset (Fin 2)) = {0, 1} from by decide, SparseCore.bigSep_insert' (by decide), bigSep_singleton]

theorem pts_join2 (K : Fin 2 → Finset (Idx ℓ)) (hd : ∀ i ∈ (Finset.univ : Finset (Fin 2)), ∀ j ∈ (Finset.univ : Finset (Fin 2)), i ≠ j → Disjoint (K i) (K j))
    (hc : (Finset.univ : Finset (Fin 2)).biUnion K = Finset.univ) (q : PosShare TreeShare) (f0 f1 : Buf (Elt F) ℓ) :
    iprop((ℓ ↦[K 0]{q} f0) ∗ ℓ ↦[K 1]{q} f1) ⊢ (iprop(∃ f, ℓ ↦{q} f) : sProp 𝕄) := by
  have h := (pointsTo_biUnion_join (q := q) Finset.univ K (![f0, f1] : Fin 2 → Buf (Elt F) ℓ) f0 hd : _ ⊢ (_ : sProp 𝕄))
  rw [hc, show (Finset.univ : Finset (Fin 2)) = {0, 1} from by decide, SparseCore.bigSep_insert' (by decide), bigSep_singleton] at h
  refine BI.Entails.trans ?_ (h.trans ?_)
  · exact BI.Entails.refl _
  · iintro ⟨%g, -, Hg⟩
    iexists g; iexact Hg

end Parts

/-! ## The gather ring's four slots -/

abbrev slotG0 : Memref sig .scVector .vmem S128x128 .f32 :=
  ((Memref.whole cc0_scratch2 : Memref sig .scVector .vmem S4x128x128 .f32).slice (Rect.unit (s := S4x128x128) ![0, 0, 0] S1x128x128.size inb_S4x128x128_S1x128x128_0_0_0) (fun _ => rfl)).squeeze S128x128 squeezes_S1x128x128_S128x128
abbrev slotG1 : Memref sig .scVector .vmem S128x128 .f32 :=
  ((Memref.whole cc0_scratch2 : Memref sig .scVector .vmem S4x128x128 .f32).slice (Rect.unit (s := S4x128x128) ![1, 0, 0] S1x128x128.size inb_S4x128x128_S1x128x128_1_0_0) (fun _ => rfl)).squeeze S128x128 squeezes_S1x128x128_S128x128
abbrev slotG2 : Memref sig .scVector .vmem S128x128 .f32 :=
  ((Memref.whole cc0_scratch2 : Memref sig .scVector .vmem S4x128x128 .f32).slice (Rect.unit (s := S4x128x128) ![2, 0, 0] S1x128x128.size inb_S4x128x128_S1x128x128_2_0_0) (fun _ => rfl)).squeeze S128x128 squeezes_S1x128x128_S128x128
abbrev slotG3 : Memref sig .scVector .vmem S128x128 .f32 :=
  ((Memref.whole cc0_scratch2 : Memref sig .scVector .vmem S4x128x128 .f32).slice (Rect.unit (s := S4x128x128) ![3, 0, 0] S1x128x128.size inb_S4x128x128_S1x128x128_3_0_0) (fun _ => rfl)).squeeze S128x128 squeezes_S1x128x128_S128x128

theorem slotGR_inb (j : Fin 4) : ∀ a, (![j.val, 0, 0] : Fin 3 → Nat) a + S1x128x128.size a ≤ S4x128x128.size a := by
  intro a
  match a with
  | ⟨0, _⟩ => show j.val + 1 ≤ 4; omega
  | ⟨1, _⟩ => show 0 + 128 ≤ 128; omega
  | ⟨2, _⟩ => show 0 + 128 ≤ 128; omega
/-- Slot j of the gather ring as a rectangle of the buffer. -/
abbrev slotGR (j : Fin 4) : Rect S4x128x128 := Rect.unit (s := S4x128x128) ![j.val, 0, 0] S1x128x128.size (slotGR_inb j)

theorem mem_slotGR (j : Fin 4) {i : S4x128x128.Idx} : i ∈ (slotGR j).set ↔ (i 0).val = j.val := by
  rw [Rect.mem_set_unit]
  constructor
  · intro h
    have h0 : j.val ≤ (i 0).val ∧ (i 0).val < j.val + 1 := h 0
    omega
  · intro e a
    match a with
    | ⟨0, _⟩ => show j.val ≤ (i 0).val ∧ (i 0).val < j.val + 1; omega
    | ⟨1, _⟩ => show 0 ≤ (i 1).val ∧ (i 1).val < 0 + 128; have h1 : (i 1).val < 128 := (i 1).isLt; omega
    | ⟨2, _⟩ => show 0 ≤ (i 2).val ∧ (i 2).val < 0 + 128; have h2 : (i 2).val < 128 := (i 2).isLt; omega

theorem slotGR_disjoint : ∀ i ∈ (Finset.univ : Finset (Fin 4)), ∀ j ∈ (Finset.univ : Finset (Fin 4)), i ≠ j → Disjoint (slotGR i).set (slotGR j).set := by
  intro i _ j _ h
  refine Finset.disjoint_left.mpr fun x hx hx' => ?_
  exact h (Fin.ext (((mem_slotGR i).mp hx).symm.trans ((mem_slotGR j).mp hx')))
theorem slotGR_cover : (Finset.univ : Finset (Fin 4)).biUnion (fun j => (slotGR j).set) = Finset.univ := by
  ext i
  simp only [Finset.mem_biUnion, Finset.mem_univ, true_and, iff_true, mem_slotGR]
  exact ⟨⟨(i 0).val, (i 0).isLt⟩, rfl⟩

theorem set_slotG0 : (slotG0).view.set = (slotGR 0).set := by
  show (((View.whole (cc0_scratch2 : Ref sig .scVector)).slice (slotGR 0)).reshape S128x128 squeezes_S1x128x128_S128x128.numel_eq).set = _
  rw [View.set_reshape, View.set_slice]; exact Finset.map_refl
theorem set_slotG1 : (slotG1).view.set = (slotGR 1).set := by
  show (((View.whole (cc0_scratch2 : Ref sig .scVector)).slice (slotGR 1)).reshape S128x128 squeezes_S1x128x128_S128x128.numel_eq).set = _
  rw [View.set_reshape, View.set_slice]; exact Finset.map_refl
theorem set_slotG2 : (slotG2).view.set = (slotGR 2).set := by
  show (((View.whole (cc0_scratch2 : Ref sig .scVector)).slice (slotGR 2)).reshape S128x128 squeezes_S1x128x128_S128x128.numel_eq).set = _
  rw [View.set_reshape, View.set_slice]; exact Finset.map_refl
theorem set_slotG3 : (slotG3).view.set = (slotGR 3).set := by
  show (((View.whole (cc0_scratch2 : Ref sig .scVector)).slice (slotGR 3)).reshape S128x128 squeezes_S1x128x128_S128x128.numel_eq).set = _
  rw [View.set_reshape, View.set_slice]; exact Finset.map_refl

section Ring

variable (d : Dev nD) (L : grid0.Coords)

/-- The gather ring whole is its four slots, at any share and contents. -/
theorem ring_split (q : PosShare TreeShare) (f : Buf (Elt F) ((V d (cV L) (jV L)).loc cc0_scratch2)) :
    ((Memref.whole cc0_scratch2).view.loc (V d (cV L) (jV L)) ↦{q} f : sProp 𝕄)
      = iprop(((slotG0).view.loc (V d (cV L) (jV L)) ↦[(slotG0).view.set]{q} f) ∗ ((slotG1).view.loc (V d (cV L) (jV L)) ↦[(slotG1).view.set]{q} f)
          ∗ ((slotG2).view.loc (V d (cV L) (jV L)) ↦[(slotG2).view.set]{q} f) ∗ ((slotG3).view.loc (V d (cV L) (jV L)) ↦[(slotG3).view.set]{q} f)) := by
  rw [set_slotG0, set_slotG1, set_slotG2, set_slotG3]
  exact pts_split4 (ℓ := (V d (cV L) (jV L)).loc cc0_scratch2) (fun j => (slotGR j).set) slotGR_disjoint slotGR_cover q f

/-- Four slots at four contents are the ring whole at some contents. -/
theorem ring_join (q : PosShare TreeShare) (f0 f1 f2 f3 : Buf (Elt F) ((V d (cV L) (jV L)).loc cc0_scratch2)) :
    iprop(((slotG0).view.loc (V d (cV L) (jV L)) ↦[(slotG0).view.set]{q} f0) ∗ ((slotG1).view.loc (V d (cV L) (jV L)) ↦[(slotG1).view.set]{q} f1)
        ∗ ((slotG2).view.loc (V d (cV L) (jV L)) ↦[(slotG2).view.set]{q} f2) ∗ ((slotG3).view.loc (V d (cV L) (jV L)) ↦[(slotG3).view.set]{q} f3))
      ⊢ (iprop(∃ f, (Memref.whole cc0_scratch2).view.loc (V d (cV L) (jV L)) ↦{q} f) : sProp 𝕄) := by
  rw [set_slotG0, set_slotG1, set_slotG2, set_slotG3]
  exact pts_join4 (ℓ := (V d (cV L) (jV L)).loc cc0_scratch2) (fun j => (slotGR j).set) slotGR_disjoint slotGR_cover q f0 f1 f2 f3

end Ring

/-! ## The staging ring's two slots -/

abbrev slotT0 : Memref sig .scVector .vmem S64x128 .f32 :=
  ((Memref.whole cc0_scratch3 : Memref sig .scVector .vmem S2x64x128 .f32).slice (Rect.unit (s := S2x64x128) ![0, 0, 0] S1x64x128.size inb_S2x64x128_S1x64x128_0_0_0) (fun _ => rfl)).squeeze S64x128 squeezes_S1x64x128_S64x128
abbrev slotT1 : Memref sig .scVector .vmem S64x128 .f32 :=
  ((Memref.whole cc0_scratch3 : Memref sig .scVector .vmem S2x64x128 .f32).slice (Rect.unit (s := S2x64x128) ![1, 0, 0] S1x64x128.size inb_S2x64x128_S1x64x128_1_0_0) (fun _ => rfl)).squeeze S64x128 squeezes_S1x64x128_S64x128

theorem slotTR_inb (j : Fin 2) : ∀ a, (![j.val, 0, 0] : Fin 3 → Nat) a + S1x64x128.size a ≤ S2x64x128.size a := by
  intro a
  match a with
  | ⟨0, _⟩ => show j.val + 1 ≤ 2; omega
  | ⟨1, _⟩ => show 0 + 64 ≤ 64; omega
  | ⟨2, _⟩ => show 0 + 128 ≤ 128; omega
abbrev slotTR (j : Fin 2) : Rect S2x64x128 := Rect.unit (s := S2x64x128) ![j.val, 0, 0] S1x64x128.size (slotTR_inb j)

theorem mem_slotTR (j : Fin 2) {i : S2x64x128.Idx} : i ∈ (slotTR j).set ↔ (i 0).val = j.val := by
  rw [Rect.mem_set_unit]
  constructor
  · intro h
    have h0 : j.val ≤ (i 0).val ∧ (i 0).val < j.val + 1 := h 0
    omega
  · intro e a
    match a with
    | ⟨0, _⟩ => show j.val ≤ (i 0).val ∧ (i 0).val < j.val + 1; omega
    | ⟨1, _⟩ => show 0 ≤ (i 1).val ∧ (i 1).val < 0 + 64; have h1 : (i 1).val < 64 := (i 1).isLt; omega
    | ⟨2, _⟩ => show 0 ≤ (i 2).val ∧ (i 2).val < 0 + 128; have h2 : (i 2).val < 128 := (i 2).isLt; omega

theorem slotTR_disjoint : ∀ i ∈ (Finset.univ : Finset (Fin 2)), ∀ j ∈ (Finset.univ : Finset (Fin 2)), i ≠ j → Disjoint (slotTR i).set (slotTR j).set := by
  intro i _ j _ h
  refine Finset.disjoint_left.mpr fun x hx hx' => ?_
  exact h (Fin.ext (((mem_slotTR i).mp hx).symm.trans ((mem_slotTR j).mp hx')))
theorem slotTR_cover : (Finset.univ : Finset (Fin 2)).biUnion (fun j => (slotTR j).set) = Finset.univ := by
  ext i
  simp only [Finset.mem_biUnion, Finset.mem_univ, true_and, iff_true, mem_slotTR]
  exact ⟨⟨(i 0).val, (i 0).isLt⟩, rfl⟩

theorem set_slotT0 : (slotT0).view.set = (slotTR 0).set := by
  show (((View.whole (cc0_scratch3 : Ref sig .scVector)).slice (slotTR 0)).reshape S64x128 squeezes_S1x64x128_S64x128.numel_eq).set = _
  rw [View.set_reshape, View.set_slice]; exact Finset.map_refl
theorem set_slotT1 : (slotT1).view.set = (slotTR 1).set := by
  show (((View.whole (cc0_scratch3 : Ref sig .scVector)).slice (slotTR 1)).reshape S64x128 squeezes_S1x64x128_S64x128.numel_eq).set = _
  rw [View.set_reshape, View.set_slice]; exact Finset.map_refl

section Stage

variable (d : Dev nD) (L : grid0.Coords)

theorem stage_split (q : PosShare TreeShare) (f : Buf (Elt F) ((V d (cV L) (jV L)).loc cc0_scratch3)) :
    ((Memref.whole cc0_scratch3).view.loc (V d (cV L) (jV L)) ↦{q} f : sProp 𝕄)
      = iprop(((slotT0).view.loc (V d (cV L) (jV L)) ↦[(slotT0).view.set]{q} f) ∗ ((slotT1).view.loc (V d (cV L) (jV L)) ↦[(slotT1).view.set]{q} f)) := by
  rw [set_slotT0, set_slotT1]
  exact pts_split2 (ℓ := (V d (cV L) (jV L)).loc cc0_scratch3) (fun j => (slotTR j).set) slotTR_disjoint slotTR_cover q f

theorem stage_join (q : PosShare TreeShare) (f0 f1 : Buf (Elt F) ((V d (cV L) (jV L)).loc cc0_scratch3)) :
    iprop(((slotT0).view.loc (V d (cV L) (jV L)) ↦[(slotT0).view.set]{q} f0) ∗ ((slotT1).view.loc (V d (cV L) (jV L)) ↦[(slotT1).view.set]{q} f1))
      ⊢ (iprop(∃ f, (Memref.whole cc0_scratch3).view.loc (V d (cV L) (jV L)) ↦{q} f) : sProp 𝕄) := by
  rw [set_slotT0, set_slotT1]
  exact pts_join2 (ℓ := (V d (cV L) (jV L)).loc cc0_scratch3) (fun j => (slotTR j).set) slotTR_disjoint slotTR_cover q f0 f1

end Stage

/-! ## The window of the padded table that is the table -/

abbrev a3s : Memref sig .scVector .hbm S100000x128 .f32 :=
  (Memref.whole main_v1_scv : Memref sig .scVector .hbm S100000x128 .f32).slice (Rect.unit (s := S100000x128) ![0, 0] S100000x128.size inb_S100000x128_S100000x128_0_0) (fun _ => rfl)

theorem set_a3s : (a3s).view.set = Finset.univ := by
  show ((View.whole (main_v1_scv : Ref sig .scVector)).slice (Rect.unit (s := S100000x128) ![0, 0] S100000x128.size inb_S100000x128_S100000x128_0_0)).set = _
  rw [View.set_slice]
  ext i
  simp only [Finset.mem_univ, iff_true, Finset.mem_map]
  refine ⟨i, Rect.mem_set_unit.mpr fun a => ?_, rfl⟩
  match a with
  | ⟨0, _⟩ => show 0 ≤ (i 0).val ∧ (i 0).val < 0 + 100000; have h0 : (i 0).val < 100000 := (i 0).isLt; omega
  | ⟨1, _⟩ => show 0 ≤ (i 1).val ∧ (i 1).val < 0 + 128; have h1 : (i 1).val < 128 := (i 1).isLt; omega

theorem a3s_pts (d : Dev nD) (L : grid0.Coords) (q : PosShare TreeShare) (f : Buf (Elt F) (v1Loc d)) :
    ((a3s).view.loc (V d (cV L) (jV L)) ↦[(a3s).view.set]{q} f : sProp 𝕄) = ((Memref.whole main_v1_scv).view.loc (V d (cV L) (jV L)) ↦{q} f) := by
  rw [set_a3s]

end Cert.Proof.LaunchK

end
-- ==== Proof.BodyInvK.lean ====
/-
  One tile's task, the vocabulary: the memrefs in the program's spelling, what the scratch buffers hold, and the
  invariant of the loop over positions.

  The tile keeps four row gathers in flight, one per ring slot and semaphore; slot j at the head of outer trip n
  waits for position 4 n + j. Two staging slots alternate; at the head of trip n ≥ 1 the copies-out of positions
  4 n - 2 and 4 n - 1 are in flight. The tile's block of the result is held slab by slab: the slabs below 4 n - 2
  are written, those from 4 n on untouched.
-/
import proofs.«206908_g46772193853751_cont_8to1c4_160_30_alg».proof.Proof.BodyRingK
import proofs.«206908_g46772193853751_cont_8to1c4_160_30_alg».proof.Proof.Gen.Kernel.Skeleton

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

/-- Row off of the index scratch, as the program slices it. -/
abbrev rowAt (off : Fin 2 → Nat) (h : ∀ a, off a + S1x128.size a ≤ S200x128.size a) : Memref sig .scVector .vmem S128 .i32 :=
  ((a6).slice (Rect.unit (s := S200x128) off S1x128.size h) (fun _ => rfl)).squeeze S128 squeezes_S1x128_S128

theorem mod200_lt (x : ℕ) : x % 200 < 200 := Nat.mod_lt _ (by norm_num)

theorem row_inb (x : ℕ) (h : x < 200) : ∀ a, (![x, 0] : Fin 2 → Nat) a + S1x128.size a ≤ S200x128.size a := by
  intro a; fin_cases a
  · show x + 1 ≤ 200; omega
  · show 0 + 128 ≤ 128; omega
/-- Row x of the index scratch (x reduced modulo the number of rows, so that it is defined for every x). -/
abbrev rowL (x : ℕ) : Memref sig .scVector .vmem S128 .i32 := rowAt ![x % 200, 0] (row_inb (x % 200) (mod200_lt x))

/-- The tile's 128 columns of the transposed index array. -/
abbrev idxBlk (L : grid0.Coords) : Memref sig .scVector .hbm S200x128 .i32 :=
  (a2).slice (Rect.unit (s := S200x4096) (k0_off1 L) S200x128.size (k0_off1_inb L)) (fun _ => rfl)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

variable [FloatOps F]
variable (m : (ℓ : Loc nD τ sig) → Buf (Elt F) ℓ)
variable (d : Dev nD) (L : grid0.Coords)

local notation "thr" => V d (cV L) (jV L)

/-- The elements of row x, as elements of the index scratch. -/
abbrev rowSet (x : ℕ) : Finset (Idx ((a6).view.loc thr)) := (rowL x).view.set

/-- The index scratch after the tile's copy: its block of the transposed index array. -/
abbrev Cidx : Buf (Elt F) ((a6).view.loc thr) := View.read (Elt F) (idxBlk L).view (V0 m d)
/-- The positional scratch after the tile's copy: the packed positional table. -/
abbrev Ppos : Buf (Elt F) ((a7).view.loc thr) := View.read (Elt F) (a4).view (V2 m d)

/-- The elements of the row at offset off, as elements of the index scratch. -/
abbrev rowSetAt (off : Fin 2 → Nat) (h : ∀ a, off a + S1x128.size a ≤ S200x128.size a) : Finset (Idx ((a6).view.loc thr)) :=
  (rowAt off h).view.set
/-- The elements of the table's whole-array slice, as elements of the table. -/
abbrev a3sSet : Finset (Idx ((a3).view.loc thr)) := (a3s).view.set
/-- A slab of the result at offset off, as the program slices it; its elements as elements of the result. -/
abbrev slabSetAt (off : Fin 3 → Nat) (h : ∀ a, off a + S1x64x128.size a ≤ S200x64x4096.size a) : Finset (Idx ((a5).view.loc thr)) :=
  (slabAt off h).view.set

/-- What the ring slot holds once the gather of position l has landed: row r is the table row that the index word
    at (l, r) of the index scratch names. -/
def GoodG (slot : Memref sig .scVector .vmem S128x128 .f32) (l : ℕ) (fd : Buf (Elt F) (slot.view.loc thr)) : Prop :=
  ∀ (r c : Fin 128), slot.view.read (Elt F) fd (ix2 r c)
    = V1 m d (ix2 (Cert.Spec.row (Cidx m d L (ix2 (⟨l % 200, mod200_lt l⟩ : Fin 200) r))) c)

/-- A row gather of position l in flight into a ring slot, with the rest of the index scratch's share it borrowed
    its row from. The row's offset is the program's own term; it names row l. -/
def FlG (slot : Memref sig .scVector .vmem S128x128 .f32) (sem : DmaSem sig) (σ : PosShare TreeShare) (j : Fin 4) (l : ℕ) : sProp 𝕄 :=
  iprop(∃ (off : Fin 2 → Nat) (h : ∀ a, off a + S1x128.size a ≤ S200x128.size a) (fd : Buf (Elt F) (slot.view.loc thr)),
    (Transfers.Flight countersEmb thr (SemLoc.dma sem) (default : HIx 1) 524288
      iprop(((slot.view.loc thr ↦[slot.view.set]{fullShare} fd)
          ∗ ((a6).view.loc thr ↦[rowSetAt d L off h]{σ} Cidx m d L))
        ∗ ((a3).view.loc thr ↦[a3sSet d L]{shareTok (qT (cL L) (sL L)) 4 j} V1 m d))
    ∗ ((a6).view.loc thr ↦[Finset.univ \ rowSetAt d L off h]{σ} Cidx m d L))
    ∗ ⌜off = ![l, 0]⌝ ∗ ⌜GoodG m d L slot l fd⌝)

/-- Ring slot j at the head of outer trip n: its gather of position 4 n + j in flight, or (after the last trip) idle. -/
def PG (slot : Memref sig .scVector .vmem S128x128 .f32) (sem : DmaSem sig) (σ : PosShare TreeShare) (j : Fin 4) (n : ℕ) : sProp 𝕄 :=
  if n < 50 then FlG m d L slot sem σ j (4 * n + j.val)
  else
    iprop((∃ f, slot.view.loc thr ↦[slot.view.set]{fullShare} f) ∗ ((a6).view.loc thr ↦{σ} Cidx m d L)
      ∗ ((a3).view.loc thr ↦[a3sSet d L]{shareTok (qT (cL L) (sL L)) 4 j} V1 m d) ∗ semVal (thr, SemLoc.dma sem) 0)

/-- Slab l of the result at contents f. -/
abbrev slabPt (l : Fin 200) (f : Buf (Elt F) ((a5).view.loc thr)) : sProp 𝕄 :=
  (slabL L l).view.loc thr ↦[(slabL L l).view.set]{fullShare} f

/-- The copy-out of position l in flight from a staging slot: it delivers the slab (at the program's own offset
    term, which is slab l's) at contents that agree with the result function on the slab. -/
def FlS (slotT : Memref sig .scVector .vmem S64x128 .f32) (sem : DmaSem sig) (l : ℕ) : sProp 𝕄 :=
  iprop(∃ (off : Fin 3 → Nat) (h : ∀ a, off a + S1x64x128.size a ≤ S200x64x4096.size a)
      (fS : Buf (Elt F) ((a5).view.loc thr)) (R : Buf (Elt F) (slotT.view.loc thr)),
    ⌜off = offS L l⌝ ∗ ⌜∀ i ∈ slabSetAt d L off h, fS i = Out3 m d i⌝ ∗
    Transfers.Flight countersEmb thr (SemLoc.dma sem) (default : HIx 1) 262144
      iprop(((slabAt off h).view.loc thr ↦[(slabAt off h).view.set]{fullShare} fS) ∗ (slotT.view.loc thr ↦[slotT.view.set]{fullShare} R)))

/-- Staging slot tb at the head of outer trip n: idle before the first trip, else the copy-out of position 4 n - 2 + tb in flight. -/
def PS (slotT : Memref sig .scVector .vmem S64x128 .f32) (sem : DmaSem sig) (tb : ℕ) (n : ℕ) : sProp 𝕄 :=
  if n = 0 then iprop((∃ f, slotT.view.loc thr ↦[slotT.view.set]{fullShare} f) ∗ semVal (thr, SemLoc.dma sem) 0)
  else FlS m d L slotT sem (4 * n - 2 + tb)

/-- The slabs already written (positions below 4 n - 2) and the slabs not yet touched (from 4 n on). -/
def doneS (n : ℕ) : sProp 𝕄 := bigSep (Finset.univ.filter fun l : Fin 200 => l.val < 4 * n - 2) fun l => slabPt d L l (Out3 m d)
def todoS (n : ℕ) : sProp 𝕄 := bigSep (Finset.univ.filter fun l : Fin 200 => 4 * n ≤ l.val) fun l => slabPt d L l (m (v3Loc d))

/-- The outer loop's invariant at the head of trip n. -/
def Iout (O : CellTallies nD τ sig (HIx 1)) (W : Waits sig (HIx 1)) (n : ℕ) (_ : PUnit) : sProp 𝕄 :=
  iprop(Transfers.MayWaits thr (none : HIx 1) O
    ∗ ((a7).view.loc thr ↦{fullShare} Ppos m d L)
    ∗ PG m d L slotG0 cc0_scratch4.sem (shareDrop fullShare 4) 0 n
    ∗ PG m d L slotG1 cc0_scratch5.sem (shareTok fullShare 4 0) 1 n
    ∗ PG m d L slotG2 cc0_scratch6.sem (shareTok fullShare 4 1) 2 n
    ∗ PG m d L slotG3 cc0_scratch7.sem (shareTok fullShare 4 2) 3 n
    ∗ PS m d L slotT0 cc0_scratch8.sem 0 n
    ∗ PS m d L slotT1 cc0_scratch9.sem 1 n
    ∗ doneS m d L n ∗ todoS m d L n
    ∗ ∃ W', ⌜∀ p ∈ W', p ∈ W ∨ p.2 = none⌝ ∗ owes thr O W')

theorem PG_flight (slot : Memref sig .scVector .vmem S128x128 .f32) (sem : DmaSem sig) (σ : PosShare TreeShare) (j : Fin 4) (n : ℕ) (h : n < 50) :
    PG m d L slot sem σ j n = FlG m d L slot sem σ j (4 * n + j.val) := by
  unfold PG; rw [if_pos h]
theorem PG_idle (slot : Memref sig .scVector .vmem S128x128 .f32) (sem : DmaSem sig) (σ : PosShare TreeShare) (j : Fin 4) (n : ℕ) (h : ¬ n < 50) :
    PG m d L slot sem σ j n = iprop((∃ f, slot.view.loc thr ↦[slot.view.set]{fullShare} f) ∗ ((a6).view.loc thr ↦{σ} Cidx m d L)
      ∗ ((a3).view.loc thr ↦[a3sSet d L]{shareTok (qT (cL L) (sL L)) 4 j} V1 m d) ∗ semVal (thr, SemLoc.dma sem) 0) := by
  unfold PG; rw [if_neg h]
theorem PS_idle (slotT : Memref sig .scVector .vmem S64x128 .f32) (sem : DmaSem sig) (tb : ℕ) :
    PS m d L slotT sem tb 0 = iprop((∃ f, slotT.view.loc thr ↦[slotT.view.set]{fullShare} f) ∗ semVal (thr, SemLoc.dma sem) 0) := by
  unfold PS; rw [if_pos rfl]
theorem PS_flight (slotT : Memref sig .scVector .vmem S64x128 .f32) (sem : DmaSem sig) (tb : ℕ) (n : ℕ) (h : n ≠ 0) :
    PS m d L slotT sem tb n = FlS m d L slotT sem (4 * n - 2 + tb) := by
  unfold PS; rw [if_neg h]

end Cert.Proof.LaunchK

end
-- ==== Proof.LaneBaseK.lean ====
/-
  Pure facts about the indexed load and the indexed store of a vector subcore, with no kernel in sight.

  An indexed store writes its lanes in ascending order: lane `k` puts its value at the index the index vectors name
  for it, over what is there.  When every lane's value is what a target array `T` holds at the index that lane names,
  the array after the store agrees with `T` at every index some lane names (`storeIdx_hit`: a later lane naming the
  same index writes `T`'s value there again), and still agrees with `T` wherever the array before did
  (`storeIdx_keep`: a lane either leaves the element alone or writes `T`'s value).  Both are one induction over the
  list of lanes.  An indexed load reads the base array at the named index (`loadIdx_apply`), and for a rank-two base
  array the named index is the pair of the two index vectors' lanes (`idxAt_ix2`).
-/
import Idealize.ShloMosaic.PureOps.ShapeOps
import Idealize.ShloMosaic.Lib.ValueIdx

namespace Cert.LanesK

open Idealize.ShloMosaic Idealize.ShloMosaic.ValueIdx

variable {F : FTy → Type} [FloatOps F]

section Store
variable {s : Shape} {e : EltTy} {d : Fin 1 → Nat}

/-- Every index of a rank-one shape is the multi-index of its one coordinate. -/
theorem eq_ofLane (x : (⟨1, d⟩ : Shape).Idx) : x = Shape.ofLane (x 0) := by
  funext a
  obtain rfl : a = 0 := Fin.eq_zero a
  rfl

/-- One lane of an unmasked, overwriting indexed store: lane `k`'s value at the index it names, the rest as before. -/
def step (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = (idxAt idxs h (Shape.ofLane k) a).val) then v (Shape.ofLane k) else g j

/-- The unmasked, overwriting indexed store is the fold of `step` over the lanes in ascending order. -/
theorem storeIdx_eq_foldl (R : Vec F s e) (idxs : Fin s.rank → IVec ⟨1, d⟩ 32) (v : Vec F ⟨1, d⟩ e)
    (h : ∀ a x, (idxs a x).toNat < s.size a) :
    storeIdx R idxs v (fun _ => 1#1) false h = (List.finRange (d 0)).foldl (step idxs v h) R := by
  unfold storeIdx
  congr 1

/-- A lane whose value is the target's at the index it names keeps the agreement with the target at every index. -/
theorem step_keep (T : Vec F s e) (idxs : Fin s.rank → IVec ⟨1, d⟩ 32) (v : Vec F ⟨1, d⟩ e)
    (h : ∀ a x, (idxs a x).toNat < s.size a) (hv : ∀ x, v x = T (idxAt idxs h x))
    (g : Vec F s e) (k : Fin (d 0)) (p : s.Idx) (hp : g p = T p) : step idxs v h g k p = T p := by
  unfold step
  split
  · next hc =>
    have : p = idxAt idxs h (Shape.ofLane k) := funext fun a => Fin.ext (hc a)
    rw [hv, this]
  · exact hp

/-- A lane writes the target's value at the index it names. -/
theorem step_hit (T : Vec F s e) (idxs : Fin s.rank → IVec ⟨1, d⟩ 32) (v : Vec F ⟨1, d⟩ e)
    (h : ∀ a x, (idxs a x).toNat < s.size a) (hv : ∀ x, v x = T (idxAt idxs h x))
    (g : Vec F s e) (k : Fin (d 0)) : step idxs v h g k (idxAt idxs h (Shape.ofLane k)) = T (idxAt idxs h (Shape.ofLane k)) := by
  unfold step
  rw [if_pos (fun _ => rfl), hv]

/-- Over any list of lanes, agreement with the target at an index is kept. -/
theorem foldl_keep (T : Vec F s e) (idxs : Fin s.rank → IVec ⟨1, d⟩ 32) (v : Vec F ⟨1, d⟩ e)
    (h : ∀ a x, (idxs a x).toNat < s.size a) (hv : ∀ x, v x = T (idxAt idxs h x)) (p : s.Idx) :
    ∀ (l : List (Fin (d 0))) (g : Vec F s e), g p = T p → l.foldl (step idxs v h) g p = T p
  | [], _, hp => hp
  | k :: l, g, hp => foldl_keep T idxs v h hv p l _ (step_keep T idxs v h hv g k p hp)

/-- Over any list of lanes, an index one of them names ends with the target's value. -/
theorem foldl_hit (T : Vec F s e) (idxs : Fin s.rank → IVec ⟨1, d⟩ 32) (v : Vec F ⟨1, d⟩ e)
    (h : ∀ a x, (idxs a x).toNat < s.size a) (hv : ∀ x, v x = T (idxAt idxs h x)) (p : s.Idx) :
    ∀ (l : List (Fin (d 0))) (g : Vec F s e), (∃ k ∈ l, idxAt idxs h (Shape.ofLane k) = p) →
      l.foldl (step idxs v h) g p = T p
  | [], _, hk => by obtain ⟨k, hk, _⟩ := hk; cases hk
  | k :: l, g, hk => by
    obtain ⟨k', hk', hp⟩ := hk
    rw [List.foldl_cons]
    by_cases hl : ∃ k ∈ l, idxAt idxs h (Shape.ofLane k) = p
    · exact foldl_hit T idxs v h hv p l _ hl
    · have hkk : k' = k := by
        rcases List.mem_cons.1 hk' with rfl | hin
        · rfl
        · exact absurd ⟨k', hin, hp⟩ hl
      subst hkk
      subst hp
      exact foldl_keep T idxs v h hv _ l _ (step_hit T idxs v h hv g k')

/-- After the store, every index some lane names holds the target's value. -/
theorem storeIdx_hit (R T : Vec F s e) (idxs : Fin s.rank → IVec ⟨1, d⟩ 32) (v : Vec F ⟨1, d⟩ e)
    (h : ∀ a x, (idxs a x).toNat < s.size a) (hv : ∀ x, v x = T (idxAt idxs h x)) (p : s.Idx)
    (hp : ∃ x, idxAt idxs h x = p) : storeIdx R idxs v (fun _ => 1#1) false h p = T p := by
  rw [storeIdx_eq_foldl]
  obtain ⟨x, hx⟩ := hp
  refine foldl_hit T idxs v h hv p _ R ⟨x 0, List.mem_finRange _, ?_⟩
  rw [← eq_ofLane x]; exact hx

/-- After the store, every index at which the array before agreed with the target still does. -/
theorem storeIdx_keep (R T : Vec F s e) (idxs : Fin s.rank → IVec ⟨1, d⟩ 32) (v : Vec F ⟨1, d⟩ e)
    (h : ∀ a x, (idxs a x).toNat < s.size a) (hv : ∀ x, v x = T (idxAt idxs h x)) (p : s.Idx)
    (hp : R p = T p) : storeIdx R idxs v (fun _ => 1#1) false h p = T p := by
  rw [storeIdx_eq_foldl]
  exact foldl_keep T idxs v h hv p _ R hp

end Store

section Load
variable {s t : Shape} {e : EltTy}

/-- An indexed load reads the base array at the index the index vectors name. -/
theorem loadIdx_apply (f : Vec F s e) (idxs : Fin s.rank → IVec t 32) (h : ∀ a x, (idxs a x).toNat < s.size a)
    (x : t.Idx) : loadIdx f idxs h x = f (idxAt idxs h x) := rfl

/-- For a rank-two base array, the named index is the pair of the two index vectors' lanes. -/
theorem idxAt_ix2 {n0 n1 : Nat} (a b : IVec t 32)
    (h : ∀ c x, ((![a, b] : Fin 2 → IVec t 32) c x).toNat < (⟨2, ![n0, n1]⟩ : Shape).size c) (x : t.Idx) :
    idxAt (s := ⟨2, ![n0, n1]⟩) ![a, b] h x = ix2 ⟨(a x).toNat, h 0 x⟩ ⟨(b x).toNat, h 1 x⟩ := by
  funext c
  match c with
  | ⟨0, _⟩ => rfl
  | ⟨1, _⟩ => rfl

end Load

end Cert.LanesK
-- ==== Proof.LaneVecK.lean ====
/-
  The lanes of a 16-lane index vector, and the kernel's constant index vectors.

  A lane `x` of a 16-lane vector has a lane number `ln x < 16`.  The lane-index vector holds the lane number in every
  lane; the kernel's zero vector is that times zero, and its eight row vectors are the lane number plus
  0, 16, …, 112 — the batch rows `16·j' + lane` of the eight row groups.  Adding a word to every lane of a vector adds the
  numbers when nothing wraps (`addi_splat_toNat`).  Two index vectors whose lanes are below the two extents of a
  rank-two array name indices inside it (`pair_lt`): the form every bounds side condition of the inner loop has.
-/
import proofs.«206908_g46772193853751_cont_8to1c4_160_30_alg».proof.Proof.Gen.Kernel.Skeleton

namespace Cert.LanesK

open Idealize.ShloMosaic Cert.Kernel Cert.Kernel.Gen

/-- The lane number of a lane of a 16-lane vector. -/
abbrev ln (x : S16.Idx) : ℕ := (x 0).val

theorem ln_lt (x : S16.Idx) : ln x < 16 := (x 0).isLt

/-- The lane-index vector of a vector subcore: lane `x` holds `ln x`. -/
abbrev iotaV : IVec S16 32 := iota .scVector S16 32 [0] iota_S16_d0_w32_scVector

theorem iotaV_apply (x : S16.Idx) : iotaV x = BitVec.ofNat 32 (ln x) := by
  show BitVec.ofNat 32 (0 * 16 + (x 0).val) = _
  rw [Nat.zero_mul, Nat.zero_add]

theorem iotaV_toNat (x : S16.Idx) : (iotaV x).toNat = ln x := by
  have := ln_lt x
  rw [iotaV_apply, BitVec.toNat_ofNat]; omega

/-- Adding one word to every lane adds the numbers, when the sum fits in 32 bits. -/
theorem addi_splat_toNat (a : IVec S16 32) (w : BitVec 32) (x : S16.Idx) (h : (a x).toNat + w.toNat < 2 ^ 32) :
    (addi a (broadcast S16 w) x).toNat = (a x).toNat + w.toNat := by
  show (a x + w).toNat = _
  rw [BitVec.toNat_add]; omega

/-- The zero vector: the lane-index vector times zero. -/
theorem pay169_apply (x : S16.Idx) : k0_pay169 x = 0#32 := by
  show iotaV x * 0#32 = 0#32
  exact BitVec.mul_zero

theorem pay170_toNat (x : S16.Idx) : (k0_pay170 x).toNat = ln x := by
  have := ln_lt x
  show (addi iotaV (broadcast S16 0#32) x).toNat = _
  rw [addi_splat_toNat _ _ _ (by rw [iotaV_toNat]; show ln x + 0 < _; omega), iotaV_toNat]; rfl

theorem pay171_toNat (x : S16.Idx) : (k0_pay171 x).toNat = ln x + 16 := by
  have := ln_lt x
  show (addi iotaV (broadcast S16 16#32) x).toNat = _
  rw [addi_splat_toNat _ _ _ (by rw [iotaV_toNat]; show ln x + 16 < _; omega), iotaV_toNat]; rfl

theorem pay172_toNat (x : S16.Idx) : (k0_pay172 x).toNat = ln x + 32 := by
  have := ln_lt x
  show (addi iotaV (broadcast S16 32#32) x).toNat = _
  rw [addi_splat_toNat _ _ _ (by rw [iotaV_toNat]; show ln x + 32 < _; omega), iotaV_toNat]; rfl

theorem pay173_toNat (x : S16.Idx) : (k0_pay173 x).toNat = ln x + 48 := by
  have := ln_lt x
  show (addi iotaV (broadcast S16 48#32) x).toNat = _
  rw [addi_splat_toNat _ _ _ (by rw [iotaV_toNat]; show ln x + 48 < _; omega), iotaV_toNat]; rfl

theorem pay174_toNat (x : S16.Idx) : (k0_pay174 x).toNat = ln x + 64 := by
  have := ln_lt x
  show (addi iotaV (broadcast S16 64#32) x).toNat = _
  rw [addi_splat_toNat _ _ _ (by rw [iotaV_toNat]; show ln x + 64 < _; omega), iotaV_toNat]; rfl

theorem pay175_toNat (x : S16.Idx) : (k0_pay175 x).toNat = ln x + 80 := by
  have := ln_lt x
  show (addi iotaV (broadcast S16 80#32) x).toNat = _
  rw [addi_splat_toNat _ _ _ (by rw [iotaV_toNat]; show ln x + 80 < _; omega), iotaV_toNat]; rfl

theorem pay176_toNat (x : S16.Idx) : (k0_pay176 x).toNat = ln x + 96 := by
  have := ln_lt x
  show (addi iotaV (broadcast S16 96#32) x).toNat = _
  rw [addi_splat_toNat _ _ _ (by rw [iotaV_toNat]; show ln x + 96 < _; omega), iotaV_toNat]; rfl

theorem pay177_toNat (x : S16.Idx) : (k0_pay177 x).toNat = ln x + 112 := by
  have := ln_lt x
  show (addi iotaV (broadcast S16 112#32) x).toNat = _
  rw [addi_splat_toNat _ _ _ (by rw [iotaV_toNat]; show ln x + 112 < _; omega), iotaV_toNat]; rfl

/-- Every row vector's lanes are batch rows of the 128-row block. -/
theorem rows_lt (x : S16.Idx) :
    (k0_pay170 x).toNat < 128 ∧ (k0_pay171 x).toNat < 128 ∧ (k0_pay172 x).toNat < 128 ∧ (k0_pay173 x).toNat < 128 ∧
    (k0_pay174 x).toNat < 128 ∧ (k0_pay175 x).toNat < 128 ∧ (k0_pay176 x).toNat < 128 ∧ (k0_pay177 x).toNat < 128 := by
  have := ln_lt x
  rw [pay170_toNat, pay171_toNat, pay172_toNat, pay173_toNat, pay174_toNat, pay175_toNat, pay176_toNat, pay177_toNat]
  omega

/-- Two index vectors with lanes below the two extents of a rank-two array name indices inside it. -/
theorem pair_lt {n0 n1 : ℕ} (a b : IVec S16 32) (ha : ∀ x, (a x).toNat < n0) (hb : ∀ x, (b x).toNat < n1) :
    ∀ c x, ((![a, b] : Fin 2 → IVec S16 32) c x).toNat < (⟨2, ![n0, n1]⟩ : Shape).size c := by
  intro c x
  match c with
  | ⟨0, _⟩ => exact ha x
  | ⟨1, _⟩ => exact hb x

end Cert.LanesK
-- ==== Proof.LaneCoverK.lean ====
/-
  The inner loop's stores cover the whole 64 × 128 block.

  In trip `k` of the inner loop, the store for feature group `dc` (of 4) and row group `j'` (of 8) writes, from lane
  `lane`, the block's element at feature `(lane + k) mod 16 + 16·dc` and batch row `16·j' + lane`: the lanes walk a
  diagonal of a 16 × 16 tile, and the 16 trips turn the diagonal through every column of the tile.  Every element
  `(a, b)` of the block is written by exactly this description with `dc = a / 16`, `j' = b / 16`, `lane = b mod 16` and
  `k = (a mod 16 + 16 − lane) mod 16`.
-/
import Idealize.ShloMosaic.Lib.ValueIdx

namespace Cert.LanesK

/-- The block element lane `lane` writes in trip `k`, for feature group `dc` and row group `j'`. -/
def pt (dc : Fin 4) (j' : Fin 8) (k : ℕ) (lane : Fin 16) : Fin 64 × Fin 128 :=
  (⟨(lane.val + k) % 16 + 16 * dc.val, by have := dc.isLt; omega⟩,
   ⟨16 * j'.val + lane.val, by have := j'.isLt; have := lane.isLt; omega⟩)

@[simp] theorem pt_fst (dc : Fin 4) (j' : Fin 8) (k : ℕ) (lane : Fin 16) :
    ((pt dc j' k lane).1 : ℕ) = (lane.val + k) % 16 + 16 * dc.val := rfl

@[simp] theorem pt_snd (dc : Fin 4) (j' : Fin 8) (k : ℕ) (lane : Fin 16) :
    ((pt dc j' k lane).2 : ℕ) = 16 * j'.val + lane.val := rfl

/-- Every element of the block is written in some trip below 16, by some lane of some store. -/
theorem cover (a : Fin 64) (b : Fin 128) :
    ∃ k, k < 16 ∧ ∃ (dc : Fin 4) (j' : Fin 8) (lane : Fin 16), pt dc j' k lane = (a, b) := by
  have ha := a.isLt
  have hb := b.isLt
  refine ⟨(a.val % 16 + 16 - b.val % 16) % 16, Nat.mod_lt _ (by omega), ⟨a.val / 16, by omega⟩, ⟨b.val / 16, by omega⟩,
    ⟨b.val % 16, Nat.mod_lt _ (by omega)⟩, ?_⟩
  refine Prod.ext (Fin.ext ?_) (Fin.ext ?_)
  · simp only [pt_fst]; omega
  · simp only [pt_snd]; omega

/-- In one trip, two lanes of one store that write the same element are the same lane. -/
theorem pt_lane_inj (dc : Fin 4) (j' : Fin 8) (k : ℕ) (l l' : Fin 16) (h : pt dc j' k l = pt dc j' k l') : l = l' := by
  have h2 := congrArg (fun p => (p.2 : ℕ)) h
  simp only [pt_snd] at h2
  exact Fin.ext (by omega)

end Cert.LanesK
-- ==== Proof.LaneTripK.lean ====
/-
  One position's block: the function it is to hold, and why the inner loop fills it.

  The transposed block of one position has 64 features by 128 batch rows.  Its element at feature `f` and batch row
  `b` is to hold the gathered block's element at row `b`, column `f`, plus the positional table's element at the
  position's packed row `w` and column `f + o` (`Tslot`).  One store of the inner loop gathers, lane by lane, the
  gathered block at (row vector, column vector) and the positional table at (row `w`, column vector plus `o`), adds
  them and scatters the sums at (column vector, row vector): every lane's value is `Tslot` at the index that lane
  names (`store_value`).

  So over a view of the block, the set of elements that hold `Tslot`'s value only grows with each store: it gains the
  elements the store's lanes name and loses nothing (`good_step`, from the two store lemmas).  The elements named by
  the store of feature group `dc` and row group `j'` in trip `k` are the 16 points `pt dc j' k lane` (`hit_eq`); those
  of all stores of trips below `k` make up `AccTo k`, which is empty at 0, gains at most the 32 stores' points in each
  trip, and is everything at 16 because the points cover the block.
-/
import proofs.«206908_g46772193853751_cont_8to1c4_160_30_alg».proof.Proof.LaneBaseK
import proofs.«206908_g46772193853751_cont_8to1c4_160_30_alg».proof.Proof.LaneVecK
import proofs.«206908_g46772193853751_cont_8to1c4_160_30_alg».proof.Proof.LaneCoverK
import Idealize.ShloMosaic.Signature.View

namespace Cert.LanesK

open Idealize.ShloMosaic Idealize.ShloMosaic.ValueIdx Cert.Kernel Cert.Kernel.Gen

variable {F : FTy → Type} [FloatOps F]

/-! ### The block's target function and the value of one store -/

/-- What the transposed block of one position is to hold at feature `p 0` and batch row `p 1`: the gathered block's
    element at that row and feature, plus the positional table's at packed row `w`, column feature + `o`. -/
def Tslot (Gc : Vec F S128x128 .f32) (Pc : Vec F S100x128 .f32) (o w : BitVec 32) (hw : w.toNat < 100)
    (ho : o.toNat ≤ 64) : S64x128.Idx → F .f32 :=
  fun p => FloatOps.addf
    (Gc (ix2 (⟨(p 1).val, idx2_lt1 p⟩ : Fin 128) (⟨(p 0).val, Nat.lt_trans (idx2_lt0 p) (by omega)⟩ : Fin 128)))
    (Pc (ix2 (⟨w.toNat, hw⟩ : Fin 100) (⟨(p 0).val + o.toNat, by have := idx2_lt0 p; omega⟩ : Fin 128)))

/-- Every lane of one store's sum vector is the target's value at the index that lane names: the gathered block is read
    at (row vector, column vector), the positional table at (row `w`, column vector plus `o`), and the sum is written
    at (column vector, row vector). -/
theorem store_value (Gc : Vec F S128x128 .f32) (Pc : Vec F S100x128 .f32) (o w : BitVec 32) (hw : w.toNat < 100)
    (ho : o.toNat ≤ 64) (gc r prowV pcol : IVec S16 32)
    (hprow : ∀ x, (prowV x).toNat = w.toNat) (hpcol : ∀ x, (pcol x).toNat = (gc x).toNat + o.toNat)
    (hP : ∀ a x, ((![prowV, pcol] : Fin 2 → IVec S16 32) a x).toNat < S100x128.size a)
    (hG : ∀ a x, ((![r, gc] : Fin 2 → IVec S16 32) a x).toNat < S128x128.size a)
    (hS : ∀ a x, ((![gc, r] : Fin 2 → IVec S16 32) a x).toNat < S64x128.size a) (x : S16.Idx) :
    addf (loadIdx Gc ![r, gc] hG) (loadIdx Pc ![prowV, pcol] hP) x
      = Tslot Gc Pc o w hw ho (idxAt ![gc, r] hS x) := by
  show FloatOps.addf (Gc (idxAt ![r, gc] hG x)) (Pc (idxAt ![prowV, pcol] hP x)) = _
  have e1 : idxAt ![r, gc] hG x
      = ix2 (⟨(r x).toNat, hG 0 x⟩ : Fin 128) (⟨(gc x).toNat, hG 1 x⟩ : Fin 128) := idxAt_ix2 r gc hG x
  have e2 : idxAt ![prowV, pcol] hP x
      = ix2 (⟨w.toNat, hw⟩ : Fin 100) (⟨(gc x).toNat + o.toNat, by have := hS 0 x; have : (gc x).toNat < 64 := this; omega⟩ : Fin 128) := by
    rw [idxAt_ix2 prowV pcol hP x]
    congr 1
    · exact Fin.ext (hprow x)
    · exact Fin.ext (hpcol x)
  rw [e1, e2]
  rfl

/-! ### Elements holding the target's value only grow -/

section Good
variable {sig : RefSig} {κ : Kind} {sp : Space} {s : Shape}

/-- Through the view, the buffer holds the target's value at every index of `A`. -/
def GoodOn (sv : View sig κ sp s .f32) (T : s.Idx → F .f32) (A : Set s.Idx) (W : sv.ty.Contents (Elt F)) : Prop :=
  ∀ p ∈ A, sv.read (Elt F) W p = T p

theorem good_mono {sv : View sig κ sp s .f32} {T : s.Idx → F .f32} {A A' : Set s.Idx} {W : sv.ty.Contents (Elt F)}
    (h : GoodOn sv T A W) (hA : A' ⊆ A) : GoodOn sv T A' W := fun p hp => h p (hA hp)

theorem good_empty (sv : View sig κ sp s .f32) (T : s.Idx → F .f32) (W : sv.ty.Contents (Elt F)) :
    GoodOn sv T ∅ W := fun _ hp => absurd hp (Set.notMem_empty _)

/-- An unmasked overwriting store whose every lane carries the target's value at the index it names keeps every good
    index good and makes good every index a lane names. -/
theorem good_step {sv : View sig κ sp s .f32} {T : s.Idx → F .f32} {A : Set s.Idx} {W : sv.ty.Contents (Elt F)}
    (hW : GoodOn sv T A W) {d : Fin 1 → Nat} (idxs : Fin s.rank → IVec ⟨1, d⟩ 32) (v : Vec F ⟨1, d⟩ .f32)
    (h : ∀ a x, (idxs a x).toNat < s.size a) (hv : ∀ x, v x = T (idxAt idxs h x)) :
    GoodOn sv T (A ∪ {p | ∃ x, idxAt idxs h x = p})
      (sv.write (Elt F) W (storeIdx (sv.read (Elt F) W) idxs v (fun _ => 1#1) false h) Finset.univ) := by
  intro p hp
  rw [View.read_write_univ]
  rcases hp with hA | hx
  · exact storeIdx_keep (sv.read (Elt F) W) T idxs v h hv p (hW p hA)
  · exact storeIdx_hit (sv.read (Elt F) W) T idxs v h hv p hx

end Good

/-! ### The elements written so far -/

/-- An index of the block as its (feature, batch row) pair. -/
abbrev pr (p : S64x128.Idx) : Fin 64 × Fin 128 := (⟨(p 0).val, idx2_lt0 p⟩, ⟨(p 1).val, idx2_lt1 p⟩)

/-- The elements the store of feature group `dc` and row group `j'` names in trip `k`. -/
def Hit (dc : Fin 4) (j' : Fin 8) (k : ℕ) : Set S64x128.Idx := {p | ∃ lane : Fin 16, pt dc j' k lane = pr p}

/-- The elements named by some store of a trip below `k`. -/
def AccTo (k : ℕ) : Set S64x128.Idx := {p | ∃ k' < k, ∃ (dc : Fin 4) (j' : Fin 8) (lane : Fin 16), pt dc j' k' lane = pr p}

theorem AccTo_zero : AccTo 0 = ∅ := by
  ext p
  simp [AccTo]

theorem AccTo_full : AccTo 16 = Set.univ := by
  ext p
  simp only [Set.mem_univ, iff_true]
  obtain ⟨k, hk, dc, j', lane, h⟩ := cover (pr p).1 (pr p).2
  exact ⟨k, hk, dc, j', lane, h⟩

/-- What a trip adds: the elements of its 32 stores. -/
theorem acc_succ_subset (k : ℕ) : AccTo (k + 1) ⊆ AccTo k ∪ ⋃ dc, ⋃ j', Hit dc j' k := by
  rintro p ⟨k', hk', dc, j', lane, h⟩
  rcases Nat.lt_succ_iff_lt_or_eq.1 hk' with hlt | rfl
  · exact Or.inl ⟨k', hlt, dc, j', lane, h⟩
  · exact Or.inr (Set.mem_iUnion.2 ⟨dc, Set.mem_iUnion.2 ⟨j', lane, h⟩⟩)

/-- A set that holds what was written before trip `k` and each of the trip's 32 stores' elements holds what is
    written before trip `k + 1`. -/
theorem acc_succ_le {k : ℕ} {B : Set S64x128.Idx} (h0 : AccTo k ⊆ B) (h1 : ∀ dc j', Hit dc j' k ⊆ B) :
    AccTo (k + 1) ⊆ B := by
  intro p hp
  rcases acc_succ_subset k hp with h | h
  · exact h0 h
  · obtain ⟨dc, h⟩ := Set.mem_iUnion.1 h
    obtain ⟨j', h⟩ := Set.mem_iUnion.1 h
    exact h1 dc j' h

/-- The elements one store names, from its two index vectors: with the column vector `(lane + k) mod 16 + 16·dc` and
    the row vector `16·j' + lane`, they are the points of `Hit dc j' k`. -/
theorem hit_eq (dc : Fin 4) (j' : Fin 8) (k : ℕ) (gc r : IVec S16 32)
    (hgc : ∀ x, (gc x).toNat = (ln x + k) % 16 + 16 * dc.val) (hr : ∀ x, (r x).toNat = 16 * j'.val + ln x)
    (hS : ∀ a x, ((![gc, r] : Fin 2 → IVec S16 32) a x).toNat < S64x128.size a) :
    {p | ∃ x, idxAt ![gc, r] hS x = p} = Hit dc j' k := by
  ext p
  constructor
  · rintro ⟨x, rfl⟩
    refine ⟨⟨ln x, ln_lt x⟩, Prod.ext (Fin.ext ?_) (Fin.ext ?_)⟩
    · exact (hgc x).symm
    · exact (hr x).symm
  · rintro ⟨lane, h⟩
    refine ⟨ix1 lane, ?_⟩
    have h0 : (lane.val + k) % 16 + 16 * dc.val = (p 0).val := congrArg (fun q => (q.1 : ℕ)) h
    have h1 : 16 * j'.val + lane.val = (p 1).val := congrArg (fun q => (q.2 : ℕ)) h
    funext a
    match a with
    | ⟨0, _⟩ => exact Fin.ext ((hgc (ix1 lane)).trans h0)
    | ⟨1, _⟩ => exact Fin.ext ((hr (ix1 lane)).trans h1)

end Cert.LanesK
-- ==== Proof.LaneGoodK.lean ====
/-
  The block's good elements, through a memory reference as a store through it and a load through it spell them.

  A scatter through a memory reference `M` of the 64 × 128 block reads the block's contents through `M`'s view over its
  whole rectangle, scatters into what it read, and writes the result back through the same rectangle (`stepW`).  Read
  the same way, the elements holding a target function's value only grow under such a step (`goodM_step`): this is
  `good_step` at the view of `M` restricted to its whole rectangle.
-/
import proofs.«206908_g46772193853751_cont_8to1c4_160_30_alg».proof.Proof.LaneTripK
import Idealize.ShloMosaic.Signature.Memref

namespace Cert.LanesK

open Idealize.ShloMosaic Idealize.ShloMosaic.ValueIdx Cert.Kernel Cert.Kernel.Gen

variable {F : FTy → Type} [FloatOps F]
variable {sg : RefSig} {κ : Kind} {sp : Space}

/-- The contents after one unmasked overwriting scatter through `M`: what is read through `M` over its whole rectangle,
    scattered into, and written back through the whole rectangle. -/
def stepW (M : Memref sg κ sp S64x128 .f32) (W : (M.access (Rect.whole S64x128)).ty.Contents (Elt F))
    (idxs : Fin 2 → IVec S16 32) (v : Vec F S16 .f32) (h : ∀ a x, (idxs a x).toNat < S64x128.size a) :
    (M.access (Rect.whole S64x128)).ty.Contents (Elt F) :=
  View.write (Elt F) (M.access (Rect.whole S64x128)) W
    (storeIdx (View.readAt (Elt F) M.view (LoadRect.whole S64x128) W) idxs v (fun _ => 1#1) false h) Finset.univ

/-- Read through `M` over its whole rectangle, the contents hold the target's value at every index of `A`. -/
def GoodOnM (M : Memref sg κ sp S64x128 .f32) (T : S64x128.Idx → F .f32) (A : Set S64x128.Idx)
    (W : (M.access (Rect.whole S64x128)).ty.Contents (Elt F)) : Prop :=
  ∀ p ∈ A, View.readAt (Elt F) M.view (LoadRect.whole S64x128) W p = T p

theorem goodM_mono {M : Memref sg κ sp S64x128 .f32} {T : S64x128.Idx → F .f32} {A A' : Set S64x128.Idx}
    {W : (M.access (Rect.whole S64x128)).ty.Contents (Elt F)} (h : GoodOnM M T A W) (hA : A' ⊆ A) :
    GoodOnM M T A' W := fun p hp => h p (hA hp)

theorem goodM_empty (M : Memref sg κ sp S64x128 .f32) (T : S64x128.Idx → F .f32)
    (W : (M.access (Rect.whole S64x128)).ty.Contents (Elt F)) : GoodOnM M T ∅ W :=
  fun _ hp => absurd hp (Set.notMem_empty _)

/-- A scatter whose every lane carries the target's value at the index it names keeps the good elements and adds the
    elements its lanes name. -/
theorem goodM_step {M : Memref sg κ sp S64x128 .f32} {T : S64x128.Idx → F .f32} {A : Set S64x128.Idx}
    {W : (M.access (Rect.whole S64x128)).ty.Contents (Elt F)} (hW : GoodOnM M T A W)
    (idxs : Fin 2 → IVec S16 32) (v : Vec F S16 .f32) (h : ∀ a x, (idxs a x).toNat < S64x128.size a)
    (hv : ∀ x, v x = T (idxAt idxs h x)) :
    GoodOnM M T (A ∪ {p | ∃ x, idxAt idxs h x = p}) (stepW M W idxs v h) :=
  good_step (sv := M.access (Rect.whole S64x128)) (T := T) (A := A) (W := W) hW idxs v h hv

/-- The same, with the elements the lanes name given as a set. -/
theorem goodM_step_hit {M : Memref sg κ sp S64x128 .f32} {T : S64x128.Idx → F .f32} {A H : Set S64x128.Idx}
    {W : (M.access (Rect.whole S64x128)).ty.Contents (Elt F)} (hW : GoodOnM M T A W)
    (idxs : Fin 2 → IVec S16 32) (v : Vec F S16 .f32) (h : ∀ a x, (idxs a x).toNat < S64x128.size a)
    (hv : ∀ x, v x = T (idxAt idxs h x)) (hH : {p | ∃ x, idxAt idxs h x = p} = H) :
    GoodOnM M T (A ∪ H) (stepW M W idxs v h) :=
  hH ▸ goodM_step hW idxs v h hv

end Cert.LanesK
-- ==== Proof.LaneListK.lean ====
/-
  The block's good elements when the block is held as one listed whole-rectangle piece.

  A run of scatters through a memory reference `M` of the 64 × 128 block, each rewriting the whole rectangle, leaves
  the block's contents as ONE piece over the contents `R` before: the last scatter's result vector.  That vector is
  the scatter into what the previous one-piece list reads back through the whole rectangle — which is the previous
  vector (`readCov_whole`) — and so on down to what `R` reads.  So goodness is a property of the vectors (`GoodV`):
  what `R` reads is good where `R` is (`goodV_of_goodM`), each scatter keeps the good elements and adds those its
  lanes name (`goodV_first`, `goodV_step`), and the final one-piece contents are good where the last vector is
  (`goodM_of_goodV`).
-/
import proofs.«206908_g46772193853751_cont_8to1c4_160_30_alg».proof.Proof.LaneGoodK
import Idealize.ShloMosaic.Lib.Writes
import Idealize.ShloMosaic.Lib.Exec.Geometry
import Idealize.ShloMosaic.Lib.Pipeline.FrameBody

namespace Cert.LanesK

open Idealize.ShloMosaic Idealize.ShloMosaic.ValueIdx Cert.Kernel Cert.Kernel.Gen

variable {F : FTy → Type} [FloatOps F]
variable {sg : RefSig} {κ : Kind} {sp : Space}

/-- The vector holds the target's value at every index of `A`. -/
def GoodV (T : S64x128.Idx → F .f32) (A : Set S64x128.Idx) (X : Vec F S64x128 .f32) : Prop :=
  ∀ p ∈ A, X p = T p

theorem goodV_mono {T : S64x128.Idx → F .f32} {A A' : Set S64x128.Idx} {X : Vec F S64x128 .f32}
    (hA : A' ⊆ A) (h : GoodV T A X) : GoodV T A' X := fun p hp => h p (hA hp)

/-- What the whole-rectangle load reads off a one-piece list is the piece's vector. -/
theorem readCov_whole (M : Memref sg κ sp S64x128 .f32) (X : Vec F S64x128 .f32) :
    M.view.readCov (Val := Elt F) [(⟨Rect.whole S64x128, X⟩ : View.Piece (Elt F) S64x128 .f32)] (LoadRect.whole S64x128) = X :=
  View.readCov_cons_toLoadRect (Val := Elt F) M.view (Rect.whole S64x128) X []

/-- What `R` reads through the whole rectangle is good where `R` is. -/
theorem goodV_of_goodM {M : Memref sg κ sp S64x128 .f32} {T : S64x128.Idx → F .f32} {A : Set S64x128.Idx}
    {R : (M.access (Rect.whole S64x128)).ty.Contents (Elt F)} (h : GoodOnM M T A R) :
    GoodV T A (View.readAt (Elt F) M.view (LoadRect.whole S64x128) R) := h

/-- The one-piece contents are good where the piece's vector is. -/
theorem goodM_of_goodV (M : Memref sg κ sp S64x128 .f32) {T : S64x128.Idx → F .f32} {A : Set S64x128.Idx}
    (R : (M.access (Rect.whole S64x128)).ty.Contents (Elt F)) {X : Vec F S64x128 .f32} (h : GoodV T A X) :
    GoodOnM M T A (M.view.writes (Elt F) R [(⟨Rect.whole S64x128, X⟩ : View.Piece (Elt F) S64x128 .f32)]) := by
  intro p hp
  have e : View.readAt (Elt F) M.view (LoadRect.whole S64x128) (M.view.writes (Elt F) R [(⟨Rect.whole S64x128, X⟩ : View.Piece (Elt F) S64x128 .f32)]) = X :=
    View.read_write_univ (v := M.access (Rect.whole S64x128)) R X
  rw [e]; exact h p hp

/-- A scatter into a good vector, every lane carrying the target's value at the index it names. -/
theorem goodV_first {T : S64x128.Idx → F .f32} {A H : Set S64x128.Idx} {X : Vec F S64x128 .f32}
    (idxs : Fin 2 → IVec S16 32) (v : Vec F S16 .f32) (h : ∀ a x, (idxs a x).toNat < S64x128.size a)
    (hv : ∀ x, v x = T (idxAt idxs h x)) (hH : {p | ∃ x, idxAt idxs h x = p} = H) (hX : GoodV T A X) :
    GoodV T (A ∪ H) (storeIdx X idxs v (fun _ => 1#1) false h) := by
  subst hH
  intro p hp
  rcases hp with hA | hx
  · exact storeIdx_keep (s := S64x128) (e := .f32) X T idxs v h hv p (hX p hA)
  · exact storeIdx_hit (s := S64x128) (e := .f32) X T idxs v h hv p hx

/-- One later scatter of a run: into what the one-piece list of the previous vector reads back through the whole
    rectangle. -/
noncomputable def stepX (M : Memref sg κ sp S64x128 .f32) (X : Vec F S64x128 .f32) (idxs : Fin 2 → IVec S16 32) (v : Vec F S16 .f32)
    (h : ∀ a x, (idxs a x).toNat < S64x128.size a) : Vec F S64x128 .f32 :=
  storeIdx (M.view.readCov (Val := Elt F) [(⟨Rect.whole S64x128, X⟩ : View.Piece (Elt F) S64x128 .f32)] (LoadRect.whole S64x128)) idxs v
    (fun _ => 1#1) false h

/-- The same into what the previous one-piece list reads back. -/
theorem goodV_step (M : Memref sg κ sp S64x128 .f32) {T : S64x128.Idx → F .f32} {A H : Set S64x128.Idx}
    {X : Vec F S64x128 .f32}
    (idxs : Fin 2 → IVec S16 32) (v : Vec F S16 .f32) (h : ∀ a x, (idxs a x).toNat < S64x128.size a)
    (hv : ∀ x, v x = T (idxAt idxs h x)) (hH : {p | ∃ x, idxAt idxs h x = p} = H) (hX : GoodV T A X) :
    GoodV T (A ∪ H) (stepX M X idxs v h) := by
  unfold stepX
  rw [readCov_whole]
  exact goodV_first idxs v h hv hH hX

end Cert.LanesK
-- ==== Proof.Lane1K.lean ====
/-
  The index arithmetic of one copy of the inner loop (k0_t2_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVecK

namespace Cert.LanesK.C1

open Idealize.ShloMosaic Cert.Kernel Cert.Kernel.Gen Cert.LanesK

/-- The loop runs at most 16 trips. -/
theorem trip_lt (k : Fin k0_t2_loop.trips) : k.val < 16 := Nat.lt_of_lt_of_le k.isLt k0_t2_abs.2.1

/-- The rotation vector of trip `k`: `(lane + k) mod 16`. -/
theorem rot_toNat (k : Fin k0_t2_loop.trips) (x : S16.Idx) :
    (k0_pay2 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t2_loop.trips) (x : S16.Idx) :
    (k0_pay3 iotaV 0#32 1#32 k x).toNat = (ln x + k.val) % 16 :=
  addi_lit (k0_pay2 iotaV 0#32 1#32 k) 0#32 ((ln x + k.val) % 16) 0 x (rot_toNat k x) rfl (by omega)

/-- The column vector of feature group 1 in trip `k`. -/
theorem gcol1_toNat (k : Fin k0_t2_loop.trips) (x : S16.Idx) :
    (k0_pay13 (k0_pay2 iotaV 0#32 1#32 k) x).toNat = (ln x + k.val) % 16 + 16 :=
  addi_lit (k0_pay2 iotaV 0#32 1#32 k) 16#32 ((ln x + k.val) % 16) 16 x (rot_toNat k x) rfl (by omega)

/-- The column vector of feature group 2 in trip `k`. -/
theorem gcol2_toNat (k : Fin k0_t2_loop.trips) (x : S16.Idx) :
    (k0_pay23 (k0_pay2 iotaV 0#32 1#32 k) x).toNat = (ln x + k.val) % 16 + 32 :=
  addi_lit (k0_pay2 iotaV 0#32 1#32 k) 32#32 ((ln x + k.val) % 16) 32 x (rot_toNat k x) rfl (by omega)

/-- The column vector of feature group 3 in trip `k`. -/
theorem gcol3_toNat (k : Fin k0_t2_loop.trips) (x : S16.Idx) :
    (k0_pay33 (k0_pay2 iotaV 0#32 1#32 k) x).toNat = (ln x + k.val) % 16 + 48 :=
  addi_lit (k0_pay2 iotaV 0#32 1#32 k) 48#32 ((ln x + k.val) % 16) 48 x (rot_toNat k x) rfl (by omega)

theorem gcol0_lt (k : Fin k0_t2_loop.trips) (x : S16.Idx) : (k0_pay3 iotaV 0#32 1#32 k x).toNat < 64 := by
  rw [gcol0_toNat]; omega
theorem gcol1_lt (k : Fin k0_t2_loop.trips) (x : S16.Idx) : (k0_pay13 (k0_pay2 iotaV 0#32 1#32 k) x).toNat < 64 := by
  rw [gcol1_toNat]; omega
theorem gcol2_lt (k : Fin k0_t2_loop.trips) (x : S16.Idx) : (k0_pay23 (k0_pay2 iotaV 0#32 1#32 k) x).toNat < 64 := by
  rw [gcol2_toNat]; omega
theorem gcol3_lt (k : Fin k0_t2_loop.trips) (x : S16.Idx) : (k0_pay33 (k0_pay2 iotaV 0#32 1#32 k) x).toNat < 64 := by
  rw [gcol3_toNat]; omega

/-- The positional row vector: the word `w` in every lane. -/
theorem prow_toNat (w : BitVec 32) (x : S16.Idx) : (k0_pay1 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay4 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay14 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay24 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay34 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk1 (k0_pay1 k0_pay169 w) (k0_pay4 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk3 (k0_pay1 k0_pay169 w) (k0_pay14 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk5 (k0_pay1 k0_pay169 w) (k0_pay24 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk7 (k0_pay1 k0_pay169 w) (k0_pay34 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk2 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk4 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk6 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk8 k0_pay170 k0_pay171 k0_pay172 k0_pay173 k0_pay174 k0_pay175 k0_pay176 k0_pay177 gc := chkG0 gc hgc

/-! ### The side conditions at the column vectors of trip `k` -/

theorem chkP0_trip (k : Fin k0_t2_loop.trips) (o w : BitVec 32) (hw : w.toNat < 100) (ho : o.toNat ≤ 64) :
    k0_chk1 (k0_pay1 k0_pay169 w) (k0_pay4 o (k0_pay3 iotaV 0#32 1#32 k)) := chkP0 o w _ hw ho (gcol0_lt k)
theorem chkP1_trip (k : Fin k0_t2_loop.trips) (o w : BitVec 32) (hw : w.toNat < 100) (ho : o.toNat ≤ 64) :
    k0_chk3 (k0_pay1 k0_pay169 w) (k0_pay14 o (k0_pay13 (k0_pay2 iotaV 0#32 1#32 k))) := chkP1 o w _ hw ho (gcol1_lt k)
theorem chkP2_trip (k : Fin k0_t2_loop.trips) (o w : BitVec 32) (hw : w.toNat < 100) (ho : o.toNat ≤ 64) :
    k0_chk5 (k0_pay1 k0_pay169 w) (k0_pay24 o (k0_pay23 (k0_pay2 iotaV 0#32 1#32 k))) := chkP2 o w _ hw ho (gcol2_lt k)
theorem chkP3_trip (k : Fin k0_t2_loop.trips) (o w : BitVec 32) (hw : w.toNat < 100) (ho : o.toNat ≤ 64) :
    k0_chk7 (k0_pay1 k0_pay169 w) (k0_pay34 o (k0_pay33 (k0_pay2 iotaV 0#32 1#32 k))) := chkP3 o w _ hw ho (gcol3_lt k)

theorem chkG0_trip (k : Fin k0_t2_loop.trips) :
    k0_chk2 k0_pay170 k0_pay171 k0_pay172 k0_pay173 k0_pay174 k0_pay175 k0_pay176 k0_pay177 (k0_pay3 iotaV 0#32 1#32 k) :=
  chkG0 _ (gcol0_lt k)
theorem chkG1_trip (k : Fin k0_t2_loop.trips) :
    k0_chk4 k0_pay170 k0_pay171 k0_pay172 k0_pay173 k0_pay174 k0_pay175 k0_pay176 k0_pay177 (k0_pay13 (k0_pay2 iotaV 0#32 1#32 k)) :=
  chkG1 _ (gcol1_lt k)
theorem chkG2_trip (k : Fin k0_t2_loop.trips) :
    k0_chk6 k0_pay170 k0_pay171 k0_pay172 k0_pay173 k0_pay174 k0_pay175 k0_pay176 k0_pay177 (k0_pay23 (k0_pay2 iotaV 0#32 1#32 k)) :=
  chkG2 _ (gcol2_lt k)
theorem chkG3_trip (k : Fin k0_t2_loop.trips) :
    k0_chk8 k0_pay170 k0_pay171 k0_pay172 k0_pay173 k0_pay174 k0_pay175 k0_pay176 k0_pay177 (k0_pay33 (k0_pay2 iotaV 0#32 1#32 k)) :=
  chkG3 _ (gcol3_lt k)

end Cert.LanesK.C1
-- ==== Proof.LaneTrip1K.lean ====
/-
  The values and the elements of the 32 stores of one trip of the inner loop k0_t2_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTripK
import proofs.«206908_g46772193853751_cont_8to1c4_160_30_alg».proof.Proof.Lane1K

namespace Cert.LanesK.C1

open Idealize.ShloMosaic Idealize.ShloMosaic.ValueIdx Cert.Kernel Cert.Kernel.Gen Cert.LanesK

variable {F : FTy → Type} [FloatOps F]

theorem val_d0_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay170, (k0_pay3 iotaV 0#32 1#32 k)] : Fin 2 → IVec S16 32) a x).toNat < S128x128.size a)
    (hS : ∀ a x, ((![(k0_pay3 iotaV 0#32 1#32 k), k0_pay170] : Fin 2 → IVec S16 32) a x).toNat < S64x128.size a) (x : S16.Idx) :
    k0_pay5 (loadIdx Pc ![(k0_pay1 k0_pay169 w), k0_pay4 o (k0_pay3 iotaV 0#32 1#32 k)] hP) (loadIdx Gc ![k0_pay170, (k0_pay3 iotaV 0#32 1#32 k)] hG) x
      = Tslot Gc Pc o w hw ho (idxAt ![(k0_pay3 iotaV 0#32 1#32 k), k0_pay170] hS x) :=
  store_value Gc Pc o w hw ho (k0_pay3 iotaV 0#32 1#32 k) k0_pay170 (k0_pay1 k0_pay169 w) (k0_pay4 o (k0_pay3 iotaV 0#32 1#32 k)) (prow_toNat w)
    (fun x => pcol0_toNat o _ x (gcol0_lt k x) ho) hP hG hS x

theorem hit_d0_j0 (k : Fin k0_t2_loop.trips)
    (hS : ∀ a x, ((![(k0_pay3 iotaV 0#32 1#32 k), k0_pay170] : Fin 2 → IVec S16 32) a x).toNat < S64x128.size a) :
    {p | ∃ x, idxAt ![(k0_pay3 iotaV 0#32 1#32 k), k0_pay170] hS x = p} = Hit 0 0 k.val :=
  hit_eq 0 0 k.val (k0_pay3 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay171, (k0_pay3 iotaV 0#32 1#32 k)] : Fin 2 → IVec S16 32) a x).toNat < S128x128.size a)
    (hS : ∀ a x, ((![(k0_pay3 iotaV 0#32 1#32 k), k0_pay171] : Fin 2 → IVec S16 32) a x).toNat < S64x128.size a) (x : S16.Idx) :
    k0_pay6 (loadIdx Pc ![(k0_pay1 k0_pay169 w), k0_pay4 o (k0_pay3 iotaV 0#32 1#32 k)] hP) (loadIdx Gc ![k0_pay171, (k0_pay3 iotaV 0#32 1#32 k)] hG) x
      = Tslot Gc Pc o w hw ho (idxAt ![(k0_pay3 iotaV 0#32 1#32 k), k0_pay171] hS x) :=
  store_value Gc Pc o w hw ho (k0_pay3 iotaV 0#32 1#32 k) k0_pay171 (k0_pay1 k0_pay169 w) (k0_pay4 o (k0_pay3 iotaV 0#32 1#32 k)) (prow_toNat w)
    (fun x => pcol0_toNat o _ x (gcol0_lt k x) ho) hP hG hS x

theorem hit_d0_j1 (k : Fin k0_t2_loop.trips)
    (hS : ∀ a x, ((![(k0_pay3 iotaV 0#32 1#32 k), k0_pay171] : Fin 2 → IVec S16 32) a x).toNat < S64x128.size a) :
    {p | ∃ x, idxAt ![(k0_pay3 iotaV 0#32 1#32 k), k0_pay171] hS x = p} = Hit 0 1 k.val :=
  hit_eq 0 1 k.val (k0_pay3 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay172, (k0_pay3 iotaV 0#32 1#32 k)] : Fin 2 → IVec S16 32) a x).toNat < S128x128.size a)
    (hS : ∀ a x, ((![(k0_pay3 iotaV 0#32 1#32 k), k0_pay172] : Fin 2 → IVec S16 32) a x).toNat < S64x128.size a) (x : S16.Idx) :
    k0_pay7 (loadIdx Pc ![(k0_pay1 k0_pay169 w), k0_pay4 o (k0_pay3 iotaV 0#32 1#32 k)] hP) (loadIdx Gc ![k0_pay172, (k0_pay3 iotaV 0#32 1#32 k)] hG) x
      = Tslot Gc Pc o w hw ho (idxAt ![(k0_pay3 iotaV 0#32 1#32 k), k0_pay172] hS x) :=
  store_value Gc Pc o w hw ho (k0_pay3 iotaV 0#32 1#32 k) k0_pay172 (k0_pay1 k0_pay169 w) (k0_pay4 o (k0_pay3 iotaV 0#32 1#32 k)) (prow_toNat w)
    (fun x => pcol0_toNat o _ x (gcol0_lt k x) ho) hP hG hS x

theorem hit_d0_j2 (k : Fin k0_t2_loop.trips)
    (hS : ∀ a x, ((![(k0_pay3 iotaV 0#32 1#32 k), k0_pay172] : Fin 2 → IVec S16 32) a x).toNat < S64x128.size a) :
    {p | ∃ x, idxAt ![(k0_pay3 iotaV 0#32 1#32 k), k0_pay172] hS x = p} = Hit 0 2 k.val :=
  hit_eq 0 2 k.val (k0_pay3 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay173, (k0_pay3 iotaV 0#32 1#32 k)] : Fin 2 → IVec S16 32) a x).toNat < S128x128.size a)
    (hS : ∀ a x, ((![(k0_pay3 iotaV 0#32 1#32 k), k0_pay173] : Fin 2 → IVec S16 32) a x).toNat < S64x128.size a) (x : S16.Idx) :
    k0_pay8 (loadIdx Pc ![(k0_pay1 k0_pay169 w), k0_pay4 o (k0_pay3 iotaV 0#32 1#32 k)] hP) (loadIdx Gc ![k0_pay173, (k0_pay3 iotaV 0#32 1#32 k)] hG) x
      = Tslot Gc Pc o w hw ho (idxAt ![(k0_pay3 iotaV 0#32 1#32 k), k0_pay173] hS x) :=
  store_value Gc Pc o w hw ho (k0_pay3 iotaV 0#32 1#32 k) k0_pay173 (k0_pay1 k0_pay169 w) (k0_pay4 o (k0_pay3 iotaV 0#32 1#32 k)) (prow_toNat w)
    (fun x => pcol0_toNat o _ x (gcol0_lt k x) ho) hP hG hS x

theorem hit_d0_j3 (k : Fin k0_t2_loop.trips)
    (hS : ∀ a x, ((![(k0_pay3 iotaV 0#32 1#32 k), k0_pay173] : Fin 2 → IVec S16 32) a x).toNat < S64x128.size a) :
    {p | ∃ x, idxAt ![(k0_pay3 iotaV 0#32 1#32 k), k0_pay173] hS x = p} = Hit 0 3 k.val :=
  hit_eq 0 3 k.val (k0_pay3 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay174, (k0_pay3 iotaV 0#32 1#32 k)] : Fin 2 → IVec S16 32) a x).toNat < S128x128.size a)
    (hS : ∀ a x, ((![(k0_pay3 iotaV 0#32 1#32 k), k0_pay174] : Fin 2 → IVec S16 32) a x).toNat < S64x128.size a) (x : S16.Idx) :
    k0_pay9 (loadIdx Pc ![(k0_pay1 k0_pay169 w), k0_pay4 o (k0_pay3 iotaV 0#32 1#32 k)] hP) (loadIdx Gc ![k0_pay174, (k0_pay3 iotaV 0#32 1#32 k)] hG) x
      = Tslot Gc Pc o w hw ho (idxAt ![(k0_pay3 iotaV 0#32 1#32 k), k0_pay174] hS x) :=
  store_value Gc Pc o w hw ho (k0_pay3 iotaV 0#32 1#32 k) k0_pay174 (k0_pay1 k0_pay169 w) (k0_pay4 o (k0_pay3 iotaV 0#32 1#32 k)) (prow_toNat w)
    (fun x => pcol0_toNat o _ x (gcol0_lt k x) ho) hP hG hS x

theorem hit_d0_j4 (k : Fin k0_t2_loop.trips)
    (hS : ∀ a x, ((![(k0_pay3 iotaV 0#32 1#32 k), k0_pay174] : Fin 2 → IVec S16 32) a x).toNat < S64x128.size a) :
    {p | ∃ x, idxAt ![(k0_pay3 iotaV 0#32 1#32 k), k0_pay174] hS x = p} = Hit 0 4 k.val :=
  hit_eq 0 4 k.val (k0_pay3 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay175, (k0_pay3 iotaV 0#32 1#32 k)] : Fin 2 → IVec S16 32) a x).toNat < S128x128.size a)
    (hS : ∀ a x, ((![(k0_pay3 iotaV 0#32 1#32 k), k0_pay175] : Fin 2 → IVec S16 32) a x).toNat < S64x128.size a) (x : S16.Idx) :
    k0_pay10 (loadIdx Pc ![(k0_pay1 k0_pay169 w), k0_pay4 o (k0_pay3 iotaV 0#32 1#32 k)] hP) (loadIdx Gc ![k0_pay175, (k0_pay3 iotaV 0#32 1#32 k)] hG) x
      = Tslot Gc Pc o w hw ho (idxAt ![(k0_pay3 iotaV 0#32 1#32 k), k0_pay175] hS x) :=
  store_value Gc Pc o w hw ho (k0_pay3 iotaV 0#32 1#32 k) k0_pay175 (k0_pay1 k0_pay169 w) (k0_pay4 o (k0_pay3 iotaV 0#32 1#32 k)) (prow_toNat w)
    (fun x => pcol0_toNat o _ x (gcol0_lt k x) ho) hP hG hS x

theorem hit_d0_j5 (k : Fin k0_t2_loop.trips)
    (hS : ∀ a x, ((![(k0_pay3 iotaV 0#32 1#32 k), k0_pay175] : Fin 2 → IVec S16 32) a x).toNat < S64x128.size a) :
    {p | ∃ x, idxAt ![(k0_pay3 iotaV 0#32 1#32 k), k0_pay175] hS x = p} = Hit 0 5 k.val :=
  hit_eq 0 5 k.val (k0_pay3 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay176, (k0_pay3 iotaV 0#32 1#32 k)] : Fin 2 → IVec S16 32) a x).toNat < S128x128.size a)
    (hS : ∀ a x, ((![(k0_pay3 iotaV 0#32 1#32 k), k0_pay176] : Fin 2 → IVec S16 32) a x).toNat < S64x128.size a) (x : S16.Idx) :
    k0_pay11 (loadIdx Pc ![(k0_pay1 k0_pay169 w), k0_pay4 o (k0_pay3 iotaV 0#32 1#32 k)] hP) (loadIdx Gc ![k0_pay176, (k0_pay3 iotaV 0#32 1#32 k)] hG) x
      = Tslot Gc Pc o w hw ho (idxAt ![(k0_pay3 iotaV 0#32 1#32 k), k0_pay176] hS x) :=
  store_value Gc Pc o w hw ho (k0_pay3 iotaV 0#32 1#32 k) k0_pay176 (k0_pay1 k0_pay169 w) (k0_pay4 o (k0_pay3 iotaV 0#32 1#32 k)) (prow_toNat w)
    (fun x => pcol0_toNat o _ x (gcol0_lt k x) ho) hP hG hS x

theorem hit_d0_j6 (k : Fin k0_t2_loop.trips)
    (hS : ∀ a x, ((![(k0_pay3 iotaV 0#32 1#32 k), k0_pay176] : Fin 2 → IVec S16 32) a x).toNat < S64x128.size a) :
    {p | ∃ x, idxAt ![(k0_pay3 iotaV 0#32 1#32 k), k0_pay176] hS x = p} = Hit 0 6 k.val :=
  hit_eq 0 6 k.val (k0_pay3 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay4 o (k0_pay3 iotaV 0#32 1#32 k)] : Fin 2 → IVec S16 32) a x).toNat < S100x128.size a)
    (hG : ∀ a x, ((![k0_pay177, (k0_pay3 iotaV 0#32 1#32 k)] : Fin 2 → IVec S16 32) a x).toNat < S128x128.size a)
    (hS : ∀ a x, ((![(k0_pay3 iotaV 0#32 1#32 k), k0_pay177] : Fin 2 → IVec S16 32) a x).toNat < S64x128.size a) (x : S16.Idx) :
    k0_pay12 (loadIdx Pc ![(k0_pay1 k0_pay169 w), k0_pay4 o (k0_pay3 iotaV 0#32 1#32 k)] hP) (loadIdx Gc ![k0_pay177, (k0_pay3 iotaV 0#32 1#32 k)] hG) x
      = Tslot Gc Pc o w hw ho (idxAt ![(k0_pay3 iotaV 0#32 1#32 k), k0_pay177] hS x) :=
  store_value Gc Pc o w hw ho (k0_pay3 iotaV 0#32 1#32 k) k0_pay177 (k0_pay1 k0_pay169 w) (k0_pay4 o (k0_pay3 iotaV 0#32 1#32 k)) (prow_toNat w)
    (fun x => pcol0_toNat o _ x (gcol0_lt k x) ho) hP hG hS x

theorem hit_d0_j7 (k : Fin k0_t2_loop.trips)
    (hS : ∀ a x, ((![(k0_pay3 iotaV 0#32 1#32 k), k0_pay177] : Fin 2 → IVec S16 32) a x).toNat < S64x128.size a) :
    {p | ∃ x, idxAt ![(k0_pay3 iotaV 0#32 1#32 k), k0_pay177] hS x = p} = Hit 0 7 k.val :=
  hit_eq 0 7 k.val (k0_pay3 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay170, (k0_pay13 (k0_pay2 iotaV 0#32 1#32 k))] : Fin 2 → IVec S16 32) a x).toNat < S128x128.size a)
    (hS : ∀ a x, ((![(k0_pay13 (k0_pay2 iotaV 0#32 1#32 k)), k0_pay170] : Fin 2 → IVec S16 32) a x).toNat < S64x128.size a) (x : S16.Idx) :
    k0_pay15 (loadIdx Pc ![(k0_pay1 k0_pay169 w), k0_pay14 o (k0_pay13 (k0_pay2 iotaV 0#32 1#32 k))] hP) (loadIdx Gc ![k0_pay170, (k0_pay13 (k0_pay2 iotaV 0#32 1#32 k))] hG) x
      = Tslot Gc Pc o w hw ho (idxAt ![(k0_pay13 (k0_pay2 iotaV 0#32 1#32 k)), k0_pay170] hS x) :=
  store_value Gc Pc o w hw ho (k0_pay13 (k0_pay2 iotaV 0#32 1#32 k)) k0_pay170 (k0_pay1 k0_pay169 w) (k0_pay14 o (k0_pay13 (k0_pay2 iotaV 0#32 1#32 k))) (prow_toNat w)
    (fun x => pcol1_toNat o _ x (gcol1_lt k x) ho) hP hG hS x

theorem hit_d1_j0 (k : Fin k0_t2_loop.trips)
    (hS : ∀ a x, ((![(k0_pay13 (k0_pay2 iotaV 0#32 1#32 k)), k0_pay170] : Fin 2 → IVec S16 32) a x).toNat < S64x128.size a) :
    {p | ∃ x, idxAt ![(k0_pay13 (k0_pay2 iotaV 0#32 1#32 k)), k0_pay170] hS x = p} = Hit 1 0 k.val :=
  hit_eq 1 0 k.val (k0_pay13 (k0_pay2 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay171, (k0_pay13 (k0_pay2 iotaV 0#32 1#32 k))] : Fin 2 → IVec S16 32) a x).toNat < S128x128.size a)
    (hS : ∀ a x, ((![(k0_pay13 (k0_pay2 iotaV 0#32 1#32 k)), k0_pay171] : Fin 2 → IVec S16 32) a x).toNat < S64x128.size a) (x : S16.Idx) :
    k0_pay16 (loadIdx Pc ![(k0_pay1 k0_pay169 w), k0_pay14 o (k0_pay13 (k0_pay2 iotaV 0#32 1#32 k))] hP) (loadIdx Gc ![k0_pay171, (k0_pay13 (k0_pay2 iotaV 0#32 1#32 k))] hG) x
      = Tslot Gc Pc o w hw ho (idxAt ![(k0_pay13 (k0_pay2 iotaV 0#32 1#32 k)), k0_pay171] hS x) :=
  store_value Gc Pc o w hw ho (k0_pay13 (k0_pay2 iotaV 0#32 1#32 k)) k0_pay171 (k0_pay1 k0_pay169 w) (k0_pay14 o (k0_pay13 (k0_pay2 iotaV 0#32 1#32 k))) (prow_toNat w)
    (fun x => pcol1_toNat o _ x (gcol1_lt k x) ho) hP hG hS x

theorem hit_d1_j1 (k : Fin k0_t2_loop.trips)
    (hS : ∀ a x, ((![(k0_pay13 (k0_pay2 iotaV 0#32 1#32 k)), k0_pay171] : Fin 2 → IVec S16 32) a x).toNat < S64x128.size a) :
    {p | ∃ x, idxAt ![(k0_pay13 (k0_pay2 iotaV 0#32 1#32 k)), k0_pay171] hS x = p} = Hit 1 1 k.val :=
  hit_eq 1 1 k.val (k0_pay13 (k0_pay2 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay172, (k0_pay13 (k0_pay2 iotaV 0#32 1#32 k))] : Fin 2 → IVec S16 32) a x).toNat < S128x128.size a)
    (hS : ∀ a x, ((![(k0_pay13 (k0_pay2 iotaV 0#32 1#32 k)), k0_pay172] : Fin 2 → IVec S16 32) a x).toNat < S64x128.size a) (x : S16.Idx) :
    k0_pay17 (loadIdx Pc ![(k0_pay1 k0_pay169 w), k0_pay14 o (k0_pay13 (k0_pay2 iotaV 0#32 1#32 k))] hP) (loadIdx Gc ![k0_pay172, (k0_pay13 (k0_pay2 iotaV 0#32 1#32 k))] hG) x
      = Tslot Gc Pc o w hw ho (idxAt ![(k0_pay13 (k0_pay2 iotaV 0#32 1#32 k)), k0_pay172] hS x) :=
  store_value Gc Pc o w hw ho (k0_pay13 (k0_pay2 iotaV 0#32 1#32 k)) k0_pay172 (k0_pay1 k0_pay169 w) (k0_pay14 o (k0_pay13 (k0_pay2 iotaV 0#32 1#32 k))) (prow_toNat w)
    (fun x => pcol1_toNat o _ x (gcol1_lt k x) ho) hP hG hS x

theorem hit_d1_j2 (k : Fin k0_t2_loop.trips)
    (hS : ∀ a x, ((![(k0_pay13 (k0_pay2 iotaV 0#32 1#32 k)), k0_pay172] : Fin 2 → IVec S16 32) a x).toNat < S64x128.size a) :
    {p | ∃ x, idxAt ![(k0_pay13 (k0_pay2 iotaV 0#32 1#32 k)), k0_pay172] hS x = p} = Hit 1 2 k.val :=
  hit_eq 1 2 k.val (k0_pay13 (k0_pay2 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay173, (k0_pay13 (k0_pay2 iotaV 0#32 1#32 k))] : Fin 2 → IVec S16 32) a x).toNat < S128x128.size a)
    (hS : ∀ a x, ((![(k0_pay13 (k0_pay2 iotaV 0#32 1#32 k)), k0_pay173] : Fin 2 → IVec S16 32) a x).toNat < S64x128.size a) (x : S16.Idx) :
    k0_pay18 (loadIdx Pc ![(k0_pay1 k0_pay169 w), k0_pay14 o (k0_pay13 (k0_pay2 iotaV 0#32 1#32 k))] hP) (loadIdx Gc ![k0_pay173, (k0_pay13 (k0_pay2 iotaV 0#32 1#32 k))] hG) x
      = Tslot Gc Pc o w hw ho (idxAt ![(k0_pay13 (k0_pay2 iotaV 0#32 1#32 k)), k0_pay173] hS x) :=
  store_value Gc Pc o w hw ho (k0_pay13 (k0_pay2 iotaV 0#32 1#32 k)) k0_pay173 (k0_pay1 k0_pay169 w) (k0_pay14 o (k0_pay13 (k0_pay2 iotaV 0#32 1#32 k))) (prow_toNat w)
    (fun x => pcol1_toNat o _ x (gcol1_lt k x) ho) hP hG hS x

theorem hit_d1_j3 (k : Fin k0_t2_loop.trips)
    (hS : ∀ a x, ((![(k0_pay13 (k0_pay2 iotaV 0#32 1#32 k)), k0_pay173] : Fin 2 → IVec S16 32) a x).toNat < S64x128.size a) :
    {p | ∃ x, idxAt ![(k0_pay13 (k0_pay2 iotaV 0#32 1#32 k)), k0_pay173] hS x = p} = Hit 1 3 k.val :=
  hit_eq 1 3 k.val (k0_pay13 (k0_pay2 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay174, (k0_pay13 (k0_pay2 iotaV 0#32 1#32 k))] : Fin 2 → IVec S16 32) a x).toNat < S128x128.size a)
    (hS : ∀ a x, ((![(k0_pay13 (k0_pay2 iotaV 0#32 1#32 k)), k0_pay174] : Fin 2 → IVec S16 32) a x).toNat < S64x128.size a) (x : S16.Idx) :
    k0_pay19 (loadIdx Pc ![(k0_pay1 k0_pay169 w), k0_pay14 o (k0_pay13 (k0_pay2 iotaV 0#32 1#32 k))] hP) (loadIdx Gc ![k0_pay174, (k0_pay13 (k0_pay2 iotaV 0#32 1#32 k))] hG) x
      = Tslot Gc Pc o w hw ho (idxAt ![(k0_pay13 (k0_pay2 iotaV 0#32 1#32 k)), k0_pay174] hS x) :=
  store_value Gc Pc o w hw ho (k0_pay13 (k0_pay2 iotaV 0#32 1#32 k)) k0_pay174 (k0_pay1 k0_pay169 w) (k0_pay14 o (k0_pay13 (k0_pay2 iotaV 0#32 1#32 k))) (prow_toNat w)
    (fun x => pcol1_toNat o _ x (gcol1_lt k x) ho) hP hG hS x

theorem hit_d1_j4 (k : Fin k0_t2_loop.trips)
    (hS : ∀ a x, ((![(k0_pay13 (k0_pay2 iotaV 0#32 1#32 k)), k0_pay174] : Fin 2 → IVec S16 32) a x).toNat < S64x128.size a) :
    {p | ∃ x, idxAt ![(k0_pay13 (k0_pay2 iotaV 0#32 1#32 k)), k0_pay174] hS x = p} = Hit 1 4 k.val :=
  hit_eq 1 4 k.val (k0_pay13 (k0_pay2 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay175, (k0_pay13 (k0_pay2 iotaV 0#32 1#32 k))] : Fin 2 → IVec S16 32) a x).toNat < S128x128.size a)
    (hS : ∀ a x, ((![(k0_pay13 (k0_pay2 iotaV 0#32 1#32 k)), k0_pay175] : Fin 2 → IVec S16 32) a x).toNat < S64x128.size a) (x : S16.Idx) :
    k0_pay20 (loadIdx Pc ![(k0_pay1 k0_pay169 w), k0_pay14 o (k0_pay13 (k0_pay2 iotaV 0#32 1#32 k))] hP) (loadIdx Gc ![k0_pay175, (k0_pay13 (k0_pay2 iotaV 0#32 1#32 k))] hG) x
      = Tslot Gc Pc o w hw ho (idxAt ![(k0_pay13 (k0_pay2 iotaV 0#32 1#32 k)), k0_pay175] hS x) :=
  store_value Gc Pc o w hw ho (k0_pay13 (k0_pay2 iotaV 0#32 1#32 k)) k0_pay175 (k0_pay1 k0_pay169 w) (k0_pay14 o (k0_pay13 (k0_pay2 iotaV 0#32 1#32 k))) (prow_toNat w)
    (fun x => pcol1_toNat o _ x (gcol1_lt k x) ho) hP hG hS x

theorem hit_d1_j5 (k : Fin k0_t2_loop.trips)
    (hS : ∀ a x, ((![(k0_pay13 (k0_pay2 iotaV 0#32 1#32 k)), k0_pay175] : Fin 2 → IVec S16 32) a x).toNat < S64x128.size a) :
    {p | ∃ x, idxAt ![(k0_pay13 (k0_pay2 iotaV 0#32 1#32 k)), k0_pay175] hS x = p} = Hit 1 5 k.val :=
  hit_eq 1 5 k.val (k0_pay13 (k0_pay2 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay176, (k0_pay13 (k0_pay2 iotaV 0#32 1#32 k))] : Fin 2 → IVec S16 32) a x).toNat < S128x128.size a)
    (hS : ∀ a x, ((![(k0_pay13 (k0_pay2 iotaV 0#32 1#32 k)), k0_pay176] : Fin 2 → IVec S16 32) a x).toNat < S64x128.size a) (x : S16.Idx) :
    k0_pay21 (loadIdx Pc ![(k0_pay1 k0_pay169 w), k0_pay14 o (k0_pay13 (k0_pay2 iotaV 0#32 1#32 k))] hP) (loadIdx Gc ![k0_pay176, (k0_pay13 (k0_pay2 iotaV 0#32 1#32 k))] hG) x
      = Tslot Gc Pc o w hw ho (idxAt ![(k0_pay13 (k0_pay2 iotaV 0#32 1#32 k)), k0_pay176] hS x) :=
  store_value Gc Pc o w hw ho (k0_pay13 (k0_pay2 iotaV 0#32 1#32 k)) k0_pay176 (k0_pay1 k0_pay169 w) (k0_pay14 o (k0_pay13 (k0_pay2 iotaV 0#32 1#32 k))) (prow_toNat w)
    (fun x => pcol1_toNat o _ x (gcol1_lt k x) ho) hP hG hS x

theorem hit_d1_j6 (k : Fin k0_t2_loop.trips)
    (hS : ∀ a x, ((![(k0_pay13 (k0_pay2 iotaV 0#32 1#32 k)), k0_pay176] : Fin 2 → IVec S16 32) a x).toNat < S64x128.size a) :
    {p | ∃ x, idxAt ![(k0_pay13 (k0_pay2 iotaV 0#32 1#32 k)), k0_pay176] hS x = p} = Hit 1 6 k.val :=
  hit_eq 1 6 k.val (k0_pay13 (k0_pay2 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay14 o (k0_pay13 (k0_pay2 iotaV 0#32 1#32 k))] : Fin 2 → IVec S16 32) a x).toNat < S100x128.size a)
    (hG : ∀ a x, ((![k0_pay177, (k0_pay13 (k0_pay2 iotaV 0#32 1#32 k))] : Fin 2 → IVec S16 32) a x).toNat < S128x128.size a)
    (hS : ∀ a x, ((![(k0_pay13 (k0_pay2 iotaV 0#32 1#32 k)), k0_pay177] : Fin 2 → IVec S16 32) a x).toNat < S64x128.size a) (x : S16.Idx) :
    k0_pay22 (loadIdx Pc ![(k0_pay1 k0_pay169 w), k0_pay14 o (k0_pay13 (k0_pay2 iotaV 0#32 1#32 k))] hP) (loadIdx Gc ![k0_pay177, (k0_pay13 (k0_pay2 iotaV 0#32 1#32 k))] hG) x
      = Tslot Gc Pc o w hw ho (idxAt ![(k0_pay13 (k0_pay2 iotaV 0#32 1#32 k)), k0_pay177] hS x) :=
  store_value Gc Pc o w hw ho (k0_pay13 (k0_pay2 iotaV 0#32 1#32 k)) k0_pay177 (k0_pay1 k0_pay169 w) (k0_pay14 o (k0_pay13 (k0_pay2 iotaV 0#32 1#32 k))) (prow_toNat w)
    (fun x => pcol1_toNat o _ x (gcol1_lt k x) ho) hP hG hS x

theorem hit_d1_j7 (k : Fin k0_t2_loop.trips)
    (hS : ∀ a x, ((![(k0_pay13 (k0_pay2 iotaV 0#32 1#32 k)), k0_pay177] : Fin 2 → IVec S16 32) a x).toNat < S64x128.size a) :
    {p | ∃ x, idxAt ![(k0_pay13 (k0_pay2 iotaV 0#32 1#32 k)), k0_pay177] hS x = p} = Hit 1 7 k.val :=
  hit_eq 1 7 k.val (k0_pay13 (k0_pay2 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay170, (k0_pay23 (k0_pay2 iotaV 0#32 1#32 k))] : Fin 2 → IVec S16 32) a x).toNat < S128x128.size a)
    (hS : ∀ a x, ((![(k0_pay23 (k0_pay2 iotaV 0#32 1#32 k)), k0_pay170] : Fin 2 → IVec S16 32) a x).toNat < S64x128.size a) (x : S16.Idx) :
    k0_pay25 (loadIdx Pc ![(k0_pay1 k0_pay169 w), k0_pay24 o (k0_pay23 (k0_pay2 iotaV 0#32 1#32 k))] hP) (loadIdx Gc ![k0_pay170, (k0_pay23 (k0_pay2 iotaV 0#32 1#32 k))] hG) x
      = Tslot Gc Pc o w hw ho (idxAt ![(k0_pay23 (k0_pay2 iotaV 0#32 1#32 k)), k0_pay170] hS x) :=
  store_value Gc Pc o w hw ho (k0_pay23 (k0_pay2 iotaV 0#32 1#32 k)) k0_pay170 (k0_pay1 k0_pay169 w) (k0_pay24 o (k0_pay23 (k0_pay2 iotaV 0#32 1#32 k))) (prow_toNat w)
    (fun x => pcol2_toNat o _ x (gcol2_lt k x) ho) hP hG hS x

theorem hit_d2_j0 (k : Fin k0_t2_loop.trips)
    (hS : ∀ a x, ((![(k0_pay23 (k0_pay2 iotaV 0#32 1#32 k)), k0_pay170] : Fin 2 → IVec S16 32) a x).toNat < S64x128.size a) :
    {p | ∃ x, idxAt ![(k0_pay23 (k0_pay2 iotaV 0#32 1#32 k)), k0_pay170] hS x = p} = Hit 2 0 k.val :=
  hit_eq 2 0 k.val (k0_pay23 (k0_pay2 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay171, (k0_pay23 (k0_pay2 iotaV 0#32 1#32 k))] : Fin 2 → IVec S16 32) a x).toNat < S128x128.size a)
    (hS : ∀ a x, ((![(k0_pay23 (k0_pay2 iotaV 0#32 1#32 k)), k0_pay171] : Fin 2 → IVec S16 32) a x).toNat < S64x128.size a) (x : S16.Idx) :
    k0_pay26 (loadIdx Pc ![(k0_pay1 k0_pay169 w), k0_pay24 o (k0_pay23 (k0_pay2 iotaV 0#32 1#32 k))] hP) (loadIdx Gc ![k0_pay171, (k0_pay23 (k0_pay2 iotaV 0#32 1#32 k))] hG) x
      = Tslot Gc Pc o w hw ho (idxAt ![(k0_pay23 (k0_pay2 iotaV 0#32 1#32 k)), k0_pay171] hS x) :=
  store_value Gc Pc o w hw ho (k0_pay23 (k0_pay2 iotaV 0#32 1#32 k)) k0_pay171 (k0_pay1 k0_pay169 w) (k0_pay24 o (k0_pay23 (k0_pay2 iotaV 0#32 1#32 k))) (prow_toNat w)
    (fun x => pcol2_toNat o _ x (gcol2_lt k x) ho) hP hG hS x

theorem hit_d2_j1 (k : Fin k0_t2_loop.trips)
    (hS : ∀ a x, ((![(k0_pay23 (k0_pay2 iotaV 0#32 1#32 k)), k0_pay171] : Fin 2 → IVec S16 32) a x).toNat < S64x128.size a) :
    {p | ∃ x, idxAt ![(k0_pay23 (k0_pay2 iotaV 0#32 1#32 k)), k0_pay171] hS x = p} = Hit 2 1 k.val :=
  hit_eq 2 1 k.val (k0_pay23 (k0_pay2 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay172, (k0_pay23 (k0_pay2 iotaV 0#32 1#32 k))] : Fin 2 → IVec S16 32) a x).toNat < S128x128.size a)
    (hS : ∀ a x, ((![(k0_pay23 (k0_pay2 iotaV 0#32 1#32 k)), k0_pay172] : Fin 2 → IVec S16 32) a x).toNat < S64x128.size a) (x : S16.Idx) :
    k0_pay27 (loadIdx Pc ![(k0_pay1 k0_pay169 w), k0_pay24 o (k0_pay23 (k0_pay2 iotaV 0#32 1#32 k))] hP) (loadIdx Gc ![k0_pay172, (k0_pay23 (k0_pay2 iotaV 0#32 1#32 k))] hG) x
      = Tslot Gc Pc o w hw ho (idxAt ![(k0_pay23 (k0_pay2 iotaV 0#32 1#32 k)), k0_pay172] hS x) :=
  store_value Gc Pc o w hw ho (k0_pay23 (k0_pay2 iotaV 0#32 1#32 k)) k0_pay172 (k0_pay1 k0_pay169 w) (k0_pay24 o (k0_pay23 (k0_pay2 iotaV 0#32 1#32 k))) (prow_toNat w)
    (fun x => pcol2_toNat o _ x (gcol2_lt k x) ho) hP hG hS x

theorem hit_d2_j2 (k : Fin k0_t2_loop.trips)
    (hS : ∀ a x, ((![(k0_pay23 (k0_pay2 iotaV 0#32 1#32 k)), k0_pay172] : Fin 2 → IVec S16 32) a x).toNat < S64x128.size a) :
    {p | ∃ x, idxAt ![(k0_pay23 (k0_pay2 iotaV 0#32 1#32 k)), k0_pay172] hS x = p} = Hit 2 2 k.val :=
  hit_eq 2 2 k.val (k0_pay23 (k0_pay2 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay173, (k0_pay23 (k0_pay2 iotaV 0#32 1#32 k))] : Fin 2 → IVec S16 32) a x).toNat < S128x128.size a)
    (hS : ∀ a x, ((![(k0_pay23 (k0_pay2 iotaV 0#32 1#32 k)), k0_pay173] : Fin 2 → IVec S16 32) a x).toNat < S64x128.size a) (x : S16.Idx) :
    k0_pay28 (loadIdx Pc ![(k0_pay1 k0_pay169 w), k0_pay24 o (k0_pay23 (k0_pay2 iotaV 0#32 1#32 k))] hP) (loadIdx Gc ![k0_pay173, (k0_pay23 (k0_pay2 iotaV 0#32 1#32 k))] hG) x
      = Tslot Gc Pc o w hw ho (idxAt ![(k0_pay23 (k0_pay2 iotaV 0#32 1#32 k)), k0_pay173] hS x) :=
  store_value Gc Pc o w hw ho (k0_pay23 (k0_pay2 iotaV 0#32 1#32 k)) k0_pay173 (k0_pay1 k0_pay169 w) (k0_pay24 o (k0_pay23 (k0_pay2 iotaV 0#32 1#32 k))) (prow_toNat w)
    (fun x => pcol2_toNat o _ x (gcol2_lt k x) ho) hP hG hS x

theorem hit_d2_j3 (k : Fin k0_t2_loop.trips)
    (hS : ∀ a x, ((![(k0_pay23 (k0_pay2 iotaV 0#32 1#32 k)), k0_pay173] : Fin 2 → IVec S16 32) a x).toNat < S64x128.size a) :
    {p | ∃ x, idxAt ![(k0_pay23 (k0_pay2 iotaV 0#32 1#32 k)), k0_pay173] hS x = p} = Hit 2 3 k.val :=
  hit_eq 2 3 k.val (k0_pay23 (k0_pay2 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay174, (k0_pay23 (k0_pay2 iotaV 0#32 1#32 k))] : Fin 2 → IVec S16 32) a x).toNat < S128x128.size a)
    (hS : ∀ a x, ((![(k0_pay23 (k0_pay2 iotaV 0#32 1#32 k)), k0_pay174] : Fin 2 → IVec S16 32) a x).toNat < S64x128.size a) (x : S16.Idx) :
    k0_pay29 (loadIdx Pc ![(k0_pay1 k0_pay169 w), k0_pay24 o (k0_pay23 (k0_pay2 iotaV 0#32 1#32 k))] hP) (loadIdx Gc ![k0_pay174, (k0_pay23 (k0_pay2 iotaV 0#32 1#32 k))] hG) x
      = Tslot Gc Pc o w hw ho (idxAt ![(k0_pay23 (k0_pay2 iotaV 0#32 1#32 k)), k0_pay174] hS x) :=
  store_value Gc Pc o w hw ho (k0_pay23 (k0_pay2 iotaV 0#32 1#32 k)) k0_pay174 (k0_pay1 k0_pay169 w) (k0_pay24 o (k0_pay23 (k0_pay2 iotaV 0#32 1#32 k))) (prow_toNat w)
    (fun x => pcol2_toNat o _ x (gcol2_lt k x) ho) hP hG hS x

theorem hit_d2_j4 (k : Fin k0_t2_loop.trips)
    (hS : ∀ a x, ((![(k0_pay23 (k0_pay2 iotaV 0#32 1#32 k)), k0_pay174] : Fin 2 → IVec S16 32) a x).toNat < S64x128.size a) :
    {p | ∃ x, idxAt ![(k0_pay23 (k0_pay2 iotaV 0#32 1#32 k)), k0_pay174] hS x = p} = Hit 2 4 k.val :=
  hit_eq 2 4 k.val (k0_pay23 (k0_pay2 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay175, (k0_pay23 (k0_pay2 iotaV 0#32 1#32 k))] : Fin 2 → IVec S16 32) a x).toNat < S128x128.size a)
    (hS : ∀ a x, ((![(k0_pay23 (k0_pay2 iotaV 0#32 1#32 k)), k0_pay175] : Fin 2 → IVec S16 32) a x).toNat < S64x128.size a) (x : S16.Idx) :
    k0_pay30 (loadIdx Pc ![(k0_pay1 k0_pay169 w), k0_pay24 o (k0_pay23 (k0_pay2 iotaV 0#32 1#32 k))] hP) (loadIdx Gc ![k0_pay175, (k0_pay23 (k0_pay2 iotaV 0#32 1#32 k))] hG) x
      = Tslot Gc Pc o w hw ho (idxAt ![(k0_pay23 (k0_pay2 iotaV 0#32 1#32 k)), k0_pay175] hS x) :=
  store_value Gc Pc o w hw ho (k0_pay23 (k0_pay2 iotaV 0#32 1#32 k)) k0_pay175 (k0_pay1 k0_pay169 w) (k0_pay24 o (k0_pay23 (k0_pay2 iotaV 0#32 1#32 k))) (prow_toNat w)
    (fun x => pcol2_toNat o _ x (gcol2_lt k x) ho) hP hG hS x

theorem hit_d2_j5 (k : Fin k0_t2_loop.trips)
    (hS : ∀ a x, ((![(k0_pay23 (k0_pay2 iotaV 0#32 1#32 k)), k0_pay175] : Fin 2 → IVec S16 32) a x).toNat < S64x128.size a) :
    {p | ∃ x, idxAt ![(k0_pay23 (k0_pay2 iotaV 0#32 1#32 k)), k0_pay175] hS x = p} = Hit 2 5 k.val :=
  hit_eq 2 5 k.val (k0_pay23 (k0_pay2 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay176, (k0_pay23 (k0_pay2 iotaV 0#32 1#32 k))] : Fin 2 → IVec S16 32) a x).toNat < S128x128.size a)
    (hS : ∀ a x, ((![(k0_pay23 (k0_pay2 iotaV 0#32 1#32 k)), k0_pay176] : Fin 2 → IVec S16 32) a x).toNat < S64x128.size a) (x : S16.Idx) :
    k0_pay31 (loadIdx Pc ![(k0_pay1 k0_pay169 w), k0_pay24 o (k0_pay23 (k0_pay2 iotaV 0#32 1#32 k))] hP) (loadIdx Gc ![k0_pay176, (k0_pay23 (k0_pay2 iotaV 0#32 1#32 k))] hG) x
      = Tslot Gc Pc o w hw ho (idxAt ![(k0_pay23 (k0_pay2 iotaV 0#32 1#32 k)), k0_pay176] hS x) :=
  store_value Gc Pc o w hw ho (k0_pay23 (k0_pay2 iotaV 0#32 1#32 k)) k0_pay176 (k0_pay1 k0_pay169 w) (k0_pay24 o (k0_pay23 (k0_pay2 iotaV 0#32 1#32 k))) (prow_toNat w)
    (fun x => pcol2_toNat o _ x (gcol2_lt k x) ho) hP hG hS x

theorem hit_d2_j6 (k : Fin k0_t2_loop.trips)
    (hS : ∀ a x, ((![(k0_pay23 (k0_pay2 iotaV 0#32 1#32 k)), k0_pay176] : Fin 2 → IVec S16 32) a x).toNat < S64x128.size a) :
    {p | ∃ x, idxAt ![(k0_pay23 (k0_pay2 iotaV 0#32 1#32 k)), k0_pay176] hS x = p} = Hit 2 6 k.val :=
  hit_eq 2 6 k.val (k0_pay23 (k0_pay2 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay24 o (k0_pay23 (k0_pay2 iotaV 0#32 1#32 k))] : Fin 2 → IVec S16 32) a x).toNat < S100x128.size a)
    (hG : ∀ a x, ((![k0_pay177, (k0_pay23 (k0_pay2 iotaV 0#32 1#32 k))] : Fin 2 → IVec S16 32) a x).toNat < S128x128.size a)
    (hS : ∀ a x, ((![(k0_pay23 (k0_pay2 iotaV 0#32 1#32 k)), k0_pay177] : Fin 2 → IVec S16 32) a x).toNat < S64x128.size a) (x : S16.Idx) :
    k0_pay32 (loadIdx Pc ![(k0_pay1 k0_pay169 w), k0_pay24 o (k0_pay23 (k0_pay2 iotaV 0#32 1#32 k))] hP) (loadIdx Gc ![k0_pay177, (k0_pay23 (k0_pay2 iotaV 0#32 1#32 k))] hG) x
      = Tslot Gc Pc o w hw ho (idxAt ![(k0_pay23 (k0_pay2 iotaV 0#32 1#32 k)), k0_pay177] hS x) :=
  store_value Gc Pc o w hw ho (k0_pay23 (k0_pay2 iotaV 0#32 1#32 k)) k0_pay177 (k0_pay1 k0_pay169 w) (k0_pay24 o (k0_pay23 (k0_pay2 iotaV 0#32 1#32 k))) (prow_toNat w)
    (fun x => pcol2_toNat o _ x (gcol2_lt k x) ho) hP hG hS x

theorem hit_d2_j7 (k : Fin k0_t2_loop.trips)
    (hS : ∀ a x, ((![(k0_pay23 (k0_pay2 iotaV 0#32 1#32 k)), k0_pay177] : Fin 2 → IVec S16 32) a x).toNat < S64x128.size a) :
    {p | ∃ x, idxAt ![(k0_pay23 (k0_pay2 iotaV 0#32 1#32 k)), k0_pay177] hS x = p} = Hit 2 7 k.val :=
  hit_eq 2 7 k.val (k0_pay23 (k0_pay2 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay170, (k0_pay33 (k0_pay2 iotaV 0#32 1#32 k))] : Fin 2 → IVec S16 32) a x).toNat < S128x128.size a)
    (hS : ∀ a x, ((![(k0_pay33 (k0_pay2 iotaV 0#32 1#32 k)), k0_pay170] : Fin 2 → IVec S16 32) a x).toNat < S64x128.size a) (x : S16.Idx) :
    k0_pay35 (loadIdx Pc ![(k0_pay1 k0_pay169 w), k0_pay34 o (k0_pay33 (k0_pay2 iotaV 0#32 1#32 k))] hP) (loadIdx Gc ![k0_pay170, (k0_pay33 (k0_pay2 iotaV 0#32 1#32 k))] hG) x
      = Tslot Gc Pc o w hw ho (idxAt ![(k0_pay33 (k0_pay2 iotaV 0#32 1#32 k)), k0_pay170] hS x) :=
  store_value Gc Pc o w hw ho (k0_pay33 (k0_pay2 iotaV 0#32 1#32 k)) k0_pay170 (k0_pay1 k0_pay169 w) (k0_pay34 o (k0_pay33 (k0_pay2 iotaV 0#32 1#32 k))) (prow_toNat w)
    (fun x => pcol3_toNat o _ x (gcol3_lt k x) ho) hP hG hS x

theorem hit_d3_j0 (k : Fin k0_t2_loop.trips)
    (hS : ∀ a x, ((![(k0_pay33 (k0_pay2 iotaV 0#32 1#32 k)), k0_pay170] : Fin 2 → IVec S16 32) a x).toNat < S64x128.size a) :
    {p | ∃ x, idxAt ![(k0_pay33 (k0_pay2 iotaV 0#32 1#32 k)), k0_pay170] hS x = p} = Hit 3 0 k.val :=
  hit_eq 3 0 k.val (k0_pay33 (k0_pay2 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay171, (k0_pay33 (k0_pay2 iotaV 0#32 1#32 k))] : Fin 2 → IVec S16 32) a x).toNat < S128x128.size a)
    (hS : ∀ a x, ((![(k0_pay33 (k0_pay2 iotaV 0#32 1#32 k)), k0_pay171] : Fin 2 → IVec S16 32) a x).toNat < S64x128.size a) (x : S16.Idx) :
    k0_pay36 (loadIdx Pc ![(k0_pay1 k0_pay169 w), k0_pay34 o (k0_pay33 (k0_pay2 iotaV 0#32 1#32 k))] hP) (loadIdx Gc ![k0_pay171, (k0_pay33 (k0_pay2 iotaV 0#32 1#32 k))] hG) x
      = Tslot Gc Pc o w hw ho (idxAt ![(k0_pay33 (k0_pay2 iotaV 0#32 1#32 k)), k0_pay171] hS x) :=
  store_value Gc Pc o w hw ho (k0_pay33 (k0_pay2 iotaV 0#32 1#32 k)) k0_pay171 (k0_pay1 k0_pay169 w) (k0_pay34 o (k0_pay33 (k0_pay2 iotaV 0#32 1#32 k))) (prow_toNat w)
    (fun x => pcol3_toNat o _ x (gcol3_lt k x) ho) hP hG hS x

theorem hit_d3_j1 (k : Fin k0_t2_loop.trips)
    (hS : ∀ a x, ((![(k0_pay33 (k0_pay2 iotaV 0#32 1#32 k)), k0_pay171] : Fin 2 → IVec S16 32) a x).toNat < S64x128.size a) :
    {p | ∃ x, idxAt ![(k0_pay33 (k0_pay2 iotaV 0#32 1#32 k)), k0_pay171] hS x = p} = Hit 3 1 k.val :=
  hit_eq 3 1 k.val (k0_pay33 (k0_pay2 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay172, (k0_pay33 (k0_pay2 iotaV 0#32 1#32 k))] : Fin 2 → IVec S16 32) a x).toNat < S128x128.size a)
    (hS : ∀ a x, ((![(k0_pay33 (k0_pay2 iotaV 0#32 1#32 k)), k0_pay172] : Fin 2 → IVec S16 32) a x).toNat < S64x128.size a) (x : S16.Idx) :
    k0_pay37 (loadIdx Pc ![(k0_pay1 k0_pay169 w), k0_pay34 o (k0_pay33 (k0_pay2 iotaV 0#32 1#32 k))] hP) (loadIdx Gc ![k0_pay172, (k0_pay33 (k0_pay2 iotaV 0#32 1#32 k))] hG) x
      = Tslot Gc Pc o w hw ho (idxAt ![(k0_pay33 (k0_pay2 iotaV 0#32 1#32 k)), k0_pay172] hS x) :=
  store_value Gc Pc o w hw ho (k0_pay33 (k0_pay2 iotaV 0#32 1#32 k)) k0_pay172 (k0_pay1 k0_pay169 w) (k0_pay34 o (k0_pay33 (k0_pay2 iotaV 0#32 1#32 k))) (prow_toNat w)
    (fun x => pcol3_toNat o _ x (gcol3_lt k x) ho) hP hG hS x

theorem hit_d3_j2 (k : Fin k0_t2_loop.trips)
    (hS : ∀ a x, ((![(k0_pay33 (k0_pay2 iotaV 0#32 1#32 k)), k0_pay172] : Fin 2 → IVec S16 32) a x).toNat < S64x128.size a) :
    {p | ∃ x, idxAt ![(k0_pay33 (k0_pay2 iotaV 0#32 1#32 k)), k0_pay172] hS x = p} = Hit 3 2 k.val :=
  hit_eq 3 2 k.val (k0_pay33 (k0_pay2 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay173, (k0_pay33 (k0_pay2 iotaV 0#32 1#32 k))] : Fin 2 → IVec S16 32) a x).toNat < S128x128.size a)
    (hS : ∀ a x, ((![(k0_pay33 (k0_pay2 iotaV 0#32 1#32 k)), k0_pay173] : Fin 2 → IVec S16 32) a x).toNat < S64x128.size a) (x : S16.Idx) :
    k0_pay38 (loadIdx Pc ![(k0_pay1 k0_pay169 w), k0_pay34 o (k0_pay33 (k0_pay2 iotaV 0#32 1#32 k))] hP) (loadIdx Gc ![k0_pay173, (k0_pay33 (k0_pay2 iotaV 0#32 1#32 k))] hG) x
      = Tslot Gc Pc o w hw ho (idxAt ![(k0_pay33 (k0_pay2 iotaV 0#32 1#32 k)), k0_pay173] hS x) :=
  store_value Gc Pc o w hw ho (k0_pay33 (k0_pay2 iotaV 0#32 1#32 k)) k0_pay173 (k0_pay1 k0_pay169 w) (k0_pay34 o (k0_pay33 (k0_pay2 iotaV 0#32 1#32 k))) (prow_toNat w)
    (fun x => pcol3_toNat o _ x (gcol3_lt k x) ho) hP hG hS x

theorem hit_d3_j3 (k : Fin k0_t2_loop.trips)
    (hS : ∀ a x, ((![(k0_pay33 (k0_pay2 iotaV 0#32 1#32 k)), k0_pay173] : Fin 2 → IVec S16 32) a x).toNat < S64x128.size a) :
    {p | ∃ x, idxAt ![(k0_pay33 (k0_pay2 iotaV 0#32 1#32 k)), k0_pay173] hS x = p} = Hit 3 3 k.val :=
  hit_eq 3 3 k.val (k0_pay33 (k0_pay2 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay174, (k0_pay33 (k0_pay2 iotaV 0#32 1#32 k))] : Fin 2 → IVec S16 32) a x).toNat < S128x128.size a)
    (hS : ∀ a x, ((![(k0_pay33 (k0_pay2 iotaV 0#32 1#32 k)), k0_pay174] : Fin 2 → IVec S16 32) a x).toNat < S64x128.size a) (x : S16.Idx) :
    k0_pay39 (loadIdx Pc ![(k0_pay1 k0_pay169 w), k0_pay34 o (k0_pay33 (k0_pay2 iotaV 0#32 1#32 k))] hP) (loadIdx Gc ![k0_pay174, (k0_pay33 (k0_pay2 iotaV 0#32 1#32 k))] hG) x
      = Tslot Gc Pc o w hw ho (idxAt ![(k0_pay33 (k0_pay2 iotaV 0#32 1#32 k)), k0_pay174] hS x) :=
  store_value Gc Pc o w hw ho (k0_pay33 (k0_pay2 iotaV 0#32 1#32 k)) k0_pay174 (k0_pay1 k0_pay169 w) (k0_pay34 o (k0_pay33 (k0_pay2 iotaV 0#32 1#32 k))) (prow_toNat w)
    (fun x => pcol3_toNat o _ x (gcol3_lt k x) ho) hP hG hS x

theorem hit_d3_j4 (k : Fin k0_t2_loop.trips)
    (hS : ∀ a x, ((![(k0_pay33 (k0_pay2 iotaV 0#32 1#32 k)), k0_pay174] : Fin 2 → IVec S16 32) a x).toNat < S64x128.size a) :
    {p | ∃ x, idxAt ![(k0_pay33 (k0_pay2 iotaV 0#32 1#32 k)), k0_pay174] hS x = p} = Hit 3 4 k.val :=
  hit_eq 3 4 k.val (k0_pay33 (k0_pay2 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay175, (k0_pay33 (k0_pay2 iotaV 0#32 1#32 k))] : Fin 2 → IVec S16 32) a x).toNat < S128x128.size a)
    (hS : ∀ a x, ((![(k0_pay33 (k0_pay2 iotaV 0#32 1#32 k)), k0_pay175] : Fin 2 → IVec S16 32) a x).toNat < S64x128.size a) (x : S16.Idx) :
    k0_pay40 (loadIdx Pc ![(k0_pay1 k0_pay169 w), k0_pay34 o (k0_pay33 (k0_pay2 iotaV 0#32 1#32 k))] hP) (loadIdx Gc ![k0_pay175, (k0_pay33 (k0_pay2 iotaV 0#32 1#32 k))] hG) x
      = Tslot Gc Pc o w hw ho (idxAt ![(k0_pay33 (k0_pay2 iotaV 0#32 1#32 k)), k0_pay175] hS x) :=
  store_value Gc Pc o w hw ho (k0_pay33 (k0_pay2 iotaV 0#32 1#32 k)) k0_pay175 (k0_pay1 k0_pay169 w) (k0_pay34 o (k0_pay33 (k0_pay2 iotaV 0#32 1#32 k))) (prow_toNat w)
    (fun x => pcol3_toNat o _ x (gcol3_lt k x) ho) hP hG hS x

theorem hit_d3_j5 (k : Fin k0_t2_loop.trips)
    (hS : ∀ a x, ((![(k0_pay33 (k0_pay2 iotaV 0#32 1#32 k)), k0_pay175] : Fin 2 → IVec S16 32) a x).toNat < S64x128.size a) :
    {p | ∃ x, idxAt ![(k0_pay33 (k0_pay2 iotaV 0#32 1#32 k)), k0_pay175] hS x = p} = Hit 3 5 k.val :=
  hit_eq 3 5 k.val (k0_pay33 (k0_pay2 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay176, (k0_pay33 (k0_pay2 iotaV 0#32 1#32 k))] : Fin 2 → IVec S16 32) a x).toNat < S128x128.size a)
    (hS : ∀ a x, ((![(k0_pay33 (k0_pay2 iotaV 0#32 1#32 k)), k0_pay176] : Fin 2 → IVec S16 32) a x).toNat < S64x128.size a) (x : S16.Idx) :
    k0_pay41 (loadIdx Pc ![(k0_pay1 k0_pay169 w), k0_pay34 o (k0_pay33 (k0_pay2 iotaV 0#32 1#32 k))] hP) (loadIdx Gc ![k0_pay176, (k0_pay33 (k0_pay2 iotaV 0#32 1#32 k))] hG) x
      = Tslot Gc Pc o w hw ho (idxAt ![(k0_pay33 (k0_pay2 iotaV 0#32 1#32 k)), k0_pay176] hS x) :=
  store_value Gc Pc o w hw ho (k0_pay33 (k0_pay2 iotaV 0#32 1#32 k)) k0_pay176 (k0_pay1 k0_pay169 w) (k0_pay34 o (k0_pay33 (k0_pay2 iotaV 0#32 1#32 k))) (prow_toNat w)
    (fun x => pcol3_toNat o _ x (gcol3_lt k x) ho) hP hG hS x

theorem hit_d3_j6 (k : Fin k0_t2_loop.trips)
    (hS : ∀ a x, ((![(k0_pay33 (k0_pay2 iotaV 0#32 1#32 k)), k0_pay176] : Fin 2 → IVec S16 32) a x).toNat < S64x128.size a) :
    {p | ∃ x, idxAt ![(k0_pay33 (k0_pay2 iotaV 0#32 1#32 k)), k0_pay176] hS x = p} = Hit 3 6 k.val :=
  hit_eq 3 6 k.val (k0_pay33 (k0_pay2 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t2_loop.trips) (Gc : Vec F S128x128 .f32) (Pc : Vec F S100x128 .f32) (o w : BitVec 32)
    (hw : w.toNat < 100) (ho : o.toNat ≤ 64)
    (hP : ∀ a x, ((![(k0_pay1 k0_pay169 w), k0_pay34 o (k0_pay33 (k0_pay2 iotaV 0#32 1#32 k))] : Fin 2 → IVec S16 32) a x).toNat < S100x128.size a)
    (hG : ∀ a x, ((![k0_pay177, (k0_pay33 (k0_pay2 iotaV 0#32 1#32 k))] : Fin 2 → IVec S16 32) a x).toNat < S128x128.size a)
    (hS : ∀ a x, ((![(k0_pay33 (k0_pay2 iotaV 0#32 1#32 k)), k0_pay177] : Fin 2 → IVec S16 32) a x).toNat < S64x128.size a) (x : S16.Idx) :
    k0_pay42 (loadIdx Pc ![(k0_pay1 k0_pay169 w), k0_pay34 o (k0_pay33 (k0_pay2 iotaV 0#32 1#32 k))] hP) (loadIdx Gc ![k0_pay177, (k0_pay33 (k0_pay2 iotaV 0#32 1#32 k))] hG) x
      = Tslot Gc Pc o w hw ho (idxAt ![(k0_pay33 (k0_pay2 iotaV 0#32 1#32 k)), k0_pay177] hS x) :=
  store_value Gc Pc o w hw ho (k0_pay33 (k0_pay2 iotaV 0#32 1#32 k)) k0_pay177 (k0_pay1 k0_pay169 w) (k0_pay34 o (k0_pay33 (k0_pay2 iotaV 0#32 1#32 k))) (prow_toNat w)
    (fun x => pcol3_toNat o _ x (gcol3_lt k x) ho) hP hG hS x

theorem hit_d3_j7 (k : Fin k0_t2_loop.trips)
    (hS : ∀ a x, ((![(k0_pay33 (k0_pay2 iotaV 0#32 1#32 k)), k0_pay177] : Fin 2 → IVec S16 32) a x).toNat < S64x128.size a) :
    {p | ∃ x, idxAt ![(k0_pay33 (k0_pay2 iotaV 0#32 1#32 k)), k0_pay177] hS x = p} = Hit 3 7 k.val :=
  hit_eq 3 7 k.val (k0_pay33 (k0_pay2 iotaV 0#32 1#32 k)) k0_pay177
    (fun x => by rw [gcol3_toNat]; show _ = (ln x + k.val) % 16 + 16 * 3; omega)
    (fun x => by rw [pay177_toNat]; show _ = 16 * 7 + ln x; omega) hS

end Cert.LanesK.C1
-- ==== Proof.LaneListC1K.lean ====
/-
  One whole trip of the inner loop k0_t2_loop on the block held as one listed piece: the vector it leaves.

  The trip's 32 scatters in program order — feature groups 0 to 3, in each the eight row groups.  The first scatters
  into what the contents before the trip read through the whole rectangle, each later one into what the one-piece
  list of the previous scatter's vector reads back (`grpX0` … `grpX3`, `chainX`).  Each adds the 16 elements
  `Hit dc j k` to the elements that hold the target's value and loses none (`grp*X_good`); the block left as the one
  piece of the last vector holds it on everything written before trip `k + 1` (`trip_goodL`).
-/
import proofs.«206908_g46772193853751_cont_8to1c4_160_30_alg».proof.Proof.LaneListK
import proofs.«206908_g46772193853751_cont_8to1c4_160_30_alg».proof.Proof.LaneTrip1K

noncomputable section

namespace Cert.LanesK.C1

open Idealize.ShloMosaic Idealize.ShloMosaic.ValueIdx Cert.Kernel Cert.Kernel.Gen Cert.LanesK

variable {F : FTy → Type} [FloatOps F]
variable {sg : RefSig} {κ : Kind} {sp : Space}

/-- The eight scatters of feature group 0, row groups 0 to 7 in order, the first into the vector `X`. -/
def grpX0 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (storeIdx X
      ![(k0_pay3 iotaV 0#32 1#32 k), k0_pay170] (k0_pay5 (loadIdx Pc ![(k0_pay1 k0_pay169 w), k0_pay4 o (k0_pay3 iotaV 0#32 1#32 k)] (chkP0_trip k o w hw ho)) (loadIdx Gc ![k0_pay170, (k0_pay3 iotaV 0#32 1#32 k)] (chkG0_trip k).1))
      (fun _ => 1#1) false (chkG0_trip k).2.2.2.2.2.2.2.2.1)
      ![(k0_pay3 iotaV 0#32 1#32 k), k0_pay171] (k0_pay6 (loadIdx Pc ![(k0_pay1 k0_pay169 w), k0_pay4 o (k0_pay3 iotaV 0#32 1#32 k)] (chkP0_trip k o w hw ho)) (loadIdx Gc ![k0_pay171, (k0_pay3 iotaV 0#32 1#32 k)] (chkG0_trip k).2.1))
      (chkG0_trip k).2.2.2.2.2.2.2.2.2.1)
      ![(k0_pay3 iotaV 0#32 1#32 k), k0_pay172] (k0_pay7 (loadIdx Pc ![(k0_pay1 k0_pay169 w), k0_pay4 o (k0_pay3 iotaV 0#32 1#32 k)] (chkP0_trip k o w hw ho)) (loadIdx Gc ![k0_pay172, (k0_pay3 iotaV 0#32 1#32 k)] (chkG0_trip k).2.2.1))
      (chkG0_trip k).2.2.2.2.2.2.2.2.2.2.1)
      ![(k0_pay3 iotaV 0#32 1#32 k), k0_pay173] (k0_pay8 (loadIdx Pc ![(k0_pay1 k0_pay169 w), k0_pay4 o (k0_pay3 iotaV 0#32 1#32 k)] (chkP0_trip k o w hw ho)) (loadIdx Gc ![k0_pay173, (k0_pay3 iotaV 0#32 1#32 k)] (chkG0_trip k).2.2.2.1))
      (chkG0_trip k).2.2.2.2.2.2.2.2.2.2.2.1)
      ![(k0_pay3 iotaV 0#32 1#32 k), k0_pay174] (k0_pay9 (loadIdx Pc ![(k0_pay1 k0_pay169 w), k0_pay4 o (k0_pay3 iotaV 0#32 1#32 k)] (chkP0_trip k o w hw ho)) (loadIdx Gc ![k0_pay174, (k0_pay3 iotaV 0#32 1#32 k)] (chkG0_trip k).2.2.2.2.1))
      (chkG0_trip k).2.2.2.2.2.2.2.2.2.2.2.2.1)
      ![(k0_pay3 iotaV 0#32 1#32 k), k0_pay175] (k0_pay10 (loadIdx Pc ![(k0_pay1 k0_pay169 w), k0_pay4 o (k0_pay3 iotaV 0#32 1#32 k)] (chkP0_trip k o w hw ho)) (loadIdx Gc ![k0_pay175, (k0_pay3 iotaV 0#32 1#32 k)] (chkG0_trip k).2.2.2.2.2.1))
      (chkG0_trip k).2.2.2.2.2.2.2.2.2.2.2.2.2.1)
      ![(k0_pay3 iotaV 0#32 1#32 k), k0_pay176] (k0_pay11 (loadIdx Pc ![(k0_pay1 k0_pay169 w), k0_pay4 o (k0_pay3 iotaV 0#32 1#32 k)] (chkP0_trip k o w hw ho)) (loadIdx Gc ![k0_pay176, (k0_pay3 iotaV 0#32 1#32 k)] (chkG0_trip k).2.2.2.2.2.2.1))
      (chkG0_trip k).2.2.2.2.2.2.2.2.2.2.2.2.2.2.1)
      ![(k0_pay3 iotaV 0#32 1#32 k), k0_pay177] (k0_pay12 (loadIdx Pc ![(k0_pay1 k0_pay169 w), k0_pay4 o (k0_pay3 iotaV 0#32 1#32 k)] (chkP0_trip k o w hw ho)) (loadIdx Gc ![k0_pay177, (k0_pay3 iotaV 0#32 1#32 k)] (chkG0_trip k).2.2.2.2.2.2.2.1))
      (chkG0_trip k).2.2.2.2.2.2.2.2.2.2.2.2.2.2.2)

theorem grp0X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 0 0 k.val ∪ Hit 0 1 k.val ∪ Hit 0 2 k.val ∪ Hit 0 3 k.val ∪ Hit 0 4 k.val ∪ Hit 0 5 k.val ∪ Hit 0 6 k.val ∪ Hit 0 7 k.val) (grpX0 M Gc Pc o w hw ho k X) := by
  have g0 := goodV_first ![(k0_pay3 iotaV 0#32 1#32 k), k0_pay170] (k0_pay5 (loadIdx Pc ![(k0_pay1 k0_pay169 w), k0_pay4 o (k0_pay3 iotaV 0#32 1#32 k)] (chkP0_trip k o w hw ho)) (loadIdx Gc ![k0_pay170, (k0_pay3 iotaV 0#32 1#32 k)] (chkG0_trip k).1))
    (chkG0_trip k).2.2.2.2.2.2.2.2.1
    (val_d0_j0 k Gc Pc o w hw ho (chkP0_trip k o w hw ho) (chkG0_trip k).1 (chkG0_trip k).2.2.2.2.2.2.2.2.1)
    (hit_d0_j0 k (chkG0_trip k).2.2.2.2.2.2.2.2.1) hX
  have g1 := goodV_step M ![(k0_pay3 iotaV 0#32 1#32 k), k0_pay171] (k0_pay6 (loadIdx Pc ![(k0_pay1 k0_pay169 w), k0_pay4 o (k0_pay3 iotaV 0#32 1#32 k)] (chkP0_trip k o w hw ho)) (loadIdx Gc ![k0_pay171, (k0_pay3 iotaV 0#32 1#32 k)] (chkG0_trip k).2.1))
    (chkG0_trip k).2.2.2.2.2.2.2.2.2.1
    (val_d0_j1 k Gc Pc o w hw ho (chkP0_trip k o w hw ho) (chkG0_trip k).2.1 (chkG0_trip k).2.2.2.2.2.2.2.2.2.1)
    (hit_d0_j1 k (chkG0_trip k).2.2.2.2.2.2.2.2.2.1) g0
  have g2 := goodV_step M ![(k0_pay3 iotaV 0#32 1#32 k), k0_pay172] (k0_pay7 (loadIdx Pc ![(k0_pay1 k0_pay169 w), k0_pay4 o (k0_pay3 iotaV 0#32 1#32 k)] (chkP0_trip k o w hw ho)) (loadIdx Gc ![k0_pay172, (k0_pay3 iotaV 0#32 1#32 k)] (chkG0_trip k).2.2.1))
    (chkG0_trip k).2.2.2.2.2.2.2.2.2.2.1
    (val_d0_j2 k Gc Pc o w hw ho (chkP0_trip k o w hw ho) (chkG0_trip k).2.2.1 (chkG0_trip k).2.2.2.2.2.2.2.2.2.2.1)
    (hit_d0_j2 k (chkG0_trip k).2.2.2.2.2.2.2.2.2.2.1) g1
  have g3 := goodV_step M ![(k0_pay3 iotaV 0#32 1#32 k), k0_pay173] (k0_pay8 (loadIdx Pc ![(k0_pay1 k0_pay169 w), k0_pay4 o (k0_pay3 iotaV 0#32 1#32 k)] (chkP0_trip k o w hw ho)) (loadIdx Gc ![k0_pay173, (k0_pay3 iotaV 0#32 1#32 k)] (chkG0_trip k).2.2.2.1))
    (chkG0_trip k).2.2.2.2.2.2.2.2.2.2.2.1
    (val_d0_j3 k Gc Pc o w hw ho (chkP0_trip k o w hw ho) (chkG0_trip k).2.2.2.1 (chkG0_trip k).2.2.2.2.2.2.2.2.2.2.2.1)
    (hit_d0_j3 k (chkG0_trip k).2.2.2.2.2.2.2.2.2.2.2.1) g2
  have g4 := goodV_step M ![(k0_pay3 iotaV 0#32 1#32 k), k0_pay174] (k0_pay9 (loadIdx Pc ![(k0_pay1 k0_pay169 w), k0_pay4 o (k0_pay3 iotaV 0#32 1#32 k)] (chkP0_trip k o w hw ho)) (loadIdx Gc ![k0_pay174, (k0_pay3 iotaV 0#32 1#32 k)] (chkG0_trip k).2.2.2.2.1))
    (chkG0_trip k).2.2.2.2.2.2.2.2.2.2.2.2.1
    (val_d0_j4 k Gc Pc o w hw ho (chkP0_trip k o w hw ho) (chkG0_trip k).2.2.2.2.1 (chkG0_trip k).2.2.2.2.2.2.2.2.2.2.2.2.1)
    (hit_d0_j4 k (chkG0_trip k).2.2.2.2.2.2.2.2.2.2.2.2.1) g3
  have g5 := goodV_step M ![(k0_pay3 iotaV 0#32 1#32 k), k0_pay175] (k0_pay10 (loadIdx Pc ![(k0_pay1 k0_pay169 w), k0_pay4 o (k0_pay3 iotaV 0#32 1#32 k)] (chkP0_trip k o w hw ho)) (loadIdx Gc ![k0_pay175, (k0_pay3 iotaV 0#32 1#32 k)] (chkG0_trip k).2.2.2.2.2.1))
    (chkG0_trip k).2.2.2.2.2.2.2.2.2.2.2.2.2.1
    (val_d0_j5 k Gc Pc o w hw ho (chkP0_trip k o w hw ho) (chkG0_trip k).2.2.2.2.2.1 (chkG0_trip k).2.2.2.2.2.2.2.2.2.2.2.2.2.1)
    (hit_d0_j5 k (chkG0_trip k).2.2.2.2.2.2.2.2.2.2.2.2.2.1) g4
  have g6 := goodV_step M ![(k0_pay3 iotaV 0#32 1#32 k), k0_pay176] (k0_pay11 (loadIdx Pc ![(k0_pay1 k0_pay169 w), k0_pay4 o (k0_pay3 iotaV 0#32 1#32 k)] (chkP0_trip k o w hw ho)) (loadIdx Gc ![k0_pay176, (k0_pay3 iotaV 0#32 1#32 k)] (chkG0_trip k).2.2.2.2.2.2.1))
    (chkG0_trip k).2.2.2.2.2.2.2.2.2.2.2.2.2.2.1
    (val_d0_j6 k Gc Pc o w hw ho (chkP0_trip k o w hw ho) (chkG0_trip k).2.2.2.2.2.2.1 (chkG0_trip k).2.2.2.2.2.2.2.2.2.2.2.2.2.2.1)
    (hit_d0_j6 k (chkG0_trip k).2.2.2.2.2.2.2.2.2.2.2.2.2.2.1) g5
  have g7 := goodV_step M ![(k0_pay3 iotaV 0#32 1#32 k), k0_pay177] (k0_pay12 (loadIdx Pc ![(k0_pay1 k0_pay169 w), k0_pay4 o (k0_pay3 iotaV 0#32 1#32 k)] (chkP0_trip k o w hw ho)) (loadIdx Gc ![k0_pay177, (k0_pay3 iotaV 0#32 1#32 k)] (chkG0_trip k).2.2.2.2.2.2.2.1))
    (chkG0_trip k).2.2.2.2.2.2.2.2.2.2.2.2.2.2.2
    (val_d0_j7 k Gc Pc o w hw ho (chkP0_trip k o w hw ho) (chkG0_trip k).2.2.2.2.2.2.2.1 (chkG0_trip k).2.2.2.2.2.2.2.2.2.2.2.2.2.2.2)
    (hit_d0_j7 k (chkG0_trip k).2.2.2.2.2.2.2.2.2.2.2.2.2.2.2) g6
  exact g7

/-- The eight scatters of feature group 1, row groups 0 to 7 in order, into the one-piece list of `X`. -/
def grpX1 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (stepX M X
      ![(k0_pay13 (k0_pay2 iotaV 0#32 1#32 k)), k0_pay170] (k0_pay15 (loadIdx Pc ![(k0_pay1 k0_pay169 w), k0_pay14 o (k0_pay13 (k0_pay2 iotaV 0#32 1#32 k))] (chkP1_trip k o w hw ho)) (loadIdx Gc ![k0_pay170, (k0_pay13 (k0_pay2 iotaV 0#32 1#32 k))] (chkG1_trip k).1))
      (chkG1_trip k).2.2.2.2.2.2.2.2.1)
      ![(k0_pay13 (k0_pay2 iotaV 0#32 1#32 k)), k0_pay171] (k0_pay16 (loadIdx Pc ![(k0_pay1 k0_pay169 w), k0_pay14 o (k0_pay13 (k0_pay2 iotaV 0#32 1#32 k))] (chkP1_trip k o w hw ho)) (loadIdx Gc ![k0_pay171, (k0_pay13 (k0_pay2 iotaV 0#32 1#32 k))] (chkG1_trip k).2.1))
      (chkG1_trip k).2.2.2.2.2.2.2.2.2.1)
      ![(k0_pay13 (k0_pay2 iotaV 0#32 1#32 k)), k0_pay172] (k0_pay17 (loadIdx Pc ![(k0_pay1 k0_pay169 w), k0_pay14 o (k0_pay13 (k0_pay2 iotaV 0#32 1#32 k))] (chkP1_trip k o w hw ho)) (loadIdx Gc ![k0_pay172, (k0_pay13 (k0_pay2 iotaV 0#32 1#32 k))] (chkG1_trip k).2.2.1))
      (chkG1_trip k).2.2.2.2.2.2.2.2.2.2.1)
      ![(k0_pay13 (k0_pay2 iotaV 0#32 1#32 k)), k0_pay173] (k0_pay18 (loadIdx Pc ![(k0_pay1 k0_pay169 w), k0_pay14 o (k0_pay13 (k0_pay2 iotaV 0#32 1#32 k))] (chkP1_trip k o w hw ho)) (loadIdx Gc ![k0_pay173, (k0_pay13 (k0_pay2 iotaV 0#32 1#32 k))] (chkG1_trip k).2.2.2.1))
      (chkG1_trip k).2.2.2.2.2.2.2.2.2.2.2.1)
      ![(k0_pay13 (k0_pay2 iotaV 0#32 1#32 k)), k0_pay174] (k0_pay19 (loadIdx Pc ![(k0_pay1 k0_pay169 w), k0_pay14 o (k0_pay13 (k0_pay2 iotaV 0#32 1#32 k))] (chkP1_trip k o w hw ho)) (loadIdx Gc ![k0_pay174, (k0_pay13 (k0_pay2 iotaV 0#32 1#32 k))] (chkG1_trip k).2.2.2.2.1))
      (chkG1_trip k).2.2.2.2.2.2.2.2.2.2.2.2.1)
      ![(k0_pay13 (k0_pay2 iotaV 0#32 1#32 k)), k0_pay175] (k0_pay20 (loadIdx Pc ![(k0_pay1 k0_pay169 w), k0_pay14 o (k0_pay13 (k0_pay2 iotaV 0#32 1#32 k))] (chkP1_trip k o w hw ho)) (loadIdx Gc ![k0_pay175, (k0_pay13 (k0_pay2 iotaV 0#32 1#32 k))] (chkG1_trip k).2.2.2.2.2.1))
      (chkG1_trip k).2.2.2.2.2.2.2.2.2.2.2.2.2.1)
      ![(k0_pay13 (k0_pay2 iotaV 0#32 1#32 k)), k0_pay176] (k0_pay21 (loadIdx Pc ![(k0_pay1 k0_pay169 w), k0_pay14 o (k0_pay13 (k0_pay2 iotaV 0#32 1#32 k))] (chkP1_trip k o w hw ho)) (loadIdx Gc ![k0_pay176, (k0_pay13 (k0_pay2 iotaV 0#32 1#32 k))] (chkG1_trip k).2.2.2.2.2.2.1))
      (chkG1_trip k).2.2.2.2.2.2.2.2.2.2.2.2.2.2.1)
      ![(k0_pay13 (k0_pay2 iotaV 0#32 1#32 k)), k0_pay177] (k0_pay22 (loadIdx Pc ![(k0_pay1 k0_pay169 w), k0_pay14 o (k0_pay13 (k0_pay2 iotaV 0#32 1#32 k))] (chkP1_trip k o w hw ho)) (loadIdx Gc ![k0_pay177, (k0_pay13 (k0_pay2 iotaV 0#32 1#32 k))] (chkG1_trip k).2.2.2.2.2.2.2.1))
      (chkG1_trip k).2.2.2.2.2.2.2.2.2.2.2.2.2.2.2)

theorem grp1X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 1 0 k.val ∪ Hit 1 1 k.val ∪ Hit 1 2 k.val ∪ Hit 1 3 k.val ∪ Hit 1 4 k.val ∪ Hit 1 5 k.val ∪ Hit 1 6 k.val ∪ Hit 1 7 k.val) (grpX1 M Gc Pc o w hw ho k X) := by
  have g0 := goodV_step M ![(k0_pay13 (k0_pay2 iotaV 0#32 1#32 k)), k0_pay170] (k0_pay15 (loadIdx Pc ![(k0_pay1 k0_pay169 w), k0_pay14 o (k0_pay13 (k0_pay2 iotaV 0#32 1#32 k))] (chkP1_trip k o w hw ho)) (loadIdx Gc ![k0_pay170, (k0_pay13 (k0_pay2 iotaV 0#32 1#32 k))] (chkG1_trip k).1))
    (chkG1_trip k).2.2.2.2.2.2.2.2.1
    (val_d1_j0 k Gc Pc o w hw ho (chkP1_trip k o w hw ho) (chkG1_trip k).1 (chkG1_trip k).2.2.2.2.2.2.2.2.1)
    (hit_d1_j0 k (chkG1_trip k).2.2.2.2.2.2.2.2.1) hX
  have g1 := goodV_step M ![(k0_pay13 (k0_pay2 iotaV 0#32 1#32 k)), k0_pay171] (k0_pay16 (loadIdx Pc ![(k0_pay1 k0_pay169 w), k0_pay14 o (k0_pay13 (k0_pay2 iotaV 0#32 1#32 k))] (chkP1_trip k o w hw ho)) (loadIdx Gc ![k0_pay171, (k0_pay13 (k0_pay2 iotaV 0#32 1#32 k))] (chkG1_trip k).2.1))
    (chkG1_trip k).2.2.2.2.2.2.2.2.2.1
    (val_d1_j1 k Gc Pc o w hw ho (chkP1_trip k o w hw ho) (chkG1_trip k).2.1 (chkG1_trip k).2.2.2.2.2.2.2.2.2.1)
    (hit_d1_j1 k (chkG1_trip k).2.2.2.2.2.2.2.2.2.1) g0
  have g2 := goodV_step M ![(k0_pay13 (k0_pay2 iotaV 0#32 1#32 k)), k0_pay172] (k0_pay17 (loadIdx Pc ![(k0_pay1 k0_pay169 w), k0_pay14 o (k0_pay13 (k0_pay2 iotaV 0#32 1#32 k))] (chkP1_trip k o w hw ho)) (loadIdx Gc ![k0_pay172, (k0_pay13 (k0_pay2 iotaV 0#32 1#32 k))] (chkG1_trip k).2.2.1))
    (chkG1_trip k).2.2.2.2.2.2.2.2.2.2.1
    (val_d1_j2 k Gc Pc o w hw ho (chkP1_trip k o w hw ho) (chkG1_trip k).2.2.1 (chkG1_trip k).2.2.2.2.2.2.2.2.2.2.1)
    (hit_d1_j2 k (chkG1_trip k).2.2.2.2.2.2.2.2.2.2.1) g1
  have g3 := goodV_step M ![(k0_pay13 (k0_pay2 iotaV 0#32 1#32 k)), k0_pay173] (k0_pay18 (loadIdx Pc ![(k0_pay1 k0_pay169 w), k0_pay14 o (k0_pay13 (k0_pay2 iotaV 0#32 1#32 k))] (chkP1_trip k o w hw ho)) (loadIdx Gc ![k0_pay173, (k0_pay13 (k0_pay2 iotaV 0#32 1#32 k))] (chkG1_trip k).2.2.2.1))
    (chkG1_trip k).2.2.2.2.2.2.2.2.2.2.2.1
    (val_d1_j3 k Gc Pc o w hw ho (chkP1_trip k o w hw ho) (chkG1_trip k).2.2.2.1 (chkG1_trip k).2.2.2.2.2.2.2.2.2.2.2.1)
    (hit_d1_j3 k (chkG1_trip k).2.2.2.2.2.2.2.2.2.2.2.1) g2
  have g4 := goodV_step M ![(k0_pay13 (k0_pay2 iotaV 0#32 1#32 k)), k0_pay174] (k0_pay19 (loadIdx Pc ![(k0_pay1 k0_pay169 w), k0_pay14 o (k0_pay13 (k0_pay2 iotaV 0#32 1#32 k))] (chkP1_trip k o w hw ho)) (loadIdx Gc ![k0_pay174, (k0_pay13 (k0_pay2 iotaV 0#32 1#32 k))] (chkG1_trip k).2.2.2.2.1))
    (chkG1_trip k).2.2.2.2.2.2.2.2.2.2.2.2.1
    (val_d1_j4 k Gc Pc o w hw ho (chkP1_trip k o w hw ho) (chkG1_trip k).2.2.2.2.1 (chkG1_trip k).2.2.2.2.2.2.2.2.2.2.2.2.1)
    (hit_d1_j4 k (chkG1_trip k).2.2.2.2.2.2.2.2.2.2.2.2.1) g3
  have g5 := goodV_step M ![(k0_pay13 (k0_pay2 iotaV 0#32 1#32 k)), k0_pay175] (k0_pay20 (loadIdx Pc ![(k0_pay1 k0_pay169 w), k0_pay14 o (k0_pay13 (k0_pay2 iotaV 0#32 1#32 k))] (chkP1_trip k o w hw ho)) (loadIdx Gc ![k0_pay175, (k0_pay13 (k0_pay2 iotaV 0#32 1#32 k))] (chkG1_trip k).2.2.2.2.2.1))
    (chkG1_trip k).2.2.2.2.2.2.2.2.2.2.2.2.2.1
    (val_d1_j5 k Gc Pc o w hw ho (chkP1_trip k o w hw ho) (chkG1_trip k).2.2.2.2.2.1 (chkG1_trip k).2.2.2.2.2.2.2.2.2.2.2.2.2.1)
    (hit_d1_j5 k (chkG1_trip k).2.2.2.2.2.2.2.2.2.2.2.2.2.1) g4
  have g6 := goodV_step M ![(k0_pay13 (k0_pay2 iotaV 0#32 1#32 k)), k0_pay176] (k0_pay21 (loadIdx Pc ![(k0_pay1 k0_pay169 w), k0_pay14 o (k0_pay13 (k0_pay2 iotaV 0#32 1#32 k))] (chkP1_trip k o w hw ho)) (loadIdx Gc ![k0_pay176, (k0_pay13 (k0_pay2 iotaV 0#32 1#32 k))] (chkG1_trip k).2.2.2.2.2.2.1))
    (chkG1_trip k).2.2.2.2.2.2.2.2.2.2.2.2.2.2.1
    (val_d1_j6 k Gc Pc o w hw ho (chkP1_trip k o w hw ho) (chkG1_trip k).2.2.2.2.2.2.1 (chkG1_trip k).2.2.2.2.2.2.2.2.2.2.2.2.2.2.1)
    (hit_d1_j6 k (chkG1_trip k).2.2.2.2.2.2.2.2.2.2.2.2.2.2.1) g5
  have g7 := goodV_step M ![(k0_pay13 (k0_pay2 iotaV 0#32 1#32 k)), k0_pay177] (k0_pay22 (loadIdx Pc ![(k0_pay1 k0_pay169 w), k0_pay14 o (k0_pay13 (k0_pay2 iotaV 0#32 1#32 k))] (chkP1_trip k o w hw ho)) (loadIdx Gc ![k0_pay177, (k0_pay13 (k0_pay2 iotaV 0#32 1#32 k))] (chkG1_trip k).2.2.2.2.2.2.2.1))
    (chkG1_trip k).2.2.2.2.2.2.2.2.2.2.2.2.2.2.2
    (val_d1_j7 k Gc Pc o w hw ho (chkP1_trip k o w hw ho) (chkG1_trip k).2.2.2.2.2.2.2.1 (chkG1_trip k).2.2.2.2.2.2.2.2.2.2.2.2.2.2.2)
    (hit_d1_j7 k (chkG1_trip k).2.2.2.2.2.2.2.2.2.2.2.2.2.2.2) g6
  exact g7

/-- The eight scatters of feature group 2, row groups 0 to 7 in order, into the one-piece list of `X`. -/
def grpX2 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (stepX M X
      ![(k0_pay23 (k0_pay2 iotaV 0#32 1#32 k)), k0_pay170] (k0_pay25 (loadIdx Pc ![(k0_pay1 k0_pay169 w), k0_pay24 o (k0_pay23 (k0_pay2 iotaV 0#32 1#32 k))] (chkP2_trip k o w hw ho)) (loadIdx Gc ![k0_pay170, (k0_pay23 (k0_pay2 iotaV 0#32 1#32 k))] (chkG2_trip k).1))
      (chkG2_trip k).2.2.2.2.2.2.2.2.1)
      ![(k0_pay23 (k0_pay2 iotaV 0#32 1#32 k)), k0_pay171] (k0_pay26 (loadIdx Pc ![(k0_pay1 k0_pay169 w), k0_pay24 o (k0_pay23 (k0_pay2 iotaV 0#32 1#32 k))] (chkP2_trip k o w hw ho)) (loadIdx Gc ![k0_pay171, (k0_pay23 (k0_pay2 iotaV 0#32 1#32 k))] (chkG2_trip k).2.1))
      (chkG2_trip k).2.2.2.2.2.2.2.2.2.1)
      ![(k0_pay23 (k0_pay2 iotaV 0#32 1#32 k)), k0_pay172] (k0_pay27 (loadIdx Pc ![(k0_pay1 k0_pay169 w), k0_pay24 o (k0_pay23 (k0_pay2 iotaV 0#32 1#32 k))] (chkP2_trip k o w hw ho)) (loadIdx Gc ![k0_pay172, (k0_pay23 (k0_pay2 iotaV 0#32 1#32 k))] (chkG2_trip k).2.2.1))
      (chkG2_trip k).2.2.2.2.2.2.2.2.2.2.1)
      ![(k0_pay23 (k0_pay2 iotaV 0#32 1#32 k)), k0_pay173] (k0_pay28 (loadIdx Pc ![(k0_pay1 k0_pay169 w), k0_pay24 o (k0_pay23 (k0_pay2 iotaV 0#32 1#32 k))] (chkP2_trip k o w hw ho)) (loadIdx Gc ![k0_pay173, (k0_pay23 (k0_pay2 iotaV 0#32 1#32 k))] (chkG2_trip k).2.2.2.1))
      (chkG2_trip k).2.2.2.2.2.2.2.2.2.2.2.1)
      ![(k0_pay23 (k0_pay2 iotaV 0#32 1#32 k)), k0_pay174] (k0_pay29 (loadIdx Pc ![(k0_pay1 k0_pay169 w), k0_pay24 o (k0_pay23 (k0_pay2 iotaV 0#32 1#32 k))] (chkP2_trip k o w hw ho)) (loadIdx Gc ![k0_pay174, (k0_pay23 (k0_pay2 iotaV 0#32 1#32 k))] (chkG2_trip k).2.2.2.2.1))
      (chkG2_trip k).2.2.2.2.2.2.2.2.2.2.2.2.1)
      ![(k0_pay23 (k0_pay2 iotaV 0#32 1#32 k)), k0_pay175] (k0_pay30 (loadIdx Pc ![(k0_pay1 k0_pay169 w), k0_pay24 o (k0_pay23 (k0_pay2 iotaV 0#32 1#32 k))] (chkP2_trip k o w hw ho)) (loadIdx Gc ![k0_pay175, (k0_pay23 (k0_pay2 iotaV 0#32 1#32 k))] (chkG2_trip k).2.2.2.2.2.1))
      (chkG2_trip k).2.2.2.2.2.2.2.2.2.2.2.2.2.1)
      ![(k0_pay23 (k0_pay2 iotaV 0#32 1#32 k)), k0_pay176] (k0_pay31 (loadIdx Pc ![(k0_pay1 k0_pay169 w), k0_pay24 o (k0_pay23 (k0_pay2 iotaV 0#32 1#32 k))] (chkP2_trip k o w hw ho)) (loadIdx Gc ![k0_pay176, (k0_pay23 (k0_pay2 iotaV 0#32 1#32 k))] (chkG2_trip k).2.2.2.2.2.2.1))
      (chkG2_trip k).2.2.2.2.2.2.2.2.2.2.2.2.2.2.1)
      ![(k0_pay23 (k0_pay2 iotaV 0#32 1#32 k)), k0_pay177] (k0_pay32 (loadIdx Pc ![(k0_pay1 k0_pay169 w), k0_pay24 o (k0_pay23 (k0_pay2 iotaV 0#32 1#32 k))] (chkP2_trip k o w hw ho)) (loadIdx Gc ![k0_pay177, (k0_pay23 (k0_pay2 iotaV 0#32 1#32 k))] (chkG2_trip k).2.2.2.2.2.2.2.1))
      (chkG2_trip k).2.2.2.2.2.2.2.2.2.2.2.2.2.2.2)

theorem grp2X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 2 0 k.val ∪ Hit 2 1 k.val ∪ Hit 2 2 k.val ∪ Hit 2 3 k.val ∪ Hit 2 4 k.val ∪ Hit 2 5 k.val ∪ Hit 2 6 k.val ∪ Hit 2 7 k.val) (grpX2 M Gc Pc o w hw ho k X) := by
  have g0 := goodV_step M ![(k0_pay23 (k0_pay2 iotaV 0#32 1#32 k)), k0_pay170] (k0_pay25 (loadIdx Pc ![(k0_pay1 k0_pay169 w), k0_pay24 o (k0_pay23 (k0_pay2 iotaV 0#32 1#32 k))] (chkP2_trip k o w hw ho)) (loadIdx Gc ![k0_pay170, (k0_pay23 (k0_pay2 iotaV 0#32 1#32 k))] (chkG2_trip k).1))
    (chkG2_trip k).2.2.2.2.2.2.2.2.1
    (val_d2_j0 k Gc Pc o w hw ho (chkP2_trip k o w hw ho) (chkG2_trip k).1 (chkG2_trip k).2.2.2.2.2.2.2.2.1)
    (hit_d2_j0 k (chkG2_trip k).2.2.2.2.2.2.2.2.1) hX
  have g1 := goodV_step M ![(k0_pay23 (k0_pay2 iotaV 0#32 1#32 k)), k0_pay171] (k0_pay26 (loadIdx Pc ![(k0_pay1 k0_pay169 w), k0_pay24 o (k0_pay23 (k0_pay2 iotaV 0#32 1#32 k))] (chkP2_trip k o w hw ho)) (loadIdx Gc ![k0_pay171, (k0_pay23 (k0_pay2 iotaV 0#32 1#32 k))] (chkG2_trip k).2.1))
    (chkG2_trip k).2.2.2.2.2.2.2.2.2.1
    (val_d2_j1 k Gc Pc o w hw ho (chkP2_trip k o w hw ho) (chkG2_trip k).2.1 (chkG2_trip k).2.2.2.2.2.2.2.2.2.1)
    (hit_d2_j1 k (chkG2_trip k).2.2.2.2.2.2.2.2.2.1) g0
  have g2 := goodV_step M ![(k0_pay23 (k0_pay2 iotaV 0#32 1#32 k)), k0_pay172] (k0_pay27 (loadIdx Pc ![(k0_pay1 k0_pay169 w), k0_pay24 o (k0_pay23 (k0_pay2 iotaV 0#32 1#32 k))] (chkP2_trip k o w hw ho)) (loadIdx Gc ![k0_pay172, (k0_pay23 (k0_pay2 iotaV 0#32 1#32 k))] (chkG2_trip k).2.2.1))
    (chkG2_trip k).2.2.2.2.2.2.2.2.2.2.1
    (val_d2_j2 k Gc Pc o w hw ho (chkP2_trip k o w hw ho) (chkG2_trip k).2.2.1 (chkG2_trip k).2.2.2.2.2.2.2.2.2.2.1)
    (hit_d2_j2 k (chkG2_trip k).2.2.2.2.2.2.2.2.2.2.1) g1
  have g3 := goodV_step M ![(k0_pay23 (k0_pay2 iotaV 0#32 1#32 k)), k0_pay173] (k0_pay28 (loadIdx Pc ![(k0_pay1 k0_pay169 w), k0_pay24 o (k0_pay23 (k0_pay2 iotaV 0#32 1#32 k))] (chkP2_trip k o w hw ho)) (loadIdx Gc ![k0_pay173, (k0_pay23 (k0_pay2 iotaV 0#32 1#32 k))] (chkG2_trip k).2.2.2.1))
    (chkG2_trip k).2.2.2.2.2.2.2.2.2.2.2.1
    (val_d2_j3 k Gc Pc o w hw ho (chkP2_trip k o w hw ho) (chkG2_trip k).2.2.2.1 (chkG2_trip k).2.2.2.2.2.2.2.2.2.2.2.1)
    (hit_d2_j3 k (chkG2_trip k).2.2.2.2.2.2.2.2.2.2.2.1) g2
  have g4 := goodV_step M ![(k0_pay23 (k0_pay2 iotaV 0#32 1#32 k)), k0_pay174] (k0_pay29 (loadIdx Pc ![(k0_pay1 k0_pay169 w), k0_pay24 o (k0_pay23 (k0_pay2 iotaV 0#32 1#32 k))] (chkP2_trip k o w hw ho)) (loadIdx Gc ![k0_pay174, (k0_pay23 (k0_pay2 iotaV 0#32 1#32 k))] (chkG2_trip k).2.2.2.2.1))
    (chkG2_trip k).2.2.2.2.2.2.2.2.2.2.2.2.1
    (val_d2_j4 k Gc Pc o w hw ho (chkP2_trip k o w hw ho) (chkG2_trip k).2.2.2.2.1 (chkG2_trip k).2.2.2.2.2.2.2.2.2.2.2.2.1)
    (hit_d2_j4 k (chkG2_trip k).2.2.2.2.2.2.2.2.2.2.2.2.1) g3
  have g5 := goodV_step M ![(k0_pay23 (k0_pay2 iotaV 0#32 1#32 k)), k0_pay175] (k0_pay30 (loadIdx Pc ![(k0_pay1 k0_pay169 w), k0_pay24 o (k0_pay23 (k0_pay2 iotaV 0#32 1#32 k))] (chkP2_trip k o w hw ho)) (loadIdx Gc ![k0_pay175, (k0_pay23 (k0_pay2 iotaV 0#32 1#32 k))] (chkG2_trip k).2.2.2.2.2.1))
    (chkG2_trip k).2.2.2.2.2.2.2.2.2.2.2.2.2.1
    (val_d2_j5 k Gc Pc o w hw ho (chkP2_trip k o w hw ho) (chkG2_trip k).2.2.2.2.2.1 (chkG2_trip k).2.2.2.2.2.2.2.2.2.2.2.2.2.1)
    (hit_d2_j5 k (chkG2_trip k).2.2.2.2.2.2.2.2.2.2.2.2.2.1) g4
  have g6 := goodV_step M ![(k0_pay23 (k0_pay2 iotaV 0#32 1#32 k)), k0_pay176] (k0_pay31 (loadIdx Pc ![(k0_pay1 k0_pay169 w), k0_pay24 o (k0_pay23 (k0_pay2 iotaV 0#32 1#32 k))] (chkP2_trip k o w hw ho)) (loadIdx Gc ![k0_pay176, (k0_pay23 (k0_pay2 iotaV 0#32 1#32 k))] (chkG2_trip k).2.2.2.2.2.2.1))
    (chkG2_trip k).2.2.2.2.2.2.2.2.2.2.2.2.2.2.1
    (val_d2_j6 k Gc Pc o w hw ho (chkP2_trip k o w hw ho) (chkG2_trip k).2.2.2.2.2.2.1 (chkG2_trip k).2.2.2.2.2.2.2.2.2.2.2.2.2.2.1)
    (hit_d2_j6 k (chkG2_trip k).2.2.2.2.2.2.2.2.2.2.2.2.2.2.1) g5
  have g7 := goodV_step M ![(k0_pay23 (k0_pay2 iotaV 0#32 1#32 k)), k0_pay177] (k0_pay32 (loadIdx Pc ![(k0_pay1 k0_pay169 w), k0_pay24 o (k0_pay23 (k0_pay2 iotaV 0#32 1#32 k))] (chkP2_trip k o w hw ho)) (loadIdx Gc ![k0_pay177, (k0_pay23 (k0_pay2 iotaV 0#32 1#32 k))] (chkG2_trip k).2.2.2.2.2.2.2.1))
    (chkG2_trip k).2.2.2.2.2.2.2.2.2.2.2.2.2.2.2
    (val_d2_j7 k Gc Pc o w hw ho (chkP2_trip k o w hw ho) (chkG2_trip k).2.2.2.2.2.2.2.1 (chkG2_trip k).2.2.2.2.2.2.2.2.2.2.2.2.2.2.2)
    (hit_d2_j7 k (chkG2_trip k).2.2.2.2.2.2.2.2.2.2.2.2.2.2.2) g6
  exact g7

/-- The eight scatters of feature group 3, row groups 0 to 7 in order, into the one-piece list of `X`. -/
def grpX3 (M : Memref sg κ sp S64x128 .f32) (Gc : Vec F S128x128 .f32) (Pc : Vec F S100x128 .f32)
    (o w : BitVec 32) (hw : w.toNat < 100) (ho : o.toNat ≤ 64) (k : Fin k0_t2_loop.trips)
    (X : Vec F S64x128 .f32) : Vec F S64x128 .f32 :=
  (stepX M (stepX M (stepX M (stepX M (stepX M (stepX M (stepX M (stepX M X
      ![(k0_pay33 (k0_pay2 iotaV 0#32 1#32 k)), k0_pay170] (k0_pay35 (loadIdx Pc ![(k0_pay1 k0_pay169 w), k0_pay34 o (k0_pay33 (k0_pay2 iotaV 0#32 1#32 k))] (chkP3_trip k o w hw ho)) (loadIdx Gc ![k0_pay170, (k0_pay33 (k0_pay2 iotaV 0#32 1#32 k))] (chkG3_trip k).1))
      (chkG3_trip k).2.2.2.2.2.2.2.2.1)
      ![(k0_pay33 (k0_pay2 iotaV 0#32 1#32 k)), k0_pay171] (k0_pay36 (loadIdx Pc ![(k0_pay1 k0_pay169 w), k0_pay34 o (k0_pay33 (k0_pay2 iotaV 0#32 1#32 k))] (chkP3_trip k o w hw ho)) (loadIdx Gc ![k0_pay171, (k0_pay33 (k0_pay2 iotaV 0#32 1#32 k))] (chkG3_trip k).2.1))
      (chkG3_trip k).2.2.2.2.2.2.2.2.2.1)
      ![(k0_pay33 (k0_pay2 iotaV 0#32 1#32 k)), k0_pay172] (k0_pay37 (loadIdx Pc ![(k0_pay1 k0_pay169 w), k0_pay34 o (k0_pay33 (k0_pay2 iotaV 0#32 1#32 k))] (chkP3_trip k o w hw ho)) (loadIdx Gc ![k0_pay172, (k0_pay33 (k0_pay2 iotaV 0#32 1#32 k))] (chkG3_trip k).2.2.1))
      (chkG3_trip k).2.2.2.2.2.2.2.2.2.2.1)
      ![(k0_pay33 (k0_pay2 iotaV 0#32 1#32 k)), k0_pay173] (k0_pay38 (loadIdx Pc ![(k0_pay1 k0_pay169 w), k0_pay34 o (k0_pay33 (k0_pay2 iotaV 0#32 1#32 k))] (chkP3_trip k o w hw ho)) (loadIdx Gc ![k0_pay173, (k0_pay33 (k0_pay2 iotaV 0#32 1#32 k))] (chkG3_trip k).2.2.2.1))
      (chkG3_trip k).2.2.2.2.2.2.2.2.2.2.2.1)
      ![(k0_pay33 (k0_pay2 iotaV 0#32 1#32 k)), k0_pay174] (k0_pay39 (loadIdx Pc ![(k0_pay1 k0_pay169 w), k0_pay34 o (k0_pay33 (k0_pay2 iotaV 0#32 1#32 k))] (chkP3_trip k o w hw ho)) (loadIdx Gc ![k0_pay174, (k0_pay33 (k0_pay2 iotaV 0#32 1#32 k))] (chkG3_trip k).2.2.2.2.1))
      (chkG3_trip k).2.2.2.2.2.2.2.2.2.2.2.2.1)
      ![(k0_pay33 (k0_pay2 iotaV 0#32 1#32 k)), k0_pay175] (k0_pay40 (loadIdx Pc ![(k0_pay1 k0_pay169 w), k0_pay34 o (k0_pay33 (k0_pay2 iotaV 0#32 1#32 k))] (chkP3_trip k o w hw ho)) (loadIdx Gc ![k0_pay175, (k0_pay33 (k0_pay2 iotaV 0#32 1#32 k))] (chkG3_trip k).2.2.2.2.2.1))
      (chkG3_trip k).2.2.2.2.2.2.2.2.2.2.2.2.2.1)
      ![(k0_pay33 (k0_pay2 iotaV 0#32 1#32 k)), k0_pay176] (k0_pay41 (loadIdx Pc ![(k0_pay1 k0_pay169 w), k0_pay34 o (k0_pay33 (k0_pay2 iotaV 0#32 1#32 k))] (chkP3_trip k o w hw ho)) (loadIdx Gc ![k0_pay176, (k0_pay33 (k0_pay2 iotaV 0#32 1#32 k))] (chkG3_trip k).2.2.2.2.2.2.1))
      (chkG3_trip k).2.2.2.2.2.2.2.2.2.2.2.2.2.2.1)
      ![(k0_pay33 (k0_pay2 iotaV 0#32 1#32 k)), k0_pay177] (k0_pay42 (loadIdx Pc ![(k0_pay1 k0_pay169 w), k0_pay34 o (k0_pay33 (k0_pay2 iotaV 0#32 1#32 k))] (chkP3_trip k o w hw ho)) (loadIdx Gc ![k0_pay177, (k0_pay33 (k0_pay2 iotaV 0#32 1#32 k))] (chkG3_trip k).2.2.2.2.2.2.2.1))
      (chkG3_trip k).2.2.2.2.2.2.2.2.2.2.2.2.2.2.2)

theorem grp3X_good (M : Memref sg κ sp S64x128 .f32) (Gc : Vec F S128x128 .f32) (Pc : Vec F S100x128 .f32)
    (o w : BitVec 32) (hw : w.toNat < 100) (ho : o.toNat ≤ 64) (k : Fin k0_t2_loop.trips)
    {A : Set S64x128.Idx} {X : Vec F S64x128 .f32}
    (hX : GoodV (Tslot Gc Pc o w hw ho) A X) :
    GoodV (Tslot Gc Pc o w hw ho)
      (A ∪ Hit 3 0 k.val ∪ Hit 3 1 k.val ∪ Hit 3 2 k.val ∪ Hit 3 3 k.val ∪ Hit 3 4 k.val ∪ Hit 3 5 k.val ∪ Hit 3 6 k.val ∪ Hit 3 7 k.val) (grpX3 M Gc Pc o w hw ho k X) := by
  have g0 := goodV_step M ![(k0_pay33 (k0_pay2 iotaV 0#32 1#32 k)), k0_pay170] (k0_pay35 (loadIdx Pc ![(k0_pay1 k0_pay169 w), k0_pay34 o (k0_pay33 (k0_pay2 iotaV 0#32 1#32 k))] (chkP3_trip k o w hw ho)) (loadIdx Gc ![k0_pay170, (k0_pay33 (k0_pay2 iotaV 0#32 1#32 k))] (chkG3_trip k).1))
    (chkG3_trip k).2.2.2.2.2.2.2.2.1
    (val_d3_j0 k Gc Pc o w hw ho (chkP3_trip k o w hw ho) (chkG3_trip k).1 (chkG3_trip k).2.2.2.2.2.2.2.2.1)
    (hit_d3_j0 k (chkG3_trip k).2.2.2.2.2.2.2.2.1) hX
  have g1 := goodV_step M ![(k0_pay33 (k0_pay2 iotaV 0#32 1#32 k)), k0_pay171] (k0_pay36 (loadIdx Pc ![(k0_pay1 k0_pay169 w), k0_pay34 o (k0_pay33 (k0_pay2 iotaV 0#32 1#32 k))] (chkP3_trip k o w hw ho)) (loadIdx Gc ![k0_pay171, (k0_pay33 (k0_pay2 iotaV 0#32 1#32 k))] (chkG3_trip k).2.1))
    (chkG3_trip k).2.2.2.2.2.2.2.2.2.1
    (val_d3_j1 k Gc Pc o w hw ho (chkP3_trip k o w hw ho) (chkG3_trip k).2.1 (chkG3_trip k).2.2.2.2.2.2.2.2.2.1)
    (hit_d3_j1 k (chkG3_trip k).2.2.2.2.2.2.2.2.2.1) g0
  have g2 := goodV_step M ![(k0_pay33 (k0_pay2 iotaV 0#32 1#32 k)), k0_pay172] (k0_pay37 (loadIdx Pc ![(k0_pay1 k0_pay169 w), k0_pay34 o (k0_pay33 (k0_pay2 iotaV 0#32 1#32 k))] (chkP3_trip k o w hw ho)) (loadIdx Gc ![k0_pay172, (k0_pay33 (k0_pay2 iotaV 0#32 1#32 k))] (chkG3_trip k).2.2.1))
    (chkG3_trip k).2.2.2.2.2.2.2.2.2.2.1
    (val_d3_j2 k Gc Pc o w hw ho (chkP3_trip k o w hw ho) (chkG3_trip k).2.2.1 (chkG3_trip k).2.2.2.2.2.2.2.2.2.2.1)
    (hit_d3_j2 k (chkG3_trip k).2.2.2.2.2.2.2.2.2.2.1) g1
  have g3 := goodV_step M ![(k0_pay33 (k0_pay2 iotaV 0#32 1#32 k)), k0_pay173] (k0_pay38 (loadIdx Pc ![(k0_pay1 k0_pay169 w), k0_pay34 o (k0_pay33 (k0_pay2 iotaV 0#32 1#32 k))] (chkP3_trip k o w hw ho)) (loadIdx Gc ![k0_pay173, (k0_pay33 (k0_pay2 iotaV 0#32 1#32 k))] (chkG3_trip k).2.2.2.1))
    (chkG3_trip k).2.2.2.2.2.2.2.2.2.2.2.1
    (val_d3_j3 k Gc Pc o w hw ho (chkP3_trip k o w hw ho) (chkG3_trip k).2.2.2.1 (chkG3_trip k).2.2.2.2.2.2.2.2.2.2.2.1)
    (hit_d3_j3 k (chkG3_trip k).2.2.2.2.2.2.2.2.2.2.2.1) g2
  have g4 := goodV_step M ![(k0_pay33 (k0_pay2 iotaV 0#32 1#32 k)), k0_pay174] (k0_pay39 (loadIdx Pc ![(k0_pay1 k0_pay169 w), k0_pay34 o (k0_pay33 (k0_pay2 iotaV 0#32 1#32 k))] (chkP3_trip k o w hw ho)) (loadIdx Gc ![k0_pay174, (k0_pay33 (k0_pay2 iotaV 0#32 1#32 k))] (chkG3_trip k).2.2.2.2.1))
    (chkG3_trip k).2.2.2.2.2.2.2.2.2.2.2.2.1
    (val_d3_j4 k Gc Pc o w hw ho (chkP3_trip k o w hw ho) (chkG3_trip k).2.2.2.2.1 (chkG3_trip k).2.2.2.2.2.2.2.2.2.2.2.2.1)
    (hit_d3_j4 k (chkG3_trip k).2.2.2.2.2.2.2.2.2.2.2.2.1) g3
  have g5 := goodV_step M ![(k0_pay33 (k0_pay2 iotaV 0#32 1#32 k)), k0_pay175] (k0_pay40 (loadIdx Pc ![(k0_pay1 k0_pay169 w), k0_pay34 o (k0_pay33 (k0_pay2 iotaV 0#32 1#32 k))] (chkP3_trip k o w hw ho)) (loadIdx Gc ![k0_pay175, (k0_pay33 (k0_pay2 iotaV 0#32 1#32 k))] (chkG3_trip k).2.2.2.2.2.1))
    (chkG3_trip k).2.2.2.2.2.2.2.2.2.2.2.2.2.1
    (val_d3_j5 k Gc Pc o w hw ho (chkP3_trip k o w hw ho) (chkG3_trip k).2.2.2.2.2.1 (chkG3_trip k).2.2.2.2.2.2.2.2.2.2.2.2.2.1)
    (hit_d3_j5 k (chkG3_trip k).2.2.2.2.2.2.2.2.2.2.2.2.2.1) g4
  have g6 := goodV_step M ![(k0_pay33 (k0_pay2 iotaV 0#32 1#32 k)), k0_pay176] (k0_pay41 (loadIdx Pc ![(k0_pay1 k0_pay169 w), k0_pay34 o (k0_pay33 (k0_pay2 iotaV 0#32 1#32 k))] (chkP3_trip k o w hw ho)) (loadIdx Gc ![k0_pay176, (k0_pay33 (k0_pay2 iotaV 0#32 1#32 k))] (chkG3_trip k).2.2.2.2.2.2.1))
    (chkG3_trip k).2.2.2.2.2.2.2.2.2.2.2.2.2.2.1
    (val_d3_j6 k Gc Pc o w hw ho (chkP3_trip k o w hw ho) (chkG3_trip k).2.2.2.2.2.2.1 (chkG3_trip k).2.2.2.2.2.2.2.2.2.2.2.2.2.2.1)
    (hit_d3_j6 k (chkG3_trip k).2.2.2.2.2.2.2.2.2.2.2.2.2.2.1) g5
  have g7 := goodV_step M ![(k0_pay33 (k0_pay2 iotaV 0#32 1#32 k)), k0_pay177] (k0_pay42 (loadIdx Pc ![(k0_pay1 k0_pay169 w), k0_pay34 o (k0_pay33 (k0_pay2 iotaV 0#32 1#32 k))] (chkP3_trip k o w hw ho)) (loadIdx Gc ![k0_pay177, (k0_pay33 (k0_pay2 iotaV 0#32 1#32 k))] (chkG3_trip k).2.2.2.2.2.2.2.1))
    (chkG3_trip k).2.2.2.2.2.2.2.2.2.2.2.2.2.2.2
    (val_d3_j7 k Gc Pc o w hw ho (chkP3_trip k o w hw ho) (chkG3_trip k).2.2.2.2.2.2.2.1 (chkG3_trip k).2.2.2.2.2.2.2.2.2.2.2.2.2.2.2)
    (hit_d3_j7 k (chkG3_trip k).2.2.2.2.2.2.2.2.2.2.2.2.2.2.2) g6
  exact g7

/-- The vector the trip's 32 scatters leave, from the contents `R` before the trip. -/
def chainX (M : Memref sg κ sp S64x128 .f32) (Gc : Vec F S128x128 .f32) (Pc : Vec F S100x128 .f32)
    (o w : BitVec 32) (hw : w.toNat < 100) (ho : o.toNat ≤ 64) (k : Fin k0_t2_loop.trips)
    (R : (M.access (Rect.whole S64x128)).ty.Contents (Elt F)) : Vec F S64x128 .f32 :=
  grpX3 M Gc Pc o w hw ho k (grpX2 M Gc Pc o w hw ho k (grpX1 M Gc Pc o w hw ho k (grpX0 M Gc Pc o w hw ho k
    (View.readAt (Elt F) M.view (LoadRect.whole S64x128) R))))

/-- Everything written before trip `k + 1` is among what was written before trip `k` and the trip's 32 scatters. -/
theorem accTo_succ_sub (k : ℕ) :
    AccTo (k + 1) ⊆ AccTo k ∪ Hit 0 0 k ∪ Hit 0 1 k ∪ Hit 0 2 k ∪ Hit 0 3 k ∪ Hit 0 4 k ∪ Hit 0 5 k ∪ Hit 0 6 k ∪ Hit 0 7 k ∪ Hit 1 0 k ∪ Hit 1 1 k ∪ Hit 1 2 k ∪ Hit 1 3 k ∪ Hit 1 4 k ∪ Hit 1 5 k ∪ Hit 1 6 k ∪ Hit 1 7 k ∪ Hit 2 0 k ∪ Hit 2 1 k ∪ Hit 2 2 k ∪ Hit 2 3 k ∪ Hit 2 4 k ∪ Hit 2 5 k ∪ Hit 2 6 k ∪ Hit 2 7 k ∪ Hit 3 0 k ∪ Hit 3 1 k ∪ Hit 3 2 k ∪ Hit 3 3 k ∪ Hit 3 4 k ∪ Hit 3 5 k ∪ Hit 3 6 k ∪ Hit 3 7 k := by
  refine acc_succ_le ?_ ?_
  · exact fun p hp => (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl hp))))))))))))))))))))))))))))))))
  · intro dc j' p hp
    match dc, j', hp with
    | ⟨0, _⟩, ⟨0, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))))))))
    | ⟨0, _⟩, ⟨1, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))))))))
    | ⟨0, _⟩, ⟨2, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))))))
    | ⟨0, _⟩, ⟨3, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))))))
    | ⟨0, _⟩, ⟨4, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))))
    | ⟨0, _⟩, ⟨5, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))))
    | ⟨0, _⟩, ⟨6, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))))
    | ⟨0, _⟩, ⟨7, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))))
    | ⟨1, _⟩, ⟨0, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))))
    | ⟨1, _⟩, ⟨1, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))))
    | ⟨1, _⟩, ⟨2, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))))
    | ⟨1, _⟩, ⟨3, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))))
    | ⟨1, _⟩, ⟨4, _⟩, hp => exact (Or.inl (Or.inl (Or.inl (Or.inl (Or.inl (Or.inl (Or.inl (Or.inl (Or.inl (Or.inl (Or.inl (Or.inl (Or.inl (Or.inl (Or.inl (Or.inl (Or.inl (Or.inl (Or.inl (Or.inr hp))))))))))))))))))))
    | ⟨1, _⟩, ⟨5, _⟩, hp => exact (Or.inl (Or.inl (Or.inl (Or.inl (Or.inl (Or.inl (Or.inl (Or.inl (Or.inl (Or.inl (Or.inl (Or.inl (Or.inl (Or.inl (Or.inl (Or.inl (Or.inl (Or.inl (Or.inr hp)))))))))))))))))))
    | ⟨1, _⟩, ⟨6, _⟩, hp => exact (Or.inl (Or.inl (Or.inl (Or.inl (Or.inl (Or.inl (Or.inl (Or.inl (Or.inl (Or.inl (Or.inl (Or.inl (Or.inl (Or.inl (Or.inl (Or.inl (Or.inl (Or.inr hp))))))))))))))))))
    | ⟨1, _⟩, ⟨7, _⟩, hp => exact (Or.inl (Or.inl (Or.inl (Or.inl (Or.inl (Or.inl (Or.inl (Or.inl (Or.inl (Or.inl (Or.inl (Or.inl (Or.inl (Or.inl (Or.inl (Or.inl (Or.inr hp)))))))))))))))))
    | ⟨2, _⟩, ⟨0, _⟩, hp => exact (Or.inl (Or.inl (Or.inl (Or.inl (Or.inl (Or.inl (Or.inl (Or.inl (Or.inl (Or.inl (Or.inl (Or.inl (Or.inl (Or.inl (Or.inl (Or.inr hp))))))))))))))))
    | ⟨2, _⟩, ⟨1, _⟩, hp => exact (Or.inl (Or.inl (Or.inl (Or.inl (Or.inl (Or.inl (Or.inl (Or.inl (Or.inl (Or.inl (Or.inl (Or.inl (Or.inl (Or.inl (Or.inr hp)))))))))))))))
    | ⟨2, _⟩, ⟨2, _⟩, hp => exact (Or.inl (Or.inl (Or.inl (Or.inl (Or.inl (Or.inl (Or.inl (Or.inl (Or.inl (Or.inl (Or.inl (Or.inl (Or.inl (Or.inr hp))))))))))))))
    | ⟨2, _⟩, ⟨3, _⟩, hp => exact (Or.inl (Or.inl (Or.inl (Or.inl (Or.inl (Or.inl (Or.inl (Or.inl (Or.inl (Or.inl (Or.inl (Or.inl (Or.inr hp)))))))))))))
    | ⟨2, _⟩, ⟨4, _⟩, hp => exact (Or.inl (Or.inl (Or.inl (Or.inl (Or.inl (Or.inl (Or.inl (Or.inl (Or.inl (Or.inl (Or.inl (Or.inr hp))))))))))))
    | ⟨2, _⟩, ⟨5, _⟩, hp => exact (Or.inl (Or.inl (Or.inl (Or.inl (Or.inl (Or.inl (Or.inl (Or.inl (Or.inl (Or.inl (Or.inr hp)))))))))))
    | ⟨2, _⟩, ⟨6, _⟩, hp => exact (Or.inl (Or.inl (Or.inl (Or.inl (Or.inl (Or.inl (Or.inl (Or.inl (Or.inl (Or.inr hp))))))))))
    | ⟨2, _⟩, ⟨7, _⟩, hp => exact (Or.inl (Or.inl (Or.inl (Or.inl (Or.inl (Or.inl (Or.inl (Or.inl (Or.inr hp)))))))))
    | ⟨3, _⟩, ⟨0, _⟩, hp => exact (Or.inl (Or.inl (Or.inl (Or.inl (Or.inl (Or.inl (Or.inl (Or.inr hp))))))))
    | ⟨3, _⟩, ⟨1, _⟩, hp => exact (Or.inl (Or.inl (Or.inl (Or.inl (Or.inl (Or.inl (Or.inr hp)))))))
    | ⟨3, _⟩, ⟨2, _⟩, hp => exact (Or.inl (Or.inl (Or.inl (Or.inl (Or.inl (Or.inr hp))))))
    | ⟨3, _⟩, ⟨3, _⟩, hp => exact (Or.inl (Or.inl (Or.inl (Or.inl (Or.inr hp)))))
    | ⟨3, _⟩, ⟨4, _⟩, hp => exact (Or.inl (Or.inl (Or.inl (Or.inr hp))))
    | ⟨3, _⟩, ⟨5, _⟩, hp => exact (Or.inl (Or.inl (Or.inr hp)))
    | ⟨3, _⟩, ⟨6, _⟩, hp => exact (Or.inl (Or.inr hp))
    | ⟨3, _⟩, ⟨7, _⟩, hp => exact (Or.inr hp)

/-- If everything written before trip `k` holds the target's value in `R`, the vector the trip leaves holds it on
    everything written before trip `k + 1`, -/
theorem chainX_good (M : Memref sg κ sp S64x128 .f32) (Gc : Vec F S128x128 .f32) (Pc : Vec F S100x128 .f32)
    (o w : BitVec 32) (hw : w.toNat < 100) (ho : o.toNat ≤ 64) (k : Fin k0_t2_loop.trips)
    (R : (M.access (Rect.whole S64x128)).ty.Contents (Elt F))
    (hR : GoodOnM M (Tslot Gc Pc o w hw ho) (AccTo k.val) R) :
    GoodV (Tslot Gc Pc o w hw ho) (AccTo (k.val + 1)) (chainX M Gc Pc o w hw ho k R) :=
  goodV_mono (accTo_succ_sub k.val)
    (grp3X_good M Gc Pc o w hw ho k (grp2X_good M Gc Pc o w hw ho k (grp1X_good M Gc Pc o w hw ho k (grp0X_good M Gc Pc o w hw ho k (goodV_of_goodM hR)))))

/-- and so does the block left as the one piece of that vector over `R`. -/
theorem trip_goodL (M : Memref sg κ sp S64x128 .f32) (Gc : Vec F S128x128 .f32) (Pc : Vec F S100x128 .f32)
    (o w : BitVec 32) (hw : w.toNat < 100) (ho : o.toNat ≤ 64) (k : Fin k0_t2_loop.trips)
    (R : (M.access (Rect.whole S64x128)).ty.Contents (Elt F))
    (hR : GoodOnM M (Tslot Gc Pc o w hw ho) (AccTo k.val) R) :
    GoodOnM M (Tslot Gc Pc o w hw ho) (AccTo (k.val + 1))
      (M.view.writes (Elt F) R [⟨Rect.whole S64x128, chainX M Gc Pc o w hw ho k R⟩]) :=
  goodM_of_goodV M R (chainX_good M Gc Pc o w hw ho k R hR)

end Cert.LanesK.C1

end
-- ==== Proof.LaneConsK.lean ====
/-
  A whole-rectangle piece consed onto any list of earlier pieces: read through the whole rectangle, the contents are
  the new piece's vector, whatever the earlier pieces were.  So they are good where that vector is.
-/
import proofs.«206908_g46772193853751_cont_8to1c4_160_30_alg».proof.Proof.LaneListK

namespace Cert.LanesK

open Idealize.ShloMosaic Idealize.ShloMosaic.ValueIdx Cert.Kernel Cert.Kernel.Gen

variable {F : FTy → Type} [FloatOps F]
variable {sg : RefSig} {κ : Kind} {sp : Space}

/-- The contents after a whole-rectangle piece written over any earlier pieces are good where the piece's vector is. -/
theorem goodM_of_goodV_cons (M : Memref sg κ sp S64x128 .f32) {T : S64x128.Idx → F .f32} {A : Set S64x128.Idx}
    (R : (M.access (Rect.whole S64x128)).ty.Contents (Elt F)) (L : List (View.Piece (Elt F) S64x128 .f32))
    {X : Vec F S64x128 .f32} (h : GoodV T A X) :
    GoodOnM M T A (M.view.writes (Elt F) R ((⟨Rect.whole S64x128, X⟩ : View.Piece (Elt F) S64x128 .f32) :: L)) := by
  intro p hp
  have e : View.readAt (Elt F) M.view (LoadRect.whole S64x128)
      (M.view.writes (Elt F) R ((⟨Rect.whole S64x128, X⟩ : View.Piece (Elt F) S64x128 .f32) :: L)) = X :=
    View.read_write_univ (v := M.access (Rect.whole S64x128)) (M.view.writes (Elt F) R L) X
  rw [e]; exact h p hp

end Cert.LanesK
-- ==== Proof.Lane2K.lean ====
/-
  The index arithmetic of one copy of the inner loop (k0_t3_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVecK

namespace Cert.LanesK.C2

open Idealize.ShloMosaic Cert.Kernel Cert.Kernel.Gen Cert.LanesK

/-- The loop runs at most 16 trips. -/
theorem trip_lt (k : Fin k0_t3_loop.trips) : k.val < 16 := Nat.lt_of_lt_of_le k.isLt k0_t3_abs.2.1

/-- The rotation vector of trip `k`: `(lane + k) mod 16`. -/
theorem rot_toNat (k : Fin k0_t3_loop.trips) (x : S16.Idx) :
    (k0_pay44 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t3_loop.trips) (x : S16.Idx) :
    (k0_pay45 iotaV 0#32 1#32 k x).toNat = (ln x + k.val) % 16 :=
  addi_lit (k0_pay44 iotaV 0#32 1#32 k) 0#32 ((ln x + k.val) % 16) 0 x (rot_toNat k x) rfl (by omega)

/-- The column vector of feature group 1 in trip `k`. -/
theorem gcol1_toNat (k : Fin k0_t3_loop.trips) (x : S16.Idx) :
    (k0_pay55 (k0_pay44 iotaV 0#32 1#32 k) x).toNat = (ln x + k.val) % 16 + 16 :=
  addi_lit (k0_pay44 iotaV 0#32 1#32 k) 16#32 ((ln x + k.val) % 16) 16 x (rot_toNat k x) rfl (by omega)

/-- The column vector of feature group 2 in trip `k`. -/
theorem gcol2_toNat (k : Fin k0_t3_loop.trips) (x : S16.Idx) :
    (k0_pay65 (k0_pay44 iotaV 0#32 1#32 k) x).toNat = (ln x + k.val) % 16 + 32 :=
  addi_lit (k0_pay44 iotaV 0#32 1#32 k) 32#32 ((ln x + k.val) % 16) 32 x (rot_toNat k x) rfl (by omega)

/-- The column vector of feature group 3 in trip `k`. -/
theorem gcol3_toNat (k : Fin k0_t3_loop.trips) (x : S16.Idx) :
    (k0_pay75 (k0_pay44 iotaV 0#32 1#32 k) x).toNat = (ln x + k.val) % 16 + 48 :=
  addi_lit (k0_pay44 iotaV 0#32 1#32 k) 48#32 ((ln x + k.val) % 16) 48 x (rot_toNat k x) rfl (by omega)

theorem gcol0_lt (k : Fin k0_t3_loop.trips) (x : S16.Idx) : (k0_pay45 iotaV 0#32 1#32 k x).toNat < 64 := by
  rw [gcol0_toNat]; omega
theorem gcol1_lt (k : Fin k0_t3_loop.trips) (x : S16.Idx) : (k0_pay55 (k0_pay44 iotaV 0#32 1#32 k) x).toNat < 64 := by
  rw [gcol1_toNat]; omega
theorem gcol2_lt (k : Fin k0_t3_loop.trips) (x : S16.Idx) : (k0_pay65 (k0_pay44 iotaV 0#32 1#32 k) x).toNat < 64 := by
  rw [gcol2_toNat]; omega
theorem gcol3_lt (k : Fin k0_t3_loop.trips) (x : S16.Idx) : (k0_pay75 (k0_pay44 iotaV 0#32 1#32 k) x).toNat < 64 := by
  rw [gcol3_toNat]; omega

/-- The positional row vector: the word `w` in every lane. -/
theorem prow_toNat (w : BitVec 32) (x : S16.Idx) : (k0_pay43 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay46 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay56 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay66 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay76 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk9 (k0_pay43 k0_pay169 w) (k0_pay46 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk11 (k0_pay43 k0_pay169 w) (k0_pay56 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk13 (k0_pay43 k0_pay169 w) (k0_pay66 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk15 (k0_pay43 k0_pay169 w) (k0_pay76 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk10 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk12 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk14 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk16 k0_pay170 k0_pay171 k0_pay172 k0_pay173 k0_pay174 k0_pay175 k0_pay176 k0_pay177 gc := chkG0 gc hgc

/-! ### The side conditions at the column vectors of trip `k` -/

theorem chkP0_trip (k : Fin k0_t3_loop.trips) (o w : BitVec 32) (hw : w.toNat < 100) (ho : o.toNat ≤ 64) :
    k0_chk9 (k0_pay43 k0_pay169 w) (k0_pay46 o (k0_pay45 iotaV 0#32 1#32 k)) := chkP0 o w _ hw ho (gcol0_lt k)
theorem chkP1_trip (k : Fin k0_t3_loop.trips) (o w : BitVec 32) (hw : w.toNat < 100) (ho : o.toNat ≤ 64) :
    k0_chk11 (k0_pay43 k0_pay169 w) (k0_pay56 o (k0_pay55 (k0_pay44 iotaV 0#32 1#32 k))) := chkP1 o w _ hw ho (gcol1_lt k)
theorem chkP2_trip (k : Fin k0_t3_loop.trips) (o w : BitVec 32) (hw : w.toNat < 100) (ho : o.toNat ≤ 64) :
    k0_chk13 (k0_pay43 k0_pay169 w) (k0_pay66 o (k0_pay65 (k0_pay44 iotaV 0#32 1#32 k))) := chkP2 o w _ hw ho (gcol2_lt k)
theorem chkP3_trip (k : Fin k0_t3_loop.trips) (o w : BitVec 32) (hw : w.toNat < 100) (ho : o.toNat ≤ 64) :
    k0_chk15 (k0_pay43 k0_pay169 w) (k0_pay76 o (k0_pay75 (k0_pay44 iotaV 0#32 1#32 k))) := chkP3 o w _ hw ho (gcol3_lt k)

theorem chkG0_trip (k : Fin k0_t3_loop.trips) :
    k0_chk10 k0_pay170 k0_pay171 k0_pay172 k0_pay173 k0_pay174 k0_pay175 k0_pay176 k0_pay177 (k0_pay45 iotaV 0#32 1#32 k) :=
  chkG0 _ (gcol0_lt k)
theorem chkG1_trip (k : Fin k0_t3_loop.trips) :
    k0_chk12 k0_pay170 k0_pay171 k0_pay172 k0_pay173 k0_pay174 k0_pay175 k0_pay176 k0_pay177 (k0_pay55 (k0_pay44 iotaV 0#32 1#32 k)) :=
  chkG1 _ (gcol1_lt k)
theorem chkG2_trip (k : Fin k0_t3_loop.trips) :
    k0_chk14 k0_pay170 k0_pay171 k0_pay172 k0_pay173 k0_pay174 k0_pay175 k0_pay176 k0_pay177 (k0_pay65 (k0_pay44 iotaV 0#32 1#32 k)) :=
  chkG2 _ (gcol2_lt k)
theorem chkG3_trip (k : Fin k0_t3_loop.trips) :
    k0_chk16 k0_pay170 k0_pay171 k0_pay172 k0_pay173 k0_pay174 k0_pay175 k0_pay176 k0_pay177 (k0_pay75 (k0_pay44 iotaV 0#32 1#32 k)) :=
  chkG3 _ (gcol3_lt k)

end Cert.LanesK.C2
-- ==== Proof.LaneTrip2K.lean ====
/-
  The values and the elements of the 32 stores of one trip of the inner loop k0_t3_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTripK
import proofs.«206908_g46772193853751_cont_8to1c4_160_30_alg».proof.Proof.Lane2K

namespace Cert.LanesK.C2

open Idealize.ShloMosaic Idealize.ShloMosaic.ValueIdx Cert.Kernel Cert.Kernel.Gen Cert.LanesK

variable {F : FTy → Type} [FloatOps F]

theorem val_d0_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay170, (k0_pay45 iotaV 0#32 1#32 k)] : Fin 2 → IVec S16 32) a x).toNat < S128x128.size a)
    (hS : ∀ a x, ((![(k0_pay45 iotaV 0#32 1#32 k), k0_pay170] : Fin 2 → IVec S16 32) a x).toNat < S64x128.size a) (x : S16.Idx) :
    k0_pay47 (loadIdx Pc ![(k0_pay43 k0_pay169 w), k0_pay46 o (k0_pay45 iotaV 0#32 1#32 k)] hP) (loadIdx Gc ![k0_pay170, (k0_pay45 iotaV 0#32 1#32 k)] hG) x
      = Tslot Gc Pc o w hw ho (idxAt ![(k0_pay45 iotaV 0#32 1#32 k), k0_pay170] hS x) :=
  store_value Gc Pc o w hw ho (k0_pay45 iotaV 0#32 1#32 k) k0_pay170 (k0_pay43 k0_pay169 w) (k0_pay46 o (k0_pay45 iotaV 0#32 1#32 k)) (prow_toNat w)
    (fun x => pcol0_toNat o _ x (gcol0_lt k x) ho) hP hG hS x

theorem hit_d0_j0 (k : Fin k0_t3_loop.trips)
    (hS : ∀ a x, ((![(k0_pay45 iotaV 0#32 1#32 k), k0_pay170] : Fin 2 → IVec S16 32) a x).toNat < S64x128.size a) :
    {p | ∃ x, idxAt ![(k0_pay45 iotaV 0#32 1#32 k), k0_pay170] hS x = p} = Hit 0 0 k.val :=
  hit_eq 0 0 k.val (k0_pay45 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay171, (k0_pay45 iotaV 0#32 1#32 k)] : Fin 2 → IVec S16 32) a x).toNat < S128x128.size a)
    (hS : ∀ a x, ((![(k0_pay45 iotaV 0#32 1#32 k), k0_pay171] : Fin 2 → IVec S16 32) a x).toNat < S64x128.size a) (x : S16.Idx) :
    k0_pay48 (loadIdx Pc ![(k0_pay43 k0_pay169 w), k0_pay46 o (k0_pay45 iotaV 0#32 1#32 k)] hP) (loadIdx Gc ![k0_pay171, (k0_pay45 iotaV 0#32 1#32 k)] hG) x
      = Tslot Gc Pc o w hw ho (idxAt ![(k0_pay45 iotaV 0#32 1#32 k), k0_pay171] hS x) :=
  store_value Gc Pc o w hw ho (k0_pay45 iotaV 0#32 1#32 k) k0_pay171 (k0_pay43 k0_pay169 w) (k0_pay46 o (k0_pay45 iotaV 0#32 1#32 k)) (prow_toNat w)
    (fun x => pcol0_toNat o _ x (gcol0_lt k x) ho) hP hG hS x

theorem hit_d0_j1 (k : Fin k0_t3_loop.trips)
    (hS : ∀ a x, ((![(k0_pay45 iotaV 0#32 1#32 k), k0_pay171] : Fin 2 → IVec S16 32) a x).toNat < S64x128.size a) :
    {p | ∃ x, idxAt ![(k0_pay45 iotaV 0#32 1#32 k), k0_pay171] hS x = p} = Hit 0 1 k.val :=
  hit_eq 0 1 k.val (k0_pay45 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay172, (k0_pay45 iotaV 0#32 1#32 k)] : Fin 2 → IVec S16 32) a x).toNat < S128x128.size a)
    (hS : ∀ a x, ((![(k0_pay45 iotaV 0#32 1#32 k), k0_pay172] : Fin 2 → IVec S16 32) a x).toNat < S64x128.size a) (x : S16.Idx) :
    k0_pay49 (loadIdx Pc ![(k0_pay43 k0_pay169 w), k0_pay46 o (k0_pay45 iotaV 0#32 1#32 k)] hP) (loadIdx Gc ![k0_pay172, (k0_pay45 iotaV 0#32 1#32 k)] hG) x
      = Tslot Gc Pc o w hw ho (idxAt ![(k0_pay45 iotaV 0#32 1#32 k), k0_pay172] hS x) :=
  store_value Gc Pc o w hw ho (k0_pay45 iotaV 0#32 1#32 k) k0_pay172 (k0_pay43 k0_pay169 w) (k0_pay46 o (k0_pay45 iotaV 0#32 1#32 k)) (prow_toNat w)
    (fun x => pcol0_toNat o _ x (gcol0_lt k x) ho) hP hG hS x

theorem hit_d0_j2 (k : Fin k0_t3_loop.trips)
    (hS : ∀ a x, ((![(k0_pay45 iotaV 0#32 1#32 k), k0_pay172] : Fin 2 → IVec S16 32) a x).toNat < S64x128.size a) :
    {p | ∃ x, idxAt ![(k0_pay45 iotaV 0#32 1#32 k), k0_pay172] hS x = p} = Hit 0 2 k.val :=
  hit_eq 0 2 k.val (k0_pay45 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay173, (k0_pay45 iotaV 0#32 1#32 k)] : Fin 2 → IVec S16 32) a x).toNat < S128x128.size a)
    (hS : ∀ a x, ((![(k0_pay45 iotaV 0#32 1#32 k), k0_pay173] : Fin 2 → IVec S16 32) a x).toNat < S64x128.size a) (x : S16.Idx) :
    k0_pay50 (loadIdx Pc ![(k0_pay43 k0_pay169 w), k0_pay46 o (k0_pay45 iotaV 0#32 1#32 k)] hP) (loadIdx Gc ![k0_pay173, (k0_pay45 iotaV 0#32 1#32 k)] hG) x
      = Tslot Gc Pc o w hw ho (idxAt ![(k0_pay45 iotaV 0#32 1#32 k), k0_pay173] hS x) :=
  store_value Gc Pc o w hw ho (k0_pay45 iotaV 0#32 1#32 k) k0_pay173 (k0_pay43 k0_pay169 w) (k0_pay46 o (k0_pay45 iotaV 0#32 1#32 k)) (prow_toNat w)
    (fun x => pcol0_toNat o _ x (gcol0_lt k x) ho) hP hG hS x

theorem hit_d0_j3 (k : Fin k0_t3_loop.trips)
    (hS : ∀ a x, ((![(k0_pay45 iotaV 0#32 1#32 k), k0_pay173] : Fin 2 → IVec S16 32) a x).toNat < S64x128.size a) :
    {p | ∃ x, idxAt ![(k0_pay45 iotaV 0#32 1#32 k), k0_pay173] hS x = p} = Hit 0 3 k.val :=
  hit_eq 0 3 k.val (k0_pay45 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay174, (k0_pay45 iotaV 0#32 1#32 k)] : Fin 2 → IVec S16 32) a x).toNat < S128x128.size a)
    (hS : ∀ a x, ((![(k0_pay45 iotaV 0#32 1#32 k), k0_pay174] : Fin 2 → IVec S16 32) a x).toNat < S64x128.size a) (x : S16.Idx) :
    k0_pay51 (loadIdx Pc ![(k0_pay43 k0_pay169 w), k0_pay46 o (k0_pay45 iotaV 0#32 1#32 k)] hP) (loadIdx Gc ![k0_pay174, (k0_pay45 iotaV 0#32 1#32 k)] hG) x
      = Tslot Gc Pc o w hw ho (idxAt ![(k0_pay45 iotaV 0#32 1#32 k), k0_pay174] hS x) :=
  store_value Gc Pc o w hw ho (k0_pay45 iotaV 0#32 1#32 k) k0_pay174 (k0_pay43 k0_pay169 w) (k0_pay46 o (k0_pay45 iotaV 0#32 1#32 k)) (prow_toNat w)
    (fun x => pcol0_toNat o _ x (gcol0_lt k x) ho) hP hG hS x

theorem hit_d0_j4 (k : Fin k0_t3_loop.trips)
    (hS : ∀ a x, ((![(k0_pay45 iotaV 0#32 1#32 k), k0_pay174] : Fin 2 → IVec S16 32) a x).toNat < S64x128.size a) :
    {p | ∃ x, idxAt ![(k0_pay45 iotaV 0#32 1#32 k), k0_pay174] hS x = p} = Hit 0 4 k.val :=
  hit_eq 0 4 k.val (k0_pay45 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay175, (k0_pay45 iotaV 0#32 1#32 k)] : Fin 2 → IVec S16 32) a x).toNat < S128x128.size a)
    (hS : ∀ a x, ((![(k0_pay45 iotaV 0#32 1#32 k), k0_pay175] : Fin 2 → IVec S16 32) a x).toNat < S64x128.size a) (x : S16.Idx) :
    k0_pay52 (loadIdx Pc ![(k0_pay43 k0_pay169 w), k0_pay46 o (k0_pay45 iotaV 0#32 1#32 k)] hP) (loadIdx Gc ![k0_pay175, (k0_pay45 iotaV 0#32 1#32 k)] hG) x
      = Tslot Gc Pc o w hw ho (idxAt ![(k0_pay45 iotaV 0#32 1#32 k), k0_pay175] hS x) :=
  store_value Gc Pc o w hw ho (k0_pay45 iotaV 0#32 1#32 k) k0_pay175 (k0_pay43 k0_pay169 w) (k0_pay46 o (k0_pay45 iotaV 0#32 1#32 k)) (prow_toNat w)
    (fun x => pcol0_toNat o _ x (gcol0_lt k x) ho) hP hG hS x

theorem hit_d0_j5 (k : Fin k0_t3_loop.trips)
    (hS : ∀ a x, ((![(k0_pay45 iotaV 0#32 1#32 k), k0_pay175] : Fin 2 → IVec S16 32) a x).toNat < S64x128.size a) :
    {p | ∃ x, idxAt ![(k0_pay45 iotaV 0#32 1#32 k), k0_pay175] hS x = p} = Hit 0 5 k.val :=
  hit_eq 0 5 k.val (k0_pay45 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay176, (k0_pay45 iotaV 0#32 1#32 k)] : Fin 2 → IVec S16 32) a x).toNat < S128x128.size a)
    (hS : ∀ a x, ((![(k0_pay45 iotaV 0#32 1#32 k), k0_pay176] : Fin 2 → IVec S16 32) a x).toNat < S64x128.size a) (x : S16.Idx) :
    k0_pay53 (loadIdx Pc ![(k0_pay43 k0_pay169 w), k0_pay46 o (k0_pay45 iotaV 0#32 1#32 k)] hP) (loadIdx Gc ![k0_pay176, (k0_pay45 iotaV 0#32 1#32 k)] hG) x
      = Tslot Gc Pc o w hw ho (idxAt ![(k0_pay45 iotaV 0#32 1#32 k), k0_pay176] hS x) :=
  store_value Gc Pc o w hw ho (k0_pay45 iotaV 0#32 1#32 k) k0_pay176 (k0_pay43 k0_pay169 w) (k0_pay46 o (k0_pay45 iotaV 0#32 1#32 k)) (prow_toNat w)
    (fun x => pcol0_toNat o _ x (gcol0_lt k x) ho) hP hG hS x

theorem hit_d0_j6 (k : Fin k0_t3_loop.trips)
    (hS : ∀ a x, ((![(k0_pay45 iotaV 0#32 1#32 k), k0_pay176] : Fin 2 → IVec S16 32) a x).toNat < S64x128.size a) :
    {p | ∃ x, idxAt ![(k0_pay45 iotaV 0#32 1#32 k), k0_pay176] hS x = p} = Hit 0 6 k.val :=
  hit_eq 0 6 k.val (k0_pay45 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay46 o (k0_pay45 iotaV 0#32 1#32 k)] : Fin 2 → IVec S16 32) a x).toNat < S100x128.size a)
    (hG : ∀ a x, ((![k0_pay177, (k0_pay45 iotaV 0#32 1#32 k)] : Fin 2 → IVec S16 32) a x).toNat < S128x128.size a)
    (hS : ∀ a x, ((![(k0_pay45 iotaV 0#32 1#32 k), k0_pay177] : Fin 2 → IVec S16 32) a x).toNat < S64x128.size a) (x : S16.Idx) :
    k0_pay54 (loadIdx Pc ![(k0_pay43 k0_pay169 w), k0_pay46 o (k0_pay45 iotaV 0#32 1#32 k)] hP) (loadIdx Gc ![k0_pay177, (k0_pay45 iotaV 0#32 1#32 k)] hG) x
      = Tslot Gc Pc o w hw ho (idxAt ![(k0_pay45 iotaV 0#32 1#32 k), k0_pay177] hS x) :=
  store_value Gc Pc o w hw ho (k0_pay45 iotaV 0#32 1#32 k) k0_pay177 (k0_pay43 k0_pay169 w) (k0_pay46 o (k0_pay45 iotaV 0#32 1#32 k)) (prow_toNat w)
    (fun x => pcol0_toNat o _ x (gcol0_lt k x) ho) hP hG hS x

theorem hit_d0_j7 (k : Fin k0_t3_loop.trips)
    (hS : ∀ a x, ((![(k0_pay45 iotaV 0#32 1#32 k), k0_pay177] : Fin 2 → IVec S16 32) a x).toNat < S64x128.size a) :
    {p | ∃ x, idxAt ![(k0_pay45 iotaV 0#32 1#32 k), k0_pay177] hS x = p} = Hit 0 7 k.val :=
  hit_eq 0 7 k.val (k0_pay45 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay170, (k0_pay55 (k0_pay44 iotaV 0#32 1#32 k))] : Fin 2 → IVec S16 32) a x).toNat < S128x128.size a)
    (hS : ∀ a x, ((![(k0_pay55 (k0_pay44 iotaV 0#32 1#32 k)), k0_pay170] : Fin 2 → IVec S16 32) a x).toNat < S64x128.size a) (x : S16.Idx) :
    k0_pay57 (loadIdx Pc ![(k0_pay43 k0_pay169 w), k0_pay56 o (k0_pay55 (k0_pay44 iotaV 0#32 1#32 k))] hP) (loadIdx Gc ![k0_pay170, (k0_pay55 (k0_pay44 iotaV 0#32 1#32 k))] hG) x
      = Tslot Gc Pc o w hw ho (idxAt ![(k0_pay55 (k0_pay44 iotaV 0#32 1#32 k)), k0_pay170] hS x) :=
  store_value Gc Pc o w hw ho (k0_pay55 (k0_pay44 iotaV 0#32 1#32 k)) k0_pay170 (k0_pay43 k0_pay169 w) (k0_pay56 o (k0_pay55 (k0_pay44 iotaV 0#32 1#32 k))) (prow_toNat w)
    (fun x => pcol1_toNat o _ x (gcol1_lt k x) ho) hP hG hS x

theorem hit_d1_j0 (k : Fin k0_t3_loop.trips)
    (hS : ∀ a x, ((![(k0_pay55 (k0_pay44 iotaV 0#32 1#32 k)), k0_pay170] : Fin 2 → IVec S16 32) a x).toNat < S64x128.size a) :
    {p | ∃ x, idxAt ![(k0_pay55 (k0_pay44 iotaV 0#32 1#32 k)), k0_pay170] hS x = p} = Hit 1 0 k.val :=
  hit_eq 1 0 k.val (k0_pay55 (k0_pay44 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay171, (k0_pay55 (k0_pay44 iotaV 0#32 1#32 k))] : Fin 2 → IVec S16 32) a x).toNat < S128x128.size a)
    (hS : ∀ a x, ((![(k0_pay55 (k0_pay44 iotaV 0#32 1#32 k)), k0_pay171] : Fin 2 → IVec S16 32) a x).toNat < S64x128.size a) (x : S16.Idx) :
    k0_pay58 (loadIdx Pc ![(k0_pay43 k0_pay169 w), k0_pay56 o (k0_pay55 (k0_pay44 iotaV 0#32 1#32 k))] hP) (loadIdx Gc ![k0_pay171, (k0_pay55 (k0_pay44 iotaV 0#32 1#32 k))] hG) x
      = Tslot Gc Pc o w hw ho (idxAt ![(k0_pay55 (k0_pay44 iotaV 0#32 1#32 k)), k0_pay171] hS x) :=
  store_value Gc Pc o w hw ho (k0_pay55 (k0_pay44 iotaV 0#32 1#32 k)) k0_pay171 (k0_pay43 k0_pay169 w) (k0_pay56 o (k0_pay55 (k0_pay44 iotaV 0#32 1#32 k))) (prow_toNat w)
    (fun x => pcol1_toNat o _ x (gcol1_lt k x) ho) hP hG hS x

theorem hit_d1_j1 (k : Fin k0_t3_loop.trips)
    (hS : ∀ a x, ((![(k0_pay55 (k0_pay44 iotaV 0#32 1#32 k)), k0_pay171] : Fin 2 → IVec S16 32) a x).toNat < S64x128.size a) :
    {p | ∃ x, idxAt ![(k0_pay55 (k0_pay44 iotaV 0#32 1#32 k)), k0_pay171] hS x = p} = Hit 1 1 k.val :=
  hit_eq 1 1 k.val (k0_pay55 (k0_pay44 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay172, (k0_pay55 (k0_pay44 iotaV 0#32 1#32 k))] : Fin 2 → IVec S16 32) a x).toNat < S128x128.size a)
    (hS : ∀ a x, ((![(k0_pay55 (k0_pay44 iotaV 0#32 1#32 k)), k0_pay172] : Fin 2 → IVec S16 32) a x).toNat < S64x128.size a) (x : S16.Idx) :
    k0_pay59 (loadIdx Pc ![(k0_pay43 k0_pay169 w), k0_pay56 o (k0_pay55 (k0_pay44 iotaV 0#32 1#32 k))] hP) (loadIdx Gc ![k0_pay172, (k0_pay55 (k0_pay44 iotaV 0#32 1#32 k))] hG) x
      = Tslot Gc Pc o w hw ho (idxAt ![(k0_pay55 (k0_pay44 iotaV 0#32 1#32 k)), k0_pay172] hS x) :=
  store_value Gc Pc o w hw ho (k0_pay55 (k0_pay44 iotaV 0#32 1#32 k)) k0_pay172 (k0_pay43 k0_pay169 w) (k0_pay56 o (k0_pay55 (k0_pay44 iotaV 0#32 1#32 k))) (prow_toNat w)
    (fun x => pcol1_toNat o _ x (gcol1_lt k x) ho) hP hG hS x

theorem hit_d1_j2 (k : Fin k0_t3_loop.trips)
    (hS : ∀ a x, ((![(k0_pay55 (k0_pay44 iotaV 0#32 1#32 k)), k0_pay172] : Fin 2 → IVec S16 32) a x).toNat < S64x128.size a) :
    {p | ∃ x, idxAt ![(k0_pay55 (k0_pay44 iotaV 0#32 1#32 k)), k0_pay172] hS x = p} = Hit 1 2 k.val :=
  hit_eq 1 2 k.val (k0_pay55 (k0_pay44 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay173, (k0_pay55 (k0_pay44 iotaV 0#32 1#32 k))] : Fin 2 → IVec S16 32) a x).toNat < S128x128.size a)
    (hS : ∀ a x, ((![(k0_pay55 (k0_pay44 iotaV 0#32 1#32 k)), k0_pay173] : Fin 2 → IVec S16 32) a x).toNat < S64x128.size a) (x : S16.Idx) :
    k0_pay60 (loadIdx Pc ![(k0_pay43 k0_pay169 w), k0_pay56 o (k0_pay55 (k0_pay44 iotaV 0#32 1#32 k))] hP) (loadIdx Gc ![k0_pay173, (k0_pay55 (k0_pay44 iotaV 0#32 1#32 k))] hG) x
      = Tslot Gc Pc o w hw ho (idxAt ![(k0_pay55 (k0_pay44 iotaV 0#32 1#32 k)), k0_pay173] hS x) :=
  store_value Gc Pc o w hw ho (k0_pay55 (k0_pay44 iotaV 0#32 1#32 k)) k0_pay173 (k0_pay43 k0_pay169 w) (k0_pay56 o (k0_pay55 (k0_pay44 iotaV 0#32 1#32 k))) (prow_toNat w)
    (fun x => pcol1_toNat o _ x (gcol1_lt k x) ho) hP hG hS x

theorem hit_d1_j3 (k : Fin k0_t3_loop.trips)
    (hS : ∀ a x, ((![(k0_pay55 (k0_pay44 iotaV 0#32 1#32 k)), k0_pay173] : Fin 2 → IVec S16 32) a x).toNat < S64x128.size a) :
    {p | ∃ x, idxAt ![(k0_pay55 (k0_pay44 iotaV 0#32 1#32 k)), k0_pay173] hS x = p} = Hit 1 3 k.val :=
  hit_eq 1 3 k.val (k0_pay55 (k0_pay44 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay174, (k0_pay55 (k0_pay44 iotaV 0#32 1#32 k))] : Fin 2 → IVec S16 32) a x).toNat < S128x128.size a)
    (hS : ∀ a x, ((![(k0_pay55 (k0_pay44 iotaV 0#32 1#32 k)), k0_pay174] : Fin 2 → IVec S16 32) a x).toNat < S64x128.size a) (x : S16.Idx) :
    k0_pay61 (loadIdx Pc ![(k0_pay43 k0_pay169 w), k0_pay56 o (k0_pay55 (k0_pay44 iotaV 0#32 1#32 k))] hP) (loadIdx Gc ![k0_pay174, (k0_pay55 (k0_pay44 iotaV 0#32 1#32 k))] hG) x
      = Tslot Gc Pc o w hw ho (idxAt ![(k0_pay55 (k0_pay44 iotaV 0#32 1#32 k)), k0_pay174] hS x) :=
  store_value Gc Pc o w hw ho (k0_pay55 (k0_pay44 iotaV 0#32 1#32 k)) k0_pay174 (k0_pay43 k0_pay169 w) (k0_pay56 o (k0_pay55 (k0_pay44 iotaV 0#32 1#32 k))) (prow_toNat w)
    (fun x => pcol1_toNat o _ x (gcol1_lt k x) ho) hP hG hS x

theorem hit_d1_j4 (k : Fin k0_t3_loop.trips)
    (hS : ∀ a x, ((![(k0_pay55 (k0_pay44 iotaV 0#32 1#32 k)), k0_pay174] : Fin 2 → IVec S16 32) a x).toNat < S64x128.size a) :
    {p | ∃ x, idxAt ![(k0_pay55 (k0_pay44 iotaV 0#32 1#32 k)), k0_pay174] hS x = p} = Hit 1 4 k.val :=
  hit_eq 1 4 k.val (k0_pay55 (k0_pay44 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay175, (k0_pay55 (k0_pay44 iotaV 0#32 1#32 k))] : Fin 2 → IVec S16 32) a x).toNat < S128x128.size a)
    (hS : ∀ a x, ((![(k0_pay55 (k0_pay44 iotaV 0#32 1#32 k)), k0_pay175] : Fin 2 → IVec S16 32) a x).toNat < S64x128.size a) (x : S16.Idx) :
    k0_pay62 (loadIdx Pc ![(k0_pay43 k0_pay169 w), k0_pay56 o (k0_pay55 (k0_pay44 iotaV 0#32 1#32 k))] hP) (loadIdx Gc ![k0_pay175, (k0_pay55 (k0_pay44 iotaV 0#32 1#32 k))] hG) x
      = Tslot Gc Pc o w hw ho (idxAt ![(k0_pay55 (k0_pay44 iotaV 0#32 1#32 k)), k0_pay175] hS x) :=
  store_value Gc Pc o w hw ho (k0_pay55 (k0_pay44 iotaV 0#32 1#32 k)) k0_pay175 (k0_pay43 k0_pay169 w) (k0_pay56 o (k0_pay55 (k0_pay44 iotaV 0#32 1#32 k))) (prow_toNat w)
    (fun x => pcol1_toNat o _ x (gcol1_lt k x) ho) hP hG hS x

theorem hit_d1_j5 (k : Fin k0_t3_loop.trips)
    (hS : ∀ a x, ((![(k0_pay55 (k0_pay44 iotaV 0#32 1#32 k)), k0_pay175] : Fin 2 → IVec S16 32) a x).toNat < S64x128.size a) :
    {p | ∃ x, idxAt ![(k0_pay55 (k0_pay44 iotaV 0#32 1#32 k)), k0_pay175] hS x = p} = Hit 1 5 k.val :=
  hit_eq 1 5 k.val (k0_pay55 (k0_pay44 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay176, (k0_pay55 (k0_pay44 iotaV 0#32 1#32 k))] : Fin 2 → IVec S16 32) a x).toNat < S128x128.size a)
    (hS : ∀ a x, ((![(k0_pay55 (k0_pay44 iotaV 0#32 1#32 k)), k0_pay176] : Fin 2 → IVec S16 32) a x).toNat < S64x128.size a) (x : S16.Idx) :
    k0_pay63 (loadIdx Pc ![(k0_pay43 k0_pay169 w), k0_pay56 o (k0_pay55 (k0_pay44 iotaV 0#32 1#32 k))] hP) (loadIdx Gc ![k0_pay176, (k0_pay55 (k0_pay44 iotaV 0#32 1#32 k))] hG) x
      = Tslot Gc Pc o w hw ho (idxAt ![(k0_pay55 (k0_pay44 iotaV 0#32 1#32 k)), k0_pay176] hS x) :=
  store_value Gc Pc o w hw ho (k0_pay55 (k0_pay44 iotaV 0#32 1#32 k)) k0_pay176 (k0_pay43 k0_pay169 w) (k0_pay56 o (k0_pay55 (k0_pay44 iotaV 0#32 1#32 k))) (prow_toNat w)
    (fun x => pcol1_toNat o _ x (gcol1_lt k x) ho) hP hG hS x

theorem hit_d1_j6 (k : Fin k0_t3_loop.trips)
    (hS : ∀ a x, ((![(k0_pay55 (k0_pay44 iotaV 0#32 1#32 k)), k0_pay176] : Fin 2 → IVec S16 32) a x).toNat < S64x128.size a) :
    {p | ∃ x, idxAt ![(k0_pay55 (k0_pay44 iotaV 0#32 1#32 k)), k0_pay176] hS x = p} = Hit 1 6 k.val :=
  hit_eq 1 6 k.val (k0_pay55 (k0_pay44 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay56 o (k0_pay55 (k0_pay44 iotaV 0#32 1#32 k))] : Fin 2 → IVec S16 32) a x).toNat < S100x128.size a)
    (hG : ∀ a x, ((![k0_pay177, (k0_pay55 (k0_pay44 iotaV 0#32 1#32 k))] : Fin 2 → IVec S16 32) a x).toNat < S128x128.size a)
    (hS : ∀ a x, ((![(k0_pay55 (k0_pay44 iotaV 0#32 1#32 k)), k0_pay177] : Fin 2 → IVec S16 32) a x).toNat < S64x128.size a) (x : S16.Idx) :
    k0_pay64 (loadIdx Pc ![(k0_pay43 k0_pay169 w), k0_pay56 o (k0_pay55 (k0_pay44 iotaV 0#32 1#32 k))] hP) (loadIdx Gc ![k0_pay177, (k0_pay55 (k0_pay44 iotaV 0#32 1#32 k))] hG) x
      = Tslot Gc Pc o w hw ho (idxAt ![(k0_pay55 (k0_pay44 iotaV 0#32 1#32 k)), k0_pay177] hS x) :=
  store_value Gc Pc o w hw ho (k0_pay55 (k0_pay44 iotaV 0#32 1#32 k)) k0_pay177 (k0_pay43 k0_pay169 w) (k0_pay56 o (k0_pay55 (k0_pay44 iotaV 0#32 1#32 k))) (prow_toNat w)
    (fun x => pcol1_toNat o _ x (gcol1_lt k x) ho) hP hG hS x

theorem hit_d1_j7 (k : Fin k0_t3_loop.trips)
    (hS : ∀ a x, ((![(k0_pay55 (k0_pay44 iotaV 0#32 1#32 k)), k0_pay177] : Fin 2 → IVec S16 32) a x).toNat < S64x128.size a) :
    {p | ∃ x, idxAt ![(k0_pay55 (k0_pay44 iotaV 0#32 1#32 k)), k0_pay177] hS x = p} = Hit 1 7 k.val :=
  hit_eq 1 7 k.val (k0_pay55 (k0_pay44 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay170, (k0_pay65 (k0_pay44 iotaV 0#32 1#32 k))] : Fin 2 → IVec S16 32) a x).toNat < S128x128.size a)
    (hS : ∀ a x, ((![(k0_pay65 (k0_pay44 iotaV 0#32 1#32 k)), k0_pay170] : Fin 2 → IVec S16 32) a x).toNat < S64x128.size a) (x : S16.Idx) :
    k0_pay67 (loadIdx Pc ![(k0_pay43 k0_pay169 w), k0_pay66 o (k0_pay65 (k0_pay44 iotaV 0#32 1#32 k))] hP) (loadIdx Gc ![k0_pay170, (k0_pay65 (k0_pay44 iotaV 0#32 1#32 k))] hG) x
      = Tslot Gc Pc o w hw ho (idxAt ![(k0_pay65 (k0_pay44 iotaV 0#32 1#32 k)), k0_pay170] hS x) :=
  store_value Gc Pc o w hw ho (k0_pay65 (k0_pay44 iotaV 0#32 1#32 k)) k0_pay170 (k0_pay43 k0_pay169 w) (k0_pay66 o (k0_pay65 (k0_pay44 iotaV 0#32 1#32 k))) (prow_toNat w)
    (fun x => pcol2_toNat o _ x (gcol2_lt k x) ho) hP hG hS x

theorem hit_d2_j0 (k : Fin k0_t3_loop.trips)
    (hS : ∀ a x, ((![(k0_pay65 (k0_pay44 iotaV 0#32 1#32 k)), k0_pay170] : Fin 2 → IVec S16 32) a x).toNat < S64x128.size a) :
    {p | ∃ x, idxAt ![(k0_pay65 (k0_pay44 iotaV 0#32 1#32 k)), k0_pay170] hS x = p} = Hit 2 0 k.val :=
  hit_eq 2 0 k.val (k0_pay65 (k0_pay44 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay171, (k0_pay65 (k0_pay44 iotaV 0#32 1#32 k))] : Fin 2 → IVec S16 32) a x).toNat < S128x128.size a)
    (hS : ∀ a x, ((![(k0_pay65 (k0_pay44 iotaV 0#32 1#32 k)), k0_pay171] : Fin 2 → IVec S16 32) a x).toNat < S64x128.size a) (x : S16.Idx) :
    k0_pay68 (loadIdx Pc ![(k0_pay43 k0_pay169 w), k0_pay66 o (k0_pay65 (k0_pay44 iotaV 0#32 1#32 k))] hP) (loadIdx Gc ![k0_pay171, (k0_pay65 (k0_pay44 iotaV 0#32 1#32 k))] hG) x
      = Tslot Gc Pc o w hw ho (idxAt ![(k0_pay65 (k0_pay44 iotaV 0#32 1#32 k)), k0_pay171] hS x) :=
  store_value Gc Pc o w hw ho (k0_pay65 (k0_pay44 iotaV 0#32 1#32 k)) k0_pay171 (k0_pay43 k0_pay169 w) (k0_pay66 o (k0_pay65 (k0_pay44 iotaV 0#32 1#32 k))) (prow_toNat w)
    (fun x => pcol2_toNat o _ x (gcol2_lt k x) ho) hP hG hS x

theorem hit_d2_j1 (k : Fin k0_t3_loop.trips)
    (hS : ∀ a x, ((![(k0_pay65 (k0_pay44 iotaV 0#32 1#32 k)), k0_pay171] : Fin 2 → IVec S16 32) a x).toNat < S64x128.size a) :
    {p | ∃ x, idxAt ![(k0_pay65 (k0_pay44 iotaV 0#32 1#32 k)), k0_pay171] hS x = p} = Hit 2 1 k.val :=
  hit_eq 2 1 k.val (k0_pay65 (k0_pay44 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay172, (k0_pay65 (k0_pay44 iotaV 0#32 1#32 k))] : Fin 2 → IVec S16 32) a x).toNat < S128x128.size a)
    (hS : ∀ a x, ((![(k0_pay65 (k0_pay44 iotaV 0#32 1#32 k)), k0_pay172] : Fin 2 → IVec S16 32) a x).toNat < S64x128.size a) (x : S16.Idx) :
    k0_pay69 (loadIdx Pc ![(k0_pay43 k0_pay169 w), k0_pay66 o (k0_pay65 (k0_pay44 iotaV 0#32 1#32 k))] hP) (loadIdx Gc ![k0_pay172, (k0_pay65 (k0_pay44 iotaV 0#32 1#32 k))] hG) x
      = Tslot Gc Pc o w hw ho (idxAt ![(k0_pay65 (k0_pay44 iotaV 0#32 1#32 k)), k0_pay172] hS x) :=
  store_value Gc Pc o w hw ho (k0_pay65 (k0_pay44 iotaV 0#32 1#32 k)) k0_pay172 (k0_pay43 k0_pay169 w) (k0_pay66 o (k0_pay65 (k0_pay44 iotaV 0#32 1#32 k))) (prow_toNat w)
    (fun x => pcol2_toNat o _ x (gcol2_lt k x) ho) hP hG hS x

theorem hit_d2_j2 (k : Fin k0_t3_loop.trips)
    (hS : ∀ a x, ((![(k0_pay65 (k0_pay44 iotaV 0#32 1#32 k)), k0_pay172] : Fin 2 → IVec S16 32) a x).toNat < S64x128.size a) :
    {p | ∃ x, idxAt ![(k0_pay65 (k0_pay44 iotaV 0#32 1#32 k)), k0_pay172] hS x = p} = Hit 2 2 k.val :=
  hit_eq 2 2 k.val (k0_pay65 (k0_pay44 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay173, (k0_pay65 (k0_pay44 iotaV 0#32 1#32 k))] : Fin 2 → IVec S16 32) a x).toNat < S128x128.size a)
    (hS : ∀ a x, ((![(k0_pay65 (k0_pay44 iotaV 0#32 1#32 k)), k0_pay173] : Fin 2 → IVec S16 32) a x).toNat < S64x128.size a) (x : S16.Idx) :
    k0_pay70 (loadIdx Pc ![(k0_pay43 k0_pay169 w), k0_pay66 o (k0_pay65 (k0_pay44 iotaV 0#32 1#32 k))] hP) (loadIdx Gc ![k0_pay173, (k0_pay65 (k0_pay44 iotaV 0#32 1#32 k))] hG) x
      = Tslot Gc Pc o w hw ho (idxAt ![(k0_pay65 (k0_pay44 iotaV 0#32 1#32 k)), k0_pay173] hS x) :=
  store_value Gc Pc o w hw ho (k0_pay65 (k0_pay44 iotaV 0#32 1#32 k)) k0_pay173 (k0_pay43 k0_pay169 w) (k0_pay66 o (k0_pay65 (k0_pay44 iotaV 0#32 1#32 k))) (prow_toNat w)
    (fun x => pcol2_toNat o _ x (gcol2_lt k x) ho) hP hG hS x

theorem hit_d2_j3 (k : Fin k0_t3_loop.trips)
    (hS : ∀ a x, ((![(k0_pay65 (k0_pay44 iotaV 0#32 1#32 k)), k0_pay173] : Fin 2 → IVec S16 32) a x).toNat < S64x128.size a) :
    {p | ∃ x, idxAt ![(k0_pay65 (k0_pay44 iotaV 0#32 1#32 k)), k0_pay173] hS x = p} = Hit 2 3 k.val :=
  hit_eq 2 3 k.val (k0_pay65 (k0_pay44 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay174, (k0_pay65 (k0_pay44 iotaV 0#32 1#32 k))] : Fin 2 → IVec S16 32) a x).toNat < S128x128.size a)
    (hS : ∀ a x, ((![(k0_pay65 (k0_pay44 iotaV 0#32 1#32 k)), k0_pay174] : Fin 2 → IVec S16 32) a x).toNat < S64x128.size a) (x : S16.Idx) :
    k0_pay71 (loadIdx Pc ![(k0_pay43 k0_pay169 w), k0_pay66 o (k0_pay65 (k0_pay44 iotaV 0#32 1#32 k))] hP) (loadIdx Gc ![k0_pay174, (k0_pay65 (k0_pay44 iotaV 0#32 1#32 k))] hG) x
      = Tslot Gc Pc o w hw ho (idxAt ![(k0_pay65 (k0_pay44 iotaV 0#32 1#32 k)), k0_pay174] hS x) :=
  store_value Gc Pc o w hw ho (k0_pay65 (k0_pay44 iotaV 0#32 1#32 k)) k0_pay174 (k0_pay43 k0_pay169 w) (k0_pay66 o (k0_pay65 (k0_pay44 iotaV 0#32 1#32 k))) (prow_toNat w)
    (fun x => pcol2_toNat o _ x (gcol2_lt k x) ho) hP hG hS x

theorem hit_d2_j4 (k : Fin k0_t3_loop.trips)
    (hS : ∀ a x, ((![(k0_pay65 (k0_pay44 iotaV 0#32 1#32 k)), k0_pay174] : Fin 2 → IVec S16 32) a x).toNat < S64x128.size a) :
    {p | ∃ x, idxAt ![(k0_pay65 (k0_pay44 iotaV 0#32 1#32 k)), k0_pay174] hS x = p} = Hit 2 4 k.val :=
  hit_eq 2 4 k.val (k0_pay65 (k0_pay44 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay175, (k0_pay65 (k0_pay44 iotaV 0#32 1#32 k))] : Fin 2 → IVec S16 32) a x).toNat < S128x128.size a)
    (hS : ∀ a x, ((![(k0_pay65 (k0_pay44 iotaV 0#32 1#32 k)), k0_pay175] : Fin 2 → IVec S16 32) a x).toNat < S64x128.size a) (x : S16.Idx) :
    k0_pay72 (loadIdx Pc ![(k0_pay43 k0_pay169 w), k0_pay66 o (k0_pay65 (k0_pay44 iotaV 0#32 1#32 k))] hP) (loadIdx Gc ![k0_pay175, (k0_pay65 (k0_pay44 iotaV 0#32 1#32 k))] hG) x
      = Tslot Gc Pc o w hw ho (idxAt ![(k0_pay65 (k0_pay44 iotaV 0#32 1#32 k)), k0_pay175] hS x) :=
  store_value Gc Pc o w hw ho (k0_pay65 (k0_pay44 iotaV 0#32 1#32 k)) k0_pay175 (k0_pay43 k0_pay169 w) (k0_pay66 o (k0_pay65 (k0_pay44 iotaV 0#32 1#32 k))) (prow_toNat w)
    (fun x => pcol2_toNat o _ x (gcol2_lt k x) ho) hP hG hS x

theorem hit_d2_j5 (k : Fin k0_t3_loop.trips)
    (hS : ∀ a x, ((![(k0_pay65 (k0_pay44 iotaV 0#32 1#32 k)), k0_pay175] : Fin 2 → IVec S16 32) a x).toNat < S64x128.size a) :
    {p | ∃ x, idxAt ![(k0_pay65 (k0_pay44 iotaV 0#32 1#32 k)), k0_pay175] hS x = p} = Hit 2 5 k.val :=
  hit_eq 2 5 k.val (k0_pay65 (k0_pay44 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay176, (k0_pay65 (k0_pay44 iotaV 0#32 1#32 k))] : Fin 2 → IVec S16 32) a x).toNat < S128x128.size a)
    (hS : ∀ a x, ((![(k0_pay65 (k0_pay44 iotaV 0#32 1#32 k)), k0_pay176] : Fin 2 → IVec S16 32) a x).toNat < S64x128.size a) (x : S16.Idx) :
    k0_pay73 (loadIdx Pc ![(k0_pay43 k0_pay169 w), k0_pay66 o (k0_pay65 (k0_pay44 iotaV 0#32 1#32 k))] hP) (loadIdx Gc ![k0_pay176, (k0_pay65 (k0_pay44 iotaV 0#32 1#32 k))] hG) x
      = Tslot Gc Pc o w hw ho (idxAt ![(k0_pay65 (k0_pay44 iotaV 0#32 1#32 k)), k0_pay176] hS x) :=
  store_value Gc Pc o w hw ho (k0_pay65 (k0_pay44 iotaV 0#32 1#32 k)) k0_pay176 (k0_pay43 k0_pay169 w) (k0_pay66 o (k0_pay65 (k0_pay44 iotaV 0#32 1#32 k))) (prow_toNat w)
    (fun x => pcol2_toNat o _ x (gcol2_lt k x) ho) hP hG hS x

theorem hit_d2_j6 (k : Fin k0_t3_loop.trips)
    (hS : ∀ a x, ((![(k0_pay65 (k0_pay44 iotaV 0#32 1#32 k)), k0_pay176] : Fin 2 → IVec S16 32) a x).toNat < S64x128.size a) :
    {p | ∃ x, idxAt ![(k0_pay65 (k0_pay44 iotaV 0#32 1#32 k)), k0_pay176] hS x = p} = Hit 2 6 k.val :=
  hit_eq 2 6 k.val (k0_pay65 (k0_pay44 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay66 o (k0_pay65 (k0_pay44 iotaV 0#32 1#32 k))] : Fin 2 → IVec S16 32) a x).toNat < S100x128.size a)
    (hG : ∀ a x, ((![k0_pay177, (k0_pay65 (k0_pay44 iotaV 0#32 1#32 k))] : Fin 2 → IVec S16 32) a x).toNat < S128x128.size a)
    (hS : ∀ a x, ((![(k0_pay65 (k0_pay44 iotaV 0#32 1#32 k)), k0_pay177] : Fin 2 → IVec S16 32) a x).toNat < S64x128.size a) (x : S16.Idx) :
    k0_pay74 (loadIdx Pc ![(k0_pay43 k0_pay169 w), k0_pay66 o (k0_pay65 (k0_pay44 iotaV 0#32 1#32 k))] hP) (loadIdx Gc ![k0_pay177, (k0_pay65 (k0_pay44 iotaV 0#32 1#32 k))] hG) x
      = Tslot Gc Pc o w hw ho (idxAt ![(k0_pay65 (k0_pay44 iotaV 0#32 1#32 k)), k0_pay177] hS x) :=
  store_value Gc Pc o w hw ho (k0_pay65 (k0_pay44 iotaV 0#32 1#32 k)) k0_pay177 (k0_pay43 k0_pay169 w) (k0_pay66 o (k0_pay65 (k0_pay44 iotaV 0#32 1#32 k))) (prow_toNat w)
    (fun x => pcol2_toNat o _ x (gcol2_lt k x) ho) hP hG hS x

theorem hit_d2_j7 (k : Fin k0_t3_loop.trips)
    (hS : ∀ a x, ((![(k0_pay65 (k0_pay44 iotaV 0#32 1#32 k)), k0_pay177] : Fin 2 → IVec S16 32) a x).toNat < S64x128.size a) :
    {p | ∃ x, idxAt ![(k0_pay65 (k0_pay44 iotaV 0#32 1#32 k)), k0_pay177] hS x = p} = Hit 2 7 k.val :=
  hit_eq 2 7 k.val (k0_pay65 (k0_pay44 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay170, (k0_pay75 (k0_pay44 iotaV 0#32 1#32 k))] : Fin 2 → IVec S16 32) a x).toNat < S128x128.size a)
    (hS : ∀ a x, ((![(k0_pay75 (k0_pay44 iotaV 0#32 1#32 k)), k0_pay170] : Fin 2 → IVec S16 32) a x).toNat < S64x128.size a) (x : S16.Idx) :
    k0_pay77 (loadIdx Pc ![(k0_pay43 k0_pay169 w), k0_pay76 o (k0_pay75 (k0_pay44 iotaV 0#32 1#32 k))] hP) (loadIdx Gc ![k0_pay170, (k0_pay75 (k0_pay44 iotaV 0#32 1#32 k))] hG) x
      = Tslot Gc Pc o w hw ho (idxAt ![(k0_pay75 (k0_pay44 iotaV 0#32 1#32 k)), k0_pay170] hS x) :=
  store_value Gc Pc o w hw ho (k0_pay75 (k0_pay44 iotaV 0#32 1#32 k)) k0_pay170 (k0_pay43 k0_pay169 w) (k0_pay76 o (k0_pay75 (k0_pay44 iotaV 0#32 1#32 k))) (prow_toNat w)
    (fun x => pcol3_toNat o _ x (gcol3_lt k x) ho) hP hG hS x

theorem hit_d3_j0 (k : Fin k0_t3_loop.trips)
    (hS : ∀ a x, ((![(k0_pay75 (k0_pay44 iotaV 0#32 1#32 k)), k0_pay170] : Fin 2 → IVec S16 32) a x).toNat < S64x128.size a) :
    {p | ∃ x, idxAt ![(k0_pay75 (k0_pay44 iotaV 0#32 1#32 k)), k0_pay170] hS x = p} = Hit 3 0 k.val :=
  hit_eq 3 0 k.val (k0_pay75 (k0_pay44 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay171, (k0_pay75 (k0_pay44 iotaV 0#32 1#32 k))] : Fin 2 → IVec S16 32) a x).toNat < S128x128.size a)
    (hS : ∀ a x, ((![(k0_pay75 (k0_pay44 iotaV 0#32 1#32 k)), k0_pay171] : Fin 2 → IVec S16 32) a x).toNat < S64x128.size a) (x : S16.Idx) :
    k0_pay78 (loadIdx Pc ![(k0_pay43 k0_pay169 w), k0_pay76 o (k0_pay75 (k0_pay44 iotaV 0#32 1#32 k))] hP) (loadIdx Gc ![k0_pay171, (k0_pay75 (k0_pay44 iotaV 0#32 1#32 k))] hG) x
      = Tslot Gc Pc o w hw ho (idxAt ![(k0_pay75 (k0_pay44 iotaV 0#32 1#32 k)), k0_pay171] hS x) :=
  store_value Gc Pc o w hw ho (k0_pay75 (k0_pay44 iotaV 0#32 1#32 k)) k0_pay171 (k0_pay43 k0_pay169 w) (k0_pay76 o (k0_pay75 (k0_pay44 iotaV 0#32 1#32 k))) (prow_toNat w)
    (fun x => pcol3_toNat o _ x (gcol3_lt k x) ho) hP hG hS x

theorem hit_d3_j1 (k : Fin k0_t3_loop.trips)
    (hS : ∀ a x, ((![(k0_pay75 (k0_pay44 iotaV 0#32 1#32 k)), k0_pay171] : Fin 2 → IVec S16 32) a x).toNat < S64x128.size a) :
    {p | ∃ x, idxAt ![(k0_pay75 (k0_pay44 iotaV 0#32 1#32 k)), k0_pay171] hS x = p} = Hit 3 1 k.val :=
  hit_eq 3 1 k.val (k0_pay75 (k0_pay44 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay172, (k0_pay75 (k0_pay44 iotaV 0#32 1#32 k))] : Fin 2 → IVec S16 32) a x).toNat < S128x128.size a)
    (hS : ∀ a x, ((![(k0_pay75 (k0_pay44 iotaV 0#32 1#32 k)), k0_pay172] : Fin 2 → IVec S16 32) a x).toNat < S64x128.size a) (x : S16.Idx) :
    k0_pay79 (loadIdx Pc ![(k0_pay43 k0_pay169 w), k0_pay76 o (k0_pay75 (k0_pay44 iotaV 0#32 1#32 k))] hP) (loadIdx Gc ![k0_pay172, (k0_pay75 (k0_pay44 iotaV 0#32 1#32 k))] hG) x
      = Tslot Gc Pc o w hw ho (idxAt ![(k0_pay75 (k0_pay44 iotaV 0#32 1#32 k)), k0_pay172] hS x) :=
  store_value Gc Pc o w hw ho (k0_pay75 (k0_pay44 iotaV 0#32 1#32 k)) k0_pay172 (k0_pay43 k0_pay169 w) (k0_pay76 o (k0_pay75 (k0_pay44 iotaV 0#32 1#32 k))) (prow_toNat w)
    (fun x => pcol3_toNat o _ x (gcol3_lt k x) ho) hP hG hS x

theorem hit_d3_j2 (k : Fin k0_t3_loop.trips)
    (hS : ∀ a x, ((![(k0_pay75 (k0_pay44 iotaV 0#32 1#32 k)), k0_pay172] : Fin 2 → IVec S16 32) a x).toNat < S64x128.size a) :
    {p | ∃ x, idxAt ![(k0_pay75 (k0_pay44 iotaV 0#32 1#32 k)), k0_pay172] hS x = p} = Hit 3 2 k.val :=
  hit_eq 3 2 k.val (k0_pay75 (k0_pay44 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay173, (k0_pay75 (k0_pay44 iotaV 0#32 1#32 k))] : Fin 2 → IVec S16 32) a x).toNat < S128x128.size a)
    (hS : ∀ a x, ((![(k0_pay75 (k0_pay44 iotaV 0#32 1#32 k)), k0_pay173] : Fin 2 → IVec S16 32) a x).toNat < S64x128.size a) (x : S16.Idx) :
    k0_pay80 (loadIdx Pc ![(k0_pay43 k0_pay169 w), k0_pay76 o (k0_pay75 (k0_pay44 iotaV 0#32 1#32 k))] hP) (loadIdx Gc ![k0_pay173, (k0_pay75 (k0_pay44 iotaV 0#32 1#32 k))] hG) x
      = Tslot Gc Pc o w hw ho (idxAt ![(k0_pay75 (k0_pay44 iotaV 0#32 1#32 k)), k0_pay173] hS x) :=
  store_value Gc Pc o w hw ho (k0_pay75 (k0_pay44 iotaV 0#32 1#32 k)) k0_pay173 (k0_pay43 k0_pay169 w) (k0_pay76 o (k0_pay75 (k0_pay44 iotaV 0#32 1#32 k))) (prow_toNat w)
    (fun x => pcol3_toNat o _ x (gcol3_lt k x) ho) hP hG hS x

theorem hit_d3_j3 (k : Fin k0_t3_loop.trips)
    (hS : ∀ a x, ((![(k0_pay75 (k0_pay44 iotaV 0#32 1#32 k)), k0_pay173] : Fin 2 → IVec S16 32) a x).toNat < S64x128.size a) :
    {p | ∃ x, idxAt ![(k0_pay75 (k0_pay44 iotaV 0#32 1#32 k)), k0_pay173] hS x = p} = Hit 3 3 k.val :=
  hit_eq 3 3 k.val (k0_pay75 (k0_pay44 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay174, (k0_pay75 (k0_pay44 iotaV 0#32 1#32 k))] : Fin 2 → IVec S16 32) a x).toNat < S128x128.size a)
    (hS : ∀ a x, ((![(k0_pay75 (k0_pay44 iotaV 0#32 1#32 k)), k0_pay174] : Fin 2 → IVec S16 32) a x).toNat < S64x128.size a) (x : S16.Idx) :
    k0_pay81 (loadIdx Pc ![(k0_pay43 k0_pay169 w), k0_pay76 o (k0_pay75 (k0_pay44 iotaV 0#32 1#32 k))] hP) (loadIdx Gc ![k0_pay174, (k0_pay75 (k0_pay44 iotaV 0#32 1#32 k))] hG) x
      = Tslot Gc Pc o w hw ho (idxAt ![(k0_pay75 (k0_pay44 iotaV 0#32 1#32 k)), k0_pay174] hS x) :=
  store_value Gc Pc o w hw ho (k0_pay75 (k0_pay44 iotaV 0#32 1#32 k)) k0_pay174 (k0_pay43 k0_pay169 w) (k0_pay76 o (k0_pay75 (k0_pay44 iotaV 0#32 1#32 k))) (prow_toNat w)
    (fun x => pcol3_toNat o _ x (gcol3_lt k x) ho) hP hG hS x

theorem hit_d3_j4 (k : Fin k0_t3_loop.trips)
    (hS : ∀ a x, ((![(k0_pay75 (k0_pay44 iotaV 0#32 1#32 k)), k0_pay174] : Fin 2 → IVec S16 32) a x).toNat < S64x128.size a) :
    {p | ∃ x, idxAt ![(k0_pay75 (k0_pay44 iotaV 0#32 1#32 k)), k0_pay174] hS x = p} = Hit 3 4 k.val :=
  hit_eq 3 4 k.val (k0_pay75 (k0_pay44 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay175, (k0_pay75 (k0_pay44 iotaV 0#32 1#32 k))] : Fin 2 → IVec S16 32) a x).toNat < S128x128.size a)
    (hS : ∀ a x, ((![(k0_pay75 (k0_pay44 iotaV 0#32 1#32 k)), k0_pay175] : Fin 2 → IVec S16 32) a x).toNat < S64x128.size a) (x : S16.Idx) :
    k0_pay82 (loadIdx Pc ![(k0_pay43 k0_pay169 w), k0_pay76 o (k0_pay75 (k0_pay44 iotaV 0#32 1#32 k))] hP) (loadIdx Gc ![k0_pay175, (k0_pay75 (k0_pay44 iotaV 0#32 1#32 k))] hG) x
      = Tslot Gc Pc o w hw ho (idxAt ![(k0_pay75 (k0_pay44 iotaV 0#32 1#32 k)), k0_pay175] hS x) :=
  store_value Gc Pc o w hw ho (k0_pay75 (k0_pay44 iotaV 0#32 1#32 k)) k0_pay175 (k0_pay43 k0_pay169 w) (k0_pay76 o (k0_pay75 (k0_pay44 iotaV 0#32 1#32 k))) (prow_toNat w)
    (fun x => pcol3_toNat o _ x (gcol3_lt k x) ho) hP hG hS x

theorem hit_d3_j5 (k : Fin k0_t3_loop.trips)
    (hS : ∀ a x, ((![(k0_pay75 (k0_pay44 iotaV 0#32 1#32 k)), k0_pay175] : Fin 2 → IVec S16 32) a x).toNat < S64x128.size a) :
    {p | ∃ x, idxAt ![(k0_pay75 (k0_pay44 iotaV 0#32 1#32 k)), k0_pay175] hS x = p} = Hit 3 5 k.val :=
  hit_eq 3 5 k.val (k0_pay75 (k0_pay44 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay176, (k0_pay75 (k0_pay44 iotaV 0#32 1#32 k))] : Fin 2 → IVec S16 32) a x).toNat < S128x128.size a)
    (hS : ∀ a x, ((![(k0_pay75 (k0_pay44 iotaV 0#32 1#32 k)), k0_pay176] : Fin 2 → IVec S16 32) a x).toNat < S64x128.size a) (x : S16.Idx) :
    k0_pay83 (loadIdx Pc ![(k0_pay43 k0_pay169 w), k0_pay76 o (k0_pay75 (k0_pay44 iotaV 0#32 1#32 k))] hP) (loadIdx Gc ![k0_pay176, (k0_pay75 (k0_pay44 iotaV 0#32 1#32 k))] hG) x
      = Tslot Gc Pc o w hw ho (idxAt ![(k0_pay75 (k0_pay44 iotaV 0#32 1#32 k)), k0_pay176] hS x) :=
  store_value Gc Pc o w hw ho (k0_pay75 (k0_pay44 iotaV 0#32 1#32 k)) k0_pay176 (k0_pay43 k0_pay169 w) (k0_pay76 o (k0_pay75 (k0_pay44 iotaV 0#32 1#32 k))) (prow_toNat w)
    (fun x => pcol3_toNat o _ x (gcol3_lt k x) ho) hP hG hS x

theorem hit_d3_j6 (k : Fin k0_t3_loop.trips)
    (hS : ∀ a x, ((![(k0_pay75 (k0_pay44 iotaV 0#32 1#32 k)), k0_pay176] : Fin 2 → IVec S16 32) a x).toNat < S64x128.size a) :
    {p | ∃ x, idxAt ![(k0_pay75 (k0_pay44 iotaV 0#32 1#32 k)), k0_pay176] hS x = p} = Hit 3 6 k.val :=
  hit_eq 3 6 k.val (k0_pay75 (k0_pay44 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t3_loop.trips) (Gc : Vec F S128x128 .f32) (Pc : Vec F S100x128 .f32) (o w : BitVec 32)
    (hw : w.toNat < 100) (ho : o.toNat ≤ 64)
    (hP : ∀ a x, ((![(k0_pay43 k0_pay169 w), k0_pay76 o (k0_pay75 (k0_pay44 iotaV 0#32 1#32 k))] : Fin 2 → IVec S16 32) a x).toNat < S100x128.size a)
    (hG : ∀ a x, ((![k0_pay177, (k0_pay75 (k0_pay44 iotaV 0#32 1#32 k))] : Fin 2 → IVec S16 32) a x).toNat < S128x128.size a)
    (hS : ∀ a x, ((![(k0_pay75 (k0_pay44 iotaV 0#32 1#32 k)), k0_pay177] : Fin 2 → IVec S16 32) a x).toNat < S64x128.size a) (x : S16.Idx) :
    k0_pay84 (loadIdx Pc ![(k0_pay43 k0_pay169 w), k0_pay76 o (k0_pay75 (k0_pay44 iotaV 0#32 1#32 k))] hP) (loadIdx Gc ![k0_pay177, (k0_pay75 (k0_pay44 iotaV 0#32 1#32 k))] hG) x
      = Tslot Gc Pc o w hw ho (idxAt ![(k0_pay75 (k0_pay44 iotaV 0#32 1#32 k)), k0_pay177] hS x) :=
  store_value Gc Pc o w hw ho (k0_pay75 (k0_pay44 iotaV 0#32 1#32 k)) k0_pay177 (k0_pay43 k0_pay169 w) (k0_pay76 o (k0_pay75 (k0_pay44 iotaV 0#32 1#32 k))) (prow_toNat w)
    (fun x => pcol3_toNat o _ x (gcol3_lt k x) ho) hP hG hS x

theorem hit_d3_j7 (k : Fin k0_t3_loop.trips)
    (hS : ∀ a x, ((![(k0_pay75 (k0_pay44 iotaV 0#32 1#32 k)), k0_pay177] : Fin 2 → IVec S16 32) a x).toNat < S64x128.size a) :
    {p | ∃ x, idxAt ![(k0_pay75 (k0_pay44 iotaV 0#32 1#32 k)), k0_pay177] hS x = p} = Hit 3 7 k.val :=
  hit_eq 3 7 k.val (k0_pay75 (k0_pay44 iotaV 0#32 1#32 k)) k0_pay177
    (fun x => by rw [gcol3_toNat]; show _ = (ln x + k.val) % 16 + 16 * 3; omega)
    (fun x => by rw [pay177_toNat]; show _ = 16 * 7 + ln x; omega) hS

end Cert.LanesK.C2
-- ==== Proof.Lane3K.lean ====
/-
  The index arithmetic of one copy of the inner loop (k0_t4_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVecK

namespace Cert.LanesK.C3

open Idealize.ShloMosaic Cert.Kernel Cert.Kernel.Gen Cert.LanesK

/-- The loop runs at most 16 trips. -/
theorem trip_lt (k : Fin k0_t4_loop.trips) : k.val < 16 := Nat.lt_of_lt_of_le k.isLt k0_t4_abs.2.1

/-- The rotation vector of trip `k`: `(lane + k) mod 16`. -/
theorem rot_toNat (k : Fin k0_t4_loop.trips) (x : S16.Idx) :
    (k0_pay86 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t4_loop.trips) (x : S16.Idx) :
    (k0_pay87 iotaV 0#32 1#32 k x).toNat = (ln x + k.val) % 16 :=
  addi_lit (k0_pay86 iotaV 0#32 1#32 k) 0#32 ((ln x + k.val) % 16) 0 x (rot_toNat k x) rfl (by omega)

/-- The column vector of feature group 1 in trip `k`. -/
theorem gcol1_toNat (k : Fin k0_t4_loop.trips) (x : S16.Idx) :
    (k0_pay97 (k0_pay86 iotaV 0#32 1#32 k) x).toNat = (ln x + k.val) % 16 + 16 :=
  addi_lit (k0_pay86 iotaV 0#32 1#32 k) 16#32 ((ln x + k.val) % 16) 16 x (rot_toNat k x) rfl (by omega)

/-- The column vector of feature group 2 in trip `k`. -/
theorem gcol2_toNat (k : Fin k0_t4_loop.trips) (x : S16.Idx) :
    (k0_pay107 (k0_pay86 iotaV 0#32 1#32 k) x).toNat = (ln x + k.val) % 16 + 32 :=
  addi_lit (k0_pay86 iotaV 0#32 1#32 k) 32#32 ((ln x + k.val) % 16) 32 x (rot_toNat k x) rfl (by omega)

/-- The column vector of feature group 3 in trip `k`. -/
theorem gcol3_toNat (k : Fin k0_t4_loop.trips) (x : S16.Idx) :
    (k0_pay117 (k0_pay86 iotaV 0#32 1#32 k) x).toNat = (ln x + k.val) % 16 + 48 :=
  addi_lit (k0_pay86 iotaV 0#32 1#32 k) 48#32 ((ln x + k.val) % 16) 48 x (rot_toNat k x) rfl (by omega)

theorem gcol0_lt (k : Fin k0_t4_loop.trips) (x : S16.Idx) : (k0_pay87 iotaV 0#32 1#32 k x).toNat < 64 := by
  rw [gcol0_toNat]; omega
theorem gcol1_lt (k : Fin k0_t4_loop.trips) (x : S16.Idx) : (k0_pay97 (k0_pay86 iotaV 0#32 1#32 k) x).toNat < 64 := by
  rw [gcol1_toNat]; omega
theorem gcol2_lt (k : Fin k0_t4_loop.trips) (x : S16.Idx) : (k0_pay107 (k0_pay86 iotaV 0#32 1#32 k) x).toNat < 64 := by
  rw [gcol2_toNat]; omega
theorem gcol3_lt (k : Fin k0_t4_loop.trips) (x : S16.Idx) : (k0_pay117 (k0_pay86 iotaV 0#32 1#32 k) x).toNat < 64 := by
  rw [gcol3_toNat]; omega

/-- The positional row vector: the word `w` in every lane. -/
theorem prow_toNat (w : BitVec 32) (x : S16.Idx) : (k0_pay85 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay88 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay98 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay108 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay118 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk17 (k0_pay85 k0_pay169 w) (k0_pay88 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk19 (k0_pay85 k0_pay169 w) (k0_pay98 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk21 (k0_pay85 k0_pay169 w) (k0_pay108 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk23 (k0_pay85 k0_pay169 w) (k0_pay118 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk18 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk20 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk22 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk24 k0_pay170 k0_pay171 k0_pay172 k0_pay173 k0_pay174 k0_pay175 k0_pay176 k0_pay177 gc := chkG0 gc hgc

/-! ### The side conditions at the column vectors of trip `k` -/

theorem chkP0_trip (k : Fin k0_t4_loop.trips) (o w : BitVec 32) (hw : w.toNat < 100) (ho : o.toNat ≤ 64) :
    k0_chk17 (k0_pay85 k0_pay169 w) (k0_pay88 o (k0_pay87 iotaV 0#32 1#32 k)) := chkP0 o w _ hw ho (gcol0_lt k)
theorem chkP1_trip (k : Fin k0_t4_loop.trips) (o w : BitVec 32) (hw : w.toNat < 100) (ho : o.toNat ≤ 64) :
    k0_chk19 (k0_pay85 k0_pay169 w) (k0_pay98 o (k0_pay97 (k0_pay86 iotaV 0#32 1#32 k))) := chkP1 o w _ hw ho (gcol1_lt k)
theorem chkP2_trip (k : Fin k0_t4_loop.trips) (o w : BitVec 32) (hw : w.toNat < 100) (ho : o.toNat ≤ 64) :
    k0_chk21 (k0_pay85 k0_pay169 w) (k0_pay108 o (k0_pay107 (k0_pay86 iotaV 0#32 1#32 k))) := chkP2 o w _ hw ho (gcol2_lt k)
theorem chkP3_trip (k : Fin k0_t4_loop.trips) (o w : BitVec 32) (hw : w.toNat < 100) (ho : o.toNat ≤ 64) :
    k0_chk23 (k0_pay85 k0_pay169 w) (k0_pay118 o (k0_pay117 (k0_pay86 iotaV 0#32 1#32 k))) := chkP3 o w _ hw ho (gcol3_lt k)

theorem chkG0_trip (k : Fin k0_t4_loop.trips) :
    k0_chk18 k0_pay170 k0_pay171 k0_pay172 k0_pay173 k0_pay174 k0_pay175 k0_pay176 k0_pay177 (k0_pay87 iotaV 0#32 1#32 k) :=
  chkG0 _ (gcol0_lt k)
theorem chkG1_trip (k : Fin k0_t4_loop.trips) :
    k0_chk20 k0_pay170 k0_pay171 k0_pay172 k0_pay173 k0_pay174 k0_pay175 k0_pay176 k0_pay177 (k0_pay97 (k0_pay86 iotaV 0#32 1#32 k)) :=
  chkG1 _ (gcol1_lt k)
theorem chkG2_trip (k : Fin k0_t4_loop.trips) :
    k0_chk22 k0_pay170 k0_pay171 k0_pay172 k0_pay173 k0_pay174 k0_pay175 k0_pay176 k0_pay177 (k0_pay107 (k0_pay86 iotaV 0#32 1#32 k)) :=
  chkG2 _ (gcol2_lt k)
theorem chkG3_trip (k : Fin k0_t4_loop.trips) :
    k0_chk24 k0_pay170 k0_pay171 k0_pay172 k0_pay173 k0_pay174 k0_pay175 k0_pay176 k0_pay177 (k0_pay117 (k0_pay86 iotaV 0#32 1#32 k)) :=
  chkG3 _ (gcol3_lt k)

end Cert.LanesK.C3
-- ==== Proof.LaneTrip3K.lean ====
/-
  The values and the elements of the 32 stores of one trip of the inner loop k0_t4_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTripK
import proofs.«206908_g46772193853751_cont_8to1c4_160_30_alg».proof.Proof.Lane3K

namespace Cert.LanesK.C3

open Idealize.ShloMosaic Idealize.ShloMosaic.ValueIdx Cert.Kernel Cert.Kernel.Gen Cert.LanesK

variable {F : FTy → Type} [FloatOps F]

theorem val_d0_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay170, (k0_pay87 iotaV 0#32 1#32 k)] : Fin 2 → IVec S16 32) a x).toNat < S128x128.size a)
    (hS : ∀ a x, ((![(k0_pay87 iotaV 0#32 1#32 k), k0_pay170] : Fin 2 → IVec S16 32) a x).toNat < S64x128.size a) (x : S16.Idx) :
    k0_pay89 (loadIdx Pc ![(k0_pay85 k0_pay169 w), k0_pay88 o (k0_pay87 iotaV 0#32 1#32 k)] hP) (loadIdx Gc ![k0_pay170, (k0_pay87 iotaV 0#32 1#32 k)] hG) x
      = Tslot Gc Pc o w hw ho (idxAt ![(k0_pay87 iotaV 0#32 1#32 k), k0_pay170] hS x) :=
  store_value Gc Pc o w hw ho (k0_pay87 iotaV 0#32 1#32 k) k0_pay170 (k0_pay85 k0_pay169 w) (k0_pay88 o (k0_pay87 iotaV 0#32 1#32 k)) (prow_toNat w)
    (fun x => pcol0_toNat o _ x (gcol0_lt k x) ho) hP hG hS x

theorem hit_d0_j0 (k : Fin k0_t4_loop.trips)
    (hS : ∀ a x, ((![(k0_pay87 iotaV 0#32 1#32 k), k0_pay170] : Fin 2 → IVec S16 32) a x).toNat < S64x128.size a) :
    {p | ∃ x, idxAt ![(k0_pay87 iotaV 0#32 1#32 k), k0_pay170] hS x = p} = Hit 0 0 k.val :=
  hit_eq 0 0 k.val (k0_pay87 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay171, (k0_pay87 iotaV 0#32 1#32 k)] : Fin 2 → IVec S16 32) a x).toNat < S128x128.size a)
    (hS : ∀ a x, ((![(k0_pay87 iotaV 0#32 1#32 k), k0_pay171] : Fin 2 → IVec S16 32) a x).toNat < S64x128.size a) (x : S16.Idx) :
    k0_pay90 (loadIdx Pc ![(k0_pay85 k0_pay169 w), k0_pay88 o (k0_pay87 iotaV 0#32 1#32 k)] hP) (loadIdx Gc ![k0_pay171, (k0_pay87 iotaV 0#32 1#32 k)] hG) x
      = Tslot Gc Pc o w hw ho (idxAt ![(k0_pay87 iotaV 0#32 1#32 k), k0_pay171] hS x) :=
  store_value Gc Pc o w hw ho (k0_pay87 iotaV 0#32 1#32 k) k0_pay171 (k0_pay85 k0_pay169 w) (k0_pay88 o (k0_pay87 iotaV 0#32 1#32 k)) (prow_toNat w)
    (fun x => pcol0_toNat o _ x (gcol0_lt k x) ho) hP hG hS x

theorem hit_d0_j1 (k : Fin k0_t4_loop.trips)
    (hS : ∀ a x, ((![(k0_pay87 iotaV 0#32 1#32 k), k0_pay171] : Fin 2 → IVec S16 32) a x).toNat < S64x128.size a) :
    {p | ∃ x, idxAt ![(k0_pay87 iotaV 0#32 1#32 k), k0_pay171] hS x = p} = Hit 0 1 k.val :=
  hit_eq 0 1 k.val (k0_pay87 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay172, (k0_pay87 iotaV 0#32 1#32 k)] : Fin 2 → IVec S16 32) a x).toNat < S128x128.size a)
    (hS : ∀ a x, ((![(k0_pay87 iotaV 0#32 1#32 k), k0_pay172] : Fin 2 → IVec S16 32) a x).toNat < S64x128.size a) (x : S16.Idx) :
    k0_pay91 (loadIdx Pc ![(k0_pay85 k0_pay169 w), k0_pay88 o (k0_pay87 iotaV 0#32 1#32 k)] hP) (loadIdx Gc ![k0_pay172, (k0_pay87 iotaV 0#32 1#32 k)] hG) x
      = Tslot Gc Pc o w hw ho (idxAt ![(k0_pay87 iotaV 0#32 1#32 k), k0_pay172] hS x) :=
  store_value Gc Pc o w hw ho (k0_pay87 iotaV 0#32 1#32 k) k0_pay172 (k0_pay85 k0_pay169 w) (k0_pay88 o (k0_pay87 iotaV 0#32 1#32 k)) (prow_toNat w)
    (fun x => pcol0_toNat o _ x (gcol0_lt k x) ho) hP hG hS x

theorem hit_d0_j2 (k : Fin k0_t4_loop.trips)
    (hS : ∀ a x, ((![(k0_pay87 iotaV 0#32 1#32 k), k0_pay172] : Fin 2 → IVec S16 32) a x).toNat < S64x128.size a) :
    {p | ∃ x, idxAt ![(k0_pay87 iotaV 0#32 1#32 k), k0_pay172] hS x = p} = Hit 0 2 k.val :=
  hit_eq 0 2 k.val (k0_pay87 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay173, (k0_pay87 iotaV 0#32 1#32 k)] : Fin 2 → IVec S16 32) a x).toNat < S128x128.size a)
    (hS : ∀ a x, ((![(k0_pay87 iotaV 0#32 1#32 k), k0_pay173] : Fin 2 → IVec S16 32) a x).toNat < S64x128.size a) (x : S16.Idx) :
    k0_pay92 (loadIdx Pc ![(k0_pay85 k0_pay169 w), k0_pay88 o (k0_pay87 iotaV 0#32 1#32 k)] hP) (loadIdx Gc ![k0_pay173, (k0_pay87 iotaV 0#32 1#32 k)] hG) x
      = Tslot Gc Pc o w hw ho (idxAt ![(k0_pay87 iotaV 0#32 1#32 k), k0_pay173] hS x) :=
  store_value Gc Pc o w hw ho (k0_pay87 iotaV 0#32 1#32 k) k0_pay173 (k0_pay85 k0_pay169 w) (k0_pay88 o (k0_pay87 iotaV 0#32 1#32 k)) (prow_toNat w)
    (fun x => pcol0_toNat o _ x (gcol0_lt k x) ho) hP hG hS x

theorem hit_d0_j3 (k : Fin k0_t4_loop.trips)
    (hS : ∀ a x, ((![(k0_pay87 iotaV 0#32 1#32 k), k0_pay173] : Fin 2 → IVec S16 32) a x).toNat < S64x128.size a) :
    {p | ∃ x, idxAt ![(k0_pay87 iotaV 0#32 1#32 k), k0_pay173] hS x = p} = Hit 0 3 k.val :=
  hit_eq 0 3 k.val (k0_pay87 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay174, (k0_pay87 iotaV 0#32 1#32 k)] : Fin 2 → IVec S16 32) a x).toNat < S128x128.size a)
    (hS : ∀ a x, ((![(k0_pay87 iotaV 0#32 1#32 k), k0_pay174] : Fin 2 → IVec S16 32) a x).toNat < S64x128.size a) (x : S16.Idx) :
    k0_pay93 (loadIdx Pc ![(k0_pay85 k0_pay169 w), k0_pay88 o (k0_pay87 iotaV 0#32 1#32 k)] hP) (loadIdx Gc ![k0_pay174, (k0_pay87 iotaV 0#32 1#32 k)] hG) x
      = Tslot Gc Pc o w hw ho (idxAt ![(k0_pay87 iotaV 0#32 1#32 k), k0_pay174] hS x) :=
  store_value Gc Pc o w hw ho (k0_pay87 iotaV 0#32 1#32 k) k0_pay174 (k0_pay85 k0_pay169 w) (k0_pay88 o (k0_pay87 iotaV 0#32 1#32 k)) (prow_toNat w)
    (fun x => pcol0_toNat o _ x (gcol0_lt k x) ho) hP hG hS x

theorem hit_d0_j4 (k : Fin k0_t4_loop.trips)
    (hS : ∀ a x, ((![(k0_pay87 iotaV 0#32 1#32 k), k0_pay174] : Fin 2 → IVec S16 32) a x).toNat < S64x128.size a) :
    {p | ∃ x, idxAt ![(k0_pay87 iotaV 0#32 1#32 k), k0_pay174] hS x = p} = Hit 0 4 k.val :=
  hit_eq 0 4 k.val (k0_pay87 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay175, (k0_pay87 iotaV 0#32 1#32 k)] : Fin 2 → IVec S16 32) a x).toNat < S128x128.size a)
    (hS : ∀ a x, ((![(k0_pay87 iotaV 0#32 1#32 k), k0_pay175] : Fin 2 → IVec S16 32) a x).toNat < S64x128.size a) (x : S16.Idx) :
    k0_pay94 (loadIdx Pc ![(k0_pay85 k0_pay169 w), k0_pay88 o (k0_pay87 iotaV 0#32 1#32 k)] hP) (loadIdx Gc ![k0_pay175, (k0_pay87 iotaV 0#32 1#32 k)] hG) x
      = Tslot Gc Pc o w hw ho (idxAt ![(k0_pay87 iotaV 0#32 1#32 k), k0_pay175] hS x) :=
  store_value Gc Pc o w hw ho (k0_pay87 iotaV 0#32 1#32 k) k0_pay175 (k0_pay85 k0_pay169 w) (k0_pay88 o (k0_pay87 iotaV 0#32 1#32 k)) (prow_toNat w)
    (fun x => pcol0_toNat o _ x (gcol0_lt k x) ho) hP hG hS x

theorem hit_d0_j5 (k : Fin k0_t4_loop.trips)
    (hS : ∀ a x, ((![(k0_pay87 iotaV 0#32 1#32 k), k0_pay175] : Fin 2 → IVec S16 32) a x).toNat < S64x128.size a) :
    {p | ∃ x, idxAt ![(k0_pay87 iotaV 0#32 1#32 k), k0_pay175] hS x = p} = Hit 0 5 k.val :=
  hit_eq 0 5 k.val (k0_pay87 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay176, (k0_pay87 iotaV 0#32 1#32 k)] : Fin 2 → IVec S16 32) a x).toNat < S128x128.size a)
    (hS : ∀ a x, ((![(k0_pay87 iotaV 0#32 1#32 k), k0_pay176] : Fin 2 → IVec S16 32) a x).toNat < S64x128.size a) (x : S16.Idx) :
    k0_pay95 (loadIdx Pc ![(k0_pay85 k0_pay169 w), k0_pay88 o (k0_pay87 iotaV 0#32 1#32 k)] hP) (loadIdx Gc ![k0_pay176, (k0_pay87 iotaV 0#32 1#32 k)] hG) x
      = Tslot Gc Pc o w hw ho (idxAt ![(k0_pay87 iotaV 0#32 1#32 k), k0_pay176] hS x) :=
  store_value Gc Pc o w hw ho (k0_pay87 iotaV 0#32 1#32 k) k0_pay176 (k0_pay85 k0_pay169 w) (k0_pay88 o (k0_pay87 iotaV 0#32 1#32 k)) (prow_toNat w)
    (fun x => pcol0_toNat o _ x (gcol0_lt k x) ho) hP hG hS x

theorem hit_d0_j6 (k : Fin k0_t4_loop.trips)
    (hS : ∀ a x, ((![(k0_pay87 iotaV 0#32 1#32 k), k0_pay176] : Fin 2 → IVec S16 32) a x).toNat < S64x128.size a) :
    {p | ∃ x, idxAt ![(k0_pay87 iotaV 0#32 1#32 k), k0_pay176] hS x = p} = Hit 0 6 k.val :=
  hit_eq 0 6 k.val (k0_pay87 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay88 o (k0_pay87 iotaV 0#32 1#32 k)] : Fin 2 → IVec S16 32) a x).toNat < S100x128.size a)
    (hG : ∀ a x, ((![k0_pay177, (k0_pay87 iotaV 0#32 1#32 k)] : Fin 2 → IVec S16 32) a x).toNat < S128x128.size a)
    (hS : ∀ a x, ((![(k0_pay87 iotaV 0#32 1#32 k), k0_pay177] : Fin 2 → IVec S16 32) a x).toNat < S64x128.size a) (x : S16.Idx) :
    k0_pay96 (loadIdx Pc ![(k0_pay85 k0_pay169 w), k0_pay88 o (k0_pay87 iotaV 0#32 1#32 k)] hP) (loadIdx Gc ![k0_pay177, (k0_pay87 iotaV 0#32 1#32 k)] hG) x
      = Tslot Gc Pc o w hw ho (idxAt ![(k0_pay87 iotaV 0#32 1#32 k), k0_pay177] hS x) :=
  store_value Gc Pc o w hw ho (k0_pay87 iotaV 0#32 1#32 k) k0_pay177 (k0_pay85 k0_pay169 w) (k0_pay88 o (k0_pay87 iotaV 0#32 1#32 k)) (prow_toNat w)
    (fun x => pcol0_toNat o _ x (gcol0_lt k x) ho) hP hG hS x

theorem hit_d0_j7 (k : Fin k0_t4_loop.trips)
    (hS : ∀ a x, ((![(k0_pay87 iotaV 0#32 1#32 k), k0_pay177] : Fin 2 → IVec S16 32) a x).toNat < S64x128.size a) :
    {p | ∃ x, idxAt ![(k0_pay87 iotaV 0#32 1#32 k), k0_pay177] hS x = p} = Hit 0 7 k.val :=
  hit_eq 0 7 k.val (k0_pay87 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay170, (k0_pay97 (k0_pay86 iotaV 0#32 1#32 k))] : Fin 2 → IVec S16 32) a x).toNat < S128x128.size a)
    (hS : ∀ a x, ((![(k0_pay97 (k0_pay86 iotaV 0#32 1#32 k)), k0_pay170] : Fin 2 → IVec S16 32) a x).toNat < S64x128.size a) (x : S16.Idx) :
    k0_pay99 (loadIdx Pc ![(k0_pay85 k0_pay169 w), k0_pay98 o (k0_pay97 (k0_pay86 iotaV 0#32 1#32 k))] hP) (loadIdx Gc ![k0_pay170, (k0_pay97 (k0_pay86 iotaV 0#32 1#32 k))] hG) x
      = Tslot Gc Pc o w hw ho (idxAt ![(k0_pay97 (k0_pay86 iotaV 0#32 1#32 k)), k0_pay170] hS x) :=
  store_value Gc Pc o w hw ho (k0_pay97 (k0_pay86 iotaV 0#32 1#32 k)) k0_pay170 (k0_pay85 k0_pay169 w) (k0_pay98 o (k0_pay97 (k0_pay86 iotaV 0#32 1#32 k))) (prow_toNat w)
    (fun x => pcol1_toNat o _ x (gcol1_lt k x) ho) hP hG hS x

theorem hit_d1_j0 (k : Fin k0_t4_loop.trips)
    (hS : ∀ a x, ((![(k0_pay97 (k0_pay86 iotaV 0#32 1#32 k)), k0_pay170] : Fin 2 → IVec S16 32) a x).toNat < S64x128.size a) :
    {p | ∃ x, idxAt ![(k0_pay97 (k0_pay86 iotaV 0#32 1#32 k)), k0_pay170] hS x = p} = Hit 1 0 k.val :=
  hit_eq 1 0 k.val (k0_pay97 (k0_pay86 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay171, (k0_pay97 (k0_pay86 iotaV 0#32 1#32 k))] : Fin 2 → IVec S16 32) a x).toNat < S128x128.size a)
    (hS : ∀ a x, ((![(k0_pay97 (k0_pay86 iotaV 0#32 1#32 k)), k0_pay171] : Fin 2 → IVec S16 32) a x).toNat < S64x128.size a) (x : S16.Idx) :
    k0_pay100 (loadIdx Pc ![(k0_pay85 k0_pay169 w), k0_pay98 o (k0_pay97 (k0_pay86 iotaV 0#32 1#32 k))] hP) (loadIdx Gc ![k0_pay171, (k0_pay97 (k0_pay86 iotaV 0#32 1#32 k))] hG) x
      = Tslot Gc Pc o w hw ho (idxAt ![(k0_pay97 (k0_pay86 iotaV 0#32 1#32 k)), k0_pay171] hS x) :=
  store_value Gc Pc o w hw ho (k0_pay97 (k0_pay86 iotaV 0#32 1#32 k)) k0_pay171 (k0_pay85 k0_pay169 w) (k0_pay98 o (k0_pay97 (k0_pay86 iotaV 0#32 1#32 k))) (prow_toNat w)
    (fun x => pcol1_toNat o _ x (gcol1_lt k x) ho) hP hG hS x

theorem hit_d1_j1 (k : Fin k0_t4_loop.trips)
    (hS : ∀ a x, ((![(k0_pay97 (k0_pay86 iotaV 0#32 1#32 k)), k0_pay171] : Fin 2 → IVec S16 32) a x).toNat < S64x128.size a) :
    {p | ∃ x, idxAt ![(k0_pay97 (k0_pay86 iotaV 0#32 1#32 k)), k0_pay171] hS x = p} = Hit 1 1 k.val :=
  hit_eq 1 1 k.val (k0_pay97 (k0_pay86 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay172, (k0_pay97 (k0_pay86 iotaV 0#32 1#32 k))] : Fin 2 → IVec S16 32) a x).toNat < S128x128.size a)
    (hS : ∀ a x, ((![(k0_pay97 (k0_pay86 iotaV 0#32 1#32 k)), k0_pay172] : Fin 2 → IVec S16 32) a x).toNat < S64x128.size a) (x : S16.Idx) :
    k0_pay101 (loadIdx Pc ![(k0_pay85 k0_pay169 w), k0_pay98 o (k0_pay97 (k0_pay86 iotaV 0#32 1#32 k))] hP) (loadIdx Gc ![k0_pay172, (k0_pay97 (k0_pay86 iotaV 0#32 1#32 k))] hG) x
      = Tslot Gc Pc o w hw ho (idxAt ![(k0_pay97 (k0_pay86 iotaV 0#32 1#32 k)), k0_pay172] hS x) :=
  store_value Gc Pc o w hw ho (k0_pay97 (k0_pay86 iotaV 0#32 1#32 k)) k0_pay172 (k0_pay85 k0_pay169 w) (k0_pay98 o (k0_pay97 (k0_pay86 iotaV 0#32 1#32 k))) (prow_toNat w)
    (fun x => pcol1_toNat o _ x (gcol1_lt k x) ho) hP hG hS x

theorem hit_d1_j2 (k : Fin k0_t4_loop.trips)
    (hS : ∀ a x, ((![(k0_pay97 (k0_pay86 iotaV 0#32 1#32 k)), k0_pay172] : Fin 2 → IVec S16 32) a x).toNat < S64x128.size a) :
    {p | ∃ x, idxAt ![(k0_pay97 (k0_pay86 iotaV 0#32 1#32 k)), k0_pay172] hS x = p} = Hit 1 2 k.val :=
  hit_eq 1 2 k.val (k0_pay97 (k0_pay86 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay173, (k0_pay97 (k0_pay86 iotaV 0#32 1#32 k))] : Fin 2 → IVec S16 32) a x).toNat < S128x128.size a)
    (hS : ∀ a x, ((![(k0_pay97 (k0_pay86 iotaV 0#32 1#32 k)), k0_pay173] : Fin 2 → IVec S16 32) a x).toNat < S64x128.size a) (x : S16.Idx) :
    k0_pay102 (loadIdx Pc ![(k0_pay85 k0_pay169 w), k0_pay98 o (k0_pay97 (k0_pay86 iotaV 0#32 1#32 k))] hP) (loadIdx Gc ![k0_pay173, (k0_pay97 (k0_pay86 iotaV 0#32 1#32 k))] hG) x
      = Tslot Gc Pc o w hw ho (idxAt ![(k0_pay97 (k0_pay86 iotaV 0#32 1#32 k)), k0_pay173] hS x) :=
  store_value Gc Pc o w hw ho (k0_pay97 (k0_pay86 iotaV 0#32 1#32 k)) k0_pay173 (k0_pay85 k0_pay169 w) (k0_pay98 o (k0_pay97 (k0_pay86 iotaV 0#32 1#32 k))) (prow_toNat w)
    (fun x => pcol1_toNat o _ x (gcol1_lt k x) ho) hP hG hS x

theorem hit_d1_j3 (k : Fin k0_t4_loop.trips)
    (hS : ∀ a x, ((![(k0_pay97 (k0_pay86 iotaV 0#32 1#32 k)), k0_pay173] : Fin 2 → IVec S16 32) a x).toNat < S64x128.size a) :
    {p | ∃ x, idxAt ![(k0_pay97 (k0_pay86 iotaV 0#32 1#32 k)), k0_pay173] hS x = p} = Hit 1 3 k.val :=
  hit_eq 1 3 k.val (k0_pay97 (k0_pay86 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay174, (k0_pay97 (k0_pay86 iotaV 0#32 1#32 k))] : Fin 2 → IVec S16 32) a x).toNat < S128x128.size a)
    (hS : ∀ a x, ((![(k0_pay97 (k0_pay86 iotaV 0#32 1#32 k)), k0_pay174] : Fin 2 → IVec S16 32) a x).toNat < S64x128.size a) (x : S16.Idx) :
    k0_pay103 (loadIdx Pc ![(k0_pay85 k0_pay169 w), k0_pay98 o (k0_pay97 (k0_pay86 iotaV 0#32 1#32 k))] hP) (loadIdx Gc ![k0_pay174, (k0_pay97 (k0_pay86 iotaV 0#32 1#32 k))] hG) x
      = Tslot Gc Pc o w hw ho (idxAt ![(k0_pay97 (k0_pay86 iotaV 0#32 1#32 k)), k0_pay174] hS x) :=
  store_value Gc Pc o w hw ho (k0_pay97 (k0_pay86 iotaV 0#32 1#32 k)) k0_pay174 (k0_pay85 k0_pay169 w) (k0_pay98 o (k0_pay97 (k0_pay86 iotaV 0#32 1#32 k))) (prow_toNat w)
    (fun x => pcol1_toNat o _ x (gcol1_lt k x) ho) hP hG hS x

theorem hit_d1_j4 (k : Fin k0_t4_loop.trips)
    (hS : ∀ a x, ((![(k0_pay97 (k0_pay86 iotaV 0#32 1#32 k)), k0_pay174] : Fin 2 → IVec S16 32) a x).toNat < S64x128.size a) :
    {p | ∃ x, idxAt ![(k0_pay97 (k0_pay86 iotaV 0#32 1#32 k)), k0_pay174] hS x = p} = Hit 1 4 k.val :=
  hit_eq 1 4 k.val (k0_pay97 (k0_pay86 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay175, (k0_pay97 (k0_pay86 iotaV 0#32 1#32 k))] : Fin 2 → IVec S16 32) a x).toNat < S128x128.size a)
    (hS : ∀ a x, ((![(k0_pay97 (k0_pay86 iotaV 0#32 1#32 k)), k0_pay175] : Fin 2 → IVec S16 32) a x).toNat < S64x128.size a) (x : S16.Idx) :
    k0_pay104 (loadIdx Pc ![(k0_pay85 k0_pay169 w), k0_pay98 o (k0_pay97 (k0_pay86 iotaV 0#32 1#32 k))] hP) (loadIdx Gc ![k0_pay175, (k0_pay97 (k0_pay86 iotaV 0#32 1#32 k))] hG) x
      = Tslot Gc Pc o w hw ho (idxAt ![(k0_pay97 (k0_pay86 iotaV 0#32 1#32 k)), k0_pay175] hS x) :=
  store_value Gc Pc o w hw ho (k0_pay97 (k0_pay86 iotaV 0#32 1#32 k)) k0_pay175 (k0_pay85 k0_pay169 w) (k0_pay98 o (k0_pay97 (k0_pay86 iotaV 0#32 1#32 k))) (prow_toNat w)
    (fun x => pcol1_toNat o _ x (gcol1_lt k x) ho) hP hG hS x

theorem hit_d1_j5 (k : Fin k0_t4_loop.trips)
    (hS : ∀ a x, ((![(k0_pay97 (k0_pay86 iotaV 0#32 1#32 k)), k0_pay175] : Fin 2 → IVec S16 32) a x).toNat < S64x128.size a) :
    {p | ∃ x, idxAt ![(k0_pay97 (k0_pay86 iotaV 0#32 1#32 k)), k0_pay175] hS x = p} = Hit 1 5 k.val :=
  hit_eq 1 5 k.val (k0_pay97 (k0_pay86 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay176, (k0_pay97 (k0_pay86 iotaV 0#32 1#32 k))] : Fin 2 → IVec S16 32) a x).toNat < S128x128.size a)
    (hS : ∀ a x, ((![(k0_pay97 (k0_pay86 iotaV 0#32 1#32 k)), k0_pay176] : Fin 2 → IVec S16 32) a x).toNat < S64x128.size a) (x : S16.Idx) :
    k0_pay105 (loadIdx Pc ![(k0_pay85 k0_pay169 w), k0_pay98 o (k0_pay97 (k0_pay86 iotaV 0#32 1#32 k))] hP) (loadIdx Gc ![k0_pay176, (k0_pay97 (k0_pay86 iotaV 0#32 1#32 k))] hG) x
      = Tslot Gc Pc o w hw ho (idxAt ![(k0_pay97 (k0_pay86 iotaV 0#32 1#32 k)), k0_pay176] hS x) :=
  store_value Gc Pc o w hw ho (k0_pay97 (k0_pay86 iotaV 0#32 1#32 k)) k0_pay176 (k0_pay85 k0_pay169 w) (k0_pay98 o (k0_pay97 (k0_pay86 iotaV 0#32 1#32 k))) (prow_toNat w)
    (fun x => pcol1_toNat o _ x (gcol1_lt k x) ho) hP hG hS x

theorem hit_d1_j6 (k : Fin k0_t4_loop.trips)
    (hS : ∀ a x, ((![(k0_pay97 (k0_pay86 iotaV 0#32 1#32 k)), k0_pay176] : Fin 2 → IVec S16 32) a x).toNat < S64x128.size a) :
    {p | ∃ x, idxAt ![(k0_pay97 (k0_pay86 iotaV 0#32 1#32 k)), k0_pay176] hS x = p} = Hit 1 6 k.val :=
  hit_eq 1 6 k.val (k0_pay97 (k0_pay86 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay98 o (k0_pay97 (k0_pay86 iotaV 0#32 1#32 k))] : Fin 2 → IVec S16 32) a x).toNat < S100x128.size a)
    (hG : ∀ a x, ((![k0_pay177, (k0_pay97 (k0_pay86 iotaV 0#32 1#32 k))] : Fin 2 → IVec S16 32) a x).toNat < S128x128.size a)
    (hS : ∀ a x, ((![(k0_pay97 (k0_pay86 iotaV 0#32 1#32 k)), k0_pay177] : Fin 2 → IVec S16 32) a x).toNat < S64x128.size a) (x : S16.Idx) :
    k0_pay106 (loadIdx Pc ![(k0_pay85 k0_pay169 w), k0_pay98 o (k0_pay97 (k0_pay86 iotaV 0#32 1#32 k))] hP) (loadIdx Gc ![k0_pay177, (k0_pay97 (k0_pay86 iotaV 0#32 1#32 k))] hG) x
      = Tslot Gc Pc o w hw ho (idxAt ![(k0_pay97 (k0_pay86 iotaV 0#32 1#32 k)), k0_pay177] hS x) :=
  store_value Gc Pc o w hw ho (k0_pay97 (k0_pay86 iotaV 0#32 1#32 k)) k0_pay177 (k0_pay85 k0_pay169 w) (k0_pay98 o (k0_pay97 (k0_pay86 iotaV 0#32 1#32 k))) (prow_toNat w)
    (fun x => pcol1_toNat o _ x (gcol1_lt k x) ho) hP hG hS x

theorem hit_d1_j7 (k : Fin k0_t4_loop.trips)
    (hS : ∀ a x, ((![(k0_pay97 (k0_pay86 iotaV 0#32 1#32 k)), k0_pay177] : Fin 2 → IVec S16 32) a x).toNat < S64x128.size a) :
    {p | ∃ x, idxAt ![(k0_pay97 (k0_pay86 iotaV 0#32 1#32 k)), k0_pay177] hS x = p} = Hit 1 7 k.val :=
  hit_eq 1 7 k.val (k0_pay97 (k0_pay86 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay170, (k0_pay107 (k0_pay86 iotaV 0#32 1#32 k))] : Fin 2 → IVec S16 32) a x).toNat < S128x128.size a)
    (hS : ∀ a x, ((![(k0_pay107 (k0_pay86 iotaV 0#32 1#32 k)), k0_pay170] : Fin 2 → IVec S16 32) a x).toNat < S64x128.size a) (x : S16.Idx) :
    k0_pay109 (loadIdx Pc ![(k0_pay85 k0_pay169 w), k0_pay108 o (k0_pay107 (k0_pay86 iotaV 0#32 1#32 k))] hP) (loadIdx Gc ![k0_pay170, (k0_pay107 (k0_pay86 iotaV 0#32 1#32 k))] hG) x
      = Tslot Gc Pc o w hw ho (idxAt ![(k0_pay107 (k0_pay86 iotaV 0#32 1#32 k)), k0_pay170] hS x) :=
  store_value Gc Pc o w hw ho (k0_pay107 (k0_pay86 iotaV 0#32 1#32 k)) k0_pay170 (k0_pay85 k0_pay169 w) (k0_pay108 o (k0_pay107 (k0_pay86 iotaV 0#32 1#32 k))) (prow_toNat w)
    (fun x => pcol2_toNat o _ x (gcol2_lt k x) ho) hP hG hS x

theorem hit_d2_j0 (k : Fin k0_t4_loop.trips)
    (hS : ∀ a x, ((![(k0_pay107 (k0_pay86 iotaV 0#32 1#32 k)), k0_pay170] : Fin 2 → IVec S16 32) a x).toNat < S64x128.size a) :
    {p | ∃ x, idxAt ![(k0_pay107 (k0_pay86 iotaV 0#32 1#32 k)), k0_pay170] hS x = p} = Hit 2 0 k.val :=
  hit_eq 2 0 k.val (k0_pay107 (k0_pay86 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay171, (k0_pay107 (k0_pay86 iotaV 0#32 1#32 k))] : Fin 2 → IVec S16 32) a x).toNat < S128x128.size a)
    (hS : ∀ a x, ((![(k0_pay107 (k0_pay86 iotaV 0#32 1#32 k)), k0_pay171] : Fin 2 → IVec S16 32) a x).toNat < S64x128.size a) (x : S16.Idx) :
    k0_pay110 (loadIdx Pc ![(k0_pay85 k0_pay169 w), k0_pay108 o (k0_pay107 (k0_pay86 iotaV 0#32 1#32 k))] hP) (loadIdx Gc ![k0_pay171, (k0_pay107 (k0_pay86 iotaV 0#32 1#32 k))] hG) x
      = Tslot Gc Pc o w hw ho (idxAt ![(k0_pay107 (k0_pay86 iotaV 0#32 1#32 k)), k0_pay171] hS x) :=
  store_value Gc Pc o w hw ho (k0_pay107 (k0_pay86 iotaV 0#32 1#32 k)) k0_pay171 (k0_pay85 k0_pay169 w) (k0_pay108 o (k0_pay107 (k0_pay86 iotaV 0#32 1#32 k))) (prow_toNat w)
    (fun x => pcol2_toNat o _ x (gcol2_lt k x) ho) hP hG hS x

theorem hit_d2_j1 (k : Fin k0_t4_loop.trips)
    (hS : ∀ a x, ((![(k0_pay107 (k0_pay86 iotaV 0#32 1#32 k)), k0_pay171] : Fin 2 → IVec S16 32) a x).toNat < S64x128.size a) :
    {p | ∃ x, idxAt ![(k0_pay107 (k0_pay86 iotaV 0#32 1#32 k)), k0_pay171] hS x = p} = Hit 2 1 k.val :=
  hit_eq 2 1 k.val (k0_pay107 (k0_pay86 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay172, (k0_pay107 (k0_pay86 iotaV 0#32 1#32 k))] : Fin 2 → IVec S16 32) a x).toNat < S128x128.size a)
    (hS : ∀ a x, ((![(k0_pay107 (k0_pay86 iotaV 0#32 1#32 k)), k0_pay172] : Fin 2 → IVec S16 32) a x).toNat < S64x128.size a) (x : S16.Idx) :
    k0_pay111 (loadIdx Pc ![(k0_pay85 k0_pay169 w), k0_pay108 o (k0_pay107 (k0_pay86 iotaV 0#32 1#32 k))] hP) (loadIdx Gc ![k0_pay172, (k0_pay107 (k0_pay86 iotaV 0#32 1#32 k))] hG) x
      = Tslot Gc Pc o w hw ho (idxAt ![(k0_pay107 (k0_pay86 iotaV 0#32 1#32 k)), k0_pay172] hS x) :=
  store_value Gc Pc o w hw ho (k0_pay107 (k0_pay86 iotaV 0#32 1#32 k)) k0_pay172 (k0_pay85 k0_pay169 w) (k0_pay108 o (k0_pay107 (k0_pay86 iotaV 0#32 1#32 k))) (prow_toNat w)
    (fun x => pcol2_toNat o _ x (gcol2_lt k x) ho) hP hG hS x

theorem hit_d2_j2 (k : Fin k0_t4_loop.trips)
    (hS : ∀ a x, ((![(k0_pay107 (k0_pay86 iotaV 0#32 1#32 k)), k0_pay172] : Fin 2 → IVec S16 32) a x).toNat < S64x128.size a) :
    {p | ∃ x, idxAt ![(k0_pay107 (k0_pay86 iotaV 0#32 1#32 k)), k0_pay172] hS x = p} = Hit 2 2 k.val :=
  hit_eq 2 2 k.val (k0_pay107 (k0_pay86 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay173, (k0_pay107 (k0_pay86 iotaV 0#32 1#32 k))] : Fin 2 → IVec S16 32) a x).toNat < S128x128.size a)
    (hS : ∀ a x, ((![(k0_pay107 (k0_pay86 iotaV 0#32 1#32 k)), k0_pay173] : Fin 2 → IVec S16 32) a x).toNat < S64x128.size a) (x : S16.Idx) :
    k0_pay112 (loadIdx Pc ![(k0_pay85 k0_pay169 w), k0_pay108 o (k0_pay107 (k0_pay86 iotaV 0#32 1#32 k))] hP) (loadIdx Gc ![k0_pay173, (k0_pay107 (k0_pay86 iotaV 0#32 1#32 k))] hG) x
      = Tslot Gc Pc o w hw ho (idxAt ![(k0_pay107 (k0_pay86 iotaV 0#32 1#32 k)), k0_pay173] hS x) :=
  store_value Gc Pc o w hw ho (k0_pay107 (k0_pay86 iotaV 0#32 1#32 k)) k0_pay173 (k0_pay85 k0_pay169 w) (k0_pay108 o (k0_pay107 (k0_pay86 iotaV 0#32 1#32 k))) (prow_toNat w)
    (fun x => pcol2_toNat o _ x (gcol2_lt k x) ho) hP hG hS x

theorem hit_d2_j3 (k : Fin k0_t4_loop.trips)
    (hS : ∀ a x, ((![(k0_pay107 (k0_pay86 iotaV 0#32 1#32 k)), k0_pay173] : Fin 2 → IVec S16 32) a x).toNat < S64x128.size a) :
    {p | ∃ x, idxAt ![(k0_pay107 (k0_pay86 iotaV 0#32 1#32 k)), k0_pay173] hS x = p} = Hit 2 3 k.val :=
  hit_eq 2 3 k.val (k0_pay107 (k0_pay86 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay174, (k0_pay107 (k0_pay86 iotaV 0#32 1#32 k))] : Fin 2 → IVec S16 32) a x).toNat < S128x128.size a)
    (hS : ∀ a x, ((![(k0_pay107 (k0_pay86 iotaV 0#32 1#32 k)), k0_pay174] : Fin 2 → IVec S16 32) a x).toNat < S64x128.size a) (x : S16.Idx) :
    k0_pay113 (loadIdx Pc ![(k0_pay85 k0_pay169 w), k0_pay108 o (k0_pay107 (k0_pay86 iotaV 0#32 1#32 k))] hP) (loadIdx Gc ![k0_pay174, (k0_pay107 (k0_pay86 iotaV 0#32 1#32 k))] hG) x
      = Tslot Gc Pc o w hw ho (idxAt ![(k0_pay107 (k0_pay86 iotaV 0#32 1#32 k)), k0_pay174] hS x) :=
  store_value Gc Pc o w hw ho (k0_pay107 (k0_pay86 iotaV 0#32 1#32 k)) k0_pay174 (k0_pay85 k0_pay169 w) (k0_pay108 o (k0_pay107 (k0_pay86 iotaV 0#32 1#32 k))) (prow_toNat w)
    (fun x => pcol2_toNat o _ x (gcol2_lt k x) ho) hP hG hS x

theorem hit_d2_j4 (k : Fin k0_t4_loop.trips)
    (hS : ∀ a x, ((![(k0_pay107 (k0_pay86 iotaV 0#32 1#32 k)), k0_pay174] : Fin 2 → IVec S16 32) a x).toNat < S64x128.size a) :
    {p | ∃ x, idxAt ![(k0_pay107 (k0_pay86 iotaV 0#32 1#32 k)), k0_pay174] hS x = p} = Hit 2 4 k.val :=
  hit_eq 2 4 k.val (k0_pay107 (k0_pay86 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay175, (k0_pay107 (k0_pay86 iotaV 0#32 1#32 k))] : Fin 2 → IVec S16 32) a x).toNat < S128x128.size a)
    (hS : ∀ a x, ((![(k0_pay107 (k0_pay86 iotaV 0#32 1#32 k)), k0_pay175] : Fin 2 → IVec S16 32) a x).toNat < S64x128.size a) (x : S16.Idx) :
    k0_pay114 (loadIdx Pc ![(k0_pay85 k0_pay169 w), k0_pay108 o (k0_pay107 (k0_pay86 iotaV 0#32 1#32 k))] hP) (loadIdx Gc ![k0_pay175, (k0_pay107 (k0_pay86 iotaV 0#32 1#32 k))] hG) x
      = Tslot Gc Pc o w hw ho (idxAt ![(k0_pay107 (k0_pay86 iotaV 0#32 1#32 k)), k0_pay175] hS x) :=
  store_value Gc Pc o w hw ho (k0_pay107 (k0_pay86 iotaV 0#32 1#32 k)) k0_pay175 (k0_pay85 k0_pay169 w) (k0_pay108 o (k0_pay107 (k0_pay86 iotaV 0#32 1#32 k))) (prow_toNat w)
    (fun x => pcol2_toNat o _ x (gcol2_lt k x) ho) hP hG hS x

theorem hit_d2_j5 (k : Fin k0_t4_loop.trips)
    (hS : ∀ a x, ((![(k0_pay107 (k0_pay86 iotaV 0#32 1#32 k)), k0_pay175] : Fin 2 → IVec S16 32) a x).toNat < S64x128.size a) :
    {p | ∃ x, idxAt ![(k0_pay107 (k0_pay86 iotaV 0#32 1#32 k)), k0_pay175] hS x = p} = Hit 2 5 k.val :=
  hit_eq 2 5 k.val (k0_pay107 (k0_pay86 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay176, (k0_pay107 (k0_pay86 iotaV 0#32 1#32 k))] : Fin 2 → IVec S16 32) a x).toNat < S128x128.size a)
    (hS : ∀ a x, ((![(k0_pay107 (k0_pay86 iotaV 0#32 1#32 k)), k0_pay176] : Fin 2 → IVec S16 32) a x).toNat < S64x128.size a) (x : S16.Idx) :
    k0_pay115 (loadIdx Pc ![(k0_pay85 k0_pay169 w), k0_pay108 o (k0_pay107 (k0_pay86 iotaV 0#32 1#32 k))] hP) (loadIdx Gc ![k0_pay176, (k0_pay107 (k0_pay86 iotaV 0#32 1#32 k))] hG) x
      = Tslot Gc Pc o w hw ho (idxAt ![(k0_pay107 (k0_pay86 iotaV 0#32 1#32 k)), k0_pay176] hS x) :=
  store_value Gc Pc o w hw ho (k0_pay107 (k0_pay86 iotaV 0#32 1#32 k)) k0_pay176 (k0_pay85 k0_pay169 w) (k0_pay108 o (k0_pay107 (k0_pay86 iotaV 0#32 1#32 k))) (prow_toNat w)
    (fun x => pcol2_toNat o _ x (gcol2_lt k x) ho) hP hG hS x

theorem hit_d2_j6 (k : Fin k0_t4_loop.trips)
    (hS : ∀ a x, ((![(k0_pay107 (k0_pay86 iotaV 0#32 1#32 k)), k0_pay176] : Fin 2 → IVec S16 32) a x).toNat < S64x128.size a) :
    {p | ∃ x, idxAt ![(k0_pay107 (k0_pay86 iotaV 0#32 1#32 k)), k0_pay176] hS x = p} = Hit 2 6 k.val :=
  hit_eq 2 6 k.val (k0_pay107 (k0_pay86 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay108 o (k0_pay107 (k0_pay86 iotaV 0#32 1#32 k))] : Fin 2 → IVec S16 32) a x).toNat < S100x128.size a)
    (hG : ∀ a x, ((![k0_pay177, (k0_pay107 (k0_pay86 iotaV 0#32 1#32 k))] : Fin 2 → IVec S16 32) a x).toNat < S128x128.size a)
    (hS : ∀ a x, ((![(k0_pay107 (k0_pay86 iotaV 0#32 1#32 k)), k0_pay177] : Fin 2 → IVec S16 32) a x).toNat < S64x128.size a) (x : S16.Idx) :
    k0_pay116 (loadIdx Pc ![(k0_pay85 k0_pay169 w), k0_pay108 o (k0_pay107 (k0_pay86 iotaV 0#32 1#32 k))] hP) (loadIdx Gc ![k0_pay177, (k0_pay107 (k0_pay86 iotaV 0#32 1#32 k))] hG) x
      = Tslot Gc Pc o w hw ho (idxAt ![(k0_pay107 (k0_pay86 iotaV 0#32 1#32 k)), k0_pay177] hS x) :=
  store_value Gc Pc o w hw ho (k0_pay107 (k0_pay86 iotaV 0#32 1#32 k)) k0_pay177 (k0_pay85 k0_pay169 w) (k0_pay108 o (k0_pay107 (k0_pay86 iotaV 0#32 1#32 k))) (prow_toNat w)
    (fun x => pcol2_toNat o _ x (gcol2_lt k x) ho) hP hG hS x

theorem hit_d2_j7 (k : Fin k0_t4_loop.trips)
    (hS : ∀ a x, ((![(k0_pay107 (k0_pay86 iotaV 0#32 1#32 k)), k0_pay177] : Fin 2 → IVec S16 32) a x).toNat < S64x128.size a) :
    {p | ∃ x, idxAt ![(k0_pay107 (k0_pay86 iotaV 0#32 1#32 k)), k0_pay177] hS x = p} = Hit 2 7 k.val :=
  hit_eq 2 7 k.val (k0_pay107 (k0_pay86 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay170, (k0_pay117 (k0_pay86 iotaV 0#32 1#32 k))] : Fin 2 → IVec S16 32) a x).toNat < S128x128.size a)
    (hS : ∀ a x, ((![(k0_pay117 (k0_pay86 iotaV 0#32 1#32 k)), k0_pay170] : Fin 2 → IVec S16 32) a x).toNat < S64x128.size a) (x : S16.Idx) :
    k0_pay119 (loadIdx Pc ![(k0_pay85 k0_pay169 w), k0_pay118 o (k0_pay117 (k0_pay86 iotaV 0#32 1#32 k))] hP) (loadIdx Gc ![k0_pay170, (k0_pay117 (k0_pay86 iotaV 0#32 1#32 k))] hG) x
      = Tslot Gc Pc o w hw ho (idxAt ![(k0_pay117 (k0_pay86 iotaV 0#32 1#32 k)), k0_pay170] hS x) :=
  store_value Gc Pc o w hw ho (k0_pay117 (k0_pay86 iotaV 0#32 1#32 k)) k0_pay170 (k0_pay85 k0_pay169 w) (k0_pay118 o (k0_pay117 (k0_pay86 iotaV 0#32 1#32 k))) (prow_toNat w)
    (fun x => pcol3_toNat o _ x (gcol3_lt k x) ho) hP hG hS x

theorem hit_d3_j0 (k : Fin k0_t4_loop.trips)
    (hS : ∀ a x, ((![(k0_pay117 (k0_pay86 iotaV 0#32 1#32 k)), k0_pay170] : Fin 2 → IVec S16 32) a x).toNat < S64x128.size a) :
    {p | ∃ x, idxAt ![(k0_pay117 (k0_pay86 iotaV 0#32 1#32 k)), k0_pay170] hS x = p} = Hit 3 0 k.val :=
  hit_eq 3 0 k.val (k0_pay117 (k0_pay86 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay171, (k0_pay117 (k0_pay86 iotaV 0#32 1#32 k))] : Fin 2 → IVec S16 32) a x).toNat < S128x128.size a)
    (hS : ∀ a x, ((![(k0_pay117 (k0_pay86 iotaV 0#32 1#32 k)), k0_pay171] : Fin 2 → IVec S16 32) a x).toNat < S64x128.size a) (x : S16.Idx) :
    k0_pay120 (loadIdx Pc ![(k0_pay85 k0_pay169 w), k0_pay118 o (k0_pay117 (k0_pay86 iotaV 0#32 1#32 k))] hP) (loadIdx Gc ![k0_pay171, (k0_pay117 (k0_pay86 iotaV 0#32 1#32 k))] hG) x
      = Tslot Gc Pc o w hw ho (idxAt ![(k0_pay117 (k0_pay86 iotaV 0#32 1#32 k)), k0_pay171] hS x) :=
  store_value Gc Pc o w hw ho (k0_pay117 (k0_pay86 iotaV 0#32 1#32 k)) k0_pay171 (k0_pay85 k0_pay169 w) (k0_pay118 o (k0_pay117 (k0_pay86 iotaV 0#32 1#32 k))) (prow_toNat w)
    (fun x => pcol3_toNat o _ x (gcol3_lt k x) ho) hP hG hS x

theorem hit_d3_j1 (k : Fin k0_t4_loop.trips)
    (hS : ∀ a x, ((![(k0_pay117 (k0_pay86 iotaV 0#32 1#32 k)), k0_pay171] : Fin 2 → IVec S16 32) a x).toNat < S64x128.size a) :
    {p | ∃ x, idxAt ![(k0_pay117 (k0_pay86 iotaV 0#32 1#32 k)), k0_pay171] hS x = p} = Hit 3 1 k.val :=
  hit_eq 3 1 k.val (k0_pay117 (k0_pay86 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay172, (k0_pay117 (k0_pay86 iotaV 0#32 1#32 k))] : Fin 2 → IVec S16 32) a x).toNat < S128x128.size a)
    (hS : ∀ a x, ((![(k0_pay117 (k0_pay86 iotaV 0#32 1#32 k)), k0_pay172] : Fin 2 → IVec S16 32) a x).toNat < S64x128.size a) (x : S16.Idx) :
    k0_pay121 (loadIdx Pc ![(k0_pay85 k0_pay169 w), k0_pay118 o (k0_pay117 (k0_pay86 iotaV 0#32 1#32 k))] hP) (loadIdx Gc ![k0_pay172, (k0_pay117 (k0_pay86 iotaV 0#32 1#32 k))] hG) x
      = Tslot Gc Pc o w hw ho (idxAt ![(k0_pay117 (k0_pay86 iotaV 0#32 1#32 k)), k0_pay172] hS x) :=
  store_value Gc Pc o w hw ho (k0_pay117 (k0_pay86 iotaV 0#32 1#32 k)) k0_pay172 (k0_pay85 k0_pay169 w) (k0_pay118 o (k0_pay117 (k0_pay86 iotaV 0#32 1#32 k))) (prow_toNat w)
    (fun x => pcol3_toNat o _ x (gcol3_lt k x) ho) hP hG hS x

theorem hit_d3_j2 (k : Fin k0_t4_loop.trips)
    (hS : ∀ a x, ((![(k0_pay117 (k0_pay86 iotaV 0#32 1#32 k)), k0_pay172] : Fin 2 → IVec S16 32) a x).toNat < S64x128.size a) :
    {p | ∃ x, idxAt ![(k0_pay117 (k0_pay86 iotaV 0#32 1#32 k)), k0_pay172] hS x = p} = Hit 3 2 k.val :=
  hit_eq 3 2 k.val (k0_pay117 (k0_pay86 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay173, (k0_pay117 (k0_pay86 iotaV 0#32 1#32 k))] : Fin 2 → IVec S16 32) a x).toNat < S128x128.size a)
    (hS : ∀ a x, ((![(k0_pay117 (k0_pay86 iotaV 0#32 1#32 k)), k0_pay173] : Fin 2 → IVec S16 32) a x).toNat < S64x128.size a) (x : S16.Idx) :
    k0_pay122 (loadIdx Pc ![(k0_pay85 k0_pay169 w), k0_pay118 o (k0_pay117 (k0_pay86 iotaV 0#32 1#32 k))] hP) (loadIdx Gc ![k0_pay173, (k0_pay117 (k0_pay86 iotaV 0#32 1#32 k))] hG) x
      = Tslot Gc Pc o w hw ho (idxAt ![(k0_pay117 (k0_pay86 iotaV 0#32 1#32 k)), k0_pay173] hS x) :=
  store_value Gc Pc o w hw ho (k0_pay117 (k0_pay86 iotaV 0#32 1#32 k)) k0_pay173 (k0_pay85 k0_pay169 w) (k0_pay118 o (k0_pay117 (k0_pay86 iotaV 0#32 1#32 k))) (prow_toNat w)
    (fun x => pcol3_toNat o _ x (gcol3_lt k x) ho) hP hG hS x

theorem hit_d3_j3 (k : Fin k0_t4_loop.trips)
    (hS : ∀ a x, ((![(k0_pay117 (k0_pay86 iotaV 0#32 1#32 k)), k0_pay173] : Fin 2 → IVec S16 32) a x).toNat < S64x128.size a) :
    {p | ∃ x, idxAt ![(k0_pay117 (k0_pay86 iotaV 0#32 1#32 k)), k0_pay173] hS x = p} = Hit 3 3 k.val :=
  hit_eq 3 3 k.val (k0_pay117 (k0_pay86 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay174, (k0_pay117 (k0_pay86 iotaV 0#32 1#32 k))] : Fin 2 → IVec S16 32) a x).toNat < S128x128.size a)
    (hS : ∀ a x, ((![(k0_pay117 (k0_pay86 iotaV 0#32 1#32 k)), k0_pay174] : Fin 2 → IVec S16 32) a x).toNat < S64x128.size a) (x : S16.Idx) :
    k0_pay123 (loadIdx Pc ![(k0_pay85 k0_pay169 w), k0_pay118 o (k0_pay117 (k0_pay86 iotaV 0#32 1#32 k))] hP) (loadIdx Gc ![k0_pay174, (k0_pay117 (k0_pay86 iotaV 0#32 1#32 k))] hG) x
      = Tslot Gc Pc o w hw ho (idxAt ![(k0_pay117 (k0_pay86 iotaV 0#32 1#32 k)), k0_pay174] hS x) :=
  store_value Gc Pc o w hw ho (k0_pay117 (k0_pay86 iotaV 0#32 1#32 k)) k0_pay174 (k0_pay85 k0_pay169 w) (k0_pay118 o (k0_pay117 (k0_pay86 iotaV 0#32 1#32 k))) (prow_toNat w)
    (fun x => pcol3_toNat o _ x (gcol3_lt k x) ho) hP hG hS x

theorem hit_d3_j4 (k : Fin k0_t4_loop.trips)
    (hS : ∀ a x, ((![(k0_pay117 (k0_pay86 iotaV 0#32 1#32 k)), k0_pay174] : Fin 2 → IVec S16 32) a x).toNat < S64x128.size a) :
    {p | ∃ x, idxAt ![(k0_pay117 (k0_pay86 iotaV 0#32 1#32 k)), k0_pay174] hS x = p} = Hit 3 4 k.val :=
  hit_eq 3 4 k.val (k0_pay117 (k0_pay86 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay175, (k0_pay117 (k0_pay86 iotaV 0#32 1#32 k))] : Fin 2 → IVec S16 32) a x).toNat < S128x128.size a)
    (hS : ∀ a x, ((![(k0_pay117 (k0_pay86 iotaV 0#32 1#32 k)), k0_pay175] : Fin 2 → IVec S16 32) a x).toNat < S64x128.size a) (x : S16.Idx) :
    k0_pay124 (loadIdx Pc ![(k0_pay85 k0_pay169 w), k0_pay118 o (k0_pay117 (k0_pay86 iotaV 0#32 1#32 k))] hP) (loadIdx Gc ![k0_pay175, (k0_pay117 (k0_pay86 iotaV 0#32 1#32 k))] hG) x
      = Tslot Gc Pc o w hw ho (idxAt ![(k0_pay117 (k0_pay86 iotaV 0#32 1#32 k)), k0_pay175] hS x) :=
  store_value Gc Pc o w hw ho (k0_pay117 (k0_pay86 iotaV 0#32 1#32 k)) k0_pay175 (k0_pay85 k0_pay169 w) (k0_pay118 o (k0_pay117 (k0_pay86 iotaV 0#32 1#32 k))) (prow_toNat w)
    (fun x => pcol3_toNat o _ x (gcol3_lt k x) ho) hP hG hS x

theorem hit_d3_j5 (k : Fin k0_t4_loop.trips)
    (hS : ∀ a x, ((![(k0_pay117 (k0_pay86 iotaV 0#32 1#32 k)), k0_pay175] : Fin 2 → IVec S16 32) a x).toNat < S64x128.size a) :
    {p | ∃ x, idxAt ![(k0_pay117 (k0_pay86 iotaV 0#32 1#32 k)), k0_pay175] hS x = p} = Hit 3 5 k.val :=
  hit_eq 3 5 k.val (k0_pay117 (k0_pay86 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay176, (k0_pay117 (k0_pay86 iotaV 0#32 1#32 k))] : Fin 2 → IVec S16 32) a x).toNat < S128x128.size a)
    (hS : ∀ a x, ((![(k0_pay117 (k0_pay86 iotaV 0#32 1#32 k)), k0_pay176] : Fin 2 → IVec S16 32) a x).toNat < S64x128.size a) (x : S16.Idx) :
    k0_pay125 (loadIdx Pc ![(k0_pay85 k0_pay169 w), k0_pay118 o (k0_pay117 (k0_pay86 iotaV 0#32 1#32 k))] hP) (loadIdx Gc ![k0_pay176, (k0_pay117 (k0_pay86 iotaV 0#32 1#32 k))] hG) x
      = Tslot Gc Pc o w hw ho (idxAt ![(k0_pay117 (k0_pay86 iotaV 0#32 1#32 k)), k0_pay176] hS x) :=
  store_value Gc Pc o w hw ho (k0_pay117 (k0_pay86 iotaV 0#32 1#32 k)) k0_pay176 (k0_pay85 k0_pay169 w) (k0_pay118 o (k0_pay117 (k0_pay86 iotaV 0#32 1#32 k))) (prow_toNat w)
    (fun x => pcol3_toNat o _ x (gcol3_lt k x) ho) hP hG hS x

theorem hit_d3_j6 (k : Fin k0_t4_loop.trips)
    (hS : ∀ a x, ((![(k0_pay117 (k0_pay86 iotaV 0#32 1#32 k)), k0_pay176] : Fin 2 → IVec S16 32) a x).toNat < S64x128.size a) :
    {p | ∃ x, idxAt ![(k0_pay117 (k0_pay86 iotaV 0#32 1#32 k)), k0_pay176] hS x = p} = Hit 3 6 k.val :=
  hit_eq 3 6 k.val (k0_pay117 (k0_pay86 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t4_loop.trips) (Gc : Vec F S128x128 .f32) (Pc : Vec F S100x128 .f32) (o w : BitVec 32)
    (hw : w.toNat < 100) (ho : o.toNat ≤ 64)
    (hP : ∀ a x, ((![(k0_pay85 k0_pay169 w), k0_pay118 o (k0_pay117 (k0_pay86 iotaV 0#32 1#32 k))] : Fin 2 → IVec S16 32) a x).toNat < S100x128.size a)
    (hG : ∀ a x, ((![k0_pay177, (k0_pay117 (k0_pay86 iotaV 0#32 1#32 k))] : Fin 2 → IVec S16 32) a x).toNat < S128x128.size a)
    (hS : ∀ a x, ((![(k0_pay117 (k0_pay86 iotaV 0#32 1#32 k)), k0_pay177] : Fin 2 → IVec S16 32) a x).toNat < S64x128.size a) (x : S16.Idx) :
    k0_pay126 (loadIdx Pc ![(k0_pay85 k0_pay169 w), k0_pay118 o (k0_pay117 (k0_pay86 iotaV 0#32 1#32 k))] hP) (loadIdx Gc ![k0_pay177, (k0_pay117 (k0_pay86 iotaV 0#32 1#32 k))] hG) x
      = Tslot Gc Pc o w hw ho (idxAt ![(k0_pay117 (k0_pay86 iotaV 0#32 1#32 k)), k0_pay177] hS x) :=
  store_value Gc Pc o w hw ho (k0_pay117 (k0_pay86 iotaV 0#32 1#32 k)) k0_pay177 (k0_pay85 k0_pay169 w) (k0_pay118 o (k0_pay117 (k0_pay86 iotaV 0#32 1#32 k))) (prow_toNat w)
    (fun x => pcol3_toNat o _ x (gcol3_lt k x) ho) hP hG hS x

theorem hit_d3_j7 (k : Fin k0_t4_loop.trips)
    (hS : ∀ a x, ((![(k0_pay117 (k0_pay86 iotaV 0#32 1#32 k)), k0_pay177] : Fin 2 → IVec S16 32) a x).toNat < S64x128.size a) :
    {p | ∃ x, idxAt ![(k0_pay117 (k0_pay86 iotaV 0#32 1#32 k)), k0_pay177] hS x = p} = Hit 3 7 k.val :=
  hit_eq 3 7 k.val (k0_pay117 (k0_pay86 iotaV 0#32 1#32 k)) k0_pay177
    (fun x => by rw [gcol3_toNat]; show _ = (ln x + k.val) % 16 + 16 * 3; omega)
    (fun x => by rw [pay177_toNat]; show _ = 16 * 7 + ln x; omega) hS

end Cert.LanesK.C3
-- ==== Proof.Lane4K.lean ====
/-
  The index arithmetic of one copy of the inner loop (k0_t5_loop, 16 trips).

  In trip `k` the rotation vector holds `(lane + k) mod 16` in each lane: the lane-index vector plus `k`, masked with 15.
  The four feature-column vectors are the rotation plus 0, 16, 32 and 48, so the column vector of feature group `dc`
  holds `(lane + k) mod 16 + 16·dc`, a feature below 64.  The positional table is read at the row the word `w` names
  in every lane (the zero vector plus `w`) and at the column vector plus a word `o` (the feature offset of the packed
  positional row, at most 64): a row below 100 and a column below 128.  With the eight row vectors (batch rows
  `16·j' + lane`, below 128) these are all the bounds the loop body's side conditions ask: the positional gather reads
  inside the 100 × 128 table, the eight row gathers inside the 128 × 128 gathered block, and the eight scatters inside
  the 64 × 128 transposed block.
-/
import proofs.«206908_g46772193853751_cont_8to1c4_160_30_alg».proof.Proof.LaneVecK

namespace Cert.LanesK.C4

open Idealize.ShloMosaic Cert.Kernel Cert.Kernel.Gen Cert.LanesK

/-- The loop runs at most 16 trips. -/
theorem trip_lt (k : Fin k0_t5_loop.trips) : k.val < 16 := Nat.lt_of_lt_of_le k.isLt k0_t5_abs.2.1

/-- The rotation vector of trip `k`: `(lane + k) mod 16`. -/
theorem rot_toNat (k : Fin k0_t5_loop.trips) (x : S16.Idx) :
    (k0_pay128 iotaV 0#32 1#32 k x).toNat = (ln x + k.val) % 16 := by
  have hk := trip_lt k
  have hx := ln_lt x
  show ((iotaV x + (0#32 + (0#32 + BitVec.ofNat 32 k.val * 1#32) * 1#32)) &&& 15#32).toNat = _
  rw [BitVec.toNat_and, iotaV_apply, BitVec.mul_one, BitVec.mul_one, BitVec.zero_add, BitVec.zero_add,
    BitVec.toNat_add, BitVec.toNat_ofNat, BitVec.toNat_ofNat, show (15#32).toNat = 2 ^ 4 - 1 from rfl,
    Nat.and_two_pow_sub_one_eq_mod]
  omega

/-- Adding a literal word to every lane of a vector whose lane is known. -/
theorem addi_lit (a : IVec S16 32) (w : BitVec 32) (n m : ℕ) (x : S16.Idx) (ha : (a x).toNat = n) (hw : w.toNat = m)
    (h : n + m < 2 ^ 32) : (addi a (broadcast S16 w) x).toNat = n + m := by
  rw [addi_splat_toNat a w x (by rw [ha, hw]; exact h), ha, hw]

/-- The column vector of feature group 0 in trip `k`. -/
theorem gcol0_toNat (k : Fin k0_t5_loop.trips) (x : S16.Idx) :
    (k0_pay129 iotaV 0#32 1#32 k x).toNat = (ln x + k.val) % 16 :=
  addi_lit (k0_pay128 iotaV 0#32 1#32 k) 0#32 ((ln x + k.val) % 16) 0 x (rot_toNat k x) rfl (by omega)

/-- The column vector of feature group 1 in trip `k`. -/
theorem gcol1_toNat (k : Fin k0_t5_loop.trips) (x : S16.Idx) :
    (k0_pay139 (k0_pay128 iotaV 0#32 1#32 k) x).toNat = (ln x + k.val) % 16 + 16 :=
  addi_lit (k0_pay128 iotaV 0#32 1#32 k) 16#32 ((ln x + k.val) % 16) 16 x (rot_toNat k x) rfl (by omega)

/-- The column vector of feature group 2 in trip `k`. -/
theorem gcol2_toNat (k : Fin k0_t5_loop.trips) (x : S16.Idx) :
    (k0_pay149 (k0_pay128 iotaV 0#32 1#32 k) x).toNat = (ln x + k.val) % 16 + 32 :=
  addi_lit (k0_pay128 iotaV 0#32 1#32 k) 32#32 ((ln x + k.val) % 16) 32 x (rot_toNat k x) rfl (by omega)

/-- The column vector of feature group 3 in trip `k`. -/
theorem gcol3_toNat (k : Fin k0_t5_loop.trips) (x : S16.Idx) :
    (k0_pay159 (k0_pay128 iotaV 0#32 1#32 k) x).toNat = (ln x + k.val) % 16 + 48 :=
  addi_lit (k0_pay128 iotaV 0#32 1#32 k) 48#32 ((ln x + k.val) % 16) 48 x (rot_toNat k x) rfl (by omega)

theorem gcol0_lt (k : Fin k0_t5_loop.trips) (x : S16.Idx) : (k0_pay129 iotaV 0#32 1#32 k x).toNat < 64 := by
  rw [gcol0_toNat]; omega
theorem gcol1_lt (k : Fin k0_t5_loop.trips) (x : S16.Idx) : (k0_pay139 (k0_pay128 iotaV 0#32 1#32 k) x).toNat < 64 := by
  rw [gcol1_toNat]; omega
theorem gcol2_lt (k : Fin k0_t5_loop.trips) (x : S16.Idx) : (k0_pay149 (k0_pay128 iotaV 0#32 1#32 k) x).toNat < 64 := by
  rw [gcol2_toNat]; omega
theorem gcol3_lt (k : Fin k0_t5_loop.trips) (x : S16.Idx) : (k0_pay159 (k0_pay128 iotaV 0#32 1#32 k) x).toNat < 64 := by
  rw [gcol3_toNat]; omega

/-- The positional row vector: the word `w` in every lane. -/
theorem prow_toNat (w : BitVec 32) (x : S16.Idx) : (k0_pay127 k0_pay169 w x).toNat = w.toNat := by
  show (k0_pay169 x + w).toNat = _
  rw [pay169_apply, BitVec.zero_add]

/-- The positional column vector of feature group 0: the column vector plus the word `o`. -/
theorem pcol0_toNat (o : BitVec 32) (gc : IVec S16 32) (x : S16.Idx) (hgc : (gc x).toNat < 64) (ho : o.toNat ≤ 64) :
    (k0_pay130 o gc x).toNat = (gc x).toNat + o.toNat :=
  addi_splat_toNat gc o x (by omega)

/-- The positional column vector of feature group 1. -/
theorem pcol1_toNat (o : BitVec 32) (gc : IVec S16 32) (x : S16.Idx) (hgc : (gc x).toNat < 64) (ho : o.toNat ≤ 64) :
    (k0_pay140 o gc x).toNat = (gc x).toNat + o.toNat :=
  addi_splat_toNat gc o x (by omega)

/-- The positional column vector of feature group 2. -/
theorem pcol2_toNat (o : BitVec 32) (gc : IVec S16 32) (x : S16.Idx) (hgc : (gc x).toNat < 64) (ho : o.toNat ≤ 64) :
    (k0_pay150 o gc x).toNat = (gc x).toNat + o.toNat :=
  addi_splat_toNat gc o x (by omega)

/-- The positional column vector of feature group 3. -/
theorem pcol3_toNat (o : BitVec 32) (gc : IVec S16 32) (x : S16.Idx) (hgc : (gc x).toNat < 64) (ho : o.toNat ≤ 64) :
    (k0_pay160 o gc x).toNat = (gc x).toNat + o.toNat :=
  addi_splat_toNat gc o x (by omega)

/-! ### The side conditions of the loop body -/

/-- The positional gather of feature group 0 reads inside the 100 × 128 table. -/
theorem chkP0 (o w : BitVec 32) (gc : IVec S16 32) (hw : w.toNat < 100) (ho : o.toNat ≤ 64) (hgc : ∀ x, (gc x).toNat < 64) :
    k0_chk25 (k0_pay127 k0_pay169 w) (k0_pay130 o gc) :=
  pair_lt _ _ (fun x => by rw [prow_toNat]; exact hw)
    (fun x => by have := hgc x; rw [pcol0_toNat o gc x (hgc x) ho]; omega)

/-- The positional gather of feature group 1 reads inside the 100 × 128 table. -/
theorem chkP1 (o w : BitVec 32) (gc : IVec S16 32) (hw : w.toNat < 100) (ho : o.toNat ≤ 64) (hgc : ∀ x, (gc x).toNat < 64) :
    k0_chk27 (k0_pay127 k0_pay169 w) (k0_pay140 o gc) :=
  pair_lt _ _ (fun x => by rw [prow_toNat]; exact hw)
    (fun x => by have := hgc x; rw [pcol1_toNat o gc x (hgc x) ho]; omega)

/-- The positional gather of feature group 2 reads inside the 100 × 128 table. -/
theorem chkP2 (o w : BitVec 32) (gc : IVec S16 32) (hw : w.toNat < 100) (ho : o.toNat ≤ 64) (hgc : ∀ x, (gc x).toNat < 64) :
    k0_chk29 (k0_pay127 k0_pay169 w) (k0_pay150 o gc) :=
  pair_lt _ _ (fun x => by rw [prow_toNat]; exact hw)
    (fun x => by have := hgc x; rw [pcol2_toNat o gc x (hgc x) ho]; omega)

/-- The positional gather of feature group 3 reads inside the 100 × 128 table. -/
theorem chkP3 (o w : BitVec 32) (gc : IVec S16 32) (hw : w.toNat < 100) (ho : o.toNat ≤ 64) (hgc : ∀ x, (gc x).toNat < 64) :
    k0_chk31 (k0_pay127 k0_pay169 w) (k0_pay160 o gc) :=
  pair_lt _ _ (fun x => by rw [prow_toNat]; exact hw)
    (fun x => by have := hgc x; rw [pcol3_toNat o gc x (hgc x) ho]; omega)

/-- With a column vector of features below 64, the eight row gathers read inside the 128 × 128 gathered block and the
    eight scatters write inside the 64 × 128 transposed block (feature group 0's condition). -/
theorem chkG0 (gc : IVec S16 32) (hgc : ∀ x, (gc x).toNat < 64) :
    k0_chk26 k0_pay170 k0_pay171 k0_pay172 k0_pay173 k0_pay174 k0_pay175 k0_pay176 k0_pay177 gc := by
  have hg : ∀ x, (gc x).toNat < 128 := fun x => Nat.lt_trans (hgc x) (by omega)
  exact ⟨pair_lt _ _ (fun x => (rows_lt x).1) hg, pair_lt _ _ (fun x => (rows_lt x).2.1) hg,
    pair_lt _ _ (fun x => (rows_lt x).2.2.1) hg, pair_lt _ _ (fun x => (rows_lt x).2.2.2.1) hg,
    pair_lt _ _ (fun x => (rows_lt x).2.2.2.2.1) hg, pair_lt _ _ (fun x => (rows_lt x).2.2.2.2.2.1) hg,
    pair_lt _ _ (fun x => (rows_lt x).2.2.2.2.2.2.1) hg, pair_lt _ _ (fun x => (rows_lt x).2.2.2.2.2.2.2) hg,
    pair_lt _ _ hgc (fun x => (rows_lt x).1), pair_lt _ _ hgc (fun x => (rows_lt x).2.1),
    pair_lt _ _ hgc (fun x => (rows_lt x).2.2.1), pair_lt _ _ hgc (fun x => (rows_lt x).2.2.2.1),
    pair_lt _ _ hgc (fun x => (rows_lt x).2.2.2.2.1), pair_lt _ _ hgc (fun x => (rows_lt x).2.2.2.2.2.1),
    pair_lt _ _ hgc (fun x => (rows_lt x).2.2.2.2.2.2.1), pair_lt _ _ hgc (fun x => (rows_lt x).2.2.2.2.2.2.2)⟩

/-- The same for feature group 1's condition. -/
theorem chkG1 (gc : IVec S16 32) (hgc : ∀ x, (gc x).toNat < 64) :
    k0_chk28 k0_pay170 k0_pay171 k0_pay172 k0_pay173 k0_pay174 k0_pay175 k0_pay176 k0_pay177 gc := chkG0 gc hgc

/-- The same for feature group 2's condition. -/
theorem chkG2 (gc : IVec S16 32) (hgc : ∀ x, (gc x).toNat < 64) :
    k0_chk30 k0_pay170 k0_pay171 k0_pay172 k0_pay173 k0_pay174 k0_pay175 k0_pay176 k0_pay177 gc := chkG0 gc hgc

/-- The same for feature group 3's condition. -/
theorem chkG3 (gc : IVec S16 32) (hgc : ∀ x, (gc x).toNat < 64) :
    k0_chk32 k0_pay170 k0_pay171 k0_pay172 k0_pay173 k0_pay174 k0_pay175 k0_pay176 k0_pay177 gc := chkG0 gc hgc

/-! ### The side conditions at the column vectors of trip `k` -/

theorem chkP0_trip (k : Fin k0_t5_loop.trips) (o w : BitVec 32) (hw : w.toNat < 100) (ho : o.toNat ≤ 64) :
    k0_chk25 (k0_pay127 k0_pay169 w) (k0_pay130 o (k0_pay129 iotaV 0#32 1#32 k)) := chkP0 o w _ hw ho (gcol0_lt k)
theorem chkP1_trip (k : Fin k0_t5_loop.trips) (o w : BitVec 32) (hw : w.toNat < 100) (ho : o.toNat ≤ 64) :
    k0_chk27 (k0_pay127 k0_pay169 w) (k0_pay140 o (k0_pay139 (k0_pay128 iotaV 0#32 1#32 k))) := chkP1 o w _ hw ho (gcol1_lt k)
theorem chkP2_trip (k : Fin k0_t5_loop.trips) (o w : BitVec 32) (hw : w.toNat < 100) (ho : o.toNat ≤ 64) :
    k0_chk29 (k0_pay127 k0_pay169 w) (k0_pay150 o (k0_pay149 (k0_pay128 iotaV 0#32 1#32 k))) := chkP2 o w _ hw ho (gcol2_lt k)
theorem chkP3_trip (k : Fin k0_t5_loop.trips) (o w : BitVec 32) (hw : w.toNat < 100) (ho : o.toNat ≤ 64) :
    k0_chk31 (k0_pay127 k0_pay169 w) (k0_pay160 o (k0_pay159 (k0_pay128 iotaV 0#32 1#32 k))) := chkP3 o w _ hw ho (gcol3_lt k)

theorem chkG0_trip (k : Fin k0_t5_loop.trips) :
    k0_chk26 k0_pay170 k0_pay171 k0_pay172 k0_pay173 k0_pay174 k0_pay175 k0_pay176 k0_pay177 (k0_pay129 iotaV 0#32 1#32 k) :=
  chkG0 _ (gcol0_lt k)
theorem chkG1_trip (k : Fin k0_t5_loop.trips) :
    k0_chk28 k0_pay170 k0_pay171 k0_pay172 k0_pay173 k0_pay174 k0_pay175 k0_pay176 k0_pay177 (k0_pay139 (k0_pay128 iotaV 0#32 1#32 k)) :=
  chkG1 _ (gcol1_lt k)
theorem chkG2_trip (k : Fin k0_t5_loop.trips) :
    k0_chk30 k0_pay170 k0_pay171 k0_pay172 k0_pay173 k0_pay174 k0_pay175 k0_pay176 k0_pay177 (k0_pay149 (k0_pay128 iotaV 0#32 1#32 k)) :=
  chkG2 _ (gcol2_lt k)
theorem chkG3_trip (k : Fin k0_t5_loop.trips) :
    k0_chk32 k0_pay170 k0_pay171 k0_pay172 k0_pay173 k0_pay174 k0_pay175 k0_pay176 k0_pay177 (k0_pay159 (k0_pay128 iotaV 0#32 1#32 k)) :=
  chkG3 _ (gcol3_lt k)

end Cert.LanesK.C4
-- ==== Proof.LaneTrip4K.lean ====
/-
  The values and the elements of the 32 stores of one trip of the inner loop k0_t5_loop, in the loop body's own terms.

  For feature group `dc` and row group `j`, the stored vector is the sum of the gathered block read at (row vector `j`,
  column vector `dc`) and the positional table read at (row `w`, column vector `dc` plus `o`); each of its lanes is the
  block's target value at the index (column vector `dc`, row vector `j`) names for it (`val_d*_j*`), and the indices its
  lanes name are the 16 points of `Hit dc j k` (`hit_d*_j*`).
-/
import proofs.«206908_g46772193853751_cont_8to1c4_160_30_alg».proof.Proof.LaneTripK
import proofs.«206908_g46772193853751_cont_8to1c4_160_30_alg».proof.Proof.Lane4K

namespace Cert.LanesK.C4

open Idealize.ShloMosaic Idealize.ShloMosaic.ValueIdx Cert.Kernel Cert.Kernel.Gen Cert.LanesK

variable {F : FTy → Type} [FloatOps F]

theorem val_d0_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay170, (k0_pay129 iotaV 0#32 1#32 k)] : Fin 2 → IVec S16 32) a x).toNat < S128x128.size a)
    (hS : ∀ a x, ((![(k0_pay129 iotaV 0#32 1#32 k), k0_pay170] : Fin 2 → IVec S16 32) a x).toNat < S64x128.size a) (x : S16.Idx) :
    k0_pay131 (loadIdx Pc ![(k0_pay127 k0_pay169 w), k0_pay130 o (k0_pay129 iotaV 0#32 1#32 k)] hP) (loadIdx Gc ![k0_pay170, (k0_pay129 iotaV 0#32 1#32 k)] hG) x
      = Tslot Gc Pc o w hw ho (idxAt ![(k0_pay129 iotaV 0#32 1#32 k), k0_pay170] hS x) :=
  store_value Gc Pc o w hw ho (k0_pay129 iotaV 0#32 1#32 k) k0_pay170 (k0_pay127 k0_pay169 w) (k0_pay130 o (k0_pay129 iotaV 0#32 1#32 k)) (prow_toNat w)
    (fun x => pcol0_toNat o _ x (gcol0_lt k x) ho) hP hG hS x

theorem hit_d0_j0 (k : Fin k0_t5_loop.trips)
    (hS : ∀ a x, ((![(k0_pay129 iotaV 0#32 1#32 k), k0_pay170] : Fin 2 → IVec S16 32) a x).toNat < S64x128.size a) :
    {p | ∃ x, idxAt ![(k0_pay129 iotaV 0#32 1#32 k), k0_pay170] hS x = p} = Hit 0 0 k.val :=
  hit_eq 0 0 k.val (k0_pay129 iotaV 0#32 1#32 k) k0_pay170
    (fun x => by rw [gcol0_toNat]; show _ = (ln x + k.val) % 16 + 16 * 0; omega)
    (fun x => by rw [pay170_toNat]; show _ = 16 * 0 + ln x; omega) hS

theorem val_d0_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay171, (k0_pay129 iotaV 0#32 1#32 k)] : Fin 2 → IVec S16 32) a x).toNat < S128x128.size a)
    (hS : ∀ a x, ((![(k0_pay129 iotaV 0#32 1#32 k), k0_pay171] : Fin 2 → IVec S16 32) a x).toNat < S64x128.size a) (x : S16.Idx) :
    k0_pay132 (loadIdx Pc ![(k0_pay127 k0_pay169 w), k0_pay130 o (k0_pay129 iotaV 0#32 1#32 k)] hP) (loadIdx Gc ![k0_pay171, (k0_pay129 iotaV 0#32 1#32 k)] hG) x
      = Tslot Gc Pc o w hw ho (idxAt ![(k0_pay129 iotaV 0#32 1#32 k), k0_pay171] hS x) :=
  store_value Gc Pc o w hw ho (k0_pay129 iotaV 0#32 1#32 k) k0_pay171 (k0_pay127 k0_pay169 w) (k0_pay130 o (k0_pay129 iotaV 0#32 1#32 k)) (prow_toNat w)
    (fun x => pcol0_toNat o _ x (gcol0_lt k x) ho) hP hG hS x

theorem hit_d0_j1 (k : Fin k0_t5_loop.trips)
    (hS : ∀ a x, ((![(k0_pay129 iotaV 0#32 1#32 k), k0_pay171] : Fin 2 → IVec S16 32) a x).toNat < S64x128.size a) :
    {p | ∃ x, idxAt ![(k0_pay129 iotaV 0#32 1#32 k), k0_pay171] hS x = p} = Hit 0 1 k.val :=
  hit_eq 0 1 k.val (k0_pay129 iotaV 0#32 1#32 k) k0_pay171
    (fun x => by rw [gcol0_toNat]; show _ = (ln x + k.val) % 16 + 16 * 0; omega)
    (fun x => by rw [pay171_toNat]; show _ = 16 * 1 + ln x; omega) hS

theorem val_d0_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay172, (k0_pay129 iotaV 0#32 1#32 k)] : Fin 2 → IVec S16 32) a x).toNat < S128x128.size a)
    (hS : ∀ a x, ((![(k0_pay129 iotaV 0#32 1#32 k), k0_pay172] : Fin 2 → IVec S16 32) a x).toNat < S64x128.size a) (x : S16.Idx) :
    k0_pay133 (loadIdx Pc ![(k0_pay127 k0_pay169 w), k0_pay130 o (k0_pay129 iotaV 0#32 1#32 k)] hP) (loadIdx Gc ![k0_pay172, (k0_pay129 iotaV 0#32 1#32 k)] hG) x
      = Tslot Gc Pc o w hw ho (idxAt ![(k0_pay129 iotaV 0#32 1#32 k), k0_pay172] hS x) :=
  store_value Gc Pc o w hw ho (k0_pay129 iotaV 0#32 1#32 k) k0_pay172 (k0_pay127 k0_pay169 w) (k0_pay130 o (k0_pay129 iotaV 0#32 1#32 k)) (prow_toNat w)
    (fun x => pcol0_toNat o _ x (gcol0_lt k x) ho) hP hG hS x

theorem hit_d0_j2 (k : Fin k0_t5_loop.trips)
    (hS : ∀ a x, ((![(k0_pay129 iotaV 0#32 1#32 k), k0_pay172] : Fin 2 → IVec S16 32) a x).toNat < S64x128.size a) :
    {p | ∃ x, idxAt ![(k0_pay129 iotaV 0#32 1#32 k), k0_pay172] hS x = p} = Hit 0 2 k.val :=
  hit_eq 0 2 k.val (k0_pay129 iotaV 0#32 1#32 k) k0_pay172
    (fun x => by rw [gcol0_toNat]; show _ = (ln x + k.val) % 16 + 16 * 0; omega)
    (fun x => by rw [pay172_toNat]; show _ = 16 * 2 + ln x; omega) hS

theorem val_d0_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay173, (k0_pay129 iotaV 0#32 1#32 k)] : Fin 2 → IVec S16 32) a x).toNat < S128x128.size a)
    (hS : ∀ a x, ((![(k0_pay129 iotaV 0#32 1#32 k), k0_pay173] : Fin 2 → IVec S16 32) a x).toNat < S64x128.size a) (x : S16.Idx) :
    k0_pay134 (loadIdx Pc ![(k0_pay127 k0_pay169 w), k0_pay130 o (k0_pay129 iotaV 0#32 1#32 k)] hP) (loadIdx Gc ![k0_pay173, (k0_pay129 iotaV 0#32 1#32 k)] hG) x
      = Tslot Gc Pc o w hw ho (idxAt ![(k0_pay129 iotaV 0#32 1#32 k), k0_pay173] hS x) :=
  store_value Gc Pc o w hw ho (k0_pay129 iotaV 0#32 1#32 k) k0_pay173 (k0_pay127 k0_pay169 w) (k0_pay130 o (k0_pay129 iotaV 0#32 1#32 k)) (prow_toNat w)
    (fun x => pcol0_toNat o _ x (gcol0_lt k x) ho) hP hG hS x

theorem hit_d0_j3 (k : Fin k0_t5_loop.trips)
    (hS : ∀ a x, ((![(k0_pay129 iotaV 0#32 1#32 k), k0_pay173] : Fin 2 → IVec S16 32) a x).toNat < S64x128.size a) :
    {p | ∃ x, idxAt ![(k0_pay129 iotaV 0#32 1#32 k), k0_pay173] hS x = p} = Hit 0 3 k.val :=
  hit_eq 0 3 k.val (k0_pay129 iotaV 0#32 1#32 k) k0_pay173
    (fun x => by rw [gcol0_toNat]; show _ = (ln x + k.val) % 16 + 16 * 0; omega)
    (fun x => by rw [pay173_toNat]; show _ = 16 * 3 + ln x; omega) hS

theorem val_d0_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay174, (k0_pay129 iotaV 0#32 1#32 k)] : Fin 2 → IVec S16 32) a x).toNat < S128x128.size a)
    (hS : ∀ a x, ((![(k0_pay129 iotaV 0#32 1#32 k), k0_pay174] : Fin 2 → IVec S16 32) a x).toNat < S64x128.size a) (x : S16.Idx) :
    k0_pay135 (loadIdx Pc ![(k0_pay127 k0_pay169 w), k0_pay130 o (k0_pay129 iotaV 0#32 1#32 k)] hP) (loadIdx Gc ![k0_pay174, (k0_pay129 iotaV 0#32 1#32 k)] hG) x
      = Tslot Gc Pc o w hw ho (idxAt ![(k0_pay129 iotaV 0#32 1#32 k), k0_pay174] hS x) :=
  store_value Gc Pc o w hw ho (k0_pay129 iotaV 0#32 1#32 k) k0_pay174 (k0_pay127 k0_pay169 w) (k0_pay130 o (k0_pay129 iotaV 0#32 1#32 k)) (prow_toNat w)
    (fun x => pcol0_toNat o _ x (gcol0_lt k x) ho) hP hG hS x

theorem hit_d0_j4 (k : Fin k0_t5_loop.trips)
    (hS : ∀ a x, ((![(k0_pay129 iotaV 0#32 1#32 k), k0_pay174] : Fin 2 → IVec S16 32) a x).toNat < S64x128.size a) :
    {p | ∃ x, idxAt ![(k0_pay129 iotaV 0#32 1#32 k), k0_pay174] hS x = p} = Hit 0 4 k.val :=
  hit_eq 0 4 k.val (k0_pay129 iotaV 0#32 1#32 k) k0_pay174
    (fun x => by rw [gcol0_toNat]; show _ = (ln x + k.val) % 16 + 16 * 0; omega)
    (fun x => by rw [pay174_toNat]; show _ = 16 * 4 + ln x; omega) hS

theorem val_d0_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay175, (k0_pay129 iotaV 0#32 1#32 k)] : Fin 2 → IVec S16 32) a x).toNat < S128x128.size a)
    (hS : ∀ a x, ((![(k0_pay129 iotaV 0#32 1#32 k), k0_pay175] : Fin 2 → IVec S16 32) a x).toNat < S64x128.size a) (x : S16.Idx) :
    k0_pay136 (loadIdx Pc ![(k0_pay127 k0_pay169 w), k0_pay130 o (k0_pay129 iotaV 0#32 1#32 k)] hP) (loadIdx Gc ![k0_pay175, (k0_pay129 iotaV 0#32 1#32 k)] hG) x
      = Tslot Gc Pc o w hw ho (idxAt ![(k0_pay129 iotaV 0#32 1#32 k), k0_pay175] hS x) :=
  store_value Gc Pc o w hw ho (k0_pay129 iotaV 0#32 1#32 k) k0_pay175 (k0_pay127 k0_pay169 w) (k0_pay130 o (k0_pay129 iotaV 0#32 1#32 k)) (prow_toNat w)
    (fun x => pcol0_toNat o _ x (gcol0_lt k x) ho) hP hG hS x

theorem hit_d0_j5 (k : Fin k0_t5_loop.trips)
    (hS : ∀ a x, ((![(k0_pay129 iotaV 0#32 1#32 k), k0_pay175] : Fin 2 → IVec S16 32) a x).toNat < S64x128.size a) :
    {p | ∃ x, idxAt ![(k0_pay129 iotaV 0#32 1#32 k), k0_pay175] hS x = p} = Hit 0 5 k.val :=
  hit_eq 0 5 k.val (k0_pay129 iotaV 0#32 1#32 k) k0_pay175
    (fun x => by rw [gcol0_toNat]; show _ = (ln x + k.val) % 16 + 16 * 0; omega)
    (fun x => by rw [pay175_toNat]; show _ = 16 * 5 + ln x; omega) hS

theorem val_d0_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay176, (k0_pay129 iotaV 0#32 1#32 k)] : Fin 2 → IVec S16 32) a x).toNat < S128x128.size a)
    (hS : ∀ a x, ((![(k0_pay129 iotaV 0#32 1#32 k), k0_pay176] : Fin 2 → IVec S16 32) a x).toNat < S64x128.size a) (x : S16.Idx) :
    k0_pay137 (loadIdx Pc ![(k0_pay127 k0_pay169 w), k0_pay130 o (k0_pay129 iotaV 0#32 1#32 k)] hP) (loadIdx Gc ![k0_pay176, (k0_pay129 iotaV 0#32 1#32 k)] hG) x
      = Tslot Gc Pc o w hw ho (idxAt ![(k0_pay129 iotaV 0#32 1#32 k), k0_pay176] hS x) :=
  store_value Gc Pc o w hw ho (k0_pay129 iotaV 0#32 1#32 k) k0_pay176 (k0_pay127 k0_pay169 w) (k0_pay130 o (k0_pay129 iotaV 0#32 1#32 k)) (prow_toNat w)
    (fun x => pcol0_toNat o _ x (gcol0_lt k x) ho) hP hG hS x

theorem hit_d0_j6 (k : Fin k0_t5_loop.trips)
    (hS : ∀ a x, ((![(k0_pay129 iotaV 0#32 1#32 k), k0_pay176] : Fin 2 → IVec S16 32) a x).toNat < S64x128.size a) :
    {p | ∃ x, idxAt ![(k0_pay129 iotaV 0#32 1#32 k), k0_pay176] hS x = p} = Hit 0 6 k.val :=
  hit_eq 0 6 k.val (k0_pay129 iotaV 0#32 1#32 k) k0_pay176
    (fun x => by rw [gcol0_toNat]; show _ = (ln x + k.val) % 16 + 16 * 0; omega)
    (fun x => by rw [pay176_toNat]; show _ = 16 * 6 + ln x; omega) hS

theorem val_d0_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay130 o (k0_pay129 iotaV 0#32 1#32 k)] : Fin 2 → IVec S16 32) a x).toNat < S100x128.size a)
    (hG : ∀ a x, ((![k0_pay177, (k0_pay129 iotaV 0#32 1#32 k)] : Fin 2 → IVec S16 32) a x).toNat < S128x128.size a)
    (hS : ∀ a x, ((![(k0_pay129 iotaV 0#32 1#32 k), k0_pay177] : Fin 2 → IVec S16 32) a x).toNat < S64x128.size a) (x : S16.Idx) :
    k0_pay138 (loadIdx Pc ![(k0_pay127 k0_pay169 w), k0_pay130 o (k0_pay129 iotaV 0#32 1#32 k)] hP) (loadIdx Gc ![k0_pay177, (k0_pay129 iotaV 0#32 1#32 k)] hG) x
      = Tslot Gc Pc o w hw ho (idxAt ![(k0_pay129 iotaV 0#32 1#32 k), k0_pay177] hS x) :=
  store_value Gc Pc o w hw ho (k0_pay129 iotaV 0#32 1#32 k) k0_pay177 (k0_pay127 k0_pay169 w) (k0_pay130 o (k0_pay129 iotaV 0#32 1#32 k)) (prow_toNat w)
    (fun x => pcol0_toNat o _ x (gcol0_lt k x) ho) hP hG hS x

theorem hit_d0_j7 (k : Fin k0_t5_loop.trips)
    (hS : ∀ a x, ((![(k0_pay129 iotaV 0#32 1#32 k), k0_pay177] : Fin 2 → IVec S16 32) a x).toNat < S64x128.size a) :
    {p | ∃ x, idxAt ![(k0_pay129 iotaV 0#32 1#32 k), k0_pay177] hS x = p} = Hit 0 7 k.val :=
  hit_eq 0 7 k.val (k0_pay129 iotaV 0#32 1#32 k) k0_pay177
    (fun x => by rw [gcol0_toNat]; show _ = (ln x + k.val) % 16 + 16 * 0; omega)
    (fun x => by rw [pay177_toNat]; show _ = 16 * 7 + ln x; omega) hS

theorem val_d1_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay170, (k0_pay139 (k0_pay128 iotaV 0#32 1#32 k))] : Fin 2 → IVec S16 32) a x).toNat < S128x128.size a)
    (hS : ∀ a x, ((![(k0_pay139 (k0_pay128 iotaV 0#32 1#32 k)), k0_pay170] : Fin 2 → IVec S16 32) a x).toNat < S64x128.size a) (x : S16.Idx) :
    k0_pay141 (loadIdx Pc ![(k0_pay127 k0_pay169 w), k0_pay140 o (k0_pay139 (k0_pay128 iotaV 0#32 1#32 k))] hP) (loadIdx Gc ![k0_pay170, (k0_pay139 (k0_pay128 iotaV 0#32 1#32 k))] hG) x
      = Tslot Gc Pc o w hw ho (idxAt ![(k0_pay139 (k0_pay128 iotaV 0#32 1#32 k)), k0_pay170] hS x) :=
  store_value Gc Pc o w hw ho (k0_pay139 (k0_pay128 iotaV 0#32 1#32 k)) k0_pay170 (k0_pay127 k0_pay169 w) (k0_pay140 o (k0_pay139 (k0_pay128 iotaV 0#32 1#32 k))) (prow_toNat w)
    (fun x => pcol1_toNat o _ x (gcol1_lt k x) ho) hP hG hS x

theorem hit_d1_j0 (k : Fin k0_t5_loop.trips)
    (hS : ∀ a x, ((![(k0_pay139 (k0_pay128 iotaV 0#32 1#32 k)), k0_pay170] : Fin 2 → IVec S16 32) a x).toNat < S64x128.size a) :
    {p | ∃ x, idxAt ![(k0_pay139 (k0_pay128 iotaV 0#32 1#32 k)), k0_pay170] hS x = p} = Hit 1 0 k.val :=
  hit_eq 1 0 k.val (k0_pay139 (k0_pay128 iotaV 0#32 1#32 k)) k0_pay170
    (fun x => by rw [gcol1_toNat]; show _ = (ln x + k.val) % 16 + 16 * 1; omega)
    (fun x => by rw [pay170_toNat]; show _ = 16 * 0 + ln x; omega) hS

theorem val_d1_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay171, (k0_pay139 (k0_pay128 iotaV 0#32 1#32 k))] : Fin 2 → IVec S16 32) a x).toNat < S128x128.size a)
    (hS : ∀ a x, ((![(k0_pay139 (k0_pay128 iotaV 0#32 1#32 k)), k0_pay171] : Fin 2 → IVec S16 32) a x).toNat < S64x128.size a) (x : S16.Idx) :
    k0_pay142 (loadIdx Pc ![(k0_pay127 k0_pay169 w), k0_pay140 o (k0_pay139 (k0_pay128 iotaV 0#32 1#32 k))] hP) (loadIdx Gc ![k0_pay171, (k0_pay139 (k0_pay128 iotaV 0#32 1#32 k))] hG) x
      = Tslot Gc Pc o w hw ho (idxAt ![(k0_pay139 (k0_pay128 iotaV 0#32 1#32 k)), k0_pay171] hS x) :=
  store_value Gc Pc o w hw ho (k0_pay139 (k0_pay128 iotaV 0#32 1#32 k)) k0_pay171 (k0_pay127 k0_pay169 w) (k0_pay140 o (k0_pay139 (k0_pay128 iotaV 0#32 1#32 k))) (prow_toNat w)
    (fun x => pcol1_toNat o _ x (gcol1_lt k x) ho) hP hG hS x

theorem hit_d1_j1 (k : Fin k0_t5_loop.trips)
    (hS : ∀ a x, ((![(k0_pay139 (k0_pay128 iotaV 0#32 1#32 k)), k0_pay171] : Fin 2 → IVec S16 32) a x).toNat < S64x128.size a) :
    {p | ∃ x, idxAt ![(k0_pay139 (k0_pay128 iotaV 0#32 1#32 k)), k0_pay171] hS x = p} = Hit 1 1 k.val :=
  hit_eq 1 1 k.val (k0_pay139 (k0_pay128 iotaV 0#32 1#32 k)) k0_pay171
    (fun x => by rw [gcol1_toNat]; show _ = (ln x + k.val) % 16 + 16 * 1; omega)
    (fun x => by rw [pay171_toNat]; show _ = 16 * 1 + ln x; omega) hS

theorem val_d1_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay172, (k0_pay139 (k0_pay128 iotaV 0#32 1#32 k))] : Fin 2 → IVec S16 32) a x).toNat < S128x128.size a)
    (hS : ∀ a x, ((![(k0_pay139 (k0_pay128 iotaV 0#32 1#32 k)), k0_pay172] : Fin 2 → IVec S16 32) a x).toNat < S64x128.size a) (x : S16.Idx) :
    k0_pay143 (loadIdx Pc ![(k0_pay127 k0_pay169 w), k0_pay140 o (k0_pay139 (k0_pay128 iotaV 0#32 1#32 k))] hP) (loadIdx Gc ![k0_pay172, (k0_pay139 (k0_pay128 iotaV 0#32 1#32 k))] hG) x
      = Tslot Gc Pc o w hw ho (idxAt ![(k0_pay139 (k0_pay128 iotaV 0#32 1#32 k)), k0_pay172] hS x) :=
  store_value Gc Pc o w hw ho (k0_pay139 (k0_pay128 iotaV 0#32 1#32 k)) k0_pay172 (k0_pay127 k0_pay169 w) (k0_pay140 o (k0_pay139 (k0_pay128 iotaV 0#32 1#32 k))) (prow_toNat w)
    (fun x => pcol1_toNat o _ x (gcol1_lt k x) ho) hP hG hS x

theorem hit_d1_j2 (k : Fin k0_t5_loop.trips)
    (hS : ∀ a x, ((![(k0_pay139 (k0_pay128 iotaV 0#32 1#32 k)), k0_pay172] : Fin 2 → IVec S16 32) a x).toNat < S64x128.size a) :
    {p | ∃ x, idxAt ![(k0_pay139 (k0_pay128 iotaV 0#32 1#32 k)), k0_pay172] hS x = p} = Hit 1 2 k.val :=
  hit_eq 1 2 k.val (k0_pay139 (k0_pay128 iotaV 0#32 1#32 k)) k0_pay172
    (fun x => by rw [gcol1_toNat]; show _ = (ln x + k.val) % 16 + 16 * 1; omega)
    (fun x => by rw [pay172_toNat]; show _ = 16 * 2 + ln x; omega) hS

theorem val_d1_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay173, (k0_pay139 (k0_pay128 iotaV 0#32 1#32 k))] : Fin 2 → IVec S16 32) a x).toNat < S128x128.size a)
    (hS : ∀ a x, ((![(k0_pay139 (k0_pay128 iotaV 0#32 1#32 k)), k0_pay173] : Fin 2 → IVec S16 32) a x).toNat < S64x128.size a) (x : S16.Idx) :
    k0_pay144 (loadIdx Pc ![(k0_pay127 k0_pay169 w), k0_pay140 o (k0_pay139 (k0_pay128 iotaV 0#32 1#32 k))] hP) (loadIdx Gc ![k0_pay173, (k0_pay139 (k0_pay128 iotaV 0#32 1#32 k))] hG) x
      = Tslot Gc Pc o w hw ho (idxAt ![(k0_pay139 (k0_pay128 iotaV 0#32 1#32 k)), k0_pay173] hS x) :=
  store_value Gc Pc o w hw ho (k0_pay139 (k0_pay128 iotaV 0#32 1#32 k)) k0_pay173 (k0_pay127 k0_pay169 w) (k0_pay140 o (k0_pay139 (k0_pay128 iotaV 0#32 1#32 k))) (prow_toNat w)
    (fun x => pcol1_toNat o _ x (gcol1_lt k x) ho) hP hG hS x

theorem hit_d1_j3 (k : Fin k0_t5_loop.trips)
    (hS : ∀ a x, ((![(k0_pay139 (k0_pay128 iotaV 0#32 1#32 k)), k0_pay173] : Fin 2 → IVec S16 32) a x).toNat < S64x128.size a) :
    {p | ∃ x, idxAt ![(k0_pay139 (k0_pay128 iotaV 0#32 1#32 k)), k0_pay173] hS x = p} = Hit 1 3 k.val :=
  hit_eq 1 3 k.val (k0_pay139 (k0_pay128 iotaV 0#32 1#32 k)) k0_pay173
    (fun x => by rw [gcol1_toNat]; show _ = (ln x + k.val) % 16 + 16 * 1; omega)
    (fun x => by rw [pay173_toNat]; show _ = 16 * 3 + ln x; omega) hS

theorem val_d1_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay174, (k0_pay139 (k0_pay128 iotaV 0#32 1#32 k))] : Fin 2 → IVec S16 32) a x).toNat < S128x128.size a)
    (hS : ∀ a x, ((![(k0_pay139 (k0_pay128 iotaV 0#32 1#32 k)), k0_pay174] : Fin 2 → IVec S16 32) a x).toNat < S64x128.size a) (x : S16.Idx) :
    k0_pay145 (loadIdx Pc ![(k0_pay127 k0_pay169 w), k0_pay140 o (k0_pay139 (k0_pay128 iotaV 0#32 1#32 k))] hP) (loadIdx Gc ![k0_pay174, (k0_pay139 (k0_pay128 iotaV 0#32 1#32 k))] hG) x
      = Tslot Gc Pc o w hw ho (idxAt ![(k0_pay139 (k0_pay128 iotaV 0#32 1#32 k)), k0_pay174] hS x) :=
  store_value Gc Pc o w hw ho (k0_pay139 (k0_pay128 iotaV 0#32 1#32 k)) k0_pay174 (k0_pay127 k0_pay169 w) (k0_pay140 o (k0_pay139 (k0_pay128 iotaV 0#32 1#32 k))) (prow_toNat w)
    (fun x => pcol1_toNat o _ x (gcol1_lt k x) ho) hP hG hS x

theorem hit_d1_j4 (k : Fin k0_t5_loop.trips)
    (hS : ∀ a x, ((![(k0_pay139 (k0_pay128 iotaV 0#32 1#32 k)), k0_pay174] : Fin 2 → IVec S16 32) a x).toNat < S64x128.size a) :
    {p | ∃ x, idxAt ![(k0_pay139 (k0_pay128 iotaV 0#32 1#32 k)), k0_pay174] hS x = p} = Hit 1 4 k.val :=
  hit_eq 1 4 k.val (k0_pay139 (k0_pay128 iotaV 0#32 1#32 k)) k0_pay174
    (fun x => by rw [gcol1_toNat]; show _ = (ln x + k.val) % 16 + 16 * 1; omega)
    (fun x => by rw [pay174_toNat]; show _ = 16 * 4 + ln x; omega) hS

theorem val_d1_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay175, (k0_pay139 (k0_pay128 iotaV 0#32 1#32 k))] : Fin 2 → IVec S16 32) a x).toNat < S128x128.size a)
    (hS : ∀ a x, ((![(k0_pay139 (k0_pay128 iotaV 0#32 1#32 k)), k0_pay175] : Fin 2 → IVec S16 32) a x).toNat < S64x128.size a) (x : S16.Idx) :
    k0_pay146 (loadIdx Pc ![(k0_pay127 k0_pay169 w), k0_pay140 o (k0_pay139 (k0_pay128 iotaV 0#32 1#32 k))] hP) (loadIdx Gc ![k0_pay175, (k0_pay139 (k0_pay128 iotaV 0#32 1#32 k))] hG) x
      = Tslot Gc Pc o w hw ho (idxAt ![(k0_pay139 (k0_pay128 iotaV 0#32 1#32 k)), k0_pay175] hS x) :=
  store_value Gc Pc o w hw ho (k0_pay139 (k0_pay128 iotaV 0#32 1#32 k)) k0_pay175 (k0_pay127 k0_pay169 w) (k0_pay140 o (k0_pay139 (k0_pay128 iotaV 0#32 1#32 k))) (prow_toNat w)
    (fun x => pcol1_toNat o _ x (gcol1_lt k x) ho) hP hG hS x

theorem hit_d1_j5 (k : Fin k0_t5_loop.trips)
    (hS : ∀ a x, ((![(k0_pay139 (k0_pay128 iotaV 0#32 1#32 k)), k0_pay175] : Fin 2 → IVec S16 32) a x).toNat < S64x128.size a) :
    {p | ∃ x, idxAt ![(k0_pay139 (k0_pay128 iotaV 0#32 1#32 k)), k0_pay175] hS x = p} = Hit 1 5 k.val :=
  hit_eq 1 5 k.val (k0_pay139 (k0_pay128 iotaV 0#32 1#32 k)) k0_pay175
    (fun x => by rw [gcol1_toNat]; show _ = (ln x + k.val) % 16 + 16 * 1; omega)
    (fun x => by rw [pay175_toNat]; show _ = 16 * 5 + ln x; omega) hS

theorem val_d1_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay176, (k0_pay139 (k0_pay128 iotaV 0#32 1#32 k))] : Fin 2 → IVec S16 32) a x).toNat < S128x128.size a)
    (hS : ∀ a x, ((![(k0_pay139 (k0_pay128 iotaV 0#32 1#32 k)), k0_pay176] : Fin 2 → IVec S16 32) a x).toNat < S64x128.size a) (x : S16.Idx) :
    k0_pay147 (loadIdx Pc ![(k0_pay127 k0_pay169 w), k0_pay140 o (k0_pay139 (k0_pay128 iotaV 0#32 1#32 k))] hP) (loadIdx Gc ![k0_pay176, (k0_pay139 (k0_pay128 iotaV 0#32 1#32 k))] hG) x
      = Tslot Gc Pc o w hw ho (idxAt ![(k0_pay139 (k0_pay128 iotaV 0#32 1#32 k)), k0_pay176] hS x) :=
  store_value Gc Pc o w hw ho (k0_pay139 (k0_pay128 iotaV 0#32 1#32 k)) k0_pay176 (k0_pay127 k0_pay169 w) (k0_pay140 o (k0_pay139 (k0_pay128 iotaV 0#32 1#32 k))) (prow_toNat w)
    (fun x => pcol1_toNat o _ x (gcol1_lt k x) ho) hP hG hS x

theorem hit_d1_j6 (k : Fin k0_t5_loop.trips)
    (hS : ∀ a x, ((![(k0_pay139 (k0_pay128 iotaV 0#32 1#32 k)), k0_pay176] : Fin 2 → IVec S16 32) a x).toNat < S64x128.size a) :
    {p | ∃ x, idxAt ![(k0_pay139 (k0_pay128 iotaV 0#32 1#32 k)), k0_pay176] hS x = p} = Hit 1 6 k.val :=
  hit_eq 1 6 k.val (k0_pay139 (k0_pay128 iotaV 0#32 1#32 k)) k0_pay176
    (fun x => by rw [gcol1_toNat]; show _ = (ln x + k.val) % 16 + 16 * 1; omega)
    (fun x => by rw [pay176_toNat]; show _ = 16 * 6 + ln x; omega) hS

theorem val_d1_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay140 o (k0_pay139 (k0_pay128 iotaV 0#32 1#32 k))] : Fin 2 → IVec S16 32) a x).toNat < S100x128.size a)
    (hG : ∀ a x, ((![k0_pay177, (k0_pay139 (k0_pay128 iotaV 0#32 1#32 k))] : Fin 2 → IVec S16 32) a x).toNat < S128x128.size a)
    (hS : ∀ a x, ((![(k0_pay139 (k0_pay128 iotaV 0#32 1#32 k)), k0_pay177] : Fin 2 → IVec S16 32) a x).toNat < S64x128.size a) (x : S16.Idx) :
    k0_pay148 (loadIdx Pc ![(k0_pay127 k0_pay169 w), k0_pay140 o (k0_pay139 (k0_pay128 iotaV 0#32 1#32 k))] hP) (loadIdx Gc ![k0_pay177, (k0_pay139 (k0_pay128 iotaV 0#32 1#32 k))] hG) x
      = Tslot Gc Pc o w hw ho (idxAt ![(k0_pay139 (k0_pay128 iotaV 0#32 1#32 k)), k0_pay177] hS x) :=
  store_value Gc Pc o w hw ho (k0_pay139 (k0_pay128 iotaV 0#32 1#32 k)) k0_pay177 (k0_pay127 k0_pay169 w) (k0_pay140 o (k0_pay139 (k0_pay128 iotaV 0#32 1#32 k))) (prow_toNat w)
    (fun x => pcol1_toNat o _ x (gcol1_lt k x) ho) hP hG hS x

theorem hit_d1_j7 (k : Fin k0_t5_loop.trips)
    (hS : ∀ a x, ((![(k0_pay139 (k0_pay128 iotaV 0#32 1#32 k)), k0_pay177] : Fin 2 → IVec S16 32) a x).toNat < S64x128.size a) :
    {p | ∃ x, idxAt ![(k0_pay139 (k0_pay128 iotaV 0#32 1#32 k)), k0_pay177] hS x = p} = Hit 1 7 k.val :=
  hit_eq 1 7 k.val (k0_pay139 (k0_pay128 iotaV 0#32 1#32 k)) k0_pay177
    (fun x => by rw [gcol1_toNat]; show _ = (ln x + k.val) % 16 + 16 * 1; omega)
    (fun x => by rw [pay177_toNat]; show _ = 16 * 7 + ln x; omega) hS

theorem val_d2_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay170, (k0_pay149 (k0_pay128 iotaV 0#32 1#32 k))] : Fin 2 → IVec S16 32) a x).toNat < S128x128.size a)
    (hS : ∀ a x, ((![(k0_pay149 (k0_pay128 iotaV 0#32 1#32 k)), k0_pay170] : Fin 2 → IVec S16 32) a x).toNat < S64x128.size a) (x : S16.Idx) :
    k0_pay151 (loadIdx Pc ![(k0_pay127 k0_pay169 w), k0_pay150 o (k0_pay149 (k0_pay128 iotaV 0#32 1#32 k))] hP) (loadIdx Gc ![k0_pay170, (k0_pay149 (k0_pay128 iotaV 0#32 1#32 k))] hG) x
      = Tslot Gc Pc o w hw ho (idxAt ![(k0_pay149 (k0_pay128 iotaV 0#32 1#32 k)), k0_pay170] hS x) :=
  store_value Gc Pc o w hw ho (k0_pay149 (k0_pay128 iotaV 0#32 1#32 k)) k0_pay170 (k0_pay127 k0_pay169 w) (k0_pay150 o (k0_pay149 (k0_pay128 iotaV 0#32 1#32 k))) (prow_toNat w)
    (fun x => pcol2_toNat o _ x (gcol2_lt k x) ho) hP hG hS x

theorem hit_d2_j0 (k : Fin k0_t5_loop.trips)
    (hS : ∀ a x, ((![(k0_pay149 (k0_pay128 iotaV 0#32 1#32 k)), k0_pay170] : Fin 2 → IVec S16 32) a x).toNat < S64x128.size a) :
    {p | ∃ x, idxAt ![(k0_pay149 (k0_pay128 iotaV 0#32 1#32 k)), k0_pay170] hS x = p} = Hit 2 0 k.val :=
  hit_eq 2 0 k.val (k0_pay149 (k0_pay128 iotaV 0#32 1#32 k)) k0_pay170
    (fun x => by rw [gcol2_toNat]; show _ = (ln x + k.val) % 16 + 16 * 2; omega)
    (fun x => by rw [pay170_toNat]; show _ = 16 * 0 + ln x; omega) hS

theorem val_d2_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay171, (k0_pay149 (k0_pay128 iotaV 0#32 1#32 k))] : Fin 2 → IVec S16 32) a x).toNat < S128x128.size a)
    (hS : ∀ a x, ((![(k0_pay149 (k0_pay128 iotaV 0#32 1#32 k)), k0_pay171] : Fin 2 → IVec S16 32) a x).toNat < S64x128.size a) (x : S16.Idx) :
    k0_pay152 (loadIdx Pc ![(k0_pay127 k0_pay169 w), k0_pay150 o (k0_pay149 (k0_pay128 iotaV 0#32 1#32 k))] hP) (loadIdx Gc ![k0_pay171, (k0_pay149 (k0_pay128 iotaV 0#32 1#32 k))] hG) x
      = Tslot Gc Pc o w hw ho (idxAt ![(k0_pay149 (k0_pay128 iotaV 0#32 1#32 k)), k0_pay171] hS x) :=
  store_value Gc Pc o w hw ho (k0_pay149 (k0_pay128 iotaV 0#32 1#32 k)) k0_pay171 (k0_pay127 k0_pay169 w) (k0_pay150 o (k0_pay149 (k0_pay128 iotaV 0#32 1#32 k))) (prow_toNat w)
    (fun x => pcol2_toNat o _ x (gcol2_lt k x) ho) hP hG hS x

theorem hit_d2_j1 (k : Fin k0_t5_loop.trips)
    (hS : ∀ a x, ((![(k0_pay149 (k0_pay128 iotaV 0#32 1#32 k)), k0_pay171] : Fin 2 → IVec S16 32) a x).toNat < S64x128.size a) :
    {p | ∃ x, idxAt ![(k0_pay149 (k0_pay128 iotaV 0#32 1#32 k)), k0_pay171] hS x = p} = Hit 2 1 k.val :=
  hit_eq 2 1 k.val (k0_pay149 (k0_pay128 iotaV 0#32 1#32 k)) k0_pay171
    (fun x => by rw [gcol2_toNat]; show _ = (ln x + k.val) % 16 + 16 * 2; omega)
    (fun x => by rw [pay171_toNat]; show _ = 16 * 1 + ln x; omega) hS

theorem val_d2_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay172, (k0_pay149 (k0_pay128 iotaV 0#32 1#32 k))] : Fin 2 → IVec S16 32) a x).toNat < S128x128.size a)
    (hS : ∀ a x, ((![(k0_pay149 (k0_pay128 iotaV 0#32 1#32 k)), k0_pay172] : Fin 2 → IVec S16 32) a x).toNat < S64x128.size a) (x : S16.Idx) :
    k0_pay153 (loadIdx Pc ![(k0_pay127 k0_pay169 w), k0_pay150 o (k0_pay149 (k0_pay128 iotaV 0#32 1#32 k))] hP) (loadIdx Gc ![k0_pay172, (k0_pay149 (k0_pay128 iotaV 0#32 1#32 k))] hG) x
      = Tslot Gc Pc o w hw ho (idxAt ![(k0_pay149 (k0_pay128 iotaV 0#32 1#32 k)), k0_pay172] hS x) :=
  store_value Gc Pc o w hw ho (k0_pay149 (k0_pay128 iotaV 0#32 1#32 k)) k0_pay172 (k0_pay127 k0_pay169 w) (k0_pay150 o (k0_pay149 (k0_pay128 iotaV 0#32 1#32 k))) (prow_toNat w)
    (fun x => pcol2_toNat o _ x (gcol2_lt k x) ho) hP hG hS x

theorem hit_d2_j2 (k : Fin k0_t5_loop.trips)
    (hS : ∀ a x, ((![(k0_pay149 (k0_pay128 iotaV 0#32 1#32 k)), k0_pay172] : Fin 2 → IVec S16 32) a x).toNat < S64x128.size a) :
    {p | ∃ x, idxAt ![(k0_pay149 (k0_pay128 iotaV 0#32 1#32 k)), k0_pay172] hS x = p} = Hit 2 2 k.val :=
  hit_eq 2 2 k.val (k0_pay149 (k0_pay128 iotaV 0#32 1#32 k)) k0_pay172
    (fun x => by rw [gcol2_toNat]; show _ = (ln x + k.val) % 16 + 16 * 2; omega)
    (fun x => by rw [pay172_toNat]; show _ = 16 * 2 + ln x; omega) hS

theorem val_d2_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay173, (k0_pay149 (k0_pay128 iotaV 0#32 1#32 k))] : Fin 2 → IVec S16 32) a x).toNat < S128x128.size a)
    (hS : ∀ a x, ((![(k0_pay149 (k0_pay128 iotaV 0#32 1#32 k)), k0_pay173] : Fin 2 → IVec S16 32) a x).toNat < S64x128.size a) (x : S16.Idx) :
    k0_pay154 (loadIdx Pc ![(k0_pay127 k0_pay169 w), k0_pay150 o (k0_pay149 (k0_pay128 iotaV 0#32 1#32 k))] hP) (loadIdx Gc ![k0_pay173, (k0_pay149 (k0_pay128 iotaV 0#32 1#32 k))] hG) x
      = Tslot Gc Pc o w hw ho (idxAt ![(k0_pay149 (k0_pay128 iotaV 0#32 1#32 k)), k0_pay173] hS x) :=
  store_value Gc Pc o w hw ho (k0_pay149 (k0_pay128 iotaV 0#32 1#32 k)) k0_pay173 (k0_pay127 k0_pay169 w) (k0_pay150 o (k0_pay149 (k0_pay128 iotaV 0#32 1#32 k))) (prow_toNat w)
    (fun x => pcol2_toNat o _ x (gcol2_lt k x) ho) hP hG hS x

theorem hit_d2_j3 (k : Fin k0_t5_loop.trips)
    (hS : ∀ a x, ((![(k0_pay149 (k0_pay128 iotaV 0#32 1#32 k)), k0_pay173] : Fin 2 → IVec S16 32) a x).toNat < S64x128.size a) :
    {p | ∃ x, idxAt ![(k0_pay149 (k0_pay128 iotaV 0#32 1#32 k)), k0_pay173] hS x = p} = Hit 2 3 k.val :=
  hit_eq 2 3 k.val (k0_pay149 (k0_pay128 iotaV 0#32 1#32 k)) k0_pay173
    (fun x => by rw [gcol2_toNat]; show _ = (ln x + k.val) % 16 + 16 * 2; omega)
    (fun x => by rw [pay173_toNat]; show _ = 16 * 3 + ln x; omega) hS

theorem val_d2_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay174, (k0_pay149 (k0_pay128 iotaV 0#32 1#32 k))] : Fin 2 → IVec S16 32) a x).toNat < S128x128.size a)
    (hS : ∀ a x, ((![(k0_pay149 (k0_pay128 iotaV 0#32 1#32 k)), k0_pay174] : Fin 2 → IVec S16 32) a x).toNat < S64x128.size a) (x : S16.Idx) :
    k0_pay155 (loadIdx Pc ![(k0_pay127 k0_pay169 w), k0_pay150 o (k0_pay149 (k0_pay128 iotaV 0#32 1#32 k))] hP) (loadIdx Gc ![k0_pay174, (k0_pay149 (k0_pay128 iotaV 0#32 1#32 k))] hG) x
      = Tslot Gc Pc o w hw ho (idxAt ![(k0_pay149 (k0_pay128 iotaV 0#32 1#32 k)), k0_pay174] hS x) :=
  store_value Gc Pc o w hw ho (k0_pay149 (k0_pay128 iotaV 0#32 1#32 k)) k0_pay174 (k0_pay127 k0_pay169 w) (k0_pay150 o (k0_pay149 (k0_pay128 iotaV 0#32 1#32 k))) (prow_toNat w)
    (fun x => pcol2_toNat o _ x (gcol2_lt k x) ho) hP hG hS x

theorem hit_d2_j4 (k : Fin k0_t5_loop.trips)
    (hS : ∀ a x, ((![(k0_pay149 (k0_pay128 iotaV 0#32 1#32 k)), k0_pay174] : Fin 2 → IVec S16 32) a x).toNat < S64x128.size a) :
    {p | ∃ x, idxAt ![(k0_pay149 (k0_pay128 iotaV 0#32 1#32 k)), k0_pay174] hS x = p} = Hit 2 4 k.val :=
  hit_eq 2 4 k.val (k0_pay149 (k0_pay128 iotaV 0#32 1#32 k)) k0_pay174
    (fun x => by rw [gcol2_toNat]; show _ = (ln x + k.val) % 16 + 16 * 2; omega)
    (fun x => by rw [pay174_toNat]; show _ = 16 * 4 + ln x; omega) hS

theorem val_d2_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay175, (k0_pay149 (k0_pay128 iotaV 0#32 1#32 k))] : Fin 2 → IVec S16 32) a x).toNat < S128x128.size a)
    (hS : ∀ a x, ((![(k0_pay149 (k0_pay128 iotaV 0#32 1#32 k)), k0_pay175] : Fin 2 → IVec S16 32) a x).toNat < S64x128.size a) (x : S16.Idx) :
    k0_pay156 (loadIdx Pc ![(k0_pay127 k0_pay169 w), k0_pay150 o (k0_pay149 (k0_pay128 iotaV 0#32 1#32 k))] hP) (loadIdx Gc ![k0_pay175, (k0_pay149 (k0_pay128 iotaV 0#32 1#32 k))] hG) x
      = Tslot Gc Pc o w hw ho (idxAt ![(k0_pay149 (k0_pay128 iotaV 0#32 1#32 k)), k0_pay175] hS x) :=
  store_value Gc Pc o w hw ho (k0_pay149 (k0_pay128 iotaV 0#32 1#32 k)) k0_pay175 (k0_pay127 k0_pay169 w) (k0_pay150 o (k0_pay149 (k0_pay128 iotaV 0#32 1#32 k))) (prow_toNat w)
    (fun x => pcol2_toNat o _ x (gcol2_lt k x) ho) hP hG hS x

theorem hit_d2_j5 (k : Fin k0_t5_loop.trips)
    (hS : ∀ a x, ((![(k0_pay149 (k0_pay128 iotaV 0#32 1#32 k)), k0_pay175] : Fin 2 → IVec S16 32) a x).toNat < S64x128.size a) :
    {p | ∃ x, idxAt ![(k0_pay149 (k0_pay128 iotaV 0#32 1#32 k)), k0_pay175] hS x = p} = Hit 2 5 k.val :=
  hit_eq 2 5 k.val (k0_pay149 (k0_pay128 iotaV 0#32 1#32 k)) k0_pay175
    (fun x => by rw [gcol2_toNat]; show _ = (ln x + k.val) % 16 + 16 * 2; omega)
    (fun x => by rw [pay175_toNat]; show _ = 16 * 5 + ln x; omega) hS

theorem val_d2_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay176, (k0_pay149 (k0_pay128 iotaV 0#32 1#32 k))] : Fin 2 → IVec S16 32) a x).toNat < S128x128.size a)
    (hS : ∀ a x, ((![(k0_pay149 (k0_pay128 iotaV 0#32 1#32 k)), k0_pay176] : Fin 2 → IVec S16 32) a x).toNat < S64x128.size a) (x : S16.Idx) :
    k0_pay157 (loadIdx Pc ![(k0_pay127 k0_pay169 w), k0_pay150 o (k0_pay149 (k0_pay128 iotaV 0#32 1#32 k))] hP) (loadIdx Gc ![k0_pay176, (k0_pay149 (k0_pay128 iotaV 0#32 1#32 k))] hG) x
      = Tslot Gc Pc o w hw ho (idxAt ![(k0_pay149 (k0_pay128 iotaV 0#32 1#32 k)), k0_pay176] hS x) :=
  store_value Gc Pc o w hw ho (k0_pay149 (k0_pay128 iotaV 0#32 1#32 k)) k0_pay176 (k0_pay127 k0_pay169 w) (k0_pay150 o (k0_pay149 (k0_pay128 iotaV 0#32 1#32 k))) (prow_toNat w)
    (fun x => pcol2_toNat o _ x (gcol2_lt k x) ho) hP hG hS x

theorem hit_d2_j6 (k : Fin k0_t5_loop.trips)
    (hS : ∀ a x, ((![(k0_pay149 (k0_pay128 iotaV 0#32 1#32 k)), k0_pay176] : Fin 2 → IVec S16 32) a x).toNat < S64x128.size a) :
    {p | ∃ x, idxAt ![(k0_pay149 (k0_pay128 iotaV 0#32 1#32 k)), k0_pay176] hS x = p} = Hit 2 6 k.val :=
  hit_eq 2 6 k.val (k0_pay149 (k0_pay128 iotaV 0#32 1#32 k)) k0_pay176
    (fun x => by rw [gcol2_toNat]; show _ = (ln x + k.val) % 16 + 16 * 2; omega)
    (fun x => by rw [pay176_toNat]; show _ = 16 * 6 + ln x; omega) hS

theorem val_d2_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay150 o (k0_pay149 (k0_pay128 iotaV 0#32 1#32 k))] : Fin 2 → IVec S16 32) a x).toNat < S100x128.size a)
    (hG : ∀ a x, ((![k0_pay177, (k0_pay149 (k0_pay128 iotaV 0#32 1#32 k))] : Fin 2 → IVec S16 32) a x).toNat < S128x128.size a)
    (hS : ∀ a x, ((![(k0_pay149 (k0_pay128 iotaV 0#32 1#32 k)), k0_pay177] : Fin 2 → IVec S16 32) a x).toNat < S64x128.size a) (x : S16.Idx) :
    k0_pay158 (loadIdx Pc ![(k0_pay127 k0_pay169 w), k0_pay150 o (k0_pay149 (k0_pay128 iotaV 0#32 1#32 k))] hP) (loadIdx Gc ![k0_pay177, (k0_pay149 (k0_pay128 iotaV 0#32 1#32 k))] hG) x
      = Tslot Gc Pc o w hw ho (idxAt ![(k0_pay149 (k0_pay128 iotaV 0#32 1#32 k)), k0_pay177] hS x) :=
  store_value Gc Pc o w hw ho (k0_pay149 (k0_pay128 iotaV 0#32 1#32 k)) k0_pay177 (k0_pay127 k0_pay169 w) (k0_pay150 o (k0_pay149 (k0_pay128 iotaV 0#32 1#32 k))) (prow_toNat w)
    (fun x => pcol2_toNat o _ x (gcol2_lt k x) ho) hP hG hS x

theorem hit_d2_j7 (k : Fin k0_t5_loop.trips)
    (hS : ∀ a x, ((![(k0_pay149 (k0_pay128 iotaV 0#32 1#32 k)), k0_pay177] : Fin 2 → IVec S16 32) a x).toNat < S64x128.size a) :
    {p | ∃ x, idxAt ![(k0_pay149 (k0_pay128 iotaV 0#32 1#32 k)), k0_pay177] hS x = p} = Hit 2 7 k.val :=
  hit_eq 2 7 k.val (k0_pay149 (k0_pay128 iotaV 0#32 1#32 k)) k0_pay177
    (fun x => by rw [gcol2_toNat]; show _ = (ln x + k.val) % 16 + 16 * 2; omega)
    (fun x => by rw [pay177_toNat]; show _ = 16 * 7 + ln x; omega) hS

theorem val_d3_j0 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay170, (k0_pay159 (k0_pay128 iotaV 0#32 1#32 k))] : Fin 2 → IVec S16 32) a x).toNat < S128x128.size a)
    (hS : ∀ a x, ((![(k0_pay159 (k0_pay128 iotaV 0#32 1#32 k)), k0_pay170] : Fin 2 → IVec S16 32) a x).toNat < S64x128.size a) (x : S16.Idx) :
    k0_pay161 (loadIdx Pc ![(k0_pay127 k0_pay169 w), k0_pay160 o (k0_pay159 (k0_pay128 iotaV 0#32 1#32 k))] hP) (loadIdx Gc ![k0_pay170, (k0_pay159 (k0_pay128 iotaV 0#32 1#32 k))] hG) x
      = Tslot Gc Pc o w hw ho (idxAt ![(k0_pay159 (k0_pay128 iotaV 0#32 1#32 k)), k0_pay170] hS x) :=
  store_value Gc Pc o w hw ho (k0_pay159 (k0_pay128 iotaV 0#32 1#32 k)) k0_pay170 (k0_pay127 k0_pay169 w) (k0_pay160 o (k0_pay159 (k0_pay128 iotaV 0#32 1#32 k))) (prow_toNat w)
    (fun x => pcol3_toNat o _ x (gcol3_lt k x) ho) hP hG hS x

theorem hit_d3_j0 (k : Fin k0_t5_loop.trips)
    (hS : ∀ a x, ((![(k0_pay159 (k0_pay128 iotaV 0#32 1#32 k)), k0_pay170] : Fin 2 → IVec S16 32) a x).toNat < S64x128.size a) :
    {p | ∃ x, idxAt ![(k0_pay159 (k0_pay128 iotaV 0#32 1#32 k)), k0_pay170] hS x = p} = Hit 3 0 k.val :=
  hit_eq 3 0 k.val (k0_pay159 (k0_pay128 iotaV 0#32 1#32 k)) k0_pay170
    (fun x => by rw [gcol3_toNat]; show _ = (ln x + k.val) % 16 + 16 * 3; omega)
    (fun x => by rw [pay170_toNat]; show _ = 16 * 0 + ln x; omega) hS

theorem val_d3_j1 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay171, (k0_pay159 (k0_pay128 iotaV 0#32 1#32 k))] : Fin 2 → IVec S16 32) a x).toNat < S128x128.size a)
    (hS : ∀ a x, ((![(k0_pay159 (k0_pay128 iotaV 0#32 1#32 k)), k0_pay171] : Fin 2 → IVec S16 32) a x).toNat < S64x128.size a) (x : S16.Idx) :
    k0_pay162 (loadIdx Pc ![(k0_pay127 k0_pay169 w), k0_pay160 o (k0_pay159 (k0_pay128 iotaV 0#32 1#32 k))] hP) (loadIdx Gc ![k0_pay171, (k0_pay159 (k0_pay128 iotaV 0#32 1#32 k))] hG) x
      = Tslot Gc Pc o w hw ho (idxAt ![(k0_pay159 (k0_pay128 iotaV 0#32 1#32 k)), k0_pay171] hS x) :=
  store_value Gc Pc o w hw ho (k0_pay159 (k0_pay128 iotaV 0#32 1#32 k)) k0_pay171 (k0_pay127 k0_pay169 w) (k0_pay160 o (k0_pay159 (k0_pay128 iotaV 0#32 1#32 k))) (prow_toNat w)
    (fun x => pcol3_toNat o _ x (gcol3_lt k x) ho) hP hG hS x

theorem hit_d3_j1 (k : Fin k0_t5_loop.trips)
    (hS : ∀ a x, ((![(k0_pay159 (k0_pay128 iotaV 0#32 1#32 k)), k0_pay171] : Fin 2 → IVec S16 32) a x).toNat < S64x128.size a) :
    {p | ∃ x, idxAt ![(k0_pay159 (k0_pay128 iotaV 0#32 1#32 k)), k0_pay171] hS x = p} = Hit 3 1 k.val :=
  hit_eq 3 1 k.val (k0_pay159 (k0_pay128 iotaV 0#32 1#32 k)) k0_pay171
    (fun x => by rw [gcol3_toNat]; show _ = (ln x + k.val) % 16 + 16 * 3; omega)
    (fun x => by rw [pay171_toNat]; show _ = 16 * 1 + ln x; omega) hS

theorem val_d3_j2 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay172, (k0_pay159 (k0_pay128 iotaV 0#32 1#32 k))] : Fin 2 → IVec S16 32) a x).toNat < S128x128.size a)
    (hS : ∀ a x, ((![(k0_pay159 (k0_pay128 iotaV 0#32 1#32 k)), k0_pay172] : Fin 2 → IVec S16 32) a x).toNat < S64x128.size a) (x : S16.Idx) :
    k0_pay163 (loadIdx Pc ![(k0_pay127 k0_pay169 w), k0_pay160 o (k0_pay159 (k0_pay128 iotaV 0#32 1#32 k))] hP) (loadIdx Gc ![k0_pay172, (k0_pay159 (k0_pay128 iotaV 0#32 1#32 k))] hG) x
      = Tslot Gc Pc o w hw ho (idxAt ![(k0_pay159 (k0_pay128 iotaV 0#32 1#32 k)), k0_pay172] hS x) :=
  store_value Gc Pc o w hw ho (k0_pay159 (k0_pay128 iotaV 0#32 1#32 k)) k0_pay172 (k0_pay127 k0_pay169 w) (k0_pay160 o (k0_pay159 (k0_pay128 iotaV 0#32 1#32 k))) (prow_toNat w)
    (fun x => pcol3_toNat o _ x (gcol3_lt k x) ho) hP hG hS x

theorem hit_d3_j2 (k : Fin k0_t5_loop.trips)
    (hS : ∀ a x, ((![(k0_pay159 (k0_pay128 iotaV 0#32 1#32 k)), k0_pay172] : Fin 2 → IVec S16 32) a x).toNat < S64x128.size a) :
    {p | ∃ x, idxAt ![(k0_pay159 (k0_pay128 iotaV 0#32 1#32 k)), k0_pay172] hS x = p} = Hit 3 2 k.val :=
  hit_eq 3 2 k.val (k0_pay159 (k0_pay128 iotaV 0#32 1#32 k)) k0_pay172
    (fun x => by rw [gcol3_toNat]; show _ = (ln x + k.val) % 16 + 16 * 3; omega)
    (fun x => by rw [pay172_toNat]; show _ = 16 * 2 + ln x; omega) hS

theorem val_d3_j3 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay173, (k0_pay159 (k0_pay128 iotaV 0#32 1#32 k))] : Fin 2 → IVec S16 32) a x).toNat < S128x128.size a)
    (hS : ∀ a x, ((![(k0_pay159 (k0_pay128 iotaV 0#32 1#32 k)), k0_pay173] : Fin 2 → IVec S16 32) a x).toNat < S64x128.size a) (x : S16.Idx) :
    k0_pay164 (loadIdx Pc ![(k0_pay127 k0_pay169 w), k0_pay160 o (k0_pay159 (k0_pay128 iotaV 0#32 1#32 k))] hP) (loadIdx Gc ![k0_pay173, (k0_pay159 (k0_pay128 iotaV 0#32 1#32 k))] hG) x
      = Tslot Gc Pc o w hw ho (idxAt ![(k0_pay159 (k0_pay128 iotaV 0#32 1#32 k)), k0_pay173] hS x) :=
  store_value Gc Pc o w hw ho (k0_pay159 (k0_pay128 iotaV 0#32 1#32 k)) k0_pay173 (k0_pay127 k0_pay169 w) (k0_pay160 o (k0_pay159 (k0_pay128 iotaV 0#32 1#32 k))) (prow_toNat w)
    (fun x => pcol3_toNat o _ x (gcol3_lt k x) ho) hP hG hS x

theorem hit_d3_j3 (k : Fin k0_t5_loop.trips)
    (hS : ∀ a x, ((![(k0_pay159 (k0_pay128 iotaV 0#32 1#32 k)), k0_pay173] : Fin 2 → IVec S16 32) a x).toNat < S64x128.size a) :
    {p | ∃ x, idxAt ![(k0_pay159 (k0_pay128 iotaV 0#32 1#32 k)), k0_pay173] hS x = p} = Hit 3 3 k.val :=
  hit_eq 3 3 k.val (k0_pay159 (k0_pay128 iotaV 0#32 1#32 k)) k0_pay173
    (fun x => by rw [gcol3_toNat]; show _ = (ln x + k.val) % 16 + 16 * 3; omega)
    (fun x => by rw [pay173_toNat]; show _ = 16 * 3 + ln x; omega) hS

theorem val_d3_j4 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay174, (k0_pay159 (k0_pay128 iotaV 0#32 1#32 k))] : Fin 2 → IVec S16 32) a x).toNat < S128x128.size a)
    (hS : ∀ a x, ((![(k0_pay159 (k0_pay128 iotaV 0#32 1#32 k)), k0_pay174] : Fin 2 → IVec S16 32) a x).toNat < S64x128.size a) (x : S16.Idx) :
    k0_pay165 (loadIdx Pc ![(k0_pay127 k0_pay169 w), k0_pay160 o (k0_pay159 (k0_pay128 iotaV 0#32 1#32 k))] hP) (loadIdx Gc ![k0_pay174, (k0_pay159 (k0_pay128 iotaV 0#32 1#32 k))] hG) x
      = Tslot Gc Pc o w hw ho (idxAt ![(k0_pay159 (k0_pay128 iotaV 0#32 1#32 k)), k0_pay174] hS x) :=
  store_value Gc Pc o w hw ho (k0_pay159 (k0_pay128 iotaV 0#32 1#32 k)) k0_pay174 (k0_pay127 k0_pay169 w) (k0_pay160 o (k0_pay159 (k0_pay128 iotaV 0#32 1#32 k))) (prow_toNat w)
    (fun x => pcol3_toNat o _ x (gcol3_lt k x) ho) hP hG hS x

theorem hit_d3_j4 (k : Fin k0_t5_loop.trips)
    (hS : ∀ a x, ((![(k0_pay159 (k0_pay128 iotaV 0#32 1#32 k)), k0_pay174] : Fin 2 → IVec S16 32) a x).toNat < S64x128.size a) :
    {p | ∃ x, idxAt ![(k0_pay159 (k0_pay128 iotaV 0#32 1#32 k)), k0_pay174] hS x = p} = Hit 3 4 k.val :=
  hit_eq 3 4 k.val (k0_pay159 (k0_pay128 iotaV 0#32 1#32 k)) k0_pay174
    (fun x => by rw [gcol3_toNat]; show _ = (ln x + k.val) % 16 + 16 * 3; omega)
    (fun x => by rw [pay174_toNat]; show _ = 16 * 4 + ln x; omega) hS

theorem val_d3_j5 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay175, (k0_pay159 (k0_pay128 iotaV 0#32 1#32 k))] : Fin 2 → IVec S16 32) a x).toNat < S128x128.size a)
    (hS : ∀ a x, ((![(k0_pay159 (k0_pay128 iotaV 0#32 1#32 k)), k0_pay175] : Fin 2 → IVec S16 32) a x).toNat < S64x128.size a) (x : S16.Idx) :
    k0_pay166 (loadIdx Pc ![(k0_pay127 k0_pay169 w), k0_pay160 o (k0_pay159 (k0_pay128 iotaV 0#32 1#32 k))] hP) (loadIdx Gc ![k0_pay175, (k0_pay159 (k0_pay128 iotaV 0#32 1#32 k))] hG) x
      = Tslot Gc Pc o w hw ho (idxAt ![(k0_pay159 (k0_pay128 iotaV 0#32 1#32 k)), k0_pay175] hS x) :=
  store_value Gc Pc o w hw ho (k0_pay159 (k0_pay128 iotaV 0#32 1#32 k)) k0_pay175 (k0_pay127 k0_pay169 w) (k0_pay160 o (k0_pay159 (k0_pay128 iotaV 0#32 1#32 k))) (prow_toNat w)
    (fun x => pcol3_toNat o _ x (gcol3_lt k x) ho) hP hG hS x

theorem hit_d3_j5 (k : Fin k0_t5_loop.trips)
    (hS : ∀ a x, ((![(k0_pay159 (k0_pay128 iotaV 0#32 1#32 k)), k0_pay175] : Fin 2 → IVec S16 32) a x).toNat < S64x128.size a) :
    {p | ∃ x, idxAt ![(k0_pay159 (k0_pay128 iotaV 0#32 1#32 k)), k0_pay175] hS x = p} = Hit 3 5 k.val :=
  hit_eq 3 5 k.val (k0_pay159 (k0_pay128 iotaV 0#32 1#32 k)) k0_pay175
    (fun x => by rw [gcol3_toNat]; show _ = (ln x + k.val) % 16 + 16 * 3; omega)
    (fun x => by rw [pay175_toNat]; show _ = 16 * 5 + ln x; omega) hS

theorem val_d3_j6 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay176, (k0_pay159 (k0_pay128 iotaV 0#32 1#32 k))] : Fin 2 → IVec S16 32) a x).toNat < S128x128.size a)
    (hS : ∀ a x, ((![(k0_pay159 (k0_pay128 iotaV 0#32 1#32 k)), k0_pay176] : Fin 2 → IVec S16 32) a x).toNat < S64x128.size a) (x : S16.Idx) :
    k0_pay167 (loadIdx Pc ![(k0_pay127 k0_pay169 w), k0_pay160 o (k0_pay159 (k0_pay128 iotaV 0#32 1#32 k))] hP) (loadIdx Gc ![k0_pay176, (k0_pay159 (k0_pay128 iotaV 0#32 1#32 k))] hG) x
      = Tslot Gc Pc o w hw ho (idxAt ![(k0_pay159 (k0_pay128 iotaV 0#32 1#32 k)), k0_pay176] hS x) :=
  store_value Gc Pc o w hw ho (k0_pay159 (k0_pay128 iotaV 0#32 1#32 k)) k0_pay176 (k0_pay127 k0_pay169 w) (k0_pay160 o (k0_pay159 (k0_pay128 iotaV 0#32 1#32 k))) (prow_toNat w)
    (fun x => pcol3_toNat o _ x (gcol3_lt k x) ho) hP hG hS x

theorem hit_d3_j6 (k : Fin k0_t5_loop.trips)
    (hS : ∀ a x, ((![(k0_pay159 (k0_pay128 iotaV 0#32 1#32 k)), k0_pay176] : Fin 2 → IVec S16 32) a x).toNat < S64x128.size a) :
    {p | ∃ x, idxAt ![(k0_pay159 (k0_pay128 iotaV 0#32 1#32 k)), k0_pay176] hS x = p} = Hit 3 6 k.val :=
  hit_eq 3 6 k.val (k0_pay159 (k0_pay128 iotaV 0#32 1#32 k)) k0_pay176
    (fun x => by rw [gcol3_toNat]; show _ = (ln x + k.val) % 16 + 16 * 3; omega)
    (fun x => by rw [pay176_toNat]; show _ = 16 * 6 + ln x; omega) hS

theorem val_d3_j7 (k : Fin k0_t5_loop.trips) (Gc : Vec F S128x128 .f32) (Pc : Vec F S100x128 .f32) (o w : BitVec 32)
    (hw : w.toNat < 100) (ho : o.toNat ≤ 64)
    (hP : ∀ a x, ((![(k0_pay127 k0_pay169 w), k0_pay160 o (k0_pay159 (k0_pay128 iotaV 0#32 1#32 k))] : Fin 2 → IVec S16 32) a x).toNat < S100x128.size a)
    (hG : ∀ a x, ((![k0_pay177, (k0_pay159 (k0_pay128 iotaV 0#32 1#32 k))] : Fin 2 → IVec S16 32) a x).toNat < S128x128.size a)
    (hS : ∀ a x, ((![(k0_pay159 (k0_pay128 iotaV 0#32 1#32 k)), k0_pay177] : Fin 2 → IVec S16 32) a x).toNat < S64x128.size a) (x : S16.Idx) :
    k0_pay168 (loadIdx Pc ![(k0_pay127 k0_pay169 w), k0_pay160 o (k0_pay159 (k0_pay128 iotaV 0#32 1#32 k))] hP) (loadIdx Gc ![k0_pay177, (k0_pay159 (k0_pay128 iotaV 0#32 1#32 k))] hG) x
      = Tslot Gc Pc o w hw ho (idxAt ![(k0_pay159 (k0_pay128 iotaV 0#32 1#32 k)), k0_pay177] hS x) :=
  store_value Gc Pc o w hw ho (k0_pay159 (k0_pay128 iotaV 0#32 1#32 k)) k0_pay177 (k0_pay127 k0_pay169 w) (k0_pay160 o (k0_pay159 (k0_pay128 iotaV 0#32 1#32 k))) (prow_toNat w)
    (fun x => pcol3_toNat o _ x (gcol3_lt k x) ho) hP hG hS x

theorem hit_d3_j7 (k : Fin k0_t5_loop.trips)
    (hS : ∀ a x, ((![(k0_pay159 (k0_pay128 iotaV 0#32 1#32 k)), k0_pay177] : Fin 2 → IVec S16 32) a x).toNat < S64x128.size a) :
    {p | ∃ x, idxAt ![(k0_pay159 (k0_pay128 iotaV 0#32 1#32 k)), k0_pay177] hS x = p} = Hit 3 7 k.val :=
  hit_eq 3 7 k.val (k0_pay159 (k0_pay128 iotaV 0#32 1#32 k)) k0_pay177
    (fun x => by rw [gcol3_toNat]; show _ = (ln x + k.val) % 16 + 16 * 3; omega)
    (fun x => by rw [pay177_toNat]; show _ = 16 * 7 + ln x; omega) hS

end Cert.LanesK.C4
-- ==== Proof.BodyInnerK.lean ====
/-
  One tile's task: the lookup kernel run on a vector subcore.

  The tile copies its 128 batch columns of the transposed index array and the whole packed positional table into
  its scratch, keeps four row gathers in flight (one ring slot and one semaphore each), and for each position l
  waits for the gathered rows, adds the positional row while transposing 16 × 16 lane tiles into a staging slot,
  and copies the slot out to slab l of its block of the result (two staging slots, one semaphore each).
-/
import proofs.«206908_g46772193853751_cont_8to1c4_160_30_alg».proof.Proof.BodyInvK
import proofs.«206908_g46772193853751_cont_8to1c4_160_30_alg».proof.Proof.LaneListC1K
import proofs.«206908_g46772193853751_cont_8to1c4_160_30_alg».proof.Proof.LaneConsK
import proofs.«206908_g46772193853751_cont_8to1c4_160_30_alg».proof.Proof.LaneTrip2K
import proofs.«206908_g46772193853751_cont_8to1c4_160_30_alg».proof.Proof.LaneTrip3K
import proofs.«206908_g46772193853751_cont_8to1c4_160_30_alg».proof.Proof.LaneTrip4K
import proofs.«206908_g46772193853751_cont_8to1c4_160_30_alg».proof.Proof.Lane1K
import proofs.«206908_g46772193853751_cont_8to1c4_160_30_alg».proof.Proof.Lane2K
import proofs.«206908_g46772193853751_cont_8to1c4_160_30_alg».proof.Proof.Lane3K
import proofs.«206908_g46772193853751_cont_8to1c4_160_30_alg».proof.Proof.Lane4K
import proofs.«206908_g46772193853751_cont_8to1c4_160_30_alg».proof.Proof.Gen.Kernel.Skeleton

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

/-- The position word of quarter r of outer trip g, as the program computes it. -/
def lword (g : Fin k0_t1_loop.trips) (r : BitVec 32) : BitVec 32 :=
  Scalar.addi (Scalar.muli (Scalar.addi 0#32 (Scalar.muli (Scf.iv 0#32 1#32 g) 1#32)) 4#32) r
/-- The program's test "position ≥ 2" (a copy-out is pending on the staging slot). -/
def geq2 (w : BitVec 32) : BitVec 1 := Scalar.cmpi .ne (Scalar.extui (Scalar.cmpi .sge w 2#32)) 0#32
theorem geq2_0 : ∀ g : Fin k0_t1_loop.trips, 1 ≤ g.val → geq2 (lword g 0#32) = 1#1 := by decide +kernel
theorem geq2_1 : ∀ g : Fin k0_t1_loop.trips, 1 ≤ g.val → geq2 (lword g 1#32) = 1#1 := by decide +kernel
theorem geq2_2 : ∀ g : Fin k0_t1_loop.trips, geq2 (lword g 2#32) = 1#1 := by decide +kernel
theorem geq2_3 : ∀ g : Fin k0_t1_loop.trips, geq2 (lword g 3#32) = 1#1 := by decide +kernel
theorem cond2_mid : ∀ g : Fin k0_t1_loop.trips, g.val < 49 → k0_cond2 g = 1#1 := by decide +kernel
theorem cond4_mid : ∀ g : Fin k0_t1_loop.trips, g.val < 49 → k0_cond4 g = 1#1 := by decide +kernel
theorem cond6_mid : ∀ g : Fin k0_t1_loop.trips, g.val < 49 → k0_cond6 g = 1#1 := by decide +kernel
theorem cond8_mid : ∀ g : Fin k0_t1_loop.trips, g.val < 49 → k0_cond8 g = 1#1 := by decide +kernel

theorem w_lt_0 : ∀ g : Fin k0_t1_loop.trips, (Scalar.divsi (lword g 0#32) 2#32).toNat < 100 := by decide +kernel
theorem w_lt_1 : ∀ g : Fin k0_t1_loop.trips, (Scalar.divsi (lword g 1#32) 2#32).toNat < 100 := by decide +kernel
theorem w_lt_2 : ∀ g : Fin k0_t1_loop.trips, (Scalar.divsi (lword g 2#32) 2#32).toNat < 100 := by decide +kernel
theorem w_lt_3 : ∀ g : Fin k0_t1_loop.trips, (Scalar.divsi (lword g 3#32) 2#32).toNat < 100 := by decide +kernel
theorem o_le_0 : (0#32 : BitVec 32).toNat ≤ 64 := by decide
theorem o_le_64 : (64#32 : BitVec 32).toNat ≤ 64 := by decide

variable [FloatOps F]
variable (m : (ℓ : Loc nD τ sig) → Buf (Elt F) ℓ)

variable (d : Dev nD) (L : grid0.Coords)
local notation "thr" => V d (cV L) (jV L)

theorem waits_ok_insert {W S : Waits sig (HIx 1)} (sm : SemLoc sig) (h : ∀ p ∈ S, p ∈ W ∨ p.2 = none) :
    ∀ p ∈ insert (sm, (default : HIx 1)) S, p ∈ W ∨ p.2 = none := by
  intro p hp
  rcases Finset.mem_insert.mp hp with rfl | hp
  · exact .inr rfl
  · exact h p hp

/-- The positional scratch as the indexed loads read it. -/
abbrev PposV : Vec F S100x128 .f32 := View.readAt (Elt F) (a7).view (LoadRect.whole S100x128) (Ppos m d L)

/-- The inner loop of a quarter, at the head of trip n: the positional scratch, the landed ring slot, and the staging
    slot, which already holds the sum at every element the first n trips wrote. -/
def Iin (slotG : Memref sig .scVector .vmem S128x128 .f32) (slotT : Memref sig .scVector .vmem S64x128 .f32)
    (O : CellTallies nD τ sig (HIx 1)) (W : Waits sig (HIx 1)) (Gd : Buf (Elt F) (slotG.view.loc thr))
    (o w : BitVec 32) (hw : w.toNat < 100) (ho : o.toNat ≤ 64) (n : Nat) (_ : PUnit) : sProp 𝕄 :=
  iprop(Transfers.MayWaits thr (none : HIx 1) O
    ∗ ((a7).view.loc thr ↦{fullShare} Ppos m d L)
    ∗ (slotG.view.loc thr ↦[slotG.view.set]{fullShare} Gd)
    ∗ (∃ R, ⌜Cert.LanesK.GoodOnM slotT (Cert.LanesK.Tslot (View.readAt (Elt F) slotG.view (LoadRect.whole S128x128) Gd) (PposV m d L) o w hw ho) (Cert.LanesK.AccTo n) R⌝
        ∗ (slotT.view.loc thr ↦[slotT.view.set]{fullShare} R))
    ∗ ∃ W', ⌜∀ p ∈ W', p ∈ W ∨ p.2 = none⌝ ∗ owes thr O W')

set_option maxHeartbeats 4000000 in
set_option maxRecDepth 65536 in
theorem inner0 (O : CellTallies nD τ sig (HIx 1)) (W : Waits sig (HIx 1)) (g : Fin k0_t1_loop.trips)
    (fd : Buf (Elt F) (slotG0.view.loc thr)) (k : Fin k0_t2_loop.trips) (hk : PUnit) :
    (Iin m d L slotG0 slotT0 O W fd 0#32 (Scalar.divsi (lword g 0#32) 2#32) (w_lt_0 g) o_le_0 k.val hk : sProp 𝕄)
      ⊢ wp frame (wpE (defs₀ (F := F)) 𝒱₀ thr none) Set.univ
          (k0_t2_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            0#32 1#32 g 0#32 (Scalar.divsi (lword g 0#32) 2#32) k hk)
          fun r => Iin m d L slotG0 slotT0 O W fd 0#32 (Scalar.divsi (lword g 0#32) 2#32) (w_lt_0 g) o_le_0 (k.val + 1) r := by
  have hw0 : (Scalar.divsi (lword g 0#32) 2#32).toNat < 100 := w_lt_0 g
  have ho0 : (0#32 : BitVec 32).toNat ≤ 64 := o_le_0
  have h1 := Cert.LanesK.C1.chkP0_trip k 0#32 (Scalar.divsi (lword g 0#32) 2#32) hw0 ho0
  have h2 := Cert.LanesK.C1.chkG0_trip k
  have h3 := Cert.LanesK.C1.chkP1_trip k 0#32 (Scalar.divsi (lword g 0#32) 2#32) hw0 ho0
  have h4 := Cert.LanesK.C1.chkG1_trip k
  have h5 := Cert.LanesK.C1.chkP2_trip k 0#32 (Scalar.divsi (lword g 0#32) 2#32) hw0 ho0
  have h6 := Cert.LanesK.C1.chkG2_trip k
  have h7 := Cert.LanesK.C1.chkP3_trip k 0#32 (Scalar.divsi (lword g 0#32) 2#32) hw0 ho0
  have h8 := Cert.LanesK.C1.chkG3_trip k
  unfold Iin
  conv => rhs; simp only [k0_t2_body, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.LanesK.GoodV (Cert.LanesK.Tslot (View.readAt (Elt F) slotG0.view (LoadRect.whole S128x128) fd) (PposV m d L) 0#32 (Scalar.divsi (lword g 0#32) 2#32) (w_lt_0 g) o_le_0) (Cert.LanesK.AccTo k.val ∪ Cert.LanesK.Hit 0 0 k.val ∪ Cert.LanesK.Hit 0 1 k.val ∪ Cert.LanesK.Hit 0 2 k.val ∪ Cert.LanesK.Hit 0 3 k.val ∪ Cert.LanesK.Hit 0 4 k.val ∪ Cert.LanesK.Hit 0 5 k.val ∪ Cert.LanesK.Hit 0 6 k.val ∪ Cert.LanesK.Hit 0 7 k.val ∪ Cert.LanesK.Hit 1 0 k.val ∪ Cert.LanesK.Hit 1 1 k.val ∪ Cert.LanesK.Hit 1 2 k.val ∪ Cert.LanesK.Hit 1 3 k.val ∪ Cert.LanesK.Hit 1 4 k.val ∪ Cert.LanesK.Hit 1 5 k.val ∪ Cert.LanesK.Hit 1 6 k.val ∪ Cert.LanesK.Hit 1 7 k.val ∪ Cert.LanesK.Hit 2 0 k.val ∪ Cert.LanesK.Hit 2 1 k.val ∪ Cert.LanesK.Hit 2 2 k.val ∪ Cert.LanesK.Hit 2 3 k.val ∪ Cert.LanesK.Hit 2 4 k.val ∪ Cert.LanesK.Hit 2 5 k.val ∪ Cert.LanesK.Hit 2 6 k.val ∪ Cert.LanesK.Hit 2 7 k.val ∪ Cert.LanesK.Hit 3 0 k.val ∪ Cert.LanesK.Hit 3 1 k.val ∪ Cert.LanesK.Hit 3 2 k.val ∪ Cert.LanesK.Hit 3 3 k.val ∪ Cert.LanesK.Hit 3 4 k.val ∪ Cert.LanesK.Hit 3 5 k.val ∪ Cert.LanesK.Hit 3 6 k.val)
      (inner0.sl.f_31 m d L g fd k h1 h2 h3 h4 h5 h6 h7 h8 R) := by
    unfold inner0.sl.f_31 inner0.sl.HT0_31
    erw [View.readCov_cons_toLoadRect]
    refine Cert.LanesK.goodV_first _ _ _ (Cert.LanesK.C1.val_d3_j6 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.2.2.2.2.2.1 (Cert.LanesK.C1.chkG3_trip k).2.2.2.2.2.2.2.2.2.2.2.2.2.2.1) (Cert.LanesK.C1.hit_d3_j6 k (Cert.LanesK.C1.chkG3_trip k).2.2.2.2.2.2.2.2.2.2.2.2.2.2.1) ?_
    unfold inner0.sl.f_30 inner0.sl.HT0_30
    erw [View.readCov_cons_toLoadRect]
    refine Cert.LanesK.goodV_first _ _ _ (Cert.LanesK.C1.val_d3_j5 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.2.2.2.2.1 (Cert.LanesK.C1.chkG3_trip k).2.2.2.2.2.2.2.2.2.2.2.2.2.1) (Cert.LanesK.C1.hit_d3_j5 k (Cert.LanesK.C1.chkG3_trip k).2.2.2.2.2.2.2.2.2.2.2.2.2.1) ?_
    unfold inner0.sl.f_29 inner0.sl.HT0_29
    erw [View.readCov_cons_toLoadRect]
    refine Cert.LanesK.goodV_first _ _ _ (Cert.LanesK.C1.val_d3_j4 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.2.2.2.1 (Cert.LanesK.C1.chkG3_trip k).2.2.2.2.2.2.2.2.2.2.2.2.1) (Cert.LanesK.C1.hit_d3_j4 k (Cert.LanesK.C1.chkG3_trip k).2.2.2.2.2.2.2.2.2.2.2.2.1) ?_
    unfold inner0.sl.f_28 inner0.sl.HT0_28
    erw [View.readCov_cons_toLoadRect]
    refine Cert.LanesK.goodV_first _ _ _ (Cert.LanesK.C1.val_d3_j3 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.2.2.1 (Cert.LanesK.C1.chkG3_trip k).2.2.2.2.2.2.2.2.2.2.2.1) (Cert.LanesK.C1.hit_d3_j3 k (Cert.LanesK.C1.chkG3_trip k).2.2.2.2.2.2.2.2.2.2.2.1) ?_
    unfold inner0.sl.f_27 inner0.sl.HT0_27
    erw [View.readCov_cons_toLoadRect]
    refine Cert.LanesK.goodV_first _ _ _ (Cert.LanesK.C1.val_d3_j2 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.2.1 (Cert.LanesK.C1.chkG3_trip k).2.2.2.2.2.2.2.2.2.2.1) (Cert.LanesK.C1.hit_d3_j2 k (Cert.LanesK.C1.chkG3_trip k).2.2.2.2.2.2.2.2.2.2.1) ?_
    unfold inner0.sl.f_26 inner0.sl.HT0_26
    erw [View.readCov_cons_toLoadRect]
    refine Cert.LanesK.goodV_first _ _ _ (Cert.LanesK.C1.val_d3_j1 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.1 (Cert.LanesK.C1.chkG3_trip k).2.2.2.2.2.2.2.2.2.1) (Cert.LanesK.C1.hit_d3_j1 k (Cert.LanesK.C1.chkG3_trip k).2.2.2.2.2.2.2.2.2.1) ?_
    unfold inner0.sl.f_25 inner0.sl.HT0_25
    erw [View.readCov_cons_toLoadRect]
    refine Cert.LanesK.goodV_first _ _ _ (Cert.LanesK.C1.val_d3_j0 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).1 (Cert.LanesK.C1.chkG3_trip k).2.2.2.2.2.2.2.2.1) (Cert.LanesK.C1.hit_d3_j0 k (Cert.LanesK.C1.chkG3_trip k).2.2.2.2.2.2.2.2.1) ?_
    unfold inner0.sl.f_24 inner0.sl.HT0_24
    erw [View.readCov_cons_toLoadRect]
    refine Cert.LanesK.goodV_first _ _ _ (Cert.LanesK.C1.val_d2_j7 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.2.2.2.2.2.2.1 (Cert.LanesK.C1.chkG2_trip k).2.2.2.2.2.2.2.2.2.2.2.2.2.2.2) (Cert.LanesK.C1.hit_d2_j7 k (Cert.LanesK.C1.chkG2_trip k).2.2.2.2.2.2.2.2.2.2.2.2.2.2.2) ?_
    unfold inner0.sl.f_23 inner0.sl.HT0_23
    erw [View.readCov_cons_toLoadRect]
    refine Cert.LanesK.goodV_first _ _ _ (Cert.LanesK.C1.val_d2_j6 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.2.2.2.2.2.1 (Cert.LanesK.C1.chkG2_trip k).2.2.2.2.2.2.2.2.2.2.2.2.2.2.1) (Cert.LanesK.C1.hit_d2_j6 k (Cert.LanesK.C1.chkG2_trip k).2.2.2.2.2.2.2.2.2.2.2.2.2.2.1) ?_
    unfold inner0.sl.f_22 inner0.sl.HT0_22
    erw [View.readCov_cons_toLoadRect]
    refine Cert.LanesK.goodV_first _ _ _ (Cert.LanesK.C1.val_d2_j5 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.2.2.2.2.1 (Cert.LanesK.C1.chkG2_trip k).2.2.2.2.2.2.2.2.2.2.2.2.2.1) (Cert.LanesK.C1.hit_d2_j5 k (Cert.LanesK.C1.chkG2_trip k).2.2.2.2.2.2.2.2.2.2.2.2.2.1) ?_
    unfold inner0.sl.f_21 inner0.sl.HT0_21
    erw [View.readCov_cons_toLoadRect]
    refine Cert.LanesK.goodV_first _ _ _ (Cert.LanesK.C1.val_d2_j4 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.2.2.2.1 (Cert.LanesK.C1.chkG2_trip k).2.2.2.2.2.2.2.2.2.2.2.2.1) (Cert.LanesK.C1.hit_d2_j4 k (Cert.LanesK.C1.chkG2_trip k).2.2.2.2.2.2.2.2.2.2.2.2.1) ?_
    unfold inner0.sl.f_20 inner0.sl.HT0_20
    erw [View.readCov_cons_toLoadRect]
    refine Cert.LanesK.goodV_first _ _ _ (Cert.LanesK.C1.val_d2_j3 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.2.2.1 (Cert.LanesK.C1.chkG2_trip k).2.2.2.2.2.2.2.2.2.2.2.1) (Cert.LanesK.C1.hit_d2_j3 k (Cert.LanesK.C1.chkG2_trip k).2.2.2.2.2.2.2.2.2.2.2.1) ?_
    unfold inner0.sl.f_19 inner0.sl.HT0_19
    erw [View.readCov_cons_toLoadRect]
    refine Cert.LanesK.goodV_first _ _ _ (Cert.LanesK.C1.val_d2_j2 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.2.1 (Cert.LanesK.C1.chkG2_trip k).2.2.2.2.2.2.2.2.2.2.1) (Cert.LanesK.C1.hit_d2_j2 k (Cert.LanesK.C1.chkG2_trip k).2.2.2.2.2.2.2.2.2.2.1) ?_
    unfold inner0.sl.f_18 inner0.sl.HT0_18
    erw [View.readCov_cons_toLoadRect]
    refine Cert.LanesK.goodV_first _ _ _ (Cert.LanesK.C1.val_d2_j1 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).2.1 (Cert.LanesK.C1.chkG2_trip k).2.2.2.2.2.2.2.2.2.1) (Cert.LanesK.C1.hit_d2_j1 k (Cert.LanesK.C1.chkG2_trip k).2.2.2.2.2.2.2.2.2.1) ?_
    unfold inner0.sl.f_17 inner0.sl.HT0_17
    erw [View.readCov_cons_toLoadRect]
    refine Cert.LanesK.goodV_first _ _ _ (Cert.LanesK.C1.val_d2_j0 k (View.readAt (Elt F) slotG0.view (LoadRect.whole S128x128) fd) (PposV m d L) 0#32 (Scalar.divsi (lword g 0#32) 2#32) (w_lt_0 g) o_le_0 (Cert.LanesK.C1.chkP2_trip k 0#32 (Scalar.divsi (lword g 0#32) 2#32) (w_lt_0 g) o_le_0) (Cert.LanesK.C1.chkG2_trip k).1 (Cert.LanesK.C1.chkG2_trip k).2.2.2.2.2.2.2.2.1) (Cert.LanesK.C1.hit_d2_j0 k (Cert.LanesK.C1.chkG2_trip k).2.2.2.2.2.2.2.2.1) ?_
    unfold inner0.sl.f_16 inner0.sl.HT0_16
    erw [View.readCov_cons_toLoadRect]
    refine Cert.LanesK.goodV_first _ _ _ (Cert.LanesK.C1.val_d1_j7 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.2.2.2.2.2.2.1 (Cert.LanesK.C1.chkG1_trip k).2.2.2.2.2.2.2.2.2.2.2.2.2.2.2) (Cert.LanesK.C1.hit_d1_j7 k (Cert.LanesK.C1.chkG1_trip k).2.2.2.2.2.2.2.2.2.2.2.2.2.2.2) ?_
    unfold inner0.sl.f_15 inner0.sl.HT0_15
    erw [View.readCov_cons_toLoadRect]
    refine Cert.LanesK.goodV_first _ _ _ (Cert.LanesK.C1.val_d1_j6 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.2.2.2.2.2.1 (Cert.LanesK.C1.chkG1_trip k).2.2.2.2.2.2.2.2.2.2.2.2.2.2.1) (Cert.LanesK.C1.hit_d1_j6 k (Cert.LanesK.C1.chkG1_trip k).2.2.2.2.2.2.2.2.2.2.2.2.2.2.1) ?_
    unfold inner0.sl.f_14 inner0.sl.HT0_14
    erw [View.readCov_cons_toLoadRect]
    refine Cert.LanesK.goodV_first _ _ _ (Cert.LanesK.C1.val_d1_j5 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.2.2.2.2.1 (Cert.LanesK.C1.chkG1_trip k).2.2.2.2.2.2.2.2.2.2.2.2.2.1) (Cert.LanesK.C1.hit_d1_j5 k (Cert.LanesK.C1.chkG1_trip k).2.2.2.2.2.2.2.2.2.2.2.2.2.1) ?_
    unfold inner0.sl.f_13 inner0.sl.HT0_13
    erw [View.readCov_cons_toLoadRect]
    refine Cert.LanesK.goodV_first _ _ _ (Cert.LanesK.C1.val_d1_j4 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.2.2.2.1 (Cert.LanesK.C1.chkG1_trip k).2.2.2.2.2.2.2.2.2.2.2.2.1) (Cert.LanesK.C1.hit_d1_j4 k (Cert.LanesK.C1.chkG1_trip k).2.2.2.2.2.2.2.2.2.2.2.2.1) ?_
    unfold inner0.sl.f_12 inner0.sl.HT0_12
    erw [View.readCov_cons_toLoadRect]
    refine Cert.LanesK.goodV_first _ _ _ (Cert.LanesK.C1.val_d1_j3 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.2.2.1 (Cert.LanesK.C1.chkG1_trip k).2.2.2.2.2.2.2.2.2.2.2.1) (Cert.LanesK.C1.hit_d1_j3 k (Cert.LanesK.C1.chkG1_trip k).2.2.2.2.2.2.2.2.2.2.2.1) ?_
    unfold inner0.sl.f_11 inner0.sl.HT0_11
    erw [View.readCov_cons_toLoadRect]
    refine Cert.LanesK.goodV_first _ _ _ (Cert.LanesK.C1.val_d1_j2 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.2.1 (Cert.LanesK.C1.chkG1_trip k).2.2.2.2.2.2.2.2.2.2.1) (Cert.LanesK.C1.hit_d1_j2 k (Cert.LanesK.C1.chkG1_trip k).2.2.2.2.2.2.2.2.2.2.1) ?_
    unfold inner0.sl.f_10 inner0.sl.HT0_10
    erw [View.readCov_cons_toLoadRect]
    refine Cert.LanesK.goodV_first _ _ _ (Cert.LanesK.C1.val_d1_j1 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).2.1 (Cert.LanesK.C1.chkG1_trip k).2.2.2.2.2.2.2.2.2.1) (Cert.LanesK.C1.hit_d1_j1 k (Cert.LanesK.C1.chkG1_trip k).2.2.2.2.2.2.2.2.2.1) ?_
    unfold inner0.sl.f_9 inner0.sl.HT0_9
    erw [View.readCov_cons_toLoadRect]
    refine Cert.LanesK.goodV_first _ _ _ (Cert.LanesK.C1.val_d1_j0 k (View.readAt (Elt F) slotG0.view (LoadRect.whole S128x128) fd) (PposV m d L) 0#32 (Scalar.divsi (lword g 0#32) 2#32) (w_lt_0 g) o_le_0 (Cert.LanesK.C1.chkP1_trip k 0#32 (Scalar.divsi (lword g 0#32) 2#32) (w_lt_0 g) o_le_0) (Cert.LanesK.C1.chkG1_trip k).1 (Cert.LanesK.C1.chkG1_trip k).2.2.2.2.2.2.2.2.1) (Cert.LanesK.C1.hit_d1_j0 k (Cert.LanesK.C1.chkG1_trip k).2.2.2.2.2.2.2.2.1) ?_
    unfold inner0.sl.f_8 inner0.sl.HT0_8
    erw [View.readCov_cons_toLoadRect]
    refine Cert.LanesK.goodV_first _ _ _ (Cert.LanesK.C1.val_d0_j7 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.2.2.2.2.2.2.1 (Cert.LanesK.C1.chkG0_trip k).2.2.2.2.2.2.2.2.2.2.2.2.2.2.2) (Cert.LanesK.C1.hit_d0_j7 k (Cert.LanesK.C1.chkG0_trip k).2.2.2.2.2.2.2.2.2.2.2.2.2.2.2) ?_
    unfold inner0.sl.f_7 inner0.sl.HT0_7
    erw [View.readCov_cons_toLoadRect]
    refine Cert.LanesK.goodV_first _ _ _ (Cert.LanesK.C1.val_d0_j6 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.2.2.2.2.2.1 (Cert.LanesK.C1.chkG0_trip k).2.2.2.2.2.2.2.2.2.2.2.2.2.2.1) (Cert.LanesK.C1.hit_d0_j6 k (Cert.LanesK.C1.chkG0_trip k).2.2.2.2.2.2.2.2.2.2.2.2.2.2.1) ?_
    unfold inner0.sl.f_6 inner0.sl.HT0_6
    erw [View.readCov_cons_toLoadRect]
    refine Cert.LanesK.goodV_first _ _ _ (Cert.LanesK.C1.val_d0_j5 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.2.2.2.2.1 (Cert.LanesK.C1.chkG0_trip k).2.2.2.2.2.2.2.2.2.2.2.2.2.1) (Cert.LanesK.C1.hit_d0_j5 k (Cert.LanesK.C1.chkG0_trip k).2.2.2.2.2.2.2.2.2.2.2.2.2.1) ?_
    unfold inner0.sl.f_5 inner0.sl.HT0_5
    erw [View.readCov_cons_toLoadRect]
    refine Cert.LanesK.goodV_first _ _ _ (Cert.LanesK.C1.val_d0_j4 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.2.2.2.1 (Cert.LanesK.C1.chkG0_trip k).2.2.2.2.2.2.2.2.2.2.2.2.1) (Cert.LanesK.C1.hit_d0_j4 k (Cert.LanesK.C1.chkG0_trip k).2.2.2.2.2.2.2.2.2.2.2.2.1) ?_
    unfold inner0.sl.f_4 inner0.sl.HT0_4
    erw [View.readCov_cons_toLoadRect]
    refine Cert.LanesK.goodV_first _ _ _ (Cert.LanesK.C1.val_d0_j3 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.2.2.1 (Cert.LanesK.C1.chkG0_trip k).2.2.2.2.2.2.2.2.2.2.2.1) (Cert.LanesK.C1.hit_d0_j3 k (Cert.LanesK.C1.chkG0_trip k).2.2.2.2.2.2.2.2.2.2.2.1) ?_
    unfold inner0.sl.f_3 inner0.sl.HT0_3
    erw [View.readCov_cons_toLoadRect]
    refine Cert.LanesK.goodV_first _ _ _ (Cert.LanesK.C1.val_d0_j2 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.2.1 (Cert.LanesK.C1.chkG0_trip k).2.2.2.2.2.2.2.2.2.2.1) (Cert.LanesK.C1.hit_d0_j2 k (Cert.LanesK.C1.chkG0_trip k).2.2.2.2.2.2.2.2.2.2.1) ?_
    unfold inner0.sl.f_2 inner0.sl.HT0_2
    erw [View.readCov_cons_toLoadRect]
    refine Cert.LanesK.goodV_first _ _ _ (Cert.LanesK.C1.val_d0_j1 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).2.1 (Cert.LanesK.C1.chkG0_trip k).2.2.2.2.2.2.2.2.2.1) (Cert.LanesK.C1.hit_d0_j1 k (Cert.LanesK.C1.chkG0_trip k).2.2.2.2.2.2.2.2.2.1) ?_
    unfold inner0.sl.f_1 inner0.sl.HT0_1
    erw [View.readCov_cons_toLoadRect]
    refine Cert.LanesK.goodV_first _ _ _ (Cert.LanesK.C1.val_d0_j0 k (View.readAt (Elt F) slotG0.view (LoadRect.whole S128x128) fd) (PposV m d L) 0#32 (Scalar.divsi (lword g 0#32) 2#32) (w_lt_0 g) o_le_0 (Cert.LanesK.C1.chkP0_trip k 0#32 (Scalar.divsi (lword g 0#32) 2#32) (w_lt_0 g) o_le_0) (Cert.LanesK.C1.chkG0_trip k).1 (Cert.LanesK.C1.chkG0_trip k).2.2.2.2.2.2.2.2.1) (Cert.LanesK.C1.hit_d0_j0 k (Cert.LanesK.C1.chkG0_trip k).2.2.2.2.2.2.2.2.1) ?_
    exact Cert.LanesK.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.LanesK.goodM_of_goodV_cons slotT0 R _ (Cert.LanesK.goodV_mono (Cert.LanesK.C1.accTo_succ_sub k.val) ?_)
      refine Cert.LanesK.goodV_first _ _ _ (Cert.LanesK.C1.val_d3_j7 k (View.readAt (Elt F) slotG0.view (LoadRect.whole S128x128) fd) (PposV m d L) 0#32 (Scalar.divsi (lword g 0#32) 2#32) (w_lt_0 g) o_le_0 (Cert.LanesK.C1.chkP3_trip k 0#32 (Scalar.divsi (lword g 0#32) 2#32) (w_lt_0 g) o_le_0) (Cert.LanesK.C1.chkG3_trip k).2.2.2.2.2.2.2.1 (Cert.LanesK.C1.chkG3_trip k).2.2.2.2.2.2.2.2.2.2.2.2.2.2.2) (Cert.LanesK.C1.hit_d3_j7 k (Cert.LanesK.C1.chkG3_trip k).2.2.2.2.2.2.2.2.2.2.2.2.2.2.2) ?_
      exact key31
  iexists _
  isplitr
  rotate_left
  · iexact HO
  · ipureintro; exact hW''

set_option maxHeartbeats 4000000 in
set_option maxRecDepth 65536 in
theorem inner1 (O : CellTallies nD τ sig (HIx 1)) (W : Waits sig (HIx 1)) (g : Fin k0_t1_loop.trips)
    (v61 v62 : BitVec 32) (v84 : BitVec 1) (fd : Buf (Elt F) (slotG1.view.loc thr)) (k : Fin k0_t3_loop.trips) (hk : PUnit) :
    (Iin m d L slotG1 slotT1 O W fd 64#32 (Scalar.divsi (lword g 1#32) 2#32) (w_lt_1 g) o_le_64 k.val hk : sProp 𝕄)
      ⊢ wp frame (wpE (defs₀ (F := F)) 𝒱₀ thr none) Set.univ
          (k0_t3_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            g v61 v62 v84 64#32 (Scalar.divsi (lword g 1#32) 2#32) k hk)
          fun r => Iin m d L slotG1 slotT1 O W fd 64#32 (Scalar.divsi (lword g 1#32) 2#32) (w_lt_1 g) o_le_64 (k.val + 1) r := by
  have hw0 : (Scalar.divsi (lword g 1#32) 2#32).toNat < 100 := w_lt_1 g
  have ho0 : (64#32 : BitVec 32).toNat ≤ 64 := o_le_64
  have h1 := Cert.LanesK.C2.chkP0_trip k 64#32 (Scalar.divsi (lword g 1#32) 2#32) hw0 ho0
  have h2 := Cert.LanesK.C2.chkG0_trip k
  have h3 := Cert.LanesK.C2.chkP1_trip k 64#32 (Scalar.divsi (lword g 1#32) 2#32) hw0 ho0
  have h4 := Cert.LanesK.C2.chkG1_trip k
  have h5 := Cert.LanesK.C2.chkP2_trip k 64#32 (Scalar.divsi (lword g 1#32) 2#32) hw0 ho0
  have h6 := Cert.LanesK.C2.chkG2_trip k
  have h7 := Cert.LanesK.C2.chkP3_trip k 64#32 (Scalar.divsi (lword g 1#32) 2#32) hw0 ho0
  have h8 := Cert.LanesK.C2.chkG3_trip k
  unfold Iin
  conv => rhs; simp only [k0_t3_body, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.LanesK.GoodV (Cert.LanesK.Tslot (View.readAt (Elt F) slotG1.view (LoadRect.whole S128x128) fd) (PposV m d L) 64#32 (Scalar.divsi (lword g 1#32) 2#32) (w_lt_1 g) o_le_64) (Cert.LanesK.AccTo k.val ∪ Cert.LanesK.Hit 0 0 k.val ∪ Cert.LanesK.Hit 0 1 k.val ∪ Cert.LanesK.Hit 0 2 k.val ∪ Cert.LanesK.Hit 0 3 k.val ∪ Cert.LanesK.Hit 0 4 k.val ∪ Cert.LanesK.Hit 0 5 k.val ∪ Cert.LanesK.Hit 0 6 k.val ∪ Cert.LanesK.Hit 0 7 k.val ∪ Cert.LanesK.Hit 1 0 k.val ∪ Cert.LanesK.Hit 1 1 k.val ∪ Cert.LanesK.Hit 1 2 k.val ∪ Cert.LanesK.Hit 1 3 k.val ∪ Cert.LanesK.Hit 1 4 k.val ∪ Cert.LanesK.Hit 1 5 k.val ∪ Cert.LanesK.Hit 1 6 k.val ∪ Cert.LanesK.Hit 1 7 k.val ∪ Cert.LanesK.Hit 2 0 k.val ∪ Cert.LanesK.Hit 2 1 k.val ∪ Cert.LanesK.Hit 2 2 k.val ∪ Cert.LanesK.Hit 2 3 k.val ∪ Cert.LanesK.Hit 2 4 k.val ∪ Cert.LanesK.Hit 2 5 k.val ∪ Cert.LanesK.Hit 2 6 k.val ∪ Cert.LanesK.Hit 2 7 k.val ∪ Cert.LanesK.Hit 3 0 k.val ∪ Cert.LanesK.Hit 3 1 k.val ∪ Cert.LanesK.Hit 3 2 k.val ∪ Cert.LanesK.Hit 3 3 k.val ∪ Cert.LanesK.Hit 3 4 k.val ∪ Cert.LanesK.Hit 3 5 k.val ∪ Cert.LanesK.Hit 3 6 k.val)
      (inner1.sl.f_31 m d L g fd k h1 h2 h3 h4 h5 h6 h7 h8 R) := by
    unfold inner1.sl.f_31 inner1.sl.HT0_31
    erw [View.readCov_cons_toLoadRect]
    refine Cert.LanesK.goodV_first _ _ _ (Cert.LanesK.C2.val_d3_j6 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.2.2.2.2.2.1 (Cert.LanesK.C2.chkG3_trip k).2.2.2.2.2.2.2.2.2.2.2.2.2.2.1) (Cert.LanesK.C2.hit_d3_j6 k (Cert.LanesK.C2.chkG3_trip k).2.2.2.2.2.2.2.2.2.2.2.2.2.2.1) ?_
    unfold inner1.sl.f_30 inner1.sl.HT0_30
    erw [View.readCov_cons_toLoadRect]
    refine Cert.LanesK.goodV_first _ _ _ (Cert.LanesK.C2.val_d3_j5 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.2.2.2.2.1 (Cert.LanesK.C2.chkG3_trip k).2.2.2.2.2.2.2.2.2.2.2.2.2.1) (Cert.LanesK.C2.hit_d3_j5 k (Cert.LanesK.C2.chkG3_trip k).2.2.2.2.2.2.2.2.2.2.2.2.2.1) ?_
    unfold inner1.sl.f_29 inner1.sl.HT0_29
    erw [View.readCov_cons_toLoadRect]
    refine Cert.LanesK.goodV_first _ _ _ (Cert.LanesK.C2.val_d3_j4 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.2.2.2.1 (Cert.LanesK.C2.chkG3_trip k).2.2.2.2.2.2.2.2.2.2.2.2.1) (Cert.LanesK.C2.hit_d3_j4 k (Cert.LanesK.C2.chkG3_trip k).2.2.2.2.2.2.2.2.2.2.2.2.1) ?_
    unfold inner1.sl.f_28 inner1.sl.HT0_28
    erw [View.readCov_cons_toLoadRect]
    refine Cert.LanesK.goodV_first _ _ _ (Cert.LanesK.C2.val_d3_j3 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.2.2.1 (Cert.LanesK.C2.chkG3_trip k).2.2.2.2.2.2.2.2.2.2.2.1) (Cert.LanesK.C2.hit_d3_j3 k (Cert.LanesK.C2.chkG3_trip k).2.2.2.2.2.2.2.2.2.2.2.1) ?_
    unfold inner1.sl.f_27 inner1.sl.HT0_27
    erw [View.readCov_cons_toLoadRect]
    refine Cert.LanesK.goodV_first _ _ _ (Cert.LanesK.C2.val_d3_j2 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.2.1 (Cert.LanesK.C2.chkG3_trip k).2.2.2.2.2.2.2.2.2.2.1) (Cert.LanesK.C2.hit_d3_j2 k (Cert.LanesK.C2.chkG3_trip k).2.2.2.2.2.2.2.2.2.2.1) ?_
    unfold inner1.sl.f_26 inner1.sl.HT0_26
    erw [View.readCov_cons_toLoadRect]
    refine Cert.LanesK.goodV_first _ _ _ (Cert.LanesK.C2.val_d3_j1 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.1 (Cert.LanesK.C2.chkG3_trip k).2.2.2.2.2.2.2.2.2.1) (Cert.LanesK.C2.hit_d3_j1 k (Cert.LanesK.C2.chkG3_trip k).2.2.2.2.2.2.2.2.2.1) ?_
    unfold inner1.sl.f_25 inner1.sl.HT0_25
    erw [View.readCov_cons_toLoadRect]
    refine Cert.LanesK.goodV_first _ _ _ (Cert.LanesK.C2.val_d3_j0 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).1 (Cert.LanesK.C2.chkG3_trip k).2.2.2.2.2.2.2.2.1) (Cert.LanesK.C2.hit_d3_j0 k (Cert.LanesK.C2.chkG3_trip k).2.2.2.2.2.2.2.2.1) ?_
    unfold inner1.sl.f_24 inner1.sl.HT0_24
    erw [View.readCov_cons_toLoadRect]
    refine Cert.LanesK.goodV_first _ _ _ (Cert.LanesK.C2.val_d2_j7 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.2.2.2.2.2.2.1 (Cert.LanesK.C2.chkG2_trip k).2.2.2.2.2.2.2.2.2.2.2.2.2.2.2) (Cert.LanesK.C2.hit_d2_j7 k (Cert.LanesK.C2.chkG2_trip k).2.2.2.2.2.2.2.2.2.2.2.2.2.2.2) ?_
    unfold inner1.sl.f_23 inner1.sl.HT0_23
    erw [View.readCov_cons_toLoadRect]
    refine Cert.LanesK.goodV_first _ _ _ (Cert.LanesK.C2.val_d2_j6 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.2.2.2.2.2.1 (Cert.LanesK.C2.chkG2_trip k).2.2.2.2.2.2.2.2.2.2.2.2.2.2.1) (Cert.LanesK.C2.hit_d2_j6 k (Cert.LanesK.C2.chkG2_trip k).2.2.2.2.2.2.2.2.2.2.2.2.2.2.1) ?_
    unfold inner1.sl.f_22 inner1.sl.HT0_22
    erw [View.readCov_cons_toLoadRect]
    refine Cert.LanesK.goodV_first _ _ _ (Cert.LanesK.C2.val_d2_j5 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.2.2.2.2.1 (Cert.LanesK.C2.chkG2_trip k).2.2.2.2.2.2.2.2.2.2.2.2.2.1) (Cert.LanesK.C2.hit_d2_j5 k (Cert.LanesK.C2.chkG2_trip k).2.2.2.2.2.2.2.2.2.2.2.2.2.1) ?_
    unfold inner1.sl.f_21 inner1.sl.HT0_21
    erw [View.readCov_cons_toLoadRect]
    refine Cert.LanesK.goodV_first _ _ _ (Cert.LanesK.C2.val_d2_j4 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.2.2.2.1 (Cert.LanesK.C2.chkG2_trip k).2.2.2.2.2.2.2.2.2.2.2.2.1) (Cert.LanesK.C2.hit_d2_j4 k (Cert.LanesK.C2.chkG2_trip k).2.2.2.2.2.2.2.2.2.2.2.2.1) ?_
    unfold inner1.sl.f_20 inner1.sl.HT0_20
    erw [View.readCov_cons_toLoadRect]
    refine Cert.LanesK.goodV_first _ _ _ (Cert.LanesK.C2.val_d2_j3 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.2.2.1 (Cert.LanesK.C2.chkG2_trip k).2.2.2.2.2.2.2.2.2.2.2.1) (Cert.LanesK.C2.hit_d2_j3 k (Cert.LanesK.C2.chkG2_trip k).2.2.2.2.2.2.2.2.2.2.2.1) ?_
    unfold inner1.sl.f_19 inner1.sl.HT0_19
    erw [View.readCov_cons_toLoadRect]
    refine Cert.LanesK.goodV_first _ _ _ (Cert.LanesK.C2.val_d2_j2 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.2.1 (Cert.LanesK.C2.chkG2_trip k).2.2.2.2.2.2.2.2.2.2.1) (Cert.LanesK.C2.hit_d2_j2 k (Cert.LanesK.C2.chkG2_trip k).2.2.2.2.2.2.2.2.2.2.1) ?_
    unfold inner1.sl.f_18 inner1.sl.HT0_18
    erw [View.readCov_cons_toLoadRect]
    refine Cert.LanesK.goodV_first _ _ _ (Cert.LanesK.C2.val_d2_j1 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).2.1 (Cert.LanesK.C2.chkG2_trip k).2.2.2.2.2.2.2.2.2.1) (Cert.LanesK.C2.hit_d2_j1 k (Cert.LanesK.C2.chkG2_trip k).2.2.2.2.2.2.2.2.2.1) ?_
    unfold inner1.sl.f_17 inner1.sl.HT0_17
    erw [View.readCov_cons_toLoadRect]
    refine Cert.LanesK.goodV_first _ _ _ (Cert.LanesK.C2.val_d2_j0 k (View.readAt (Elt F) slotG1.view (LoadRect.whole S128x128) fd) (PposV m d L) 64#32 (Scalar.divsi (lword g 1#32) 2#32) (w_lt_1 g) o_le_64 (Cert.LanesK.C2.chkP2_trip k 64#32 (Scalar.divsi (lword g 1#32) 2#32) (w_lt_1 g) o_le_64) (Cert.LanesK.C2.chkG2_trip k).1 (Cert.LanesK.C2.chkG2_trip k).2.2.2.2.2.2.2.2.1) (Cert.LanesK.C2.hit_d2_j0 k (Cert.LanesK.C2.chkG2_trip k).2.2.2.2.2.2.2.2.1) ?_
    unfold inner1.sl.f_16 inner1.sl.HT0_16
    erw [View.readCov_cons_toLoadRect]
    refine Cert.LanesK.goodV_first _ _ _ (Cert.LanesK.C2.val_d1_j7 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.2.2.2.2.2.2.1 (Cert.LanesK.C2.chkG1_trip k).2.2.2.2.2.2.2.2.2.2.2.2.2.2.2) (Cert.LanesK.C2.hit_d1_j7 k (Cert.LanesK.C2.chkG1_trip k).2.2.2.2.2.2.2.2.2.2.2.2.2.2.2) ?_
    unfold inner1.sl.f_15 inner1.sl.HT0_15
    erw [View.readCov_cons_toLoadRect]
    refine Cert.LanesK.goodV_first _ _ _ (Cert.LanesK.C2.val_d1_j6 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.2.2.2.2.2.1 (Cert.LanesK.C2.chkG1_trip k).2.2.2.2.2.2.2.2.2.2.2.2.2.2.1) (Cert.LanesK.C2.hit_d1_j6 k (Cert.LanesK.C2.chkG1_trip k).2.2.2.2.2.2.2.2.2.2.2.2.2.2.1) ?_
    unfold inner1.sl.f_14 inner1.sl.HT0_14
    erw [View.readCov_cons_toLoadRect]
    refine Cert.LanesK.goodV_first _ _ _ (Cert.LanesK.C2.val_d1_j5 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.2.2.2.2.1 (Cert.LanesK.C2.chkG1_trip k).2.2.2.2.2.2.2.2.2.2.2.2.2.1) (Cert.LanesK.C2.hit_d1_j5 k (Cert.LanesK.C2.chkG1_trip k).2.2.2.2.2.2.2.2.2.2.2.2.2.1) ?_
    unfold inner1.sl.f_13 inner1.sl.HT0_13
    erw [View.readCov_cons_toLoadRect]
    refine Cert.LanesK.goodV_first _ _ _ (Cert.LanesK.C2.val_d1_j4 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.2.2.2.1 (Cert.LanesK.C2.chkG1_trip k).2.2.2.2.2.2.2.2.2.2.2.2.1) (Cert.LanesK.C2.hit_d1_j4 k (Cert.LanesK.C2.chkG1_trip k).2.2.2.2.2.2.2.2.2.2.2.2.1) ?_
    unfold inner1.sl.f_12 inner1.sl.HT0_12
    erw [View.readCov_cons_toLoadRect]
    refine Cert.LanesK.goodV_first _ _ _ (Cert.LanesK.C2.val_d1_j3 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.2.2.1 (Cert.LanesK.C2.chkG1_trip k).2.2.2.2.2.2.2.2.2.2.2.1) (Cert.LanesK.C2.hit_d1_j3 k (Cert.LanesK.C2.chkG1_trip k).2.2.2.2.2.2.2.2.2.2.2.1) ?_
    unfold inner1.sl.f_11 inner1.sl.HT0_11
    erw [View.readCov_cons_toLoadRect]
    refine Cert.LanesK.goodV_first _ _ _ (Cert.LanesK.C2.val_d1_j2 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.2.1 (Cert.LanesK.C2.chkG1_trip k).2.2.2.2.2.2.2.2.2.2.1) (Cert.LanesK.C2.hit_d1_j2 k (Cert.LanesK.C2.chkG1_trip k).2.2.2.2.2.2.2.2.2.2.1) ?_
    unfold inner1.sl.f_10 inner1.sl.HT0_10
    erw [View.readCov_cons_toLoadRect]
    refine Cert.LanesK.goodV_first _ _ _ (Cert.LanesK.C2.val_d1_j1 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).2.1 (Cert.LanesK.C2.chkG1_trip k).2.2.2.2.2.2.2.2.2.1) (Cert.LanesK.C2.hit_d1_j1 k (Cert.LanesK.C2.chkG1_trip k).2.2.2.2.2.2.2.2.2.1) ?_
    unfold inner1.sl.f_9 inner1.sl.HT0_9
    erw [View.readCov_cons_toLoadRect]
    refine Cert.LanesK.goodV_first _ _ _ (Cert.LanesK.C2.val_d1_j0 k (View.readAt (Elt F) slotG1.view (LoadRect.whole S128x128) fd) (PposV m d L) 64#32 (Scalar.divsi (lword g 1#32) 2#32) (w_lt_1 g) o_le_64 (Cert.LanesK.C2.chkP1_trip k 64#32 (Scalar.divsi (lword g 1#32) 2#32) (w_lt_1 g) o_le_64) (Cert.LanesK.C2.chkG1_trip k).1 (Cert.LanesK.C2.chkG1_trip k).2.2.2.2.2.2.2.2.1) (Cert.LanesK.C2.hit_d1_j0 k (Cert.LanesK.C2.chkG1_trip k).2.2.2.2.2.2.2.2.1) ?_
    unfold inner1.sl.f_8 inner1.sl.HT0_8
    erw [View.readCov_cons_toLoadRect]
    refine Cert.LanesK.goodV_first _ _ _ (Cert.LanesK.C2.val_d0_j7 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.2.2.2.2.2.2.1 (Cert.LanesK.C2.chkG0_trip k).2.2.2.2.2.2.2.2.2.2.2.2.2.2.2) (Cert.LanesK.C2.hit_d0_j7 k (Cert.LanesK.C2.chkG0_trip k).2.2.2.2.2.2.2.2.2.2.2.2.2.2.2) ?_
    unfold inner1.sl.f_7 inner1.sl.HT0_7
    erw [View.readCov_cons_toLoadRect]
    refine Cert.LanesK.goodV_first _ _ _ (Cert.LanesK.C2.val_d0_j6 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.2.2.2.2.2.1 (Cert.LanesK.C2.chkG0_trip k).2.2.2.2.2.2.2.2.2.2.2.2.2.2.1) (Cert.LanesK.C2.hit_d0_j6 k (Cert.LanesK.C2.chkG0_trip k).2.2.2.2.2.2.2.2.2.2.2.2.2.2.1) ?_
    unfold inner1.sl.f_6 inner1.sl.HT0_6
    erw [View.readCov_cons_toLoadRect]
    refine Cert.LanesK.goodV_first _ _ _ (Cert.LanesK.C2.val_d0_j5 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.2.2.2.2.1 (Cert.LanesK.C2.chkG0_trip k).2.2.2.2.2.2.2.2.2.2.2.2.2.1) (Cert.LanesK.C2.hit_d0_j5 k (Cert.LanesK.C2.chkG0_trip k).2.2.2.2.2.2.2.2.2.2.2.2.2.1) ?_
    unfold inner1.sl.f_5 inner1.sl.HT0_5
    erw [View.readCov_cons_toLoadRect]
    refine Cert.LanesK.goodV_first _ _ _ (Cert.LanesK.C2.val_d0_j4 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.2.2.2.1 (Cert.LanesK.C2.chkG0_trip k).2.2.2.2.2.2.2.2.2.2.2.2.1) (Cert.LanesK.C2.hit_d0_j4 k (Cert.LanesK.C2.chkG0_trip k).2.2.2.2.2.2.2.2.2.2.2.2.1) ?_
    unfold inner1.sl.f_4 inner1.sl.HT0_4
    erw [View.readCov_cons_toLoadRect]
    refine Cert.LanesK.goodV_first _ _ _ (Cert.LanesK.C2.val_d0_j3 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.2.2.1 (Cert.LanesK.C2.chkG0_trip k).2.2.2.2.2.2.2.2.2.2.2.1) (Cert.LanesK.C2.hit_d0_j3 k (Cert.LanesK.C2.chkG0_trip k).2.2.2.2.2.2.2.2.2.2.2.1) ?_
    unfold inner1.sl.f_3 inner1.sl.HT0_3
    erw [View.readCov_cons_toLoadRect]
    refine Cert.LanesK.goodV_first _ _ _ (Cert.LanesK.C2.val_d0_j2 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.2.1 (Cert.LanesK.C2.chkG0_trip k).2.2.2.2.2.2.2.2.2.2.1) (Cert.LanesK.C2.hit_d0_j2 k (Cert.LanesK.C2.chkG0_trip k).2.2.2.2.2.2.2.2.2.2.1) ?_
    unfold inner1.sl.f_2 inner1.sl.HT0_2
    erw [View.readCov_cons_toLoadRect]
    refine Cert.LanesK.goodV_first _ _ _ (Cert.LanesK.C2.val_d0_j1 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).2.1 (Cert.LanesK.C2.chkG0_trip k).2.2.2.2.2.2.2.2.2.1) (Cert.LanesK.C2.hit_d0_j1 k (Cert.LanesK.C2.chkG0_trip k).2.2.2.2.2.2.2.2.2.1) ?_
    unfold inner1.sl.f_1 inner1.sl.HT0_1
    erw [View.readCov_cons_toLoadRect]
    refine Cert.LanesK.goodV_first _ _ _ (Cert.LanesK.C2.val_d0_j0 k (View.readAt (Elt F) slotG1.view (LoadRect.whole S128x128) fd) (PposV m d L) 64#32 (Scalar.divsi (lword g 1#32) 2#32) (w_lt_1 g) o_le_64 (Cert.LanesK.C2.chkP0_trip k 64#32 (Scalar.divsi (lword g 1#32) 2#32) (w_lt_1 g) o_le_64) (Cert.LanesK.C2.chkG0_trip k).1 (Cert.LanesK.C2.chkG0_trip k).2.2.2.2.2.2.2.2.1) (Cert.LanesK.C2.hit_d0_j0 k (Cert.LanesK.C2.chkG0_trip k).2.2.2.2.2.2.2.2.1) ?_
    exact Cert.LanesK.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.LanesK.goodM_of_goodV_cons slotT1 R _ (Cert.LanesK.goodV_mono (Cert.LanesK.C1.accTo_succ_sub k.val) ?_)
      refine Cert.LanesK.goodV_first _ _ _ (Cert.LanesK.C2.val_d3_j7 k (View.readAt (Elt F) slotG1.view (LoadRect.whole S128x128) fd) (PposV m d L) 64#32 (Scalar.divsi (lword g 1#32) 2#32) (w_lt_1 g) o_le_64 (Cert.LanesK.C2.chkP3_trip k 64#32 (Scalar.divsi (lword g 1#32) 2#32) (w_lt_1 g) o_le_64) (Cert.LanesK.C2.chkG3_trip k).2.2.2.2.2.2.2.1 (Cert.LanesK.C2.chkG3_trip k).2.2.2.2.2.2.2.2.2.2.2.2.2.2.2) (Cert.LanesK.C2.hit_d3_j7 k (Cert.LanesK.C2.chkG3_trip k).2.2.2.2.2.2.2.2.2.2.2.2.2.2.2) ?_
      exact key31
  iexists _
  isplitr
  rotate_left
  · iexact HO
  · ipureintro; exact hW''

set_option maxHeartbeats 4000000 in
set_option maxRecDepth 65536 in
theorem inner2 (O : CellTallies nD τ sig (HIx 1)) (W : Waits sig (HIx 1)) (g : Fin k0_t1_loop.trips)
    (v61 v87 : BitVec 32) (fd : Buf (Elt F) (slotG2.view.loc thr)) (k : Fin k0_t4_loop.trips) (hk : PUnit) :
    (Iin m d L slotG2 slotT0 O W fd 0#32 (Scalar.divsi (lword g 2#32) 2#32) (w_lt_2 g) o_le_0 k.val hk : sProp 𝕄)
      ⊢ wp frame (wpE (defs₀ (F := F)) 𝒱₀ thr none) Set.univ
          (k0_t4_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            g v61 v87 0#32 (Scalar.divsi (lword g 2#32) 2#32) k hk)
          fun r => Iin m d L slotG2 slotT0 O W fd 0#32 (Scalar.divsi (lword g 2#32) 2#32) (w_lt_2 g) o_le_0 (k.val + 1) r := by
  have hw0 : (Scalar.divsi (lword g 2#32) 2#32).toNat < 100 := w_lt_2 g
  have ho0 : (0#32 : BitVec 32).toNat ≤ 64 := o_le_0
  have h1 := Cert.LanesK.C3.chkP0_trip k 0#32 (Scalar.divsi (lword g 2#32) 2#32) hw0 ho0
  have h2 := Cert.LanesK.C3.chkG0_trip k
  have h3 := Cert.LanesK.C3.chkP1_trip k 0#32 (Scalar.divsi (lword g 2#32) 2#32) hw0 ho0
  have h4 := Cert.LanesK.C3.chkG1_trip k
  have h5 := Cert.LanesK.C3.chkP2_trip k 0#32 (Scalar.divsi (lword g 2#32) 2#32) hw0 ho0
  have h6 := Cert.LanesK.C3.chkG2_trip k
  have h7 := Cert.LanesK.C3.chkP3_trip k 0#32 (Scalar.divsi (lword g 2#32) 2#32) hw0 ho0
  have h8 := Cert.LanesK.C3.chkG3_trip k
  unfold Iin
  conv => rhs; simp only [k0_t4_body, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.LanesK.GoodV (Cert.LanesK.Tslot (View.readAt (Elt F) slotG2.view (LoadRect.whole S128x128) fd) (PposV m d L) 0#32 (Scalar.divsi (lword g 2#32) 2#32) (w_lt_2 g) o_le_0) (Cert.LanesK.AccTo k.val ∪ Cert.LanesK.Hit 0 0 k.val ∪ Cert.LanesK.Hit 0 1 k.val ∪ Cert.LanesK.Hit 0 2 k.val ∪ Cert.LanesK.Hit 0 3 k.val ∪ Cert.LanesK.Hit 0 4 k.val ∪ Cert.LanesK.Hit 0 5 k.val ∪ Cert.LanesK.Hit 0 6 k.val ∪ Cert.LanesK.Hit 0 7 k.val ∪ Cert.LanesK.Hit 1 0 k.val ∪ Cert.LanesK.Hit 1 1 k.val ∪ Cert.LanesK.Hit 1 2 k.val ∪ Cert.LanesK.Hit 1 3 k.val ∪ Cert.LanesK.Hit 1 4 k.val ∪ Cert.LanesK.Hit 1 5 k.val ∪ Cert.LanesK.Hit 1 6 k.val ∪ Cert.LanesK.Hit 1 7 k.val ∪ Cert.LanesK.Hit 2 0 k.val ∪ Cert.LanesK.Hit 2 1 k.val ∪ Cert.LanesK.Hit 2 2 k.val ∪ Cert.LanesK.Hit 2 3 k.val ∪ Cert.LanesK.Hit 2 4 k.val ∪ Cert.LanesK.Hit 2 5 k.val ∪ Cert.LanesK.Hit 2 6 k.val ∪ Cert.LanesK.Hit 2 7 k.val ∪ Cert.LanesK.Hit 3 0 k.val ∪ Cert.LanesK.Hit 3 1 k.val ∪ Cert.LanesK.Hit 3 2 k.val ∪ Cert.LanesK.Hit 3 3 k.val ∪ Cert.LanesK.Hit 3 4 k.val ∪ Cert.LanesK.Hit 3 5 k.val ∪ Cert.LanesK.Hit 3 6 k.val)
      (inner2.sl.f_31 m d L g fd k h1 h2 h3 h4 h5 h6 h7 h8 R) := by
    unfold inner2.sl.f_31 inner2.sl.HT0_31
    erw [View.readCov_cons_toLoadRect]
    refine Cert.LanesK.goodV_first _ _ _ (Cert.LanesK.C3.val_d3_j6 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.2.2.2.2.2.1 (Cert.LanesK.C3.chkG3_trip k).2.2.2.2.2.2.2.2.2.2.2.2.2.2.1) (Cert.LanesK.C3.hit_d3_j6 k (Cert.LanesK.C3.chkG3_trip k).2.2.2.2.2.2.2.2.2.2.2.2.2.2.1) ?_
    unfold inner2.sl.f_30 inner2.sl.HT0_30
    erw [View.readCov_cons_toLoadRect]
    refine Cert.LanesK.goodV_first _ _ _ (Cert.LanesK.C3.val_d3_j5 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.2.2.2.2.1 (Cert.LanesK.C3.chkG3_trip k).2.2.2.2.2.2.2.2.2.2.2.2.2.1) (Cert.LanesK.C3.hit_d3_j5 k (Cert.LanesK.C3.chkG3_trip k).2.2.2.2.2.2.2.2.2.2.2.2.2.1) ?_
    unfold inner2.sl.f_29 inner2.sl.HT0_29
    erw [View.readCov_cons_toLoadRect]
    refine Cert.LanesK.goodV_first _ _ _ (Cert.LanesK.C3.val_d3_j4 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.2.2.2.1 (Cert.LanesK.C3.chkG3_trip k).2.2.2.2.2.2.2.2.2.2.2.2.1) (Cert.LanesK.C3.hit_d3_j4 k (Cert.LanesK.C3.chkG3_trip k).2.2.2.2.2.2.2.2.2.2.2.2.1) ?_
    unfold inner2.sl.f_28 inner2.sl.HT0_28
    erw [View.readCov_cons_toLoadRect]
    refine Cert.LanesK.goodV_first _ _ _ (Cert.LanesK.C3.val_d3_j3 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.2.2.1 (Cert.LanesK.C3.chkG3_trip k).2.2.2.2.2.2.2.2.2.2.2.1) (Cert.LanesK.C3.hit_d3_j3 k (Cert.LanesK.C3.chkG3_trip k).2.2.2.2.2.2.2.2.2.2.2.1) ?_
    unfold inner2.sl.f_27 inner2.sl.HT0_27
    erw [View.readCov_cons_toLoadRect]
    refine Cert.LanesK.goodV_first _ _ _ (Cert.LanesK.C3.val_d3_j2 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.2.1 (Cert.LanesK.C3.chkG3_trip k).2.2.2.2.2.2.2.2.2.2.1) (Cert.LanesK.C3.hit_d3_j2 k (Cert.LanesK.C3.chkG3_trip k).2.2.2.2.2.2.2.2.2.2.1) ?_
    unfold inner2.sl.f_26 inner2.sl.HT0_26
    erw [View.readCov_cons_toLoadRect]
    refine Cert.LanesK.goodV_first _ _ _ (Cert.LanesK.C3.val_d3_j1 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.1 (Cert.LanesK.C3.chkG3_trip k).2.2.2.2.2.2.2.2.2.1) (Cert.LanesK.C3.hit_d3_j1 k (Cert.LanesK.C3.chkG3_trip k).2.2.2.2.2.2.2.2.2.1) ?_
    unfold inner2.sl.f_25 inner2.sl.HT0_25
    erw [View.readCov_cons_toLoadRect]
    refine Cert.LanesK.goodV_first _ _ _ (Cert.LanesK.C3.val_d3_j0 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).1 (Cert.LanesK.C3.chkG3_trip k).2.2.2.2.2.2.2.2.1) (Cert.LanesK.C3.hit_d3_j0 k (Cert.LanesK.C3.chkG3_trip k).2.2.2.2.2.2.2.2.1) ?_
    unfold inner2.sl.f_24 inner2.sl.HT0_24
    erw [View.readCov_cons_toLoadRect]
    refine Cert.LanesK.goodV_first _ _ _ (Cert.LanesK.C3.val_d2_j7 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.2.2.2.2.2.2.1 (Cert.LanesK.C3.chkG2_trip k).2.2.2.2.2.2.2.2.2.2.2.2.2.2.2) (Cert.LanesK.C3.hit_d2_j7 k (Cert.LanesK.C3.chkG2_trip k).2.2.2.2.2.2.2.2.2.2.2.2.2.2.2) ?_
    unfold inner2.sl.f_23 inner2.sl.HT0_23
    erw [View.readCov_cons_toLoadRect]
    refine Cert.LanesK.goodV_first _ _ _ (Cert.LanesK.C3.val_d2_j6 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.2.2.2.2.2.1 (Cert.LanesK.C3.chkG2_trip k).2.2.2.2.2.2.2.2.2.2.2.2.2.2.1) (Cert.LanesK.C3.hit_d2_j6 k (Cert.LanesK.C3.chkG2_trip k).2.2.2.2.2.2.2.2.2.2.2.2.2.2.1) ?_
    unfold inner2.sl.f_22 inner2.sl.HT0_22
    erw [View.readCov_cons_toLoadRect]
    refine Cert.LanesK.goodV_first _ _ _ (Cert.LanesK.C3.val_d2_j5 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.2.2.2.2.1 (Cert.LanesK.C3.chkG2_trip k).2.2.2.2.2.2.2.2.2.2.2.2.2.1) (Cert.LanesK.C3.hit_d2_j5 k (Cert.LanesK.C3.chkG2_trip k).2.2.2.2.2.2.2.2.2.2.2.2.2.1) ?_
    unfold inner2.sl.f_21 inner2.sl.HT0_21
    erw [View.readCov_cons_toLoadRect]
    refine Cert.LanesK.goodV_first _ _ _ (Cert.LanesK.C3.val_d2_j4 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.2.2.2.1 (Cert.LanesK.C3.chkG2_trip k).2.2.2.2.2.2.2.2.2.2.2.2.1) (Cert.LanesK.C3.hit_d2_j4 k (Cert.LanesK.C3.chkG2_trip k).2.2.2.2.2.2.2.2.2.2.2.2.1) ?_
    unfold inner2.sl.f_20 inner2.sl.HT0_20
    erw [View.readCov_cons_toLoadRect]
    refine Cert.LanesK.goodV_first _ _ _ (Cert.LanesK.C3.val_d2_j3 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.2.2.1 (Cert.LanesK.C3.chkG2_trip k).2.2.2.2.2.2.2.2.2.2.2.1) (Cert.LanesK.C3.hit_d2_j3 k (Cert.LanesK.C3.chkG2_trip k).2.2.2.2.2.2.2.2.2.2.2.1) ?_
    unfold inner2.sl.f_19 inner2.sl.HT0_19
    erw [View.readCov_cons_toLoadRect]
    refine Cert.LanesK.goodV_first _ _ _ (Cert.LanesK.C3.val_d2_j2 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.2.1 (Cert.LanesK.C3.chkG2_trip k).2.2.2.2.2.2.2.2.2.2.1) (Cert.LanesK.C3.hit_d2_j2 k (Cert.LanesK.C3.chkG2_trip k).2.2.2.2.2.2.2.2.2.2.1) ?_
    unfold inner2.sl.f_18 inner2.sl.HT0_18
    erw [View.readCov_cons_toLoadRect]
    refine Cert.LanesK.goodV_first _ _ _ (Cert.LanesK.C3.val_d2_j1 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).2.1 (Cert.LanesK.C3.chkG2_trip k).2.2.2.2.2.2.2.2.2.1) (Cert.LanesK.C3.hit_d2_j1 k (Cert.LanesK.C3.chkG2_trip k).2.2.2.2.2.2.2.2.2.1) ?_
    unfold inner2.sl.f_17 inner2.sl.HT0_17
    erw [View.readCov_cons_toLoadRect]
    refine Cert.LanesK.goodV_first _ _ _ (Cert.LanesK.C3.val_d2_j0 k (View.readAt (Elt F) slotG2.view (LoadRect.whole S128x128) fd) (PposV m d L) 0#32 (Scalar.divsi (lword g 2#32) 2#32) (w_lt_2 g) o_le_0 (Cert.LanesK.C3.chkP2_trip k 0#32 (Scalar.divsi (lword g 2#32) 2#32) (w_lt_2 g) o_le_0) (Cert.LanesK.C3.chkG2_trip k).1 (Cert.LanesK.C3.chkG2_trip k).2.2.2.2.2.2.2.2.1) (Cert.LanesK.C3.hit_d2_j0 k (Cert.LanesK.C3.chkG2_trip k).2.2.2.2.2.2.2.2.1) ?_
    unfold inner2.sl.f_16 inner2.sl.HT0_16
    erw [View.readCov_cons_toLoadRect]
    refine Cert.LanesK.goodV_first _ _ _ (Cert.LanesK.C3.val_d1_j7 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.2.2.2.2.2.2.1 (Cert.LanesK.C3.chkG1_trip k).2.2.2.2.2.2.2.2.2.2.2.2.2.2.2) (Cert.LanesK.C3.hit_d1_j7 k (Cert.LanesK.C3.chkG1_trip k).2.2.2.2.2.2.2.2.2.2.2.2.2.2.2) ?_
    unfold inner2.sl.f_15 inner2.sl.HT0_15
    erw [View.readCov_cons_toLoadRect]
    refine Cert.LanesK.goodV_first _ _ _ (Cert.LanesK.C3.val_d1_j6 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.2.2.2.2.2.1 (Cert.LanesK.C3.chkG1_trip k).2.2.2.2.2.2.2.2.2.2.2.2.2.2.1) (Cert.LanesK.C3.hit_d1_j6 k (Cert.LanesK.C3.chkG1_trip k).2.2.2.2.2.2.2.2.2.2.2.2.2.2.1) ?_
    unfold inner2.sl.f_14 inner2.sl.HT0_14
    erw [View.readCov_cons_toLoadRect]
    refine Cert.LanesK.goodV_first _ _ _ (Cert.LanesK.C3.val_d1_j5 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.2.2.2.2.1 (Cert.LanesK.C3.chkG1_trip k).2.2.2.2.2.2.2.2.2.2.2.2.2.1) (Cert.LanesK.C3.hit_d1_j5 k (Cert.LanesK.C3.chkG1_trip k).2.2.2.2.2.2.2.2.2.2.2.2.2.1) ?_
    unfold inner2.sl.f_13 inner2.sl.HT0_13
    erw [View.readCov_cons_toLoadRect]
    refine Cert.LanesK.goodV_first _ _ _ (Cert.LanesK.C3.val_d1_j4 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.2.2.2.1 (Cert.LanesK.C3.chkG1_trip k).2.2.2.2.2.2.2.2.2.2.2.2.1) (Cert.LanesK.C3.hit_d1_j4 k (Cert.LanesK.C3.chkG1_trip k).2.2.2.2.2.2.2.2.2.2.2.2.1) ?_
    unfold inner2.sl.f_12 inner2.sl.HT0_12
    erw [View.readCov_cons_toLoadRect]
    refine Cert.LanesK.goodV_first _ _ _ (Cert.LanesK.C3.val_d1_j3 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.2.2.1 (Cert.LanesK.C3.chkG1_trip k).2.2.2.2.2.2.2.2.2.2.2.1) (Cert.LanesK.C3.hit_d1_j3 k (Cert.LanesK.C3.chkG1_trip k).2.2.2.2.2.2.2.2.2.2.2.1) ?_
    unfold inner2.sl.f_11 inner2.sl.HT0_11
    erw [View.readCov_cons_toLoadRect]
    refine Cert.LanesK.goodV_first _ _ _ (Cert.LanesK.C3.val_d1_j2 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.2.1 (Cert.LanesK.C3.chkG1_trip k).2.2.2.2.2.2.2.2.2.2.1) (Cert.LanesK.C3.hit_d1_j2 k (Cert.LanesK.C3.chkG1_trip k).2.2.2.2.2.2.2.2.2.2.1) ?_
    unfold inner2.sl.f_10 inner2.sl.HT0_10
    erw [View.readCov_cons_toLoadRect]
    refine Cert.LanesK.goodV_first _ _ _ (Cert.LanesK.C3.val_d1_j1 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).2.1 (Cert.LanesK.C3.chkG1_trip k).2.2.2.2.2.2.2.2.2.1) (Cert.LanesK.C3.hit_d1_j1 k (Cert.LanesK.C3.chkG1_trip k).2.2.2.2.2.2.2.2.2.1) ?_
    unfold inner2.sl.f_9 inner2.sl.HT0_9
    erw [View.readCov_cons_toLoadRect]
    refine Cert.LanesK.goodV_first _ _ _ (Cert.LanesK.C3.val_d1_j0 k (View.readAt (Elt F) slotG2.view (LoadRect.whole S128x128) fd) (PposV m d L) 0#32 (Scalar.divsi (lword g 2#32) 2#32) (w_lt_2 g) o_le_0 (Cert.LanesK.C3.chkP1_trip k 0#32 (Scalar.divsi (lword g 2#32) 2#32) (w_lt_2 g) o_le_0) (Cert.LanesK.C3.chkG1_trip k).1 (Cert.LanesK.C3.chkG1_trip k).2.2.2.2.2.2.2.2.1) (Cert.LanesK.C3.hit_d1_j0 k (Cert.LanesK.C3.chkG1_trip k).2.2.2.2.2.2.2.2.1) ?_
    unfold inner2.sl.f_8 inner2.sl.HT0_8
    erw [View.readCov_cons_toLoadRect]
    refine Cert.LanesK.goodV_first _ _ _ (Cert.LanesK.C3.val_d0_j7 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.2.2.2.2.2.2.1 (Cert.LanesK.C3.chkG0_trip k).2.2.2.2.2.2.2.2.2.2.2.2.2.2.2) (Cert.LanesK.C3.hit_d0_j7 k (Cert.LanesK.C3.chkG0_trip k).2.2.2.2.2.2.2.2.2.2.2.2.2.2.2) ?_
    unfold inner2.sl.f_7 inner2.sl.HT0_7
    erw [View.readCov_cons_toLoadRect]
    refine Cert.LanesK.goodV_first _ _ _ (Cert.LanesK.C3.val_d0_j6 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.2.2.2.2.2.1 (Cert.LanesK.C3.chkG0_trip k).2.2.2.2.2.2.2.2.2.2.2.2.2.2.1) (Cert.LanesK.C3.hit_d0_j6 k (Cert.LanesK.C3.chkG0_trip k).2.2.2.2.2.2.2.2.2.2.2.2.2.2.1) ?_
    unfold inner2.sl.f_6 inner2.sl.HT0_6
    erw [View.readCov_cons_toLoadRect]
    refine Cert.LanesK.goodV_first _ _ _ (Cert.LanesK.C3.val_d0_j5 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.2.2.2.2.1 (Cert.LanesK.C3.chkG0_trip k).2.2.2.2.2.2.2.2.2.2.2.2.2.1) (Cert.LanesK.C3.hit_d0_j5 k (Cert.LanesK.C3.chkG0_trip k).2.2.2.2.2.2.2.2.2.2.2.2.2.1) ?_
    unfold inner2.sl.f_5 inner2.sl.HT0_5
    erw [View.readCov_cons_toLoadRect]
    refine Cert.LanesK.goodV_first _ _ _ (Cert.LanesK.C3.val_d0_j4 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.2.2.2.1 (Cert.LanesK.C3.chkG0_trip k).2.2.2.2.2.2.2.2.2.2.2.2.1) (Cert.LanesK.C3.hit_d0_j4 k (Cert.LanesK.C3.chkG0_trip k).2.2.2.2.2.2.2.2.2.2.2.2.1) ?_
    unfold inner2.sl.f_4 inner2.sl.HT0_4
    erw [View.readCov_cons_toLoadRect]
    refine Cert.LanesK.goodV_first _ _ _ (Cert.LanesK.C3.val_d0_j3 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.2.2.1 (Cert.LanesK.C3.chkG0_trip k).2.2.2.2.2.2.2.2.2.2.2.1) (Cert.LanesK.C3.hit_d0_j3 k (Cert.LanesK.C3.chkG0_trip k).2.2.2.2.2.2.2.2.2.2.2.1) ?_
    unfold inner2.sl.f_3 inner2.sl.HT0_3
    erw [View.readCov_cons_toLoadRect]
    refine Cert.LanesK.goodV_first _ _ _ (Cert.LanesK.C3.val_d0_j2 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.2.1 (Cert.LanesK.C3.chkG0_trip k).2.2.2.2.2.2.2.2.2.2.1) (Cert.LanesK.C3.hit_d0_j2 k (Cert.LanesK.C3.chkG0_trip k).2.2.2.2.2.2.2.2.2.2.1) ?_
    unfold inner2.sl.f_2 inner2.sl.HT0_2
    erw [View.readCov_cons_toLoadRect]
    refine Cert.LanesK.goodV_first _ _ _ (Cert.LanesK.C3.val_d0_j1 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).2.1 (Cert.LanesK.C3.chkG0_trip k).2.2.2.2.2.2.2.2.2.1) (Cert.LanesK.C3.hit_d0_j1 k (Cert.LanesK.C3.chkG0_trip k).2.2.2.2.2.2.2.2.2.1) ?_
    unfold inner2.sl.f_1 inner2.sl.HT0_1
    erw [View.readCov_cons_toLoadRect]
    refine Cert.LanesK.goodV_first _ _ _ (Cert.LanesK.C3.val_d0_j0 k (View.readAt (Elt F) slotG2.view (LoadRect.whole S128x128) fd) (PposV m d L) 0#32 (Scalar.divsi (lword g 2#32) 2#32) (w_lt_2 g) o_le_0 (Cert.LanesK.C3.chkP0_trip k 0#32 (Scalar.divsi (lword g 2#32) 2#32) (w_lt_2 g) o_le_0) (Cert.LanesK.C3.chkG0_trip k).1 (Cert.LanesK.C3.chkG0_trip k).2.2.2.2.2.2.2.2.1) (Cert.LanesK.C3.hit_d0_j0 k (Cert.LanesK.C3.chkG0_trip k).2.2.2.2.2.2.2.2.1) ?_
    exact Cert.LanesK.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.LanesK.goodM_of_goodV_cons slotT0 R _ (Cert.LanesK.goodV_mono (Cert.LanesK.C1.accTo_succ_sub k.val) ?_)
      refine Cert.LanesK.goodV_first _ _ _ (Cert.LanesK.C3.val_d3_j7 k (View.readAt (Elt F) slotG2.view (LoadRect.whole S128x128) fd) (PposV m d L) 0#32 (Scalar.divsi (lword g 2#32) 2#32) (w_lt_2 g) o_le_0 (Cert.LanesK.C3.chkP3_trip k 0#32 (Scalar.divsi (lword g 2#32) 2#32) (w_lt_2 g) o_le_0) (Cert.LanesK.C3.chkG3_trip k).2.2.2.2.2.2.2.1 (Cert.LanesK.C3.chkG3_trip k).2.2.2.2.2.2.2.2.2.2.2.2.2.2.2) (Cert.LanesK.C3.hit_d3_j7 k (Cert.LanesK.C3.chkG3_trip k).2.2.2.2.2.2.2.2.2.2.2.2.2.2.2) ?_
      exact key31
  iexists _
  isplitr
  rotate_left
  · iexact HO
  · ipureintro; exact hW''

set_option maxHeartbeats 4000000 in
set_option maxRecDepth 65536 in
theorem inner3 (O : CellTallies nD τ sig (HIx 1)) (W : Waits sig (HIx 1)) (g : Fin k0_t1_loop.trips)
    (fd : Buf (Elt F) (slotG3.view.loc thr)) (k : Fin k0_t5_loop.trips) (hk : PUnit) :
    (Iin m d L slotG3 slotT1 O W fd 64#32 (Scalar.divsi (lword g 3#32) 2#32) (w_lt_3 g) o_le_64 k.val hk : sProp 𝕄)
      ⊢ wp frame (wpE (defs₀ (F := F)) 𝒱₀ thr none) Set.univ
          (k0_t5_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177
            64#32 (Scalar.divsi (lword g 3#32) 2#32) k hk)
          fun r => Iin m d L slotG3 slotT1 O W fd 64#32 (Scalar.divsi (lword g 3#32) 2#32) (w_lt_3 g) o_le_64 (k.val + 1) r := by
  have hw0 : (Scalar.divsi (lword g 3#32) 2#32).toNat < 100 := w_lt_3 g
  have ho0 : (64#32 : BitVec 32).toNat ≤ 64 := o_le_64
  have h1 := Cert.LanesK.C4.chkP0_trip k 64#32 (Scalar.divsi (lword g 3#32) 2#32) hw0 ho0
  have h2 := Cert.LanesK.C4.chkG0_trip k
  have h3 := Cert.LanesK.C4.chkP1_trip k 64#32 (Scalar.divsi (lword g 3#32) 2#32) hw0 ho0
  have h4 := Cert.LanesK.C4.chkG1_trip k
  have h5 := Cert.LanesK.C4.chkP2_trip k 64#32 (Scalar.divsi (lword g 3#32) 2#32) hw0 ho0
  have h6 := Cert.LanesK.C4.chkG2_trip k
  have h7 := Cert.LanesK.C4.chkP3_trip k 64#32 (Scalar.divsi (lword g 3#32) 2#32) hw0 ho0
  have h8 := Cert.LanesK.C4.chkG3_trip k
  unfold Iin
  conv => rhs; simp only [k0_t5_body, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel,
    SparseCore.vectorLoadIdx_bind (c := V d (cV L) (jV L)), SparseCore.vectorStoreIdx_bind (c := V d (cV L) (jV L))]
  iintro ⟨Hmw, H7, HG, ⟨%R, %hR, HT0⟩, %W'', %hW'', HO⟩
  sl_exec
  have key31 : Cert.LanesK.GoodV (Cert.LanesK.Tslot (View.readAt (Elt F) slotG3.view (LoadRect.whole S128x128) fd) (PposV m d L) 64#32 (Scalar.divsi (lword g 3#32) 2#32) (w_lt_3 g) o_le_64) (Cert.LanesK.AccTo k.val ∪ Cert.LanesK.Hit 0 0 k.val ∪ Cert.LanesK.Hit 0 1 k.val ∪ Cert.LanesK.Hit 0 2 k.val ∪ Cert.LanesK.Hit 0 3 k.val ∪ Cert.LanesK.Hit 0 4 k.val ∪ Cert.LanesK.Hit 0 5 k.val ∪ Cert.LanesK.Hit 0 6 k.val ∪ Cert.LanesK.Hit 0 7 k.val ∪ Cert.LanesK.Hit 1 0 k.val ∪ Cert.LanesK.Hit 1 1 k.val ∪ Cert.LanesK.Hit 1 2 k.val ∪ Cert.LanesK.Hit 1 3 k.val ∪ Cert.LanesK.Hit 1 4 k.val ∪ Cert.LanesK.Hit 1 5 k.val ∪ Cert.LanesK.Hit 1 6 k.val ∪ Cert.LanesK.Hit 1 7 k.val ∪ Cert.LanesK.Hit 2 0 k.val ∪ Cert.LanesK.Hit 2 1 k.val ∪ Cert.LanesK.Hit 2 2 k.val ∪ Cert.LanesK.Hit 2 3 k.val ∪ Cert.LanesK.Hit 2 4 k.val ∪ Cert.LanesK.Hit 2 5 k.val ∪ Cert.LanesK.Hit 2 6 k.val ∪ Cert.LanesK.Hit 2 7 k.val ∪ Cert.LanesK.Hit 3 0 k.val ∪ Cert.LanesK.Hit 3 1 k.val ∪ Cert.LanesK.Hit 3 2 k.val ∪ Cert.LanesK.Hit 3 3 k.val ∪ Cert.LanesK.Hit 3 4 k.val ∪ Cert.LanesK.Hit 3 5 k.val ∪ Cert.LanesK.Hit 3 6 k.val)
      (inner3.sl.f_31 m d L g fd k h1 h2 h3 h4 h5 h6 h7 h8 R) := by
    unfold inner3.sl.f_31 inner3.sl.HT0_31
    erw [View.readCov_cons_toLoadRect]
    refine Cert.LanesK.goodV_first _ _ _ (Cert.LanesK.C4.val_d3_j6 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.2.2.2.2.2.1 (Cert.LanesK.C4.chkG3_trip k).2.2.2.2.2.2.2.2.2.2.2.2.2.2.1) (Cert.LanesK.C4.hit_d3_j6 k (Cert.LanesK.C4.chkG3_trip k).2.2.2.2.2.2.2.2.2.2.2.2.2.2.1) ?_
    unfold inner3.sl.f_30 inner3.sl.HT0_30
    erw [View.readCov_cons_toLoadRect]
    refine Cert.LanesK.goodV_first _ _ _ (Cert.LanesK.C4.val_d3_j5 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.2.2.2.2.1 (Cert.LanesK.C4.chkG3_trip k).2.2.2.2.2.2.2.2.2.2.2.2.2.1) (Cert.LanesK.C4.hit_d3_j5 k (Cert.LanesK.C4.chkG3_trip k).2.2.2.2.2.2.2.2.2.2.2.2.2.1) ?_
    unfold inner3.sl.f_29 inner3.sl.HT0_29
    erw [View.readCov_cons_toLoadRect]
    refine Cert.LanesK.goodV_first _ _ _ (Cert.LanesK.C4.val_d3_j4 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.2.2.2.1 (Cert.LanesK.C4.chkG3_trip k).2.2.2.2.2.2.2.2.2.2.2.2.1) (Cert.LanesK.C4.hit_d3_j4 k (Cert.LanesK.C4.chkG3_trip k).2.2.2.2.2.2.2.2.2.2.2.2.1) ?_
    unfold inner3.sl.f_28 inner3.sl.HT0_28
    erw [View.readCov_cons_toLoadRect]
    refine Cert.LanesK.goodV_first _ _ _ (Cert.LanesK.C4.val_d3_j3 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.2.2.1 (Cert.LanesK.C4.chkG3_trip k).2.2.2.2.2.2.2.2.2.2.2.1) (Cert.LanesK.C4.hit_d3_j3 k (Cert.LanesK.C4.chkG3_trip k).2.2.2.2.2.2.2.2.2.2.2.1) ?_
    unfold inner3.sl.f_27 inner3.sl.HT0_27
    erw [View.readCov_cons_toLoadRect]
    refine Cert.LanesK.goodV_first _ _ _ (Cert.LanesK.C4.val_d3_j2 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.2.1 (Cert.LanesK.C4.chkG3_trip k).2.2.2.2.2.2.2.2.2.2.1) (Cert.LanesK.C4.hit_d3_j2 k (Cert.LanesK.C4.chkG3_trip k).2.2.2.2.2.2.2.2.2.2.1) ?_
    unfold inner3.sl.f_26 inner3.sl.HT0_26
    erw [View.readCov_cons_toLoadRect]
    refine Cert.LanesK.goodV_first _ _ _ (Cert.LanesK.C4.val_d3_j1 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.1 (Cert.LanesK.C4.chkG3_trip k).2.2.2.2.2.2.2.2.2.1) (Cert.LanesK.C4.hit_d3_j1 k (Cert.LanesK.C4.chkG3_trip k).2.2.2.2.2.2.2.2.2.1) ?_
    unfold inner3.sl.f_25 inner3.sl.HT0_25
    erw [View.readCov_cons_toLoadRect]
    refine Cert.LanesK.goodV_first _ _ _ (Cert.LanesK.C4.val_d3_j0 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).1 (Cert.LanesK.C4.chkG3_trip k).2.2.2.2.2.2.2.2.1) (Cert.LanesK.C4.hit_d3_j0 k (Cert.LanesK.C4.chkG3_trip k).2.2.2.2.2.2.2.2.1) ?_
    unfold inner3.sl.f_24 inner3.sl.HT0_24
    erw [View.readCov_cons_toLoadRect]
    refine Cert.LanesK.goodV_first _ _ _ (Cert.LanesK.C4.val_d2_j7 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.2.2.2.2.2.2.1 (Cert.LanesK.C4.chkG2_trip k).2.2.2.2.2.2.2.2.2.2.2.2.2.2.2) (Cert.LanesK.C4.hit_d2_j7 k (Cert.LanesK.C4.chkG2_trip k).2.2.2.2.2.2.2.2.2.2.2.2.2.2.2) ?_
    unfold inner3.sl.f_23 inner3.sl.HT0_23
    erw [View.readCov_cons_toLoadRect]
    refine Cert.LanesK.goodV_first _ _ _ (Cert.LanesK.C4.val_d2_j6 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.2.2.2.2.2.1 (Cert.LanesK.C4.chkG2_trip k).2.2.2.2.2.2.2.2.2.2.2.2.2.2.1) (Cert.LanesK.C4.hit_d2_j6 k (Cert.LanesK.C4.chkG2_trip k).2.2.2.2.2.2.2.2.2.2.2.2.2.2.1) ?_
    unfold inner3.sl.f_22 inner3.sl.HT0_22
    erw [View.readCov_cons_toLoadRect]
    refine Cert.LanesK.goodV_first _ _ _ (Cert.LanesK.C4.val_d2_j5 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.2.2.2.2.1 (Cert.LanesK.C4.chkG2_trip k).2.2.2.2.2.2.2.2.2.2.2.2.2.1) (Cert.LanesK.C4.hit_d2_j5 k (Cert.LanesK.C4.chkG2_trip k).2.2.2.2.2.2.2.2.2.2.2.2.2.1) ?_
    unfold inner3.sl.f_21 inner3.sl.HT0_21
    erw [View.readCov_cons_toLoadRect]
    refine Cert.LanesK.goodV_first _ _ _ (Cert.LanesK.C4.val_d2_j4 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.2.2.2.1 (Cert.LanesK.C4.chkG2_trip k).2.2.2.2.2.2.2.2.2.2.2.2.1) (Cert.LanesK.C4.hit_d2_j4 k (Cert.LanesK.C4.chkG2_trip k).2.2.2.2.2.2.2.2.2.2.2.2.1) ?_
    unfold inner3.sl.f_20 inner3.sl.HT0_20
    erw [View.readCov_cons_toLoadRect]
    refine Cert.LanesK.goodV_first _ _ _ (Cert.LanesK.C4.val_d2_j3 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.2.2.1 (Cert.LanesK.C4.chkG2_trip k).2.2.2.2.2.2.2.2.2.2.2.1) (Cert.LanesK.C4.hit_d2_j3 k (Cert.LanesK.C4.chkG2_trip k).2.2.2.2.2.2.2.2.2.2.2.1) ?_
    unfold inner3.sl.f_19 inner3.sl.HT0_19
    erw [View.readCov_cons_toLoadRect]
    refine Cert.LanesK.goodV_first _ _ _ (Cert.LanesK.C4.val_d2_j2 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.2.1 (Cert.LanesK.C4.chkG2_trip k).2.2.2.2.2.2.2.2.2.2.1) (Cert.LanesK.C4.hit_d2_j2 k (Cert.LanesK.C4.chkG2_trip k).2.2.2.2.2.2.2.2.2.2.1) ?_
    unfold inner3.sl.f_18 inner3.sl.HT0_18
    erw [View.readCov_cons_toLoadRect]
    refine Cert.LanesK.goodV_first _ _ _ (Cert.LanesK.C4.val_d2_j1 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).2.1 (Cert.LanesK.C4.chkG2_trip k).2.2.2.2.2.2.2.2.2.1) (Cert.LanesK.C4.hit_d2_j1 k (Cert.LanesK.C4.chkG2_trip k).2.2.2.2.2.2.2.2.2.1) ?_
    unfold inner3.sl.f_17 inner3.sl.HT0_17
    erw [View.readCov_cons_toLoadRect]
    refine Cert.LanesK.goodV_first _ _ _ (Cert.LanesK.C4.val_d2_j0 k (View.readAt (Elt F) slotG3.view (LoadRect.whole S128x128) fd) (PposV m d L) 64#32 (Scalar.divsi (lword g 3#32) 2#32) (w_lt_3 g) o_le_64 (Cert.LanesK.C4.chkP2_trip k 64#32 (Scalar.divsi (lword g 3#32) 2#32) (w_lt_3 g) o_le_64) (Cert.LanesK.C4.chkG2_trip k).1 (Cert.LanesK.C4.chkG2_trip k).2.2.2.2.2.2.2.2.1) (Cert.LanesK.C4.hit_d2_j0 k (Cert.LanesK.C4.chkG2_trip k).2.2.2.2.2.2.2.2.1) ?_
    unfold inner3.sl.f_16 inner3.sl.HT0_16
    erw [View.readCov_cons_toLoadRect]
    refine Cert.LanesK.goodV_first _ _ _ (Cert.LanesK.C4.val_d1_j7 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.2.2.2.2.2.2.1 (Cert.LanesK.C4.chkG1_trip k).2.2.2.2.2.2.2.2.2.2.2.2.2.2.2) (Cert.LanesK.C4.hit_d1_j7 k (Cert.LanesK.C4.chkG1_trip k).2.2.2.2.2.2.2.2.2.2.2.2.2.2.2) ?_
    unfold inner3.sl.f_15 inner3.sl.HT0_15
    erw [View.readCov_cons_toLoadRect]
    refine Cert.LanesK.goodV_first _ _ _ (Cert.LanesK.C4.val_d1_j6 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.2.2.2.2.2.1 (Cert.LanesK.C4.chkG1_trip k).2.2.2.2.2.2.2.2.2.2.2.2.2.2.1) (Cert.LanesK.C4.hit_d1_j6 k (Cert.LanesK.C4.chkG1_trip k).2.2.2.2.2.2.2.2.2.2.2.2.2.2.1) ?_
    unfold inner3.sl.f_14 inner3.sl.HT0_14
    erw [View.readCov_cons_toLoadRect]
    refine Cert.LanesK.goodV_first _ _ _ (Cert.LanesK.C4.val_d1_j5 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.2.2.2.2.1 (Cert.LanesK.C4.chkG1_trip k).2.2.2.2.2.2.2.2.2.2.2.2.2.1) (Cert.LanesK.C4.hit_d1_j5 k (Cert.LanesK.C4.chkG1_trip k).2.2.2.2.2.2.2.2.2.2.2.2.2.1) ?_
    unfold inner3.sl.f_13 inner3.sl.HT0_13
    erw [View.readCov_cons_toLoadRect]
    refine Cert.LanesK.goodV_first _ _ _ (Cert.LanesK.C4.val_d1_j4 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.2.2.2.1 (Cert.LanesK.C4.chkG1_trip k).2.2.2.2.2.2.2.2.2.2.2.2.1) (Cert.LanesK.C4.hit_d1_j4 k (Cert.LanesK.C4.chkG1_trip k).2.2.2.2.2.2.2.2.2.2.2.2.1) ?_
    unfold inner3.sl.f_12 inner3.sl.HT0_12
    erw [View.readCov_cons_toLoadRect]
    refine Cert.LanesK.goodV_first _ _ _ (Cert.LanesK.C4.val_d1_j3 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.2.2.1 (Cert.LanesK.C4.chkG1_trip k).2.2.2.2.2.2.2.2.2.2.2.1) (Cert.LanesK.C4.hit_d1_j3 k (Cert.LanesK.C4.chkG1_trip k).2.2.2.2.2.2.2.2.2.2.2.1) ?_
    unfold inner3.sl.f_11 inner3.sl.HT0_11
    erw [View.readCov_cons_toLoadRect]
    refine Cert.LanesK.goodV_first _ _ _ (Cert.LanesK.C4.val_d1_j2 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.2.1 (Cert.LanesK.C4.chkG1_trip k).2.2.2.2.2.2.2.2.2.2.1) (Cert.LanesK.C4.hit_d1_j2 k (Cert.LanesK.C4.chkG1_trip k).2.2.2.2.2.2.2.2.2.2.1) ?_
    unfold inner3.sl.f_10 inner3.sl.HT0_10
    erw [View.readCov_cons_toLoadRect]
    refine Cert.LanesK.goodV_first _ _ _ (Cert.LanesK.C4.val_d1_j1 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).2.1 (Cert.LanesK.C4.chkG1_trip k).2.2.2.2.2.2.2.2.2.1) (Cert.LanesK.C4.hit_d1_j1 k (Cert.LanesK.C4.chkG1_trip k).2.2.2.2.2.2.2.2.2.1) ?_
    unfold inner3.sl.f_9 inner3.sl.HT0_9
    erw [View.readCov_cons_toLoadRect]
    refine Cert.LanesK.goodV_first _ _ _ (Cert.LanesK.C4.val_d1_j0 k (View.readAt (Elt F) slotG3.view (LoadRect.whole S128x128) fd) (PposV m d L) 64#32 (Scalar.divsi (lword g 3#32) 2#32) (w_lt_3 g) o_le_64 (Cert.LanesK.C4.chkP1_trip k 64#32 (Scalar.divsi (lword g 3#32) 2#32) (w_lt_3 g) o_le_64) (Cert.LanesK.C4.chkG1_trip k).1 (Cert.LanesK.C4.chkG1_trip k).2.2.2.2.2.2.2.2.1) (Cert.LanesK.C4.hit_d1_j0 k (Cert.LanesK.C4.chkG1_trip k).2.2.2.2.2.2.2.2.1) ?_
    unfold inner3.sl.f_8 inner3.sl.HT0_8
    erw [View.readCov_cons_toLoadRect]
    refine Cert.LanesK.goodV_first _ _ _ (Cert.LanesK.C4.val_d0_j7 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.2.2.2.2.2.2.1 (Cert.LanesK.C4.chkG0_trip k).2.2.2.2.2.2.2.2.2.2.2.2.2.2.2) (Cert.LanesK.C4.hit_d0_j7 k (Cert.LanesK.C4.chkG0_trip k).2.2.2.2.2.2.2.2.2.2.2.2.2.2.2) ?_
    unfold inner3.sl.f_7 inner3.sl.HT0_7
    erw [View.readCov_cons_toLoadRect]
    refine Cert.LanesK.goodV_first _ _ _ (Cert.LanesK.C4.val_d0_j6 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.2.2.2.2.2.1 (Cert.LanesK.C4.chkG0_trip k).2.2.2.2.2.2.2.2.2.2.2.2.2.2.1) (Cert.LanesK.C4.hit_d0_j6 k (Cert.LanesK.C4.chkG0_trip k).2.2.2.2.2.2.2.2.2.2.2.2.2.2.1) ?_
    unfold inner3.sl.f_6 inner3.sl.HT0_6
    erw [View.readCov_cons_toLoadRect]
    refine Cert.LanesK.goodV_first _ _ _ (Cert.LanesK.C4.val_d0_j5 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.2.2.2.2.1 (Cert.LanesK.C4.chkG0_trip k).2.2.2.2.2.2.2.2.2.2.2.2.2.1) (Cert.LanesK.C4.hit_d0_j5 k (Cert.LanesK.C4.chkG0_trip k).2.2.2.2.2.2.2.2.2.2.2.2.2.1) ?_
    unfold inner3.sl.f_5 inner3.sl.HT0_5
    erw [View.readCov_cons_toLoadRect]
    refine Cert.LanesK.goodV_first _ _ _ (Cert.LanesK.C4.val_d0_j4 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.2.2.2.1 (Cert.LanesK.C4.chkG0_trip k).2.2.2.2.2.2.2.2.2.2.2.2.1) (Cert.LanesK.C4.hit_d0_j4 k (Cert.LanesK.C4.chkG0_trip k).2.2.2.2.2.2.2.2.2.2.2.2.1) ?_
    unfold inner3.sl.f_4 inner3.sl.HT0_4
    erw [View.readCov_cons_toLoadRect]
    refine Cert.LanesK.goodV_first _ _ _ (Cert.LanesK.C4.val_d0_j3 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.2.2.1 (Cert.LanesK.C4.chkG0_trip k).2.2.2.2.2.2.2.2.2.2.2.1) (Cert.LanesK.C4.hit_d0_j3 k (Cert.LanesK.C4.chkG0_trip k).2.2.2.2.2.2.2.2.2.2.2.1) ?_
    unfold inner3.sl.f_3 inner3.sl.HT0_3
    erw [View.readCov_cons_toLoadRect]
    refine Cert.LanesK.goodV_first _ _ _ (Cert.LanesK.C4.val_d0_j2 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.2.1 (Cert.LanesK.C4.chkG0_trip k).2.2.2.2.2.2.2.2.2.2.1) (Cert.LanesK.C4.hit_d0_j2 k (Cert.LanesK.C4.chkG0_trip k).2.2.2.2.2.2.2.2.2.2.1) ?_
    unfold inner3.sl.f_2 inner3.sl.HT0_2
    erw [View.readCov_cons_toLoadRect]
    refine Cert.LanesK.goodV_first _ _ _ (Cert.LanesK.C4.val_d0_j1 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).2.1 (Cert.LanesK.C4.chkG0_trip k).2.2.2.2.2.2.2.2.2.1) (Cert.LanesK.C4.hit_d0_j1 k (Cert.LanesK.C4.chkG0_trip k).2.2.2.2.2.2.2.2.2.1) ?_
    unfold inner3.sl.f_1 inner3.sl.HT0_1
    erw [View.readCov_cons_toLoadRect]
    refine Cert.LanesK.goodV_first _ _ _ (Cert.LanesK.C4.val_d0_j0 k (View.readAt (Elt F) slotG3.view (LoadRect.whole S128x128) fd) (PposV m d L) 64#32 (Scalar.divsi (lword g 3#32) 2#32) (w_lt_3 g) o_le_64 (Cert.LanesK.C4.chkP0_trip k 64#32 (Scalar.divsi (lword g 3#32) 2#32) (w_lt_3 g) o_le_64) (Cert.LanesK.C4.chkG0_trip k).1 (Cert.LanesK.C4.chkG0_trip k).2.2.2.2.2.2.2.2.1) (Cert.LanesK.C4.hit_d0_j0 k (Cert.LanesK.C4.chkG0_trip k).2.2.2.2.2.2.2.2.1) ?_
    exact Cert.LanesK.goodV_of_goodM hR
  sl_step
  isplitl [Hmw]; · iexact Hmw
  isplitl [H7]; · iexact H7
  isplitl [HG]; · iexact HG
  isplitl [HT0]
  · iexists _
    isplitr
    rotate_left
    · iexact HT0
    · ipureintro
      refine Cert.LanesK.goodM_of_goodV_cons slotT1 R _ (Cert.LanesK.goodV_mono (Cert.LanesK.C1.accTo_succ_sub k.val) ?_)
      refine Cert.LanesK.goodV_first _ _ _ (Cert.LanesK.C4.val_d3_j7 k (View.readAt (Elt F) slotG3.view (LoadRect.whole S128x128) fd) (PposV m d L) 64#32 (Scalar.divsi (lword g 3#32) 2#32) (w_lt_3 g) o_le_64 (Cert.LanesK.C4.chkP3_trip k 64#32 (Scalar.divsi (lword g 3#32) 2#32) (w_lt_3 g) o_le_64) (Cert.LanesK.C4.chkG3_trip k).2.2.2.2.2.2.2.1 (Cert.LanesK.C4.chkG3_trip k).2.2.2.2.2.2.2.2.2.2.2.2.2.2.2) (Cert.LanesK.C4.hit_d3_j7 k (Cert.LanesK.C4.chkG3_trip k).2.2.2.2.2.2.2.2.2.2.2.2.2.2.2) ?_
      exact key31
  iexists _
  isplitr
  rotate_left
  · iexact HO
  · ipureintro; exact hW''

end Cert.Proof.LaunchK

end
-- ==== Proof.BodyEndK.lean ====
/-
  The end of the tile's task: after the last trip of the loop over positions the two copies-out still in flight
  (positions 198 and 199) are waited for, and everything the task was handed is put back together — the read shares of
  the padded table and of the index scratch from their tokens, the two rings from their slots, the tile's block of the
  result from its two hundred slabs, every one now at the lookup.
-/
import proofs.«206908_g46772193853751_cont_8to1c4_160_30_alg».proof.Proof.BodyInvK

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Transfers (pointsTo_toks_join)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

variable [FloatOps F]
variable (m : (ℓ : Loc nD τ sig) → Buf (Elt F) ℓ)
variable (d : Dev nD) (L : grid0.Coords)

local notation "thr" => V d (cV L) (jV L)
local notation "qL" => qT (cL L) (sL L)

/-- The task's last statements, as the program spells them: the waits for the two staging slots' copies-out, the return. -/
def tailProg : Prog (TpuEff nD τ sig (Elt F) Λ₀ (.scVector ((L 0).castLE hcore0) ((L 1).castLE hsub0))) PUnit := do
  let v49 : Memref sig .scVector .vmem S1x64x128 .f32 := (a9).slice (Rect.unit (s := S2x64x128) ![0, 0, 0] S1x64x128.size inb_S2x64x128_S1x64x128_0_0_0) (fun _ => rfl)
  let v50 : Memref sig .scVector .vmem S64x128 .f32 := v49.squeeze S64x128 squeezes_S1x64x128_S64x128
  let v47 : Memref sig .scVector .hbm S1x64x128 .f32 := (a5).slice (Rect.unit (s := S200x64x4096) ![0, 0, 0] S1x64x128.size inb_S200x64x4096_S1x64x128_0_0_0) (fun _ => rfl)
  let v48 : Memref sig .scVector .hbm S64x128 .f32 := v47.squeeze S64x128 squeezes_S1x64x128_S64x128
  Prog.lift (.waitDma2 cc0_scratch8.sem v50 v48 ((View.wordExact_bits rfl).reshape _ _) ((View.wordExact_bits rfl).reshape _ _))
  let v55 : Memref sig .scVector .hbm S1x64x128 .f32 := (a5).slice (Rect.unit (s := S200x64x4096) ![0, 0, 0] S1x64x128.size inb_S200x64x4096_S1x64x128_0_0_0) (fun _ => rfl)
  let v56 : Memref sig .scVector .hbm S64x128 .f32 := v55.squeeze S64x128 squeezes_S1x64x128_S64x128
  let v57 : Memref sig .scVector .vmem S1x64x128 .f32 := (a9).slice (Rect.unit (s := S2x64x128) ![1, 0, 0] S1x64x128.size inb_S2x64x128_S1x64x128_1_0_0) (fun _ => rfl)
  let v58 : Memref sig .scVector .vmem S64x128 .f32 := v57.squeeze S64x128 squeezes_S1x64x128_S64x128
  Prog.lift (.waitDma2 cc0_scratch9.sem v58 v56 ((View.wordExact_bits rfl).reshape _ _) ((View.wordExact_bits rfl).reshape _ _))
  pure ⟨⟩

/-- The padded table's read share from what the gathers left of it and the four slots' tokens. -/
theorem v1_join (f : Buf (Elt F) (v1Loc d)) :
    iprop(((a3).view.loc thr ↦{shareDrop qL 4} f)
        ∗ ((a3).view.loc thr ↦[a3sSet d L]{shareTok qL 4 0} f) ∗ ((a3).view.loc thr ↦[a3sSet d L]{shareTok qL 4 1} f)
        ∗ ((a3).view.loc thr ↦[a3sSet d L]{shareTok qL 4 2} f) ∗ ((a3).view.loc thr ↦[a3sSet d L]{shareTok qL 4 3} f))
      ⊢ ((a3).view.loc thr ↦{qL} f : sProp 𝕄) := by
  unfold a3sSet
  rw [set_a3s]
  refine BI.Entails.trans ?_ (pointsTo_toks_join qL 4)
  rw [bigSep_fin4]
  exact BI.Entails.refl _

/-- The index scratch whole from the four slots' shares of it and the spare one. -/
theorem idx_join (f : Buf (Elt F) ((a6).view.loc thr)) :
    iprop(((a6).view.loc thr ↦{shareDrop fullShare 4} f)
        ∗ ((a6).view.loc thr ↦{shareTok fullShare 4 0} f) ∗ ((a6).view.loc thr ↦{shareTok fullShare 4 1} f)
        ∗ ((a6).view.loc thr ↦{shareTok fullShare 4 2} f) ∗ ((a6).view.loc thr ↦{shareTok fullShare 4 3} f))
      ⊢ ((a6).view.loc thr ↦{fullShare} f : sProp 𝕄) := by
  refine BI.Entails.trans ?_ (pointsTo_toks_join fullShare 4)
  rw [bigSep_fin4]
  exact BI.Entails.refl _

/-- The tile's block of the result at the lookup: the slabs below 198 and the last two. -/
theorem blk_done :
    iprop(doneS m d L 50 ∗ slabPt d L ⟨(4 * 50 - 2 + 0) % 200, mod200_lt _⟩ (Out3 m d) ∗ slabPt d L ⟨(4 * 50 - 2 + 1) % 200, mod200_lt _⟩ (Out3 m d))
      ⊢ ((a5).view.loc thr ↦[blk3 (wid (cL L) (sL L))]{fullShare} Out3 m d : sProp 𝕄) := by
  have e : (bigSep (Finset.univ : Finset (Fin 200)) fun l => slabPt d L l (Out3 m d) : sProp 𝕄)
      = iprop(slabPt d L ⟨199, by norm_num⟩ (Out3 m d) ∗ slabPt d L ⟨198, by norm_num⟩ (Out3 m d)
          ∗ bigSep (Finset.univ.filter fun l : Fin 200 => l.val < 198) fun l => slabPt d L l (Out3 m d)) :=
    (bigSep_lt_top _).symm.trans ((bigSep_lt_push _ 199 (by norm_num)).trans (congrArg _ (bigSep_lt_push _ 198 (by norm_num))))
  rw [blk_slabs d L (Out3 m d), e]
  unfold doneS
  iintro ⟨Hd, H198, H199⟩
  isplitl [H199]; · iexact H199
  isplitl [H198]; · iexact H198
  iexact Hd

/-- The end of the task: from the loop's invariant after its last trip, and what was set aside around the loop, the two
    waits and the return leave the task's postcondition. -/
theorem epilogue (O : CellTallies nD τ sig (HIx 1)) (W Wc : Waits sig (HIx 1)) (hW : ∀ p ∈ Wc, p ∈ W ∨ p.2 = none) :
    iprop(Iout m d L O Wc 50 ⟨⟩
        ∗ ((a2).view.loc thr ↦{qL} V0 m d) ∗ ((a4).view.loc thr ↦{qL} V2 m d)
        ∗ ((a3).view.loc thr ↦{shareDrop qL 4} V1 m d)
        ∗ ((a6).view.loc thr ↦{shareTok fullShare 4 3} Cidx m d L)
        ∗ semVal (thr, SemLoc.dma cc0_scoped0.sem) 0 ∗ semVal (thr, SemLoc.dma cc0_scoped1.sem) 0)
      ⊢ wp frame (wpE (defs₀ (F := F)) 𝒱₀ thr none) Set.univ (tailProg (F := F) L)
          (fun _ => iprop(((a2).view.loc thr ↦{qL} V0 m d) ∗ ((a3).view.loc thr ↦{qL} V1 m d) ∗ ((a4).view.loc thr ↦{qL} V2 m d)
            ∗ ((a5).view.loc thr ↦[blk3 (wid (cL L) (sL L))]{fullShare} Out3 m d)
            ∗ (∃ f, (a6).view.loc thr ↦{fullShare} f) ∗ (∃ f, (a7).view.loc thr ↦{fullShare} f)
            ∗ (∃ f, (a8).view.loc thr ↦{fullShare} f) ∗ (∃ f, (a9).view.loc thr ↦{fullShare} f)
            ∗ semVal (thr, SemLoc.dma cc0_scratch4.sem) 0 ∗ semVal (thr, SemLoc.dma cc0_scratch5.sem) 0
            ∗ semVal (thr, SemLoc.dma cc0_scratch6.sem) 0 ∗ semVal (thr, SemLoc.dma cc0_scratch7.sem) 0
            ∗ semVal (thr, SemLoc.dma cc0_scratch8.sem) 0 ∗ semVal (thr, SemLoc.dma cc0_scratch9.sem) 0
            ∗ semVal (thr, SemLoc.dma cc0_scoped0.sem) 0 ∗ semVal (thr, SemLoc.dma cc0_scoped1.sem) 0
            ∗ ∃ W', ⌜∀ p ∈ W', p ∈ W ∨ p.2 = none⌝ ∗ owes thr O W')) := by
  unfold Iout
  rw [PG_idle m d L slotG0 _ _ 0 50 (by decide), PG_idle m d L slotG1 _ _ 1 50 (by decide), PG_idle m d L slotG2 _ _ 2 50 (by decide),
    PG_idle m d L slotG3 _ _ 3 50 (by decide), PS_flight m d L slotT0 _ 0 50 (by decide), PS_flight m d L slotT1 _ 1 50 (by decide)]
  unfold FlS tailProg
  iintro ⟨⟨#Hmw, Hpos, ⟨⟨%g0, Hg0⟩, Hi0, Ht0, Hs4⟩, ⟨⟨%g1, Hg1⟩, Hi1, Ht1, Hs5⟩, ⟨⟨%g2, Hg2⟩, Hi2, Ht2, Hs6⟩, ⟨⟨%g3, Hg3⟩, Hi3, Ht3, Hs7⟩,
    ⟨%off0, %h0, %fS0, %R0, %e0, %hf0, Hfl0⟩, ⟨%off1, %h1, %fS1, %R1, %e1, %hf1, Hfl1⟩, Hdone, -, %W', %hW', HO⟩, Hv0, Hv2, Hv1, Hi4, Hsc0, Hsc1⟩
  subst e0 e1
  sl_exec
  sl_step
  ihave Hsl0 := (Entails.of_eq (pointsTo_congr hf0)) $$ Hfl0_dst
  ihave Hsl1 := (Entails.of_eq (pointsTo_congr hf1)) $$ Hfl1_dst
  isplitl [Hv0]; · iexact Hv0
  isplitl [Hv1 Ht0 Ht1 Ht2 Ht3]
  · iapply (v1_join d L (V1 m d))
    isplitl [Hv1]; · iexact Hv1
    isplitl [Ht0]; · iexact Ht0
    isplitl [Ht1]; · iexact Ht1
    isplitl [Ht2] <;> iassumption
  isplitl [Hv2]; · iexact Hv2
  isplitl [Hdone Hsl0 Hsl1]
  · iapply (blk_done m d L)
    isplitl [Hdone]; · iexact Hdone
    isplitl [Hsl0]; · iexact Hsl0
    iexact Hsl1
  isplitl [Hi0 Hi1 Hi2 Hi3 Hi4]
  · iexists (Cidx m d L)
    iapply (idx_join d L (Cidx m d L))
    isplitl [Hi0]; · iexact Hi0
    isplitl [Hi1]; · iexact Hi1
    isplitl [Hi2]; · iexact Hi2
    isplitl [Hi3] <;> iassumption
  isplitl [Hpos]; · iexists _; iexact Hpos
  isplitl [Hg0 Hg1 Hg2 Hg3]
  · iapply (ring_join d L fullShare g0 g1 g2 g3)
    isplitl [Hg0]; · iexact Hg0
    isplitl [Hg1]; · iexact Hg1
    isplitl [Hg2] <;> iassumption
  isplitl [Hfl0_src Hfl1_src]
  · iapply (stage_join d L fullShare R0 R1)
    isplitl [Hfl0_src] <;> iassumption
  isplitl [Hs4]; · iexact Hs4
  isplitl [Hs5]; · iexact Hs5
  isplitl [Hs6]; · iexact Hs6
  isplitl [Hs7]; · iexact Hs7
  isplitl [Hfl0]; · iexact Hfl0
  isplitl [Hfl1]; · iexact Hfl1
  isplitl [Hsc0]; · iexact Hsc0
  isplitl [Hsc1]; · iexact Hsc1
  iexists (insert (SemLoc.dma cc0_scratch9.sem, (default : HIx 1)) (insert (SemLoc.dma cc0_scratch8.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    rcases hW' p hp with h | h
    · exact hW p h
    · exact .inr h
  · iexact HO

end Cert.Proof.LaunchK

end
-- ==== Proof.LaneValueK.lean ====
/-
  What a landed row gather leaves in a ring slot.

  The gather of position l copies, for each of the 128 words of row l of the index scratch, the table row that word
  names into the slot's row of the same number.  Its payload is stated over the table's whole-extent window (which reads
  the table itself) and the row's words read through the program's slice of the index scratch (word x of the row at
  offset (l, 0) is the scratch's word at (l, x)).  So once the gather has landed — the slot rewritten whole with the
  payload — the slot's element (r, c) is the table's element at the row the word at (l, r) names, column c.
-/
import proofs.«206908_g46772193853751_cont_8to1c4_160_30_alg».proof.Proof.BodyInvK
import Idealize.ShloMosaic.Lib.Exec.Geometry

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

variable [FloatOps F]
variable (m : (ℓ : Loc nD τ sig) → Buf (Elt F) ℓ)
variable (d : Dev nD) (L : grid0.Coords)

local notation "thr" => V d (cV L) (jV L)

/-- Word x of the row at offset off sits in the index scratch at (off 0, off 1 + x). -/
theorem row_emb (off : Fin 2 → Nat) (h : ∀ a, off a + S1x128.size a ≤ S200x128.size a) (x : S128.Idx) :
    (rowAt off h).view.emb x
      = (ix2 (⟨off 0, by have h0 : off 0 + 1 ≤ 200 := h 0; omega⟩ : Fin 200)
          (⟨off 1 + (x 0).val, by have h1 : off 1 + 128 ≤ 128 := h 1; have := (x 0).isLt; have hx : (x 0).val < 128 := this; omega⟩ : Fin 128) : S200x128.Idx) := by
  have hre : Shape.reshapeEquiv squeezes_S1x128_S128.numel_eq x = (ix2 (0 : Fin 1) (⟨(x 0).val, (x 0).isLt⟩ : Fin 128) : S1x128.Idx) := by
    apply Shape.reshapeEquiv_eq_of_rowMajor
    rw [Shape.rowMajor_val_two, Shape.rowMajor_val_one]
    show 0 * 128 + (x 0).val = (x 0).val
    omega
  show (Rect.emb (Rect.unit (s := S200x128) off S1x128.size h)) (Shape.reshapeEquiv squeezes_S1x128_S128.numel_eq x) = _
  rw [hre]
  funext a
  apply Fin.ext
  match a with
  | ⟨0, _⟩ => show off 0 + 1 * 0 = off 0; omega
  | ⟨1, _⟩ => show off 1 + 1 * (x 0).val = off 1 + (x 0).val; omega

/-- The row's word x, read through the program's slice, is the scratch's word at (off 0, off 1 + x). -/
theorem row_read (off : Fin 2 → Nat) (h : ∀ a, off a + S1x128.size a ≤ S200x128.size a)
    (f : Buf (Elt F) ((a6).view.loc thr)) (x : S128.Idx) :
    (rowAt off h).view.read (Elt F) f x
      = f (ix2 (⟨off 0, by have h0 : off 0 + 1 ≤ 200 := h 0; omega⟩ : Fin 200)
          (⟨off 1 + (x 0).val, by have h1 : off 1 + 128 ≤ 128 := h 1; have := (x 0).isLt; have hx : (x 0).val < 128 := this; omega⟩ : Fin 128)) := by
  rw [View.read_apply, row_emb]
  exact cast_eq _ _

/-- The table's whole-extent window reads the table. -/
theorem a3s_read (f : Buf (Elt F) ((a3).view.loc thr)) : View.read (Elt F) (a3s).view f = f :=
  Memref.read_access_unit_zero (Elt F) (main_v1_scv : Ref sig .scVector) (off := ![0, 0])
    (by funext a; fin_cases a <;> rfl) inb_S100000x128_S100000x128_0_0 f

/-- The table index a gathered element (r, c) comes from: the named row, the same column. -/
theorem gather_idx (rws : Fin (S128x128.size gathers_S100000x128_S128x128.axis') → Fin (S100000x128.size gathers_S100000x128_S128x128.axis))
    (r c : Fin 128) :
    gathers_S100000x128_S128x128.idx rws (ix2 r c : S128x128.Idx) = (ix2 (rws r) c : S100000x128.Idx) := by
  funext b
  match b with
  | ⟨0, _⟩ => exact Shape.Gathers.idx_axis gathers_S100000x128_S128x128 rws (ix2 r c : S128x128.Idx)
  | ⟨1, _⟩ => exact Fin.ext (Shape.Gathers.idx_of_ne gathers_S100000x128_S128x128 rws (ix2 r c : S128x128.Idx) ⟨1, by decide⟩ (by decide))

/-- Entry k of a 128-word list, in row-major order, is its word k. -/
theorem rowMajor_symm_S128 (k : Fin S128.numel) : S128.rowMajor.symm k = (ix1 (⟨k.val, k.isLt⟩ : Fin 128) : S128.Idx) := by
  rw [Equiv.symm_apply_eq]
  exact Fin.ext (by rw [Shape.rowMajor_val_one])

/-- Once the gather of position l has landed — the slot rewritten whole with the gather's payload over the row at
    offset (l, 0) — the slot holds, at (r, c), the table's element at the row the index word at (l, r) names. -/
theorem goodG_gather (slot : Memref sig .scVector .vmem S128x128 .f32) (fprev : Buf (Elt F) (slot.view.loc thr))
    (l : ℕ) (hl : l < 200) (off : Fin 2 → Nat) (h : ∀ a, off a + S1x128.size a ≤ S200x128.size a) (hoff : off = ![l, 0])
    (hn : S128.numel = S128x128.size gathers_S100000x128_S128x128.axis')
    (hin : ∀ x, (View.read (Elt F) (rowAt off h).view (Cidx m d L) x).toNat < S100000x128.size gathers_S100000x128_S128x128.axis) :
    GoodG m d L slot l
      (slot.view.writes (Elt F) fprev [⟨Rect.whole S128x128,
        SparseCore.gatherPayload gathers_S100000x128_S128x128 (View.read (Elt F) (a3s).view (V1 m d))
          (SparseCore.rows (View.read (Elt F) (rowAt off h).view (Cidx m d L)) hn hin)⟩]) := by
  subst hoff
  intro r c
  rw [View.read_writes_whole]
  show View.read (Elt F) (a3s).view (V1 m d) (gathers_S100000x128_S128x128.idx _ (ix2 r c : S128x128.Idx)) = _
  rw [a3s_read d L, gather_idx]
  have hrow : (SparseCore.rows (View.read (Elt F) (rowAt ![l, 0] h).view (Cidx m d L)) hn hin r : Fin 100000)
      = Cert.Spec.row (Cidx m d L (ix2 (⟨l % 200, mod200_lt l⟩ : Fin 200) r)) := by
    have hw := hin (ix1 (⟨(Fin.cast hn.symm r).val, (Fin.cast hn.symm r).isLt⟩ : Fin 128))
    rw [row_read] at hw
    apply Fin.ext
    show (View.read (Elt F) (rowAt ![l, 0] h).view (Cidx m d L) (S128.rowMajor.symm (Fin.cast hn.symm r))).toNat = _
    rw [rowMajor_symm_S128, row_read]
    have e : (ix2 (⟨(![l, 0] : Fin 2 → Nat) 0, by have h0 : (![l, 0] : Fin 2 → Nat) 0 + 1 ≤ 200 := h 0; omega⟩ : Fin 200)
        (⟨(![l, 0] : Fin 2 → Nat) 1 + ((ix1 (⟨(Fin.cast hn.symm r).val, (Fin.cast hn.symm r).isLt⟩ : Fin 128) : S128.Idx) 0).val, by
          show 0 + r.val < 128; have := r.isLt; omega⟩ : Fin 128) : S200x128.Idx)
        = ix2 (⟨l % 200, mod200_lt l⟩ : Fin 200) r := by
      funext a
      match a with
      | ⟨0, _⟩ => exact Fin.ext (show l = l % 200 by omega)
      | ⟨1, _⟩ => exact Fin.ext (show 0 + r.val = r.val by omega)
    rw [e]
    rw [e] at hw
    show _ = (Cidx m d L (ix2 (⟨l % 200, mod200_lt l⟩ : Fin 200) r)).toNat % 100000
    exact (Nat.mod_eq_of_lt hw).symm
  exact congrArg (fun j : Fin 100000 => V1 m d (ix2 j c)) hrow

end Cert.Proof.LaunchK

end
-- ==== Proof.LaneValue2K.lean ====
/-
  The index scratch's words, and why every word a row gather reads names a table row.

  The tile's index scratch holds its 128 columns of the transposed index array: the word at (l, r) is the transposed
  array's word at (l, first column + r), which is the index array's word at (first column + r, l).  Under the
  precondition every index word is below the number of table rows; so is every word read through any row slice of the
  scratch.
-/
import proofs.«206908_g46772193853751_cont_8to1c4_160_30_alg».proof.Proof.LaneValueK

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

variable [FloatOps F]
variable (m : (ℓ : Loc nD τ sig) → Buf (Elt F) ℓ)
variable (d : Dev nD) (L : grid0.Coords)

local notation "thr" => V d (cV L) (jV L)

/-- Under the precondition every word of the transposed index array names a table row. -/
theorem V0_lt (hpre : PreOK m) (i : S200x4096.Idx) : (V0 m d i).toNat < 100000 := by
  have e : i = (ix2 (⟨(i 0).val, (i 0).isLt⟩ : Fin 200) (⟨(i 1).val, (i 1).isLt⟩ : Fin 4096) : S200x4096.Idx) := by
    funext a
    match a with
    | ⟨0, _⟩ => rfl
    | ⟨1, _⟩ => rfl
  rw [e, V0_apply]
  exact hpre d _ _

/-- Element (l, r) of the tile's block of the transposed index array is its element (l, first column + r). -/
theorem idxBlk_emb (j : S200x128.Idx) :
    (idxBlk L).view.emb j
      = (ix2 (⟨(j 0).val, (j 0).isLt⟩ : Fin 200)
          (⟨b0 L + (j 1).val, by have := b0_le L; have h1 : (j 1).val < 128 := (j 1).isLt; omega⟩ : Fin 4096) : S200x4096.Idx) := by
  funext a
  apply Fin.ext
  match a with
  | ⟨0, _⟩ =>
    show (k0_off1 L) 0 + 1 * (j 0).val = (j 0).val
    rw [k0_off1_eq]
    show 0 + 1 * (j 0).val = (j 0).val
    omega
  | ⟨1, _⟩ =>
    show (k0_off1 L) 1 + 1 * (j 1).val = b0 L + (j 1).val
    rw [k0_off1_eq]
    show 256 * (L 1).val + 128 * (L 0).val + 1 * (j 1).val = b0 L + (j 1).val
    unfold b0
    omega

/-- The index scratch's word at an index is the transposed index array's word under it. -/
theorem Cidx_apply (j : S200x128.Idx) : Cidx m d L j = V0 m d ((idxBlk L).view.emb j) := by
  show View.read (Elt F) (idxBlk L).view (V0 m d) j = _
  rw [View.read_apply]
  exact cast_eq _ _

/-- The index scratch's word at (l, r) is the transposed index array's word at (l, first column + r). -/
theorem Cidx_ix2 (l : Fin 200) (r : Fin 128) :
    Cidx m d L (ix2 l r)
      = V0 m d (ix2 l (⟨b0 L + r.val, by have := b0_le L; have := r.isLt; omega⟩ : Fin 4096)) := by
  rw [Cidx_apply, idxBlk_emb]

/-- Under the precondition every word of the index scratch names a table row, -/
theorem Cidx_lt (hpre : PreOK m) (j : S200x128.Idx) : (Cidx m d L j).toNat < 100000 := by
  rw [Cidx_apply]
  exact V0_lt m d hpre _

/-- and so does every word read through a row slice of it: the side condition of the row gathers. -/
theorem hin_of_pre (hpre : PreOK m) : ∀ (off : Fin 2 → Nat) (h : ∀ a, off a + S1x128.size a ≤ S200x128.size a) (hh) (x : S128.Idx),
    ((((a6).slice (Rect.unit (s := S200x128) off S1x128.size h) hh).squeeze S128 squeezes_S1x128_S128).view.read (Elt F) (Cidx m d L) x).toNat
      < S100000x128.size gathers_S100000x128_S128x128.axis := by
  intro off h hh x
  have e := row_read d L off h (Cidx m d L) x
  show ((rowAt off h).view.read (Elt F) (Cidx m d L) x).toNat < 100000
  rw [e]
  exact Cidx_lt m d L hpre _

end Cert.Proof.LaunchK

end
-- ==== Proof.LaneValue3K.lean ====
/-
  A copied-out slab agrees with the result function.

  The copy-out of position l writes the staging slot's 64 × 128 block over slab l of the tile's block of the result:
  the slab's element (e, r) — the result's element (l, e, first column + r) — takes the slot's element (e, r).  When
  the slot holds, at (e, r), the gathered block's element (r, e) plus the positional scratch's element at packed row
  l / 2 and column (l mod 2)·64 + e, and the gathered block's row r is the table row the index word at (l, r) names,
  that is the lookup of the specification at (l, e, first column + r): the table row named by the index word, feature
  e, plus the positional table at (l, e).
-/
import proofs.«206908_g46772193853751_cont_8to1c4_160_30_alg».proof.Proof.LaneValue2K
import proofs.«206908_g46772193853751_cont_8to1c4_160_30_alg».proof.Proof.LaneGoodK

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

variable [FloatOps F]
variable (m : (ℓ : Loc nD τ sig) → Buf (Elt F) ℓ)
variable (d : Dev nD) (L : grid0.Coords)

local notation "thr" => V d (cV L) (jV L)

/-- A load through a view over its whole rectangle reads what the view reads. -/
theorem readAt_whole_eq_read {sg : RefSig} {κ : Kind} {sp : Space} {s : Shape} {e : EltTy} {Val : EltTy → Type}
    (v : View sg κ sp s e) (f : v.ty.Contents Val) (x : s.Idx) :
    v.readAt Val (LoadRect.whole s) f x = v.read Val f x := by
  rw [View.readAt_apply]
  exact congrArg (v.read Val f) (Rect.emb_whole_apply s x)

/-- The slab rewritten whole holds, under its element x, the payload's element x. -/
theorem slab_writes_emb (off : Fin 3 → Nat) (h : ∀ a, off a + S1x64x128.size a ≤ S200x64x4096.size a)
    (f0 : Buf (Elt F) ((a5).view.loc thr)) (X : S64x128.Idx → Elt F .f32) (x : S64x128.Idx) :
    ((slabAt off h).view.writes (Elt F) f0 [⟨Rect.whole S64x128, X⟩]) ((slabAt off h).view.emb x) = X x := by
  have e := congrFun (View.read_writes_whole (slabAt off h).view f0 X) x
  rw [View.read_apply] at e
  exact (cast_eq _ _).symm.trans e

/-- The positional scratch holds the packed positional table. -/
theorem Ppos_apply (j : S100x128.Idx) : Ppos m d L j = V2 m d j := by
  show View.read (Elt F) (a4).view (V2 m d) j = _
  rw [View.read_apply]
  exact cast_eq _ _

/-- Read through the whole scratch, likewise. -/
theorem Ppos_readAt (j : S100x128.Idx) :
    View.readAt (Elt F) (Memref.whole cc0_scratch1).view (LoadRect.whole S100x128) (Ppos m d L) j = V2 m d j := by
  have e : View.readAt (Elt F) (Memref.whole cc0_scratch1).view (LoadRect.whole S100x128) (Ppos m d L) = Ppos m d L :=
    Memref.readAt_whole (Elt F) (cc0_scratch1 : Ref sig .scVector) (Ppos m d L)
  rw [e, Ppos_apply]

/-- The gathered block read through its whole rectangle, at (r, c): the table's element at the row the index word at
    (l, first column + r) of the transposed index array names. -/
theorem goodG_readAt (slotG : Memref sig .scVector .vmem S128x128 .f32) (l : ℕ) (hl : l < 200)
    (fd : Buf (Elt F) (slotG.view.loc thr)) (hG : GoodG m d L slotG l fd) (r c : Fin 128) :
    View.readAt (Elt F) slotG.view (LoadRect.whole S128x128) fd (ix2 r c)
      = V1 m d (ix2 (Cert.Spec.row (V0 m d (ix2 (⟨l, hl⟩ : Fin 200) (⟨b0 L + r.val, by have := b0_le L; have := r.isLt; omega⟩ : Fin 4096)))) c) := by
  rw [readAt_whole_eq_read, hG r c, Cidx_ix2]
  have e : (⟨l % 200, mod200_lt l⟩ : Fin 200) = ⟨l, hl⟩ := Fin.ext (Nat.mod_eq_of_lt hl)
  rw [e]

end Cert.Proof.LaunchK

end
-- ==== Proof.LaneValue4K.lean ====
/-
  A copied-out slab agrees with the result function.

  The copy-out of position l writes the staging slot's 64 × 128 block over slab l of the tile's block of the result:
  the slab's element (e, r) — the result's element (l, e, first column + r) — takes the slot's element (e, r).  When
  the slot holds, at (e, r), the gathered block's element (r, e) plus the positional scratch's element at packed row
  l / 2 and column (l mod 2)·64 + e, and the gathered block's row r is the table row the index word at (l, r) names,
  that is the lookup of the specification at (l, e, first column + r): the table row named by the index word, feature
  e, plus the positional table at (l, e).
-/
import proofs.«206908_g46772193853751_cont_8to1c4_160_30_alg».proof.Proof.LaneValue3K

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

variable [FloatOps F]
variable (m : (ℓ : Loc nD τ sig) → Buf (Elt F) ℓ)
variable (d : Dev nD) (L : grid0.Coords)

local notation "thr" => V d (cV L) (jV L)

/-- After the copy-out of position l the slab agrees with the result function on its elements. -/
theorem slab_out3 (slotT : Memref sig .scVector .vmem S64x128 .f32) (slotG : Memref sig .scVector .vmem S128x128 .f32)
    (l : ℕ) (hl : l < 200) (off : Fin 3 → Nat) (h : ∀ a, off a + S1x64x128.size a ≤ S200x64x4096.size a) (hoff : off = offS L l)
    (fd : Buf (Elt F) (slotG.view.loc thr)) (hG : GoodG m d L slotG l fd)
    (R' : Buf (Elt F) (slotT.view.loc thr)) (o w : BitVec 32) (hw : w.toNat < 100) (ho : o.toNat ≤ 64)
    (hwl : w.toNat = l / 2) (hol : o.toNat = (l % 2) * 64)
    (hT : ∀ p, View.readAt (Elt F) slotT.view (LoadRect.whole S64x128) R' p
      = Cert.LanesK.Tslot (View.readAt (Elt F) slotG.view (LoadRect.whole S128x128) fd)
          (View.readAt (Elt F) (Memref.whole cc0_scratch1).view (LoadRect.whole S100x128) (Ppos m d L)) o w hw ho p)
    (f0 : Buf (Elt F) ((a5).view.loc thr)) :
    ∀ i ∈ (slabAt off h).view.set,
      ((slabAt off h).view.writes (Elt F) f0 [(⟨Rect.whole S64x128, View.read (Elt F) slotT.view R'⟩ : View.Piece (Elt F) S64x128 .f32)]) i
        = Out3 m d i := by
  subst hoff
  intro i hi
  obtain ⟨x, rfl⟩ : ∃ x, (slabAt (offS L l) h).view.emb x = i := by
    unfold View.set at hi
    simpa only [Finset.mem_map, Finset.mem_univ, true_and] using hi
  rw [slab_writes_emb]
  have hx := hT x
  rw [readAt_whole_eq_read] at hx
  refine Eq.trans hx ?_
  have hO := Out3_slab m d L (⟨l, hl⟩ : Fin 200) x
  refine Eq.trans ?_ hO.symm
  unfold Cert.LanesK.Tslot
  have h0 : (x 0).val < 64 := (x 0).isLt
  have h1 : (x 1).val < 128 := (x 1).isLt
  have eG := goodG_readAt m d L slotG l hl fd hG (⟨(x 1).val, h1⟩ : Fin 128) (⟨(x 0).val, by omega⟩ : Fin 128)
  have eP := Ppos_readAt m d L (ix2 (⟨w.toNat, hw⟩ : Fin 100) (⟨(x 0).val + o.toNat, by omega⟩ : Fin 128))
  have eI : (ix2 (⟨w.toNat, hw⟩ : Fin 100) (⟨(x 0).val + o.toNat, by omega⟩ : Fin 128) : S100x128.Idx)
      = (ix2 (⟨l / 2, by omega⟩ : Fin 100) (⟨l % 2 * 64 + (x 0).val, by omega⟩ : Fin 128) : S100x128.Idx) := by
    funext a
    match a with
    | ⟨0, _⟩ => exact Fin.ext hwl
    | ⟨1, _⟩ => exact Fin.ext (show (x 0).val + o.toNat = l % 2 * 64 + (x 0).val by omega)
  rw [eG, eP, eI]

end Cert.Proof.LaunchK

end
-- ==== Proof.BodyK.lean ====
/-
  One tile's task: the lookup kernel run on a vector subcore.

  The tile copies its 128 batch columns of the transposed index array and the whole packed positional table into
  its scratch, keeps four row gathers in flight (one ring slot and one semaphore each), and for each position l
  waits for the gathered rows, adds the positional row while transposing 16 × 16 lane tiles into a staging slot,
  and copies the slot out to slab l of its block of the result (two staging slots, one semaphore each). The loop
  over positions runs four positions a trip; its first trip has no copy-out pending and its last issues no gather.
-/
import proofs.«206908_g46772193853751_cont_8to1c4_160_30_alg».proof.Proof.BodyInnerK
import proofs.«206908_g46772193853751_cont_8to1c4_160_30_alg».proof.Proof.BodyEndK
import proofs.«206908_g46772193853751_cont_8to1c4_160_30_alg».proof.Proof.LaneValue2K
import proofs.«206908_g46772193853751_cont_8to1c4_160_30_alg».proof.Proof.LaneValue4K
import proofs.«206908_g46772193853751_cont_8to1c4_160_30_alg».proof.Proof.Gen.Kernel.Skeleton

noncomputable section

namespace Cert.Proof.LaunchK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareTokN shareDrop)
open Idealize.ShloMosaic.Tactic

variable {F : FTy → Type}

local notation "𝕄" => MT nD τ sig (HIx 1) (Elt F) ℕ UU ℕ

local notation "a2" => (Memref.whole Cert.Kernel.main_v0_scv : Memref Cert.Kernel.sig Kind.scVector Space.hbm Cert.Kernel.S200x4096 EltTy.i32)
local notation "a3" => (Memref.whole Cert.Kernel.main_v1_scv : Memref Cert.Kernel.sig Kind.scVector Space.hbm Cert.Kernel.S100000x128 EltTy.f32)
local notation "a4" => (Memref.whole Cert.Kernel.main_v2_scv : Memref Cert.Kernel.sig Kind.scVector Space.hbm Cert.Kernel.S100x128 EltTy.f32)
local notation "a5" => (Memref.whole Cert.Kernel.main_v3_scv : Memref Cert.Kernel.sig Kind.scVector Space.hbm Cert.Kernel.S200x64x4096 EltTy.f32)
local notation "a6" => (Memref.whole Cert.Kernel.cc0_scratch0 : Memref Cert.Kernel.sig Kind.scVector Space.vmem Cert.Kernel.S200x128 EltTy.i32)
local notation "a7" => (Memref.whole Cert.Kernel.cc0_scratch1 : Memref Cert.Kernel.sig Kind.scVector Space.vmem Cert.Kernel.S100x128 EltTy.f32)
local notation "a8" => (Memref.whole Cert.Kernel.cc0_scratch2 : Memref Cert.Kernel.sig Kind.scVector Space.vmem Cert.Kernel.S4x128x128 EltTy.f32)
local notation "a9" => (Memref.whole Cert.Kernel.cc0_scratch3 : Memref Cert.Kernel.sig Kind.scVector Space.vmem Cert.Kernel.S2x64x128 EltTy.f32)

variable [FloatOps F]
variable (m : (ℓ : Loc nD τ sig) → Buf (Elt F) ℓ)

variable (d : Dev nD) (L : grid0.Coords)
local notation "thr" => V d (cV L) (jV L)

theorem ncond2_last : ∀ g : Fin k0_t1_loop.trips, g.val = 49 → ¬ k0_cond2 g = 1#1 := by decide +kernel
theorem ncond4_last : ∀ g : Fin k0_t1_loop.trips, g.val = 49 → ¬ k0_cond4 g = 1#1 := by decide +kernel
theorem ncond6_last : ∀ g : Fin k0_t1_loop.trips, g.val = 49 → ¬ k0_cond6 g = 1#1 := by decide +kernel
theorem ncond8_last : ∀ g : Fin k0_t1_loop.trips, g.val = 49 → ¬ k0_cond8 g = 1#1 := by decide +kernel
theorem ngeq2_0 : ∀ g : Fin k0_t1_loop.trips, g.val = 0 → ¬ geq2 (lword g 0#32) = 1#1 := by decide +kernel
theorem ngeq2_1 : ∀ g : Fin k0_t1_loop.trips, g.val = 0 → ¬ geq2 (lword g 1#32) = 1#1 := by decide +kernel

/-- After the first trip the slabs written are the first two. -/
theorem done_first (Φ : Fin 200 → sProp 𝕄) (g : ℕ) (hg : g = 0) :
    bigSep (Finset.univ.filter fun l : Fin 200 => l.val < 4 * (g + 1) - 2) Φ
      = iprop(Φ ⟨1, by omega⟩ ∗ Φ ⟨0, by omega⟩ ∗ bigSep (Finset.univ.filter fun l : Fin 200 => l.val < 0) Φ) := by
  subst hg
  rw [Finset.filter_congr (fun l _ => (by omega : (l.val < 4 * (0 + 1) - 2) ↔ (l.val < 0 + 1 + 1))),
    bigSep_lt_push Φ (0 + 1) (by omega), bigSep_lt_push Φ 0 (by omega)]

theorem w_val_0 : ∀ g : Fin k0_t1_loop.trips, (Scalar.divsi (lword g 0#32) 2#32).toNat = (4 * g.val + ((0 : Fin 4) : ℕ)) / 2 := by decide +kernel
theorem w_val_1 : ∀ g : Fin k0_t1_loop.trips, (Scalar.divsi (lword g 1#32) 2#32).toNat = (4 * g.val + ((1 : Fin 4) : ℕ)) / 2 := by decide +kernel
theorem w_val_2 : ∀ g : Fin k0_t1_loop.trips, (Scalar.divsi (lword g 2#32) 2#32).toNat = (4 * g.val + ((2 : Fin 4) : ℕ)) / 2 := by decide +kernel
theorem w_val_3 : ∀ g : Fin k0_t1_loop.trips, (Scalar.divsi (lword g 3#32) 2#32).toNat = (4 * g.val + ((3 : Fin 4) : ℕ)) / 2 := by decide +kernel
theorem o_val_0 : ∀ g : Fin k0_t1_loop.trips, (0#32 : BitVec 32).toNat = ((4 * g.val + ((0 : Fin 4) : ℕ)) % 2) * 64 := by decide +kernel
theorem o_val_1 : ∀ g : Fin k0_t1_loop.trips, (64#32 : BitVec 32).toNat = ((4 * g.val + ((1 : Fin 4) : ℕ)) % 2) * 64 := by decide +kernel
theorem o_val_2 : ∀ g : Fin k0_t1_loop.trips, (0#32 : BitVec 32).toNat = ((4 * g.val + ((2 : Fin 4) : ℕ)) % 2) * 64 := by decide +kernel
theorem o_val_3 : ∀ g : Fin k0_t1_loop.trips, (64#32 : BitVec 32).toNat = ((4 * g.val + ((3 : Fin 4) : ℕ)) % 2) * 64 := by decide +kernel
theorem trips_t2 : Scf.trips k0_t2_loop.lb k0_t2_loop.ub k0_t2_loop.st = 16 := by decide
theorem trips_t3 : Scf.trips k0_t3_loop.lb k0_t3_loop.ub k0_t3_loop.st = 16 := by decide
theorem trips_t4 : Scf.trips k0_t4_loop.lb k0_t4_loop.ub k0_t4_loop.st = 16 := by decide
theorem trips_t5 : Scf.trips k0_t5_loop.lb k0_t5_loop.ub k0_t5_loop.st = 16 := by decide

theorem FlG_def (slot : Memref sig .scVector .vmem S128x128 .f32) (sem : DmaSem sig) (σ : PosShare TreeShare) (j : Fin 4) (l : ℕ) :
    FlG m d L slot sem σ j l = iprop(∃ (off : Fin 2 → Nat) (h : ∀ a, off a + S1x128.size a ≤ S200x128.size a) (fd : Buf (Elt F) (slot.view.loc thr)),
    (Transfers.Flight countersEmb thr (SemLoc.dma sem) (default : HIx 1) 524288
      iprop(((slot.view.loc thr ↦[slot.view.set]{fullShare} fd)
          ∗ ((a6).view.loc thr ↦[rowSetAt d L off h]{σ} Cidx m d L))
        ∗ ((a3).view.loc thr ↦[a3sSet d L]{shareTok (qT (cL L) (sL L)) 4 j} V1 m d))
    ∗ ((a6).view.loc thr ↦[Finset.univ \ rowSetAt d L off h]{σ} Cidx m d L))
    ∗ ⌜off = ![l, 0]⌝ ∗ ⌜GoodG m d L slot l fd⌝) := rfl
theorem FlS_def (slotT : Memref sig .scVector .vmem S64x128 .f32) (sem : DmaSem sig) (l : ℕ) :
    FlS m d L slotT sem l = iprop(∃ (off : Fin 3 → Nat) (h : ∀ a, off a + S1x64x128.size a ≤ S200x64x4096.size a)
      (fS : Buf (Elt F) ((a5).view.loc thr)) (R : Buf (Elt F) (slotT.view.loc thr)),
    ⌜off = offS L l⌝ ∗ ⌜∀ i ∈ slabSetAt d L off h, fS i = Out3 m d i⌝ ∗
    Transfers.Flight countersEmb thr (SemLoc.dma sem) (default : HIx 1) 262144
      iprop(((slabAt off h).view.loc thr ↦[(slabAt off h).view.set]{fullShare} fS) ∗ (slotT.view.loc thr ↦[slotT.view.set]{fullShare} R))) := rfl

theorem todoS_def (n : ℕ) : todoS m d L n = bigSep (Finset.univ.filter fun l : Fin 200 => 4 * n ≤ l.val) (fun l => slabPt d L l (m (v3Loc d))) := rfl
theorem doneS_def (n : ℕ) : doneS m d L n = bigSep (Finset.univ.filter fun l : Fin 200 => l.val < 4 * n - 2) (fun l => slabPt d L l (Out3 m d)) := rfl

/-- Four more slabs written: the slabs below 4 (g + 1) - 2 are those below 4 g - 2 and the four next. -/
theorem done_push4 (Φ : Fin 200 → sProp 𝕄) (g : ℕ) (hg1 : 1 ≤ g) (hg2 : g < 50) :
    bigSep (Finset.univ.filter fun l : Fin 200 => l.val < 4 * (g + 1) - 2) Φ
      = iprop(Φ ⟨4 * g - 2 + 1 + 1 + 1, by omega⟩ ∗ Φ ⟨4 * g - 2 + 1 + 1, by omega⟩ ∗ Φ ⟨4 * g - 2 + 1, by omega⟩ ∗ Φ ⟨4 * g - 2, by omega⟩
          ∗ bigSep (Finset.univ.filter fun l : Fin 200 => l.val < 4 * g - 2) Φ) := by
  rw [Finset.filter_congr (fun l _ => (by omega : (l.val < 4 * (g + 1) - 2) ↔ (l.val < 4 * g - 2 + 1 + 1 + 1 + 1))),
    bigSep_lt_push Φ (4 * g - 2 + 1 + 1 + 1) (by omega), bigSep_lt_push Φ (4 * g - 2 + 1 + 1) (by omega),
    bigSep_lt_push Φ (4 * g - 2 + 1) (by omega), bigSep_lt_push Φ (4 * g - 2) (by omega)]

set_option maxHeartbeats 2000000 in
set_option maxRecDepth 65536 in
theorem region_mid (hpre : PreOK m) (O : CellTallies nD τ sig (HIx 1)) (W : Waits sig (HIx 1)) (g : Fin k0_t1_loop.trips) (hg1 : 1 ≤ g.val) (hg2 : g.val < 49) :
    (Iout m d L O W g.val ⟨⟩ : sProp 𝕄)
      ⊢ wp frame (wpE (defs₀ (F := F)) 𝒱₀ thr none) Set.univ
          (k0_t1_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177 g ())
          fun _ => Iout m d L O W (g.val + 1) ⟨⟩ := by
  rw [k0_t1_body]
  have k0_h1 : geq2 (lword g 0#32) = 1#1 := geq2_0 g hg1
  have k0_h2 : k0_cond2 g = 1#1 := cond2_mid g hg2
  have k0_h3 : geq2 (lword g 1#32) = 1#1 := geq2_1 g hg1
  have k0_h4 : k0_cond4 g = 1#1 := cond4_mid g hg2
  have k0_h5 : geq2 (lword g 2#32) = 1#1 := geq2_2 g
  have k0_h6 : k0_cond6 g = 1#1 := cond6_mid g hg2
  have k0_h7 : geq2 (lword g 3#32) = 1#1 := geq2_3 g
  have k0_h8 : k0_cond8 g = 1#1 := cond8_mid g hg2
  have hin : ∀ (off : Fin 2 → Nat) (h : ∀ a, off a + S1x128.size a ≤ S200x128.size a) (hh) (x : S128.Idx),
      ((((a6).slice (Rect.unit (s := S200x128) off S1x128.size h) hh).squeeze S128 squeezes_S1x128_S128).view.read (Elt F) (Cidx m d L) x).toNat
        < S100000x128.size gathers_S100000x128_S128x128.axis := hin_of_pre m d L hpre

  unfold Iout
  iintro ⟨Hmw, H7, P0, P1, P2, P3, S0, S1, Hdone, Htodo, %W', %hW', HO⟩
  ihave P0' := (Entails.of_eq ((PG_flight m d L slotG0 cc0_scratch4.sem (shareDrop fullShare 4) 0 g.val (by omega)).trans (FlG_def m d L _ _ _ _ _))) $$ P0
  icases P0' with ⟨%off0, %hoff0, %fd0, ⟨F0, R0⟩, %eoff0, %hfd0⟩
  ihave P1' := (Entails.of_eq ((PG_flight m d L slotG1 cc0_scratch5.sem (shareTok fullShare 4 0) 1 g.val (by omega)).trans (FlG_def m d L _ _ _ _ _))) $$ P1
  icases P1' with ⟨%off1, %hoff1, %fd1, ⟨F1, R1⟩, %eoff1, %hfd1⟩
  ihave P2' := (Entails.of_eq ((PG_flight m d L slotG2 cc0_scratch6.sem (shareTok fullShare 4 1) 2 g.val (by omega)).trans (FlG_def m d L _ _ _ _ _))) $$ P2
  icases P2' with ⟨%off2, %hoff2, %fd2, ⟨F2, R2⟩, %eoff2, %hfd2⟩
  ihave P3' := (Entails.of_eq ((PG_flight m d L slotG3 cc0_scratch7.sem (shareTok fullShare 4 2) 3 g.val (by omega)).trans (FlG_def m d L _ _ _ _ _))) $$ P3
  icases P3' with ⟨%off3, %hoff3, %fd3, ⟨F3, R3⟩, %eoff3, %hfd3⟩
  ihave S0' := (Entails.of_eq ((PS_flight m d L slotT0 cc0_scratch8.sem 0 g.val (by omega)).trans (FlS_def m d L _ _ _))) $$ S0
  icases S0' with ⟨%soff0, %shoff0, %fS0, %RT0, %esoff0, %hfS0, FS0⟩
  ihave S1' := (Entails.of_eq ((PS_flight m d L slotT1 cc0_scratch9.sem 1 g.val (by omega)).trans (FlS_def m d L _ _ _))) $$ S1
  icases S1' with ⟨%soff1, %shoff1, %fS1, %RT1, %esoff1, %hfS1, FS1⟩

  sl_exec
  -- quarter 0: the landed ring slot 0, the staging slot 0
  icases F0_dst with ⟨HG0, Hrow0⟩
  irename FS0_dst => D0
  sl_for (Iin m d L slotG0 slotT0 O W fd0 0#32 (Scalar.divsi (lword g 0#32) 2#32) (w_lt_0 g) o_le_0) $$ [Hmw H7 HG0 FS0_src HO]
  case region =>
    intro k hk
    exact inner0 m d L O W g fd0 k hk
  · unfold Iin
    isplitl [Hmw]; · iexact Hmw
    isplitl [H7]; · iexact H7
    isplitl [HG0]; · iexact HG0
    isplitl [FS0_src]
    · iexists _
      isplitr
      rotate_left
      · iexact FS0_src
      · ipureintro; exact Cert.LanesK.AccTo_zero ▸ Cert.LanesK.goodM_empty slotT0 _ _
    iexists _
    isplitr
    rotate_left
    · iexact HO
    · ipureintro; exact waits_ok_insert _ (waits_ok_insert _ hW')
  iintro %_ HI
  unfold Iin
  icases HI with ⟨Hmw, H7, HG0, ⟨%RT0', %hRT0, HT0⟩, %Wr0, %hWr0, HO⟩
  have hT0 : ∀ p, View.readAt (Elt F) slotT0.view (LoadRect.whole S64x128) RT0' p
      = Cert.LanesK.Tslot (View.readAt (Elt F) slotG0.view (LoadRect.whole S128x128) fd0) (PposV m d L) 0#32 (Scalar.divsi (lword g 0#32) 2#32) (w_lt_0 g) o_le_0 p :=
    fun p => hRT0 p (by rw [trips_t2, Cert.LanesK.AccTo_full]; trivial)
  -- the row goes back to its share of the index scratch; slab 4 g + 0 in the program's spelling; the table's token whole
  ihave H6w0 := (pointsTo_split_subset (Finset.subset_univ (rowSetAt d L off0 hoff0))).2 $$ [Hrow0 R0]
  · isplitl [Hrow0]; · iexact Hrow0
    iexact R0
  ihave T0 := (Entails.of_eq ((todoS_def m d L g.val).trans (bigSep_ge_pop (fun l => slabPt d L l (m (v3Loc d))) (4 * g.val) (by omega)))) $$ Htodo
  icases T0 with ⟨Sl0, Htodo⟩
  have es0 : (slabPt d L ⟨4 * g.val, by omega⟩ (m (v3Loc d)) : sProp 𝕄)
      = ((slabAt (k0_off2 L g 0#32) (k0_off2_inb L g 0)).view.loc thr ↦[(slabAt (k0_off2 L g 0#32) (k0_off2_inb L g 0)).view.set]{fullShare} m (v3Loc d)) :=
    (slab_pts_off2 d L g 0 fullShare (m (v3Loc d))).symm
  ihave Sl0' := (Entails.of_eq es0) $$ Sl0
  ihave H3w0 := (Entails.of_eq (a3s_pts d L (shareTok (qT (cL L) (sL L)) 4 0) (V1 m d))) $$ F0_src
  sl_exec
  -- quarter 1: the landed ring slot 1, the staging slot 1
  icases F1_dst with ⟨HG1, Hrow1⟩
  irename FS1_dst => D1
  sl_for (Iin m d L slotG1 slotT1 O W fd1 64#32 (Scalar.divsi (lword g 1#32) 2#32) (w_lt_1 g) o_le_64) $$ [Hmw H7 HG1 FS1_src HO]
  case region =>
    intro k hk
    exact inner1 m d L O W g _ _ _ fd1 k hk
  · unfold Iin
    isplitl [Hmw]; · iexact Hmw
    isplitl [H7]; · iexact H7
    isplitl [HG1]; · iexact HG1
    isplitl [FS1_src]
    · iexists _
      isplitr
      rotate_left
      · iexact FS1_src
      · ipureintro; exact Cert.LanesK.AccTo_zero ▸ Cert.LanesK.goodM_empty slotT1 _ _
    iexists _
    isplitr
    rotate_left
    · iexact HO
    · ipureintro; exact waits_ok_insert _ (waits_ok_insert _ hWr0)
  iintro %_ HI
  unfold Iin
  icases HI with ⟨Hmw, H7, HG1, ⟨%RT1', %hRT1, HT1⟩, %Wr1, %hWr1, HO⟩
  have hT1 : ∀ p, View.readAt (Elt F) slotT1.view (LoadRect.whole S64x128) RT1' p
      = Cert.LanesK.Tslot (View.readAt (Elt F) slotG1.view (LoadRect.whole S128x128) fd1) (PposV m d L) 64#32 (Scalar.divsi (lword g 1#32) 2#32) (w_lt_1 g) o_le_64 p :=
    fun p => hRT1 p (by rw [trips_t3, Cert.LanesK.AccTo_full]; trivial)
  -- the row goes back to its share of the index scratch; slab 4 g + 1 in the program's spelling; the table's token whole
  ihave H6w1 := (pointsTo_split_subset (Finset.subset_univ (rowSetAt d L off1 hoff1))).2 $$ [Hrow1 R1]
  · isplitl [Hrow1]; · iexact Hrow1
    iexact R1
  ihave T1 := (Entails.of_eq ((bigSep_ge_pop (fun l => slabPt d L l (m (v3Loc d))) (4 * g.val + 1) (by omega)))) $$ Htodo
  icases T1 with ⟨Sl1, Htodo⟩
  have es1 : (slabPt d L ⟨4 * g.val + 1, by omega⟩ (m (v3Loc d)) : sProp 𝕄)
      = ((slabAt (k0_off2 L g 1#32) (k0_off2_inb L g 1)).view.loc thr ↦[(slabAt (k0_off2 L g 1#32) (k0_off2_inb L g 1)).view.set]{fullShare} m (v3Loc d)) :=
    (slab_pts_off2 d L g 1 fullShare (m (v3Loc d))).symm
  ihave Sl1' := (Entails.of_eq es1) $$ Sl1
  ihave H3w1 := (Entails.of_eq (a3s_pts d L (shareTok (qT (cL L) (sL L)) 4 1) (V1 m d))) $$ F1_src
  sl_exec
  -- quarter 2: the landed ring slot 2, the staging slot 0
  icases F2_dst with ⟨HG2, Hrow2⟩
  sl_for (Iin m d L slotG2 slotT0 O W fd2 0#32 (Scalar.divsi (lword g 2#32) 2#32) (w_lt_2 g) o_le_0) $$ [Hmw H7 HG2 HT0 HO]
  case region =>
    intro k hk
    exact inner2 m d L O W g _ _ fd2 k hk
  · unfold Iin
    isplitl [Hmw]; · iexact Hmw
    isplitl [H7]; · iexact H7
    isplitl [HG2]; · iexact HG2
    isplitl [HT0]
    · iexists _
      isplitr
      rotate_left
      · iexact HT0
      · ipureintro; exact Cert.LanesK.AccTo_zero ▸ Cert.LanesK.goodM_empty slotT0 _ _
    iexists _
    isplitr
    rotate_left
    · iexact HO
    · ipureintro; exact waits_ok_insert _ (waits_ok_insert _ hWr1)
  iintro %_ HI
  unfold Iin
  icases HI with ⟨Hmw, H7, HG2, ⟨%RT2', %hRT2, HT2⟩, %Wr2, %hWr2, HO⟩
  have hT2 : ∀ p, View.readAt (Elt F) slotT0.view (LoadRect.whole S64x128) RT2' p
      = Cert.LanesK.Tslot (View.readAt (Elt F) slotG2.view (LoadRect.whole S128x128) fd2) (PposV m d L) 0#32 (Scalar.divsi (lword g 2#32) 2#32) (w_lt_2 g) o_le_0 p :=
    fun p => hRT2 p (by rw [trips_t4, Cert.LanesK.AccTo_full]; trivial)
  -- the row goes back to its share of the index scratch; slab 4 g + 2 in the program's spelling; the table's token whole
  ihave H6w2 := (pointsTo_split_subset (Finset.subset_univ (rowSetAt d L off2 hoff2))).2 $$ [Hrow2 R2]
  · isplitl [Hrow2]; · iexact Hrow2
    iexact R2
  ihave T2 := (Entails.of_eq ((bigSep_ge_pop (fun l => slabPt d L l (m (v3Loc d))) (4 * g.val + 1 + 1) (by omega)))) $$ Htodo
  icases T2 with ⟨Sl2, Htodo⟩
  have es2 : (slabPt d L ⟨4 * g.val + 1 + 1, by omega⟩ (m (v3Loc d)) : sProp 𝕄)
      = ((slabAt (k0_off2 L g 2#32) (k0_off2_inb L g 2)).view.loc thr ↦[(slabAt (k0_off2 L g 2#32) (k0_off2_inb L g 2)).view.set]{fullShare} m (v3Loc d)) :=
    (slab_pts_off2 d L g 2 fullShare (m (v3Loc d))).symm
  ihave Sl2' := (Entails.of_eq es2) $$ Sl2
  ihave H3w2 := (Entails.of_eq (a3s_pts d L (shareTok (qT (cL L) (sL L)) 4 2) (V1 m d))) $$ F2_src
  sl_exec
  -- quarter 3: the landed ring slot 3, the staging slot 1
  icases F3_dst with ⟨HG3, Hrow3⟩
  sl_for (Iin m d L slotG3 slotT1 O W fd3 64#32 (Scalar.divsi (lword g 3#32) 2#32) (w_lt_3 g) o_le_64) $$ [Hmw H7 HG3 HT1 HO]
  case region =>
    intro k hk
    exact inner3 m d L O W g fd3 k hk
  · unfold Iin
    isplitl [Hmw]; · iexact Hmw
    isplitl [H7]; · iexact H7
    isplitl [HG3]; · iexact HG3
    isplitl [HT1]
    · iexists _
      isplitr
      rotate_left
      · iexact HT1
      · ipureintro; exact Cert.LanesK.AccTo_zero ▸ Cert.LanesK.goodM_empty slotT1 _ _
    iexists _
    isplitr
    rotate_left
    · iexact HO
    · ipureintro; exact waits_ok_insert _ (waits_ok_insert _ hWr2)
  iintro %_ HI
  unfold Iin
  icases HI with ⟨Hmw, H7, HG3, ⟨%RT3', %hRT3, HT3⟩, %Wr3, %hWr3, HO⟩
  have hT3 : ∀ p, View.readAt (Elt F) slotT1.view (LoadRect.whole S64x128) RT3' p
      = Cert.LanesK.Tslot (View.readAt (Elt F) slotG3.view (LoadRect.whole S128x128) fd3) (PposV m d L) 64#32 (Scalar.divsi (lword g 3#32) 2#32) (w_lt_3 g) o_le_64 p :=
    fun p => hRT3 p (by rw [trips_t5, Cert.LanesK.AccTo_full]; trivial)
  -- the row goes back to its share of the index scratch; slab 4 g + 3 in the program's spelling; the table's token whole
  ihave H6w3 := (pointsTo_split_subset (Finset.subset_univ (rowSetAt d L off3 hoff3))).2 $$ [Hrow3 R3]
  · isplitl [Hrow3]; · iexact Hrow3
    iexact R3
  ihave T3 := (Entails.of_eq ((bigSep_ge_pop (fun l => slabPt d L l (m (v3Loc d))) (4 * g.val + 1 + 1 + 1) (by omega)))) $$ Htodo
  icases T3 with ⟨Sl3, Htodo⟩
  have es3 : (slabPt d L ⟨4 * g.val + 1 + 1 + 1, by omega⟩ (m (v3Loc d)) : sProp 𝕄)
      = ((slabAt (k0_off2 L g 3#32) (k0_off2_inb L g 3)).view.loc thr ↦[(slabAt (k0_off2 L g 3#32) (k0_off2_inb L g 3)).view.set]{fullShare} m (v3Loc d)) :=
    (slab_pts_off2 d L g 3 fullShare (m (v3Loc d))).symm
  ihave Sl3' := (Entails.of_eq es3) $$ Sl3
  ihave H3w3 := (Entails.of_eq (a3s_pts d L (shareTok (qT (cL L) (sL L)) 4 3) (V1 m d))) $$ F3_src
  sl_exec
  sl_step
  isplitl [Hmw]; · iexact Hmw
  isplitl [H7]; · iexact H7
  isplitl [F0 H6w0]
  · iapply (Entails.of_eq (PG_flight m d L slotG0 cc0_scratch4.sem (shareDrop fullShare 4) 0 (g.val + 1) (by omega)).symm)
    unfold FlG
    iexists (k0_off3 g), (k0_off3_inb g k0_h2), _
    isplitl [F0 H6w0]
    · isplitl [F0]; · iexact F0
      iexact H6w0
    isplitr; · ipureintro; exact (k0_off3_eq g).trans (congrArg (fun x => (![x, 0] : Fin 2 → ℕ)) (by simp; omega))
    ipureintro
    exact goodG_gather m d L slotG0 fd0 (4 * (g.val + 1) + ((0 : Fin 4) : ℕ)) (by simp; omega) (k0_off3 g) (k0_off3_inb g k0_h2)
      ((k0_off3_eq g).trans (congrArg (fun x => (![x, 0] : Fin 2 → ℕ)) (by simp; omega))) rfl (fun x => hin _ _ _ x)
  isplitl [F1 H6w1]
  · iapply (Entails.of_eq (PG_flight m d L slotG1 cc0_scratch5.sem (shareTok fullShare 4 0) 1 (g.val + 1) (by omega)).symm)
    unfold FlG
    iexists (k0_off4 g), (k0_off4_inb g k0_h4), _
    isplitl [F1 H6w1]
    · isplitl [F1]; · iexact F1
      iexact H6w1
    isplitr; · ipureintro; exact (k0_off4_eq g).trans (congrArg (fun x => (![x, 0] : Fin 2 → ℕ)) (by simp; omega))
    ipureintro
    exact goodG_gather m d L slotG1 fd1 (4 * (g.val + 1) + ((1 : Fin 4) : ℕ)) (by simp; omega) (k0_off4 g) (k0_off4_inb g k0_h4)
      ((k0_off4_eq g).trans (congrArg (fun x => (![x, 0] : Fin 2 → ℕ)) (by simp; omega))) rfl (fun x => hin _ _ _ x)
  isplitl [F2 H6w2]
  · iapply (Entails.of_eq (PG_flight m d L slotG2 cc0_scratch6.sem (shareTok fullShare 4 1) 2 (g.val + 1) (by omega)).symm)
    unfold FlG
    iexists (k0_off5 g), (k0_off5_inb g k0_h6), _
    isplitl [F2 H6w2]
    · isplitl [F2]; · iexact F2
      iexact H6w2
    isplitr; · ipureintro; exact (k0_off5_eq g).trans (congrArg (fun x => (![x, 0] : Fin 2 → ℕ)) (by simp; omega))
    ipureintro
    exact goodG_gather m d L slotG2 fd2 (4 * (g.val + 1) + ((2 : Fin 4) : ℕ)) (by simp; omega) (k0_off5 g) (k0_off5_inb g k0_h6)
      ((k0_off5_eq g).trans (congrArg (fun x => (![x, 0] : Fin 2 → ℕ)) (by simp; omega))) rfl (fun x => hin _ _ _ x)
  isplitl [F3 H6w3]
  · iapply (Entails.of_eq (PG_flight m d L slotG3 cc0_scratch7.sem (shareTok fullShare 4 2) 3 (g.val + 1) (by omega)).symm)
    unfold FlG
    iexists (k0_off6 g), (k0_off6_inb g k0_h8), _
    isplitl [F3 H6w3]
    · isplitl [F3]; · iexact F3
      iexact H6w3
    isplitr; · ipureintro; exact (k0_off6_eq g).trans (congrArg (fun x => (![x, 0] : Fin 2 → ℕ)) (by simp; omega))
    ipureintro
    exact goodG_gather m d L slotG3 fd3 (4 * (g.val + 1) + ((3 : Fin 4) : ℕ)) (by simp; omega) (k0_off6 g) (k0_off6_inb g k0_h8)
      ((k0_off6_eq g).trans (congrArg (fun x => (![x, 0] : Fin 2 → ℕ)) (by simp; omega))) rfl (fun x => hin _ _ _ x)
  isplitl [FS0]
  · iapply (Entails.of_eq (PS_flight m d L slotT0 cc0_scratch8.sem 0 (g.val + 1) (by omega)).symm)
    unfold FlS
    iexists (k0_off2 L g 2#32), (k0_off2_inb L g 2), _, _
    isplitr; · ipureintro; exact (slab_off2 L g 2).trans (congrArg (offS L) (by simp [lOf]; omega))
    isplitr
    rotate_left
    · iexact FS0
    · ipureintro
      unfold region_mid.sl.dma0_2
      exact slab_out3 m d L slotT0 slotG2 (4 * g.val + ((2 : Fin 4) : ℕ)) (by simp; omega) (k0_off2 L g 2#32) (k0_off2_inb L g 2) (slab_off2 L g 2) fd2 hfd2 RT2' 0#32 (Scalar.divsi (lword g 2#32) 2#32) (w_lt_2 g) o_le_0 (w_val_2 g) (o_val_2 g) hT2 (m (v3Loc d))
  isplitl [FS1]
  · iapply (Entails.of_eq (PS_flight m d L slotT1 cc0_scratch9.sem 1 (g.val + 1) (by omega)).symm)
    unfold FlS
    iexists (k0_off2 L g 3#32), (k0_off2_inb L g 3), _, _
    isplitr; · ipureintro; exact (slab_off2 L g 3).trans (congrArg (offS L) (by simp [lOf]; omega))
    isplitr
    rotate_left
    · iexact FS1
    · ipureintro
      unfold region_mid.sl.dma0_3
      exact slab_out3 m d L slotT1 slotG3 (4 * g.val + ((3 : Fin 4) : ℕ)) (by simp; omega) (k0_off2 L g 3#32) (k0_off2_inb L g 3) (slab_off2 L g 3) fd3 hfd3 RT3' 64#32 (Scalar.divsi (lword g 3#32) 2#32) (w_lt_3 g) o_le_64 (w_val_3 g) (o_val_3 g) hT3 (m (v3Loc d))
  isplitl [Hdone D0 D1 Sl0' Sl1']
  · -- the four slabs written since the head of the trip agree with the result function on their elements
    have hSl0 : ∀ i ∈ slabSetAt d L (k0_off2 L g 0#32) (k0_off2_inb L g 0),
        ((slabAt (k0_off2 L g 0#32) (k0_off2_inb L g 0)).view.writes (Elt F) (slabAt (k0_off2 L g 0#32) (k0_off2_inb L g 0)).view.junk [⟨Rect.whole S64x128, region_mid.sl.dma0 RT0'⟩]) i = Out3 m d i := by
      unfold region_mid.sl.dma0
      exact slab_out3 m d L slotT0 slotG0 (4 * g.val + ((0 : Fin 4) : ℕ)) (by simp; omega) (k0_off2 L g 0#32) (k0_off2_inb L g 0) (slab_off2 L g 0) fd0 hfd0 RT0' 0#32 (Scalar.divsi (lword g 0#32) 2#32) (w_lt_0 g) o_le_0 (w_val_0 g) (o_val_0 g) hT0 _
    have hSl1 : ∀ i ∈ slabSetAt d L (k0_off2 L g 1#32) (k0_off2_inb L g 1),
        ((slabAt (k0_off2 L g 1#32) (k0_off2_inb L g 1)).view.writes (Elt F) (slabAt (k0_off2 L g 1#32) (k0_off2_inb L g 1)).view.junk [⟨Rect.whole S64x128, region_mid.sl.dma0_1 RT1'⟩]) i = Out3 m d i := by
      unfold region_mid.sl.dma0_1
      exact slab_out3 m d L slotT1 slotG1 (4 * g.val + ((1 : Fin 4) : ℕ)) (by simp; omega) (k0_off2 L g 1#32) (k0_off2_inb L g 1) (slab_off2 L g 1) fd1 hfd1 RT1' 64#32 (Scalar.divsi (lword g 1#32) 2#32) (w_lt_1 g) o_le_64 (w_val_1 g) (o_val_1 g) hT1 _
    subst esoff0 esoff1
    iapply (Entails.of_eq ((doneS_def m d L (g.val + 1)).trans (done_push4 (fun l => slabPt d L l (Out3 m d)) g.val hg1 (by omega))).symm)
    isplitl [Sl1']
    · ihave A := (Entails.of_eq (pointsTo_congr hSl1)) $$ Sl1'
      have eB : ((slabAt (k0_off2 L g 1#32) (k0_off2_inb L g 1)).view.loc thr ↦[(slabAt (k0_off2 L g 1#32) (k0_off2_inb L g 1)).view.set]{fullShare} Out3 m d : sProp 𝕄)
          = slabPt d L (lOf g 1) (Out3 m d) := slab_pts_off2 d L g 1 fullShare (Out3 m d)
      ihave B := (Entails.of_eq eB) $$ A
      iapply (Entails.of_eq (congrArg (fun l => slabPt d L l (Out3 m d)) (Fin.ext (by simp [lOf] <;> omega) : (⟨4 * g.val - 2 + 1 + 1 + 1, _⟩ : Fin 200) = lOf g 1)).symm)
      iexact B
    isplitl [Sl0']
    · ihave A := (Entails.of_eq (pointsTo_congr hSl0)) $$ Sl0'
      have eB : ((slabAt (k0_off2 L g 0#32) (k0_off2_inb L g 0)).view.loc thr ↦[(slabAt (k0_off2 L g 0#32) (k0_off2_inb L g 0)).view.set]{fullShare} Out3 m d : sProp 𝕄)
          = slabPt d L (lOf g 0) (Out3 m d) := slab_pts_off2 d L g 0 fullShare (Out3 m d)
      ihave B := (Entails.of_eq eB) $$ A
      iapply (Entails.of_eq (congrArg (fun l => slabPt d L l (Out3 m d)) (Fin.ext (by simp [lOf] <;> omega) : (⟨4 * g.val - 2 + 1 + 1, _⟩ : Fin 200) = lOf g 0)).symm)
      iexact B
    isplitl [D1]
    · ihave A := (Entails.of_eq (pointsTo_congr hfS1)) $$ D1
      iexact A
    isplitl [D0]
    · ihave A := (Entails.of_eq (pointsTo_congr hfS0)) $$ D0
      iexact A
    iapply (Entails.of_eq (doneS_def m d L g.val))
    iexact Hdone
  isplitl [Htodo]
  · have etodo : bigSep (Finset.univ.filter fun l : Fin 200 => 4 * g.val + 1 + 1 + 1 + 1 ≤ l.val) (fun l => slabPt d L l (m (v3Loc d)))
        = todoS m d L (g.val + 1) := by
      unfold todoS
      rw [Finset.filter_congr (fun l _ => (by omega : (4 * g.val + 1 + 1 + 1 + 1 ≤ l.val) ↔ (4 * (g.val + 1) ≤ l.val)))]
    iapply (Entails.of_eq etodo)
    iexact Htodo
  iexists _
  isplitr
  rotate_left
  · iexact HO
  · ipureintro; exact hWr3

set_option maxHeartbeats 2000000 in
set_option maxRecDepth 65536 in
theorem region_first (hpre : PreOK m) (O : CellTallies nD τ sig (HIx 1)) (W : Waits sig (HIx 1)) (g : Fin k0_t1_loop.trips) (hg : g.val = 0) :
    (Iout m d L O W g.val ⟨⟩ : sProp 𝕄)
      ⊢ wp frame (wpE (defs₀ (F := F)) 𝒱₀ thr none) Set.univ
          (k0_t1_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177 g ())
          fun _ => Iout m d L O W (g.val + 1) ⟨⟩ := by
  rw [k0_t1_body]
  have hg2 : g.val < 49 := by omega
  have k0_h1 : ¬ geq2 (lword g 0#32) = 1#1 := ngeq2_0 g hg
  have k0_h2 : k0_cond2 g = 1#1 := cond2_mid g hg2
  have k0_h3 : ¬ geq2 (lword g 1#32) = 1#1 := ngeq2_1 g hg
  have k0_h4 : k0_cond4 g = 1#1 := cond4_mid g hg2
  have k0_h5 : geq2 (lword g 2#32) = 1#1 := geq2_2 g
  have k0_h6 : k0_cond6 g = 1#1 := cond6_mid g hg2
  have k0_h7 : geq2 (lword g 3#32) = 1#1 := geq2_3 g
  have k0_h8 : k0_cond8 g = 1#1 := cond8_mid g hg2
  have hin : ∀ (off : Fin 2 → Nat) (h : ∀ a, off a + S1x128.size a ≤ S200x128.size a) (hh) (x : S128.Idx),
      ((((a6).slice (Rect.unit (s := S200x128) off S1x128.size h) hh).squeeze S128 squeezes_S1x128_S128).view.read (Elt F) (Cidx m d L) x).toNat
        < S100000x128.size gathers_S100000x128_S128x128.axis := hin_of_pre m d L hpre

  unfold Iout
  iintro ⟨Hmw, H7, P0, P1, P2, P3, S0, S1, Hdone, Htodo, %W', %hW', HO⟩
  ihave P0' := (Entails.of_eq ((PG_flight m d L slotG0 cc0_scratch4.sem (shareDrop fullShare 4) 0 g.val (by omega)).trans (FlG_def m d L _ _ _ _ _))) $$ P0
  icases P0' with ⟨%off0, %hoff0, %fd0, ⟨F0, R0⟩, %eoff0, %hfd0⟩
  ihave P1' := (Entails.of_eq ((PG_flight m d L slotG1 cc0_scratch5.sem (shareTok fullShare 4 0) 1 g.val (by omega)).trans (FlG_def m d L _ _ _ _ _))) $$ P1
  icases P1' with ⟨%off1, %hoff1, %fd1, ⟨F1, R1⟩, %eoff1, %hfd1⟩
  ihave P2' := (Entails.of_eq ((PG_flight m d L slotG2 cc0_scratch6.sem (shareTok fullShare 4 1) 2 g.val (by omega)).trans (FlG_def m d L _ _ _ _ _))) $$ P2
  icases P2' with ⟨%off2, %hoff2, %fd2, ⟨F2, R2⟩, %eoff2, %hfd2⟩
  ihave P3' := (Entails.of_eq ((PG_flight m d L slotG3 cc0_scratch7.sem (shareTok fullShare 4 2) 3 g.val (by omega)).trans (FlG_def m d L _ _ _ _ _))) $$ P3
  icases P3' with ⟨%off3, %hoff3, %fd3, ⟨F3, R3⟩, %eoff3, %hfd3⟩
  have ePS0 : PS m d L slotT0 cc0_scratch8.sem 0 g.val
      = iprop((∃ f, slotT0.view.loc thr ↦[slotT0.view.set]{fullShare} f) ∗ semVal (thr, SemLoc.dma cc0_scratch8.sem) 0) := by
    rw [hg]; exact PS_idle m d L slotT0 cc0_scratch8.sem 0
  ihave S0' := (Entails.of_eq ePS0) $$ S0
  icases S0' with ⟨⟨%RT0, HT0⟩, FS0⟩
  have ePS1 : PS m d L slotT1 cc0_scratch9.sem 1 g.val
      = iprop((∃ f, slotT1.view.loc thr ↦[slotT1.view.set]{fullShare} f) ∗ semVal (thr, SemLoc.dma cc0_scratch9.sem) 0) := by
    rw [hg]; exact PS_idle m d L slotT1 cc0_scratch9.sem 1
  ihave S1' := (Entails.of_eq ePS1) $$ S1
  icases S1' with ⟨⟨%RT1, HT1⟩, FS1⟩

  sl_exec
  -- quarter 0: the landed ring slot 0, the staging slot 0
  icases F0_dst with ⟨HG0, Hrow0⟩
  sl_for (Iin m d L slotG0 slotT0 O W fd0 0#32 (Scalar.divsi (lword g 0#32) 2#32) (w_lt_0 g) o_le_0) $$ [Hmw H7 HG0 HT0 HO]
  case region =>
    intro k hk
    exact inner0 m d L O W g fd0 k hk
  · unfold Iin
    isplitl [Hmw]; · iexact Hmw
    isplitl [H7]; · iexact H7
    isplitl [HG0]; · iexact HG0
    isplitl [HT0]
    · iexists _
      isplitr
      rotate_left
      · iexact HT0
      · ipureintro; exact Cert.LanesK.AccTo_zero ▸ Cert.LanesK.goodM_empty slotT0 _ _
    iexists _
    isplitr
    rotate_left
    · iexact HO
    · ipureintro; exact waits_ok_insert _ hW'
  iintro %_ HI
  unfold Iin
  icases HI with ⟨Hmw, H7, HG0, ⟨%RT0', %hRT0, HT0⟩, %Wr0, %hWr0, HO⟩
  have hT0 : ∀ p, View.readAt (Elt F) slotT0.view (LoadRect.whole S64x128) RT0' p
      = Cert.LanesK.Tslot (View.readAt (Elt F) slotG0.view (LoadRect.whole S128x128) fd0) (PposV m d L) 0#32 (Scalar.divsi (lword g 0#32) 2#32) (w_lt_0 g) o_le_0 p :=
    fun p => hRT0 p (by rw [trips_t2, Cert.LanesK.AccTo_full]; trivial)
  -- the row goes back to its share of the index scratch; slab 4 g + 0 in the program's spelling; the table's token whole
  ihave H6w0 := (pointsTo_split_subset (Finset.subset_univ (rowSetAt d L off0 hoff0))).2 $$ [Hrow0 R0]
  · isplitl [Hrow0]; · iexact Hrow0
    iexact R0
  ihave T0 := (Entails.of_eq ((todoS_def m d L g.val).trans (bigSep_ge_pop (fun l => slabPt d L l (m (v3Loc d))) (4 * g.val) (by omega)))) $$ Htodo
  icases T0 with ⟨Sl0, Htodo⟩
  have es0 : (slabPt d L ⟨4 * g.val, by omega⟩ (m (v3Loc d)) : sProp 𝕄)
      = ((slabAt (k0_off2 L g 0#32) (k0_off2_inb L g 0)).view.loc thr ↦[(slabAt (k0_off2 L g 0#32) (k0_off2_inb L g 0)).view.set]{fullShare} m (v3Loc d)) :=
    (slab_pts_off2 d L g 0 fullShare (m (v3Loc d))).symm
  ihave Sl0' := (Entails.of_eq es0) $$ Sl0
  ihave H3w0 := (Entails.of_eq (a3s_pts d L (shareTok (qT (cL L) (sL L)) 4 0) (V1 m d))) $$ F0_src
  sl_exec
  -- quarter 1: the landed ring slot 1, the staging slot 1
  icases F1_dst with ⟨HG1, Hrow1⟩
  sl_for (Iin m d L slotG1 slotT1 O W fd1 64#32 (Scalar.divsi (lword g 1#32) 2#32) (w_lt_1 g) o_le_64) $$ [Hmw H7 HG1 HT1 HO]
  case region =>
    intro k hk
    exact inner1 m d L O W g _ _ _ fd1 k hk
  · unfold Iin
    isplitl [Hmw]; · iexact Hmw
    isplitl [H7]; · iexact H7
    isplitl [HG1]; · iexact HG1
    isplitl [HT1]
    · iexists _
      isplitr
      rotate_left
      · iexact HT1
      · ipureintro; exact Cert.LanesK.AccTo_zero ▸ Cert.LanesK.goodM_empty slotT1 _ _
    iexists _
    isplitr
    rotate_left
    · iexact HO
    · ipureintro; exact waits_ok_insert _ hWr0
  iintro %_ HI
  unfold Iin
  icases HI with ⟨Hmw, H7, HG1, ⟨%RT1', %hRT1, HT1⟩, %Wr1, %hWr1, HO⟩
  have hT1 : ∀ p, View.readAt (Elt F) slotT1.view (LoadRect.whole S64x128) RT1' p
      = Cert.LanesK.Tslot (View.readAt (Elt F) slotG1.view (LoadRect.whole S128x128) fd1) (PposV m d L) 64#32 (Scalar.divsi (lword g 1#32) 2#32) (w_lt_1 g) o_le_64 p :=
    fun p => hRT1 p (by rw [trips_t3, Cert.LanesK.AccTo_full]; trivial)
  -- the row goes back to its share of the index scratch; slab 4 g + 1 in the program's spelling; the table's token whole
  ihave H6w1 := (pointsTo_split_subset (Finset.subset_univ (rowSetAt d L off1 hoff1))).2 $$ [Hrow1 R1]
  · isplitl [Hrow1]; · iexact Hrow1
    iexact R1
  ihave T1 := (Entails.of_eq ((bigSep_ge_pop (fun l => slabPt d L l (m (v3Loc d))) (4 * g.val + 1) (by omega)))) $$ Htodo
  icases T1 with ⟨Sl1, Htodo⟩
  have es1 : (slabPt d L ⟨4 * g.val + 1, by omega⟩ (m (v3Loc d)) : sProp 𝕄)
      = ((slabAt (k0_off2 L g 1#32) (k0_off2_inb L g 1)).view.loc thr ↦[(slabAt (k0_off2 L g 1#32) (k0_off2_inb L g 1)).view.set]{fullShare} m (v3Loc d)) :=
    (slab_pts_off2 d L g 1 fullShare (m (v3Loc d))).symm
  ihave Sl1' := (Entails.of_eq es1) $$ Sl1
  ihave H3w1 := (Entails.of_eq (a3s_pts d L (shareTok (qT (cL L) (sL L)) 4 1) (V1 m d))) $$ F1_src
  sl_exec
  -- quarter 2: the landed ring slot 2, the staging slot 0
  icases F2_dst with ⟨HG2, Hrow2⟩
  sl_for (Iin m d L slotG2 slotT0 O W fd2 0#32 (Scalar.divsi (lword g 2#32) 2#32) (w_lt_2 g) o_le_0) $$ [Hmw H7 HG2 HT0 HO]
  case region =>
    intro k hk
    exact inner2 m d L O W g _ _ fd2 k hk
  · unfold Iin
    isplitl [Hmw]; · iexact Hmw
    isplitl [H7]; · iexact H7
    isplitl [HG2]; · iexact HG2
    isplitl [HT0]
    · iexists _
      isplitr
      rotate_left
      · iexact HT0
      · ipureintro; exact Cert.LanesK.AccTo_zero ▸ Cert.LanesK.goodM_empty slotT0 _ _
    iexists _
    isplitr
    rotate_left
    · iexact HO
    · ipureintro; exact waits_ok_insert _ (waits_ok_insert _ hWr1)
  iintro %_ HI
  unfold Iin
  icases HI with ⟨Hmw, H7, HG2, ⟨%RT2', %hRT2, HT2⟩, %Wr2, %hWr2, HO⟩
  have hT2 : ∀ p, View.readAt (Elt F) slotT0.view (LoadRect.whole S64x128) RT2' p
      = Cert.LanesK.Tslot (View.readAt (Elt F) slotG2.view (LoadRect.whole S128x128) fd2) (PposV m d L) 0#32 (Scalar.divsi (lword g 2#32) 2#32) (w_lt_2 g) o_le_0 p :=
    fun p => hRT2 p (by rw [trips_t4, Cert.LanesK.AccTo_full]; trivial)
  -- the row goes back to its share of the index scratch; slab 4 g + 2 in the program's spelling; the table's token whole
  ihave H6w2 := (pointsTo_split_subset (Finset.subset_univ (rowSetAt d L off2 hoff2))).2 $$ [Hrow2 R2]
  · isplitl [Hrow2]; · iexact Hrow2
    iexact R2
  ihave T2 := (Entails.of_eq ((bigSep_ge_pop (fun l => slabPt d L l (m (v3Loc d))) (4 * g.val + 1 + 1) (by omega)))) $$ Htodo
  icases T2 with ⟨Sl2, Htodo⟩
  have es2 : (slabPt d L ⟨4 * g.val + 1 + 1, by omega⟩ (m (v3Loc d)) : sProp 𝕄)
      = ((slabAt (k0_off2 L g 2#32) (k0_off2_inb L g 2)).view.loc thr ↦[(slabAt (k0_off2 L g 2#32) (k0_off2_inb L g 2)).view.set]{fullShare} m (v3Loc d)) :=
    (slab_pts_off2 d L g 2 fullShare (m (v3Loc d))).symm
  ihave Sl2' := (Entails.of_eq es2) $$ Sl2
  ihave H3w2 := (Entails.of_eq (a3s_pts d L (shareTok (qT (cL L) (sL L)) 4 2) (V1 m d))) $$ F2_src
  sl_exec
  -- quarter 3: the landed ring slot 3, the staging slot 1
  icases F3_dst with ⟨HG3, Hrow3⟩
  sl_for (Iin m d L slotG3 slotT1 O W fd3 64#32 (Scalar.divsi (lword g 3#32) 2#32) (w_lt_3 g) o_le_64) $$ [Hmw H7 HG3 HT1 HO]
  case region =>
    intro k hk
    exact inner3 m d L O W g fd3 k hk
  · unfold Iin
    isplitl [Hmw]; · iexact Hmw
    isplitl [H7]; · iexact H7
    isplitl [HG3]; · iexact HG3
    isplitl [HT1]
    · iexists _
      isplitr
      rotate_left
      · iexact HT1
      · ipureintro; exact Cert.LanesK.AccTo_zero ▸ Cert.LanesK.goodM_empty slotT1 _ _
    iexists _
    isplitr
    rotate_left
    · iexact HO
    · ipureintro; exact waits_ok_insert _ (waits_ok_insert _ hWr2)
  iintro %_ HI
  unfold Iin
  icases HI with ⟨Hmw, H7, HG3, ⟨%RT3', %hRT3, HT3⟩, %Wr3, %hWr3, HO⟩
  have hT3 : ∀ p, View.readAt (Elt F) slotT1.view (LoadRect.whole S64x128) RT3' p
      = Cert.LanesK.Tslot (View.readAt (Elt F) slotG3.view (LoadRect.whole S128x128) fd3) (PposV m d L) 64#32 (Scalar.divsi (lword g 3#32) 2#32) (w_lt_3 g) o_le_64 p :=
    fun p => hRT3 p (by rw [trips_t5, Cert.LanesK.AccTo_full]; trivial)
  -- the row goes back to its share of the index scratch; slab 4 g + 3 in the program's spelling; the table's token whole
  ihave H6w3 := (pointsTo_split_subset (Finset.subset_univ (rowSetAt d L off3 hoff3))).2 $$ [Hrow3 R3]
  · isplitl [Hrow3]; · iexact Hrow3
    iexact R3
  ihave T3 := (Entails.of_eq ((bigSep_ge_pop (fun l => slabPt d L l (m (v3Loc d))) (4 * g.val + 1 + 1 + 1) (by omega)))) $$ Htodo
  icases T3 with ⟨Sl3, Htodo⟩
  have es3 : (slabPt d L ⟨4 * g.val + 1 + 1 + 1, by omega⟩ (m (v3Loc d)) : sProp 𝕄)
      = ((slabAt (k0_off2 L g 3#32) (k0_off2_inb L g 3)).view.loc thr ↦[(slabAt (k0_off2 L g 3#32) (k0_off2_inb L g 3)).view.set]{fullShare} m (v3Loc d)) :=
    (slab_pts_off2 d L g 3 fullShare (m (v3Loc d))).symm
  ihave Sl3' := (Entails.of_eq es3) $$ Sl3
  ihave H3w3 := (Entails.of_eq (a3s_pts d L (shareTok (qT (cL L) (sL L)) 4 3) (V1 m d))) $$ F3_src
  sl_exec
  sl_step
  isplitl [Hmw]; · iexact Hmw
  isplitl [H7]; · iexact H7
  isplitl [F0 H6w0]
  · iapply (Entails.of_eq (PG_flight m d L slotG0 cc0_scratch4.sem (shareDrop fullShare 4) 0 (g.val + 1) (by omega)).symm)
    unfold FlG
    iexists (k0_off3 g), (k0_off3_inb g k0_h2), _
    isplitl [F0 H6w0]
    · isplitl [F0]; · iexact F0
      iexact H6w0
    isplitr; · ipureintro; exact (k0_off3_eq g).trans (congrArg (fun x => (![x, 0] : Fin 2 → ℕ)) (by simp; omega))
    ipureintro
    exact goodG_gather m d L slotG0 fd0 (4 * (g.val + 1) + ((0 : Fin 4) : ℕ)) (by simp; omega) (k0_off3 g) (k0_off3_inb g k0_h2)
      ((k0_off3_eq g).trans (congrArg (fun x => (![x, 0] : Fin 2 → ℕ)) (by simp; omega))) rfl (fun x => hin _ _ _ x)
  isplitl [F1 H6w1]
  · iapply (Entails.of_eq (PG_flight m d L slotG1 cc0_scratch5.sem (shareTok fullShare 4 0) 1 (g.val + 1) (by omega)).symm)
    unfold FlG
    iexists (k0_off4 g), (k0_off4_inb g k0_h4), _
    isplitl [F1 H6w1]
    · isplitl [F1]; · iexact F1
      iexact H6w1
    isplitr; · ipureintro; exact (k0_off4_eq g).trans (congrArg (fun x => (![x, 0] : Fin 2 → ℕ)) (by simp; omega))
    ipureintro
    exact goodG_gather m d L slotG1 fd1 (4 * (g.val + 1) + ((1 : Fin 4) : ℕ)) (by simp; omega) (k0_off4 g) (k0_off4_inb g k0_h4)
      ((k0_off4_eq g).trans (congrArg (fun x => (![x, 0] : Fin 2 → ℕ)) (by simp; omega))) rfl (fun x => hin _ _ _ x)
  isplitl [F2 H6w2]
  · iapply (Entails.of_eq (PG_flight m d L slotG2 cc0_scratch6.sem (shareTok fullShare 4 1) 2 (g.val + 1) (by omega)).symm)
    unfold FlG
    iexists (k0_off5 g), (k0_off5_inb g k0_h6), _
    isplitl [F2 H6w2]
    · isplitl [F2]; · iexact F2
      iexact H6w2
    isplitr; · ipureintro; exact (k0_off5_eq g).trans (congrArg (fun x => (![x, 0] : Fin 2 → ℕ)) (by simp; omega))
    ipureintro
    exact goodG_gather m d L slotG2 fd2 (4 * (g.val + 1) + ((2 : Fin 4) : ℕ)) (by simp; omega) (k0_off5 g) (k0_off5_inb g k0_h6)
      ((k0_off5_eq g).trans (congrArg (fun x => (![x, 0] : Fin 2 → ℕ)) (by simp; omega))) rfl (fun x => hin _ _ _ x)
  isplitl [F3 H6w3]
  · iapply (Entails.of_eq (PG_flight m d L slotG3 cc0_scratch7.sem (shareTok fullShare 4 2) 3 (g.val + 1) (by omega)).symm)
    unfold FlG
    iexists (k0_off6 g), (k0_off6_inb g k0_h8), _
    isplitl [F3 H6w3]
    · isplitl [F3]; · iexact F3
      iexact H6w3
    isplitr; · ipureintro; exact (k0_off6_eq g).trans (congrArg (fun x => (![x, 0] : Fin 2 → ℕ)) (by simp; omega))
    ipureintro
    exact goodG_gather m d L slotG3 fd3 (4 * (g.val + 1) + ((3 : Fin 4) : ℕ)) (by simp; omega) (k0_off6 g) (k0_off6_inb g k0_h8)
      ((k0_off6_eq g).trans (congrArg (fun x => (![x, 0] : Fin 2 → ℕ)) (by simp; omega))) rfl (fun x => hin _ _ _ x)
  isplitl [FS0]
  · iapply (Entails.of_eq (PS_flight m d L slotT0 cc0_scratch8.sem 0 (g.val + 1) (by omega)).symm)
    unfold FlS
    iexists (k0_off2 L g 2#32), (k0_off2_inb L g 2), _, _
    isplitr; · ipureintro; exact (slab_off2 L g 2).trans (congrArg (offS L) (by simp [lOf]; omega))
    isplitr
    rotate_left
    · iexact FS0
    · ipureintro
      unfold region_first.sl.dma0_2
      exact slab_out3 m d L slotT0 slotG2 (4 * g.val + ((2 : Fin 4) : ℕ)) (by simp; omega) (k0_off2 L g 2#32) (k0_off2_inb L g 2) (slab_off2 L g 2) fd2 hfd2 RT2' 0#32 (Scalar.divsi (lword g 2#32) 2#32) (w_lt_2 g) o_le_0 (w_val_2 g) (o_val_2 g) hT2 (m (v3Loc d))
  isplitl [FS1]
  · iapply (Entails.of_eq (PS_flight m d L slotT1 cc0_scratch9.sem 1 (g.val + 1) (by omega)).symm)
    unfold FlS
    iexists (k0_off2 L g 3#32), (k0_off2_inb L g 3), _, _
    isplitr; · ipureintro; exact (slab_off2 L g 3).trans (congrArg (offS L) (by simp [lOf]; omega))
    isplitr
    rotate_left
    · iexact FS1
    · ipureintro
      unfold region_first.sl.dma0_3
      exact slab_out3 m d L slotT1 slotG3 (4 * g.val + ((3 : Fin 4) : ℕ)) (by simp; omega) (k0_off2 L g 3#32) (k0_off2_inb L g 3) (slab_off2 L g 3) fd3 hfd3 RT3' 64#32 (Scalar.divsi (lword g 3#32) 2#32) (w_lt_3 g) o_le_64 (w_val_3 g) (o_val_3 g) hT3 (m (v3Loc d))
  isplitl [Sl0' Sl1']
  · -- the two slabs written in this trip agree with the result function on their elements
    have hSl0 : ∀ i ∈ slabSetAt d L (k0_off2 L g 0#32) (k0_off2_inb L g 0),
        ((slabAt (k0_off2 L g 0#32) (k0_off2_inb L g 0)).view.writes (Elt F) (slabAt (k0_off2 L g 0#32) (k0_off2_inb L g 0)).view.junk [⟨Rect.whole S64x128, region_first.sl.dma0 RT0'⟩]) i = Out3 m d i := by
      unfold region_first.sl.dma0
      exact slab_out3 m d L slotT0 slotG0 (4 * g.val + ((0 : Fin 4) : ℕ)) (by simp; omega) (k0_off2 L g 0#32) (k0_off2_inb L g 0) (slab_off2 L g 0) fd0 hfd0 RT0' 0#32 (Scalar.divsi (lword g 0#32) 2#32) (w_lt_0 g) o_le_0 (w_val_0 g) (o_val_0 g) hT0 _
    have hSl1 : ∀ i ∈ slabSetAt d L (k0_off2 L g 1#32) (k0_off2_inb L g 1),
        ((slabAt (k0_off2 L g 1#32) (k0_off2_inb L g 1)).view.writes (Elt F) (slabAt (k0_off2 L g 1#32) (k0_off2_inb L g 1)).view.junk [⟨Rect.whole S64x128, region_first.sl.dma0_1 RT1'⟩]) i = Out3 m d i := by
      unfold region_first.sl.dma0_1
      exact slab_out3 m d L slotT1 slotG1 (4 * g.val + ((1 : Fin 4) : ℕ)) (by simp; omega) (k0_off2 L g 1#32) (k0_off2_inb L g 1) (slab_off2 L g 1) fd1 hfd1 RT1' 64#32 (Scalar.divsi (lword g 1#32) 2#32) (w_lt_1 g) o_le_64 (w_val_1 g) (o_val_1 g) hT1 _
    iapply (Entails.of_eq ((doneS_def m d L (g.val + 1)).trans (done_first (fun l => slabPt d L l (Out3 m d)) g.val hg)).symm)
    isplitl [Sl1']
    · ihave A := (Entails.of_eq (pointsTo_congr hSl1)) $$ Sl1'
      have eB : ((slabAt (k0_off2 L g 1#32) (k0_off2_inb L g 1)).view.loc thr ↦[(slabAt (k0_off2 L g 1#32) (k0_off2_inb L g 1)).view.set]{fullShare} Out3 m d : sProp 𝕄)
          = slabPt d L (lOf g 1) (Out3 m d) := slab_pts_off2 d L g 1 fullShare (Out3 m d)
      ihave B := (Entails.of_eq eB) $$ A
      iapply (Entails.of_eq (congrArg (fun l => slabPt d L l (Out3 m d)) (Fin.ext (by simp [lOf] <;> omega) : (⟨1, _⟩ : Fin 200) = lOf g 1)).symm)
      iexact B
    isplitl [Sl0']
    · ihave A := (Entails.of_eq (pointsTo_congr hSl0)) $$ Sl0'
      have eB : ((slabAt (k0_off2 L g 0#32) (k0_off2_inb L g 0)).view.loc thr ↦[(slabAt (k0_off2 L g 0#32) (k0_off2_inb L g 0)).view.set]{fullShare} Out3 m d : sProp 𝕄)
          = slabPt d L (lOf g 0) (Out3 m d) := slab_pts_off2 d L g 0 fullShare (Out3 m d)
      ihave B := (Entails.of_eq eB) $$ A
      iapply (Entails.of_eq (congrArg (fun l => slabPt d L l (Out3 m d)) (Fin.ext (by simp [lOf] <;> omega) : (⟨0, _⟩ : Fin 200) = lOf g 0)).symm)
      iexact B
    iapply (Entails.of_eq (bigSep_lt_zero _).symm)
    iempintro
  isplitl [Htodo]
  · have etodo : bigSep (Finset.univ.filter fun l : Fin 200 => 4 * g.val + 1 + 1 + 1 + 1 ≤ l.val) (fun l => slabPt d L l (m (v3Loc d)))
        = todoS m d L (g.val + 1) := by
      unfold todoS
      rw [Finset.filter_congr (fun l _ => (by omega : (4 * g.val + 1 + 1 + 1 + 1 ≤ l.val) ↔ (4 * (g.val + 1) ≤ l.val)))]
    iapply (Entails.of_eq etodo)
    iexact Htodo
  iexists _
  isplitr
  rotate_left
  · iexact HO
  · ipureintro; exact hWr3

set_option maxHeartbeats 2000000 in
set_option maxRecDepth 65536 in
theorem region_last (hpre : PreOK m) (O : CellTallies nD τ sig (HIx 1)) (W : Waits sig (HIx 1)) (g : Fin k0_t1_loop.trips) (hg : g.val = 49) :
    (Iout m d L O W g.val ⟨⟩ : sProp 𝕄)
      ⊢ wp frame (wpE (defs₀ (F := F)) 𝒱₀ thr none) Set.univ
          (k0_t1_body L a2 (Memref.isWhole_whole _) a3 (Memref.isWhole_whole _) a4 (Memref.isWhole_whole _) a5 (Memref.isWhole_whole _)
            a6 (Memref.isWhole_whole _) a7 (Memref.isWhole_whole _) a8 (Memref.isWhole_whole _) a9 (Memref.isWhole_whole _)
            cc0_scratch4 cc0_scratch5 cc0_scratch6 cc0_scratch7 cc0_scratch8 cc0_scratch9 cc0_scoped0 cc0_scoped1
            (iota .scVector S16 32 [0] iota_S16_d0_w32_scVector) k0_pay169 k0_pay170 k0_pay171 k0_pay172 k0_pay173 k0_pay174 k0_pay175 k0_pay176 k0_pay177 g ())
          fun _ => Iout m d L O W (g.val + 1) ⟨⟩ := by
  rw [k0_t1_body]
  have hg1 : 1 ≤ g.val := by omega
  have k0_h1 : geq2 (lword g 0#32) = 1#1 := geq2_0 g hg1
  have k0_h2 : ¬ k0_cond2 g = 1#1 := ncond2_last g hg
  have k0_h3 : geq2 (lword g 1#32) = 1#1 := geq2_1 g hg1
  have k0_h4 : ¬ k0_cond4 g = 1#1 := ncond4_last g hg
  have k0_h5 : geq2 (lword g 2#32) = 1#1 := geq2_2 g
  have k0_h6 : ¬ k0_cond6 g = 1#1 := ncond6_last g hg
  have k0_h7 : geq2 (lword g 3#32) = 1#1 := geq2_3 g
  have k0_h8 : ¬ k0_cond8 g = 1#1 := ncond8_last g hg
  have hin : ∀ (off : Fin 2 → Nat) (h : ∀ a, off a + S1x128.size a ≤ S200x128.size a) (hh) (x : S128.Idx),
      ((((a6).slice (Rect.unit (s := S200x128) off S1x128.size h) hh).squeeze S128 squeezes_S1x128_S128).view.read (Elt F) (Cidx m d L) x).toNat
        < S100000x128.size gathers_S100000x128_S128x128.axis := hin_of_pre m d L hpre

  unfold Iout
  iintro ⟨Hmw, H7, P0, P1, P2, P3, S0, S1, Hdone, Htodo, %W', %hW', HO⟩
  ihave P0' := (Entails.of_eq ((PG_flight m d L slotG0 cc0_scratch4.sem (shareDrop fullShare 4) 0 g.val (by omega)).trans (FlG_def m d L _ _ _ _ _))) $$ P0
  icases P0' with ⟨%off0, %hoff0, %fd0, ⟨F0, R0⟩, %eoff0, %hfd0⟩
  ihave P1' := (Entails.of_eq ((PG_flight m d L slotG1 cc0_scratch5.sem (shareTok fullShare 4 0) 1 g.val (by omega)).trans (FlG_def m d L _ _ _ _ _))) $$ P1
  icases P1' with ⟨%off1, %hoff1, %fd1, ⟨F1, R1⟩, %eoff1, %hfd1⟩
  ihave P2' := (Entails.of_eq ((PG_flight m d L slotG2 cc0_scratch6.sem (shareTok fullShare 4 1) 2 g.val (by omega)).trans (FlG_def m d L _ _ _ _ _))) $$ P2
  icases P2' with ⟨%off2, %hoff2, %fd2, ⟨F2, R2⟩, %eoff2, %hfd2⟩
  ihave P3' := (Entails.of_eq ((PG_flight m d L slotG3 cc0_scratch7.sem (shareTok fullShare 4 2) 3 g.val (by omega)).trans (FlG_def m d L _ _ _ _ _))) $$ P3
  icases P3' with ⟨%off3, %hoff3, %fd3, ⟨F3, R3⟩, %eoff3, %hfd3⟩
  ihave S0' := (Entails.of_eq ((PS_flight m d L slotT0 cc0_scratch8.sem 0 g.val (by omega)).trans (FlS_def m d L _ _ _))) $$ S0
  icases S0' with ⟨%soff0, %shoff0, %fS0, %RT0, %esoff0, %hfS0, FS0⟩
  ihave S1' := (Entails.of_eq ((PS_flight m d L slotT1 cc0_scratch9.sem 1 g.val (by omega)).trans (FlS_def m d L _ _ _))) $$ S1
  icases S1' with ⟨%soff1, %shoff1, %fS1, %RT1, %esoff1, %hfS1, FS1⟩

  sl_exec
  -- quarter 0: the landed ring slot 0, the staging slot 0
  icases F0_dst with ⟨HG0, Hrow0⟩
  irename FS0_dst => D0
  sl_for (Iin m d L slotG0 slotT0 O W fd0 0#32 (Scalar.divsi (lword g 0#32) 2#32) (w_lt_0 g) o_le_0) $$ [Hmw H7 HG0 FS0_src HO]
  case region =>
    intro k hk
    exact inner0 m d L O W g fd0 k hk
  · unfold Iin
    isplitl [Hmw]; · iexact Hmw
    isplitl [H7]; · iexact H7
    isplitl [HG0]; · iexact HG0
    isplitl [FS0_src]
    · iexists _
      isplitr
      rotate_left
      · iexact FS0_src
      · ipureintro; exact Cert.LanesK.AccTo_zero ▸ Cert.LanesK.goodM_empty slotT0 _ _
    iexists _
    isplitr
    rotate_left
    · iexact HO
    · ipureintro; exact waits_ok_insert _ (waits_ok_insert _ hW')
  iintro %_ HI
  unfold Iin
  icases HI with ⟨Hmw, H7, HG0, ⟨%RT0', %hRT0, HT0⟩, %Wr0, %hWr0, HO⟩
  have hT0 : ∀ p, View.readAt (Elt F) slotT0.view (LoadRect.whole S64x128) RT0' p
      = Cert.LanesK.Tslot (View.readAt (Elt F) slotG0.view (LoadRect.whole S128x128) fd0) (PposV m d L) 0#32 (Scalar.divsi (lword g 0#32) 2#32) (w_lt_0 g) o_le_0 p :=
    fun p => hRT0 p (by rw [trips_t2, Cert.LanesK.AccTo_full]; trivial)
  -- the row goes back to its share of the index scratch; slab 4 g + 0 in the program's spelling; the table's token whole
  ihave H6w0 := (pointsTo_split_subset (Finset.subset_univ (rowSetAt d L off0 hoff0))).2 $$ [Hrow0 R0]
  · isplitl [Hrow0]; · iexact Hrow0
    iexact R0
  ihave T0 := (Entails.of_eq ((todoS_def m d L g.val).trans (bigSep_ge_pop (fun l => slabPt d L l (m (v3Loc d))) (4 * g.val) (by omega)))) $$ Htodo
  icases T0 with ⟨Sl0, Htodo⟩
  have es0 : (slabPt d L ⟨4 * g.val, by omega⟩ (m (v3Loc d)) : sProp 𝕄)
      = ((slabAt (k0_off2 L g 0#32) (k0_off2_inb L g 0)).view.loc thr ↦[(slabAt (k0_off2 L g 0#32) (k0_off2_inb L g 0)).view.set]{fullShare} m (v3Loc d)) :=
    (slab_pts_off2 d L g 0 fullShare (m (v3Loc d))).symm
  ihave Sl0' := (Entails.of_eq es0) $$ Sl0
  sl_exec
  -- quarter 1: the landed ring slot 1, the staging slot 1
  icases F1_dst with ⟨HG1, Hrow1⟩
  irename FS1_dst => D1
  sl_for (Iin m d L slotG1 slotT1 O W fd1 64#32 (Scalar.divsi (lword g 1#32) 2#32) (w_lt_1 g) o_le_64) $$ [Hmw H7 HG1 FS1_src HO]
  case region =>
    intro k hk
    exact inner1 m d L O W g _ _ _ fd1 k hk
  · unfold Iin
    isplitl [Hmw]; · iexact Hmw
    isplitl [H7]; · iexact H7
    isplitl [HG1]; · iexact HG1
    isplitl [FS1_src]
    · iexists _
      isplitr
      rotate_left
      · iexact FS1_src
      · ipureintro; exact Cert.LanesK.AccTo_zero ▸ Cert.LanesK.goodM_empty slotT1 _ _
    iexists _
    isplitr
    rotate_left
    · iexact HO
    · ipureintro; exact waits_ok_insert _ (waits_ok_insert _ hWr0)
  iintro %_ HI
  unfold Iin
  icases HI with ⟨Hmw, H7, HG1, ⟨%RT1', %hRT1, HT1⟩, %Wr1, %hWr1, HO⟩
  have hT1 : ∀ p, View.readAt (Elt F) slotT1.view (LoadRect.whole S64x128) RT1' p
      = Cert.LanesK.Tslot (View.readAt (Elt F) slotG1.view (LoadRect.whole S128x128) fd1) (PposV m d L) 64#32 (Scalar.divsi (lword g 1#32) 2#32) (w_lt_1 g) o_le_64 p :=
    fun p => hRT1 p (by rw [trips_t3, Cert.LanesK.AccTo_full]; trivial)
  -- the row goes back to its share of the index scratch; slab 4 g + 1 in the program's spelling; the table's token whole
  ihave H6w1 := (pointsTo_split_subset (Finset.subset_univ (rowSetAt d L off1 hoff1))).2 $$ [Hrow1 R1]
  · isplitl [Hrow1]; · iexact Hrow1
    iexact R1
  ihave T1 := (Entails.of_eq ((bigSep_ge_pop (fun l => slabPt d L l (m (v3Loc d))) (4 * g.val + 1) (by omega)))) $$ Htodo
  icases T1 with ⟨Sl1, Htodo⟩
  have es1 : (slabPt d L ⟨4 * g.val + 1, by omega⟩ (m (v3Loc d)) : sProp 𝕄)
      = ((slabAt (k0_off2 L g 1#32) (k0_off2_inb L g 1)).view.loc thr ↦[(slabAt (k0_off2 L g 1#32) (k0_off2_inb L g 1)).view.set]{fullShare} m (v3Loc d)) :=
    (slab_pts_off2 d L g 1 fullShare (m (v3Loc d))).symm
  ihave Sl1' := (Entails.of_eq es1) $$ Sl1
  sl_exec
  -- quarter 2: the landed ring slot 2, the staging slot 0
  icases F2_dst with ⟨HG2, Hrow2⟩
  sl_for (Iin m d L slotG2 slotT0 O W fd2 0#32 (Scalar.divsi (lword g 2#32) 2#32) (w_lt_2 g) o_le_0) $$ [Hmw H7 HG2 HT0 HO]
  case region =>
    intro k hk
    exact inner2 m d L O W g _ _ fd2 k hk
  · unfold Iin
    isplitl [Hmw]; · iexact Hmw
    isplitl [H7]; · iexact H7
    isplitl [HG2]; · iexact HG2
    isplitl [HT0]
    · iexists _
      isplitr
      rotate_left
      · iexact HT0
      · ipureintro; exact Cert.LanesK.AccTo_zero ▸ Cert.LanesK.goodM_empty slotT0 _ _
    iexists _
    isplitr
    rotate_left
    · iexact HO
    · ipureintro; exact waits_ok_insert _ (waits_ok_insert _ hWr1)
  iintro %_ HI
  unfold Iin
  icases HI with ⟨Hmw, H7, HG2, ⟨%RT2', %hRT2, HT2⟩, %Wr2, %hWr2, HO⟩
  have hT2 : ∀ p, View.readAt (Elt F) slotT0.view (LoadRect.whole S64x128) RT2' p
      = Cert.LanesK.Tslot (View.readAt (Elt F) slotG2.view (LoadRect.whole S128x128) fd2) (PposV m d L) 0#32 (Scalar.divsi (lword g 2#32) 2#32) (w_lt_2 g) o_le_0 p :=
    fun p => hRT2 p (by rw [trips_t4, Cert.LanesK.AccTo_full]; trivial)
  -- the row goes back to its share of the index scratch; slab 4 g + 2 in the program's spelling; the table's token whole
  ihave H6w2 := (pointsTo_split_subset (Finset.subset_univ (rowSetAt d L off2 hoff2))).2 $$ [Hrow2 R2]
  · isplitl [Hrow2]; · iexact Hrow2
    iexact R2
  ihave T2 := (Entails.of_eq ((bigSep_ge_pop (fun l => slabPt d L l (m (v3Loc d))) (4 * g.val + 1 + 1) (by omega)))) $$ Htodo
  icases T2 with ⟨Sl2, Htodo⟩
  have es2 : (slabPt d L ⟨4 * g.val + 1 + 1, by omega⟩ (m (v3Loc d)) : sProp 𝕄)
      = ((slabAt (k0_off2 L g 2#32) (k0_off2_inb L g 2)).view.loc thr ↦[(slabAt (k0_off2 L g 2#32) (k0_off2_inb L g 2)).view.set]{fullShare} m (v3Loc d)) :=
    (slab_pts_off2 d L g 2 fullShare (m (v3Loc d))).symm
  ihave Sl2' := (Entails.of_eq es2) $$ Sl2
  sl_exec
  -- quarter 3: the landed ring slot 3, the staging slot 1
  icases F3_dst with ⟨HG3, Hrow3⟩
  sl_for (Iin m d L slotG3 slotT1 O W fd3 64#32 (Scalar.divsi (lword g 3#32) 2#32) (w_lt_3 g) o_le_64) $$ [Hmw H7 HG3 HT1 HO]
  case region =>
    intro k hk
    exact inner3 m d L O W g fd3 k hk
  · unfold Iin
    isplitl [Hmw]; · iexact Hmw
    isplitl [H7]; · iexact H7
    isplitl [HG3]; · iexact HG3
    isplitl [HT1]
    · iexists _
      isplitr
      rotate_left
      · iexact HT1
      · ipureintro; exact Cert.LanesK.AccTo_zero ▸ Cert.LanesK.goodM_empty slotT1 _ _
    iexists _
    isplitr
    rotate_left
    · iexact HO
    · ipureintro; exact waits_ok_insert _ (waits_ok_insert _ hWr2)
  iintro %_ HI
  unfold Iin
  icases HI with ⟨Hmw, H7, HG3, ⟨%RT3', %hRT3, HT3⟩, %Wr3, %hWr3, HO⟩
  have hT3 : ∀ p, View.readAt (Elt F) slotT1.view (LoadRect.whole S64x128) RT3' p
      = Cert.LanesK.Tslot (View.readAt (Elt F) slotG3.view (LoadRect.whole S128x128) fd3) (PposV m d L) 64#32 (Scalar.divsi (lword g 3#32) 2#32) (w_lt_3 g) o_le_64 p :=
    fun p => hRT3 p (by rw [trips_t5, Cert.LanesK.AccTo_full]; trivial)
  -- the row goes back to its share of the index scratch; slab 4 g + 3 in the program's spelling; the table's token whole
  ihave H6w3 := (pointsTo_split_subset (Finset.subset_univ (rowSetAt d L off3 hoff3))).2 $$ [Hrow3 R3]
  · isplitl [Hrow3]; · iexact Hrow3
    iexact R3
  ihave T3 := (Entails.of_eq ((bigSep_ge_pop (fun l => slabPt d L l (m (v3Loc d))) (4 * g.val + 1 + 1 + 1) (by omega)))) $$ Htodo
  icases T3 with ⟨Sl3, Htodo⟩
  have es3 : (slabPt d L ⟨4 * g.val + 1 + 1 + 1, by omega⟩ (m (v3Loc d)) : sProp 𝕄)
      = ((slabAt (k0_off2 L g 3#32) (k0_off2_inb L g 3)).view.loc thr ↦[(slabAt (k0_off2 L g 3#32) (k0_off2_inb L g 3)).view.set]{fullShare} m (v3Loc d)) :=
    (slab_pts_off2 d L g 3 fullShare (m (v3Loc d))).symm
  ihave Sl3' := (Entails.of_eq es3) $$ Sl3
  sl_exec
  sl_step
  isplitl [Hmw]; · iexact Hmw
  isplitl [H7]; · iexact H7
  isplitl [HG0 H6w0 F0_src F0]
  · iapply (Entails.of_eq (PG_idle m d L slotG0 cc0_scratch4.sem (shareDrop fullShare 4) 0 (g.val + 1) (by omega)).symm)
    isplitl [HG0]; · iexists _; iexact HG0
    isplitl [H6w0]; · iexact H6w0
    isplitl [F0_src]; · iexact F0_src
    iexact F0
  isplitl [HG1 H6w1 F1_src F1]
  · iapply (Entails.of_eq (PG_idle m d L slotG1 cc0_scratch5.sem (shareTok fullShare 4 0) 1 (g.val + 1) (by omega)).symm)
    isplitl [HG1]; · iexists _; iexact HG1
    isplitl [H6w1]; · iexact H6w1
    isplitl [F1_src]; · iexact F1_src
    iexact F1
  isplitl [HG2 H6w2 F2_src F2]
  · iapply (Entails.of_eq (PG_idle m d L slotG2 cc0_scratch6.sem (shareTok fullShare 4 1) 2 (g.val + 1) (by omega)).symm)
    isplitl [HG2]; · iexists _; iexact HG2
    isplitl [H6w2]; · iexact H6w2
    isplitl [F2_src]; · iexact F2_src
    iexact F2
  isplitl [HG3 H6w3 F3_src F3]
  · iapply (Entails.of_eq (PG_idle m d L slotG3 cc0_scratch7.sem (shareTok fullShare 4 2) 3 (g.val + 1) (by omega)).symm)
    isplitl [HG3]; · iexists _; iexact HG3
    isplitl [H6w3]; · iexact H6w3
    isplitl [F3_src]; · iexact F3_src
    iexact F3
  isplitl [FS0]
  · iapply (Entails.of_eq (PS_flight m d L slotT0 cc0_scratch8.sem 0 (g.val + 1) (by omega)).symm)
    unfold FlS
    iexists (k0_off2 L g 2#32), (k0_off2_inb L g 2), _, _
    isplitr; · ipureintro; exact (slab_off2 L g 2).trans (congrArg (offS L) (by simp [lOf]; omega))
    isplitr
    rotate_left
    · iexact FS0
    · ipureintro
      unfold region_last.sl.dma0_2
      exact slab_out3 m d L slotT0 slotG2 (4 * g.val + ((2 : Fin 4) : ℕ)) (by simp; omega) (k0_off2 L g 2#32) (k0_off2_inb L g 2) (slab_off2 L g 2) fd2 hfd2 RT2' 0#32 (Scalar.divsi (lword g 2#32) 2#32) (w_lt_2 g) o_le_0 (w_val_2 g) (o_val_2 g) hT2 (m (v3Loc d))
  isplitl [FS1]
  · iapply (Entails.of_eq (PS_flight m d L slotT1 cc0_scratch9.sem 1 (g.val + 1) (by omega)).symm)
    unfold FlS
    iexists (k0_off2 L g 3#32), (k0_off2_inb L g 3), _, _
    isplitr; · ipureintro; exact (slab_off2 L g 3).trans (congrArg (offS L) (by simp [lOf]; omega))
    isplitr
    rotate_left
    · iexact FS1
    · ipureintro
      unfold region_last.sl.dma0_3
      exact slab_out3 m d L slotT1 slotG3 (4 * g.val + ((3 : Fin 4) : ℕ)) (by simp; omega) (k0_off2 L g 3#32) (k0_off2_inb L g 3) (slab_off2 L g 3) fd3 hfd3 RT3' 64#32 (Scalar.divsi (lword g 3#32) 2#32) (w_lt_3 g) o_le_64 (w_val_3 g) (o_val_3 g) hT3 (m (v3Loc d))
  isplitl [Hdone D0 D1 Sl0' Sl1']
  · -- the four slabs written since the head of the trip agree with the result function on their elements
    have hSl0 : ∀ i ∈ slabSetAt d L (k0_off2 L g 0#32) (k0_off2_inb L g 0),
        ((slabAt (k0_off2 L g 0#32) (k0_off2_inb L g 0)).view.writes (Elt F) (slabAt (k0_off2 L g 0#32) (k0_off2_inb L g 0)).view.junk [⟨Rect.whole S64x128, region_last.sl.dma0 RT0'⟩]) i = Out3 m d i := by
      unfold region_last.sl.dma0
      exact slab_out3 m d L slotT0 slotG0 (4 * g.val + ((0 : Fin 4) : ℕ)) (by simp; omega) (k0_off2 L g 0#32) (k0_off2_inb L g 0) (slab_off2 L g 0) fd0 hfd0 RT0' 0#32 (Scalar.divsi (lword g 0#32) 2#32) (w_lt_0 g) o_le_0 (w_val_0 g) (o_val_0 g) hT0 _
    have hSl1 : ∀ i ∈ slabSetAt d L (k0_off2 L g 1#32) (k0_off2_inb L g 1),
        ((slabAt (k0_off2 L g 1#32) (k0_off2_inb L g 1)).view.writes (Elt F) (slabAt (k0_off2 L g 1#32) (k0_off2_inb L g 1)).view.junk [⟨Rect.whole S64x128, region_last.sl.dma0_1 RT1'⟩]) i = Out3 m d i := by
      unfold region_last.sl.dma0_1
      exact slab_out3 m d L slotT1 slotG1 (4 * g.val + ((1 : Fin 4) : ℕ)) (by simp; omega) (k0_off2 L g 1#32) (k0_off2_inb L g 1) (slab_off2 L g 1) fd1 hfd1 RT1' 64#32 (Scalar.divsi (lword g 1#32) 2#32) (w_lt_1 g) o_le_64 (w_val_1 g) (o_val_1 g) hT1 _
    subst esoff0 esoff1
    iapply (Entails.of_eq ((doneS_def m d L (g.val + 1)).trans (done_push4 (fun l => slabPt d L l (Out3 m d)) g.val hg1 (by omega))).symm)
    isplitl [Sl1']
    · ihave A := (Entails.of_eq (pointsTo_congr hSl1)) $$ Sl1'
      have eB : ((slabAt (k0_off2 L g 1#32) (k0_off2_inb L g 1)).view.loc thr ↦[(slabAt (k0_off2 L g 1#32) (k0_off2_inb L g 1)).view.set]{fullShare} Out3 m d : sProp 𝕄)
          = slabPt d L (lOf g 1) (Out3 m d) := slab_pts_off2 d L g 1 fullShare (Out3 m d)
      ihave B := (Entails.of_eq eB) $$ A
      iapply (Entails.of_eq (congrArg (fun l => slabPt d L l (Out3 m d)) (Fin.ext (by simp [lOf] <;> omega) : (⟨4 * g.val - 2 + 1 + 1 + 1, _⟩ : Fin 200) = lOf g 1)).symm)
      iexact B
    isplitl [Sl0']
    · ihave A := (Entails.of_eq (pointsTo_congr hSl0)) $$ Sl0'
      have eB : ((slabAt (k0_off2 L g 0#32) (k0_off2_inb L g 0)).view.loc thr ↦[(slabAt (k0_off2 L g 0#32) (k0_off2_inb L g 0)).view.set]{fullShare} Out3 m d : sProp 𝕄)
          = slabPt d L (lOf g 0) (Out3 m d) := slab_pts_off2 d L g 0 fullShare (Out3 m d)
      ihave B := (Entails.of_eq eB) $$ A
      iapply (Entails.of_eq (congrArg (fun l => slabPt d L l (Out3 m d)) (Fin.ext (by simp [lOf] <;> omega) : (⟨4 * g.val - 2 + 1 + 1, _⟩ : Fin 200) = lOf g 0)).symm)
      iexact B
    isplitl [D1]
    · ihave A := (Entails.of_eq (pointsTo_congr hfS1)) $$ D1
      iexact A
    isplitl [D0]
    · ihave A := (Entails.of_eq (pointsTo_congr hfS0)) $$ D0
      iexact A
    iapply (Entails.of_eq (doneS_def m d L g.val))
    iexact Hdone
  isplitl [Htodo]
  · have etodo : bigSep (Finset.univ.filter fun l : Fin 200 => 4 * g.val + 1 + 1 + 1 + 1 ≤ l.val) (fun l => slabPt d L l (m (v3Loc d)))
        = todoS m d L (g.val + 1) := by
      unfold todoS
      rw [Finset.filter_congr (fun l _ => (by omega : (4 * g.val + 1 + 1 + 1 + 1 ≤ l.val) ↔ (4 * (g.val + 1) ≤ l.val)))]
    iapply (Entails.of_eq etodo)
    iexact Htodo
  iexists _
  isplitr
  rotate_left
  · iexact HO
  · ipureintro; exact hWr3

theorem waits_ok2 (W : Waits sig (HIx 1)) :
    ∀ p ∈ insert (SemLoc.dma cc0_scoped1.sem, (default : HIx 1)) (insert (SemLoc.dma cc0_scoped0.sem, (default : HIx 1)) W), p ∈ W ∨ p.2 = none := by
  intro p hp
  rcases Finset.mem_insert.mp hp with rfl | hp
  · exact .inr rfl
  rcases Finset.mem_insert.mp hp with rfl | hp
  · exact .inr rfl
  · exact .inl hp

set_option maxHeartbeats 4000000 in
set_option maxRecDepth 65536 in
/-- One tile's task. -/
theorem body_core : BodyCore m := by
  intro hpre d L O W
  rw [cc0_enc_kernel_eq_skeleton, cc0_enc_kernel_skel]
  iintro ⟨Hmw, H2, H3, H4, H5, ⟨%f6, H6⟩, ⟨%f7, H7⟩, ⟨%f8, H8⟩, ⟨%f9, H9⟩, Hg0, Hg1, Hg2, Hg3, Ht0, Ht1, Hs0, Hs1, HO⟩
  -- the table's share as four read tokens, one per gather semaphore
  ihave H3s := (Transfers.pointsTo_toks_split (qT (cL L) (sL L)) 4) $$ H3
  icases H3s with ⟨H3r, H3t⟩
  ihave H3t' := (Entails.of_eq (bigSep_fin4 _)) $$ H3t
  icases H3t' with ⟨H3a, H3b, H3c, H3d⟩
  -- the two synchronous copies
  sl_exec
  delta body_core.sl.dma0 body_core.sl.dma0_1
  have e6 : ((((Memref.whole cc0_scratch0 : Memref sig .scVector .vmem S200x128 .i32)).view.loc (V d (cV L) (jV L)) ↦{fullShare} View.write (Elt F) (Memref.whole cc0_scratch0 : Memref sig .scVector .vmem S200x128 .i32).view f6 (Cidx m d L) Finset.univ : sProp 𝕄))
      = ((Memref.whole cc0_scratch0 : Memref sig .scVector .vmem S200x128 .i32).view.loc (V d (cV L) (jV L)) ↦{fullShare} Cidx m d L) := by rw [View.write_whole_univ]
  have e7 : ((((Memref.whole cc0_scratch1 : Memref sig .scVector .vmem S100x128 .f32)).view.loc (V d (cV L) (jV L)) ↦{fullShare} View.write (Elt F) (Memref.whole cc0_scratch1 : Memref sig .scVector .vmem S100x128 .f32).view f7 (Ppos m d L) Finset.univ : sProp 𝕄))
      = ((Memref.whole cc0_scratch1 : Memref sig .scVector .vmem S100x128 .f32).view.loc (V d (cV L) (jV L)) ↦{fullShare} Ppos m d L) := by rw [View.write_whole_univ]
  ihave H6 := (Entails.of_eq e6) $$ H6
  ihave H7 := (Entails.of_eq e7) $$ H7
  -- the index scratch as read tokens; the ring, the staging scratch and the result block as their pieces
  ihave H6s := (Transfers.pointsTo_toks_split fullShare 4) $$ H6
  icases H6s with ⟨H6r, H6t⟩
  ihave H6t' := (Entails.of_eq (bigSep_fin4 _)) $$ H6t
  icases H6t' with ⟨H6a, H6b, H6c, H6d⟩
  ihave H8s := (Entails.of_eq (ring_split d L fullShare f8)) $$ H8
  icases H8s with ⟨HG0, HG1, HG2, HG3⟩
  ihave H9s := (Entails.of_eq (stage_split d L fullShare f9)) $$ H9
  icases H9s with ⟨HT0, HT1⟩
  ihave H5s := (Entails.of_eq (blk_slabs d L (m (v3Loc d)))) $$ H5
  have hin := hin_of_pre m d L hpre
  -- the four gathers
  sl_exec

  sl_for (Iout m d L O (insert (SemLoc.dma cc0_scoped1.sem, (default : HIx 1)) (insert (SemLoc.dma cc0_scoped0.sem, (default : HIx 1)) W))) $$ [Hmw H7 Hg0 H6r Hg1 H6a Hg2 H6b Hg3 H6c HT0 Ht0 HT1 Ht1 H5s HO]
  case region =>
    intro g hg
    rcases Nat.eq_zero_or_pos g.val with h0 | h1
    · exact region_first m d L hpre O _ g h0
    · by_cases h49 : g.val < 49
      · exact region_mid m d L hpre O _ g h1 h49
      · have hlt : g.val < 50 := lt_of_lt_of_le g.isLt k0_t1_abs.2.1
        exact region_last m d L hpre O _ g (by omega)
  · unfold Iout
    isplitl [Hmw]; · iexact Hmw
    isplitl [H7]; · iexact H7
    isplitl [Hg0 H6r]
    · iapply (Entails.of_eq (PG_flight m d L slotG0 cc0_scratch4.sem (shareDrop fullShare 4) 0 0 (by norm_num)).symm)
      unfold FlG
      iexists _, _, _
      isplitl [Hg0 H6r]
      · isplitl [Hg0]; · iexact Hg0
        iexact H6r
      isplitr; · ipureintro; funext a; fin_cases a <;> rfl
      ipureintro
      exact goodG_gather m d L slotG0 f8 (4 * 0 + ((0 : Fin 4) : ℕ)) (by simp) ![0, 0] inb_S200x128_S1x128_0_0 (by funext a; fin_cases a <;> rfl) rfl (fun x => hin _ _ _ x)
    isplitl [Hg1 H6a]
    · iapply (Entails.of_eq (PG_flight m d L slotG1 cc0_scratch5.sem (shareTok fullShare 4 0) 1 0 (by norm_num)).symm)
      unfold FlG
      iexists _, _, _
      isplitl [Hg1 H6a]
      · isplitl [Hg1]; · iexact Hg1
        iexact H6a
      isplitr; · ipureintro; funext a; fin_cases a <;> rfl
      ipureintro
      exact goodG_gather m d L slotG1 f8 (4 * 0 + ((1 : Fin 4) : ℕ)) (by simp) ![1, 0] inb_S200x128_S1x128_1_0 (by funext a; fin_cases a <;> rfl) rfl (fun x => hin _ _ _ x)
    isplitl [Hg2 H6b]
    · iapply (Entails.of_eq (PG_flight m d L slotG2 cc0_scratch6.sem (shareTok fullShare 4 1) 2 0 (by norm_num)).symm)
      unfold FlG
      iexists _, _, _
      isplitl [Hg2 H6b]
      · isplitl [Hg2]; · iexact Hg2
        iexact H6b
      isplitr; · ipureintro; funext a; fin_cases a <;> rfl
      ipureintro
      exact goodG_gather m d L slotG2 f8 (4 * 0 + ((2 : Fin 4) : ℕ)) (by simp) ![2, 0] inb_S200x128_S1x128_2_0 (by funext a; fin_cases a <;> rfl) rfl (fun x => hin _ _ _ x)
    isplitl [Hg3 H6c]
    · iapply (Entails.of_eq (PG_flight m d L slotG3 cc0_scratch7.sem (shareTok fullShare 4 2) 3 0 (by norm_num)).symm)
      unfold FlG
      iexists _, _, _
      isplitl [Hg3 H6c]
      · isplitl [Hg3]; · iexact Hg3
        iexact H6c
      isplitr; · ipureintro; funext a; fin_cases a <;> rfl
      ipureintro
      exact goodG_gather m d L slotG3 f8 (4 * 0 + ((3 : Fin 4) : ℕ)) (by simp) ![3, 0] inb_S200x128_S1x128_3_0 (by funext a; fin_cases a <;> rfl) rfl (fun x => hin _ _ _ x)
    isplitl [HT0 Ht0]
    · iapply (Entails.of_eq (PS_idle m d L slotT0 cc0_scratch8.sem 0).symm)
      isplitl [HT0]; · iexists _; iexact HT0
      iexact Ht0
    isplitl [HT1 Ht1]
    · iapply (Entails.of_eq (PS_idle m d L slotT1 cc0_scratch9.sem 1).symm)
      isplitl [HT1]; · iexists _; iexact HT1
      iexact Ht1
    isplitr
    · unfold doneS
      iapply (Entails.of_eq (bigSep_lt_zero _).symm)
      iempintro
    isplitl [H5s]
    · unfold todoS
      iapply (Entails.of_eq (bigSep_ge_zero _).symm)
      iexact H5s
    iexists _
    isplitr; · ipureintro; exact fun p hp => .inl hp
    iexact HO
  iintro %x HI
  sl_step
  iapply (epilogue m d L O W (insert (SemLoc.dma cc0_scoped1.sem, (default : HIx 1)) (insert (SemLoc.dma cc0_scoped0.sem, (default : HIx 1)) W))
    (waits_ok2 W)) $$ [HI H2 H4 H3r H6d Hs0 Hs1]
  isplitl [HI]; · iexact HI
  isplitl [H2]; · iexact H2
  isplitl [H4]; · iexact H4
  isplitl [H3r]; · iexact H3r
  isplitl [H6d]; · iexact H6d
  isplitl [Hs0]; · iexact Hs0
  iexact Hs1

end Cert.Proof.LaunchK

end
-- ==== Proof.lean ====
/- The proof of `Cert.Claim` (proofs.«206908_g46772193853751_cont_8to1c4_160_30_alg».proof.Defs) — frame_Kernel ∧ frame_KernelIdeal ∧ frame_ReferenceIdeal ∧ preserves_Kernel_KernelIdeal ∧ algebraic_KernelIdeal_ReferenceIdeal —: hand-written, untrusted.

   Both programs compute the lookup out[b, l, d] = src[idx[b, l], d] + pos[l, d]. The kernel's run (Launch.lean: the
   launch of the SparseCore kernel over one tile's task, Body.lean) ends with the result at the specification's lookup
   at any float instance and the arguments unchanged; at the machine's floats that run without the value is the
   kernel's frame, at the extended reals it is the idealized kernel's frame and, beside the reference's run
   (RefValue.lean) from a memory that agrees on the arguments, the equality of the two results. -/
import proofs.«206908_g46772193853751_cont_8to1c4_160_30_alg».proof.Defs
import proofs.«206908_g46772193853751_cont_8to1c4_160_30_alg».proof.Proof.Gen.Kernel
import proofs.«206908_g46772193853751_cont_8to1c4_160_30_alg».proof.Proof.Gen.Kernel.Skeleton
import proofs.«206908_g46772193853751_cont_8to1c4_160_30_alg».proof.Proof.Gen.KernelIdeal
import proofs.«206908_g46772193853751_cont_8to1c4_160_30_alg».proof.Proof.Gen.KernelIdeal.Skeleton
import proofs.«206908_g46772193853751_cont_8to1c4_160_30_alg».proof.Proof.Gen.ReferenceIdeal
import proofs.«206908_g46772193853751_cont_8to1c4_160_30_alg».proof.Proof.Gen.Pre_input_domain
import proofs.«206908_g46772193853751_cont_8to1c4_160_30_alg».proof.Proof.Launch
import proofs.«206908_g46772193853751_cont_8to1c4_160_30_alg».proof.Proof.LaunchPre
import proofs.«206908_g46772193853751_cont_8to1c4_160_30_alg».proof.Proof.Tile
import proofs.«206908_g46772193853751_cont_8to1c4_160_30_alg».proof.Proof.LaunchK
import proofs.«206908_g46772193853751_cont_8to1c4_160_30_alg».proof.Proof.LaunchKPre
import proofs.«206908_g46772193853751_cont_8to1c4_160_30_alg».proof.Proof.TileK
import proofs.«206908_g46772193853751_cont_8to1c4_160_30_alg».proof.Proof.RefValue
import proofs.«206908_g46772193853751_cont_8to1c4_160_30_alg».proof.Proof.Body
import proofs.«206908_g46772193853751_cont_8to1c4_160_30_alg».proof.Proof.BodyK
import Idealize.ShloMosaic.Adequacy
import Idealize.ShloMosaic.Init

noncomputable section

namespace Cert.Proof

open Idealize.ShloMosaic Idealize.SL.Sem Cert.Kernel

attribute [local instance] Cert.Pre_input_domain.Gen.facts

/-- The kernel at the machine's floats: it runs, and the arguments end unchanged. -/
theorem frame_Kernel : Cert.frame_Kernel := by
  intro m g hpre
  have hp : Cert.Proof.LaunchK.PreOK (F := Bits) m := Cert.Proof.LaunchK.preOK_of_fn m hpre
  refine (θ_run (Cert.Kernel.defs (F := Bits)) _ _).mono ?_
    (Cert.Proof.LaunchK.run m g hp (Cert.Proof.LaunchK.tileGoal_of_core m hp (Cert.Proof.LaunchK.body_core m)))
  intro r h c
  obtain ⟨-, h0, h1, h2⟩ := h c
  exact ⟨h0, h1, h2⟩

/-- The idealized kernel: the same run at the extended reals. -/
theorem frame_KernelIdeal : Cert.frame_KernelIdeal := by
  intro m g hpre
  have hp : Cert.Proof.Launch.PreOK (F := Ideal) m := Cert.Proof.Launch.preOK_of_fn m hpre
  refine (θ_run (Cert.KernelIdeal.defs (F := Ideal)) _ _).mono ?_
    (Cert.Proof.Launch.run m g hp (Cert.Proof.Launch.tileGoal_of_core m hp (Cert.Proof.Launch.body_core m)))
  intro r h c
  obtain ⟨-, h0, h1, h2⟩ := h c
  exact ⟨h0, h1, h2⟩

/-- The reference: its run without the value. -/
theorem frame_ReferenceIdeal : Cert.frame_ReferenceIdeal :=
  fun m g hpre => Cert.ReferenceIdeal.RefValue.run_frame m g hpre

/-- On the extended reals the idealized kernel and the reference, from memories that agree on the arguments, both end
    with the specification's lookup of those arguments. -/
theorem algebraic : Cert.algebraic_KernelIdeal_ReferenceIdeal := by
  intro m g m' g' hpre hagree
  have hp : Cert.Proof.Launch.PreOK (F := Ideal) m := Cert.Proof.Launch.preOK_of_fn m hpre
  have hpre' : Cert.Pre_ReferenceIdeal m' := by
    intro c
    obtain ⟨e0, e1, e2⟩ := hagree c
    rw [e0, e1, e2]
    exact hpre c
  refine ⟨fun c => Cert.Spec.G (m (Cert.Proof.Launch.a0Loc c)) (m (Cert.Proof.Launch.a1Loc c)) (m (Cert.Proof.Launch.a2Loc c)), ?_, ?_⟩
  · refine (θ_run (Cert.KernelIdeal.defs (F := Ideal)) _ _).mono ?_
      (Cert.Proof.Launch.run m g hp (Cert.Proof.Launch.tileGoal_of_core m hp (Cert.Proof.Launch.body_core m)))
    intro r h c
    obtain ⟨h4, h0, h1, h2⟩ := h c
    exact ⟨h4.trans (Cert.Spec.GF_ideal _ _ _), h0, h1, h2⟩
  · refine (θ_run (Cert.ReferenceIdeal.defs (F := Ideal)) _ _).mono ?_ (Cert.ReferenceIdeal.RefValue.run m' g' hpre')
    intro r h c
    obtain ⟨h4, h0, h1, h2⟩ := h c
    obtain ⟨e0, e1, e2⟩ := hagree c
    refine ⟨?_, h0, h1, h2⟩
    rw [h4, e0, e1, e2]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
